-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v284)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v284) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v315) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x16 : Shape := ⟨2, ![1600000, 16]⟩
abbrev S1600000 : Shape := ⟨1, ![1600000]⟩
abbrev S64x64 : Shape := ⟨2, ![64, 64]⟩
abbrev S64 : Shape := ⟨1, ![64]⟩
abbrev S16x64 : Shape := ⟨2, ![16, 64]⟩
abbrev S3x16x64 : Shape := ⟨3, ![3, 16, 64]⟩
abbrev S3x64 : Shape := ⟨2, ![3, 64]⟩
abbrev S3x64x64 : Shape := ⟨3, ![3, 64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S3x16x64 : S_.BroadcastsInDim S3x16x64 (![] : Fin 0 → Fin S3x16x64.rank)
  reducesTo_S3x16x64_S_d0_1_2 : S3x16x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_

variable [Facts]

def fn_part6 {F : FTy → Type} [FloatOps F] (main_arg23 : FVec F S64 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  main_v108

def fn_part5 {F : FTy → Type} [FloatOps F] (main_arg20 : FVec F S64x64 .f32) (main_arg21 : FVec F S64 .f32) (main_arg22 : FVec F S64 .f32) (main_arg23 : FVec F S64 .f32) (main_v83 : IVec S_ 1) (main_v84 : FVec F S3x64 .f32) (main_cst_32 : FVec F S_ .f32) : IVec S_ 1 :=
  let main_v85 : FVec F S3x64 .f32 := broadcastInDim S3x64 ![] bcast_S_S3x64 main_cst_32
  let main_v86 : IVec S3x64 1 := cmpf .olt main_v84 main_v85
  let main_c_33 : IVec S_ 1 := constantI S_ 1 1#1
  let main_v87 : IVec S_ 1 := (fun x v => Host.reduce IntOp.andi x v reducesTo_S3x64_S_d0_1 h_S_) main_v86 main_c_33
  let main_v88 : IVec S_ 1 := andi main_v83 main_v87
  let main_v89 : FVec F S64x64 .f32 := Host.absf main_arg20
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S3x64 .f32) (main_arg17 : FVec F S3x64 .f32) (main_arg18 : FVec F S3x64 .f32) (main_arg19 : FVec F S3x64 .f32) (main_arg20 : FVec F S64x64 .f32) (main_arg21 : FVec F S64 .f32) (main_arg22 : FVec F S64 .f32) (main_arg23 : FVec F S64 .f32) (main_v63 : IVec S_ 1) (main_v67 : IVec S_ 1) : IVec S_ 1 :=
  let main_v68 : IVec S_ 1 := andi main_v63 main_v67
  let main_v69 : FVec F S3x64 .f32 := Host.absf main_arg16
  let main_cst_26 : FVec F S_ .f32 := constant S_ .f32 0x7F800000#32
  let main_v70 : FVec F S3x64 .f32 := broadcastInDim S3x64 ![] bcast_S_S3x64 main_cst_26
  let main_v71 : IVec S3x64 1 := cmpf .olt main_v69 main_v70
  let main_c_27 : IVec S_ 1 := constantI S_ 1 1#1
  let main_v72 : IVec S_ 1 := (fun x v => Host.reduce IntOp.andi x v reducesTo_S3x64_S_d0_1 h_S_) main_v71 main_c_27
  let main_v73 : IVec S_ 1 := andi main_v68 main_v72
  let main_v74 : FVec F S3x64 .f32 := Host.absf main_arg17
  let main_cst_28 : FVec F S_ .f32 := constant S_ .f32 0x7F800000#32
  let main_v75 : FVec F S3x64 .f32 := broadcastInDim S3x64 ![] bcast_S_S3x64 main_cst_28
  let main_v76 : IVec S3x64 1 := cmpf .olt main_v74 main_v75
  let main_c_29 : IVec S_ 1 := constantI S_ 1 1#1
  let main_v77 : IVec S_ 1 := (fun x v => Host.reduce IntOp.andi x v reducesTo_S3x64_S_d0_1 h_S_) main_v76 main_c_29
  let main_v78 : IVec S_ 1 := andi main_v73 main_v77
  let main_v79 : FVec F S3x64 .f32 := Host.absf main_arg18
  let main_cst_30 : FVec F S_ .f32 := constant S_ .f32 0x7F800000#32
  let main_v80 : FVec F S3x64 .f32 := broadcastInDim S3x64 ![] bcast_S_S3x64 main_cst_30
  let main_v81 : IVec S3x64 1 := cmpf .olt main_v79 main_v80
  let main_c_31 : IVec S_ 1 := constantI S_ 1 1#1
  let main_v82 : IVec S_ 1 := (fun x v => Host.reduce IntOp.andi x v reducesTo_S3x64_S_d0_1 h_S_) main_v81 main_c_31
  let main_v83 : IVec S_ 1 := andi main_v78 main_v82
  let main_v84 : FVec F S3x64 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S3x64 .f32) (main_arg14 : FVec F S3x64x64 .f32) (main_arg15 : FVec F S3x64 .f32) (main_arg16 : FVec F S3x64 .f32) (main_arg17 : FVec F S3x64 .f32) (main_arg18 : FVec F S3x64 .f32) (main_arg19 : FVec F S3x64 .f32) (main_arg20 : FVec F S64x64 .f32) (main_arg21 : FVec F S64 .f32) (main_arg22 : FVec F S64 .f32) (main_arg23 : FVec F S64 .f32) (main_v48 : IVec S_ 1) (main_v49 : FVec F S3x64x64 .f32) (main_v50 : FVec F S3x64x64 .f32) : IVec S_ 1 :=
  let main_v51 : IVec S3x64x64 1 := cmpf .olt main_v49 main_v50
  let main_c_19 : IVec S_ 1 := constantI S_ 1 1#1
  let main_v52 : IVec S_ 1 := (fun x v => Host.reduce IntOp.andi x v reducesTo_S3x64x64_S_d0_1_2 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64x64 .f32 := Host.absf main_arg14
  let main_cst_22 : FVec F S_ .f32 := constant S_ .f32 0x7F800000#32
  let main_v60 : FVec F S3x64x64 .f32 := broadcastInDim S3x64x64 ![] bcast_S_S3x64x64 main_cst_22
  let main_v61 : IVec S3x64x64 1 := cmpf .olt main_v59 main_v60
  let main_c_23 : IVec S_ 1 := constantI S_ 1 1#1
  let main_v62 : IVec S_ 1 := (fun x v => Host.reduce IntOp.andi x v reducesTo_S3x64x64_S_d0_1_2 h_S_) main_v61 main_c_23
  let main_v63 : IVec S_ 1 := andi main_v58 main_v62
  let main_v64 : FVec F S3x64 .f32 := Host.absf main_arg15
  let main_cst_24 : FVec F S_ .f32 := constant S_ .f32 0x7F800000#32
  let main_v65 : FVec F S3x64 .f32 := broadcastInDim S3x64 ![] bcast_S_S3x64 main_cst_24
  let main_v66 : IVec S3x64 1 := cmpf .olt main_v64 main_v65
  let main_c_25 : IVec S_ 1 := constantI S_ 1 1#1
  let main_v67 : IVec S_ 1 := (fun x v => Host.reduce IntOp.andi x v reducesTo_S3x64_S_d0_1 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S64 .f32) (main_arg10 : FVec F S3x16x64 .f32) (main_arg11 : FVec F S3x64 .f32) (main_arg12 : FVec F S3x64x64 .f32) (main_arg13 : FVec F S3x64 .f32) (main_arg14 : FVec F S3x64x64 .f32) (main_arg15 : FVec F S3x64 .f32) (main_arg16 : FVec F S3x64 .f32) (main_arg17 : FVec F S3x64 .f32) (main_arg18 : FVec F S3x64 .f32) (main_arg19 : FVec F S3x64 .f32) (main_arg20 : FVec F S64x64 .f32) (main_arg21 : FVec F S64 .f32) (main_arg22 : FVec F S64 .f32) (main_arg23 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S3x16x64 .f32 := Host.absf main_arg10
  let main_cst_14 : FVec F S_ .f32 := constant S_ .f32 0x7F800000#32
  let main_v40 : FVec F S3x16x64 .f32 := broadcastInDim S3x16x64 ![] bcast_S_S3x16x64 main_cst_14
  let main_v41 : IVec S3x16x64 1 := cmpf .olt main_v39 main_v40
  let main_c_15 : IVec S_ 1 := constantI S_ 1 1#1
  let main_v42 : IVec S_ 1 := (fun x v => Host.reduce IntOp.andi x v reducesTo_S3x16x64_S_d0_1_2 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64x64 .f32 := Host.absf main_arg12
  let main_cst_18 : FVec F S_ .f32 := constant S_ .f32 0x7F800000#32
  let main_v50 : FVec F S3x64x64 .f32 := broadcastInDim S3x64x64 ![] bcast_S_S3x64x64 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S16x64 .f32) (main_arg7 : FVec F S64 .f32) (main_arg8 : FVec F S64 .f32) (main_arg9 : FVec F S64 .f32) (main_arg10 : FVec F S3x16x64 .f32) (main_arg11 : FVec F S3x64 .f32) (main_arg12 : FVec F S3x64x64 .f32) (main_arg13 : FVec F S3x64 .f32) (main_arg14 : FVec F S3x64x64 .f32) (main_arg15 : FVec F S3x64 .f32) (main_arg16 : FVec F S3x64 .f32) (main_arg17 : FVec F S3x64 .f32) (main_arg18 : FVec F S3x64 .f32) (main_arg19 : FVec F S3x64 .f32) (main_arg20 : FVec F S64x64 .f32) (main_arg21 : FVec F S64 .f32) (main_arg22 : FVec F S64 .f32) (main_arg23 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg6
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x64 .f32) (main_arg1 : FVec F S1600000x16 .f32) (main_arg2 : IVec S1600000 32) (main_arg3 : IVec S1600000 32) (main_arg4 : FVec F S64x64 .f32) (main_arg5 : FVec F S64 .f32) (main_arg6 : FVec F S16x64 .f32) (main_arg7 : FVec F S64 .f32) (main_arg8 : FVec F S64 .f32) (main_arg9 : FVec F S64 .f32) (main_arg10 : FVec F S3x16x64 .f32) (main_arg11 : FVec F S3x64 .f32) (main_arg12 : FVec F S3x64x64 .f32) (main_arg13 : FVec F S3x64 .f32) (main_arg14 : FVec F S3x64x64 .f32) (main_arg15 : FVec F S3x64 .f32) (main_arg16 : FVec F S3x64 .f32) (main_arg17 : FVec F S3x64 .f32) (main_arg18 : FVec F S3x64 .f32) (main_arg19 : FVec F S3x64 .f32) (main_arg20 : FVec F S64x64 .f32) (main_arg21 : FVec F S64 .f32) (main_arg22 : FVec F S64 .f32) (main_arg23 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x64 : Shape := ⟨2, ![100000, 64]⟩
abbrev S1600000x16 : Shape := ⟨2, ![1600000, 16]⟩
abbrev S1600000 : Shape := ⟨1, ![1600000]⟩
abbrev S64x64 : Shape := ⟨2, ![64, 64]⟩
abbrev S64 : Shape := ⟨1, ![64]⟩
abbrev S16x64 : Shape := ⟨2, ![16, 64]⟩
abbrev S3x16x64 : Shape := ⟨3, ![3, 16, 64]⟩
abbrev S3x64 : Shape := ⟨2, ![3, 64]⟩
abbrev S3x64x64 : Shape := ⟨3, ![3, 64, 64]⟩
abbrev S1x16x64 : Shape := ⟨3, ![1, 16, 64]⟩
abbrev S16x256 : Shape := ⟨2, ![16, 256]⟩
abbrev S1x64 : Shape := ⟨2, ![1, 64]⟩
abbrev S256 : Shape := ⟨1, ![256]⟩
abbrev S_ : Shape := ⟨0, ![]⟩
abbrev S100000x16 : Shape := ⟨2, ![100000, 16]⟩
abbrev S1600000x1 : Shape := ⟨2, ![1600000, 1]⟩
abbrev S100000x1 : Shape := ⟨2, ![100000, 1]⟩
abbrev S100000x256 : Shape := ⟨2, ![100000, 256]⟩
abbrev S5000x16 : Shape := ⟨2, ![5000, 16]⟩
abbrev S5000x256 : Shape := ⟨2, ![5000, 256]⟩
abbrev S1x256 : Shape := ⟨2, ![1, 256]⟩
abbrev S5000x64 : Shape := ⟨2, ![5000, 64]⟩
abbrev S50000x128 : Shape := ⟨2, ![50000, 128]⟩
abbrev S128 : Shape := ⟨1, ![128]⟩
abbrev S1x128 : Shape := ⟨2, ![1, 128]⟩
abbrev S5000x128 : Shape := ⟨2, ![5000, 128]⟩
abbrev S1600000x64 : Shape := ⟨2, ![1600000, 64]⟩
abbrev S1x64x64 : Shape := ⟨3, ![1, 64, 64]⟩

abbrev nBuf : Space → Nat
  | .hbm => 521
  | .vmem => 131
  | .smem => 0
  | _ => 0

abbrev hbmTy0_0 (i : Nat) : BufTy := match i % 128 with
  | 0 => ⟨S100000x64, .f32⟩
  | 1 => ⟨S1600000x16, .f32⟩
  | 2 => ⟨S1600000, .i32⟩
  | 3 => ⟨S1600000, .i32⟩
  | 4 => ⟨S64x64, .f32⟩
  | 5 => ⟨S64, .f32⟩
  | 6 => ⟨S16x64, .f32⟩
  | 7 => ⟨S64, .f32⟩
  | 8 => ⟨S64, .f32⟩
  | 9 => ⟨S64, .f32⟩
  | 10 => ⟨S3x16x64, .f32⟩
  | 11 => ⟨S3x64, .f32⟩
  | 12 => ⟨S3x64x64, .f32⟩
  | 13 => ⟨S3x64, .f32⟩
  | 14 => ⟨S3x64x64, .f32⟩
  | 15 => ⟨S3x64, .f32⟩
  | 16 => ⟨S3x64, .f32⟩
  | 17 => ⟨S3x64, .f32⟩
  | 18 => ⟨S3x64, .f32⟩
  | 19 => ⟨S3x64, .f32⟩
  | 20 => ⟨S64x64, .f32⟩
  | 21 => ⟨S64, .f32⟩
  | 22 => ⟨S64, .f32⟩
  | 23 => ⟨S64, .f32⟩
  | 24 => ⟨S1x16x64, .f32⟩
  | 25 => ⟨S16x64, .f32⟩
  | 26 => ⟨S1x16x64, .f32⟩
  | 27 => ⟨S16x64, .f32⟩
  | 28 => ⟨S1x16x64, .f32⟩
  | 29 => ⟨S16x64, .f32⟩
  | 30 => ⟨S16x256, .f32⟩
  | 31 => ⟨S1x64, .f32⟩
  | 32 => ⟨S64, .f32⟩
  | 33 => ⟨S1x64, .f32⟩
  | 34 => ⟨S64, .f32⟩
  | 35 => ⟨S1x64, .f32⟩
  | 36 => ⟨S64, .f32⟩
  | 37 => ⟨S256, .f32⟩
  | 38 => ⟨S_, .f32⟩
  | 39 => ⟨S100000x16, .f32⟩
  | 40 => ⟨S1600000x1, .i32⟩
  | 41 => ⟨S100000x16, .f32⟩
  | 42 => ⟨S_, .f32⟩
  | 43 => ⟨S1600000x1, .f32⟩
  | 44 => ⟨S_, .f32⟩
  | 45 => ⟨S100000x1, .f32⟩
  | 46 => ⟨S1600000x1, .i32⟩
  | 47 => ⟨S100000x1, .f32⟩
  | 48 => ⟨S100000x256, .f32⟩
  | 49 => ⟨S1x256, .f32⟩
  | 50 => ⟨S100000x256, .f32⟩
  | 51 => ⟨S100000x256, .f32⟩
  | 52 => ⟨S100000x256, .f32⟩
  | 53 => ⟨S100000x256, .f32⟩
  | 54 => ⟨S100000x64, .f32⟩
  | 55 => ⟨S1x64, .f32⟩
  | 56 => ⟨S100000x64, .f32⟩
  | 57 => ⟨S_, .f32⟩
  | 58 => ⟨S64, .f32⟩
  | 59 => ⟨S1x64, .f32⟩
  | 60 => ⟨S_, .f32⟩
  | 61 => ⟨S1x64, .f32⟩
  | 62 => ⟨S1x64, .f32⟩
  | 63 => ⟨S_, .i32⟩
  | 64 => ⟨S_, .f32⟩
  | 65 => ⟨S64, .f32⟩
  | 66 => ⟨S1x64, .f32⟩
  | 67 => ⟨S_, .f32⟩
  | 68 => ⟨S1x64, .f32⟩
  | 69 => ⟨S1x64, .f32⟩
  | 70 => ⟨S100000x64, .f32⟩
  | 71 => ⟨S100000x64, .f32⟩
  | 72 => ⟨S100000x64, .f32⟩
  | 73 => ⟨S_, .f32⟩
  | 74 => ⟨S_, .f32⟩
  | 75 => ⟨S_, .f32⟩
  | 76 => ⟨S_, .f32⟩
  | 77 => ⟨S64, .f32⟩
  | 78 => ⟨S1x64, .f32⟩
  | 79 => ⟨S1x64, .f32⟩
  | 80 => ⟨S1x64, .f32⟩
  | 81 => ⟨S_, .f32⟩
  | 82 => ⟨S_, .i1⟩
  | 83 => ⟨S_, .f32⟩
  | 84 => ⟨S_, .f32⟩
  | 85 => ⟨S1x64, .f32⟩
  | 86 => ⟨S1x64, .f32⟩
  | 87 => ⟨S50000x128, .f32⟩
  | 88 => ⟨S64, .f32⟩
  | 89 => ⟨S64, .f32⟩
  | 90 => ⟨S128, .f32⟩
  | 91 => ⟨S1x128, .f32⟩
  | 92 => ⟨S64, .f32⟩
  | 93 => ⟨S64, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S50000x128, .f32⟩
  | 101 => ⟨S100000x64, .f32⟩
  | 102 => ⟨S100000x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S1x64x64, .f32⟩
  | 117 => ⟨S64x64, .f32⟩
  | 118 => ⟨S1x64, .f32⟩
  | 119 => ⟨S64, .f32⟩
  | 120 => ⟨S1x64, .f32⟩
  | 121 => ⟨S100000x64, .f32⟩
  | 122 => ⟨S_, .f32⟩
  | 123 => ⟨S64, .f32⟩
  | 124 => ⟨S1x64, .f32⟩
  | 125 => ⟨S_, .f32⟩
  | 126 => ⟨S1x64, .f32⟩
  | 127 => ⟨S1x64, .f32⟩
  | _ => ⟨S100000x64, .f32⟩

abbrev hbmTy0_1 (i : Nat) : BufTy := match i % 128 with
  | 0 => ⟨S_, .i32⟩
  | 1 => ⟨S_, .f32⟩
  | 2 => ⟨S64, .f32⟩
  | 3 => ⟨S1x64, .f32⟩
  | 4 => ⟨S_, .f32⟩
  | 5 => ⟨S1x64, .f32⟩
  | 6 => ⟨S1x64, .f32⟩
  | 7 => ⟨S100000x64, .f32⟩
  | 8 => ⟨S100000x64, .f32⟩
  | 9 => ⟨S100000x64, .f32⟩
  | 10 => ⟨S_, .f32⟩
  | 11 => ⟨S_, .f32⟩
  | 12 => ⟨S_, .f32⟩
  | 13 => ⟨S_, .f32⟩
  | 14 => ⟨S64, .f32⟩
  | 15 => ⟨S1x64, .f32⟩
  | 16 => ⟨S1x64, .f32⟩
  | 17 => ⟨S1x64, .f32⟩
  | 18 => ⟨S_, .f32⟩
  | 19 => ⟨S_, .i1⟩
  | 20 => ⟨S_, .f32⟩
  | 21 => ⟨S_, .f32⟩
  | 22 => ⟨S1x64, .f32⟩
  | 23 => ⟨S1x64, .f32⟩
  | 24 => ⟨S1x64, .f32⟩
  | 25 => ⟨S64, .f32⟩
  | 26 => ⟨S1x64, .f32⟩
  | 27 => ⟨S64, .f32⟩
  | 28 => ⟨S50000x128, .f32⟩
  | 29 => ⟨S64, .f32⟩
  | 30 => ⟨S64, .f32⟩
  | 31 => ⟨S128, .f32⟩
  | 32 => ⟨S1x128, .f32⟩
  | 33 => ⟨S64, .f32⟩
  | 34 => ⟨S64, .f32⟩
  | 35 => ⟨S128, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S50000x128, .f32⟩
  | 42 => ⟨S100000x64, .f32⟩
  | 43 => ⟨S1x64x64, .f32⟩
  | 44 => ⟨S64x64, .f32⟩
  | 45 => ⟨S1x64, .f32⟩
  | 46 => ⟨S64, .f32⟩
  | 47 => ⟨S1x64, .f32⟩
  | 48 => ⟨S100000x64, .f32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S_, .i32⟩
  | 56 => ⟨S_, .f32⟩
  | 57 => ⟨S64, .f32⟩
  | 58 => ⟨S1x64, .f32⟩
  | 59 => ⟨S_, .f32⟩
  | 60 => ⟨S1x64, .f32⟩
  | 61 => ⟨S1x64, .f32⟩
  | 62 => ⟨S100000x64, .f32⟩
  | 63 => ⟨S100000x64, .f32⟩
  | 64 => ⟨S100000x64, .f32⟩
  | 65 => ⟨S_, .f32⟩
  | 66 => ⟨S_, .f32⟩
  | 67 => ⟨S_, .f32⟩
  | 68 => ⟨S_, .f32⟩
  | 69 => ⟨S64, .f32⟩
  | 70 => ⟨S1x64, .f32⟩
  | 71 => ⟨S1x64, .f32⟩
  | 72 => ⟨S1x64, .f32⟩
  | 73 => ⟨S_, .f32⟩
  | 74 => ⟨S_, .i1⟩
  | 75 => ⟨S_, .f32⟩
  | 76 => ⟨S_, .f32⟩
  | 77 => ⟨S1x64, .f32⟩
  | 78 => ⟨S1x64, .f32⟩
  | 79 => ⟨S1x64, .f32⟩
  | 80 => ⟨S64, .f32⟩
  | 81 => ⟨S1x64, .f32⟩
  | 82 => ⟨S64, .f32⟩
  | 83 => ⟨S50000x128, .f32⟩
  | 84 => ⟨S64, .f32⟩
  | 85 => ⟨S64, .f32⟩
  | 86 => ⟨S128, .f32⟩
  | 87 => ⟨S1x128, .f32⟩
  | 88 => ⟨S64, .f32⟩
  | 89 => ⟨S64, .f32⟩
  | 90 => ⟨S128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S50000x128, .f32⟩
  | 97 => ⟨S100000x64, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S1x64x64, .f32⟩
  | 113 => ⟨S64x64, .f32⟩
  | 114 => ⟨S1x64, .f32⟩
  | 115 => ⟨S64, .f32⟩
  | 116 => ⟨S1x64, .f32⟩
  | 117 => ⟨S100000x64, .f32⟩
  | 118 => ⟨S_, .f32⟩
  | 119 => ⟨S64, .f32⟩
  | 120 => ⟨S1x64, .f32⟩
  | 121 => ⟨S_, .f32⟩
  | 122 => ⟨S1x64, .f32⟩
  | 123 => ⟨S1x64, .f32⟩
  | 124 => ⟨S_, .i32⟩
  | 125 => ⟨S_, .f32⟩
  | 126 => ⟨S64, .f32⟩
  | 127 => ⟨S1x64, .f32⟩
  | _ => ⟨S100000x64, .f32⟩

abbrev hbmTy0_2 (i : Nat) : BufTy := match i % 128 with
  | 0 => ⟨S_, .f32⟩
  | 1 => ⟨S1x64, .f32⟩
  | 2 => ⟨S1x64, .f32⟩
  | 3 => ⟨S100000x64, .f32⟩
  | 4 => ⟨S100000x64, .f32⟩
  | 5 => ⟨S100000x64, .f32⟩
  | 6 => ⟨S_, .f32⟩
  | 7 => ⟨S_, .f32⟩
  | 8 => ⟨S_, .f32⟩
  | 9 => ⟨S_, .f32⟩
  | 10 => ⟨S64, .f32⟩
  | 11 => ⟨S1x64, .f32⟩
  | 12 => ⟨S1x64, .f32⟩
  | 13 => ⟨S1x64, .f32⟩
  | 14 => ⟨S_, .f32⟩
  | 15 => ⟨S_, .i1⟩
  | 16 => ⟨S_, .f32⟩
  | 17 => ⟨S_, .f32⟩
  | 18 => ⟨S1x64, .f32⟩
  | 19 => ⟨S1x64, .f32⟩
  | 20 => ⟨S1x64, .f32⟩
  | 21 => ⟨S64, .f32⟩
  | 22 => ⟨S1x64, .f32⟩
  | 23 => ⟨S64, .f32⟩
  | 24 => ⟨S50000x128, .f32⟩
  | 25 => ⟨S64, .f32⟩
  | 26 => ⟨S64, .f32⟩
  | 27 => ⟨S128, .f32⟩
  | 28 => ⟨S1x128, .f32⟩
  | 29 => ⟨S64, .f32⟩
  | 30 => ⟨S64, .f32⟩
  | 31 => ⟨S128, .f32⟩
  | 32 => ⟨S1x128, .f32⟩
  | 33 => ⟨S128, .f32⟩
  | 34 => ⟨S1x128, .f32⟩
  | 35 => ⟨S128, .f32⟩
  | 36 => ⟨S1x128, .f32⟩
  | 37 => ⟨S50000x128, .f32⟩
  | 38 => ⟨S100000x64, .f32⟩
  | 39 => ⟨S1x64x64, .f32⟩
  | 40 => ⟨S64x64, .f32⟩
  | 41 => ⟨S1x64, .f32⟩
  | 42 => ⟨S64, .f32⟩
  | 43 => ⟨S1x64, .f32⟩
  | 44 => ⟨S100000x64, .f32⟩
  | 45 => ⟨S_, .f32⟩
  | 46 => ⟨S64, .f32⟩
  | 47 => ⟨S1x64, .f32⟩
  | 48 => ⟨S_, .f32⟩
  | 49 => ⟨S1x64, .f32⟩
  | 50 => ⟨S1x64, .f32⟩
  | 51 => ⟨S_, .i32⟩
  | 52 => ⟨S_, .f32⟩
  | 53 => ⟨S64, .f32⟩
  | 54 => ⟨S1x64, .f32⟩
  | 55 => ⟨S_, .f32⟩
  | 56 => ⟨S1x64, .f32⟩
  | 57 => ⟨S1x64, .f32⟩
  | 58 => ⟨S100000x64, .f32⟩
  | 59 => ⟨S100000x64, .f32⟩
  | 60 => ⟨S100000x64, .f32⟩
  | 61 => ⟨S_, .f32⟩
  | 62 => ⟨S_, .f32⟩
  | 63 => ⟨S_, .f32⟩
  | 64 => ⟨S_, .f32⟩
  | 65 => ⟨S64, .f32⟩
  | 66 => ⟨S1x64, .f32⟩
  | 67 => ⟨S1x64, .f32⟩
  | 68 => ⟨S1x64, .f32⟩
  | 69 => ⟨S_, .f32⟩
  | 70 => ⟨S_, .i1⟩
  | 71 => ⟨S_, .f32⟩
  | 72 => ⟨S_, .f32⟩
  | 73 => ⟨S1x64, .f32⟩
  | 74 => ⟨S1x64, .f32⟩
  | 75 => ⟨S1x64, .f32⟩
  | 76 => ⟨S64, .f32⟩
  | 77 => ⟨S1x64, .f32⟩
  | 78 => ⟨S64, .f32⟩
  | 79 => ⟨S50000x128, .f32⟩
  | 80 => ⟨S64, .f32⟩
  | 81 => ⟨S64, .f32⟩
  | 82 => ⟨S128, .f32⟩
  | 83 => ⟨S1x128, .f32⟩
  | 84 => ⟨S64, .f32⟩
  | 85 => ⟨S64, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S50000x128, .f32⟩
  | 93 => ⟨S100000x64, .f32⟩
  | 94 => ⟨S100000x64, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S1x64x64, .f32⟩
  | 109 => ⟨S64x64, .f32⟩
  | 110 => ⟨S1x64, .f32⟩
  | 111 => ⟨S64, .f32⟩
  | 112 => ⟨S1x64, .f32⟩
  | 113 => ⟨S100000x64, .f32⟩
  | 114 => ⟨S_, .f32⟩
  | 115 => ⟨S64, .f32⟩
  | 116 => ⟨S1x64, .f32⟩
  | 117 => ⟨S_, .f32⟩
  | 118 => ⟨S1x64, .f32⟩
  | 119 => ⟨S1x64, .f32⟩
  | 120 => ⟨S_, .i32⟩
  | 121 => ⟨S_, .f32⟩
  | 122 => ⟨S64, .f32⟩
  | 123 => ⟨S1x64, .f32⟩
  | 124 => ⟨S_, .f32⟩
  | 125 => ⟨S1x64, .f32⟩
  | 126 => ⟨S1x64, .f32⟩
  | 127 => ⟨S100000x64, .f32⟩
  | _ => ⟨S100000x64, .f32⟩

abbrev hbmTy0_3 (i : Nat) : BufTy := match i % 128 with
  | 0 => ⟨S100000x64, .f32⟩
  | 1 => ⟨S100000x64, .f32⟩
  | 2 => ⟨S_, .f32⟩
  | 3 => ⟨S_, .f32⟩
  | 4 => ⟨S_, .f32⟩
  | 5 => ⟨S_, .f32⟩
  | 6 => ⟨S64, .f32⟩
  | 7 => ⟨S1x64, .f32⟩
  | 8 => ⟨S1x64, .f32⟩
  | 9 => ⟨S1x64, .f32⟩
  | 10 => ⟨S_, .f32⟩
  | 11 => ⟨S_, .i1⟩
  | 12 => ⟨S_, .f32⟩
  | 13 => ⟨S_, .f32⟩
  | 14 => ⟨S1x64, .f32⟩
  | 15 => ⟨S1x64, .f32⟩
  | 16 => ⟨S1x64, .f32⟩
  | 17 => ⟨S64, .f32⟩
  | 18 => ⟨S1x64, .f32⟩
  | 19 => ⟨S64, .f32⟩
  | 20 => ⟨S50000x128, .f32⟩
  | 21 => ⟨S64, .f32⟩
  | 22 => ⟨S64, .f32⟩
  | 23 => ⟨S128, .f32⟩
  | 24 => ⟨S1x128, .f32⟩
  | 25 => ⟨S64, .f32⟩
  | 26 => ⟨S64, .f32⟩
  | 27 => ⟨S128, .f32⟩
  | 28 => ⟨S1x128, .f32⟩
  | 29 => ⟨S128, .f32⟩
  | 30 => ⟨S1x128, .f32⟩
  | 31 => ⟨S128, .f32⟩
  | 32 => ⟨S1x128, .f32⟩
  | 33 => ⟨S50000x128, .f32⟩
  | 34 => ⟨S100000x64, .f32⟩
  | 35 => ⟨S1x64x64, .f32⟩
  | 36 => ⟨S64x64, .f32⟩
  | 37 => ⟨S1x64, .f32⟩
  | 38 => ⟨S64, .f32⟩
  | 39 => ⟨S1x64, .f32⟩
  | 40 => ⟨S100000x64, .f32⟩
  | 41 => ⟨S_, .f32⟩
  | 42 => ⟨S64, .f32⟩
  | 43 => ⟨S1x64, .f32⟩
  | 44 => ⟨S_, .f32⟩
  | 45 => ⟨S1x64, .f32⟩
  | 46 => ⟨S1x64, .f32⟩
  | 47 => ⟨S_, .i32⟩
  | 48 => ⟨S_, .f32⟩
  | 49 => ⟨S64, .f32⟩
  | 50 => ⟨S1x64, .f32⟩
  | 51 => ⟨S_, .f32⟩
  | 52 => ⟨S1x64, .f32⟩
  | 53 => ⟨S1x64, .f32⟩
  | 54 => ⟨S100000x64, .f32⟩
  | 55 => ⟨S100000x64, .f32⟩
  | 56 => ⟨S100000x64, .f32⟩
  | 57 => ⟨S_, .f32⟩
  | 58 => ⟨S_, .f32⟩
  | 59 => ⟨S_, .f32⟩
  | 60 => ⟨S_, .f32⟩
  | 61 => ⟨S64, .f32⟩
  | 62 => ⟨S1x64, .f32⟩
  | 63 => ⟨S1x64, .f32⟩
  | 64 => ⟨S1x64, .f32⟩
  | 65 => ⟨S_, .f32⟩
  | 66 => ⟨S_, .i1⟩
  | 67 => ⟨S_, .f32⟩
  | 68 => ⟨S_, .f32⟩
  | 69 => ⟨S1x64, .f32⟩
  | 70 => ⟨S1x64, .f32⟩
  | 71 => ⟨S1x64, .f32⟩
  | 72 => ⟨S64, .f32⟩
  | 73 => ⟨S1x64, .f32⟩
  | 74 => ⟨S64, .f32⟩
  | 75 => ⟨S50000x128, .f32⟩
  | 76 => ⟨S64, .f32⟩
  | 77 => ⟨S64, .f32⟩
  | 78 => ⟨S128, .f32⟩
  | 79 => ⟨S1x128, .f32⟩
  | 80 => ⟨S64, .f32⟩
  | 81 => ⟨S64, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S50000x128, .f32⟩
  | 89 => ⟨S100000x64, .f32⟩
  | 90 => ⟨S1x64, .f32⟩
  | 91 => ⟨S100000x64, .f32⟩
  | 92 => ⟨S_, .f32⟩
  | 93 => ⟨S64, .f32⟩
  | 94 => ⟨S1x64, .f32⟩
  | 95 => ⟨S_, .f32⟩
  | 96 => ⟨S1x64, .f32⟩
  | 97 => ⟨S1x64, .f32⟩
  | 98 => ⟨S_, .i32⟩
  | 99 => ⟨S_, .f32⟩
  | 100 => ⟨S64, .f32⟩
  | 101 => ⟨S1x64, .f32⟩
  | 102 => ⟨S_, .f32⟩
  | 103 => ⟨S1x64, .f32⟩
  | 104 => ⟨S1x64, .f32⟩
  | 105 => ⟨S100000x64, .f32⟩
  | 106 => ⟨S100000x64, .f32⟩
  | 107 => ⟨S100000x64, .f32⟩
  | 108 => ⟨S_, .f32⟩
  | 109 => ⟨S_, .f32⟩
  | 110 => ⟨S_, .f32⟩
  | 111 => ⟨S_, .f32⟩
  | 112 => ⟨S64, .f32⟩
  | 113 => ⟨S1x64, .f32⟩
  | 114 => ⟨S1x64, .f32⟩
  | 115 => ⟨S1x64, .f32⟩
  | 116 => ⟨S_, .f32⟩
  | 117 => ⟨S_, .i1⟩
  | 118 => ⟨S_, .f32⟩
  | 119 => ⟨S_, .f32⟩
  | 120 => ⟨S1x64, .f32⟩
  | 121 => ⟨S1x64, .f32⟩
  | 122 => ⟨S50000x128, .f32⟩
  | 123 => ⟨S64, .f32⟩
  | 124 => ⟨S64, .f32⟩
  | 125 => ⟨S128, .f32⟩
  | 126 => ⟨S1x128, .f32⟩
  | 127 => ⟨S64, .f32⟩
  | _ => ⟨S100000x64, .f32⟩

abbrev hbmTy0_4 (i : Nat) : BufTy := match i % 128 with
  | 0 => ⟨S64, .f32⟩
  | 1 => ⟨S128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S50000x128, .f32⟩
  | 8 => ⟨S100000x64, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x64, .f32⟩

abbrev vmemTy0_0 (i : Nat) : BufTy := match i % 128 with
  | 0 => ⟨S5000x16, .f32⟩
  | 1 => ⟨S5000x16, .f32⟩
  | 2 => ⟨S16x256, .f32⟩
  | 3 => ⟨S5000x256, .f32⟩
  | 4 => ⟨S5000x256, .f32⟩
  | 5 => ⟨S5000x64, .f32⟩
  | 6 => ⟨S5000x64, .f32⟩
  | 7 => ⟨S64x64, .f32⟩
  | 8 => ⟨S1x64, .f32⟩
  | 9 => ⟨S5000x64, .f32⟩
  | 10 => ⟨S5000x64, .f32⟩
  | 11 => ⟨S5000x64, .f32⟩
  | 12 => ⟨S5000x64, .f32⟩
  | 13 => ⟨S5000x128, .f32⟩
  | 14 => ⟨S5000x128, .f32⟩
  | 15 => ⟨S1x128, .f32⟩
  | 16 => ⟨S1x128, .f32⟩
  | 17 => ⟨S1x128, .f32⟩
  | 18 => ⟨S1x128, .f32⟩
  | 19 => ⟨S5000x128, .f32⟩
  | 20 => ⟨S5000x128, .f32⟩
  | 21 => ⟨S5000x64, .f32⟩
  | 22 => ⟨S5000x64, .f32⟩
  | 23 => ⟨S64x64, .f32⟩
  | 24 => ⟨S1x64, .f32⟩
  | 25 => ⟨S5000x64, .f32⟩
  | 26 => ⟨S5000x64, .f32⟩
  | 27 => ⟨S5000x64, .f32⟩
  | 28 => ⟨S5000x64, .f32⟩
  | 29 => ⟨S5000x128, .f32⟩
  | 30 => ⟨S5000x128, .f32⟩
  | 31 => ⟨S1x128, .f32⟩
  | 32 => ⟨S1x128, .f32⟩
  | 33 => ⟨S1x128, .f32⟩
  | 34 => ⟨S1x128, .f32⟩
  | 35 => ⟨S5000x128, .f32⟩
  | 36 => ⟨S5000x128, .f32⟩
  | 37 => ⟨S5000x64, .f32⟩
  | 38 => ⟨S5000x64, .f32⟩
  | 39 => ⟨S64x64, .f32⟩
  | 40 => ⟨S1x64, .f32⟩
  | 41 => ⟨S5000x64, .f32⟩
  | 42 => ⟨S5000x64, .f32⟩
  | 43 => ⟨S5000x64, .f32⟩
  | 44 => ⟨S5000x64, .f32⟩
  | 45 => ⟨S5000x128, .f32⟩
  | 46 => ⟨S5000x128, .f32⟩
  | 47 => ⟨S1x128, .f32⟩
  | 48 => ⟨S1x128, .f32⟩
  | 49 => ⟨S1x128, .f32⟩
  | 50 => ⟨S1x128, .f32⟩
  | 51 => ⟨S5000x128, .f32⟩
  | 52 => ⟨S5000x128, .f32⟩
  | 53 => ⟨S5000x64, .f32⟩
  | 54 => ⟨S5000x64, .f32⟩
  | 55 => ⟨S64x64, .f32⟩
  | 56 => ⟨S1x64, .f32⟩
  | 57 => ⟨S5000x64, .f32⟩
  | 58 => ⟨S5000x64, .f32⟩
  | 59 => ⟨S5000x64, .f32⟩
  | 60 => ⟨S5000x64, .f32⟩
  | 61 => ⟨S5000x128, .f32⟩
  | 62 => ⟨S5000x128, .f32⟩
  | 63 => ⟨S1x128, .f32⟩
  | 64 => ⟨S1x128, .f32⟩
  | 65 => ⟨S1x128, .f32⟩
  | 66 => ⟨S1x128, .f32⟩
  | 67 => ⟨S5000x128, .f32⟩
  | 68 => ⟨S5000x128, .f32⟩
  | 69 => ⟨S5000x64, .f32⟩
  | 70 => ⟨S5000x64, .f32⟩
  | 71 => ⟨S64x64, .f32⟩
  | 72 => ⟨S1x64, .f32⟩
  | 73 => ⟨S5000x64, .f32⟩
  | 74 => ⟨S5000x64, .f32⟩
  | 75 => ⟨S5000x64, .f32⟩
  | 76 => ⟨S5000x64, .f32⟩
  | 77 => ⟨S5000x128, .f32⟩
  | 78 => ⟨S5000x128, .f32⟩
  | 79 => ⟨S1x128, .f32⟩
  | 80 => ⟨S1x128, .f32⟩
  | 81 => ⟨S1x128, .f32⟩
  | 82 => ⟨S1x128, .f32⟩
  | 83 => ⟨S5000x128, .f32⟩
  | 84 => ⟨S5000x128, .f32⟩
  | 85 => ⟨S5000x64, .f32⟩
  | 86 => ⟨S5000x64, .f32⟩
  | 87 => ⟨S64x64, .f32⟩
  | 88 => ⟨S1x64, .f32⟩
  | 89 => ⟨S5000x64, .f32⟩
  | 90 => ⟨S5000x64, .f32⟩
  | 91 => ⟨S5000x64, .f32⟩
  | 92 => ⟨S5000x64, .f32⟩
  | 93 => ⟨S5000x128, .f32⟩
  | 94 => ⟨S5000x128, .f32⟩
  | 95 => ⟨S1x128, .f32⟩
  | 96 => ⟨S1x128, .f32⟩
  | 97 => ⟨S1x128, .f32⟩
  | 98 => ⟨S1x128, .f32⟩
  | 99 => ⟨S5000x128, .f32⟩
  | 100 => ⟨S5000x128, .f32⟩
  | 101 => ⟨S5000x64, .f32⟩
  | 102 => ⟨S5000x64, .f32⟩
  | 103 => ⟨S64x64, .f32⟩
  | 104 => ⟨S1x64, .f32⟩
  | 105 => ⟨S5000x64, .f32⟩
  | 106 => ⟨S5000x64, .f32⟩
  | 107 => ⟨S5000x64, .f32⟩
  | 108 => ⟨S5000x64, .f32⟩
  | 109 => ⟨S5000x128, .f32⟩
  | 110 => ⟨S5000x128, .f32⟩
  | 111 => ⟨S1x128, .f32⟩
  | 112 => ⟨S1x128, .f32⟩
  | 113 => ⟨S1x128, .f32⟩
  | 114 => ⟨S1x128, .f32⟩
  | 115 => ⟨S5000x128, .f32⟩
  | 116 => ⟨S5000x128, .f32⟩
  | 117 => ⟨S5000x64, .f32⟩
  | 118 => ⟨S5000x64, .f32⟩
  | 119 => ⟨S64x64, .f32⟩
  | 120 => ⟨S1x64, .f32⟩
  | 121 => ⟨S5000x64, .f32⟩
  | 122 => ⟨S5000x64, .f32⟩
  | 123 => ⟨S5000x128, .f32⟩
  | 124 => ⟨S5000x128, .f32⟩
  | 125 => ⟨S1x128, .f32⟩
  | 126 => ⟨S1x128, .f32⟩
  | 127 => ⟨S1x128, .f32⟩
  | _ => ⟨S100000x64, .f32⟩

abbrev vmemTy0_1 (i : Nat) : BufTy := match i % 128 with
  | 0 => ⟨S1x128, .f32⟩
  | 1 => ⟨S5000x128, .f32⟩
  | 2 => ⟨S5000x128, .f32⟩
  | _ => ⟨S100000x64, .f32⟩

abbrev vmemTy (i : Nat) : BufTy := match i / 128 with
  | 0 => vmemTy0_0 i
  | 1 => vmemTy0_1 i
  | _ => ⟨S100000x64, .f32⟩

abbrev bufTy : (tb : Table) → Fin (tcTables nBuf tb) → BufTy
  | .hbm, ⟨i, _⟩ => hbmTy i
  | .local _ .vmem, ⟨i, _⟩ => vmemTy i
  | _, _ => ⟨S100000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 131 → Bool
  | ⟨i, _⟩ => dmaSemScopedAt i

abbrev sig : RefSig :=
  ofTc nBuf bufTy 0 131 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_0 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_2 : Ref sig .tc := ⟨.hbm, 57, rfl⟩
abbrev main_v30 : Ref sig .tc := ⟨.hbm, 58, rfl⟩
abbrev main_v31 : Ref sig .tc := ⟨.hbm, 59, rfl⟩
abbrev main_cst_3 : Ref sig .tc := ⟨.hbm, 60, rfl⟩
abbrev main_v32 : Ref sig .tc := ⟨.hbm, 61, rfl⟩
abbrev main_v33 : Ref sig .tc := ⟨.hbm, 62, rfl⟩
abbrev main_c : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_cst_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_cst_1 : Ref sig .tc := ⟨.hbm, 74, rfl⟩
abbrev main_call0_v8 : Ref sig .tc := ⟨.hbm, 75, rfl⟩
abbrev main_call0_cst_2 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_v12 : Ref sig .tc := ⟨.hbm, 80, rfl⟩
abbrev main_call0_cst_3 : Ref sig .tc := ⟨.hbm, 81, rfl⟩
abbrev main_call0_v13 : Ref sig .tc := ⟨.hbm, 82, rfl⟩
abbrev main_call0_cst_4 : Ref sig .tc := ⟨.hbm, 83, rfl⟩
abbrev main_call0_call0_v0 : Ref sig .tc := ⟨.hbm, 84, rfl⟩
abbrev main_call0_call0_v1 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_c_4 : Ref sig .tc := ⟨.hbm, 103, rfl⟩
abbrev main_v51 : Ref sig .tc := ⟨.hbm, 104, rfl⟩
abbrev main_v52 : Ref sig .tc := ⟨.hbm, 105, rfl⟩
abbrev main_c_5 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_cst_6 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_cst_7 : Ref sig .tc := ⟨.hbm, 122, rfl⟩
abbrev main_v67 : Ref sig .tc := ⟨.hbm, 123, rfl⟩
abbrev main_v68 : Ref sig .tc := ⟨.hbm, 124, rfl⟩
abbrev main_cst_8 : Ref sig .tc := ⟨.hbm, 125, rfl⟩
abbrev main_v69 : Ref sig .tc := ⟨.hbm, 126, rfl⟩
abbrev main_v70 : Ref sig .tc := ⟨.hbm, 127, rfl⟩
abbrev main_c_9 : Ref sig .tc := ⟨.hbm, 128, rfl⟩
abbrev main_call1_cst : Ref sig .tc := ⟨.hbm, 129, rfl⟩
abbrev main_call1_v0 : Ref sig .tc := ⟨.hbm, 130, rfl⟩
abbrev main_call1_v1 : Ref sig .tc := ⟨.hbm, 131, rfl⟩
abbrev main_call1_cst_0 : Ref sig .tc := ⟨.hbm, 132, rfl⟩
abbrev main_call1_v2 : Ref sig .tc := ⟨.hbm, 133, rfl⟩
abbrev main_call1_v3 : Ref sig .tc := ⟨.hbm, 134, rfl⟩
abbrev main_call1_v4 : Ref sig .tc := ⟨.hbm, 135, rfl⟩
abbrev main_call1_v5 : Ref sig .tc := ⟨.hbm, 136, rfl⟩
abbrev main_call1_v6 : Ref sig .tc := ⟨.hbm, 137, rfl⟩
abbrev main_call1_v7 : Ref sig .tc := ⟨.hbm, 138, rfl⟩
abbrev main_call1_cst_1 : Ref sig .tc := ⟨.hbm, 139, rfl⟩
abbrev main_call1_v8 : Ref sig .tc := ⟨.hbm, 140, rfl⟩
abbrev main_call1_cst_2 : Ref sig .tc := ⟨.hbm, 141, rfl⟩
abbrev main_call1_v9 : Ref sig .tc := ⟨.hbm, 142, rfl⟩
abbrev main_call1_v10 : Ref sig .tc := ⟨.hbm, 143, rfl⟩
abbrev main_call1_v11 : Ref sig .tc := ⟨.hbm, 144, rfl⟩
abbrev main_call1_v12 : Ref sig .tc := ⟨.hbm, 145, rfl⟩
abbrev main_call1_cst_3 : Ref sig .tc := ⟨.hbm, 146, rfl⟩
abbrev main_call1_v13 : Ref sig .tc := ⟨.hbm, 147, rfl⟩
abbrev main_call1_cst_4 : Ref sig .tc := ⟨.hbm, 148, rfl⟩
abbrev main_call1_call0_v0 : Ref sig .tc := ⟨.hbm, 149, rfl⟩
abbrev main_call1_call0_v1 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_cst_10 : Ref sig .tc := ⟨.hbm, 177, rfl⟩
abbrev main_v97 : Ref sig .tc := ⟨.hbm, 178, rfl⟩
abbrev main_v98 : Ref sig .tc := ⟨.hbm, 179, rfl⟩
abbrev main_cst_11 : Ref sig .tc := ⟨.hbm, 180, rfl⟩
abbrev main_v99 : Ref sig .tc := ⟨.hbm, 181, rfl⟩
abbrev main_v100 : Ref sig .tc := ⟨.hbm, 182, rfl⟩
abbrev main_c_12 : Ref sig .tc := ⟨.hbm, 183, rfl⟩
abbrev main_call2_cst : Ref sig .tc := ⟨.hbm, 184, rfl⟩
abbrev main_call2_v0 : Ref sig .tc := ⟨.hbm, 185, rfl⟩
abbrev main_call2_v1 : Ref sig .tc := ⟨.hbm, 186, rfl⟩
abbrev main_call2_cst_0 : Ref sig .tc := ⟨.hbm, 187, rfl⟩
abbrev main_call2_v2 : Ref sig .tc := ⟨.hbm, 188, rfl⟩
abbrev main_call2_v3 : Ref sig .tc := ⟨.hbm, 189, rfl⟩
abbrev main_call2_v4 : Ref sig .tc := ⟨.hbm, 190, rfl⟩
abbrev main_call2_v5 : Ref sig .tc := ⟨.hbm, 191, rfl⟩
abbrev main_call2_v6 : Ref sig .tc := ⟨.hbm, 192, rfl⟩
abbrev main_call2_v7 : Ref sig .tc := ⟨.hbm, 193, rfl⟩
abbrev main_call2_cst_1 : Ref sig .tc := ⟨.hbm, 194, rfl⟩
abbrev main_call2_v8 : Ref sig .tc := ⟨.hbm, 195, rfl⟩
abbrev main_call2_cst_2 : Ref sig .tc := ⟨.hbm, 196, rfl⟩
abbrev main_call2_v9 : Ref sig .tc := ⟨.hbm, 197, rfl⟩
abbrev main_call2_v10 : Ref sig .tc := ⟨.hbm, 198, rfl⟩
abbrev main_call2_v11 : Ref sig .tc := ⟨.hbm, 199, rfl⟩
abbrev main_call2_v12 : Ref sig .tc := ⟨.hbm, 200, rfl⟩
abbrev main_call2_cst_3 : Ref sig .tc := ⟨.hbm, 201, rfl⟩
abbrev main_call2_v13 : Ref sig .tc := ⟨.hbm, 202, rfl⟩
abbrev main_call2_cst_4 : Ref sig .tc := ⟨.hbm, 203, rfl⟩
abbrev main_call2_call0_v0 : Ref sig .tc := ⟨.hbm, 204, rfl⟩
abbrev main_call2_call0_v1 : Ref sig .tc := ⟨.hbm, 205, rfl⟩
abbrev main_v101 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_c_13 : Ref sig .tc := ⟨.hbm, 227, rfl⟩
abbrev main_v122 : Ref sig .tc := ⟨.hbm, 228, rfl⟩
abbrev main_v123 : Ref sig .tc := ⟨.hbm, 229, rfl⟩
abbrev main_c_14 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_cst_15 : Ref sig .tc := ⟨.hbm, 236, rfl⟩
abbrev main_v129 : Ref sig .tc := ⟨.hbm, 237, rfl⟩
abbrev main_v130 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_v137 : Ref sig .tc := ⟨.hbm, 245, rfl⟩
abbrev main_cst_16 : Ref sig .tc := ⟨.hbm, 246, rfl⟩
abbrev main_v138 : Ref sig .tc := ⟨.hbm, 247, rfl⟩
abbrev main_v139 : Ref sig .tc := ⟨.hbm, 248, rfl⟩
abbrev main_cst_17 : Ref sig .tc := ⟨.hbm, 249, rfl⟩
abbrev main_v140 : Ref sig .tc := ⟨.hbm, 250, rfl⟩
abbrev main_v141 : Ref sig .tc := ⟨.hbm, 251, rfl⟩
abbrev main_c_18 : Ref sig .tc := ⟨.hbm, 252, rfl⟩
abbrev main_call3_cst : Ref sig .tc := ⟨.hbm, 253, rfl⟩
abbrev main_call3_v0 : Ref sig .tc := ⟨.hbm, 254, rfl⟩
abbrev main_call3_v1 : Ref sig .tc := ⟨.hbm, 255, rfl⟩
abbrev main_call3_cst_0 : Ref sig .tc := ⟨.hbm, 256, rfl⟩
abbrev main_call3_v2 : Ref sig .tc := ⟨.hbm, 257, rfl⟩
abbrev main_call3_v3 : Ref sig .tc := ⟨.hbm, 258, rfl⟩
abbrev main_call3_v4 : Ref sig .tc := ⟨.hbm, 259, rfl⟩
abbrev main_call3_v5 : Ref sig .tc := ⟨.hbm, 260, rfl⟩
abbrev main_call3_v6 : Ref sig .tc := ⟨.hbm, 261, rfl⟩
abbrev main_call3_v7 : Ref sig .tc := ⟨.hbm, 262, rfl⟩
abbrev main_call3_cst_1 : Ref sig .tc := ⟨.hbm, 263, rfl⟩
abbrev main_call3_v8 : Ref sig .tc := ⟨.hbm, 264, rfl⟩
abbrev main_call3_cst_2 : Ref sig .tc := ⟨.hbm, 265, rfl⟩
abbrev main_call3_v9 : Ref sig .tc := ⟨.hbm, 266, rfl⟩
abbrev main_call3_v10 : Ref sig .tc := ⟨.hbm, 267, rfl⟩
abbrev main_call3_v11 : Ref sig .tc := ⟨.hbm, 268, rfl⟩
abbrev main_call3_v12 : Ref sig .tc := ⟨.hbm, 269, rfl⟩
abbrev main_call3_cst_3 : Ref sig .tc := ⟨.hbm, 270, rfl⟩
abbrev main_call3_v13 : Ref sig .tc := ⟨.hbm, 271, rfl⟩
abbrev main_call3_cst_4 : Ref sig .tc := ⟨.hbm, 272, rfl⟩
abbrev main_call3_call0_v0 : Ref sig .tc := ⟨.hbm, 273, rfl⟩
abbrev main_call3_call0_v1 : Ref sig .tc := ⟨.hbm, 274, rfl⟩
abbrev main_v142 : Ref sig .tc := ⟨.hbm, 275, rfl⟩
abbrev main_v143 : Ref sig .tc := ⟨.hbm, 276, rfl⟩
abbrev main_v144 : Ref sig .tc := ⟨.hbm, 277, rfl⟩
abbrev main_v145 : Ref sig .tc := ⟨.hbm, 278, rfl⟩
abbrev main_v146 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_v152 : Ref sig .tc := ⟨.hbm, 285, rfl⟩
abbrev main_v153 : Ref sig .tc := ⟨.hbm, 286, rfl⟩
abbrev main_v154 : Ref sig .tc := ⟨.hbm, 287, rfl⟩
abbrev main_v155 : Ref sig .tc := ⟨.hbm, 288, rfl⟩
abbrev main_v156 : Ref sig .tc := ⟨.hbm, 289, rfl⟩
abbrev main_v157 : Ref sig .tc := ⟨.hbm, 290, rfl⟩
abbrev main_v158 : Ref sig .tc := ⟨.hbm, 291, rfl⟩
abbrev main_v159 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_v163 : Ref sig .tc := ⟨.hbm, 296, rfl⟩
abbrev main_v164 : Ref sig .tc := ⟨.hbm, 297, rfl⟩
abbrev main_v165 : Ref sig .tc := ⟨.hbm, 298, rfl⟩
abbrev main_v166 : Ref sig .tc := ⟨.hbm, 299, rfl⟩
abbrev main_v167 : Ref sig .tc := ⟨.hbm, 300, rfl⟩
abbrev main_cst_19 : Ref sig .tc := ⟨.hbm, 301, rfl⟩
abbrev main_v168 : Ref sig .tc := ⟨.hbm, 302, rfl⟩
abbrev main_v169 : Ref sig .tc := ⟨.hbm, 303, rfl⟩
abbrev main_cst_20 : Ref sig .tc := ⟨.hbm, 304, rfl⟩
abbrev main_v170 : Ref sig .tc := ⟨.hbm, 305, rfl⟩
abbrev main_v171 : Ref sig .tc := ⟨.hbm, 306, rfl⟩
abbrev main_c_21 : Ref sig .tc := ⟨.hbm, 307, rfl⟩
abbrev main_call4_cst : Ref sig .tc := ⟨.hbm, 308, rfl⟩
abbrev main_call4_v0 : Ref sig .tc := ⟨.hbm, 309, rfl⟩
abbrev main_call4_v1 : Ref sig .tc := ⟨.hbm, 310, rfl⟩
abbrev main_call4_cst_0 : Ref sig .tc := ⟨.hbm, 311, rfl⟩
abbrev main_call4_v2 : Ref sig .tc := ⟨.hbm, 312, rfl⟩
abbrev main_call4_v3 : Ref sig .tc := ⟨.hbm, 313, rfl⟩
abbrev main_call4_v4 : Ref sig .tc := ⟨.hbm, 314, rfl⟩
abbrev main_call4_v5 : Ref sig .tc := ⟨.hbm, 315, rfl⟩
abbrev main_call4_v6 : Ref sig .tc := ⟨.hbm, 316, rfl⟩
abbrev main_call4_v7 : Ref sig .tc := ⟨.hbm, 317, rfl⟩
abbrev main_call4_cst_1 : Ref sig .tc := ⟨.hbm, 318, rfl⟩
abbrev main_call4_v8 : Ref sig .tc := ⟨.hbm, 319, rfl⟩
abbrev main_call4_cst_2 : Ref sig .tc := ⟨.hbm, 320, rfl⟩
abbrev main_call4_v9 : Ref sig .tc := ⟨.hbm, 321, rfl⟩
abbrev main_call4_v10 : Ref sig .tc := ⟨.hbm, 322, rfl⟩
abbrev main_call4_v11 : Ref sig .tc := ⟨.hbm, 323, rfl⟩
abbrev main_call4_v12 : Ref sig .tc := ⟨.hbm, 324, rfl⟩
abbrev main_call4_cst_3 : Ref sig .tc := ⟨.hbm, 325, rfl⟩
abbrev main_call4_v13 : Ref sig .tc := ⟨.hbm, 326, rfl⟩
abbrev main_call4_cst_4 : Ref sig .tc := ⟨.hbm, 327, rfl⟩
abbrev main_call4_call0_v0 : Ref sig .tc := ⟨.hbm, 328, rfl⟩
abbrev main_call4_call0_v1 : Ref sig .tc := ⟨.hbm, 329, rfl⟩
abbrev main_v172 : Ref sig .tc := ⟨.hbm, 330, rfl⟩
abbrev main_v173 : Ref sig .tc := ⟨.hbm, 331, rfl⟩
abbrev main_v174 : Ref sig .tc := ⟨.hbm, 332, rfl⟩
abbrev main_v175 : Ref sig .tc := ⟨.hbm, 333, rfl⟩
abbrev main_v176 : Ref sig .tc := ⟨.hbm, 334, rfl⟩
abbrev main_v177 : Ref sig .tc := ⟨.hbm, 335, rfl⟩
abbrev main_v178 : Ref sig .tc := ⟨.hbm, 336, rfl⟩
abbrev main_v179 : Ref sig .tc := ⟨.hbm, 337, rfl⟩
abbrev main_v180 : Ref sig .tc := ⟨.hbm, 338, rfl⟩
abbrev main_v181 : Ref sig .tc := ⟨.hbm, 339, rfl⟩
abbrev main_v182 : Ref sig .tc := ⟨.hbm, 340, rfl⟩
abbrev main_v183 : Ref sig .tc := ⟨.hbm, 341, rfl⟩
abbrev main_v184 : Ref sig .tc := ⟨.hbm, 342, rfl⟩
abbrev main_v185 : Ref sig .tc := ⟨.hbm, 343, rfl⟩
abbrev main_v186 : Ref sig .tc := ⟨.hbm, 344, rfl⟩
abbrev main_v187 : Ref sig .tc := ⟨.hbm, 345, rfl⟩
abbrev main_v188 : Ref sig .tc := ⟨.hbm, 346, rfl⟩
abbrev main_v189 : Ref sig .tc := ⟨.hbm, 347, rfl⟩
abbrev main_v190 : Ref sig .tc := ⟨.hbm, 348, rfl⟩
abbrev main_v191 : Ref sig .tc := ⟨.hbm, 349, rfl⟩
abbrev main_v192 : Ref sig .tc := ⟨.hbm, 350, rfl⟩
abbrev main_c_22 : Ref sig .tc := ⟨.hbm, 351, rfl⟩
abbrev main_v193 : Ref sig .tc := ⟨.hbm, 352, rfl⟩
abbrev main_v194 : Ref sig .tc := ⟨.hbm, 353, rfl⟩
abbrev main_c_23 : Ref sig .tc := ⟨.hbm, 354, rfl⟩
abbrev main_v195 : Ref sig .tc := ⟨.hbm, 355, rfl⟩
abbrev main_v196 : Ref sig .tc := ⟨.hbm, 356, rfl⟩
abbrev main_v197 : Ref sig .tc := ⟨.hbm, 357, rfl⟩
abbrev main_v198 : Ref sig .tc := ⟨.hbm, 358, rfl⟩
abbrev main_v199 : Ref sig .tc := ⟨.hbm, 359, rfl⟩
abbrev main_cst_24 : Ref sig .tc := ⟨.hbm, 360, rfl⟩
abbrev main_v200 : Ref sig .tc := ⟨.hbm, 361, rfl⟩
abbrev main_v201 : Ref sig .tc := ⟨.hbm, 362, rfl⟩
abbrev main_v202 : Ref sig .tc := ⟨.hbm, 363, rfl⟩
abbrev main_v203 : Ref sig .tc := ⟨.hbm, 364, rfl⟩
abbrev main_v204 : Ref sig .tc := ⟨.hbm, 365, rfl⟩
abbrev main_v205 : Ref sig .tc := ⟨.hbm, 366, rfl⟩
abbrev main_v206 : Ref sig .tc := ⟨.hbm, 367, rfl⟩
abbrev main_v207 : Ref sig .tc := ⟨.hbm, 368, rfl⟩
abbrev main_v208 : Ref sig .tc := ⟨.hbm, 369, rfl⟩
abbrev main_cst_25 : Ref sig .tc := ⟨.hbm, 370, rfl⟩
abbrev main_v209 : Ref sig .tc := ⟨.hbm, 371, rfl⟩
abbrev main_v210 : Ref sig .tc := ⟨.hbm, 372, rfl⟩
abbrev main_cst_26 : Ref sig .tc := ⟨.hbm, 373, rfl⟩
abbrev main_v211 : Ref sig .tc := ⟨.hbm, 374, rfl⟩
abbrev main_v212 : Ref sig .tc := ⟨.hbm, 375, rfl⟩
abbrev main_c_27 : Ref sig .tc := ⟨.hbm, 376, rfl⟩
abbrev main_call5_cst : Ref sig .tc := ⟨.hbm, 377, rfl⟩
abbrev main_call5_v0 : Ref sig .tc := ⟨.hbm, 378, rfl⟩
abbrev main_call5_v1 : Ref sig .tc := ⟨.hbm, 379, rfl⟩
abbrev main_call5_cst_0 : Ref sig .tc := ⟨.hbm, 380, rfl⟩
abbrev main_call5_v2 : Ref sig .tc := ⟨.hbm, 381, rfl⟩
abbrev main_call5_v3 : Ref sig .tc := ⟨.hbm, 382, rfl⟩
abbrev main_call5_v4 : Ref sig .tc := ⟨.hbm, 383, rfl⟩
abbrev main_call5_v5 : Ref sig .tc := ⟨.hbm, 384, rfl⟩
abbrev main_call5_v6 : Ref sig .tc := ⟨.hbm, 385, rfl⟩
abbrev main_call5_v7 : Ref sig .tc := ⟨.hbm, 386, rfl⟩
abbrev main_call5_cst_1 : Ref sig .tc := ⟨.hbm, 387, rfl⟩
abbrev main_call5_v8 : Ref sig .tc := ⟨.hbm, 388, rfl⟩
abbrev main_call5_cst_2 : Ref sig .tc := ⟨.hbm, 389, rfl⟩
abbrev main_call5_v9 : Ref sig .tc := ⟨.hbm, 390, rfl⟩
abbrev main_call5_v10 : Ref sig .tc := ⟨.hbm, 391, rfl⟩
abbrev main_call5_v11 : Ref sig .tc := ⟨.hbm, 392, rfl⟩
abbrev main_call5_v12 : Ref sig .tc := ⟨.hbm, 393, rfl⟩
abbrev main_call5_cst_3 : Ref sig .tc := ⟨.hbm, 394, rfl⟩
abbrev main_call5_v13 : Ref sig .tc := ⟨.hbm, 395, rfl⟩
abbrev main_call5_cst_4 : Ref sig .tc := ⟨.hbm, 396, rfl⟩
abbrev main_call5_call0_v0 : Ref sig .tc := ⟨.hbm, 397, rfl⟩
abbrev main_call5_call0_v1 : Ref sig .tc := ⟨.hbm, 398, rfl⟩
abbrev main_v213 : Ref sig .tc := ⟨.hbm, 399, rfl⟩
abbrev main_v214 : Ref sig .tc := ⟨.hbm, 400, rfl⟩
abbrev main_v215 : Ref sig .tc := ⟨.hbm, 401, rfl⟩
abbrev main_v216 : Ref sig .tc := ⟨.hbm, 402, rfl⟩
abbrev main_v217 : Ref sig .tc := ⟨.hbm, 403, rfl⟩
abbrev main_v218 : Ref sig .tc := ⟨.hbm, 404, rfl⟩
abbrev main_v219 : Ref sig .tc := ⟨.hbm, 405, rfl⟩
abbrev main_v220 : Ref sig .tc := ⟨.hbm, 406, rfl⟩
abbrev main_v221 : Ref sig .tc := ⟨.hbm, 407, rfl⟩
abbrev main_v222 : Ref sig .tc := ⟨.hbm, 408, rfl⟩
abbrev main_v223 : Ref sig .tc := ⟨.hbm, 409, rfl⟩
abbrev main_v224 : Ref sig .tc := ⟨.hbm, 410, rfl⟩
abbrev main_v225 : Ref sig .tc := ⟨.hbm, 411, rfl⟩
abbrev main_v226 : Ref sig .tc := ⟨.hbm, 412, rfl⟩
abbrev main_v227 : Ref sig .tc := ⟨.hbm, 413, rfl⟩
abbrev main_v228 : Ref sig .tc := ⟨.hbm, 414, rfl⟩
abbrev main_v229 : Ref sig .tc := ⟨.hbm, 415, rfl⟩
abbrev main_v230 : Ref sig .tc := ⟨.hbm, 416, rfl⟩
abbrev main_v231 : Ref sig .tc := ⟨.hbm, 417, rfl⟩
abbrev main_v232 : Ref sig .tc := ⟨.hbm, 418, rfl⟩
abbrev main_v233 : Ref sig .tc := ⟨.hbm, 419, rfl⟩
abbrev main_v234 : Ref sig .tc := ⟨.hbm, 420, rfl⟩
abbrev main_v235 : Ref sig .tc := ⟨.hbm, 421, rfl⟩
abbrev main_v236 : Ref sig .tc := ⟨.hbm, 422, rfl⟩
abbrev main_v237 : Ref sig .tc := ⟨.hbm, 423, rfl⟩
abbrev main_v238 : Ref sig .tc := ⟨.hbm, 424, rfl⟩
abbrev main_cst_28 : Ref sig .tc := ⟨.hbm, 425, rfl⟩
abbrev main_v239 : Ref sig .tc := ⟨.hbm, 426, rfl⟩
abbrev main_v240 : Ref sig .tc := ⟨.hbm, 427, rfl⟩
abbrev main_cst_29 : Ref sig .tc := ⟨.hbm, 428, rfl⟩
abbrev main_v241 : Ref sig .tc := ⟨.hbm, 429, rfl⟩
abbrev main_v242 : Ref sig .tc := ⟨.hbm, 430, rfl⟩
abbrev main_c_30 : Ref sig .tc := ⟨.hbm, 431, rfl⟩
abbrev main_call6_cst : Ref sig .tc := ⟨.hbm, 432, rfl⟩
abbrev main_call6_v0 : Ref sig .tc := ⟨.hbm, 433, rfl⟩
abbrev main_call6_v1 : Ref sig .tc := ⟨.hbm, 434, rfl⟩
abbrev main_call6_cst_0 : Ref sig .tc := ⟨.hbm, 435, rfl⟩
abbrev main_call6_v2 : Ref sig .tc := ⟨.hbm, 436, rfl⟩
abbrev main_call6_v3 : Ref sig .tc := ⟨.hbm, 437, rfl⟩
abbrev main_call6_v4 : Ref sig .tc := ⟨.hbm, 438, rfl⟩
abbrev main_call6_v5 : Ref sig .tc := ⟨.hbm, 439, rfl⟩
abbrev main_call6_v6 : Ref sig .tc := ⟨.hbm, 440, rfl⟩
abbrev main_call6_v7 : Ref sig .tc := ⟨.hbm, 441, rfl⟩
abbrev main_call6_cst_1 : Ref sig .tc := ⟨.hbm, 442, rfl⟩
abbrev main_call6_v8 : Ref sig .tc := ⟨.hbm, 443, rfl⟩
abbrev main_call6_cst_2 : Ref sig .tc := ⟨.hbm, 444, rfl⟩
abbrev main_call6_v9 : Ref sig .tc := ⟨.hbm, 445, rfl⟩
abbrev main_call6_v10 : Ref sig .tc := ⟨.hbm, 446, rfl⟩
abbrev main_call6_v11 : Ref sig .tc := ⟨.hbm, 447, rfl⟩
abbrev main_call6_v12 : Ref sig .tc := ⟨.hbm, 448, rfl⟩
abbrev main_call6_cst_3 : Ref sig .tc := ⟨.hbm, 449, rfl⟩
abbrev main_call6_v13 : Ref sig .tc := ⟨.hbm, 450, rfl⟩
abbrev main_call6_cst_4 : Ref sig .tc := ⟨.hbm, 451, rfl⟩
abbrev main_call6_call0_v0 : Ref sig .tc := ⟨.hbm, 452, rfl⟩
abbrev main_call6_call0_v1 : Ref sig .tc := ⟨.hbm, 453, rfl⟩
abbrev main_v243 : Ref sig .tc := ⟨.hbm, 454, rfl⟩
abbrev main_v244 : Ref sig .tc := ⟨.hbm, 455, rfl⟩
abbrev main_v245 : Ref sig .tc := ⟨.hbm, 456, rfl⟩
abbrev main_v246 : Ref sig .tc := ⟨.hbm, 457, rfl⟩
abbrev main_v247 : Ref sig .tc := ⟨.hbm, 458, rfl⟩
abbrev main_v248 : Ref sig .tc := ⟨.hbm, 459, rfl⟩
abbrev main_v249 : Ref sig .tc := ⟨.hbm, 460, rfl⟩
abbrev main_v250 : Ref sig .tc := ⟨.hbm, 461, rfl⟩
abbrev main_v251 : Ref sig .tc := ⟨.hbm, 462, rfl⟩
abbrev main_v252 : Ref sig .tc := ⟨.hbm, 463, rfl⟩
abbrev main_v253 : Ref sig .tc := ⟨.hbm, 464, rfl⟩
abbrev main_v254 : Ref sig .tc := ⟨.hbm, 465, rfl⟩
abbrev main_v255 : Ref sig .tc := ⟨.hbm, 466, rfl⟩
abbrev main_v256 : Ref sig .tc := ⟨.hbm, 467, rfl⟩
abbrev main_v257 : Ref sig .tc := ⟨.hbm, 468, rfl⟩
abbrev main_v258 : Ref sig .tc := ⟨.hbm, 469, rfl⟩
abbrev main_v259 : Ref sig .tc := ⟨.hbm, 470, rfl⟩
abbrev main_v260 : Ref sig .tc := ⟨.hbm, 471, rfl⟩
abbrev main_v261 : Ref sig .tc := ⟨.hbm, 472, rfl⟩
abbrev main_v262 : Ref sig .tc := ⟨.hbm, 473, rfl⟩
abbrev main_v263 : Ref sig .tc := ⟨.hbm, 474, rfl⟩
abbrev main_v264 : Ref sig .tc := ⟨.hbm, 475, rfl⟩
abbrev main_cst_31 : Ref sig .tc := ⟨.hbm, 476, rfl⟩
abbrev main_v265 : Ref sig .tc := ⟨.hbm, 477, rfl⟩
abbrev main_v266 : Ref sig .tc := ⟨.hbm, 478, rfl⟩
abbrev main_cst_32 : Ref sig .tc := ⟨.hbm, 479, rfl⟩
abbrev main_v267 : Ref sig .tc := ⟨.hbm, 480, rfl⟩
abbrev main_v268 : Ref sig .tc := ⟨.hbm, 481, rfl⟩
abbrev main_c_33 : Ref sig .tc := ⟨.hbm, 482, rfl⟩
abbrev main_call7_cst : Ref sig .tc := ⟨.hbm, 483, rfl⟩
abbrev main_call7_v0 : Ref sig .tc := ⟨.hbm, 484, rfl⟩
abbrev main_call7_v1 : Ref sig .tc := ⟨.hbm, 485, rfl⟩
abbrev main_call7_cst_0 : Ref sig .tc := ⟨.hbm, 486, rfl⟩
abbrev main_call7_v2 : Ref sig .tc := ⟨.hbm, 487, rfl⟩
abbrev main_call7_v3 : Ref sig .tc := ⟨.hbm, 488, rfl⟩
abbrev main_call7_v4 : Ref sig .tc := ⟨.hbm, 489, rfl⟩
abbrev main_call7_v5 : Ref sig .tc := ⟨.hbm, 490, rfl⟩
abbrev main_call7_v6 : Ref sig .tc := ⟨.hbm, 491, rfl⟩
abbrev main_call7_v7 : Ref sig .tc := ⟨.hbm, 492, rfl⟩
abbrev main_call7_cst_1 : Ref sig .tc := ⟨.hbm, 493, rfl⟩
abbrev main_call7_v8 : Ref sig .tc := ⟨.hbm, 494, rfl⟩
abbrev main_call7_cst_2 : Ref sig .tc := ⟨.hbm, 495, rfl⟩
abbrev main_call7_v9 : Ref sig .tc := ⟨.hbm, 496, rfl⟩
abbrev main_call7_v10 : Ref sig .tc := ⟨.hbm, 497, rfl⟩
abbrev main_call7_v11 : Ref sig .tc := ⟨.hbm, 498, rfl⟩
abbrev main_call7_v12 : Ref sig .tc := ⟨.hbm, 499, rfl⟩
abbrev main_call7_cst_3 : Ref sig .tc := ⟨.hbm, 500, rfl⟩
abbrev main_call7_v13 : Ref sig .tc := ⟨.hbm, 501, rfl⟩
abbrev main_call7_cst_4 : Ref sig .tc := ⟨.hbm, 502, rfl⟩
abbrev main_call7_call0_v0 : Ref sig .tc := ⟨.hbm, 503, rfl⟩
abbrev main_call7_call0_v1 : Ref sig .tc := ⟨.hbm, 504, rfl⟩
abbrev main_v269 : Ref sig .tc := ⟨.hbm, 505, rfl⟩
abbrev main_v270 : Ref sig .tc := ⟨.hbm, 506, rfl⟩
abbrev main_v271 : Ref sig .tc := ⟨.hbm, 507, rfl⟩
abbrev main_v272 : Ref sig .tc := ⟨.hbm, 508, rfl⟩
abbrev main_v273 : Ref sig .tc := ⟨.hbm, 509, rfl⟩
abbrev main_v274 : Ref sig .tc := ⟨.hbm, 510, rfl⟩
abbrev main_v275 : Ref sig .tc := ⟨.hbm, 511, rfl⟩
abbrev main_v276 : Ref sig .tc := ⟨.hbm, 512, rfl⟩
abbrev main_v277 : Ref sig .tc := ⟨.hbm, 513, rfl⟩
abbrev main_v278 : Ref sig .tc := ⟨.hbm, 514, rfl⟩
abbrev main_v279 : Ref sig .tc := ⟨.hbm, 515, rfl⟩
abbrev main_v280 : Ref sig .tc := ⟨.hbm, 516, rfl⟩
abbrev main_v281 : Ref sig .tc := ⟨.hbm, 517, rfl⟩
abbrev main_v282 : Ref sig .tc := ⟨.hbm, 518, rfl⟩
abbrev main_v283 : Ref sig .tc := ⟨.hbm, 519, rfl⟩
abbrev main_v284 : Ref sig .tc := ⟨.hbm, 520, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg5_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_stg4_0 : Ref sig .tc := ⟨.vmem, 43, rfl⟩
abbrev cc5_stg4_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg5_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg3_1 : Ref sig .tc := ⟨.vmem, 58, rfl⟩
abbrev cc7_stg4_0 : Ref sig .tc := ⟨.vmem, 59, rfl⟩
abbrev cc7_stg4_1 : Ref sig .tc := ⟨.vmem, 60, rfl⟩
abbrev cc8_stg0_0 : Ref sig .tc := ⟨.vmem, 61, rfl⟩
abbrev cc8_stg0_1 : Ref sig .tc := ⟨.vmem, 62, rfl⟩
abbrev cc8_stg1_0 : Ref sig .tc := ⟨.vmem, 63, rfl⟩
abbrev cc8_stg2_0 : Ref sig .tc := ⟨.vmem, 64, rfl⟩
abbrev cc8_stg3_0 : Ref sig .tc := ⟨.vmem, 65, rfl⟩
abbrev cc8_stg4_0 : Ref sig .tc := ⟨.vmem, 66, rfl⟩
abbrev cc8_stg5_0 : Ref sig .tc := ⟨.vmem, 67, rfl⟩
abbrev cc8_stg5_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg2_0 : Ref sig .tc := ⟨.vmem, 72, rfl⟩
abbrev cc9_stg3_0 : Ref sig .tc := ⟨.vmem, 73, rfl⟩
abbrev cc9_stg3_1 : Ref sig .tc := ⟨.vmem, 74, rfl⟩
abbrev cc9_stg4_0 : Ref sig .tc := ⟨.vmem, 75, rfl⟩
abbrev cc9_stg4_1 : Ref sig .tc := ⟨.vmem, 76, rfl⟩
abbrev cc10_stg0_0 : Ref sig .tc := ⟨.vmem, 77, rfl⟩
abbrev cc10_stg0_1 : Ref sig .tc := ⟨.vmem, 78, rfl⟩
abbrev cc10_stg1_0 : Ref sig .tc := ⟨.vmem, 79, rfl⟩
abbrev cc10_stg2_0 : Ref sig .tc := ⟨.vmem, 80, rfl⟩
abbrev cc10_stg3_0 : Ref sig .tc := ⟨.vmem, 81, rfl⟩
abbrev cc10_stg4_0 : Ref sig .tc := ⟨.vmem, 82, rfl⟩
abbrev cc10_stg5_0 : Ref sig .tc := ⟨.vmem, 83, rfl⟩
abbrev cc10_stg5_1 : Ref sig .tc := ⟨.vmem, 84, rfl⟩
abbrev cc11_stg0_0 : Ref sig .tc := ⟨.vmem, 85, rfl⟩
abbrev cc11_stg0_1 : Ref sig .tc := ⟨.vmem, 86, rfl⟩
abbrev cc11_stg1_0 : Ref sig .tc := ⟨.vmem, 87, rfl⟩
abbrev cc11_stg2_0 : Ref sig .tc := ⟨.vmem, 88, rfl⟩
abbrev cc11_stg3_0 : Ref sig .tc := ⟨.vmem, 89, rfl⟩
abbrev cc11_stg3_1 : Ref sig .tc := ⟨.vmem, 90, rfl⟩
abbrev cc11_stg4_0 : Ref sig .tc := ⟨.vmem, 91, rfl⟩
abbrev cc11_stg4_1 : Ref sig .tc := ⟨.vmem, 92, rfl⟩
abbrev cc12_stg0_0 : Ref sig .tc := ⟨.vmem, 93, rfl⟩
abbrev cc12_stg0_1 : Ref sig .tc := ⟨.vmem, 94, rfl⟩
abbrev cc12_stg1_0 : Ref sig .tc := ⟨.vmem, 95, rfl⟩
abbrev cc12_stg2_0 : Ref sig .tc := ⟨.vmem, 96, rfl⟩
abbrev cc12_stg3_0 : Ref sig .tc := ⟨.vmem, 97, rfl⟩
abbrev cc12_stg4_0 : Ref sig .tc := ⟨.vmem, 98, rfl⟩
abbrev cc12_stg5_0 : Ref sig .tc := ⟨.vmem, 99, rfl⟩
abbrev cc12_stg5_1 : Ref sig .tc := ⟨.vmem, 100, rfl⟩
abbrev cc13_stg0_0 : Ref sig .tc := ⟨.vmem, 101, rfl⟩
abbrev cc13_stg0_1 : Ref sig .tc := ⟨.vmem, 102, rfl⟩
abbrev cc13_stg1_0 : Ref sig .tc := ⟨.vmem, 103, rfl⟩
abbrev cc13_stg2_0 : Ref sig .tc := ⟨.vmem, 104, rfl⟩
abbrev cc13_stg3_0 : Ref sig .tc := ⟨.vmem, 105, rfl⟩
abbrev cc13_stg3_1 : Ref sig .tc := ⟨.vmem, 106, rfl⟩
abbrev cc13_stg4_0 : Ref sig .tc := ⟨.vmem, 107, rfl⟩
abbrev cc13_stg4_1 : Ref sig .tc := ⟨.vmem, 108, rfl⟩
abbrev cc14_stg0_0 : Ref sig .tc := ⟨.vmem, 109, rfl⟩
abbrev cc14_stg0_1 : Ref sig .tc := ⟨.vmem, 110, rfl⟩
abbrev cc14_stg1_0 : Ref sig .tc := ⟨.vmem, 111, rfl⟩
abbrev cc14_stg2_0 : Ref sig .tc := ⟨.vmem, 112, rfl⟩
abbrev cc14_stg3_0 : Ref sig .tc := ⟨.vmem, 113, rfl⟩
abbrev cc14_stg4_0 : Ref sig .tc := ⟨.vmem, 114, rfl⟩
abbrev cc14_stg5_0 : Ref sig .tc := ⟨.vmem, 115, rfl⟩
abbrev cc14_stg5_1 : Ref sig .tc := ⟨.vmem, 116, rfl⟩
abbrev cc15_stg0_0 : Ref sig .tc := ⟨.vmem, 117, rfl⟩
abbrev cc15_stg0_1 : Ref sig .tc := ⟨.vmem, 118, rfl⟩
abbrev cc15_stg1_0 : Ref sig .tc := ⟨.vmem, 119, rfl⟩
abbrev cc15_stg2_0 : Ref sig .tc := ⟨.vmem, 120, rfl⟩
abbrev cc15_stg3_0 : Ref sig .tc := ⟨.vmem, 121, rfl⟩
abbrev cc15_stg3_1 : Ref sig .tc := ⟨.vmem, 122, rfl⟩
abbrev cc16_stg0_0 : Ref sig .tc := ⟨.vmem, 123, rfl⟩
abbrev cc16_stg0_1 : Ref sig .tc := ⟨.vmem, 124, rfl⟩
abbrev cc16_stg1_0 : Ref sig .tc := ⟨.vmem, 125, rfl⟩
abbrev cc16_stg2_0 : Ref sig .tc := ⟨.vmem, 126, rfl⟩
abbrev cc16_stg3_0 : Ref sig .tc := ⟨.vmem, 127, rfl⟩
abbrev cc16_stg4_0 : Ref sig .tc := ⟨.vmem, 128, rfl⟩
abbrev cc16_stg5_0 : Ref sig .tc := ⟨.vmem, 129, rfl⟩
abbrev cc16_stg5_1 : Ref sig .tc := ⟨.vmem, 130, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem5_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem3_0 : DmaSem sig := 41
abbrev cc5_sem3_1 : DmaSem sig := 42
abbrev cc5_sem4_0 : DmaSem sig := 43
abbrev cc5_sem4_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem5_1 : DmaSem sig := 52
abbrev cc7_sem0_0 : DmaSem sig := 53
abbrev cc7_sem0_1 : DmaSem sig := 54
abbrev cc7_sem1_0 : DmaSem sig := 55
abbrev cc7_sem2_0 : DmaSem sig := 56
abbrev cc7_sem3_0 : DmaSem sig := 57
abbrev cc7_sem3_1 : DmaSem sig := 58
abbrev cc7_sem4_0 : DmaSem sig := 59
abbrev cc7_sem4_1 : DmaSem sig := 60
abbrev cc8_sem0_0 : DmaSem sig := 61
abbrev cc8_sem0_1 : DmaSem sig := 62
abbrev cc8_sem1_0 : DmaSem sig := 63
abbrev cc8_sem2_0 : DmaSem sig := 64
abbrev cc8_sem3_0 : DmaSem sig := 65
abbrev cc8_sem4_0 : DmaSem sig := 66
abbrev cc8_sem5_0 : DmaSem sig := 67
abbrev cc8_sem5_1 : DmaSem sig := 68
abbrev cc9_sem0_0 : DmaSem sig := 69
abbrev cc9_sem0_1 : DmaSem sig := 70
abbrev cc9_sem1_0 : DmaSem sig := 71
abbrev cc9_sem2_0 : DmaSem sig := 72
abbrev cc9_sem3_0 : DmaSem sig := 73
abbrev cc9_sem3_1 : DmaSem sig := 74
abbrev cc9_sem4_0 : DmaSem sig := 75
abbrev cc9_sem4_1 : DmaSem sig := 76
abbrev cc10_sem0_0 : DmaSem sig := 77
abbrev cc10_sem0_1 : DmaSem sig := 78
abbrev cc10_sem1_0 : DmaSem sig := 79
abbrev cc10_sem2_0 : DmaSem sig := 80
abbrev cc10_sem3_0 : DmaSem sig := 81
abbrev cc10_sem4_0 : DmaSem sig := 82
abbrev cc10_sem5_0 : DmaSem sig := 83
abbrev cc10_sem5_1 : DmaSem sig := 84
abbrev cc11_sem0_0 : DmaSem sig := 85
abbrev cc11_sem0_1 : DmaSem sig := 86
abbrev cc11_sem1_0 : DmaSem sig := 87
abbrev cc11_sem2_0 : DmaSem sig := 88
abbrev cc11_sem3_0 : DmaSem sig := 89
abbrev cc11_sem3_1 : DmaSem sig := 90
abbrev cc11_sem4_0 : DmaSem sig := 91
abbrev cc11_sem4_1 : DmaSem sig := 92
abbrev cc12_sem0_0 : DmaSem sig := 93
abbrev cc12_sem0_1 : DmaSem sig := 94
abbrev cc12_sem1_0 : DmaSem sig := 95
abbrev cc12_sem2_0 : DmaSem sig := 96
abbrev cc12_sem3_0 : DmaSem sig := 97
abbrev cc12_sem4_0 : DmaSem sig := 98
abbrev cc12_sem5_0 : DmaSem sig := 99
abbrev cc12_sem5_1 : DmaSem sig := 100
abbrev cc13_sem0_0 : DmaSem sig := 101
abbrev cc13_sem0_1 : DmaSem sig := 102
abbrev cc13_sem1_0 : DmaSem sig := 103
abbrev cc13_sem2_0 : DmaSem sig := 104
abbrev cc13_sem3_0 : DmaSem sig := 105
abbrev cc13_sem3_1 : DmaSem sig := 106
abbrev cc13_sem4_0 : DmaSem sig := 107
abbrev cc13_sem4_1 : DmaSem sig := 108
abbrev cc14_sem0_0 : DmaSem sig := 109
abbrev cc14_sem0_1 : DmaSem sig := 110
abbrev cc14_sem1_0 : DmaSem sig := 111
abbrev cc14_sem2_0 : DmaSem sig := 112
abbrev cc14_sem3_0 : DmaSem sig := 113
abbrev cc14_sem4_0 : DmaSem sig := 114
abbrev cc14_sem5_0 : DmaSem sig := 115
abbrev cc14_sem5_1 : DmaSem sig := 116
abbrev cc15_sem0_0 : DmaSem sig := 117
abbrev cc15_sem0_1 : DmaSem sig := 118
abbrev cc15_sem1_0 : DmaSem sig := 119
abbrev cc15_sem2_0 : DmaSem sig := 120
abbrev cc15_sem3_0 : DmaSem sig := 121
abbrev cc15_sem3_1 : DmaSem sig := 122
abbrev cc16_sem0_0 : DmaSem sig := 123
abbrev cc16_sem0_1 : DmaSem sig := 124
abbrev cc16_sem1_0 : DmaSem sig := 125
abbrev cc16_sem2_0 : DmaSem sig := 126
abbrev cc16_sem3_0 : DmaSem sig := 127
abbrev cc16_sem4_0 : DmaSem sig := 128
abbrev cc16_sem5_0 : DmaSem sig := 129
abbrev cc16_sem5_1 : DmaSem sig := 130

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S5000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S5000x64 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S64x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S5000x64 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 2 → Memref sig .tc .vmem S5000x64 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![20], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S64x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S5000x64 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 2 → Memref sig .tc .vmem S5000x128 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

class Facts₀ : Prop where
  slices_S3x16x64_S1x16x64_0_0_0 : S3x16x64.Slices ![0, 0, 0] S1x16x64
  shapeCasts_S1x16x64_S16x64 : S1x16x64.ShapeCasts S16x64
  slices_S3x16x64_S1x16x64_1_0_0 : S3x16x64.Slices ![1, 0, 0] S1x16x64
  slices_S3x16x64_S1x16x64_2_0_0 : S3x16x64.Slices ![2, 0, 0] S1x16x64
  concatenates_S16x64_S16x64_S16x64_S16x64_S16x256_d1 : Shape.Concatenates [S16x64, S16x64, S16x64, S16x64] S16x256 1
  slices_S3x64_S1x64_0_0 : S3x64.Slices ![0, 0] S1x64
  shapeCasts_S1x64_S64 : S1x64.ShapeCasts S64
  slices_S3x64_S1x64_1_0 : S3x64.Slices ![1, 0] S1x64
  slices_S3x64_S1x64_2_0 : S3x64.Slices ![2, 0] S1x64
  concatenates_S64_S64_S64_S64_S256_d0 : Shape.Concatenates [S64, S64, S64, S64] S256 0
  bcast_S_S100000x16 : S_.BroadcastsInDim S100000x16 (![] : Fin 0 → Fin S100000x16.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S100000x1 : S_.BroadcastsInDim S100000x1 (![] : Fin 0 → Fin S100000x1.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S5000x256_S5000x256_0_0 : ∀ a, (![0, 0] : Fin 2 → Nat) a + S5000x256.size a ≤ S5000x256.size a
  h_S5000x256 : 0 < S5000x256.numel
  bcast_S256_S1x256_1 : S256.BroadcastsInDim S1x256 (![1] : Fin 1 → Fin S1x256.rank)
  bcast_S100000x1_S100000x256_0_1 : S100000x1.BroadcastsInDim S100000x256 (![0, 1] : Fin 2 → Fin S100000x256.rank)
  bcast_S1x256_S100000x256_0_1 : S1x256.BroadcastsInDim S100000x256 (![0, 1] : Fin 2 → Fin S100000x256.rank)
  slices_S100000x256_S100000x64_0_0 : S100000x256.Slices ![0, 0] S100000x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  reducesTo_S100000x64_S64_d0 : S100000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S100000x64_S50000x128 : S100000x64.ShapeCasts S50000x128
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  slices_S100000x256_S100000x64_0_64 : S100000x256.Slices ![0, 64] S100000x64
  bcast_S_S1600000 : S_.BroadcastsInDim S1600000 (![] : Fin 0 → Fin S1600000.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  shapeCasts_S64x64_S64x64 : S64x64.ShapeCasts S64x64
  slices_S100000x256_S100000x64_0_128 : S100000x256.Slices ![0, 128] S100000x64
  slices_S3x64x64_S1x64x64_1_0_0 : S3x64x64.Slices ![1, 0, 0] S1x64x64
  slices_S100000x256_S100000x64_0_192 : S100000x256.Slices ![0, 192] S100000x64
  slices_S3x64x64_S1x64x64_2_0_0 : S3x64x64.Slices ![2, 0, 0] S1x64x64
  scatter_S100000x16_S1600000x1_S1600000x16_1_0_0_1_wf : ScatterDims.WF S100000x16 S1600000x1 S1600000x16 [1] [0] [0] 1
  scatter_S100000x1_S1600000x1_S1600000x1_1_0_0_1_wf : ScatterDims.WF S100000x1 S1600000x1 S1600000x1 [1] [0] [0] 1
  dot_S5000x16_S16x256_S5000x256_1_0_0_1_n_n_wf : DotDims.WF S5000x16 S16x256 S5000x256 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S100000x64.size a
  hwx7_4 : ∀ i : grid7.Coords, EltTy.bits .f32 = 32 ∨ (Rect.block (s := S100000x64) S5000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S100000x64.size a
  hwx9_3 : ∀ i : grid9.Coords, EltTy.bits .f32 = 32 ∨ (Rect.block (s := S100000x64) S5000x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x64.size a ≤ S100000x64.size a
  hwx9_4 : ∀ i : grid9.Coords, EltTy.bits .f32 = 32 ∨ (Rect.block (s := S100000x64) S5000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x128.size a ≤ S50000x128.size a
  hwx10_5 : ∀ i : grid10.Coords, EltTy.bits .f32 = 32 ∨ (Rect.block (s := S50000x128) S5000x128.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S100000x64.size a
  hwx11_0 : ∀ i : grid11.Coords, EltTy.bits .f32 = 32 ∨ (Rect.block (s := S100000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x64.size a ≤ S100000x64.size a
  hwx11_3 : ∀ i : grid11.Coords, EltTy.bits .f32 = 32 ∨ (Rect.block (s := S100000x64) S5000x64.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S5000x64.size a ≤ S100000x64.size a
  hwx11_4 : ∀ i : grid11.Coords, EltTy.bits .f32 = 32 ∨ (Rect.block (s := S100000x64) S5000x64.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x128.size a ≤ S50000x128.size a
  hwx12_5 : ∀ i : grid12.Coords, EltTy.bits .f32 = 32 ∨ (Rect.block (s := S50000x128) S5000x128.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S100000x64.size a
  hwx13_0 : ∀ i : grid13.Coords, EltTy.bits .f32 = 32 ∨ (Rect.block (s := S100000x64) S5000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S64x64.size a ≤ S64x64.size a
  hwx13_1 : ∀ i : grid13.Coords, EltTy.bits .f32 = 32 ∨ (Rect.block (s := S64x64) S64x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S5000x64.size a ≤ S100000x64.size a
  hwx13_3 : ∀ i : grid13.Coords, EltTy.bits .f32 = 32 ∨ (Rect.block (s := S100000x64) S5000x64.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x64.size a ≤ S100000x64.size a
  hwx13_4 : ∀ i : grid13.Coords, EltTy.bits .f32 = 32 ∨ (Rect.block (s := S100000x64) S5000x64.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x128.size a ≤ S50000x128.size a
  hwx14_5 : ∀ i : grid14.Coords, EltTy.bits .f32 = 32 ∨ (Rect.block (s := S50000x128) S5000x128.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x64.size a ≤ S100000x64.size a
  hwx15_0 : ∀ i : grid15.Coords, EltTy.bits .f32 = 32 ∨ (Rect.block (s := S100000x64) S5000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S64x64.size a ≤ S64x64.size a
  hwx15_1 : ∀ i : grid15.Coords, EltTy.bits .f32 = 32 ∨ (Rect.block (s := S64x64) S64x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x64.size a ≤ S1x64.size a
  hwx15_2 : ∀ i : grid15.Coords, EltTy.bits .f32 = 32 ∨ (Rect.block (s := S1x64) S1x64.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S5000x64.size a ≤ S100000x64.size a
  hwx15_3 : ∀ i : grid15.Coords, EltTy.bits .f32 = 32 ∨ (Rect.block (s := S100000x64) S5000x64.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S50000x128.size a
  hwx16_0 : ∀ i : grid16.Coords, EltTy.bits .f32 = 32 ∨ (Rect.block (s := S50000x128) S5000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x128.size a ≤ S1x128.size a
  hwx16_1 : ∀ i : grid16.Coords, EltTy.bits .f32 = 32 ∨ (Rect.block (s := S1x128) S1x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x128.size a ≤ S1x128.size a
  hwx16_3 : ∀ i : grid16.Coords, EltTy.bits .f32 = 32 ∨ (Rect.block (s := S1x128) S1x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x128.size a ≤ S1x128.size a
  hwx16_4 : ∀ i : grid16.Coords, EltTy.bits .f32 = 32 ∨ (Rect.block (s := S1x128) S1x128.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S5000x128.size a ≤ S50000x128.size a
  hwx16_5 : ∀ i : grid16.Coords, EltTy.bits .f32 = 32 ∨ (Rect.block (s := S50000x128) S5000x128.size (cc16_transform_5 i) (hinb16_5 i)).WholeWords (EltTy.packing .f32)

variable [Facts₀]

def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x16_S16x256_S5000x256_1_0_0_1_n_n : DotDims S5000x16 S16x256 S5000x256 where
  lhsContracting := [1]
  rhsContracting := [0]
  lhsNonContracting := [0]
  rhsNonContracting := [1]
  lhsBatch := []
  rhsBatch := []
  wf := dot_S5000x16_S16x256_S5000x256_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v16) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v66) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v89) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v90) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v95) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v49) S5000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v96) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v106) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v110) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v114) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v116) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v118) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v119) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v131) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v133) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v136) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v121) S5000x64.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v137) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v147) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v151) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v155) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v157) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v159) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v160) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v161) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v163) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v166) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v120) S5000x64.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v167) S5000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v177) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v181) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v185) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v187) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v189) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v190) S5000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v202) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v204) S64x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v207) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v192) S5000x64.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v208) S5000x64.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v218) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v222) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v226) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v228) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v230) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v231) S5000x128.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v232) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v234) S64x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v237) S1x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v191) S5000x64.size cc13_transform_3 reads13_3 false false 2 stage13_3 sem13_3
    hrank13 hreads13_3 hinb13_3 nbuf13_3 (Memref.isWhole_whole _) hwx13_3 hstage13_3

abbrev win13_4 : Pipeline.Window sig grid13 :=
  Pipeline.Window.ofSpec (Memref.whole main_v238) S5000x64.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v248) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v252) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v256) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v258) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v260) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v261) S5000x128.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v262) S5000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg20) S64x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v263) S1x64.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v264) S5000x64.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v270) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v274) S1x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v278) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v280) S1x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v282) S1x128.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v283) S5000x128.size cc16_transform_5 reads16_5 true false 2 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

class Facts : Prop extends Facts₀ where

variable [Facts]
-- ==== ReferenceIdeal.lean ====
abbrev S100000x64 : Shape := ⟨2, ![100000, 64]⟩
abbrev S1600000x16 : Shape := ⟨2, ![1600000, 16]⟩
abbrev S1600000 : Shape := ⟨1, ![1600000]⟩
abbrev S64x64 : Shape := ⟨2, ![64, 64]⟩
abbrev S64 : Shape := ⟨1, ![64]⟩
abbrev S16x64 : Shape := ⟨2, ![16, 64]⟩
abbrev S3x16x64 : Shape := ⟨3, ![3, 16, 64]⟩
abbrev S3x64 : Shape := ⟨2, ![3, 64]⟩
abbrev S3x64x64 : Shape := ⟨3, ![3, 64, 64]⟩
abbrev S1600000x64 : Shape := ⟨2, ![1600000, 64]⟩
abbrev S1x64 : Shape := ⟨2, ![1, 64]⟩
abbrev S_ : Shape := ⟨0, ![]⟩
abbrev S1600000x1 : Shape := ⟨2, ![1600000, 1]⟩
abbrev S1x16x64 : Shape := ⟨3, ![1, 16, 64]⟩
abbrev S1x64x64 : Shape := ⟨3, ![1, 64, 64]⟩

abbrev nBuf : Space → Nat
  | .hbm => 567
  | .vmem => 0
  | .smem => 0
  | _ => 0

abbrev hbmTy0_0 (i : Nat) : BufTy := match i % 128 with
  | 0 => ⟨S100000x64, .f32⟩
  | 1 => ⟨S1600000x16, .f32⟩
  | 2 => ⟨S1600000, .i32⟩
  | 3 => ⟨S1600000, .i32⟩
  | 4 => ⟨S64x64, .f32⟩
  | 5 => ⟨S64, .f32⟩
  | 6 => ⟨S16x64, .f32⟩
  | 7 => ⟨S64, .f32⟩
  | 8 => ⟨S64, .f32⟩
  | 9 => ⟨S64, .f32⟩
  | 10 => ⟨S3x16x64, .f32⟩
  | 11 => ⟨S3x64, .f32⟩
  | 12 => ⟨S3x64x64, .f32⟩
  | 13 => ⟨S3x64, .f32⟩
  | 14 => ⟨S3x64x64, .f32⟩
  | 15 => ⟨S3x64, .f32⟩
  | 16 => ⟨S3x64, .f32⟩
  | 17 => ⟨S3x64, .f32⟩
  | 18 => ⟨S3x64, .f32⟩
  | 19 => ⟨S3x64, .f32⟩
  | 20 => ⟨S64x64, .f32⟩
  | 21 => ⟨S64, .f32⟩
  | 22 => ⟨S64, .f32⟩
  | 23 => ⟨S64, .f32⟩
  | 24 => ⟨S1600000x64, .f32⟩
  | 25 => ⟨S1x64, .f32⟩
  | 26 => ⟨S1600000x64, .f32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S64, .f32⟩
  | 39 => ⟨S_, .f32⟩
  | 40 => ⟨S64, .f32⟩
  | 41 => ⟨S64, .f32⟩
  | 42 => ⟨S_, .i32⟩
  | 43 => ⟨S_, .f32⟩
  | 44 => ⟨S64, .f32⟩
  | 45 => ⟨S1x64, .f32⟩
  | 46 => ⟨S_, .f32⟩
  | 47 => ⟨S1x64, .f32⟩
  | 48 => ⟨S1x64, .f32⟩
  | 49 => ⟨S100000x64, .f32⟩
  | 50 => ⟨S100000x64, .f32⟩
  | 51 => ⟨S100000x64, .f32⟩
  | 52 => ⟨S_, .f32⟩
  | 53 => ⟨S_, .f32⟩
  | 54 => ⟨S_, .f32⟩
  | 55 => ⟨S_, .f32⟩
  | 56 => ⟨S64, .f32⟩
  | 57 => ⟨S64, .f32⟩
  | 58 => ⟨S64, .f32⟩
  | 59 => ⟨S_, .f32⟩
  | 60 => ⟨S_, .i1⟩
  | 61 => ⟨S_, .f32⟩
  | 62 => ⟨S_, .f32⟩
  | 63 => ⟨S64, .f32⟩
  | 64 => ⟨S64, .f32⟩
  | 65 => ⟨S1x64, .f32⟩
  | 66 => ⟨S100000x64, .f32⟩
  | 67 => ⟨S100000x64, .f32⟩
  | 68 => ⟨S_, .f32⟩
  | 69 => ⟨S64, .f32⟩
  | 70 => ⟨S64, .f32⟩
  | 71 => ⟨S64, .f32⟩
  | 72 => ⟨S1x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S1x16x64, .f32⟩
  | 85 => ⟨S16x64, .f32⟩
  | 86 => ⟨S1600000x64, .f32⟩
  | 87 => ⟨S1x64, .f32⟩
  | 88 => ⟨S64, .f32⟩
  | 89 => ⟨S1x64, .f32⟩
  | 90 => ⟨S1600000x64, .f32⟩
  | 91 => ⟨S1600000x64, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S_, .f32⟩
  | 106 => ⟨S100000x64, .f32⟩
  | 107 => ⟨S1600000x1, .i32⟩
  | 108 => ⟨S100000x64, .f32⟩
  | 109 => ⟨S1x64x64, .f32⟩
  | 110 => ⟨S64x64, .f32⟩
  | 111 => ⟨S100000x64, .f32⟩
  | 112 => ⟨S1x64, .f32⟩
  | 113 => ⟨S64, .f32⟩
  | 114 => ⟨S1x64, .f32⟩
  | 115 => ⟨S100000x64, .f32⟩
  | 116 => ⟨S100000x64, .f32⟩
  | 117 => ⟨S100000x64, .f32⟩
  | 118 => ⟨S1x64, .f32⟩
  | 119 => ⟨S64, .f32⟩
  | 120 => ⟨S1x64, .f32⟩
  | 121 => ⟨S64, .f32⟩
  | 122 => ⟨S_, .f32⟩
  | 123 => ⟨S64, .f32⟩
  | 124 => ⟨S_, .f32⟩
  | 125 => ⟨S64, .f32⟩
  | 126 => ⟨S64, .f32⟩
  | 127 => ⟨S_, .i32⟩
  | _ => ⟨S100000x64, .f32⟩

abbrev hbmTy0_1 (i : Nat) : BufTy := match i % 128 with
  | 0 => ⟨S_, .f32⟩
  | 1 => ⟨S64, .f32⟩
  | 2 => ⟨S1x64, .f32⟩
  | 3 => ⟨S_, .f32⟩
  | 4 => ⟨S1x64, .f32⟩
  | 5 => ⟨S1x64, .f32⟩
  | 6 => ⟨S100000x64, .f32⟩
  | 7 => ⟨S100000x64, .f32⟩
  | 8 => ⟨S100000x64, .f32⟩
  | 9 => ⟨S_, .f32⟩
  | 10 => ⟨S_, .f32⟩
  | 11 => ⟨S_, .f32⟩
  | 12 => ⟨S_, .f32⟩
  | 13 => ⟨S64, .f32⟩
  | 14 => ⟨S64, .f32⟩
  | 15 => ⟨S64, .f32⟩
  | 16 => ⟨S_, .f32⟩
  | 17 => ⟨S_, .i1⟩
  | 18 => ⟨S_, .f32⟩
  | 19 => ⟨S_, .f32⟩
  | 20 => ⟨S64, .f32⟩
  | 21 => ⟨S64, .f32⟩
  | 22 => ⟨S1x64, .f32⟩
  | 23 => ⟨S100000x64, .f32⟩
  | 24 => ⟨S100000x64, .f32⟩
  | 25 => ⟨S_, .f32⟩
  | 26 => ⟨S64, .f32⟩
  | 27 => ⟨S64, .f32⟩
  | 28 => ⟨S64, .f32⟩
  | 29 => ⟨S1x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S1x64x64, .f32⟩
  | 42 => ⟨S64x64, .f32⟩
  | 43 => ⟨S100000x64, .f32⟩
  | 44 => ⟨S1x64, .f32⟩
  | 45 => ⟨S64, .f32⟩
  | 46 => ⟨S1x64, .f32⟩
  | 47 => ⟨S100000x64, .f32⟩
  | 48 => ⟨S100000x64, .f32⟩
  | 49 => ⟨S100000x64, .f32⟩
  | 50 => ⟨S1x64, .f32⟩
  | 51 => ⟨S64, .f32⟩
  | 52 => ⟨S1x64, .f32⟩
  | 53 => ⟨S64, .f32⟩
  | 54 => ⟨S_, .f32⟩
  | 55 => ⟨S64, .f32⟩
  | 56 => ⟨S_, .f32⟩
  | 57 => ⟨S64, .f32⟩
  | 58 => ⟨S64, .f32⟩
  | 59 => ⟨S_, .i32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S100000x64, .f32⟩
  | 67 => ⟨S100000x64, .f32⟩
  | 68 => ⟨S100000x64, .f32⟩
  | 69 => ⟨S_, .f32⟩
  | 70 => ⟨S_, .f32⟩
  | 71 => ⟨S_, .f32⟩
  | 72 => ⟨S_, .f32⟩
  | 73 => ⟨S64, .f32⟩
  | 74 => ⟨S64, .f32⟩
  | 75 => ⟨S64, .f32⟩
  | 76 => ⟨S_, .f32⟩
  | 77 => ⟨S_, .i1⟩
  | 78 => ⟨S_, .f32⟩
  | 79 => ⟨S_, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S_, .f32⟩
  | 86 => ⟨S64, .f32⟩
  | 87 => ⟨S64, .f32⟩
  | 88 => ⟨S64, .f32⟩
  | 89 => ⟨S1x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S1x16x64, .f32⟩
  | 102 => ⟨S16x64, .f32⟩
  | 103 => ⟨S1600000x64, .f32⟩
  | 104 => ⟨S1x64, .f32⟩
  | 105 => ⟨S64, .f32⟩
  | 106 => ⟨S1x64, .f32⟩
  | 107 => ⟨S1600000x64, .f32⟩
  | 108 => ⟨S1600000x64, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S_, .f32⟩
  | 119 => ⟨S100000x64, .f32⟩
  | 120 => ⟨S1600000x1, .i32⟩
  | 121 => ⟨S100000x64, .f32⟩
  | 122 => ⟨S_, .f32⟩
  | 123 => ⟨S100000x64, .f32⟩
  | 124 => ⟨S1600000x1, .i32⟩
  | 125 => ⟨S100000x64, .f32⟩
  | 126 => ⟨S1x64x64, .f32⟩
  | 127 => ⟨S64x64, .f32⟩
  | _ => ⟨S100000x64, .f32⟩

abbrev hbmTy0_2 (i : Nat) : BufTy := match i % 128 with
  | 0 => ⟨S100000x64, .f32⟩
  | 1 => ⟨S1x64, .f32⟩
  | 2 => ⟨S64, .f32⟩
  | 3 => ⟨S1x64, .f32⟩
  | 4 => ⟨S100000x64, .f32⟩
  | 5 => ⟨S100000x64, .f32⟩
  | 6 => ⟨S100000x64, .f32⟩
  | 7 => ⟨S1x64, .f32⟩
  | 8 => ⟨S64, .f32⟩
  | 9 => ⟨S1x64, .f32⟩
  | 10 => ⟨S64, .f32⟩
  | 11 => ⟨S_, .f32⟩
  | 12 => ⟨S64, .f32⟩
  | 13 => ⟨S_, .f32⟩
  | 14 => ⟨S64, .f32⟩
  | 15 => ⟨S64, .f32⟩
  | 16 => ⟨S_, .i32⟩
  | 17 => ⟨S_, .f32⟩
  | 18 => ⟨S64, .f32⟩
  | 19 => ⟨S1x64, .f32⟩
  | 20 => ⟨S_, .f32⟩
  | 21 => ⟨S1x64, .f32⟩
  | 22 => ⟨S1x64, .f32⟩
  | 23 => ⟨S100000x64, .f32⟩
  | 24 => ⟨S100000x64, .f32⟩
  | 25 => ⟨S100000x64, .f32⟩
  | 26 => ⟨S_, .f32⟩
  | 27 => ⟨S_, .f32⟩
  | 28 => ⟨S_, .f32⟩
  | 29 => ⟨S_, .f32⟩
  | 30 => ⟨S64, .f32⟩
  | 31 => ⟨S64, .f32⟩
  | 32 => ⟨S64, .f32⟩
  | 33 => ⟨S_, .f32⟩
  | 34 => ⟨S_, .i1⟩
  | 35 => ⟨S_, .f32⟩
  | 36 => ⟨S_, .f32⟩
  | 37 => ⟨S64, .f32⟩
  | 38 => ⟨S64, .f32⟩
  | 39 => ⟨S1x64, .f32⟩
  | 40 => ⟨S100000x64, .f32⟩
  | 41 => ⟨S100000x64, .f32⟩
  | 42 => ⟨S_, .f32⟩
  | 43 => ⟨S64, .f32⟩
  | 44 => ⟨S64, .f32⟩
  | 45 => ⟨S64, .f32⟩
  | 46 => ⟨S1x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S1x64x64, .f32⟩
  | 59 => ⟨S64x64, .f32⟩
  | 60 => ⟨S100000x64, .f32⟩
  | 61 => ⟨S1x64, .f32⟩
  | 62 => ⟨S64, .f32⟩
  | 63 => ⟨S1x64, .f32⟩
  | 64 => ⟨S100000x64, .f32⟩
  | 65 => ⟨S100000x64, .f32⟩
  | 66 => ⟨S100000x64, .f32⟩
  | 67 => ⟨S1x64, .f32⟩
  | 68 => ⟨S64, .f32⟩
  | 69 => ⟨S1x64, .f32⟩
  | 70 => ⟨S64, .f32⟩
  | 71 => ⟨S_, .f32⟩
  | 72 => ⟨S64, .f32⟩
  | 73 => ⟨S_, .f32⟩
  | 74 => ⟨S64, .f32⟩
  | 75 => ⟨S64, .f32⟩
  | 76 => ⟨S_, .i32⟩
  | 77 => ⟨S_, .f32⟩
  | 78 => ⟨S64, .f32⟩
  | 79 => ⟨S1x64, .f32⟩
  | 80 => ⟨S_, .f32⟩
  | 81 => ⟨S1x64, .f32⟩
  | 82 => ⟨S1x64, .f32⟩
  | 83 => ⟨S100000x64, .f32⟩
  | 84 => ⟨S100000x64, .f32⟩
  | 85 => ⟨S100000x64, .f32⟩
  | 86 => ⟨S_, .f32⟩
  | 87 => ⟨S_, .f32⟩
  | 88 => ⟨S_, .f32⟩
  | 89 => ⟨S_, .f32⟩
  | 90 => ⟨S64, .f32⟩
  | 91 => ⟨S64, .f32⟩
  | 92 => ⟨S64, .f32⟩
  | 93 => ⟨S_, .f32⟩
  | 94 => ⟨S_, .i1⟩
  | 95 => ⟨S_, .f32⟩
  | 96 => ⟨S_, .f32⟩
  | 97 => ⟨S64, .f32⟩
  | 98 => ⟨S64, .f32⟩
  | 99 => ⟨S1x64, .f32⟩
  | 100 => ⟨S100000x64, .f32⟩
  | 101 => ⟨S100000x64, .f32⟩
  | 102 => ⟨S_, .f32⟩
  | 103 => ⟨S64, .f32⟩
  | 104 => ⟨S64, .f32⟩
  | 105 => ⟨S64, .f32⟩
  | 106 => ⟨S1x64, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S1x16x64, .f32⟩
  | 119 => ⟨S16x64, .f32⟩
  | 120 => ⟨S1600000x64, .f32⟩
  | 121 => ⟨S1x64, .f32⟩
  | 122 => ⟨S64, .f32⟩
  | 123 => ⟨S1x64, .f32⟩
  | 124 => ⟨S1600000x64, .f32⟩
  | 125 => ⟨S1600000x64, .f32⟩
  | 126 => ⟨S_, .i32⟩
  | 127 => ⟨S1600000, .i32⟩
  | _ => ⟨S100000x64, .f32⟩

abbrev hbmTy0_3 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x64, .f32⟩
  | 7 => ⟨S_, .f32⟩
  | 8 => ⟨S100000x64, .f32⟩
  | 9 => ⟨S1600000x1, .i32⟩
  | 10 => ⟨S100000x64, .f32⟩
  | 11 => ⟨S_, .f32⟩
  | 12 => ⟨S100000x64, .f32⟩
  | 13 => ⟨S1600000x1, .i32⟩
  | 14 => ⟨S100000x64, .f32⟩
  | 15 => ⟨S1x64x64, .f32⟩
  | 16 => ⟨S64x64, .f32⟩
  | 17 => ⟨S100000x64, .f32⟩
  | 18 => ⟨S1x64, .f32⟩
  | 19 => ⟨S64, .f32⟩
  | 20 => ⟨S1x64, .f32⟩
  | 21 => ⟨S100000x64, .f32⟩
  | 22 => ⟨S100000x64, .f32⟩
  | 23 => ⟨S100000x64, .f32⟩
  | 24 => ⟨S1x64, .f32⟩
  | 25 => ⟨S64, .f32⟩
  | 26 => ⟨S1x64, .f32⟩
  | 27 => ⟨S64, .f32⟩
  | 28 => ⟨S_, .f32⟩
  | 29 => ⟨S64, .f32⟩
  | 30 => ⟨S_, .f32⟩
  | 31 => ⟨S64, .f32⟩
  | 32 => ⟨S64, .f32⟩
  | 33 => ⟨S_, .i32⟩
  | 34 => ⟨S_, .f32⟩
  | 35 => ⟨S64, .f32⟩
  | 36 => ⟨S1x64, .f32⟩
  | 37 => ⟨S_, .f32⟩
  | 38 => ⟨S1x64, .f32⟩
  | 39 => ⟨S1x64, .f32⟩
  | 40 => ⟨S100000x64, .f32⟩
  | 41 => ⟨S100000x64, .f32⟩
  | 42 => ⟨S100000x64, .f32⟩
  | 43 => ⟨S_, .f32⟩
  | 44 => ⟨S_, .f32⟩
  | 45 => ⟨S_, .f32⟩
  | 46 => ⟨S_, .f32⟩
  | 47 => ⟨S64, .f32⟩
  | 48 => ⟨S64, .f32⟩
  | 49 => ⟨S64, .f32⟩
  | 50 => ⟨S_, .f32⟩
  | 51 => ⟨S_, .i1⟩
  | 52 => ⟨S_, .f32⟩
  | 53 => ⟨S_, .f32⟩
  | 54 => ⟨S64, .f32⟩
  | 55 => ⟨S64, .f32⟩
  | 56 => ⟨S1x64, .f32⟩
  | 57 => ⟨S100000x64, .f32⟩
  | 58 => ⟨S100000x64, .f32⟩
  | 59 => ⟨S_, .f32⟩
  | 60 => ⟨S64, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S1x64x64, .f32⟩
  | 76 => ⟨S64x64, .f32⟩
  | 77 => ⟨S100000x64, .f32⟩
  | 78 => ⟨S1x64, .f32⟩
  | 79 => ⟨S64, .f32⟩
  | 80 => ⟨S1x64, .f32⟩
  | 81 => ⟨S100000x64, .f32⟩
  | 82 => ⟨S100000x64, .f32⟩
  | 83 => ⟨S100000x64, .f32⟩
  | 84 => ⟨S1x64, .f32⟩
  | 85 => ⟨S64, .f32⟩
  | 86 => ⟨S1x64, .f32⟩
  | 87 => ⟨S64, .f32⟩
  | 88 => ⟨S_, .f32⟩
  | 89 => ⟨S64, .f32⟩
  | 90 => ⟨S_, .f32⟩
  | 91 => ⟨S64, .f32⟩
  | 92 => ⟨S64, .f32⟩
  | 93 => ⟨S_, .i32⟩
  | 94 => ⟨S_, .f32⟩
  | 95 => ⟨S64, .f32⟩
  | 96 => ⟨S1x64, .f32⟩
  | 97 => ⟨S_, .f32⟩
  | 98 => ⟨S1x64, .f32⟩
  | 99 => ⟨S1x64, .f32⟩
  | 100 => ⟨S100000x64, .f32⟩
  | 101 => ⟨S100000x64, .f32⟩
  | 102 => ⟨S100000x64, .f32⟩
  | 103 => ⟨S_, .f32⟩
  | 104 => ⟨S_, .f32⟩
  | 105 => ⟨S_, .f32⟩
  | 106 => ⟨S_, .f32⟩
  | 107 => ⟨S64, .f32⟩
  | 108 => ⟨S64, .f32⟩
  | 109 => ⟨S64, .f32⟩
  | 110 => ⟨S_, .f32⟩
  | 111 => ⟨S_, .i1⟩
  | 112 => ⟨S_, .f32⟩
  | 113 => ⟨S_, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S_, .f32⟩
  | 120 => ⟨S64, .f32⟩
  | 121 => ⟨S64, .f32⟩
  | 122 => ⟨S64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S100000x64, .f32⟩

abbrev hbmTy0_4 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S64, .f32⟩
  | 13 => ⟨S_, .f32⟩
  | 14 => ⟨S64, .f32⟩
  | 15 => ⟨S64, .f32⟩
  | 16 => ⟨S_, .i32⟩
  | 17 => ⟨S_, .f32⟩
  | 18 => ⟨S64, .f32⟩
  | 19 => ⟨S1x64, .f32⟩
  | 20 => ⟨S_, .f32⟩
  | 21 => ⟨S1x64, .f32⟩
  | 22 => ⟨S1x64, .f32⟩
  | 23 => ⟨S100000x64, .f32⟩
  | 24 => ⟨S100000x64, .f32⟩
  | 25 => ⟨S100000x64, .f32⟩
  | 26 => ⟨S_, .f32⟩
  | 27 => ⟨S_, .f32⟩
  | 28 => ⟨S_, .f32⟩
  | 29 => ⟨S_, .f32⟩
  | 30 => ⟨S64, .f32⟩
  | 31 => ⟨S64, .f32⟩
  | 32 => ⟨S64, .f32⟩
  | 33 => ⟨S_, .f32⟩
  | 34 => ⟨S_, .i1⟩
  | 35 => ⟨S_, .f32⟩
  | 36 => ⟨S_, .f32⟩
  | 37 => ⟨S64, .f32⟩
  | 38 => ⟨S64, .f32⟩
  | 39 => ⟨S1x64, .f32⟩
  | 40 => ⟨S100000x64, .f32⟩
  | 41 => ⟨S100000x64, .f32⟩
  | 42 => ⟨S_, .f32⟩
  | 43 => ⟨S64, .f32⟩
  | 44 => ⟨S64, .f32⟩
  | 45 => ⟨S64, .f32⟩
  | 46 => ⟨S1x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_c : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_cst_2 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_call1_cst : Ref sig .tc := ⟨.hbm, 81, rfl⟩
abbrev main_call1_v0 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_c_3 : Ref sig .tc := ⟨.hbm, 92, rfl⟩
abbrev main_v40 : Ref sig .tc := ⟨.hbm, 93, rfl⟩
abbrev main_v41 : Ref sig .tc := ⟨.hbm, 94, rfl⟩
abbrev main_c_4 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_cst_5 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_cst_6 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_cst_7 : Ref sig .tc := ⟨.hbm, 122, rfl⟩
abbrev main_v66 : Ref sig .tc := ⟨.hbm, 123, rfl⟩
abbrev main_cst_8 : Ref sig .tc := ⟨.hbm, 124, rfl⟩
abbrev main_v67 : Ref sig .tc := ⟨.hbm, 125, rfl⟩
abbrev main_v68 : Ref sig .tc := ⟨.hbm, 126, rfl⟩
abbrev main_c_9 : Ref sig .tc := ⟨.hbm, 127, rfl⟩
abbrev main_call2_cst : Ref sig .tc := ⟨.hbm, 128, rfl⟩
abbrev main_call2_v0 : Ref sig .tc := ⟨.hbm, 129, rfl⟩
abbrev main_call2_v1 : Ref sig .tc := ⟨.hbm, 130, rfl⟩
abbrev main_call2_cst_0 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_call2_v5 : Ref sig .tc := ⟨.hbm, 135, rfl⟩
abbrev main_call2_v6 : Ref sig .tc := ⟨.hbm, 136, rfl⟩
abbrev main_call2_v7 : Ref sig .tc := ⟨.hbm, 137, rfl⟩
abbrev main_call2_cst_1 : Ref sig .tc := ⟨.hbm, 138, rfl⟩
abbrev main_call2_v8 : Ref sig .tc := ⟨.hbm, 139, rfl⟩
abbrev main_call2_cst_2 : Ref sig .tc := ⟨.hbm, 140, rfl⟩
abbrev main_call2_v9 : Ref sig .tc := ⟨.hbm, 141, rfl⟩
abbrev main_call2_v10 : Ref sig .tc := ⟨.hbm, 142, rfl⟩
abbrev main_call2_v11 : Ref sig .tc := ⟨.hbm, 143, rfl⟩
abbrev main_call2_cst_3 : Ref sig .tc := ⟨.hbm, 144, rfl⟩
abbrev main_call2_v12 : Ref sig .tc := ⟨.hbm, 145, rfl⟩
abbrev main_call2_cst_4 : Ref sig .tc := ⟨.hbm, 146, rfl⟩
abbrev main_call2_call0_v0 : Ref sig .tc := ⟨.hbm, 147, rfl⟩
abbrev main_call2_call0_v1 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_cst_10 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_call3_cst : Ref sig .tc := ⟨.hbm, 166, rfl⟩
abbrev main_call3_v0 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_cst_11 : Ref sig .tc := ⟨.hbm, 182, rfl⟩
abbrev main_v99 : Ref sig .tc := ⟨.hbm, 183, rfl⟩
abbrev main_cst_12 : Ref sig .tc := ⟨.hbm, 184, rfl⟩
abbrev main_v100 : Ref sig .tc := ⟨.hbm, 185, rfl⟩
abbrev main_v101 : Ref sig .tc := ⟨.hbm, 186, rfl⟩
abbrev main_c_13 : Ref sig .tc := ⟨.hbm, 187, rfl⟩
abbrev main_call4_cst : Ref sig .tc := ⟨.hbm, 188, rfl⟩
abbrev main_call4_v0 : Ref sig .tc := ⟨.hbm, 189, rfl⟩
abbrev main_call4_v1 : Ref sig .tc := ⟨.hbm, 190, rfl⟩
abbrev main_call4_cst_0 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_v5 : Ref sig .tc := ⟨.hbm, 195, rfl⟩
abbrev main_call4_v6 : Ref sig .tc := ⟨.hbm, 196, rfl⟩
abbrev main_call4_v7 : Ref sig .tc := ⟨.hbm, 197, rfl⟩
abbrev main_call4_cst_1 : Ref sig .tc := ⟨.hbm, 198, rfl⟩
abbrev main_call4_v8 : Ref sig .tc := ⟨.hbm, 199, rfl⟩
abbrev main_call4_cst_2 : Ref sig .tc := ⟨.hbm, 200, rfl⟩
abbrev main_call4_v9 : Ref sig .tc := ⟨.hbm, 201, rfl⟩
abbrev main_call4_v10 : Ref sig .tc := ⟨.hbm, 202, rfl⟩
abbrev main_call4_v11 : Ref sig .tc := ⟨.hbm, 203, rfl⟩
abbrev main_call4_cst_3 : Ref sig .tc := ⟨.hbm, 204, rfl⟩
abbrev main_call4_v12 : Ref sig .tc := ⟨.hbm, 205, rfl⟩
abbrev main_call4_cst_4 : Ref sig .tc := ⟨.hbm, 206, rfl⟩
abbrev main_call4_call0_v0 : Ref sig .tc := ⟨.hbm, 207, rfl⟩
abbrev main_call4_call0_v1 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_cst_14 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_call5_cst : Ref sig .tc := ⟨.hbm, 226, rfl⟩
abbrev main_call5_v0 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_c_15 : Ref sig .tc := ⟨.hbm, 237, rfl⟩
abbrev main_v127 : Ref sig .tc := ⟨.hbm, 238, rfl⟩
abbrev main_v128 : Ref sig .tc := ⟨.hbm, 239, rfl⟩
abbrev main_c_16 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_cst_17 : Ref sig .tc := ⟨.hbm, 246, rfl⟩
abbrev main_v134 : Ref sig .tc := ⟨.hbm, 247, rfl⟩
abbrev main_v135 : Ref sig .tc := ⟨.hbm, 248, rfl⟩
abbrev main_v136 : Ref sig .tc := ⟨.hbm, 249, rfl⟩
abbrev main_cst_18 : Ref sig .tc := ⟨.hbm, 250, rfl⟩
abbrev main_v137 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_cst_19 : Ref sig .tc := ⟨.hbm, 267, rfl⟩
abbrev main_v153 : Ref sig .tc := ⟨.hbm, 268, rfl⟩
abbrev main_cst_20 : Ref sig .tc := ⟨.hbm, 269, rfl⟩
abbrev main_v154 : Ref sig .tc := ⟨.hbm, 270, rfl⟩
abbrev main_v155 : Ref sig .tc := ⟨.hbm, 271, rfl⟩
abbrev main_c_21 : Ref sig .tc := ⟨.hbm, 272, rfl⟩
abbrev main_call6_cst : Ref sig .tc := ⟨.hbm, 273, rfl⟩
abbrev main_call6_v0 : Ref sig .tc := ⟨.hbm, 274, rfl⟩
abbrev main_call6_v1 : Ref sig .tc := ⟨.hbm, 275, rfl⟩
abbrev main_call6_cst_0 : Ref sig .tc := ⟨.hbm, 276, rfl⟩
abbrev main_call6_v2 : Ref sig .tc := ⟨.hbm, 277, rfl⟩
abbrev main_call6_v3 : Ref sig .tc := ⟨.hbm, 278, rfl⟩
abbrev main_call6_v4 : Ref sig .tc := ⟨.hbm, 279, rfl⟩
abbrev main_call6_v5 : Ref sig .tc := ⟨.hbm, 280, rfl⟩
abbrev main_call6_v6 : Ref sig .tc := ⟨.hbm, 281, rfl⟩
abbrev main_call6_v7 : Ref sig .tc := ⟨.hbm, 282, rfl⟩
abbrev main_call6_cst_1 : Ref sig .tc := ⟨.hbm, 283, rfl⟩
abbrev main_call6_v8 : Ref sig .tc := ⟨.hbm, 284, rfl⟩
abbrev main_call6_cst_2 : Ref sig .tc := ⟨.hbm, 285, rfl⟩
abbrev main_call6_v9 : Ref sig .tc := ⟨.hbm, 286, rfl⟩
abbrev main_call6_v10 : Ref sig .tc := ⟨.hbm, 287, rfl⟩
abbrev main_call6_v11 : Ref sig .tc := ⟨.hbm, 288, rfl⟩
abbrev main_call6_cst_3 : Ref sig .tc := ⟨.hbm, 289, rfl⟩
abbrev main_call6_v12 : Ref sig .tc := ⟨.hbm, 290, rfl⟩
abbrev main_call6_cst_4 : Ref sig .tc := ⟨.hbm, 291, rfl⟩
abbrev main_call6_call0_v0 : Ref sig .tc := ⟨.hbm, 292, rfl⟩
abbrev main_call6_call0_v1 : Ref sig .tc := ⟨.hbm, 293, rfl⟩
abbrev main_v156 : Ref sig .tc := ⟨.hbm, 294, rfl⟩
abbrev main_v157 : Ref sig .tc := ⟨.hbm, 295, rfl⟩
abbrev main_v158 : Ref sig .tc := ⟨.hbm, 296, rfl⟩
abbrev main_v159 : Ref sig .tc := ⟨.hbm, 297, rfl⟩
abbrev main_cst_22 : Ref sig .tc := ⟨.hbm, 298, rfl⟩
abbrev main_v160 : Ref sig .tc := ⟨.hbm, 299, rfl⟩
abbrev main_v161 : Ref sig .tc := ⟨.hbm, 300, rfl⟩
abbrev main_v162 : Ref sig .tc := ⟨.hbm, 301, rfl⟩
abbrev main_v163 : Ref sig .tc := ⟨.hbm, 302, rfl⟩
abbrev main_v164 : Ref sig .tc := ⟨.hbm, 303, rfl⟩
abbrev main_v165 : Ref sig .tc := ⟨.hbm, 304, rfl⟩
abbrev main_v166 : Ref sig .tc := ⟨.hbm, 305, rfl⟩
abbrev main_v167 : Ref sig .tc := ⟨.hbm, 306, rfl⟩
abbrev main_v168 : Ref sig .tc := ⟨.hbm, 307, rfl⟩
abbrev main_v169 : Ref sig .tc := ⟨.hbm, 308, rfl⟩
abbrev main_v170 : Ref sig .tc := ⟨.hbm, 309, rfl⟩
abbrev main_v171 : Ref sig .tc := ⟨.hbm, 310, rfl⟩
abbrev main_call7_cst : Ref sig .tc := ⟨.hbm, 311, rfl⟩
abbrev main_call7_v0 : Ref sig .tc := ⟨.hbm, 312, rfl⟩
abbrev main_v172 : Ref sig .tc := ⟨.hbm, 313, rfl⟩
abbrev main_v173 : Ref sig .tc := ⟨.hbm, 314, rfl⟩
abbrev main_v174 : Ref sig .tc := ⟨.hbm, 315, rfl⟩
abbrev main_v175 : Ref sig .tc := ⟨.hbm, 316, rfl⟩
abbrev main_v176 : Ref sig .tc := ⟨.hbm, 317, rfl⟩
abbrev main_v177 : Ref sig .tc := ⟨.hbm, 318, rfl⟩
abbrev main_v178 : Ref sig .tc := ⟨.hbm, 319, rfl⟩
abbrev main_v179 : Ref sig .tc := ⟨.hbm, 320, rfl⟩
abbrev main_v180 : Ref sig .tc := ⟨.hbm, 321, rfl⟩
abbrev main_v181 : Ref sig .tc := ⟨.hbm, 322, rfl⟩
abbrev main_v182 : Ref sig .tc := ⟨.hbm, 323, rfl⟩
abbrev main_v183 : Ref sig .tc := ⟨.hbm, 324, rfl⟩
abbrev main_v184 : Ref sig .tc := ⟨.hbm, 325, rfl⟩
abbrev main_v185 : Ref sig .tc := ⟨.hbm, 326, rfl⟩
abbrev main_cst_23 : Ref sig .tc := ⟨.hbm, 327, rfl⟩
abbrev main_v186 : Ref sig .tc := ⟨.hbm, 328, rfl⟩
abbrev main_cst_24 : Ref sig .tc := ⟨.hbm, 329, rfl⟩
abbrev main_v187 : Ref sig .tc := ⟨.hbm, 330, rfl⟩
abbrev main_v188 : Ref sig .tc := ⟨.hbm, 331, rfl⟩
abbrev main_c_25 : Ref sig .tc := ⟨.hbm, 332, rfl⟩
abbrev main_call8_cst : Ref sig .tc := ⟨.hbm, 333, rfl⟩
abbrev main_call8_v0 : Ref sig .tc := ⟨.hbm, 334, rfl⟩
abbrev main_call8_v1 : Ref sig .tc := ⟨.hbm, 335, rfl⟩
abbrev main_call8_cst_0 : Ref sig .tc := ⟨.hbm, 336, rfl⟩
abbrev main_call8_v2 : Ref sig .tc := ⟨.hbm, 337, rfl⟩
abbrev main_call8_v3 : Ref sig .tc := ⟨.hbm, 338, rfl⟩
abbrev main_call8_v4 : Ref sig .tc := ⟨.hbm, 339, rfl⟩
abbrev main_call8_v5 : Ref sig .tc := ⟨.hbm, 340, rfl⟩
abbrev main_call8_v6 : Ref sig .tc := ⟨.hbm, 341, rfl⟩
abbrev main_call8_v7 : Ref sig .tc := ⟨.hbm, 342, rfl⟩
abbrev main_call8_cst_1 : Ref sig .tc := ⟨.hbm, 343, rfl⟩
abbrev main_call8_v8 : Ref sig .tc := ⟨.hbm, 344, rfl⟩
abbrev main_call8_cst_2 : Ref sig .tc := ⟨.hbm, 345, rfl⟩
abbrev main_call8_v9 : Ref sig .tc := ⟨.hbm, 346, rfl⟩
abbrev main_call8_v10 : Ref sig .tc := ⟨.hbm, 347, rfl⟩
abbrev main_call8_v11 : Ref sig .tc := ⟨.hbm, 348, rfl⟩
abbrev main_call8_cst_3 : Ref sig .tc := ⟨.hbm, 349, rfl⟩
abbrev main_call8_v12 : Ref sig .tc := ⟨.hbm, 350, rfl⟩
abbrev main_call8_cst_4 : Ref sig .tc := ⟨.hbm, 351, rfl⟩
abbrev main_call8_call0_v0 : Ref sig .tc := ⟨.hbm, 352, rfl⟩
abbrev main_call8_call0_v1 : Ref sig .tc := ⟨.hbm, 353, rfl⟩
abbrev main_v189 : Ref sig .tc := ⟨.hbm, 354, rfl⟩
abbrev main_v190 : Ref sig .tc := ⟨.hbm, 355, rfl⟩
abbrev main_v191 : Ref sig .tc := ⟨.hbm, 356, rfl⟩
abbrev main_v192 : Ref sig .tc := ⟨.hbm, 357, rfl⟩
abbrev main_cst_26 : Ref sig .tc := ⟨.hbm, 358, rfl⟩
abbrev main_v193 : Ref sig .tc := ⟨.hbm, 359, rfl⟩
abbrev main_v194 : Ref sig .tc := ⟨.hbm, 360, rfl⟩
abbrev main_v195 : Ref sig .tc := ⟨.hbm, 361, rfl⟩
abbrev main_v196 : Ref sig .tc := ⟨.hbm, 362, rfl⟩
abbrev main_v197 : Ref sig .tc := ⟨.hbm, 363, rfl⟩
abbrev main_v198 : Ref sig .tc := ⟨.hbm, 364, rfl⟩
abbrev main_v199 : Ref sig .tc := ⟨.hbm, 365, rfl⟩
abbrev main_v200 : Ref sig .tc := ⟨.hbm, 366, rfl⟩
abbrev main_v201 : Ref sig .tc := ⟨.hbm, 367, rfl⟩
abbrev main_v202 : Ref sig .tc := ⟨.hbm, 368, rfl⟩
abbrev main_v203 : Ref sig .tc := ⟨.hbm, 369, rfl⟩
abbrev main_v204 : Ref sig .tc := ⟨.hbm, 370, rfl⟩
abbrev main_call9_cst : Ref sig .tc := ⟨.hbm, 371, rfl⟩
abbrev main_call9_v0 : Ref sig .tc := ⟨.hbm, 372, rfl⟩
abbrev main_v205 : Ref sig .tc := ⟨.hbm, 373, rfl⟩
abbrev main_v206 : Ref sig .tc := ⟨.hbm, 374, rfl⟩
abbrev main_v207 : Ref sig .tc := ⟨.hbm, 375, rfl⟩
abbrev main_v208 : Ref sig .tc := ⟨.hbm, 376, rfl⟩
abbrev main_v209 : Ref sig .tc := ⟨.hbm, 377, rfl⟩
abbrev main_v210 : Ref sig .tc := ⟨.hbm, 378, rfl⟩
abbrev main_v211 : Ref sig .tc := ⟨.hbm, 379, rfl⟩
abbrev main_v212 : Ref sig .tc := ⟨.hbm, 380, rfl⟩
abbrev main_v213 : Ref sig .tc := ⟨.hbm, 381, rfl⟩
abbrev main_c_27 : Ref sig .tc := ⟨.hbm, 382, rfl⟩
abbrev main_v214 : Ref sig .tc := ⟨.hbm, 383, rfl⟩
abbrev main_v215 : Ref sig .tc := ⟨.hbm, 384, rfl⟩
abbrev main_c_28 : Ref sig .tc := ⟨.hbm, 385, rfl⟩
abbrev main_v216 : Ref sig .tc := ⟨.hbm, 386, rfl⟩
abbrev main_v217 : Ref sig .tc := ⟨.hbm, 387, rfl⟩
abbrev main_v218 : Ref sig .tc := ⟨.hbm, 388, rfl⟩
abbrev main_v219 : Ref sig .tc := ⟨.hbm, 389, rfl⟩
abbrev main_v220 : Ref sig .tc := ⟨.hbm, 390, rfl⟩
abbrev main_cst_29 : Ref sig .tc := ⟨.hbm, 391, rfl⟩
abbrev main_v221 : Ref sig .tc := ⟨.hbm, 392, rfl⟩
abbrev main_v222 : Ref sig .tc := ⟨.hbm, 393, rfl⟩
abbrev main_v223 : Ref sig .tc := ⟨.hbm, 394, rfl⟩
abbrev main_cst_30 : Ref sig .tc := ⟨.hbm, 395, rfl⟩
abbrev main_v224 : Ref sig .tc := ⟨.hbm, 396, rfl⟩
abbrev main_v225 : Ref sig .tc := ⟨.hbm, 397, rfl⟩
abbrev main_v226 : Ref sig .tc := ⟨.hbm, 398, rfl⟩
abbrev main_v227 : Ref sig .tc := ⟨.hbm, 399, rfl⟩
abbrev main_v228 : Ref sig .tc := ⟨.hbm, 400, rfl⟩
abbrev main_v229 : Ref sig .tc := ⟨.hbm, 401, rfl⟩
abbrev main_v230 : Ref sig .tc := ⟨.hbm, 402, rfl⟩
abbrev main_v231 : Ref sig .tc := ⟨.hbm, 403, rfl⟩
abbrev main_v232 : Ref sig .tc := ⟨.hbm, 404, rfl⟩
abbrev main_v233 : Ref sig .tc := ⟨.hbm, 405, rfl⟩
abbrev main_v234 : Ref sig .tc := ⟨.hbm, 406, rfl⟩
abbrev main_v235 : Ref sig .tc := ⟨.hbm, 407, rfl⟩
abbrev main_v236 : Ref sig .tc := ⟨.hbm, 408, rfl⟩
abbrev main_v237 : Ref sig .tc := ⟨.hbm, 409, rfl⟩
abbrev main_v238 : Ref sig .tc := ⟨.hbm, 410, rfl⟩
abbrev main_v239 : Ref sig .tc := ⟨.hbm, 411, rfl⟩
abbrev main_cst_31 : Ref sig .tc := ⟨.hbm, 412, rfl⟩
abbrev main_v240 : Ref sig .tc := ⟨.hbm, 413, rfl⟩
abbrev main_cst_32 : Ref sig .tc := ⟨.hbm, 414, rfl⟩
abbrev main_v241 : Ref sig .tc := ⟨.hbm, 415, rfl⟩
abbrev main_v242 : Ref sig .tc := ⟨.hbm, 416, rfl⟩
abbrev main_c_33 : Ref sig .tc := ⟨.hbm, 417, rfl⟩
abbrev main_call10_cst : Ref sig .tc := ⟨.hbm, 418, rfl⟩
abbrev main_call10_v0 : Ref sig .tc := ⟨.hbm, 419, rfl⟩
abbrev main_call10_v1 : Ref sig .tc := ⟨.hbm, 420, rfl⟩
abbrev main_call10_cst_0 : Ref sig .tc := ⟨.hbm, 421, rfl⟩
abbrev main_call10_v2 : Ref sig .tc := ⟨.hbm, 422, rfl⟩
abbrev main_call10_v3 : Ref sig .tc := ⟨.hbm, 423, rfl⟩
abbrev main_call10_v4 : Ref sig .tc := ⟨.hbm, 424, rfl⟩
abbrev main_call10_v5 : Ref sig .tc := ⟨.hbm, 425, rfl⟩
abbrev main_call10_v6 : Ref sig .tc := ⟨.hbm, 426, rfl⟩
abbrev main_call10_v7 : Ref sig .tc := ⟨.hbm, 427, rfl⟩
abbrev main_call10_cst_1 : Ref sig .tc := ⟨.hbm, 428, rfl⟩
abbrev main_call10_v8 : Ref sig .tc := ⟨.hbm, 429, rfl⟩
abbrev main_call10_cst_2 : Ref sig .tc := ⟨.hbm, 430, rfl⟩
abbrev main_call10_v9 : Ref sig .tc := ⟨.hbm, 431, rfl⟩
abbrev main_call10_v10 : Ref sig .tc := ⟨.hbm, 432, rfl⟩
abbrev main_call10_v11 : Ref sig .tc := ⟨.hbm, 433, rfl⟩
abbrev main_call10_cst_3 : Ref sig .tc := ⟨.hbm, 434, rfl⟩
abbrev main_call10_v12 : Ref sig .tc := ⟨.hbm, 435, rfl⟩
abbrev main_call10_cst_4 : Ref sig .tc := ⟨.hbm, 436, rfl⟩
abbrev main_call10_call0_v0 : Ref sig .tc := ⟨.hbm, 437, rfl⟩
abbrev main_call10_call0_v1 : Ref sig .tc := ⟨.hbm, 438, rfl⟩
abbrev main_v243 : Ref sig .tc := ⟨.hbm, 439, rfl⟩
abbrev main_v244 : Ref sig .tc := ⟨.hbm, 440, rfl⟩
abbrev main_v245 : Ref sig .tc := ⟨.hbm, 441, rfl⟩
abbrev main_v246 : Ref sig .tc := ⟨.hbm, 442, rfl⟩
abbrev main_cst_34 : Ref sig .tc := ⟨.hbm, 443, rfl⟩
abbrev main_v247 : Ref sig .tc := ⟨.hbm, 444, rfl⟩
abbrev main_v248 : Ref sig .tc := ⟨.hbm, 445, rfl⟩
abbrev main_v249 : Ref sig .tc := ⟨.hbm, 446, rfl⟩
abbrev main_v250 : Ref sig .tc := ⟨.hbm, 447, rfl⟩
abbrev main_v251 : Ref sig .tc := ⟨.hbm, 448, rfl⟩
abbrev main_v252 : Ref sig .tc := ⟨.hbm, 449, rfl⟩
abbrev main_v253 : Ref sig .tc := ⟨.hbm, 450, rfl⟩
abbrev main_v254 : Ref sig .tc := ⟨.hbm, 451, rfl⟩
abbrev main_v255 : Ref sig .tc := ⟨.hbm, 452, rfl⟩
abbrev main_v256 : Ref sig .tc := ⟨.hbm, 453, rfl⟩
abbrev main_v257 : Ref sig .tc := ⟨.hbm, 454, rfl⟩
abbrev main_v258 : Ref sig .tc := ⟨.hbm, 455, rfl⟩
abbrev main_call11_cst : Ref sig .tc := ⟨.hbm, 456, rfl⟩
abbrev main_call11_v0 : Ref sig .tc := ⟨.hbm, 457, rfl⟩
abbrev main_v259 : Ref sig .tc := ⟨.hbm, 458, rfl⟩
abbrev main_v260 : Ref sig .tc := ⟨.hbm, 459, rfl⟩
abbrev main_v261 : Ref sig .tc := ⟨.hbm, 460, rfl⟩
abbrev main_v262 : Ref sig .tc := ⟨.hbm, 461, rfl⟩
abbrev main_v263 : Ref sig .tc := ⟨.hbm, 462, rfl⟩
abbrev main_v264 : Ref sig .tc := ⟨.hbm, 463, rfl⟩
abbrev main_v265 : Ref sig .tc := ⟨.hbm, 464, rfl⟩
abbrev main_v266 : Ref sig .tc := ⟨.hbm, 465, rfl⟩
abbrev main_v267 : Ref sig .tc := ⟨.hbm, 466, rfl⟩
abbrev main_v268 : Ref sig .tc := ⟨.hbm, 467, rfl⟩
abbrev main_v269 : Ref sig .tc := ⟨.hbm, 468, rfl⟩
abbrev main_v270 : Ref sig .tc := ⟨.hbm, 469, rfl⟩
abbrev main_v271 : Ref sig .tc := ⟨.hbm, 470, rfl⟩
abbrev main_v272 : Ref sig .tc := ⟨.hbm, 471, rfl⟩
abbrev main_cst_35 : Ref sig .tc := ⟨.hbm, 472, rfl⟩
abbrev main_v273 : Ref sig .tc := ⟨.hbm, 473, rfl⟩
abbrev main_cst_36 : Ref sig .tc := ⟨.hbm, 474, rfl⟩
abbrev main_v274 : Ref sig .tc := ⟨.hbm, 475, rfl⟩
abbrev main_v275 : Ref sig .tc := ⟨.hbm, 476, rfl⟩
abbrev main_c_37 : Ref sig .tc := ⟨.hbm, 477, rfl⟩
abbrev main_call12_cst : Ref sig .tc := ⟨.hbm, 478, rfl⟩
abbrev main_call12_v0 : Ref sig .tc := ⟨.hbm, 479, rfl⟩
abbrev main_call12_v1 : Ref sig .tc := ⟨.hbm, 480, rfl⟩
abbrev main_call12_cst_0 : Ref sig .tc := ⟨.hbm, 481, rfl⟩
abbrev main_call12_v2 : Ref sig .tc := ⟨.hbm, 482, rfl⟩
abbrev main_call12_v3 : Ref sig .tc := ⟨.hbm, 483, rfl⟩
abbrev main_call12_v4 : Ref sig .tc := ⟨.hbm, 484, rfl⟩
abbrev main_call12_v5 : Ref sig .tc := ⟨.hbm, 485, rfl⟩
abbrev main_call12_v6 : Ref sig .tc := ⟨.hbm, 486, rfl⟩
abbrev main_call12_v7 : Ref sig .tc := ⟨.hbm, 487, rfl⟩
abbrev main_call12_cst_1 : Ref sig .tc := ⟨.hbm, 488, rfl⟩
abbrev main_call12_v8 : Ref sig .tc := ⟨.hbm, 489, rfl⟩
abbrev main_call12_cst_2 : Ref sig .tc := ⟨.hbm, 490, rfl⟩
abbrev main_call12_v9 : Ref sig .tc := ⟨.hbm, 491, rfl⟩
abbrev main_call12_v10 : Ref sig .tc := ⟨.hbm, 492, rfl⟩
abbrev main_call12_v11 : Ref sig .tc := ⟨.hbm, 493, rfl⟩
abbrev main_call12_cst_3 : Ref sig .tc := ⟨.hbm, 494, rfl⟩
abbrev main_call12_v12 : Ref sig .tc := ⟨.hbm, 495, rfl⟩
abbrev main_call12_cst_4 : Ref sig .tc := ⟨.hbm, 496, rfl⟩
abbrev main_call12_call0_v0 : Ref sig .tc := ⟨.hbm, 497, rfl⟩
abbrev main_call12_call0_v1 : Ref sig .tc := ⟨.hbm, 498, rfl⟩
abbrev main_v276 : Ref sig .tc := ⟨.hbm, 499, rfl⟩
abbrev main_v277 : Ref sig .tc := ⟨.hbm, 500, rfl⟩
abbrev main_v278 : Ref sig .tc := ⟨.hbm, 501, rfl⟩
abbrev main_v279 : Ref sig .tc := ⟨.hbm, 502, rfl⟩
abbrev main_cst_38 : Ref sig .tc := ⟨.hbm, 503, rfl⟩
abbrev main_v280 : Ref sig .tc := ⟨.hbm, 504, rfl⟩
abbrev main_v281 : Ref sig .tc := ⟨.hbm, 505, rfl⟩
abbrev main_v282 : Ref sig .tc := ⟨.hbm, 506, rfl⟩
abbrev main_v283 : Ref sig .tc := ⟨.hbm, 507, rfl⟩
abbrev main_v284 : Ref sig .tc := ⟨.hbm, 508, rfl⟩
abbrev main_v285 : Ref sig .tc := ⟨.hbm, 509, rfl⟩
abbrev main_v286 : Ref sig .tc := ⟨.hbm, 510, rfl⟩
abbrev main_v287 : Ref sig .tc := ⟨.hbm, 511, rfl⟩
abbrev main_v288 : Ref sig .tc := ⟨.hbm, 512, rfl⟩
abbrev main_v289 : Ref sig .tc := ⟨.hbm, 513, rfl⟩
abbrev main_v290 : Ref sig .tc := ⟨.hbm, 514, rfl⟩
abbrev main_v291 : Ref sig .tc := ⟨.hbm, 515, rfl⟩
abbrev main_call13_cst : Ref sig .tc := ⟨.hbm, 516, rfl⟩
abbrev main_call13_v0 : Ref sig .tc := ⟨.hbm, 517, rfl⟩
abbrev main_v292 : Ref sig .tc := ⟨.hbm, 518, rfl⟩
abbrev main_v293 : Ref sig .tc := ⟨.hbm, 519, rfl⟩
abbrev main_v294 : Ref sig .tc := ⟨.hbm, 520, rfl⟩
abbrev main_v295 : Ref sig .tc := ⟨.hbm, 521, rfl⟩
abbrev main_v296 : Ref sig .tc := ⟨.hbm, 522, rfl⟩
abbrev main_cst_39 : Ref sig .tc := ⟨.hbm, 523, rfl⟩
abbrev main_v297 : Ref sig .tc := ⟨.hbm, 524, rfl⟩
abbrev main_cst_40 : Ref sig .tc := ⟨.hbm, 525, rfl⟩
abbrev main_v298 : Ref sig .tc := ⟨.hbm, 526, rfl⟩
abbrev main_v299 : Ref sig .tc := ⟨.hbm, 527, rfl⟩
abbrev main_c_41 : Ref sig .tc := ⟨.hbm, 528, rfl⟩
abbrev main_call14_cst : Ref sig .tc := ⟨.hbm, 529, rfl⟩
abbrev main_call14_v0 : Ref sig .tc := ⟨.hbm, 530, rfl⟩
abbrev main_call14_v1 : Ref sig .tc := ⟨.hbm, 531, rfl⟩
abbrev main_call14_cst_0 : Ref sig .tc := ⟨.hbm, 532, rfl⟩
abbrev main_call14_v2 : Ref sig .tc := ⟨.hbm, 533, rfl⟩
abbrev main_call14_v3 : Ref sig .tc := ⟨.hbm, 534, rfl⟩
abbrev main_call14_v4 : Ref sig .tc := ⟨.hbm, 535, rfl⟩
abbrev main_call14_v5 : Ref sig .tc := ⟨.hbm, 536, rfl⟩
abbrev main_call14_v6 : Ref sig .tc := ⟨.hbm, 537, rfl⟩
abbrev main_call14_v7 : Ref sig .tc := ⟨.hbm, 538, rfl⟩
abbrev main_call14_cst_1 : Ref sig .tc := ⟨.hbm, 539, rfl⟩
abbrev main_call14_v8 : Ref sig .tc := ⟨.hbm, 540, rfl⟩
abbrev main_call14_cst_2 : Ref sig .tc := ⟨.hbm, 541, rfl⟩
abbrev main_call14_v9 : Ref sig .tc := ⟨.hbm, 542, rfl⟩
abbrev main_call14_v10 : Ref sig .tc := ⟨.hbm, 543, rfl⟩
abbrev main_call14_v11 : Ref sig .tc := ⟨.hbm, 544, rfl⟩
abbrev main_call14_cst_3 : Ref sig .tc := ⟨.hbm, 545, rfl⟩
abbrev main_call14_v12 : Ref sig .tc := ⟨.hbm, 546, rfl⟩
abbrev main_call14_cst_4 : Ref sig .tc := ⟨.hbm, 547, rfl⟩
abbrev main_call14_call0_v0 : Ref sig .tc := ⟨.hbm, 548, rfl⟩
abbrev main_call14_call0_v1 : Ref sig .tc := ⟨.hbm, 549, rfl⟩
abbrev main_v300 : Ref sig .tc := ⟨.hbm, 550, rfl⟩
abbrev main_v301 : Ref sig .tc := ⟨.hbm, 551, rfl⟩
abbrev main_v302 : Ref sig .tc := ⟨.hbm, 552, rfl⟩
abbrev main_v303 : Ref sig .tc := ⟨.hbm, 553, rfl⟩
abbrev main_cst_42 : Ref sig .tc := ⟨.hbm, 554, rfl⟩
abbrev main_v304 : Ref sig .tc := ⟨.hbm, 555, rfl⟩
abbrev main_v305 : Ref sig .tc := ⟨.hbm, 556, rfl⟩
abbrev main_v306 : Ref sig .tc := ⟨.hbm, 557, rfl⟩
abbrev main_v307 : Ref sig .tc := ⟨.hbm, 558, rfl⟩
abbrev main_v308 : Ref sig .tc := ⟨.hbm, 559, rfl⟩
abbrev main_v309 : Ref sig .tc := ⟨.hbm, 560, rfl⟩
abbrev main_v310 : Ref sig .tc := ⟨.hbm, 561, rfl⟩
abbrev main_v311 : Ref sig .tc := ⟨.hbm, 562, rfl⟩
abbrev main_v312 : Ref sig .tc := ⟨.hbm, 563, rfl⟩
abbrev main_v313 : Ref sig .tc := ⟨.hbm, 564, rfl⟩
abbrev main_v314 : Ref sig .tc := ⟨.hbm, 565, rfl⟩
abbrev main_v315 : Ref sig .tc := ⟨.hbm, 566, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x16x64_S1x16x64_0_0_0 : S3x16x64.Slices ![0, 0, 0] S1x16x64
  shapeCasts_S1x16x64_S16x64 : S1x16x64.ShapeCasts S16x64
  slices_S3x64_S1x64_0_0 : S3x64.Slices ![0, 0] S1x64
  shapeCasts_S1x64_S64 : S1x64.ShapeCasts S64
  bcast_S_S1600000 : S_.BroadcastsInDim S1600000 (![] : Fin 0 → Fin S1600000.rank)
  slices_S3x64x64_S1x64x64_0_0_0 : S3x64x64.Slices ![0, 0, 0] S1x64x64
  shapeCasts_S1x64x64_S64x64 : S1x64x64.ShapeCasts S64x64
  slices_S3x16x64_S1x16x64_1_0_0 : S3x16x64.Slices ![1, 0, 0] S1x16x64
  slices_S3x64_S1x64_1_0 : S3x64.Slices ![1, 0] S1x64
  slices_S3x64x64_S1x64x64_1_0_0 : S3x64x64.Slices ![1, 0, 0] S1x64x64
  slices_S3x16x64_S1x16x64_2_0_0 : S3x16x64.Slices ![2, 0, 0] S1x16x64
  slices_S3x64_S1x64_2_0 : S3x64.Slices ![2, 0] S1x64
  slices_S3x64x64_S1x64x64_2_0_0 : S3x64x64.Slices ![2, 0, 0] S1x64x64
  dot_S1600000x16_S16x64_S1600000x64_1_0_0_1_n_n_wf : DotDims.WF S1600000x16 S16x64 S1600000x64 [1] [0] [0] [1] [] []
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]

variable [Facts₀]

def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

class Facts : Prop extends Facts₀ where

variable [Facts]
-- ==== Proof.KRun.lean ====
/- The conditional run of the word-level kernel: the conditional frame's proof with its final predicate strengthened from
  "every argument ends as launched" to "every unscoped buffer ends at the last valuation". The steps are the conditional
  frame's own, in its words; what changes is the post, the final predicate and the read-back at the end.
-/
import proofs.«146189_j40922448396571_2_alg».proof.Proof.KRegions

-- decided memberships and the launch kit's enumerations over 652 references recurse past the default depth
set_option maxRecDepth 65536

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option maxHeartbeats 4000000 in
set_option backward.isDefEq.respectTransparency.types false in
/-- THE CONDITIONAL RUN. As the conditional frame, with the final predicate strengthened: every weakly fair execution of
    @main from memory m with zero counters terminates and every final memory holds EVERY unscoped buffer of core c at the
    last valuation V51 m outs c (so each argument as launched, and the result at what the last items leave). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 17) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 18 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE17 : ∀ c : Dev nD, E 17 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V19 m outs c) ∗ E 6 c) ⊢ R6.pre c)
    (hpost6 : ∀ c : Dev nD, R6.post c ⊢ iprop(StableHlo.held (c : Thread nD τ) (Pipeline.ucRefs τ sig) (V20 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V21 m outs c) ∗ E 7 c) ⊢ R7.pre c)
    (hpost7 : ∀ c : Dev nD, R7.post c ⊢ iprop(StableHlo.held (c : Thread nD τ) (Pipeline.ucRefs τ sig) (V22 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V25 m outs c) ∗ E 8 c) ⊢ R8.pre c)
    (hpost8 : ∀ c : Dev nD, R8.post c ⊢ iprop(StableHlo.held (c : Thread nD τ) (Pipeline.ucRefs τ sig) (V26 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V27 m outs c) ∗ E 9 c) ⊢ R9.pre c)
    (hpost9 : ∀ c : Dev nD, R9.post c ⊢ iprop(StableHlo.held (c : Thread nD τ) (Pipeline.ucRefs τ sig) (V28 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V31 m outs c) ∗ E 10 c) ⊢ R10.pre c)
    (hpost10 : ∀ c : Dev nD, R10.post c ⊢ iprop(StableHlo.held (c : Thread nD τ) (Pipeline.ucRefs τ sig) (V32 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V33 m outs c) ∗ E 11 c) ⊢ R11.pre c)
    (hpost11 : ∀ c : Dev nD, R11.post c ⊢ iprop(StableHlo.held (c : Thread nD τ) (Pipeline.ucRefs τ sig) (V34 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V37 m outs c) ∗ E 12 c) ⊢ R12.pre c)
    (hpost12 : ∀ c : Dev nD, R12.post c ⊢ iprop(StableHlo.held (c : Thread nD τ) (Pipeline.ucRefs τ sig) (V38 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V39 m outs c) ∗ E 13 c) ⊢ R13.pre c)
    (hpost13 : ∀ c : Dev nD, R13.post c ⊢ iprop(StableHlo.held (c : Thread nD τ) (Pipeline.ucRefs τ sig) (V40 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V43 m outs c) ∗ E 14 c) ⊢ R14.pre c)
    (hpost14 : ∀ c : Dev nD, R14.post c ⊢ iprop(StableHlo.held (c : Thread nD τ) (Pipeline.ucRefs τ sig) (V44 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V45 m outs c) ∗ E 15 c) ⊢ R15.pre c)
    (hpost15 : ∀ c : Dev nD, R15.post c ⊢ iprop(StableHlo.held (c : Thread nD τ) (Pipeline.ucRefs τ sig) (V46 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V49 m outs c) ∗ E 16 c) ⊢ R16.pre c)
    (hpost16 : ∀ c : Dev nD, R16.post c ⊢ iprop(StableHlo.held (c : Thread nD τ) (Pipeline.ucRefs τ sig) (V50 m outs c) ∗ E 17 c)) :
    θ_run defs (onTc (τ := τ) (main (F := F))) ⟨m, fun _ => 0, ρ⟩ (fun r => ∀ c : Dev nD, ∀ b ∈ Pipeline.ucRefs τ sig, r.2.mem (((c : Thread nD τ)).1, b) = V51 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16)
    (fun c Q => by
      rewrite [main_chain c, Seg.run_eq_chain,
        show (segs m outs 𝒱₀ L lv E ι pdats R0 R1 R2 R3 R4 R5 R6 R7 R8 R9 R10 R11 R12 R13 R14 R15 R16 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          Prog.lift (.customCall (Pipeline.entry 6) ()),
          StableHlo.seq hostOps7,
          Prog.lift (.customCall (Pipeline.entry 7) ()),
          StableHlo.seq hostOps8,
          StableHlo.seq hostOps8_1,
          StableHlo.seq hostOps8_2,
          Prog.lift (.customCall (Pipeline.entry 8) ()),
          StableHlo.seq hostOps9,
          Prog.lift (.customCall (Pipeline.entry 9) ()),
          StableHlo.seq hostOps10,
          StableHlo.seq hostOps10_1,
          StableHlo.seq hostOps10_2,
          Prog.lift (.customCall (Pipeline.entry 10) ()),
          StableHlo.seq hostOps11,
          Prog.lift (.customCall (Pipeline.entry 11) ()),
          StableHlo.seq hostOps12,
          StableHlo.seq hostOps12_1,
          StableHlo.seq hostOps12_2,
          Prog.lift (.customCall (Pipeline.entry 12) ()),
          StableHlo.seq hostOps13,
          Prog.lift (.customCall (Pipeline.entry 13) ()),
          StableHlo.seq hostOps14,
          StableHlo.seq hostOps14_1,
          StableHlo.seq hostOps14_2,
          Prog.lift (.customCall (Pipeline.entry 14) ()),
          StableHlo.seq hostOps15,
          Prog.lift (.customCall (Pipeline.entry 15) ()),
          StableHlo.seq hostOps16,
          StableHlo.seq hostOps16_1,
          StableHlo.seq hostOps16_2,
          Prog.lift (.customCall (Pipeline.entry 16) ()),
          StableHlo.seq hostOps17 ] from rfl]
      exact .rfl)
    (fun c => by simp only [segs, Seg.pipes_host, Seg.pipes_region, Seg.pipes_nil]; decide +kernel) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V51 m outs c))
    (hch := fun c => ⟨.rfl, hpre0 c, hpost0 c, hpre1 c, hpost1 c, .rfl, .rfl, hpre2 c, hpost2 c, hpre3 c, hpost3 c, .rfl, .rfl, hpre4 c, hpost4 c, hpre5 c, hpost5 c, .rfl, .rfl, hpre6 c, hpost6 c, hpre7 c, hpost7 c, .rfl, .rfl, hpre8 c, hpost8 c, hpre9 c, hpost9 c, .rfl, .rfl, hpre10 c, hpost10 c, hpre11 c, hpost11 c, .rfl, .rfl, hpre12 c, hpost12 c, hpre13 c, hpost13 c, .rfl, .rfl, hpre14 c, hpost14 c, hpre15 c, hpost15 c, .rfl, .rfl, hpre16 c, hpost16 c, sep_mono .rfl (hE17 c)⟩)
    (hinit := ?_) (QY := fun c s => ∀ b ∈ Pipeline.ucRefs τ sig, s.mem (((c : Thread nD τ)).1, b) = V51 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V51 m outs c) s') $$ [Hh HSI]
    · isplitl [Hh] <;> iassumption
    icases Hr with ⟨%h, HSI⟩
    imodintro
    isplitr
    · ipureintro
      exact h
    · iexact HSI

end Cert.Kernel.Gen

end
-- ==== Proof.KGlobals.lean ====
/-
  The choices every region of the word-level kernel's frame shares, and the three facts about them that the conditional
  frame asks for beside the regions' records.

  Nothing is ever owed between cores in this program (no core waits for another), so no level is assigned and the user
  algebra is the library's rounds algebra alone. What rides beside the unscoped buffers from one segment of @main to the
  next is the same on every boundary: the core's generator register at SOME state and the core owing nothing.
  * at launch the dealt resources give that rest state on every core at once (the staged semaphores and the launch
    credit are not needed and are dropped);
  * the rest state ends owing nothing.
-/
import proofs.«146189_j40922448396571_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

noncomputable section

namespace Cert.Kernel.Glob

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The model of resources: no index of dues, the rounds algebra, levels in ℕ. -/
local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers through every segment. -/
abbrev R (c : Dev nD) : sProp 𝕄 :=
  iprop((∃ r, prngReg c r) ∗ ∃ W, owes (c : Thread nD τ) (0 : CellTallies nD τ sig Unit) W)

/-- The launch's ghost state is the rounds algebra's initial element; nothing else is handed out. -/
theorem hu₀ :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch every core gets its rest state: its generator register (at the launch state) and owing nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  have hc : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ R (F := F) c := by
    intro c
    iintro ⟨-, HO, -, Hp, -⟩
    isplitl [Hp]; · iexists _; iexact Hp
    iexists ∅; iexact HO
  have h1 : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => R (F := F) c) : sProp 𝕄) :=
    bigSep_mono fun c _ => hc c
  iintro ⟨H, -⟩
  imodintro
  iapply h1
  iexact H

/-- The rest state ends owing nothing. -/
theorem hEn (c : Dev nD) :
    R (F := F) c ⊢ (iprop(∃ W, owes (c : Thread nD τ) (0 : CellTallies nD τ sig Unit) W) : sProp 𝕄) := by
  iintro ⟨-, HO⟩
  iexact HO

end Cert.Kernel.Glob

end
-- ==== Proof.KFrameCond.lean ====
/- The frame of the word-level kernel from its seventeen regions' records alone: the conditional frame with everything
  that is not a region discharged by the shared choices (no dues, no levels, the rest state "generator register at some
  state, nothing owed" on every boundary). The seventeen hypothesis triples below are one row each of the table
  (region, valuation before it); the statement's post is the conditional frame's own.
-/
import proofs.«146189_j40922448396571_2_alg».proof.Proof.KRegions
import proofs.«146189_j40922448396571_2_alg».proof.Proof.KRun
import proofs.«146189_j40922448396571_2_alg».proof.Proof.KGlobals

noncomputable section

namespace Cert.Kernel.Glob

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

set_option backward.isDefEq.respectTransparency.types false in
set_option maxHeartbeats 1000000 in
/-- Every weakly fair execution of @main terminates with the argument arrays as launched, given a record per region
    entered from the valuation before it and left at the one after it, the rest state beside both. -/
theorem frame_of_records (m : (ℓ : Loc nD τ sig) → Buf (Elt F) ℓ) (ρ : Dev nD → PrngReg) (outs : Outs (F := F))
    (pdats : (p : Fin 17) → (c : Dev nD) → Dat τ (Elt F) Unit ℕ (UR sig nD τ) ℕ (cfgs p) c)
    (R0 : RegionSeg (pcfgs (F := F)) adm pdats () defs₀ 𝒱₀ L lv 0)
    (hpre0 : ∀ c : Dev nD, iprop(StableHlo.held (c : Thread nD τ) (Pipeline.ucRefs τ sig) (V1 m c) ∗ R (F := F) c) ⊢ R0.pre c)
    (hpost0 : ∀ c : Dev nD, R0.post c ⊢ iprop(StableHlo.held (c : Thread nD τ) (Pipeline.ucRefs τ sig) (V2 m outs c) ∗ R (F := F) c))
    (R1 : RegionSeg (pcfgs (F := F)) adm pdats () defs₀ 𝒱₀ L lv 1)
    (hpre1 : ∀ c : Dev nD, iprop(StableHlo.held (c : Thread nD τ) (Pipeline.ucRefs τ sig) (V3 m outs c) ∗ R (F := F) c) ⊢ R1.pre c)
    (hpost1 : ∀ c : Dev nD, R1.post c ⊢ iprop(StableHlo.held (c : Thread nD τ) (Pipeline.ucRefs τ sig) (V4 m outs c) ∗ R (F := F) c))
    (R2 : RegionSeg (pcfgs (F := F)) adm pdats () defs₀ 𝒱₀ L lv 2)
    (hpre2 : ∀ c : Dev nD, iprop(StableHlo.held (c : Thread nD τ) (Pipeline.ucRefs τ sig) (V7 m outs c) ∗ R (F := F) c) ⊢ R2.pre c)
    (hpost2 : ∀ c : Dev nD, R2.post c ⊢ iprop(StableHlo.held (c : Thread nD τ) (Pipeline.ucRefs τ sig) (V8 m outs c) ∗ R (F := F) c))
    (R3 : RegionSeg (pcfgs (F := F)) adm pdats () defs₀ 𝒱₀ L lv 3)
    (hpre3 : ∀ c : Dev nD, iprop(StableHlo.held (c : Thread nD τ) (Pipeline.ucRefs τ sig) (V9 m outs c) ∗ R (F := F) c) ⊢ R3.pre c)
    (hpost3 : ∀ c : Dev nD, R3.post c ⊢ iprop(StableHlo.held (c : Thread nD τ) (Pipeline.ucRefs τ sig) (V10 m outs c) ∗ R (F := F) c))
    (R4 : RegionSeg (pcfgs (F := F)) adm pdats () defs₀ 𝒱₀ L lv 4)
    (hpre4 : ∀ c : Dev nD, iprop(StableHlo.held (c : Thread nD τ) (Pipeline.ucRefs τ sig) (V13 m outs c) ∗ R (F := F) c) ⊢ R4.pre c)
    (hpost4 : ∀ c : Dev nD, R4.post c ⊢ iprop(StableHlo.held (c : Thread nD τ) (Pipeline.ucRefs τ sig) (V14 m outs c) ∗ R (F := F) c))
    (R5 : RegionSeg (pcfgs (F := F)) adm pdats () defs₀ 𝒱₀ L lv 5)
    (hpre5 : ∀ c : Dev nD, iprop(StableHlo.held (c : Thread nD τ) (Pipeline.ucRefs τ sig) (V15 m outs c) ∗ R (F := F) c) ⊢ R5.pre c)
    (hpost5 : ∀ c : Dev nD, R5.post c ⊢ iprop(StableHlo.held (c : Thread nD τ) (Pipeline.ucRefs τ sig) (V16 m outs c) ∗ R (F := F) c))
    (R6 : RegionSeg (pcfgs (F := F)) adm pdats () defs₀ 𝒱₀ L lv 6)
    (hpre6 : ∀ c : Dev nD, iprop(StableHlo.held (c : Thread nD τ) (Pipeline.ucRefs τ sig) (V19 m outs c) ∗ R (F := F) c) ⊢ R6.pre c)
    (hpost6 : ∀ c : Dev nD, R6.post c ⊢ iprop(StableHlo.held (c : Thread nD τ) (Pipeline.ucRefs τ sig) (V20 m outs c) ∗ R (F := F) c))
    (R7 : RegionSeg (pcfgs (F := F)) adm pdats () defs₀ 𝒱₀ L lv 7)
    (hpre7 : ∀ c : Dev nD, iprop(StableHlo.held (c : Thread nD τ) (Pipeline.ucRefs τ sig) (V21 m outs c) ∗ R (F := F) c) ⊢ R7.pre c)
    (hpost7 : ∀ c : Dev nD, R7.post c ⊢ iprop(StableHlo.held (c : Thread nD τ) (Pipeline.ucRefs τ sig) (V22 m outs c) ∗ R (F := F) c))
    (R8 : RegionSeg (pcfgs (F := F)) adm pdats () defs₀ 𝒱₀ L lv 8)
    (hpre8 : ∀ c : Dev nD, iprop(StableHlo.held (c : Thread nD τ) (Pipeline.ucRefs τ sig) (V25 m outs c) ∗ R (F := F) c) ⊢ R8.pre c)
    (hpost8 : ∀ c : Dev nD, R8.post c ⊢ iprop(StableHlo.held (c : Thread nD τ) (Pipeline.ucRefs τ sig) (V26 m outs c) ∗ R (F := F) c))
    (R9 : RegionSeg (pcfgs (F := F)) adm pdats () defs₀ 𝒱₀ L lv 9)
    (hpre9 : ∀ c : Dev nD, iprop(StableHlo.held (c : Thread nD τ) (Pipeline.ucRefs τ sig) (V27 m outs c) ∗ R (F := F) c) ⊢ R9.pre c)
    (hpost9 : ∀ c : Dev nD, R9.post c ⊢ iprop(StableHlo.held (c : Thread nD τ) (Pipeline.ucRefs τ sig) (V28 m outs c) ∗ R (F := F) c))
    (R10 : RegionSeg (pcfgs (F := F)) adm pdats () defs₀ 𝒱₀ L lv 10)
    (hpre10 : ∀ c : Dev nD, iprop(StableHlo.held (c : Thread nD τ) (Pipeline.ucRefs τ sig) (V31 m outs c) ∗ R (F := F) c) ⊢ R10.pre c)
    (hpost10 : ∀ c : Dev nD, R10.post c ⊢ iprop(StableHlo.held (c : Thread nD τ) (Pipeline.ucRefs τ sig) (V32 m outs c) ∗ R (F := F) c))
    (R11 : RegionSeg (pcfgs (F := F)) adm pdats () defs₀ 𝒱₀ L lv 11)
    (hpre11 : ∀ c : Dev nD, iprop(StableHlo.held (c : Thread nD τ) (Pipeline.ucRefs τ sig) (V33 m outs c) ∗ R (F := F) c) ⊢ R11.pre c)
    (hpost11 : ∀ c : Dev nD, R11.post c ⊢ iprop(StableHlo.held (c : Thread nD τ) (Pipeline.ucRefs τ sig) (V34 m outs c) ∗ R (F := F) c))
    (R12 : RegionSeg (pcfgs (F := F)) adm pdats () defs₀ 𝒱₀ L lv 12)
    (hpre12 : ∀ c : Dev nD, iprop(StableHlo.held (c : Thread nD τ) (Pipeline.ucRefs τ sig) (V37 m outs c) ∗ R (F := F) c) ⊢ R12.pre c)
    (hpost12 : ∀ c : Dev nD, R12.post c ⊢ iprop(StableHlo.held (c : Thread nD τ) (Pipeline.ucRefs τ sig) (V38 m outs c) ∗ R (F := F) c))
    (R13 : RegionSeg (pcfgs (F := F)) adm pdats () defs₀ 𝒱₀ L lv 13)
    (hpre13 : ∀ c : Dev nD, iprop(StableHlo.held (c : Thread nD τ) (Pipeline.ucRefs τ sig) (V39 m outs c) ∗ R (F := F) c) ⊢ R13.pre c)
    (hpost13 : ∀ c : Dev nD, R13.post c ⊢ iprop(StableHlo.held (c : Thread nD τ) (Pipeline.ucRefs τ sig) (V40 m outs c) ∗ R (F := F) c))
    (R14 : RegionSeg (pcfgs (F := F)) adm pdats () defs₀ 𝒱₀ L lv 14)
    (hpre14 : ∀ c : Dev nD, iprop(StableHlo.held (c : Thread nD τ) (Pipeline.ucRefs τ sig) (V43 m outs c) ∗ R (F := F) c) ⊢ R14.pre c)
    (hpost14 : ∀ c : Dev nD, R14.post c ⊢ iprop(StableHlo.held (c : Thread nD τ) (Pipeline.ucRefs τ sig) (V44 m outs c) ∗ R (F := F) c))
    (R15 : RegionSeg (pcfgs (F := F)) adm pdats () defs₀ 𝒱₀ L lv 15)
    (hpre15 : ∀ c : Dev nD, iprop(StableHlo.held (c : Thread nD τ) (Pipeline.ucRefs τ sig) (V45 m outs c) ∗ R (F := F) c) ⊢ R15.pre c)
    (hpost15 : ∀ c : Dev nD, R15.post c ⊢ iprop(StableHlo.held (c : Thread nD τ) (Pipeline.ucRefs τ sig) (V46 m outs c) ∗ R (F := F) c))
    (R16 : RegionSeg (pcfgs (F := F)) adm pdats () defs₀ 𝒱₀ L lv 16)
    (hpre16 : ∀ c : Dev nD, iprop(StableHlo.held (c : Thread nD τ) (Pipeline.ucRefs τ sig) (V49 m outs c) ∗ R (F := F) c) ⊢ R16.pre c)
    (hpost16 : ∀ c : Dev nD, R16.post c ⊢ iprop(StableHlo.held (c : Thread nD τ) (Pipeline.ucRefs τ sig) (V50 m outs c) ∗ R (F := F) c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_cond m emb₁ () 𝒱₀ L lv (fun _ _ => rfl) ρ outs pdats 0 (fun _ => iprop(emp))
    (initOf (Pipeline.cells cfgs cellOf_inj) (Pipeline.launchToks cfgs cellOf_inj)) hu₀
    (fun _ c => R (F := F) c) (hE0 ρ) hEn
    R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12 R13 hpre13 hpost13 R14 hpre14 hpost14 R15 hpre15 hpost15 R16 hpre16 hpost16

set_option backward.isDefEq.respectTransparency.types false in
set_option maxHeartbeats 1000000 in
/-- The same with every unscoped buffer named: each ends at the last valuation. -/
theorem run_of_records (m : (ℓ : Loc nD τ sig) → Buf (Elt F) ℓ) (ρ : Dev nD → PrngReg) (outs : Outs (F := F))
    (pdats : (p : Fin 17) → (c : Dev nD) → Dat τ (Elt F) Unit ℕ (UR sig nD τ) ℕ (cfgs p) c)
    (R0 : RegionSeg (pcfgs (F := F)) adm pdats () defs₀ 𝒱₀ L lv 0)
    (hpre0 : ∀ c : Dev nD, iprop(StableHlo.held (c : Thread nD τ) (Pipeline.ucRefs τ sig) (V1 m c) ∗ R (F := F) c) ⊢ R0.pre c)
    (hpost0 : ∀ c : Dev nD, R0.post c ⊢ iprop(StableHlo.held (c : Thread nD τ) (Pipeline.ucRefs τ sig) (V2 m outs c) ∗ R (F := F) c))
    (R1 : RegionSeg (pcfgs (F := F)) adm pdats () defs₀ 𝒱₀ L lv 1)
    (hpre1 : ∀ c : Dev nD, iprop(StableHlo.held (c : Thread nD τ) (Pipeline.ucRefs τ sig) (V3 m outs c) ∗ R (F := F) c) ⊢ R1.pre c)
    (hpost1 : ∀ c : Dev nD, R1.post c ⊢ iprop(StableHlo.held (c : Thread nD τ) (Pipeline.ucRefs τ sig) (V4 m outs c) ∗ R (F := F) c))
    (R2 : RegionSeg (pcfgs (F := F)) adm pdats () defs₀ 𝒱₀ L lv 2)
    (hpre2 : ∀ c : Dev nD, iprop(StableHlo.held (c : Thread nD τ) (Pipeline.ucRefs τ sig) (V7 m outs c) ∗ R (F := F) c) ⊢ R2.pre c)
    (hpost2 : ∀ c : Dev nD, R2.post c ⊢ iprop(StableHlo.held (c : Thread nD τ) (Pipeline.ucRefs τ sig) (V8 m outs c) ∗ R (F := F) c))
    (R3 : RegionSeg (pcfgs (F := F)) adm pdats () defs₀ 𝒱₀ L lv 3)
    (hpre3 : ∀ c : Dev nD, iprop(StableHlo.held (c : Thread nD τ) (Pipeline.ucRefs τ sig) (V9 m outs c) ∗ R (F := F) c) ⊢ R3.pre c)
    (hpost3 : ∀ c : Dev nD, R3.post c ⊢ iprop(StableHlo.held (c : Thread nD τ) (Pipeline.ucRefs τ sig) (V10 m outs c) ∗ R (F := F) c))
    (R4 : RegionSeg (pcfgs (F := F)) adm pdats () defs₀ 𝒱₀ L lv 4)
    (hpre4 : ∀ c : Dev nD, iprop(StableHlo.held (c : Thread nD τ) (Pipeline.ucRefs τ sig) (V13 m outs c) ∗ R (F := F) c) ⊢ R4.pre c)
    (hpost4 : ∀ c : Dev nD, R4.post c ⊢ iprop(StableHlo.held (c : Thread nD τ) (Pipeline.ucRefs τ sig) (V14 m outs c) ∗ R (F := F) c))
    (R5 : RegionSeg (pcfgs (F := F)) adm pdats () defs₀ 𝒱₀ L lv 5)
    (hpre5 : ∀ c : Dev nD, iprop(StableHlo.held (c : Thread nD τ) (Pipeline.ucRefs τ sig) (V15 m outs c) ∗ R (F := F) c) ⊢ R5.pre c)
    (hpost5 : ∀ c : Dev nD, R5.post c ⊢ iprop(StableHlo.held (c : Thread nD τ) (Pipeline.ucRefs τ sig) (V16 m outs c) ∗ R (F := F) c))
    (R6 : RegionSeg (pcfgs (F := F)) adm pdats () defs₀ 𝒱₀ L lv 6)
    (hpre6 : ∀ c : Dev nD, iprop(StableHlo.held (c : Thread nD τ) (Pipeline.ucRefs τ sig) (V19 m outs c) ∗ R (F := F) c) ⊢ R6.pre c)
    (hpost6 : ∀ c : Dev nD, R6.post c ⊢ iprop(StableHlo.held (c : Thread nD τ) (Pipeline.ucRefs τ sig) (V20 m outs c) ∗ R (F := F) c))
    (R7 : RegionSeg (pcfgs (F := F)) adm pdats () defs₀ 𝒱₀ L lv 7)
    (hpre7 : ∀ c : Dev nD, iprop(StableHlo.held (c : Thread nD τ) (Pipeline.ucRefs τ sig) (V21 m outs c) ∗ R (F := F) c) ⊢ R7.pre c)
    (hpost7 : ∀ c : Dev nD, R7.post c ⊢ iprop(StableHlo.held (c : Thread nD τ) (Pipeline.ucRefs τ sig) (V22 m outs c) ∗ R (F := F) c))
    (R8 : RegionSeg (pcfgs (F := F)) adm pdats () defs₀ 𝒱₀ L lv 8)
    (hpre8 : ∀ c : Dev nD, iprop(StableHlo.held (c : Thread nD τ) (Pipeline.ucRefs τ sig) (V25 m outs c) ∗ R (F := F) c) ⊢ R8.pre c)
    (hpost8 : ∀ c : Dev nD, R8.post c ⊢ iprop(StableHlo.held (c : Thread nD τ) (Pipeline.ucRefs τ sig) (V26 m outs c) ∗ R (F := F) c))
    (R9 : RegionSeg (pcfgs (F := F)) adm pdats () defs₀ 𝒱₀ L lv 9)
    (hpre9 : ∀ c : Dev nD, iprop(StableHlo.held (c : Thread nD τ) (Pipeline.ucRefs τ sig) (V27 m outs c) ∗ R (F := F) c) ⊢ R9.pre c)
    (hpost9 : ∀ c : Dev nD, R9.post c ⊢ iprop(StableHlo.held (c : Thread nD τ) (Pipeline.ucRefs τ sig) (V28 m outs c) ∗ R (F := F) c))
    (R10 : RegionSeg (pcfgs (F := F)) adm pdats () defs₀ 𝒱₀ L lv 10)
    (hpre10 : ∀ c : Dev nD, iprop(StableHlo.held (c : Thread nD τ) (Pipeline.ucRefs τ sig) (V31 m outs c) ∗ R (F := F) c) ⊢ R10.pre c)
    (hpost10 : ∀ c : Dev nD, R10.post c ⊢ iprop(StableHlo.held (c : Thread nD τ) (Pipeline.ucRefs τ sig) (V32 m outs c) ∗ R (F := F) c))
    (R11 : RegionSeg (pcfgs (F := F)) adm pdats () defs₀ 𝒱₀ L lv 11)
    (hpre11 : ∀ c : Dev nD, iprop(StableHlo.held (c : Thread nD τ) (Pipeline.ucRefs τ sig) (V33 m outs c) ∗ R (F := F) c) ⊢ R11.pre c)
    (hpost11 : ∀ c : Dev nD, R11.post c ⊢ iprop(StableHlo.held (c : Thread nD τ) (Pipeline.ucRefs τ sig) (V34 m outs c) ∗ R (F := F) c))
    (R12 : RegionSeg (pcfgs (F := F)) adm pdats () defs₀ 𝒱₀ L lv 12)
    (hpre12 : ∀ c : Dev nD, iprop(StableHlo.held (c : Thread nD τ) (Pipeline.ucRefs τ sig) (V37 m outs c) ∗ R (F := F) c) ⊢ R12.pre c)
    (hpost12 : ∀ c : Dev nD, R12.post c ⊢ iprop(StableHlo.held (c : Thread nD τ) (Pipeline.ucRefs τ sig) (V38 m outs c) ∗ R (F := F) c))
    (R13 : RegionSeg (pcfgs (F := F)) adm pdats () defs₀ 𝒱₀ L lv 13)
    (hpre13 : ∀ c : Dev nD, iprop(StableHlo.held (c : Thread nD τ) (Pipeline.ucRefs τ sig) (V39 m outs c) ∗ R (F := F) c) ⊢ R13.pre c)
    (hpost13 : ∀ c : Dev nD, R13.post c ⊢ iprop(StableHlo.held (c : Thread nD τ) (Pipeline.ucRefs τ sig) (V40 m outs c) ∗ R (F := F) c))
    (R14 : RegionSeg (pcfgs (F := F)) adm pdats () defs₀ 𝒱₀ L lv 14)
    (hpre14 : ∀ c : Dev nD, iprop(StableHlo.held (c : Thread nD τ) (Pipeline.ucRefs τ sig) (V43 m outs c) ∗ R (F := F) c) ⊢ R14.pre c)
    (hpost14 : ∀ c : Dev nD, R14.post c ⊢ iprop(StableHlo.held (c : Thread nD τ) (Pipeline.ucRefs τ sig) (V44 m outs c) ∗ R (F := F) c))
    (R15 : RegionSeg (pcfgs (F := F)) adm pdats () defs₀ 𝒱₀ L lv 15)
    (hpre15 : ∀ c : Dev nD, iprop(StableHlo.held (c : Thread nD τ) (Pipeline.ucRefs τ sig) (V45 m outs c) ∗ R (F := F) c) ⊢ R15.pre c)
    (hpost15 : ∀ c : Dev nD, R15.post c ⊢ iprop(StableHlo.held (c : Thread nD τ) (Pipeline.ucRefs τ sig) (V46 m outs c) ∗ R (F := F) c))
    (R16 : RegionSeg (pcfgs (F := F)) adm pdats () defs₀ 𝒱₀ L lv 16)
    (hpre16 : ∀ c : Dev nD, iprop(StableHlo.held (c : Thread nD τ) (Pipeline.ucRefs τ sig) (V49 m outs c) ∗ R (F := F) c) ⊢ R16.pre c)
    (hpost16 : ∀ c : Dev nD, R16.post c ⊢ iprop(StableHlo.held (c : Thread nD τ) (Pipeline.ucRefs τ sig) (V50 m outs c) ∗ R (F := F) c)) :
    θ_run defs (onTc (τ := τ) (main (F := F))) ⟨m, fun _ => 0, ρ⟩ (fun r => ∀ c : Dev nD, ∀ b ∈ Pipeline.ucRefs τ sig, r.2.mem (((c : Thread nD τ)).1, b) = V51 m outs c b) :=
  run_cond m emb₁ () 𝒱₀ L lv (fun _ _ => rfl) ρ outs pdats 0 (fun _ => iprop(emp))
    (initOf (Pipeline.cells cfgs cellOf_inj) (Pipeline.launchToks cfgs cellOf_inj)) hu₀
    (fun _ c => R (F := F) c) (hE0 ρ) hEn
    R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12 R13 hpre13 hpost13 R14 hpre14 hpost14 R15 hpre15 hpost15 R16 hpre16 hpost16

end Cert.Kernel.Glob

end
-- ==== Proof.KRegion0Body.lean ====
/- Region 0 of the word-level kernel program (custom_call 0, the 16 → 256 matmul): the class-A half of its frame,
   stated at a parameter `V` — the TensorCore's buffer contents when the region is entered. For each window its
   block at a grid point, the contents the body leaves in the output window's buffer as a function of the two
   input blocks, the body's triple, the pipeline's proof data and the library's body obligation. Generic in the
   float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 0 is entered
variable (V : (c : Dev nD) → (b : Ref sig .tc) → Buf (Elt F) ((c : Thread nD τ).loc b))

/-! ## The blocks of the three windows -/

/-- The block of window `w` at grid point `t`: the window's rectangle at `t` read off the window's array as the
    region finds it. Window 0 is rows `5000 t … 5000 t + 4999` of the [100000,16] operand, window 1 the whole
    [16,256] weight, window 2 the same rows of the [100000,256] result. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The row-block input (window 0): whatever proof data has the entry contents as its array and a body that leaves
    the block where it is, the staging buffer the body is handed at `t` holds the block at `t` — it was fetched
    at `t`, or its index has not moved since it was. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  refine (dat.before_in_eq_fetched 0 rfl (fun _ => rfl) (fun _ _ _ => rfl) (fun t => ?_) t d).trans ?_
  · rw [hafter]; unfold Dat.blockOf iblk0; rw [hA]; try rfl
  · unfold Dat.fetched Dat.blockOf iblk0; rw [hA]; try rfl

/-- The weight input (window 1, fetched once, its index constant): the same statement. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  refine (dat.before_in_eq_fetched 1 rfl (fun _ => rfl) (fun _ _ _ => rfl) (fun t => ?_) t d).trans ?_
  · rw [hafter]; unfold Dat.blockOf iblk0; rw [hA]; try rfl
  · unfold Dat.fetched Dat.blockOf iblk0; rw [hA]; try rfl

/-! ## The rectangles the body reads and writes: each staging buffer whole -/

abbrev r0_0 : Rect S5000x16 := Rect.unit (s := S5000x16) ![0, 0] S5000x16.size inb_S5000x16_S5000x16_0_0
abbrev r0_1 : Rect S16x256 := Rect.unit (s := S16x256) ![0, 0] S16x256.size inb_S16x256_S16x256_0_0
abbrev r0_2 : Rect S5000x256 := Rect.unit (s := S5000x256) ![0, 0] S5000x256.size inb_S5000x256_S5000x256_0_0

/-! ## What the body leaves in the output window's buffer -/

/-- The output staging buffer after the body, from the two input blocks: its one store, of the matmul payload of the
    two whole-buffer loads, written as a one-piece list. -/
def out0_2 (x0 : Vec F S5000x16 .f32) (x1 : Vec F S16x256 .f32) : Vec F S5000x256 .f32 :=
  View.canon [⟨r0_2, k0_pay1 (View.ld x0 r0_0) (View.ld x1 r0_1)⟩]

/-- The one store is of the whole buffer, so every index of the buffer lies in it. -/
theorem cover0_2 (p : Vec F S5000x256 .f32) (y : S5000x256.Idx) :
    ∃ pc ∈ ([⟨r0_2, p⟩] : List (View.Piece (Elt F) S5000x256 .f32)), y ∈ pc.1.set :=
  View.cover_of_tiled [⟨r0_2, p⟩] S5000x256.size (by rfl) y

/-! ## The body's triple -/

set_option maxHeartbeats 1000000 in
/-- The body at any grid coordinate `i`, on whole staging memrefs: the two inputs' read `x0`, `x1`, the output's
    holds anything. It runs to the continuation with the inputs' as they were and the output's at `out0_2 x0 x1`.
    (The body also loads the output buffer before storing to it; the loaded value is not used.) -/
theorem sound_kernel0 (c : Dev nD) (E : Set ℕ) (i : grid0.Coords)
    (arg1 : Memref sig .tc .vmem S5000x16 .f32) (harg1 : arg1.IsWhole)
    (arg2 : Memref sig .tc .vmem S16x256 .f32) (harg2 : arg2.IsWhole)
    (arg3 : Memref sig .tc .vmem S5000x256 .f32) (harg3 : arg3.IsWhole)
    (x0 : Vec F S5000x16 .f32) (x1 : Vec F S16x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__agg_kernel i arg1 harg1 arg2 harg2 arg3 harg3) K := by
  simp only [cc0__agg_kernel_eq_skeleton]; unfold cc0__agg_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- Region 0's proof data on core `c`: the three arrays as the region finds them; after the body at point `t` the two
    inputs' buffers at their blocks and the output's at `out0_2` of those blocks; the invariant the scoped rest and
    the generator register, untouched (`Pipeline.ΦA`); full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents (the structure projected; `V` is never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- What the body is handed in each input's buffer: its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`: the invariant, the core's dues, and each window's current staging
    buffer at what the pipeline put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same, each buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at a point: the inputs' buffers hold their blocks, so the body's triple applies at those blocks; the
    invariant and the dues are not read. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the proof data, at every point. -/
theorem body_obligation0 (c : Dev nD) : BodyObligation (dat0 (F := F) V c) (defs₀ (F := F)) Variants.none () Set.univ := fun t => by
  rw [bigSep_W0, bigSep_W0]
  exact sound_body0 V c t

end Cert.Kernel.Frame0

end
-- ==== Proof.KRegion0.lean ====
/- Region 0 of the word-level kernel program (custom_call 0) as a segment of @main: entered from every unscoped
   buffer at the contents after the first host stretch, left with the result array `main_v21` at what the pipeline's
   write-backs leave and every other buffer as entered. Stated over an arbitrary family of proof data whose member
   at pipeline 0 is this region's (`hp0`), and over any `outs` that names the result's final contents (`houts`). -/
import proofs.«146189_j40922448396571_2_alg».proof.Proof.KRegions
import proofs.«146189_j40922448396571_2_alg».proof.Proof.KRegion0Body

set_option maxRecDepth 16384

noncomputable section

namespace Cert.Kernel.Frame0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: after the first host stretch. -/
abbrev VV1 : (c : Dev nD) → (b : Ref sig .tc) → Buf (Elt F) ((c : Thread nD τ).loc b) := fun c b => V1 m c b
/-- Exit: the same with `main_v21` at `outs 2 main_v21`. -/
abbrev VV2 : (c : Dev nD) → (b : Ref sig .tc) → Buf (Elt F) ((c : Thread nD τ).loc b) := fun c b => V2 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 0 -/

variable (pdats : (p : Fin 17) → (c : Dev nD) → Dat τ (Elt F) Unit ℕ (UR sig nD τ) ℕ (cfgs p) c)

section Pinned
variable (hp0 : ∀ c, pdats 0 c = dat0 (VV1 m) c)
include hp0

theorem pd0_q (c : Dev nD) (w : Fin cfg0.W) : (pdats 0 c).q w = fullShare := by rw [hp0 c]; rfl
theorem pd0_owed (c : Dev nD) (t) : (pdats 0 c).owed t = 0 := by rw [hp0 c]; rfl
theorem pd0_A (c : Dev nD) (w : Fin cfg0.W) : (pdats 0 c).A w = VV1 m c (Pipeline.arrRef spec0 w) := by
  rw [hp0 c]; exact A_eq0 (VV1 m) c w
theorem pd0_Φ (c : Dev nD) (t) : (pdats 0 c).Φ t = Pipeline.ΦA spec0 c := by rw [hp0 c]; rfl
theorem pd0_recorded (c : Dev nD) (t) : (pdats 0 c).recorded t = Set.univ := by rw [hp0 c]; rfl

end Pinned

/-! ## The exit contents, at the region's arrays and off them -/

section Exit
variable (hp0 : ∀ c, pdats 0 c = dat0 (VV1 m) c)
  (houts : ∀ c, outs 2 main_v21 c = (dat0 (VV1 m) c).arrAt 2 cfg0.N)

include hp0 in
/-- The row-block operand's array ends as entered: no window writes it, and it is not the result's reference. -/
theorem hF0_0 (c : Dev nD) : (pdats 0 c).arrAt 0 cfg0.N = VV2 m outs c (Pipeline.arrRef spec0 0) := by
  rw [hp0 c]
  refine ((dat0 (VV1 m) c).arrAt_in 0 rfl _).trans ((A_eq0 (VV1 m) c 0).trans ?_)
  exact (Function.update_of_ne (StableHlo.devRef_ne_of_ne (by decide)) _ _).symm

include hp0 in
/-- So does the weight's. -/
theorem hF0_1 (c : Dev nD) : (pdats 0 c).arrAt 1 cfg0.N = VV2 m outs c (Pipeline.arrRef spec0 1) := by
  rw [hp0 c]
  refine ((dat0 (VV1 m) c).arrAt_in 1 rfl _).trans ((A_eq0 (VV1 m) c 1).trans ?_)
  exact (Function.update_of_ne (StableHlo.devRef_ne_of_ne (by decide)) _ _).symm

include hp0 houts in
/-- The result's array ends at what the write-backs leave, which is what `outs` names. -/
theorem hF0_2 (c : Dev nD) : (pdats 0 c).arrAt 2 cfg0.N = VV2 m outs c (Pipeline.arrRef spec0 2) := by
  rw [hp0 c, ← houts c]
  exact (Function.update_self (Proc.devRef (τ := τ) .tc main_v21) (outs 2 main_v21 c) (V1 m c)).symm

include hp0 houts in
theorem hF0 (c : Dev nD) : ∀ w : Fin cfg0.W, (pdats 0 c).arrAt w cfg0.N = VV2 m outs c (Pipeline.arrRef spec0 w)
  | ⟨0, _⟩ => hF0_0 m outs pdats hp0 c
  | ⟨1, _⟩ => hF0_1 m outs pdats hp0 c
  | ⟨2, _⟩ => hF0_2 m outs pdats hp0 houts c

/-- Off the region's three arrays the exit contents are the entry contents: only `main_v21` is updated, and it is
    window 2's array. -/
theorem hrest0 (c : Dev nD) : ∀ b, b ∉ Finset.univ.image (Pipeline.arrRef spec0) → VV2 m outs c b = VV1 m c b :=
  fun b hb => Function.update_of_ne
    (fun e => hb (Finset.mem_image.mpr ⟨2, Finset.mem_univ _, (Proc.devRef_injective _ e).symm⟩)) _ _

end Exit

/-! ## The region as a segment -/

section Record
variable (hp0 : ∀ c, pdats 0 c = dat0 (VV1 m) c)
  (houts : ∀ c, outs 2 main_v21 c = (dat0 (VV1 m) c).arrAt 2 cfg0.N)

-- a library lemma stated over the pinned configuration `pin pcs a p` is applied to the printed one: unification has
-- to unfold plain definitions in a metavariable's type
set_option backward.isDefEq.respectTransparency.types false in
/-- Region 0 over the thread state "every unscoped buffer at the boundary's contents, beside `R`". Entry: the three
    arrays are split out of the unscoped buffers at the entry contents; the generator register goes into the
    invariant; nothing is owed; the kernel has no semaphore of its own. Exit: the arrays are put back at the exit
    contents (`hF0`, `hrest0`) and the register comes back. -/
def reg0 : RegionSeg (pcfgs (F := F)) adm pdats () defs₀ 𝒱₀ L lv 0 where
  win := launch0.win.to₀
  block_pos := launch0.block_pos
  stage_whole := launch0.stage_whole
  K := PEmpty
  osem k := k.elim
  ho := Pipeline.OwnSemFacts.none _
  hbody c := by rw [hp0 c]; exact (body_obligation0 (VV1 m) c).loose
  hwaits := Pipeline.hwaits_of_owed_zero _ _ _ _ L lv 0 fun c t => pd0_owed m pdats hp0 c t
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm pdats launch0.win launch0.arr_whole c
      ((pdats 0 c).share_full fun w => pd0_q m pdats hp0 c w) (VV1 m c) fun w => pd0_A m pdats hp0 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd0_owed m pdats hp0 c]
      icases HO with ⟨%W, HO⟩; iexists W; isplitr; · ipureintro; exact fun x _ => Or.inl (by rw [pd0_recorded m pdats hp0 c]; exact Set.mem_univ x)
      iexact HO
    isplitl [Hp]; · iexact Hp
    iexact Hrest
  hin c := by
    rw [pd0_Φ m pdats hp0 c 0]; unfold Pipeline.ΦA
    iintro ⟨Hp, -, Hr⟩
    isplitl [Hr]; · iexact Hr
    iexact Hp
  hout c := by
    rw [Pipeline.ownSems0_none, pd0_Φ m pdats hp0 c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats ((pdats 0 c).share_full fun w => pd0_q m pdats hp0 c w)
      (VV1 m c) (VV2 m outs c) ((pdats 0 c).arrAt · cfg0.N) (hF0 m outs pdats hp0 houts c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd0_owed m pdats hp0 c]
    icases HO with ⟨%W, -, HO⟩; iexists W; iexact HO

/-- The record is entered from the conditional frame's thread state before item 1 (with the rest state `R`), -/
theorem hpre0 (c : Dev nD) :
    iprop(StableHlo.held (c : Thread nD τ) (Pipeline.ucRefs τ sig) (V1 m c) ∗ R (F := F) c)
      ⊢ (reg0 m outs pdats hp0 houts).pre c := .rfl

/-- and left at the one after it. -/
theorem hpost0 (c : Dev nD) :
    (reg0 m outs pdats hp0 houts).post c
      ⊢ iprop(StableHlo.held (c : Thread nD τ) (Pipeline.ucRefs τ sig) (V2 m outs c) ∗ R (F := F) c) := .rfl

end Record

end Cert.Kernel.Frame0

end
-- ==== Proof.KRegion1Body.lean ====
/- Region 1 of the word-level kernel program (custom_call 1: a 64 → 64 matmul, plus a bias row, plus a second
   operand added elementwise): the class-A half of its frame, stated at a parameter `V` — the TensorCore's buffer
   contents when the region is entered. For each of the five windows its block at a grid point, the contents the body
   leaves in the output window's buffer as a function of the four input blocks, the body's triple, the pipeline's
   proof data and the library's body obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 1 is entered
variable (V : (c : Dev nD) → (b : Ref sig .tc) → Buf (Elt F) ((c : Thread nD τ).loc b))

/-! ## The blocks of the five windows -/

/-- The block of window `w` at grid point `t`: the window's rectangle at `t` read off the window's array as the
    region finds it. Window 0 is rows `5000 t … 5000 t + 4999` of the [100000,64] left operand, window 1 the whole
    [64,64] weight, window 2 the whole [1,64] bias row, window 3 the same rows of the [100000,64] operand that is
    added, window 4 the same rows of the [100000,64] result. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- An input window whose body leaves its block where it is: whatever proof data has the entry contents as the
    window's array and the block as what the body leaves, the staging buffer the body is handed at `t` holds the block
    at `t` — it was fetched at `t`, or the window's index has not moved since it was. Window 0, the row block of
    the left operand (fetched at every point). -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  refine (dat.before_in_eq_fetched 0 rfl (fun _ => rfl) (fun _ _ _ => rfl) (fun t => ?_) t d).trans ?_
  · rw [hafter]; unfold Dat.blockOf iblk1; rw [hA]; try rfl
  · unfold Dat.fetched Dat.blockOf iblk1; rw [hA]; try rfl

/-- Window 1, the weight (fetched once; its index is constant): the same statement. -/
theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  refine (dat.before_in_eq_fetched 1 rfl (fun _ => rfl) (fun _ _ _ => rfl) (fun t => ?_) t d).trans ?_
  · rw [hafter]; unfold Dat.blockOf iblk1; rw [hA]; try rfl
  · unfold Dat.fetched Dat.blockOf iblk1; rw [hA]; try rfl

/-- Window 2, the bias row (fetched once; its index is constant): the same statement. -/
theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  refine (dat.before_in_eq_fetched 2 rfl (fun _ => rfl) (fun _ _ _ => rfl) (fun t => ?_) t d).trans ?_
  · rw [hafter]; unfold Dat.blockOf iblk1; rw [hA]; try rfl
  · unfold Dat.fetched Dat.blockOf iblk1; rw [hA]; try rfl

/-- Window 3, the row block of the operand that is added (fetched at every point): the same statement. -/
theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  refine (dat.before_in_eq_fetched 3 rfl (fun _ => rfl) (fun _ _ _ => rfl) (fun t => ?_) t d).trans ?_
  · rw [hafter]; unfold Dat.blockOf iblk1; rw [hA]; try rfl
  · unfold Dat.fetched Dat.blockOf iblk1; rw [hA]; try rfl

/-! ## The rectangles the body reads and writes: each staging buffer whole -/

abbrev r1_a : Rect S5000x64 := Rect.unit (s := S5000x64) ![0, 0] S5000x64.size inb_S5000x64_S5000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0

/-! ## What the body leaves in the output window's buffer -/

/-- The output staging buffer after the body, from the four input blocks: its one store, of the payload
    `x0 · x1 + (the row x2 on every row) + x3` of the four whole-buffer loads, written as a one-piece list. -/
def out1_4 (x0 : Vec F S5000x64 .f32) (x1 : Vec F S64x64 .f32) (x2 : Vec F S1x64 .f32) (x3 : Vec F S5000x64 .f32) :
    Vec F S5000x64 .f32 :=
  View.canon [⟨r1_a, k1_pay1 (View.ld x0 r1_a) (View.ld x1 r1_w) (View.ld x2 r1_b) (View.ld x3 r1_a)⟩]

/-- The one store is of the whole buffer, so every index of the buffer lies in it. -/
theorem cover1_4 (p : Vec F S5000x64 .f32) (y : S5000x64.Idx) :
    ∃ pc ∈ ([⟨r1_a, p⟩] : List (View.Piece (Elt F) S5000x64 .f32)), y ∈ pc.1.set :=
  View.cover_of_tiled [⟨r1_a, p⟩] S5000x64.size (by rfl) y

/-! ## The body's triple -/

set_option maxHeartbeats 1000000 in
/-- The body at any grid coordinate `i`, on whole staging memrefs: the four inputs' read `x0 … x3`, the output's
    holds anything. It runs to the continuation with the inputs' as they were and the output's at
    `out1_4 x0 x1 x2 x3`. (The body also loads the output buffer before storing to it; the loaded value is not used.) -/
theorem sound_kernel1 (c : Dev nD) (E : Set ℕ) (i : grid1.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__linear_extra_kernel i arg1 harg1 arg2 harg2 arg3 harg3 arg4 harg4 arg5 harg5) K := by
  simp only [cc1__linear_extra_kernel_eq_skeleton]; unfold cc1__linear_extra_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data of the pipeline -/

/-- Region 1's proof data on core `c`: the five arrays as the region finds them; after the body at point `t` the four
    inputs' buffers at their blocks and the output's at `out1_4` of those blocks; the invariant the scoped rest and the
    generator register, untouched (`Pipeline.ΦA`); full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the entry contents (the structure projected; `V` is never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by
  dsimp only [dat1]

/-- What the body is handed in each input's buffer: its block. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`: the invariant, the core's dues, and each window's current staging
    buffer at what the pipeline put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns: the same, each buffer at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at a point: the inputs' buffers hold their blocks, so the body's triple applies at those blocks; the
    invariant and the dues are not read. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the proof data, at every point. -/
theorem body_obligation1 (c : Dev nD) : BodyObligation (dat1 (F := F) V c) (defs₀ (F := F)) Variants.none () Set.univ := fun t => by
  rw [bigSep_W1, bigSep_W1]
  exact sound_body1 V c t

end Cert.Kernel.Frame1

end
-- ==== Proof.KRegion1.lean ====
/- Region 1 of the word-level kernel program (custom_call 1) as a segment of @main: entered from every unscoped
   buffer at the contents the preceding host stretch leaves, left with the result array `main_v29` at what the
   pipeline's write-backs leave and every other buffer as entered. Stated over an arbitrary family of proof data whose
   member at pipeline 1 is this region's (`hp1`), and over any `outs` that names the result's final contents
   (`houts1`). -/
import proofs.«146189_j40922448396571_2_alg».proof.Proof.KRegions
import proofs.«146189_j40922448396571_2_alg».proof.Proof.KRegion1Body

set_option maxRecDepth 16384

noncomputable section

namespace Cert.Kernel.Frame1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: what the host stretch before the region leaves. -/
abbrev VV3 : (c : Dev nD) → (b : Ref sig .tc) → Buf (Elt F) ((c : Thread nD τ).loc b) := fun c b => V3 m outs c b
/-- Exit: the same with `main_v29` at `outs 4 main_v29`. -/
abbrev VV4 : (c : Dev nD) → (b : Ref sig .tc) → Buf (Elt F) ((c : Thread nD τ).loc b) := fun c b => V4 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 1 -/

variable (pdats : (p : Fin 17) → (c : Dev nD) → Dat τ (Elt F) Unit ℕ (UR sig nD τ) ℕ (cfgs p) c)

section Pinned
variable (hp1 : ∀ c, pdats 1 c = dat1 (VV3 m outs) c)
include hp1

theorem pd1_q (c : Dev nD) (w : Fin cfg1.W) : (pdats 1 c).q w = fullShare := by rw [hp1 c]; rfl
theorem pd1_owed (c : Dev nD) (t) : (pdats 1 c).owed t = 0 := by rw [hp1 c]; rfl
theorem pd1_A (c : Dev nD) (w : Fin cfg1.W) : (pdats 1 c).A w = VV3 m outs c (Pipeline.arrRef spec1 w) := by
  rw [hp1 c]; exact A_eq1 (VV3 m outs) c w
theorem pd1_Φ (c : Dev nD) (t) : (pdats 1 c).Φ t = Pipeline.ΦA spec1 c := by rw [hp1 c]; rfl
theorem pd1_recorded (c : Dev nD) (t) : (pdats 1 c).recorded t = Set.univ := by rw [hp1 c]; rfl

end Pinned

/-! ## The exit contents, at the region's arrays and off them -/

section Exit
variable (hp1 : ∀ c, pdats 1 c = dat1 (VV3 m outs) c)
  (houts1 : ∀ c, outs 4 main_v29 c = (dat1 (VV3 m outs) c).arrAt 4 cfg1.N)

include hp1 in
/-- The left operand's row block: its array ends as entered — no window writes it, and it is not the result's reference. -/
theorem hF1_0 (c : Dev nD) : (pdats 1 c).arrAt 0 cfg1.N = VV4 m outs c (Pipeline.arrRef spec1 0) := by
  rw [hp1 c]
  refine ((dat1 (VV3 m outs) c).arrAt_in 0 rfl _).trans ((A_eq1 (VV3 m outs) c 0).trans ?_)
  exact (Function.update_of_ne (StableHlo.devRef_ne_of_ne (by decide)) _ _).symm

include hp1 in
/-- The weight: its array ends as entered — no window writes it, and it is not the result's reference. -/
theorem hF1_1 (c : Dev nD) : (pdats 1 c).arrAt 1 cfg1.N = VV4 m outs c (Pipeline.arrRef spec1 1) := by
  rw [hp1 c]
  refine ((dat1 (VV3 m outs) c).arrAt_in 1 rfl _).trans ((A_eq1 (VV3 m outs) c 1).trans ?_)
  exact (Function.update_of_ne (StableHlo.devRef_ne_of_ne (by decide)) _ _).symm

include hp1 in
/-- The bias row: its array ends as entered — no window writes it, and it is not the result's reference. -/
theorem hF1_2 (c : Dev nD) : (pdats 1 c).arrAt 2 cfg1.N = VV4 m outs c (Pipeline.arrRef spec1 2) := by
  rw [hp1 c]
  refine ((dat1 (VV3 m outs) c).arrAt_in 2 rfl _).trans ((A_eq1 (VV3 m outs) c 2).trans ?_)
  exact (Function.update_of_ne (StableHlo.devRef_ne_of_ne (by decide)) _ _).symm

include hp1 in
/-- The added operand's row block: its array ends as entered — no window writes it, and it is not the result's reference. -/
theorem hF1_3 (c : Dev nD) : (pdats 1 c).arrAt 3 cfg1.N = VV4 m outs c (Pipeline.arrRef spec1 3) := by
  rw [hp1 c]
  refine ((dat1 (VV3 m outs) c).arrAt_in 3 rfl _).trans ((A_eq1 (VV3 m outs) c 3).trans ?_)
  exact (Function.update_of_ne (StableHlo.devRef_ne_of_ne (by decide)) _ _).symm

include hp1 houts1 in
/-- The result's array ends at what the write-backs leave, which is what `outs` names. -/
theorem hF1_4 (c : Dev nD) : (pdats 1 c).arrAt 4 cfg1.N = VV4 m outs c (Pipeline.arrRef spec1 4) := by
  rw [hp1 c, ← houts1 c]
  exact (Function.update_self (Proc.devRef (τ := τ) .tc main_v29) (outs 4 main_v29 c) (V3 m outs c)).symm

include hp1 houts1 in
theorem hF1 (c : Dev nD) : ∀ w : Fin cfg1.W, (pdats 1 c).arrAt w cfg1.N = VV4 m outs c (Pipeline.arrRef spec1 w)
  | ⟨0, _⟩ => hF1_0 m outs pdats hp1 c
  | ⟨1, _⟩ => hF1_1 m outs pdats hp1 c
  | ⟨2, _⟩ => hF1_2 m outs pdats hp1 c
  | ⟨3, _⟩ => hF1_3 m outs pdats hp1 c
  | ⟨4, _⟩ => hF1_4 m outs pdats hp1 houts1 c

/-- Off the region's five arrays the exit contents are the entry contents: only `main_v29` is updated, and it is
    window 4's array. -/
theorem hrest1 (c : Dev nD) : ∀ b, b ∉ Finset.univ.image (Pipeline.arrRef spec1) → VV4 m outs c b = VV3 m outs c b :=
  fun b hb => Function.update_of_ne
    (fun e => hb (Finset.mem_image.mpr ⟨4, Finset.mem_univ _, (Proc.devRef_injective _ e).symm⟩)) _ _

end Exit

/-! ## The region as a segment -/

section Record
variable (hp1 : ∀ c, pdats 1 c = dat1 (VV3 m outs) c)
  (houts1 : ∀ c, outs 4 main_v29 c = (dat1 (VV3 m outs) c).arrAt 4 cfg1.N)

-- a library lemma stated over the pinned configuration `pin pcs a p` is applied to the printed one: unification has
-- to unfold plain definitions in a metavariable's type
set_option backward.isDefEq.respectTransparency.types false in
/-- Region 1 over the thread state "every unscoped buffer at the boundary's contents, beside `R`". Entry: the
    region's arrays are split out of the unscoped buffers at the entry contents; the generator register goes into the
    invariant; nothing is owed; the kernel has no semaphore of its own. Exit: the arrays are put back at the exit
    contents (`hF1`, `hrest1`) and the register comes back. -/
def reg1 : RegionSeg (pcfgs (F := F)) adm pdats () defs₀ 𝒱₀ L lv 1 where
  win := launch1.win.to₀
  block_pos := launch1.block_pos
  stage_whole := launch1.stage_whole
  K := PEmpty
  osem k := k.elim
  ho := Pipeline.OwnSemFacts.none _
  hbody c := by rw [hp1 c]; exact (body_obligation1 (VV3 m outs) c).loose
  hwaits := Pipeline.hwaits_of_owed_zero _ _ _ _ L lv 1 fun c t => pd1_owed m outs pdats hp1 c t
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec1 c (VV3 m outs c)
  hentry c := by
    rw [Pipeline.ownSems0_none]
    have hsplit := Pipeline.arrays_of_unscopedBufs (p := 1) (pcfgs (F := F)) adm pdats launch1.win launch1.arr_whole c
      ((pdats 1 c).share_full fun w => pd1_q m outs pdats hp1 c w) (VV3 m outs c) fun w => pd1_A m outs pdats hp1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd1_owed m outs pdats hp1 c]
      icases HO with ⟨%W, HO⟩; iexists W; isplitr; · ipureintro; exact fun x _ => Or.inl (by rw [pd1_recorded m outs pdats hp1 c]; exact Set.mem_univ x)
      iexact HO
    isplitl [Hp]; · iexact Hp
    iexact Hrest
  hin c := by
    rw [pd1_Φ m outs pdats hp1 c 0]; unfold Pipeline.ΦA
    iintro ⟨Hp, -, Hr⟩
    isplitl [Hr]; · iexact Hr
    iexact Hp
  hout c := by
    rw [Pipeline.ownSems0_none, pd1_Φ m outs pdats hp1 c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats ((pdats 1 c).share_full fun w => pd1_q m outs pdats hp1 c w)
      (VV3 m outs c) (VV4 m outs c) ((pdats 1 c).arrAt · cfg1.N) (hF1 m outs pdats hp1 houts1 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd1_owed m outs pdats hp1 c]
    icases HO with ⟨%W, -, HO⟩; iexists W; iexact HO

/-- The record is entered from the conditional frame's thread state before the region (with the rest state `R`), -/
theorem hpre1 (c : Dev nD) :
    iprop(StableHlo.held (c : Thread nD τ) (Pipeline.ucRefs τ sig) (V3 m outs c) ∗ R (F := F) c)
      ⊢ (reg1 m outs pdats hp1 houts1).pre c := .rfl

/-- and left at the one after it. -/
theorem hpost1 (c : Dev nD) :
    (reg1 m outs pdats hp1 houts1).post c
      ⊢ iprop(StableHlo.held (c : Thread nD τ) (Pipeline.ucRefs τ sig) (V4 m outs c) ∗ R (F := F) c) := .rfl

end Record

end Cert.Kernel.Frame1

end
-- ==== Proof.KRegion2Body.lean ====
/- Region 2 of the word-level kernel program (custom_call 2, the batch-norm affine map followed by the maximum with zero, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 2 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The row-block operand (window 0): for any proof data whose array for it is the entry contents and whose body
    leaves the block where it is, the staging buffer handed to the body at `t` holds the block at `t` — fetched at
    `t`, or still there from an earlier point because the block index has not moved since. -/
theorem before2_0_of {c : Dev nD} (dat : Dat τ (Elt F) Unit ℕ (UR sig nD τ) ℕ cfg2 c)
    (hA : dat.A 0 = V c (Pipeline.arrRef spec2 0)) (hafter : ∀ t, dat.after 0 t = iblk2 V c 0 t)
    (t : Fin cfg2.N) (d) : dat.before 0 t d = iblk2 V c 0 t := by
  refine (dat.before_in_eq_fetched 0 rfl (fun _ => rfl) (fun _ _ _ => rfl) (fun t => ?_) t d).trans ?_
  · rw [hafter]; unfold Dat.blockOf iblk2; rw [hA]; try rfl
  · unfold Dat.fetched Dat.blockOf iblk2; rw [hA]; try rfl

/-- The mean row (window 1; one block, fetched at the first point only, its index constant): the same. -/
theorem before2_1_of {c : Dev nD} (dat : Dat τ (Elt F) Unit ℕ (UR sig nD τ) ℕ cfg2 c)
    (hA : dat.A 1 = V c (Pipeline.arrRef spec2 1)) (hafter : ∀ t, dat.after 1 t = iblk2 V c 1 t)
    (t : Fin cfg2.N) (d) : dat.before 1 t d = iblk2 V c 1 t := by
  refine (dat.before_in_eq_fetched 1 rfl (fun _ => rfl) (fun _ _ _ => rfl) (fun t => ?_) t d).trans ?_
  · rw [hafter]; unfold Dat.blockOf iblk2; rw [hA]; try rfl
  · unfold Dat.fetched Dat.blockOf iblk2; rw [hA]; try rfl

/-- The variance row (window 2; one block, fetched at the first point only, its index constant): the same. -/
theorem before2_2_of {c : Dev nD} (dat : Dat τ (Elt F) Unit ℕ (UR sig nD τ) ℕ cfg2 c)
    (hA : dat.A 2 = V c (Pipeline.arrRef spec2 2)) (hafter : ∀ t, dat.after 2 t = iblk2 V c 2 t)
    (t : Fin cfg2.N) (d) : dat.before 2 t d = iblk2 V c 2 t := by
  refine (dat.before_in_eq_fetched 2 rfl (fun _ => rfl) (fun _ _ _ => rfl) (fun t => ?_) t d).trans ?_
  · rw [hafter]; unfold Dat.blockOf iblk2; rw [hA]; try rfl
  · unfold Dat.fetched Dat.blockOf iblk2; rw [hA]; try rfl

/-- The scale row (window 3; one block, fetched at the first point only, its index constant): the same. -/
theorem before2_3_of {c : Dev nD} (dat : Dat τ (Elt F) Unit ℕ (UR sig nD τ) ℕ cfg2 c)
    (hA : dat.A 3 = V c (Pipeline.arrRef spec2 3)) (hafter : ∀ t, dat.after 3 t = iblk2 V c 3 t)
    (t : Fin cfg2.N) (d) : dat.before 3 t d = iblk2 V c 3 t := by
  refine (dat.before_in_eq_fetched 3 rfl (fun _ => rfl) (fun _ _ _ => rfl) (fun t => ?_) t d).trans ?_
  · rw [hafter]; unfold Dat.blockOf iblk2; rw [hA]; try rfl
  · unfold Dat.fetched Dat.blockOf iblk2; rw [hA]; try rfl

/-- The shift row (window 4; one block, fetched at the first point only, its index constant): the same. -/
theorem before2_4_of {c : Dev nD} (dat : Dat τ (Elt F) Unit ℕ (UR sig nD τ) ℕ cfg2 c)
    (hA : dat.A 4 = V c (Pipeline.arrRef spec2 4)) (hafter : ∀ t, dat.after 4 t = iblk2 V c 4 t)
    (t : Fin cfg2.N) (d) : dat.before 4 t d = iblk2 V c 4 t := by
  refine (dat.before_in_eq_fetched 4 rfl (fun _ => rfl) (fun _ _ _ => rfl) (fun t => ?_) t d).trans ?_
  · rw [hafter]; unfold Dat.blockOf iblk2; rw [hA]; try rfl
  · unfold Dat.fetched Dat.blockOf iblk2; rw [hA]; try rfl

/-! ## The rectangles the body reads and writes: each staging buffer whole -/

abbrev r2_big : Rect S5000x128 := Rect.unit (s := S5000x128) ![0, 0] S5000x128.size inb_S5000x128_S5000x128_0_0
abbrev r2_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `max ((x − mean) · rsqrt (var + ε) · gamma + beta) 0` of the five whole-buffer loads, written as a one-piece list.
    (The body loads the variance before the mean, which is the order of the payload's arguments.) -/
def out2_5 (x0 : Vec F S5000x128 .f32) (x1 x2 x3 x4 : Vec F S1x128 .f32) : Vec F S5000x128 .f32 :=
  View.canon [⟨r2_big, k2_pay1 (View.ld x0 r2_big) (View.ld x2 r2_row) (View.ld x1 r2_row)
    (View.ld x3 r2_row) (View.ld x4 r2_row)⟩]

/-- The one store is of the whole buffer, so every index of the buffer lies in it. -/
theorem cover2_5 (p : Vec F S5000x128 .f32) (y : S5000x128.Idx) :
    ∃ pc ∈ ([⟨r2_big, p⟩] : List (View.Piece (Elt F) S5000x128 .f32)), y ∈ pc.1.set :=
  View.cover_of_tiled [⟨r2_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out2_5 x0 x1 x2 x3 x4`. (The body also loads the output buffer before storing to it; the loaded value is
    not used.) -/
theorem sound_kernel2 (c : Dev nD) (E : Set ℕ) (i : grid2.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data of the pipeline -/

/-- Region 2's proof data on core `c`: the six arrays as the region finds them; after the body at point `t` the
    five inputs' buffers at their blocks and the output's at `out2_5` of those blocks; the invariant the scoped rest
    and the generator register, untouched (`Pipeline.ΦA`); full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents (the structure projected; `V` is never unfolded). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t
      = out2_5 (iblk2 V c 0 t) (iblk2 V c 1 t) (iblk2 V c 2 t) (iblk2 V c 3 t) (iblk2 V c 4 t) := by
  dsimp only [dat2]

/-- What the body is handed in each input's buffer: its block. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with at point `t`: the invariant, the core's dues, and each window's current staging
    buffer at what the pipeline put there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it returns: the same, each buffer at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at a point: the inputs' buffers hold their blocks, so the body's triple applies at those blocks; the
    invariant and the dues are not read. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation2 (c : Dev nD) : BodyObligation (dat2 (F := F) V c) (defs₀ (F := F)) Variants.none () Set.univ := fun t => by
  rw [bigSep_W2, bigSep_W2]
  exact sound_body2 V c t

end Cert.Kernel.Frame2

end
-- ==== Proof.KRegion2.lean ====
/- Region 2 of the word-level kernel program (custom_call 2) as a segment of @main: entered from every unscoped
   buffer at the contents before it (`V7`), left with the result array `main_v48` at what the pipeline's
   write-backs leave and every other buffer as entered (`V8`). Stated over an arbitrary family of proof data whose
   member at pipeline 2 is this region's (`hp2`), and over any `outs` that names the result's final contents
   (`houts`). -/
import proofs.«146189_j40922448396571_2_alg».proof.Proof.KRegions
import proofs.«146189_j40922448396571_2_alg».proof.Proof.KGlobals
import proofs.«146189_j40922448396571_2_alg».proof.Proof.KRegion2Body

set_option maxRecDepth 16384

noncomputable section

namespace Cert.Kernel.Frame2

open Cert.Kernel.Gen Cert.Kernel.Glob
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: the contents before the region (`V7`). -/
abbrev VVin : (c : Dev nD) → (b : Ref sig .tc) → Buf (Elt F) ((c : Thread nD τ).loc b) := fun c b => V7 m outs c b
/-- Exit: the same with `main_v48` at `outs 8 main_v48` (`V8`). -/
abbrev VVout : (c : Dev nD) → (b : Ref sig .tc) → Buf (Elt F) ((c : Thread nD τ).loc b) := fun c b => V8 m outs c b

/-! ## The family of proof data, pinned at pipeline 2 -/

variable (pdats : (p : Fin 17) → (c : Dev nD) → Dat τ (Elt F) Unit ℕ (UR sig nD τ) ℕ (cfgs p) c)

section Pinned
variable (hp2 : ∀ c, pdats 2 c = dat2 (VVin m outs) c)
include hp2

/-- The pinned member's fields, read through the pin: full shares, nothing owed, the entry contents as arrays, the
    untouched invariant, every point recorded. -/
theorem pd2_q (c : Dev nD) (w : Fin cfg2.W) : (pdats 2 c).q w = fullShare := by rw [hp2 c]; rfl
theorem pd2_owed (c : Dev nD) (t) : (pdats 2 c).owed t = 0 := by rw [hp2 c]; rfl
theorem pd2_A (c : Dev nD) (w : Fin cfg2.W) : (pdats 2 c).A w = VVin m outs c (Pipeline.arrRef spec2 w) := by
  rw [hp2 c]; exact A_eq2 (VVin m outs) c w
theorem pd2_Φ (c : Dev nD) (t) : (pdats 2 c).Φ t = Pipeline.ΦA spec2 c := by rw [hp2 c]; rfl
theorem pd2_recorded (c : Dev nD) (t) : (pdats 2 c).recorded t = Set.univ := by rw [hp2 c]; rfl

end Pinned

/-! ## The exit contents, at the region's arrays and off them -/

section Exit
variable (hp2 : ∀ c, pdats 2 c = dat2 (VVin m outs) c)
  (houts : ∀ c, outs 8 main_v48 c = (dat2 (VVin m outs) c).arrAt 5 cfg2.N)

include hp2 in
/-- The row-block operand's array (`main_v35`) ends as entered: no window writes it, and it is not the result's reference. -/
theorem hF2_0 (c : Dev nD) : (pdats 2 c).arrAt 0 cfg2.N = VVout m outs c (Pipeline.arrRef spec2 0) := by
  rw [hp2 c]
  refine ((dat2 (VVin m outs) c).arrAt_in 0 rfl _).trans ((A_eq2 (VVin m outs) c 0).trans ?_)
  exact (Function.update_of_ne (StableHlo.devRef_ne_of_ne (by decide)) _ _).symm

include hp2 in
/-- The mean row's array (`main_v39`) ends as entered: no window writes it, and it is not the result's reference. -/
theorem hF2_1 (c : Dev nD) : (pdats 2 c).arrAt 1 cfg2.N = VVout m outs c (Pipeline.arrRef spec2 1) := by
  rw [hp2 c]
  refine ((dat2 (VVin m outs) c).arrAt_in 1 rfl _).trans ((A_eq2 (VVin m outs) c 1).trans ?_)
  exact (Function.update_of_ne (StableHlo.devRef_ne_of_ne (by decide)) _ _).symm

include hp2 in
/-- The variance row's array (`main_v43`) ends as entered: no window writes it, and it is not the result's reference. -/
theorem hF2_2 (c : Dev nD) : (pdats 2 c).arrAt 2 cfg2.N = VVout m outs c (Pipeline.arrRef spec2 2) := by
  rw [hp2 c]
  refine ((dat2 (VVin m outs) c).arrAt_in 2 rfl _).trans ((A_eq2 (VVin m outs) c 2).trans ?_)
  exact (Function.update_of_ne (StableHlo.devRef_ne_of_ne (by decide)) _ _).symm

include hp2 in
/-- The scale row's array (`main_v45`) ends as entered: no window writes it, and it is not the result's reference. -/
theorem hF2_3 (c : Dev nD) : (pdats 2 c).arrAt 3 cfg2.N = VVout m outs c (Pipeline.arrRef spec2 3) := by
  rw [hp2 c]
  refine ((dat2 (VVin m outs) c).arrAt_in 3 rfl _).trans ((A_eq2 (VVin m outs) c 3).trans ?_)
  exact (Function.update_of_ne (StableHlo.devRef_ne_of_ne (by decide)) _ _).symm

include hp2 in
/-- The shift row's array (`main_v47`) ends as entered: no window writes it, and it is not the result's reference. -/
theorem hF2_4 (c : Dev nD) : (pdats 2 c).arrAt 4 cfg2.N = VVout m outs c (Pipeline.arrRef spec2 4) := by
  rw [hp2 c]
  refine ((dat2 (VVin m outs) c).arrAt_in 4 rfl _).trans ((A_eq2 (VVin m outs) c 4).trans ?_)
  exact (Function.update_of_ne (StableHlo.devRef_ne_of_ne (by decide)) _ _).symm

include hp2 houts in
/-- The result's array (`main_v48`) ends at what the write-backs leave, which is what `outs` names. -/
theorem hF2_5 (c : Dev nD) : (pdats 2 c).arrAt 5 cfg2.N = VVout m outs c (Pipeline.arrRef spec2 5) := by
  rw [hp2 c, ← houts c]
  exact (Function.update_self (Proc.devRef (τ := τ) .tc main_v48) (outs 8 main_v48 c) (V7 m outs c)).symm

include hp2 houts in
/-- Every array of the region at its exit contents. -/
theorem hF2 (c : Dev nD) : ∀ w : Fin cfg2.W, (pdats 2 c).arrAt w cfg2.N = VVout m outs c (Pipeline.arrRef spec2 w)
  | ⟨0, _⟩ => hF2_0 m outs pdats hp2 c
  | ⟨1, _⟩ => hF2_1 m outs pdats hp2 c
  | ⟨2, _⟩ => hF2_2 m outs pdats hp2 c
  | ⟨3, _⟩ => hF2_3 m outs pdats hp2 c
  | ⟨4, _⟩ => hF2_4 m outs pdats hp2 c
  | ⟨5, _⟩ => hF2_5 m outs pdats hp2 houts c

/-- Off the region's six arrays the exit contents are the entry contents: only `main_v48` is updated, and it is
    window 5's array. -/
theorem hrest2 (c : Dev nD) : ∀ b, b ∉ Finset.univ.image (Pipeline.arrRef spec2) → VVout m outs c b = VVin m outs c b :=
  fun b hb => Function.update_of_ne
    (fun e => hb (Finset.mem_image.mpr ⟨5, Finset.mem_univ _, (Proc.devRef_injective _ e).symm⟩)) _ _

end Exit

/-! ## The region as a segment -/

section Record
variable (hp2 : ∀ c, pdats 2 c = dat2 (VVin m outs) c)
  (houts : ∀ c, outs 8 main_v48 c = (dat2 (VVin m outs) c).arrAt 5 cfg2.N)

-- a library lemma stated over the pinned configuration `pin pcs a p` is applied to the printed one: unification has
-- to unfold plain definitions in a metavariable's type
set_option backward.isDefEq.respectTransparency.types false in
/-- Region 2 over the thread state "every unscoped buffer at the boundary's contents, beside the rest state `R`".
    Entry: the six arrays are split out of the unscoped buffers at the entry contents; the generator register goes
    into the invariant; nothing is owed; the kernel has no semaphore of its own. Exit: the arrays are put back at the
    exit contents (`hF2`, `hrest2`) and the register comes back. -/
def reg2 : RegionSeg (pcfgs (F := F)) adm pdats () defs₀ 𝒱₀ L lv 2 where
  win := launch2.win.to₀
  block_pos := launch2.block_pos
  stage_whole := launch2.stage_whole
  K := PEmpty
  osem k := k.elim
  ho := Pipeline.OwnSemFacts.none _
  hbody c := by rw [hp2 c]; exact (body_obligation2 (VVin m outs) c).loose
  hwaits := Pipeline.hwaits_of_owed_zero _ _ _ _ L lv 2 fun c t => pd2_owed m outs pdats hp2 c t
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec2 c (VVin m outs c)
  hentry c := by
    rw [Pipeline.ownSems0_none]
    have hsplit := Pipeline.arrays_of_unscopedBufs (p := 2) (pcfgs (F := F)) adm pdats launch2.win launch2.arr_whole c
      ((pdats 2 c).share_full fun w => pd2_q m outs pdats hp2 c w) (VVin m outs c) fun w => pd2_A m outs pdats hp2 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd2_owed m outs pdats hp2 c]
      icases HO with ⟨%W, HO⟩; iexists W; isplitr
      · ipureintro; exact fun x _ => Or.inl (by rw [pd2_recorded m outs pdats hp2 c]; exact Set.mem_univ x)
      iexact HO
    isplitl [Hp]; · iexact Hp
    iexact Hrest
  hin c := by
    rw [pd2_Φ m outs pdats hp2 c 0]; unfold Pipeline.ΦA
    iintro ⟨Hp, -, Hr⟩
    isplitl [Hr]; · iexact Hr
    iexact Hp
  hout c := by
    rw [Pipeline.ownSems0_none, pd2_Φ m outs pdats hp2 c (Fin.last _)]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c pdats ((pdats 2 c).share_full fun w => pd2_q m outs pdats hp2 c w)
      (VVin m outs c) (VVout m outs c) ((pdats 2 c).arrAt · cfg2.N) (hF2 m outs pdats hp2 houts c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd2_owed m outs pdats hp2 c]
    icases HO with ⟨%W, -, HO⟩; iexists W; iexact HO

/-- The record is entered from the conditional frame's thread state before the region (with the rest state `R`), -/
theorem hpre2 (c : Dev nD) :
    iprop(StableHlo.held (c : Thread nD τ) (Pipeline.ucRefs τ sig) (V7 m outs c) ∗ R (F := F) c)
      ⊢ (reg2 m outs pdats hp2 houts).pre c := .rfl

/-- and left at the one after it. -/
theorem hpost2 (c : Dev nD) :
    (reg2 m outs pdats hp2 houts).post c
      ⊢ iprop(StableHlo.held (c : Thread nD τ) (Pipeline.ucRefs τ sig) (V8 m outs c) ∗ R (F := F) c) := .rfl

end Record

end Cert.Kernel.Frame2

end
-- ==== Proof.KRegion3Body.lean ====
/- Region 3 of the word-level kernel program (custom_call 3: a 64 → 64 matmul, plus a bias row, plus a second
   operand added elementwise): the class-A half of its frame, stated at a parameter `V` — the TensorCore's buffer
   contents when the region is entered. For each of the five windows its block at a grid point, the contents the body
   leaves in the output window's buffer as a function of the four input blocks, the body's triple, the pipeline's
   proof data and the library's body obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame3

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 3 is entered
variable (V : (c : Dev nD) → (b : Ref sig .tc) → Buf (Elt F) ((c : Thread nD τ).loc b))

/-! ## The blocks of the five windows -/

/-- The block of window `w` at grid point `t`: the window's rectangle at `t` read off the window's array as the
    region finds it. Window 0 is rows `5000 t … 5000 t + 4999` of the [100000,64] left operand, window 1 the whole
    [64,64] weight, window 2 the whole [1,64] bias row, window 3 the same rows of the [100000,64] operand that is
    added, window 4 the same rows of the [100000,64] result. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- An input window whose body leaves its block where it is: whatever proof data has the entry contents as the
    window's array and the block as what the body leaves, the staging buffer the body is handed at `t` holds the block
    at `t` — it was fetched at `t`, or the window's index has not moved since it was. Window 0, the row block of
    the left operand (fetched at every point). -/
theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t := by
  refine (dat.before_in_eq_fetched 0 rfl (fun _ => rfl) (fun _ _ _ => rfl) (fun t => ?_) t d).trans ?_
  · rw [hafter]; unfold Dat.blockOf iblk3; rw [hA]; try rfl
  · unfold Dat.fetched Dat.blockOf iblk3; rw [hA]; try rfl

/-- Window 1, the weight (fetched once; its index is constant): the same statement. -/
theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t := by
  refine (dat.before_in_eq_fetched 1 rfl (fun _ => rfl) (fun _ _ _ => rfl) (fun t => ?_) t d).trans ?_
  · rw [hafter]; unfold Dat.blockOf iblk3; rw [hA]; try rfl
  · unfold Dat.fetched Dat.blockOf iblk3; rw [hA]; try rfl

/-- Window 2, the bias row (fetched once; its index is constant): the same statement. -/
theorem before3_2_of {c : Dev nD} (dat : Dat τ (Elt F) Unit ℕ (UR sig nD τ) ℕ cfg3 c)
    (hA : dat.A 2 = V c (Pipeline.arrRef spec3 2)) (hafter : ∀ t, dat.after 2 t = iblk3 V c 2 t)
    (t : Fin cfg3.N) (d) : dat.before 2 t d = iblk3 V c 2 t := by
  refine (dat.before_in_eq_fetched 2 rfl (fun _ => rfl) (fun _ _ _ => rfl) (fun t => ?_) t d).trans ?_
  · rw [hafter]; unfold Dat.blockOf iblk3; rw [hA]; try rfl
  · unfold Dat.fetched Dat.blockOf iblk3; rw [hA]; try rfl

/-- Window 3, the row block of the operand that is added (fetched at every point): the same statement. -/
theorem before3_3_of {c : Dev nD} (dat : Dat τ (Elt F) Unit ℕ (UR sig nD τ) ℕ cfg3 c)
    (hA : dat.A 3 = V c (Pipeline.arrRef spec3 3)) (hafter : ∀ t, dat.after 3 t = iblk3 V c 3 t)
    (t : Fin cfg3.N) (d) : dat.before 3 t d = iblk3 V c 3 t := by
  refine (dat.before_in_eq_fetched 3 rfl (fun _ => rfl) (fun _ _ _ => rfl) (fun t => ?_) t d).trans ?_
  · rw [hafter]; unfold Dat.blockOf iblk3; rw [hA]; try rfl
  · unfold Dat.fetched Dat.blockOf iblk3; rw [hA]; try rfl

/-! ## The rectangles the body reads and writes: each staging buffer whole -/

abbrev r3_a : Rect S5000x64 := Rect.unit (s := S5000x64) ![0, 0] S5000x64.size inb_S5000x64_S5000x64_0_0
abbrev r3_w : Rect S64x64 := Rect.unit (s := S64x64) ![0, 0] S64x64.size inb_S64x64_S64x64_0_0
abbrev r3_b : Rect S1x64 := Rect.unit (s := S1x64) ![0, 0] S1x64.size inb_S1x64_S1x64_0_0

/-! ## What the body leaves in the output window's buffer -/

/-- The output staging buffer after the body, from the four input blocks: its one store, of the payload
    `x0 · x1 + (the row x2 on every row) + x3` of the four whole-buffer loads, written as a one-piece list. -/
def out3_4 (x0 : Vec F S5000x64 .f32) (x1 : Vec F S64x64 .f32) (x2 : Vec F S1x64 .f32) (x3 : Vec F S5000x64 .f32) :
    Vec F S5000x64 .f32 :=
  View.canon [⟨r3_a, k3_pay1 (View.ld x0 r3_a) (View.ld x1 r3_w) (View.ld x2 r3_b) (View.ld x3 r3_a)⟩]

/-- The one store is of the whole buffer, so every index of the buffer lies in it. -/
theorem cover3_4 (p : Vec F S5000x64 .f32) (y : S5000x64.Idx) :
    ∃ pc ∈ ([⟨r3_a, p⟩] : List (View.Piece (Elt F) S5000x64 .f32)), y ∈ pc.1.set :=
  View.cover_of_tiled [⟨r3_a, p⟩] S5000x64.size (by rfl) y

/-! ## The body's triple -/

set_option maxHeartbeats 1000000 in
/-- The body at any grid coordinate `i`, on whole staging memrefs: the four inputs' read `x0 … x3`, the output's
    holds anything. It runs to the continuation with the inputs' as they were and the output's at
    `out3_4 x0 x1 x2 x3`. (The body also loads the output buffer before storing to it; the loaded value is not used.) -/
theorem sound_kernel3 (c : Dev nD) (E : Set ℕ) (i : grid3.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2 x3)) -∗ K ⟨⟩))
      ⊢ wp frame (wpE (defs₀ (F := F)) Variants.none c none) E
          (cc3__linear_extra_kernel i arg1 harg1 arg2 harg2 arg3 harg3 arg4 harg4 arg5 harg5) K := by
  simp only [cc3__linear_extra_kernel_eq_skeleton]; unfold cc3__linear_extra_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The proof data of the pipeline -/

/-- Region 3's proof data on core `c`: the five arrays as the region finds them; after the body at point `t` the four
    inputs' buffers at their blocks and the output's at `out3_4` of those blocks; the invariant the scoped rest and the
    generator register, untouched (`Pipeline.ΦA`); full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the entry contents (the structure projected; `V` is never unfolded). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by
  dsimp only [dat3]

/-- What the body is handed in each input's buffer: its block. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

/-- What the body is called with at point `t`: the invariant, the core's dues, and each window's current staging
    buffer at what the pipeline put there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What it returns: the same, each buffer at the proof data's `after`. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at a point: the inputs' buffers hold their blocks, so the body's triple applies at those blocks; the
    invariant and the dues are not read. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _
    (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the proof data, at every point. -/
theorem body_obligation3 (c : Dev nD) : BodyObligation (dat3 (F := F) V c) (defs₀ (F := F)) Variants.none () Set.univ := fun t => by
  rw [bigSep_W3, bigSep_W3]
  exact sound_body3 V c t

end Cert.Kernel.Frame3

end
-- ==== Proof.KRegion3.lean ====
/- Region 3 of the word-level kernel program (custom_call 3) as a segment of @main: entered from every unscoped
   buffer at the contents the preceding host stretch leaves, left with the result array `main_v66` at what the
   pipeline's write-backs leave and every other buffer as entered. Stated over an arbitrary family of proof data whose
   member at pipeline 3 is this region's (`hp3`), and over any `outs` that names the result's final contents
   (`houts3`). -/
import proofs.«146189_j40922448396571_2_alg».proof.Proof.KRegions
import proofs.«146189_j40922448396571_2_alg».proof.Proof.KRegion3Body

set_option maxRecDepth 16384

noncomputable section

namespace Cert.Kernel.Frame3

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: what the host stretch before the region leaves. -/
abbrev VV9 : (c : Dev nD) → (b : Ref sig .tc) → Buf (Elt F) ((c : Thread nD τ).loc b) := fun c b => V9 m outs c b
/-- Exit: the same with `main_v66` at `outs 10 main_v66`. -/
abbrev VV10 : (c : Dev nD) → (b : Ref sig .tc) → Buf (Elt F) ((c : Thread nD τ).loc b) := fun c b => V10 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 3 -/

variable (pdats : (p : Fin 17) → (c : Dev nD) → Dat τ (Elt F) Unit ℕ (UR sig nD τ) ℕ (cfgs p) c)

section Pinned
variable (hp3 : ∀ c, pdats 3 c = dat3 (VV9 m outs) c)
include hp3

theorem pd3_q (c : Dev nD) (w : Fin cfg3.W) : (pdats 3 c).q w = fullShare := by rw [hp3 c]; rfl
theorem pd3_owed (c : Dev nD) (t) : (pdats 3 c).owed t = 0 := by rw [hp3 c]; rfl
theorem pd3_A (c : Dev nD) (w : Fin cfg3.W) : (pdats 3 c).A w = VV9 m outs c (Pipeline.arrRef spec3 w) := by
  rw [hp3 c]; exact A_eq3 (VV9 m outs) c w
theorem pd3_Φ (c : Dev nD) (t) : (pdats 3 c).Φ t = Pipeline.ΦA spec3 c := by rw [hp3 c]; rfl
theorem pd3_recorded (c : Dev nD) (t) : (pdats 3 c).recorded t = Set.univ := by rw [hp3 c]; rfl

end Pinned

/-! ## The exit contents, at the region's arrays and off them -/

section Exit
variable (hp3 : ∀ c, pdats 3 c = dat3 (VV9 m outs) c)
  (houts3 : ∀ c, outs 10 main_v66 c = (dat3 (VV9 m outs) c).arrAt 4 cfg3.N)

include hp3 in
/-- The left operand's row block: its array ends as entered — no window writes it, and it is not the result's reference. -/
theorem hF3_0 (c : Dev nD) : (pdats 3 c).arrAt 0 cfg3.N = VV10 m outs c (Pipeline.arrRef spec3 0) := by
  rw [hp3 c]
  refine ((dat3 (VV9 m outs) c).arrAt_in 0 rfl _).trans ((A_eq3 (VV9 m outs) c 0).trans ?_)
  exact (Function.update_of_ne (StableHlo.devRef_ne_of_ne (by decide)) _ _).symm

include hp3 in
/-- The weight: its array ends as entered — no window writes it, and it is not the result's reference. -/
theorem hF3_1 (c : Dev nD) : (pdats 3 c).arrAt 1 cfg3.N = VV10 m outs c (Pipeline.arrRef spec3 1) := by
  rw [hp3 c]
  refine ((dat3 (VV9 m outs) c).arrAt_in 1 rfl _).trans ((A_eq3 (VV9 m outs) c 1).trans ?_)
  exact (Function.update_of_ne (StableHlo.devRef_ne_of_ne (by decide)) _ _).symm

include hp3 in
/-- The bias row: its array ends as entered — no window writes it, and it is not the result's reference. -/
theorem hF3_2 (c : Dev nD) : (pdats 3 c).arrAt 2 cfg3.N = VV10 m outs c (Pipeline.arrRef spec3 2) := by
  rw [hp3 c]
  refine ((dat3 (VV9 m outs) c).arrAt_in 2 rfl _).trans ((A_eq3 (VV9 m outs) c 2).trans ?_)
  exact (Function.update_of_ne (StableHlo.devRef_ne_of_ne (by decide)) _ _).symm

include hp3 in
/-- The added operand's row block: its array ends as entered — no window writes it, and it is not the result's reference. -/
theorem hF3_3 (c : Dev nD) : (pdats 3 c).arrAt 3 cfg3.N = VV10 m outs c (Pipeline.arrRef spec3 3) := by
  rw [hp3 c]
  refine ((dat3 (VV9 m outs) c).arrAt_in 3 rfl _).trans ((A_eq3 (VV9 m outs) c 3).trans ?_)
  exact (Function.update_of_ne (StableHlo.devRef_ne_of_ne (by decide)) _ _).symm

include hp3 houts3 in
/-- The result's array ends at what the write-backs leave, which is what `outs` names. -/
theorem hF3_4 (c : Dev nD) : (pdats 3 c).arrAt 4 cfg3.N = VV10 m outs c (Pipeline.arrRef spec3 4) := by
  rw [hp3 c, ← houts3 c]
  exact (Function.update_self (Proc.devRef (τ := τ) .tc main_v66) (outs 10 main_v66 c) (V9 m outs c)).symm

include hp3 houts3 in
theorem hF3 (c : Dev nD) : ∀ w : Fin cfg3.W, (pdats 3 c).arrAt w cfg3.N = VV10 m outs c (Pipeline.arrRef spec3 w)
  | ⟨0, _⟩ => hF3_0 m outs pdats hp3 c
  | ⟨1, _⟩ => hF3_1 m outs pdats hp3 c
  | ⟨2, _⟩ => hF3_2 m outs pdats hp3 c
  | ⟨3, _⟩ => hF3_3 m outs pdats hp3 c
  | ⟨4, _⟩ => hF3_4 m outs pdats hp3 houts3 c

/-- Off the region's five arrays the exit contents are the entry contents: only `main_v66` is updated, and it is
    window 4's array. -/
theorem hrest3 (c : Dev nD) : ∀ b, b ∉ Finset.univ.image (Pipeline.arrRef spec3) → VV10 m outs c b = VV9 m outs c b :=
  fun b hb => Function.update_of_ne
    (fun e => hb (Finset.mem_image.mpr ⟨4, Finset.mem_univ _, (Proc.devRef_injective _ e).symm⟩)) _ _

end Exit

/-! ## The region as a segment -/

section Record
variable (hp3 : ∀ c, pdats 3 c = dat3 (VV9 m outs) c)
  (houts3 : ∀ c, outs 10 main_v66 c = (dat3 (VV9 m outs) c).arrAt 4 cfg3.N)

-- a library lemma stated over the pinned configuration `pin pcs a p` is applied to the printed one: unification has
-- to unfold plain definitions in a metavariable's type
set_option backward.isDefEq.respectTransparency.types false in
/-- Region 3 over the thread state "every unscoped buffer at the boundary's contents, beside `R`". Entry: the
    region's arrays are split out of the unscoped buffers at the entry contents; the generator register goes into the
    invariant; nothing is owed; the kernel has no semaphore of its own. Exit: the arrays are put back at the exit
    contents (`hF3`, `hrest3`) and the register comes back. -/
def reg3 : RegionSeg (pcfgs (F := F)) adm pdats () defs₀ 𝒱₀ L lv 3 where
  win := launch3.win.to₀
  block_pos := launch3.block_pos
  stage_whole := launch3.stage_whole
  K := PEmpty
  osem k := k.elim
  ho := Pipeline.OwnSemFacts.none _
  hbody c := by rw [hp3 c]; exact (body_obligation3 (VV9 m outs) c).loose
  hwaits := Pipeline.hwaits_of_owed_zero _ _ _ _ L lv 3 fun c t => pd3_owed m outs pdats hp3 c t
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec3 c (VV9 m outs c)
  hentry c := by
    rw [Pipeline.ownSems0_none]
    have hsplit := Pipeline.arrays_of_unscopedBufs (p := 3) (pcfgs (F := F)) adm pdats launch3.win launch3.arr_whole c
      ((pdats 3 c).share_full fun w => pd3_q m outs pdats hp3 c w) (VV9 m outs c) fun w => pd3_A m outs pdats hp3 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd3_owed m outs pdats hp3 c]
      icases HO with ⟨%W, HO⟩; iexists W; isplitr; · ipureintro; exact fun x _ => Or.inl (by rw [pd3_recorded m outs pdats hp3 c]; exact Set.mem_univ x)
      iexact HO
    isplitl [Hp]; · iexact Hp
    iexact Hrest
  hin c := by
    rw [pd3_Φ m outs pdats hp3 c 0]; unfold Pipeline.ΦA
    iintro ⟨Hp, -, Hr⟩
    isplitl [Hr]; · iexact Hr
    iexact Hp
  hout c := by
    rw [Pipeline.ownSems0_none, pd3_Φ m outs pdats hp3 c (Fin.last _)]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c pdats ((pdats 3 c).share_full fun w => pd3_q m outs pdats hp3 c w)
      (VV9 m outs c) (VV10 m outs c) ((pdats 3 c).arrAt · cfg3.N) (hF3 m outs pdats hp3 houts3 c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd3_owed m outs pdats hp3 c]
    icases HO with ⟨%W, -, HO⟩; iexists W; iexact HO

/-- The record is entered from the conditional frame's thread state before the region (with the rest state `R`), -/
theorem hpre3 (c : Dev nD) :
    iprop(StableHlo.held (c : Thread nD τ) (Pipeline.ucRefs τ sig) (V9 m outs c) ∗ R (F := F) c)
      ⊢ (reg3 m outs pdats hp3 houts3).pre c := .rfl

/-- and left at the one after it. -/
theorem hpost3 (c : Dev nD) :
    (reg3 m outs pdats hp3 houts3).post c
      ⊢ iprop(StableHlo.held (c : Thread nD τ) (Pipeline.ucRefs τ sig) (V10 m outs c) ∗ R (F := F) c) := .rfl

end Record

end Cert.Kernel.Frame3

end
-- ==== Proof.KRegion4Body.lean ====
/- Region 4 of the word-level kernel program (custom_call 4, the batch-norm affine map followed by the maximum with zero, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame4

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 4 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The row-block operand (window 0): for any proof data whose array for it is the entry contents and whose body
    leaves the block where it is, the staging buffer handed to the body at `t` holds the block at `t` — fetched at
    `t`, or still there from an earlier point because the block index has not moved since. -/
theorem before4_0_of {c : Dev nD} (dat : Dat τ (Elt F) Unit ℕ (UR sig nD τ) ℕ cfg4 c)
    (hA : dat.A 0 = V c (Pipeline.arrRef spec4 0)) (hafter : ∀ t, dat.after 0 t = iblk4 V c 0 t)
    (t : Fin cfg4.N) (d) : dat.before 0 t d = iblk4 V c 0 t := by
  refine (dat.before_in_eq_fetched 0 rfl (fun _ => rfl) (fun _ _ _ => rfl) (fun t => ?_) t d).trans ?_
  · rw [hafter]; unfold Dat.blockOf iblk4; rw [hA]; try rfl
  · unfold Dat.fetched Dat.blockOf iblk4; rw [hA]; try rfl

/-- The mean row (window 1; one block, fetched at the first point only, its index constant): the same. -/
theorem before4_1_of {c : Dev nD} (dat : Dat τ (Elt F) Unit ℕ (UR sig nD τ) ℕ cfg4 c)
    (hA : dat.A 1 = V c (Pipeline.arrRef spec4 1)) (hafter : ∀ t, dat.after 1 t = iblk4 V c 1 t)
    (t : Fin cfg4.N) (d) : dat.before 1 t d = iblk4 V c 1 t := by
  refine (dat.before_in_eq_fetched 1 rfl (fun _ => rfl) (fun _ _ _ => rfl) (fun t => ?_) t d).trans ?_
  · rw [hafter]; unfold Dat.blockOf iblk4; rw [hA]; try rfl
  · unfold Dat.fetched Dat.blockOf iblk4; rw [hA]; try rfl

/-- The variance row (window 2; one block, fetched at the first point only, its index constant): the same. -/
theorem before4_2_of {c : Dev nD} (dat : Dat τ (Elt F) Unit ℕ (UR sig nD τ) ℕ cfg4 c)
    (hA : dat.A 2 = V c (Pipeline.arrRef spec4 2)) (hafter : ∀ t, dat.after 2 t = iblk4 V c 2 t)
    (t : Fin cfg4.N) (d) : dat.before 2 t d = iblk4 V c 2 t := by
  refine (dat.before_in_eq_fetched 2 rfl (fun _ => rfl) (fun _ _ _ => rfl) (fun t => ?_) t d).trans ?_
  · rw [hafter]; unfold Dat.blockOf iblk4; rw [hA]; try rfl
  · unfold Dat.fetched Dat.blockOf iblk4; rw [hA]; try rfl

/-- The scale row (window 3; one block, fetched at the first point only, its index constant): the same. -/
theorem before4_3_of {c : Dev nD} (dat : Dat τ (Elt F) Unit ℕ (UR sig nD τ) ℕ cfg4 c)
    (hA : dat.A 3 = V c (Pipeline.arrRef spec4 3)) (hafter : ∀ t, dat.after 3 t = iblk4 V c 3 t)
    (t : Fin cfg4.N) (d) : dat.before 3 t d = iblk4 V c 3 t := by
  refine (dat.before_in_eq_fetched 3 rfl (fun _ => rfl) (fun _ _ _ => rfl) (fun t => ?_) t d).trans ?_
  · rw [hafter]; unfold Dat.blockOf iblk4; rw [hA]; try rfl
  · unfold Dat.fetched Dat.blockOf iblk4; rw [hA]; try rfl

/-- The shift row (window 4; one block, fetched at the first point only, its index constant): the same. -/
theorem before4_4_of {c : Dev nD} (dat : Dat τ (Elt F) Unit ℕ (UR sig nD τ) ℕ cfg4 c)
    (hA : dat.A 4 = V c (Pipeline.arrRef spec4 4)) (hafter : ∀ t, dat.after 4 t = iblk4 V c 4 t)
    (t : Fin cfg4.N) (d) : dat.before 4 t d = iblk4 V c 4 t := by
  refine (dat.before_in_eq_fetched 4 rfl (fun _ => rfl) (fun _ _ _ => rfl) (fun t => ?_) t d).trans ?_
  · rw [hafter]; unfold Dat.blockOf iblk4; rw [hA]; try rfl
  · unfold Dat.fetched Dat.blockOf iblk4; rw [hA]; try rfl

/-! ## The rectangles the body reads and writes: each staging buffer whole -/

abbrev r4_big : Rect S5000x128 := Rect.unit (s := S5000x128) ![0, 0] S5000x128.size inb_S5000x128_S5000x128_0_0
abbrev r4_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `max ((x − mean) · rsqrt (var + ε) · gamma + beta) 0` of the five whole-buffer loads, written as a one-piece list.
    (The body loads the variance before the mean, which is the order of the payload's arguments.) -/
def out4_5 (x0 : Vec F S5000x128 .f32) (x1 x2 x3 x4 : Vec F S1x128 .f32) : Vec F S5000x128 .f32 :=
  View.canon [⟨r4_big, k4_pay1 (View.ld x0 r4_big) (View.ld x2 r4_row) (View.ld x1 r4_row)
    (View.ld x3 r4_row) (View.ld x4 r4_row)⟩]

/-- The one store is of the whole buffer, so every index of the buffer lies in it. -/
theorem cover4_5 (p : Vec F S5000x128 .f32) (y : S5000x128.Idx) :
    ∃ pc ∈ ([⟨r4_big, p⟩] : List (View.Piece (Elt F) S5000x128 .f32)), y ∈ pc.1.set :=
  View.cover_of_tiled [⟨r4_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out4_5 x0 x1 x2 x3 x4`. (The body also loads the output buffer before storing to it; the loaded value is
    not used.) -/
theorem sound_kernel4 (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E
          (cc4__bn_relu_kernel i arg1 harg1 arg2 harg2 arg3 harg3 arg4 harg4 arg5 harg5 arg6 harg6) K := by
  simp only [cc4__bn_relu_kernel_eq_skeleton]; unfold cc4__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The proof data of the pipeline -/

/-- Region 4's proof data on core `c`: the six arrays as the region finds them; after the body at point `t` the
    five inputs' buffers at their blocks and the output's at `out4_5` of those blocks; the invariant the scoped rest
    and the generator register, untouched (`Pipeline.ΦA`); full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the entry contents (the structure projected; `V` is never unfolded). -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t
      = out4_5 (iblk4 V c 0 t) (iblk4 V c 1 t) (iblk4 V c 2 t) (iblk4 V c 3 t) (iblk4 V c 4 t) := by
  dsimp only [dat4]

/-- What the body is handed in each input's buffer: its block. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation -/

/-- What the body is called with at point `t`: the invariant, the core's dues, and each window's current staging
    buffer at what the pipeline put there. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- What it returns: the same, each buffer at the proof data's `after`. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at a point: the inputs' buffers hold their blocks, so the body's triple applies at those blocks; the
    invariant and the dues are not read. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation4 (c : Dev nD) : BodyObligation (dat4 (F := F) V c) (defs₀ (F := F)) Variants.none () Set.univ := fun t => by
  rw [bigSep_W4, bigSep_W4]
  exact sound_body4 V c t

end Cert.Kernel.Frame4

end
-- ==== Proof.KRegion4.lean ====
/- Region 4 of the word-level kernel program (custom_call 4) as a segment of @main: entered from every unscoped
   buffer at the contents before it (`V13`), left with the result array `main_v89` at what the pipeline's
   write-backs leave and every other buffer as entered (`V14`). Stated over an arbitrary family of proof data whose
   member at pipeline 4 is this region's (`hp4`), and over any `outs` that names the result's final contents
   (`houts`). -/
import proofs.«146189_j40922448396571_2_alg».proof.Proof.KRegions
import proofs.«146189_j40922448396571_2_alg».proof.Proof.KGlobals
import proofs.«146189_j40922448396571_2_alg».proof.Proof.KRegion4Body

set_option maxRecDepth 16384

noncomputable section

namespace Cert.Kernel.Frame4

open Cert.Kernel.Gen Cert.Kernel.Glob
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: the contents before the region (`V13`). -/
abbrev VVin : (c : Dev nD) → (b : Ref sig .tc) → Buf (Elt F) ((c : Thread nD τ).loc b) := fun c b => V13 m outs c b
/-- Exit: the same with `main_v89` at `outs 14 main_v89` (`V14`). -/
abbrev VVout : (c : Dev nD) → (b : Ref sig .tc) → Buf (Elt F) ((c : Thread nD τ).loc b) := fun c b => V14 m outs c b

/-! ## The family of proof data, pinned at pipeline 4 -/

variable (pdats : (p : Fin 17) → (c : Dev nD) → Dat τ (Elt F) Unit ℕ (UR sig nD τ) ℕ (cfgs p) c)

section Pinned
variable (hp4 : ∀ c, pdats 4 c = dat4 (VVin m outs) c)
include hp4

/-- The pinned member's fields, read through the pin: full shares, nothing owed, the entry contents as arrays, the
    untouched invariant, every point recorded. -/
theorem pd4_q (c : Dev nD) (w : Fin cfg4.W) : (pdats 4 c).q w = fullShare := by rw [hp4 c]; rfl
theorem pd4_owed (c : Dev nD) (t) : (pdats 4 c).owed t = 0 := by rw [hp4 c]; rfl
theorem pd4_A (c : Dev nD) (w : Fin cfg4.W) : (pdats 4 c).A w = VVin m outs c (Pipeline.arrRef spec4 w) := by
  rw [hp4 c]; exact A_eq4 (VVin m outs) c w
theorem pd4_Φ (c : Dev nD) (t) : (pdats 4 c).Φ t = Pipeline.ΦA spec4 c := by rw [hp4 c]; rfl
theorem pd4_recorded (c : Dev nD) (t) : (pdats 4 c).recorded t = Set.univ := by rw [hp4 c]; rfl

end Pinned

/-! ## The exit contents, at the region's arrays and off them -/

section Exit
variable (hp4 : ∀ c, pdats 4 c = dat4 (VVin m outs) c)
  (houts : ∀ c, outs 14 main_v89 c = (dat4 (VVin m outs) c).arrAt 5 cfg4.N)

include hp4 in
/-- The row-block operand's array (`main_v76`) ends as entered: no window writes it, and it is not the result's reference. -/
theorem hF4_0 (c : Dev nD) : (pdats 4 c).arrAt 0 cfg4.N = VVout m outs c (Pipeline.arrRef spec4 0) := by
  rw [hp4 c]
  refine ((dat4 (VVin m outs) c).arrAt_in 0 rfl _).trans ((A_eq4 (VVin m outs) c 0).trans ?_)
  exact (Function.update_of_ne (StableHlo.devRef_ne_of_ne (by decide)) _ _).symm

include hp4 in
/-- The mean row's array (`main_v80`) ends as entered: no window writes it, and it is not the result's reference. -/
theorem hF4_1 (c : Dev nD) : (pdats 4 c).arrAt 1 cfg4.N = VVout m outs c (Pipeline.arrRef spec4 1) := by
  rw [hp4 c]
  refine ((dat4 (VVin m outs) c).arrAt_in 1 rfl _).trans ((A_eq4 (VVin m outs) c 1).trans ?_)
  exact (Function.update_of_ne (StableHlo.devRef_ne_of_ne (by decide)) _ _).symm

include hp4 in
/-- The variance row's array (`main_v84`) ends as entered: no window writes it, and it is not the result's reference. -/
theorem hF4_2 (c : Dev nD) : (pdats 4 c).arrAt 2 cfg4.N = VVout m outs c (Pipeline.arrRef spec4 2) := by
  rw [hp4 c]
  refine ((dat4 (VVin m outs) c).arrAt_in 2 rfl _).trans ((A_eq4 (VVin m outs) c 2).trans ?_)
  exact (Function.update_of_ne (StableHlo.devRef_ne_of_ne (by decide)) _ _).symm

include hp4 in
/-- The scale row's array (`main_v86`) ends as entered: no window writes it, and it is not the result's reference. -/
theorem hF4_3 (c : Dev nD) : (pdats 4 c).arrAt 3 cfg4.N = VVout m outs c (Pipeline.arrRef spec4 3) := by
  rw [hp4 c]
  refine ((dat4 (VVin m outs) c).arrAt_in 3 rfl _).trans ((A_eq4 (VVin m outs) c 3).trans ?_)
  exact (Function.update_of_ne (StableHlo.devRef_ne_of_ne (by decide)) _ _).symm

include hp4 in
/-- The shift row's array (`main_v88`) ends as entered: no window writes it, and it is not the result's reference. -/
theorem hF4_4 (c : Dev nD) : (pdats 4 c).arrAt 4 cfg4.N = VVout m outs c (Pipeline.arrRef spec4 4) := by
  rw [hp4 c]
  refine ((dat4 (VVin m outs) c).arrAt_in 4 rfl _).trans ((A_eq4 (VVin m outs) c 4).trans ?_)
  exact (Function.update_of_ne (StableHlo.devRef_ne_of_ne (by decide)) _ _).symm

include hp4 houts in
/-- The result's array (`main_v89`) ends at what the write-backs leave, which is what `outs` names. -/
theorem hF4_5 (c : Dev nD) : (pdats 4 c).arrAt 5 cfg4.N = VVout m outs c (Pipeline.arrRef spec4 5) := by
  rw [hp4 c, ← houts c]
  exact (Function.update_self (Proc.devRef (τ := τ) .tc main_v89) (outs 14 main_v89 c) (V13 m outs c)).symm

include hp4 houts in
/-- Every array of the region at its exit contents. -/
theorem hF4 (c : Dev nD) : ∀ w : Fin cfg4.W, (pdats 4 c).arrAt w cfg4.N = VVout m outs c (Pipeline.arrRef spec4 w)
  | ⟨0, _⟩ => hF4_0 m outs pdats hp4 c
  | ⟨1, _⟩ => hF4_1 m outs pdats hp4 c
  | ⟨2, _⟩ => hF4_2 m outs pdats hp4 c
  | ⟨3, _⟩ => hF4_3 m outs pdats hp4 c
  | ⟨4, _⟩ => hF4_4 m outs pdats hp4 c
  | ⟨5, _⟩ => hF4_5 m outs pdats hp4 houts c

/-- Off the region's six arrays the exit contents are the entry contents: only `main_v89` is updated, and it is
    window 5's array. -/
theorem hrest4 (c : Dev nD) : ∀ b, b ∉ Finset.univ.image (Pipeline.arrRef spec4) → VVout m outs c b = VVin m outs c b :=
  fun b hb => Function.update_of_ne
    (fun e => hb (Finset.mem_image.mpr ⟨5, Finset.mem_univ _, (Proc.devRef_injective _ e).symm⟩)) _ _

end Exit

/-! ## The region as a segment -/

section Record
variable (hp4 : ∀ c, pdats 4 c = dat4 (VVin m outs) c)
  (houts : ∀ c, outs 14 main_v89 c = (dat4 (VVin m outs) c).arrAt 5 cfg4.N)

-- a library lemma stated over the pinned configuration `pin pcs a p` is applied to the printed one: unification has
-- to unfold plain definitions in a metavariable's type
set_option backward.isDefEq.respectTransparency.types false in
/-- Region 4 over the thread state "every unscoped buffer at the boundary's contents, beside the rest state `R`".
    Entry: the six arrays are split out of the unscoped buffers at the entry contents; the generator register goes
    into the invariant; nothing is owed; the kernel has no semaphore of its own. Exit: the arrays are put back at the
    exit contents (`hF4`, `hrest4`) and the register comes back. -/
def reg4 : RegionSeg (pcfgs (F := F)) adm pdats () defs₀ 𝒱₀ L lv 4 where
  win := launch4.win.to₀
  block_pos := launch4.block_pos
  stage_whole := launch4.stage_whole
  K := PEmpty
  osem k := k.elim
  ho := Pipeline.OwnSemFacts.none _
  hbody c := by rw [hp4 c]; exact (body_obligation4 (VVin m outs) c).loose
  hwaits := Pipeline.hwaits_of_owed_zero _ _ _ _ L lv 4 fun c t => pd4_owed m outs pdats hp4 c t
  pre c := iprop(StableHlo.held (c : Thread nD τ) (Pipeline.ucRefs τ sig) (V13 m outs c) ∗ R c)
  post c := iprop(StableHlo.held (c : Thread nD τ) (Pipeline.ucRefs τ sig) (V14 m outs c) ∗ R c)
  X c := iprop(∃ r, prngReg c r)
  Y c := iprop(∃ r, prngReg c r)
  Z c := Pipeline.unscopedRest (Ix := Unit) (Name := ℕ) (U := UR sig nD τ) (Lvl := ℕ) spec4 c (VVin m outs c)
  hentry c := by
    rw [Pipeline.ownSems0_none]
    have hsplit := Pipeline.arrays_of_unscopedBufs (p := 4) (pcfgs (F := F)) adm pdats launch4.win launch4.arr_whole c
      ((pdats 4 c).share_full fun w => pd4_q m outs pdats hp4 c w) (VVin m outs c) fun w => pd4_A m outs pdats hp4 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd4_owed m outs pdats hp4 c]
      icases HO with ⟨%W, HO⟩; iexists W; isplitr
      · ipureintro; exact fun x _ => Or.inl (by rw [pd4_recorded m outs pdats hp4 c]; exact Set.mem_univ x)
      iexact HO
    isplitl [Hp]; · iexact Hp
    iexact Hrest
  hin c := by
    rw [pd4_Φ m outs pdats hp4 c 0]; unfold Pipeline.ΦA
    iintro ⟨Hp, -, Hr⟩
    isplitl [Hr]; · iexact Hr
    iexact Hp
  hout c := by
    rw [Pipeline.ownSems0_none, pd4_Φ m outs pdats hp4 c (Fin.last _)]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c pdats ((pdats 4 c).share_full fun w => pd4_q m outs pdats hp4 c w)
      (VVin m outs c) (VVout m outs c) ((pdats 4 c).arrAt · cfg4.N) (hF4 m outs pdats hp4 houts c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd4_owed m outs pdats hp4 c]
    icases HO with ⟨%W, -, HO⟩; iexists W; iexact HO

/-- The record is entered from the conditional frame's thread state before the region (with the rest state `R`), -/
theorem hpre4 (c : Dev nD) :
    iprop(StableHlo.held (c : Thread nD τ) (Pipeline.ucRefs τ sig) (V13 m outs c) ∗ R (F := F) c)
      ⊢ (reg4 m outs pdats hp4 houts).pre c := .rfl

/-- and left at the one after it. -/
theorem hpost4 (c : Dev nD) :
    (reg4 m outs pdats hp4 houts).post c
      ⊢ iprop(StableHlo.held (c : Thread nD τ) (Pipeline.ucRefs τ sig) (V14 m outs c) ∗ R (F := F) c) := .rfl

end Record

end Cert.Kernel.Frame4

end
-- ==== Proof.KRegion5Body.lean ====
/- Region 5 of the word-level kernel program (custom_call 5: a 64 → 64 matmul, plus a bias row, plus a second
   operand added elementwise): the class-A half of its frame, stated at a parameter `V` — the TensorCore's buffer
   contents when the region is entered. For each of the five windows its block at a grid point, the contents the body
   leaves in the output window's buffer as a function of the four input blocks, the body's triple, the pipeline's
   proof data and the library's body obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame5

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 5 is entered
variable (V : (c : Dev nD) → (b : Ref sig .tc) → Buf (Elt F) ((c : Thread nD τ).loc b))

/-! ## The blocks of the five windows -/

/-- The block of window `w` at grid point `t`: the window's rectangle at `t` read off the window's array as the
    region finds it. Window 0 is rows `5000 t … 5000 t + 4999` of the [100000,64] left operand, window 1 the whole
    [64,64] weight, window 2 the whole [1,64] bias row, window 3 the same rows of the [100000,64] operand that is
    added, window 4 the same rows of the [100000,64] result. -/
def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- An input window whose body leaves its block where it is: whatever proof data has the entry contents as the
    window's array and the block as what the body leaves, the staging buffer the body is handed at `t` holds the block
    at `t` — it was fetched at `t`, or the window's index has not moved since it was. Window 0, the row block of
    the left operand (fetched at every point). -/
theorem before5_0_of {c : Dev nD} (dat : Dat τ (Elt F) Unit ℕ (UR sig nD τ) ℕ cfg5 c)
    (hA : dat.A 0 = V c (Pipeline.arrRef spec5 0)) (hafter : ∀ t, dat.after 0 t = iblk5 V c 0 t)
    (t : Fin cfg5.N) (d) : dat.before 0 t d = iblk5 V c 0 t := by
  refine (dat.before_in_eq_fetched 0 rfl (fun _ => rfl) (fun _ _ _ => rfl) (fun t => ?_) t d).trans ?_
  · rw [hafter]; unfold Dat.blockOf iblk5; rw [hA]; try rfl
  · unfold Dat.fetched Dat.blockOf iblk5; rw [hA]; try rfl

/-- Window 1, the weight (fetched once; its index is constant): the same statement. -/
theorem before5_1_of {c : Dev nD} (dat : Dat τ (Elt F) Unit ℕ (UR sig nD τ) ℕ cfg5 c)
    (hA : dat.A 1 = V c (Pipeline.arrRef spec5 1)) (hafter : ∀ t, dat.after 1 t = iblk5 V c 1 t)
    (t : Fin cfg5.N) (d) : dat.before 1 t d = iblk5 V c 1 t := by
  refine (dat.before_in_eq_fetched 1 rfl (fun _ => rfl) (fun _ _ _ => rfl) (fun t => ?_) t d).trans ?_
  · rw [hafter]; unfold Dat.blockOf iblk5; rw [hA]; try rfl
  · unfold Dat.fetched Dat.blockOf iblk5; rw [hA]; try rfl

/-- Window 2, the bias row (fetched once; its index is constant): the same statement. -/
theorem before5_2_of {c : Dev nD} (dat : Dat τ (Elt F) Unit ℕ (UR sig nD τ) ℕ cfg5 c)
    (hA : dat.A 2 = V c (Pipeline.arrRef spec5 2)) (hafter : ∀ t, dat.after 2 t = iblk5 V c 2 t)
    (t : Fin cfg5.N) (d) : dat.before 2 t d = iblk5 V c 2 t := by
  refine (dat.before_in_eq_fetched 2 rfl (fun _ => rfl) (fun _ _ _ => rfl) (fun t => ?_) t d).trans ?_
  · rw [hafter]; unfold Dat.blockOf iblk5; rw [hA]; try rfl
  · unfold Dat.fetched Dat.blockOf iblk5; rw [hA]; try rfl

/-- Window 3, the row block of the operand that is added (fetched at every point): the same statement. -/
theorem before5_3_of {c : Dev nD} (dat : Dat τ (Elt F) Unit ℕ (UR sig nD τ) ℕ cfg5 c)
    (hA : dat.A 3 = V c (Pipeline.arrRef spec5 3)) (hafter : ∀ t, dat.after 3 t = iblk5 V c 3 t)
    (t : Fin cfg5.N) (d) : dat.before 3 t d = iblk5 V c 3 t := by
  refine (dat.before_in_eq_fetched 3 rfl (fun _ => rfl) (fun _ _ _ => rfl) (fun t => ?_) t d).trans ?_
  · rw [hafter]; unfold Dat.blockOf iblk5; rw [hA]; try rfl
  · unfold Dat.fetched Dat.blockOf iblk5; rw [hA]; try rfl

/-! ## The rectangles the body reads and writes: each staging buffer whole -/

abbrev r5_a : Rect S5000x64 := Rect.unit (s := S5000x64) ![0, 0] S5000x64.size inb_S5000x64_S5000x64_0_0
abbrev r5_w : Rect S64x64 := Rect.unit (s := S64x64) ![0, 0] S64x64.size inb_S64x64_S64x64_0_0
abbrev r5_b : Rect S1x64 := Rect.unit (s := S1x64) ![0, 0] S1x64.size inb_S1x64_S1x64_0_0

/-! ## What the body leaves in the output window's buffer -/

/-- The output staging buffer after the body, from the four input blocks: its one store, of the payload
    `x0 · x1 + (the row x2 on every row) + x3` of the four whole-buffer loads, written as a one-piece list. -/
def out5_4 (x0 : Vec F S5000x64 .f32) (x1 : Vec F S64x64 .f32) (x2 : Vec F S1x64 .f32) (x3 : Vec F S5000x64 .f32) :
    Vec F S5000x64 .f32 :=
  View.canon [⟨r5_a, k5_pay1 (View.ld x0 r5_a) (View.ld x1 r5_w) (View.ld x2 r5_b) (View.ld x3 r5_a)⟩]

/-- The one store is of the whole buffer, so every index of the buffer lies in it. -/
theorem cover5_4 (p : Vec F S5000x64 .f32) (y : S5000x64.Idx) :
    ∃ pc ∈ ([⟨r5_a, p⟩] : List (View.Piece (Elt F) S5000x64 .f32)), y ∈ pc.1.set :=
  View.cover_of_tiled [⟨r5_a, p⟩] S5000x64.size (by rfl) y

/-! ## The body's triple -/

set_option maxHeartbeats 1000000 in
/-- The body at any grid coordinate `i`, on whole staging memrefs: the four inputs' read `x0 … x3`, the output's
    holds anything. It runs to the continuation with the inputs' as they were and the output's at
    `out5_4 x0 x1 x2 x3`. (The body also loads the output buffer before storing to it; the loaded value is not used.) -/
theorem sound_kernel5 (c : Dev nD) (E : Set ℕ) (i : grid5.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out5_4 x0 x1 x2 x3)) -∗ K ⟨⟩))
      ⊢ wp frame (wpE (defs₀ (F := F)) Variants.none c none) E
          (cc5__linear_extra_kernel i arg1 harg1 arg2 harg2 arg3 harg3 arg4 harg4 arg5 harg5) K := by
  simp only [cc5__linear_extra_kernel_eq_skeleton]; unfold cc5__linear_extra_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The proof data of the pipeline -/

/-- Region 5's proof data on core `c`: the five arrays as the region finds them; after the body at point `t` the four
    inputs' buffers at their blocks and the output's at `out5_4` of those blocks; the invariant the scoped rest and the
    generator register, untouched (`Pipeline.ΦA`); full shares; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the entry contents (the structure projected; `V` is never unfolded). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by
  dsimp only [dat5]

/-- What the body is handed in each input's buffer: its block. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation -/

/-- What the body is called with at point `t`: the invariant, the core's dues, and each window's current staging
    buffer at what the pipeline put there. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- What it returns: the same, each buffer at the proof data's `after`. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at a point: the inputs' buffers hold their blocks, so the body's triple applies at those blocks; the
    invariant and the dues are not read. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _
    (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the proof data, at every point. -/
theorem body_obligation5 (c : Dev nD) : BodyObligation (dat5 (F := F) V c) (defs₀ (F := F)) Variants.none () Set.univ := fun t => by
  rw [bigSep_W5, bigSep_W5]
  exact sound_body5 V c t

end Cert.Kernel.Frame5

end
-- ==== Proof.KRegion5.lean ====
/- Region 5 of the word-level kernel program (custom_call 5) as a segment of @main: entered from every unscoped
   buffer at the contents the preceding host stretch leaves, left with the result array `main_v96` at what the
   pipeline's write-backs leave and every other buffer as entered. Stated over an arbitrary family of proof data whose
   member at pipeline 5 is this region's (`hp5`), and over any `outs` that names the result's final contents
   (`houts5`). -/
import proofs.«146189_j40922448396571_2_alg».proof.Proof.KRegions
import proofs.«146189_j40922448396571_2_alg».proof.Proof.KRegion5Body

set_option maxRecDepth 16384

noncomputable section

namespace Cert.Kernel.Frame5

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: what the host stretch before the region leaves. -/
abbrev VV15 : (c : Dev nD) → (b : Ref sig .tc) → Buf (Elt F) ((c : Thread nD τ).loc b) := fun c b => V15 m outs c b
/-- Exit: the same with `main_v96` at `outs 16 main_v96`. -/
abbrev VV16 : (c : Dev nD) → (b : Ref sig .tc) → Buf (Elt F) ((c : Thread nD τ).loc b) := fun c b => V16 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 5 -/

variable (pdats : (p : Fin 17) → (c : Dev nD) → Dat τ (Elt F) Unit ℕ (UR sig nD τ) ℕ (cfgs p) c)

section Pinned
variable (hp5 : ∀ c, pdats 5 c = dat5 (VV15 m outs) c)
include hp5

theorem pd5_q (c : Dev nD) (w : Fin cfg5.W) : (pdats 5 c).q w = fullShare := by rw [hp5 c]; rfl
theorem pd5_owed (c : Dev nD) (t) : (pdats 5 c).owed t = 0 := by rw [hp5 c]; rfl
theorem pd5_A (c : Dev nD) (w : Fin cfg5.W) : (pdats 5 c).A w = VV15 m outs c (Pipeline.arrRef spec5 w) := by
  rw [hp5 c]; exact A_eq5 (VV15 m outs) c w
theorem pd5_Φ (c : Dev nD) (t) : (pdats 5 c).Φ t = Pipeline.ΦA spec5 c := by rw [hp5 c]; rfl
theorem pd5_recorded (c : Dev nD) (t) : (pdats 5 c).recorded t = Set.univ := by rw [hp5 c]; rfl

end Pinned

/-! ## The exit contents, at the region's arrays and off them -/

section Exit
variable (hp5 : ∀ c, pdats 5 c = dat5 (VV15 m outs) c)
  (houts5 : ∀ c, outs 16 main_v96 c = (dat5 (VV15 m outs) c).arrAt 4 cfg5.N)

include hp5 in
/-- The left operand's row block: its array ends as entered — no window writes it, and it is not the result's reference. -/
theorem hF5_0 (c : Dev nD) : (pdats 5 c).arrAt 0 cfg5.N = VV16 m outs c (Pipeline.arrRef spec5 0) := by
  rw [hp5 c]
  refine ((dat5 (VV15 m outs) c).arrAt_in 0 rfl _).trans ((A_eq5 (VV15 m outs) c 0).trans ?_)
  exact (Function.update_of_ne (StableHlo.devRef_ne_of_ne (by decide)) _ _).symm

include hp5 in
/-- The weight: its array ends as entered — no window writes it, and it is not the result's reference. -/
theorem hF5_1 (c : Dev nD) : (pdats 5 c).arrAt 1 cfg5.N = VV16 m outs c (Pipeline.arrRef spec5 1) := by
  rw [hp5 c]
  refine ((dat5 (VV15 m outs) c).arrAt_in 1 rfl _).trans ((A_eq5 (VV15 m outs) c 1).trans ?_)
  exact (Function.update_of_ne (StableHlo.devRef_ne_of_ne (by decide)) _ _).symm

include hp5 in
/-- The bias row: its array ends as entered — no window writes it, and it is not the result's reference. -/
theorem hF5_2 (c : Dev nD) : (pdats 5 c).arrAt 2 cfg5.N = VV16 m outs c (Pipeline.arrRef spec5 2) := by
  rw [hp5 c]
  refine ((dat5 (VV15 m outs) c).arrAt_in 2 rfl _).trans ((A_eq5 (VV15 m outs) c 2).trans ?_)
  exact (Function.update_of_ne (StableHlo.devRef_ne_of_ne (by decide)) _ _).symm

include hp5 in
/-- The added operand's row block: its array ends as entered — no window writes it, and it is not the result's reference. -/
theorem hF5_3 (c : Dev nD) : (pdats 5 c).arrAt 3 cfg5.N = VV16 m outs c (Pipeline.arrRef spec5 3) := by
  rw [hp5 c]
  refine ((dat5 (VV15 m outs) c).arrAt_in 3 rfl _).trans ((A_eq5 (VV15 m outs) c 3).trans ?_)
  exact (Function.update_of_ne (StableHlo.devRef_ne_of_ne (by decide)) _ _).symm

include hp5 houts5 in
/-- The result's array ends at what the write-backs leave, which is what `outs` names. -/
theorem hF5_4 (c : Dev nD) : (pdats 5 c).arrAt 4 cfg5.N = VV16 m outs c (Pipeline.arrRef spec5 4) := by
  rw [hp5 c, ← houts5 c]
  exact (Function.update_self (Proc.devRef (τ := τ) .tc main_v96) (outs 16 main_v96 c) (V15 m outs c)).symm

include hp5 houts5 in
theorem hF5 (c : Dev nD) : ∀ w : Fin cfg5.W, (pdats 5 c).arrAt w cfg5.N = VV16 m outs c (Pipeline.arrRef spec5 w)
  | ⟨0, _⟩ => hF5_0 m outs pdats hp5 c
  | ⟨1, _⟩ => hF5_1 m outs pdats hp5 c
  | ⟨2, _⟩ => hF5_2 m outs pdats hp5 c
  | ⟨3, _⟩ => hF5_3 m outs pdats hp5 c
  | ⟨4, _⟩ => hF5_4 m outs pdats hp5 houts5 c

/-- Off the region's five arrays the exit contents are the entry contents: only `main_v96` is updated, and it is
    window 4's array. -/
theorem hrest5 (c : Dev nD) : ∀ b, b ∉ Finset.univ.image (Pipeline.arrRef spec5) → VV16 m outs c b = VV15 m outs c b :=
  fun b hb => Function.update_of_ne
    (fun e => hb (Finset.mem_image.mpr ⟨4, Finset.mem_univ _, (Proc.devRef_injective _ e).symm⟩)) _ _

end Exit

/-! ## The region as a segment -/

section Record
variable (hp5 : ∀ c, pdats 5 c = dat5 (VV15 m outs) c)
  (houts5 : ∀ c, outs 16 main_v96 c = (dat5 (VV15 m outs) c).arrAt 4 cfg5.N)

-- a library lemma stated over the pinned configuration `pin pcs a p` is applied to the printed one: unification has
-- to unfold plain definitions in a metavariable's type
set_option backward.isDefEq.respectTransparency.types false in
/-- Region 5 over the thread state "every unscoped buffer at the boundary's contents, beside `R`". Entry: the
    region's arrays are split out of the unscoped buffers at the entry contents; the generator register goes into the
    invariant; nothing is owed; the kernel has no semaphore of its own. Exit: the arrays are put back at the exit
    contents (`hF5`, `hrest5`) and the register comes back. -/
def reg5 : RegionSeg (pcfgs (F := F)) adm pdats () defs₀ 𝒱₀ L lv 5 where
  win := launch5.win.to₀
  block_pos := launch5.block_pos
  stage_whole := launch5.stage_whole
  K := PEmpty
  osem k := k.elim
  ho := Pipeline.OwnSemFacts.none _
  hbody c := by rw [hp5 c]; exact (body_obligation5 (VV15 m outs) c).loose
  hwaits := Pipeline.hwaits_of_owed_zero _ _ _ _ L lv 5 fun c t => pd5_owed m outs pdats hp5 c t
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec5 c (VV15 m outs c)
  hentry c := by
    rw [Pipeline.ownSems0_none]
    have hsplit := Pipeline.arrays_of_unscopedBufs (p := 5) (pcfgs (F := F)) adm pdats launch5.win launch5.arr_whole c
      ((pdats 5 c).share_full fun w => pd5_q m outs pdats hp5 c w) (VV15 m outs c) fun w => pd5_A m outs pdats hp5 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd5_owed m outs pdats hp5 c]
      icases HO with ⟨%W, HO⟩; iexists W; isplitr; · ipureintro; exact fun x _ => Or.inl (by rw [pd5_recorded m outs pdats hp5 c]; exact Set.mem_univ x)
      iexact HO
    isplitl [Hp]; · iexact Hp
    iexact Hrest
  hin c := by
    rw [pd5_Φ m outs pdats hp5 c 0]; unfold Pipeline.ΦA
    iintro ⟨Hp, -, Hr⟩
    isplitl [Hr]; · iexact Hr
    iexact Hp
  hout c := by
    rw [Pipeline.ownSems0_none, pd5_Φ m outs pdats hp5 c (Fin.last _)]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c pdats ((pdats 5 c).share_full fun w => pd5_q m outs pdats hp5 c w)
      (VV15 m outs c) (VV16 m outs c) ((pdats 5 c).arrAt · cfg5.N) (hF5 m outs pdats hp5 houts5 c) (hrest5 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd5_owed m outs pdats hp5 c]
    icases HO with ⟨%W, -, HO⟩; iexists W; iexact HO

/-- The record is entered from the conditional frame's thread state before the region (with the rest state `R`), -/
theorem hpre5 (c : Dev nD) :
    iprop(StableHlo.held (c : Thread nD τ) (Pipeline.ucRefs τ sig) (V15 m outs c) ∗ R (F := F) c)
      ⊢ (reg5 m outs pdats hp5 houts5).pre c := .rfl

/-- and left at the one after it. -/
theorem hpost5 (c : Dev nD) :
    (reg5 m outs pdats hp5 houts5).post c
      ⊢ iprop(StableHlo.held (c : Thread nD τ) (Pipeline.ucRefs τ sig) (V16 m outs c) ∗ R (F := F) c) := .rfl

end Record

end Cert.Kernel.Frame5

end
-- ==== Proof.KRegion6Body.lean ====
/- Region 6 of the word-level kernel program (custom_call 6, the batch-norm affine map followed by the maximum with zero, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame6

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 6 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- The row-block operand (window 0): for any proof data whose array for it is the entry contents and whose body
    leaves the block where it is, the staging buffer handed to the body at `t` holds the block at `t` — fetched at
    `t`, or still there from an earlier point because the block index has not moved since. -/
theorem before6_0_of {c : Dev nD} (dat : Dat τ (Elt F) Unit ℕ (UR sig nD τ) ℕ cfg6 c)
    (hA : dat.A 0 = V c (Pipeline.arrRef spec6 0)) (hafter : ∀ t, dat.after 0 t = iblk6 V c 0 t)
    (t : Fin cfg6.N) (d) : dat.before 0 t d = iblk6 V c 0 t := by
  refine (dat.before_in_eq_fetched 0 rfl (fun _ => rfl) (fun _ _ _ => rfl) (fun t => ?_) t d).trans ?_
  · rw [hafter]; unfold Dat.blockOf iblk6; rw [hA]; try rfl
  · unfold Dat.fetched Dat.blockOf iblk6; rw [hA]; try rfl

/-- The mean row (window 1; one block, fetched at the first point only, its index constant): the same. -/
theorem before6_1_of {c : Dev nD} (dat : Dat τ (Elt F) Unit ℕ (UR sig nD τ) ℕ cfg6 c)
    (hA : dat.A 1 = V c (Pipeline.arrRef spec6 1)) (hafter : ∀ t, dat.after 1 t = iblk6 V c 1 t)
    (t : Fin cfg6.N) (d) : dat.before 1 t d = iblk6 V c 1 t := by
  refine (dat.before_in_eq_fetched 1 rfl (fun _ => rfl) (fun _ _ _ => rfl) (fun t => ?_) t d).trans ?_
  · rw [hafter]; unfold Dat.blockOf iblk6; rw [hA]; try rfl
  · unfold Dat.fetched Dat.blockOf iblk6; rw [hA]; try rfl

/-- The variance row (window 2; one block, fetched at the first point only, its index constant): the same. -/
theorem before6_2_of {c : Dev nD} (dat : Dat τ (Elt F) Unit ℕ (UR sig nD τ) ℕ cfg6 c)
    (hA : dat.A 2 = V c (Pipeline.arrRef spec6 2)) (hafter : ∀ t, dat.after 2 t = iblk6 V c 2 t)
    (t : Fin cfg6.N) (d) : dat.before 2 t d = iblk6 V c 2 t := by
  refine (dat.before_in_eq_fetched 2 rfl (fun _ => rfl) (fun _ _ _ => rfl) (fun t => ?_) t d).trans ?_
  · rw [hafter]; unfold Dat.blockOf iblk6; rw [hA]; try rfl
  · unfold Dat.fetched Dat.blockOf iblk6; rw [hA]; try rfl

/-- The scale row (window 3; one block, fetched at the first point only, its index constant): the same. -/
theorem before6_3_of {c : Dev nD} (dat : Dat τ (Elt F) Unit ℕ (UR sig nD τ) ℕ cfg6 c)
    (hA : dat.A 3 = V c (Pipeline.arrRef spec6 3)) (hafter : ∀ t, dat.after 3 t = iblk6 V c 3 t)
    (t : Fin cfg6.N) (d) : dat.before 3 t d = iblk6 V c 3 t := by
  refine (dat.before_in_eq_fetched 3 rfl (fun _ => rfl) (fun _ _ _ => rfl) (fun t => ?_) t d).trans ?_
  · rw [hafter]; unfold Dat.blockOf iblk6; rw [hA]; try rfl
  · unfold Dat.fetched Dat.blockOf iblk6; rw [hA]; try rfl

/-- The shift row (window 4; one block, fetched at the first point only, its index constant): the same. -/
theorem before6_4_of {c : Dev nD} (dat : Dat τ (Elt F) Unit ℕ (UR sig nD τ) ℕ cfg6 c)
    (hA : dat.A 4 = V c (Pipeline.arrRef spec6 4)) (hafter : ∀ t, dat.after 4 t = iblk6 V c 4 t)
    (t : Fin cfg6.N) (d) : dat.before 4 t d = iblk6 V c 4 t := by
  refine (dat.before_in_eq_fetched 4 rfl (fun _ => rfl) (fun _ _ _ => rfl) (fun t => ?_) t d).trans ?_
  · rw [hafter]; unfold Dat.blockOf iblk6; rw [hA]; try rfl
  · unfold Dat.fetched Dat.blockOf iblk6; rw [hA]; try rfl

/-! ## The rectangles the body reads and writes: each staging buffer whole -/

abbrev r6_big : Rect S5000x128 := Rect.unit (s := S5000x128) ![0, 0] S5000x128.size inb_S5000x128_S5000x128_0_0
abbrev r6_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `max ((x − mean) · rsqrt (var + ε) · gamma + beta) 0` of the five whole-buffer loads, written as a one-piece list.
    (The body loads the variance before the mean, which is the order of the payload's arguments.) -/
def out6_5 (x0 : Vec F S5000x128 .f32) (x1 x2 x3 x4 : Vec F S1x128 .f32) : Vec F S5000x128 .f32 :=
  View.canon [⟨r6_big, k6_pay1 (View.ld x0 r6_big) (View.ld x2 r6_row) (View.ld x1 r6_row)
    (View.ld x3 r6_row) (View.ld x4 r6_row)⟩]

/-- The one store is of the whole buffer, so every index of the buffer lies in it. -/
theorem cover6_5 (p : Vec F S5000x128 .f32) (y : S5000x128.Idx) :
    ∃ pc ∈ ([⟨r6_big, p⟩] : List (View.Piece (Elt F) S5000x128 .f32)), y ∈ pc.1.set :=
  View.cover_of_tiled [⟨r6_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out6_5 x0 x1 x2 x3 x4`. (The body also loads the output buffer before storing to it; the loaded value is
    not used.) -/
theorem sound_kernel6 (c : Dev nD) (E : Set ℕ) (i : grid6.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__bn_relu_kernel i arg1 harg1 arg2 harg2 arg3 harg3 arg4 harg4 arg5 harg5 arg6 harg6) K := by
  simp only [cc6__bn_relu_kernel_eq_skeleton]; unfold cc6__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The proof data of the pipeline -/

/-- Region 6's proof data on core `c`: the six arrays as the region finds them; after the body at point `t` the
    five inputs' buffers at their blocks and the output's at `out6_5` of those blocks; the invariant the scoped rest
    and the generator register, untouched (`Pipeline.ΦA`); full shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the entry contents (the structure projected; `V` is never unfolded). -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t
      = out6_5 (iblk6 V c 0 t) (iblk6 V c 1 t) (iblk6 V c 2 t) (iblk6 V c 3 t) (iblk6 V c 4 t) := by
  dsimp only [dat6]

/-- What the body is handed in each input's buffer: its block. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

/-- What the body is called with at point `t`: the invariant, the core's dues, and each window's current staging
    buffer at what the pipeline put there. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- What it returns: the same, each buffer at the proof data's `after`. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at a point: the inputs' buffers hold their blocks, so the body's triple applies at those blocks; the
    invariant and the dues are not read. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation6 (c : Dev nD) : BodyObligation (dat6 (F := F) V c) (defs₀ (F := F)) Variants.none () Set.univ := fun t => by
  rw [bigSep_W6, bigSep_W6]
  exact sound_body6 V c t

end Cert.Kernel.Frame6

end
-- ==== Proof.KRegion6.lean ====
/- Region 6 of the word-level kernel program (custom_call 6) as a segment of @main: entered from every unscoped
   buffer at the contents before it (`V19`), left with the result array `main_v119` at what the pipeline's
   write-backs leave and every other buffer as entered (`V20`). Stated over an arbitrary family of proof data whose
   member at pipeline 6 is this region's (`hp6`), and over any `outs` that names the result's final contents
   (`houts`). -/
import proofs.«146189_j40922448396571_2_alg».proof.Proof.KRegions
import proofs.«146189_j40922448396571_2_alg».proof.Proof.KGlobals
import proofs.«146189_j40922448396571_2_alg».proof.Proof.KRegion6Body

set_option maxRecDepth 16384

noncomputable section

namespace Cert.Kernel.Frame6

open Cert.Kernel.Gen Cert.Kernel.Glob
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: the contents before the region (`V19`). -/
abbrev VVin : (c : Dev nD) → (b : Ref sig .tc) → Buf (Elt F) ((c : Thread nD τ).loc b) := fun c b => V19 m outs c b
/-- Exit: the same with `main_v119` at `outs 20 main_v119` (`V20`). -/
abbrev VVout : (c : Dev nD) → (b : Ref sig .tc) → Buf (Elt F) ((c : Thread nD τ).loc b) := fun c b => V20 m outs c b

/-! ## The family of proof data, pinned at pipeline 6 -/

variable (pdats : (p : Fin 17) → (c : Dev nD) → Dat τ (Elt F) Unit ℕ (UR sig nD τ) ℕ (cfgs p) c)

section Pinned
variable (hp6 : ∀ c, pdats 6 c = dat6 (VVin m outs) c)
include hp6

/-- The pinned member's fields, read through the pin: full shares, nothing owed, the entry contents as arrays, the
    untouched invariant, every point recorded. -/
theorem pd6_q (c : Dev nD) (w : Fin cfg6.W) : (pdats 6 c).q w = fullShare := by rw [hp6 c]; rfl
theorem pd6_owed (c : Dev nD) (t) : (pdats 6 c).owed t = 0 := by rw [hp6 c]; rfl
theorem pd6_A (c : Dev nD) (w : Fin cfg6.W) : (pdats 6 c).A w = VVin m outs c (Pipeline.arrRef spec6 w) := by
  rw [hp6 c]; exact A_eq6 (VVin m outs) c w
theorem pd6_Φ (c : Dev nD) (t) : (pdats 6 c).Φ t = Pipeline.ΦA spec6 c := by rw [hp6 c]; rfl
theorem pd6_recorded (c : Dev nD) (t) : (pdats 6 c).recorded t = Set.univ := by rw [hp6 c]; rfl

end Pinned

/-! ## The exit contents, at the region's arrays and off them -/

section Exit
variable (hp6 : ∀ c, pdats 6 c = dat6 (VVin m outs) c)
  (houts : ∀ c, outs 20 main_v119 c = (dat6 (VVin m outs) c).arrAt 5 cfg6.N)

include hp6 in
/-- The row-block operand's array (`main_v106`) ends as entered: no window writes it, and it is not the result's reference. -/
theorem hF6_0 (c : Dev nD) : (pdats 6 c).arrAt 0 cfg6.N = VVout m outs c (Pipeline.arrRef spec6 0) := by
  rw [hp6 c]
  refine ((dat6 (VVin m outs) c).arrAt_in 0 rfl _).trans ((A_eq6 (VVin m outs) c 0).trans ?_)
  exact (Function.update_of_ne (StableHlo.devRef_ne_of_ne (by decide)) _ _).symm

include hp6 in
/-- The mean row's array (`main_v110`) ends as entered: no window writes it, and it is not the result's reference. -/
theorem hF6_1 (c : Dev nD) : (pdats 6 c).arrAt 1 cfg6.N = VVout m outs c (Pipeline.arrRef spec6 1) := by
  rw [hp6 c]
  refine ((dat6 (VVin m outs) c).arrAt_in 1 rfl _).trans ((A_eq6 (VVin m outs) c 1).trans ?_)
  exact (Function.update_of_ne (StableHlo.devRef_ne_of_ne (by decide)) _ _).symm

include hp6 in
/-- The variance row's array (`main_v114`) ends as entered: no window writes it, and it is not the result's reference. -/
theorem hF6_2 (c : Dev nD) : (pdats 6 c).arrAt 2 cfg6.N = VVout m outs c (Pipeline.arrRef spec6 2) := by
  rw [hp6 c]
  refine ((dat6 (VVin m outs) c).arrAt_in 2 rfl _).trans ((A_eq6 (VVin m outs) c 2).trans ?_)
  exact (Function.update_of_ne (StableHlo.devRef_ne_of_ne (by decide)) _ _).symm

include hp6 in
/-- The scale row's array (`main_v116`) ends as entered: no window writes it, and it is not the result's reference. -/
theorem hF6_3 (c : Dev nD) : (pdats 6 c).arrAt 3 cfg6.N = VVout m outs c (Pipeline.arrRef spec6 3) := by
  rw [hp6 c]
  refine ((dat6 (VVin m outs) c).arrAt_in 3 rfl _).trans ((A_eq6 (VVin m outs) c 3).trans ?_)
  exact (Function.update_of_ne (StableHlo.devRef_ne_of_ne (by decide)) _ _).symm

include hp6 in
/-- The shift row's array (`main_v118`) ends as entered: no window writes it, and it is not the result's reference. -/
theorem hF6_4 (c : Dev nD) : (pdats 6 c).arrAt 4 cfg6.N = VVout m outs c (Pipeline.arrRef spec6 4) := by
  rw [hp6 c]
  refine ((dat6 (VVin m outs) c).arrAt_in 4 rfl _).trans ((A_eq6 (VVin m outs) c 4).trans ?_)
  exact (Function.update_of_ne (StableHlo.devRef_ne_of_ne (by decide)) _ _).symm

include hp6 houts in
/-- The result's array (`main_v119`) ends at what the write-backs leave, which is what `outs` names. -/
theorem hF6_5 (c : Dev nD) : (pdats 6 c).arrAt 5 cfg6.N = VVout m outs c (Pipeline.arrRef spec6 5) := by
  rw [hp6 c, ← houts c]
  exact (Function.update_self (Proc.devRef (τ := τ) .tc main_v119) (outs 20 main_v119 c) (V19 m outs c)).symm

include hp6 houts in
/-- Every array of the region at its exit contents. -/
theorem hF6 (c : Dev nD) : ∀ w : Fin cfg6.W, (pdats 6 c).arrAt w cfg6.N = VVout m outs c (Pipeline.arrRef spec6 w)
  | ⟨0, _⟩ => hF6_0 m outs pdats hp6 c
  | ⟨1, _⟩ => hF6_1 m outs pdats hp6 c
  | ⟨2, _⟩ => hF6_2 m outs pdats hp6 c
  | ⟨3, _⟩ => hF6_3 m outs pdats hp6 c
  | ⟨4, _⟩ => hF6_4 m outs pdats hp6 c
  | ⟨5, _⟩ => hF6_5 m outs pdats hp6 houts c

/-- Off the region's six arrays the exit contents are the entry contents: only `main_v119` is updated, and it is
    window 5's array. -/
theorem hrest6 (c : Dev nD) : ∀ b, b ∉ Finset.univ.image (Pipeline.arrRef spec6) → VVout m outs c b = VVin m outs c b :=
  fun b hb => Function.update_of_ne
    (fun e => hb (Finset.mem_image.mpr ⟨5, Finset.mem_univ _, (Proc.devRef_injective _ e).symm⟩)) _ _

end Exit

/-! ## The region as a segment -/

section Record
variable (hp6 : ∀ c, pdats 6 c = dat6 (VVin m outs) c)
  (houts : ∀ c, outs 20 main_v119 c = (dat6 (VVin m outs) c).arrAt 5 cfg6.N)

-- a library lemma stated over the pinned configuration `pin pcs a p` is applied to the printed one: unification has
-- to unfold plain definitions in a metavariable's type
set_option backward.isDefEq.respectTransparency.types false in
/-- Region 6 over the thread state "every unscoped buffer at the boundary's contents, beside the rest state `R`".
    Entry: the six arrays are split out of the unscoped buffers at the entry contents; the generator register goes
    into the invariant; nothing is owed; the kernel has no semaphore of its own. Exit: the arrays are put back at the
    exit contents (`hF6`, `hrest6`) and the register comes back. -/
def reg6 : RegionSeg (pcfgs (F := F)) adm pdats () defs₀ 𝒱₀ L lv 6 where
  win := launch6.win.to₀
  block_pos := launch6.block_pos
  stage_whole := launch6.stage_whole
  K := PEmpty
  osem k := k.elim
  ho := Pipeline.OwnSemFacts.none _
  hbody c := by rw [hp6 c]; exact (body_obligation6 (VVin m outs) c).loose
  hwaits := Pipeline.hwaits_of_owed_zero _ _ _ _ L lv 6 fun c t => pd6_owed m outs pdats hp6 c t
  pre c := iprop(StableHlo.held (c : Thread nD τ) (Pipeline.ucRefs τ sig) (V19 m outs c) ∗ R c)
  post c := iprop(StableHlo.held (c : Thread nD τ) (Pipeline.ucRefs τ sig) (V20 m outs c) ∗ R c)
  X c := iprop(∃ r, prngReg c r)
  Y c := iprop(∃ r, prngReg c r)
  Z c := Pipeline.unscopedRest (Ix := Unit) (Name := ℕ) (U := UR sig nD τ) (Lvl := ℕ) spec6 c (VVin m outs c)
  hentry c := by
    rw [Pipeline.ownSems0_none]
    have hsplit := Pipeline.arrays_of_unscopedBufs (p := 6) (pcfgs (F := F)) adm pdats launch6.win launch6.arr_whole c
      ((pdats 6 c).share_full fun w => pd6_q m outs pdats hp6 c w) (VVin m outs c) fun w => pd6_A m outs pdats hp6 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd6_owed m outs pdats hp6 c]
      icases HO with ⟨%W, HO⟩; iexists W; isplitr
      · ipureintro; exact fun x _ => Or.inl (by rw [pd6_recorded m outs pdats hp6 c]; exact Set.mem_univ x)
      iexact HO
    isplitl [Hp]; · iexact Hp
    iexact Hrest
  hin c := by
    rw [pd6_Φ m outs pdats hp6 c 0]; unfold Pipeline.ΦA
    iintro ⟨Hp, -, Hr⟩
    isplitl [Hr]; · iexact Hr
    iexact Hp
  hout c := by
    rw [Pipeline.ownSems0_none, pd6_Φ m outs pdats hp6 c (Fin.last _)]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c pdats ((pdats 6 c).share_full fun w => pd6_q m outs pdats hp6 c w)
      (VVin m outs c) (VVout m outs c) ((pdats 6 c).arrAt · cfg6.N) (hF6 m outs pdats hp6 houts c) (hrest6 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd6_owed m outs pdats hp6 c]
    icases HO with ⟨%W, -, HO⟩; iexists W; iexact HO

/-- The record is entered from the conditional frame's thread state before the region (with the rest state `R`), -/
theorem hpre6 (c : Dev nD) :
    iprop(StableHlo.held (c : Thread nD τ) (Pipeline.ucRefs τ sig) (V19 m outs c) ∗ R (F := F) c)
      ⊢ (reg6 m outs pdats hp6 houts).pre c := .rfl

/-- and left at the one after it. -/
theorem hpost6 (c : Dev nD) :
    (reg6 m outs pdats hp6 houts).post c
      ⊢ iprop(StableHlo.held (c : Thread nD τ) (Pipeline.ucRefs τ sig) (V20 m outs c) ∗ R (F := F) c) := .rfl

end Record

end Cert.Kernel.Frame6

end
-- ==== Proof.KRegion7Body.lean ====
/- Region 7 of the word-level kernel program (custom_call 7: a 64 → 64 matmul, plus a bias row, plus a second
   operand added elementwise): the class-A half of its frame, stated at a parameter `V` — the TensorCore's buffer
   contents when the region is entered. For each of the five windows its block at a grid point, the contents the body
   leaves in the output window's buffer as a function of the four input blocks, the body's triple, the pipeline's
   proof data and the library's body obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame7

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 7 is entered
variable (V : (c : Dev nD) → (b : Ref sig .tc) → Buf (Elt F) ((c : Thread nD τ).loc b))

/-! ## The blocks of the five windows -/

/-- The block of window `w` at grid point `t`: the window's rectangle at `t` read off the window's array as the
    region finds it. Window 0 is rows `5000 t … 5000 t + 4999` of the [100000,64] left operand, window 1 the whole
    [64,64] weight, window 2 the whole [1,64] bias row, window 3 the same rows of the [100000,64] operand that is
    added, window 4 the same rows of the [100000,64] result. -/
def iblk7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-- An input window whose body leaves its block where it is: whatever proof data has the entry contents as the
    window's array and the block as what the body leaves, the staging buffer the body is handed at `t` holds the block
    at `t` — it was fetched at `t`, or the window's index has not moved since it was. Window 0, the row block of
    the left operand (fetched at every point). -/
theorem before7_0_of {c : Dev nD} (dat : Dat τ (Elt F) Unit ℕ (UR sig nD τ) ℕ cfg7 c)
    (hA : dat.A 0 = V c (Pipeline.arrRef spec7 0)) (hafter : ∀ t, dat.after 0 t = iblk7 V c 0 t)
    (t : Fin cfg7.N) (d) : dat.before 0 t d = iblk7 V c 0 t := by
  refine (dat.before_in_eq_fetched 0 rfl (fun _ => rfl) (fun _ _ _ => rfl) (fun t => ?_) t d).trans ?_
  · rw [hafter]; unfold Dat.blockOf iblk7; rw [hA]; try rfl
  · unfold Dat.fetched Dat.blockOf iblk7; rw [hA]; try rfl

/-- Window 1, the weight (fetched once; its index is constant): the same statement. -/
theorem before7_1_of {c : Dev nD} (dat : Dat τ (Elt F) Unit ℕ (UR sig nD τ) ℕ cfg7 c)
    (hA : dat.A 1 = V c (Pipeline.arrRef spec7 1)) (hafter : ∀ t, dat.after 1 t = iblk7 V c 1 t)
    (t : Fin cfg7.N) (d) : dat.before 1 t d = iblk7 V c 1 t := by
  refine (dat.before_in_eq_fetched 1 rfl (fun _ => rfl) (fun _ _ _ => rfl) (fun t => ?_) t d).trans ?_
  · rw [hafter]; unfold Dat.blockOf iblk7; rw [hA]; try rfl
  · unfold Dat.fetched Dat.blockOf iblk7; rw [hA]; try rfl

/-- Window 2, the bias row (fetched once; its index is constant): the same statement. -/
theorem before7_2_of {c : Dev nD} (dat : Dat τ (Elt F) Unit ℕ (UR sig nD τ) ℕ cfg7 c)
    (hA : dat.A 2 = V c (Pipeline.arrRef spec7 2)) (hafter : ∀ t, dat.after 2 t = iblk7 V c 2 t)
    (t : Fin cfg7.N) (d) : dat.before 2 t d = iblk7 V c 2 t := by
  refine (dat.before_in_eq_fetched 2 rfl (fun _ => rfl) (fun _ _ _ => rfl) (fun t => ?_) t d).trans ?_
  · rw [hafter]; unfold Dat.blockOf iblk7; rw [hA]; try rfl
  · unfold Dat.fetched Dat.blockOf iblk7; rw [hA]; try rfl

/-- Window 3, the row block of the operand that is added (fetched at every point): the same statement. -/
theorem before7_3_of {c : Dev nD} (dat : Dat τ (Elt F) Unit ℕ (UR sig nD τ) ℕ cfg7 c)
    (hA : dat.A 3 = V c (Pipeline.arrRef spec7 3)) (hafter : ∀ t, dat.after 3 t = iblk7 V c 3 t)
    (t : Fin cfg7.N) (d) : dat.before 3 t d = iblk7 V c 3 t := by
  refine (dat.before_in_eq_fetched 3 rfl (fun _ => rfl) (fun _ _ _ => rfl) (fun t => ?_) t d).trans ?_
  · rw [hafter]; unfold Dat.blockOf iblk7; rw [hA]; try rfl
  · unfold Dat.fetched Dat.blockOf iblk7; rw [hA]; try rfl

/-! ## The rectangles the body reads and writes: each staging buffer whole -/

abbrev r7_a : Rect S5000x64 := Rect.unit (s := S5000x64) ![0, 0] S5000x64.size inb_S5000x64_S5000x64_0_0
abbrev r7_w : Rect S64x64 := Rect.unit (s := S64x64) ![0, 0] S64x64.size inb_S64x64_S64x64_0_0
abbrev r7_b : Rect S1x64 := Rect.unit (s := S1x64) ![0, 0] S1x64.size inb_S1x64_S1x64_0_0

/-! ## What the body leaves in the output window's buffer -/

/-- The output staging buffer after the body, from the four input blocks: its one store, of the payload
    `x0 · x1 + (the row x2 on every row) + x3` of the four whole-buffer loads, written as a one-piece list. -/
def out7_4 (x0 : Vec F S5000x64 .f32) (x1 : Vec F S64x64 .f32) (x2 : Vec F S1x64 .f32) (x3 : Vec F S5000x64 .f32) :
    Vec F S5000x64 .f32 :=
  View.canon [⟨r7_a, k7_pay1 (View.ld x0 r7_a) (View.ld x1 r7_w) (View.ld x2 r7_b) (View.ld x3 r7_a)⟩]

/-- The one store is of the whole buffer, so every index of the buffer lies in it. -/
theorem cover7_4 (p : Vec F S5000x64 .f32) (y : S5000x64.Idx) :
    ∃ pc ∈ ([⟨r7_a, p⟩] : List (View.Piece (Elt F) S5000x64 .f32)), y ∈ pc.1.set :=
  View.cover_of_tiled [⟨r7_a, p⟩] S5000x64.size (by rfl) y

/-! ## The body's triple -/

set_option maxHeartbeats 1000000 in
/-- The body at any grid coordinate `i`, on whole staging memrefs: the four inputs' read `x0 … x3`, the output's
    holds anything. It runs to the continuation with the inputs' as they were and the output's at
    `out7_4 x0 x1 x2 x3`. (The body also loads the output buffer before storing to it; the loaded value is not used.) -/
theorem sound_kernel7 (c : Dev nD) (E : Set ℕ) (i : grid7.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out7_4 x0 x1 x2 x3)) -∗ K ⟨⟩))
      ⊢ wp frame (wpE (defs₀ (F := F)) Variants.none c none) E
          (cc7__linear_extra_kernel i arg1 harg1 arg2 harg2 arg3 harg3 arg4 harg4 arg5 harg5) K := by
  simp only [cc7__linear_extra_kernel_eq_skeleton]; unfold cc7__linear_extra_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-! ## The proof data of the pipeline -/

/-- Region 7's proof data on core `c`: the five arrays as the region finds them; after the body at point `t` the four
    inputs' buffers at their blocks and the output's at `out7_4` of those blocks; the invariant the scoped rest and the
    generator register, untouched (`Pipeline.ΦA`); full shares; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

/-- The proof data's arrays are the entry contents (the structure projected; `V` is never unfolded). -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (iblk7 V c 0 t) (iblk7 V c 1 t) (iblk7 V c 2 t) (iblk7 V c 3 t) := by
  dsimp only [dat7]

/-- What the body is handed in each input's buffer: its block. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation -/

/-- What the body is called with at point `t`: the invariant, the core's dues, and each window's current staging
    buffer at what the pipeline put there. -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- What it returns: the same, each buffer at the proof data's `after`. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at a point: the inputs' buffers hold their blocks, so the body's triple applies at those blocks; the
    invariant and the dues are not read. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _
    (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the proof data, at every point. -/
theorem body_obligation7 (c : Dev nD) : BodyObligation (dat7 (F := F) V c) (defs₀ (F := F)) Variants.none () Set.univ := fun t => by
  rw [bigSep_W7, bigSep_W7]
  exact sound_body7 V c t

end Cert.Kernel.Frame7

end
-- ==== Proof.KRegion7.lean ====
/- Region 7 of the word-level kernel program (custom_call 7) as a segment of @main: entered from every unscoped
   buffer at the contents the preceding host stretch leaves, left with the result array `main_v137` at what the
   pipeline's write-backs leave and every other buffer as entered. Stated over an arbitrary family of proof data whose
   member at pipeline 7 is this region's (`hp7`), and over any `outs` that names the result's final contents
   (`houts7`). -/
import proofs.«146189_j40922448396571_2_alg».proof.Proof.KRegions
import proofs.«146189_j40922448396571_2_alg».proof.Proof.KRegion7Body

set_option maxRecDepth 16384

noncomputable section

namespace Cert.Kernel.Frame7

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: what the host stretch before the region leaves. -/
abbrev VV21 : (c : Dev nD) → (b : Ref sig .tc) → Buf (Elt F) ((c : Thread nD τ).loc b) := fun c b => V21 m outs c b
/-- Exit: the same with `main_v137` at `outs 22 main_v137`. -/
abbrev VV22 : (c : Dev nD) → (b : Ref sig .tc) → Buf (Elt F) ((c : Thread nD τ).loc b) := fun c b => V22 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 7 -/

variable (pdats : (p : Fin 17) → (c : Dev nD) → Dat τ (Elt F) Unit ℕ (UR sig nD τ) ℕ (cfgs p) c)

section Pinned
variable (hp7 : ∀ c, pdats 7 c = dat7 (VV21 m outs) c)
include hp7

theorem pd7_q (c : Dev nD) (w : Fin cfg7.W) : (pdats 7 c).q w = fullShare := by rw [hp7 c]; rfl
theorem pd7_owed (c : Dev nD) (t) : (pdats 7 c).owed t = 0 := by rw [hp7 c]; rfl
theorem pd7_A (c : Dev nD) (w : Fin cfg7.W) : (pdats 7 c).A w = VV21 m outs c (Pipeline.arrRef spec7 w) := by
  rw [hp7 c]; exact A_eq7 (VV21 m outs) c w
theorem pd7_Φ (c : Dev nD) (t) : (pdats 7 c).Φ t = Pipeline.ΦA spec7 c := by rw [hp7 c]; rfl
theorem pd7_recorded (c : Dev nD) (t) : (pdats 7 c).recorded t = Set.univ := by rw [hp7 c]; rfl

end Pinned

/-! ## The exit contents, at the region's arrays and off them -/

section Exit
variable (hp7 : ∀ c, pdats 7 c = dat7 (VV21 m outs) c)
  (houts7 : ∀ c, outs 22 main_v137 c = (dat7 (VV21 m outs) c).arrAt 4 cfg7.N)

include hp7 in
/-- The left operand's row block: its array ends as entered — no window writes it, and it is not the result's reference. -/
theorem hF7_0 (c : Dev nD) : (pdats 7 c).arrAt 0 cfg7.N = VV22 m outs c (Pipeline.arrRef spec7 0) := by
  rw [hp7 c]
  refine ((dat7 (VV21 m outs) c).arrAt_in 0 rfl _).trans ((A_eq7 (VV21 m outs) c 0).trans ?_)
  exact (Function.update_of_ne (StableHlo.devRef_ne_of_ne (by decide)) _ _).symm

include hp7 in
/-- The weight: its array ends as entered — no window writes it, and it is not the result's reference. -/
theorem hF7_1 (c : Dev nD) : (pdats 7 c).arrAt 1 cfg7.N = VV22 m outs c (Pipeline.arrRef spec7 1) := by
  rw [hp7 c]
  refine ((dat7 (VV21 m outs) c).arrAt_in 1 rfl _).trans ((A_eq7 (VV21 m outs) c 1).trans ?_)
  exact (Function.update_of_ne (StableHlo.devRef_ne_of_ne (by decide)) _ _).symm

include hp7 in
/-- The bias row: its array ends as entered — no window writes it, and it is not the result's reference. -/
theorem hF7_2 (c : Dev nD) : (pdats 7 c).arrAt 2 cfg7.N = VV22 m outs c (Pipeline.arrRef spec7 2) := by
  rw [hp7 c]
  refine ((dat7 (VV21 m outs) c).arrAt_in 2 rfl _).trans ((A_eq7 (VV21 m outs) c 2).trans ?_)
  exact (Function.update_of_ne (StableHlo.devRef_ne_of_ne (by decide)) _ _).symm

include hp7 in
/-- The added operand's row block: its array ends as entered — no window writes it, and it is not the result's reference. -/
theorem hF7_3 (c : Dev nD) : (pdats 7 c).arrAt 3 cfg7.N = VV22 m outs c (Pipeline.arrRef spec7 3) := by
  rw [hp7 c]
  refine ((dat7 (VV21 m outs) c).arrAt_in 3 rfl _).trans ((A_eq7 (VV21 m outs) c 3).trans ?_)
  exact (Function.update_of_ne (StableHlo.devRef_ne_of_ne (by decide)) _ _).symm

include hp7 houts7 in
/-- The result's array ends at what the write-backs leave, which is what `outs` names. -/
theorem hF7_4 (c : Dev nD) : (pdats 7 c).arrAt 4 cfg7.N = VV22 m outs c (Pipeline.arrRef spec7 4) := by
  rw [hp7 c, ← houts7 c]
  exact (Function.update_self (Proc.devRef (τ := τ) .tc main_v137) (outs 22 main_v137 c) (V21 m outs c)).symm

include hp7 houts7 in
theorem hF7 (c : Dev nD) : ∀ w : Fin cfg7.W, (pdats 7 c).arrAt w cfg7.N = VV22 m outs c (Pipeline.arrRef spec7 w)
  | ⟨0, _⟩ => hF7_0 m outs pdats hp7 c
  | ⟨1, _⟩ => hF7_1 m outs pdats hp7 c
  | ⟨2, _⟩ => hF7_2 m outs pdats hp7 c
  | ⟨3, _⟩ => hF7_3 m outs pdats hp7 c
  | ⟨4, _⟩ => hF7_4 m outs pdats hp7 houts7 c

/-- Off the region's five arrays the exit contents are the entry contents: only `main_v137` is updated, and it is
    window 4's array. -/
theorem hrest7 (c : Dev nD) : ∀ b, b ∉ Finset.univ.image (Pipeline.arrRef spec7) → VV22 m outs c b = VV21 m outs c b :=
  fun b hb => Function.update_of_ne
    (fun e => hb (Finset.mem_image.mpr ⟨4, Finset.mem_univ _, (Proc.devRef_injective _ e).symm⟩)) _ _

end Exit

/-! ## The region as a segment -/

section Record
variable (hp7 : ∀ c, pdats 7 c = dat7 (VV21 m outs) c)
  (houts7 : ∀ c, outs 22 main_v137 c = (dat7 (VV21 m outs) c).arrAt 4 cfg7.N)

-- a library lemma stated over the pinned configuration `pin pcs a p` is applied to the printed one: unification has
-- to unfold plain definitions in a metavariable's type
set_option backward.isDefEq.respectTransparency.types false in
/-- Region 7 over the thread state "every unscoped buffer at the boundary's contents, beside `R`". Entry: the
    region's arrays are split out of the unscoped buffers at the entry contents; the generator register goes into the
    invariant; nothing is owed; the kernel has no semaphore of its own. Exit: the arrays are put back at the exit
    contents (`hF7`, `hrest7`) and the register comes back. -/
def reg7 : RegionSeg (pcfgs (F := F)) adm pdats () defs₀ 𝒱₀ L lv 7 where
  win := launch7.win.to₀
  block_pos := launch7.block_pos
  stage_whole := launch7.stage_whole
  K := PEmpty
  osem k := k.elim
  ho := Pipeline.OwnSemFacts.none _
  hbody c := by rw [hp7 c]; exact (body_obligation7 (VV21 m outs) c).loose
  hwaits := Pipeline.hwaits_of_owed_zero _ _ _ _ L lv 7 fun c t => pd7_owed m outs pdats hp7 c t
  pre c := iprop(StableHlo.held (c : Thread nD τ) (Pipeline.ucRefs τ sig) (V21 m outs c) ∗ R c)
  post c := iprop(StableHlo.held (c : Thread nD τ) (Pipeline.ucRefs τ sig) (V22 m outs c) ∗ R c)
  X c := iprop(∃ r, prngReg c r)
  Y c := iprop(∃ r, prngReg c r)
  Z c := Pipeline.unscopedRest (Ix := Unit) (Name := ℕ) (U := UR sig nD τ) (Lvl := ℕ) spec7 c (VV21 m outs c)
  hentry c := by
    rw [Pipeline.ownSems0_none]
    have hsplit := Pipeline.arrays_of_unscopedBufs (p := 7) (pcfgs (F := F)) adm pdats launch7.win launch7.arr_whole c
      ((pdats 7 c).share_full fun w => pd7_q m outs pdats hp7 c w) (VV21 m outs c) fun w => pd7_A m outs pdats hp7 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd7_owed m outs pdats hp7 c]
      icases HO with ⟨%W, HO⟩; iexists W; isplitr; · ipureintro; exact fun x _ => Or.inl (by rw [pd7_recorded m outs pdats hp7 c]; exact Set.mem_univ x)
      iexact HO
    isplitl [Hp]; · iexact Hp
    iexact Hrest
  hin c := by
    rw [pd7_Φ m outs pdats hp7 c 0]; unfold Pipeline.ΦA
    iintro ⟨Hp, -, Hr⟩
    isplitl [Hr]; · iexact Hr
    iexact Hp
  hout c := by
    rw [Pipeline.ownSems0_none, pd7_Φ m outs pdats hp7 c (Fin.last _)]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c pdats ((pdats 7 c).share_full fun w => pd7_q m outs pdats hp7 c w)
      (VV21 m outs c) (VV22 m outs c) ((pdats 7 c).arrAt · cfg7.N) (hF7 m outs pdats hp7 houts7 c) (hrest7 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd7_owed m outs pdats hp7 c]
    icases HO with ⟨%W, -, HO⟩; iexists W; iexact HO

/-- The record is entered from the conditional frame's thread state before the region (with the rest state `R`), -/
theorem hpre7 (c : Dev nD) :
    iprop(StableHlo.held (c : Thread nD τ) (Pipeline.ucRefs τ sig) (V21 m outs c) ∗ R (F := F) c)
      ⊢ (reg7 m outs pdats hp7 houts7).pre c := .rfl

/-- and left at the one after it. -/
theorem hpost7 (c : Dev nD) :
    (reg7 m outs pdats hp7 houts7).post c
      ⊢ iprop(StableHlo.held (c : Thread nD τ) (Pipeline.ucRefs τ sig) (V22 m outs c) ∗ R (F := F) c) := .rfl

end Record

end Cert.Kernel.Frame7

end
-- ==== Proof.KRegion8Body.lean ====
/- Region 8 of the word-level kernel program (custom_call 8, the batch-norm affine map followed by the maximum with zero, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame8

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 8 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk8 (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-- The row-block operand (window 0): for any proof data whose array for it is the entry contents and whose body
    leaves the block where it is, the staging buffer handed to the body at `t` holds the block at `t` — fetched at
    `t`, or still there from an earlier point because the block index has not moved since. -/
theorem before8_0_of {c : Dev nD} (dat : Dat τ (Elt F) Unit ℕ (UR sig nD τ) ℕ cfg8 c)
    (hA : dat.A 0 = V c (Pipeline.arrRef spec8 0)) (hafter : ∀ t, dat.after 0 t = iblk8 V c 0 t)
    (t : Fin cfg8.N) (d) : dat.before 0 t d = iblk8 V c 0 t := by
  refine (dat.before_in_eq_fetched 0 rfl (fun _ => rfl) (fun _ _ _ => rfl) (fun t => ?_) t d).trans ?_
  · rw [hafter]; unfold Dat.blockOf iblk8; rw [hA]; try rfl
  · unfold Dat.fetched Dat.blockOf iblk8; rw [hA]; try rfl

/-- The mean row (window 1; one block, fetched at the first point only, its index constant): the same. -/
theorem before8_1_of {c : Dev nD} (dat : Dat τ (Elt F) Unit ℕ (UR sig nD τ) ℕ cfg8 c)
    (hA : dat.A 1 = V c (Pipeline.arrRef spec8 1)) (hafter : ∀ t, dat.after 1 t = iblk8 V c 1 t)
    (t : Fin cfg8.N) (d) : dat.before 1 t d = iblk8 V c 1 t := by
  refine (dat.before_in_eq_fetched 1 rfl (fun _ => rfl) (fun _ _ _ => rfl) (fun t => ?_) t d).trans ?_
  · rw [hafter]; unfold Dat.blockOf iblk8; rw [hA]; try rfl
  · unfold Dat.fetched Dat.blockOf iblk8; rw [hA]; try rfl

/-- The variance row (window 2; one block, fetched at the first point only, its index constant): the same. -/
theorem before8_2_of {c : Dev nD} (dat : Dat τ (Elt F) Unit ℕ (UR sig nD τ) ℕ cfg8 c)
    (hA : dat.A 2 = V c (Pipeline.arrRef spec8 2)) (hafter : ∀ t, dat.after 2 t = iblk8 V c 2 t)
    (t : Fin cfg8.N) (d) : dat.before 2 t d = iblk8 V c 2 t := by
  refine (dat.before_in_eq_fetched 2 rfl (fun _ => rfl) (fun _ _ _ => rfl) (fun t => ?_) t d).trans ?_
  · rw [hafter]; unfold Dat.blockOf iblk8; rw [hA]; try rfl
  · unfold Dat.fetched Dat.blockOf iblk8; rw [hA]; try rfl

/-- The scale row (window 3; one block, fetched at the first point only, its index constant): the same. -/
theorem before8_3_of {c : Dev nD} (dat : Dat τ (Elt F) Unit ℕ (UR sig nD τ) ℕ cfg8 c)
    (hA : dat.A 3 = V c (Pipeline.arrRef spec8 3)) (hafter : ∀ t, dat.after 3 t = iblk8 V c 3 t)
    (t : Fin cfg8.N) (d) : dat.before 3 t d = iblk8 V c 3 t := by
  refine (dat.before_in_eq_fetched 3 rfl (fun _ => rfl) (fun _ _ _ => rfl) (fun t => ?_) t d).trans ?_
  · rw [hafter]; unfold Dat.blockOf iblk8; rw [hA]; try rfl
  · unfold Dat.fetched Dat.blockOf iblk8; rw [hA]; try rfl

/-- The shift row (window 4; one block, fetched at the first point only, its index constant): the same. -/
theorem before8_4_of {c : Dev nD} (dat : Dat τ (Elt F) Unit ℕ (UR sig nD τ) ℕ cfg8 c)
    (hA : dat.A 4 = V c (Pipeline.arrRef spec8 4)) (hafter : ∀ t, dat.after 4 t = iblk8 V c 4 t)
    (t : Fin cfg8.N) (d) : dat.before 4 t d = iblk8 V c 4 t := by
  refine (dat.before_in_eq_fetched 4 rfl (fun _ => rfl) (fun _ _ _ => rfl) (fun t => ?_) t d).trans ?_
  · rw [hafter]; unfold Dat.blockOf iblk8; rw [hA]; try rfl
  · unfold Dat.fetched Dat.blockOf iblk8; rw [hA]; try rfl

/-! ## The rectangles the body reads and writes: each staging buffer whole -/

abbrev r8_big : Rect S5000x128 := Rect.unit (s := S5000x128) ![0, 0] S5000x128.size inb_S5000x128_S5000x128_0_0
abbrev r8_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `max ((x − mean) · rsqrt (var + ε) · gamma + beta) 0` of the five whole-buffer loads, written as a one-piece list.
    (The body loads the variance before the mean, which is the order of the payload's arguments.) -/
def out8_5 (x0 : Vec F S5000x128 .f32) (x1 x2 x3 x4 : Vec F S1x128 .f32) : Vec F S5000x128 .f32 :=
  View.canon [⟨r8_big, k8_pay1 (View.ld x0 r8_big) (View.ld x2 r8_row) (View.ld x1 r8_row)
    (View.ld x3 r8_row) (View.ld x4 r8_row)⟩]

/-- The one store is of the whole buffer, so every index of the buffer lies in it. -/
theorem cover8_5 (p : Vec F S5000x128 .f32) (y : S5000x128.Idx) :
    ∃ pc ∈ ([⟨r8_big, p⟩] : List (View.Piece (Elt F) S5000x128 .f32)), y ∈ pc.1.set :=
  View.cover_of_tiled [⟨r8_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out8_5 x0 x1 x2 x3 x4`. (The body also loads the output buffer before storing to it; the loaded value is
    not used.) -/
theorem sound_kernel8 (c : Dev nD) (E : Set ℕ) (i : grid8.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E
          (cc8__bn_relu_kernel i arg1 harg1 arg2 harg2 arg3 harg3 arg4 harg4 arg5 harg5 arg6 harg6) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The proof data of the pipeline -/

/-- Region 8's proof data on core `c`: the six arrays as the region finds them; after the body at point `t` the
    five inputs' buffers at their blocks and the output's at `out8_5` of those blocks; the invariant the scoped rest
    and the generator register, untouched (`Pipeline.ΦA`); full shares; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the entry contents (the structure projected; `V` is never unfolded). -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t
      = out8_5 (iblk8 V c 0 t) (iblk8 V c 1 t) (iblk8 V c 2 t) (iblk8 V c 3 t) (iblk8 V c 4 t) := by
  dsimp only [dat8]

/-- What the body is handed in each input's buffer: its block. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation -/

/-- What the body is called with at point `t`: the invariant, the core's dues, and each window's current staging
    buffer at what the pipeline put there. -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- What it returns: the same, each buffer at the proof data's `after`. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at a point: the inputs' buffers hold their blocks, so the body's triple applies at those blocks; the
    invariant and the dues are not read. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation8 (c : Dev nD) : BodyObligation (dat8 (F := F) V c) (defs₀ (F := F)) Variants.none () Set.univ := fun t => by
  rw [bigSep_W8, bigSep_W8]
  exact sound_body8 V c t

end Cert.Kernel.Frame8

end
-- ==== Proof.KRegion8.lean ====
/- Region 8 of the word-level kernel program (custom_call 8) as a segment of @main: entered from every unscoped
   buffer at the contents before it (`V25`), left with the result array `main_v160` at what the pipeline's
   write-backs leave and every other buffer as entered (`V26`). Stated over an arbitrary family of proof data whose
   member at pipeline 8 is this region's (`hp8`), and over any `outs` that names the result's final contents
   (`houts`). -/
import proofs.«146189_j40922448396571_2_alg».proof.Proof.KRegions
import proofs.«146189_j40922448396571_2_alg».proof.Proof.KGlobals
import proofs.«146189_j40922448396571_2_alg».proof.Proof.KRegion8Body

set_option maxRecDepth 16384

noncomputable section

namespace Cert.Kernel.Frame8

open Cert.Kernel.Gen Cert.Kernel.Glob
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: the contents before the region (`V25`). -/
abbrev VVin : (c : Dev nD) → (b : Ref sig .tc) → Buf (Elt F) ((c : Thread nD τ).loc b) := fun c b => V25 m outs c b
/-- Exit: the same with `main_v160` at `outs 26 main_v160` (`V26`). -/
abbrev VVout : (c : Dev nD) → (b : Ref sig .tc) → Buf (Elt F) ((c : Thread nD τ).loc b) := fun c b => V26 m outs c b

/-! ## The family of proof data, pinned at pipeline 8 -/

variable (pdats : (p : Fin 17) → (c : Dev nD) → Dat τ (Elt F) Unit ℕ (UR sig nD τ) ℕ (cfgs p) c)

section Pinned
variable (hp8 : ∀ c, pdats 8 c = dat8 (VVin m outs) c)
include hp8

/-- The pinned member's fields, read through the pin: full shares, nothing owed, the entry contents as arrays, the
    untouched invariant, every point recorded. -/
theorem pd8_q (c : Dev nD) (w : Fin cfg8.W) : (pdats 8 c).q w = fullShare := by rw [hp8 c]; rfl
theorem pd8_owed (c : Dev nD) (t) : (pdats 8 c).owed t = 0 := by rw [hp8 c]; rfl
theorem pd8_A (c : Dev nD) (w : Fin cfg8.W) : (pdats 8 c).A w = VVin m outs c (Pipeline.arrRef spec8 w) := by
  rw [hp8 c]; exact A_eq8 (VVin m outs) c w
theorem pd8_Φ (c : Dev nD) (t) : (pdats 8 c).Φ t = Pipeline.ΦA spec8 c := by rw [hp8 c]; rfl
theorem pd8_recorded (c : Dev nD) (t) : (pdats 8 c).recorded t = Set.univ := by rw [hp8 c]; rfl

end Pinned

/-! ## The exit contents, at the region's arrays and off them -/

section Exit
variable (hp8 : ∀ c, pdats 8 c = dat8 (VVin m outs) c)
  (houts : ∀ c, outs 26 main_v160 c = (dat8 (VVin m outs) c).arrAt 5 cfg8.N)

include hp8 in
/-- The row-block operand's array (`main_v147`) ends as entered: no window writes it, and it is not the result's reference. -/
theorem hF8_0 (c : Dev nD) : (pdats 8 c).arrAt 0 cfg8.N = VVout m outs c (Pipeline.arrRef spec8 0) := by
  rw [hp8 c]
  refine ((dat8 (VVin m outs) c).arrAt_in 0 rfl _).trans ((A_eq8 (VVin m outs) c 0).trans ?_)
  exact (Function.update_of_ne (StableHlo.devRef_ne_of_ne (by decide)) _ _).symm

include hp8 in
/-- The mean row's array (`main_v151`) ends as entered: no window writes it, and it is not the result's reference. -/
theorem hF8_1 (c : Dev nD) : (pdats 8 c).arrAt 1 cfg8.N = VVout m outs c (Pipeline.arrRef spec8 1) := by
  rw [hp8 c]
  refine ((dat8 (VVin m outs) c).arrAt_in 1 rfl _).trans ((A_eq8 (VVin m outs) c 1).trans ?_)
  exact (Function.update_of_ne (StableHlo.devRef_ne_of_ne (by decide)) _ _).symm

include hp8 in
/-- The variance row's array (`main_v155`) ends as entered: no window writes it, and it is not the result's reference. -/
theorem hF8_2 (c : Dev nD) : (pdats 8 c).arrAt 2 cfg8.N = VVout m outs c (Pipeline.arrRef spec8 2) := by
  rw [hp8 c]
  refine ((dat8 (VVin m outs) c).arrAt_in 2 rfl _).trans ((A_eq8 (VVin m outs) c 2).trans ?_)
  exact (Function.update_of_ne (StableHlo.devRef_ne_of_ne (by decide)) _ _).symm

include hp8 in
/-- The scale row's array (`main_v157`) ends as entered: no window writes it, and it is not the result's reference. -/
theorem hF8_3 (c : Dev nD) : (pdats 8 c).arrAt 3 cfg8.N = VVout m outs c (Pipeline.arrRef spec8 3) := by
  rw [hp8 c]
  refine ((dat8 (VVin m outs) c).arrAt_in 3 rfl _).trans ((A_eq8 (VVin m outs) c 3).trans ?_)
  exact (Function.update_of_ne (StableHlo.devRef_ne_of_ne (by decide)) _ _).symm

include hp8 in
/-- The shift row's array (`main_v159`) ends as entered: no window writes it, and it is not the result's reference. -/
theorem hF8_4 (c : Dev nD) : (pdats 8 c).arrAt 4 cfg8.N = VVout m outs c (Pipeline.arrRef spec8 4) := by
  rw [hp8 c]
  refine ((dat8 (VVin m outs) c).arrAt_in 4 rfl _).trans ((A_eq8 (VVin m outs) c 4).trans ?_)
  exact (Function.update_of_ne (StableHlo.devRef_ne_of_ne (by decide)) _ _).symm

include hp8 houts in
/-- The result's array (`main_v160`) ends at what the write-backs leave, which is what `outs` names. -/
theorem hF8_5 (c : Dev nD) : (pdats 8 c).arrAt 5 cfg8.N = VVout m outs c (Pipeline.arrRef spec8 5) := by
  rw [hp8 c, ← houts c]
  exact (Function.update_self (Proc.devRef (τ := τ) .tc main_v160) (outs 26 main_v160 c) (V25 m outs c)).symm

include hp8 houts in
/-- Every array of the region at its exit contents. -/
theorem hF8 (c : Dev nD) : ∀ w : Fin cfg8.W, (pdats 8 c).arrAt w cfg8.N = VVout m outs c (Pipeline.arrRef spec8 w)
  | ⟨0, _⟩ => hF8_0 m outs pdats hp8 c
  | ⟨1, _⟩ => hF8_1 m outs pdats hp8 c
  | ⟨2, _⟩ => hF8_2 m outs pdats hp8 c
  | ⟨3, _⟩ => hF8_3 m outs pdats hp8 c
  | ⟨4, _⟩ => hF8_4 m outs pdats hp8 c
  | ⟨5, _⟩ => hF8_5 m outs pdats hp8 houts c

/-- Off the region's six arrays the exit contents are the entry contents: only `main_v160` is updated, and it is
    window 5's array. -/
theorem hrest8 (c : Dev nD) : ∀ b, b ∉ Finset.univ.image (Pipeline.arrRef spec8) → VVout m outs c b = VVin m outs c b :=
  fun b hb => Function.update_of_ne
    (fun e => hb (Finset.mem_image.mpr ⟨5, Finset.mem_univ _, (Proc.devRef_injective _ e).symm⟩)) _ _

end Exit

/-! ## The region as a segment -/

section Record
variable (hp8 : ∀ c, pdats 8 c = dat8 (VVin m outs) c)
  (houts : ∀ c, outs 26 main_v160 c = (dat8 (VVin m outs) c).arrAt 5 cfg8.N)

-- a library lemma stated over the pinned configuration `pin pcs a p` is applied to the printed one: unification has
-- to unfold plain definitions in a metavariable's type
set_option backward.isDefEq.respectTransparency.types false in
/-- Region 8 over the thread state "every unscoped buffer at the boundary's contents, beside the rest state `R`".
    Entry: the six arrays are split out of the unscoped buffers at the entry contents; the generator register goes
    into the invariant; nothing is owed; the kernel has no semaphore of its own. Exit: the arrays are put back at the
    exit contents (`hF8`, `hrest8`) and the register comes back. -/
def reg8 : RegionSeg (pcfgs (F := F)) adm pdats () defs₀ 𝒱₀ L lv 8 where
  win := launch8.win.to₀
  block_pos := launch8.block_pos
  stage_whole := launch8.stage_whole
  K := PEmpty
  osem k := k.elim
  ho := Pipeline.OwnSemFacts.none _
  hbody c := by rw [hp8 c]; exact (body_obligation8 (VVin m outs) c).loose
  hwaits := Pipeline.hwaits_of_owed_zero _ _ _ _ L lv 8 fun c t => pd8_owed m outs pdats hp8 c t
  pre c := iprop(StableHlo.held (c : Thread nD τ) (Pipeline.ucRefs τ sig) (V25 m outs c) ∗ R c)
  post c := iprop(StableHlo.held (c : Thread nD τ) (Pipeline.ucRefs τ sig) (V26 m outs c) ∗ R c)
  X c := iprop(∃ r, prngReg c r)
  Y c := iprop(∃ r, prngReg c r)
  Z c := Pipeline.unscopedRest (Ix := Unit) (Name := ℕ) (U := UR sig nD τ) (Lvl := ℕ) spec8 c (VVin m outs c)
  hentry c := by
    rw [Pipeline.ownSems0_none]
    have hsplit := Pipeline.arrays_of_unscopedBufs (p := 8) (pcfgs (F := F)) adm pdats launch8.win launch8.arr_whole c
      ((pdats 8 c).share_full fun w => pd8_q m outs pdats hp8 c w) (VVin m outs c) fun w => pd8_A m outs pdats hp8 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd8_owed m outs pdats hp8 c]
      icases HO with ⟨%W, HO⟩; iexists W; isplitr
      · ipureintro; exact fun x _ => Or.inl (by rw [pd8_recorded m outs pdats hp8 c]; exact Set.mem_univ x)
      iexact HO
    isplitl [Hp]; · iexact Hp
    iexact Hrest
  hin c := by
    rw [pd8_Φ m outs pdats hp8 c 0]; unfold Pipeline.ΦA
    iintro ⟨Hp, -, Hr⟩
    isplitl [Hr]; · iexact Hr
    iexact Hp
  hout c := by
    rw [Pipeline.ownSems0_none, pd8_Φ m outs pdats hp8 c (Fin.last _)]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c pdats ((pdats 8 c).share_full fun w => pd8_q m outs pdats hp8 c w)
      (VVin m outs c) (VVout m outs c) ((pdats 8 c).arrAt · cfg8.N) (hF8 m outs pdats hp8 houts c) (hrest8 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd8_owed m outs pdats hp8 c]
    icases HO with ⟨%W, -, HO⟩; iexists W; iexact HO

/-- The record is entered from the conditional frame's thread state before the region (with the rest state `R`), -/
theorem hpre8 (c : Dev nD) :
    iprop(StableHlo.held (c : Thread nD τ) (Pipeline.ucRefs τ sig) (V25 m outs c) ∗ R (F := F) c)
      ⊢ (reg8 m outs pdats hp8 houts).pre c := .rfl

/-- and left at the one after it. -/
theorem hpost8 (c : Dev nD) :
    (reg8 m outs pdats hp8 houts).post c
      ⊢ iprop(StableHlo.held (c : Thread nD τ) (Pipeline.ucRefs τ sig) (V26 m outs c) ∗ R (F := F) c) := .rfl

end Record

end Cert.Kernel.Frame8

end
-- ==== Proof.KRegion9Body.lean ====
/- Region 9 of the word-level kernel program (custom_call 9, matmul, plus bias, plus residual): the class-A half of its frame,
   stated at a parameter `V` — the TensorCore's buffer contents when the region is entered. For each window its
   block at a grid point, the contents the body leaves in the output window's buffer as a function of the
   input blocks, the body's triple, the pipeline's proof data and the library's body obligation. Generic in the
   float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame9

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 9 is entered
variable (V : (c : Dev nD) → (b : Ref sig .tc) → Buf (Elt F) ((c : Thread nD τ).loc b))

/-! ## The blocks of the 5 windows -/

/-- The block of window `w` at grid point `t`: the window's rectangle at `t` read off the window's array as the
    region finds it. -/
def iblk9 (c : Dev nD) (w : Fin cfg9.W) (t : Fin cfg9.N) :
    ((cfg9.win w).xblock (cfg9.grid.coords t)).Idx → Elt F (cfg9.win w).elt :=
  ((cfg9.win w).blk t).view.read (Elt F) (V c (Pipeline.arrRef spec9 w))

/-- Input window 0: whatever proof data has the entry contents as its array and a body that leaves the block
    where it is, the staging buffer the body is handed at `t` holds the block at `t` — it was fetched at `t`, or
    its index has not moved since it was. -/
theorem before9_0_of {c : Dev nD} (dat : Dat τ (Elt F) Unit ℕ (UR sig nD τ) ℕ cfg9 c)
    (hA : dat.A 0 = V c (Pipeline.arrRef spec9 0)) (hafter : ∀ t, dat.after 0 t = iblk9 V c 0 t)
    (t : Fin cfg9.N) (d) : dat.before 0 t d = iblk9 V c 0 t := by
  refine (dat.before_in_eq_fetched 0 rfl (fun _ => rfl) (fun _ _ _ => rfl) (fun t => ?_) t d).trans ?_
  · rw [hafter]; unfold Dat.blockOf iblk9; rw [hA]; try rfl
  · unfold Dat.fetched Dat.blockOf iblk9; rw [hA]; try rfl

/-- Input window 1: whatever proof data has the entry contents as its array and a body that leaves the block
    where it is, the staging buffer the body is handed at `t` holds the block at `t` — it was fetched at `t`, or
    its index has not moved since it was. -/
theorem before9_1_of {c : Dev nD} (dat : Dat τ (Elt F) Unit ℕ (UR sig nD τ) ℕ cfg9 c)
    (hA : dat.A 1 = V c (Pipeline.arrRef spec9 1)) (hafter : ∀ t, dat.after 1 t = iblk9 V c 1 t)
    (t : Fin cfg9.N) (d) : dat.before 1 t d = iblk9 V c 1 t := by
  refine (dat.before_in_eq_fetched 1 rfl (fun _ => rfl) (fun _ _ _ => rfl) (fun t => ?_) t d).trans ?_
  · rw [hafter]; unfold Dat.blockOf iblk9; rw [hA]; try rfl
  · unfold Dat.fetched Dat.blockOf iblk9; rw [hA]; try rfl

/-- Input window 2: whatever proof data has the entry contents as its array and a body that leaves the block
    where it is, the staging buffer the body is handed at `t` holds the block at `t` — it was fetched at `t`, or
    its index has not moved since it was. -/
theorem before9_2_of {c : Dev nD} (dat : Dat τ (Elt F) Unit ℕ (UR sig nD τ) ℕ cfg9 c)
    (hA : dat.A 2 = V c (Pipeline.arrRef spec9 2)) (hafter : ∀ t, dat.after 2 t = iblk9 V c 2 t)
    (t : Fin cfg9.N) (d) : dat.before 2 t d = iblk9 V c 2 t := by
  refine (dat.before_in_eq_fetched 2 rfl (fun _ => rfl) (fun _ _ _ => rfl) (fun t => ?_) t d).trans ?_
  · rw [hafter]; unfold Dat.blockOf iblk9; rw [hA]; try rfl
  · unfold Dat.fetched Dat.blockOf iblk9; rw [hA]; try rfl

/-- Input window 3: whatever proof data has the entry contents as its array and a body that leaves the block
    where it is, the staging buffer the body is handed at `t` holds the block at `t` — it was fetched at `t`, or
    its index has not moved since it was. -/
theorem before9_3_of {c : Dev nD} (dat : Dat τ (Elt F) Unit ℕ (UR sig nD τ) ℕ cfg9 c)
    (hA : dat.A 3 = V c (Pipeline.arrRef spec9 3)) (hafter : ∀ t, dat.after 3 t = iblk9 V c 3 t)
    (t : Fin cfg9.N) (d) : dat.before 3 t d = iblk9 V c 3 t := by
  refine (dat.before_in_eq_fetched 3 rfl (fun _ => rfl) (fun _ _ _ => rfl) (fun t => ?_) t d).trans ?_
  · rw [hafter]; unfold Dat.blockOf iblk9; rw [hA]; try rfl
  · unfold Dat.fetched Dat.blockOf iblk9; rw [hA]; try rfl

/-! ## The rectangles the body reads and writes: each staging buffer whole -/

abbrev r9_0 : Rect S5000x64 := Rect.unit (s := S5000x64) ![0, 0] S5000x64.size inb_S5000x64_S5000x64_0_0
abbrev r9_1 : Rect S64x64 := Rect.unit (s := S64x64) ![0, 0] S64x64.size inb_S64x64_S64x64_0_0
abbrev r9_2 : Rect S1x64 := Rect.unit (s := S1x64) ![0, 0] S1x64.size inb_S1x64_S1x64_0_0
abbrev r9_3 : Rect S5000x64 := Rect.unit (s := S5000x64) ![0, 0] S5000x64.size inb_S5000x64_S5000x64_0_0
abbrev r9_4 : Rect S5000x64 := Rect.unit (s := S5000x64) ![0, 0] S5000x64.size inb_S5000x64_S5000x64_0_0

/-! ## What the body leaves in the output window's buffer -/

/-- The output staging buffer after the body, from the input blocks: its one store, of the payload of the
    whole-buffer loads (in the order the body makes them), written as a one-piece list. -/
def out9_4 (x0 : Vec F S5000x64 .f32) (x1 : Vec F S64x64 .f32) (x2 : Vec F S1x64 .f32) (x3 : Vec F S5000x64 .f32) : Vec F S5000x64 .f32 :=
  View.canon [⟨r9_4, k9_pay1 (View.ld x0 r9_0) (View.ld x1 r9_1) (View.ld x2 r9_2) (View.ld x3 r9_3)⟩]

/-- The one store is of the whole buffer, so every index of the buffer lies in it. -/
theorem cover9_4 (p : Vec F S5000x64 .f32) (y : S5000x64.Idx) :
    ∃ pc ∈ ([⟨r9_4, p⟩] : List (View.Piece (Elt F) S5000x64 .f32)), y ∈ pc.1.set :=
  View.cover_of_tiled [⟨r9_4, p⟩] S5000x64.size (by rfl) y

/-! ## The body's triple -/

set_option maxHeartbeats 1000000 in
/-- The body at any grid coordinate `i`, on whole staging memrefs: the inputs' read `x0` … `x3`, the output's
    holds anything. It runs to the continuation with the inputs' as they were and the output's at `out9_4` of
    them. (The body also loads the output buffer before storing to it; the loaded value is not used.) -/
theorem sound_kernel9 (c : Dev nD) (E : Set ℕ) (i : grid9.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out9_4 x0 x1 x2 x3)) -∗ K ⟨⟩))
      ⊢ wp frame (wpE (defs₀ (F := F)) Variants.none c none) E (cc9__linear_extra_kernel i arg1 harg1 arg2 harg2 arg3 harg3 arg4 harg4 arg5 harg5) K := by
  simp only [cc9__linear_extra_kernel_eq_skeleton]; unfold cc9__linear_extra_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover9_4 _)

/-! ## The proof data of the pipeline -/

/-- Region 9's proof data on core `c`: the arrays as the region finds them; after the body at point `t` the
    inputs' buffers at their blocks and the output's at `out9_4` of those blocks; the invariant the scoped rest and
    the generator register, untouched (`Pipeline.ΦA`); full shares; nothing owed. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

/-- The proof data's arrays are the entry contents (the structure projected; `V` is never unfolded). -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

/-- What the body is handed in each input's buffer: its block. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation -/

/-- What the body is called with at point `t`: the invariant, the core's dues, and each window's current staging
    buffer at what the pipeline put there. -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- What it returns: the same, each buffer at the proof data's `after`. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at a point: the inputs' buffers hold their blocks, so the body's triple applies at those blocks; the
    invariant and the dues are not read. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the proof data, at every point. -/
theorem body_obligation9 (c : Dev nD) : BodyObligation (dat9 (F := F) V c) (defs₀ (F := F)) Variants.none () Set.univ := fun t => by
  rw [bigSep_W9, bigSep_W9]
  exact sound_body9 V c t

end Cert.Kernel.Frame9

end
-- ==== Proof.KRegion9.lean ====
/- Region 9 of the word-level kernel program (custom_call 9) as a segment of @main: entered from every unscoped
   buffer at the contents before it, left with the result array `main_v167` at what the pipeline's write-backs leave
   and every other buffer as entered. Stated over an arbitrary family of proof data whose member at pipeline 9 is
   this region's (`hp9`), and over any `outs` that names the result's final contents (`houts9`). -/
import proofs.«146189_j40922448396571_2_alg».proof.Proof.KRegions
import proofs.«146189_j40922448396571_2_alg».proof.Proof.KRegion9Body

set_option maxRecDepth 16384

noncomputable section

namespace Cert.Kernel.Frame9

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry. -/
abbrev VV27 : (c : Dev nD) → (b : Ref sig .tc) → Buf (Elt F) ((c : Thread nD τ).loc b) := fun c b => V27 m outs c b
/-- Exit: the same with `main_v167` at `outs 28 main_v167`. -/
abbrev VV28 : (c : Dev nD) → (b : Ref sig .tc) → Buf (Elt F) ((c : Thread nD τ).loc b) := fun c b => V28 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 9 -/

variable (pdats : (p : Fin 17) → (c : Dev nD) → Dat τ (Elt F) Unit ℕ (UR sig nD τ) ℕ (cfgs p) c)

section Pinned
variable (hp9 : ∀ c, pdats 9 c = dat9 (VV27 m outs) c)
include hp9

theorem pd9_q (c : Dev nD) (w : Fin cfg9.W) : (pdats 9 c).q w = fullShare := by rw [hp9 c]; rfl
theorem pd9_owed (c : Dev nD) (t) : (pdats 9 c).owed t = 0 := by rw [hp9 c]; rfl
theorem pd9_A (c : Dev nD) (w : Fin cfg9.W) : (pdats 9 c).A w = VV27 m outs c (Pipeline.arrRef spec9 w) := by
  rw [hp9 c]; exact A_eq9 (VV27 m outs) c w
theorem pd9_Φ (c : Dev nD) (t) : (pdats 9 c).Φ t = Pipeline.ΦA spec9 c := by rw [hp9 c]; rfl
theorem pd9_recorded (c : Dev nD) (t) : (pdats 9 c).recorded t = Set.univ := by rw [hp9 c]; rfl

end Pinned

/-! ## The exit contents, at the region's arrays and off them -/

section Exit
variable (hp9 : ∀ c, pdats 9 c = dat9 (VV27 m outs) c)
  (houts9 : ∀ c, outs 28 main_v167 c = (dat9 (VV27 m outs) c).arrAt 4 cfg9.N)

include hp9 in
/-- Input window 0's array ends as entered: no window writes it, and it is not the result's reference. -/
theorem hF9_0 (c : Dev nD) : (pdats 9 c).arrAt 0 cfg9.N = VV28 m outs c (Pipeline.arrRef spec9 0) := by
  rw [hp9 c]
  refine ((dat9 (VV27 m outs) c).arrAt_in 0 rfl _).trans ((A_eq9 (VV27 m outs) c 0).trans ?_)
  exact (Function.update_of_ne (StableHlo.devRef_ne_of_ne (by decide)) _ _).symm

include hp9 in
/-- Input window 1's array ends as entered: no window writes it, and it is not the result's reference. -/
theorem hF9_1 (c : Dev nD) : (pdats 9 c).arrAt 1 cfg9.N = VV28 m outs c (Pipeline.arrRef spec9 1) := by
  rw [hp9 c]
  refine ((dat9 (VV27 m outs) c).arrAt_in 1 rfl _).trans ((A_eq9 (VV27 m outs) c 1).trans ?_)
  exact (Function.update_of_ne (StableHlo.devRef_ne_of_ne (by decide)) _ _).symm

include hp9 in
/-- Input window 2's array ends as entered: no window writes it, and it is not the result's reference. -/
theorem hF9_2 (c : Dev nD) : (pdats 9 c).arrAt 2 cfg9.N = VV28 m outs c (Pipeline.arrRef spec9 2) := by
  rw [hp9 c]
  refine ((dat9 (VV27 m outs) c).arrAt_in 2 rfl _).trans ((A_eq9 (VV27 m outs) c 2).trans ?_)
  exact (Function.update_of_ne (StableHlo.devRef_ne_of_ne (by decide)) _ _).symm

include hp9 in
/-- Input window 3's array ends as entered: no window writes it, and it is not the result's reference. -/
theorem hF9_3 (c : Dev nD) : (pdats 9 c).arrAt 3 cfg9.N = VV28 m outs c (Pipeline.arrRef spec9 3) := by
  rw [hp9 c]
  refine ((dat9 (VV27 m outs) c).arrAt_in 3 rfl _).trans ((A_eq9 (VV27 m outs) c 3).trans ?_)
  exact (Function.update_of_ne (StableHlo.devRef_ne_of_ne (by decide)) _ _).symm

include hp9 houts9 in
/-- The result's array ends at what the write-backs leave, which is what `outs` names. -/
theorem hF9_4 (c : Dev nD) : (pdats 9 c).arrAt 4 cfg9.N = VV28 m outs c (Pipeline.arrRef spec9 4) := by
  rw [hp9 c, ← houts9 c]
  exact (Function.update_self (Proc.devRef (τ := τ) .tc main_v167) (outs 28 main_v167 c) (V27 m outs c)).symm

include hp9 houts9 in
theorem hF9 (c : Dev nD) : ∀ w : Fin cfg9.W, (pdats 9 c).arrAt w cfg9.N = VV28 m outs c (Pipeline.arrRef spec9 w)
  | ⟨0, _⟩ => hF9_0 m outs pdats hp9 c
  | ⟨1, _⟩ => hF9_1 m outs pdats hp9 c
  | ⟨2, _⟩ => hF9_2 m outs pdats hp9 c
  | ⟨3, _⟩ => hF9_3 m outs pdats hp9 c
  | ⟨4, _⟩ => hF9_4 m outs pdats hp9 houts9 c

/-- Off the region's arrays the exit contents are the entry contents: only `main_v167` is updated, and it is
    window 4's array. -/
theorem hrest9 (c : Dev nD) : ∀ b, b ∉ Finset.univ.image (Pipeline.arrRef spec9) → VV28 m outs c b = VV27 m outs c b :=
  fun b hb => Function.update_of_ne
    (fun e => hb (Finset.mem_image.mpr ⟨4, Finset.mem_univ _, (Proc.devRef_injective _ e).symm⟩)) _ _

end Exit

/-! ## The region as a segment -/

section Record
variable (hp9 : ∀ c, pdats 9 c = dat9 (VV27 m outs) c)
  (houts9 : ∀ c, outs 28 main_v167 c = (dat9 (VV27 m outs) c).arrAt 4 cfg9.N)

-- a library lemma stated over the pinned configuration `pin pcs a p` is applied to the printed one: unification has
-- to unfold plain definitions in a metavariable's type
set_option backward.isDefEq.respectTransparency.types false in
/-- Region 9 over the thread state "every unscoped buffer at the boundary's contents, beside `R`". Entry: the
    arrays are split out of the unscoped buffers at the entry contents; the generator register goes into the
    invariant; nothing is owed; the kernel has no semaphore of its own. Exit: the arrays are put back at the exit
    contents (`hF9`, `hrest9`) and the register comes back. -/
def reg9 : RegionSeg (pcfgs (F := F)) adm pdats () defs₀ 𝒱₀ L lv 9 where
  win := launch9.win.to₀
  block_pos := launch9.block_pos
  stage_whole := launch9.stage_whole
  K := PEmpty
  osem k := k.elim
  ho := Pipeline.OwnSemFacts.none _
  hbody c := by rw [hp9 c]; exact (body_obligation9 (VV27 m outs) c).loose
  hwaits := Pipeline.hwaits_of_owed_zero _ _ _ _ L lv 9 fun c t => pd9_owed m outs pdats hp9 c t
  pre c := iprop(StableHlo.held (c : Thread nD τ) (Pipeline.ucRefs τ sig) (V27 m outs c) ∗ R c)
  post c := iprop(StableHlo.held (c : Thread nD τ) (Pipeline.ucRefs τ sig) (V28 m outs c) ∗ R c)
  X c := iprop(∃ r, prngReg c r)
  Y c := iprop(∃ r, prngReg c r)
  Z c := Pipeline.unscopedRest (Ix := Unit) (Name := ℕ) (U := UR sig nD τ) (Lvl := ℕ) spec9 c (VV27 m outs c)
  hentry c := by
    rw [Pipeline.ownSems0_none]
    have hsplit := Pipeline.arrays_of_unscopedBufs (p := 9) (pcfgs (F := F)) adm pdats launch9.win launch9.arr_whole c
      ((pdats 9 c).share_full fun w => pd9_q m outs pdats hp9 c w) (VV27 m outs c) fun w => pd9_A m outs pdats hp9 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd9_owed m outs pdats hp9 c]
      icases HO with ⟨%W, HO⟩; iexists W; isplitr; · ipureintro; exact fun x _ => Or.inl (by rw [pd9_recorded m outs pdats hp9 c]; exact Set.mem_univ x)
      iexact HO
    isplitl [Hp]; · iexact Hp
    iexact Hrest
  hin c := by
    rw [pd9_Φ m outs pdats hp9 c 0]; unfold Pipeline.ΦA
    iintro ⟨Hp, -, Hr⟩
    isplitl [Hr]; · iexact Hr
    iexact Hp
  hout c := by
    rw [Pipeline.ownSems0_none, pd9_Φ m outs pdats hp9 c (Fin.last _)]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c pdats ((pdats 9 c).share_full fun w => pd9_q m outs pdats hp9 c w)
      (VV27 m outs c) (VV28 m outs c) ((pdats 9 c).arrAt · cfg9.N) (hF9 m outs pdats hp9 houts9 c) (hrest9 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd9_owed m outs pdats hp9 c]
    icases HO with ⟨%W, -, HO⟩; iexists W; iexact HO

/-- The record is entered from the conditional frame's thread state before the region (with the rest state `R`), -/
theorem hpre9 (c : Dev nD) :
    iprop(StableHlo.held (c : Thread nD τ) (Pipeline.ucRefs τ sig) (V27 m outs c) ∗ R (F := F) c)
      ⊢ (reg9 m outs pdats hp9 houts9).pre c := .rfl

/-- and left at the one after it. -/
theorem hpost9 (c : Dev nD) :
    (reg9 m outs pdats hp9 houts9).post c
      ⊢ iprop(StableHlo.held (c : Thread nD τ) (Pipeline.ucRefs τ sig) (V28 m outs c) ∗ R (F := F) c) := .rfl

end Record

end Cert.Kernel.Frame9

end
-- ==== Proof.KRegion10Body.lean ====
/- Region 10 of the word-level kernel program (custom_call 10, the batch-norm affine map followed by the maximum with zero, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame10

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 10 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk10 (c : Dev nD) (w : Fin cfg10.W) (t : Fin cfg10.N) :
    ((cfg10.win w).xblock (cfg10.grid.coords t)).Idx → Elt F (cfg10.win w).elt :=
  ((cfg10.win w).blk t).view.read (Elt F) (V c (Pipeline.arrRef spec10 w))

/-- The row-block operand (window 0): for any proof data whose array for it is the entry contents and whose body
    leaves the block where it is, the staging buffer handed to the body at `t` holds the block at `t` — fetched at
    `t`, or still there from an earlier point because the block index has not moved since. -/
theorem before10_0_of {c : Dev nD} (dat : Dat τ (Elt F) Unit ℕ (UR sig nD τ) ℕ cfg10 c)
    (hA : dat.A 0 = V c (Pipeline.arrRef spec10 0)) (hafter : ∀ t, dat.after 0 t = iblk10 V c 0 t)
    (t : Fin cfg10.N) (d) : dat.before 0 t d = iblk10 V c 0 t := by
  refine (dat.before_in_eq_fetched 0 rfl (fun _ => rfl) (fun _ _ _ => rfl) (fun t => ?_) t d).trans ?_
  · rw [hafter]; unfold Dat.blockOf iblk10; rw [hA]; try rfl
  · unfold Dat.fetched Dat.blockOf iblk10; rw [hA]; try rfl

/-- The mean row (window 1; one block, fetched at the first point only, its index constant): the same. -/
theorem before10_1_of {c : Dev nD} (dat : Dat τ (Elt F) Unit ℕ (UR sig nD τ) ℕ cfg10 c)
    (hA : dat.A 1 = V c (Pipeline.arrRef spec10 1)) (hafter : ∀ t, dat.after 1 t = iblk10 V c 1 t)
    (t : Fin cfg10.N) (d) : dat.before 1 t d = iblk10 V c 1 t := by
  refine (dat.before_in_eq_fetched 1 rfl (fun _ => rfl) (fun _ _ _ => rfl) (fun t => ?_) t d).trans ?_
  · rw [hafter]; unfold Dat.blockOf iblk10; rw [hA]; try rfl
  · unfold Dat.fetched Dat.blockOf iblk10; rw [hA]; try rfl

/-- The variance row (window 2; one block, fetched at the first point only, its index constant): the same. -/
theorem before10_2_of {c : Dev nD} (dat : Dat τ (Elt F) Unit ℕ (UR sig nD τ) ℕ cfg10 c)
    (hA : dat.A 2 = V c (Pipeline.arrRef spec10 2)) (hafter : ∀ t, dat.after 2 t = iblk10 V c 2 t)
    (t : Fin cfg10.N) (d) : dat.before 2 t d = iblk10 V c 2 t := by
  refine (dat.before_in_eq_fetched 2 rfl (fun _ => rfl) (fun _ _ _ => rfl) (fun t => ?_) t d).trans ?_
  · rw [hafter]; unfold Dat.blockOf iblk10; rw [hA]; try rfl
  · unfold Dat.fetched Dat.blockOf iblk10; rw [hA]; try rfl

/-- The scale row (window 3; one block, fetched at the first point only, its index constant): the same. -/
theorem before10_3_of {c : Dev nD} (dat : Dat τ (Elt F) Unit ℕ (UR sig nD τ) ℕ cfg10 c)
    (hA : dat.A 3 = V c (Pipeline.arrRef spec10 3)) (hafter : ∀ t, dat.after 3 t = iblk10 V c 3 t)
    (t : Fin cfg10.N) (d) : dat.before 3 t d = iblk10 V c 3 t := by
  refine (dat.before_in_eq_fetched 3 rfl (fun _ => rfl) (fun _ _ _ => rfl) (fun t => ?_) t d).trans ?_
  · rw [hafter]; unfold Dat.blockOf iblk10; rw [hA]; try rfl
  · unfold Dat.fetched Dat.blockOf iblk10; rw [hA]; try rfl

/-- The shift row (window 4; one block, fetched at the first point only, its index constant): the same. -/
theorem before10_4_of {c : Dev nD} (dat : Dat τ (Elt F) Unit ℕ (UR sig nD τ) ℕ cfg10 c)
    (hA : dat.A 4 = V c (Pipeline.arrRef spec10 4)) (hafter : ∀ t, dat.after 4 t = iblk10 V c 4 t)
    (t : Fin cfg10.N) (d) : dat.before 4 t d = iblk10 V c 4 t := by
  refine (dat.before_in_eq_fetched 4 rfl (fun _ => rfl) (fun _ _ _ => rfl) (fun t => ?_) t d).trans ?_
  · rw [hafter]; unfold Dat.blockOf iblk10; rw [hA]; try rfl
  · unfold Dat.fetched Dat.blockOf iblk10; rw [hA]; try rfl

/-! ## The rectangles the body reads and writes: each staging buffer whole -/

abbrev r10_big : Rect S5000x128 := Rect.unit (s := S5000x128) ![0, 0] S5000x128.size inb_S5000x128_S5000x128_0_0
abbrev r10_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `max ((x − mean) · rsqrt (var + ε) · gamma + beta) 0` of the five whole-buffer loads, written as a one-piece list.
    (The body loads the variance before the mean, which is the order of the payload's arguments.) -/
def out10_5 (x0 : Vec F S5000x128 .f32) (x1 x2 x3 x4 : Vec F S1x128 .f32) : Vec F S5000x128 .f32 :=
  View.canon [⟨r10_big, k10_pay1 (View.ld x0 r10_big) (View.ld x2 r10_row) (View.ld x1 r10_row)
    (View.ld x3 r10_row) (View.ld x4 r10_row)⟩]

/-- The one store is of the whole buffer, so every index of the buffer lies in it. -/
theorem cover10_5 (p : Vec F S5000x128 .f32) (y : S5000x128.Idx) :
    ∃ pc ∈ ([⟨r10_big, p⟩] : List (View.Piece (Elt F) S5000x128 .f32)), y ∈ pc.1.set :=
  View.cover_of_tiled [⟨r10_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out10_5 x0 x1 x2 x3 x4`. (The body also loads the output buffer before storing to it; the loaded value is
    not used.) -/
theorem sound_kernel10 (c : Dev nD) (E : Set ℕ) (i : grid10.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out10_5 x0 x1 x2 x3 x4)) -∗ K ⟨⟩))
      ⊢ wp frame (wpE (defs₀ (F := F)) Variants.none c none) E
          (cc10__bn_relu_kernel i arg1 harg1 arg2 harg2 arg3 harg3 arg4 harg4 arg5 harg5 arg6 harg6) K := by
  simp only [cc10__bn_relu_kernel_eq_skeleton]; unfold cc10__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-! ## The proof data of the pipeline -/

/-- Region 10's proof data on core `c`: the six arrays as the region finds them; after the body at point `t` the
    five inputs' buffers at their blocks and the output's at `out10_5` of those blocks; the invariant the scoped rest
    and the generator register, untouched (`Pipeline.ΦA`); full shares; nothing owed. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

/-- The proof data's arrays are the entry contents (the structure projected; `V` is never unfolded). -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) :
    (dat10 V c).after 5 t
      = out10_5 (iblk10 V c 0 t) (iblk10 V c 1 t) (iblk10 V c 2 t) (iblk10 V c 3 t) (iblk10 V c 4 t) := by
  dsimp only [dat10]

/-- What the body is handed in each input's buffer: its block. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation -/

/-- What the body is called with at point `t`: the invariant, the core's dues, and each window's current staging
    buffer at what the pipeline put there. -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- What it returns: the same, each buffer at the proof data's `after`. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at a point: the inputs' buffers hold their blocks, so the body's triple applies at those blocks; the
    invariant and the dues are not read. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _
    (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation10 (c : Dev nD) : BodyObligation (dat10 (F := F) V c) (defs₀ (F := F)) Variants.none () Set.univ := fun t => by
  rw [bigSep_W10, bigSep_W10]
  exact sound_body10 V c t

end Cert.Kernel.Frame10

end
-- ==== Proof.KRegion10.lean ====
/- Region 10 of the word-level kernel program (custom_call 10) as a segment of @main: entered from every unscoped
   buffer at the contents before it (`V31`), left with the result array `main_v190` at what the pipeline's
   write-backs leave and every other buffer as entered (`V32`). Stated over an arbitrary family of proof data whose
   member at pipeline 10 is this region's (`hp10`), and over any `outs` that names the result's final contents
   (`houts`). -/
import proofs.«146189_j40922448396571_2_alg».proof.Proof.KRegions
import proofs.«146189_j40922448396571_2_alg».proof.Proof.KGlobals
import proofs.«146189_j40922448396571_2_alg».proof.Proof.KRegion10Body

set_option maxRecDepth 16384

noncomputable section

namespace Cert.Kernel.Frame10

open Cert.Kernel.Gen Cert.Kernel.Glob
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: the contents before the region (`V31`). -/
abbrev VVin : (c : Dev nD) → (b : Ref sig .tc) → Buf (Elt F) ((c : Thread nD τ).loc b) := fun c b => V31 m outs c b
/-- Exit: the same with `main_v190` at `outs 32 main_v190` (`V32`). -/
abbrev VVout : (c : Dev nD) → (b : Ref sig .tc) → Buf (Elt F) ((c : Thread nD τ).loc b) := fun c b => V32 m outs c b

/-! ## The family of proof data, pinned at pipeline 10 -/

variable (pdats : (p : Fin 17) → (c : Dev nD) → Dat τ (Elt F) Unit ℕ (UR sig nD τ) ℕ (cfgs p) c)

section Pinned
variable (hp10 : ∀ c, pdats 10 c = dat10 (VVin m outs) c)
include hp10

/-- The pinned member's fields, read through the pin: full shares, nothing owed, the entry contents as arrays, the
    untouched invariant, every point recorded. -/
theorem pd10_q (c : Dev nD) (w : Fin cfg10.W) : (pdats 10 c).q w = fullShare := by rw [hp10 c]; rfl
theorem pd10_owed (c : Dev nD) (t) : (pdats 10 c).owed t = 0 := by rw [hp10 c]; rfl
theorem pd10_A (c : Dev nD) (w : Fin cfg10.W) : (pdats 10 c).A w = VVin m outs c (Pipeline.arrRef spec10 w) := by
  rw [hp10 c]; exact A_eq10 (VVin m outs) c w
theorem pd10_Φ (c : Dev nD) (t) : (pdats 10 c).Φ t = Pipeline.ΦA spec10 c := by rw [hp10 c]; rfl
theorem pd10_recorded (c : Dev nD) (t) : (pdats 10 c).recorded t = Set.univ := by rw [hp10 c]; rfl

end Pinned

/-! ## The exit contents, at the region's arrays and off them -/

section Exit
variable (hp10 : ∀ c, pdats 10 c = dat10 (VVin m outs) c)
  (houts : ∀ c, outs 32 main_v190 c = (dat10 (VVin m outs) c).arrAt 5 cfg10.N)

include hp10 in
/-- The row-block operand's array (`main_v177`) ends as entered: no window writes it, and it is not the result's reference. -/
theorem hF10_0 (c : Dev nD) : (pdats 10 c).arrAt 0 cfg10.N = VVout m outs c (Pipeline.arrRef spec10 0) := by
  rw [hp10 c]
  refine ((dat10 (VVin m outs) c).arrAt_in 0 rfl _).trans ((A_eq10 (VVin m outs) c 0).trans ?_)
  exact (Function.update_of_ne (StableHlo.devRef_ne_of_ne (by decide)) _ _).symm

include hp10 in
/-- The mean row's array (`main_v181`) ends as entered: no window writes it, and it is not the result's reference. -/
theorem hF10_1 (c : Dev nD) : (pdats 10 c).arrAt 1 cfg10.N = VVout m outs c (Pipeline.arrRef spec10 1) := by
  rw [hp10 c]
  refine ((dat10 (VVin m outs) c).arrAt_in 1 rfl _).trans ((A_eq10 (VVin m outs) c 1).trans ?_)
  exact (Function.update_of_ne (StableHlo.devRef_ne_of_ne (by decide)) _ _).symm

include hp10 in
/-- The variance row's array (`main_v185`) ends as entered: no window writes it, and it is not the result's reference. -/
theorem hF10_2 (c : Dev nD) : (pdats 10 c).arrAt 2 cfg10.N = VVout m outs c (Pipeline.arrRef spec10 2) := by
  rw [hp10 c]
  refine ((dat10 (VVin m outs) c).arrAt_in 2 rfl _).trans ((A_eq10 (VVin m outs) c 2).trans ?_)
  exact (Function.update_of_ne (StableHlo.devRef_ne_of_ne (by decide)) _ _).symm

include hp10 in
/-- The scale row's array (`main_v187`) ends as entered: no window writes it, and it is not the result's reference. -/
theorem hF10_3 (c : Dev nD) : (pdats 10 c).arrAt 3 cfg10.N = VVout m outs c (Pipeline.arrRef spec10 3) := by
  rw [hp10 c]
  refine ((dat10 (VVin m outs) c).arrAt_in 3 rfl _).trans ((A_eq10 (VVin m outs) c 3).trans ?_)
  exact (Function.update_of_ne (StableHlo.devRef_ne_of_ne (by decide)) _ _).symm

include hp10 in
/-- The shift row's array (`main_v189`) ends as entered: no window writes it, and it is not the result's reference. -/
theorem hF10_4 (c : Dev nD) : (pdats 10 c).arrAt 4 cfg10.N = VVout m outs c (Pipeline.arrRef spec10 4) := by
  rw [hp10 c]
  refine ((dat10 (VVin m outs) c).arrAt_in 4 rfl _).trans ((A_eq10 (VVin m outs) c 4).trans ?_)
  exact (Function.update_of_ne (StableHlo.devRef_ne_of_ne (by decide)) _ _).symm

include hp10 houts in
/-- The result's array (`main_v190`) ends at what the write-backs leave, which is what `outs` names. -/
theorem hF10_5 (c : Dev nD) : (pdats 10 c).arrAt 5 cfg10.N = VVout m outs c (Pipeline.arrRef spec10 5) := by
  rw [hp10 c, ← houts c]
  exact (Function.update_self (Proc.devRef (τ := τ) .tc main_v190) (outs 32 main_v190 c) (V31 m outs c)).symm

include hp10 houts in
/-- Every array of the region at its exit contents. -/
theorem hF10 (c : Dev nD) : ∀ w : Fin cfg10.W, (pdats 10 c).arrAt w cfg10.N = VVout m outs c (Pipeline.arrRef spec10 w)
  | ⟨0, _⟩ => hF10_0 m outs pdats hp10 c
  | ⟨1, _⟩ => hF10_1 m outs pdats hp10 c
  | ⟨2, _⟩ => hF10_2 m outs pdats hp10 c
  | ⟨3, _⟩ => hF10_3 m outs pdats hp10 c
  | ⟨4, _⟩ => hF10_4 m outs pdats hp10 c
  | ⟨5, _⟩ => hF10_5 m outs pdats hp10 houts c

/-- Off the region's six arrays the exit contents are the entry contents: only `main_v190` is updated, and it is
    window 5's array. -/
theorem hrest10 (c : Dev nD) : ∀ b, b ∉ Finset.univ.image (Pipeline.arrRef spec10) → VVout m outs c b = VVin m outs c b :=
  fun b hb => Function.update_of_ne
    (fun e => hb (Finset.mem_image.mpr ⟨5, Finset.mem_univ _, (Proc.devRef_injective _ e).symm⟩)) _ _

end Exit

/-! ## The region as a segment -/

section Record
variable (hp10 : ∀ c, pdats 10 c = dat10 (VVin m outs) c)
  (houts : ∀ c, outs 32 main_v190 c = (dat10 (VVin m outs) c).arrAt 5 cfg10.N)

-- a library lemma stated over the pinned configuration `pin pcs a p` is applied to the printed one: unification has
-- to unfold plain definitions in a metavariable's type
set_option backward.isDefEq.respectTransparency.types false in
/-- Region 10 over the thread state "every unscoped buffer at the boundary's contents, beside the rest state `R`".
    Entry: the six arrays are split out of the unscoped buffers at the entry contents; the generator register goes
    into the invariant; nothing is owed; the kernel has no semaphore of its own. Exit: the arrays are put back at the
    exit contents (`hF10`, `hrest10`) and the register comes back. -/
def reg10 : RegionSeg (pcfgs (F := F)) adm pdats () defs₀ 𝒱₀ L lv 10 where
  win := launch10.win.to₀
  block_pos := launch10.block_pos
  stage_whole := launch10.stage_whole
  K := PEmpty
  osem k := k.elim
  ho := Pipeline.OwnSemFacts.none _
  hbody c := by rw [hp10 c]; exact (body_obligation10 (VVin m outs) c).loose
  hwaits := Pipeline.hwaits_of_owed_zero _ _ _ _ L lv 10 fun c t => pd10_owed m outs pdats hp10 c t
  pre c := iprop(StableHlo.held (c : Thread nD τ) (Pipeline.ucRefs τ sig) (V31 m outs c) ∗ R c)
  post c := iprop(StableHlo.held (c : Thread nD τ) (Pipeline.ucRefs τ sig) (V32 m outs c) ∗ R c)
  X c := iprop(∃ r, prngReg c r)
  Y c := iprop(∃ r, prngReg c r)
  Z c := Pipeline.unscopedRest (Ix := Unit) (Name := ℕ) (U := UR sig nD τ) (Lvl := ℕ) spec10 c (VVin m outs c)
  hentry c := by
    rw [Pipeline.ownSems0_none]
    have hsplit := Pipeline.arrays_of_unscopedBufs (p := 10) (pcfgs (F := F)) adm pdats launch10.win launch10.arr_whole c
      ((pdats 10 c).share_full fun w => pd10_q m outs pdats hp10 c w) (VVin m outs c) fun w => pd10_A m outs pdats hp10 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd10_owed m outs pdats hp10 c]
      icases HO with ⟨%W, HO⟩; iexists W; isplitr
      · ipureintro; exact fun x _ => Or.inl (by rw [pd10_recorded m outs pdats hp10 c]; exact Set.mem_univ x)
      iexact HO
    isplitl [Hp]; · iexact Hp
    iexact Hrest
  hin c := by
    rw [pd10_Φ m outs pdats hp10 c 0]; unfold Pipeline.ΦA
    iintro ⟨Hp, -, Hr⟩
    isplitl [Hr]; · iexact Hr
    iexact Hp
  hout c := by
    rw [Pipeline.ownSems0_none, pd10_Φ m outs pdats hp10 c (Fin.last _)]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c pdats ((pdats 10 c).share_full fun w => pd10_q m outs pdats hp10 c w)
      (VVin m outs c) (VVout m outs c) ((pdats 10 c).arrAt · cfg10.N) (hF10 m outs pdats hp10 houts c) (hrest10 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd10_owed m outs pdats hp10 c]
    icases HO with ⟨%W, -, HO⟩; iexists W; iexact HO

/-- The record is entered from the conditional frame's thread state before the region (with the rest state `R`), -/
theorem hpre10 (c : Dev nD) :
    iprop(StableHlo.held (c : Thread nD τ) (Pipeline.ucRefs τ sig) (V31 m outs c) ∗ R (F := F) c)
      ⊢ (reg10 m outs pdats hp10 houts).pre c := .rfl

/-- and left at the one after it. -/
theorem hpost10 (c : Dev nD) :
    (reg10 m outs pdats hp10 houts).post c
      ⊢ iprop(StableHlo.held (c : Thread nD τ) (Pipeline.ucRefs τ sig) (V32 m outs c) ∗ R (F := F) c) := .rfl

end Record

end Cert.Kernel.Frame10

end
-- ==== Proof.KRegion11Body.lean ====
/- Region 11 of the word-level kernel program (custom_call 11: a 64 → 64 matmul, plus a bias row, plus a second
   operand added elementwise): the class-A half of its frame, stated at a parameter `V` — the TensorCore's buffer
   contents when the region is entered. For each of the five windows its block at a grid point, the contents the body
   leaves in the output window's buffer as a function of the four input blocks, the body's triple, the pipeline's
   proof data and the library's body obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame11

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 11 is entered
variable (V : (c : Dev nD) → (b : Ref sig .tc) → Buf (Elt F) ((c : Thread nD τ).loc b))

/-! ## The blocks of the five windows -/

/-- The block of window `w` at grid point `t`: the window's rectangle at `t` read off the window's array as the
    region finds it. Window 0 is rows `5000 t … 5000 t + 4999` of the [100000,64] left operand, window 1 the whole
    [64,64] weight, window 2 the whole [1,64] bias row, window 3 the same rows of the [100000,64] operand that is
    added, window 4 the same rows of the [100000,64] result. -/
def iblk11 (c : Dev nD) (w : Fin cfg11.W) (t : Fin cfg11.N) :
    ((cfg11.win w).xblock (cfg11.grid.coords t)).Idx → Elt F (cfg11.win w).elt :=
  ((cfg11.win w).blk t).view.read (Elt F) (V c (Pipeline.arrRef spec11 w))

/-- An input window whose body leaves its block where it is: whatever proof data has the entry contents as the
    window's array and the block as what the body leaves, the staging buffer the body is handed at `t` holds the block
    at `t` — it was fetched at `t`, or the window's index has not moved since it was. Window 0, the row block of
    the left operand (fetched at every point). -/
theorem before11_0_of {c : Dev nD} (dat : Dat τ (Elt F) Unit ℕ (UR sig nD τ) ℕ cfg11 c)
    (hA : dat.A 0 = V c (Pipeline.arrRef spec11 0)) (hafter : ∀ t, dat.after 0 t = iblk11 V c 0 t)
    (t : Fin cfg11.N) (d) : dat.before 0 t d = iblk11 V c 0 t := by
  refine (dat.before_in_eq_fetched 0 rfl (fun _ => rfl) (fun _ _ _ => rfl) (fun t => ?_) t d).trans ?_
  · rw [hafter]; unfold Dat.blockOf iblk11; rw [hA]; try rfl
  · unfold Dat.fetched Dat.blockOf iblk11; rw [hA]; try rfl

/-- Window 1, the weight (fetched once; its index is constant): the same statement. -/
theorem before11_1_of {c : Dev nD} (dat : Dat τ (Elt F) Unit ℕ (UR sig nD τ) ℕ cfg11 c)
    (hA : dat.A 1 = V c (Pipeline.arrRef spec11 1)) (hafter : ∀ t, dat.after 1 t = iblk11 V c 1 t)
    (t : Fin cfg11.N) (d) : dat.before 1 t d = iblk11 V c 1 t := by
  refine (dat.before_in_eq_fetched 1 rfl (fun _ => rfl) (fun _ _ _ => rfl) (fun t => ?_) t d).trans ?_
  · rw [hafter]; unfold Dat.blockOf iblk11; rw [hA]; try rfl
  · unfold Dat.fetched Dat.blockOf iblk11; rw [hA]; try rfl

/-- Window 2, the bias row (fetched once; its index is constant): the same statement. -/
theorem before11_2_of {c : Dev nD} (dat : Dat τ (Elt F) Unit ℕ (UR sig nD τ) ℕ cfg11 c)
    (hA : dat.A 2 = V c (Pipeline.arrRef spec11 2)) (hafter : ∀ t, dat.after 2 t = iblk11 V c 2 t)
    (t : Fin cfg11.N) (d) : dat.before 2 t d = iblk11 V c 2 t := by
  refine (dat.before_in_eq_fetched 2 rfl (fun _ => rfl) (fun _ _ _ => rfl) (fun t => ?_) t d).trans ?_
  · rw [hafter]; unfold Dat.blockOf iblk11; rw [hA]; try rfl
  · unfold Dat.fetched Dat.blockOf iblk11; rw [hA]; try rfl

/-- Window 3, the row block of the operand that is added (fetched at every point): the same statement. -/
theorem before11_3_of {c : Dev nD} (dat : Dat τ (Elt F) Unit ℕ (UR sig nD τ) ℕ cfg11 c)
    (hA : dat.A 3 = V c (Pipeline.arrRef spec11 3)) (hafter : ∀ t, dat.after 3 t = iblk11 V c 3 t)
    (t : Fin cfg11.N) (d) : dat.before 3 t d = iblk11 V c 3 t := by
  refine (dat.before_in_eq_fetched 3 rfl (fun _ => rfl) (fun _ _ _ => rfl) (fun t => ?_) t d).trans ?_
  · rw [hafter]; unfold Dat.blockOf iblk11; rw [hA]; try rfl
  · unfold Dat.fetched Dat.blockOf iblk11; rw [hA]; try rfl

/-! ## The rectangles the body reads and writes: each staging buffer whole -/

abbrev r11_a : Rect S5000x64 := Rect.unit (s := S5000x64) ![0, 0] S5000x64.size inb_S5000x64_S5000x64_0_0
abbrev r11_w : Rect S64x64 := Rect.unit (s := S64x64) ![0, 0] S64x64.size inb_S64x64_S64x64_0_0
abbrev r11_b : Rect S1x64 := Rect.unit (s := S1x64) ![0, 0] S1x64.size inb_S1x64_S1x64_0_0

/-! ## What the body leaves in the output window's buffer -/

/-- The output staging buffer after the body, from the four input blocks: its one store, of the payload
    `x0 · x1 + (the row x2 on every row) + x3` of the four whole-buffer loads, written as a one-piece list. -/
def out11_4 (x0 : Vec F S5000x64 .f32) (x1 : Vec F S64x64 .f32) (x2 : Vec F S1x64 .f32) (x3 : Vec F S5000x64 .f32) :
    Vec F S5000x64 .f32 :=
  View.canon [⟨r11_a, k11_pay1 (View.ld x0 r11_a) (View.ld x1 r11_w) (View.ld x2 r11_b) (View.ld x3 r11_a)⟩]

/-- The one store is of the whole buffer, so every index of the buffer lies in it. -/
theorem cover11_4 (p : Vec F S5000x64 .f32) (y : S5000x64.Idx) :
    ∃ pc ∈ ([⟨r11_a, p⟩] : List (View.Piece (Elt F) S5000x64 .f32)), y ∈ pc.1.set :=
  View.cover_of_tiled [⟨r11_a, p⟩] S5000x64.size (by rfl) y

/-! ## The body's triple -/

set_option maxHeartbeats 1000000 in
/-- The body at any grid coordinate `i`, on whole staging memrefs: the four inputs' read `x0 … x3`, the output's
    holds anything. It runs to the continuation with the inputs' as they were and the output's at
    `out11_4 x0 x1 x2 x3`. (The body also loads the output buffer before storing to it; the loaded value is not used.) -/
theorem sound_kernel11 (c : Dev nD) (E : Set ℕ) (i : grid11.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out11_4 x0 x1 x2 x3)) -∗ K ⟨⟩))
      ⊢ wp frame (wpE (defs₀ (F := F)) Variants.none c none) E
          (cc11__linear_extra_kernel i arg1 harg1 arg2 harg2 arg3 harg3 arg4 harg4 arg5 harg5) K := by
  simp only [cc11__linear_extra_kernel_eq_skeleton]; unfold cc11__linear_extra_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover11_4 _)

/-! ## The proof data of the pipeline -/

/-- Region 11's proof data on core `c`: the five arrays as the region finds them; after the body at point `t` the four
    inputs' buffers at their blocks and the output's at `out11_4` of those blocks; the invariant the scoped rest and the
    generator register, untouched (`Pipeline.ΦA`); full shares; nothing owed. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t) (iblk11 V c 3 t)
  Φ _ := Pipeline.ΦA spec11 c
  q _ := fullShare
  owed _ := 0

/-- The proof data's arrays are the entry contents (the structure projected; `V` is never unfolded). -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) :
    (dat11 V c).after 4 t = out11_4 (iblk11 V c 0 t) (iblk11 V c 1 t) (iblk11 V c 2 t) (iblk11 V c 3 t) := by
  dsimp only [dat11]

/-- What the body is handed in each input's buffer: its block. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-! ## The body obligation -/

/-- What the body is called with at point `t`: the invariant, the core's dues, and each window's current staging
    buffer at what the pipeline put there. -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- What it returns: the same, each buffer at the proof data's `after`. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at a point: the inputs' buffers hold their blocks, so the body's triple applies at those blocks; the
    invariant and the dues are not read. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _
    (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the proof data, at every point. -/
theorem body_obligation11 (c : Dev nD) : BodyObligation (dat11 (F := F) V c) (defs₀ (F := F)) Variants.none () Set.univ := fun t => by
  rw [bigSep_W11, bigSep_W11]
  exact sound_body11 V c t

end Cert.Kernel.Frame11

end
-- ==== Proof.KRegion11.lean ====
/- Region 11 of the word-level kernel program (custom_call 11) as a segment of @main: entered from every unscoped
   buffer at the contents before it, left with the result array `main_v208` at what the pipeline's write-backs leave
   and every other buffer as entered. Stated over an arbitrary family of proof data whose member at pipeline 11 is
   this region's (`hp11`), and over any `outs` that names the result's final contents (`houts11`). -/
import proofs.«146189_j40922448396571_2_alg».proof.Proof.KRegions
import proofs.«146189_j40922448396571_2_alg».proof.Proof.KRegion11Body

set_option maxRecDepth 16384

noncomputable section

namespace Cert.Kernel.Frame11

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry. -/
abbrev VV33 : (c : Dev nD) → (b : Ref sig .tc) → Buf (Elt F) ((c : Thread nD τ).loc b) := fun c b => V33 m outs c b
/-- Exit: the same with `main_v208` at `outs 34 main_v208`. -/
abbrev VV34 : (c : Dev nD) → (b : Ref sig .tc) → Buf (Elt F) ((c : Thread nD τ).loc b) := fun c b => V34 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 11 -/

variable (pdats : (p : Fin 17) → (c : Dev nD) → Dat τ (Elt F) Unit ℕ (UR sig nD τ) ℕ (cfgs p) c)

section Pinned
variable (hp11 : ∀ c, pdats 11 c = dat11 (VV33 m outs) c)
include hp11

theorem pd11_q (c : Dev nD) (w : Fin cfg11.W) : (pdats 11 c).q w = fullShare := by rw [hp11 c]; rfl
theorem pd11_owed (c : Dev nD) (t) : (pdats 11 c).owed t = 0 := by rw [hp11 c]; rfl
theorem pd11_A (c : Dev nD) (w : Fin cfg11.W) : (pdats 11 c).A w = VV33 m outs c (Pipeline.arrRef spec11 w) := by
  rw [hp11 c]; exact A_eq11 (VV33 m outs) c w
theorem pd11_Φ (c : Dev nD) (t) : (pdats 11 c).Φ t = Pipeline.ΦA spec11 c := by rw [hp11 c]; rfl
theorem pd11_recorded (c : Dev nD) (t) : (pdats 11 c).recorded t = Set.univ := by rw [hp11 c]; rfl

end Pinned

/-! ## The exit contents, at the region's arrays and off them -/

section Exit
variable (hp11 : ∀ c, pdats 11 c = dat11 (VV33 m outs) c)
  (houts11 : ∀ c, outs 34 main_v208 c = (dat11 (VV33 m outs) c).arrAt 4 cfg11.N)

include hp11 in
/-- Input window 0's array ends as entered: no window writes it, and it is not the result's reference. -/
theorem hF11_0 (c : Dev nD) : (pdats 11 c).arrAt 0 cfg11.N = VV34 m outs c (Pipeline.arrRef spec11 0) := by
  rw [hp11 c]
  refine ((dat11 (VV33 m outs) c).arrAt_in 0 rfl _).trans ((A_eq11 (VV33 m outs) c 0).trans ?_)
  exact (Function.update_of_ne (StableHlo.devRef_ne_of_ne (by decide)) _ _).symm

include hp11 in
/-- Input window 1's array ends as entered: no window writes it, and it is not the result's reference. -/
theorem hF11_1 (c : Dev nD) : (pdats 11 c).arrAt 1 cfg11.N = VV34 m outs c (Pipeline.arrRef spec11 1) := by
  rw [hp11 c]
  refine ((dat11 (VV33 m outs) c).arrAt_in 1 rfl _).trans ((A_eq11 (VV33 m outs) c 1).trans ?_)
  exact (Function.update_of_ne (StableHlo.devRef_ne_of_ne (by decide)) _ _).symm

include hp11 in
/-- Input window 2's array ends as entered: no window writes it, and it is not the result's reference. -/
theorem hF11_2 (c : Dev nD) : (pdats 11 c).arrAt 2 cfg11.N = VV34 m outs c (Pipeline.arrRef spec11 2) := by
  rw [hp11 c]
  refine ((dat11 (VV33 m outs) c).arrAt_in 2 rfl _).trans ((A_eq11 (VV33 m outs) c 2).trans ?_)
  exact (Function.update_of_ne (StableHlo.devRef_ne_of_ne (by decide)) _ _).symm

include hp11 in
/-- Input window 3's array ends as entered: no window writes it, and it is not the result's reference. -/
theorem hF11_3 (c : Dev nD) : (pdats 11 c).arrAt 3 cfg11.N = VV34 m outs c (Pipeline.arrRef spec11 3) := by
  rw [hp11 c]
  refine ((dat11 (VV33 m outs) c).arrAt_in 3 rfl _).trans ((A_eq11 (VV33 m outs) c 3).trans ?_)
  exact (Function.update_of_ne (StableHlo.devRef_ne_of_ne (by decide)) _ _).symm

include hp11 houts11 in
/-- The result's array ends at what the write-backs leave, which is what `outs` names. -/
theorem hF11_4 (c : Dev nD) : (pdats 11 c).arrAt 4 cfg11.N = VV34 m outs c (Pipeline.arrRef spec11 4) := by
  rw [hp11 c, ← houts11 c]
  exact (Function.update_self (Proc.devRef (τ := τ) .tc main_v208) (outs 34 main_v208 c) (V33 m outs c)).symm

include hp11 houts11 in
theorem hF11 (c : Dev nD) : ∀ w : Fin cfg11.W, (pdats 11 c).arrAt w cfg11.N = VV34 m outs c (Pipeline.arrRef spec11 w)
  | ⟨0, _⟩ => hF11_0 m outs pdats hp11 c
  | ⟨1, _⟩ => hF11_1 m outs pdats hp11 c
  | ⟨2, _⟩ => hF11_2 m outs pdats hp11 c
  | ⟨3, _⟩ => hF11_3 m outs pdats hp11 c
  | ⟨4, _⟩ => hF11_4 m outs pdats hp11 houts11 c

/-- Off the region's arrays the exit contents are the entry contents: only `main_v208` is updated, and it is
    window 4's array. -/
theorem hrest11 (c : Dev nD) : ∀ b, b ∉ Finset.univ.image (Pipeline.arrRef spec11) → VV34 m outs c b = VV33 m outs c b :=
  fun b hb => Function.update_of_ne
    (fun e => hb (Finset.mem_image.mpr ⟨4, Finset.mem_univ _, (Proc.devRef_injective _ e).symm⟩)) _ _

end Exit

/-! ## The region as a segment -/

section Record
variable (hp11 : ∀ c, pdats 11 c = dat11 (VV33 m outs) c)
  (houts11 : ∀ c, outs 34 main_v208 c = (dat11 (VV33 m outs) c).arrAt 4 cfg11.N)

-- a library lemma stated over the pinned configuration `pin pcs a p` is applied to the printed one: unification has
-- to unfold plain definitions in a metavariable's type
set_option backward.isDefEq.respectTransparency.types false in
/-- Region 11 over the thread state "every unscoped buffer at the boundary's contents, beside `R`". Entry: the
    arrays are split out of the unscoped buffers at the entry contents; the generator register goes into the
    invariant; nothing is owed; the kernel has no semaphore of its own. Exit: the arrays are put back at the exit
    contents (`hF11`, `hrest11`) and the register comes back. -/
def reg11 : RegionSeg (pcfgs (F := F)) adm pdats () defs₀ 𝒱₀ L lv 11 where
  win := launch11.win.to₀
  block_pos := launch11.block_pos
  stage_whole := launch11.stage_whole
  K := PEmpty
  osem k := k.elim
  ho := Pipeline.OwnSemFacts.none _
  hbody c := by rw [hp11 c]; exact (body_obligation11 (VV33 m outs) c).loose
  hwaits := Pipeline.hwaits_of_owed_zero _ _ _ _ L lv 11 fun c t => pd11_owed m outs pdats hp11 c t
  pre c := iprop(StableHlo.held (c : Thread nD τ) (Pipeline.ucRefs τ sig) (V33 m outs c) ∗ R c)
  post c := iprop(StableHlo.held (c : Thread nD τ) (Pipeline.ucRefs τ sig) (V34 m outs c) ∗ R c)
  X c := iprop(∃ r, prngReg c r)
  Y c := iprop(∃ r, prngReg c r)
  Z c := Pipeline.unscopedRest (Ix := Unit) (Name := ℕ) (U := UR sig nD τ) (Lvl := ℕ) spec11 c (VV33 m outs c)
  hentry c := by
    rw [Pipeline.ownSems0_none]
    have hsplit := Pipeline.arrays_of_unscopedBufs (p := 11) (pcfgs (F := F)) adm pdats launch11.win launch11.arr_whole c
      ((pdats 11 c).share_full fun w => pd11_q m outs pdats hp11 c w) (VV33 m outs c) fun w => pd11_A m outs pdats hp11 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd11_owed m outs pdats hp11 c]
      icases HO with ⟨%W, HO⟩; iexists W; isplitr; · ipureintro; exact fun x _ => Or.inl (by rw [pd11_recorded m outs pdats hp11 c]; exact Set.mem_univ x)
      iexact HO
    isplitl [Hp]; · iexact Hp
    iexact Hrest
  hin c := by
    rw [pd11_Φ m outs pdats hp11 c 0]; unfold Pipeline.ΦA
    iintro ⟨Hp, -, Hr⟩
    isplitl [Hr]; · iexact Hr
    iexact Hp
  hout c := by
    rw [Pipeline.ownSems0_none, pd11_Φ m outs pdats hp11 c (Fin.last _)]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c pdats ((pdats 11 c).share_full fun w => pd11_q m outs pdats hp11 c w)
      (VV33 m outs c) (VV34 m outs c) ((pdats 11 c).arrAt · cfg11.N) (hF11 m outs pdats hp11 houts11 c) (hrest11 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd11_owed m outs pdats hp11 c]
    icases HO with ⟨%W, -, HO⟩; iexists W; iexact HO

/-- The record is entered from the conditional frame's thread state before the region (with the rest state `R`), -/
theorem hpre11 (c : Dev nD) :
    iprop(StableHlo.held (c : Thread nD τ) (Pipeline.ucRefs τ sig) (V33 m outs c) ∗ R (F := F) c)
      ⊢ (reg11 m outs pdats hp11 houts11).pre c := .rfl

/-- and left at the one after it. -/
theorem hpost11 (c : Dev nD) :
    (reg11 m outs pdats hp11 houts11).post c
      ⊢ iprop(StableHlo.held (c : Thread nD τ) (Pipeline.ucRefs τ sig) (V34 m outs c) ∗ R (F := F) c) := .rfl

end Record

end Cert.Kernel.Frame11

end
-- ==== Proof.KRegion12Body.lean ====
/- Region 12 of the word-level kernel program (custom_call 12, the batch-norm affine map followed by the maximum with zero, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame12

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 12 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk12 (c : Dev nD) (w : Fin cfg12.W) (t : Fin cfg12.N) :
    ((cfg12.win w).xblock (cfg12.grid.coords t)).Idx → Elt F (cfg12.win w).elt :=
  ((cfg12.win w).blk t).view.read (Elt F) (V c (Pipeline.arrRef spec12 w))

/-- The row-block operand (window 0): for any proof data whose array for it is the entry contents and whose body
    leaves the block where it is, the staging buffer handed to the body at `t` holds the block at `t` — fetched at
    `t`, or still there from an earlier point because the block index has not moved since. -/
theorem before12_0_of {c : Dev nD} (dat : Dat τ (Elt F) Unit ℕ (UR sig nD τ) ℕ cfg12 c)
    (hA : dat.A 0 = V c (Pipeline.arrRef spec12 0)) (hafter : ∀ t, dat.after 0 t = iblk12 V c 0 t)
    (t : Fin cfg12.N) (d) : dat.before 0 t d = iblk12 V c 0 t := by
  refine (dat.before_in_eq_fetched 0 rfl (fun _ => rfl) (fun _ _ _ => rfl) (fun t => ?_) t d).trans ?_
  · rw [hafter]; unfold Dat.blockOf iblk12; rw [hA]; try rfl
  · unfold Dat.fetched Dat.blockOf iblk12; rw [hA]; try rfl

/-- The mean row (window 1; one block, fetched at the first point only, its index constant): the same. -/
theorem before12_1_of {c : Dev nD} (dat : Dat τ (Elt F) Unit ℕ (UR sig nD τ) ℕ cfg12 c)
    (hA : dat.A 1 = V c (Pipeline.arrRef spec12 1)) (hafter : ∀ t, dat.after 1 t = iblk12 V c 1 t)
    (t : Fin cfg12.N) (d) : dat.before 1 t d = iblk12 V c 1 t := by
  refine (dat.before_in_eq_fetched 1 rfl (fun _ => rfl) (fun _ _ _ => rfl) (fun t => ?_) t d).trans ?_
  · rw [hafter]; unfold Dat.blockOf iblk12; rw [hA]; try rfl
  · unfold Dat.fetched Dat.blockOf iblk12; rw [hA]; try rfl

/-- The variance row (window 2; one block, fetched at the first point only, its index constant): the same. -/
theorem before12_2_of {c : Dev nD} (dat : Dat τ (Elt F) Unit ℕ (UR sig nD τ) ℕ cfg12 c)
    (hA : dat.A 2 = V c (Pipeline.arrRef spec12 2)) (hafter : ∀ t, dat.after 2 t = iblk12 V c 2 t)
    (t : Fin cfg12.N) (d) : dat.before 2 t d = iblk12 V c 2 t := by
  refine (dat.before_in_eq_fetched 2 rfl (fun _ => rfl) (fun _ _ _ => rfl) (fun t => ?_) t d).trans ?_
  · rw [hafter]; unfold Dat.blockOf iblk12; rw [hA]; try rfl
  · unfold Dat.fetched Dat.blockOf iblk12; rw [hA]; try rfl

/-- The scale row (window 3; one block, fetched at the first point only, its index constant): the same. -/
theorem before12_3_of {c : Dev nD} (dat : Dat τ (Elt F) Unit ℕ (UR sig nD τ) ℕ cfg12 c)
    (hA : dat.A 3 = V c (Pipeline.arrRef spec12 3)) (hafter : ∀ t, dat.after 3 t = iblk12 V c 3 t)
    (t : Fin cfg12.N) (d) : dat.before 3 t d = iblk12 V c 3 t := by
  refine (dat.before_in_eq_fetched 3 rfl (fun _ => rfl) (fun _ _ _ => rfl) (fun t => ?_) t d).trans ?_
  · rw [hafter]; unfold Dat.blockOf iblk12; rw [hA]; try rfl
  · unfold Dat.fetched Dat.blockOf iblk12; rw [hA]; try rfl

/-- The shift row (window 4; one block, fetched at the first point only, its index constant): the same. -/
theorem before12_4_of {c : Dev nD} (dat : Dat τ (Elt F) Unit ℕ (UR sig nD τ) ℕ cfg12 c)
    (hA : dat.A 4 = V c (Pipeline.arrRef spec12 4)) (hafter : ∀ t, dat.after 4 t = iblk12 V c 4 t)
    (t : Fin cfg12.N) (d) : dat.before 4 t d = iblk12 V c 4 t := by
  refine (dat.before_in_eq_fetched 4 rfl (fun _ => rfl) (fun _ _ _ => rfl) (fun t => ?_) t d).trans ?_
  · rw [hafter]; unfold Dat.blockOf iblk12; rw [hA]; try rfl
  · unfold Dat.fetched Dat.blockOf iblk12; rw [hA]; try rfl

/-! ## The rectangles the body reads and writes: each staging buffer whole -/

abbrev r12_big : Rect S5000x128 := Rect.unit (s := S5000x128) ![0, 0] S5000x128.size inb_S5000x128_S5000x128_0_0
abbrev r12_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `max ((x − mean) · rsqrt (var + ε) · gamma + beta) 0` of the five whole-buffer loads, written as a one-piece list.
    (The body loads the variance before the mean, which is the order of the payload's arguments.) -/
def out12_5 (x0 : Vec F S5000x128 .f32) (x1 x2 x3 x4 : Vec F S1x128 .f32) : Vec F S5000x128 .f32 :=
  View.canon [⟨r12_big, k12_pay1 (View.ld x0 r12_big) (View.ld x2 r12_row) (View.ld x1 r12_row)
    (View.ld x3 r12_row) (View.ld x4 r12_row)⟩]

/-- The one store is of the whole buffer, so every index of the buffer lies in it. -/
theorem cover12_5 (p : Vec F S5000x128 .f32) (y : S5000x128.Idx) :
    ∃ pc ∈ ([⟨r12_big, p⟩] : List (View.Piece (Elt F) S5000x128 .f32)), y ∈ pc.1.set :=
  View.cover_of_tiled [⟨r12_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out12_5 x0 x1 x2 x3 x4`. (The body also loads the output buffer before storing to it; the loaded value is
    not used.) -/
theorem sound_kernel12 (c : Dev nD) (E : Set ℕ) (i : grid12.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out12_5 x0 x1 x2 x3 x4)) -∗ K ⟨⟩))
      ⊢ wp frame (wpE (defs₀ (F := F)) Variants.none c none) E
          (cc12__bn_relu_kernel i arg1 harg1 arg2 harg2 arg3 harg3 arg4 harg4 arg5 harg5 arg6 harg6) K := by
  simp only [cc12__bn_relu_kernel_eq_skeleton]; unfold cc12__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12_5 _)

/-! ## The proof data of the pipeline -/

/-- Region 12's proof data on core `c`: the six arrays as the region finds them; after the body at point `t` the
    five inputs' buffers at their blocks and the output's at `out12_5` of those blocks; the invariant the scoped rest
    and the generator register, untouched (`Pipeline.ΦA`); full shares; nothing owed. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

/-- The proof data's arrays are the entry contents (the structure projected; `V` is never unfolded). -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) :
    (dat12 V c).after 5 t
      = out12_5 (iblk12 V c 0 t) (iblk12 V c 1 t) (iblk12 V c 2 t) (iblk12 V c 3 t) (iblk12 V c 4 t) := by
  dsimp only [dat12]

/-- What the body is handed in each input's buffer: its block. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation -/

/-- What the body is called with at point `t`: the invariant, the core's dues, and each window's current staging
    buffer at what the pipeline put there. -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- What it returns: the same, each buffer at the proof data's `after`. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at a point: the inputs' buffers hold their blocks, so the body's triple applies at those blocks; the
    invariant and the dues are not read. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ _ _ _ _ _ _ _ _ _ _ _ _ _
    (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation12 (c : Dev nD) : BodyObligation (dat12 (F := F) V c) (defs₀ (F := F)) Variants.none () Set.univ := fun t => by
  rw [bigSep_W12, bigSep_W12]
  exact sound_body12 V c t

end Cert.Kernel.Frame12

end
-- ==== Proof.KRegion12.lean ====
/- Region 12 of the word-level kernel program (custom_call 12) as a segment of @main: entered from every unscoped
   buffer at the contents before it, left with the result array `main_v231` at what the pipeline's write-backs leave
   and every other buffer as entered. Stated over an arbitrary family of proof data whose member at pipeline 12 is
   this region's (`hp12`), and over any `outs` that names the result's final contents (`houts12`). -/
import proofs.«146189_j40922448396571_2_alg».proof.Proof.KRegions
import proofs.«146189_j40922448396571_2_alg».proof.Proof.KRegion12Body

set_option maxRecDepth 16384

noncomputable section

namespace Cert.Kernel.Frame12

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry. -/
abbrev VV37 : (c : Dev nD) → (b : Ref sig .tc) → Buf (Elt F) ((c : Thread nD τ).loc b) := fun c b => V37 m outs c b
/-- Exit: the same with `main_v231` at `outs 38 main_v231`. -/
abbrev VV38 : (c : Dev nD) → (b : Ref sig .tc) → Buf (Elt F) ((c : Thread nD τ).loc b) := fun c b => V38 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 12 -/

variable (pdats : (p : Fin 17) → (c : Dev nD) → Dat τ (Elt F) Unit ℕ (UR sig nD τ) ℕ (cfgs p) c)

section Pinned
variable (hp12 : ∀ c, pdats 12 c = dat12 (VV37 m outs) c)
include hp12

theorem pd12_q (c : Dev nD) (w : Fin cfg12.W) : (pdats 12 c).q w = fullShare := by rw [hp12 c]; rfl
theorem pd12_owed (c : Dev nD) (t) : (pdats 12 c).owed t = 0 := by rw [hp12 c]; rfl
theorem pd12_A (c : Dev nD) (w : Fin cfg12.W) : (pdats 12 c).A w = VV37 m outs c (Pipeline.arrRef spec12 w) := by
  rw [hp12 c]; exact A_eq12 (VV37 m outs) c w
theorem pd12_Φ (c : Dev nD) (t) : (pdats 12 c).Φ t = Pipeline.ΦA spec12 c := by rw [hp12 c]; rfl
theorem pd12_recorded (c : Dev nD) (t) : (pdats 12 c).recorded t = Set.univ := by rw [hp12 c]; rfl

end Pinned

/-! ## The exit contents, at the region's arrays and off them -/

section Exit
variable (hp12 : ∀ c, pdats 12 c = dat12 (VV37 m outs) c)
  (houts12 : ∀ c, outs 38 main_v231 c = (dat12 (VV37 m outs) c).arrAt 5 cfg12.N)

include hp12 in
/-- Input window 0's array ends as entered: no window writes it, and it is not the result's reference. -/
theorem hF12_0 (c : Dev nD) : (pdats 12 c).arrAt 0 cfg12.N = VV38 m outs c (Pipeline.arrRef spec12 0) := by
  rw [hp12 c]
  refine ((dat12 (VV37 m outs) c).arrAt_in 0 rfl _).trans ((A_eq12 (VV37 m outs) c 0).trans ?_)
  exact (Function.update_of_ne (StableHlo.devRef_ne_of_ne (by decide)) _ _).symm

include hp12 in
/-- Input window 1's array ends as entered: no window writes it, and it is not the result's reference. -/
theorem hF12_1 (c : Dev nD) : (pdats 12 c).arrAt 1 cfg12.N = VV38 m outs c (Pipeline.arrRef spec12 1) := by
  rw [hp12 c]
  refine ((dat12 (VV37 m outs) c).arrAt_in 1 rfl _).trans ((A_eq12 (VV37 m outs) c 1).trans ?_)
  exact (Function.update_of_ne (StableHlo.devRef_ne_of_ne (by decide)) _ _).symm

include hp12 in
/-- Input window 2's array ends as entered: no window writes it, and it is not the result's reference. -/
theorem hF12_2 (c : Dev nD) : (pdats 12 c).arrAt 2 cfg12.N = VV38 m outs c (Pipeline.arrRef spec12 2) := by
  rw [hp12 c]
  refine ((dat12 (VV37 m outs) c).arrAt_in 2 rfl _).trans ((A_eq12 (VV37 m outs) c 2).trans ?_)
  exact (Function.update_of_ne (StableHlo.devRef_ne_of_ne (by decide)) _ _).symm

include hp12 in
/-- Input window 3's array ends as entered: no window writes it, and it is not the result's reference. -/
theorem hF12_3 (c : Dev nD) : (pdats 12 c).arrAt 3 cfg12.N = VV38 m outs c (Pipeline.arrRef spec12 3) := by
  rw [hp12 c]
  refine ((dat12 (VV37 m outs) c).arrAt_in 3 rfl _).trans ((A_eq12 (VV37 m outs) c 3).trans ?_)
  exact (Function.update_of_ne (StableHlo.devRef_ne_of_ne (by decide)) _ _).symm

include hp12 in
/-- Input window 4's array ends as entered: no window writes it, and it is not the result's reference. -/
theorem hF12_4 (c : Dev nD) : (pdats 12 c).arrAt 4 cfg12.N = VV38 m outs c (Pipeline.arrRef spec12 4) := by
  rw [hp12 c]
  refine ((dat12 (VV37 m outs) c).arrAt_in 4 rfl _).trans ((A_eq12 (VV37 m outs) c 4).trans ?_)
  exact (Function.update_of_ne (StableHlo.devRef_ne_of_ne (by decide)) _ _).symm

include hp12 houts12 in
/-- The result's array ends at what the write-backs leave, which is what `outs` names. -/
theorem hF12_5 (c : Dev nD) : (pdats 12 c).arrAt 5 cfg12.N = VV38 m outs c (Pipeline.arrRef spec12 5) := by
  rw [hp12 c, ← houts12 c]
  exact (Function.update_self (Proc.devRef (τ := τ) .tc main_v231) (outs 38 main_v231 c) (V37 m outs c)).symm

include hp12 houts12 in
theorem hF12 (c : Dev nD) : ∀ w : Fin cfg12.W, (pdats 12 c).arrAt w cfg12.N = VV38 m outs c (Pipeline.arrRef spec12 w)
  | ⟨0, _⟩ => hF12_0 m outs pdats hp12 c
  | ⟨1, _⟩ => hF12_1 m outs pdats hp12 c
  | ⟨2, _⟩ => hF12_2 m outs pdats hp12 c
  | ⟨3, _⟩ => hF12_3 m outs pdats hp12 c
  | ⟨4, _⟩ => hF12_4 m outs pdats hp12 c
  | ⟨5, _⟩ => hF12_5 m outs pdats hp12 houts12 c

/-- Off the region's arrays the exit contents are the entry contents: only `main_v231` is updated, and it is
    window 5's array. -/
theorem hrest12 (c : Dev nD) : ∀ b, b ∉ Finset.univ.image (Pipeline.arrRef spec12) → VV38 m outs c b = VV37 m outs c b :=
  fun b hb => Function.update_of_ne
    (fun e => hb (Finset.mem_image.mpr ⟨5, Finset.mem_univ _, (Proc.devRef_injective _ e).symm⟩)) _ _

end Exit

/-! ## The region as a segment -/

section Record
variable (hp12 : ∀ c, pdats 12 c = dat12 (VV37 m outs) c)
  (houts12 : ∀ c, outs 38 main_v231 c = (dat12 (VV37 m outs) c).arrAt 5 cfg12.N)

-- a library lemma stated over the pinned configuration `pin pcs a p` is applied to the printed one: unification has
-- to unfold plain definitions in a metavariable's type
set_option backward.isDefEq.respectTransparency.types false in
/-- Region 12 over the thread state "every unscoped buffer at the boundary's contents, beside `R`". Entry: the
    arrays are split out of the unscoped buffers at the entry contents; the generator register goes into the
    invariant; nothing is owed; the kernel has no semaphore of its own. Exit: the arrays are put back at the exit
    contents (`hF12`, `hrest12`) and the register comes back. -/
def reg12 : RegionSeg (pcfgs (F := F)) adm pdats () defs₀ 𝒱₀ L lv 12 where
  win := launch12.win.to₀
  block_pos := launch12.block_pos
  stage_whole := launch12.stage_whole
  K := PEmpty
  osem k := k.elim
  ho := Pipeline.OwnSemFacts.none _
  hbody c := by rw [hp12 c]; exact (body_obligation12 (VV37 m outs) c).loose
  hwaits := Pipeline.hwaits_of_owed_zero _ _ _ _ L lv 12 fun c t => pd12_owed m outs pdats hp12 c t
  pre c := iprop(StableHlo.held (c : Thread nD τ) (Pipeline.ucRefs τ sig) (V37 m outs c) ∗ R c)
  post c := iprop(StableHlo.held (c : Thread nD τ) (Pipeline.ucRefs τ sig) (V38 m outs c) ∗ R c)
  X c := iprop(∃ r, prngReg c r)
  Y c := iprop(∃ r, prngReg c r)
  Z c := Pipeline.unscopedRest (Ix := Unit) (Name := ℕ) (U := UR sig nD τ) (Lvl := ℕ) spec12 c (VV37 m outs c)
  hentry c := by
    rw [Pipeline.ownSems0_none]
    have hsplit := Pipeline.arrays_of_unscopedBufs (p := 12) (pcfgs (F := F)) adm pdats launch12.win launch12.arr_whole c
      ((pdats 12 c).share_full fun w => pd12_q m outs pdats hp12 c w) (VV37 m outs c) fun w => pd12_A m outs pdats hp12 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd12_owed m outs pdats hp12 c]
      icases HO with ⟨%W, HO⟩; iexists W; isplitr; · ipureintro; exact fun x _ => Or.inl (by rw [pd12_recorded m outs pdats hp12 c]; exact Set.mem_univ x)
      iexact HO
    isplitl [Hp]; · iexact Hp
    iexact Hrest
  hin c := by
    rw [pd12_Φ m outs pdats hp12 c 0]; unfold Pipeline.ΦA
    iintro ⟨Hp, -, Hr⟩
    isplitl [Hr]; · iexact Hr
    iexact Hp
  hout c := by
    rw [Pipeline.ownSems0_none, pd12_Φ m outs pdats hp12 c (Fin.last _)]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c pdats ((pdats 12 c).share_full fun w => pd12_q m outs pdats hp12 c w)
      (VV37 m outs c) (VV38 m outs c) ((pdats 12 c).arrAt · cfg12.N) (hF12 m outs pdats hp12 houts12 c) (hrest12 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd12_owed m outs pdats hp12 c]
    icases HO with ⟨%W, -, HO⟩; iexists W; iexact HO

/-- The record is entered from the conditional frame's thread state before the region (with the rest state `R`), -/
theorem hpre12 (c : Dev nD) :
    iprop(StableHlo.held (c : Thread nD τ) (Pipeline.ucRefs τ sig) (V37 m outs c) ∗ R (F := F) c)
      ⊢ (reg12 m outs pdats hp12 houts12).pre c := .rfl

/-- and left at the one after it. -/
theorem hpost12 (c : Dev nD) :
    (reg12 m outs pdats hp12 houts12).post c
      ⊢ iprop(StableHlo.held (c : Thread nD τ) (Pipeline.ucRefs τ sig) (V38 m outs c) ∗ R (F := F) c) := .rfl

end Record

end Cert.Kernel.Frame12

end
-- ==== Proof.KRegion13Body.lean ====
/- Region 13 of the word-level kernel program (custom_call 13: a 64 → 64 matmul, plus a bias row, plus a second
   operand added elementwise): the class-A half of its frame, stated at a parameter `V` — the TensorCore's buffer
   contents when the region is entered. For each of the five windows its block at a grid point, the contents the body
   leaves in the output window's buffer as a function of the four input blocks, the body's triple, the pipeline's
   proof data and the library's body obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame13

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 13 is entered
variable (V : (c : Dev nD) → (b : Ref sig .tc) → Buf (Elt F) ((c : Thread nD τ).loc b))

/-! ## The blocks of the five windows -/

/-- The block of window `w` at grid point `t`: the window's rectangle at `t` read off the window's array as the
    region finds it. Window 0 is rows `5000 t … 5000 t + 4999` of the [100000,64] left operand, window 1 the whole
    [64,64] weight, window 2 the whole [1,64] bias row, window 3 the same rows of the [100000,64] operand that is
    added, window 4 the same rows of the [100000,64] result. -/
def iblk13 (c : Dev nD) (w : Fin cfg13.W) (t : Fin cfg13.N) :
    ((cfg13.win w).xblock (cfg13.grid.coords t)).Idx → Elt F (cfg13.win w).elt :=
  ((cfg13.win w).blk t).view.read (Elt F) (V c (Pipeline.arrRef spec13 w))

/-- An input window whose body leaves its block where it is: whatever proof data has the entry contents as the
    window's array and the block as what the body leaves, the staging buffer the body is handed at `t` holds the block
    at `t` — it was fetched at `t`, or the window's index has not moved since it was. Window 0, the row block of
    the left operand (fetched at every point). -/
theorem before13_0_of {c : Dev nD} (dat : Dat τ (Elt F) Unit ℕ (UR sig nD τ) ℕ cfg13 c)
    (hA : dat.A 0 = V c (Pipeline.arrRef spec13 0)) (hafter : ∀ t, dat.after 0 t = iblk13 V c 0 t)
    (t : Fin cfg13.N) (d) : dat.before 0 t d = iblk13 V c 0 t := by
  refine (dat.before_in_eq_fetched 0 rfl (fun _ => rfl) (fun _ _ _ => rfl) (fun t => ?_) t d).trans ?_
  · rw [hafter]; unfold Dat.blockOf iblk13; rw [hA]; try rfl
  · unfold Dat.fetched Dat.blockOf iblk13; rw [hA]; try rfl

/-- Window 1, the weight (fetched once; its index is constant): the same statement. -/
theorem before13_1_of {c : Dev nD} (dat : Dat τ (Elt F) Unit ℕ (UR sig nD τ) ℕ cfg13 c)
    (hA : dat.A 1 = V c (Pipeline.arrRef spec13 1)) (hafter : ∀ t, dat.after 1 t = iblk13 V c 1 t)
    (t : Fin cfg13.N) (d) : dat.before 1 t d = iblk13 V c 1 t := by
  refine (dat.before_in_eq_fetched 1 rfl (fun _ => rfl) (fun _ _ _ => rfl) (fun t => ?_) t d).trans ?_
  · rw [hafter]; unfold Dat.blockOf iblk13; rw [hA]; try rfl
  · unfold Dat.fetched Dat.blockOf iblk13; rw [hA]; try rfl

/-- Window 2, the bias row (fetched once; its index is constant): the same statement. -/
theorem before13_2_of {c : Dev nD} (dat : Dat τ (Elt F) Unit ℕ (UR sig nD τ) ℕ cfg13 c)
    (hA : dat.A 2 = V c (Pipeline.arrRef spec13 2)) (hafter : ∀ t, dat.after 2 t = iblk13 V c 2 t)
    (t : Fin cfg13.N) (d) : dat.before 2 t d = iblk13 V c 2 t := by
  refine (dat.before_in_eq_fetched 2 rfl (fun _ => rfl) (fun _ _ _ => rfl) (fun t => ?_) t d).trans ?_
  · rw [hafter]; unfold Dat.blockOf iblk13; rw [hA]; try rfl
  · unfold Dat.fetched Dat.blockOf iblk13; rw [hA]; try rfl

/-- Window 3, the row block of the operand that is added (fetched at every point): the same statement. -/
theorem before13_3_of {c : Dev nD} (dat : Dat τ (Elt F) Unit ℕ (UR sig nD τ) ℕ cfg13 c)
    (hA : dat.A 3 = V c (Pipeline.arrRef spec13 3)) (hafter : ∀ t, dat.after 3 t = iblk13 V c 3 t)
    (t : Fin cfg13.N) (d) : dat.before 3 t d = iblk13 V c 3 t := by
  refine (dat.before_in_eq_fetched 3 rfl (fun _ => rfl) (fun _ _ _ => rfl) (fun t => ?_) t d).trans ?_
  · rw [hafter]; unfold Dat.blockOf iblk13; rw [hA]; try rfl
  · unfold Dat.fetched Dat.blockOf iblk13; rw [hA]; try rfl

/-! ## The rectangles the body reads and writes: each staging buffer whole -/

abbrev r13_a : Rect S5000x64 := Rect.unit (s := S5000x64) ![0, 0] S5000x64.size inb_S5000x64_S5000x64_0_0
abbrev r13_w : Rect S64x64 := Rect.unit (s := S64x64) ![0, 0] S64x64.size inb_S64x64_S64x64_0_0
abbrev r13_b : Rect S1x64 := Rect.unit (s := S1x64) ![0, 0] S1x64.size inb_S1x64_S1x64_0_0

/-! ## What the body leaves in the output window's buffer -/

/-- The output staging buffer after the body, from the four input blocks: its one store, of the payload
    `x0 · x1 + (the row x2 on every row) + x3` of the four whole-buffer loads, written as a one-piece list. -/
def out13_4 (x0 : Vec F S5000x64 .f32) (x1 : Vec F S64x64 .f32) (x2 : Vec F S1x64 .f32) (x3 : Vec F S5000x64 .f32) :
    Vec F S5000x64 .f32 :=
  View.canon [⟨r13_a, k13_pay1 (View.ld x0 r13_a) (View.ld x1 r13_w) (View.ld x2 r13_b) (View.ld x3 r13_a)⟩]

/-- The one store is of the whole buffer, so every index of the buffer lies in it. -/
theorem cover13_4 (p : Vec F S5000x64 .f32) (y : S5000x64.Idx) :
    ∃ pc ∈ ([⟨r13_a, p⟩] : List (View.Piece (Elt F) S5000x64 .f32)), y ∈ pc.1.set :=
  View.cover_of_tiled [⟨r13_a, p⟩] S5000x64.size (by rfl) y

/-! ## The body's triple -/

set_option maxHeartbeats 1000000 in
/-- The body at any grid coordinate `i`, on whole staging memrefs: the four inputs' read `x0 … x3`, the output's
    holds anything. It runs to the continuation with the inputs' as they were and the output's at
    `out13_4 x0 x1 x2 x3`. (The body also loads the output buffer before storing to it; the loaded value is not used.) -/
theorem sound_kernel13 (c : Dev nD) (E : Set ℕ) (i : grid13.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out13_4 x0 x1 x2 x3)) -∗ K ⟨⟩))
      ⊢ wp frame (wpE (defs₀ (F := F)) Variants.none c none) E
          (cc13__linear_extra_kernel i arg1 harg1 arg2 harg2 arg3 harg3 arg4 harg4 arg5 harg5) K := by
  simp only [cc13__linear_extra_kernel_eq_skeleton]; unfold cc13__linear_extra_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover13_4 _)

/-! ## The proof data of the pipeline -/

/-- Region 13's proof data on core `c`: the five arrays as the region finds them; after the body at point `t` the four
    inputs' buffers at their blocks and the output's at `out13_4` of those blocks; the invariant the scoped rest and the
    generator register, untouched (`Pipeline.ΦA`); full shares; nothing owed. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 (iblk13 V c 0 t) (iblk13 V c 1 t) (iblk13 V c 2 t) (iblk13 V c 3 t)
  Φ _ := Pipeline.ΦA spec13 c
  q _ := fullShare
  owed _ := 0

/-- The proof data's arrays are the entry contents (the structure projected; `V` is never unfolded). -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) :
    (dat13 V c).after 4 t = out13_4 (iblk13 V c 0 t) (iblk13 V c 1 t) (iblk13 V c 2 t) (iblk13 V c 3 t) := by
  dsimp only [dat13]

/-- What the body is handed in each input's buffer: its block. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d

/-! ## The body obligation -/

/-- What the body is called with at point `t`: the invariant, the core's dues, and each window's current staging
    buffer at what the pipeline put there. -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- What it returns: the same, each buffer at the proof data's `after`. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t))

/-- The body at a point: the inputs' buffers hold their blocks, so the body's triple applies at those blocks; the
    invariant and the dues are not read. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3]
  rw [show (dat13 V c).Φ t.succ = (dat13 V c).Φ t.castSucc from rfl,
    show (dat13 V c).owesAt () t.succ = (dat13 V c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  iapply (sound_kernel13 c Set.univ _ _ _ _ _ _ _ _ _ _ _
    (iblk13 V c 0 t) (iblk13 V c 1 t) (iblk13 V c 2 t) (iblk13 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the proof data, at every point. -/
theorem body_obligation13 (c : Dev nD) : BodyObligation (dat13 (F := F) V c) (defs₀ (F := F)) Variants.none () Set.univ := fun t => by
  rw [bigSep_W13, bigSep_W13]
  exact sound_body13 V c t

end Cert.Kernel.Frame13

end
-- ==== Proof.KRegion13.lean ====
/- Region 13 of the word-level kernel program (custom_call 13) as a segment of @main: entered from every unscoped
   buffer at the contents before it, left with the result array `main_v238` at what the pipeline's write-backs leave
   and every other buffer as entered. Stated over an arbitrary family of proof data whose member at pipeline 13 is
   this region's (`hp13`), and over any `outs` that names the result's final contents (`houts13`). -/
import proofs.«146189_j40922448396571_2_alg».proof.Proof.KRegions
import proofs.«146189_j40922448396571_2_alg».proof.Proof.KRegion13Body

set_option maxRecDepth 16384

noncomputable section

namespace Cert.Kernel.Frame13

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry. -/
abbrev VV39 : (c : Dev nD) → (b : Ref sig .tc) → Buf (Elt F) ((c : Thread nD τ).loc b) := fun c b => V39 m outs c b
/-- Exit: the same with `main_v238` at `outs 40 main_v238`. -/
abbrev VV40 : (c : Dev nD) → (b : Ref sig .tc) → Buf (Elt F) ((c : Thread nD τ).loc b) := fun c b => V40 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 13 -/

variable (pdats : (p : Fin 17) → (c : Dev nD) → Dat τ (Elt F) Unit ℕ (UR sig nD τ) ℕ (cfgs p) c)

section Pinned
variable (hp13 : ∀ c, pdats 13 c = dat13 (VV39 m outs) c)
include hp13

theorem pd13_q (c : Dev nD) (w : Fin cfg13.W) : (pdats 13 c).q w = fullShare := by rw [hp13 c]; rfl
theorem pd13_owed (c : Dev nD) (t) : (pdats 13 c).owed t = 0 := by rw [hp13 c]; rfl
theorem pd13_A (c : Dev nD) (w : Fin cfg13.W) : (pdats 13 c).A w = VV39 m outs c (Pipeline.arrRef spec13 w) := by
  rw [hp13 c]; exact A_eq13 (VV39 m outs) c w
theorem pd13_Φ (c : Dev nD) (t) : (pdats 13 c).Φ t = Pipeline.ΦA spec13 c := by rw [hp13 c]; rfl
theorem pd13_recorded (c : Dev nD) (t) : (pdats 13 c).recorded t = Set.univ := by rw [hp13 c]; rfl

end Pinned

/-! ## The exit contents, at the region's arrays and off them -/

section Exit
variable (hp13 : ∀ c, pdats 13 c = dat13 (VV39 m outs) c)
  (houts13 : ∀ c, outs 40 main_v238 c = (dat13 (VV39 m outs) c).arrAt 4 cfg13.N)

include hp13 in
/-- Input window 0's array ends as entered: no window writes it, and it is not the result's reference. -/
theorem hF13_0 (c : Dev nD) : (pdats 13 c).arrAt 0 cfg13.N = VV40 m outs c (Pipeline.arrRef spec13 0) := by
  rw [hp13 c]
  refine ((dat13 (VV39 m outs) c).arrAt_in 0 rfl _).trans ((A_eq13 (VV39 m outs) c 0).trans ?_)
  exact (Function.update_of_ne (StableHlo.devRef_ne_of_ne (by decide)) _ _).symm

include hp13 in
/-- Input window 1's array ends as entered: no window writes it, and it is not the result's reference. -/
theorem hF13_1 (c : Dev nD) : (pdats 13 c).arrAt 1 cfg13.N = VV40 m outs c (Pipeline.arrRef spec13 1) := by
  rw [hp13 c]
  refine ((dat13 (VV39 m outs) c).arrAt_in 1 rfl _).trans ((A_eq13 (VV39 m outs) c 1).trans ?_)
  exact (Function.update_of_ne (StableHlo.devRef_ne_of_ne (by decide)) _ _).symm

include hp13 in
/-- Input window 2's array ends as entered: no window writes it, and it is not the result's reference. -/
theorem hF13_2 (c : Dev nD) : (pdats 13 c).arrAt 2 cfg13.N = VV40 m outs c (Pipeline.arrRef spec13 2) := by
  rw [hp13 c]
  refine ((dat13 (VV39 m outs) c).arrAt_in 2 rfl _).trans ((A_eq13 (VV39 m outs) c 2).trans ?_)
  exact (Function.update_of_ne (StableHlo.devRef_ne_of_ne (by decide)) _ _).symm

include hp13 in
/-- Input window 3's array ends as entered: no window writes it, and it is not the result's reference. -/
theorem hF13_3 (c : Dev nD) : (pdats 13 c).arrAt 3 cfg13.N = VV40 m outs c (Pipeline.arrRef spec13 3) := by
  rw [hp13 c]
  refine ((dat13 (VV39 m outs) c).arrAt_in 3 rfl _).trans ((A_eq13 (VV39 m outs) c 3).trans ?_)
  exact (Function.update_of_ne (StableHlo.devRef_ne_of_ne (by decide)) _ _).symm

include hp13 houts13 in
/-- The result's array ends at what the write-backs leave, which is what `outs` names. -/
theorem hF13_4 (c : Dev nD) : (pdats 13 c).arrAt 4 cfg13.N = VV40 m outs c (Pipeline.arrRef spec13 4) := by
  rw [hp13 c, ← houts13 c]
  exact (Function.update_self (Proc.devRef (τ := τ) .tc main_v238) (outs 40 main_v238 c) (V39 m outs c)).symm

include hp13 houts13 in
theorem hF13 (c : Dev nD) : ∀ w : Fin cfg13.W, (pdats 13 c).arrAt w cfg13.N = VV40 m outs c (Pipeline.arrRef spec13 w)
  | ⟨0, _⟩ => hF13_0 m outs pdats hp13 c
  | ⟨1, _⟩ => hF13_1 m outs pdats hp13 c
  | ⟨2, _⟩ => hF13_2 m outs pdats hp13 c
  | ⟨3, _⟩ => hF13_3 m outs pdats hp13 c
  | ⟨4, _⟩ => hF13_4 m outs pdats hp13 houts13 c

/-- Off the region's arrays the exit contents are the entry contents: only `main_v238` is updated, and it is
    window 4's array. -/
theorem hrest13 (c : Dev nD) : ∀ b, b ∉ Finset.univ.image (Pipeline.arrRef spec13) → VV40 m outs c b = VV39 m outs c b :=
  fun b hb => Function.update_of_ne
    (fun e => hb (Finset.mem_image.mpr ⟨4, Finset.mem_univ _, (Proc.devRef_injective _ e).symm⟩)) _ _

end Exit

/-! ## The region as a segment -/

section Record
variable (hp13 : ∀ c, pdats 13 c = dat13 (VV39 m outs) c)
  (houts13 : ∀ c, outs 40 main_v238 c = (dat13 (VV39 m outs) c).arrAt 4 cfg13.N)

-- a library lemma stated over the pinned configuration `pin pcs a p` is applied to the printed one: unification has
-- to unfold plain definitions in a metavariable's type
set_option backward.isDefEq.respectTransparency.types false in
/-- Region 13 over the thread state "every unscoped buffer at the boundary's contents, beside `R`". Entry: the
    arrays are split out of the unscoped buffers at the entry contents; the generator register goes into the
    invariant; nothing is owed; the kernel has no semaphore of its own. Exit: the arrays are put back at the exit
    contents (`hF13`, `hrest13`) and the register comes back. -/
def reg13 : RegionSeg (pcfgs (F := F)) adm pdats () defs₀ 𝒱₀ L lv 13 where
  win := launch13.win.to₀
  block_pos := launch13.block_pos
  stage_whole := launch13.stage_whole
  K := PEmpty
  osem k := k.elim
  ho := Pipeline.OwnSemFacts.none _
  hbody c := by rw [hp13 c]; exact (body_obligation13 (VV39 m outs) c).loose
  hwaits := Pipeline.hwaits_of_owed_zero _ _ _ _ L lv 13 fun c t => pd13_owed m outs pdats hp13 c t
  pre c := iprop(StableHlo.held (c : Thread nD τ) (Pipeline.ucRefs τ sig) (V39 m outs c) ∗ R c)
  post c := iprop(StableHlo.held (c : Thread nD τ) (Pipeline.ucRefs τ sig) (V40 m outs c) ∗ R c)
  X c := iprop(∃ r, prngReg c r)
  Y c := iprop(∃ r, prngReg c r)
  Z c := Pipeline.unscopedRest (Ix := Unit) (Name := ℕ) (U := UR sig nD τ) (Lvl := ℕ) spec13 c (VV39 m outs c)
  hentry c := by
    rw [Pipeline.ownSems0_none]
    have hsplit := Pipeline.arrays_of_unscopedBufs (p := 13) (pcfgs (F := F)) adm pdats launch13.win launch13.arr_whole c
      ((pdats 13 c).share_full fun w => pd13_q m outs pdats hp13 c w) (VV39 m outs c) fun w => pd13_A m outs pdats hp13 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd13_owed m outs pdats hp13 c]
      icases HO with ⟨%W, HO⟩; iexists W; isplitr; · ipureintro; exact fun x _ => Or.inl (by rw [pd13_recorded m outs pdats hp13 c]; exact Set.mem_univ x)
      iexact HO
    isplitl [Hp]; · iexact Hp
    iexact Hrest
  hin c := by
    rw [pd13_Φ m outs pdats hp13 c 0]; unfold Pipeline.ΦA
    iintro ⟨Hp, -, Hr⟩
    isplitl [Hr]; · iexact Hr
    iexact Hp
  hout c := by
    rw [Pipeline.ownSems0_none, pd13_Φ m outs pdats hp13 c (Fin.last _)]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c pdats ((pdats 13 c).share_full fun w => pd13_q m outs pdats hp13 c w)
      (VV39 m outs c) (VV40 m outs c) ((pdats 13 c).arrAt · cfg13.N) (hF13 m outs pdats hp13 houts13 c) (hrest13 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd13_owed m outs pdats hp13 c]
    icases HO with ⟨%W, -, HO⟩; iexists W; iexact HO

/-- The record is entered from the conditional frame's thread state before the region (with the rest state `R`), -/
theorem hpre13 (c : Dev nD) :
    iprop(StableHlo.held (c : Thread nD τ) (Pipeline.ucRefs τ sig) (V39 m outs c) ∗ R (F := F) c)
      ⊢ (reg13 m outs pdats hp13 houts13).pre c := .rfl

/-- and left at the one after it. -/
theorem hpost13 (c : Dev nD) :
    (reg13 m outs pdats hp13 houts13).post c
      ⊢ iprop(StableHlo.held (c : Thread nD τ) (Pipeline.ucRefs τ sig) (V40 m outs c) ∗ R (F := F) c) := .rfl

end Record

end Cert.Kernel.Frame13

end
-- ==== Proof.KRegion14Body.lean ====
/- Region 14 of the word-level kernel program (custom_call 14, the batch-norm affine map followed by the maximum with zero, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame14

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 14 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk14 (c : Dev nD) (w : Fin cfg14.W) (t : Fin cfg14.N) :
    ((cfg14.win w).xblock (cfg14.grid.coords t)).Idx → Elt F (cfg14.win w).elt :=
  ((cfg14.win w).blk t).view.read (Elt F) (V c (Pipeline.arrRef spec14 w))

/-- The row-block operand (window 0): for any proof data whose array for it is the entry contents and whose body
    leaves the block where it is, the staging buffer handed to the body at `t` holds the block at `t` — fetched at
    `t`, or still there from an earlier point because the block index has not moved since. -/
theorem before14_0_of {c : Dev nD} (dat : Dat τ (Elt F) Unit ℕ (UR sig nD τ) ℕ cfg14 c)
    (hA : dat.A 0 = V c (Pipeline.arrRef spec14 0)) (hafter : ∀ t, dat.after 0 t = iblk14 V c 0 t)
    (t : Fin cfg14.N) (d) : dat.before 0 t d = iblk14 V c 0 t := by
  refine (dat.before_in_eq_fetched 0 rfl (fun _ => rfl) (fun _ _ _ => rfl) (fun t => ?_) t d).trans ?_
  · rw [hafter]; unfold Dat.blockOf iblk14; rw [hA]; try rfl
  · unfold Dat.fetched Dat.blockOf iblk14; rw [hA]; try rfl

/-- The mean row (window 1; one block, fetched at the first point only, its index constant): the same. -/
theorem before14_1_of {c : Dev nD} (dat : Dat τ (Elt F) Unit ℕ (UR sig nD τ) ℕ cfg14 c)
    (hA : dat.A 1 = V c (Pipeline.arrRef spec14 1)) (hafter : ∀ t, dat.after 1 t = iblk14 V c 1 t)
    (t : Fin cfg14.N) (d) : dat.before 1 t d = iblk14 V c 1 t := by
  refine (dat.before_in_eq_fetched 1 rfl (fun _ => rfl) (fun _ _ _ => rfl) (fun t => ?_) t d).trans ?_
  · rw [hafter]; unfold Dat.blockOf iblk14; rw [hA]; try rfl
  · unfold Dat.fetched Dat.blockOf iblk14; rw [hA]; try rfl

/-- The variance row (window 2; one block, fetched at the first point only, its index constant): the same. -/
theorem before14_2_of {c : Dev nD} (dat : Dat τ (Elt F) Unit ℕ (UR sig nD τ) ℕ cfg14 c)
    (hA : dat.A 2 = V c (Pipeline.arrRef spec14 2)) (hafter : ∀ t, dat.after 2 t = iblk14 V c 2 t)
    (t : Fin cfg14.N) (d) : dat.before 2 t d = iblk14 V c 2 t := by
  refine (dat.before_in_eq_fetched 2 rfl (fun _ => rfl) (fun _ _ _ => rfl) (fun t => ?_) t d).trans ?_
  · rw [hafter]; unfold Dat.blockOf iblk14; rw [hA]; try rfl
  · unfold Dat.fetched Dat.blockOf iblk14; rw [hA]; try rfl

/-- The scale row (window 3; one block, fetched at the first point only, its index constant): the same. -/
theorem before14_3_of {c : Dev nD} (dat : Dat τ (Elt F) Unit ℕ (UR sig nD τ) ℕ cfg14 c)
    (hA : dat.A 3 = V c (Pipeline.arrRef spec14 3)) (hafter : ∀ t, dat.after 3 t = iblk14 V c 3 t)
    (t : Fin cfg14.N) (d) : dat.before 3 t d = iblk14 V c 3 t := by
  refine (dat.before_in_eq_fetched 3 rfl (fun _ => rfl) (fun _ _ _ => rfl) (fun t => ?_) t d).trans ?_
  · rw [hafter]; unfold Dat.blockOf iblk14; rw [hA]; try rfl
  · unfold Dat.fetched Dat.blockOf iblk14; rw [hA]; try rfl

/-- The shift row (window 4; one block, fetched at the first point only, its index constant): the same. -/
theorem before14_4_of {c : Dev nD} (dat : Dat τ (Elt F) Unit ℕ (UR sig nD τ) ℕ cfg14 c)
    (hA : dat.A 4 = V c (Pipeline.arrRef spec14 4)) (hafter : ∀ t, dat.after 4 t = iblk14 V c 4 t)
    (t : Fin cfg14.N) (d) : dat.before 4 t d = iblk14 V c 4 t := by
  refine (dat.before_in_eq_fetched 4 rfl (fun _ => rfl) (fun _ _ _ => rfl) (fun t => ?_) t d).trans ?_
  · rw [hafter]; unfold Dat.blockOf iblk14; rw [hA]; try rfl
  · unfold Dat.fetched Dat.blockOf iblk14; rw [hA]; try rfl

/-! ## The rectangles the body reads and writes: each staging buffer whole -/

abbrev r14_big : Rect S5000x128 := Rect.unit (s := S5000x128) ![0, 0] S5000x128.size inb_S5000x128_S5000x128_0_0
abbrev r14_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `max ((x − mean) · rsqrt (var + ε) · gamma + beta) 0` of the five whole-buffer loads, written as a one-piece list.
    (The body loads the variance before the mean, which is the order of the payload's arguments.) -/
def out14_5 (x0 : Vec F S5000x128 .f32) (x1 x2 x3 x4 : Vec F S1x128 .f32) : Vec F S5000x128 .f32 :=
  View.canon [⟨r14_big, k14_pay1 (View.ld x0 r14_big) (View.ld x2 r14_row) (View.ld x1 r14_row)
    (View.ld x3 r14_row) (View.ld x4 r14_row)⟩]

/-- The one store is of the whole buffer, so every index of the buffer lies in it. -/
theorem cover14_5 (p : Vec F S5000x128 .f32) (y : S5000x128.Idx) :
    ∃ pc ∈ ([⟨r14_big, p⟩] : List (View.Piece (Elt F) S5000x128 .f32)), y ∈ pc.1.set :=
  View.cover_of_tiled [⟨r14_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out14_5 x0 x1 x2 x3 x4`. (The body also loads the output buffer before storing to it; the loaded value is
    not used.) -/
theorem sound_kernel14 (c : Dev nD) (E : Set ℕ) (i : grid14.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out14_5 x0 x1 x2 x3 x4)) -∗ K ⟨⟩))
      ⊢ wp frame (wpE (defs₀ (F := F)) Variants.none c none) E
          (cc14__bn_relu_kernel i arg1 harg1 arg2 harg2 arg3 harg3 arg4 harg4 arg5 harg5 arg6 harg6) K := by
  simp only [cc14__bn_relu_kernel_eq_skeleton]; unfold cc14__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-! ## The proof data of the pipeline -/

/-- Region 14's proof data on core `c`: the six arrays as the region finds them; after the body at point `t` the
    five inputs' buffers at their blocks and the output's at `out14_5` of those blocks; the invariant the scoped rest
    and the generator register, untouched (`Pipeline.ΦA`); full shares; nothing owed. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the entry contents (the structure projected; `V` is never unfolded). -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) :
    (dat14 V c).after 5 t
      = out14_5 (iblk14 V c 0 t) (iblk14 V c 1 t) (iblk14 V c 2 t) (iblk14 V c 3 t) (iblk14 V c 4 t) := by
  dsimp only [dat14]

/-- What the body is handed in each input's buffer: its block. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation -/

/-- What the body is called with at point `t`: the invariant, the core's dues, and each window's current staging
    buffer at what the pipeline put there. -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- What it returns: the same, each buffer at the proof data's `after`. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at a point: the inputs' buffers hold their blocks, so the body's triple applies at those blocks; the
    invariant and the dues are not read. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ _ _ _ _ _ _ _ _ _ _ _ _ _
    (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation14 (c : Dev nD) : BodyObligation (dat14 (F := F) V c) (defs₀ (F := F)) Variants.none () Set.univ := fun t => by
  rw [bigSep_W14, bigSep_W14]
  exact sound_body14 V c t

end Cert.Kernel.Frame14

end
-- ==== Proof.KRegion14.lean ====
/- Region 14 of the word-level kernel program (custom_call 14) as a segment of @main: entered from every unscoped
   buffer at the contents before it, left with the result array `main_v261` at what the pipeline's write-backs leave
   and every other buffer as entered. Stated over an arbitrary family of proof data whose member at pipeline 14 is
   this region's (`hp14`), and over any `outs` that names the result's final contents (`houts14`). -/
import proofs.«146189_j40922448396571_2_alg».proof.Proof.KRegions
import proofs.«146189_j40922448396571_2_alg».proof.Proof.KRegion14Body

set_option maxRecDepth 16384

noncomputable section

namespace Cert.Kernel.Frame14

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry. -/
abbrev VV43 : (c : Dev nD) → (b : Ref sig .tc) → Buf (Elt F) ((c : Thread nD τ).loc b) := fun c b => V43 m outs c b
/-- Exit: the same with `main_v261` at `outs 44 main_v261`. -/
abbrev VV44 : (c : Dev nD) → (b : Ref sig .tc) → Buf (Elt F) ((c : Thread nD τ).loc b) := fun c b => V44 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 14 -/

variable (pdats : (p : Fin 17) → (c : Dev nD) → Dat τ (Elt F) Unit ℕ (UR sig nD τ) ℕ (cfgs p) c)

section Pinned
variable (hp14 : ∀ c, pdats 14 c = dat14 (VV43 m outs) c)
include hp14

theorem pd14_q (c : Dev nD) (w : Fin cfg14.W) : (pdats 14 c).q w = fullShare := by rw [hp14 c]; rfl
theorem pd14_owed (c : Dev nD) (t) : (pdats 14 c).owed t = 0 := by rw [hp14 c]; rfl
theorem pd14_A (c : Dev nD) (w : Fin cfg14.W) : (pdats 14 c).A w = VV43 m outs c (Pipeline.arrRef spec14 w) := by
  rw [hp14 c]; exact A_eq14 (VV43 m outs) c w
theorem pd14_Φ (c : Dev nD) (t) : (pdats 14 c).Φ t = Pipeline.ΦA spec14 c := by rw [hp14 c]; rfl
theorem pd14_recorded (c : Dev nD) (t) : (pdats 14 c).recorded t = Set.univ := by rw [hp14 c]; rfl

end Pinned

/-! ## The exit contents, at the region's arrays and off them -/

section Exit
variable (hp14 : ∀ c, pdats 14 c = dat14 (VV43 m outs) c)
  (houts14 : ∀ c, outs 44 main_v261 c = (dat14 (VV43 m outs) c).arrAt 5 cfg14.N)

include hp14 in
/-- Input window 0's array ends as entered: no window writes it, and it is not the result's reference. -/
theorem hF14_0 (c : Dev nD) : (pdats 14 c).arrAt 0 cfg14.N = VV44 m outs c (Pipeline.arrRef spec14 0) := by
  rw [hp14 c]
  refine ((dat14 (VV43 m outs) c).arrAt_in 0 rfl _).trans ((A_eq14 (VV43 m outs) c 0).trans ?_)
  exact (Function.update_of_ne (StableHlo.devRef_ne_of_ne (by decide)) _ _).symm

include hp14 in
/-- Input window 1's array ends as entered: no window writes it, and it is not the result's reference. -/
theorem hF14_1 (c : Dev nD) : (pdats 14 c).arrAt 1 cfg14.N = VV44 m outs c (Pipeline.arrRef spec14 1) := by
  rw [hp14 c]
  refine ((dat14 (VV43 m outs) c).arrAt_in 1 rfl _).trans ((A_eq14 (VV43 m outs) c 1).trans ?_)
  exact (Function.update_of_ne (StableHlo.devRef_ne_of_ne (by decide)) _ _).symm

include hp14 in
/-- Input window 2's array ends as entered: no window writes it, and it is not the result's reference. -/
theorem hF14_2 (c : Dev nD) : (pdats 14 c).arrAt 2 cfg14.N = VV44 m outs c (Pipeline.arrRef spec14 2) := by
  rw [hp14 c]
  refine ((dat14 (VV43 m outs) c).arrAt_in 2 rfl _).trans ((A_eq14 (VV43 m outs) c 2).trans ?_)
  exact (Function.update_of_ne (StableHlo.devRef_ne_of_ne (by decide)) _ _).symm

include hp14 in
/-- Input window 3's array ends as entered: no window writes it, and it is not the result's reference. -/
theorem hF14_3 (c : Dev nD) : (pdats 14 c).arrAt 3 cfg14.N = VV44 m outs c (Pipeline.arrRef spec14 3) := by
  rw [hp14 c]
  refine ((dat14 (VV43 m outs) c).arrAt_in 3 rfl _).trans ((A_eq14 (VV43 m outs) c 3).trans ?_)
  exact (Function.update_of_ne (StableHlo.devRef_ne_of_ne (by decide)) _ _).symm

include hp14 in
/-- Input window 4's array ends as entered: no window writes it, and it is not the result's reference. -/
theorem hF14_4 (c : Dev nD) : (pdats 14 c).arrAt 4 cfg14.N = VV44 m outs c (Pipeline.arrRef spec14 4) := by
  rw [hp14 c]
  refine ((dat14 (VV43 m outs) c).arrAt_in 4 rfl _).trans ((A_eq14 (VV43 m outs) c 4).trans ?_)
  exact (Function.update_of_ne (StableHlo.devRef_ne_of_ne (by decide)) _ _).symm

include hp14 houts14 in
/-- The result's array ends at what the write-backs leave, which is what `outs` names. -/
theorem hF14_5 (c : Dev nD) : (pdats 14 c).arrAt 5 cfg14.N = VV44 m outs c (Pipeline.arrRef spec14 5) := by
  rw [hp14 c, ← houts14 c]
  exact (Function.update_self (Proc.devRef (τ := τ) .tc main_v261) (outs 44 main_v261 c) (V43 m outs c)).symm

include hp14 houts14 in
theorem hF14 (c : Dev nD) : ∀ w : Fin cfg14.W, (pdats 14 c).arrAt w cfg14.N = VV44 m outs c (Pipeline.arrRef spec14 w)
  | ⟨0, _⟩ => hF14_0 m outs pdats hp14 c
  | ⟨1, _⟩ => hF14_1 m outs pdats hp14 c
  | ⟨2, _⟩ => hF14_2 m outs pdats hp14 c
  | ⟨3, _⟩ => hF14_3 m outs pdats hp14 c
  | ⟨4, _⟩ => hF14_4 m outs pdats hp14 c
  | ⟨5, _⟩ => hF14_5 m outs pdats hp14 houts14 c

/-- Off the region's arrays the exit contents are the entry contents: only `main_v261` is updated, and it is
    window 5's array. -/
theorem hrest14 (c : Dev nD) : ∀ b, b ∉ Finset.univ.image (Pipeline.arrRef spec14) → VV44 m outs c b = VV43 m outs c b :=
  fun b hb => Function.update_of_ne
    (fun e => hb (Finset.mem_image.mpr ⟨5, Finset.mem_univ _, (Proc.devRef_injective _ e).symm⟩)) _ _

end Exit

/-! ## The region as a segment -/

section Record
variable (hp14 : ∀ c, pdats 14 c = dat14 (VV43 m outs) c)
  (houts14 : ∀ c, outs 44 main_v261 c = (dat14 (VV43 m outs) c).arrAt 5 cfg14.N)

-- a library lemma stated over the pinned configuration `pin pcs a p` is applied to the printed one: unification has
-- to unfold plain definitions in a metavariable's type
set_option backward.isDefEq.respectTransparency.types false in
/-- Region 14 over the thread state "every unscoped buffer at the boundary's contents, beside `R`". Entry: the
    arrays are split out of the unscoped buffers at the entry contents; the generator register goes into the
    invariant; nothing is owed; the kernel has no semaphore of its own. Exit: the arrays are put back at the exit
    contents (`hF14`, `hrest14`) and the register comes back. -/
def reg14 : RegionSeg (pcfgs (F := F)) adm pdats () defs₀ 𝒱₀ L lv 14 where
  win := launch14.win.to₀
  block_pos := launch14.block_pos
  stage_whole := launch14.stage_whole
  K := PEmpty
  osem k := k.elim
  ho := Pipeline.OwnSemFacts.none _
  hbody c := by rw [hp14 c]; exact (body_obligation14 (VV43 m outs) c).loose
  hwaits := Pipeline.hwaits_of_owed_zero _ _ _ _ L lv 14 fun c t => pd14_owed m outs pdats hp14 c t
  pre c := iprop(StableHlo.held (c : Thread nD τ) (Pipeline.ucRefs τ sig) (V43 m outs c) ∗ R c)
  post c := iprop(StableHlo.held (c : Thread nD τ) (Pipeline.ucRefs τ sig) (V44 m outs c) ∗ R c)
  X c := iprop(∃ r, prngReg c r)
  Y c := iprop(∃ r, prngReg c r)
  Z c := Pipeline.unscopedRest (Ix := Unit) (Name := ℕ) (U := UR sig nD τ) (Lvl := ℕ) spec14 c (VV43 m outs c)
  hentry c := by
    rw [Pipeline.ownSems0_none]
    have hsplit := Pipeline.arrays_of_unscopedBufs (p := 14) (pcfgs (F := F)) adm pdats launch14.win launch14.arr_whole c
      ((pdats 14 c).share_full fun w => pd14_q m outs pdats hp14 c w) (VV43 m outs c) fun w => pd14_A m outs pdats hp14 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd14_owed m outs pdats hp14 c]
      icases HO with ⟨%W, HO⟩; iexists W; isplitr; · ipureintro; exact fun x _ => Or.inl (by rw [pd14_recorded m outs pdats hp14 c]; exact Set.mem_univ x)
      iexact HO
    isplitl [Hp]; · iexact Hp
    iexact Hrest
  hin c := by
    rw [pd14_Φ m outs pdats hp14 c 0]; unfold Pipeline.ΦA
    iintro ⟨Hp, -, Hr⟩
    isplitl [Hr]; · iexact Hr
    iexact Hp
  hout c := by
    rw [Pipeline.ownSems0_none, pd14_Φ m outs pdats hp14 c (Fin.last _)]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c pdats ((pdats 14 c).share_full fun w => pd14_q m outs pdats hp14 c w)
      (VV43 m outs c) (VV44 m outs c) ((pdats 14 c).arrAt · cfg14.N) (hF14 m outs pdats hp14 houts14 c) (hrest14 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd14_owed m outs pdats hp14 c]
    icases HO with ⟨%W, -, HO⟩; iexists W; iexact HO

/-- The record is entered from the conditional frame's thread state before the region (with the rest state `R`), -/
theorem hpre14 (c : Dev nD) :
    iprop(StableHlo.held (c : Thread nD τ) (Pipeline.ucRefs τ sig) (V43 m outs c) ∗ R (F := F) c)
      ⊢ (reg14 m outs pdats hp14 houts14).pre c := .rfl

/-- and left at the one after it. -/
theorem hpost14 (c : Dev nD) :
    (reg14 m outs pdats hp14 houts14).post c
      ⊢ iprop(StableHlo.held (c : Thread nD τ) (Pipeline.ucRefs τ sig) (V44 m outs c) ∗ R (F := F) c) := .rfl

end Record

end Cert.Kernel.Frame14

end
-- ==== Proof.KRegion15Body.lean ====
/- Region 15 of the word-level kernel program (custom_call 15: a 64 → 64 matmul plus a bias row): the class-A half
   of its frame, stated at a parameter `V` — the TensorCore's buffer contents when the region is entered. For each of
   the four windows its block at a grid point, the contents the body leaves in the output window's buffer as a
   function of the three input blocks, the body's triple, the pipeline's proof data and the library's body
   obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame15

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 15 is entered
variable (V : (c : Dev nD) → (b : Ref sig .tc) → Buf (Elt F) ((c : Thread nD τ).loc b))

/-! ## The blocks of the four windows -/

/-- The block of window `w` at grid point `t`: the window's rectangle at `t` read off the window's array as the
    region finds it. Window 0 is rows `5000 t … 5000 t + 4999` of the [100000,64] left operand, window 1 the whole
    [64,64] weight, window 2 the whole [1,64] bias row, window 3 the same rows of the [100000,64] result. -/
def iblk15 (c : Dev nD) (w : Fin cfg15.W) (t : Fin cfg15.N) :
    ((cfg15.win w).xblock (cfg15.grid.coords t)).Idx → Elt F (cfg15.win w).elt :=
  ((cfg15.win w).blk t).view.read (Elt F) (V c (Pipeline.arrRef spec15 w))

/-- An input window whose body leaves its block where it is: whatever proof data has the entry contents as the
    window's array and the block as what the body leaves, the staging buffer the body is handed at `t` holds the block
    at `t` — it was fetched at `t`, or the window's index has not moved since it was. Window 0, the row block of
    the left operand (fetched at every point). -/
theorem before15_0_of {c : Dev nD} (dat : Dat τ (Elt F) Unit ℕ (UR sig nD τ) ℕ cfg15 c)
    (hA : dat.A 0 = V c (Pipeline.arrRef spec15 0)) (hafter : ∀ t, dat.after 0 t = iblk15 V c 0 t)
    (t : Fin cfg15.N) (d) : dat.before 0 t d = iblk15 V c 0 t := by
  refine (dat.before_in_eq_fetched 0 rfl (fun _ => rfl) (fun _ _ _ => rfl) (fun t => ?_) t d).trans ?_
  · rw [hafter]; unfold Dat.blockOf iblk15; rw [hA]; try rfl
  · unfold Dat.fetched Dat.blockOf iblk15; rw [hA]; try rfl

/-- Window 1, the weight (fetched once; its index is constant): the same statement. -/
theorem before15_1_of {c : Dev nD} (dat : Dat τ (Elt F) Unit ℕ (UR sig nD τ) ℕ cfg15 c)
    (hA : dat.A 1 = V c (Pipeline.arrRef spec15 1)) (hafter : ∀ t, dat.after 1 t = iblk15 V c 1 t)
    (t : Fin cfg15.N) (d) : dat.before 1 t d = iblk15 V c 1 t := by
  refine (dat.before_in_eq_fetched 1 rfl (fun _ => rfl) (fun _ _ _ => rfl) (fun t => ?_) t d).trans ?_
  · rw [hafter]; unfold Dat.blockOf iblk15; rw [hA]; try rfl
  · unfold Dat.fetched Dat.blockOf iblk15; rw [hA]; try rfl

/-- Window 2, the bias row (fetched once; its index is constant): the same statement. -/
theorem before15_2_of {c : Dev nD} (dat : Dat τ (Elt F) Unit ℕ (UR sig nD τ) ℕ cfg15 c)
    (hA : dat.A 2 = V c (Pipeline.arrRef spec15 2)) (hafter : ∀ t, dat.after 2 t = iblk15 V c 2 t)
    (t : Fin cfg15.N) (d) : dat.before 2 t d = iblk15 V c 2 t := by
  refine (dat.before_in_eq_fetched 2 rfl (fun _ => rfl) (fun _ _ _ => rfl) (fun t => ?_) t d).trans ?_
  · rw [hafter]; unfold Dat.blockOf iblk15; rw [hA]; try rfl
  · unfold Dat.fetched Dat.blockOf iblk15; rw [hA]; try rfl

/-! ## The rectangles the body reads and writes: each staging buffer whole -/

abbrev r15_a : Rect S5000x64 := Rect.unit (s := S5000x64) ![0, 0] S5000x64.size inb_S5000x64_S5000x64_0_0
abbrev r15_w : Rect S64x64 := Rect.unit (s := S64x64) ![0, 0] S64x64.size inb_S64x64_S64x64_0_0
abbrev r15_b : Rect S1x64 := Rect.unit (s := S1x64) ![0, 0] S1x64.size inb_S1x64_S1x64_0_0

/-! ## What the body leaves in the output window's buffer -/

/-- The output staging buffer after the body, from the three input blocks: its one store, of the payload
    `x0 · x1 + (the row x2 on every row)` of the three whole-buffer loads, written as a one-piece list. -/
def out15_3 (x0 : Vec F S5000x64 .f32) (x1 : Vec F S64x64 .f32) (x2 : Vec F S1x64 .f32) : Vec F S5000x64 .f32 :=
  View.canon [⟨r15_a, k15_pay1 (View.ld x0 r15_a) (View.ld x1 r15_w) (View.ld x2 r15_b)⟩]

/-- The one store is of the whole buffer, so every index of the buffer lies in it. -/
theorem cover15_3 (p : Vec F S5000x64 .f32) (y : S5000x64.Idx) :
    ∃ pc ∈ ([⟨r15_a, p⟩] : List (View.Piece (Elt F) S5000x64 .f32)), y ∈ pc.1.set :=
  View.cover_of_tiled [⟨r15_a, p⟩] S5000x64.size (by rfl) y

/-! ## The body's triple -/

set_option maxHeartbeats 1000000 in
/-- The body at any grid coordinate `i`, on whole staging memrefs: the three inputs' read `x0 x1 x2`, the output's
    holds anything. It runs to the continuation with the inputs' as they were and the output's at
    `out15_3 x0 x1 x2`. (The body also loads the output buffer before storing to it; the loaded value is not used.) -/
theorem sound_kernel15 (c : Dev nD) (E : Set ℕ) (i : grid15.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (x0 : Vec F S5000x64 .f32) (x1 : Vec F S64x64 .f32) (x2 : Vec F S1x64 .f32)
    (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out15_3 x0 x1 x2)) -∗ K ⟨⟩))
      ⊢ wp frame (wpE (defs₀ (F := F)) Variants.none c none) E
          (cc15__linear_kernel i arg1 harg1 arg2 harg2 arg3 harg3 arg4 harg4) K := by
  simp only [cc15__linear_kernel_eq_skeleton]; unfold cc15__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

/-! ## The proof data of the pipeline -/

/-- Region 15's proof data on core `c`: the four arrays as the region finds them; after the body at point `t` the three
    inputs' buffers at their blocks and the output's at `out15_3` of those blocks; the invariant the scoped rest and the
    generator register, untouched (`Pipeline.ΦA`); full shares; nothing owed. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

/-- The proof data's arrays are the entry contents (the structure projected; `V` is never unfolded). -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) :
    (dat15 V c).after 3 t = out15_3 (iblk15 V c 0 t) (iblk15 V c 1 t) (iblk15 V c 2 t) := by
  dsimp only [dat15]

/-- What the body is handed in each input's buffer: its block. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation -/

/-- What the body is called with at point `t`: the invariant, the core's dues, and each window's current staging
    buffer at what the pipeline put there. -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

/-- What it returns: the same, each buffer at the proof data's `after`. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

/-- The body at a point: the inputs' buffers hold their blocks, so the body's triple applies at those blocks; the
    invariant and the dues are not read. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ _ _ _ _ _ _ _ _ _
    (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the proof data, at every point. -/
theorem body_obligation15 (c : Dev nD) : BodyObligation (dat15 (F := F) V c) (defs₀ (F := F)) Variants.none () Set.univ := fun t => by
  rw [bigSep_W15, bigSep_W15]
  exact sound_body15 V c t

end Cert.Kernel.Frame15

end
-- ==== Proof.KRegion15.lean ====
/- Region 15 of the word-level kernel program (custom_call 15) as a segment of @main: entered from every unscoped
   buffer at the contents before it, left with the result array `main_v264` at what the pipeline's write-backs leave
   and every other buffer as entered. Stated over an arbitrary family of proof data whose member at pipeline 15 is
   this region's (`hp15`), and over any `outs` that names the result's final contents (`houts15`). -/
import proofs.«146189_j40922448396571_2_alg».proof.Proof.KRegions
import proofs.«146189_j40922448396571_2_alg».proof.Proof.KRegion15Body

set_option maxRecDepth 16384

noncomputable section

namespace Cert.Kernel.Frame15

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry. -/
abbrev VV45 : (c : Dev nD) → (b : Ref sig .tc) → Buf (Elt F) ((c : Thread nD τ).loc b) := fun c b => V45 m outs c b
/-- Exit: the same with `main_v264` at `outs 46 main_v264`. -/
abbrev VV46 : (c : Dev nD) → (b : Ref sig .tc) → Buf (Elt F) ((c : Thread nD τ).loc b) := fun c b => V46 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 15 -/

variable (pdats : (p : Fin 17) → (c : Dev nD) → Dat τ (Elt F) Unit ℕ (UR sig nD τ) ℕ (cfgs p) c)

section Pinned
variable (hp15 : ∀ c, pdats 15 c = dat15 (VV45 m outs) c)
include hp15

theorem pd15_q (c : Dev nD) (w : Fin cfg15.W) : (pdats 15 c).q w = fullShare := by rw [hp15 c]; rfl
theorem pd15_owed (c : Dev nD) (t) : (pdats 15 c).owed t = 0 := by rw [hp15 c]; rfl
theorem pd15_A (c : Dev nD) (w : Fin cfg15.W) : (pdats 15 c).A w = VV45 m outs c (Pipeline.arrRef spec15 w) := by
  rw [hp15 c]; exact A_eq15 (VV45 m outs) c w
theorem pd15_Φ (c : Dev nD) (t) : (pdats 15 c).Φ t = Pipeline.ΦA spec15 c := by rw [hp15 c]; rfl
theorem pd15_recorded (c : Dev nD) (t) : (pdats 15 c).recorded t = Set.univ := by rw [hp15 c]; rfl

end Pinned

/-! ## The exit contents, at the region's arrays and off them -/

section Exit
variable (hp15 : ∀ c, pdats 15 c = dat15 (VV45 m outs) c)
  (houts15 : ∀ c, outs 46 main_v264 c = (dat15 (VV45 m outs) c).arrAt 3 cfg15.N)

include hp15 in
/-- Input window 0's array ends as entered: no window writes it, and it is not the result's reference. -/
theorem hF15_0 (c : Dev nD) : (pdats 15 c).arrAt 0 cfg15.N = VV46 m outs c (Pipeline.arrRef spec15 0) := by
  rw [hp15 c]
  refine ((dat15 (VV45 m outs) c).arrAt_in 0 rfl _).trans ((A_eq15 (VV45 m outs) c 0).trans ?_)
  exact (Function.update_of_ne (StableHlo.devRef_ne_of_ne (by decide)) _ _).symm

include hp15 in
/-- Input window 1's array ends as entered: no window writes it, and it is not the result's reference. -/
theorem hF15_1 (c : Dev nD) : (pdats 15 c).arrAt 1 cfg15.N = VV46 m outs c (Pipeline.arrRef spec15 1) := by
  rw [hp15 c]
  refine ((dat15 (VV45 m outs) c).arrAt_in 1 rfl _).trans ((A_eq15 (VV45 m outs) c 1).trans ?_)
  exact (Function.update_of_ne (StableHlo.devRef_ne_of_ne (by decide)) _ _).symm

include hp15 in
/-- Input window 2's array ends as entered: no window writes it, and it is not the result's reference. -/
theorem hF15_2 (c : Dev nD) : (pdats 15 c).arrAt 2 cfg15.N = VV46 m outs c (Pipeline.arrRef spec15 2) := by
  rw [hp15 c]
  refine ((dat15 (VV45 m outs) c).arrAt_in 2 rfl _).trans ((A_eq15 (VV45 m outs) c 2).trans ?_)
  exact (Function.update_of_ne (StableHlo.devRef_ne_of_ne (by decide)) _ _).symm

include hp15 houts15 in
/-- The result's array ends at what the write-backs leave, which is what `outs` names. -/
theorem hF15_3 (c : Dev nD) : (pdats 15 c).arrAt 3 cfg15.N = VV46 m outs c (Pipeline.arrRef spec15 3) := by
  rw [hp15 c, ← houts15 c]
  exact (Function.update_self (Proc.devRef (τ := τ) .tc main_v264) (outs 46 main_v264 c) (V45 m outs c)).symm

include hp15 houts15 in
theorem hF15 (c : Dev nD) : ∀ w : Fin cfg15.W, (pdats 15 c).arrAt w cfg15.N = VV46 m outs c (Pipeline.arrRef spec15 w)
  | ⟨0, _⟩ => hF15_0 m outs pdats hp15 c
  | ⟨1, _⟩ => hF15_1 m outs pdats hp15 c
  | ⟨2, _⟩ => hF15_2 m outs pdats hp15 c
  | ⟨3, _⟩ => hF15_3 m outs pdats hp15 houts15 c

/-- Off the region's arrays the exit contents are the entry contents: only `main_v264` is updated, and it is
    window 3's array. -/
theorem hrest15 (c : Dev nD) : ∀ b, b ∉ Finset.univ.image (Pipeline.arrRef spec15) → VV46 m outs c b = VV45 m outs c b :=
  fun b hb => Function.update_of_ne
    (fun e => hb (Finset.mem_image.mpr ⟨3, Finset.mem_univ _, (Proc.devRef_injective _ e).symm⟩)) _ _

end Exit

/-! ## The region as a segment -/

section Record
variable (hp15 : ∀ c, pdats 15 c = dat15 (VV45 m outs) c)
  (houts15 : ∀ c, outs 46 main_v264 c = (dat15 (VV45 m outs) c).arrAt 3 cfg15.N)

-- a library lemma stated over the pinned configuration `pin pcs a p` is applied to the printed one: unification has
-- to unfold plain definitions in a metavariable's type
set_option backward.isDefEq.respectTransparency.types false in
/-- Region 15 over the thread state "every unscoped buffer at the boundary's contents, beside `R`". Entry: the
    arrays are split out of the unscoped buffers at the entry contents; the generator register goes into the
    invariant; nothing is owed; the kernel has no semaphore of its own. Exit: the arrays are put back at the exit
    contents (`hF15`, `hrest15`) and the register comes back. -/
def reg15 : RegionSeg (pcfgs (F := F)) adm pdats () defs₀ 𝒱₀ L lv 15 where
  win := launch15.win.to₀
  block_pos := launch15.block_pos
  stage_whole := launch15.stage_whole
  K := PEmpty
  osem k := k.elim
  ho := Pipeline.OwnSemFacts.none _
  hbody c := by rw [hp15 c]; exact (body_obligation15 (VV45 m outs) c).loose
  hwaits := Pipeline.hwaits_of_owed_zero _ _ _ _ L lv 15 fun c t => pd15_owed m outs pdats hp15 c t
  pre c := iprop(StableHlo.held (c : Thread nD τ) (Pipeline.ucRefs τ sig) (V45 m outs c) ∗ R c)
  post c := iprop(StableHlo.held (c : Thread nD τ) (Pipeline.ucRefs τ sig) (V46 m outs c) ∗ R c)
  X c := iprop(∃ r, prngReg c r)
  Y c := iprop(∃ r, prngReg c r)
  Z c := Pipeline.unscopedRest (Ix := Unit) (Name := ℕ) (U := UR sig nD τ) (Lvl := ℕ) spec15 c (VV45 m outs c)
  hentry c := by
    rw [Pipeline.ownSems0_none]
    have hsplit := Pipeline.arrays_of_unscopedBufs (p := 15) (pcfgs (F := F)) adm pdats launch15.win launch15.arr_whole c
      ((pdats 15 c).share_full fun w => pd15_q m outs pdats hp15 c w) (VV45 m outs c) fun w => pd15_A m outs pdats hp15 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd15_owed m outs pdats hp15 c]
      icases HO with ⟨%W, HO⟩; iexists W; isplitr; · ipureintro; exact fun x _ => Or.inl (by rw [pd15_recorded m outs pdats hp15 c]; exact Set.mem_univ x)
      iexact HO
    isplitl [Hp]; · iexact Hp
    iexact Hrest
  hin c := by
    rw [pd15_Φ m outs pdats hp15 c 0]; unfold Pipeline.ΦA
    iintro ⟨Hp, -, Hr⟩
    isplitl [Hr]; · iexact Hr
    iexact Hp
  hout c := by
    rw [Pipeline.ownSems0_none, pd15_Φ m outs pdats hp15 c (Fin.last _)]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c pdats ((pdats 15 c).share_full fun w => pd15_q m outs pdats hp15 c w)
      (VV45 m outs c) (VV46 m outs c) ((pdats 15 c).arrAt · cfg15.N) (hF15 m outs pdats hp15 houts15 c) (hrest15 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd15_owed m outs pdats hp15 c]
    icases HO with ⟨%W, -, HO⟩; iexists W; iexact HO

/-- The record is entered from the conditional frame's thread state before the region (with the rest state `R`), -/
theorem hpre15 (c : Dev nD) :
    iprop(StableHlo.held (c : Thread nD τ) (Pipeline.ucRefs τ sig) (V45 m outs c) ∗ R (F := F) c)
      ⊢ (reg15 m outs pdats hp15 houts15).pre c := .rfl

/-- and left at the one after it. -/
theorem hpost15 (c : Dev nD) :
    (reg15 m outs pdats hp15 houts15).post c
      ⊢ iprop(StableHlo.held (c : Thread nD τ) (Pipeline.ucRefs τ sig) (V46 m outs c) ∗ R (F := F) c) := .rfl

end Record

end Cert.Kernel.Frame15

end
-- ==== Proof.KRegion16Body.lean ====
/- Region 16 of the word-level kernel program (custom_call 16, the batch-norm affine map, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.Kernel.Launch
import proofs.«146189_j40922448396571_2_alg».proof.Proof.Gen.Kernel.Skeleton
import proofs.«146189_j40922448396571_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame16

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 16 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk16 (c : Dev nD) (w : Fin cfg16.W) (t : Fin cfg16.N) :
    ((cfg16.win w).xblock (cfg16.grid.coords t)).Idx → Elt F (cfg16.win w).elt :=
  ((cfg16.win w).blk t).view.read (Elt F) (V c (Pipeline.arrRef spec16 w))

/-- The row-block operand (window 0): for any proof data whose array for it is the entry contents and whose body
    leaves the block where it is, the staging buffer handed to the body at `t` holds the block at `t` — fetched at
    `t`, or still there from an earlier point because the block index has not moved since. -/
theorem before16_0_of {c : Dev nD} (dat : Dat τ (Elt F) Unit ℕ (UR sig nD τ) ℕ cfg16 c)
    (hA : dat.A 0 = V c (Pipeline.arrRef spec16 0)) (hafter : ∀ t, dat.after 0 t = iblk16 V c 0 t)
    (t : Fin cfg16.N) (d) : dat.before 0 t d = iblk16 V c 0 t := by
  refine (dat.before_in_eq_fetched 0 rfl (fun _ => rfl) (fun _ _ _ => rfl) (fun t => ?_) t d).trans ?_
  · rw [hafter]; unfold Dat.blockOf iblk16; rw [hA]; try rfl
  · unfold Dat.fetched Dat.blockOf iblk16; rw [hA]; try rfl

/-- The mean row (window 1; one block, fetched at the first point only, its index constant): the same. -/
theorem before16_1_of {c : Dev nD} (dat : Dat τ (Elt F) Unit ℕ (UR sig nD τ) ℕ cfg16 c)
    (hA : dat.A 1 = V c (Pipeline.arrRef spec16 1)) (hafter : ∀ t, dat.after 1 t = iblk16 V c 1 t)
    (t : Fin cfg16.N) (d) : dat.before 1 t d = iblk16 V c 1 t := by
  refine (dat.before_in_eq_fetched 1 rfl (fun _ => rfl) (fun _ _ _ => rfl) (fun t => ?_) t d).trans ?_
  · rw [hafter]; unfold Dat.blockOf iblk16; rw [hA]; try rfl
  · unfold Dat.fetched Dat.blockOf iblk16; rw [hA]; try rfl

/-- The variance row (window 2; one block, fetched at the first point only, its index constant): the same. -/
theorem before16_2_of {c : Dev nD} (dat : Dat τ (Elt F) Unit ℕ (UR sig nD τ) ℕ cfg16 c)
    (hA : dat.A 2 = V c (Pipeline.arrRef spec16 2)) (hafter : ∀ t, dat.after 2 t = iblk16 V c 2 t)
    (t : Fin cfg16.N) (d) : dat.before 2 t d = iblk16 V c 2 t := by
  refine (dat.before_in_eq_fetched 2 rfl (fun _ => rfl) (fun _ _ _ => rfl) (fun t => ?_) t d).trans ?_
  · rw [hafter]; unfold Dat.blockOf iblk16; rw [hA]; try rfl
  · unfold Dat.fetched Dat.blockOf iblk16; rw [hA]; try rfl

/-- The scale row (window 3; one block, fetched at the first point only, its index constant): the same. -/
theorem before16_3_of {c : Dev nD} (dat : Dat τ (Elt F) Unit ℕ (UR sig nD τ) ℕ cfg16 c)
    (hA : dat.A 3 = V c (Pipeline.arrRef spec16 3)) (hafter : ∀ t, dat.after 3 t = iblk16 V c 3 t)
    (t : Fin cfg16.N) (d) : dat.before 3 t d = iblk16 V c 3 t := by
  refine (dat.before_in_eq_fetched 3 rfl (fun _ => rfl) (fun _ _ _ => rfl) (fun t => ?_) t d).trans ?_
  · rw [hafter]; unfold Dat.blockOf iblk16; rw [hA]; try rfl
  · unfold Dat.fetched Dat.blockOf iblk16; rw [hA]; try rfl

/-- The shift row (window 4; one block, fetched at the first point only, its index constant): the same. -/
theorem before16_4_of {c : Dev nD} (dat : Dat τ (Elt F) Unit ℕ (UR sig nD τ) ℕ cfg16 c)
    (hA : dat.A 4 = V c (Pipeline.arrRef spec16 4)) (hafter : ∀ t, dat.after 4 t = iblk16 V c 4 t)
    (t : Fin cfg16.N) (d) : dat.before 4 t d = iblk16 V c 4 t := by
  refine (dat.before_in_eq_fetched 4 rfl (fun _ => rfl) (fun _ _ _ => rfl) (fun t => ?_) t d).trans ?_
  · rw [hafter]; unfold Dat.blockOf iblk16; rw [hA]; try rfl
  · unfold Dat.fetched Dat.blockOf iblk16; rw [hA]; try rfl

/-! ## The rectangles the body reads and writes: each staging buffer whole -/

abbrev r16_big : Rect S5000x128 := Rect.unit (s := S5000x128) ![0, 0] S5000x128.size inb_S5000x128_S5000x128_0_0
abbrev r16_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `(x − mean) · rsqrt (var + ε) · gamma + beta` of the five whole-buffer loads, written as a one-piece list.
    (The body loads the variance before the mean, which is the order of the payload's arguments.) -/
def out16_5 (x0 : Vec F S5000x128 .f32) (x1 x2 x3 x4 : Vec F S1x128 .f32) : Vec F S5000x128 .f32 :=
  View.canon [⟨r16_big, k16_pay1 (View.ld x0 r16_big) (View.ld x2 r16_row) (View.ld x1 r16_row)
    (View.ld x3 r16_row) (View.ld x4 r16_row)⟩]

/-- The one store is of the whole buffer, so every index of the buffer lies in it. -/
theorem cover16_5 (p : Vec F S5000x128 .f32) (y : S5000x128.Idx) :
    ∃ pc ∈ ([⟨r16_big, p⟩] : List (View.Piece (Elt F) S5000x128 .f32)), y ∈ pc.1.set :=
  View.cover_of_tiled [⟨r16_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out16_5 x0 x1 x2 x3 x4`. (The body also loads the output buffer before storing to it; the loaded value is
    not used.) -/
theorem sound_kernel16 (c : Dev nD) (E : Set ℕ) (i : grid16.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out16_5 x0 x1 x2 x3 x4)) -∗ K ⟨⟩))
      ⊢ wp frame (wpE (defs₀ (F := F)) Variants.none c none) E
          (cc16__bn_kernel i arg1 harg1 arg2 harg2 arg3 harg3 arg4 harg4 arg5 harg5 arg6 harg6) K := by
  simp only [cc16__bn_kernel_eq_skeleton]; unfold cc16__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover16_5 _)

/-! ## The proof data of the pipeline -/

/-- Region 16's proof data on core `c`: the six arrays as the region finds them; after the body at point `t` the
    five inputs' buffers at their blocks and the output's at `out16_5` of those blocks; the invariant the scoped rest
    and the generator register, untouched (`Pipeline.ΦA`); full shares; nothing owed. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => out16_5 (iblk16 V c 0 t) (iblk16 V c 1 t) (iblk16 V c 2 t) (iblk16 V c 3 t) (iblk16 V c 4 t)
  Φ _ := Pipeline.ΦA spec16 c
  q _ := fullShare
  owed _ := 0

/-- The proof data's arrays are the entry contents (the structure projected; `V` is never unfolded). -/
theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) :
    (dat16 V c).after 5 t
      = out16_5 (iblk16 V c 0 t) (iblk16 V c 1 t) (iblk16 V c 2 t) (iblk16 V c 3 t) (iblk16 V c 4 t) := by
  dsimp only [dat16]

/-- What the body is handed in each input's buffer: its block. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d

/-! ## The body obligation -/

/-- What the body is called with at point `t`: the invariant, the core's dues, and each window's current staging
    buffer at what the pipeline put there. -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d)))

/-- What it returns: the same, each buffer at the proof data's `after`. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t))

/-- The body at a point: the inputs' buffers hold their blocks, so the body's triple applies at those blocks; the
    invariant and the dues are not read. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4]
  rw [show (dat16 V c).Φ t.succ = (dat16 V c).Φ t.castSucc from rfl,
    show (dat16 V c).owesAt () t.succ = (dat16 V c).owesAt () t.castSucc from rfl,
    after16_0, after16_1, after16_2, after16_3, after16_4, after16_5]
  iintro ⟨HΦ, Ho, ⟨%d0, H0⟩, ⟨%d1, H1⟩, ⟨%d2, H2⟩, ⟨%d3, H3⟩, ⟨%d4, H4⟩, ⟨%d5, H5⟩⟩
  iapply (sound_kernel16 c Set.univ _ _ _ _ _ _ _ _ _ _ _ _ _
    (iblk16 V c 0 t) (iblk16 V c 1 t) (iblk16 V c 2 t) (iblk16 V c 3 t) (iblk16 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation16 (c : Dev nD) : BodyObligation (dat16 (F := F) V c) (defs₀ (F := F)) Variants.none () Set.univ := fun t => by
  rw [bigSep_W16, bigSep_W16]
  exact sound_body16 V c t

end Cert.Kernel.Frame16

end
-- ==== Proof.KRegion16.lean ====
/- Region 16 of the word-level kernel program (custom_call 16) as a segment of @main: entered from every unscoped
   buffer at the contents before it, left with the result array `main_v283` at what the pipeline's write-backs leave
   and every other buffer as entered. Stated over an arbitrary family of proof data whose member at pipeline 16 is
   this region's (`hp16`), and over any `outs` that names the result's final contents (`houts16`). -/
import proofs.«146189_j40922448396571_2_alg».proof.Proof.KRegions
import proofs.«146189_j40922448396571_2_alg».proof.Proof.KRegion16Body

set_option maxRecDepth 16384

noncomputable section

namespace Cert.Kernel.Frame16

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry. -/
abbrev VV49 : (c : Dev nD) → (b : Ref sig .tc) → Buf (Elt F) ((c : Thread nD τ).loc b) := fun c b => V49 m outs c b
/-- Exit: the same with `main_v283` at `outs 50 main_v283`. -/
abbrev VV50 : (c : Dev nD) → (b : Ref sig .tc) → Buf (Elt F) ((c : Thread nD τ).loc b) := fun c b => V50 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 16 -/

variable (pdats : (p : Fin 17) → (c : Dev nD) → Dat τ (Elt F) Unit ℕ (UR sig nD τ) ℕ (cfgs p) c)

section Pinned
variable (hp16 : ∀ c, pdats 16 c = dat16 (VV49 m outs) c)
include hp16

theorem pd16_q (c : Dev nD) (w : Fin cfg16.W) : (pdats 16 c).q w = fullShare := by rw [hp16 c]; rfl
theorem pd16_owed (c : Dev nD) (t) : (pdats 16 c).owed t = 0 := by rw [hp16 c]; rfl
theorem pd16_A (c : Dev nD) (w : Fin cfg16.W) : (pdats 16 c).A w = VV49 m outs c (Pipeline.arrRef spec16 w) := by
  rw [hp16 c]; exact A_eq16 (VV49 m outs) c w
theorem pd16_Φ (c : Dev nD) (t) : (pdats 16 c).Φ t = Pipeline.ΦA spec16 c := by rw [hp16 c]; rfl
theorem pd16_recorded (c : Dev nD) (t) : (pdats 16 c).recorded t = Set.univ := by rw [hp16 c]; rfl

end Pinned

/-! ## The exit contents, at the region's arrays and off them -/

section Exit
variable (hp16 : ∀ c, pdats 16 c = dat16 (VV49 m outs) c)
  (houts16 : ∀ c, outs 50 main_v283 c = (dat16 (VV49 m outs) c).arrAt 5 cfg16.N)

include hp16 in
/-- Input window 0's array ends as entered: no window writes it, and it is not the result's reference. -/
theorem hF16_0 (c : Dev nD) : (pdats 16 c).arrAt 0 cfg16.N = VV50 m outs c (Pipeline.arrRef spec16 0) := by
  rw [hp16 c]
  refine ((dat16 (VV49 m outs) c).arrAt_in 0 rfl _).trans ((A_eq16 (VV49 m outs) c 0).trans ?_)
  exact (Function.update_of_ne (StableHlo.devRef_ne_of_ne (by decide)) _ _).symm

include hp16 in
/-- Input window 1's array ends as entered: no window writes it, and it is not the result's reference. -/
theorem hF16_1 (c : Dev nD) : (pdats 16 c).arrAt 1 cfg16.N = VV50 m outs c (Pipeline.arrRef spec16 1) := by
  rw [hp16 c]
  refine ((dat16 (VV49 m outs) c).arrAt_in 1 rfl _).trans ((A_eq16 (VV49 m outs) c 1).trans ?_)
  exact (Function.update_of_ne (StableHlo.devRef_ne_of_ne (by decide)) _ _).symm

include hp16 in
/-- Input window 2's array ends as entered: no window writes it, and it is not the result's reference. -/
theorem hF16_2 (c : Dev nD) : (pdats 16 c).arrAt 2 cfg16.N = VV50 m outs c (Pipeline.arrRef spec16 2) := by
  rw [hp16 c]
  refine ((dat16 (VV49 m outs) c).arrAt_in 2 rfl _).trans ((A_eq16 (VV49 m outs) c 2).trans ?_)
  exact (Function.update_of_ne (StableHlo.devRef_ne_of_ne (by decide)) _ _).symm

include hp16 in
/-- Input window 3's array ends as entered: no window writes it, and it is not the result's reference. -/
theorem hF16_3 (c : Dev nD) : (pdats 16 c).arrAt 3 cfg16.N = VV50 m outs c (Pipeline.arrRef spec16 3) := by
  rw [hp16 c]
  refine ((dat16 (VV49 m outs) c).arrAt_in 3 rfl _).trans ((A_eq16 (VV49 m outs) c 3).trans ?_)
  exact (Function.update_of_ne (StableHlo.devRef_ne_of_ne (by decide)) _ _).symm

include hp16 in
/-- Input window 4's array ends as entered: no window writes it, and it is not the result's reference. -/
theorem hF16_4 (c : Dev nD) : (pdats 16 c).arrAt 4 cfg16.N = VV50 m outs c (Pipeline.arrRef spec16 4) := by
  rw [hp16 c]
  refine ((dat16 (VV49 m outs) c).arrAt_in 4 rfl _).trans ((A_eq16 (VV49 m outs) c 4).trans ?_)
  exact (Function.update_of_ne (StableHlo.devRef_ne_of_ne (by decide)) _ _).symm

include hp16 houts16 in
/-- The result's array ends at what the write-backs leave, which is what `outs` names. -/
theorem hF16_5 (c : Dev nD) : (pdats 16 c).arrAt 5 cfg16.N = VV50 m outs c (Pipeline.arrRef spec16 5) := by
  rw [hp16 c, ← houts16 c]
  exact (Function.update_self (Proc.devRef (τ := τ) .tc main_v283) (outs 50 main_v283 c) (V49 m outs c)).symm

include hp16 houts16 in
theorem hF16 (c : Dev nD) : ∀ w : Fin cfg16.W, (pdats 16 c).arrAt w cfg16.N = VV50 m outs c (Pipeline.arrRef spec16 w)
  | ⟨0, _⟩ => hF16_0 m outs pdats hp16 c
  | ⟨1, _⟩ => hF16_1 m outs pdats hp16 c
  | ⟨2, _⟩ => hF16_2 m outs pdats hp16 c
  | ⟨3, _⟩ => hF16_3 m outs pdats hp16 c
  | ⟨4, _⟩ => hF16_4 m outs pdats hp16 c
  | ⟨5, _⟩ => hF16_5 m outs pdats hp16 houts16 c

/-- Off the region's arrays the exit contents are the entry contents: only `main_v283` is updated, and it is
    window 5's array. -/
theorem hrest16 (c : Dev nD) : ∀ b, b ∉ Finset.univ.image (Pipeline.arrRef spec16) → VV50 m outs c b = VV49 m outs c b :=
  fun b hb => Function.update_of_ne
    (fun e => hb (Finset.mem_image.mpr ⟨5, Finset.mem_univ _, (Proc.devRef_injective _ e).symm⟩)) _ _

end Exit

/-! ## The region as a segment -/

section Record
variable (hp16 : ∀ c, pdats 16 c = dat16 (VV49 m outs) c)
  (houts16 : ∀ c, outs 50 main_v283 c = (dat16 (VV49 m outs) c).arrAt 5 cfg16.N)

-- a library lemma stated over the pinned configuration `pin pcs a p` is applied to the printed one: unification has
-- to unfold plain definitions in a metavariable's type
set_option backward.isDefEq.respectTransparency.types false in
/-- Region 16 over the thread state "every unscoped buffer at the boundary's contents, beside `R`". Entry: the
    arrays are split out of the unscoped buffers at the entry contents; the generator register goes into the
    invariant; nothing is owed; the kernel has no semaphore of its own. Exit: the arrays are put back at the exit
    contents (`hF16`, `hrest16`) and the register comes back. -/
def reg16 : RegionSeg (pcfgs (F := F)) adm pdats () defs₀ 𝒱₀ L lv 16 where
  win := launch16.win.to₀
  block_pos := launch16.block_pos
  stage_whole := launch16.stage_whole
  K := PEmpty
  osem k := k.elim
  ho := Pipeline.OwnSemFacts.none _
  hbody c := by rw [hp16 c]; exact (body_obligation16 (VV49 m outs) c).loose
  hwaits := Pipeline.hwaits_of_owed_zero _ _ _ _ L lv 16 fun c t => pd16_owed m outs pdats hp16 c t
  pre c := iprop(StableHlo.held (c : Thread nD τ) (Pipeline.ucRefs τ sig) (V49 m outs c) ∗ R c)
  post c := iprop(StableHlo.held (c : Thread nD τ) (Pipeline.ucRefs τ sig) (V50 m outs c) ∗ R c)
  X c := iprop(∃ r, prngReg c r)
  Y c := iprop(∃ r, prngReg c r)
  Z c := Pipeline.unscopedRest (Ix := Unit) (Name := ℕ) (U := UR sig nD τ) (Lvl := ℕ) spec16 c (VV49 m outs c)
  hentry c := by
    rw [Pipeline.ownSems0_none]
    have hsplit := Pipeline.arrays_of_unscopedBufs (p := 16) (pcfgs (F := F)) adm pdats launch16.win launch16.arr_whole c
      ((pdats 16 c).share_full fun w => pd16_q m outs pdats hp16 c w) (VV49 m outs c) fun w => pd16_A m outs pdats hp16 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd16_owed m outs pdats hp16 c]
      icases HO with ⟨%W, HO⟩; iexists W; isplitr; · ipureintro; exact fun x _ => Or.inl (by rw [pd16_recorded m outs pdats hp16 c]; exact Set.mem_univ x)
      iexact HO
    isplitl [Hp]; · iexact Hp
    iexact Hrest
  hin c := by
    rw [pd16_Φ m outs pdats hp16 c 0]; unfold Pipeline.ΦA
    iintro ⟨Hp, -, Hr⟩
    isplitl [Hr]; · iexact Hr
    iexact Hp
  hout c := by
    rw [Pipeline.ownSems0_none, pd16_Φ m outs pdats hp16 c (Fin.last _)]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c pdats ((pdats 16 c).share_full fun w => pd16_q m outs pdats hp16 c w)
      (VV49 m outs c) (VV50 m outs c) ((pdats 16 c).arrAt · cfg16.N) (hF16 m outs pdats hp16 houts16 c) (hrest16 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd16_owed m outs pdats hp16 c]
    icases HO with ⟨%W, -, HO⟩; iexists W; iexact HO

/-- The record is entered from the conditional frame's thread state before the region (with the rest state `R`), -/
theorem hpre16 (c : Dev nD) :
    iprop(StableHlo.held (c : Thread nD τ) (Pipeline.ucRefs τ sig) (V49 m outs c) ∗ R (F := F) c)
      ⊢ (reg16 m outs pdats hp16 houts16).pre c := .rfl

/-- and left at the one after it. -/
theorem hpost16 (c : Dev nD) :
    (reg16 m outs pdats hp16 houts16).post c
      ⊢ iprop(StableHlo.held (c : Thread nD τ) (Pipeline.ucRefs τ sig) (V50 m outs c) ∗ R (F := F) c) := .rfl

end Record

end Cert.Kernel.Frame16

end
-- ==== Proof.KAsm.lean ====
/- The frame of the word-level kernel, assembled. Between two items of @main core c holds every unscoped buffer at W_j c:
  the launch contents, then each host stretch's fold, then, after a region, its result buffer at what the region's
  write-backs leave (the proof data's array after the last grid point). The contents the conditional frame calls outs
  are read off that fold, so its valuations V_j are the W_j (e_j, one step per boundary), every pipeline's proof data
  sits at its region's entry contents (pdats, a literal match), and each region's record is pinned by two equations
  that hold by that construction.
-/
import proofs.«146189_j40922448396571_2_alg».proof.Proof.KFrameCond
import proofs.«146189_j40922448396571_2_alg».proof.Proof.KRegion0
import proofs.«146189_j40922448396571_2_alg».proof.Proof.KRegion1
import proofs.«146189_j40922448396571_2_alg».proof.Proof.KRegion2
import proofs.«146189_j40922448396571_2_alg».proof.Proof.KRegion3
import proofs.«146189_j40922448396571_2_alg».proof.Proof.KRegion4
import proofs.«146189_j40922448396571_2_alg».proof.Proof.KRegion5
import proofs.«146189_j40922448396571_2_alg».proof.Proof.KRegion6
import proofs.«146189_j40922448396571_2_alg».proof.Proof.KRegion7
import proofs.«146189_j40922448396571_2_alg».proof.Proof.KRegion8
import proofs.«146189_j40922448396571_2_alg».proof.Proof.KRegion9
import proofs.«146189_j40922448396571_2_alg».proof.Proof.KRegion10
import proofs.«146189_j40922448396571_2_alg».proof.Proof.KRegion11
import proofs.«146189_j40922448396571_2_alg».proof.Proof.KRegion12
import proofs.«146189_j40922448396571_2_alg».proof.Proof.KRegion13
import proofs.«146189_j40922448396571_2_alg».proof.Proof.KRegion14
import proofs.«146189_j40922448396571_2_alg».proof.Proof.KRegion15
import proofs.«146189_j40922448396571_2_alg».proof.Proof.KRegion16

noncomputable section

namespace Cert.Kernel.Asm

open Cert.Kernel Cert.Kernel.Gen Cert.Kernel.Glob
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] (m : (ℓ : Loc nD τ sig) → Buf (Elt F) ℓ)

/-! ## The fold -/

def W0 (c : Dev nD) : Valuation τ sig (Elt F) := V0 m c
def W1 (c : Dev nD) : Valuation τ sig (Elt F) := StableHlo.after hostOps0 (W0 m c)
/-- What region 0 leaves in its result buffer. -/
def x0 (c : Dev nD) : Buf (Elt F) ((c : Thread nD τ).loc main_v21) := (Frame0.dat0 (fun (c : Dev nD) (b : Ref sig .tc) => W1 m c b) c).arrAt 2 cfg0.N
def W2 (c : Dev nD) : Valuation τ sig (Elt F) := Function.update (W1 m c) main_v21 (x0 m c)
def W3 (c : Dev nD) : Valuation τ sig (Elt F) := StableHlo.after hostOps1 (W2 m c)
/-- What region 1 leaves in its result buffer. -/
def x1 (c : Dev nD) : Buf (Elt F) ((c : Thread nD τ).loc main_v29) := (Frame1.dat1 (fun (c : Dev nD) (b : Ref sig .tc) => W3 m c b) c).arrAt 4 cfg1.N
def W4 (c : Dev nD) : Valuation τ sig (Elt F) := Function.update (W3 m c) main_v29 (x1 m c)
def W5 (c : Dev nD) : Valuation τ sig (Elt F) := StableHlo.after hostOps2 (W4 m c)
def W6 (c : Dev nD) : Valuation τ sig (Elt F) := StableHlo.after hostOps2_1 (W5 m c)
def W7 (c : Dev nD) : Valuation τ sig (Elt F) := StableHlo.after hostOps2_2 (W6 m c)
/-- What region 2 leaves in its result buffer. -/
def x2 (c : Dev nD) : Buf (Elt F) ((c : Thread nD τ).loc main_v48) := (Frame2.dat2 (fun (c : Dev nD) (b : Ref sig .tc) => W7 m c b) c).arrAt 5 cfg2.N
def W8 (c : Dev nD) : Valuation τ sig (Elt F) := Function.update (W7 m c) main_v48 (x2 m c)
def W9 (c : Dev nD) : Valuation τ sig (Elt F) := StableHlo.after hostOps3 (W8 m c)
/-- What region 3 leaves in its result buffer. -/
def x3 (c : Dev nD) : Buf (Elt F) ((c : Thread nD τ).loc main_v66) := (Frame3.dat3 (fun (c : Dev nD) (b : Ref sig .tc) => W9 m c b) c).arrAt 4 cfg3.N
def W10 (c : Dev nD) : Valuation τ sig (Elt F) := Function.update (W9 m c) main_v66 (x3 m c)
def W11 (c : Dev nD) : Valuation τ sig (Elt F) := StableHlo.after hostOps4 (W10 m c)
def W12 (c : Dev nD) : Valuation τ sig (Elt F) := StableHlo.after hostOps4_1 (W11 m c)
def W13 (c : Dev nD) : Valuation τ sig (Elt F) := StableHlo.after hostOps4_2 (W12 m c)
/-- What region 4 leaves in its result buffer. -/
def x4 (c : Dev nD) : Buf (Elt F) ((c : Thread nD τ).loc main_v89) := (Frame4.dat4 (fun (c : Dev nD) (b : Ref sig .tc) => W13 m c b) c).arrAt 5 cfg4.N
def W14 (c : Dev nD) : Valuation τ sig (Elt F) := Function.update (W13 m c) main_v89 (x4 m c)
def W15 (c : Dev nD) : Valuation τ sig (Elt F) := StableHlo.after hostOps5 (W14 m c)
/-- What region 5 leaves in its result buffer. -/
def x5 (c : Dev nD) : Buf (Elt F) ((c : Thread nD τ).loc main_v96) := (Frame5.dat5 (fun (c : Dev nD) (b : Ref sig .tc) => W15 m c b) c).arrAt 4 cfg5.N
def W16 (c : Dev nD) : Valuation τ sig (Elt F) := Function.update (W15 m c) main_v96 (x5 m c)
def W17 (c : Dev nD) : Valuation τ sig (Elt F) := StableHlo.after hostOps6 (W16 m c)
def W18 (c : Dev nD) : Valuation τ sig (Elt F) := StableHlo.after hostOps6_1 (W17 m c)
def W19 (c : Dev nD) : Valuation τ sig (Elt F) := StableHlo.after hostOps6_2 (W18 m c)
/-- What region 6 leaves in its result buffer. -/
def x6 (c : Dev nD) : Buf (Elt F) ((c : Thread nD τ).loc main_v119) := (Frame6.dat6 (fun (c : Dev nD) (b : Ref sig .tc) => W19 m c b) c).arrAt 5 cfg6.N
def W20 (c : Dev nD) : Valuation τ sig (Elt F) := Function.update (W19 m c) main_v119 (x6 m c)
def W21 (c : Dev nD) : Valuation τ sig (Elt F) := StableHlo.after hostOps7 (W20 m c)
/-- What region 7 leaves in its result buffer. -/
def x7 (c : Dev nD) : Buf (Elt F) ((c : Thread nD τ).loc main_v137) := (Frame7.dat7 (fun (c : Dev nD) (b : Ref sig .tc) => W21 m c b) c).arrAt 4 cfg7.N
def W22 (c : Dev nD) : Valuation τ sig (Elt F) := Function.update (W21 m c) main_v137 (x7 m c)
def W23 (c : Dev nD) : Valuation τ sig (Elt F) := StableHlo.after hostOps8 (W22 m c)
def W24 (c : Dev nD) : Valuation τ sig (Elt F) := StableHlo.after hostOps8_1 (W23 m c)
def W25 (c : Dev nD) : Valuation τ sig (Elt F) := StableHlo.after hostOps8_2 (W24 m c)
/-- What region 8 leaves in its result buffer. -/
def x8 (c : Dev nD) : Buf (Elt F) ((c : Thread nD τ).loc main_v160) := (Frame8.dat8 (fun (c : Dev nD) (b : Ref sig .tc) => W25 m c b) c).arrAt 5 cfg8.N
def W26 (c : Dev nD) : Valuation τ sig (Elt F) := Function.update (W25 m c) main_v160 (x8 m c)
def W27 (c : Dev nD) : Valuation τ sig (Elt F) := StableHlo.after hostOps9 (W26 m c)
/-- What region 9 leaves in its result buffer. -/
def x9 (c : Dev nD) : Buf (Elt F) ((c : Thread nD τ).loc main_v167) := (Frame9.dat9 (fun (c : Dev nD) (b : Ref sig .tc) => W27 m c b) c).arrAt 4 cfg9.N
def W28 (c : Dev nD) : Valuation τ sig (Elt F) := Function.update (W27 m c) main_v167 (x9 m c)
def W29 (c : Dev nD) : Valuation τ sig (Elt F) := StableHlo.after hostOps10 (W28 m c)
def W30 (c : Dev nD) : Valuation τ sig (Elt F) := StableHlo.after hostOps10_1 (W29 m c)
def W31 (c : Dev nD) : Valuation τ sig (Elt F) := StableHlo.after hostOps10_2 (W30 m c)
/-- What region 10 leaves in its result buffer. -/
def x10 (c : Dev nD) : Buf (Elt F) ((c : Thread nD τ).loc main_v190) := (Frame10.dat10 (fun (c : Dev nD) (b : Ref sig .tc) => W31 m c b) c).arrAt 5 cfg10.N
def W32 (c : Dev nD) : Valuation τ sig (Elt F) := Function.update (W31 m c) main_v190 (x10 m c)
def W33 (c : Dev nD) : Valuation τ sig (Elt F) := StableHlo.after hostOps11 (W32 m c)
/-- What region 11 leaves in its result buffer. -/
def x11 (c : Dev nD) : Buf (Elt F) ((c : Thread nD τ).loc main_v208) := (Frame11.dat11 (fun (c : Dev nD) (b : Ref sig .tc) => W33 m c b) c).arrAt 4 cfg11.N
def W34 (c : Dev nD) : Valuation τ sig (Elt F) := Function.update (W33 m c) main_v208 (x11 m c)
def W35 (c : Dev nD) : Valuation τ sig (Elt F) := StableHlo.after hostOps12 (W34 m c)
def W36 (c : Dev nD) : Valuation τ sig (Elt F) := StableHlo.after hostOps12_1 (W35 m c)
def W37 (c : Dev nD) : Valuation τ sig (Elt F) := StableHlo.after hostOps12_2 (W36 m c)
/-- What region 12 leaves in its result buffer. -/
def x12 (c : Dev nD) : Buf (Elt F) ((c : Thread nD τ).loc main_v231) := (Frame12.dat12 (fun (c : Dev nD) (b : Ref sig .tc) => W37 m c b) c).arrAt 5 cfg12.N
def W38 (c : Dev nD) : Valuation τ sig (Elt F) := Function.update (W37 m c) main_v231 (x12 m c)
def W39 (c : Dev nD) : Valuation τ sig (Elt F) := StableHlo.after hostOps13 (W38 m c)
/-- What region 13 leaves in its result buffer. -/
def x13 (c : Dev nD) : Buf (Elt F) ((c : Thread nD τ).loc main_v238) := (Frame13.dat13 (fun (c : Dev nD) (b : Ref sig .tc) => W39 m c b) c).arrAt 4 cfg13.N
def W40 (c : Dev nD) : Valuation τ sig (Elt F) := Function.update (W39 m c) main_v238 (x13 m c)
def W41 (c : Dev nD) : Valuation τ sig (Elt F) := StableHlo.after hostOps14 (W40 m c)
def W42 (c : Dev nD) : Valuation τ sig (Elt F) := StableHlo.after hostOps14_1 (W41 m c)
def W43 (c : Dev nD) : Valuation τ sig (Elt F) := StableHlo.after hostOps14_2 (W42 m c)
/-- What region 14 leaves in its result buffer. -/
def x14 (c : Dev nD) : Buf (Elt F) ((c : Thread nD τ).loc main_v261) := (Frame14.dat14 (fun (c : Dev nD) (b : Ref sig .tc) => W43 m c b) c).arrAt 5 cfg14.N
def W44 (c : Dev nD) : Valuation τ sig (Elt F) := Function.update (W43 m c) main_v261 (x14 m c)
def W45 (c : Dev nD) : Valuation τ sig (Elt F) := StableHlo.after hostOps15 (W44 m c)
/-- What region 15 leaves in its result buffer. -/
def x15 (c : Dev nD) : Buf (Elt F) ((c : Thread nD τ).loc main_v264) := (Frame15.dat15 (fun (c : Dev nD) (b : Ref sig .tc) => W45 m c b) c).arrAt 3 cfg15.N
def W46 (c : Dev nD) : Valuation τ sig (Elt F) := Function.update (W45 m c) main_v264 (x15 m c)
def W47 (c : Dev nD) : Valuation τ sig (Elt F) := StableHlo.after hostOps16 (W46 m c)
def W48 (c : Dev nD) : Valuation τ sig (Elt F) := StableHlo.after hostOps16_1 (W47 m c)
def W49 (c : Dev nD) : Valuation τ sig (Elt F) := StableHlo.after hostOps16_2 (W48 m c)
/-- What region 16 leaves in its result buffer. -/
def x16 (c : Dev nD) : Buf (Elt F) ((c : Thread nD τ).loc main_v283) := (Frame16.dat16 (fun (c : Dev nD) (b : Ref sig .tc) => W49 m c b) c).arrAt 5 cfg16.N
def W50 (c : Dev nD) : Valuation τ sig (Elt F) := Function.update (W49 m c) main_v283 (x16 m c)
def W51 (c : Dev nD) : Valuation τ sig (Elt F) := StableHlo.after hostOps17 (W50 m c)

/-- The contents the regions leave, read off the fold. -/
def outs : Outs (F := F) := fun J r c =>
  match J with
  | 2 => W2 m c r
  | 4 => W4 m c r
  | 8 => W8 m c r
  | 10 => W10 m c r
  | 14 => W14 m c r
  | 16 => W16 m c r
  | 20 => W20 m c r
  | 22 => W22 m c r
  | 26 => W26 m c r
  | 28 => W28 m c r
  | 32 => W32 m c r
  | 34 => W34 m c r
  | 38 => W38 m c r
  | 40 => W40 m c r
  | 44 => W44 m c r
  | 46 => W46 m c r
  | 50 => W50 m c r
  | _ => W0 m c r

/-- Every pipeline's proof data, each at its region's entry contents. -/
def pdats : (p : Fin 17) → (c : Dev nD) → Dat τ (Elt F) Unit ℕ (UR sig nD τ) ℕ (cfgs p) c
  | ⟨0, _⟩ => fun c => Frame0.dat0 (fun (c : Dev nD) (b : Ref sig .tc) => W1 m c b) c
  | ⟨1, _⟩ => fun c => Frame1.dat1 (fun (c : Dev nD) (b : Ref sig .tc) => W3 m c b) c
  | ⟨2, _⟩ => fun c => Frame2.dat2 (fun (c : Dev nD) (b : Ref sig .tc) => W7 m c b) c
  | ⟨3, _⟩ => fun c => Frame3.dat3 (fun (c : Dev nD) (b : Ref sig .tc) => W9 m c b) c
  | ⟨4, _⟩ => fun c => Frame4.dat4 (fun (c : Dev nD) (b : Ref sig .tc) => W13 m c b) c
  | ⟨5, _⟩ => fun c => Frame5.dat5 (fun (c : Dev nD) (b : Ref sig .tc) => W15 m c b) c
  | ⟨6, _⟩ => fun c => Frame6.dat6 (fun (c : Dev nD) (b : Ref sig .tc) => W19 m c b) c
  | ⟨7, _⟩ => fun c => Frame7.dat7 (fun (c : Dev nD) (b : Ref sig .tc) => W21 m c b) c
  | ⟨8, _⟩ => fun c => Frame8.dat8 (fun (c : Dev nD) (b : Ref sig .tc) => W25 m c b) c
  | ⟨9, _⟩ => fun c => Frame9.dat9 (fun (c : Dev nD) (b : Ref sig .tc) => W27 m c b) c
  | ⟨10, _⟩ => fun c => Frame10.dat10 (fun (c : Dev nD) (b : Ref sig .tc) => W31 m c b) c
  | ⟨11, _⟩ => fun c => Frame11.dat11 (fun (c : Dev nD) (b : Ref sig .tc) => W33 m c b) c
  | ⟨12, _⟩ => fun c => Frame12.dat12 (fun (c : Dev nD) (b : Ref sig .tc) => W37 m c b) c
  | ⟨13, _⟩ => fun c => Frame13.dat13 (fun (c : Dev nD) (b : Ref sig .tc) => W39 m c b) c
  | ⟨14, _⟩ => fun c => Frame14.dat14 (fun (c : Dev nD) (b : Ref sig .tc) => W43 m c b) c
  | ⟨15, _⟩ => fun c => Frame15.dat15 (fun (c : Dev nD) (b : Ref sig .tc) => W45 m c b) c
  | ⟨16, _⟩ => fun c => Frame16.dat16 (fun (c : Dev nD) (b : Ref sig .tc) => W49 m c b) c
  | ⟨n + 17, h⟩ => absurd h (by omega)

/-! ## The conditional frame's valuations are the fold -/

theorem e1 (c : Dev nD) : V1 m c = W1 m c := rfl
theorem o0 (c : Dev nD) : outs m 2 main_v21 c = x0 m c := by
  show Function.update (W1 m c) _ (x0 m c) _ = x0 m c
  exact Function.update_self _ _ _
theorem e2 (c : Dev nD) : V2 m (outs m) c = W2 m c := by
  show Function.update (V1 m c) _ (outs m 2 main_v21 c) = Function.update (W1 m c) _ (x0 m c)
  rw [o0 m c, e1 m c]
theorem e3 (c : Dev nD) : V3 m (outs m) c = W3 m c := congrArg (StableHlo.after hostOps1) (e2 m c)
theorem o1 (c : Dev nD) : outs m 4 main_v29 c = x1 m c := by
  show Function.update (W3 m c) _ (x1 m c) _ = x1 m c
  exact Function.update_self _ _ _
theorem e4 (c : Dev nD) : V4 m (outs m) c = W4 m c := by
  show Function.update (V3 m (outs m) c) _ (outs m 4 main_v29 c) = Function.update (W3 m c) _ (x1 m c)
  rw [o1 m c, e3 m c]
theorem e5 (c : Dev nD) : V5 m (outs m) c = W5 m c := congrArg (StableHlo.after hostOps2) (e4 m c)
theorem e6 (c : Dev nD) : V6 m (outs m) c = W6 m c := congrArg (StableHlo.after hostOps2_1) (e5 m c)
theorem e7 (c : Dev nD) : V7 m (outs m) c = W7 m c := congrArg (StableHlo.after hostOps2_2) (e6 m c)
theorem o2 (c : Dev nD) : outs m 8 main_v48 c = x2 m c := by
  show Function.update (W7 m c) _ (x2 m c) _ = x2 m c
  exact Function.update_self _ _ _
theorem e8 (c : Dev nD) : V8 m (outs m) c = W8 m c := by
  show Function.update (V7 m (outs m) c) _ (outs m 8 main_v48 c) = Function.update (W7 m c) _ (x2 m c)
  rw [o2 m c, e7 m c]
theorem e9 (c : Dev nD) : V9 m (outs m) c = W9 m c := congrArg (StableHlo.after hostOps3) (e8 m c)
theorem o3 (c : Dev nD) : outs m 10 main_v66 c = x3 m c := by
  show Function.update (W9 m c) _ (x3 m c) _ = x3 m c
  exact Function.update_self _ _ _
theorem e10 (c : Dev nD) : V10 m (outs m) c = W10 m c := by
  show Function.update (V9 m (outs m) c) _ (outs m 10 main_v66 c) = Function.update (W9 m c) _ (x3 m c)
  rw [o3 m c, e9 m c]
theorem e11 (c : Dev nD) : V11 m (outs m) c = W11 m c := congrArg (StableHlo.after hostOps4) (e10 m c)
theorem e12 (c : Dev nD) : V12 m (outs m) c = W12 m c := congrArg (StableHlo.after hostOps4_1) (e11 m c)
theorem e13 (c : Dev nD) : V13 m (outs m) c = W13 m c := congrArg (StableHlo.after hostOps4_2) (e12 m c)
theorem o4 (c : Dev nD) : outs m 14 main_v89 c = x4 m c := by
  show Function.update (W13 m c) _ (x4 m c) _ = x4 m c
  exact Function.update_self _ _ _
theorem e14 (c : Dev nD) : V14 m (outs m) c = W14 m c := by
  show Function.update (V13 m (outs m) c) _ (outs m 14 main_v89 c) = Function.update (W13 m c) _ (x4 m c)
  rw [o4 m c, e13 m c]
theorem e15 (c : Dev nD) : V15 m (outs m) c = W15 m c := congrArg (StableHlo.after hostOps5) (e14 m c)
theorem o5 (c : Dev nD) : outs m 16 main_v96 c = x5 m c := by
  show Function.update (W15 m c) _ (x5 m c) _ = x5 m c
  exact Function.update_self _ _ _
theorem e16 (c : Dev nD) : V16 m (outs m) c = W16 m c := by
  show Function.update (V15 m (outs m) c) _ (outs m 16 main_v96 c) = Function.update (W15 m c) _ (x5 m c)
  rw [o5 m c, e15 m c]
theorem e17 (c : Dev nD) : V17 m (outs m) c = W17 m c := congrArg (StableHlo.after hostOps6) (e16 m c)
theorem e18 (c : Dev nD) : V18 m (outs m) c = W18 m c := congrArg (StableHlo.after hostOps6_1) (e17 m c)
theorem e19 (c : Dev nD) : V19 m (outs m) c = W19 m c := congrArg (StableHlo.after hostOps6_2) (e18 m c)
theorem o6 (c : Dev nD) : outs m 20 main_v119 c = x6 m c := by
  show Function.update (W19 m c) _ (x6 m c) _ = x6 m c
  exact Function.update_self _ _ _
theorem e20 (c : Dev nD) : V20 m (outs m) c = W20 m c := by
  show Function.update (V19 m (outs m) c) _ (outs m 20 main_v119 c) = Function.update (W19 m c) _ (x6 m c)
  rw [o6 m c, e19 m c]
theorem e21 (c : Dev nD) : V21 m (outs m) c = W21 m c := congrArg (StableHlo.after hostOps7) (e20 m c)
theorem o7 (c : Dev nD) : outs m 22 main_v137 c = x7 m c := by
  show Function.update (W21 m c) _ (x7 m c) _ = x7 m c
  exact Function.update_self _ _ _
theorem e22 (c : Dev nD) : V22 m (outs m) c = W22 m c := by
  show Function.update (V21 m (outs m) c) _ (outs m 22 main_v137 c) = Function.update (W21 m c) _ (x7 m c)
  rw [o7 m c, e21 m c]
theorem e23 (c : Dev nD) : V23 m (outs m) c = W23 m c := congrArg (StableHlo.after hostOps8) (e22 m c)
theorem e24 (c : Dev nD) : V24 m (outs m) c = W24 m c := congrArg (StableHlo.after hostOps8_1) (e23 m c)
theorem e25 (c : Dev nD) : V25 m (outs m) c = W25 m c := congrArg (StableHlo.after hostOps8_2) (e24 m c)
theorem o8 (c : Dev nD) : outs m 26 main_v160 c = x8 m c := by
  show Function.update (W25 m c) _ (x8 m c) _ = x8 m c
  exact Function.update_self _ _ _
theorem e26 (c : Dev nD) : V26 m (outs m) c = W26 m c := by
  show Function.update (V25 m (outs m) c) _ (outs m 26 main_v160 c) = Function.update (W25 m c) _ (x8 m c)
  rw [o8 m c, e25 m c]
theorem e27 (c : Dev nD) : V27 m (outs m) c = W27 m c := congrArg (StableHlo.after hostOps9) (e26 m c)
theorem o9 (c : Dev nD) : outs m 28 main_v167 c = x9 m c := by
  show Function.update (W27 m c) _ (x9 m c) _ = x9 m c
  exact Function.update_self _ _ _
theorem e28 (c : Dev nD) : V28 m (outs m) c = W28 m c := by
  show Function.update (V27 m (outs m) c) _ (outs m 28 main_v167 c) = Function.update (W27 m c) _ (x9 m c)
  rw [o9 m c, e27 m c]
theorem e29 (c : Dev nD) : V29 m (outs m) c = W29 m c := congrArg (StableHlo.after hostOps10) (e28 m c)
theorem e30 (c : Dev nD) : V30 m (outs m) c = W30 m c := congrArg (StableHlo.after hostOps10_1) (e29 m c)
theorem e31 (c : Dev nD) : V31 m (outs m) c = W31 m c := congrArg (StableHlo.after hostOps10_2) (e30 m c)
theorem o10 (c : Dev nD) : outs m 32 main_v190 c = x10 m c := by
  show Function.update (W31 m c) _ (x10 m c) _ = x10 m c
  exact Function.update_self _ _ _
theorem e32 (c : Dev nD) : V32 m (outs m) c = W32 m c := by
  show Function.update (V31 m (outs m) c) _ (outs m 32 main_v190 c) = Function.update (W31 m c) _ (x10 m c)
  rw [o10 m c, e31 m c]
theorem e33 (c : Dev nD) : V33 m (outs m) c = W33 m c := congrArg (StableHlo.after hostOps11) (e32 m c)
theorem o11 (c : Dev nD) : outs m 34 main_v208 c = x11 m c := by
  show Function.update (W33 m c) _ (x11 m c) _ = x11 m c
  exact Function.update_self _ _ _
theorem e34 (c : Dev nD) : V34 m (outs m) c = W34 m c := by
  show Function.update (V33 m (outs m) c) _ (outs m 34 main_v208 c) = Function.update (W33 m c) _ (x11 m c)
  rw [o11 m c, e33 m c]
theorem e35 (c : Dev nD) : V35 m (outs m) c = W35 m c := congrArg (StableHlo.after hostOps12) (e34 m c)
theorem e36 (c : Dev nD) : V36 m (outs m) c = W36 m c := congrArg (StableHlo.after hostOps12_1) (e35 m c)
theorem e37 (c : Dev nD) : V37 m (outs m) c = W37 m c := congrArg (StableHlo.after hostOps12_2) (e36 m c)
theorem o12 (c : Dev nD) : outs m 38 main_v231 c = x12 m c := by
  show Function.update (W37 m c) _ (x12 m c) _ = x12 m c
  exact Function.update_self _ _ _
theorem e38 (c : Dev nD) : V38 m (outs m) c = W38 m c := by
  show Function.update (V37 m (outs m) c) _ (outs m 38 main_v231 c) = Function.update (W37 m c) _ (x12 m c)
  rw [o12 m c, e37 m c]
theorem e39 (c : Dev nD) : V39 m (outs m) c = W39 m c := congrArg (StableHlo.after hostOps13) (e38 m c)
theorem o13 (c : Dev nD) : outs m 40 main_v238 c = x13 m c := by
  show Function.update (W39 m c) _ (x13 m c) _ = x13 m c
  exact Function.update_self _ _ _
theorem e40 (c : Dev nD) : V40 m (outs m) c = W40 m c := by
  show Function.update (V39 m (outs m) c) _ (outs m 40 main_v238 c) = Function.update (W39 m c) _ (x13 m c)
  rw [o13 m c, e39 m c]
theorem e41 (c : Dev nD) : V41 m (outs m) c = W41 m c := congrArg (StableHlo.after hostOps14) (e40 m c)
theorem e42 (c : Dev nD) : V42 m (outs m) c = W42 m c := congrArg (StableHlo.after hostOps14_1) (e41 m c)
theorem e43 (c : Dev nD) : V43 m (outs m) c = W43 m c := congrArg (StableHlo.after hostOps14_2) (e42 m c)
theorem o14 (c : Dev nD) : outs m 44 main_v261 c = x14 m c := by
  show Function.update (W43 m c) _ (x14 m c) _ = x14 m c
  exact Function.update_self _ _ _
theorem e44 (c : Dev nD) : V44 m (outs m) c = W44 m c := by
  show Function.update (V43 m (outs m) c) _ (outs m 44 main_v261 c) = Function.update (W43 m c) _ (x14 m c)
  rw [o14 m c, e43 m c]
theorem e45 (c : Dev nD) : V45 m (outs m) c = W45 m c := congrArg (StableHlo.after hostOps15) (e44 m c)
theorem o15 (c : Dev nD) : outs m 46 main_v264 c = x15 m c := by
  show Function.update (W45 m c) _ (x15 m c) _ = x15 m c
  exact Function.update_self _ _ _
theorem e46 (c : Dev nD) : V46 m (outs m) c = W46 m c := by
  show Function.update (V45 m (outs m) c) _ (outs m 46 main_v264 c) = Function.update (W45 m c) _ (x15 m c)
  rw [o15 m c, e45 m c]
theorem e47 (c : Dev nD) : V47 m (outs m) c = W47 m c := congrArg (StableHlo.after hostOps16) (e46 m c)
theorem e48 (c : Dev nD) : V48 m (outs m) c = W48 m c := congrArg (StableHlo.after hostOps16_1) (e47 m c)
theorem e49 (c : Dev nD) : V49 m (outs m) c = W49 m c := congrArg (StableHlo.after hostOps16_2) (e48 m c)
theorem o16 (c : Dev nD) : outs m 50 main_v283 c = x16 m c := by
  show Function.update (W49 m c) _ (x16 m c) _ = x16 m c
  exact Function.update_self _ _ _
theorem e50 (c : Dev nD) : V50 m (outs m) c = W50 m c := by
  show Function.update (V49 m (outs m) c) _ (outs m 50 main_v283 c) = Function.update (W49 m c) _ (x16 m c)
  rw [o16 m c, e49 m c]
theorem e51 (c : Dev nD) : V51 m (outs m) c = W51 m c := congrArg (StableHlo.after hostOps17) (e50 m c)

/-! ## The pins of the regions' records -/

theorem ve0 : (fun (c : Dev nD) (b : Ref sig .tc) => (V1 m c b : Buf (Elt F) ((c : Thread nD τ).loc b))) = (fun (c : Dev nD) (b : Ref sig .tc) => W1 m c b) :=
  funext fun c => funext fun b => congrFun (e1 m c) _
theorem hp0 (c : Dev nD) : pdats m 0 c = Frame0.dat0 (fun (c : Dev nD) (b : Ref sig .tc) => (V1 m c b : Buf (Elt F) ((c : Thread nD τ).loc b))) c := by
  rw [ve0 m]; rfl
theorem houts0 (c : Dev nD) : outs m 2 main_v21 c = (Frame0.dat0 (fun (c : Dev nD) (b : Ref sig .tc) => (V1 m c b : Buf (Elt F) ((c : Thread nD τ).loc b))) c).arrAt 2 cfg0.N := by
  rw [ve0 m]; exact o0 m c
theorem ve1 : (fun (c : Dev nD) (b : Ref sig .tc) => (V3 m (outs m) c b : Buf (Elt F) ((c : Thread nD τ).loc b))) = (fun (c : Dev nD) (b : Ref sig .tc) => W3 m c b) :=
  funext fun c => funext fun b => congrFun (e3 m c) _
theorem hp1 (c : Dev nD) : pdats m 1 c = Frame1.dat1 (fun (c : Dev nD) (b : Ref sig .tc) => (V3 m (outs m) c b : Buf (Elt F) ((c : Thread nD τ).loc b))) c := by
  rw [ve1 m]; rfl
theorem houts1 (c : Dev nD) : outs m 4 main_v29 c = (Frame1.dat1 (fun (c : Dev nD) (b : Ref sig .tc) => (V3 m (outs m) c b : Buf (Elt F) ((c : Thread nD τ).loc b))) c).arrAt 4 cfg1.N := by
  rw [ve1 m]; exact o1 m c
theorem ve2 : (fun (c : Dev nD) (b : Ref sig .tc) => (V7 m (outs m) c b : Buf (Elt F) ((c : Thread nD τ).loc b))) = (fun (c : Dev nD) (b : Ref sig .tc) => W7 m c b) :=
  funext fun c => funext fun b => congrFun (e7 m c) _
theorem hp2 (c : Dev nD) : pdats m 2 c = Frame2.dat2 (fun (c : Dev nD) (b : Ref sig .tc) => (V7 m (outs m) c b : Buf (Elt F) ((c : Thread nD τ).loc b))) c := by
  rw [ve2 m]; rfl
theorem houts2 (c : Dev nD) : outs m 8 main_v48 c = (Frame2.dat2 (fun (c : Dev nD) (b : Ref sig .tc) => (V7 m (outs m) c b : Buf (Elt F) ((c : Thread nD τ).loc b))) c).arrAt 5 cfg2.N := by
  rw [ve2 m]; exact o2 m c
theorem ve3 : (fun (c : Dev nD) (b : Ref sig .tc) => (V9 m (outs m) c b : Buf (Elt F) ((c : Thread nD τ).loc b))) = (fun (c : Dev nD) (b : Ref sig .tc) => W9 m c b) :=
  funext fun c => funext fun b => congrFun (e9 m c) _
theorem hp3 (c : Dev nD) : pdats m 3 c = Frame3.dat3 (fun (c : Dev nD) (b : Ref sig .tc) => (V9 m (outs m) c b : Buf (Elt F) ((c : Thread nD τ).loc b))) c := by
  rw [ve3 m]; rfl
theorem houts3 (c : Dev nD) : outs m 10 main_v66 c = (Frame3.dat3 (fun (c : Dev nD) (b : Ref sig .tc) => (V9 m (outs m) c b : Buf (Elt F) ((c : Thread nD τ).loc b))) c).arrAt 4 cfg3.N := by
  rw [ve3 m]; exact o3 m c
theorem ve4 : (fun (c : Dev nD) (b : Ref sig .tc) => (V13 m (outs m) c b : Buf (Elt F) ((c : Thread nD τ).loc b))) = (fun (c : Dev nD) (b : Ref sig .tc) => W13 m c b) :=
  funext fun c => funext fun b => congrFun (e13 m c) _
theorem hp4 (c : Dev nD) : pdats m 4 c = Frame4.dat4 (fun (c : Dev nD) (b : Ref sig .tc) => (V13 m (outs m) c b : Buf (Elt F) ((c : Thread nD τ).loc b))) c := by
  rw [ve4 m]; rfl
theorem houts4 (c : Dev nD) : outs m 14 main_v89 c = (Frame4.dat4 (fun (c : Dev nD) (b : Ref sig .tc) => (V13 m (outs m) c b : Buf (Elt F) ((c : Thread nD τ).loc b))) c).arrAt 5 cfg4.N := by
  rw [ve4 m]; exact o4 m c
theorem ve5 : (fun (c : Dev nD) (b : Ref sig .tc) => (V15 m (outs m) c b : Buf (Elt F) ((c : Thread nD τ).loc b))) = (fun (c : Dev nD) (b : Ref sig .tc) => W15 m c b) :=
  funext fun c => funext fun b => congrFun (e15 m c) _
theorem hp5 (c : Dev nD) : pdats m 5 c = Frame5.dat5 (fun (c : Dev nD) (b : Ref sig .tc) => (V15 m (outs m) c b : Buf (Elt F) ((c : Thread nD τ).loc b))) c := by
  rw [ve5 m]; rfl
theorem houts5 (c : Dev nD) : outs m 16 main_v96 c = (Frame5.dat5 (fun (c : Dev nD) (b : Ref sig .tc) => (V15 m (outs m) c b : Buf (Elt F) ((c : Thread nD τ).loc b))) c).arrAt 4 cfg5.N := by
  rw [ve5 m]; exact o5 m c
theorem ve6 : (fun (c : Dev nD) (b : Ref sig .tc) => (V19 m (outs m) c b : Buf (Elt F) ((c : Thread nD τ).loc b))) = (fun (c : Dev nD) (b : Ref sig .tc) => W19 m c b) :=
  funext fun c => funext fun b => congrFun (e19 m c) _
theorem hp6 (c : Dev nD) : pdats m 6 c = Frame6.dat6 (fun (c : Dev nD) (b : Ref sig .tc) => (V19 m (outs m) c b : Buf (Elt F) ((c : Thread nD τ).loc b))) c := by
  rw [ve6 m]; rfl
theorem houts6 (c : Dev nD) : outs m 20 main_v119 c = (Frame6.dat6 (fun (c : Dev nD) (b : Ref sig .tc) => (V19 m (outs m) c b : Buf (Elt F) ((c : Thread nD τ).loc b))) c).arrAt 5 cfg6.N := by
  rw [ve6 m]; exact o6 m c
theorem ve7 : (fun (c : Dev nD) (b : Ref sig .tc) => (V21 m (outs m) c b : Buf (Elt F) ((c : Thread nD τ).loc b))) = (fun (c : Dev nD) (b : Ref sig .tc) => W21 m c b) :=
  funext fun c => funext fun b => congrFun (e21 m c) _
theorem hp7 (c : Dev nD) : pdats m 7 c = Frame7.dat7 (fun (c : Dev nD) (b : Ref sig .tc) => (V21 m (outs m) c b : Buf (Elt F) ((c : Thread nD τ).loc b))) c := by
  rw [ve7 m]; rfl
theorem houts7 (c : Dev nD) : outs m 22 main_v137 c = (Frame7.dat7 (fun (c : Dev nD) (b : Ref sig .tc) => (V21 m (outs m) c b : Buf (Elt F) ((c : Thread nD τ).loc b))) c).arrAt 4 cfg7.N := by
  rw [ve7 m]; exact o7 m c
theorem ve8 : (fun (c : Dev nD) (b : Ref sig .tc) => (V25 m (outs m) c b : Buf (Elt F) ((c : Thread nD τ).loc b))) = (fun (c : Dev nD) (b : Ref sig .tc) => W25 m c b) :=
  funext fun c => funext fun b => congrFun (e25 m c) _
theorem hp8 (c : Dev nD) : pdats m 8 c = Frame8.dat8 (fun (c : Dev nD) (b : Ref sig .tc) => (V25 m (outs m) c b : Buf (Elt F) ((c : Thread nD τ).loc b))) c := by
  rw [ve8 m]; rfl
theorem houts8 (c : Dev nD) : outs m 26 main_v160 c = (Frame8.dat8 (fun (c : Dev nD) (b : Ref sig .tc) => (V25 m (outs m) c b : Buf (Elt F) ((c : Thread nD τ).loc b))) c).arrAt 5 cfg8.N := by
  rw [ve8 m]; exact o8 m c
theorem ve9 : (fun (c : Dev nD) (b : Ref sig .tc) => (V27 m (outs m) c b : Buf (Elt F) ((c : Thread nD τ).loc b))) = (fun (c : Dev nD) (b : Ref sig .tc) => W27 m c b) :=
  funext fun c => funext fun b => congrFun (e27 m c) _
theorem hp9 (c : Dev nD) : pdats m 9 c = Frame9.dat9 (fun (c : Dev nD) (b : Ref sig .tc) => (V27 m (outs m) c b : Buf (Elt F) ((c : Thread nD τ).loc b))) c := by
  rw [ve9 m]; rfl
theorem houts9 (c : Dev nD) : outs m 28 main_v167 c = (Frame9.dat9 (fun (c : Dev nD) (b : Ref sig .tc) => (V27 m (outs m) c b : Buf (Elt F) ((c : Thread nD τ).loc b))) c).arrAt 4 cfg9.N := by
  rw [ve9 m]; exact o9 m c
theorem ve10 : (fun (c : Dev nD) (b : Ref sig .tc) => (V31 m (outs m) c b : Buf (Elt F) ((c : Thread nD τ).loc b))) = (fun (c : Dev nD) (b : Ref sig .tc) => W31 m c b) :=
  funext fun c => funext fun b => congrFun (e31 m c) _
theorem hp10 (c : Dev nD) : pdats m 10 c = Frame10.dat10 (fun (c : Dev nD) (b : Ref sig .tc) => (V31 m (outs m) c b : Buf (Elt F) ((c : Thread nD τ).loc b))) c := by
  rw [ve10 m]; rfl
theorem houts10 (c : Dev nD) : outs m 32 main_v190 c = (Frame10.dat10 (fun (c : Dev nD) (b : Ref sig .tc) => (V31 m (outs m) c b : Buf (Elt F) ((c : Thread nD τ).loc b))) c).arrAt 5 cfg10.N := by
  rw [ve10 m]; exact o10 m c
theorem ve11 : (fun (c : Dev nD) (b : Ref sig .tc) => (V33 m (outs m) c b : Buf (Elt F) ((c : Thread nD τ).loc b))) = (fun (c : Dev nD) (b : Ref sig .tc) => W33 m c b) :=
  funext fun c => funext fun b => congrFun (e33 m c) _
theorem hp11 (c : Dev nD) : pdats m 11 c = Frame11.dat11 (fun (c : Dev nD) (b : Ref sig .tc) => (V33 m (outs m) c b : Buf (Elt F) ((c : Thread nD τ).loc b))) c := by
  rw [ve11 m]; rfl
theorem houts11 (c : Dev nD) : outs m 34 main_v208 c = (Frame11.dat11 (fun (c : Dev nD) (b : Ref sig .tc) => (V33 m (outs m) c b : Buf (Elt F) ((c : Thread nD τ).loc b))) c).arrAt 4 cfg11.N := by
  rw [ve11 m]; exact o11 m c
theorem ve12 : (fun (c : Dev nD) (b : Ref sig .tc) => (V37 m (outs m) c b : Buf (Elt F) ((c : Thread nD τ).loc b))) = (fun (c : Dev nD) (b : Ref sig .tc) => W37 m c b) :=
  funext fun c => funext fun b => congrFun (e37 m c) _
theorem hp12 (c : Dev nD) : pdats m 12 c = Frame12.dat12 (fun (c : Dev nD) (b : Ref sig .tc) => (V37 m (outs m) c b : Buf (Elt F) ((c : Thread nD τ).loc b))) c := by
  rw [ve12 m]; rfl
theorem houts12 (c : Dev nD) : outs m 38 main_v231 c = (Frame12.dat12 (fun (c : Dev nD) (b : Ref sig .tc) => (V37 m (outs m) c b : Buf (Elt F) ((c : Thread nD τ).loc b))) c).arrAt 5 cfg12.N := by
  rw [ve12 m]; exact o12 m c
theorem ve13 : (fun (c : Dev nD) (b : Ref sig .tc) => (V39 m (outs m) c b : Buf (Elt F) ((c : Thread nD τ).loc b))) = (fun (c : Dev nD) (b : Ref sig .tc) => W39 m c b) :=
  funext fun c => funext fun b => congrFun (e39 m c) _
theorem hp13 (c : Dev nD) : pdats m 13 c = Frame13.dat13 (fun (c : Dev nD) (b : Ref sig .tc) => (V39 m (outs m) c b : Buf (Elt F) ((c : Thread nD τ).loc b))) c := by
  rw [ve13 m]; rfl
theorem houts13 (c : Dev nD) : outs m 40 main_v238 c = (Frame13.dat13 (fun (c : Dev nD) (b : Ref sig .tc) => (V39 m (outs m) c b : Buf (Elt F) ((c : Thread nD τ).loc b))) c).arrAt 4 cfg13.N := by
  rw [ve13 m]; exact o13 m c
theorem ve14 : (fun (c : Dev nD) (b : Ref sig .tc) => (V43 m (outs m) c b : Buf (Elt F) ((c : Thread nD τ).loc b))) = (fun (c : Dev nD) (b : Ref sig .tc) => W43 m c b) :=
  funext fun c => funext fun b => congrFun (e43 m c) _
theorem hp14 (c : Dev nD) : pdats m 14 c = Frame14.dat14 (fun (c : Dev nD) (b : Ref sig .tc) => (V43 m (outs m) c b : Buf (Elt F) ((c : Thread nD τ).loc b))) c := by
  rw [ve14 m]; rfl
theorem houts14 (c : Dev nD) : outs m 44 main_v261 c = (Frame14.dat14 (fun (c : Dev nD) (b : Ref sig .tc) => (V43 m (outs m) c b : Buf (Elt F) ((c : Thread nD τ).loc b))) c).arrAt 5 cfg14.N := by
  rw [ve14 m]; exact o14 m c
theorem ve15 : (fun (c : Dev nD) (b : Ref sig .tc) => (V45 m (outs m) c b : Buf (Elt F) ((c : Thread nD τ).loc b))) = (fun (c : Dev nD) (b : Ref sig .tc) => W45 m c b) :=
  funext fun c => funext fun b => congrFun (e45 m c) _
theorem hp15 (c : Dev nD) : pdats m 15 c = Frame15.dat15 (fun (c : Dev nD) (b : Ref sig .tc) => (V45 m (outs m) c b : Buf (Elt F) ((c : Thread nD τ).loc b))) c := by
  rw [ve15 m]; rfl
theorem houts15 (c : Dev nD) : outs m 46 main_v264 c = (Frame15.dat15 (fun (c : Dev nD) (b : Ref sig .tc) => (V45 m (outs m) c b : Buf (Elt F) ((c : Thread nD τ).loc b))) c).arrAt 3 cfg15.N := by
  rw [ve15 m]; exact o15 m c
theorem ve16 : (fun (c : Dev nD) (b : Ref sig .tc) => (V49 m (outs m) c b : Buf (Elt F) ((c : Thread nD τ).loc b))) = (fun (c : Dev nD) (b : Ref sig .tc) => W49 m c b) :=
  funext fun c => funext fun b => congrFun (e49 m c) _
theorem hp16 (c : Dev nD) : pdats m 16 c = Frame16.dat16 (fun (c : Dev nD) (b : Ref sig .tc) => (V49 m (outs m) c b : Buf (Elt F) ((c : Thread nD τ).loc b))) c := by
  rw [ve16 m]; rfl
theorem houts16 (c : Dev nD) : outs m 50 main_v283 c = (Frame16.dat16 (fun (c : Dev nD) (b : Ref sig .tc) => (V49 m (outs m) c b : Buf (Elt F) ((c : Thread nD τ).loc b))) c).arrAt 5 cfg16.N := by
  rw [ve16 m]; exact o16 m c

/-! ## The frame -/

/-- Every weakly fair execution of @main terminates, nothing faulting, with the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of_records m ρ (outs m) (pdats m)
    (Frame0.reg0 m (outs m) (pdats m) (hp0 m) (houts0 m)) (Frame0.hpre0 m (outs m) (pdats m) (hp0 m) (houts0 m)) (Frame0.hpost0 m (outs m) (pdats m) (hp0 m) (houts0 m))
    (Frame1.reg1 m (outs m) (pdats m) (hp1 m) (houts1 m)) (Frame1.hpre1 m (outs m) (pdats m) (hp1 m) (houts1 m)) (Frame1.hpost1 m (outs m) (pdats m) (hp1 m) (houts1 m))
    (Frame2.reg2 m (outs m) (pdats m) (hp2 m) (houts2 m)) (Frame2.hpre2 m (outs m) (pdats m) (hp2 m) (houts2 m)) (Frame2.hpost2 m (outs m) (pdats m) (hp2 m) (houts2 m))
    (Frame3.reg3 m (outs m) (pdats m) (hp3 m) (houts3 m)) (Frame3.hpre3 m (outs m) (pdats m) (hp3 m) (houts3 m)) (Frame3.hpost3 m (outs m) (pdats m) (hp3 m) (houts3 m))
    (Frame4.reg4 m (outs m) (pdats m) (hp4 m) (houts4 m)) (Frame4.hpre4 m (outs m) (pdats m) (hp4 m) (houts4 m)) (Frame4.hpost4 m (outs m) (pdats m) (hp4 m) (houts4 m))
    (Frame5.reg5 m (outs m) (pdats m) (hp5 m) (houts5 m)) (Frame5.hpre5 m (outs m) (pdats m) (hp5 m) (houts5 m)) (Frame5.hpost5 m (outs m) (pdats m) (hp5 m) (houts5 m))
    (Frame6.reg6 m (outs m) (pdats m) (hp6 m) (houts6 m)) (Frame6.hpre6 m (outs m) (pdats m) (hp6 m) (houts6 m)) (Frame6.hpost6 m (outs m) (pdats m) (hp6 m) (houts6 m))
    (Frame7.reg7 m (outs m) (pdats m) (hp7 m) (houts7 m)) (Frame7.hpre7 m (outs m) (pdats m) (hp7 m) (houts7 m)) (Frame7.hpost7 m (outs m) (pdats m) (hp7 m) (houts7 m))
    (Frame8.reg8 m (outs m) (pdats m) (hp8 m) (houts8 m)) (Frame8.hpre8 m (outs m) (pdats m) (hp8 m) (houts8 m)) (Frame8.hpost8 m (outs m) (pdats m) (hp8 m) (houts8 m))
    (Frame9.reg9 m (outs m) (pdats m) (hp9 m) (houts9 m)) (Frame9.hpre9 m (outs m) (pdats m) (hp9 m) (houts9 m)) (Frame9.hpost9 m (outs m) (pdats m) (hp9 m) (houts9 m))
    (Frame10.reg10 m (outs m) (pdats m) (hp10 m) (houts10 m)) (Frame10.hpre10 m (outs m) (pdats m) (hp10 m) (houts10 m)) (Frame10.hpost10 m (outs m) (pdats m) (hp10 m) (houts10 m))
    (Frame11.reg11 m (outs m) (pdats m) (hp11 m) (houts11 m)) (Frame11.hpre11 m (outs m) (pdats m) (hp11 m) (houts11 m)) (Frame11.hpost11 m (outs m) (pdats m) (hp11 m) (houts11 m))
    (Frame12.reg12 m (outs m) (pdats m) (hp12 m) (houts12 m)) (Frame12.hpre12 m (outs m) (pdats m) (hp12 m) (houts12 m)) (Frame12.hpost12 m (outs m) (pdats m) (hp12 m) (houts12 m))
    (Frame13.reg13 m (outs m) (pdats m) (hp13 m) (houts13 m)) (Frame13.hpre13 m (outs m) (pdats m) (hp13 m) (houts13 m)) (Frame13.hpost13 m (outs m) (pdats m) (hp13 m) (houts13 m))
    (Frame14.reg14 m (outs m) (pdats m) (hp14 m) (houts14 m)) (Frame14.hpre14 m (outs m) (pdats m) (hp14 m) (houts14 m)) (Frame14.hpost14 m (outs m) (pdats m) (hp14 m) (houts14 m))
    (Frame15.reg15 m (outs m) (pdats m) (hp15 m) (houts15 m)) (Frame15.hpre15 m (outs m) (pdats m) (hp15 m) (houts15 m)) (Frame15.hpost15 m (outs m) (pdats m) (hp15 m) (houts15 m))
    (Frame16.reg16 m (outs m) (pdats m) (hp16 m) (houts16 m)) (Frame16.hpre16 m (outs m) (pdats m) (hp16 m) (houts16 m)) (Frame16.hpost16 m (outs m) (pdats m) (hp16 m) (houts16 m))

/-- The same with every unscoped buffer named: each ends at the fold's last contents. -/
theorem run (ρ : Dev nD → PrngReg) :
    θ_run defs (onTc (τ := τ) (main (F := F))) ⟨m, fun _ => 0, ρ⟩ (fun r => ∀ c : Dev nD, ∀ b ∈ Pipeline.ucRefs τ sig, r.2.mem (((c : Thread nD τ)).1, b) = W51 m c b) :=
  (θ_run defs _ _).mono (fun r h c b hb => (h c b hb).trans (congrFun (e51 m c) b))
    (run_of_records m ρ (outs m) (pdats m)
    (Frame0.reg0 m (outs m) (pdats m) (hp0 m) (houts0 m)) (Frame0.hpre0 m (outs m) (pdats m) (hp0 m) (houts0 m)) (Frame0.hpost0 m (outs m) (pdats m) (hp0 m) (houts0 m))
    (Frame1.reg1 m (outs m) (pdats m) (hp1 m) (houts1 m)) (Frame1.hpre1 m (outs m) (pdats m) (hp1 m) (houts1 m)) (Frame1.hpost1 m (outs m) (pdats m) (hp1 m) (houts1 m))
    (Frame2.reg2 m (outs m) (pdats m) (hp2 m) (houts2 m)) (Frame2.hpre2 m (outs m) (pdats m) (hp2 m) (houts2 m)) (Frame2.hpost2 m (outs m) (pdats m) (hp2 m) (houts2 m))
    (Frame3.reg3 m (outs m) (pdats m) (hp3 m) (houts3 m)) (Frame3.hpre3 m (outs m) (pdats m) (hp3 m) (houts3 m)) (Frame3.hpost3 m (outs m) (pdats m) (hp3 m) (houts3 m))
    (Frame4.reg4 m (outs m) (pdats m) (hp4 m) (houts4 m)) (Frame4.hpre4 m (outs m) (pdats m) (hp4 m) (houts4 m)) (Frame4.hpost4 m (outs m) (pdats m) (hp4 m) (houts4 m))
    (Frame5.reg5 m (outs m) (pdats m) (hp5 m) (houts5 m)) (Frame5.hpre5 m (outs m) (pdats m) (hp5 m) (houts5 m)) (Frame5.hpost5 m (outs m) (pdats m) (hp5 m) (houts5 m))
    (Frame6.reg6 m (outs m) (pdats m) (hp6 m) (houts6 m)) (Frame6.hpre6 m (outs m) (pdats m) (hp6 m) (houts6 m)) (Frame6.hpost6 m (outs m) (pdats m) (hp6 m) (houts6 m))
    (Frame7.reg7 m (outs m) (pdats m) (hp7 m) (houts7 m)) (Frame7.hpre7 m (outs m) (pdats m) (hp7 m) (houts7 m)) (Frame7.hpost7 m (outs m) (pdats m) (hp7 m) (houts7 m))
    (Frame8.reg8 m (outs m) (pdats m) (hp8 m) (houts8 m)) (Frame8.hpre8 m (outs m) (pdats m) (hp8 m) (houts8 m)) (Frame8.hpost8 m (outs m) (pdats m) (hp8 m) (houts8 m))
    (Frame9.reg9 m (outs m) (pdats m) (hp9 m) (houts9 m)) (Frame9.hpre9 m (outs m) (pdats m) (hp9 m) (houts9 m)) (Frame9.hpost9 m (outs m) (pdats m) (hp9 m) (houts9 m))
    (Frame10.reg10 m (outs m) (pdats m) (hp10 m) (houts10 m)) (Frame10.hpre10 m (outs m) (pdats m) (hp10 m) (houts10 m)) (Frame10.hpost10 m (outs m) (pdats m) (hp10 m) (houts10 m))
    (Frame11.reg11 m (outs m) (pdats m) (hp11 m) (houts11 m)) (Frame11.hpre11 m (outs m) (pdats m) (hp11 m) (houts11 m)) (Frame11.hpost11 m (outs m) (pdats m) (hp11 m) (houts11 m))
    (Frame12.reg12 m (outs m) (pdats m) (hp12 m) (houts12 m)) (Frame12.hpre12 m (outs m) (pdats m) (hp12 m) (houts12 m)) (Frame12.hpost12 m (outs m) (pdats m) (hp12 m) (houts12 m))
    (Frame13.reg13 m (outs m) (pdats m) (hp13 m) (houts13 m)) (Frame13.hpre13 m (outs m) (pdats m) (hp13 m) (houts13 m)) (Frame13.hpost13 m (outs m) (pdats m) (hp13 m) (houts13 m))
    (Frame14.reg14 m (outs m) (pdats m) (hp14 m) (houts14 m)) (Frame14.hpre14 m (outs m) (pdats m) (hp14 m) (houts14 m)) (Frame14.hpost14 m (outs m) (pdats m) (hp14 m) (houts14 m))
    (Frame15.reg15 m (outs m) (pdats m) (hp15 m) (houts15 m)) (Frame15.hpre15 m (outs m) (pdats m) (hp15 m) (houts15 m)) (Frame15.hpost15 m (outs m) (pdats m) (hp15 m) (houts15 m))
    (Frame16.reg16 m (outs m) (pdats m) (hp16 m) (houts16 m)) (Frame16.hpre16 m (outs m) (pdats m) (hp16 m) (houts16 m)) (Frame16.hpost16 m (outs m) (pdats m) (hp16 m) (houts16 m)))

/-- The run with the result named and the arguments kept: the result buffer ends at the fold's last contents of it. -/
theorem run_value (ρ : Dev nD → PrngReg) :
    θ_run defs (onTc (τ := τ) (main (F := F))) ⟨m, fun _ => 0, ρ⟩ (fun r => ∀ c : Dev nD,
      r.2.mem ((c.tc : Thread nD τ).loc main_v284) = W51 m c main_v284
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨h c (Proc.devRef .tc main_v284) (Finset.mem_filter.mpr ⟨StableHlo.devRef_mem_tcRefs main_v284, by decide⟩),
     (h c (Proc.devRef .tc main_arg0) (Finset.mem_filter.mpr ⟨StableHlo.devRef_mem_tcRefs main_arg0, by decide⟩)).trans ((congrFun (e51 m c) _).symm.trans (V51_main_arg0 m (outs m) c)),
     (h c (Proc.devRef .tc main_arg1) (Finset.mem_filter.mpr ⟨StableHlo.devRef_mem_tcRefs main_arg1, by decide⟩)).trans ((congrFun (e51 m c) _).symm.trans (V51_main_arg1 m (outs m) c)),
     (h c (Proc.devRef .tc main_arg2) (Finset.mem_filter.mpr ⟨StableHlo.devRef_mem_tcRefs main_arg2, by decide⟩)).trans ((congrFun (e51 m c) _).symm.trans (V51_main_arg2 m (outs m) c)),
     (h c (Proc.devRef .tc main_arg3) (Finset.mem_filter.mpr ⟨StableHlo.devRef_mem_tcRefs main_arg3, by decide⟩)).trans ((congrFun (e51 m c) _).symm.trans (V51_main_arg3 m (outs m) c)),
     (h c (Proc.devRef .tc main_arg4) (Finset.mem_filter.mpr ⟨StableHlo.devRef_mem_tcRefs main_arg4, by decide⟩)).trans ((congrFun (e51 m c) _).symm.trans (V51_main_arg4 m (outs m) c)),
     (h c (Proc.devRef .tc main_arg5) (Finset.mem_filter.mpr ⟨StableHlo.devRef_mem_tcRefs main_arg5, by decide⟩)).trans ((congrFun (e51 m c) _).symm.trans (V51_main_arg5 m (outs m) c)),
     (h c (Proc.devRef .tc main_arg6) (Finset.mem_filter.mpr ⟨StableHlo.devRef_mem_tcRefs main_arg6, by decide⟩)).trans ((congrFun (e51 m c) _).symm.trans (V51_main_arg6 m (outs m) c)),
     (h c (Proc.devRef .tc main_arg7) (Finset.mem_filter.mpr ⟨StableHlo.devRef_mem_tcRefs main_arg7, by decide⟩)).trans ((congrFun (e51 m c) _).symm.trans (V51_main_arg7 m (outs m) c)),
     (h c (Proc.devRef .tc main_arg8) (Finset.mem_filter.mpr ⟨StableHlo.devRef_mem_tcRefs main_arg8, by decide⟩)).trans ((congrFun (e51 m c) _).symm.trans (V51_main_arg8 m (outs m) c)),
     (h c (Proc.devRef .tc main_arg9) (Finset.mem_filter.mpr ⟨StableHlo.devRef_mem_tcRefs main_arg9, by decide⟩)).trans ((congrFun (e51 m c) _).symm.trans (V51_main_arg9 m (outs m) c)),
     (h c (Proc.devRef .tc main_arg10) (Finset.mem_filter.mpr ⟨StableHlo.devRef_mem_tcRefs main_arg10, by decide⟩)).trans ((congrFun (e51 m c) _).symm.trans (V51_main_arg10 m (outs m) c)),
     (h c (Proc.devRef .tc main_arg11) (Finset.mem_filter.mpr ⟨StableHlo.devRef_mem_tcRefs main_arg11, by decide⟩)).trans ((congrFun (e51 m c) _).symm.trans (V51_main_arg11 m (outs m) c)),
     (h c (Proc.devRef .tc main_arg12) (Finset.mem_filter.mpr ⟨StableHlo.devRef_mem_tcRefs main_arg12, by decide⟩)).trans ((congrFun (e51 m c) _).symm.trans (V51_main_arg12 m (outs m) c)),
     (h c (Proc.devRef .tc main_arg13) (Finset.mem_filter.mpr ⟨StableHlo.devRef_mem_tcRefs main_arg13, by decide⟩)).trans ((congrFun (e51 m c) _).symm.trans (V51_main_arg13 m (outs m) c)),
     (h c (Proc.devRef .tc main_arg14) (Finset.mem_filter.mpr ⟨StableHlo.devRef_mem_tcRefs main_arg14, by decide⟩)).trans ((congrFun (e51 m c) _).symm.trans (V51_main_arg14 m (outs m) c)),
     (h c (Proc.devRef .tc main_arg15) (Finset.mem_filter.mpr ⟨StableHlo.devRef_mem_tcRefs main_arg15, by decide⟩)).trans ((congrFun (e51 m c) _).symm.trans (V51_main_arg15 m (outs m) c)),
     (h c (Proc.devRef .tc main_arg16) (Finset.mem_filter.mpr ⟨StableHlo.devRef_mem_tcRefs main_arg16, by decide⟩)).trans ((congrFun (e51 m c) _).symm.trans (V51_main_arg16 m (outs m) c)),
     (h c (Proc.devRef .tc main_arg17) (Finset.mem_filter.mpr ⟨StableHlo.devRef_mem_tcRefs main_arg17, by decide⟩)).trans ((congrFun (e51 m c) _).symm.trans (V51_main_arg17 m (outs m) c)),
     (h c (Proc.devRef .tc main_arg18) (Finset.mem_filter.mpr ⟨StableHlo.devRef_mem_tcRefs main_arg18, by decide⟩)).trans ((congrFun (e51 m c) _).symm.trans (V51_main_arg18 m (outs m) c)),
     (h c (Proc.devRef .tc main_arg19) (Finset.mem_filter.mpr ⟨StableHlo.devRef_mem_tcRefs main_arg19, by decide⟩)).trans ((congrFun (e51 m c) _).symm.trans (V51_main_arg19 m (outs m) c)),
     (h c (Proc.devRef .tc main_arg20) (Finset.mem_filter.mpr ⟨StableHlo.devRef_mem_tcRefs main_arg20, by decide⟩)).trans ((congrFun (e51 m c) _).symm.trans (V51_main_arg20 m (outs m) c)),
     (h c (Proc.devRef .tc main_arg21) (Finset.mem_filter.mpr ⟨StableHlo.devRef_mem_tcRefs main_arg21, by decide⟩)).trans ((congrFun (e51 m c) _).symm.trans (V51_main_arg21 m (outs m) c)),
     (h c (Proc.devRef .tc main_arg22) (Finset.mem_filter.mpr ⟨StableHlo.devRef_mem_tcRefs main_arg22, by decide⟩)).trans ((congrFun (e51 m c) _).symm.trans (V51_main_arg22 m (outs m) c)),
     (h c (Proc.devRef .tc main_arg23) (Finset.mem_filter.mpr ⟨StableHlo.devRef_mem_tcRefs main_arg23, by decide⟩)).trans ((congrFun (e51 m c) _).symm.trans (V51_main_arg23 m (outs m) c))⟩)
    (run m ρ)

end Cert.Kernel.Asm

end
-- ==== Proof.KIRun.lean ====
/- The conditional run of the idealized kernel: the conditional frame's proof with its final predicate strengthened from
  "every argument ends as launched" to "every unscoped buffer ends at the last valuation". The steps are the conditional
  frame's own, in its words; what changes is the post, the final predicate and the read-back at the end.
-/
import proofs.«146189_j40922448396571_2_alg».proof.Proof.KIRegions

-- decided memberships and the launch kit's enumerations over 652 references recurse past the default depth
set_option maxRecDepth 65536

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option maxHeartbeats 4000000 in
set_option backward.isDefEq.respectTransparency.types false in
/-- THE CONDITIONAL RUN. As the conditional frame, with the final predicate strengthened: every weakly fair execution of
    @main from memory m with zero counters terminates and every final memory holds EVERY unscoped buffer of core c at the
    last valuation V51 m outs c (so each argument as launched, and the result at what the last items leave). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 17) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 18 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE17 : ∀ c : Dev nD, E 17 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V19 m outs c) ∗ E 6 c) ⊢ R6.pre c)
    (hpost6 : ∀ c : Dev nD, R6.post c ⊢ iprop(StableHlo.held (c : Thread nD τ) (Pipeline.ucRefs τ sig) (V20 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V21 m outs c) ∗ E 7 c) ⊢ R7.pre c)
    (hpost7 : ∀ c : Dev nD, R7.post c ⊢ iprop(StableHlo.held (c : Thread nD τ) (Pipeline.ucRefs τ sig) (V22 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V25 m outs c) ∗ E 8 c) ⊢ R8.pre c)
    (hpost8 : ∀ c : Dev nD, R8.post c ⊢ iprop(StableHlo.held (c : Thread nD τ) (Pipeline.ucRefs τ sig) (V26 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V27 m outs c) ∗ E 9 c) ⊢ R9.pre c)
    (hpost9 : ∀ c : Dev nD, R9.post c ⊢ iprop(StableHlo.held (c : Thread nD τ) (Pipeline.ucRefs τ sig) (V28 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V31 m outs c) ∗ E 10 c) ⊢ R10.pre c)
    (hpost10 : ∀ c : Dev nD, R10.post c ⊢ iprop(StableHlo.held (c : Thread nD τ) (Pipeline.ucRefs τ sig) (V32 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V33 m outs c) ∗ E 11 c) ⊢ R11.pre c)
    (hpost11 : ∀ c : Dev nD, R11.post c ⊢ iprop(StableHlo.held (c : Thread nD τ) (Pipeline.ucRefs τ sig) (V34 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V37 m outs c) ∗ E 12 c) ⊢ R12.pre c)
    (hpost12 : ∀ c : Dev nD, R12.post c ⊢ iprop(StableHlo.held (c : Thread nD τ) (Pipeline.ucRefs τ sig) (V38 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V39 m outs c) ∗ E 13 c) ⊢ R13.pre c)
    (hpost13 : ∀ c : Dev nD, R13.post c ⊢ iprop(StableHlo.held (c : Thread nD τ) (Pipeline.ucRefs τ sig) (V40 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V43 m outs c) ∗ E 14 c) ⊢ R14.pre c)
    (hpost14 : ∀ c : Dev nD, R14.post c ⊢ iprop(StableHlo.held (c : Thread nD τ) (Pipeline.ucRefs τ sig) (V44 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V45 m outs c) ∗ E 15 c) ⊢ R15.pre c)
    (hpost15 : ∀ c : Dev nD, R15.post c ⊢ iprop(StableHlo.held (c : Thread nD τ) (Pipeline.ucRefs τ sig) (V46 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V49 m outs c) ∗ E 16 c) ⊢ R16.pre c)
    (hpost16 : ∀ c : Dev nD, R16.post c ⊢ iprop(StableHlo.held (c : Thread nD τ) (Pipeline.ucRefs τ sig) (V50 m outs c) ∗ E 17 c)) :
    θ_run defs (onTc (τ := τ) (main (F := F))) ⟨m, fun _ => 0, ρ⟩ (fun r => ∀ c : Dev nD, ∀ b ∈ Pipeline.ucRefs τ sig, r.2.mem (((c : Thread nD τ)).1, b) = V51 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16)
    (fun c Q => by
      rewrite [main_chain c, Seg.run_eq_chain,
        show (segs m outs 𝒱₀ L lv E ι pdats R0 R1 R2 R3 R4 R5 R6 R7 R8 R9 R10 R11 R12 R13 R14 R15 R16 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          Prog.lift (.customCall (Pipeline.entry 6) ()),
          StableHlo.seq hostOps7,
          Prog.lift (.customCall (Pipeline.entry 7) ()),
          StableHlo.seq hostOps8,
          StableHlo.seq hostOps8_1,
          StableHlo.seq hostOps8_2,
          Prog.lift (.customCall (Pipeline.entry 8) ()),
          StableHlo.seq hostOps9,
          Prog.lift (.customCall (Pipeline.entry 9) ()),
          StableHlo.seq hostOps10,
          StableHlo.seq hostOps10_1,
          StableHlo.seq hostOps10_2,
          Prog.lift (.customCall (Pipeline.entry 10) ()),
          StableHlo.seq hostOps11,
          Prog.lift (.customCall (Pipeline.entry 11) ()),
          StableHlo.seq hostOps12,
          StableHlo.seq hostOps12_1,
          StableHlo.seq hostOps12_2,
          Prog.lift (.customCall (Pipeline.entry 12) ()),
          StableHlo.seq hostOps13,
          Prog.lift (.customCall (Pipeline.entry 13) ()),
          StableHlo.seq hostOps14,
          StableHlo.seq hostOps14_1,
          StableHlo.seq hostOps14_2,
          Prog.lift (.customCall (Pipeline.entry 14) ()),
          StableHlo.seq hostOps15,
          Prog.lift (.customCall (Pipeline.entry 15) ()),
          StableHlo.seq hostOps16,
          StableHlo.seq hostOps16_1,
          StableHlo.seq hostOps16_2,
          Prog.lift (.customCall (Pipeline.entry 16) ()),
          StableHlo.seq hostOps17 ] from rfl]
      exact .rfl)
    (fun c => by simp only [segs, Seg.pipes_host, Seg.pipes_region, Seg.pipes_nil]; decide +kernel) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V51 m outs c))
    (hch := fun c => ⟨.rfl, hpre0 c, hpost0 c, hpre1 c, hpost1 c, .rfl, .rfl, hpre2 c, hpost2 c, hpre3 c, hpost3 c, .rfl, .rfl, hpre4 c, hpost4 c, hpre5 c, hpost5 c, .rfl, .rfl, hpre6 c, hpost6 c, hpre7 c, hpost7 c, .rfl, .rfl, hpre8 c, hpost8 c, hpre9 c, hpost9 c, .rfl, .rfl, hpre10 c, hpost10 c, hpre11 c, hpost11 c, .rfl, .rfl, hpre12 c, hpost12 c, hpre13 c, hpost13 c, .rfl, .rfl, hpre14 c, hpost14 c, hpre15 c, hpost15 c, .rfl, .rfl, hpre16 c, hpost16 c, sep_mono .rfl (hE17 c)⟩)
    (hinit := ?_) (QY := fun c s => ∀ b ∈ Pipeline.ucRefs τ sig, s.mem (((c : Thread nD τ)).1, b) = V51 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V51 m outs c) s') $$ [Hh HSI]
    · isplitl [Hh] <;> iassumption
    icases Hr with ⟨%h, HSI⟩
    imodintro
    isplitr
    · ipureintro
      exact h
    · iexact HSI

end Cert.KernelIdeal.Gen

end
-- ==== Proof.KIGlobals.lean ====
/-
  The choices every region of the idealized kernel's frame shares, and the three facts about them that the conditional
  frame asks for beside the regions' records.

  Nothing is ever owed between cores in this program (no core waits for another), so no level is assigned and the user
  algebra is the library's rounds algebra alone. What rides beside the unscoped buffers from one segment of @main to the
  next is the same on every boundary: the core's generator register at SOME state and the core owing nothing.
  * at launch the dealt resources give that rest state on every core at once (the staged semaphores and the launch
    credit are not needed and are dropped);
  * the rest state ends owing nothing.
-/
import proofs.«146189_j40922448396571_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

noncomputable section

namespace Cert.KernelIdeal.Glob

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The model of resources: no index of dues, the rounds algebra, levels in ℕ. -/
local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers through every segment. -/
abbrev R (c : Dev nD) : sProp 𝕄 :=
  iprop((∃ r, prngReg c r) ∗ ∃ W, owes (c : Thread nD τ) (0 : CellTallies nD τ sig Unit) W)

/-- The launch's ghost state is the rounds algebra's initial element; nothing else is handed out. -/
theorem hu₀ :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch every core gets its rest state: its generator register (at the launch state) and owing nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  have hc : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ R (F := F) c := by
    intro c
    iintro ⟨-, HO, -, Hp, -⟩
    isplitl [Hp]; · iexists _; iexact Hp
    iexists ∅; iexact HO
  have h1 : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => R (F := F) c) : sProp 𝕄) :=
    bigSep_mono fun c _ => hc c
  iintro ⟨H, -⟩
  imodintro
  iapply h1
  iexact H

/-- The rest state ends owing nothing. -/
theorem hEn (c : Dev nD) :
    R (F := F) c ⊢ (iprop(∃ W, owes (c : Thread nD τ) (0 : CellTallies nD τ sig Unit) W) : sProp 𝕄) := by
  iintro ⟨-, HO⟩
  iexact HO

end Cert.KernelIdeal.Glob

end
-- ==== Proof.KIFrameCond.lean ====
/- The frame of the idealized kernel from its seventeen regions' records alone: the conditional frame with everything
  that is not a region discharged by the shared choices (no dues, no levels, the rest state "generator register at some
  state, nothing owed" on every boundary). The seventeen hypothesis triples below are one row each of the table
  (region, valuation before it); the statement's post is the conditional frame's own.
-/
import proofs.«146189_j40922448396571_2_alg».proof.Proof.KIRegions
import proofs.«146189_j40922448396571_2_alg».proof.Proof.KIRun
import proofs.«146189_j40922448396571_2_alg».proof.Proof.KIGlobals

noncomputable section

namespace Cert.KernelIdeal.Glob

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

set_option backward.isDefEq.respectTransparency.types false in
set_option maxHeartbeats 1000000 in
/-- Every weakly fair execution of @main terminates with the argument arrays as launched, given a record per region
    entered from the valuation before it and left at the one after it, the rest state beside both. -/
theorem frame_of_records (m : (ℓ : Loc nD τ sig) → Buf (Elt F) ℓ) (ρ : Dev nD → PrngReg) (outs : Outs (F := F))
    (pdats : (p : Fin 17) → (c : Dev nD) → Dat τ (Elt F) Unit ℕ (UR sig nD τ) ℕ (cfgs p) c)
    (R0 : RegionSeg (pcfgs (F := F)) adm pdats () defs₀ 𝒱₀ L lv 0)
    (hpre0 : ∀ c : Dev nD, iprop(StableHlo.held (c : Thread nD τ) (Pipeline.ucRefs τ sig) (V1 m c) ∗ R (F := F) c) ⊢ R0.pre c)
    (hpost0 : ∀ c : Dev nD, R0.post c ⊢ iprop(StableHlo.held (c : Thread nD τ) (Pipeline.ucRefs τ sig) (V2 m outs c) ∗ R (F := F) c))
    (R1 : RegionSeg (pcfgs (F := F)) adm pdats () defs₀ 𝒱₀ L lv 1)
    (hpre1 : ∀ c : Dev nD, iprop(StableHlo.held (c : Thread nD τ) (Pipeline.ucRefs τ sig) (V3 m outs c) ∗ R (F := F) c) ⊢ R1.pre c)
    (hpost1 : ∀ c : Dev nD, R1.post c ⊢ iprop(StableHlo.held (c : Thread nD τ) (Pipeline.ucRefs τ sig) (V4 m outs c) ∗ R (F := F) c))
    (R2 : RegionSeg (pcfgs (F := F)) adm pdats () defs₀ 𝒱₀ L lv 2)
    (hpre2 : ∀ c : Dev nD, iprop(StableHlo.held (c : Thread nD τ) (Pipeline.ucRefs τ sig) (V7 m outs c) ∗ R (F := F) c) ⊢ R2.pre c)
    (hpost2 : ∀ c : Dev nD, R2.post c ⊢ iprop(StableHlo.held (c : Thread nD τ) (Pipeline.ucRefs τ sig) (V8 m outs c) ∗ R (F := F) c))
    (R3 : RegionSeg (pcfgs (F := F)) adm pdats () defs₀ 𝒱₀ L lv 3)
    (hpre3 : ∀ c : Dev nD, iprop(StableHlo.held (c : Thread nD τ) (Pipeline.ucRefs τ sig) (V9 m outs c) ∗ R (F := F) c) ⊢ R3.pre c)
    (hpost3 : ∀ c : Dev nD, R3.post c ⊢ iprop(StableHlo.held (c : Thread nD τ) (Pipeline.ucRefs τ sig) (V10 m outs c) ∗ R (F := F) c))
    (R4 : RegionSeg (pcfgs (F := F)) adm pdats () defs₀ 𝒱₀ L lv 4)
    (hpre4 : ∀ c : Dev nD, iprop(StableHlo.held (c : Thread nD τ) (Pipeline.ucRefs τ sig) (V13 m outs c) ∗ R (F := F) c) ⊢ R4.pre c)
    (hpost4 : ∀ c : Dev nD, R4.post c ⊢ iprop(StableHlo.held (c : Thread nD τ) (Pipeline.ucRefs τ sig) (V14 m outs c) ∗ R (F := F) c))
    (R5 : RegionSeg (pcfgs (F := F)) adm pdats () defs₀ 𝒱₀ L lv 5)
    (hpre5 : ∀ c : Dev nD, iprop(StableHlo.held (c : Thread nD τ) (Pipeline.ucRefs τ sig) (V15 m outs c) ∗ R (F := F) c) ⊢ R5.pre c)
    (hpost5 : ∀ c : Dev nD, R5.post c ⊢ iprop(StableHlo.held (c : Thread nD τ) (Pipeline.ucRefs τ sig) (V16 m outs c) ∗ R (F := F) c))
    (R6 : RegionSeg (pcfgs (F := F)) adm pdats () defs₀ 𝒱₀ L lv 6)
    (hpre6 : ∀ c : Dev nD, iprop(StableHlo.held (c : Thread nD τ) (Pipeline.ucRefs τ sig) (V19 m outs c) ∗ R (F := F) c) ⊢ R6.pre c)
    (hpost6 : ∀ c : Dev nD, R6.post c ⊢ iprop(StableHlo.held (c : Thread nD τ) (Pipeline.ucRefs τ sig) (V20 m outs c) ∗ R (F := F) c))
    (R7 : RegionSeg (pcfgs (F := F)) adm pdats () defs₀ 𝒱₀ L lv 7)
    (hpre7 : ∀ c : Dev nD, iprop(StableHlo.held (c : Thread nD τ) (Pipeline.ucRefs τ sig) (V21 m outs c) ∗ R (F := F) c) ⊢ R7.pre c)
    (hpost7 : ∀ c : Dev nD, R7.post c ⊢ iprop(StableHlo.held (c : Thread nD τ) (Pipeline.ucRefs τ sig) (V22 m outs c) ∗ R (F := F) c))
    (R8 : RegionSeg (pcfgs (F := F)) adm pdats () defs₀ 𝒱₀ L lv 8)
    (hpre8 : ∀ c : Dev nD, iprop(StableHlo.held (c : Thread nD τ) (Pipeline.ucRefs τ sig) (V25 m outs c) ∗ R (F := F) c) ⊢ R8.pre c)
    (hpost8 : ∀ c : Dev nD, R8.post c ⊢ iprop(StableHlo.held (c : Thread nD τ) (Pipeline.ucRefs τ sig) (V26 m outs c) ∗ R (F := F) c))
    (R9 : RegionSeg (pcfgs (F := F)) adm pdats () defs₀ 𝒱₀ L lv 9)
    (hpre9 : ∀ c : Dev nD, iprop(StableHlo.held (c : Thread nD τ) (Pipeline.ucRefs τ sig) (V27 m outs c) ∗ R (F := F) c) ⊢ R9.pre c)
    (hpost9 : ∀ c : Dev nD, R9.post c ⊢ iprop(StableHlo.held (c : Thread nD τ) (Pipeline.ucRefs τ sig) (V28 m outs c) ∗ R (F := F) c))
    (R10 : RegionSeg (pcfgs (F := F)) adm pdats () defs₀ 𝒱₀ L lv 10)
    (hpre10 : ∀ c : Dev nD, iprop(StableHlo.held (c : Thread nD τ) (Pipeline.ucRefs τ sig) (V31 m outs c) ∗ R (F := F) c) ⊢ R10.pre c)
    (hpost10 : ∀ c : Dev nD, R10.post c ⊢ iprop(StableHlo.held (c : Thread nD τ) (Pipeline.ucRefs τ sig) (V32 m outs c) ∗ R (F := F) c))
    (R11 : RegionSeg (pcfgs (F := F)) adm pdats () defs₀ 𝒱₀ L lv 11)
    (hpre11 : ∀ c : Dev nD, iprop(StableHlo.held (c : Thread nD τ) (Pipeline.ucRefs τ sig) (V33 m outs c) ∗ R (F := F) c) ⊢ R11.pre c)
    (hpost11 : ∀ c : Dev nD, R11.post c ⊢ iprop(StableHlo.held (c : Thread nD τ) (Pipeline.ucRefs τ sig) (V34 m outs c) ∗ R (F := F) c))
    (R12 : RegionSeg (pcfgs (F := F)) adm pdats () defs₀ 𝒱₀ L lv 12)
    (hpre12 : ∀ c : Dev nD, iprop(StableHlo.held (c : Thread nD τ) (Pipeline.ucRefs τ sig) (V37 m outs c) ∗ R (F := F) c) ⊢ R12.pre c)
    (hpost12 : ∀ c : Dev nD, R12.post c ⊢ iprop(StableHlo.held (c : Thread nD τ) (Pipeline.ucRefs τ sig) (V38 m outs c) ∗ R (F := F) c))
    (R13 : RegionSeg (pcfgs (F := F)) adm pdats () defs₀ 𝒱₀ L lv 13)
    (hpre13 : ∀ c : Dev nD, iprop(StableHlo.held (c : Thread nD τ) (Pipeline.ucRefs τ sig) (V39 m outs c) ∗ R (F := F) c) ⊢ R13.pre c)
    (hpost13 : ∀ c : Dev nD, R13.post c ⊢ iprop(StableHlo.held (c : Thread nD τ) (Pipeline.ucRefs τ sig) (V40 m outs c) ∗ R (F := F) c))
    (R14 : RegionSeg (pcfgs (F := F)) adm pdats () defs₀ 𝒱₀ L lv 14)
    (hpre14 : ∀ c : Dev nD, iprop(StableHlo.held (c : Thread nD τ) (Pipeline.ucRefs τ sig) (V43 m outs c) ∗ R (F := F) c) ⊢ R14.pre c)
    (hpost14 : ∀ c : Dev nD, R14.post c ⊢ iprop(StableHlo.held (c : Thread nD τ) (Pipeline.ucRefs τ sig) (V44 m outs c) ∗ R (F := F) c))
    (R15 : RegionSeg (pcfgs (F := F)) adm pdats () defs₀ 𝒱₀ L lv 15)
    (hpre15 : ∀ c : Dev nD, iprop(StableHlo.held (c : Thread nD τ) (Pipeline.ucRefs τ sig) (V45 m outs c) ∗ R (F := F) c) ⊢ R15.pre c)
    (hpost15 : ∀ c : Dev nD, R15.post c ⊢ iprop(StableHlo.held (c : Thread nD τ) (Pipeline.ucRefs τ sig) (V46 m outs c) ∗ R (F := F) c))
    (R16 : RegionSeg (pcfgs (F := F)) adm pdats () defs₀ 𝒱₀ L lv 16)
    (hpre16 : ∀ c : Dev nD, iprop(StableHlo.held (c : Thread nD τ) (Pipeline.ucRefs τ sig) (V49 m outs c) ∗ R (F := F) c) ⊢ R16.pre c)
    (hpost16 : ∀ c : Dev nD, R16.post c ⊢ iprop(StableHlo.held (c : Thread nD τ) (Pipeline.ucRefs τ sig) (V50 m outs c) ∗ R (F := F) c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_cond m emb₁ () 𝒱₀ L lv (fun _ _ => rfl) ρ outs pdats 0 (fun _ => iprop(emp))
    (initOf (Pipeline.cells cfgs cellOf_inj) (Pipeline.launchToks cfgs cellOf_inj)) hu₀
    (fun _ c => R (F := F) c) (hE0 ρ) hEn
    R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12 R13 hpre13 hpost13 R14 hpre14 hpost14 R15 hpre15 hpost15 R16 hpre16 hpost16

set_option backward.isDefEq.respectTransparency.types false in
set_option maxHeartbeats 1000000 in
/-- The same with every unscoped buffer named: each ends at the last valuation. -/
theorem run_of_records (m : (ℓ : Loc nD τ sig) → Buf (Elt F) ℓ) (ρ : Dev nD → PrngReg) (outs : Outs (F := F))
    (pdats : (p : Fin 17) → (c : Dev nD) → Dat τ (Elt F) Unit ℕ (UR sig nD τ) ℕ (cfgs p) c)
    (R0 : RegionSeg (pcfgs (F := F)) adm pdats () defs₀ 𝒱₀ L lv 0)
    (hpre0 : ∀ c : Dev nD, iprop(StableHlo.held (c : Thread nD τ) (Pipeline.ucRefs τ sig) (V1 m c) ∗ R (F := F) c) ⊢ R0.pre c)
    (hpost0 : ∀ c : Dev nD, R0.post c ⊢ iprop(StableHlo.held (c : Thread nD τ) (Pipeline.ucRefs τ sig) (V2 m outs c) ∗ R (F := F) c))
    (R1 : RegionSeg (pcfgs (F := F)) adm pdats () defs₀ 𝒱₀ L lv 1)
    (hpre1 : ∀ c : Dev nD, iprop(StableHlo.held (c : Thread nD τ) (Pipeline.ucRefs τ sig) (V3 m outs c) ∗ R (F := F) c) ⊢ R1.pre c)
    (hpost1 : ∀ c : Dev nD, R1.post c ⊢ iprop(StableHlo.held (c : Thread nD τ) (Pipeline.ucRefs τ sig) (V4 m outs c) ∗ R (F := F) c))
    (R2 : RegionSeg (pcfgs (F := F)) adm pdats () defs₀ 𝒱₀ L lv 2)
    (hpre2 : ∀ c : Dev nD, iprop(StableHlo.held (c : Thread nD τ) (Pipeline.ucRefs τ sig) (V7 m outs c) ∗ R (F := F) c) ⊢ R2.pre c)
    (hpost2 : ∀ c : Dev nD, R2.post c ⊢ iprop(StableHlo.held (c : Thread nD τ) (Pipeline.ucRefs τ sig) (V8 m outs c) ∗ R (F := F) c))
    (R3 : RegionSeg (pcfgs (F := F)) adm pdats () defs₀ 𝒱₀ L lv 3)
    (hpre3 : ∀ c : Dev nD, iprop(StableHlo.held (c : Thread nD τ) (Pipeline.ucRefs τ sig) (V9 m outs c) ∗ R (F := F) c) ⊢ R3.pre c)
    (hpost3 : ∀ c : Dev nD, R3.post c ⊢ iprop(StableHlo.held (c : Thread nD τ) (Pipeline.ucRefs τ sig) (V10 m outs c) ∗ R (F := F) c))
    (R4 : RegionSeg (pcfgs (F := F)) adm pdats () defs₀ 𝒱₀ L lv 4)
    (hpre4 : ∀ c : Dev nD, iprop(StableHlo.held (c : Thread nD τ) (Pipeline.ucRefs τ sig) (V13 m outs c) ∗ R (F := F) c) ⊢ R4.pre c)
    (hpost4 : ∀ c : Dev nD, R4.post c ⊢ iprop(StableHlo.held (c : Thread nD τ) (Pipeline.ucRefs τ sig) (V14 m outs c) ∗ R (F := F) c))
    (R5 : RegionSeg (pcfgs (F := F)) adm pdats () defs₀ 𝒱₀ L lv 5)
    (hpre5 : ∀ c : Dev nD, iprop(StableHlo.held (c : Thread nD τ) (Pipeline.ucRefs τ sig) (V15 m outs c) ∗ R (F := F) c) ⊢ R5.pre c)
    (hpost5 : ∀ c : Dev nD, R5.post c ⊢ iprop(StableHlo.held (c : Thread nD τ) (Pipeline.ucRefs τ sig) (V16 m outs c) ∗ R (F := F) c))
    (R6 : RegionSeg (pcfgs (F := F)) adm pdats () defs₀ 𝒱₀ L lv 6)
    (hpre6 : ∀ c : Dev nD, iprop(StableHlo.held (c : Thread nD τ) (Pipeline.ucRefs τ sig) (V19 m outs c) ∗ R (F := F) c) ⊢ R6.pre c)
    (hpost6 : ∀ c : Dev nD, R6.post c ⊢ iprop(StableHlo.held (c : Thread nD τ) (Pipeline.ucRefs τ sig) (V20 m outs c) ∗ R (F := F) c))
    (R7 : RegionSeg (pcfgs (F := F)) adm pdats () defs₀ 𝒱₀ L lv 7)
    (hpre7 : ∀ c : Dev nD, iprop(StableHlo.held (c : Thread nD τ) (Pipeline.ucRefs τ sig) (V21 m outs c) ∗ R (F := F) c) ⊢ R7.pre c)
    (hpost7 : ∀ c : Dev nD, R7.post c ⊢ iprop(StableHlo.held (c : Thread nD τ) (Pipeline.ucRefs τ sig) (V22 m outs c) ∗ R (F := F) c))
    (R8 : RegionSeg (pcfgs (F := F)) adm pdats () defs₀ 𝒱₀ L lv 8)
    (hpre8 : ∀ c : Dev nD, iprop(StableHlo.held (c : Thread nD τ) (Pipeline.ucRefs τ sig) (V25 m outs c) ∗ R (F := F) c) ⊢ R8.pre c)
    (hpost8 : ∀ c : Dev nD, R8.post c ⊢ iprop(StableHlo.held (c : Thread nD τ) (Pipeline.ucRefs τ sig) (V26 m outs c) ∗ R (F := F) c))
    (R9 : RegionSeg (pcfgs (F := F)) adm pdats () defs₀ 𝒱₀ L lv 9)
    (hpre9 : ∀ c : Dev nD, iprop(StableHlo.held (c : Thread nD τ) (Pipeline.ucRefs τ sig) (V27 m outs c) ∗ R (F := F) c) ⊢ R9.pre c)
    (hpost9 : ∀ c : Dev nD, R9.post c ⊢ iprop(StableHlo.held (c : Thread nD τ) (Pipeline.ucRefs τ sig) (V28 m outs c) ∗ R (F := F) c))
    (R10 : RegionSeg (pcfgs (F := F)) adm pdats () defs₀ 𝒱₀ L lv 10)
    (hpre10 : ∀ c : Dev nD, iprop(StableHlo.held (c : Thread nD τ) (Pipeline.ucRefs τ sig) (V31 m outs c) ∗ R (F := F) c) ⊢ R10.pre c)
    (hpost10 : ∀ c : Dev nD, R10.post c ⊢ iprop(StableHlo.held (c : Thread nD τ) (Pipeline.ucRefs τ sig) (V32 m outs c) ∗ R (F := F) c))
    (R11 : RegionSeg (pcfgs (F := F)) adm pdats () defs₀ 𝒱₀ L lv 11)
    (hpre11 : ∀ c : Dev nD, iprop(StableHlo.held (c : Thread nD τ) (Pipeline.ucRefs τ sig) (V33 m outs c) ∗ R (F := F) c) ⊢ R11.pre c)
    (hpost11 : ∀ c : Dev nD, R11.post c ⊢ iprop(StableHlo.held (c : Thread nD τ) (Pipeline.ucRefs τ sig) (V34 m outs c) ∗ R (F := F) c))
    (R12 : RegionSeg (pcfgs (F := F)) adm pdats () defs₀ 𝒱₀ L lv 12)
    (hpre12 : ∀ c : Dev nD, iprop(StableHlo.held (c : Thread nD τ) (Pipeline.ucRefs τ sig) (V37 m outs c) ∗ R (F := F) c) ⊢ R12.pre c)
    (hpost12 : ∀ c : Dev nD, R12.post c ⊢ iprop(StableHlo.held (c : Thread nD τ) (Pipeline.ucRefs τ sig) (V38 m outs c) ∗ R (F := F) c))
    (R13 : RegionSeg (pcfgs (F := F)) adm pdats () defs₀ 𝒱₀ L lv 13)
    (hpre13 : ∀ c : Dev nD, iprop(StableHlo.held (c : Thread nD τ) (Pipeline.ucRefs τ sig) (V39 m outs c) ∗ R (F := F) c) ⊢ R13.pre c)
    (hpost13 : ∀ c : Dev nD, R13.post c ⊢ iprop(StableHlo.held (c : Thread nD τ) (Pipeline.ucRefs τ sig) (V40 m outs c) ∗ R (F := F) c))
    (R14 : RegionSeg (pcfgs (F := F)) adm pdats () defs₀ 𝒱₀ L lv 14)
    (hpre14 : ∀ c : Dev nD, iprop(StableHlo.held (c : Thread nD τ) (Pipeline.ucRefs τ sig) (V43 m outs c) ∗ R (F := F) c) ⊢ R14.pre c)
    (hpost14 : ∀ c : Dev nD, R14.post c ⊢ iprop(StableHlo.held (c : Thread nD τ) (Pipeline.ucRefs τ sig) (V44 m outs c) ∗ R (F := F) c))
    (R15 : RegionSeg (pcfgs (F := F)) adm pdats () defs₀ 𝒱₀ L lv 15)
    (hpre15 : ∀ c : Dev nD, iprop(StableHlo.held (c : Thread nD τ) (Pipeline.ucRefs τ sig) (V45 m outs c) ∗ R (F := F) c) ⊢ R15.pre c)
    (hpost15 : ∀ c : Dev nD, R15.post c ⊢ iprop(StableHlo.held (c : Thread nD τ) (Pipeline.ucRefs τ sig) (V46 m outs c) ∗ R (F := F) c))
    (R16 : RegionSeg (pcfgs (F := F)) adm pdats () defs₀ 𝒱₀ L lv 16)
    (hpre16 : ∀ c : Dev nD, iprop(StableHlo.held (c : Thread nD τ) (Pipeline.ucRefs τ sig) (V49 m outs c) ∗ R (F := F) c) ⊢ R16.pre c)
    (hpost16 : ∀ c : Dev nD, R16.post c ⊢ iprop(StableHlo.held (c : Thread nD τ) (Pipeline.ucRefs τ sig) (V50 m outs c) ∗ R (F := F) c)) :
    θ_run defs (onTc (τ := τ) (main (F := F))) ⟨m, fun _ => 0, ρ⟩ (fun r => ∀ c : Dev nD, ∀ b ∈ Pipeline.ucRefs τ sig, r.2.mem (((c : Thread nD τ)).1, b) = V51 m outs c b) :=
  run_cond m emb₁ () 𝒱₀ L lv (fun _ _ => rfl) ρ outs pdats 0 (fun _ => iprop(emp))
    (initOf (Pipeline.cells cfgs cellOf_inj) (Pipeline.launchToks cfgs cellOf_inj)) hu₀
    (fun _ c => R (F := F) c) (hE0 ρ) hEn
    R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12 R13 hpre13 hpost13 R14 hpre14 hpost14 R15 hpre15 hpost15 R16 hpre16 hpost16

end Cert.KernelIdeal.Glob

end
-- ==== Proof.KIRegion0Body.lean ====
/- Region 0 of the idealized kernel program (custom_call 0, the 16 → 256 matmul): the class-A half of its frame,
   stated at a parameter `V` — the TensorCore's buffer contents when the region is entered. For each window its
   block at a grid point, the contents the body leaves in the output window's buffer as a function of the two
   input blocks, the body's triple, the pipeline's proof data and the library's body obligation. Generic in the
   float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 0 is entered
variable (V : (c : Dev nD) → (b : Ref sig .tc) → Buf (Elt F) ((c : Thread nD τ).loc b))

/-! ## The blocks of the three windows -/

/-- The block of window `w` at grid point `t`: the window's rectangle at `t` read off the window's array as the
    region finds it. Window 0 is rows `5000 t … 5000 t + 4999` of the [100000,16] operand, window 1 the whole
    [16,256] weight, window 2 the same rows of the [100000,256] result. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The row-block input (window 0): whatever proof data has the entry contents as its array and a body that leaves
    the block where it is, the staging buffer the body is handed at `t` holds the block at `t` — it was fetched
    at `t`, or its index has not moved since it was. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  refine (dat.before_in_eq_fetched 0 rfl (fun _ => rfl) (fun _ _ _ => rfl) (fun t => ?_) t d).trans ?_
  · rw [hafter]; unfold Dat.blockOf iblk0; rw [hA]; try rfl
  · unfold Dat.fetched Dat.blockOf iblk0; rw [hA]; try rfl

/-- The weight input (window 1, fetched once, its index constant): the same statement. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  refine (dat.before_in_eq_fetched 1 rfl (fun _ => rfl) (fun _ _ _ => rfl) (fun t => ?_) t d).trans ?_
  · rw [hafter]; unfold Dat.blockOf iblk0; rw [hA]; try rfl
  · unfold Dat.fetched Dat.blockOf iblk0; rw [hA]; try rfl

/-! ## The rectangles the body reads and writes: each staging buffer whole -/

abbrev r0_0 : Rect S5000x16 := Rect.unit (s := S5000x16) ![0, 0] S5000x16.size inb_S5000x16_S5000x16_0_0
abbrev r0_1 : Rect S16x256 := Rect.unit (s := S16x256) ![0, 0] S16x256.size inb_S16x256_S16x256_0_0
abbrev r0_2 : Rect S5000x256 := Rect.unit (s := S5000x256) ![0, 0] S5000x256.size inb_S5000x256_S5000x256_0_0

/-! ## What the body leaves in the output window's buffer -/

/-- The output staging buffer after the body, from the two input blocks: its one store, of the matmul payload of the
    two whole-buffer loads, written as a one-piece list. -/
def out0_2 (x0 : Vec F S5000x16 .f32) (x1 : Vec F S16x256 .f32) : Vec F S5000x256 .f32 :=
  View.canon [⟨r0_2, k0_pay1 (View.ld x0 r0_0) (View.ld x1 r0_1)⟩]

/-- The one store is of the whole buffer, so every index of the buffer lies in it. -/
theorem cover0_2 (p : Vec F S5000x256 .f32) (y : S5000x256.Idx) :
    ∃ pc ∈ ([⟨r0_2, p⟩] : List (View.Piece (Elt F) S5000x256 .f32)), y ∈ pc.1.set :=
  View.cover_of_tiled [⟨r0_2, p⟩] S5000x256.size (by rfl) y

/-! ## The body's triple -/

set_option maxHeartbeats 1000000 in
/-- The body at any grid coordinate `i`, on whole staging memrefs: the two inputs' read `x0`, `x1`, the output's
    holds anything. It runs to the continuation with the inputs' as they were and the output's at `out0_2 x0 x1`.
    (The body also loads the output buffer before storing to it; the loaded value is not used.) -/
theorem sound_kernel0 (c : Dev nD) (E : Set ℕ) (i : grid0.Coords)
    (arg1 : Memref sig .tc .vmem S5000x16 .f32) (harg1 : arg1.IsWhole)
    (arg2 : Memref sig .tc .vmem S16x256 .f32) (harg2 : arg2.IsWhole)
    (arg3 : Memref sig .tc .vmem S5000x256 .f32) (harg3 : arg3.IsWhole)
    (x0 : Vec F S5000x16 .f32) (x1 : Vec F S16x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__agg_kernel i arg1 harg1 arg2 harg2 arg3 harg3) K := by
  simp only [cc0__agg_kernel_eq_skeleton]; unfold cc0__agg_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- Region 0's proof data on core `c`: the three arrays as the region finds them; after the body at point `t` the two
    inputs' buffers at their blocks and the output's at `out0_2` of those blocks; the invariant the scoped rest and
    the generator register, untouched (`Pipeline.ΦA`); full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents (the structure projected; `V` is never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- What the body is handed in each input's buffer: its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`: the invariant, the core's dues, and each window's current staging
    buffer at what the pipeline put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same, each buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at a point: the inputs' buffers hold their blocks, so the body's triple applies at those blocks; the
    invariant and the dues are not read. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the proof data, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame0

end
-- ==== Proof.KIRegion0.lean ====
/- Region 0 of the idealized kernel program (custom_call 0) as a segment of @main: entered from every unscoped
   buffer at the contents after the first host stretch, left with the result array `main_v21` at what the pipeline's
   write-backs leave and every other buffer as entered. Stated over an arbitrary family of proof data whose member
   at pipeline 0 is this region's (`hp0`), and over any `outs` that names the result's final contents (`houts`). -/
import proofs.«146189_j40922448396571_2_alg».proof.Proof.KIRegions
import proofs.«146189_j40922448396571_2_alg».proof.Proof.KIRegion0Body

set_option maxRecDepth 16384

noncomputable section

namespace Cert.KernelIdeal.Frame0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: after the first host stretch. -/
abbrev VV1 : (c : Dev nD) → (b : Ref sig .tc) → Buf (Elt F) ((c : Thread nD τ).loc b) := fun c b => V1 m c b
/-- Exit: the same with `main_v21` at `outs 2 main_v21`. -/
abbrev VV2 : (c : Dev nD) → (b : Ref sig .tc) → Buf (Elt F) ((c : Thread nD τ).loc b) := fun c b => V2 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 0 -/

variable (pdats : (p : Fin 17) → (c : Dev nD) → Dat τ (Elt F) Unit ℕ (UR sig nD τ) ℕ (cfgs p) c)

section Pinned
variable (hp0 : ∀ c, pdats 0 c = dat0 (VV1 m) c)
include hp0

theorem pd0_q (c : Dev nD) (w : Fin cfg0.W) : (pdats 0 c).q w = fullShare := by rw [hp0 c]; rfl
theorem pd0_owed (c : Dev nD) (t) : (pdats 0 c).owed t = 0 := by rw [hp0 c]; rfl
theorem pd0_A (c : Dev nD) (w : Fin cfg0.W) : (pdats 0 c).A w = VV1 m c (Pipeline.arrRef spec0 w) := by
  rw [hp0 c]; exact A_eq0 (VV1 m) c w
theorem pd0_Φ (c : Dev nD) (t) : (pdats 0 c).Φ t = Pipeline.ΦA spec0 c := by rw [hp0 c]; rfl
theorem pd0_recorded (c : Dev nD) (t) : (pdats 0 c).recorded t = Set.univ := by rw [hp0 c]; rfl

end Pinned

/-! ## The exit contents, at the region's arrays and off them -/

section Exit
variable (hp0 : ∀ c, pdats 0 c = dat0 (VV1 m) c)
  (houts : ∀ c, outs 2 main_v21 c = (dat0 (VV1 m) c).arrAt 2 cfg0.N)

include hp0 in
/-- The row-block operand's array ends as entered: no window writes it, and it is not the result's reference. -/
theorem hF0_0 (c : Dev nD) : (pdats 0 c).arrAt 0 cfg0.N = VV2 m outs c (Pipeline.arrRef spec0 0) := by
  rw [hp0 c]
  refine ((dat0 (VV1 m) c).arrAt_in 0 rfl _).trans ((A_eq0 (VV1 m) c 0).trans ?_)
  exact (Function.update_of_ne (StableHlo.devRef_ne_of_ne (by decide)) _ _).symm

include hp0 in
/-- So does the weight's. -/
theorem hF0_1 (c : Dev nD) : (pdats 0 c).arrAt 1 cfg0.N = VV2 m outs c (Pipeline.arrRef spec0 1) := by
  rw [hp0 c]
  refine ((dat0 (VV1 m) c).arrAt_in 1 rfl _).trans ((A_eq0 (VV1 m) c 1).trans ?_)
  exact (Function.update_of_ne (StableHlo.devRef_ne_of_ne (by decide)) _ _).symm

include hp0 houts in
/-- The result's array ends at what the write-backs leave, which is what `outs` names. -/
theorem hF0_2 (c : Dev nD) : (pdats 0 c).arrAt 2 cfg0.N = VV2 m outs c (Pipeline.arrRef spec0 2) := by
  rw [hp0 c, ← houts c]
  exact (Function.update_self (Proc.devRef (τ := τ) .tc main_v21) (outs 2 main_v21 c) (V1 m c)).symm

include hp0 houts in
theorem hF0 (c : Dev nD) : ∀ w : Fin cfg0.W, (pdats 0 c).arrAt w cfg0.N = VV2 m outs c (Pipeline.arrRef spec0 w)
  | ⟨0, _⟩ => hF0_0 m outs pdats hp0 c
  | ⟨1, _⟩ => hF0_1 m outs pdats hp0 c
  | ⟨2, _⟩ => hF0_2 m outs pdats hp0 houts c

/-- Off the region's three arrays the exit contents are the entry contents: only `main_v21` is updated, and it is
    window 2's array. -/
theorem hrest0 (c : Dev nD) : ∀ b, b ∉ Finset.univ.image (Pipeline.arrRef spec0) → VV2 m outs c b = VV1 m c b :=
  fun b hb => Function.update_of_ne
    (fun e => hb (Finset.mem_image.mpr ⟨2, Finset.mem_univ _, (Proc.devRef_injective _ e).symm⟩)) _ _

end Exit

/-! ## The region as a segment -/

section Record
variable (hp0 : ∀ c, pdats 0 c = dat0 (VV1 m) c)
  (houts : ∀ c, outs 2 main_v21 c = (dat0 (VV1 m) c).arrAt 2 cfg0.N)

-- a library lemma stated over the pinned configuration `pin pcs a p` is applied to the printed one: unification has
-- to unfold plain definitions in a metavariable's type
set_option backward.isDefEq.respectTransparency.types false in
/-- Region 0 over the thread state "every unscoped buffer at the boundary's contents, beside `R`". Entry: the three
    arrays are split out of the unscoped buffers at the entry contents; the generator register goes into the
    invariant; nothing is owed; the kernel has no semaphore of its own. Exit: the arrays are put back at the exit
    contents (`hF0`, `hrest0`) and the register comes back. -/
def reg0 : RegionSeg (pcfgs (F := F)) adm pdats () defs₀ 𝒱₀ L lv 0 where
  win := launch0.win.to₀
  block_pos := launch0.block_pos
  stage_whole := launch0.stage_whole
  K := PEmpty
  osem k := k.elim
  ho := Pipeline.OwnSemFacts.none _
  hbody c := by rw [hp0 c]; exact (body_obligation0 (VV1 m) c).loose
  hwaits := Pipeline.hwaits_of_owed_zero _ _ _ _ L lv 0 fun c t => pd0_owed m pdats hp0 c t
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm pdats launch0.win launch0.arr_whole c
      ((pdats 0 c).share_full fun w => pd0_q m pdats hp0 c w) (VV1 m c) fun w => pd0_A m pdats hp0 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd0_owed m pdats hp0 c]
      icases HO with ⟨%W, HO⟩; iexists W; isplitr; · ipureintro; exact fun x _ => Or.inl (by rw [pd0_recorded m pdats hp0 c]; exact Set.mem_univ x)
      iexact HO
    isplitl [Hp]; · iexact Hp
    iexact Hrest
  hin c := by
    rw [pd0_Φ m pdats hp0 c 0]; unfold Pipeline.ΦA
    iintro ⟨Hp, -, Hr⟩
    isplitl [Hr]; · iexact Hr
    iexact Hp
  hout c := by
    rw [Pipeline.ownSems0_none, pd0_Φ m pdats hp0 c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats ((pdats 0 c).share_full fun w => pd0_q m pdats hp0 c w)
      (VV1 m c) (VV2 m outs c) ((pdats 0 c).arrAt · cfg0.N) (hF0 m outs pdats hp0 houts c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd0_owed m pdats hp0 c]
    icases HO with ⟨%W, -, HO⟩; iexists W; iexact HO

/-- The record is entered from the conditional frame's thread state before item 1 (with the rest state `R`), -/
theorem hpre0 (c : Dev nD) :
    iprop(StableHlo.held (c : Thread nD τ) (Pipeline.ucRefs τ sig) (V1 m c) ∗ R (F := F) c)
      ⊢ (reg0 m outs pdats hp0 houts).pre c := .rfl

/-- and left at the one after it. -/
theorem hpost0 (c : Dev nD) :
    (reg0 m outs pdats hp0 houts).post c
      ⊢ iprop(StableHlo.held (c : Thread nD τ) (Pipeline.ucRefs τ sig) (V2 m outs c) ∗ R (F := F) c) := .rfl

end Record

end Cert.KernelIdeal.Frame0

end
-- ==== Proof.KIRegion1Body.lean ====
/- Region 1 of the idealized kernel program (custom_call 1: a 64 → 64 matmul, plus a bias row, plus a second
   operand added elementwise): the class-A half of its frame, stated at a parameter `V` — the TensorCore's buffer
   contents when the region is entered. For each of the five windows its block at a grid point, the contents the body
   leaves in the output window's buffer as a function of the four input blocks, the body's triple, the pipeline's
   proof data and the library's body obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 1 is entered
variable (V : (c : Dev nD) → (b : Ref sig .tc) → Buf (Elt F) ((c : Thread nD τ).loc b))

/-! ## The blocks of the five windows -/

/-- The block of window `w` at grid point `t`: the window's rectangle at `t` read off the window's array as the
    region finds it. Window 0 is rows `5000 t … 5000 t + 4999` of the [100000,64] left operand, window 1 the whole
    [64,64] weight, window 2 the whole [1,64] bias row, window 3 the same rows of the [100000,64] operand that is
    added, window 4 the same rows of the [100000,64] result. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- An input window whose body leaves its block where it is: whatever proof data has the entry contents as the
    window's array and the block as what the body leaves, the staging buffer the body is handed at `t` holds the block
    at `t` — it was fetched at `t`, or the window's index has not moved since it was. Window 0, the row block of
    the left operand (fetched at every point). -/
theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  refine (dat.before_in_eq_fetched 0 rfl (fun _ => rfl) (fun _ _ _ => rfl) (fun t => ?_) t d).trans ?_
  · rw [hafter]; unfold Dat.blockOf iblk1; rw [hA]; try rfl
  · unfold Dat.fetched Dat.blockOf iblk1; rw [hA]; try rfl

/-- Window 1, the weight (fetched once; its index is constant): the same statement. -/
theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  refine (dat.before_in_eq_fetched 1 rfl (fun _ => rfl) (fun _ _ _ => rfl) (fun t => ?_) t d).trans ?_
  · rw [hafter]; unfold Dat.blockOf iblk1; rw [hA]; try rfl
  · unfold Dat.fetched Dat.blockOf iblk1; rw [hA]; try rfl

/-- Window 2, the bias row (fetched once; its index is constant): the same statement. -/
theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  refine (dat.before_in_eq_fetched 2 rfl (fun _ => rfl) (fun _ _ _ => rfl) (fun t => ?_) t d).trans ?_
  · rw [hafter]; unfold Dat.blockOf iblk1; rw [hA]; try rfl
  · unfold Dat.fetched Dat.blockOf iblk1; rw [hA]; try rfl

/-- Window 3, the row block of the operand that is added (fetched at every point): the same statement. -/
theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  refine (dat.before_in_eq_fetched 3 rfl (fun _ => rfl) (fun _ _ _ => rfl) (fun t => ?_) t d).trans ?_
  · rw [hafter]; unfold Dat.blockOf iblk1; rw [hA]; try rfl
  · unfold Dat.fetched Dat.blockOf iblk1; rw [hA]; try rfl

/-! ## The rectangles the body reads and writes: each staging buffer whole -/

abbrev r1_a : Rect S5000x64 := Rect.unit (s := S5000x64) ![0, 0] S5000x64.size inb_S5000x64_S5000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0

/-! ## What the body leaves in the output window's buffer -/

/-- The output staging buffer after the body, from the four input blocks: its one store, of the payload
    `x0 · x1 + (the row x2 on every row) + x3` of the four whole-buffer loads, written as a one-piece list. -/
def out1_4 (x0 : Vec F S5000x64 .f32) (x1 : Vec F S64x64 .f32) (x2 : Vec F S1x64 .f32) (x3 : Vec F S5000x64 .f32) :
    Vec F S5000x64 .f32 :=
  View.canon [⟨r1_a, k1_pay1 (View.ld x0 r1_a) (View.ld x1 r1_w) (View.ld x2 r1_b) (View.ld x3 r1_a)⟩]

/-- The one store is of the whole buffer, so every index of the buffer lies in it. -/
theorem cover1_4 (p : Vec F S5000x64 .f32) (y : S5000x64.Idx) :
    ∃ pc ∈ ([⟨r1_a, p⟩] : List (View.Piece (Elt F) S5000x64 .f32)), y ∈ pc.1.set :=
  View.cover_of_tiled [⟨r1_a, p⟩] S5000x64.size (by rfl) y

/-! ## The body's triple -/

set_option maxHeartbeats 1000000 in
/-- The body at any grid coordinate `i`, on whole staging memrefs: the four inputs' read `x0 … x3`, the output's
    holds anything. It runs to the continuation with the inputs' as they were and the output's at
    `out1_4 x0 x1 x2 x3`. (The body also loads the output buffer before storing to it; the loaded value is not used.) -/
theorem sound_kernel1 (c : Dev nD) (E : Set ℕ) (i : grid1.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__linear_extra_kernel i arg1 harg1 arg2 harg2 arg3 harg3 arg4 harg4 arg5 harg5) K := by
  simp only [cc1__linear_extra_kernel_eq_skeleton]; unfold cc1__linear_extra_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data of the pipeline -/

/-- Region 1's proof data on core `c`: the five arrays as the region finds them; after the body at point `t` the four
    inputs' buffers at their blocks and the output's at `out1_4` of those blocks; the invariant the scoped rest and the
    generator register, untouched (`Pipeline.ΦA`); full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the entry contents (the structure projected; `V` is never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by
  dsimp only [dat1]

/-- What the body is handed in each input's buffer: its block. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`: the invariant, the core's dues, and each window's current staging
    buffer at what the pipeline put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns: the same, each buffer at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at a point: the inputs' buffers hold their blocks, so the body's triple applies at those blocks; the
    invariant and the dues are not read. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the proof data, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame1

end
-- ==== Proof.KIRegion1.lean ====
/- Region 1 of the idealized kernel program (custom_call 1) as a segment of @main: entered from every unscoped
   buffer at the contents the preceding host stretch leaves, left with the result array `main_v29` at what the
   pipeline's write-backs leave and every other buffer as entered. Stated over an arbitrary family of proof data whose
   member at pipeline 1 is this region's (`hp1`), and over any `outs` that names the result's final contents
   (`houts1`). -/
import proofs.«146189_j40922448396571_2_alg».proof.Proof.KIRegions
import proofs.«146189_j40922448396571_2_alg».proof.Proof.KIRegion1Body

set_option maxRecDepth 16384

noncomputable section

namespace Cert.KernelIdeal.Frame1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: what the host stretch before the region leaves. -/
abbrev VV3 : (c : Dev nD) → (b : Ref sig .tc) → Buf (Elt F) ((c : Thread nD τ).loc b) := fun c b => V3 m outs c b
/-- Exit: the same with `main_v29` at `outs 4 main_v29`. -/
abbrev VV4 : (c : Dev nD) → (b : Ref sig .tc) → Buf (Elt F) ((c : Thread nD τ).loc b) := fun c b => V4 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 1 -/

variable (pdats : (p : Fin 17) → (c : Dev nD) → Dat τ (Elt F) Unit ℕ (UR sig nD τ) ℕ (cfgs p) c)

section Pinned
variable (hp1 : ∀ c, pdats 1 c = dat1 (VV3 m outs) c)
include hp1

theorem pd1_q (c : Dev nD) (w : Fin cfg1.W) : (pdats 1 c).q w = fullShare := by rw [hp1 c]; rfl
theorem pd1_owed (c : Dev nD) (t) : (pdats 1 c).owed t = 0 := by rw [hp1 c]; rfl
theorem pd1_A (c : Dev nD) (w : Fin cfg1.W) : (pdats 1 c).A w = VV3 m outs c (Pipeline.arrRef spec1 w) := by
  rw [hp1 c]; exact A_eq1 (VV3 m outs) c w
theorem pd1_Φ (c : Dev nD) (t) : (pdats 1 c).Φ t = Pipeline.ΦA spec1 c := by rw [hp1 c]; rfl
theorem pd1_recorded (c : Dev nD) (t) : (pdats 1 c).recorded t = Set.univ := by rw [hp1 c]; rfl

end Pinned

/-! ## The exit contents, at the region's arrays and off them -/

section Exit
variable (hp1 : ∀ c, pdats 1 c = dat1 (VV3 m outs) c)
  (houts1 : ∀ c, outs 4 main_v29 c = (dat1 (VV3 m outs) c).arrAt 4 cfg1.N)

include hp1 in
/-- The left operand's row block: its array ends as entered — no window writes it, and it is not the result's reference. -/
theorem hF1_0 (c : Dev nD) : (pdats 1 c).arrAt 0 cfg1.N = VV4 m outs c (Pipeline.arrRef spec1 0) := by
  rw [hp1 c]
  refine ((dat1 (VV3 m outs) c).arrAt_in 0 rfl _).trans ((A_eq1 (VV3 m outs) c 0).trans ?_)
  exact (Function.update_of_ne (StableHlo.devRef_ne_of_ne (by decide)) _ _).symm

include hp1 in
/-- The weight: its array ends as entered — no window writes it, and it is not the result's reference. -/
theorem hF1_1 (c : Dev nD) : (pdats 1 c).arrAt 1 cfg1.N = VV4 m outs c (Pipeline.arrRef spec1 1) := by
  rw [hp1 c]
  refine ((dat1 (VV3 m outs) c).arrAt_in 1 rfl _).trans ((A_eq1 (VV3 m outs) c 1).trans ?_)
  exact (Function.update_of_ne (StableHlo.devRef_ne_of_ne (by decide)) _ _).symm

include hp1 in
/-- The bias row: its array ends as entered — no window writes it, and it is not the result's reference. -/
theorem hF1_2 (c : Dev nD) : (pdats 1 c).arrAt 2 cfg1.N = VV4 m outs c (Pipeline.arrRef spec1 2) := by
  rw [hp1 c]
  refine ((dat1 (VV3 m outs) c).arrAt_in 2 rfl _).trans ((A_eq1 (VV3 m outs) c 2).trans ?_)
  exact (Function.update_of_ne (StableHlo.devRef_ne_of_ne (by decide)) _ _).symm

include hp1 in
/-- The added operand's row block: its array ends as entered — no window writes it, and it is not the result's reference. -/
theorem hF1_3 (c : Dev nD) : (pdats 1 c).arrAt 3 cfg1.N = VV4 m outs c (Pipeline.arrRef spec1 3) := by
  rw [hp1 c]
  refine ((dat1 (VV3 m outs) c).arrAt_in 3 rfl _).trans ((A_eq1 (VV3 m outs) c 3).trans ?_)
  exact (Function.update_of_ne (StableHlo.devRef_ne_of_ne (by decide)) _ _).symm

include hp1 houts1 in
/-- The result's array ends at what the write-backs leave, which is what `outs` names. -/
theorem hF1_4 (c : Dev nD) : (pdats 1 c).arrAt 4 cfg1.N = VV4 m outs c (Pipeline.arrRef spec1 4) := by
  rw [hp1 c, ← houts1 c]
  exact (Function.update_self (Proc.devRef (τ := τ) .tc main_v29) (outs 4 main_v29 c) (V3 m outs c)).symm

include hp1 houts1 in
theorem hF1 (c : Dev nD) : ∀ w : Fin cfg1.W, (pdats 1 c).arrAt w cfg1.N = VV4 m outs c (Pipeline.arrRef spec1 w)
  | ⟨0, _⟩ => hF1_0 m outs pdats hp1 c
  | ⟨1, _⟩ => hF1_1 m outs pdats hp1 c
  | ⟨2, _⟩ => hF1_2 m outs pdats hp1 c
  | ⟨3, _⟩ => hF1_3 m outs pdats hp1 c
  | ⟨4, _⟩ => hF1_4 m outs pdats hp1 houts1 c

/-- Off the region's five arrays the exit contents are the entry contents: only `main_v29` is updated, and it is
    window 4's array. -/
theorem hrest1 (c : Dev nD) : ∀ b, b ∉ Finset.univ.image (Pipeline.arrRef spec1) → VV4 m outs c b = VV3 m outs c b :=
  fun b hb => Function.update_of_ne
    (fun e => hb (Finset.mem_image.mpr ⟨4, Finset.mem_univ _, (Proc.devRef_injective _ e).symm⟩)) _ _

end Exit

/-! ## The region as a segment -/

section Record
variable (hp1 : ∀ c, pdats 1 c = dat1 (VV3 m outs) c)
  (houts1 : ∀ c, outs 4 main_v29 c = (dat1 (VV3 m outs) c).arrAt 4 cfg1.N)

-- a library lemma stated over the pinned configuration `pin pcs a p` is applied to the printed one: unification has
-- to unfold plain definitions in a metavariable's type
set_option backward.isDefEq.respectTransparency.types false in
/-- Region 1 over the thread state "every unscoped buffer at the boundary's contents, beside `R`". Entry: the
    region's arrays are split out of the unscoped buffers at the entry contents; the generator register goes into the
    invariant; nothing is owed; the kernel has no semaphore of its own. Exit: the arrays are put back at the exit
    contents (`hF1`, `hrest1`) and the register comes back. -/
def reg1 : RegionSeg (pcfgs (F := F)) adm pdats () defs₀ 𝒱₀ L lv 1 where
  win := launch1.win.to₀
  block_pos := launch1.block_pos
  stage_whole := launch1.stage_whole
  K := PEmpty
  osem k := k.elim
  ho := Pipeline.OwnSemFacts.none _
  hbody c := by rw [hp1 c]; exact (body_obligation1 (VV3 m outs) c).loose
  hwaits := Pipeline.hwaits_of_owed_zero _ _ _ _ L lv 1 fun c t => pd1_owed m outs pdats hp1 c t
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec1 c (VV3 m outs c)
  hentry c := by
    rw [Pipeline.ownSems0_none]
    have hsplit := Pipeline.arrays_of_unscopedBufs (p := 1) (pcfgs (F := F)) adm pdats launch1.win launch1.arr_whole c
      ((pdats 1 c).share_full fun w => pd1_q m outs pdats hp1 c w) (VV3 m outs c) fun w => pd1_A m outs pdats hp1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd1_owed m outs pdats hp1 c]
      icases HO with ⟨%W, HO⟩; iexists W; isplitr; · ipureintro; exact fun x _ => Or.inl (by rw [pd1_recorded m outs pdats hp1 c]; exact Set.mem_univ x)
      iexact HO
    isplitl [Hp]; · iexact Hp
    iexact Hrest
  hin c := by
    rw [pd1_Φ m outs pdats hp1 c 0]; unfold Pipeline.ΦA
    iintro ⟨Hp, -, Hr⟩
    isplitl [Hr]; · iexact Hr
    iexact Hp
  hout c := by
    rw [Pipeline.ownSems0_none, pd1_Φ m outs pdats hp1 c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats ((pdats 1 c).share_full fun w => pd1_q m outs pdats hp1 c w)
      (VV3 m outs c) (VV4 m outs c) ((pdats 1 c).arrAt · cfg1.N) (hF1 m outs pdats hp1 houts1 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd1_owed m outs pdats hp1 c]
    icases HO with ⟨%W, -, HO⟩; iexists W; iexact HO

/-- The record is entered from the conditional frame's thread state before the region (with the rest state `R`), -/
theorem hpre1 (c : Dev nD) :
    iprop(StableHlo.held (c : Thread nD τ) (Pipeline.ucRefs τ sig) (V3 m outs c) ∗ R (F := F) c)
      ⊢ (reg1 m outs pdats hp1 houts1).pre c := .rfl

/-- and left at the one after it. -/
theorem hpost1 (c : Dev nD) :
    (reg1 m outs pdats hp1 houts1).post c
      ⊢ iprop(StableHlo.held (c : Thread nD τ) (Pipeline.ucRefs τ sig) (V4 m outs c) ∗ R (F := F) c) := .rfl

end Record

end Cert.KernelIdeal.Frame1

end
-- ==== Proof.KIRegion2Body.lean ====
/- Region 2 of the idealized kernel program (custom_call 2, the batch-norm affine map followed by the maximum with zero, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 2 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The row-block operand (window 0): for any proof data whose array for it is the entry contents and whose body
    leaves the block where it is, the staging buffer handed to the body at `t` holds the block at `t` — fetched at
    `t`, or still there from an earlier point because the block index has not moved since. -/
theorem before2_0_of {c : Dev nD} (dat : Dat τ (Elt F) Unit ℕ (UR sig nD τ) ℕ cfg2 c)
    (hA : dat.A 0 = V c (Pipeline.arrRef spec2 0)) (hafter : ∀ t, dat.after 0 t = iblk2 V c 0 t)
    (t : Fin cfg2.N) (d) : dat.before 0 t d = iblk2 V c 0 t := by
  refine (dat.before_in_eq_fetched 0 rfl (fun _ => rfl) (fun _ _ _ => rfl) (fun t => ?_) t d).trans ?_
  · rw [hafter]; unfold Dat.blockOf iblk2; rw [hA]; try rfl
  · unfold Dat.fetched Dat.blockOf iblk2; rw [hA]; try rfl

/-- The mean row (window 1; one block, fetched at the first point only, its index constant): the same. -/
theorem before2_1_of {c : Dev nD} (dat : Dat τ (Elt F) Unit ℕ (UR sig nD τ) ℕ cfg2 c)
    (hA : dat.A 1 = V c (Pipeline.arrRef spec2 1)) (hafter : ∀ t, dat.after 1 t = iblk2 V c 1 t)
    (t : Fin cfg2.N) (d) : dat.before 1 t d = iblk2 V c 1 t := by
  refine (dat.before_in_eq_fetched 1 rfl (fun _ => rfl) (fun _ _ _ => rfl) (fun t => ?_) t d).trans ?_
  · rw [hafter]; unfold Dat.blockOf iblk2; rw [hA]; try rfl
  · unfold Dat.fetched Dat.blockOf iblk2; rw [hA]; try rfl

/-- The variance row (window 2; one block, fetched at the first point only, its index constant): the same. -/
theorem before2_2_of {c : Dev nD} (dat : Dat τ (Elt F) Unit ℕ (UR sig nD τ) ℕ cfg2 c)
    (hA : dat.A 2 = V c (Pipeline.arrRef spec2 2)) (hafter : ∀ t, dat.after 2 t = iblk2 V c 2 t)
    (t : Fin cfg2.N) (d) : dat.before 2 t d = iblk2 V c 2 t := by
  refine (dat.before_in_eq_fetched 2 rfl (fun _ => rfl) (fun _ _ _ => rfl) (fun t => ?_) t d).trans ?_
  · rw [hafter]; unfold Dat.blockOf iblk2; rw [hA]; try rfl
  · unfold Dat.fetched Dat.blockOf iblk2; rw [hA]; try rfl

/-- The scale row (window 3; one block, fetched at the first point only, its index constant): the same. -/
theorem before2_3_of {c : Dev nD} (dat : Dat τ (Elt F) Unit ℕ (UR sig nD τ) ℕ cfg2 c)
    (hA : dat.A 3 = V c (Pipeline.arrRef spec2 3)) (hafter : ∀ t, dat.after 3 t = iblk2 V c 3 t)
    (t : Fin cfg2.N) (d) : dat.before 3 t d = iblk2 V c 3 t := by
  refine (dat.before_in_eq_fetched 3 rfl (fun _ => rfl) (fun _ _ _ => rfl) (fun t => ?_) t d).trans ?_
  · rw [hafter]; unfold Dat.blockOf iblk2; rw [hA]; try rfl
  · unfold Dat.fetched Dat.blockOf iblk2; rw [hA]; try rfl

/-- The shift row (window 4; one block, fetched at the first point only, its index constant): the same. -/
theorem before2_4_of {c : Dev nD} (dat : Dat τ (Elt F) Unit ℕ (UR sig nD τ) ℕ cfg2 c)
    (hA : dat.A 4 = V c (Pipeline.arrRef spec2 4)) (hafter : ∀ t, dat.after 4 t = iblk2 V c 4 t)
    (t : Fin cfg2.N) (d) : dat.before 4 t d = iblk2 V c 4 t := by
  refine (dat.before_in_eq_fetched 4 rfl (fun _ => rfl) (fun _ _ _ => rfl) (fun t => ?_) t d).trans ?_
  · rw [hafter]; unfold Dat.blockOf iblk2; rw [hA]; try rfl
  · unfold Dat.fetched Dat.blockOf iblk2; rw [hA]; try rfl

/-! ## The rectangles the body reads and writes: each staging buffer whole -/

abbrev r2_big : Rect S5000x128 := Rect.unit (s := S5000x128) ![0, 0] S5000x128.size inb_S5000x128_S5000x128_0_0
abbrev r2_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `max ((x − mean) · rsqrt (var + ε) · gamma + beta) 0` of the five whole-buffer loads, written as a one-piece list.
    (The body loads the variance before the mean, which is the order of the payload's arguments.) -/
def out2_5 (x0 : Vec F S5000x128 .f32) (x1 x2 x3 x4 : Vec F S1x128 .f32) : Vec F S5000x128 .f32 :=
  View.canon [⟨r2_big, k2_pay1 (View.ld x0 r2_big) (View.ld x2 r2_row) (View.ld x1 r2_row)
    (View.ld x3 r2_row) (View.ld x4 r2_row)⟩]

/-- The one store is of the whole buffer, so every index of the buffer lies in it. -/
theorem cover2_5 (p : Vec F S5000x128 .f32) (y : S5000x128.Idx) :
    ∃ pc ∈ ([⟨r2_big, p⟩] : List (View.Piece (Elt F) S5000x128 .f32)), y ∈ pc.1.set :=
  View.cover_of_tiled [⟨r2_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out2_5 x0 x1 x2 x3 x4`. (The body also loads the output buffer before storing to it; the loaded value is
    not used.) -/
theorem sound_kernel2 (c : Dev nD) (E : Set ℕ) (i : grid2.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The proof data of the pipeline -/

/-- Region 2's proof data on core `c`: the six arrays as the region finds them; after the body at point `t` the
    five inputs' buffers at their blocks and the output's at `out2_5` of those blocks; the invariant the scoped rest
    and the generator register, untouched (`Pipeline.ΦA`); full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents (the structure projected; `V` is never unfolded). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t
      = out2_5 (iblk2 V c 0 t) (iblk2 V c 1 t) (iblk2 V c 2 t) (iblk2 V c 3 t) (iblk2 V c 4 t) := by
  dsimp only [dat2]

/-- What the body is handed in each input's buffer: its block. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

/-- What the body is called with at point `t`: the invariant, the core's dues, and each window's current staging
    buffer at what the pipeline put there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it returns: the same, each buffer at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at a point: the inputs' buffers hold their blocks, so the body's triple applies at those blocks; the
    invariant and the dues are not read. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame2

end
-- ==== Proof.KIRegion2.lean ====
/- Region 2 of the idealized kernel program (custom_call 2) as a segment of @main: entered from every unscoped
   buffer at the contents before it (`V7`), left with the result array `main_v48` at what the pipeline's
   write-backs leave and every other buffer as entered (`V8`). Stated over an arbitrary family of proof data whose
   member at pipeline 2 is this region's (`hp2`), and over any `outs` that names the result's final contents
   (`houts`). -/
import proofs.«146189_j40922448396571_2_alg».proof.Proof.KIRegions
import proofs.«146189_j40922448396571_2_alg».proof.Proof.KIGlobals
import proofs.«146189_j40922448396571_2_alg».proof.Proof.KIRegion2Body

set_option maxRecDepth 16384

noncomputable section

namespace Cert.KernelIdeal.Frame2

open Cert.KernelIdeal.Gen Cert.KernelIdeal.Glob
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: the contents before the region (`V7`). -/
abbrev VVin : (c : Dev nD) → (b : Ref sig .tc) → Buf (Elt F) ((c : Thread nD τ).loc b) := fun c b => V7 m outs c b
/-- Exit: the same with `main_v48` at `outs 8 main_v48` (`V8`). -/
abbrev VVout : (c : Dev nD) → (b : Ref sig .tc) → Buf (Elt F) ((c : Thread nD τ).loc b) := fun c b => V8 m outs c b

/-! ## The family of proof data, pinned at pipeline 2 -/

variable (pdats : (p : Fin 17) → (c : Dev nD) → Dat τ (Elt F) Unit ℕ (UR sig nD τ) ℕ (cfgs p) c)

section Pinned
variable (hp2 : ∀ c, pdats 2 c = dat2 (VVin m outs) c)
include hp2

/-- The pinned member's fields, read through the pin: full shares, nothing owed, the entry contents as arrays, the
    untouched invariant, every point recorded. -/
theorem pd2_q (c : Dev nD) (w : Fin cfg2.W) : (pdats 2 c).q w = fullShare := by rw [hp2 c]; rfl
theorem pd2_owed (c : Dev nD) (t) : (pdats 2 c).owed t = 0 := by rw [hp2 c]; rfl
theorem pd2_A (c : Dev nD) (w : Fin cfg2.W) : (pdats 2 c).A w = VVin m outs c (Pipeline.arrRef spec2 w) := by
  rw [hp2 c]; exact A_eq2 (VVin m outs) c w
theorem pd2_Φ (c : Dev nD) (t) : (pdats 2 c).Φ t = Pipeline.ΦA spec2 c := by rw [hp2 c]; rfl
theorem pd2_recorded (c : Dev nD) (t) : (pdats 2 c).recorded t = Set.univ := by rw [hp2 c]; rfl

end Pinned

/-! ## The exit contents, at the region's arrays and off them -/

section Exit
variable (hp2 : ∀ c, pdats 2 c = dat2 (VVin m outs) c)
  (houts : ∀ c, outs 8 main_v48 c = (dat2 (VVin m outs) c).arrAt 5 cfg2.N)

include hp2 in
/-- The row-block operand's array (`main_v35`) ends as entered: no window writes it, and it is not the result's reference. -/
theorem hF2_0 (c : Dev nD) : (pdats 2 c).arrAt 0 cfg2.N = VVout m outs c (Pipeline.arrRef spec2 0) := by
  rw [hp2 c]
  refine ((dat2 (VVin m outs) c).arrAt_in 0 rfl _).trans ((A_eq2 (VVin m outs) c 0).trans ?_)
  exact (Function.update_of_ne (StableHlo.devRef_ne_of_ne (by decide)) _ _).symm

include hp2 in
/-- The mean row's array (`main_v39`) ends as entered: no window writes it, and it is not the result's reference. -/
theorem hF2_1 (c : Dev nD) : (pdats 2 c).arrAt 1 cfg2.N = VVout m outs c (Pipeline.arrRef spec2 1) := by
  rw [hp2 c]
  refine ((dat2 (VVin m outs) c).arrAt_in 1 rfl _).trans ((A_eq2 (VVin m outs) c 1).trans ?_)
  exact (Function.update_of_ne (StableHlo.devRef_ne_of_ne (by decide)) _ _).symm

include hp2 in
/-- The variance row's array (`main_v43`) ends as entered: no window writes it, and it is not the result's reference. -/
theorem hF2_2 (c : Dev nD) : (pdats 2 c).arrAt 2 cfg2.N = VVout m outs c (Pipeline.arrRef spec2 2) := by
  rw [hp2 c]
  refine ((dat2 (VVin m outs) c).arrAt_in 2 rfl _).trans ((A_eq2 (VVin m outs) c 2).trans ?_)
  exact (Function.update_of_ne (StableHlo.devRef_ne_of_ne (by decide)) _ _).symm

include hp2 in
/-- The scale row's array (`main_v45`) ends as entered: no window writes it, and it is not the result's reference. -/
theorem hF2_3 (c : Dev nD) : (pdats 2 c).arrAt 3 cfg2.N = VVout m outs c (Pipeline.arrRef spec2 3) := by
  rw [hp2 c]
  refine ((dat2 (VVin m outs) c).arrAt_in 3 rfl _).trans ((A_eq2 (VVin m outs) c 3).trans ?_)
  exact (Function.update_of_ne (StableHlo.devRef_ne_of_ne (by decide)) _ _).symm

include hp2 in
/-- The shift row's array (`main_v47`) ends as entered: no window writes it, and it is not the result's reference. -/
theorem hF2_4 (c : Dev nD) : (pdats 2 c).arrAt 4 cfg2.N = VVout m outs c (Pipeline.arrRef spec2 4) := by
  rw [hp2 c]
  refine ((dat2 (VVin m outs) c).arrAt_in 4 rfl _).trans ((A_eq2 (VVin m outs) c 4).trans ?_)
  exact (Function.update_of_ne (StableHlo.devRef_ne_of_ne (by decide)) _ _).symm

include hp2 houts in
/-- The result's array (`main_v48`) ends at what the write-backs leave, which is what `outs` names. -/
theorem hF2_5 (c : Dev nD) : (pdats 2 c).arrAt 5 cfg2.N = VVout m outs c (Pipeline.arrRef spec2 5) := by
  rw [hp2 c, ← houts c]
  exact (Function.update_self (Proc.devRef (τ := τ) .tc main_v48) (outs 8 main_v48 c) (V7 m outs c)).symm

include hp2 houts in
/-- Every array of the region at its exit contents. -/
theorem hF2 (c : Dev nD) : ∀ w : Fin cfg2.W, (pdats 2 c).arrAt w cfg2.N = VVout m outs c (Pipeline.arrRef spec2 w)
  | ⟨0, _⟩ => hF2_0 m outs pdats hp2 c
  | ⟨1, _⟩ => hF2_1 m outs pdats hp2 c
  | ⟨2, _⟩ => hF2_2 m outs pdats hp2 c
  | ⟨3, _⟩ => hF2_3 m outs pdats hp2 c
  | ⟨4, _⟩ => hF2_4 m outs pdats hp2 c
  | ⟨5, _⟩ => hF2_5 m outs pdats hp2 houts c

/-- Off the region's six arrays the exit contents are the entry contents: only `main_v48` is updated, and it is
    window 5's array. -/
theorem hrest2 (c : Dev nD) : ∀ b, b ∉ Finset.univ.image (Pipeline.arrRef spec2) → VVout m outs c b = VVin m outs c b :=
  fun b hb => Function.update_of_ne
    (fun e => hb (Finset.mem_image.mpr ⟨5, Finset.mem_univ _, (Proc.devRef_injective _ e).symm⟩)) _ _

end Exit

/-! ## The region as a segment -/

section Record
variable (hp2 : ∀ c, pdats 2 c = dat2 (VVin m outs) c)
  (houts : ∀ c, outs 8 main_v48 c = (dat2 (VVin m outs) c).arrAt 5 cfg2.N)

-- a library lemma stated over the pinned configuration `pin pcs a p` is applied to the printed one: unification has
-- to unfold plain definitions in a metavariable's type
set_option backward.isDefEq.respectTransparency.types false in
/-- Region 2 over the thread state "every unscoped buffer at the boundary's contents, beside the rest state `R`".
    Entry: the six arrays are split out of the unscoped buffers at the entry contents; the generator register goes
    into the invariant; nothing is owed; the kernel has no semaphore of its own. Exit: the arrays are put back at the
    exit contents (`hF2`, `hrest2`) and the register comes back. -/
def reg2 : RegionSeg (pcfgs (F := F)) adm pdats () defs₀ 𝒱₀ L lv 2 where
  win := launch2.win.to₀
  block_pos := launch2.block_pos
  stage_whole := launch2.stage_whole
  K := PEmpty
  osem k := k.elim
  ho := Pipeline.OwnSemFacts.none _
  hbody c := by rw [hp2 c]; exact (body_obligation2 (VVin m outs) c).loose
  hwaits := Pipeline.hwaits_of_owed_zero _ _ _ _ L lv 2 fun c t => pd2_owed m outs pdats hp2 c t
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec2 c (VVin m outs c)
  hentry c := by
    rw [Pipeline.ownSems0_none]
    have hsplit := Pipeline.arrays_of_unscopedBufs (p := 2) (pcfgs (F := F)) adm pdats launch2.win launch2.arr_whole c
      ((pdats 2 c).share_full fun w => pd2_q m outs pdats hp2 c w) (VVin m outs c) fun w => pd2_A m outs pdats hp2 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd2_owed m outs pdats hp2 c]
      icases HO with ⟨%W, HO⟩; iexists W; isplitr
      · ipureintro; exact fun x _ => Or.inl (by rw [pd2_recorded m outs pdats hp2 c]; exact Set.mem_univ x)
      iexact HO
    isplitl [Hp]; · iexact Hp
    iexact Hrest
  hin c := by
    rw [pd2_Φ m outs pdats hp2 c 0]; unfold Pipeline.ΦA
    iintro ⟨Hp, -, Hr⟩
    isplitl [Hr]; · iexact Hr
    iexact Hp
  hout c := by
    rw [Pipeline.ownSems0_none, pd2_Φ m outs pdats hp2 c (Fin.last _)]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c pdats ((pdats 2 c).share_full fun w => pd2_q m outs pdats hp2 c w)
      (VVin m outs c) (VVout m outs c) ((pdats 2 c).arrAt · cfg2.N) (hF2 m outs pdats hp2 houts c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd2_owed m outs pdats hp2 c]
    icases HO with ⟨%W, -, HO⟩; iexists W; iexact HO

/-- The record is entered from the conditional frame's thread state before the region (with the rest state `R`), -/
theorem hpre2 (c : Dev nD) :
    iprop(StableHlo.held (c : Thread nD τ) (Pipeline.ucRefs τ sig) (V7 m outs c) ∗ R (F := F) c)
      ⊢ (reg2 m outs pdats hp2 houts).pre c := .rfl

/-- and left at the one after it. -/
theorem hpost2 (c : Dev nD) :
    (reg2 m outs pdats hp2 houts).post c
      ⊢ iprop(StableHlo.held (c : Thread nD τ) (Pipeline.ucRefs τ sig) (V8 m outs c) ∗ R (F := F) c) := .rfl

end Record

end Cert.KernelIdeal.Frame2

end
-- ==== Proof.KIRegion3Body.lean ====
/- Region 3 of the idealized kernel program (custom_call 3: a 64 → 64 matmul, plus a bias row, plus a second
   operand added elementwise): the class-A half of its frame, stated at a parameter `V` — the TensorCore's buffer
   contents when the region is entered. For each of the five windows its block at a grid point, the contents the body
   leaves in the output window's buffer as a function of the four input blocks, the body's triple, the pipeline's
   proof data and the library's body obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 3 is entered
variable (V : (c : Dev nD) → (b : Ref sig .tc) → Buf (Elt F) ((c : Thread nD τ).loc b))

/-! ## The blocks of the five windows -/

/-- The block of window `w` at grid point `t`: the window's rectangle at `t` read off the window's array as the
    region finds it. Window 0 is rows `5000 t … 5000 t + 4999` of the [100000,64] left operand, window 1 the whole
    [64,64] weight, window 2 the whole [1,64] bias row, window 3 the same rows of the [100000,64] operand that is
    added, window 4 the same rows of the [100000,64] result. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- An input window whose body leaves its block where it is: whatever proof data has the entry contents as the
    window's array and the block as what the body leaves, the staging buffer the body is handed at `t` holds the block
    at `t` — it was fetched at `t`, or the window's index has not moved since it was. Window 0, the row block of
    the left operand (fetched at every point). -/
theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t := by
  refine (dat.before_in_eq_fetched 0 rfl (fun _ => rfl) (fun _ _ _ => rfl) (fun t => ?_) t d).trans ?_
  · rw [hafter]; unfold Dat.blockOf iblk3; rw [hA]; try rfl
  · unfold Dat.fetched Dat.blockOf iblk3; rw [hA]; try rfl

/-- Window 1, the weight (fetched once; its index is constant): the same statement. -/
theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t := by
  refine (dat.before_in_eq_fetched 1 rfl (fun _ => rfl) (fun _ _ _ => rfl) (fun t => ?_) t d).trans ?_
  · rw [hafter]; unfold Dat.blockOf iblk3; rw [hA]; try rfl
  · unfold Dat.fetched Dat.blockOf iblk3; rw [hA]; try rfl

/-- Window 2, the bias row (fetched once; its index is constant): the same statement. -/
theorem before3_2_of {c : Dev nD} (dat : Dat τ (Elt F) Unit ℕ (UR sig nD τ) ℕ cfg3 c)
    (hA : dat.A 2 = V c (Pipeline.arrRef spec3 2)) (hafter : ∀ t, dat.after 2 t = iblk3 V c 2 t)
    (t : Fin cfg3.N) (d) : dat.before 2 t d = iblk3 V c 2 t := by
  refine (dat.before_in_eq_fetched 2 rfl (fun _ => rfl) (fun _ _ _ => rfl) (fun t => ?_) t d).trans ?_
  · rw [hafter]; unfold Dat.blockOf iblk3; rw [hA]; try rfl
  · unfold Dat.fetched Dat.blockOf iblk3; rw [hA]; try rfl

/-- Window 3, the row block of the operand that is added (fetched at every point): the same statement. -/
theorem before3_3_of {c : Dev nD} (dat : Dat τ (Elt F) Unit ℕ (UR sig nD τ) ℕ cfg3 c)
    (hA : dat.A 3 = V c (Pipeline.arrRef spec3 3)) (hafter : ∀ t, dat.after 3 t = iblk3 V c 3 t)
    (t : Fin cfg3.N) (d) : dat.before 3 t d = iblk3 V c 3 t := by
  refine (dat.before_in_eq_fetched 3 rfl (fun _ => rfl) (fun _ _ _ => rfl) (fun t => ?_) t d).trans ?_
  · rw [hafter]; unfold Dat.blockOf iblk3; rw [hA]; try rfl
  · unfold Dat.fetched Dat.blockOf iblk3; rw [hA]; try rfl

/-! ## The rectangles the body reads and writes: each staging buffer whole -/

abbrev r3_a : Rect S5000x64 := Rect.unit (s := S5000x64) ![0, 0] S5000x64.size inb_S5000x64_S5000x64_0_0
abbrev r3_w : Rect S64x64 := Rect.unit (s := S64x64) ![0, 0] S64x64.size inb_S64x64_S64x64_0_0
abbrev r3_b : Rect S1x64 := Rect.unit (s := S1x64) ![0, 0] S1x64.size inb_S1x64_S1x64_0_0

/-! ## What the body leaves in the output window's buffer -/

/-- The output staging buffer after the body, from the four input blocks: its one store, of the payload
    `x0 · x1 + (the row x2 on every row) + x3` of the four whole-buffer loads, written as a one-piece list. -/
def out3_4 (x0 : Vec F S5000x64 .f32) (x1 : Vec F S64x64 .f32) (x2 : Vec F S1x64 .f32) (x3 : Vec F S5000x64 .f32) :
    Vec F S5000x64 .f32 :=
  View.canon [⟨r3_a, k3_pay1 (View.ld x0 r3_a) (View.ld x1 r3_w) (View.ld x2 r3_b) (View.ld x3 r3_a)⟩]

/-- The one store is of the whole buffer, so every index of the buffer lies in it. -/
theorem cover3_4 (p : Vec F S5000x64 .f32) (y : S5000x64.Idx) :
    ∃ pc ∈ ([⟨r3_a, p⟩] : List (View.Piece (Elt F) S5000x64 .f32)), y ∈ pc.1.set :=
  View.cover_of_tiled [⟨r3_a, p⟩] S5000x64.size (by rfl) y

/-! ## The body's triple -/

set_option maxHeartbeats 1000000 in
/-- The body at any grid coordinate `i`, on whole staging memrefs: the four inputs' read `x0 … x3`, the output's
    holds anything. It runs to the continuation with the inputs' as they were and the output's at
    `out3_4 x0 x1 x2 x3`. (The body also loads the output buffer before storing to it; the loaded value is not used.) -/
theorem sound_kernel3 (c : Dev nD) (E : Set ℕ) (i : grid3.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2 x3)) -∗ K ⟨⟩))
      ⊢ wp frame (wpE (defs₀ (F := F)) Variants.none c none) E
          (cc3__linear_extra_kernel i arg1 harg1 arg2 harg2 arg3 harg3 arg4 harg4 arg5 harg5) K := by
  simp only [cc3__linear_extra_kernel_eq_skeleton]; unfold cc3__linear_extra_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The proof data of the pipeline -/

/-- Region 3's proof data on core `c`: the five arrays as the region finds them; after the body at point `t` the four
    inputs' buffers at their blocks and the output's at `out3_4` of those blocks; the invariant the scoped rest and the
    generator register, untouched (`Pipeline.ΦA`); full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the entry contents (the structure projected; `V` is never unfolded). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by
  dsimp only [dat3]

/-- What the body is handed in each input's buffer: its block. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

/-- What the body is called with at point `t`: the invariant, the core's dues, and each window's current staging
    buffer at what the pipeline put there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What it returns: the same, each buffer at the proof data's `after`. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at a point: the inputs' buffers hold their blocks, so the body's triple applies at those blocks; the
    invariant and the dues are not read. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _
    (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the proof data, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame3

end
-- ==== Proof.KIRegion3.lean ====
/- Region 3 of the idealized kernel program (custom_call 3) as a segment of @main: entered from every unscoped
   buffer at the contents the preceding host stretch leaves, left with the result array `main_v66` at what the
   pipeline's write-backs leave and every other buffer as entered. Stated over an arbitrary family of proof data whose
   member at pipeline 3 is this region's (`hp3`), and over any `outs` that names the result's final contents
   (`houts3`). -/
import proofs.«146189_j40922448396571_2_alg».proof.Proof.KIRegions
import proofs.«146189_j40922448396571_2_alg».proof.Proof.KIRegion3Body

set_option maxRecDepth 16384

noncomputable section

namespace Cert.KernelIdeal.Frame3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: what the host stretch before the region leaves. -/
abbrev VV9 : (c : Dev nD) → (b : Ref sig .tc) → Buf (Elt F) ((c : Thread nD τ).loc b) := fun c b => V9 m outs c b
/-- Exit: the same with `main_v66` at `outs 10 main_v66`. -/
abbrev VV10 : (c : Dev nD) → (b : Ref sig .tc) → Buf (Elt F) ((c : Thread nD τ).loc b) := fun c b => V10 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 3 -/

variable (pdats : (p : Fin 17) → (c : Dev nD) → Dat τ (Elt F) Unit ℕ (UR sig nD τ) ℕ (cfgs p) c)

section Pinned
variable (hp3 : ∀ c, pdats 3 c = dat3 (VV9 m outs) c)
include hp3

theorem pd3_q (c : Dev nD) (w : Fin cfg3.W) : (pdats 3 c).q w = fullShare := by rw [hp3 c]; rfl
theorem pd3_owed (c : Dev nD) (t) : (pdats 3 c).owed t = 0 := by rw [hp3 c]; rfl
theorem pd3_A (c : Dev nD) (w : Fin cfg3.W) : (pdats 3 c).A w = VV9 m outs c (Pipeline.arrRef spec3 w) := by
  rw [hp3 c]; exact A_eq3 (VV9 m outs) c w
theorem pd3_Φ (c : Dev nD) (t) : (pdats 3 c).Φ t = Pipeline.ΦA spec3 c := by rw [hp3 c]; rfl
theorem pd3_recorded (c : Dev nD) (t) : (pdats 3 c).recorded t = Set.univ := by rw [hp3 c]; rfl

end Pinned

/-! ## The exit contents, at the region's arrays and off them -/

section Exit
variable (hp3 : ∀ c, pdats 3 c = dat3 (VV9 m outs) c)
  (houts3 : ∀ c, outs 10 main_v66 c = (dat3 (VV9 m outs) c).arrAt 4 cfg3.N)

include hp3 in
/-- The left operand's row block: its array ends as entered — no window writes it, and it is not the result's reference. -/
theorem hF3_0 (c : Dev nD) : (pdats 3 c).arrAt 0 cfg3.N = VV10 m outs c (Pipeline.arrRef spec3 0) := by
  rw [hp3 c]
  refine ((dat3 (VV9 m outs) c).arrAt_in 0 rfl _).trans ((A_eq3 (VV9 m outs) c 0).trans ?_)
  exact (Function.update_of_ne (StableHlo.devRef_ne_of_ne (by decide)) _ _).symm

include hp3 in
/-- The weight: its array ends as entered — no window writes it, and it is not the result's reference. -/
theorem hF3_1 (c : Dev nD) : (pdats 3 c).arrAt 1 cfg3.N = VV10 m outs c (Pipeline.arrRef spec3 1) := by
  rw [hp3 c]
  refine ((dat3 (VV9 m outs) c).arrAt_in 1 rfl _).trans ((A_eq3 (VV9 m outs) c 1).trans ?_)
  exact (Function.update_of_ne (StableHlo.devRef_ne_of_ne (by decide)) _ _).symm

include hp3 in
/-- The bias row: its array ends as entered — no window writes it, and it is not the result's reference. -/
theorem hF3_2 (c : Dev nD) : (pdats 3 c).arrAt 2 cfg3.N = VV10 m outs c (Pipeline.arrRef spec3 2) := by
  rw [hp3 c]
  refine ((dat3 (VV9 m outs) c).arrAt_in 2 rfl _).trans ((A_eq3 (VV9 m outs) c 2).trans ?_)
  exact (Function.update_of_ne (StableHlo.devRef_ne_of_ne (by decide)) _ _).symm

include hp3 in
/-- The added operand's row block: its array ends as entered — no window writes it, and it is not the result's reference. -/
theorem hF3_3 (c : Dev nD) : (pdats 3 c).arrAt 3 cfg3.N = VV10 m outs c (Pipeline.arrRef spec3 3) := by
  rw [hp3 c]
  refine ((dat3 (VV9 m outs) c).arrAt_in 3 rfl _).trans ((A_eq3 (VV9 m outs) c 3).trans ?_)
  exact (Function.update_of_ne (StableHlo.devRef_ne_of_ne (by decide)) _ _).symm

include hp3 houts3 in
/-- The result's array ends at what the write-backs leave, which is what `outs` names. -/
theorem hF3_4 (c : Dev nD) : (pdats 3 c).arrAt 4 cfg3.N = VV10 m outs c (Pipeline.arrRef spec3 4) := by
  rw [hp3 c, ← houts3 c]
  exact (Function.update_self (Proc.devRef (τ := τ) .tc main_v66) (outs 10 main_v66 c) (V9 m outs c)).symm

include hp3 houts3 in
theorem hF3 (c : Dev nD) : ∀ w : Fin cfg3.W, (pdats 3 c).arrAt w cfg3.N = VV10 m outs c (Pipeline.arrRef spec3 w)
  | ⟨0, _⟩ => hF3_0 m outs pdats hp3 c
  | ⟨1, _⟩ => hF3_1 m outs pdats hp3 c
  | ⟨2, _⟩ => hF3_2 m outs pdats hp3 c
  | ⟨3, _⟩ => hF3_3 m outs pdats hp3 c
  | ⟨4, _⟩ => hF3_4 m outs pdats hp3 houts3 c

/-- Off the region's five arrays the exit contents are the entry contents: only `main_v66` is updated, and it is
    window 4's array. -/
theorem hrest3 (c : Dev nD) : ∀ b, b ∉ Finset.univ.image (Pipeline.arrRef spec3) → VV10 m outs c b = VV9 m outs c b :=
  fun b hb => Function.update_of_ne
    (fun e => hb (Finset.mem_image.mpr ⟨4, Finset.mem_univ _, (Proc.devRef_injective _ e).symm⟩)) _ _

end Exit

/-! ## The region as a segment -/

section Record
variable (hp3 : ∀ c, pdats 3 c = dat3 (VV9 m outs) c)
  (houts3 : ∀ c, outs 10 main_v66 c = (dat3 (VV9 m outs) c).arrAt 4 cfg3.N)

-- a library lemma stated over the pinned configuration `pin pcs a p` is applied to the printed one: unification has
-- to unfold plain definitions in a metavariable's type
set_option backward.isDefEq.respectTransparency.types false in
/-- Region 3 over the thread state "every unscoped buffer at the boundary's contents, beside `R`". Entry: the
    region's arrays are split out of the unscoped buffers at the entry contents; the generator register goes into the
    invariant; nothing is owed; the kernel has no semaphore of its own. Exit: the arrays are put back at the exit
    contents (`hF3`, `hrest3`) and the register comes back. -/
def reg3 : RegionSeg (pcfgs (F := F)) adm pdats () defs₀ 𝒱₀ L lv 3 where
  win := launch3.win.to₀
  block_pos := launch3.block_pos
  stage_whole := launch3.stage_whole
  K := PEmpty
  osem k := k.elim
  ho := Pipeline.OwnSemFacts.none _
  hbody c := by rw [hp3 c]; exact (body_obligation3 (VV9 m outs) c).loose
  hwaits := Pipeline.hwaits_of_owed_zero _ _ _ _ L lv 3 fun c t => pd3_owed m outs pdats hp3 c t
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec3 c (VV9 m outs c)
  hentry c := by
    rw [Pipeline.ownSems0_none]
    have hsplit := Pipeline.arrays_of_unscopedBufs (p := 3) (pcfgs (F := F)) adm pdats launch3.win launch3.arr_whole c
      ((pdats 3 c).share_full fun w => pd3_q m outs pdats hp3 c w) (VV9 m outs c) fun w => pd3_A m outs pdats hp3 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd3_owed m outs pdats hp3 c]
      icases HO with ⟨%W, HO⟩; iexists W; isplitr; · ipureintro; exact fun x _ => Or.inl (by rw [pd3_recorded m outs pdats hp3 c]; exact Set.mem_univ x)
      iexact HO
    isplitl [Hp]; · iexact Hp
    iexact Hrest
  hin c := by
    rw [pd3_Φ m outs pdats hp3 c 0]; unfold Pipeline.ΦA
    iintro ⟨Hp, -, Hr⟩
    isplitl [Hr]; · iexact Hr
    iexact Hp
  hout c := by
    rw [Pipeline.ownSems0_none, pd3_Φ m outs pdats hp3 c (Fin.last _)]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c pdats ((pdats 3 c).share_full fun w => pd3_q m outs pdats hp3 c w)
      (VV9 m outs c) (VV10 m outs c) ((pdats 3 c).arrAt · cfg3.N) (hF3 m outs pdats hp3 houts3 c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd3_owed m outs pdats hp3 c]
    icases HO with ⟨%W, -, HO⟩; iexists W; iexact HO

/-- The record is entered from the conditional frame's thread state before the region (with the rest state `R`), -/
theorem hpre3 (c : Dev nD) :
    iprop(StableHlo.held (c : Thread nD τ) (Pipeline.ucRefs τ sig) (V9 m outs c) ∗ R (F := F) c)
      ⊢ (reg3 m outs pdats hp3 houts3).pre c := .rfl

/-- and left at the one after it. -/
theorem hpost3 (c : Dev nD) :
    (reg3 m outs pdats hp3 houts3).post c
      ⊢ iprop(StableHlo.held (c : Thread nD τ) (Pipeline.ucRefs τ sig) (V10 m outs c) ∗ R (F := F) c) := .rfl

end Record

end Cert.KernelIdeal.Frame3

end
-- ==== Proof.KIRegion4Body.lean ====
/- Region 4 of the idealized kernel program (custom_call 4, the batch-norm affine map followed by the maximum with zero, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame4

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 4 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The row-block operand (window 0): for any proof data whose array for it is the entry contents and whose body
    leaves the block where it is, the staging buffer handed to the body at `t` holds the block at `t` — fetched at
    `t`, or still there from an earlier point because the block index has not moved since. -/
theorem before4_0_of {c : Dev nD} (dat : Dat τ (Elt F) Unit ℕ (UR sig nD τ) ℕ cfg4 c)
    (hA : dat.A 0 = V c (Pipeline.arrRef spec4 0)) (hafter : ∀ t, dat.after 0 t = iblk4 V c 0 t)
    (t : Fin cfg4.N) (d) : dat.before 0 t d = iblk4 V c 0 t := by
  refine (dat.before_in_eq_fetched 0 rfl (fun _ => rfl) (fun _ _ _ => rfl) (fun t => ?_) t d).trans ?_
  · rw [hafter]; unfold Dat.blockOf iblk4; rw [hA]; try rfl
  · unfold Dat.fetched Dat.blockOf iblk4; rw [hA]; try rfl

/-- The mean row (window 1; one block, fetched at the first point only, its index constant): the same. -/
theorem before4_1_of {c : Dev nD} (dat : Dat τ (Elt F) Unit ℕ (UR sig nD τ) ℕ cfg4 c)
    (hA : dat.A 1 = V c (Pipeline.arrRef spec4 1)) (hafter : ∀ t, dat.after 1 t = iblk4 V c 1 t)
    (t : Fin cfg4.N) (d) : dat.before 1 t d = iblk4 V c 1 t := by
  refine (dat.before_in_eq_fetched 1 rfl (fun _ => rfl) (fun _ _ _ => rfl) (fun t => ?_) t d).trans ?_
  · rw [hafter]; unfold Dat.blockOf iblk4; rw [hA]; try rfl
  · unfold Dat.fetched Dat.blockOf iblk4; rw [hA]; try rfl

/-- The variance row (window 2; one block, fetched at the first point only, its index constant): the same. -/
theorem before4_2_of {c : Dev nD} (dat : Dat τ (Elt F) Unit ℕ (UR sig nD τ) ℕ cfg4 c)
    (hA : dat.A 2 = V c (Pipeline.arrRef spec4 2)) (hafter : ∀ t, dat.after 2 t = iblk4 V c 2 t)
    (t : Fin cfg4.N) (d) : dat.before 2 t d = iblk4 V c 2 t := by
  refine (dat.before_in_eq_fetched 2 rfl (fun _ => rfl) (fun _ _ _ => rfl) (fun t => ?_) t d).trans ?_
  · rw [hafter]; unfold Dat.blockOf iblk4; rw [hA]; try rfl
  · unfold Dat.fetched Dat.blockOf iblk4; rw [hA]; try rfl

/-- The scale row (window 3; one block, fetched at the first point only, its index constant): the same. -/
theorem before4_3_of {c : Dev nD} (dat : Dat τ (Elt F) Unit ℕ (UR sig nD τ) ℕ cfg4 c)
    (hA : dat.A 3 = V c (Pipeline.arrRef spec4 3)) (hafter : ∀ t, dat.after 3 t = iblk4 V c 3 t)
    (t : Fin cfg4.N) (d) : dat.before 3 t d = iblk4 V c 3 t := by
  refine (dat.before_in_eq_fetched 3 rfl (fun _ => rfl) (fun _ _ _ => rfl) (fun t => ?_) t d).trans ?_
  · rw [hafter]; unfold Dat.blockOf iblk4; rw [hA]; try rfl
  · unfold Dat.fetched Dat.blockOf iblk4; rw [hA]; try rfl

/-- The shift row (window 4; one block, fetched at the first point only, its index constant): the same. -/
theorem before4_4_of {c : Dev nD} (dat : Dat τ (Elt F) Unit ℕ (UR sig nD τ) ℕ cfg4 c)
    (hA : dat.A 4 = V c (Pipeline.arrRef spec4 4)) (hafter : ∀ t, dat.after 4 t = iblk4 V c 4 t)
    (t : Fin cfg4.N) (d) : dat.before 4 t d = iblk4 V c 4 t := by
  refine (dat.before_in_eq_fetched 4 rfl (fun _ => rfl) (fun _ _ _ => rfl) (fun t => ?_) t d).trans ?_
  · rw [hafter]; unfold Dat.blockOf iblk4; rw [hA]; try rfl
  · unfold Dat.fetched Dat.blockOf iblk4; rw [hA]; try rfl

/-! ## The rectangles the body reads and writes: each staging buffer whole -/

abbrev r4_big : Rect S5000x128 := Rect.unit (s := S5000x128) ![0, 0] S5000x128.size inb_S5000x128_S5000x128_0_0
abbrev r4_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `max ((x − mean) · rsqrt (var + ε) · gamma + beta) 0` of the five whole-buffer loads, written as a one-piece list.
    (The body loads the variance before the mean, which is the order of the payload's arguments.) -/
def out4_5 (x0 : Vec F S5000x128 .f32) (x1 x2 x3 x4 : Vec F S1x128 .f32) : Vec F S5000x128 .f32 :=
  View.canon [⟨r4_big, k4_pay1 (View.ld x0 r4_big) (View.ld x2 r4_row) (View.ld x1 r4_row)
    (View.ld x3 r4_row) (View.ld x4 r4_row)⟩]

/-- The one store is of the whole buffer, so every index of the buffer lies in it. -/
theorem cover4_5 (p : Vec F S5000x128 .f32) (y : S5000x128.Idx) :
    ∃ pc ∈ ([⟨r4_big, p⟩] : List (View.Piece (Elt F) S5000x128 .f32)), y ∈ pc.1.set :=
  View.cover_of_tiled [⟨r4_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out4_5 x0 x1 x2 x3 x4`. (The body also loads the output buffer before storing to it; the loaded value is
    not used.) -/
theorem sound_kernel4 (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E
          (cc4__bn_relu_kernel i arg1 harg1 arg2 harg2 arg3 harg3 arg4 harg4 arg5 harg5 arg6 harg6) K := by
  simp only [cc4__bn_relu_kernel_eq_skeleton]; unfold cc4__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The proof data of the pipeline -/

/-- Region 4's proof data on core `c`: the six arrays as the region finds them; after the body at point `t` the
    five inputs' buffers at their blocks and the output's at `out4_5` of those blocks; the invariant the scoped rest
    and the generator register, untouched (`Pipeline.ΦA`); full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the entry contents (the structure projected; `V` is never unfolded). -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t
      = out4_5 (iblk4 V c 0 t) (iblk4 V c 1 t) (iblk4 V c 2 t) (iblk4 V c 3 t) (iblk4 V c 4 t) := by
  dsimp only [dat4]

/-- What the body is handed in each input's buffer: its block. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation -/

/-- What the body is called with at point `t`: the invariant, the core's dues, and each window's current staging
    buffer at what the pipeline put there. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- What it returns: the same, each buffer at the proof data's `after`. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at a point: the inputs' buffers hold their blocks, so the body's triple applies at those blocks; the
    invariant and the dues are not read. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frame4

end
-- ==== Proof.KIRegion4.lean ====
/- Region 4 of the idealized kernel program (custom_call 4) as a segment of @main: entered from every unscoped
   buffer at the contents before it (`V13`), left with the result array `main_v89` at what the pipeline's
   write-backs leave and every other buffer as entered (`V14`). Stated over an arbitrary family of proof data whose
   member at pipeline 4 is this region's (`hp4`), and over any `outs` that names the result's final contents
   (`houts`). -/
import proofs.«146189_j40922448396571_2_alg».proof.Proof.KIRegions
import proofs.«146189_j40922448396571_2_alg».proof.Proof.KIGlobals
import proofs.«146189_j40922448396571_2_alg».proof.Proof.KIRegion4Body

set_option maxRecDepth 16384

noncomputable section

namespace Cert.KernelIdeal.Frame4

open Cert.KernelIdeal.Gen Cert.KernelIdeal.Glob
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: the contents before the region (`V13`). -/
abbrev VVin : (c : Dev nD) → (b : Ref sig .tc) → Buf (Elt F) ((c : Thread nD τ).loc b) := fun c b => V13 m outs c b
/-- Exit: the same with `main_v89` at `outs 14 main_v89` (`V14`). -/
abbrev VVout : (c : Dev nD) → (b : Ref sig .tc) → Buf (Elt F) ((c : Thread nD τ).loc b) := fun c b => V14 m outs c b

/-! ## The family of proof data, pinned at pipeline 4 -/

variable (pdats : (p : Fin 17) → (c : Dev nD) → Dat τ (Elt F) Unit ℕ (UR sig nD τ) ℕ (cfgs p) c)

section Pinned
variable (hp4 : ∀ c, pdats 4 c = dat4 (VVin m outs) c)
include hp4

/-- The pinned member's fields, read through the pin: full shares, nothing owed, the entry contents as arrays, the
    untouched invariant, every point recorded. -/
theorem pd4_q (c : Dev nD) (w : Fin cfg4.W) : (pdats 4 c).q w = fullShare := by rw [hp4 c]; rfl
theorem pd4_owed (c : Dev nD) (t) : (pdats 4 c).owed t = 0 := by rw [hp4 c]; rfl
theorem pd4_A (c : Dev nD) (w : Fin cfg4.W) : (pdats 4 c).A w = VVin m outs c (Pipeline.arrRef spec4 w) := by
  rw [hp4 c]; exact A_eq4 (VVin m outs) c w
theorem pd4_Φ (c : Dev nD) (t) : (pdats 4 c).Φ t = Pipeline.ΦA spec4 c := by rw [hp4 c]; rfl
theorem pd4_recorded (c : Dev nD) (t) : (pdats 4 c).recorded t = Set.univ := by rw [hp4 c]; rfl

end Pinned

/-! ## The exit contents, at the region's arrays and off them -/

section Exit
variable (hp4 : ∀ c, pdats 4 c = dat4 (VVin m outs) c)
  (houts : ∀ c, outs 14 main_v89 c = (dat4 (VVin m outs) c).arrAt 5 cfg4.N)

include hp4 in
/-- The row-block operand's array (`main_v76`) ends as entered: no window writes it, and it is not the result's reference. -/
theorem hF4_0 (c : Dev nD) : (pdats 4 c).arrAt 0 cfg4.N = VVout m outs c (Pipeline.arrRef spec4 0) := by
  rw [hp4 c]
  refine ((dat4 (VVin m outs) c).arrAt_in 0 rfl _).trans ((A_eq4 (VVin m outs) c 0).trans ?_)
  exact (Function.update_of_ne (StableHlo.devRef_ne_of_ne (by decide)) _ _).symm

include hp4 in
/-- The mean row's array (`main_v80`) ends as entered: no window writes it, and it is not the result's reference. -/
theorem hF4_1 (c : Dev nD) : (pdats 4 c).arrAt 1 cfg4.N = VVout m outs c (Pipeline.arrRef spec4 1) := by
  rw [hp4 c]
  refine ((dat4 (VVin m outs) c).arrAt_in 1 rfl _).trans ((A_eq4 (VVin m outs) c 1).trans ?_)
  exact (Function.update_of_ne (StableHlo.devRef_ne_of_ne (by decide)) _ _).symm

include hp4 in
/-- The variance row's array (`main_v84`) ends as entered: no window writes it, and it is not the result's reference. -/
theorem hF4_2 (c : Dev nD) : (pdats 4 c).arrAt 2 cfg4.N = VVout m outs c (Pipeline.arrRef spec4 2) := by
  rw [hp4 c]
  refine ((dat4 (VVin m outs) c).arrAt_in 2 rfl _).trans ((A_eq4 (VVin m outs) c 2).trans ?_)
  exact (Function.update_of_ne (StableHlo.devRef_ne_of_ne (by decide)) _ _).symm

include hp4 in
/-- The scale row's array (`main_v86`) ends as entered: no window writes it, and it is not the result's reference. -/
theorem hF4_3 (c : Dev nD) : (pdats 4 c).arrAt 3 cfg4.N = VVout m outs c (Pipeline.arrRef spec4 3) := by
  rw [hp4 c]
  refine ((dat4 (VVin m outs) c).arrAt_in 3 rfl _).trans ((A_eq4 (VVin m outs) c 3).trans ?_)
  exact (Function.update_of_ne (StableHlo.devRef_ne_of_ne (by decide)) _ _).symm

include hp4 in
/-- The shift row's array (`main_v88`) ends as entered: no window writes it, and it is not the result's reference. -/
theorem hF4_4 (c : Dev nD) : (pdats 4 c).arrAt 4 cfg4.N = VVout m outs c (Pipeline.arrRef spec4 4) := by
  rw [hp4 c]
  refine ((dat4 (VVin m outs) c).arrAt_in 4 rfl _).trans ((A_eq4 (VVin m outs) c 4).trans ?_)
  exact (Function.update_of_ne (StableHlo.devRef_ne_of_ne (by decide)) _ _).symm

include hp4 houts in
/-- The result's array (`main_v89`) ends at what the write-backs leave, which is what `outs` names. -/
theorem hF4_5 (c : Dev nD) : (pdats 4 c).arrAt 5 cfg4.N = VVout m outs c (Pipeline.arrRef spec4 5) := by
  rw [hp4 c, ← houts c]
  exact (Function.update_self (Proc.devRef (τ := τ) .tc main_v89) (outs 14 main_v89 c) (V13 m outs c)).symm

include hp4 houts in
/-- Every array of the region at its exit contents. -/
theorem hF4 (c : Dev nD) : ∀ w : Fin cfg4.W, (pdats 4 c).arrAt w cfg4.N = VVout m outs c (Pipeline.arrRef spec4 w)
  | ⟨0, _⟩ => hF4_0 m outs pdats hp4 c
  | ⟨1, _⟩ => hF4_1 m outs pdats hp4 c
  | ⟨2, _⟩ => hF4_2 m outs pdats hp4 c
  | ⟨3, _⟩ => hF4_3 m outs pdats hp4 c
  | ⟨4, _⟩ => hF4_4 m outs pdats hp4 c
  | ⟨5, _⟩ => hF4_5 m outs pdats hp4 houts c

/-- Off the region's six arrays the exit contents are the entry contents: only `main_v89` is updated, and it is
    window 5's array. -/
theorem hrest4 (c : Dev nD) : ∀ b, b ∉ Finset.univ.image (Pipeline.arrRef spec4) → VVout m outs c b = VVin m outs c b :=
  fun b hb => Function.update_of_ne
    (fun e => hb (Finset.mem_image.mpr ⟨5, Finset.mem_univ _, (Proc.devRef_injective _ e).symm⟩)) _ _

end Exit

/-! ## The region as a segment -/

section Record
variable (hp4 : ∀ c, pdats 4 c = dat4 (VVin m outs) c)
  (houts : ∀ c, outs 14 main_v89 c = (dat4 (VVin m outs) c).arrAt 5 cfg4.N)

-- a library lemma stated over the pinned configuration `pin pcs a p` is applied to the printed one: unification has
-- to unfold plain definitions in a metavariable's type
set_option backward.isDefEq.respectTransparency.types false in
/-- Region 4 over the thread state "every unscoped buffer at the boundary's contents, beside the rest state `R`".
    Entry: the six arrays are split out of the unscoped buffers at the entry contents; the generator register goes
    into the invariant; nothing is owed; the kernel has no semaphore of its own. Exit: the arrays are put back at the
    exit contents (`hF4`, `hrest4`) and the register comes back. -/
def reg4 : RegionSeg (pcfgs (F := F)) adm pdats () defs₀ 𝒱₀ L lv 4 where
  win := launch4.win.to₀
  block_pos := launch4.block_pos
  stage_whole := launch4.stage_whole
  K := PEmpty
  osem k := k.elim
  ho := Pipeline.OwnSemFacts.none _
  hbody c := by rw [hp4 c]; exact (body_obligation4 (VVin m outs) c).loose
  hwaits := Pipeline.hwaits_of_owed_zero _ _ _ _ L lv 4 fun c t => pd4_owed m outs pdats hp4 c t
  pre c := iprop(StableHlo.held (c : Thread nD τ) (Pipeline.ucRefs τ sig) (V13 m outs c) ∗ R c)
  post c := iprop(StableHlo.held (c : Thread nD τ) (Pipeline.ucRefs τ sig) (V14 m outs c) ∗ R c)
  X c := iprop(∃ r, prngReg c r)
  Y c := iprop(∃ r, prngReg c r)
  Z c := Pipeline.unscopedRest (Ix := Unit) (Name := ℕ) (U := UR sig nD τ) (Lvl := ℕ) spec4 c (VVin m outs c)
  hentry c := by
    rw [Pipeline.ownSems0_none]
    have hsplit := Pipeline.arrays_of_unscopedBufs (p := 4) (pcfgs (F := F)) adm pdats launch4.win launch4.arr_whole c
      ((pdats 4 c).share_full fun w => pd4_q m outs pdats hp4 c w) (VVin m outs c) fun w => pd4_A m outs pdats hp4 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd4_owed m outs pdats hp4 c]
      icases HO with ⟨%W, HO⟩; iexists W; isplitr
      · ipureintro; exact fun x _ => Or.inl (by rw [pd4_recorded m outs pdats hp4 c]; exact Set.mem_univ x)
      iexact HO
    isplitl [Hp]; · iexact Hp
    iexact Hrest
  hin c := by
    rw [pd4_Φ m outs pdats hp4 c 0]; unfold Pipeline.ΦA
    iintro ⟨Hp, -, Hr⟩
    isplitl [Hr]; · iexact Hr
    iexact Hp
  hout c := by
    rw [Pipeline.ownSems0_none, pd4_Φ m outs pdats hp4 c (Fin.last _)]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c pdats ((pdats 4 c).share_full fun w => pd4_q m outs pdats hp4 c w)
      (VVin m outs c) (VVout m outs c) ((pdats 4 c).arrAt · cfg4.N) (hF4 m outs pdats hp4 houts c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd4_owed m outs pdats hp4 c]
    icases HO with ⟨%W, -, HO⟩; iexists W; iexact HO

/-- The record is entered from the conditional frame's thread state before the region (with the rest state `R`), -/
theorem hpre4 (c : Dev nD) :
    iprop(StableHlo.held (c : Thread nD τ) (Pipeline.ucRefs τ sig) (V13 m outs c) ∗ R (F := F) c)
      ⊢ (reg4 m outs pdats hp4 houts).pre c := .rfl

/-- and left at the one after it. -/
theorem hpost4 (c : Dev nD) :
    (reg4 m outs pdats hp4 houts).post c
      ⊢ iprop(StableHlo.held (c : Thread nD τ) (Pipeline.ucRefs τ sig) (V14 m outs c) ∗ R (F := F) c) := .rfl

end Record

end Cert.KernelIdeal.Frame4

end
-- ==== Proof.KIRegion5Body.lean ====
/- Region 5 of the idealized kernel program (custom_call 5: a 64 → 64 matmul, plus a bias row, plus a second
   operand added elementwise): the class-A half of its frame, stated at a parameter `V` — the TensorCore's buffer
   contents when the region is entered. For each of the five windows its block at a grid point, the contents the body
   leaves in the output window's buffer as a function of the four input blocks, the body's triple, the pipeline's
   proof data and the library's body obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame5

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 5 is entered
variable (V : (c : Dev nD) → (b : Ref sig .tc) → Buf (Elt F) ((c : Thread nD τ).loc b))

/-! ## The blocks of the five windows -/

/-- The block of window `w` at grid point `t`: the window's rectangle at `t` read off the window's array as the
    region finds it. Window 0 is rows `5000 t … 5000 t + 4999` of the [100000,64] left operand, window 1 the whole
    [64,64] weight, window 2 the whole [1,64] bias row, window 3 the same rows of the [100000,64] operand that is
    added, window 4 the same rows of the [100000,64] result. -/
def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- An input window whose body leaves its block where it is: whatever proof data has the entry contents as the
    window's array and the block as what the body leaves, the staging buffer the body is handed at `t` holds the block
    at `t` — it was fetched at `t`, or the window's index has not moved since it was. Window 0, the row block of
    the left operand (fetched at every point). -/
theorem before5_0_of {c : Dev nD} (dat : Dat τ (Elt F) Unit ℕ (UR sig nD τ) ℕ cfg5 c)
    (hA : dat.A 0 = V c (Pipeline.arrRef spec5 0)) (hafter : ∀ t, dat.after 0 t = iblk5 V c 0 t)
    (t : Fin cfg5.N) (d) : dat.before 0 t d = iblk5 V c 0 t := by
  refine (dat.before_in_eq_fetched 0 rfl (fun _ => rfl) (fun _ _ _ => rfl) (fun t => ?_) t d).trans ?_
  · rw [hafter]; unfold Dat.blockOf iblk5; rw [hA]; try rfl
  · unfold Dat.fetched Dat.blockOf iblk5; rw [hA]; try rfl

/-- Window 1, the weight (fetched once; its index is constant): the same statement. -/
theorem before5_1_of {c : Dev nD} (dat : Dat τ (Elt F) Unit ℕ (UR sig nD τ) ℕ cfg5 c)
    (hA : dat.A 1 = V c (Pipeline.arrRef spec5 1)) (hafter : ∀ t, dat.after 1 t = iblk5 V c 1 t)
    (t : Fin cfg5.N) (d) : dat.before 1 t d = iblk5 V c 1 t := by
  refine (dat.before_in_eq_fetched 1 rfl (fun _ => rfl) (fun _ _ _ => rfl) (fun t => ?_) t d).trans ?_
  · rw [hafter]; unfold Dat.blockOf iblk5; rw [hA]; try rfl
  · unfold Dat.fetched Dat.blockOf iblk5; rw [hA]; try rfl

/-- Window 2, the bias row (fetched once; its index is constant): the same statement. -/
theorem before5_2_of {c : Dev nD} (dat : Dat τ (Elt F) Unit ℕ (UR sig nD τ) ℕ cfg5 c)
    (hA : dat.A 2 = V c (Pipeline.arrRef spec5 2)) (hafter : ∀ t, dat.after 2 t = iblk5 V c 2 t)
    (t : Fin cfg5.N) (d) : dat.before 2 t d = iblk5 V c 2 t := by
  refine (dat.before_in_eq_fetched 2 rfl (fun _ => rfl) (fun _ _ _ => rfl) (fun t => ?_) t d).trans ?_
  · rw [hafter]; unfold Dat.blockOf iblk5; rw [hA]; try rfl
  · unfold Dat.fetched Dat.blockOf iblk5; rw [hA]; try rfl

/-- Window 3, the row block of the operand that is added (fetched at every point): the same statement. -/
theorem before5_3_of {c : Dev nD} (dat : Dat τ (Elt F) Unit ℕ (UR sig nD τ) ℕ cfg5 c)
    (hA : dat.A 3 = V c (Pipeline.arrRef spec5 3)) (hafter : ∀ t, dat.after 3 t = iblk5 V c 3 t)
    (t : Fin cfg5.N) (d) : dat.before 3 t d = iblk5 V c 3 t := by
  refine (dat.before_in_eq_fetched 3 rfl (fun _ => rfl) (fun _ _ _ => rfl) (fun t => ?_) t d).trans ?_
  · rw [hafter]; unfold Dat.blockOf iblk5; rw [hA]; try rfl
  · unfold Dat.fetched Dat.blockOf iblk5; rw [hA]; try rfl

/-! ## The rectangles the body reads and writes: each staging buffer whole -/

abbrev r5_a : Rect S5000x64 := Rect.unit (s := S5000x64) ![0, 0] S5000x64.size inb_S5000x64_S5000x64_0_0
abbrev r5_w : Rect S64x64 := Rect.unit (s := S64x64) ![0, 0] S64x64.size inb_S64x64_S64x64_0_0
abbrev r5_b : Rect S1x64 := Rect.unit (s := S1x64) ![0, 0] S1x64.size inb_S1x64_S1x64_0_0

/-! ## What the body leaves in the output window's buffer -/

/-- The output staging buffer after the body, from the four input blocks: its one store, of the payload
    `x0 · x1 + (the row x2 on every row) + x3` of the four whole-buffer loads, written as a one-piece list. -/
def out5_4 (x0 : Vec F S5000x64 .f32) (x1 : Vec F S64x64 .f32) (x2 : Vec F S1x64 .f32) (x3 : Vec F S5000x64 .f32) :
    Vec F S5000x64 .f32 :=
  View.canon [⟨r5_a, k5_pay1 (View.ld x0 r5_a) (View.ld x1 r5_w) (View.ld x2 r5_b) (View.ld x3 r5_a)⟩]

/-- The one store is of the whole buffer, so every index of the buffer lies in it. -/
theorem cover5_4 (p : Vec F S5000x64 .f32) (y : S5000x64.Idx) :
    ∃ pc ∈ ([⟨r5_a, p⟩] : List (View.Piece (Elt F) S5000x64 .f32)), y ∈ pc.1.set :=
  View.cover_of_tiled [⟨r5_a, p⟩] S5000x64.size (by rfl) y

/-! ## The body's triple -/

set_option maxHeartbeats 1000000 in
/-- The body at any grid coordinate `i`, on whole staging memrefs: the four inputs' read `x0 … x3`, the output's
    holds anything. It runs to the continuation with the inputs' as they were and the output's at
    `out5_4 x0 x1 x2 x3`. (The body also loads the output buffer before storing to it; the loaded value is not used.) -/
theorem sound_kernel5 (c : Dev nD) (E : Set ℕ) (i : grid5.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out5_4 x0 x1 x2 x3)) -∗ K ⟨⟩))
      ⊢ wp frame (wpE (defs₀ (F := F)) Variants.none c none) E
          (cc5__linear_extra_kernel i arg1 harg1 arg2 harg2 arg3 harg3 arg4 harg4 arg5 harg5) K := by
  simp only [cc5__linear_extra_kernel_eq_skeleton]; unfold cc5__linear_extra_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The proof data of the pipeline -/

/-- Region 5's proof data on core `c`: the five arrays as the region finds them; after the body at point `t` the four
    inputs' buffers at their blocks and the output's at `out5_4` of those blocks; the invariant the scoped rest and the
    generator register, untouched (`Pipeline.ΦA`); full shares; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the entry contents (the structure projected; `V` is never unfolded). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by
  dsimp only [dat5]

/-- What the body is handed in each input's buffer: its block. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation -/

/-- What the body is called with at point `t`: the invariant, the core's dues, and each window's current staging
    buffer at what the pipeline put there. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- What it returns: the same, each buffer at the proof data's `after`. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at a point: the inputs' buffers hold their blocks, so the body's triple applies at those blocks; the
    invariant and the dues are not read. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _
    (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the proof data, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frame5

end
-- ==== Proof.KIRegion5.lean ====
/- Region 5 of the idealized kernel program (custom_call 5) as a segment of @main: entered from every unscoped
   buffer at the contents the preceding host stretch leaves, left with the result array `main_v96` at what the
   pipeline's write-backs leave and every other buffer as entered. Stated over an arbitrary family of proof data whose
   member at pipeline 5 is this region's (`hp5`), and over any `outs` that names the result's final contents
   (`houts5`). -/
import proofs.«146189_j40922448396571_2_alg».proof.Proof.KIRegions
import proofs.«146189_j40922448396571_2_alg».proof.Proof.KIRegion5Body

set_option maxRecDepth 16384

noncomputable section

namespace Cert.KernelIdeal.Frame5

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: what the host stretch before the region leaves. -/
abbrev VV15 : (c : Dev nD) → (b : Ref sig .tc) → Buf (Elt F) ((c : Thread nD τ).loc b) := fun c b => V15 m outs c b
/-- Exit: the same with `main_v96` at `outs 16 main_v96`. -/
abbrev VV16 : (c : Dev nD) → (b : Ref sig .tc) → Buf (Elt F) ((c : Thread nD τ).loc b) := fun c b => V16 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 5 -/

variable (pdats : (p : Fin 17) → (c : Dev nD) → Dat τ (Elt F) Unit ℕ (UR sig nD τ) ℕ (cfgs p) c)

section Pinned
variable (hp5 : ∀ c, pdats 5 c = dat5 (VV15 m outs) c)
include hp5

theorem pd5_q (c : Dev nD) (w : Fin cfg5.W) : (pdats 5 c).q w = fullShare := by rw [hp5 c]; rfl
theorem pd5_owed (c : Dev nD) (t) : (pdats 5 c).owed t = 0 := by rw [hp5 c]; rfl
theorem pd5_A (c : Dev nD) (w : Fin cfg5.W) : (pdats 5 c).A w = VV15 m outs c (Pipeline.arrRef spec5 w) := by
  rw [hp5 c]; exact A_eq5 (VV15 m outs) c w
theorem pd5_Φ (c : Dev nD) (t) : (pdats 5 c).Φ t = Pipeline.ΦA spec5 c := by rw [hp5 c]; rfl
theorem pd5_recorded (c : Dev nD) (t) : (pdats 5 c).recorded t = Set.univ := by rw [hp5 c]; rfl

end Pinned

/-! ## The exit contents, at the region's arrays and off them -/

section Exit
variable (hp5 : ∀ c, pdats 5 c = dat5 (VV15 m outs) c)
  (houts5 : ∀ c, outs 16 main_v96 c = (dat5 (VV15 m outs) c).arrAt 4 cfg5.N)

include hp5 in
/-- The left operand's row block: its array ends as entered — no window writes it, and it is not the result's reference. -/
theorem hF5_0 (c : Dev nD) : (pdats 5 c).arrAt 0 cfg5.N = VV16 m outs c (Pipeline.arrRef spec5 0) := by
  rw [hp5 c]
  refine ((dat5 (VV15 m outs) c).arrAt_in 0 rfl _).trans ((A_eq5 (VV15 m outs) c 0).trans ?_)
  exact (Function.update_of_ne (StableHlo.devRef_ne_of_ne (by decide)) _ _).symm

include hp5 in
/-- The weight: its array ends as entered — no window writes it, and it is not the result's reference. -/
theorem hF5_1 (c : Dev nD) : (pdats 5 c).arrAt 1 cfg5.N = VV16 m outs c (Pipeline.arrRef spec5 1) := by
  rw [hp5 c]
  refine ((dat5 (VV15 m outs) c).arrAt_in 1 rfl _).trans ((A_eq5 (VV15 m outs) c 1).trans ?_)
  exact (Function.update_of_ne (StableHlo.devRef_ne_of_ne (by decide)) _ _).symm

include hp5 in
/-- The bias row: its array ends as entered — no window writes it, and it is not the result's reference. -/
theorem hF5_2 (c : Dev nD) : (pdats 5 c).arrAt 2 cfg5.N = VV16 m outs c (Pipeline.arrRef spec5 2) := by
  rw [hp5 c]
  refine ((dat5 (VV15 m outs) c).arrAt_in 2 rfl _).trans ((A_eq5 (VV15 m outs) c 2).trans ?_)
  exact (Function.update_of_ne (StableHlo.devRef_ne_of_ne (by decide)) _ _).symm

include hp5 in
/-- The added operand's row block: its array ends as entered — no window writes it, and it is not the result's reference. -/
theorem hF5_3 (c : Dev nD) : (pdats 5 c).arrAt 3 cfg5.N = VV16 m outs c (Pipeline.arrRef spec5 3) := by
  rw [hp5 c]
  refine ((dat5 (VV15 m outs) c).arrAt_in 3 rfl _).trans ((A_eq5 (VV15 m outs) c 3).trans ?_)
  exact (Function.update_of_ne (StableHlo.devRef_ne_of_ne (by decide)) _ _).symm

include hp5 houts5 in
/-- The result's array ends at what the write-backs leave, which is what `outs` names. -/
theorem hF5_4 (c : Dev nD) : (pdats 5 c).arrAt 4 cfg5.N = VV16 m outs c (Pipeline.arrRef spec5 4) := by
  rw [hp5 c, ← houts5 c]
  exact (Function.update_self (Proc.devRef (τ := τ) .tc main_v96) (outs 16 main_v96 c) (V15 m outs c)).symm

include hp5 houts5 in
theorem hF5 (c : Dev nD) : ∀ w : Fin cfg5.W, (pdats 5 c).arrAt w cfg5.N = VV16 m outs c (Pipeline.arrRef spec5 w)
  | ⟨0, _⟩ => hF5_0 m outs pdats hp5 c
  | ⟨1, _⟩ => hF5_1 m outs pdats hp5 c
  | ⟨2, _⟩ => hF5_2 m outs pdats hp5 c
  | ⟨3, _⟩ => hF5_3 m outs pdats hp5 c
  | ⟨4, _⟩ => hF5_4 m outs pdats hp5 houts5 c

/-- Off the region's five arrays the exit contents are the entry contents: only `main_v96` is updated, and it is
    window 4's array. -/
theorem hrest5 (c : Dev nD) : ∀ b, b ∉ Finset.univ.image (Pipeline.arrRef spec5) → VV16 m outs c b = VV15 m outs c b :=
  fun b hb => Function.update_of_ne
    (fun e => hb (Finset.mem_image.mpr ⟨4, Finset.mem_univ _, (Proc.devRef_injective _ e).symm⟩)) _ _

end Exit

/-! ## The region as a segment -/

section Record
variable (hp5 : ∀ c, pdats 5 c = dat5 (VV15 m outs) c)
  (houts5 : ∀ c, outs 16 main_v96 c = (dat5 (VV15 m outs) c).arrAt 4 cfg5.N)

-- a library lemma stated over the pinned configuration `pin pcs a p` is applied to the printed one: unification has
-- to unfold plain definitions in a metavariable's type
set_option backward.isDefEq.respectTransparency.types false in
/-- Region 5 over the thread state "every unscoped buffer at the boundary's contents, beside `R`". Entry: the
    region's arrays are split out of the unscoped buffers at the entry contents; the generator register goes into the
    invariant; nothing is owed; the kernel has no semaphore of its own. Exit: the arrays are put back at the exit
    contents (`hF5`, `hrest5`) and the register comes back. -/
def reg5 : RegionSeg (pcfgs (F := F)) adm pdats () defs₀ 𝒱₀ L lv 5 where
  win := launch5.win.to₀
  block_pos := launch5.block_pos
  stage_whole := launch5.stage_whole
  K := PEmpty
  osem k := k.elim
  ho := Pipeline.OwnSemFacts.none _
  hbody c := by rw [hp5 c]; exact (body_obligation5 (VV15 m outs) c).loose
  hwaits := Pipeline.hwaits_of_owed_zero _ _ _ _ L lv 5 fun c t => pd5_owed m outs pdats hp5 c t
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec5 c (VV15 m outs c)
  hentry c := by
    rw [Pipeline.ownSems0_none]
    have hsplit := Pipeline.arrays_of_unscopedBufs (p := 5) (pcfgs (F := F)) adm pdats launch5.win launch5.arr_whole c
      ((pdats 5 c).share_full fun w => pd5_q m outs pdats hp5 c w) (VV15 m outs c) fun w => pd5_A m outs pdats hp5 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd5_owed m outs pdats hp5 c]
      icases HO with ⟨%W, HO⟩; iexists W; isplitr; · ipureintro; exact fun x _ => Or.inl (by rw [pd5_recorded m outs pdats hp5 c]; exact Set.mem_univ x)
      iexact HO
    isplitl [Hp]; · iexact Hp
    iexact Hrest
  hin c := by
    rw [pd5_Φ m outs pdats hp5 c 0]; unfold Pipeline.ΦA
    iintro ⟨Hp, -, Hr⟩
    isplitl [Hr]; · iexact Hr
    iexact Hp
  hout c := by
    rw [Pipeline.ownSems0_none, pd5_Φ m outs pdats hp5 c (Fin.last _)]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c pdats ((pdats 5 c).share_full fun w => pd5_q m outs pdats hp5 c w)
      (VV15 m outs c) (VV16 m outs c) ((pdats 5 c).arrAt · cfg5.N) (hF5 m outs pdats hp5 houts5 c) (hrest5 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd5_owed m outs pdats hp5 c]
    icases HO with ⟨%W, -, HO⟩; iexists W; iexact HO

/-- The record is entered from the conditional frame's thread state before the region (with the rest state `R`), -/
theorem hpre5 (c : Dev nD) :
    iprop(StableHlo.held (c : Thread nD τ) (Pipeline.ucRefs τ sig) (V15 m outs c) ∗ R (F := F) c)
      ⊢ (reg5 m outs pdats hp5 houts5).pre c := .rfl

/-- and left at the one after it. -/
theorem hpost5 (c : Dev nD) :
    (reg5 m outs pdats hp5 houts5).post c
      ⊢ iprop(StableHlo.held (c : Thread nD τ) (Pipeline.ucRefs τ sig) (V16 m outs c) ∗ R (F := F) c) := .rfl

end Record

end Cert.KernelIdeal.Frame5

end
-- ==== Proof.KIRegion6Body.lean ====
/- Region 6 of the idealized kernel program (custom_call 6, the batch-norm affine map followed by the maximum with zero, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame6

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 6 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- The row-block operand (window 0): for any proof data whose array for it is the entry contents and whose body
    leaves the block where it is, the staging buffer handed to the body at `t` holds the block at `t` — fetched at
    `t`, or still there from an earlier point because the block index has not moved since. -/
theorem before6_0_of {c : Dev nD} (dat : Dat τ (Elt F) Unit ℕ (UR sig nD τ) ℕ cfg6 c)
    (hA : dat.A 0 = V c (Pipeline.arrRef spec6 0)) (hafter : ∀ t, dat.after 0 t = iblk6 V c 0 t)
    (t : Fin cfg6.N) (d) : dat.before 0 t d = iblk6 V c 0 t := by
  refine (dat.before_in_eq_fetched 0 rfl (fun _ => rfl) (fun _ _ _ => rfl) (fun t => ?_) t d).trans ?_
  · rw [hafter]; unfold Dat.blockOf iblk6; rw [hA]; try rfl
  · unfold Dat.fetched Dat.blockOf iblk6; rw [hA]; try rfl

/-- The mean row (window 1; one block, fetched at the first point only, its index constant): the same. -/
theorem before6_1_of {c : Dev nD} (dat : Dat τ (Elt F) Unit ℕ (UR sig nD τ) ℕ cfg6 c)
    (hA : dat.A 1 = V c (Pipeline.arrRef spec6 1)) (hafter : ∀ t, dat.after 1 t = iblk6 V c 1 t)
    (t : Fin cfg6.N) (d) : dat.before 1 t d = iblk6 V c 1 t := by
  refine (dat.before_in_eq_fetched 1 rfl (fun _ => rfl) (fun _ _ _ => rfl) (fun t => ?_) t d).trans ?_
  · rw [hafter]; unfold Dat.blockOf iblk6; rw [hA]; try rfl
  · unfold Dat.fetched Dat.blockOf iblk6; rw [hA]; try rfl

/-- The variance row (window 2; one block, fetched at the first point only, its index constant): the same. -/
theorem before6_2_of {c : Dev nD} (dat : Dat τ (Elt F) Unit ℕ (UR sig nD τ) ℕ cfg6 c)
    (hA : dat.A 2 = V c (Pipeline.arrRef spec6 2)) (hafter : ∀ t, dat.after 2 t = iblk6 V c 2 t)
    (t : Fin cfg6.N) (d) : dat.before 2 t d = iblk6 V c 2 t := by
  refine (dat.before_in_eq_fetched 2 rfl (fun _ => rfl) (fun _ _ _ => rfl) (fun t => ?_) t d).trans ?_
  · rw [hafter]; unfold Dat.blockOf iblk6; rw [hA]; try rfl
  · unfold Dat.fetched Dat.blockOf iblk6; rw [hA]; try rfl

/-- The scale row (window 3; one block, fetched at the first point only, its index constant): the same. -/
theorem before6_3_of {c : Dev nD} (dat : Dat τ (Elt F) Unit ℕ (UR sig nD τ) ℕ cfg6 c)
    (hA : dat.A 3 = V c (Pipeline.arrRef spec6 3)) (hafter : ∀ t, dat.after 3 t = iblk6 V c 3 t)
    (t : Fin cfg6.N) (d) : dat.before 3 t d = iblk6 V c 3 t := by
  refine (dat.before_in_eq_fetched 3 rfl (fun _ => rfl) (fun _ _ _ => rfl) (fun t => ?_) t d).trans ?_
  · rw [hafter]; unfold Dat.blockOf iblk6; rw [hA]; try rfl
  · unfold Dat.fetched Dat.blockOf iblk6; rw [hA]; try rfl

/-- The shift row (window 4; one block, fetched at the first point only, its index constant): the same. -/
theorem before6_4_of {c : Dev nD} (dat : Dat τ (Elt F) Unit ℕ (UR sig nD τ) ℕ cfg6 c)
    (hA : dat.A 4 = V c (Pipeline.arrRef spec6 4)) (hafter : ∀ t, dat.after 4 t = iblk6 V c 4 t)
    (t : Fin cfg6.N) (d) : dat.before 4 t d = iblk6 V c 4 t := by
  refine (dat.before_in_eq_fetched 4 rfl (fun _ => rfl) (fun _ _ _ => rfl) (fun t => ?_) t d).trans ?_
  · rw [hafter]; unfold Dat.blockOf iblk6; rw [hA]; try rfl
  · unfold Dat.fetched Dat.blockOf iblk6; rw [hA]; try rfl

/-! ## The rectangles the body reads and writes: each staging buffer whole -/

abbrev r6_big : Rect S5000x128 := Rect.unit (s := S5000x128) ![0, 0] S5000x128.size inb_S5000x128_S5000x128_0_0
abbrev r6_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `max ((x − mean) · rsqrt (var + ε) · gamma + beta) 0` of the five whole-buffer loads, written as a one-piece list.
    (The body loads the variance before the mean, which is the order of the payload's arguments.) -/
def out6_5 (x0 : Vec F S5000x128 .f32) (x1 x2 x3 x4 : Vec F S1x128 .f32) : Vec F S5000x128 .f32 :=
  View.canon [⟨r6_big, k6_pay1 (View.ld x0 r6_big) (View.ld x2 r6_row) (View.ld x1 r6_row)
    (View.ld x3 r6_row) (View.ld x4 r6_row)⟩]

/-- The one store is of the whole buffer, so every index of the buffer lies in it. -/
theorem cover6_5 (p : Vec F S5000x128 .f32) (y : S5000x128.Idx) :
    ∃ pc ∈ ([⟨r6_big, p⟩] : List (View.Piece (Elt F) S5000x128 .f32)), y ∈ pc.1.set :=
  View.cover_of_tiled [⟨r6_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out6_5 x0 x1 x2 x3 x4`. (The body also loads the output buffer before storing to it; the loaded value is
    not used.) -/
theorem sound_kernel6 (c : Dev nD) (E : Set ℕ) (i : grid6.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__bn_relu_kernel i arg1 harg1 arg2 harg2 arg3 harg3 arg4 harg4 arg5 harg5 arg6 harg6) K := by
  simp only [cc6__bn_relu_kernel_eq_skeleton]; unfold cc6__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The proof data of the pipeline -/

/-- Region 6's proof data on core `c`: the six arrays as the region finds them; after the body at point `t` the
    five inputs' buffers at their blocks and the output's at `out6_5` of those blocks; the invariant the scoped rest
    and the generator register, untouched (`Pipeline.ΦA`); full shares; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the entry contents (the structure projected; `V` is never unfolded). -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t
      = out6_5 (iblk6 V c 0 t) (iblk6 V c 1 t) (iblk6 V c 2 t) (iblk6 V c 3 t) (iblk6 V c 4 t) := by
  dsimp only [dat6]

/-- What the body is handed in each input's buffer: its block. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation -/

/-- What the body is called with at point `t`: the invariant, the core's dues, and each window's current staging
    buffer at what the pipeline put there. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- What it returns: the same, each buffer at the proof data's `after`. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at a point: the inputs' buffers hold their blocks, so the body's triple applies at those blocks; the
    invariant and the dues are not read. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Frame6

end
-- ==== Proof.KIRegion6.lean ====
/- Region 6 of the idealized kernel program (custom_call 6) as a segment of @main: entered from every unscoped
   buffer at the contents before it (`V19`), left with the result array `main_v119` at what the pipeline's
   write-backs leave and every other buffer as entered (`V20`). Stated over an arbitrary family of proof data whose
   member at pipeline 6 is this region's (`hp6`), and over any `outs` that names the result's final contents
   (`houts`). -/
import proofs.«146189_j40922448396571_2_alg».proof.Proof.KIRegions
import proofs.«146189_j40922448396571_2_alg».proof.Proof.KIGlobals
import proofs.«146189_j40922448396571_2_alg».proof.Proof.KIRegion6Body

set_option maxRecDepth 16384

noncomputable section

namespace Cert.KernelIdeal.Frame6

open Cert.KernelIdeal.Gen Cert.KernelIdeal.Glob
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: the contents before the region (`V19`). -/
abbrev VVin : (c : Dev nD) → (b : Ref sig .tc) → Buf (Elt F) ((c : Thread nD τ).loc b) := fun c b => V19 m outs c b
/-- Exit: the same with `main_v119` at `outs 20 main_v119` (`V20`). -/
abbrev VVout : (c : Dev nD) → (b : Ref sig .tc) → Buf (Elt F) ((c : Thread nD τ).loc b) := fun c b => V20 m outs c b

/-! ## The family of proof data, pinned at pipeline 6 -/

variable (pdats : (p : Fin 17) → (c : Dev nD) → Dat τ (Elt F) Unit ℕ (UR sig nD τ) ℕ (cfgs p) c)

section Pinned
variable (hp6 : ∀ c, pdats 6 c = dat6 (VVin m outs) c)
include hp6

/-- The pinned member's fields, read through the pin: full shares, nothing owed, the entry contents as arrays, the
    untouched invariant, every point recorded. -/
theorem pd6_q (c : Dev nD) (w : Fin cfg6.W) : (pdats 6 c).q w = fullShare := by rw [hp6 c]; rfl
theorem pd6_owed (c : Dev nD) (t) : (pdats 6 c).owed t = 0 := by rw [hp6 c]; rfl
theorem pd6_A (c : Dev nD) (w : Fin cfg6.W) : (pdats 6 c).A w = VVin m outs c (Pipeline.arrRef spec6 w) := by
  rw [hp6 c]; exact A_eq6 (VVin m outs) c w
theorem pd6_Φ (c : Dev nD) (t) : (pdats 6 c).Φ t = Pipeline.ΦA spec6 c := by rw [hp6 c]; rfl
theorem pd6_recorded (c : Dev nD) (t) : (pdats 6 c).recorded t = Set.univ := by rw [hp6 c]; rfl

end Pinned

/-! ## The exit contents, at the region's arrays and off them -/

section Exit
variable (hp6 : ∀ c, pdats 6 c = dat6 (VVin m outs) c)
  (houts : ∀ c, outs 20 main_v119 c = (dat6 (VVin m outs) c).arrAt 5 cfg6.N)

include hp6 in
/-- The row-block operand's array (`main_v106`) ends as entered: no window writes it, and it is not the result's reference. -/
theorem hF6_0 (c : Dev nD) : (pdats 6 c).arrAt 0 cfg6.N = VVout m outs c (Pipeline.arrRef spec6 0) := by
  rw [hp6 c]
  refine ((dat6 (VVin m outs) c).arrAt_in 0 rfl _).trans ((A_eq6 (VVin m outs) c 0).trans ?_)
  exact (Function.update_of_ne (StableHlo.devRef_ne_of_ne (by decide)) _ _).symm

include hp6 in
/-- The mean row's array (`main_v110`) ends as entered: no window writes it, and it is not the result's reference. -/
theorem hF6_1 (c : Dev nD) : (pdats 6 c).arrAt 1 cfg6.N = VVout m outs c (Pipeline.arrRef spec6 1) := by
  rw [hp6 c]
  refine ((dat6 (VVin m outs) c).arrAt_in 1 rfl _).trans ((A_eq6 (VVin m outs) c 1).trans ?_)
  exact (Function.update_of_ne (StableHlo.devRef_ne_of_ne (by decide)) _ _).symm

include hp6 in
/-- The variance row's array (`main_v114`) ends as entered: no window writes it, and it is not the result's reference. -/
theorem hF6_2 (c : Dev nD) : (pdats 6 c).arrAt 2 cfg6.N = VVout m outs c (Pipeline.arrRef spec6 2) := by
  rw [hp6 c]
  refine ((dat6 (VVin m outs) c).arrAt_in 2 rfl _).trans ((A_eq6 (VVin m outs) c 2).trans ?_)
  exact (Function.update_of_ne (StableHlo.devRef_ne_of_ne (by decide)) _ _).symm

include hp6 in
/-- The scale row's array (`main_v116`) ends as entered: no window writes it, and it is not the result's reference. -/
theorem hF6_3 (c : Dev nD) : (pdats 6 c).arrAt 3 cfg6.N = VVout m outs c (Pipeline.arrRef spec6 3) := by
  rw [hp6 c]
  refine ((dat6 (VVin m outs) c).arrAt_in 3 rfl _).trans ((A_eq6 (VVin m outs) c 3).trans ?_)
  exact (Function.update_of_ne (StableHlo.devRef_ne_of_ne (by decide)) _ _).symm

include hp6 in
/-- The shift row's array (`main_v118`) ends as entered: no window writes it, and it is not the result's reference. -/
theorem hF6_4 (c : Dev nD) : (pdats 6 c).arrAt 4 cfg6.N = VVout m outs c (Pipeline.arrRef spec6 4) := by
  rw [hp6 c]
  refine ((dat6 (VVin m outs) c).arrAt_in 4 rfl _).trans ((A_eq6 (VVin m outs) c 4).trans ?_)
  exact (Function.update_of_ne (StableHlo.devRef_ne_of_ne (by decide)) _ _).symm

include hp6 houts in
/-- The result's array (`main_v119`) ends at what the write-backs leave, which is what `outs` names. -/
theorem hF6_5 (c : Dev nD) : (pdats 6 c).arrAt 5 cfg6.N = VVout m outs c (Pipeline.arrRef spec6 5) := by
  rw [hp6 c, ← houts c]
  exact (Function.update_self (Proc.devRef (τ := τ) .tc main_v119) (outs 20 main_v119 c) (V19 m outs c)).symm

include hp6 houts in
/-- Every array of the region at its exit contents. -/
theorem hF6 (c : Dev nD) : ∀ w : Fin cfg6.W, (pdats 6 c).arrAt w cfg6.N = VVout m outs c (Pipeline.arrRef spec6 w)
  | ⟨0, _⟩ => hF6_0 m outs pdats hp6 c
  | ⟨1, _⟩ => hF6_1 m outs pdats hp6 c
  | ⟨2, _⟩ => hF6_2 m outs pdats hp6 c
  | ⟨3, _⟩ => hF6_3 m outs pdats hp6 c
  | ⟨4, _⟩ => hF6_4 m outs pdats hp6 c
  | ⟨5, _⟩ => hF6_5 m outs pdats hp6 houts c

/-- Off the region's six arrays the exit contents are the entry contents: only `main_v119` is updated, and it is
    window 5's array. -/
theorem hrest6 (c : Dev nD) : ∀ b, b ∉ Finset.univ.image (Pipeline.arrRef spec6) → VVout m outs c b = VVin m outs c b :=
  fun b hb => Function.update_of_ne
    (fun e => hb (Finset.mem_image.mpr ⟨5, Finset.mem_univ _, (Proc.devRef_injective _ e).symm⟩)) _ _

end Exit

/-! ## The region as a segment -/

section Record
variable (hp6 : ∀ c, pdats 6 c = dat6 (VVin m outs) c)
  (houts : ∀ c, outs 20 main_v119 c = (dat6 (VVin m outs) c).arrAt 5 cfg6.N)

-- a library lemma stated over the pinned configuration `pin pcs a p` is applied to the printed one: unification has
-- to unfold plain definitions in a metavariable's type
set_option backward.isDefEq.respectTransparency.types false in
/-- Region 6 over the thread state "every unscoped buffer at the boundary's contents, beside the rest state `R`".
    Entry: the six arrays are split out of the unscoped buffers at the entry contents; the generator register goes
    into the invariant; nothing is owed; the kernel has no semaphore of its own. Exit: the arrays are put back at the
    exit contents (`hF6`, `hrest6`) and the register comes back. -/
def reg6 : RegionSeg (pcfgs (F := F)) adm pdats () defs₀ 𝒱₀ L lv 6 where
  win := launch6.win.to₀
  block_pos := launch6.block_pos
  stage_whole := launch6.stage_whole
  K := PEmpty
  osem k := k.elim
  ho := Pipeline.OwnSemFacts.none _
  hbody c := by rw [hp6 c]; exact (body_obligation6 (VVin m outs) c).loose
  hwaits := Pipeline.hwaits_of_owed_zero _ _ _ _ L lv 6 fun c t => pd6_owed m outs pdats hp6 c t
  pre c := iprop(StableHlo.held (c : Thread nD τ) (Pipeline.ucRefs τ sig) (V19 m outs c) ∗ R c)
  post c := iprop(StableHlo.held (c : Thread nD τ) (Pipeline.ucRefs τ sig) (V20 m outs c) ∗ R c)
  X c := iprop(∃ r, prngReg c r)
  Y c := iprop(∃ r, prngReg c r)
  Z c := Pipeline.unscopedRest (Ix := Unit) (Name := ℕ) (U := UR sig nD τ) (Lvl := ℕ) spec6 c (VVin m outs c)
  hentry c := by
    rw [Pipeline.ownSems0_none]
    have hsplit := Pipeline.arrays_of_unscopedBufs (p := 6) (pcfgs (F := F)) adm pdats launch6.win launch6.arr_whole c
      ((pdats 6 c).share_full fun w => pd6_q m outs pdats hp6 c w) (VVin m outs c) fun w => pd6_A m outs pdats hp6 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd6_owed m outs pdats hp6 c]
      icases HO with ⟨%W, HO⟩; iexists W; isplitr
      · ipureintro; exact fun x _ => Or.inl (by rw [pd6_recorded m outs pdats hp6 c]; exact Set.mem_univ x)
      iexact HO
    isplitl [Hp]; · iexact Hp
    iexact Hrest
  hin c := by
    rw [pd6_Φ m outs pdats hp6 c 0]; unfold Pipeline.ΦA
    iintro ⟨Hp, -, Hr⟩
    isplitl [Hr]; · iexact Hr
    iexact Hp
  hout c := by
    rw [Pipeline.ownSems0_none, pd6_Φ m outs pdats hp6 c (Fin.last _)]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c pdats ((pdats 6 c).share_full fun w => pd6_q m outs pdats hp6 c w)
      (VVin m outs c) (VVout m outs c) ((pdats 6 c).arrAt · cfg6.N) (hF6 m outs pdats hp6 houts c) (hrest6 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd6_owed m outs pdats hp6 c]
    icases HO with ⟨%W, -, HO⟩; iexists W; iexact HO

/-- The record is entered from the conditional frame's thread state before the region (with the rest state `R`), -/
theorem hpre6 (c : Dev nD) :
    iprop(StableHlo.held (c : Thread nD τ) (Pipeline.ucRefs τ sig) (V19 m outs c) ∗ R (F := F) c)
      ⊢ (reg6 m outs pdats hp6 houts).pre c := .rfl

/-- and left at the one after it. -/
theorem hpost6 (c : Dev nD) :
    (reg6 m outs pdats hp6 houts).post c
      ⊢ iprop(StableHlo.held (c : Thread nD τ) (Pipeline.ucRefs τ sig) (V20 m outs c) ∗ R (F := F) c) := .rfl

end Record

end Cert.KernelIdeal.Frame6

end
-- ==== Proof.KIRegion7Body.lean ====
/- Region 7 of the idealized kernel program (custom_call 7: a 64 → 64 matmul, plus a bias row, plus a second
   operand added elementwise): the class-A half of its frame, stated at a parameter `V` — the TensorCore's buffer
   contents when the region is entered. For each of the five windows its block at a grid point, the contents the body
   leaves in the output window's buffer as a function of the four input blocks, the body's triple, the pipeline's
   proof data and the library's body obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame7

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 7 is entered
variable (V : (c : Dev nD) → (b : Ref sig .tc) → Buf (Elt F) ((c : Thread nD τ).loc b))

/-! ## The blocks of the five windows -/

/-- The block of window `w` at grid point `t`: the window's rectangle at `t` read off the window's array as the
    region finds it. Window 0 is rows `5000 t … 5000 t + 4999` of the [100000,64] left operand, window 1 the whole
    [64,64] weight, window 2 the whole [1,64] bias row, window 3 the same rows of the [100000,64] operand that is
    added, window 4 the same rows of the [100000,64] result. -/
def iblk7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-- An input window whose body leaves its block where it is: whatever proof data has the entry contents as the
    window's array and the block as what the body leaves, the staging buffer the body is handed at `t` holds the block
    at `t` — it was fetched at `t`, or the window's index has not moved since it was. Window 0, the row block of
    the left operand (fetched at every point). -/
theorem before7_0_of {c : Dev nD} (dat : Dat τ (Elt F) Unit ℕ (UR sig nD τ) ℕ cfg7 c)
    (hA : dat.A 0 = V c (Pipeline.arrRef spec7 0)) (hafter : ∀ t, dat.after 0 t = iblk7 V c 0 t)
    (t : Fin cfg7.N) (d) : dat.before 0 t d = iblk7 V c 0 t := by
  refine (dat.before_in_eq_fetched 0 rfl (fun _ => rfl) (fun _ _ _ => rfl) (fun t => ?_) t d).trans ?_
  · rw [hafter]; unfold Dat.blockOf iblk7; rw [hA]; try rfl
  · unfold Dat.fetched Dat.blockOf iblk7; rw [hA]; try rfl

/-- Window 1, the weight (fetched once; its index is constant): the same statement. -/
theorem before7_1_of {c : Dev nD} (dat : Dat τ (Elt F) Unit ℕ (UR sig nD τ) ℕ cfg7 c)
    (hA : dat.A 1 = V c (Pipeline.arrRef spec7 1)) (hafter : ∀ t, dat.after 1 t = iblk7 V c 1 t)
    (t : Fin cfg7.N) (d) : dat.before 1 t d = iblk7 V c 1 t := by
  refine (dat.before_in_eq_fetched 1 rfl (fun _ => rfl) (fun _ _ _ => rfl) (fun t => ?_) t d).trans ?_
  · rw [hafter]; unfold Dat.blockOf iblk7; rw [hA]; try rfl
  · unfold Dat.fetched Dat.blockOf iblk7; rw [hA]; try rfl

/-- Window 2, the bias row (fetched once; its index is constant): the same statement. -/
theorem before7_2_of {c : Dev nD} (dat : Dat τ (Elt F) Unit ℕ (UR sig nD τ) ℕ cfg7 c)
    (hA : dat.A 2 = V c (Pipeline.arrRef spec7 2)) (hafter : ∀ t, dat.after 2 t = iblk7 V c 2 t)
    (t : Fin cfg7.N) (d) : dat.before 2 t d = iblk7 V c 2 t := by
  refine (dat.before_in_eq_fetched 2 rfl (fun _ => rfl) (fun _ _ _ => rfl) (fun t => ?_) t d).trans ?_
  · rw [hafter]; unfold Dat.blockOf iblk7; rw [hA]; try rfl
  · unfold Dat.fetched Dat.blockOf iblk7; rw [hA]; try rfl

/-- Window 3, the row block of the operand that is added (fetched at every point): the same statement. -/
theorem before7_3_of {c : Dev nD} (dat : Dat τ (Elt F) Unit ℕ (UR sig nD τ) ℕ cfg7 c)
    (hA : dat.A 3 = V c (Pipeline.arrRef spec7 3)) (hafter : ∀ t, dat.after 3 t = iblk7 V c 3 t)
    (t : Fin cfg7.N) (d) : dat.before 3 t d = iblk7 V c 3 t := by
  refine (dat.before_in_eq_fetched 3 rfl (fun _ => rfl) (fun _ _ _ => rfl) (fun t => ?_) t d).trans ?_
  · rw [hafter]; unfold Dat.blockOf iblk7; rw [hA]; try rfl
  · unfold Dat.fetched Dat.blockOf iblk7; rw [hA]; try rfl

/-! ## The rectangles the body reads and writes: each staging buffer whole -/

abbrev r7_a : Rect S5000x64 := Rect.unit (s := S5000x64) ![0, 0] S5000x64.size inb_S5000x64_S5000x64_0_0
abbrev r7_w : Rect S64x64 := Rect.unit (s := S64x64) ![0, 0] S64x64.size inb_S64x64_S64x64_0_0
abbrev r7_b : Rect S1x64 := Rect.unit (s := S1x64) ![0, 0] S1x64.size inb_S1x64_S1x64_0_0

/-! ## What the body leaves in the output window's buffer -/

/-- The output staging buffer after the body, from the four input blocks: its one store, of the payload
    `x0 · x1 + (the row x2 on every row) + x3` of the four whole-buffer loads, written as a one-piece list. -/
def out7_4 (x0 : Vec F S5000x64 .f32) (x1 : Vec F S64x64 .f32) (x2 : Vec F S1x64 .f32) (x3 : Vec F S5000x64 .f32) :
    Vec F S5000x64 .f32 :=
  View.canon [⟨r7_a, k7_pay1 (View.ld x0 r7_a) (View.ld x1 r7_w) (View.ld x2 r7_b) (View.ld x3 r7_a)⟩]

/-- The one store is of the whole buffer, so every index of the buffer lies in it. -/
theorem cover7_4 (p : Vec F S5000x64 .f32) (y : S5000x64.Idx) :
    ∃ pc ∈ ([⟨r7_a, p⟩] : List (View.Piece (Elt F) S5000x64 .f32)), y ∈ pc.1.set :=
  View.cover_of_tiled [⟨r7_a, p⟩] S5000x64.size (by rfl) y

/-! ## The body's triple -/

set_option maxHeartbeats 1000000 in
/-- The body at any grid coordinate `i`, on whole staging memrefs: the four inputs' read `x0 … x3`, the output's
    holds anything. It runs to the continuation with the inputs' as they were and the output's at
    `out7_4 x0 x1 x2 x3`. (The body also loads the output buffer before storing to it; the loaded value is not used.) -/
theorem sound_kernel7 (c : Dev nD) (E : Set ℕ) (i : grid7.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out7_4 x0 x1 x2 x3)) -∗ K ⟨⟩))
      ⊢ wp frame (wpE (defs₀ (F := F)) Variants.none c none) E
          (cc7__linear_extra_kernel i arg1 harg1 arg2 harg2 arg3 harg3 arg4 harg4 arg5 harg5) K := by
  simp only [cc7__linear_extra_kernel_eq_skeleton]; unfold cc7__linear_extra_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-! ## The proof data of the pipeline -/

/-- Region 7's proof data on core `c`: the five arrays as the region finds them; after the body at point `t` the four
    inputs' buffers at their blocks and the output's at `out7_4` of those blocks; the invariant the scoped rest and the
    generator register, untouched (`Pipeline.ΦA`); full shares; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

/-- The proof data's arrays are the entry contents (the structure projected; `V` is never unfolded). -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (iblk7 V c 0 t) (iblk7 V c 1 t) (iblk7 V c 2 t) (iblk7 V c 3 t) := by
  dsimp only [dat7]

/-- What the body is handed in each input's buffer: its block. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation -/

/-- What the body is called with at point `t`: the invariant, the core's dues, and each window's current staging
    buffer at what the pipeline put there. -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- What it returns: the same, each buffer at the proof data's `after`. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at a point: the inputs' buffers hold their blocks, so the body's triple applies at those blocks; the
    invariant and the dues are not read. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _
    (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the proof data, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Frame7

end
-- ==== Proof.KIRegion7.lean ====
/- Region 7 of the idealized kernel program (custom_call 7) as a segment of @main: entered from every unscoped
   buffer at the contents the preceding host stretch leaves, left with the result array `main_v137` at what the
   pipeline's write-backs leave and every other buffer as entered. Stated over an arbitrary family of proof data whose
   member at pipeline 7 is this region's (`hp7`), and over any `outs` that names the result's final contents
   (`houts7`). -/
import proofs.«146189_j40922448396571_2_alg».proof.Proof.KIRegions
import proofs.«146189_j40922448396571_2_alg».proof.Proof.KIRegion7Body

set_option maxRecDepth 16384

noncomputable section

namespace Cert.KernelIdeal.Frame7

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: what the host stretch before the region leaves. -/
abbrev VV21 : (c : Dev nD) → (b : Ref sig .tc) → Buf (Elt F) ((c : Thread nD τ).loc b) := fun c b => V21 m outs c b
/-- Exit: the same with `main_v137` at `outs 22 main_v137`. -/
abbrev VV22 : (c : Dev nD) → (b : Ref sig .tc) → Buf (Elt F) ((c : Thread nD τ).loc b) := fun c b => V22 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 7 -/

variable (pdats : (p : Fin 17) → (c : Dev nD) → Dat τ (Elt F) Unit ℕ (UR sig nD τ) ℕ (cfgs p) c)

section Pinned
variable (hp7 : ∀ c, pdats 7 c = dat7 (VV21 m outs) c)
include hp7

theorem pd7_q (c : Dev nD) (w : Fin cfg7.W) : (pdats 7 c).q w = fullShare := by rw [hp7 c]; rfl
theorem pd7_owed (c : Dev nD) (t) : (pdats 7 c).owed t = 0 := by rw [hp7 c]; rfl
theorem pd7_A (c : Dev nD) (w : Fin cfg7.W) : (pdats 7 c).A w = VV21 m outs c (Pipeline.arrRef spec7 w) := by
  rw [hp7 c]; exact A_eq7 (VV21 m outs) c w
theorem pd7_Φ (c : Dev nD) (t) : (pdats 7 c).Φ t = Pipeline.ΦA spec7 c := by rw [hp7 c]; rfl
theorem pd7_recorded (c : Dev nD) (t) : (pdats 7 c).recorded t = Set.univ := by rw [hp7 c]; rfl

end Pinned

/-! ## The exit contents, at the region's arrays and off them -/

section Exit
variable (hp7 : ∀ c, pdats 7 c = dat7 (VV21 m outs) c)
  (houts7 : ∀ c, outs 22 main_v137 c = (dat7 (VV21 m outs) c).arrAt 4 cfg7.N)

include hp7 in
/-- The left operand's row block: its array ends as entered — no window writes it, and it is not the result's reference. -/
theorem hF7_0 (c : Dev nD) : (pdats 7 c).arrAt 0 cfg7.N = VV22 m outs c (Pipeline.arrRef spec7 0) := by
  rw [hp7 c]
  refine ((dat7 (VV21 m outs) c).arrAt_in 0 rfl _).trans ((A_eq7 (VV21 m outs) c 0).trans ?_)
  exact (Function.update_of_ne (StableHlo.devRef_ne_of_ne (by decide)) _ _).symm

include hp7 in
/-- The weight: its array ends as entered — no window writes it, and it is not the result's reference. -/
theorem hF7_1 (c : Dev nD) : (pdats 7 c).arrAt 1 cfg7.N = VV22 m outs c (Pipeline.arrRef spec7 1) := by
  rw [hp7 c]
  refine ((dat7 (VV21 m outs) c).arrAt_in 1 rfl _).trans ((A_eq7 (VV21 m outs) c 1).trans ?_)
  exact (Function.update_of_ne (StableHlo.devRef_ne_of_ne (by decide)) _ _).symm

include hp7 in
/-- The bias row: its array ends as entered — no window writes it, and it is not the result's reference. -/
theorem hF7_2 (c : Dev nD) : (pdats 7 c).arrAt 2 cfg7.N = VV22 m outs c (Pipeline.arrRef spec7 2) := by
  rw [hp7 c]
  refine ((dat7 (VV21 m outs) c).arrAt_in 2 rfl _).trans ((A_eq7 (VV21 m outs) c 2).trans ?_)
  exact (Function.update_of_ne (StableHlo.devRef_ne_of_ne (by decide)) _ _).symm

include hp7 in
/-- The added operand's row block: its array ends as entered — no window writes it, and it is not the result's reference. -/
theorem hF7_3 (c : Dev nD) : (pdats 7 c).arrAt 3 cfg7.N = VV22 m outs c (Pipeline.arrRef spec7 3) := by
  rw [hp7 c]
  refine ((dat7 (VV21 m outs) c).arrAt_in 3 rfl _).trans ((A_eq7 (VV21 m outs) c 3).trans ?_)
  exact (Function.update_of_ne (StableHlo.devRef_ne_of_ne (by decide)) _ _).symm

include hp7 houts7 in
/-- The result's array ends at what the write-backs leave, which is what `outs` names. -/
theorem hF7_4 (c : Dev nD) : (pdats 7 c).arrAt 4 cfg7.N = VV22 m outs c (Pipeline.arrRef spec7 4) := by
  rw [hp7 c, ← houts7 c]
  exact (Function.update_self (Proc.devRef (τ := τ) .tc main_v137) (outs 22 main_v137 c) (V21 m outs c)).symm

include hp7 houts7 in
theorem hF7 (c : Dev nD) : ∀ w : Fin cfg7.W, (pdats 7 c).arrAt w cfg7.N = VV22 m outs c (Pipeline.arrRef spec7 w)
  | ⟨0, _⟩ => hF7_0 m outs pdats hp7 c
  | ⟨1, _⟩ => hF7_1 m outs pdats hp7 c
  | ⟨2, _⟩ => hF7_2 m outs pdats hp7 c
  | ⟨3, _⟩ => hF7_3 m outs pdats hp7 c
  | ⟨4, _⟩ => hF7_4 m outs pdats hp7 houts7 c

/-- Off the region's five arrays the exit contents are the entry contents: only `main_v137` is updated, and it is
    window 4's array. -/
theorem hrest7 (c : Dev nD) : ∀ b, b ∉ Finset.univ.image (Pipeline.arrRef spec7) → VV22 m outs c b = VV21 m outs c b :=
  fun b hb => Function.update_of_ne
    (fun e => hb (Finset.mem_image.mpr ⟨4, Finset.mem_univ _, (Proc.devRef_injective _ e).symm⟩)) _ _

end Exit

/-! ## The region as a segment -/

section Record
variable (hp7 : ∀ c, pdats 7 c = dat7 (VV21 m outs) c)
  (houts7 : ∀ c, outs 22 main_v137 c = (dat7 (VV21 m outs) c).arrAt 4 cfg7.N)

-- a library lemma stated over the pinned configuration `pin pcs a p` is applied to the printed one: unification has
-- to unfold plain definitions in a metavariable's type
set_option backward.isDefEq.respectTransparency.types false in
/-- Region 7 over the thread state "every unscoped buffer at the boundary's contents, beside `R`". Entry: the
    region's arrays are split out of the unscoped buffers at the entry contents; the generator register goes into the
    invariant; nothing is owed; the kernel has no semaphore of its own. Exit: the arrays are put back at the exit
    contents (`hF7`, `hrest7`) and the register comes back. -/
def reg7 : RegionSeg (pcfgs (F := F)) adm pdats () defs₀ 𝒱₀ L lv 7 where
  win := launch7.win.to₀
  block_pos := launch7.block_pos
  stage_whole := launch7.stage_whole
  K := PEmpty
  osem k := k.elim
  ho := Pipeline.OwnSemFacts.none _
  hbody c := by rw [hp7 c]; exact (body_obligation7 (VV21 m outs) c).loose
  hwaits := Pipeline.hwaits_of_owed_zero _ _ _ _ L lv 7 fun c t => pd7_owed m outs pdats hp7 c t
  pre c := iprop(StableHlo.held (c : Thread nD τ) (Pipeline.ucRefs τ sig) (V21 m outs c) ∗ R c)
  post c := iprop(StableHlo.held (c : Thread nD τ) (Pipeline.ucRefs τ sig) (V22 m outs c) ∗ R c)
  X c := iprop(∃ r, prngReg c r)
  Y c := iprop(∃ r, prngReg c r)
  Z c := Pipeline.unscopedRest (Ix := Unit) (Name := ℕ) (U := UR sig nD τ) (Lvl := ℕ) spec7 c (VV21 m outs c)
  hentry c := by
    rw [Pipeline.ownSems0_none]
    have hsplit := Pipeline.arrays_of_unscopedBufs (p := 7) (pcfgs (F := F)) adm pdats launch7.win launch7.arr_whole c
      ((pdats 7 c).share_full fun w => pd7_q m outs pdats hp7 c w) (VV21 m outs c) fun w => pd7_A m outs pdats hp7 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd7_owed m outs pdats hp7 c]
      icases HO with ⟨%W, HO⟩; iexists W; isplitr; · ipureintro; exact fun x _ => Or.inl (by rw [pd7_recorded m outs pdats hp7 c]; exact Set.mem_univ x)
      iexact HO
    isplitl [Hp]; · iexact Hp
    iexact Hrest
  hin c := by
    rw [pd7_Φ m outs pdats hp7 c 0]; unfold Pipeline.ΦA
    iintro ⟨Hp, -, Hr⟩
    isplitl [Hr]; · iexact Hr
    iexact Hp
  hout c := by
    rw [Pipeline.ownSems0_none, pd7_Φ m outs pdats hp7 c (Fin.last _)]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c pdats ((pdats 7 c).share_full fun w => pd7_q m outs pdats hp7 c w)
      (VV21 m outs c) (VV22 m outs c) ((pdats 7 c).arrAt · cfg7.N) (hF7 m outs pdats hp7 houts7 c) (hrest7 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd7_owed m outs pdats hp7 c]
    icases HO with ⟨%W, -, HO⟩; iexists W; iexact HO

/-- The record is entered from the conditional frame's thread state before the region (with the rest state `R`), -/
theorem hpre7 (c : Dev nD) :
    iprop(StableHlo.held (c : Thread nD τ) (Pipeline.ucRefs τ sig) (V21 m outs c) ∗ R (F := F) c)
      ⊢ (reg7 m outs pdats hp7 houts7).pre c := .rfl

/-- and left at the one after it. -/
theorem hpost7 (c : Dev nD) :
    (reg7 m outs pdats hp7 houts7).post c
      ⊢ iprop(StableHlo.held (c : Thread nD τ) (Pipeline.ucRefs τ sig) (V22 m outs c) ∗ R (F := F) c) := .rfl

end Record

end Cert.KernelIdeal.Frame7

end
-- ==== Proof.KIRegion8Body.lean ====
/- Region 8 of the idealized kernel program (custom_call 8, the batch-norm affine map followed by the maximum with zero, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame8

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 8 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk8 (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-- The row-block operand (window 0): for any proof data whose array for it is the entry contents and whose body
    leaves the block where it is, the staging buffer handed to the body at `t` holds the block at `t` — fetched at
    `t`, or still there from an earlier point because the block index has not moved since. -/
theorem before8_0_of {c : Dev nD} (dat : Dat τ (Elt F) Unit ℕ (UR sig nD τ) ℕ cfg8 c)
    (hA : dat.A 0 = V c (Pipeline.arrRef spec8 0)) (hafter : ∀ t, dat.after 0 t = iblk8 V c 0 t)
    (t : Fin cfg8.N) (d) : dat.before 0 t d = iblk8 V c 0 t := by
  refine (dat.before_in_eq_fetched 0 rfl (fun _ => rfl) (fun _ _ _ => rfl) (fun t => ?_) t d).trans ?_
  · rw [hafter]; unfold Dat.blockOf iblk8; rw [hA]; try rfl
  · unfold Dat.fetched Dat.blockOf iblk8; rw [hA]; try rfl

/-- The mean row (window 1; one block, fetched at the first point only, its index constant): the same. -/
theorem before8_1_of {c : Dev nD} (dat : Dat τ (Elt F) Unit ℕ (UR sig nD τ) ℕ cfg8 c)
    (hA : dat.A 1 = V c (Pipeline.arrRef spec8 1)) (hafter : ∀ t, dat.after 1 t = iblk8 V c 1 t)
    (t : Fin cfg8.N) (d) : dat.before 1 t d = iblk8 V c 1 t := by
  refine (dat.before_in_eq_fetched 1 rfl (fun _ => rfl) (fun _ _ _ => rfl) (fun t => ?_) t d).trans ?_
  · rw [hafter]; unfold Dat.blockOf iblk8; rw [hA]; try rfl
  · unfold Dat.fetched Dat.blockOf iblk8; rw [hA]; try rfl

/-- The variance row (window 2; one block, fetched at the first point only, its index constant): the same. -/
theorem before8_2_of {c : Dev nD} (dat : Dat τ (Elt F) Unit ℕ (UR sig nD τ) ℕ cfg8 c)
    (hA : dat.A 2 = V c (Pipeline.arrRef spec8 2)) (hafter : ∀ t, dat.after 2 t = iblk8 V c 2 t)
    (t : Fin cfg8.N) (d) : dat.before 2 t d = iblk8 V c 2 t := by
  refine (dat.before_in_eq_fetched 2 rfl (fun _ => rfl) (fun _ _ _ => rfl) (fun t => ?_) t d).trans ?_
  · rw [hafter]; unfold Dat.blockOf iblk8; rw [hA]; try rfl
  · unfold Dat.fetched Dat.blockOf iblk8; rw [hA]; try rfl

/-- The scale row (window 3; one block, fetched at the first point only, its index constant): the same. -/
theorem before8_3_of {c : Dev nD} (dat : Dat τ (Elt F) Unit ℕ (UR sig nD τ) ℕ cfg8 c)
    (hA : dat.A 3 = V c (Pipeline.arrRef spec8 3)) (hafter : ∀ t, dat.after 3 t = iblk8 V c 3 t)
    (t : Fin cfg8.N) (d) : dat.before 3 t d = iblk8 V c 3 t := by
  refine (dat.before_in_eq_fetched 3 rfl (fun _ => rfl) (fun _ _ _ => rfl) (fun t => ?_) t d).trans ?_
  · rw [hafter]; unfold Dat.blockOf iblk8; rw [hA]; try rfl
  · unfold Dat.fetched Dat.blockOf iblk8; rw [hA]; try rfl

/-- The shift row (window 4; one block, fetched at the first point only, its index constant): the same. -/
theorem before8_4_of {c : Dev nD} (dat : Dat τ (Elt F) Unit ℕ (UR sig nD τ) ℕ cfg8 c)
    (hA : dat.A 4 = V c (Pipeline.arrRef spec8 4)) (hafter : ∀ t, dat.after 4 t = iblk8 V c 4 t)
    (t : Fin cfg8.N) (d) : dat.before 4 t d = iblk8 V c 4 t := by
  refine (dat.before_in_eq_fetched 4 rfl (fun _ => rfl) (fun _ _ _ => rfl) (fun t => ?_) t d).trans ?_
  · rw [hafter]; unfold Dat.blockOf iblk8; rw [hA]; try rfl
  · unfold Dat.fetched Dat.blockOf iblk8; rw [hA]; try rfl

/-! ## The rectangles the body reads and writes: each staging buffer whole -/

abbrev r8_big : Rect S5000x128 := Rect.unit (s := S5000x128) ![0, 0] S5000x128.size inb_S5000x128_S5000x128_0_0
abbrev r8_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `max ((x − mean) · rsqrt (var + ε) · gamma + beta) 0` of the five whole-buffer loads, written as a one-piece list.
    (The body loads the variance before the mean, which is the order of the payload's arguments.) -/
def out8_5 (x0 : Vec F S5000x128 .f32) (x1 x2 x3 x4 : Vec F S1x128 .f32) : Vec F S5000x128 .f32 :=
  View.canon [⟨r8_big, k8_pay1 (View.ld x0 r8_big) (View.ld x2 r8_row) (View.ld x1 r8_row)
    (View.ld x3 r8_row) (View.ld x4 r8_row)⟩]

/-- The one store is of the whole buffer, so every index of the buffer lies in it. -/
theorem cover8_5 (p : Vec F S5000x128 .f32) (y : S5000x128.Idx) :
    ∃ pc ∈ ([⟨r8_big, p⟩] : List (View.Piece (Elt F) S5000x128 .f32)), y ∈ pc.1.set :=
  View.cover_of_tiled [⟨r8_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out8_5 x0 x1 x2 x3 x4`. (The body also loads the output buffer before storing to it; the loaded value is
    not used.) -/
theorem sound_kernel8 (c : Dev nD) (E : Set ℕ) (i : grid8.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E
          (cc8__bn_relu_kernel i arg1 harg1 arg2 harg2 arg3 harg3 arg4 harg4 arg5 harg5 arg6 harg6) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The proof data of the pipeline -/

/-- Region 8's proof data on core `c`: the six arrays as the region finds them; after the body at point `t` the
    five inputs' buffers at their blocks and the output's at `out8_5` of those blocks; the invariant the scoped rest
    and the generator register, untouched (`Pipeline.ΦA`); full shares; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the entry contents (the structure projected; `V` is never unfolded). -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t
      = out8_5 (iblk8 V c 0 t) (iblk8 V c 1 t) (iblk8 V c 2 t) (iblk8 V c 3 t) (iblk8 V c 4 t) := by
  dsimp only [dat8]

/-- What the body is handed in each input's buffer: its block. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation -/

/-- What the body is called with at point `t`: the invariant, the core's dues, and each window's current staging
    buffer at what the pipeline put there. -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- What it returns: the same, each buffer at the proof data's `after`. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at a point: the inputs' buffers hold their blocks, so the body's triple applies at those blocks; the
    invariant and the dues are not read. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Frame8

end
-- ==== Proof.KIRegion8.lean ====
/- Region 8 of the idealized kernel program (custom_call 8) as a segment of @main: entered from every unscoped
   buffer at the contents before it (`V25`), left with the result array `main_v160` at what the pipeline's
   write-backs leave and every other buffer as entered (`V26`). Stated over an arbitrary family of proof data whose
   member at pipeline 8 is this region's (`hp8`), and over any `outs` that names the result's final contents
   (`houts`). -/
import proofs.«146189_j40922448396571_2_alg».proof.Proof.KIRegions
import proofs.«146189_j40922448396571_2_alg».proof.Proof.KIGlobals
import proofs.«146189_j40922448396571_2_alg».proof.Proof.KIRegion8Body

set_option maxRecDepth 16384

noncomputable section

namespace Cert.KernelIdeal.Frame8

open Cert.KernelIdeal.Gen Cert.KernelIdeal.Glob
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: the contents before the region (`V25`). -/
abbrev VVin : (c : Dev nD) → (b : Ref sig .tc) → Buf (Elt F) ((c : Thread nD τ).loc b) := fun c b => V25 m outs c b
/-- Exit: the same with `main_v160` at `outs 26 main_v160` (`V26`). -/
abbrev VVout : (c : Dev nD) → (b : Ref sig .tc) → Buf (Elt F) ((c : Thread nD τ).loc b) := fun c b => V26 m outs c b

/-! ## The family of proof data, pinned at pipeline 8 -/

variable (pdats : (p : Fin 17) → (c : Dev nD) → Dat τ (Elt F) Unit ℕ (UR sig nD τ) ℕ (cfgs p) c)

section Pinned
variable (hp8 : ∀ c, pdats 8 c = dat8 (VVin m outs) c)
include hp8

/-- The pinned member's fields, read through the pin: full shares, nothing owed, the entry contents as arrays, the
    untouched invariant, every point recorded. -/
theorem pd8_q (c : Dev nD) (w : Fin cfg8.W) : (pdats 8 c).q w = fullShare := by rw [hp8 c]; rfl
theorem pd8_owed (c : Dev nD) (t) : (pdats 8 c).owed t = 0 := by rw [hp8 c]; rfl
theorem pd8_A (c : Dev nD) (w : Fin cfg8.W) : (pdats 8 c).A w = VVin m outs c (Pipeline.arrRef spec8 w) := by
  rw [hp8 c]; exact A_eq8 (VVin m outs) c w
theorem pd8_Φ (c : Dev nD) (t) : (pdats 8 c).Φ t = Pipeline.ΦA spec8 c := by rw [hp8 c]; rfl
theorem pd8_recorded (c : Dev nD) (t) : (pdats 8 c).recorded t = Set.univ := by rw [hp8 c]; rfl

end Pinned

/-! ## The exit contents, at the region's arrays and off them -/

section Exit
variable (hp8 : ∀ c, pdats 8 c = dat8 (VVin m outs) c)
  (houts : ∀ c, outs 26 main_v160 c = (dat8 (VVin m outs) c).arrAt 5 cfg8.N)

include hp8 in
/-- The row-block operand's array (`main_v147`) ends as entered: no window writes it, and it is not the result's reference. -/
theorem hF8_0 (c : Dev nD) : (pdats 8 c).arrAt 0 cfg8.N = VVout m outs c (Pipeline.arrRef spec8 0) := by
  rw [hp8 c]
  refine ((dat8 (VVin m outs) c).arrAt_in 0 rfl _).trans ((A_eq8 (VVin m outs) c 0).trans ?_)
  exact (Function.update_of_ne (StableHlo.devRef_ne_of_ne (by decide)) _ _).symm

include hp8 in
/-- The mean row's array (`main_v151`) ends as entered: no window writes it, and it is not the result's reference. -/
theorem hF8_1 (c : Dev nD) : (pdats 8 c).arrAt 1 cfg8.N = VVout m outs c (Pipeline.arrRef spec8 1) := by
  rw [hp8 c]
  refine ((dat8 (VVin m outs) c).arrAt_in 1 rfl _).trans ((A_eq8 (VVin m outs) c 1).trans ?_)
  exact (Function.update_of_ne (StableHlo.devRef_ne_of_ne (by decide)) _ _).symm

include hp8 in
/-- The variance row's array (`main_v155`) ends as entered: no window writes it, and it is not the result's reference. -/
theorem hF8_2 (c : Dev nD) : (pdats 8 c).arrAt 2 cfg8.N = VVout m outs c (Pipeline.arrRef spec8 2) := by
  rw [hp8 c]
  refine ((dat8 (VVin m outs) c).arrAt_in 2 rfl _).trans ((A_eq8 (VVin m outs) c 2).trans ?_)
  exact (Function.update_of_ne (StableHlo.devRef_ne_of_ne (by decide)) _ _).symm

include hp8 in
/-- The scale row's array (`main_v157`) ends as entered: no window writes it, and it is not the result's reference. -/
theorem hF8_3 (c : Dev nD) : (pdats 8 c).arrAt 3 cfg8.N = VVout m outs c (Pipeline.arrRef spec8 3) := by
  rw [hp8 c]
  refine ((dat8 (VVin m outs) c).arrAt_in 3 rfl _).trans ((A_eq8 (VVin m outs) c 3).trans ?_)
  exact (Function.update_of_ne (StableHlo.devRef_ne_of_ne (by decide)) _ _).symm

include hp8 in
/-- The shift row's array (`main_v159`) ends as entered: no window writes it, and it is not the result's reference. -/
theorem hF8_4 (c : Dev nD) : (pdats 8 c).arrAt 4 cfg8.N = VVout m outs c (Pipeline.arrRef spec8 4) := by
  rw [hp8 c]
  refine ((dat8 (VVin m outs) c).arrAt_in 4 rfl _).trans ((A_eq8 (VVin m outs) c 4).trans ?_)
  exact (Function.update_of_ne (StableHlo.devRef_ne_of_ne (by decide)) _ _).symm

include hp8 houts in
/-- The result's array (`main_v160`) ends at what the write-backs leave, which is what `outs` names. -/
theorem hF8_5 (c : Dev nD) : (pdats 8 c).arrAt 5 cfg8.N = VVout m outs c (Pipeline.arrRef spec8 5) := by
  rw [hp8 c, ← houts c]
  exact (Function.update_self (Proc.devRef (τ := τ) .tc main_v160) (outs 26 main_v160 c) (V25 m outs c)).symm

include hp8 houts in
/-- Every array of the region at its exit contents. -/
theorem hF8 (c : Dev nD) : ∀ w : Fin cfg8.W, (pdats 8 c).arrAt w cfg8.N = VVout m outs c (Pipeline.arrRef spec8 w)
  | ⟨0, _⟩ => hF8_0 m outs pdats hp8 c
  | ⟨1, _⟩ => hF8_1 m outs pdats hp8 c
  | ⟨2, _⟩ => hF8_2 m outs pdats hp8 c
  | ⟨3, _⟩ => hF8_3 m outs pdats hp8 c
  | ⟨4, _⟩ => hF8_4 m outs pdats hp8 c
  | ⟨5, _⟩ => hF8_5 m outs pdats hp8 houts c

/-- Off the region's six arrays the exit contents are the entry contents: only `main_v160` is updated, and it is
    window 5's array. -/
theorem hrest8 (c : Dev nD) : ∀ b, b ∉ Finset.univ.image (Pipeline.arrRef spec8) → VVout m outs c b = VVin m outs c b :=
  fun b hb => Function.update_of_ne
    (fun e => hb (Finset.mem_image.mpr ⟨5, Finset.mem_univ _, (Proc.devRef_injective _ e).symm⟩)) _ _

end Exit

/-! ## The region as a segment -/

section Record
variable (hp8 : ∀ c, pdats 8 c = dat8 (VVin m outs) c)
  (houts : ∀ c, outs 26 main_v160 c = (dat8 (VVin m outs) c).arrAt 5 cfg8.N)

-- a library lemma stated over the pinned configuration `pin pcs a p` is applied to the printed one: unification has
-- to unfold plain definitions in a metavariable's type
set_option backward.isDefEq.respectTransparency.types false in
/-- Region 8 over the thread state "every unscoped buffer at the boundary's contents, beside the rest state `R`".
    Entry: the six arrays are split out of the unscoped buffers at the entry contents; the generator register goes
    into the invariant; nothing is owed; the kernel has no semaphore of its own. Exit: the arrays are put back at the
    exit contents (`hF8`, `hrest8`) and the register comes back. -/
def reg8 : RegionSeg (pcfgs (F := F)) adm pdats () defs₀ 𝒱₀ L lv 8 where
  win := launch8.win.to₀
  block_pos := launch8.block_pos
  stage_whole := launch8.stage_whole
  K := PEmpty
  osem k := k.elim
  ho := Pipeline.OwnSemFacts.none _
  hbody c := by rw [hp8 c]; exact (body_obligation8 (VVin m outs) c).loose
  hwaits := Pipeline.hwaits_of_owed_zero _ _ _ _ L lv 8 fun c t => pd8_owed m outs pdats hp8 c t
  pre c := iprop(StableHlo.held (c : Thread nD τ) (Pipeline.ucRefs τ sig) (V25 m outs c) ∗ R c)
  post c := iprop(StableHlo.held (c : Thread nD τ) (Pipeline.ucRefs τ sig) (V26 m outs c) ∗ R c)
  X c := iprop(∃ r, prngReg c r)
  Y c := iprop(∃ r, prngReg c r)
  Z c := Pipeline.unscopedRest (Ix := Unit) (Name := ℕ) (U := UR sig nD τ) (Lvl := ℕ) spec8 c (VVin m outs c)
  hentry c := by
    rw [Pipeline.ownSems0_none]
    have hsplit := Pipeline.arrays_of_unscopedBufs (p := 8) (pcfgs (F := F)) adm pdats launch8.win launch8.arr_whole c
      ((pdats 8 c).share_full fun w => pd8_q m outs pdats hp8 c w) (VVin m outs c) fun w => pd8_A m outs pdats hp8 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd8_owed m outs pdats hp8 c]
      icases HO with ⟨%W, HO⟩; iexists W; isplitr
      · ipureintro; exact fun x _ => Or.inl (by rw [pd8_recorded m outs pdats hp8 c]; exact Set.mem_univ x)
      iexact HO
    isplitl [Hp]; · iexact Hp
    iexact Hrest
  hin c := by
    rw [pd8_Φ m outs pdats hp8 c 0]; unfold Pipeline.ΦA
    iintro ⟨Hp, -, Hr⟩
    isplitl [Hr]; · iexact Hr
    iexact Hp
  hout c := by
    rw [Pipeline.ownSems0_none, pd8_Φ m outs pdats hp8 c (Fin.last _)]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c pdats ((pdats 8 c).share_full fun w => pd8_q m outs pdats hp8 c w)
      (VVin m outs c) (VVout m outs c) ((pdats 8 c).arrAt · cfg8.N) (hF8 m outs pdats hp8 houts c) (hrest8 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd8_owed m outs pdats hp8 c]
    icases HO with ⟨%W, -, HO⟩; iexists W; iexact HO

/-- The record is entered from the conditional frame's thread state before the region (with the rest state `R`), -/
theorem hpre8 (c : Dev nD) :
    iprop(StableHlo.held (c : Thread nD τ) (Pipeline.ucRefs τ sig) (V25 m outs c) ∗ R (F := F) c)
      ⊢ (reg8 m outs pdats hp8 houts).pre c := .rfl

/-- and left at the one after it. -/
theorem hpost8 (c : Dev nD) :
    (reg8 m outs pdats hp8 houts).post c
      ⊢ iprop(StableHlo.held (c : Thread nD τ) (Pipeline.ucRefs τ sig) (V26 m outs c) ∗ R (F := F) c) := .rfl

end Record

end Cert.KernelIdeal.Frame8

end
-- ==== Proof.KIRegion9Body.lean ====
/- Region 9 of the idealized kernel program (custom_call 9, matmul, plus bias, plus residual): the class-A half of its frame,
   stated at a parameter `V` — the TensorCore's buffer contents when the region is entered. For each window its
   block at a grid point, the contents the body leaves in the output window's buffer as a function of the
   input blocks, the body's triple, the pipeline's proof data and the library's body obligation. Generic in the
   float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame9

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 9 is entered
variable (V : (c : Dev nD) → (b : Ref sig .tc) → Buf (Elt F) ((c : Thread nD τ).loc b))

/-! ## The blocks of the 5 windows -/

/-- The block of window `w` at grid point `t`: the window's rectangle at `t` read off the window's array as the
    region finds it. -/
def iblk9 (c : Dev nD) (w : Fin cfg9.W) (t : Fin cfg9.N) :
    ((cfg9.win w).xblock (cfg9.grid.coords t)).Idx → Elt F (cfg9.win w).elt :=
  ((cfg9.win w).blk t).view.read (Elt F) (V c (Pipeline.arrRef spec9 w))

/-- Input window 0: whatever proof data has the entry contents as its array and a body that leaves the block
    where it is, the staging buffer the body is handed at `t` holds the block at `t` — it was fetched at `t`, or
    its index has not moved since it was. -/
theorem before9_0_of {c : Dev nD} (dat : Dat τ (Elt F) Unit ℕ (UR sig nD τ) ℕ cfg9 c)
    (hA : dat.A 0 = V c (Pipeline.arrRef spec9 0)) (hafter : ∀ t, dat.after 0 t = iblk9 V c 0 t)
    (t : Fin cfg9.N) (d) : dat.before 0 t d = iblk9 V c 0 t := by
  refine (dat.before_in_eq_fetched 0 rfl (fun _ => rfl) (fun _ _ _ => rfl) (fun t => ?_) t d).trans ?_
  · rw [hafter]; unfold Dat.blockOf iblk9; rw [hA]; try rfl
  · unfold Dat.fetched Dat.blockOf iblk9; rw [hA]; try rfl

/-- Input window 1: whatever proof data has the entry contents as its array and a body that leaves the block
    where it is, the staging buffer the body is handed at `t` holds the block at `t` — it was fetched at `t`, or
    its index has not moved since it was. -/
theorem before9_1_of {c : Dev nD} (dat : Dat τ (Elt F) Unit ℕ (UR sig nD τ) ℕ cfg9 c)
    (hA : dat.A 1 = V c (Pipeline.arrRef spec9 1)) (hafter : ∀ t, dat.after 1 t = iblk9 V c 1 t)
    (t : Fin cfg9.N) (d) : dat.before 1 t d = iblk9 V c 1 t := by
  refine (dat.before_in_eq_fetched 1 rfl (fun _ => rfl) (fun _ _ _ => rfl) (fun t => ?_) t d).trans ?_
  · rw [hafter]; unfold Dat.blockOf iblk9; rw [hA]; try rfl
  · unfold Dat.fetched Dat.blockOf iblk9; rw [hA]; try rfl

/-- Input window 2: whatever proof data has the entry contents as its array and a body that leaves the block
    where it is, the staging buffer the body is handed at `t` holds the block at `t` — it was fetched at `t`, or
    its index has not moved since it was. -/
theorem before9_2_of {c : Dev nD} (dat : Dat τ (Elt F) Unit ℕ (UR sig nD τ) ℕ cfg9 c)
    (hA : dat.A 2 = V c (Pipeline.arrRef spec9 2)) (hafter : ∀ t, dat.after 2 t = iblk9 V c 2 t)
    (t : Fin cfg9.N) (d) : dat.before 2 t d = iblk9 V c 2 t := by
  refine (dat.before_in_eq_fetched 2 rfl (fun _ => rfl) (fun _ _ _ => rfl) (fun t => ?_) t d).trans ?_
  · rw [hafter]; unfold Dat.blockOf iblk9; rw [hA]; try rfl
  · unfold Dat.fetched Dat.blockOf iblk9; rw [hA]; try rfl

/-- Input window 3: whatever proof data has the entry contents as its array and a body that leaves the block
    where it is, the staging buffer the body is handed at `t` holds the block at `t` — it was fetched at `t`, or
    its index has not moved since it was. -/
theorem before9_3_of {c : Dev nD} (dat : Dat τ (Elt F) Unit ℕ (UR sig nD τ) ℕ cfg9 c)
    (hA : dat.A 3 = V c (Pipeline.arrRef spec9 3)) (hafter : ∀ t, dat.after 3 t = iblk9 V c 3 t)
    (t : Fin cfg9.N) (d) : dat.before 3 t d = iblk9 V c 3 t := by
  refine (dat.before_in_eq_fetched 3 rfl (fun _ => rfl) (fun _ _ _ => rfl) (fun t => ?_) t d).trans ?_
  · rw [hafter]; unfold Dat.blockOf iblk9; rw [hA]; try rfl
  · unfold Dat.fetched Dat.blockOf iblk9; rw [hA]; try rfl

/-! ## The rectangles the body reads and writes: each staging buffer whole -/

abbrev r9_0 : Rect S5000x64 := Rect.unit (s := S5000x64) ![0, 0] S5000x64.size inb_S5000x64_S5000x64_0_0
abbrev r9_1 : Rect S64x64 := Rect.unit (s := S64x64) ![0, 0] S64x64.size inb_S64x64_S64x64_0_0
abbrev r9_2 : Rect S1x64 := Rect.unit (s := S1x64) ![0, 0] S1x64.size inb_S1x64_S1x64_0_0
abbrev r9_3 : Rect S5000x64 := Rect.unit (s := S5000x64) ![0, 0] S5000x64.size inb_S5000x64_S5000x64_0_0
abbrev r9_4 : Rect S5000x64 := Rect.unit (s := S5000x64) ![0, 0] S5000x64.size inb_S5000x64_S5000x64_0_0

/-! ## What the body leaves in the output window's buffer -/

/-- The output staging buffer after the body, from the input blocks: its one store, of the payload of the
    whole-buffer loads (in the order the body makes them), written as a one-piece list. -/
def out9_4 (x0 : Vec F S5000x64 .f32) (x1 : Vec F S64x64 .f32) (x2 : Vec F S1x64 .f32) (x3 : Vec F S5000x64 .f32) : Vec F S5000x64 .f32 :=
  View.canon [⟨r9_4, k9_pay1 (View.ld x0 r9_0) (View.ld x1 r9_1) (View.ld x2 r9_2) (View.ld x3 r9_3)⟩]

/-- The one store is of the whole buffer, so every index of the buffer lies in it. -/
theorem cover9_4 (p : Vec F S5000x64 .f32) (y : S5000x64.Idx) :
    ∃ pc ∈ ([⟨r9_4, p⟩] : List (View.Piece (Elt F) S5000x64 .f32)), y ∈ pc.1.set :=
  View.cover_of_tiled [⟨r9_4, p⟩] S5000x64.size (by rfl) y

/-! ## The body's triple -/

set_option maxHeartbeats 1000000 in
/-- The body at any grid coordinate `i`, on whole staging memrefs: the inputs' read `x0` … `x3`, the output's
    holds anything. It runs to the continuation with the inputs' as they were and the output's at `out9_4` of
    them. (The body also loads the output buffer before storing to it; the loaded value is not used.) -/
theorem sound_kernel9 (c : Dev nD) (E : Set ℕ) (i : grid9.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out9_4 x0 x1 x2 x3)) -∗ K ⟨⟩))
      ⊢ wp frame (wpE (defs₀ (F := F)) Variants.none c none) E (cc9__linear_extra_kernel i arg1 harg1 arg2 harg2 arg3 harg3 arg4 harg4 arg5 harg5) K := by
  simp only [cc9__linear_extra_kernel_eq_skeleton]; unfold cc9__linear_extra_kernel_skel
  unfold owns
  iintro ⟨⟨%f0, %hf0, H0⟩, ⟨%f1, %hf1, H1⟩, ⟨%f2, %hf2, H2⟩, ⟨%f3, %hf3, H3⟩, ⟨%dO, %fO, -, HO⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HO
  ipureintro
  exact View.read_writes_eq_canon _ _ _ (cover9_4 _)

/-! ## The proof data of the pipeline -/

/-- Region 9's proof data on core `c`: the arrays as the region finds them; after the body at point `t` the
    inputs' buffers at their blocks and the output's at `out9_4` of those blocks; the invariant the scoped rest and
    the generator register, untouched (`Pipeline.ΦA`); full shares; nothing owed. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

/-- The proof data's arrays are the entry contents (the structure projected; `V` is never unfolded). -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

/-- What the body is handed in each input's buffer: its block. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation -/

/-- What the body is called with at point `t`: the invariant, the core's dues, and each window's current staging
    buffer at what the pipeline put there. -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- What it returns: the same, each buffer at the proof data's `after`. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at a point: the inputs' buffers hold their blocks, so the body's triple applies at those blocks; the
    invariant and the dues are not read. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the proof data, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Frame9

end
-- ==== Proof.KIRegion9.lean ====
/- Region 9 of the idealized kernel program (custom_call 9) as a segment of @main: entered from every unscoped
   buffer at the contents before it, left with the result array `main_v167` at what the pipeline's write-backs leave
   and every other buffer as entered. Stated over an arbitrary family of proof data whose member at pipeline 9 is
   this region's (`hp9`), and over any `outs` that names the result's final contents (`houts9`). -/
import proofs.«146189_j40922448396571_2_alg».proof.Proof.KIRegions
import proofs.«146189_j40922448396571_2_alg».proof.Proof.KIRegion9Body

set_option maxRecDepth 16384

noncomputable section

namespace Cert.KernelIdeal.Frame9

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry. -/
abbrev VV27 : (c : Dev nD) → (b : Ref sig .tc) → Buf (Elt F) ((c : Thread nD τ).loc b) := fun c b => V27 m outs c b
/-- Exit: the same with `main_v167` at `outs 28 main_v167`. -/
abbrev VV28 : (c : Dev nD) → (b : Ref sig .tc) → Buf (Elt F) ((c : Thread nD τ).loc b) := fun c b => V28 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 9 -/

variable (pdats : (p : Fin 17) → (c : Dev nD) → Dat τ (Elt F) Unit ℕ (UR sig nD τ) ℕ (cfgs p) c)

section Pinned
variable (hp9 : ∀ c, pdats 9 c = dat9 (VV27 m outs) c)
include hp9

theorem pd9_q (c : Dev nD) (w : Fin cfg9.W) : (pdats 9 c).q w = fullShare := by rw [hp9 c]; rfl
theorem pd9_owed (c : Dev nD) (t) : (pdats 9 c).owed t = 0 := by rw [hp9 c]; rfl
theorem pd9_A (c : Dev nD) (w : Fin cfg9.W) : (pdats 9 c).A w = VV27 m outs c (Pipeline.arrRef spec9 w) := by
  rw [hp9 c]; exact A_eq9 (VV27 m outs) c w
theorem pd9_Φ (c : Dev nD) (t) : (pdats 9 c).Φ t = Pipeline.ΦA spec9 c := by rw [hp9 c]; rfl
theorem pd9_recorded (c : Dev nD) (t) : (pdats 9 c).recorded t = Set.univ := by rw [hp9 c]; rfl

end Pinned

/-! ## The exit contents, at the region's arrays and off them -/

section Exit
variable (hp9 : ∀ c, pdats 9 c = dat9 (VV27 m outs) c)
  (houts9 : ∀ c, outs 28 main_v167 c = (dat9 (VV27 m outs) c).arrAt 4 cfg9.N)

include hp9 in
/-- Input window 0's array ends as entered: no window writes it, and it is not the result's reference. -/
theorem hF9_0 (c : Dev nD) : (pdats 9 c).arrAt 0 cfg9.N = VV28 m outs c (Pipeline.arrRef spec9 0) := by
  rw [hp9 c]
  refine ((dat9 (VV27 m outs) c).arrAt_in 0 rfl _).trans ((A_eq9 (VV27 m outs) c 0).trans ?_)
  exact (Function.update_of_ne (StableHlo.devRef_ne_of_ne (by decide)) _ _).symm

include hp9 in
/-- Input window 1's array ends as entered: no window writes it, and it is not the result's reference. -/
theorem hF9_1 (c : Dev nD) : (pdats 9 c).arrAt 1 cfg9.N = VV28 m outs c (Pipeline.arrRef spec9 1) := by
  rw [hp9 c]
  refine ((dat9 (VV27 m outs) c).arrAt_in 1 rfl _).trans ((A_eq9 (VV27 m outs) c 1).trans ?_)
  exact (Function.update_of_ne (StableHlo.devRef_ne_of_ne (by decide)) _ _).symm

include hp9 in
/-- Input window 2's array ends as entered: no window writes it, and it is not the result's reference. -/
theorem hF9_2 (c : Dev nD) : (pdats 9 c).arrAt 2 cfg9.N = VV28 m outs c (Pipeline.arrRef spec9 2) := by
  rw [hp9 c]
  refine ((dat9 (VV27 m outs) c).arrAt_in 2 rfl _).trans ((A_eq9 (VV27 m outs) c 2).trans ?_)
  exact (Function.update_of_ne (StableHlo.devRef_ne_of_ne (by decide)) _ _).symm

include hp9 in
/-- Input window 3's array ends as entered: no window writes it, and it is not the result's reference. -/
theorem hF9_3 (c : Dev nD) : (pdats 9 c).arrAt 3 cfg9.N = VV28 m outs c (Pipeline.arrRef spec9 3) := by
  rw [hp9 c]
  refine ((dat9 (VV27 m outs) c).arrAt_in 3 rfl _).trans ((A_eq9 (VV27 m outs) c 3).trans ?_)
  exact (Function.update_of_ne (StableHlo.devRef_ne_of_ne (by decide)) _ _).symm

include hp9 houts9 in
/-- The result's array ends at what the write-backs leave, which is what `outs` names. -/
theorem hF9_4 (c : Dev nD) : (pdats 9 c).arrAt 4 cfg9.N = VV28 m outs c (Pipeline.arrRef spec9 4) := by
  rw [hp9 c, ← houts9 c]
  exact (Function.update_self (Proc.devRef (τ := τ) .tc main_v167) (outs 28 main_v167 c) (V27 m outs c)).symm

include hp9 houts9 in
theorem hF9 (c : Dev nD) : ∀ w : Fin cfg9.W, (pdats 9 c).arrAt w cfg9.N = VV28 m outs c (Pipeline.arrRef spec9 w)
  | ⟨0, _⟩ => hF9_0 m outs pdats hp9 c
  | ⟨1, _⟩ => hF9_1 m outs pdats hp9 c
  | ⟨2, _⟩ => hF9_2 m outs pdats hp9 c
  | ⟨3, _⟩ => hF9_3 m outs pdats hp9 c
  | ⟨4, _⟩ => hF9_4 m outs pdats hp9 houts9 c

/-- Off the region's arrays the exit contents are the entry contents: only `main_v167` is updated, and it is
    window 4's array. -/
theorem hrest9 (c : Dev nD) : ∀ b, b ∉ Finset.univ.image (Pipeline.arrRef spec9) → VV28 m outs c b = VV27 m outs c b :=
  fun b hb => Function.update_of_ne
    (fun e => hb (Finset.mem_image.mpr ⟨4, Finset.mem_univ _, (Proc.devRef_injective _ e).symm⟩)) _ _

end Exit

/-! ## The region as a segment -/

section Record
variable (hp9 : ∀ c, pdats 9 c = dat9 (VV27 m outs) c)
  (houts9 : ∀ c, outs 28 main_v167 c = (dat9 (VV27 m outs) c).arrAt 4 cfg9.N)

-- a library lemma stated over the pinned configuration `pin pcs a p` is applied to the printed one: unification has
-- to unfold plain definitions in a metavariable's type
set_option backward.isDefEq.respectTransparency.types false in
/-- Region 9 over the thread state "every unscoped buffer at the boundary's contents, beside `R`". Entry: the
    arrays are split out of the unscoped buffers at the entry contents; the generator register goes into the
    invariant; nothing is owed; the kernel has no semaphore of its own. Exit: the arrays are put back at the exit
    contents (`hF9`, `hrest9`) and the register comes back. -/
def reg9 : RegionSeg (pcfgs (F := F)) adm pdats () defs₀ 𝒱₀ L lv 9 where
  win := launch9.win.to₀
  block_pos := launch9.block_pos
  stage_whole := launch9.stage_whole
  K := PEmpty
  osem k := k.elim
  ho := Pipeline.OwnSemFacts.none _
  hbody c := by rw [hp9 c]; exact (body_obligation9 (VV27 m outs) c).loose
  hwaits := Pipeline.hwaits_of_owed_zero _ _ _ _ L lv 9 fun c t => pd9_owed m outs pdats hp9 c t
  pre c := iprop(StableHlo.held (c : Thread nD τ) (Pipeline.ucRefs τ sig) (V27 m outs c) ∗ R c)
  post c := iprop(StableHlo.held (c : Thread nD τ) (Pipeline.ucRefs τ sig) (V28 m outs c) ∗ R c)
  X c := iprop(∃ r, prngReg c r)
  Y c := iprop(∃ r, prngReg c r)
  Z c := Pipeline.unscopedRest (Ix := Unit) (Name := ℕ) (U := UR sig nD τ) (Lvl := ℕ) spec9 c (VV27 m outs c)
  hentry c := by
    rw [Pipeline.ownSems0_none]
    have hsplit := Pipeline.arrays_of_unscopedBufs (p := 9) (pcfgs (F := F)) adm pdats launch9.win launch9.arr_whole c
      ((pdats 9 c).share_full fun w => pd9_q m outs pdats hp9 c w) (VV27 m outs c) fun w => pd9_A m outs pdats hp9 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd9_owed m outs pdats hp9 c]
      icases HO with ⟨%W, HO⟩; iexists W; isplitr; · ipureintro; exact fun x _ => Or.inl (by rw [pd9_recorded m outs pdats hp9 c]; exact Set.mem_univ x)
      iexact HO
    isplitl [Hp]; · iexact Hp
    iexact Hrest
  hin c := by
    rw [pd9_Φ m outs pdats hp9 c 0]; unfold Pipeline.ΦA
    iintro ⟨Hp, -, Hr⟩
    isplitl [Hr]; · iexact Hr
    iexact Hp
  hout c := by
    rw [Pipeline.ownSems0_none, pd9_Φ m outs pdats hp9 c (Fin.last _)]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c pdats ((pdats 9 c).share_full fun w => pd9_q m outs pdats hp9 c w)
      (VV27 m outs c) (VV28 m outs c) ((pdats 9 c).arrAt · cfg9.N) (hF9 m outs pdats hp9 houts9 c) (hrest9 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd9_owed m outs pdats hp9 c]
    icases HO with ⟨%W, -, HO⟩; iexists W; iexact HO

/-- The record is entered from the conditional frame's thread state before the region (with the rest state `R`), -/
theorem hpre9 (c : Dev nD) :
    iprop(StableHlo.held (c : Thread nD τ) (Pipeline.ucRefs τ sig) (V27 m outs c) ∗ R (F := F) c)
      ⊢ (reg9 m outs pdats hp9 houts9).pre c := .rfl

/-- and left at the one after it. -/
theorem hpost9 (c : Dev nD) :
    (reg9 m outs pdats hp9 houts9).post c
      ⊢ iprop(StableHlo.held (c : Thread nD τ) (Pipeline.ucRefs τ sig) (V28 m outs c) ∗ R (F := F) c) := .rfl

end Record

end Cert.KernelIdeal.Frame9

end
-- ==== Proof.KIRegion10Body.lean ====
/- Region 10 of the idealized kernel program (custom_call 10, the batch-norm affine map followed by the maximum with zero, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame10

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 10 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk10 (c : Dev nD) (w : Fin cfg10.W) (t : Fin cfg10.N) :
    ((cfg10.win w).xblock (cfg10.grid.coords t)).Idx → Elt F (cfg10.win w).elt :=
  ((cfg10.win w).blk t).view.read (Elt F) (V c (Pipeline.arrRef spec10 w))

/-- The row-block operand (window 0): for any proof data whose array for it is the entry contents and whose body
    leaves the block where it is, the staging buffer handed to the body at `t` holds the block at `t` — fetched at
    `t`, or still there from an earlier point because the block index has not moved since. -/
theorem before10_0_of {c : Dev nD} (dat : Dat τ (Elt F) Unit ℕ (UR sig nD τ) ℕ cfg10 c)
    (hA : dat.A 0 = V c (Pipeline.arrRef spec10 0)) (hafter : ∀ t, dat.after 0 t = iblk10 V c 0 t)
    (t : Fin cfg10.N) (d) : dat.before 0 t d = iblk10 V c 0 t := by
  refine (dat.before_in_eq_fetched 0 rfl (fun _ => rfl) (fun _ _ _ => rfl) (fun t => ?_) t d).trans ?_
  · rw [hafter]; unfold Dat.blockOf iblk10; rw [hA]; try rfl
  · unfold Dat.fetched Dat.blockOf iblk10; rw [hA]; try rfl

/-- The mean row (window 1; one block, fetched at the first point only, its index constant): the same. -/
theorem before10_1_of {c : Dev nD} (dat : Dat τ (Elt F) Unit ℕ (UR sig nD τ) ℕ cfg10 c)
    (hA : dat.A 1 = V c (Pipeline.arrRef spec10 1)) (hafter : ∀ t, dat.after 1 t = iblk10 V c 1 t)
    (t : Fin cfg10.N) (d) : dat.before 1 t d = iblk10 V c 1 t := by
  refine (dat.before_in_eq_fetched 1 rfl (fun _ => rfl) (fun _ _ _ => rfl) (fun t => ?_) t d).trans ?_
  · rw [hafter]; unfold Dat.blockOf iblk10; rw [hA]; try rfl
  · unfold Dat.fetched Dat.blockOf iblk10; rw [hA]; try rfl

/-- The variance row (window 2; one block, fetched at the first point only, its index constant): the same. -/
theorem before10_2_of {c : Dev nD} (dat : Dat τ (Elt F) Unit ℕ (UR sig nD τ) ℕ cfg10 c)
    (hA : dat.A 2 = V c (Pipeline.arrRef spec10 2)) (hafter : ∀ t, dat.after 2 t = iblk10 V c 2 t)
    (t : Fin cfg10.N) (d) : dat.before 2 t d = iblk10 V c 2 t := by
  refine (dat.before_in_eq_fetched 2 rfl (fun _ => rfl) (fun _ _ _ => rfl) (fun t => ?_) t d).trans ?_
  · rw [hafter]; unfold Dat.blockOf iblk10; rw [hA]; try rfl
  · unfold Dat.fetched Dat.blockOf iblk10; rw [hA]; try rfl

/-- The scale row (window 3; one block, fetched at the first point only, its index constant): the same. -/
theorem before10_3_of {c : Dev nD} (dat : Dat τ (Elt F) Unit ℕ (UR sig nD τ) ℕ cfg10 c)
    (hA : dat.A 3 = V c (Pipeline.arrRef spec10 3)) (hafter : ∀ t, dat.after 3 t = iblk10 V c 3 t)
    (t : Fin cfg10.N) (d) : dat.before 3 t d = iblk10 V c 3 t := by
  refine (dat.before_in_eq_fetched 3 rfl (fun _ => rfl) (fun _ _ _ => rfl) (fun t => ?_) t d).trans ?_
  · rw [hafter]; unfold Dat.blockOf iblk10; rw [hA]; try rfl
  · unfold Dat.fetched Dat.blockOf iblk10; rw [hA]; try rfl

/-- The shift row (window 4; one block, fetched at the first point only, its index constant): the same. -/
theorem before10_4_of {c : Dev nD} (dat : Dat τ (Elt F) Unit ℕ (UR sig nD τ) ℕ cfg10 c)
    (hA : dat.A 4 = V c (Pipeline.arrRef spec10 4)) (hafter : ∀ t, dat.after 4 t = iblk10 V c 4 t)
    (t : Fin cfg10.N) (d) : dat.before 4 t d = iblk10 V c 4 t := by
  refine (dat.before_in_eq_fetched 4 rfl (fun _ => rfl) (fun _ _ _ => rfl) (fun t => ?_) t d).trans ?_
  · rw [hafter]; unfold Dat.blockOf iblk10; rw [hA]; try rfl
  · unfold Dat.fetched Dat.blockOf iblk10; rw [hA]; try rfl

/-! ## The rectangles the body reads and writes: each staging buffer whole -/

abbrev r10_big : Rect S5000x128 := Rect.unit (s := S5000x128) ![0, 0] S5000x128.size inb_S5000x128_S5000x128_0_0
abbrev r10_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `max ((x − mean) · rsqrt (var + ε) · gamma + beta) 0` of the five whole-buffer loads, written as a one-piece list.
    (The body loads the variance before the mean, which is the order of the payload's arguments.) -/
def out10_5 (x0 : Vec F S5000x128 .f32) (x1 x2 x3 x4 : Vec F S1x128 .f32) : Vec F S5000x128 .f32 :=
  View.canon [⟨r10_big, k10_pay1 (View.ld x0 r10_big) (View.ld x2 r10_row) (View.ld x1 r10_row)
    (View.ld x3 r10_row) (View.ld x4 r10_row)⟩]

/-- The one store is of the whole buffer, so every index of the buffer lies in it. -/
theorem cover10_5 (p : Vec F S5000x128 .f32) (y : S5000x128.Idx) :
    ∃ pc ∈ ([⟨r10_big, p⟩] : List (View.Piece (Elt F) S5000x128 .f32)), y ∈ pc.1.set :=
  View.cover_of_tiled [⟨r10_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out10_5 x0 x1 x2 x3 x4`. (The body also loads the output buffer before storing to it; the loaded value is
    not used.) -/
theorem sound_kernel10 (c : Dev nD) (E : Set ℕ) (i : grid10.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out10_5 x0 x1 x2 x3 x4)) -∗ K ⟨⟩))
      ⊢ wp frame (wpE (defs₀ (F := F)) Variants.none c none) E
          (cc10__bn_relu_kernel i arg1 harg1 arg2 harg2 arg3 harg3 arg4 harg4 arg5 harg5 arg6 harg6) K := by
  simp only [cc10__bn_relu_kernel_eq_skeleton]; unfold cc10__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-! ## The proof data of the pipeline -/

/-- Region 10's proof data on core `c`: the six arrays as the region finds them; after the body at point `t` the
    five inputs' buffers at their blocks and the output's at `out10_5` of those blocks; the invariant the scoped rest
    and the generator register, untouched (`Pipeline.ΦA`); full shares; nothing owed. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

/-- The proof data's arrays are the entry contents (the structure projected; `V` is never unfolded). -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) :
    (dat10 V c).after 5 t
      = out10_5 (iblk10 V c 0 t) (iblk10 V c 1 t) (iblk10 V c 2 t) (iblk10 V c 3 t) (iblk10 V c 4 t) := by
  dsimp only [dat10]

/-- What the body is handed in each input's buffer: its block. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation -/

/-- What the body is called with at point `t`: the invariant, the core's dues, and each window's current staging
    buffer at what the pipeline put there. -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- What it returns: the same, each buffer at the proof data's `after`. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at a point: the inputs' buffers hold their blocks, so the body's triple applies at those blocks; the
    invariant and the dues are not read. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _
    (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Frame10

end
-- ==== Proof.KIRegion10.lean ====
/- Region 10 of the idealized kernel program (custom_call 10) as a segment of @main: entered from every unscoped
   buffer at the contents before it (`V31`), left with the result array `main_v190` at what the pipeline's
   write-backs leave and every other buffer as entered (`V32`). Stated over an arbitrary family of proof data whose
   member at pipeline 10 is this region's (`hp10`), and over any `outs` that names the result's final contents
   (`houts`). -/
import proofs.«146189_j40922448396571_2_alg».proof.Proof.KIRegions
import proofs.«146189_j40922448396571_2_alg».proof.Proof.KIGlobals
import proofs.«146189_j40922448396571_2_alg».proof.Proof.KIRegion10Body

set_option maxRecDepth 16384

noncomputable section

namespace Cert.KernelIdeal.Frame10

open Cert.KernelIdeal.Gen Cert.KernelIdeal.Glob
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry: the contents before the region (`V31`). -/
abbrev VVin : (c : Dev nD) → (b : Ref sig .tc) → Buf (Elt F) ((c : Thread nD τ).loc b) := fun c b => V31 m outs c b
/-- Exit: the same with `main_v190` at `outs 32 main_v190` (`V32`). -/
abbrev VVout : (c : Dev nD) → (b : Ref sig .tc) → Buf (Elt F) ((c : Thread nD τ).loc b) := fun c b => V32 m outs c b

/-! ## The family of proof data, pinned at pipeline 10 -/

variable (pdats : (p : Fin 17) → (c : Dev nD) → Dat τ (Elt F) Unit ℕ (UR sig nD τ) ℕ (cfgs p) c)

section Pinned
variable (hp10 : ∀ c, pdats 10 c = dat10 (VVin m outs) c)
include hp10

/-- The pinned member's fields, read through the pin: full shares, nothing owed, the entry contents as arrays, the
    untouched invariant, every point recorded. -/
theorem pd10_q (c : Dev nD) (w : Fin cfg10.W) : (pdats 10 c).q w = fullShare := by rw [hp10 c]; rfl
theorem pd10_owed (c : Dev nD) (t) : (pdats 10 c).owed t = 0 := by rw [hp10 c]; rfl
theorem pd10_A (c : Dev nD) (w : Fin cfg10.W) : (pdats 10 c).A w = VVin m outs c (Pipeline.arrRef spec10 w) := by
  rw [hp10 c]; exact A_eq10 (VVin m outs) c w
theorem pd10_Φ (c : Dev nD) (t) : (pdats 10 c).Φ t = Pipeline.ΦA spec10 c := by rw [hp10 c]; rfl
theorem pd10_recorded (c : Dev nD) (t) : (pdats 10 c).recorded t = Set.univ := by rw [hp10 c]; rfl

end Pinned

/-! ## The exit contents, at the region's arrays and off them -/

section Exit
variable (hp10 : ∀ c, pdats 10 c = dat10 (VVin m outs) c)
  (houts : ∀ c, outs 32 main_v190 c = (dat10 (VVin m outs) c).arrAt 5 cfg10.N)

include hp10 in
/-- The row-block operand's array (`main_v177`) ends as entered: no window writes it, and it is not the result's reference. -/
theorem hF10_0 (c : Dev nD) : (pdats 10 c).arrAt 0 cfg10.N = VVout m outs c (Pipeline.arrRef spec10 0) := by
  rw [hp10 c]
  refine ((dat10 (VVin m outs) c).arrAt_in 0 rfl _).trans ((A_eq10 (VVin m outs) c 0).trans ?_)
  exact (Function.update_of_ne (StableHlo.devRef_ne_of_ne (by decide)) _ _).symm

include hp10 in
/-- The mean row's array (`main_v181`) ends as entered: no window writes it, and it is not the result's reference. -/
theorem hF10_1 (c : Dev nD) : (pdats 10 c).arrAt 1 cfg10.N = VVout m outs c (Pipeline.arrRef spec10 1) := by
  rw [hp10 c]
  refine ((dat10 (VVin m outs) c).arrAt_in 1 rfl _).trans ((A_eq10 (VVin m outs) c 1).trans ?_)
  exact (Function.update_of_ne (StableHlo.devRef_ne_of_ne (by decide)) _ _).symm

include hp10 in
/-- The variance row's array (`main_v185`) ends as entered: no window writes it, and it is not the result's reference. -/
theorem hF10_2 (c : Dev nD) : (pdats 10 c).arrAt 2 cfg10.N = VVout m outs c (Pipeline.arrRef spec10 2) := by
  rw [hp10 c]
  refine ((dat10 (VVin m outs) c).arrAt_in 2 rfl _).trans ((A_eq10 (VVin m outs) c 2).trans ?_)
  exact (Function.update_of_ne (StableHlo.devRef_ne_of_ne (by decide)) _ _).symm

include hp10 in
/-- The scale row's array (`main_v187`) ends as entered: no window writes it, and it is not the result's reference. -/
theorem hF10_3 (c : Dev nD) : (pdats 10 c).arrAt 3 cfg10.N = VVout m outs c (Pipeline.arrRef spec10 3) := by
  rw [hp10 c]
  refine ((dat10 (VVin m outs) c).arrAt_in 3 rfl _).trans ((A_eq10 (VVin m outs) c 3).trans ?_)
  exact (Function.update_of_ne (StableHlo.devRef_ne_of_ne (by decide)) _ _).symm

include hp10 in
/-- The shift row's array (`main_v189`) ends as entered: no window writes it, and it is not the result's reference. -/
theorem hF10_4 (c : Dev nD) : (pdats 10 c).arrAt 4 cfg10.N = VVout m outs c (Pipeline.arrRef spec10 4) := by
  rw [hp10 c]
  refine ((dat10 (VVin m outs) c).arrAt_in 4 rfl _).trans ((A_eq10 (VVin m outs) c 4).trans ?_)
  exact (Function.update_of_ne (StableHlo.devRef_ne_of_ne (by decide)) _ _).symm

include hp10 houts in
/-- The result's array (`main_v190`) ends at what the write-backs leave, which is what `outs` names. -/
theorem hF10_5 (c : Dev nD) : (pdats 10 c).arrAt 5 cfg10.N = VVout m outs c (Pipeline.arrRef spec10 5) := by
  rw [hp10 c, ← houts c]
  exact (Function.update_self (Proc.devRef (τ := τ) .tc main_v190) (outs 32 main_v190 c) (V31 m outs c)).symm

include hp10 houts in
/-- Every array of the region at its exit contents. -/
theorem hF10 (c : Dev nD) : ∀ w : Fin cfg10.W, (pdats 10 c).arrAt w cfg10.N = VVout m outs c (Pipeline.arrRef spec10 w)
  | ⟨0, _⟩ => hF10_0 m outs pdats hp10 c
  | ⟨1, _⟩ => hF10_1 m outs pdats hp10 c
  | ⟨2, _⟩ => hF10_2 m outs pdats hp10 c
  | ⟨3, _⟩ => hF10_3 m outs pdats hp10 c
  | ⟨4, _⟩ => hF10_4 m outs pdats hp10 c
  | ⟨5, _⟩ => hF10_5 m outs pdats hp10 houts c

/-- Off the region's six arrays the exit contents are the entry contents: only `main_v190` is updated, and it is
    window 5's array. -/
theorem hrest10 (c : Dev nD) : ∀ b, b ∉ Finset.univ.image (Pipeline.arrRef spec10) → VVout m outs c b = VVin m outs c b :=
  fun b hb => Function.update_of_ne
    (fun e => hb (Finset.mem_image.mpr ⟨5, Finset.mem_univ _, (Proc.devRef_injective _ e).symm⟩)) _ _

end Exit

/-! ## The region as a segment -/

section Record
variable (hp10 : ∀ c, pdats 10 c = dat10 (VVin m outs) c)
  (houts : ∀ c, outs 32 main_v190 c = (dat10 (VVin m outs) c).arrAt 5 cfg10.N)

-- a library lemma stated over the pinned configuration `pin pcs a p` is applied to the printed one: unification has
-- to unfold plain definitions in a metavariable's type
set_option backward.isDefEq.respectTransparency.types false in
/-- Region 10 over the thread state "every unscoped buffer at the boundary's contents, beside the rest state `R`".
    Entry: the six arrays are split out of the unscoped buffers at the entry contents; the generator register goes
    into the invariant; nothing is owed; the kernel has no semaphore of its own. Exit: the arrays are put back at the
    exit contents (`hF10`, `hrest10`) and the register comes back. -/
def reg10 : RegionSeg (pcfgs (F := F)) adm pdats () defs₀ 𝒱₀ L lv 10 where
  win := launch10.win.to₀
  block_pos := launch10.block_pos
  stage_whole := launch10.stage_whole
  K := PEmpty
  osem k := k.elim
  ho := Pipeline.OwnSemFacts.none _
  hbody c := by rw [hp10 c]; exact (body_obligation10 (VVin m outs) c).loose
  hwaits := Pipeline.hwaits_of_owed_zero _ _ _ _ L lv 10 fun c t => pd10_owed m outs pdats hp10 c t
  pre c := iprop(StableHlo.held (c : Thread nD τ) (Pipeline.ucRefs τ sig) (V31 m outs c) ∗ R c)
  post c := iprop(StableHlo.held (c : Thread nD τ) (Pipeline.ucRefs τ sig) (V32 m outs c) ∗ R c)
  X c := iprop(∃ r, prngReg c r)
  Y c := iprop(∃ r, prngReg c r)
  Z c := Pipeline.unscopedRest (Ix := Unit) (Name := ℕ) (U := UR sig nD τ) (Lvl := ℕ) spec10 c (VVin m outs c)
  hentry c := by
    rw [Pipeline.ownSems0_none]
    have hsplit := Pipeline.arrays_of_unscopedBufs (p := 10) (pcfgs (F := F)) adm pdats launch10.win launch10.arr_whole c
      ((pdats 10 c).share_full fun w => pd10_q m outs pdats hp10 c w) (VVin m outs c) fun w => pd10_A m outs pdats hp10 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd10_owed m outs pdats hp10 c]
      icases HO with ⟨%W, HO⟩; iexists W; isplitr
      · ipureintro; exact fun x _ => Or.inl (by rw [pd10_recorded m outs pdats hp10 c]; exact Set.mem_univ x)
      iexact HO
    isplitl [Hp]; · iexact Hp
    iexact Hrest
  hin c := by
    rw [pd10_Φ m outs pdats hp10 c 0]; unfold Pipeline.ΦA
    iintro ⟨Hp, -, Hr⟩
    isplitl [Hr]; · iexact Hr
    iexact Hp
  hout c := by
    rw [Pipeline.ownSems0_none, pd10_Φ m outs pdats hp10 c (Fin.last _)]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c pdats ((pdats 10 c).share_full fun w => pd10_q m outs pdats hp10 c w)
      (VVin m outs c) (VVout m outs c) ((pdats 10 c).arrAt · cfg10.N) (hF10 m outs pdats hp10 houts c) (hrest10 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd10_owed m outs pdats hp10 c]
    icases HO with ⟨%W, -, HO⟩; iexists W; iexact HO

/-- The record is entered from the conditional frame's thread state before the region (with the rest state `R`), -/
theorem hpre10 (c : Dev nD) :
    iprop(StableHlo.held (c : Thread nD τ) (Pipeline.ucRefs τ sig) (V31 m outs c) ∗ R (F := F) c)
      ⊢ (reg10 m outs pdats hp10 houts).pre c := .rfl

/-- and left at the one after it. -/
theorem hpost10 (c : Dev nD) :
    (reg10 m outs pdats hp10 houts).post c
      ⊢ iprop(StableHlo.held (c : Thread nD τ) (Pipeline.ucRefs τ sig) (V32 m outs c) ∗ R (F := F) c) := .rfl

end Record

end Cert.KernelIdeal.Frame10

end
-- ==== Proof.KIRegion11Body.lean ====
/- Region 11 of the idealized kernel program (custom_call 11: a 64 → 64 matmul, plus a bias row, plus a second
   operand added elementwise): the class-A half of its frame, stated at a parameter `V` — the TensorCore's buffer
   contents when the region is entered. For each of the five windows its block at a grid point, the contents the body
   leaves in the output window's buffer as a function of the four input blocks, the body's triple, the pipeline's
   proof data and the library's body obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame11

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 11 is entered
variable (V : (c : Dev nD) → (b : Ref sig .tc) → Buf (Elt F) ((c : Thread nD τ).loc b))

/-! ## The blocks of the five windows -/

/-- The block of window `w` at grid point `t`: the window's rectangle at `t` read off the window's array as the
    region finds it. Window 0 is rows `5000 t … 5000 t + 4999` of the [100000,64] left operand, window 1 the whole
    [64,64] weight, window 2 the whole [1,64] bias row, window 3 the same rows of the [100000,64] operand that is
    added, window 4 the same rows of the [100000,64] result. -/
def iblk11 (c : Dev nD) (w : Fin cfg11.W) (t : Fin cfg11.N) :
    ((cfg11.win w).xblock (cfg11.grid.coords t)).Idx → Elt F (cfg11.win w).elt :=
  ((cfg11.win w).blk t).view.read (Elt F) (V c (Pipeline.arrRef spec11 w))

/-- An input window whose body leaves its block where it is: whatever proof data has the entry contents as the
    window's array and the block as what the body leaves, the staging buffer the body is handed at `t` holds the block
    at `t` — it was fetched at `t`, or the window's index has not moved since it was. Window 0, the row block of
    the left operand (fetched at every point). -/
theorem before11_0_of {c : Dev nD} (dat : Dat τ (Elt F) Unit ℕ (UR sig nD τ) ℕ cfg11 c)
    (hA : dat.A 0 = V c (Pipeline.arrRef spec11 0)) (hafter : ∀ t, dat.after 0 t = iblk11 V c 0 t)
    (t : Fin cfg11.N) (d) : dat.before 0 t d = iblk11 V c 0 t := by
  refine (dat.before_in_eq_fetched 0 rfl (fun _ => rfl) (fun _ _ _ => rfl) (fun t => ?_) t d).trans ?_
  · rw [hafter]; unfold Dat.blockOf iblk11; rw [hA]; try rfl
  · unfold Dat.fetched Dat.blockOf iblk11; rw [hA]; try rfl

/-- Window 1, the weight (fetched once; its index is constant): the same statement. -/
theorem before11_1_of {c : Dev nD} (dat : Dat τ (Elt F) Unit ℕ (UR sig nD τ) ℕ cfg11 c)
    (hA : dat.A 1 = V c (Pipeline.arrRef spec11 1)) (hafter : ∀ t, dat.after 1 t = iblk11 V c 1 t)
    (t : Fin cfg11.N) (d) : dat.before 1 t d = iblk11 V c 1 t := by
  refine (dat.before_in_eq_fetched 1 rfl (fun _ => rfl) (fun _ _ _ => rfl) (fun t => ?_) t d).trans ?_
  · rw [hafter]; unfold Dat.blockOf iblk11; rw [hA]; try rfl
  · unfold Dat.fetched Dat.blockOf iblk11; rw [hA]; try rfl

/-- Window 2, the bias row (fetched once; its index is constant): the same statement. -/
theorem before11_2_of {c : Dev nD} (dat : Dat τ (Elt F) Unit ℕ (UR sig nD τ) ℕ cfg11 c)
    (hA : dat.A 2 = V c (Pipeline.arrRef spec11 2)) (hafter : ∀ t, dat.after 2 t = iblk11 V c 2 t)
    (t : Fin cfg11.N) (d) : dat.before 2 t d = iblk11 V c 2 t := by
  refine (dat.before_in_eq_fetched 2 rfl (fun _ => rfl) (fun _ _ _ => rfl) (fun t => ?_) t d).trans ?_
  · rw [hafter]; unfold Dat.blockOf iblk11; rw [hA]; try rfl
  · unfold Dat.fetched Dat.blockOf iblk11; rw [hA]; try rfl

/-- Window 3, the row block of the operand that is added (fetched at every point): the same statement. -/
theorem before11_3_of {c : Dev nD} (dat : Dat τ (Elt F) Unit ℕ (UR sig nD τ) ℕ cfg11 c)
    (hA : dat.A 3 = V c (Pipeline.arrRef spec11 3)) (hafter : ∀ t, dat.after 3 t = iblk11 V c 3 t)
    (t : Fin cfg11.N) (d) : dat.before 3 t d = iblk11 V c 3 t := by
  refine (dat.before_in_eq_fetched 3 rfl (fun _ => rfl) (fun _ _ _ => rfl) (fun t => ?_) t d).trans ?_
  · rw [hafter]; unfold Dat.blockOf iblk11; rw [hA]; try rfl
  · unfold Dat.fetched Dat.blockOf iblk11; rw [hA]; try rfl

/-! ## The rectangles the body reads and writes: each staging buffer whole -/

abbrev r11_a : Rect S5000x64 := Rect.unit (s := S5000x64) ![0, 0] S5000x64.size inb_S5000x64_S5000x64_0_0
abbrev r11_w : Rect S64x64 := Rect.unit (s := S64x64) ![0, 0] S64x64.size inb_S64x64_S64x64_0_0
abbrev r11_b : Rect S1x64 := Rect.unit (s := S1x64) ![0, 0] S1x64.size inb_S1x64_S1x64_0_0

/-! ## What the body leaves in the output window's buffer -/

/-- The output staging buffer after the body, from the four input blocks: its one store, of the payload
    `x0 · x1 + (the row x2 on every row) + x3` of the four whole-buffer loads, written as a one-piece list. -/
def out11_4 (x0 : Vec F S5000x64 .f32) (x1 : Vec F S64x64 .f32) (x2 : Vec F S1x64 .f32) (x3 : Vec F S5000x64 .f32) :
    Vec F S5000x64 .f32 :=
  View.canon [⟨r11_a, k11_pay1 (View.ld x0 r11_a) (View.ld x1 r11_w) (View.ld x2 r11_b) (View.ld x3 r11_a)⟩]

/-- The one store is of the whole buffer, so every index of the buffer lies in it. -/
theorem cover11_4 (p : Vec F S5000x64 .f32) (y : S5000x64.Idx) :
    ∃ pc ∈ ([⟨r11_a, p⟩] : List (View.Piece (Elt F) S5000x64 .f32)), y ∈ pc.1.set :=
  View.cover_of_tiled [⟨r11_a, p⟩] S5000x64.size (by rfl) y

/-! ## The body's triple -/

set_option maxHeartbeats 1000000 in
/-- The body at any grid coordinate `i`, on whole staging memrefs: the four inputs' read `x0 … x3`, the output's
    holds anything. It runs to the continuation with the inputs' as they were and the output's at
    `out11_4 x0 x1 x2 x3`. (The body also loads the output buffer before storing to it; the loaded value is not used.) -/
theorem sound_kernel11 (c : Dev nD) (E : Set ℕ) (i : grid11.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out11_4 x0 x1 x2 x3)) -∗ K ⟨⟩))
      ⊢ wp frame (wpE (defs₀ (F := F)) Variants.none c none) E
          (cc11__linear_extra_kernel i arg1 harg1 arg2 harg2 arg3 harg3 arg4 harg4 arg5 harg5) K := by
  simp only [cc11__linear_extra_kernel_eq_skeleton]; unfold cc11__linear_extra_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover11_4 _)

/-! ## The proof data of the pipeline -/

/-- Region 11's proof data on core `c`: the five arrays as the region finds them; after the body at point `t` the four
    inputs' buffers at their blocks and the output's at `out11_4` of those blocks; the invariant the scoped rest and the
    generator register, untouched (`Pipeline.ΦA`); full shares; nothing owed. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t) (iblk11 V c 3 t)
  Φ _ := Pipeline.ΦA spec11 c
  q _ := fullShare
  owed _ := 0

/-- The proof data's arrays are the entry contents (the structure projected; `V` is never unfolded). -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) :
    (dat11 V c).after 4 t = out11_4 (iblk11 V c 0 t) (iblk11 V c 1 t) (iblk11 V c 2 t) (iblk11 V c 3 t) := by
  dsimp only [dat11]

/-- What the body is handed in each input's buffer: its block. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-! ## The body obligation -/

/-- What the body is called with at point `t`: the invariant, the core's dues, and each window's current staging
    buffer at what the pipeline put there. -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- What it returns: the same, each buffer at the proof data's `after`. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at a point: the inputs' buffers hold their blocks, so the body's triple applies at those blocks; the
    invariant and the dues are not read. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _
    (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the proof data, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Frame11

end
-- ==== Proof.KIRegion11.lean ====
/- Region 11 of the idealized kernel program (custom_call 11) as a segment of @main: entered from every unscoped
   buffer at the contents before it, left with the result array `main_v208` at what the pipeline's write-backs leave
   and every other buffer as entered. Stated over an arbitrary family of proof data whose member at pipeline 11 is
   this region's (`hp11`), and over any `outs` that names the result's final contents (`houts11`). -/
import proofs.«146189_j40922448396571_2_alg».proof.Proof.KIRegions
import proofs.«146189_j40922448396571_2_alg».proof.Proof.KIRegion11Body

set_option maxRecDepth 16384

noncomputable section

namespace Cert.KernelIdeal.Frame11

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry. -/
abbrev VV33 : (c : Dev nD) → (b : Ref sig .tc) → Buf (Elt F) ((c : Thread nD τ).loc b) := fun c b => V33 m outs c b
/-- Exit: the same with `main_v208` at `outs 34 main_v208`. -/
abbrev VV34 : (c : Dev nD) → (b : Ref sig .tc) → Buf (Elt F) ((c : Thread nD τ).loc b) := fun c b => V34 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 11 -/

variable (pdats : (p : Fin 17) → (c : Dev nD) → Dat τ (Elt F) Unit ℕ (UR sig nD τ) ℕ (cfgs p) c)

section Pinned
variable (hp11 : ∀ c, pdats 11 c = dat11 (VV33 m outs) c)
include hp11

theorem pd11_q (c : Dev nD) (w : Fin cfg11.W) : (pdats 11 c).q w = fullShare := by rw [hp11 c]; rfl
theorem pd11_owed (c : Dev nD) (t) : (pdats 11 c).owed t = 0 := by rw [hp11 c]; rfl
theorem pd11_A (c : Dev nD) (w : Fin cfg11.W) : (pdats 11 c).A w = VV33 m outs c (Pipeline.arrRef spec11 w) := by
  rw [hp11 c]; exact A_eq11 (VV33 m outs) c w
theorem pd11_Φ (c : Dev nD) (t) : (pdats 11 c).Φ t = Pipeline.ΦA spec11 c := by rw [hp11 c]; rfl
theorem pd11_recorded (c : Dev nD) (t) : (pdats 11 c).recorded t = Set.univ := by rw [hp11 c]; rfl

end Pinned

/-! ## The exit contents, at the region's arrays and off them -/

section Exit
variable (hp11 : ∀ c, pdats 11 c = dat11 (VV33 m outs) c)
  (houts11 : ∀ c, outs 34 main_v208 c = (dat11 (VV33 m outs) c).arrAt 4 cfg11.N)

include hp11 in
/-- Input window 0's array ends as entered: no window writes it, and it is not the result's reference. -/
theorem hF11_0 (c : Dev nD) : (pdats 11 c).arrAt 0 cfg11.N = VV34 m outs c (Pipeline.arrRef spec11 0) := by
  rw [hp11 c]
  refine ((dat11 (VV33 m outs) c).arrAt_in 0 rfl _).trans ((A_eq11 (VV33 m outs) c 0).trans ?_)
  exact (Function.update_of_ne (StableHlo.devRef_ne_of_ne (by decide)) _ _).symm

include hp11 in
/-- Input window 1's array ends as entered: no window writes it, and it is not the result's reference. -/
theorem hF11_1 (c : Dev nD) : (pdats 11 c).arrAt 1 cfg11.N = VV34 m outs c (Pipeline.arrRef spec11 1) := by
  rw [hp11 c]
  refine ((dat11 (VV33 m outs) c).arrAt_in 1 rfl _).trans ((A_eq11 (VV33 m outs) c 1).trans ?_)
  exact (Function.update_of_ne (StableHlo.devRef_ne_of_ne (by decide)) _ _).symm

include hp11 in
/-- Input window 2's array ends as entered: no window writes it, and it is not the result's reference. -/
theorem hF11_2 (c : Dev nD) : (pdats 11 c).arrAt 2 cfg11.N = VV34 m outs c (Pipeline.arrRef spec11 2) := by
  rw [hp11 c]
  refine ((dat11 (VV33 m outs) c).arrAt_in 2 rfl _).trans ((A_eq11 (VV33 m outs) c 2).trans ?_)
  exact (Function.update_of_ne (StableHlo.devRef_ne_of_ne (by decide)) _ _).symm

include hp11 in
/-- Input window 3's array ends as entered: no window writes it, and it is not the result's reference. -/
theorem hF11_3 (c : Dev nD) : (pdats 11 c).arrAt 3 cfg11.N = VV34 m outs c (Pipeline.arrRef spec11 3) := by
  rw [hp11 c]
  refine ((dat11 (VV33 m outs) c).arrAt_in 3 rfl _).trans ((A_eq11 (VV33 m outs) c 3).trans ?_)
  exact (Function.update_of_ne (StableHlo.devRef_ne_of_ne (by decide)) _ _).symm

include hp11 houts11 in
/-- The result's array ends at what the write-backs leave, which is what `outs` names. -/
theorem hF11_4 (c : Dev nD) : (pdats 11 c).arrAt 4 cfg11.N = VV34 m outs c (Pipeline.arrRef spec11 4) := by
  rw [hp11 c, ← houts11 c]
  exact (Function.update_self (Proc.devRef (τ := τ) .tc main_v208) (outs 34 main_v208 c) (V33 m outs c)).symm

include hp11 houts11 in
theorem hF11 (c : Dev nD) : ∀ w : Fin cfg11.W, (pdats 11 c).arrAt w cfg11.N = VV34 m outs c (Pipeline.arrRef spec11 w)
  | ⟨0, _⟩ => hF11_0 m outs pdats hp11 c
  | ⟨1, _⟩ => hF11_1 m outs pdats hp11 c
  | ⟨2, _⟩ => hF11_2 m outs pdats hp11 c
  | ⟨3, _⟩ => hF11_3 m outs pdats hp11 c
  | ⟨4, _⟩ => hF11_4 m outs pdats hp11 houts11 c

/-- Off the region's arrays the exit contents are the entry contents: only `main_v208` is updated, and it is
    window 4's array. -/
theorem hrest11 (c : Dev nD) : ∀ b, b ∉ Finset.univ.image (Pipeline.arrRef spec11) → VV34 m outs c b = VV33 m outs c b :=
  fun b hb => Function.update_of_ne
    (fun e => hb (Finset.mem_image.mpr ⟨4, Finset.mem_univ _, (Proc.devRef_injective _ e).symm⟩)) _ _

end Exit

/-! ## The region as a segment -/

section Record
variable (hp11 : ∀ c, pdats 11 c = dat11 (VV33 m outs) c)
  (houts11 : ∀ c, outs 34 main_v208 c = (dat11 (VV33 m outs) c).arrAt 4 cfg11.N)

-- a library lemma stated over the pinned configuration `pin pcs a p` is applied to the printed one: unification has
-- to unfold plain definitions in a metavariable's type
set_option backward.isDefEq.respectTransparency.types false in
/-- Region 11 over the thread state "every unscoped buffer at the boundary's contents, beside `R`". Entry: the
    arrays are split out of the unscoped buffers at the entry contents; the generator register goes into the
    invariant; nothing is owed; the kernel has no semaphore of its own. Exit: the arrays are put back at the exit
    contents (`hF11`, `hrest11`) and the register comes back. -/
def reg11 : RegionSeg (pcfgs (F := F)) adm pdats () defs₀ 𝒱₀ L lv 11 where
  win := launch11.win.to₀
  block_pos := launch11.block_pos
  stage_whole := launch11.stage_whole
  K := PEmpty
  osem k := k.elim
  ho := Pipeline.OwnSemFacts.none _
  hbody c := by rw [hp11 c]; exact (body_obligation11 (VV33 m outs) c).loose
  hwaits := Pipeline.hwaits_of_owed_zero _ _ _ _ L lv 11 fun c t => pd11_owed m outs pdats hp11 c t
  pre c := iprop(StableHlo.held (c : Thread nD τ) (Pipeline.ucRefs τ sig) (V33 m outs c) ∗ R c)
  post c := iprop(StableHlo.held (c : Thread nD τ) (Pipeline.ucRefs τ sig) (V34 m outs c) ∗ R c)
  X c := iprop(∃ r, prngReg c r)
  Y c := iprop(∃ r, prngReg c r)
  Z c := Pipeline.unscopedRest (Ix := Unit) (Name := ℕ) (U := UR sig nD τ) (Lvl := ℕ) spec11 c (VV33 m outs c)
  hentry c := by
    rw [Pipeline.ownSems0_none]
    have hsplit := Pipeline.arrays_of_unscopedBufs (p := 11) (pcfgs (F := F)) adm pdats launch11.win launch11.arr_whole c
      ((pdats 11 c).share_full fun w => pd11_q m outs pdats hp11 c w) (VV33 m outs c) fun w => pd11_A m outs pdats hp11 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd11_owed m outs pdats hp11 c]
      icases HO with ⟨%W, HO⟩; iexists W; isplitr; · ipureintro; exact fun x _ => Or.inl (by rw [pd11_recorded m outs pdats hp11 c]; exact Set.mem_univ x)
      iexact HO
    isplitl [Hp]; · iexact Hp
    iexact Hrest
  hin c := by
    rw [pd11_Φ m outs pdats hp11 c 0]; unfold Pipeline.ΦA
    iintro ⟨Hp, -, Hr⟩
    isplitl [Hr]; · iexact Hr
    iexact Hp
  hout c := by
    rw [Pipeline.ownSems0_none, pd11_Φ m outs pdats hp11 c (Fin.last _)]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c pdats ((pdats 11 c).share_full fun w => pd11_q m outs pdats hp11 c w)
      (VV33 m outs c) (VV34 m outs c) ((pdats 11 c).arrAt · cfg11.N) (hF11 m outs pdats hp11 houts11 c) (hrest11 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd11_owed m outs pdats hp11 c]
    icases HO with ⟨%W, -, HO⟩; iexists W; iexact HO

/-- The record is entered from the conditional frame's thread state before the region (with the rest state `R`), -/
theorem hpre11 (c : Dev nD) :
    iprop(StableHlo.held (c : Thread nD τ) (Pipeline.ucRefs τ sig) (V33 m outs c) ∗ R (F := F) c)
      ⊢ (reg11 m outs pdats hp11 houts11).pre c := .rfl

/-- and left at the one after it. -/
theorem hpost11 (c : Dev nD) :
    (reg11 m outs pdats hp11 houts11).post c
      ⊢ iprop(StableHlo.held (c : Thread nD τ) (Pipeline.ucRefs τ sig) (V34 m outs c) ∗ R (F := F) c) := .rfl

end Record

end Cert.KernelIdeal.Frame11

end
-- ==== Proof.KIRegion12Body.lean ====
/- Region 12 of the idealized kernel program (custom_call 12, the batch-norm affine map followed by the maximum with zero, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame12

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 12 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk12 (c : Dev nD) (w : Fin cfg12.W) (t : Fin cfg12.N) :
    ((cfg12.win w).xblock (cfg12.grid.coords t)).Idx → Elt F (cfg12.win w).elt :=
  ((cfg12.win w).blk t).view.read (Elt F) (V c (Pipeline.arrRef spec12 w))

/-- The row-block operand (window 0): for any proof data whose array for it is the entry contents and whose body
    leaves the block where it is, the staging buffer handed to the body at `t` holds the block at `t` — fetched at
    `t`, or still there from an earlier point because the block index has not moved since. -/
theorem before12_0_of {c : Dev nD} (dat : Dat τ (Elt F) Unit ℕ (UR sig nD τ) ℕ cfg12 c)
    (hA : dat.A 0 = V c (Pipeline.arrRef spec12 0)) (hafter : ∀ t, dat.after 0 t = iblk12 V c 0 t)
    (t : Fin cfg12.N) (d) : dat.before 0 t d = iblk12 V c 0 t := by
  refine (dat.before_in_eq_fetched 0 rfl (fun _ => rfl) (fun _ _ _ => rfl) (fun t => ?_) t d).trans ?_
  · rw [hafter]; unfold Dat.blockOf iblk12; rw [hA]; try rfl
  · unfold Dat.fetched Dat.blockOf iblk12; rw [hA]; try rfl

/-- The mean row (window 1; one block, fetched at the first point only, its index constant): the same. -/
theorem before12_1_of {c : Dev nD} (dat : Dat τ (Elt F) Unit ℕ (UR sig nD τ) ℕ cfg12 c)
    (hA : dat.A 1 = V c (Pipeline.arrRef spec12 1)) (hafter : ∀ t, dat.after 1 t = iblk12 V c 1 t)
    (t : Fin cfg12.N) (d) : dat.before 1 t d = iblk12 V c 1 t := by
  refine (dat.before_in_eq_fetched 1 rfl (fun _ => rfl) (fun _ _ _ => rfl) (fun t => ?_) t d).trans ?_
  · rw [hafter]; unfold Dat.blockOf iblk12; rw [hA]; try rfl
  · unfold Dat.fetched Dat.blockOf iblk12; rw [hA]; try rfl

/-- The variance row (window 2; one block, fetched at the first point only, its index constant): the same. -/
theorem before12_2_of {c : Dev nD} (dat : Dat τ (Elt F) Unit ℕ (UR sig nD τ) ℕ cfg12 c)
    (hA : dat.A 2 = V c (Pipeline.arrRef spec12 2)) (hafter : ∀ t, dat.after 2 t = iblk12 V c 2 t)
    (t : Fin cfg12.N) (d) : dat.before 2 t d = iblk12 V c 2 t := by
  refine (dat.before_in_eq_fetched 2 rfl (fun _ => rfl) (fun _ _ _ => rfl) (fun t => ?_) t d).trans ?_
  · rw [hafter]; unfold Dat.blockOf iblk12; rw [hA]; try rfl
  · unfold Dat.fetched Dat.blockOf iblk12; rw [hA]; try rfl

/-- The scale row (window 3; one block, fetched at the first point only, its index constant): the same. -/
theorem before12_3_of {c : Dev nD} (dat : Dat τ (Elt F) Unit ℕ (UR sig nD τ) ℕ cfg12 c)
    (hA : dat.A 3 = V c (Pipeline.arrRef spec12 3)) (hafter : ∀ t, dat.after 3 t = iblk12 V c 3 t)
    (t : Fin cfg12.N) (d) : dat.before 3 t d = iblk12 V c 3 t := by
  refine (dat.before_in_eq_fetched 3 rfl (fun _ => rfl) (fun _ _ _ => rfl) (fun t => ?_) t d).trans ?_
  · rw [hafter]; unfold Dat.blockOf iblk12; rw [hA]; try rfl
  · unfold Dat.fetched Dat.blockOf iblk12; rw [hA]; try rfl

/-- The shift row (window 4; one block, fetched at the first point only, its index constant): the same. -/
theorem before12_4_of {c : Dev nD} (dat : Dat τ (Elt F) Unit ℕ (UR sig nD τ) ℕ cfg12 c)
    (hA : dat.A 4 = V c (Pipeline.arrRef spec12 4)) (hafter : ∀ t, dat.after 4 t = iblk12 V c 4 t)
    (t : Fin cfg12.N) (d) : dat.before 4 t d = iblk12 V c 4 t := by
  refine (dat.before_in_eq_fetched 4 rfl (fun _ => rfl) (fun _ _ _ => rfl) (fun t => ?_) t d).trans ?_
  · rw [hafter]; unfold Dat.blockOf iblk12; rw [hA]; try rfl
  · unfold Dat.fetched Dat.blockOf iblk12; rw [hA]; try rfl

/-! ## The rectangles the body reads and writes: each staging buffer whole -/

abbrev r12_big : Rect S5000x128 := Rect.unit (s := S5000x128) ![0, 0] S5000x128.size inb_S5000x128_S5000x128_0_0
abbrev r12_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `max ((x − mean) · rsqrt (var + ε) · gamma + beta) 0` of the five whole-buffer loads, written as a one-piece list.
    (The body loads the variance before the mean, which is the order of the payload's arguments.) -/
def out12_5 (x0 : Vec F S5000x128 .f32) (x1 x2 x3 x4 : Vec F S1x128 .f32) : Vec F S5000x128 .f32 :=
  View.canon [⟨r12_big, k12_pay1 (View.ld x0 r12_big) (View.ld x2 r12_row) (View.ld x1 r12_row)
    (View.ld x3 r12_row) (View.ld x4 r12_row)⟩]

/-- The one store is of the whole buffer, so every index of the buffer lies in it. -/
theorem cover12_5 (p : Vec F S5000x128 .f32) (y : S5000x128.Idx) :
    ∃ pc ∈ ([⟨r12_big, p⟩] : List (View.Piece (Elt F) S5000x128 .f32)), y ∈ pc.1.set :=
  View.cover_of_tiled [⟨r12_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out12_5 x0 x1 x2 x3 x4`. (The body also loads the output buffer before storing to it; the loaded value is
    not used.) -/
theorem sound_kernel12 (c : Dev nD) (E : Set ℕ) (i : grid12.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out12_5 x0 x1 x2 x3 x4)) -∗ K ⟨⟩))
      ⊢ wp frame (wpE (defs₀ (F := F)) Variants.none c none) E
          (cc12__bn_relu_kernel i arg1 harg1 arg2 harg2 arg3 harg3 arg4 harg4 arg5 harg5 arg6 harg6) K := by
  simp only [cc12__bn_relu_kernel_eq_skeleton]; unfold cc12__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12_5 _)

/-! ## The proof data of the pipeline -/

/-- Region 12's proof data on core `c`: the six arrays as the region finds them; after the body at point `t` the
    five inputs' buffers at their blocks and the output's at `out12_5` of those blocks; the invariant the scoped rest
    and the generator register, untouched (`Pipeline.ΦA`); full shares; nothing owed. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

/-- The proof data's arrays are the entry contents (the structure projected; `V` is never unfolded). -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) :
    (dat12 V c).after 5 t
      = out12_5 (iblk12 V c 0 t) (iblk12 V c 1 t) (iblk12 V c 2 t) (iblk12 V c 3 t) (iblk12 V c 4 t) := by
  dsimp only [dat12]

/-- What the body is handed in each input's buffer: its block. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation -/

/-- What the body is called with at point `t`: the invariant, the core's dues, and each window's current staging
    buffer at what the pipeline put there. -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- What it returns: the same, each buffer at the proof data's `after`. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at a point: the inputs' buffers hold their blocks, so the body's triple applies at those blocks; the
    invariant and the dues are not read. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ _ _ _ _ _ _ _ _ _ _ _ _ _
    (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Frame12

end
-- ==== Proof.KIRegion12.lean ====
/- Region 12 of the idealized kernel program (custom_call 12) as a segment of @main: entered from every unscoped
   buffer at the contents before it, left with the result array `main_v231` at what the pipeline's write-backs leave
   and every other buffer as entered. Stated over an arbitrary family of proof data whose member at pipeline 12 is
   this region's (`hp12`), and over any `outs` that names the result's final contents (`houts12`). -/
import proofs.«146189_j40922448396571_2_alg».proof.Proof.KIRegions
import proofs.«146189_j40922448396571_2_alg».proof.Proof.KIRegion12Body

set_option maxRecDepth 16384

noncomputable section

namespace Cert.KernelIdeal.Frame12

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry. -/
abbrev VV37 : (c : Dev nD) → (b : Ref sig .tc) → Buf (Elt F) ((c : Thread nD τ).loc b) := fun c b => V37 m outs c b
/-- Exit: the same with `main_v231` at `outs 38 main_v231`. -/
abbrev VV38 : (c : Dev nD) → (b : Ref sig .tc) → Buf (Elt F) ((c : Thread nD τ).loc b) := fun c b => V38 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 12 -/

variable (pdats : (p : Fin 17) → (c : Dev nD) → Dat τ (Elt F) Unit ℕ (UR sig nD τ) ℕ (cfgs p) c)

section Pinned
variable (hp12 : ∀ c, pdats 12 c = dat12 (VV37 m outs) c)
include hp12

theorem pd12_q (c : Dev nD) (w : Fin cfg12.W) : (pdats 12 c).q w = fullShare := by rw [hp12 c]; rfl
theorem pd12_owed (c : Dev nD) (t) : (pdats 12 c).owed t = 0 := by rw [hp12 c]; rfl
theorem pd12_A (c : Dev nD) (w : Fin cfg12.W) : (pdats 12 c).A w = VV37 m outs c (Pipeline.arrRef spec12 w) := by
  rw [hp12 c]; exact A_eq12 (VV37 m outs) c w
theorem pd12_Φ (c : Dev nD) (t) : (pdats 12 c).Φ t = Pipeline.ΦA spec12 c := by rw [hp12 c]; rfl
theorem pd12_recorded (c : Dev nD) (t) : (pdats 12 c).recorded t = Set.univ := by rw [hp12 c]; rfl

end Pinned

/-! ## The exit contents, at the region's arrays and off them -/

section Exit
variable (hp12 : ∀ c, pdats 12 c = dat12 (VV37 m outs) c)
  (houts12 : ∀ c, outs 38 main_v231 c = (dat12 (VV37 m outs) c).arrAt 5 cfg12.N)

include hp12 in
/-- Input window 0's array ends as entered: no window writes it, and it is not the result's reference. -/
theorem hF12_0 (c : Dev nD) : (pdats 12 c).arrAt 0 cfg12.N = VV38 m outs c (Pipeline.arrRef spec12 0) := by
  rw [hp12 c]
  refine ((dat12 (VV37 m outs) c).arrAt_in 0 rfl _).trans ((A_eq12 (VV37 m outs) c 0).trans ?_)
  exact (Function.update_of_ne (StableHlo.devRef_ne_of_ne (by decide)) _ _).symm

include hp12 in
/-- Input window 1's array ends as entered: no window writes it, and it is not the result's reference. -/
theorem hF12_1 (c : Dev nD) : (pdats 12 c).arrAt 1 cfg12.N = VV38 m outs c (Pipeline.arrRef spec12 1) := by
  rw [hp12 c]
  refine ((dat12 (VV37 m outs) c).arrAt_in 1 rfl _).trans ((A_eq12 (VV37 m outs) c 1).trans ?_)
  exact (Function.update_of_ne (StableHlo.devRef_ne_of_ne (by decide)) _ _).symm

include hp12 in
/-- Input window 2's array ends as entered: no window writes it, and it is not the result's reference. -/
theorem hF12_2 (c : Dev nD) : (pdats 12 c).arrAt 2 cfg12.N = VV38 m outs c (Pipeline.arrRef spec12 2) := by
  rw [hp12 c]
  refine ((dat12 (VV37 m outs) c).arrAt_in 2 rfl _).trans ((A_eq12 (VV37 m outs) c 2).trans ?_)
  exact (Function.update_of_ne (StableHlo.devRef_ne_of_ne (by decide)) _ _).symm

include hp12 in
/-- Input window 3's array ends as entered: no window writes it, and it is not the result's reference. -/
theorem hF12_3 (c : Dev nD) : (pdats 12 c).arrAt 3 cfg12.N = VV38 m outs c (Pipeline.arrRef spec12 3) := by
  rw [hp12 c]
  refine ((dat12 (VV37 m outs) c).arrAt_in 3 rfl _).trans ((A_eq12 (VV37 m outs) c 3).trans ?_)
  exact (Function.update_of_ne (StableHlo.devRef_ne_of_ne (by decide)) _ _).symm

include hp12 in
/-- Input window 4's array ends as entered: no window writes it, and it is not the result's reference. -/
theorem hF12_4 (c : Dev nD) : (pdats 12 c).arrAt 4 cfg12.N = VV38 m outs c (Pipeline.arrRef spec12 4) := by
  rw [hp12 c]
  refine ((dat12 (VV37 m outs) c).arrAt_in 4 rfl _).trans ((A_eq12 (VV37 m outs) c 4).trans ?_)
  exact (Function.update_of_ne (StableHlo.devRef_ne_of_ne (by decide)) _ _).symm

include hp12 houts12 in
/-- The result's array ends at what the write-backs leave, which is what `outs` names. -/
theorem hF12_5 (c : Dev nD) : (pdats 12 c).arrAt 5 cfg12.N = VV38 m outs c (Pipeline.arrRef spec12 5) := by
  rw [hp12 c, ← houts12 c]
  exact (Function.update_self (Proc.devRef (τ := τ) .tc main_v231) (outs 38 main_v231 c) (V37 m outs c)).symm

include hp12 houts12 in
theorem hF12 (c : Dev nD) : ∀ w : Fin cfg12.W, (pdats 12 c).arrAt w cfg12.N = VV38 m outs c (Pipeline.arrRef spec12 w)
  | ⟨0, _⟩ => hF12_0 m outs pdats hp12 c
  | ⟨1, _⟩ => hF12_1 m outs pdats hp12 c
  | ⟨2, _⟩ => hF12_2 m outs pdats hp12 c
  | ⟨3, _⟩ => hF12_3 m outs pdats hp12 c
  | ⟨4, _⟩ => hF12_4 m outs pdats hp12 c
  | ⟨5, _⟩ => hF12_5 m outs pdats hp12 houts12 c

/-- Off the region's arrays the exit contents are the entry contents: only `main_v231` is updated, and it is
    window 5's array. -/
theorem hrest12 (c : Dev nD) : ∀ b, b ∉ Finset.univ.image (Pipeline.arrRef spec12) → VV38 m outs c b = VV37 m outs c b :=
  fun b hb => Function.update_of_ne
    (fun e => hb (Finset.mem_image.mpr ⟨5, Finset.mem_univ _, (Proc.devRef_injective _ e).symm⟩)) _ _

end Exit

/-! ## The region as a segment -/

section Record
variable (hp12 : ∀ c, pdats 12 c = dat12 (VV37 m outs) c)
  (houts12 : ∀ c, outs 38 main_v231 c = (dat12 (VV37 m outs) c).arrAt 5 cfg12.N)

-- a library lemma stated over the pinned configuration `pin pcs a p` is applied to the printed one: unification has
-- to unfold plain definitions in a metavariable's type
set_option backward.isDefEq.respectTransparency.types false in
/-- Region 12 over the thread state "every unscoped buffer at the boundary's contents, beside `R`". Entry: the
    arrays are split out of the unscoped buffers at the entry contents; the generator register goes into the
    invariant; nothing is owed; the kernel has no semaphore of its own. Exit: the arrays are put back at the exit
    contents (`hF12`, `hrest12`) and the register comes back. -/
def reg12 : RegionSeg (pcfgs (F := F)) adm pdats () defs₀ 𝒱₀ L lv 12 where
  win := launch12.win.to₀
  block_pos := launch12.block_pos
  stage_whole := launch12.stage_whole
  K := PEmpty
  osem k := k.elim
  ho := Pipeline.OwnSemFacts.none _
  hbody c := by rw [hp12 c]; exact (body_obligation12 (VV37 m outs) c).loose
  hwaits := Pipeline.hwaits_of_owed_zero _ _ _ _ L lv 12 fun c t => pd12_owed m outs pdats hp12 c t
  pre c := iprop(StableHlo.held (c : Thread nD τ) (Pipeline.ucRefs τ sig) (V37 m outs c) ∗ R c)
  post c := iprop(StableHlo.held (c : Thread nD τ) (Pipeline.ucRefs τ sig) (V38 m outs c) ∗ R c)
  X c := iprop(∃ r, prngReg c r)
  Y c := iprop(∃ r, prngReg c r)
  Z c := Pipeline.unscopedRest (Ix := Unit) (Name := ℕ) (U := UR sig nD τ) (Lvl := ℕ) spec12 c (VV37 m outs c)
  hentry c := by
    rw [Pipeline.ownSems0_none]
    have hsplit := Pipeline.arrays_of_unscopedBufs (p := 12) (pcfgs (F := F)) adm pdats launch12.win launch12.arr_whole c
      ((pdats 12 c).share_full fun w => pd12_q m outs pdats hp12 c w) (VV37 m outs c) fun w => pd12_A m outs pdats hp12 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd12_owed m outs pdats hp12 c]
      icases HO with ⟨%W, HO⟩; iexists W; isplitr; · ipureintro; exact fun x _ => Or.inl (by rw [pd12_recorded m outs pdats hp12 c]; exact Set.mem_univ x)
      iexact HO
    isplitl [Hp]; · iexact Hp
    iexact Hrest
  hin c := by
    rw [pd12_Φ m outs pdats hp12 c 0]; unfold Pipeline.ΦA
    iintro ⟨Hp, -, Hr⟩
    isplitl [Hr]; · iexact Hr
    iexact Hp
  hout c := by
    rw [Pipeline.ownSems0_none, pd12_Φ m outs pdats hp12 c (Fin.last _)]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c pdats ((pdats 12 c).share_full fun w => pd12_q m outs pdats hp12 c w)
      (VV37 m outs c) (VV38 m outs c) ((pdats 12 c).arrAt · cfg12.N) (hF12 m outs pdats hp12 houts12 c) (hrest12 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd12_owed m outs pdats hp12 c]
    icases HO with ⟨%W, -, HO⟩; iexists W; iexact HO

/-- The record is entered from the conditional frame's thread state before the region (with the rest state `R`), -/
theorem hpre12 (c : Dev nD) :
    iprop(StableHlo.held (c : Thread nD τ) (Pipeline.ucRefs τ sig) (V37 m outs c) ∗ R (F := F) c)
      ⊢ (reg12 m outs pdats hp12 houts12).pre c := .rfl

/-- and left at the one after it. -/
theorem hpost12 (c : Dev nD) :
    (reg12 m outs pdats hp12 houts12).post c
      ⊢ iprop(StableHlo.held (c : Thread nD τ) (Pipeline.ucRefs τ sig) (V38 m outs c) ∗ R (F := F) c) := .rfl

end Record

end Cert.KernelIdeal.Frame12

end
-- ==== Proof.KIRegion13Body.lean ====
/- Region 13 of the idealized kernel program (custom_call 13: a 64 → 64 matmul, plus a bias row, plus a second
   operand added elementwise): the class-A half of its frame, stated at a parameter `V` — the TensorCore's buffer
   contents when the region is entered. For each of the five windows its block at a grid point, the contents the body
   leaves in the output window's buffer as a function of the four input blocks, the body's triple, the pipeline's
   proof data and the library's body obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame13

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 13 is entered
variable (V : (c : Dev nD) → (b : Ref sig .tc) → Buf (Elt F) ((c : Thread nD τ).loc b))

/-! ## The blocks of the five windows -/

/-- The block of window `w` at grid point `t`: the window's rectangle at `t` read off the window's array as the
    region finds it. Window 0 is rows `5000 t … 5000 t + 4999` of the [100000,64] left operand, window 1 the whole
    [64,64] weight, window 2 the whole [1,64] bias row, window 3 the same rows of the [100000,64] operand that is
    added, window 4 the same rows of the [100000,64] result. -/
def iblk13 (c : Dev nD) (w : Fin cfg13.W) (t : Fin cfg13.N) :
    ((cfg13.win w).xblock (cfg13.grid.coords t)).Idx → Elt F (cfg13.win w).elt :=
  ((cfg13.win w).blk t).view.read (Elt F) (V c (Pipeline.arrRef spec13 w))

/-- An input window whose body leaves its block where it is: whatever proof data has the entry contents as the
    window's array and the block as what the body leaves, the staging buffer the body is handed at `t` holds the block
    at `t` — it was fetched at `t`, or the window's index has not moved since it was. Window 0, the row block of
    the left operand (fetched at every point). -/
theorem before13_0_of {c : Dev nD} (dat : Dat τ (Elt F) Unit ℕ (UR sig nD τ) ℕ cfg13 c)
    (hA : dat.A 0 = V c (Pipeline.arrRef spec13 0)) (hafter : ∀ t, dat.after 0 t = iblk13 V c 0 t)
    (t : Fin cfg13.N) (d) : dat.before 0 t d = iblk13 V c 0 t := by
  refine (dat.before_in_eq_fetched 0 rfl (fun _ => rfl) (fun _ _ _ => rfl) (fun t => ?_) t d).trans ?_
  · rw [hafter]; unfold Dat.blockOf iblk13; rw [hA]; try rfl
  · unfold Dat.fetched Dat.blockOf iblk13; rw [hA]; try rfl

/-- Window 1, the weight (fetched once; its index is constant): the same statement. -/
theorem before13_1_of {c : Dev nD} (dat : Dat τ (Elt F) Unit ℕ (UR sig nD τ) ℕ cfg13 c)
    (hA : dat.A 1 = V c (Pipeline.arrRef spec13 1)) (hafter : ∀ t, dat.after 1 t = iblk13 V c 1 t)
    (t : Fin cfg13.N) (d) : dat.before 1 t d = iblk13 V c 1 t := by
  refine (dat.before_in_eq_fetched 1 rfl (fun _ => rfl) (fun _ _ _ => rfl) (fun t => ?_) t d).trans ?_
  · rw [hafter]; unfold Dat.blockOf iblk13; rw [hA]; try rfl
  · unfold Dat.fetched Dat.blockOf iblk13; rw [hA]; try rfl

/-- Window 2, the bias row (fetched once; its index is constant): the same statement. -/
theorem before13_2_of {c : Dev nD} (dat : Dat τ (Elt F) Unit ℕ (UR sig nD τ) ℕ cfg13 c)
    (hA : dat.A 2 = V c (Pipeline.arrRef spec13 2)) (hafter : ∀ t, dat.after 2 t = iblk13 V c 2 t)
    (t : Fin cfg13.N) (d) : dat.before 2 t d = iblk13 V c 2 t := by
  refine (dat.before_in_eq_fetched 2 rfl (fun _ => rfl) (fun _ _ _ => rfl) (fun t => ?_) t d).trans ?_
  · rw [hafter]; unfold Dat.blockOf iblk13; rw [hA]; try rfl
  · unfold Dat.fetched Dat.blockOf iblk13; rw [hA]; try rfl

/-- Window 3, the row block of the operand that is added (fetched at every point): the same statement. -/
theorem before13_3_of {c : Dev nD} (dat : Dat τ (Elt F) Unit ℕ (UR sig nD τ) ℕ cfg13 c)
    (hA : dat.A 3 = V c (Pipeline.arrRef spec13 3)) (hafter : ∀ t, dat.after 3 t = iblk13 V c 3 t)
    (t : Fin cfg13.N) (d) : dat.before 3 t d = iblk13 V c 3 t := by
  refine (dat.before_in_eq_fetched 3 rfl (fun _ => rfl) (fun _ _ _ => rfl) (fun t => ?_) t d).trans ?_
  · rw [hafter]; unfold Dat.blockOf iblk13; rw [hA]; try rfl
  · unfold Dat.fetched Dat.blockOf iblk13; rw [hA]; try rfl

/-! ## The rectangles the body reads and writes: each staging buffer whole -/

abbrev r13_a : Rect S5000x64 := Rect.unit (s := S5000x64) ![0, 0] S5000x64.size inb_S5000x64_S5000x64_0_0
abbrev r13_w : Rect S64x64 := Rect.unit (s := S64x64) ![0, 0] S64x64.size inb_S64x64_S64x64_0_0
abbrev r13_b : Rect S1x64 := Rect.unit (s := S1x64) ![0, 0] S1x64.size inb_S1x64_S1x64_0_0

/-! ## What the body leaves in the output window's buffer -/

/-- The output staging buffer after the body, from the four input blocks: its one store, of the payload
    `x0 · x1 + (the row x2 on every row) + x3` of the four whole-buffer loads, written as a one-piece list. -/
def out13_4 (x0 : Vec F S5000x64 .f32) (x1 : Vec F S64x64 .f32) (x2 : Vec F S1x64 .f32) (x3 : Vec F S5000x64 .f32) :
    Vec F S5000x64 .f32 :=
  View.canon [⟨r13_a, k13_pay1 (View.ld x0 r13_a) (View.ld x1 r13_w) (View.ld x2 r13_b) (View.ld x3 r13_a)⟩]

/-- The one store is of the whole buffer, so every index of the buffer lies in it. -/
theorem cover13_4 (p : Vec F S5000x64 .f32) (y : S5000x64.Idx) :
    ∃ pc ∈ ([⟨r13_a, p⟩] : List (View.Piece (Elt F) S5000x64 .f32)), y ∈ pc.1.set :=
  View.cover_of_tiled [⟨r13_a, p⟩] S5000x64.size (by rfl) y

/-! ## The body's triple -/

set_option maxHeartbeats 1000000 in
/-- The body at any grid coordinate `i`, on whole staging memrefs: the four inputs' read `x0 … x3`, the output's
    holds anything. It runs to the continuation with the inputs' as they were and the output's at
    `out13_4 x0 x1 x2 x3`. (The body also loads the output buffer before storing to it; the loaded value is not used.) -/
theorem sound_kernel13 (c : Dev nD) (E : Set ℕ) (i : grid13.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out13_4 x0 x1 x2 x3)) -∗ K ⟨⟩))
      ⊢ wp frame (wpE (defs₀ (F := F)) Variants.none c none) E
          (cc13__linear_extra_kernel i arg1 harg1 arg2 harg2 arg3 harg3 arg4 harg4 arg5 harg5) K := by
  simp only [cc13__linear_extra_kernel_eq_skeleton]; unfold cc13__linear_extra_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover13_4 _)

/-! ## The proof data of the pipeline -/

/-- Region 13's proof data on core `c`: the five arrays as the region finds them; after the body at point `t` the four
    inputs' buffers at their blocks and the output's at `out13_4` of those blocks; the invariant the scoped rest and the
    generator register, untouched (`Pipeline.ΦA`); full shares; nothing owed. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 (iblk13 V c 0 t) (iblk13 V c 1 t) (iblk13 V c 2 t) (iblk13 V c 3 t)
  Φ _ := Pipeline.ΦA spec13 c
  q _ := fullShare
  owed _ := 0

/-- The proof data's arrays are the entry contents (the structure projected; `V` is never unfolded). -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) :
    (dat13 V c).after 4 t = out13_4 (iblk13 V c 0 t) (iblk13 V c 1 t) (iblk13 V c 2 t) (iblk13 V c 3 t) := by
  dsimp only [dat13]

/-- What the body is handed in each input's buffer: its block. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d

/-! ## The body obligation -/

/-- What the body is called with at point `t`: the invariant, the core's dues, and each window's current staging
    buffer at what the pipeline put there. -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- What it returns: the same, each buffer at the proof data's `after`. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t))

/-- The body at a point: the inputs' buffers hold their blocks, so the body's triple applies at those blocks; the
    invariant and the dues are not read. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3]
  rw [show (dat13 V c).Φ t.succ = (dat13 V c).Φ t.castSucc from rfl,
    show (dat13 V c).owesAt () t.succ = (dat13 V c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  iapply (sound_kernel13 c Set.univ _ _ _ _ _ _ _ _ _ _ _
    (iblk13 V c 0 t) (iblk13 V c 1 t) (iblk13 V c 2 t) (iblk13 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the proof data, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Frame13

end
-- ==== Proof.KIRegion13.lean ====
/- Region 13 of the idealized kernel program (custom_call 13) as a segment of @main: entered from every unscoped
   buffer at the contents before it, left with the result array `main_v238` at what the pipeline's write-backs leave
   and every other buffer as entered. Stated over an arbitrary family of proof data whose member at pipeline 13 is
   this region's (`hp13`), and over any `outs` that names the result's final contents (`houts13`). -/
import proofs.«146189_j40922448396571_2_alg».proof.Proof.KIRegions
import proofs.«146189_j40922448396571_2_alg».proof.Proof.KIRegion13Body

set_option maxRecDepth 16384

noncomputable section

namespace Cert.KernelIdeal.Frame13

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry. -/
abbrev VV39 : (c : Dev nD) → (b : Ref sig .tc) → Buf (Elt F) ((c : Thread nD τ).loc b) := fun c b => V39 m outs c b
/-- Exit: the same with `main_v238` at `outs 40 main_v238`. -/
abbrev VV40 : (c : Dev nD) → (b : Ref sig .tc) → Buf (Elt F) ((c : Thread nD τ).loc b) := fun c b => V40 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 13 -/

variable (pdats : (p : Fin 17) → (c : Dev nD) → Dat τ (Elt F) Unit ℕ (UR sig nD τ) ℕ (cfgs p) c)

section Pinned
variable (hp13 : ∀ c, pdats 13 c = dat13 (VV39 m outs) c)
include hp13

theorem pd13_q (c : Dev nD) (w : Fin cfg13.W) : (pdats 13 c).q w = fullShare := by rw [hp13 c]; rfl
theorem pd13_owed (c : Dev nD) (t) : (pdats 13 c).owed t = 0 := by rw [hp13 c]; rfl
theorem pd13_A (c : Dev nD) (w : Fin cfg13.W) : (pdats 13 c).A w = VV39 m outs c (Pipeline.arrRef spec13 w) := by
  rw [hp13 c]; exact A_eq13 (VV39 m outs) c w
theorem pd13_Φ (c : Dev nD) (t) : (pdats 13 c).Φ t = Pipeline.ΦA spec13 c := by rw [hp13 c]; rfl
theorem pd13_recorded (c : Dev nD) (t) : (pdats 13 c).recorded t = Set.univ := by rw [hp13 c]; rfl

end Pinned

/-! ## The exit contents, at the region's arrays and off them -/

section Exit
variable (hp13 : ∀ c, pdats 13 c = dat13 (VV39 m outs) c)
  (houts13 : ∀ c, outs 40 main_v238 c = (dat13 (VV39 m outs) c).arrAt 4 cfg13.N)

include hp13 in
/-- Input window 0's array ends as entered: no window writes it, and it is not the result's reference. -/
theorem hF13_0 (c : Dev nD) : (pdats 13 c).arrAt 0 cfg13.N = VV40 m outs c (Pipeline.arrRef spec13 0) := by
  rw [hp13 c]
  refine ((dat13 (VV39 m outs) c).arrAt_in 0 rfl _).trans ((A_eq13 (VV39 m outs) c 0).trans ?_)
  exact (Function.update_of_ne (StableHlo.devRef_ne_of_ne (by decide)) _ _).symm

include hp13 in
/-- Input window 1's array ends as entered: no window writes it, and it is not the result's reference. -/
theorem hF13_1 (c : Dev nD) : (pdats 13 c).arrAt 1 cfg13.N = VV40 m outs c (Pipeline.arrRef spec13 1) := by
  rw [hp13 c]
  refine ((dat13 (VV39 m outs) c).arrAt_in 1 rfl _).trans ((A_eq13 (VV39 m outs) c 1).trans ?_)
  exact (Function.update_of_ne (StableHlo.devRef_ne_of_ne (by decide)) _ _).symm

include hp13 in
/-- Input window 2's array ends as entered: no window writes it, and it is not the result's reference. -/
theorem hF13_2 (c : Dev nD) : (pdats 13 c).arrAt 2 cfg13.N = VV40 m outs c (Pipeline.arrRef spec13 2) := by
  rw [hp13 c]
  refine ((dat13 (VV39 m outs) c).arrAt_in 2 rfl _).trans ((A_eq13 (VV39 m outs) c 2).trans ?_)
  exact (Function.update_of_ne (StableHlo.devRef_ne_of_ne (by decide)) _ _).symm

include hp13 in
/-- Input window 3's array ends as entered: no window writes it, and it is not the result's reference. -/
theorem hF13_3 (c : Dev nD) : (pdats 13 c).arrAt 3 cfg13.N = VV40 m outs c (Pipeline.arrRef spec13 3) := by
  rw [hp13 c]
  refine ((dat13 (VV39 m outs) c).arrAt_in 3 rfl _).trans ((A_eq13 (VV39 m outs) c 3).trans ?_)
  exact (Function.update_of_ne (StableHlo.devRef_ne_of_ne (by decide)) _ _).symm

include hp13 houts13 in
/-- The result's array ends at what the write-backs leave, which is what `outs` names. -/
theorem hF13_4 (c : Dev nD) : (pdats 13 c).arrAt 4 cfg13.N = VV40 m outs c (Pipeline.arrRef spec13 4) := by
  rw [hp13 c, ← houts13 c]
  exact (Function.update_self (Proc.devRef (τ := τ) .tc main_v238) (outs 40 main_v238 c) (V39 m outs c)).symm

include hp13 houts13 in
theorem hF13 (c : Dev nD) : ∀ w : Fin cfg13.W, (pdats 13 c).arrAt w cfg13.N = VV40 m outs c (Pipeline.arrRef spec13 w)
  | ⟨0, _⟩ => hF13_0 m outs pdats hp13 c
  | ⟨1, _⟩ => hF13_1 m outs pdats hp13 c
  | ⟨2, _⟩ => hF13_2 m outs pdats hp13 c
  | ⟨3, _⟩ => hF13_3 m outs pdats hp13 c
  | ⟨4, _⟩ => hF13_4 m outs pdats hp13 houts13 c

/-- Off the region's arrays the exit contents are the entry contents: only `main_v238` is updated, and it is
    window 4's array. -/
theorem hrest13 (c : Dev nD) : ∀ b, b ∉ Finset.univ.image (Pipeline.arrRef spec13) → VV40 m outs c b = VV39 m outs c b :=
  fun b hb => Function.update_of_ne
    (fun e => hb (Finset.mem_image.mpr ⟨4, Finset.mem_univ _, (Proc.devRef_injective _ e).symm⟩)) _ _

end Exit

/-! ## The region as a segment -/

section Record
variable (hp13 : ∀ c, pdats 13 c = dat13 (VV39 m outs) c)
  (houts13 : ∀ c, outs 40 main_v238 c = (dat13 (VV39 m outs) c).arrAt 4 cfg13.N)

-- a library lemma stated over the pinned configuration `pin pcs a p` is applied to the printed one: unification has
-- to unfold plain definitions in a metavariable's type
set_option backward.isDefEq.respectTransparency.types false in
/-- Region 13 over the thread state "every unscoped buffer at the boundary's contents, beside `R`". Entry: the
    arrays are split out of the unscoped buffers at the entry contents; the generator register goes into the
    invariant; nothing is owed; the kernel has no semaphore of its own. Exit: the arrays are put back at the exit
    contents (`hF13`, `hrest13`) and the register comes back. -/
def reg13 : RegionSeg (pcfgs (F := F)) adm pdats () defs₀ 𝒱₀ L lv 13 where
  win := launch13.win.to₀
  block_pos := launch13.block_pos
  stage_whole := launch13.stage_whole
  K := PEmpty
  osem k := k.elim
  ho := Pipeline.OwnSemFacts.none _
  hbody c := by rw [hp13 c]; exact (body_obligation13 (VV39 m outs) c).loose
  hwaits := Pipeline.hwaits_of_owed_zero _ _ _ _ L lv 13 fun c t => pd13_owed m outs pdats hp13 c t
  pre c := iprop(StableHlo.held (c : Thread nD τ) (Pipeline.ucRefs τ sig) (V39 m outs c) ∗ R c)
  post c := iprop(StableHlo.held (c : Thread nD τ) (Pipeline.ucRefs τ sig) (V40 m outs c) ∗ R c)
  X c := iprop(∃ r, prngReg c r)
  Y c := iprop(∃ r, prngReg c r)
  Z c := Pipeline.unscopedRest (Ix := Unit) (Name := ℕ) (U := UR sig nD τ) (Lvl := ℕ) spec13 c (VV39 m outs c)
  hentry c := by
    rw [Pipeline.ownSems0_none]
    have hsplit := Pipeline.arrays_of_unscopedBufs (p := 13) (pcfgs (F := F)) adm pdats launch13.win launch13.arr_whole c
      ((pdats 13 c).share_full fun w => pd13_q m outs pdats hp13 c w) (VV39 m outs c) fun w => pd13_A m outs pdats hp13 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd13_owed m outs pdats hp13 c]
      icases HO with ⟨%W, HO⟩; iexists W; isplitr; · ipureintro; exact fun x _ => Or.inl (by rw [pd13_recorded m outs pdats hp13 c]; exact Set.mem_univ x)
      iexact HO
    isplitl [Hp]; · iexact Hp
    iexact Hrest
  hin c := by
    rw [pd13_Φ m outs pdats hp13 c 0]; unfold Pipeline.ΦA
    iintro ⟨Hp, -, Hr⟩
    isplitl [Hr]; · iexact Hr
    iexact Hp
  hout c := by
    rw [Pipeline.ownSems0_none, pd13_Φ m outs pdats hp13 c (Fin.last _)]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c pdats ((pdats 13 c).share_full fun w => pd13_q m outs pdats hp13 c w)
      (VV39 m outs c) (VV40 m outs c) ((pdats 13 c).arrAt · cfg13.N) (hF13 m outs pdats hp13 houts13 c) (hrest13 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd13_owed m outs pdats hp13 c]
    icases HO with ⟨%W, -, HO⟩; iexists W; iexact HO

/-- The record is entered from the conditional frame's thread state before the region (with the rest state `R`), -/
theorem hpre13 (c : Dev nD) :
    iprop(StableHlo.held (c : Thread nD τ) (Pipeline.ucRefs τ sig) (V39 m outs c) ∗ R (F := F) c)
      ⊢ (reg13 m outs pdats hp13 houts13).pre c := .rfl

/-- and left at the one after it. -/
theorem hpost13 (c : Dev nD) :
    (reg13 m outs pdats hp13 houts13).post c
      ⊢ iprop(StableHlo.held (c : Thread nD τ) (Pipeline.ucRefs τ sig) (V40 m outs c) ∗ R (F := F) c) := .rfl

end Record

end Cert.KernelIdeal.Frame13

end
-- ==== Proof.KIRegion14Body.lean ====
/- Region 14 of the idealized kernel program (custom_call 14, the batch-norm affine map followed by the maximum with zero, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame14

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 14 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk14 (c : Dev nD) (w : Fin cfg14.W) (t : Fin cfg14.N) :
    ((cfg14.win w).xblock (cfg14.grid.coords t)).Idx → Elt F (cfg14.win w).elt :=
  ((cfg14.win w).blk t).view.read (Elt F) (V c (Pipeline.arrRef spec14 w))

/-- The row-block operand (window 0): for any proof data whose array for it is the entry contents and whose body
    leaves the block where it is, the staging buffer handed to the body at `t` holds the block at `t` — fetched at
    `t`, or still there from an earlier point because the block index has not moved since. -/
theorem before14_0_of {c : Dev nD} (dat : Dat τ (Elt F) Unit ℕ (UR sig nD τ) ℕ cfg14 c)
    (hA : dat.A 0 = V c (Pipeline.arrRef spec14 0)) (hafter : ∀ t, dat.after 0 t = iblk14 V c 0 t)
    (t : Fin cfg14.N) (d) : dat.before 0 t d = iblk14 V c 0 t := by
  refine (dat.before_in_eq_fetched 0 rfl (fun _ => rfl) (fun _ _ _ => rfl) (fun t => ?_) t d).trans ?_
  · rw [hafter]; unfold Dat.blockOf iblk14; rw [hA]; try rfl
  · unfold Dat.fetched Dat.blockOf iblk14; rw [hA]; try rfl

/-- The mean row (window 1; one block, fetched at the first point only, its index constant): the same. -/
theorem before14_1_of {c : Dev nD} (dat : Dat τ (Elt F) Unit ℕ (UR sig nD τ) ℕ cfg14 c)
    (hA : dat.A 1 = V c (Pipeline.arrRef spec14 1)) (hafter : ∀ t, dat.after 1 t = iblk14 V c 1 t)
    (t : Fin cfg14.N) (d) : dat.before 1 t d = iblk14 V c 1 t := by
  refine (dat.before_in_eq_fetched 1 rfl (fun _ => rfl) (fun _ _ _ => rfl) (fun t => ?_) t d).trans ?_
  · rw [hafter]; unfold Dat.blockOf iblk14; rw [hA]; try rfl
  · unfold Dat.fetched Dat.blockOf iblk14; rw [hA]; try rfl

/-- The variance row (window 2; one block, fetched at the first point only, its index constant): the same. -/
theorem before14_2_of {c : Dev nD} (dat : Dat τ (Elt F) Unit ℕ (UR sig nD τ) ℕ cfg14 c)
    (hA : dat.A 2 = V c (Pipeline.arrRef spec14 2)) (hafter : ∀ t, dat.after 2 t = iblk14 V c 2 t)
    (t : Fin cfg14.N) (d) : dat.before 2 t d = iblk14 V c 2 t := by
  refine (dat.before_in_eq_fetched 2 rfl (fun _ => rfl) (fun _ _ _ => rfl) (fun t => ?_) t d).trans ?_
  · rw [hafter]; unfold Dat.blockOf iblk14; rw [hA]; try rfl
  · unfold Dat.fetched Dat.blockOf iblk14; rw [hA]; try rfl

/-- The scale row (window 3; one block, fetched at the first point only, its index constant): the same. -/
theorem before14_3_of {c : Dev nD} (dat : Dat τ (Elt F) Unit ℕ (UR sig nD τ) ℕ cfg14 c)
    (hA : dat.A 3 = V c (Pipeline.arrRef spec14 3)) (hafter : ∀ t, dat.after 3 t = iblk14 V c 3 t)
    (t : Fin cfg14.N) (d) : dat.before 3 t d = iblk14 V c 3 t := by
  refine (dat.before_in_eq_fetched 3 rfl (fun _ => rfl) (fun _ _ _ => rfl) (fun t => ?_) t d).trans ?_
  · rw [hafter]; unfold Dat.blockOf iblk14; rw [hA]; try rfl
  · unfold Dat.fetched Dat.blockOf iblk14; rw [hA]; try rfl

/-- The shift row (window 4; one block, fetched at the first point only, its index constant): the same. -/
theorem before14_4_of {c : Dev nD} (dat : Dat τ (Elt F) Unit ℕ (UR sig nD τ) ℕ cfg14 c)
    (hA : dat.A 4 = V c (Pipeline.arrRef spec14 4)) (hafter : ∀ t, dat.after 4 t = iblk14 V c 4 t)
    (t : Fin cfg14.N) (d) : dat.before 4 t d = iblk14 V c 4 t := by
  refine (dat.before_in_eq_fetched 4 rfl (fun _ => rfl) (fun _ _ _ => rfl) (fun t => ?_) t d).trans ?_
  · rw [hafter]; unfold Dat.blockOf iblk14; rw [hA]; try rfl
  · unfold Dat.fetched Dat.blockOf iblk14; rw [hA]; try rfl

/-! ## The rectangles the body reads and writes: each staging buffer whole -/

abbrev r14_big : Rect S5000x128 := Rect.unit (s := S5000x128) ![0, 0] S5000x128.size inb_S5000x128_S5000x128_0_0
abbrev r14_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `max ((x − mean) · rsqrt (var + ε) · gamma + beta) 0` of the five whole-buffer loads, written as a one-piece list.
    (The body loads the variance before the mean, which is the order of the payload's arguments.) -/
def out14_5 (x0 : Vec F S5000x128 .f32) (x1 x2 x3 x4 : Vec F S1x128 .f32) : Vec F S5000x128 .f32 :=
  View.canon [⟨r14_big, k14_pay1 (View.ld x0 r14_big) (View.ld x2 r14_row) (View.ld x1 r14_row)
    (View.ld x3 r14_row) (View.ld x4 r14_row)⟩]

/-- The one store is of the whole buffer, so every index of the buffer lies in it. -/
theorem cover14_5 (p : Vec F S5000x128 .f32) (y : S5000x128.Idx) :
    ∃ pc ∈ ([⟨r14_big, p⟩] : List (View.Piece (Elt F) S5000x128 .f32)), y ∈ pc.1.set :=
  View.cover_of_tiled [⟨r14_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out14_5 x0 x1 x2 x3 x4`. (The body also loads the output buffer before storing to it; the loaded value is
    not used.) -/
theorem sound_kernel14 (c : Dev nD) (E : Set ℕ) (i : grid14.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out14_5 x0 x1 x2 x3 x4)) -∗ K ⟨⟩))
      ⊢ wp frame (wpE (defs₀ (F := F)) Variants.none c none) E
          (cc14__bn_relu_kernel i arg1 harg1 arg2 harg2 arg3 harg3 arg4 harg4 arg5 harg5 arg6 harg6) K := by
  simp only [cc14__bn_relu_kernel_eq_skeleton]; unfold cc14__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-! ## The proof data of the pipeline -/

/-- Region 14's proof data on core `c`: the six arrays as the region finds them; after the body at point `t` the
    five inputs' buffers at their blocks and the output's at `out14_5` of those blocks; the invariant the scoped rest
    and the generator register, untouched (`Pipeline.ΦA`); full shares; nothing owed. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

/-- The proof data's arrays are the entry contents (the structure projected; `V` is never unfolded). -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) :
    (dat14 V c).after 5 t
      = out14_5 (iblk14 V c 0 t) (iblk14 V c 1 t) (iblk14 V c 2 t) (iblk14 V c 3 t) (iblk14 V c 4 t) := by
  dsimp only [dat14]

/-- What the body is handed in each input's buffer: its block. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-! ## The body obligation -/

/-- What the body is called with at point `t`: the invariant, the core's dues, and each window's current staging
    buffer at what the pipeline put there. -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- What it returns: the same, each buffer at the proof data's `after`. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at a point: the inputs' buffers hold their blocks, so the body's triple applies at those blocks; the
    invariant and the dues are not read. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ _ _ _ _ _ _ _ _ _ _ _ _ _
    (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Frame14

end
-- ==== Proof.KIRegion14.lean ====
/- Region 14 of the idealized kernel program (custom_call 14) as a segment of @main: entered from every unscoped
   buffer at the contents before it, left with the result array `main_v261` at what the pipeline's write-backs leave
   and every other buffer as entered. Stated over an arbitrary family of proof data whose member at pipeline 14 is
   this region's (`hp14`), and over any `outs` that names the result's final contents (`houts14`). -/
import proofs.«146189_j40922448396571_2_alg».proof.Proof.KIRegions
import proofs.«146189_j40922448396571_2_alg».proof.Proof.KIRegion14Body

set_option maxRecDepth 16384

noncomputable section

namespace Cert.KernelIdeal.Frame14

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry. -/
abbrev VV43 : (c : Dev nD) → (b : Ref sig .tc) → Buf (Elt F) ((c : Thread nD τ).loc b) := fun c b => V43 m outs c b
/-- Exit: the same with `main_v261` at `outs 44 main_v261`. -/
abbrev VV44 : (c : Dev nD) → (b : Ref sig .tc) → Buf (Elt F) ((c : Thread nD τ).loc b) := fun c b => V44 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 14 -/

variable (pdats : (p : Fin 17) → (c : Dev nD) → Dat τ (Elt F) Unit ℕ (UR sig nD τ) ℕ (cfgs p) c)

section Pinned
variable (hp14 : ∀ c, pdats 14 c = dat14 (VV43 m outs) c)
include hp14

theorem pd14_q (c : Dev nD) (w : Fin cfg14.W) : (pdats 14 c).q w = fullShare := by rw [hp14 c]; rfl
theorem pd14_owed (c : Dev nD) (t) : (pdats 14 c).owed t = 0 := by rw [hp14 c]; rfl
theorem pd14_A (c : Dev nD) (w : Fin cfg14.W) : (pdats 14 c).A w = VV43 m outs c (Pipeline.arrRef spec14 w) := by
  rw [hp14 c]; exact A_eq14 (VV43 m outs) c w
theorem pd14_Φ (c : Dev nD) (t) : (pdats 14 c).Φ t = Pipeline.ΦA spec14 c := by rw [hp14 c]; rfl
theorem pd14_recorded (c : Dev nD) (t) : (pdats 14 c).recorded t = Set.univ := by rw [hp14 c]; rfl

end Pinned

/-! ## The exit contents, at the region's arrays and off them -/

section Exit
variable (hp14 : ∀ c, pdats 14 c = dat14 (VV43 m outs) c)
  (houts14 : ∀ c, outs 44 main_v261 c = (dat14 (VV43 m outs) c).arrAt 5 cfg14.N)

include hp14 in
/-- Input window 0's array ends as entered: no window writes it, and it is not the result's reference. -/
theorem hF14_0 (c : Dev nD) : (pdats 14 c).arrAt 0 cfg14.N = VV44 m outs c (Pipeline.arrRef spec14 0) := by
  rw [hp14 c]
  refine ((dat14 (VV43 m outs) c).arrAt_in 0 rfl _).trans ((A_eq14 (VV43 m outs) c 0).trans ?_)
  exact (Function.update_of_ne (StableHlo.devRef_ne_of_ne (by decide)) _ _).symm

include hp14 in
/-- Input window 1's array ends as entered: no window writes it, and it is not the result's reference. -/
theorem hF14_1 (c : Dev nD) : (pdats 14 c).arrAt 1 cfg14.N = VV44 m outs c (Pipeline.arrRef spec14 1) := by
  rw [hp14 c]
  refine ((dat14 (VV43 m outs) c).arrAt_in 1 rfl _).trans ((A_eq14 (VV43 m outs) c 1).trans ?_)
  exact (Function.update_of_ne (StableHlo.devRef_ne_of_ne (by decide)) _ _).symm

include hp14 in
/-- Input window 2's array ends as entered: no window writes it, and it is not the result's reference. -/
theorem hF14_2 (c : Dev nD) : (pdats 14 c).arrAt 2 cfg14.N = VV44 m outs c (Pipeline.arrRef spec14 2) := by
  rw [hp14 c]
  refine ((dat14 (VV43 m outs) c).arrAt_in 2 rfl _).trans ((A_eq14 (VV43 m outs) c 2).trans ?_)
  exact (Function.update_of_ne (StableHlo.devRef_ne_of_ne (by decide)) _ _).symm

include hp14 in
/-- Input window 3's array ends as entered: no window writes it, and it is not the result's reference. -/
theorem hF14_3 (c : Dev nD) : (pdats 14 c).arrAt 3 cfg14.N = VV44 m outs c (Pipeline.arrRef spec14 3) := by
  rw [hp14 c]
  refine ((dat14 (VV43 m outs) c).arrAt_in 3 rfl _).trans ((A_eq14 (VV43 m outs) c 3).trans ?_)
  exact (Function.update_of_ne (StableHlo.devRef_ne_of_ne (by decide)) _ _).symm

include hp14 in
/-- Input window 4's array ends as entered: no window writes it, and it is not the result's reference. -/
theorem hF14_4 (c : Dev nD) : (pdats 14 c).arrAt 4 cfg14.N = VV44 m outs c (Pipeline.arrRef spec14 4) := by
  rw [hp14 c]
  refine ((dat14 (VV43 m outs) c).arrAt_in 4 rfl _).trans ((A_eq14 (VV43 m outs) c 4).trans ?_)
  exact (Function.update_of_ne (StableHlo.devRef_ne_of_ne (by decide)) _ _).symm

include hp14 houts14 in
/-- The result's array ends at what the write-backs leave, which is what `outs` names. -/
theorem hF14_5 (c : Dev nD) : (pdats 14 c).arrAt 5 cfg14.N = VV44 m outs c (Pipeline.arrRef spec14 5) := by
  rw [hp14 c, ← houts14 c]
  exact (Function.update_self (Proc.devRef (τ := τ) .tc main_v261) (outs 44 main_v261 c) (V43 m outs c)).symm

include hp14 houts14 in
theorem hF14 (c : Dev nD) : ∀ w : Fin cfg14.W, (pdats 14 c).arrAt w cfg14.N = VV44 m outs c (Pipeline.arrRef spec14 w)
  | ⟨0, _⟩ => hF14_0 m outs pdats hp14 c
  | ⟨1, _⟩ => hF14_1 m outs pdats hp14 c
  | ⟨2, _⟩ => hF14_2 m outs pdats hp14 c
  | ⟨3, _⟩ => hF14_3 m outs pdats hp14 c
  | ⟨4, _⟩ => hF14_4 m outs pdats hp14 c
  | ⟨5, _⟩ => hF14_5 m outs pdats hp14 houts14 c

/-- Off the region's arrays the exit contents are the entry contents: only `main_v261` is updated, and it is
    window 5's array. -/
theorem hrest14 (c : Dev nD) : ∀ b, b ∉ Finset.univ.image (Pipeline.arrRef spec14) → VV44 m outs c b = VV43 m outs c b :=
  fun b hb => Function.update_of_ne
    (fun e => hb (Finset.mem_image.mpr ⟨5, Finset.mem_univ _, (Proc.devRef_injective _ e).symm⟩)) _ _

end Exit

/-! ## The region as a segment -/

section Record
variable (hp14 : ∀ c, pdats 14 c = dat14 (VV43 m outs) c)
  (houts14 : ∀ c, outs 44 main_v261 c = (dat14 (VV43 m outs) c).arrAt 5 cfg14.N)

-- a library lemma stated over the pinned configuration `pin pcs a p` is applied to the printed one: unification has
-- to unfold plain definitions in a metavariable's type
set_option backward.isDefEq.respectTransparency.types false in
/-- Region 14 over the thread state "every unscoped buffer at the boundary's contents, beside `R`". Entry: the
    arrays are split out of the unscoped buffers at the entry contents; the generator register goes into the
    invariant; nothing is owed; the kernel has no semaphore of its own. Exit: the arrays are put back at the exit
    contents (`hF14`, `hrest14`) and the register comes back. -/
def reg14 : RegionSeg (pcfgs (F := F)) adm pdats () defs₀ 𝒱₀ L lv 14 where
  win := launch14.win.to₀
  block_pos := launch14.block_pos
  stage_whole := launch14.stage_whole
  K := PEmpty
  osem k := k.elim
  ho := Pipeline.OwnSemFacts.none _
  hbody c := by rw [hp14 c]; exact (body_obligation14 (VV43 m outs) c).loose
  hwaits := Pipeline.hwaits_of_owed_zero _ _ _ _ L lv 14 fun c t => pd14_owed m outs pdats hp14 c t
  pre c := iprop(StableHlo.held (c : Thread nD τ) (Pipeline.ucRefs τ sig) (V43 m outs c) ∗ R c)
  post c := iprop(StableHlo.held (c : Thread nD τ) (Pipeline.ucRefs τ sig) (V44 m outs c) ∗ R c)
  X c := iprop(∃ r, prngReg c r)
  Y c := iprop(∃ r, prngReg c r)
  Z c := Pipeline.unscopedRest (Ix := Unit) (Name := ℕ) (U := UR sig nD τ) (Lvl := ℕ) spec14 c (VV43 m outs c)
  hentry c := by
    rw [Pipeline.ownSems0_none]
    have hsplit := Pipeline.arrays_of_unscopedBufs (p := 14) (pcfgs (F := F)) adm pdats launch14.win launch14.arr_whole c
      ((pdats 14 c).share_full fun w => pd14_q m outs pdats hp14 c w) (VV43 m outs c) fun w => pd14_A m outs pdats hp14 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd14_owed m outs pdats hp14 c]
      icases HO with ⟨%W, HO⟩; iexists W; isplitr; · ipureintro; exact fun x _ => Or.inl (by rw [pd14_recorded m outs pdats hp14 c]; exact Set.mem_univ x)
      iexact HO
    isplitl [Hp]; · iexact Hp
    iexact Hrest
  hin c := by
    rw [pd14_Φ m outs pdats hp14 c 0]; unfold Pipeline.ΦA
    iintro ⟨Hp, -, Hr⟩
    isplitl [Hr]; · iexact Hr
    iexact Hp
  hout c := by
    rw [Pipeline.ownSems0_none, pd14_Φ m outs pdats hp14 c (Fin.last _)]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c pdats ((pdats 14 c).share_full fun w => pd14_q m outs pdats hp14 c w)
      (VV43 m outs c) (VV44 m outs c) ((pdats 14 c).arrAt · cfg14.N) (hF14 m outs pdats hp14 houts14 c) (hrest14 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd14_owed m outs pdats hp14 c]
    icases HO with ⟨%W, -, HO⟩; iexists W; iexact HO

/-- The record is entered from the conditional frame's thread state before the region (with the rest state `R`), -/
theorem hpre14 (c : Dev nD) :
    iprop(StableHlo.held (c : Thread nD τ) (Pipeline.ucRefs τ sig) (V43 m outs c) ∗ R (F := F) c)
      ⊢ (reg14 m outs pdats hp14 houts14).pre c := .rfl

/-- and left at the one after it. -/
theorem hpost14 (c : Dev nD) :
    (reg14 m outs pdats hp14 houts14).post c
      ⊢ iprop(StableHlo.held (c : Thread nD τ) (Pipeline.ucRefs τ sig) (V44 m outs c) ∗ R (F := F) c) := .rfl

end Record

end Cert.KernelIdeal.Frame14

end
-- ==== Proof.KIRegion15Body.lean ====
/- Region 15 of the idealized kernel program (custom_call 15: a 64 → 64 matmul plus a bias row): the class-A half
   of its frame, stated at a parameter `V` — the TensorCore's buffer contents when the region is entered. For each of
   the four windows its block at a grid point, the contents the body leaves in the output window's buffer as a
   function of the three input blocks, the body's triple, the pipeline's proof data and the library's body
   obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame15

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 15 is entered
variable (V : (c : Dev nD) → (b : Ref sig .tc) → Buf (Elt F) ((c : Thread nD τ).loc b))

/-! ## The blocks of the four windows -/

/-- The block of window `w` at grid point `t`: the window's rectangle at `t` read off the window's array as the
    region finds it. Window 0 is rows `5000 t … 5000 t + 4999` of the [100000,64] left operand, window 1 the whole
    [64,64] weight, window 2 the whole [1,64] bias row, window 3 the same rows of the [100000,64] result. -/
def iblk15 (c : Dev nD) (w : Fin cfg15.W) (t : Fin cfg15.N) :
    ((cfg15.win w).xblock (cfg15.grid.coords t)).Idx → Elt F (cfg15.win w).elt :=
  ((cfg15.win w).blk t).view.read (Elt F) (V c (Pipeline.arrRef spec15 w))

/-- An input window whose body leaves its block where it is: whatever proof data has the entry contents as the
    window's array and the block as what the body leaves, the staging buffer the body is handed at `t` holds the block
    at `t` — it was fetched at `t`, or the window's index has not moved since it was. Window 0, the row block of
    the left operand (fetched at every point). -/
theorem before15_0_of {c : Dev nD} (dat : Dat τ (Elt F) Unit ℕ (UR sig nD τ) ℕ cfg15 c)
    (hA : dat.A 0 = V c (Pipeline.arrRef spec15 0)) (hafter : ∀ t, dat.after 0 t = iblk15 V c 0 t)
    (t : Fin cfg15.N) (d) : dat.before 0 t d = iblk15 V c 0 t := by
  refine (dat.before_in_eq_fetched 0 rfl (fun _ => rfl) (fun _ _ _ => rfl) (fun t => ?_) t d).trans ?_
  · rw [hafter]; unfold Dat.blockOf iblk15; rw [hA]; try rfl
  · unfold Dat.fetched Dat.blockOf iblk15; rw [hA]; try rfl

/-- Window 1, the weight (fetched once; its index is constant): the same statement. -/
theorem before15_1_of {c : Dev nD} (dat : Dat τ (Elt F) Unit ℕ (UR sig nD τ) ℕ cfg15 c)
    (hA : dat.A 1 = V c (Pipeline.arrRef spec15 1)) (hafter : ∀ t, dat.after 1 t = iblk15 V c 1 t)
    (t : Fin cfg15.N) (d) : dat.before 1 t d = iblk15 V c 1 t := by
  refine (dat.before_in_eq_fetched 1 rfl (fun _ => rfl) (fun _ _ _ => rfl) (fun t => ?_) t d).trans ?_
  · rw [hafter]; unfold Dat.blockOf iblk15; rw [hA]; try rfl
  · unfold Dat.fetched Dat.blockOf iblk15; rw [hA]; try rfl

/-- Window 2, the bias row (fetched once; its index is constant): the same statement. -/
theorem before15_2_of {c : Dev nD} (dat : Dat τ (Elt F) Unit ℕ (UR sig nD τ) ℕ cfg15 c)
    (hA : dat.A 2 = V c (Pipeline.arrRef spec15 2)) (hafter : ∀ t, dat.after 2 t = iblk15 V c 2 t)
    (t : Fin cfg15.N) (d) : dat.before 2 t d = iblk15 V c 2 t := by
  refine (dat.before_in_eq_fetched 2 rfl (fun _ => rfl) (fun _ _ _ => rfl) (fun t => ?_) t d).trans ?_
  · rw [hafter]; unfold Dat.blockOf iblk15; rw [hA]; try rfl
  · unfold Dat.fetched Dat.blockOf iblk15; rw [hA]; try rfl

/-! ## The rectangles the body reads and writes: each staging buffer whole -/

abbrev r15_a : Rect S5000x64 := Rect.unit (s := S5000x64) ![0, 0] S5000x64.size inb_S5000x64_S5000x64_0_0
abbrev r15_w : Rect S64x64 := Rect.unit (s := S64x64) ![0, 0] S64x64.size inb_S64x64_S64x64_0_0
abbrev r15_b : Rect S1x64 := Rect.unit (s := S1x64) ![0, 0] S1x64.size inb_S1x64_S1x64_0_0

/-! ## What the body leaves in the output window's buffer -/

/-- The output staging buffer after the body, from the three input blocks: its one store, of the payload
    `x0 · x1 + (the row x2 on every row)` of the three whole-buffer loads, written as a one-piece list. -/
def out15_3 (x0 : Vec F S5000x64 .f32) (x1 : Vec F S64x64 .f32) (x2 : Vec F S1x64 .f32) : Vec F S5000x64 .f32 :=
  View.canon [⟨r15_a, k15_pay1 (View.ld x0 r15_a) (View.ld x1 r15_w) (View.ld x2 r15_b)⟩]

/-- The one store is of the whole buffer, so every index of the buffer lies in it. -/
theorem cover15_3 (p : Vec F S5000x64 .f32) (y : S5000x64.Idx) :
    ∃ pc ∈ ([⟨r15_a, p⟩] : List (View.Piece (Elt F) S5000x64 .f32)), y ∈ pc.1.set :=
  View.cover_of_tiled [⟨r15_a, p⟩] S5000x64.size (by rfl) y

/-! ## The body's triple -/

set_option maxHeartbeats 1000000 in
/-- The body at any grid coordinate `i`, on whole staging memrefs: the three inputs' read `x0 x1 x2`, the output's
    holds anything. It runs to the continuation with the inputs' as they were and the output's at
    `out15_3 x0 x1 x2`. (The body also loads the output buffer before storing to it; the loaded value is not used.) -/
theorem sound_kernel15 (c : Dev nD) (E : Set ℕ) (i : grid15.Coords)
    (arg1 : Memref sig .tc .vmem S5000x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S5000x64 .f32) (harg4 : arg4.IsWhole)
    (x0 : Vec F S5000x64 .f32) (x1 : Vec F S64x64 .f32) (x2 : Vec F S1x64 .f32)
    (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out15_3 x0 x1 x2)) -∗ K ⟨⟩))
      ⊢ wp frame (wpE (defs₀ (F := F)) Variants.none c none) E
          (cc15__linear_kernel i arg1 harg1 arg2 harg2 arg3 harg3 arg4 harg4) K := by
  simp only [cc15__linear_kernel_eq_skeleton]; unfold cc15__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

/-! ## The proof data of the pipeline -/

/-- Region 15's proof data on core `c`: the four arrays as the region finds them; after the body at point `t` the three
    inputs' buffers at their blocks and the output's at `out15_3` of those blocks; the invariant the scoped rest and the
    generator register, untouched (`Pipeline.ΦA`); full shares; nothing owed. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

/-- The proof data's arrays are the entry contents (the structure projected; `V` is never unfolded). -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) :
    (dat15 V c).after 3 t = out15_3 (iblk15 V c 0 t) (iblk15 V c 1 t) (iblk15 V c 2 t) := by
  dsimp only [dat15]

/-- What the body is handed in each input's buffer: its block. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation -/

/-- What the body is called with at point `t`: the invariant, the core's dues, and each window's current staging
    buffer at what the pipeline put there. -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

/-- What it returns: the same, each buffer at the proof data's `after`. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

/-- The body at a point: the inputs' buffers hold their blocks, so the body's triple applies at those blocks; the
    invariant and the dues are not read. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ _ _ _ _ _ _ _ _ _
    (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the proof data, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Frame15

end
-- ==== Proof.KIRegion15.lean ====
/- Region 15 of the idealized kernel program (custom_call 15) as a segment of @main: entered from every unscoped
   buffer at the contents before it, left with the result array `main_v264` at what the pipeline's write-backs leave
   and every other buffer as entered. Stated over an arbitrary family of proof data whose member at pipeline 15 is
   this region's (`hp15`), and over any `outs` that names the result's final contents (`houts15`). -/
import proofs.«146189_j40922448396571_2_alg».proof.Proof.KIRegions
import proofs.«146189_j40922448396571_2_alg».proof.Proof.KIRegion15Body

set_option maxRecDepth 16384

noncomputable section

namespace Cert.KernelIdeal.Frame15

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry. -/
abbrev VV45 : (c : Dev nD) → (b : Ref sig .tc) → Buf (Elt F) ((c : Thread nD τ).loc b) := fun c b => V45 m outs c b
/-- Exit: the same with `main_v264` at `outs 46 main_v264`. -/
abbrev VV46 : (c : Dev nD) → (b : Ref sig .tc) → Buf (Elt F) ((c : Thread nD τ).loc b) := fun c b => V46 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 15 -/

variable (pdats : (p : Fin 17) → (c : Dev nD) → Dat τ (Elt F) Unit ℕ (UR sig nD τ) ℕ (cfgs p) c)

section Pinned
variable (hp15 : ∀ c, pdats 15 c = dat15 (VV45 m outs) c)
include hp15

theorem pd15_q (c : Dev nD) (w : Fin cfg15.W) : (pdats 15 c).q w = fullShare := by rw [hp15 c]; rfl
theorem pd15_owed (c : Dev nD) (t) : (pdats 15 c).owed t = 0 := by rw [hp15 c]; rfl
theorem pd15_A (c : Dev nD) (w : Fin cfg15.W) : (pdats 15 c).A w = VV45 m outs c (Pipeline.arrRef spec15 w) := by
  rw [hp15 c]; exact A_eq15 (VV45 m outs) c w
theorem pd15_Φ (c : Dev nD) (t) : (pdats 15 c).Φ t = Pipeline.ΦA spec15 c := by rw [hp15 c]; rfl
theorem pd15_recorded (c : Dev nD) (t) : (pdats 15 c).recorded t = Set.univ := by rw [hp15 c]; rfl

end Pinned

/-! ## The exit contents, at the region's arrays and off them -/

section Exit
variable (hp15 : ∀ c, pdats 15 c = dat15 (VV45 m outs) c)
  (houts15 : ∀ c, outs 46 main_v264 c = (dat15 (VV45 m outs) c).arrAt 3 cfg15.N)

include hp15 in
/-- Input window 0's array ends as entered: no window writes it, and it is not the result's reference. -/
theorem hF15_0 (c : Dev nD) : (pdats 15 c).arrAt 0 cfg15.N = VV46 m outs c (Pipeline.arrRef spec15 0) := by
  rw [hp15 c]
  refine ((dat15 (VV45 m outs) c).arrAt_in 0 rfl _).trans ((A_eq15 (VV45 m outs) c 0).trans ?_)
  exact (Function.update_of_ne (StableHlo.devRef_ne_of_ne (by decide)) _ _).symm

include hp15 in
/-- Input window 1's array ends as entered: no window writes it, and it is not the result's reference. -/
theorem hF15_1 (c : Dev nD) : (pdats 15 c).arrAt 1 cfg15.N = VV46 m outs c (Pipeline.arrRef spec15 1) := by
  rw [hp15 c]
  refine ((dat15 (VV45 m outs) c).arrAt_in 1 rfl _).trans ((A_eq15 (VV45 m outs) c 1).trans ?_)
  exact (Function.update_of_ne (StableHlo.devRef_ne_of_ne (by decide)) _ _).symm

include hp15 in
/-- Input window 2's array ends as entered: no window writes it, and it is not the result's reference. -/
theorem hF15_2 (c : Dev nD) : (pdats 15 c).arrAt 2 cfg15.N = VV46 m outs c (Pipeline.arrRef spec15 2) := by
  rw [hp15 c]
  refine ((dat15 (VV45 m outs) c).arrAt_in 2 rfl _).trans ((A_eq15 (VV45 m outs) c 2).trans ?_)
  exact (Function.update_of_ne (StableHlo.devRef_ne_of_ne (by decide)) _ _).symm

include hp15 houts15 in
/-- The result's array ends at what the write-backs leave, which is what `outs` names. -/
theorem hF15_3 (c : Dev nD) : (pdats 15 c).arrAt 3 cfg15.N = VV46 m outs c (Pipeline.arrRef spec15 3) := by
  rw [hp15 c, ← houts15 c]
  exact (Function.update_self (Proc.devRef (τ := τ) .tc main_v264) (outs 46 main_v264 c) (V45 m outs c)).symm

include hp15 houts15 in
theorem hF15 (c : Dev nD) : ∀ w : Fin cfg15.W, (pdats 15 c).arrAt w cfg15.N = VV46 m outs c (Pipeline.arrRef spec15 w)
  | ⟨0, _⟩ => hF15_0 m outs pdats hp15 c
  | ⟨1, _⟩ => hF15_1 m outs pdats hp15 c
  | ⟨2, _⟩ => hF15_2 m outs pdats hp15 c
  | ⟨3, _⟩ => hF15_3 m outs pdats hp15 houts15 c

/-- Off the region's arrays the exit contents are the entry contents: only `main_v264` is updated, and it is
    window 3's array. -/
theorem hrest15 (c : Dev nD) : ∀ b, b ∉ Finset.univ.image (Pipeline.arrRef spec15) → VV46 m outs c b = VV45 m outs c b :=
  fun b hb => Function.update_of_ne
    (fun e => hb (Finset.mem_image.mpr ⟨3, Finset.mem_univ _, (Proc.devRef_injective _ e).symm⟩)) _ _

end Exit

/-! ## The region as a segment -/

section Record
variable (hp15 : ∀ c, pdats 15 c = dat15 (VV45 m outs) c)
  (houts15 : ∀ c, outs 46 main_v264 c = (dat15 (VV45 m outs) c).arrAt 3 cfg15.N)

-- a library lemma stated over the pinned configuration `pin pcs a p` is applied to the printed one: unification has
-- to unfold plain definitions in a metavariable's type
set_option backward.isDefEq.respectTransparency.types false in
/-- Region 15 over the thread state "every unscoped buffer at the boundary's contents, beside `R`". Entry: the
    arrays are split out of the unscoped buffers at the entry contents; the generator register goes into the
    invariant; nothing is owed; the kernel has no semaphore of its own. Exit: the arrays are put back at the exit
    contents (`hF15`, `hrest15`) and the register comes back. -/
def reg15 : RegionSeg (pcfgs (F := F)) adm pdats () defs₀ 𝒱₀ L lv 15 where
  win := launch15.win.to₀
  block_pos := launch15.block_pos
  stage_whole := launch15.stage_whole
  K := PEmpty
  osem k := k.elim
  ho := Pipeline.OwnSemFacts.none _
  hbody c := by rw [hp15 c]; exact (body_obligation15 (VV45 m outs) c).loose
  hwaits := Pipeline.hwaits_of_owed_zero _ _ _ _ L lv 15 fun c t => pd15_owed m outs pdats hp15 c t
  pre c := iprop(StableHlo.held (c : Thread nD τ) (Pipeline.ucRefs τ sig) (V45 m outs c) ∗ R c)
  post c := iprop(StableHlo.held (c : Thread nD τ) (Pipeline.ucRefs τ sig) (V46 m outs c) ∗ R c)
  X c := iprop(∃ r, prngReg c r)
  Y c := iprop(∃ r, prngReg c r)
  Z c := Pipeline.unscopedRest (Ix := Unit) (Name := ℕ) (U := UR sig nD τ) (Lvl := ℕ) spec15 c (VV45 m outs c)
  hentry c := by
    rw [Pipeline.ownSems0_none]
    have hsplit := Pipeline.arrays_of_unscopedBufs (p := 15) (pcfgs (F := F)) adm pdats launch15.win launch15.arr_whole c
      ((pdats 15 c).share_full fun w => pd15_q m outs pdats hp15 c w) (VV45 m outs c) fun w => pd15_A m outs pdats hp15 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd15_owed m outs pdats hp15 c]
      icases HO with ⟨%W, HO⟩; iexists W; isplitr; · ipureintro; exact fun x _ => Or.inl (by rw [pd15_recorded m outs pdats hp15 c]; exact Set.mem_univ x)
      iexact HO
    isplitl [Hp]; · iexact Hp
    iexact Hrest
  hin c := by
    rw [pd15_Φ m outs pdats hp15 c 0]; unfold Pipeline.ΦA
    iintro ⟨Hp, -, Hr⟩
    isplitl [Hr]; · iexact Hr
    iexact Hp
  hout c := by
    rw [Pipeline.ownSems0_none, pd15_Φ m outs pdats hp15 c (Fin.last _)]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c pdats ((pdats 15 c).share_full fun w => pd15_q m outs pdats hp15 c w)
      (VV45 m outs c) (VV46 m outs c) ((pdats 15 c).arrAt · cfg15.N) (hF15 m outs pdats hp15 houts15 c) (hrest15 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd15_owed m outs pdats hp15 c]
    icases HO with ⟨%W, -, HO⟩; iexists W; iexact HO

/-- The record is entered from the conditional frame's thread state before the region (with the rest state `R`), -/
theorem hpre15 (c : Dev nD) :
    iprop(StableHlo.held (c : Thread nD τ) (Pipeline.ucRefs τ sig) (V45 m outs c) ∗ R (F := F) c)
      ⊢ (reg15 m outs pdats hp15 houts15).pre c := .rfl

/-- and left at the one after it. -/
theorem hpost15 (c : Dev nD) :
    (reg15 m outs pdats hp15 houts15).post c
      ⊢ iprop(StableHlo.held (c : Thread nD τ) (Pipeline.ucRefs τ sig) (V46 m outs c) ∗ R (F := F) c) := .rfl

end Record

end Cert.KernelIdeal.Frame15

end
-- ==== Proof.KIRegion16Body.lean ====
/- Region 16 of the idealized kernel program (custom_call 16, the batch-norm affine map, pointwise on a
   block of 5000 rows): the class-A half of its frame, stated at a parameter `V` — the TensorCore's buffer contents
   when the region is entered. For each of the six windows its block at a grid point; the contents the body leaves in
   the output window's buffer as a function of the five input blocks; the body's triple; the pipeline's proof data;
   and the library's body obligation. Generic in the float instance `F`. -/
import proofs.«146189_j40922448396571_2_alg».proof.Proof.Gen.KernelIdeal.Launch
import proofs.«146189_j40922448396571_2_alg».proof.Proof.Gen.KernelIdeal.Skeleton
import proofs.«146189_j40922448396571_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame16

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when region 16 is entered
variable (V : (c : Dev nD) → (b : Ref sig .tc) → Buf (Elt F) ((c : Thread nD τ).loc b))

/-! ## The blocks of the six windows -/

/-- The block of window `w` at grid point `t`: the window's rectangle at `t` read off the window's array as the
    region finds it. Window 0 is rows `5000 t … 5000 t + 4999` of the [50000,128] operand; windows 1 to 4 are the
    whole [1,128] rows of mean, variance, scale and shift; window 5 is the same 5000 rows of the [50000,128] result. -/
def iblk16 (c : Dev nD) (w : Fin cfg16.W) (t : Fin cfg16.N) :
    ((cfg16.win w).xblock (cfg16.grid.coords t)).Idx → Elt F (cfg16.win w).elt :=
  ((cfg16.win w).blk t).view.read (Elt F) (V c (Pipeline.arrRef spec16 w))

/-- The row-block operand (window 0): for any proof data whose array for it is the entry contents and whose body
    leaves the block where it is, the staging buffer handed to the body at `t` holds the block at `t` — fetched at
    `t`, or still there from an earlier point because the block index has not moved since. -/
theorem before16_0_of {c : Dev nD} (dat : Dat τ (Elt F) Unit ℕ (UR sig nD τ) ℕ cfg16 c)
    (hA : dat.A 0 = V c (Pipeline.arrRef spec16 0)) (hafter : ∀ t, dat.after 0 t = iblk16 V c 0 t)
    (t : Fin cfg16.N) (d) : dat.before 0 t d = iblk16 V c 0 t := by
  refine (dat.before_in_eq_fetched 0 rfl (fun _ => rfl) (fun _ _ _ => rfl) (fun t => ?_) t d).trans ?_
  · rw [hafter]; unfold Dat.blockOf iblk16; rw [hA]; try rfl
  · unfold Dat.fetched Dat.blockOf iblk16; rw [hA]; try rfl

/-- The mean row (window 1; one block, fetched at the first point only, its index constant): the same. -/
theorem before16_1_of {c : Dev nD} (dat : Dat τ (Elt F) Unit ℕ (UR sig nD τ) ℕ cfg16 c)
    (hA : dat.A 1 = V c (Pipeline.arrRef spec16 1)) (hafter : ∀ t, dat.after 1 t = iblk16 V c 1 t)
    (t : Fin cfg16.N) (d) : dat.before 1 t d = iblk16 V c 1 t := by
  refine (dat.before_in_eq_fetched 1 rfl (fun _ => rfl) (fun _ _ _ => rfl) (fun t => ?_) t d).trans ?_
  · rw [hafter]; unfold Dat.blockOf iblk16; rw [hA]; try rfl
  · unfold Dat.fetched Dat.blockOf iblk16; rw [hA]; try rfl

/-- The variance row (window 2; one block, fetched at the first point only, its index constant): the same. -/
theorem before16_2_of {c : Dev nD} (dat : Dat τ (Elt F) Unit ℕ (UR sig nD τ) ℕ cfg16 c)
    (hA : dat.A 2 = V c (Pipeline.arrRef spec16 2)) (hafter : ∀ t, dat.after 2 t = iblk16 V c 2 t)
    (t : Fin cfg16.N) (d) : dat.before 2 t d = iblk16 V c 2 t := by
  refine (dat.before_in_eq_fetched 2 rfl (fun _ => rfl) (fun _ _ _ => rfl) (fun t => ?_) t d).trans ?_
  · rw [hafter]; unfold Dat.blockOf iblk16; rw [hA]; try rfl
  · unfold Dat.fetched Dat.blockOf iblk16; rw [hA]; try rfl

/-- The scale row (window 3; one block, fetched at the first point only, its index constant): the same. -/
theorem before16_3_of {c : Dev nD} (dat : Dat τ (Elt F) Unit ℕ (UR sig nD τ) ℕ cfg16 c)
    (hA : dat.A 3 = V c (Pipeline.arrRef spec16 3)) (hafter : ∀ t, dat.after 3 t = iblk16 V c 3 t)
    (t : Fin cfg16.N) (d) : dat.before 3 t d = iblk16 V c 3 t := by
  refine (dat.before_in_eq_fetched 3 rfl (fun _ => rfl) (fun _ _ _ => rfl) (fun t => ?_) t d).trans ?_
  · rw [hafter]; unfold Dat.blockOf iblk16; rw [hA]; try rfl
  · unfold Dat.fetched Dat.blockOf iblk16; rw [hA]; try rfl

/-- The shift row (window 4; one block, fetched at the first point only, its index constant): the same. -/
theorem before16_4_of {c : Dev nD} (dat : Dat τ (Elt F) Unit ℕ (UR sig nD τ) ℕ cfg16 c)
    (hA : dat.A 4 = V c (Pipeline.arrRef spec16 4)) (hafter : ∀ t, dat.after 4 t = iblk16 V c 4 t)
    (t : Fin cfg16.N) (d) : dat.before 4 t d = iblk16 V c 4 t := by
  refine (dat.before_in_eq_fetched 4 rfl (fun _ => rfl) (fun _ _ _ => rfl) (fun t => ?_) t d).trans ?_
  · rw [hafter]; unfold Dat.blockOf iblk16; rw [hA]; try rfl
  · unfold Dat.fetched Dat.blockOf iblk16; rw [hA]; try rfl

/-! ## The rectangles the body reads and writes: each staging buffer whole -/

abbrev r16_big : Rect S5000x128 := Rect.unit (s := S5000x128) ![0, 0] S5000x128.size inb_S5000x128_S5000x128_0_0
abbrev r16_row : Rect S1x128 := Rect.unit (s := S1x128) ![0, 0] S1x128.size inb_S1x128_S1x128_0_0

/-! ## What the body leaves in the output window's buffer -/

/-- The output staging buffer after the body, from the five input blocks (`x0` the rows, `x1` the mean, `x2` the
    variance, `x3` the scale, `x4` the shift): its one store, of the payload
    `(x − mean) · rsqrt (var + ε) · gamma + beta` of the five whole-buffer loads, written as a one-piece list.
    (The body loads the variance before the mean, which is the order of the payload's arguments.) -/
def out16_5 (x0 : Vec F S5000x128 .f32) (x1 x2 x3 x4 : Vec F S1x128 .f32) : Vec F S5000x128 .f32 :=
  View.canon [⟨r16_big, k16_pay1 (View.ld x0 r16_big) (View.ld x2 r16_row) (View.ld x1 r16_row)
    (View.ld x3 r16_row) (View.ld x4 r16_row)⟩]

/-- The one store is of the whole buffer, so every index of the buffer lies in it. -/
theorem cover16_5 (p : Vec F S5000x128 .f32) (y : S5000x128.Idx) :
    ∃ pc ∈ ([⟨r16_big, p⟩] : List (View.Piece (Elt F) S5000x128 .f32)), y ∈ pc.1.set :=
  View.cover_of_tiled [⟨r16_big, p⟩] S5000x128.size (by rfl) y

/-! ## The body's triple -/

set_option maxHeartbeats 1000000 in
/-- The body at any grid coordinate `i`, on whole staging memrefs: the five inputs' read `x0 … x4`, the output's
    holds anything. It runs to the continuation with the inputs' as they were and the output's at
    `out16_5 x0 x1 x2 x3 x4`. (The body also loads the output buffer before storing to it; the loaded value is
    not used.) -/
theorem sound_kernel16 (c : Dev nD) (E : Set ℕ) (i : grid16.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out16_5 x0 x1 x2 x3 x4)) -∗ K ⟨⟩))
      ⊢ wp frame (wpE (defs₀ (F := F)) Variants.none c none) E
          (cc16__bn_kernel i arg1 harg1 arg2 harg2 arg3 harg3 arg4 harg4 arg5 harg5 arg6 harg6) K := by
  simp only [cc16__bn_kernel_eq_skeleton]; unfold cc16__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover16_5 _)

/-! ## The proof data of the pipeline -/

/-- Region 16's proof data on core `c`: the six arrays as the region finds them; after the body at point `t` the
    five inputs' buffers at their blocks and the output's at `out16_5` of those blocks; the invariant the scoped rest
    and the generator register, untouched (`Pipeline.ΦA`); full shares; nothing owed. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => out16_5 (iblk16 V c 0 t) (iblk16 V c 1 t) (iblk16 V c 2 t) (iblk16 V c 3 t) (iblk16 V c 4 t)
  Φ _ := Pipeline.ΦA spec16 c
  q _ := fullShare
  owed _ := 0

/-- The proof data's arrays are the entry contents (the structure projected; `V` is never unfolded). -/
theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) :
    (dat16 V c).after 5 t
      = out16_5 (iblk16 V c 0 t) (iblk16 V c 1 t) (iblk16 V c 2 t) (iblk16 V c 3 t) (iblk16 V c 4 t) := by
  dsimp only [dat16]

/-- What the body is handed in each input's buffer: its block. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d

/-! ## The body obligation -/

/-- What the body is called with at point `t`: the invariant, the core's dues, and each window's current staging
    buffer at what the pipeline put there. -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d)))

/-- What it returns: the same, each buffer at the proof data's `after`. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t))

/-- The body at a point: the inputs' buffers hold their blocks, so the body's triple applies at those blocks; the
    invariant and the dues are not read. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4]
  rw [show (dat16 V c).Φ t.succ = (dat16 V c).Φ t.castSucc from rfl,
    show (dat16 V c).owesAt () t.succ = (dat16 V c).owesAt () t.castSucc from rfl,
    after16_0, after16_1, after16_2, after16_3, after16_4, after16_5]
  iintro ⟨HΦ, Ho, ⟨%d0, H0⟩, ⟨%d1, H1⟩, ⟨%d2, H2⟩, ⟨%d3, H3⟩, ⟨%d4, H4⟩, ⟨%d5, H5⟩⟩
  iapply (sound_kernel16 c Set.univ _ _ _ _ _ _ _ _ _ _ _ _ _
    (iblk16 V c 0 t) (iblk16 V c 1 t) (iblk16 V c 2 t) (iblk16 V c 3 t) (iblk16 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the proof data, at every point. -/
theorem body_obligation16 (c : Dev nD) : BodyObligation (dat16 (F := F) V c) (defs₀ (F := F)) Variants.none () Set.univ := fun t => by
  rw [bigSep_W16, bigSep_W16]
  exact sound_body16 V c t

end Cert.KernelIdeal.Frame16

end
-- ==== Proof.KIRegion16.lean ====
/- Region 16 of the idealized kernel program (custom_call 16) as a segment of @main: entered from every unscoped
   buffer at the contents before it, left with the result array `main_v283` at what the pipeline's write-backs leave
   and every other buffer as entered. Stated over an arbitrary family of proof data whose member at pipeline 16 is
   this region's (`hp16`), and over any `outs` that names the result's final contents (`houts16`). -/
import proofs.«146189_j40922448396571_2_alg».proof.Proof.KIRegions
import proofs.«146189_j40922448396571_2_alg».proof.Proof.KIRegion16Body

set_option maxRecDepth 16384

noncomputable section

namespace Cert.KernelIdeal.Frame16

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents at the region's two boundaries, read at the TensorCore's references -/

/-- Entry. -/
abbrev VV49 : (c : Dev nD) → (b : Ref sig .tc) → Buf (Elt F) ((c : Thread nD τ).loc b) := fun c b => V49 m outs c b
/-- Exit: the same with `main_v283` at `outs 50 main_v283`. -/
abbrev VV50 : (c : Dev nD) → (b : Ref sig .tc) → Buf (Elt F) ((c : Thread nD τ).loc b) := fun c b => V50 m outs c b

/-! ## The choices shared by all regions -/

abbrev 𝒱₀ : Variants := Variants.none
abbrev L : GSem nD τ sig → Finset Unit := fun _ => ∅
abbrev lv : GSem nD τ sig → Unit → ℕ := fun _ _ => 0
/-- What rides beside the buffers: the generator register at some state, and the core's dues at nothing. -/
abbrev R (c : Dev nD) : sProp 𝕄 :=
  iprop((∃ r, prngReg c r) ∗ ∃ W, owes (c : Thread nD τ) (0 : CellTallies nD τ sig Unit) W)

/-! ## The family of proof data, pinned at pipeline 16 -/

variable (pdats : (p : Fin 17) → (c : Dev nD) → Dat τ (Elt F) Unit ℕ (UR sig nD τ) ℕ (cfgs p) c)

section Pinned
variable (hp16 : ∀ c, pdats 16 c = dat16 (VV49 m outs) c)
include hp16

theorem pd16_q (c : Dev nD) (w : Fin cfg16.W) : (pdats 16 c).q w = fullShare := by rw [hp16 c]; rfl
theorem pd16_owed (c : Dev nD) (t) : (pdats 16 c).owed t = 0 := by rw [hp16 c]; rfl
theorem pd16_A (c : Dev nD) (w : Fin cfg16.W) : (pdats 16 c).A w = VV49 m outs c (Pipeline.arrRef spec16 w) := by
  rw [hp16 c]; exact A_eq16 (VV49 m outs) c w
theorem pd16_Φ (c : Dev nD) (t) : (pdats 16 c).Φ t = Pipeline.ΦA spec16 c := by rw [hp16 c]; rfl
theorem pd16_recorded (c : Dev nD) (t) : (pdats 16 c).recorded t = Set.univ := by rw [hp16 c]; rfl

end Pinned

/-! ## The exit contents, at the region's arrays and off them -/

section Exit
variable (hp16 : ∀ c, pdats 16 c = dat16 (VV49 m outs) c)
  (houts16 : ∀ c, outs 50 main_v283 c = (dat16 (VV49 m outs) c).arrAt 5 cfg16.N)

include hp16 in
/-- Input window 0's array ends as entered: no window writes it, and it is not the result's reference. -/
theorem hF16_0 (c : Dev nD) : (pdats 16 c).arrAt 0 cfg16.N = VV50 m outs c (Pipeline.arrRef spec16 0) := by
  rw [hp16 c]
  refine ((dat16 (VV49 m outs) c).arrAt_in 0 rfl _).trans ((A_eq16 (VV49 m outs) c 0).trans ?_)
  exact (Function.update_of_ne (StableHlo.devRef_ne_of_ne (by decide)) _ _).symm

include hp16 in
/-- Input window 1's array ends as entered: no window writes it, and it is not the result's reference. -/
theorem hF16_1 (c : Dev nD) : (pdats 16 c).arrAt 1 cfg16.N = VV50 m outs c (Pipeline.arrRef spec16 1) := by
  rw [hp16 c]
  refine ((dat16 (VV49 m outs) c).arrAt_in 1 rfl _).trans ((A_eq16 (VV49 m outs) c 1).trans ?_)
  exact (Function.update_of_ne (StableHlo.devRef_ne_of_ne (by decide)) _ _).symm

include hp16 in
/-- Input window 2's array ends as entered: no window writes it, and it is not the result's reference. -/
theorem hF16_2 (c : Dev nD) : (pdats 16 c).arrAt 2 cfg16.N = VV50 m outs c (Pipeline.arrRef spec16 2) := by
  rw [hp16 c]
  refine ((dat16 (VV49 m outs) c).arrAt_in 2 rfl _).trans ((A_eq16 (VV49 m outs) c 2).trans ?_)
  exact (Function.update_of_ne (StableHlo.devRef_ne_of_ne (by decide)) _ _).symm

include hp16 in
/-- Input window 3's array ends as entered: no window writes it, and it is not the result's reference. -/
theorem hF16_3 (c : Dev nD) : (pdats 16 c).arrAt 3 cfg16.N = VV50 m outs c (Pipeline.arrRef spec16 3) := by
  rw [hp16 c]
  refine ((dat16 (VV49 m outs) c).arrAt_in 3 rfl _).trans ((A_eq16 (VV49 m outs) c 3).trans ?_)
  exact (Function.update_of_ne (StableHlo.devRef_ne_of_ne (by decide)) _ _).symm

include hp16 in
/-- Input window 4's array ends as entered: no window writes it, and it is not the result's reference. -/
theorem hF16_4 (c : Dev nD) : (pdats 16 c).arrAt 4 cfg16.N = VV50 m outs c (Pipeline.arrRef spec16 4) := by
  rw [hp16 c]
  refine ((dat16 (VV49 m outs) c).arrAt_in 4 rfl _).trans ((A_eq16 (VV49 m outs) c 4).trans ?_)
  exact (Function.update_of_ne (StableHlo.devRef_ne_of_ne (by decide)) _ _).symm

include hp16 houts16 in
/-- The result's array ends at what the write-backs leave, which is what `outs` names. -/
theorem hF16_5 (c : Dev nD) : (pdats 16 c).arrAt 5 cfg16.N = VV50 m outs c (Pipeline.arrRef spec16 5) := by
  rw [hp16 c, ← houts16 c]
  exact (Function.update_self (Proc.devRef (τ := τ) .tc main_v283) (outs 50 main_v283 c) (V49 m outs c)).symm

include hp16 houts16 in
theorem hF16 (c : Dev nD) : ∀ w : Fin cfg16.W, (pdats 16 c).arrAt w cfg16.N = VV50 m outs c (Pipeline.arrRef spec16 w)
  | ⟨0, _⟩ => hF16_0 m outs pdats hp16 c
  | ⟨1, _⟩ => hF16_1 m outs pdats hp16 c
  | ⟨2, _⟩ => hF16_2 m outs pdats hp16 c
  | ⟨3, _⟩ => hF16_3 m outs pdats hp16 c
  | ⟨4, _⟩ => hF16_4 m outs pdats hp16 c
  | ⟨5, _⟩ => hF16_5 m outs pdats hp16 houts16 c

/-- Off the region's arrays the exit contents are the entry contents: only `main_v283` is updated, and it is
    window 5's array. -/
theorem hrest16 (c : Dev nD) : ∀ b, b ∉ Finset.univ.image (Pipeline.arrRef spec16) → VV50 m outs c b = VV49 m outs c b :=
  fun b hb => Function.update_of_ne
    (fun e => hb (Finset.mem_image.mpr ⟨5, Finset.mem_univ _, (Proc.devRef_injective _ e).symm⟩)) _ _

end Exit

/-! ## The region as a segment -/

section Record
variable (hp16 : ∀ c, pdats 16 c = dat16 (VV49 m outs) c)
  (houts16 : ∀ c, outs 50 main_v283 c = (dat16 (VV49 m outs) c).arrAt 5 cfg16.N)

-- a library lemma stated over the pinned configuration `pin pcs a p` is applied to the printed one: unification has
-- to unfold plain definitions in a metavariable's type
set_option backward.isDefEq.respectTransparency.types false in
/-- Region 16 over the thread state "every unscoped buffer at the boundary's contents, beside `R`". Entry: the
    arrays are split out of the unscoped buffers at the entry contents; the generator register goes into the
    invariant; nothing is owed; the kernel has no semaphore of its own. Exit: the arrays are put back at the exit
    contents (`hF16`, `hrest16`) and the register comes back. -/
def reg16 : RegionSeg (pcfgs (F := F)) adm pdats () defs₀ 𝒱₀ L lv 16 where
  win := launch16.win.to₀
  block_pos := launch16.block_pos
  stage_whole := launch16.stage_whole
  K := PEmpty
  osem k := k.elim
  ho := Pipeline.OwnSemFacts.none _
  hbody c := by rw [hp16 c]; exact (body_obligation16 (VV49 m outs) c).loose
  hwaits := Pipeline.hwaits_of_owed_zero _ _ _ _ L lv 16 fun c t => pd16_owed m outs pdats hp16 c t
  pre c := iprop(StableHlo.held (c : Thread nD τ) (Pipeline.ucRefs τ sig) (V49 m outs c) ∗ R c)
  post c := iprop(StableHlo.held (c : Thread nD τ) (Pipeline.ucRefs τ sig) (V50 m outs c) ∗ R c)
  X c := iprop(∃ r, prngReg c r)
  Y c := iprop(∃ r, prngReg c r)
  Z c := Pipeline.unscopedRest (Ix := Unit) (Name := ℕ) (U := UR sig nD τ) (Lvl := ℕ) spec16 c (VV49 m outs c)
  hentry c := by
    rw [Pipeline.ownSems0_none]
    have hsplit := Pipeline.arrays_of_unscopedBufs (p := 16) (pcfgs (F := F)) adm pdats launch16.win launch16.arr_whole c
      ((pdats 16 c).share_full fun w => pd16_q m outs pdats hp16 c w) (VV49 m outs c) fun w => pd16_A m outs pdats hp16 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd16_owed m outs pdats hp16 c]
      icases HO with ⟨%W, HO⟩; iexists W; isplitr; · ipureintro; exact fun x _ => Or.inl (by rw [pd16_recorded m outs pdats hp16 c]; exact Set.mem_univ x)
      iexact HO
    isplitl [Hp]; · iexact Hp
    iexact Hrest
  hin c := by
    rw [pd16_Φ m outs pdats hp16 c 0]; unfold Pipeline.ΦA
    iintro ⟨Hp, -, Hr⟩
    isplitl [Hr]; · iexact Hr
    iexact Hp
  hout c := by
    rw [Pipeline.ownSems0_none, pd16_Φ m outs pdats hp16 c (Fin.last _)]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c pdats ((pdats 16 c).share_full fun w => pd16_q m outs pdats hp16 c w)
      (VV49 m outs c) (VV50 m outs c) ((pdats 16 c).arrAt · cfg16.N) (hF16 m outs pdats hp16 houts16 c) (hrest16 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [pd16_owed m outs pdats hp16 c]
    icases HO with ⟨%W, -, HO⟩; iexists W; iexact HO

/-- The record is entered from the conditional frame's thread state before the region (with the rest state `R`), -/
theorem hpre16 (c : Dev nD) :
    iprop(StableHlo.held (c : Thread nD τ) (Pipeline.ucRefs τ sig) (V49 m outs c) ∗ R (F := F) c)
      ⊢ (reg16 m outs pdats hp16 houts16).pre c := .rfl

/-- and left at the one after it. -/
theorem hpost16 (c : Dev nD) :
    (reg16 m outs pdats hp16 houts16).post c
      ⊢ iprop(StableHlo.held (c : Thread nD τ) (Pipeline.ucRefs τ sig) (V50 m outs c) ∗ R (F := F) c) := .rfl

end Record

end Cert.KernelIdeal.Frame16

end
-- ==== Proof.KIAsm.lean ====
/- The frame of the idealized kernel, assembled. Between two items of @main core c holds every unscoped buffer at W_j c:
  the launch contents, then each host stretch's fold, then, after a region, its result buffer at what the region's
  write-backs leave (the proof data's array after the last grid point). The contents the conditional frame calls outs
  are read off that fold, so its valuations V_j are the W_j (e_j, one step per boundary), every pipeline's proof data
  sits at its region's entry contents (pdats, a literal match), and each region's record is pinned by two equations
  that hold by that construction.
-/
import proofs.«146189_j40922448396571_2_alg».proof.Proof.KIFrameCond
import proofs.«146189_j40922448396571_2_alg».proof.Proof.KIRegion0
import proofs.«146189_j40922448396571_2_alg».proof.Proof.KIRegion1
import proofs.«146189_j40922448396571_2_alg».proof.Proof.KIRegion2
import proofs.«146189_j40922448396571_2_alg».proof.Proof.KIRegion3
import proofs.«146189_j40922448396571_2_alg».proof.Proof.KIRegion4
import proofs.«146189_j40922448396571_2_alg».proof.Proof.KIRegion5
import proofs.«146189_j40922448396571_2_alg».proof.Proof.KIRegion6
import proofs.«146189_j40922448396571_2_alg».proof.Proof.KIRegion7
import proofs.«146189_j40922448396571_2_alg».proof.Proof.KIRegion8
import proofs.«146189_j40922448396571_2_alg».proof.Proof.KIRegion9
import proofs.«146189_j40922448396571_2_alg».proof.Proof.KIRegion10
import proofs.«146189_j40922448396571_2_alg».proof.Proof.KIRegion11
import proofs.«146189_j40922448396571_2_alg».proof.Proof.KIRegion12
import proofs.«146189_j40922448396571_2_alg».proof.Proof.KIRegion13
import proofs.«146189_j40922448396571_2_alg».proof.Proof.KIRegion14
import proofs.«146189_j40922448396571_2_alg».proof.Proof.KIRegion15
import proofs.«146189_j40922448396571_2_alg».proof.Proof.KIRegion16

noncomputable section

namespace Cert.KernelIdeal.Asm

open Cert.KernelIdeal Cert.KernelIdeal.Gen Cert.KernelIdeal.Glob
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] (m : (ℓ : Loc nD τ sig) → Buf (Elt F) ℓ)

/-! ## The fold -/

def W0 (c : Dev nD) : Valuation τ sig (Elt F) := V0 m c
def W1 (c : Dev nD) : Valuation τ sig (Elt F) := StableHlo.after hostOps0 (W0 m c)
/-- What region 0 leaves in its result buffer. -/
def x0 (c : Dev nD) : Buf (Elt F) ((c : Thread nD τ).loc main_v21) := (Frame0.dat0 (fun (c : Dev nD) (b : Ref sig .tc) => W1 m c b) c).arrAt 2 cfg0.N
def W2 (c : Dev nD) : Valuation τ sig (Elt F) := Function.update (W1 m c) main_v21 (x0 m c)
def W3 (c : Dev nD) : Valuation τ sig (Elt F) := StableHlo.after hostOps1 (W2 m c)
/-- What region 1 leaves in its result buffer. -/
def x1 (c : Dev nD) : Buf (Elt F) ((c : Thread nD τ).loc main_v29) := (Frame1.dat1 (fun (c : Dev nD) (b : Ref sig .tc) => W3 m c b) c).arrAt 4 cfg1.N
def W4 (c : Dev nD) : Valuation τ sig (Elt F) := Function.update (W3 m c) main_v29 (x1 m c)
def W5 (c : Dev nD) : Valuation τ sig (Elt F) := StableHlo.after hostOps2 (W4 m c)
def W6 (c : Dev nD) : Valuation τ sig (Elt F) := StableHlo.after hostOps2_1 (W5 m c)
def W7 (c : Dev nD) : Valuation τ sig (Elt F) := StableHlo.after hostOps2_2 (W6 m c)
/-- What region 2 leaves in its result buffer. -/
def x2 (c : Dev nD) : Buf (Elt F) ((c : Thread nD τ).loc main_v48) := (Frame2.dat2 (fun (c : Dev nD) (b : Ref sig .tc) => W7 m c b) c).arrAt 5 cfg2.N
def W8 (c : Dev nD) : Valuation τ sig (Elt F) := Function.update (W7 m c) main_v48 (x2 m c)
def W9 (c : Dev nD) : Valuation τ sig (Elt F) := StableHlo.after hostOps3 (W8 m c)
/-- What region 3 leaves in its result buffer. -/
def x3 (c : Dev nD) : Buf (Elt F) ((c : Thread nD τ).loc main_v66) := (Frame3.dat3 (fun (c : Dev nD) (b : Ref sig .tc) => W9 m c b) c).arrAt 4 cfg3.N
def W10 (c : Dev nD) : Valuation τ sig (Elt F) := Function.update (W9 m c) main_v66 (x3 m c)
def W11 (c : Dev nD) : Valuation τ sig (Elt F) := StableHlo.after hostOps4 (W10 m c)
def W12 (c : Dev nD) : Valuation τ sig (Elt F) := StableHlo.after hostOps4_1 (W11 m c)
def W13 (c : Dev nD) : Valuation τ sig (Elt F) := StableHlo.after hostOps4_2 (W12 m c)
/-- What region 4 leaves in its result buffer. -/
def x4 (c : Dev nD) : Buf (Elt F) ((c : Thread nD τ).loc main_v89) := (Frame4.dat4 (fun (c : Dev nD) (b : Ref sig .tc) => W13 m c b) c).arrAt 5 cfg4.N
def W14 (c : Dev nD) : Valuation τ sig (Elt F) := Function.update (W13 m c) main_v89 (x4 m c)
def W15 (c : Dev nD) : Valuation τ sig (Elt F) := StableHlo.after hostOps5 (W14 m c)
/-- What region 5 leaves in its result buffer. -/
def x5 (c : Dev nD) : Buf (Elt F) ((c : Thread nD τ).loc main_v96) := (Frame5.dat5 (fun (c : Dev nD) (b : Ref sig .tc) => W15 m c b) c).arrAt 4 cfg5.N
def W16 (c : Dev nD) : Valuation τ sig (Elt F) := Function.update (W15 m c) main_v96 (x5 m c)
def W17 (c : Dev nD) : Valuation τ sig (Elt F) := StableHlo.after hostOps6 (W16 m c)
def W18 (c : Dev nD) : Valuation τ sig (Elt F) := StableHlo.after hostOps6_1 (W17 m c)
def W19 (c : Dev nD) : Valuation τ sig (Elt F) := StableHlo.after hostOps6_2 (W18 m c)
/-- What region 6 leaves in its result buffer. -/
def x6 (c : Dev nD) : Buf (Elt F) ((c : Thread nD τ).loc main_v119) := (Frame6.dat6 (fun (c : Dev nD) (b : Ref sig .tc) => W19 m c b) c).arrAt 5 cfg6.N
def W20 (c : Dev nD) : Valuation τ sig (Elt F) := Function.update (W19 m c) main_v119 (x6 m c)
def W21 (c : Dev nD) : Valuation τ sig (Elt F) := StableHlo.after hostOps7 (W20 m c)
/-- What region 7 leaves in its result buffer. -/
def x7 (c : Dev nD) : Buf (Elt F) ((c : Thread nD τ).loc main_v137) := (Frame7.dat7 (fun (c : Dev nD) (b : Ref sig .tc) => W21 m c b) c).arrAt 4 cfg7.N
def W22 (c : Dev nD) : Valuation τ sig (Elt F) := Function.update (W21 m c) main_v137 (x7 m c)
def W23 (c : Dev nD) : Valuation τ sig (Elt F) := StableHlo.after hostOps8 (W22 m c)
def W24 (c : Dev nD) : Valuation τ sig (Elt F) := StableHlo.after hostOps8_1 (W23 m c)
def W25 (c : Dev nD) : Valuation τ sig (Elt F) := StableHlo.after hostOps8_2 (W24 m c)
/-- What region 8 leaves in its result buffer. -/
def x8 (c : Dev nD) : Buf (Elt F) ((c : Thread nD τ).loc main_v160) := (Frame8.dat8 (fun (c : Dev nD) (b : Ref sig .tc) => W25 m c b) c).arrAt 5 cfg8.N
def W26 (c : Dev nD) : Valuation τ sig (Elt F) := Function.update (W25 m c) main_v160 (x8 m c)
def W27 (c : Dev nD) : Valuation τ sig (Elt F) := StableHlo.after hostOps9 (W26 m c)
/-- What region 9 leaves in its result buffer. -/
def x9 (c : Dev nD) : Buf (Elt F) ((c : Thread nD τ).loc main_v167) := (Frame9.dat9 (fun (c : Dev nD) (b : Ref sig .tc) => W27 m c b) c).arrAt 4 cfg9.N
def W28 (c : Dev nD) : Valuation τ sig (Elt F) := Function.update (W27 m c) main_v167 (x9 m c)
def W29 (c : Dev nD) : Valuation τ sig (Elt F) := StableHlo.after hostOps10 (W28 m c)
def W30 (c : Dev nD) : Valuation τ sig (Elt F) := StableHlo.after hostOps10_1 (W29 m c)
def W31 (c : Dev nD) : Valuation τ sig (Elt F) := StableHlo.after hostOps10_2 (W30 m c)
/-- What region 10 leaves in its result buffer. -/
def x10 (c : Dev nD) : Buf (Elt F) ((c : Thread nD τ).loc main_v190) := (Frame10.dat10 (fun (c : Dev nD) (b : Ref sig .tc) => W31 m c b) c).arrAt 5 cfg10.N
def W32 (c : Dev nD) : Valuation τ sig (Elt F) := Function.update (W31 m c) main_v190 (x10 m c)
def W33 (c : Dev nD) : Valuation τ sig (Elt F) := StableHlo.after hostOps11 (W32 m c)
/-- What region 11 leaves in its result buffer. -/
def x11 (c : Dev nD) : Buf (Elt F) ((c : Thread nD τ).loc main_v208) := (Frame11.dat11 (fun (c : Dev nD) (b : Ref sig .tc) => W33 m c b) c).arrAt 4 cfg11.N
def W34 (c : Dev nD) : Valuation τ sig (Elt F) := Function.update (W33 m c) main_v208 (x11 m c)
def W35 (c : Dev nD) : Valuation τ sig (Elt F) := StableHlo.after hostOps12 (W34 m c)
def W36 (c : Dev nD) : Valuation τ sig (Elt F) := StableHlo.after hostOps12_1 (W35 m c)
def W37 (c : Dev nD) : Valuation τ sig (Elt F) := StableHlo.after hostOps12_2 (W36 m c)
/-- What region 12 leaves in its result buffer. -/
def x12 (c : Dev nD) : Buf (Elt F) ((c : Thread nD τ).loc main_v231) := (Frame12.dat12 (fun (c : Dev nD) (b : Ref sig .tc) => W37 m c b) c).arrAt 5 cfg12.N
def W38 (c : Dev nD) : Valuation τ sig (Elt F) := Function.update (W37 m c) main_v231 (x12 m c)
def W39 (c : Dev nD) : Valuation τ sig (Elt F) := StableHlo.after hostOps13 (W38 m c)
/-- What region 13 leaves in its result buffer. -/
def x13 (c : Dev nD) : Buf (Elt F) ((c : Thread nD τ).loc main_v238) := (Frame13.dat13 (fun (c : Dev nD) (b : Ref sig .tc) => W39 m c b) c).arrAt 4 cfg13.N
def W40 (c : Dev nD) : Valuation τ sig (Elt F) := Function.update (W39 m c) main_v238 (x13 m c)
def W41 (c : Dev nD) : Valuation τ sig (Elt F) := StableHlo.after hostOps14 (W40 m c)
def W42 (c : Dev nD) : Valuation τ sig (Elt F) := StableHlo.after hostOps14_1 (W41 m c)
def W43 (c : Dev nD) : Valuation τ sig (Elt F) := StableHlo.after hostOps14_2 (W42 m c)
/-- What region 14 leaves in its result buffer. -/
def x14 (c : Dev nD) : Buf (Elt F) ((c : Thread nD τ).loc main_v261) := (Frame14.dat14 (fun (c : Dev nD) (b : Ref sig .tc) => W43 m c b) c).arrAt 5 cfg14.N
def W44 (c : Dev nD) : Valuation τ sig (Elt F) := Function.update (W43 m c) main_v261 (x14 m c)
def W45 (c : Dev nD) : Valuation τ sig (Elt F) := StableHlo.after hostOps15 (W44 m c)
/-- What region 15 leaves in its result buffer. -/
def x15 (c : Dev nD) : Buf (Elt F) ((c : Thread nD τ).loc main_v264) := (Frame15.dat15 (fun (c : Dev nD) (b : Ref sig .tc) => W45 m c b) c).arrAt 3 cfg15.N
def W46 (c : Dev nD) : Valuation τ sig (Elt F) := Function.update (W45 m c) main_v264 (x15 m c)
def W47 (c : Dev nD) : Valuation τ sig (Elt F) := StableHlo.after hostOps16 (W46 m c)
def W48 (c : Dev nD) : Valuation τ sig (Elt F) := StableHlo.after hostOps16_1 (W47 m c)
def W49 (c : Dev nD) : Valuation τ sig (Elt F) := StableHlo.after hostOps16_2 (W48 m c)
/-- What region 16 leaves in its result buffer. -/
def x16 (c : Dev nD) : Buf (Elt F) ((c : Thread nD τ).loc main_v283) := (Frame16.dat16 (fun (c : Dev nD) (b : Ref sig .tc) => W49 m c b) c).arrAt 5 cfg16.N
def W50 (c : Dev nD) : Valuation τ sig (Elt F) := Function.update (W49 m c) main_v283 (x16 m c)
def W51 (c : Dev nD) : Valuation τ sig (Elt F) := StableHlo.after hostOps17 (W50 m c)

/-- The contents the regions leave, read off the fold. -/
def outs : Outs (F := F) := fun J r c =>
  match J with
  | 2 => W2 m c r
  | 4 => W4 m c r
  | 8 => W8 m c r
  | 10 => W10 m c r
  | 14 => W14 m c r
  | 16 => W16 m c r
  | 20 => W20 m c r
  | 22 => W22 m c r
  | 26 => W26 m c r
  | 28 => W28 m c r
  | 32 => W32 m c r
  | 34 => W34 m c r
  | 38 => W38 m c r
  | 40 => W40 m c r
  | 44 => W44 m c r
  | 46 => W46 m c r
  | 50 => W50 m c r
  | _ => W0 m c r

/-- Every pipeline's proof data, each at its region's entry contents. -/
def pdats : (p : Fin 17) → (c : Dev nD) → Dat τ (Elt F) Unit ℕ (UR sig nD τ) ℕ (cfgs p) c
  | ⟨0, _⟩ => fun c => Frame0.dat0 (fun (c : Dev nD) (b : Ref sig .tc) => W1 m c b) c
  | ⟨1, _⟩ => fun c => Frame1.dat1 (fun (c : Dev nD) (b : Ref sig .tc) => W3 m c b) c
  | ⟨2, _⟩ => fun c => Frame2.dat2 (fun (c : Dev nD) (b : Ref sig .tc) => W7 m c b) c
  | ⟨3, _⟩ => fun c => Frame3.dat3 (fun (c : Dev nD) (b : Ref sig .tc) => W9 m c b) c
  | ⟨4, _⟩ => fun c => Frame4.dat4 (fun (c : Dev nD) (b : Ref sig .tc) => W13 m c b) c
  | ⟨5, _⟩ => fun c => Frame5.dat5 (fun (c : Dev nD) (b : Ref sig .tc) => W15 m c b) c
  | ⟨6, _⟩ => fun c => Frame6.dat6 (fun (c : Dev nD) (b : Ref sig .tc) => W19 m c b) c
  | ⟨7, _⟩ => fun c => Frame7.dat7 (fun (c : Dev nD) (b : Ref sig .tc) => W21 m c b) c
  | ⟨8, _⟩ => fun c => Frame8.dat8 (fun (c : Dev nD) (b : Ref sig .tc) => W25 m c b) c
  | ⟨9, _⟩ => fun c => Frame9.dat9 (fun (c : Dev nD) (b : Ref sig .tc) => W27 m c b) c
  | ⟨10, _⟩ => fun c => Frame10.dat10 (fun (c : Dev nD) (b : Ref sig .tc) => W31 m c b) c
  | ⟨11, _⟩ => fun c => Frame11.dat11 (fun (c : Dev nD) (b : Ref sig .tc) => W33 m c b) c
  | ⟨12, _⟩ => fun c => Frame12.dat12 (fun (c : Dev nD) (b : Ref sig .tc) => W37 m c b) c
  | ⟨13, _⟩ => fun c => Frame13.dat13 (fun (c : Dev nD) (b : Ref sig .tc) => W39 m c b) c
  | ⟨14, _⟩ => fun c => Frame14.dat14 (fun (c : Dev nD) (b : Ref sig .tc) => W43 m c b) c
  | ⟨15, _⟩ => fun c => Frame15.dat15 (fun (c : Dev nD) (b : Ref sig .tc) => W45 m c b) c
  | ⟨16, _⟩ => fun c => Frame16.dat16 (fun (c : Dev nD) (b : Ref sig .tc) => W49 m c b) c
  | ⟨n + 17, h⟩ => absurd h (by omega)

/-! ## The conditional frame's valuations are the fold -/

theorem e1 (c : Dev nD) : V1 m c = W1 m c := rfl
theorem o0 (c : Dev nD) : outs m 2 main_v21 c = x0 m c := by
  show Function.update (W1 m c) _ (x0 m c) _ = x0 m c
  exact Function.update_self _ _ _
theorem e2 (c : Dev nD) : V2 m (outs m) c = W2 m c := by
  show Function.update (V1 m c) _ (outs m 2 main_v21 c) = Function.update (W1 m c) _ (x0 m c)
  rw [o0 m c, e1 m c]
theorem e3 (c : Dev nD) : V3 m (outs m) c = W3 m c := congrArg (StableHlo.after hostOps1) (e2 m c)
theorem o1 (c : Dev nD) : outs m 4 main_v29 c = x1 m c := by
  show Function.update (W3 m c) _ (x1 m c) _ = x1 m c
  exact Function.update_self _ _ _
theorem e4 (c : Dev nD) : V4 m (outs m) c = W4 m c := by
  show Function.update (V3 m (outs m) c) _ (outs m 4 main_v29 c) = Function.update (W3 m c) _ (x1 m c)
  rw [o1 m c, e3 m c]
theorem e5 (c : Dev nD) : V5 m (outs m) c = W5 m c := congrArg (StableHlo.after hostOps2) (e4 m c)
theorem e6 (c : Dev nD) : V6 m (outs m) c = W6 m c := congrArg (StableHlo.after hostOps2_1) (e5 m c)
theorem e7 (c : Dev nD) : V7 m (outs m) c = W7 m c := congrArg (StableHlo.after hostOps2_2) (e6 m c)
theorem o2 (c : Dev nD) : outs m 8 main_v48 c = x2 m c := by
  show Function.update (W7 m c) _ (x2 m c) _ = x2 m c
  exact Function.update_self _ _ _
theorem e8 (c : Dev nD) : V8 m (outs m) c = W8 m c := by
  show Function.update (V7 m (outs m) c) _ (outs m 8 main_v48 c) = Function.update (W7 m c) _ (x2 m c)
  rw [o2 m c, e7 m c]
theorem e9 (c : Dev nD) : V9 m (outs m) c = W9 m c := congrArg (StableHlo.after hostOps3) (e8 m c)
theorem o3 (c : Dev nD) : outs m 10 main_v66 c = x3 m c := by
  show Function.update (W9 m c) _ (x3 m c) _ = x3 m c
  exact Function.update_self _ _ _
theorem e10 (c : Dev nD) : V10 m (outs m) c = W10 m c := by
  show Function.update (V9 m (outs m) c) _ (outs m 10 main_v66 c) = Function.update (W9 m c) _ (x3 m c)
  rw [o3 m c, e9 m c]
theorem e11 (c : Dev nD) : V11 m (outs m) c = W11 m c := congrArg (StableHlo.after hostOps4) (e10 m c)
theorem e12 (c : Dev nD) : V12 m (outs m) c = W12 m c := congrArg (StableHlo.after hostOps4_1) (e11 m c)
theorem e13 (c : Dev nD) : V13 m (outs m) c = W13 m c := congrArg (StableHlo.after hostOps4_2) (e12 m c)
theorem o4 (c : Dev nD) : outs m 14 main_v89 c = x4 m c := by
  show Function.update (W13 m c) _ (x4 m c) _ = x4 m c
  exact Function.update_self _ _ _
theorem e14 (c : Dev nD) : V14 m (outs m) c = W14 m c := by
  show Function.update (V13 m (outs m) c) _ (outs m 14 main_v89 c) = Function.update (W13 m c) _ (x4 m c)
  rw [o4 m c, e13 m c]
theorem e15 (c : Dev nD) : V15 m (outs m) c = W15 m c := congrArg (StableHlo.after hostOps5) (e14 m c)
theorem o5 (c : Dev nD) : outs m 16 main_v96 c = x5 m c := by
  show Function.update (W15 m c) _ (x5 m c) _ = x5 m c
  exact Function.update_self _ _ _
theorem e16 (c : Dev nD) : V16 m (outs m) c = W16 m c := by
  show Function.update (V15 m (outs m) c) _ (outs m 16 main_v96 c) = Function.update (W15 m c) _ (x5 m c)
  rw [o5 m c, e15 m c]
theorem e17 (c : Dev nD) : V17 m (outs m) c = W17 m c := congrArg (StableHlo.after hostOps6) (e16 m c)
theorem e18 (c : Dev nD) : V18 m (outs m) c = W18 m c := congrArg (StableHlo.after hostOps6_1) (e17 m c)
theorem e19 (c : Dev nD) : V19 m (outs m) c = W19 m c := congrArg (StableHlo.after hostOps6_2) (e18 m c)
theorem o6 (c : Dev nD) : outs m 20 main_v119 c = x6 m c := by
  show Function.update (W19 m c) _ (x6 m c) _ = x6 m c
  exact Function.update_self _ _ _
theorem e20 (c : Dev nD) : V20 m (outs m) c = W20 m c := by
  show Function.update (V19 m (outs m) c) _ (outs m 20 main_v119 c) = Function.update (W19 m c) _ (x6 m c)
  rw [o6 m c, e19 m c]
theorem e21 (c : Dev nD) : V21 m (outs m) c = W21 m c := congrArg (StableHlo.after hostOps7) (e20 m c)
theorem o7 (c : Dev nD) : outs m 22 main_v137 c = x7 m c := by
  show Function.update (W21 m c) _ (x7 m c) _ = x7 m c
  exact Function.update_self _ _ _
theorem e22 (c : Dev nD) : V22 m (outs m) c = W22 m c := by
  show Function.update (V21 m (outs m) c) _ (outs m 22 main_v137 c) = Function.update (W21 m c) _ (x7 m c)
  rw [o7 m c, e21 m c]
theorem e23 (c : Dev nD) : V23 m (outs m) c = W23 m c := congrArg (StableHlo.after hostOps8) (e22 m c)
theorem e24 (c : Dev nD) : V24 m (outs m) c = W24 m c := congrArg (StableHlo.after hostOps8_1) (e23 m c)
theorem e25 (c : Dev nD) : V25 m (outs m) c = W25 m c := congrArg (StableHlo.after hostOps8_2) (e24 m c)
theorem o8 (c : Dev nD) : outs m 26 main_v160 c = x8 m c := by
  show Function.update (W25 m c) _ (x8 m c) _ = x8 m c
  exact Function.update_self _ _ _
theorem e26 (c : Dev nD) : V26 m (outs m) c = W26 m c := by
  show Function.update (V25 m (outs m) c) _ (outs m 26 main_v160 c) = Function.update (W25 m c) _ (x8 m c)
  rw [o8 m c, e25 m c]
theorem e27 (c : Dev nD) : V27 m (outs m) c = W27 m c := congrArg (StableHlo.after hostOps9) (e26 m c)
theorem o9 (c : Dev nD) : outs m 28 main_v167 c = x9 m c := by
  show Function.update (W27 m c) _ (x9 m c) _ = x9 m c
  exact Function.update_self _ _ _
theorem e28 (c : Dev nD) : V28 m (outs m) c = W28 m c := by
  show Function.update (V27 m (outs m) c) _ (outs m 28 main_v167 c) = Function.update (W27 m c) _ (x9 m c)
  rw [o9 m c, e27 m c]
theorem e29 (c : Dev nD) : V29 m (outs m) c = W29 m c := congrArg (StableHlo.after hostOps10) (e28 m c)
theorem e30 (c : Dev nD) : V30 m (outs m) c = W30 m c := congrArg (StableHlo.after hostOps10_1) (e29 m c)
theorem e31 (c : Dev nD) : V31 m (outs m) c = W31 m c := congrArg (StableHlo.after hostOps10_2) (e30 m c)
theorem o10 (c : Dev nD) : outs m 32 main_v190 c = x10 m c := by
  show Function.update (W31 m c) _ (x10 m c) _ = x10 m c
  exact Function.update_self _ _ _
theorem e32 (c : Dev nD) : V32 m (outs m) c = W32 m c := by
  show Function.update (V31 m (outs m) c) _ (outs m 32 main_v190 c) = Function.update (W31 m c) _ (x10 m c)
  rw [o10 m c, e31 m c]
theorem e33 (c : Dev nD) : V33 m (outs m) c = W33 m c := congrArg (StableHlo.after hostOps11) (e32 m c)
theorem o11 (c : Dev nD) : outs m 34 main_v208 c = x11 m c := by
  show Function.update (W33 m c) _ (x11 m c) _ = x11 m c
  exact Function.update_self _ _ _
theorem e34 (c : Dev nD) : V34 m (outs m) c = W34 m c := by
  show Function.update (V33 m (outs m) c) _ (outs m 34 main_v208 c) = Function.update (W33 m c) _ (x11 m c)
  rw [o11 m c, e33 m c]
theorem e35 (c : Dev nD) : V35 m (outs m) c = W35 m c := congrArg (StableHlo.after hostOps12) (e34 m c)
theorem e36 (c : Dev nD) : V36 m (outs m) c = W36 m c := congrArg (StableHlo.after hostOps12_1) (e35 m c)
theorem e37 (c : Dev nD) : V37 m (outs m) c = W37 m c := congrArg (StableHlo.after hostOps12_2) (e36 m c)
theorem o12 (c : Dev nD) : outs m 38 main_v231 c = x12 m c := by
  show Function.update (W37 m c) _ (x12 m c) _ = x12 m c
  exact Function.update_self _ _ _
theorem e38 (c : Dev nD) : V38 m (outs m) c = W38 m c := by
  show Function.update (V37 m (outs m) c) _ (outs m 38 main_v231 c) = Function.update (W37 m c) _ (x12 m c)
  rw [o12 m c, e37 m c]
theorem e39 (c : Dev nD) : V39 m (outs m) c = W39 m c := congrArg (StableHlo.after hostOps13) (e38 m c)
theorem o13 (c : Dev nD) : outs m 40 main_v238 c = x13 m c := by
  show Function.update (W39 m c) _ (x13 m c) _ = x13 m c
  exact Function.update_self _ _ _
theorem e40 (c : Dev nD) : V40 m (outs m) c = W40 m c := by
  show Function.update (V39 m (outs m) c) _ (outs m 40 main_v238 c) = Function.update (W39 m c) _ (x13 m c)
  rw [o13 m c, e39 m c]
theorem e41 (c : Dev nD) : V41 m (outs m) c = W41 m c := congrArg (StableHlo.after hostOps14) (e40 m c)
theorem e42 (c : Dev nD) : V42 m (outs m) c = W42 m c := congrArg (StableHlo.after hostOps14_1) (e41 m c)
theorem e43 (c : Dev nD) : V43 m (outs m) c = W43 m c := congrArg (StableHlo.after hostOps14_2) (e42 m c)
theorem o14 (c : Dev nD) : outs m 44 main_v261 c = x14 m c := by
  show Function.update (W43 m c) _ (x14 m c) _ = x14 m c
  exact Function.update_self _ _ _
theorem e44 (c : Dev nD) : V44 m (outs m) c = W44 m c := by
  show Function.update (V43 m (outs m) c) _ (outs m 44 main_v261 c) = Function.update (W43 m c) _ (x14 m c)
  rw [o14 m c, e43 m c]
theorem e45 (c : Dev nD) : V45 m (outs m) c = W45 m c := congrArg (StableHlo.after hostOps15) (e44 m c)
theorem o15 (c : Dev nD) : outs m 46 main_v264 c = x15 m c := by
  show Function.update (W45 m c) _ (x15 m c) _ = x15 m c
  exact Function.update_self _ _ _
theorem e46 (c : Dev nD) : V46 m (outs m) c = W46 m c := by
  show Function.update (V45 m (outs m) c) _ (outs m 46 main_v264 c) = Function.update (W45 m c) _ (x15 m c)
  rw [o15 m c, e45 m c]
theorem e47 (c : Dev nD) : V47 m (outs m) c = W47 m c := congrArg (StableHlo.after hostOps16) (e46 m c)
theorem e48 (c : Dev nD) : V48 m (outs m) c = W48 m c := congrArg (StableHlo.after hostOps16_1) (e47 m c)
theorem e49 (c : Dev nD) : V49 m (outs m) c = W49 m c := congrArg (StableHlo.after hostOps16_2) (e48 m c)
theorem o16 (c : Dev nD) : outs m 50 main_v283 c = x16 m c := by
  show Function.update (W49 m c) _ (x16 m c) _ = x16 m c
  exact Function.update_self _ _ _
theorem e50 (c : Dev nD) : V50 m (outs m) c = W50 m c := by
  show Function.update (V49 m (outs m) c) _ (outs m 50 main_v283 c) = Function.update (W49 m c) _ (x16 m c)
  rw [o16 m c, e49 m c]
theorem e51 (c : Dev nD) : V51 m (outs m) c = W51 m c := congrArg (StableHlo.after hostOps17) (e50 m c)

/-! ## The pins of the regions' records -/

theorem ve0 : (fun (c : Dev nD) (b : Ref sig .tc) => (V1 m c b : Buf (Elt F) ((c : Thread nD τ).loc b))) = (fun (c : Dev nD) (b : Ref sig .tc) => W1 m c b) :=
  funext fun c => funext fun b => congrFun (e1 m c) _
theorem hp0 (c : Dev nD) : pdats m 0 c = Frame0.dat0 (fun (c : Dev nD) (b : Ref sig .tc) => (V1 m c b : Buf (Elt F) ((c : Thread nD τ).loc b))) c := by
  rw [ve0 m]; rfl
theorem houts0 (c : Dev nD) : outs m 2 main_v21 c = (Frame0.dat0 (fun (c : Dev nD) (b : Ref sig .tc) => (V1 m c b : Buf (Elt F) ((c : Thread nD τ).loc b))) c).arrAt 2 cfg0.N := by
  rw [ve0 m]; exact o0 m c
theorem ve1 : (fun (c : Dev nD) (b : Ref sig .tc) => (V3 m (outs m) c b : Buf (Elt F) ((c : Thread nD τ).loc b))) = (fun (c : Dev nD) (b : Ref sig .tc) => W3 m c b) :=
  funext fun c => funext fun b => congrFun (e3 m c) _
theorem hp1 (c : Dev nD) : pdats m 1 c = Frame1.dat1 (fun (c : Dev nD) (b : Ref sig .tc) => (V3 m (outs m) c b : Buf (Elt F) ((c : Thread nD τ).loc b))) c := by
  rw [ve1 m]; rfl
theorem houts1 (c : Dev nD) : outs m 4 main_v29 c = (Frame1.dat1 (fun (c : Dev nD) (b : Ref sig .tc) => (V3 m (outs m) c b : Buf (Elt F) ((c : Thread nD τ).loc b))) c).arrAt 4 cfg1.N := by
  rw [ve1 m]; exact o1 m c
theorem ve2 : (fun (c : Dev nD) (b : Ref sig .tc) => (V7 m (outs m) c b : Buf (Elt F) ((c : Thread nD τ).loc b))) = (fun (c : Dev nD) (b : Ref sig .tc) => W7 m c b) :=
  funext fun c => funext fun b => congrFun (e7 m c) _
theorem hp2 (c : Dev nD) : pdats m 2 c = Frame2.dat2 (fun (c : Dev nD) (b : Ref sig .tc) => (V7 m (outs m) c b : Buf (Elt F) ((c : Thread nD τ).loc b))) c := by
  rw [ve2 m]; rfl
theorem houts2 (c : Dev nD) : outs m 8 main_v48 c = (Frame2.dat2 (fun (c : Dev nD) (b : Ref sig .tc) => (V7 m (outs m) c b : Buf (Elt F) ((c : Thread nD τ).loc b))) c).arrAt 5 cfg2.N := by
  rw [ve2 m]; exact o2 m c
theorem ve3 : (fun (c : Dev nD) (b : Ref sig .tc) => (V9 m (outs m) c b : Buf (Elt F) ((c : Thread nD τ).loc b))) = (fun (c : Dev nD) (b : Ref sig .tc) => W9 m c b) :=
  funext fun c => funext fun b => congrFun (e9 m c) _
theorem hp3 (c : Dev nD) : pdats m 3 c = Frame3.dat3 (fun (c : Dev nD) (b : Ref sig .tc) => (V9 m (outs m) c b : Buf (Elt F) ((c : Thread nD τ).loc b))) c := by
  rw [ve3 m]; rfl
theorem houts3 (c : Dev nD) : outs m 10 main_v66 c = (Frame3.dat3 (fun (c : Dev nD) (b : Ref sig .tc) => (V9 m (outs m) c b : Buf (Elt F) ((c : Thread nD τ).loc b))) c).arrAt 4 cfg3.N := by
  rw [ve3 m]; exact o3 m c
theorem ve4 : (fun (c : Dev nD) (b : Ref sig .tc) => (V13 m (outs m) c b : Buf (Elt F) ((c : Thread nD τ).loc b))) = (fun (c : Dev nD) (b : Ref sig .tc) => W13 m c b) :=
  funext fun c => funext fun b => congrFun (e13 m c) _
theorem hp4 (c : Dev nD) : pdats m 4 c = Frame4.dat4 (fun (c : Dev nD) (b : Ref sig .tc) => (V13 m (outs m) c b : Buf (Elt F) ((c : Thread nD τ).loc b))) c := by
  rw [ve4 m]; rfl
theorem houts4 (c : Dev nD) : outs m 14 main_v89 c = (Frame4.dat4 (fun (c : Dev nD) (b : Ref sig .tc) => (V13 m (outs m) c b : Buf (Elt F) ((c : Thread nD τ).loc b))) c).arrAt 5 cfg4.N := by
  rw [ve4 m]; exact o4 m c
theorem ve5 : (fun (c : Dev nD) (b : Ref sig .tc) => (V15 m (outs m) c b : Buf (Elt F) ((c : Thread nD τ).loc b))) = (fun (c : Dev nD) (b : Ref sig .tc) => W15 m c b) :=
  funext fun c => funext fun b => congrFun (e15 m c) _
theorem hp5 (c : Dev nD) : pdats m 5 c = Frame5.dat5 (fun (c : Dev nD) (b : Ref sig .tc) => (V15 m (outs m) c b : Buf (Elt F) ((c : Thread nD τ).loc b))) c := by
  rw [ve5 m]; rfl
theorem houts5 (c : Dev nD) : outs m 16 main_v96 c = (Frame5.dat5 (fun (c : Dev nD) (b : Ref sig .tc) => (V15 m (outs m) c b : Buf (Elt F) ((c : Thread nD τ).loc b))) c).arrAt 4 cfg5.N := by
  rw [ve5 m]; exact o5 m c
theorem ve6 : (fun (c : Dev nD) (b : Ref sig .tc) => (V19 m (outs m) c b : Buf (Elt F) ((c : Thread nD τ).loc b))) = (fun (c : Dev nD) (b : Ref sig .tc) => W19 m c b) :=
  funext fun c => funext fun b => congrFun (e19 m c) _
theorem hp6 (c : Dev nD) : pdats m 6 c = Frame6.dat6 (fun (c : Dev nD) (b : Ref sig .tc) => (V19 m (outs m) c b : Buf (Elt F) ((c : Thread nD τ).loc b))) c := by
  rw [ve6 m]; rfl
theorem houts6 (c : Dev nD) : outs m 20 main_v119 c = (Frame6.dat6 (fun (c : Dev nD) (b : Ref sig .tc) => (V19 m (outs m) c b : Buf (Elt F) ((c : Thread nD τ).loc b))) c).arrAt 5 cfg6.N := by
  rw [ve6 m]; exact o6 m c
theorem ve7 : (fun (c : Dev nD) (b : Ref sig .tc) => (V21 m (outs m) c b : Buf (Elt F) ((c : Thread nD τ).loc b))) = (fun (c : Dev nD) (b : Ref sig .tc) => W21 m c b) :=
  funext fun c => funext fun b => congrFun (e21 m c) _
theorem hp7 (c : Dev nD) : pdats m 7 c = Frame7.dat7 (fun (c : Dev nD) (b : Ref sig .tc) => (V21 m (outs m) c b : Buf (Elt F) ((c : Thread nD τ).loc b))) c := by
  rw [ve7 m]; rfl
theorem houts7 (c : Dev nD) : outs m 22 main_v137 c = (Frame7.dat7 (fun (c : Dev nD) (b : Ref sig .tc) => (V21 m (outs m) c b : Buf (Elt F) ((c : Thread nD τ).loc b))) c).arrAt 4 cfg7.N := by
  rw [ve7 m]; exact o7 m c
theorem ve8 : (fun (c : Dev nD) (b : Ref sig .tc) => (V25 m (outs m) c b : Buf (Elt F) ((c : Thread nD τ).loc b))) = (fun (c : Dev nD) (b : Ref sig .tc) => W25 m c b) :=
  funext fun c => funext fun b => congrFun (e25 m c) _
theorem hp8 (c : Dev nD) : pdats m 8 c = Frame8.dat8 (fun (c : Dev nD) (b : Ref sig .tc) => (V25 m (outs m) c b : Buf (Elt F) ((c : Thread nD τ).loc b))) c := by
  rw [ve8 m]; rfl
theorem houts8 (c : Dev nD) : outs m 26 main_v160 c = (Frame8.dat8 (fun (c : Dev nD) (b : Ref sig .tc) => (V25 m (outs m) c b : Buf (Elt F) ((c : Thread nD τ).loc b))) c).arrAt 5 cfg8.N := by
  rw [ve8 m]; exact o8 m c
theorem ve9 : (fun (c : Dev nD) (b : Ref sig .tc) => (V27 m (outs m) c b : Buf (Elt F) ((c : Thread nD τ).loc b))) = (fun (c : Dev nD) (b : Ref sig .tc) => W27 m c b) :=
  funext fun c => funext fun b => congrFun (e27 m c) _
theorem hp9 (c : Dev nD) : pdats m 9 c = Frame9.dat9 (fun (c : Dev nD) (b : Ref sig .tc) => (V27 m (outs m) c b : Buf (Elt F) ((c : Thread nD τ).loc b))) c := by
  rw [ve9 m]; rfl
theorem houts9 (c : Dev nD) : outs m 28 main_v167 c = (Frame9.dat9 (fun (c : Dev nD) (b : Ref sig .tc) => (V27 m (outs m) c b : Buf (Elt F) ((c : Thread nD τ).loc b))) c).arrAt 4 cfg9.N := by
  rw [ve9 m]; exact o9 m c
theorem ve10 : (fun (c : Dev nD) (b : Ref sig .tc) => (V31 m (outs m) c b : Buf (Elt F) ((c : Thread nD τ).loc b))) = (fun (c : Dev nD) (b : Ref sig .tc) => W31 m c b) :=
  funext fun c => funext fun b => congrFun (e31 m c) _
theorem hp10 (c : Dev nD) : pdats m 10 c = Frame10.dat10 (fun (c : Dev nD) (b : Ref sig .tc) => (V31 m (outs m) c b : Buf (Elt F) ((c : Thread nD τ).loc b))) c := by
  rw [ve10 m]; rfl
theorem houts10 (c : Dev nD) : outs m 32 main_v190 c = (Frame10.dat10 (fun (c : Dev nD) (b : Ref sig .tc) => (V31 m (outs m) c b : Buf (Elt F) ((c : Thread nD τ).loc b))) c).arrAt 5 cfg10.N := by
  rw [ve10 m]; exact o10 m c
theorem ve11 : (fun (c : Dev nD) (b : Ref sig .tc) => (V33 m (outs m) c b : Buf (Elt F) ((c : Thread nD τ).loc b))) = (fun (c : Dev nD) (b : Ref sig .tc) => W33 m c b) :=
  funext fun c => funext fun b => congrFun (e33 m c) _
theorem hp11 (c : Dev nD) : pdats m 11 c = Frame11.dat11 (fun (c : Dev nD) (b : Ref sig .tc) => (V33 m (outs m) c b : Buf (Elt F) ((c : Thread nD τ).loc b))) c := by
  rw [ve11 m]; rfl
theorem houts11 (c : Dev nD) : outs m 34 main_v208 c = (Frame11.dat11 (fun (c : Dev nD) (b : Ref sig .tc) => (V33 m (outs m) c b : Buf (Elt F) ((c : Thread nD τ).loc b))) c).arrAt 4 cfg11.N := by
  rw [ve11 m]; exact o11 m c
theorem ve12 : (fun (c : Dev nD) (b : Ref sig .tc) => (V37 m (outs m) c b : Buf (Elt F) ((c : Thread nD τ).loc b))) = (fun (c : Dev nD) (b : Ref sig .tc) => W37 m c b) :=
  funext fun c => funext fun b => congrFun (e37 m c) _
theorem hp12 (c : Dev nD) : pdats m 12 c = Frame12.dat12 (fun (c : Dev nD) (b : Ref sig .tc) => (V37 m (outs m) c b : Buf (Elt F) ((c : Thread nD τ).loc b))) c := by
  rw [ve12 m]; rfl
theorem houts12 (c : Dev nD) : outs m 38 main_v231 c = (Frame12.dat12 (fun (c : Dev nD) (b : Ref sig .tc) => (V37 m (outs m) c b : Buf (Elt F) ((c : Thread nD τ).loc b))) c).arrAt 5 cfg12.N := by
  rw [ve12 m]; exact o12 m c
theorem ve13 : (fun (c : Dev nD) (b : Ref sig .tc) => (V39 m (outs m) c b : Buf (Elt F) ((c : Thread nD τ).loc b))) = (fun (c : Dev nD) (b : Ref sig .tc) => W39 m c b) :=
  funext fun c => funext fun b => congrFun (e39 m c) _
theorem hp13 (c : Dev nD) : pdats m 13 c = Frame13.dat13 (fun (c : Dev nD) (b : Ref sig .tc) => (V39 m (outs m) c b : Buf (Elt F) ((c : Thread nD τ).loc b))) c := by
  rw [ve13 m]; rfl
theorem houts13 (c : Dev nD) : outs m 40 main_v238 c = (Frame13.dat13 (fun (c : Dev nD) (b : Ref sig .tc) => (V39 m (outs m) c b : Buf (Elt F) ((c : Thread nD τ).loc b))) c).arrAt 4 cfg13.N := by
  rw [ve13 m]; exact o13 m c
theorem ve14 : (fun (c : Dev nD) (b : Ref sig .tc) => (V43 m (outs m) c b : Buf (Elt F) ((c : Thread nD τ).loc b))) = (fun (c : Dev nD) (b : Ref sig .tc) => W43 m c b) :=
  funext fun c => funext fun b => congrFun (e43 m c) _
theorem hp14 (c : Dev nD) : pdats m 14 c = Frame14.dat14 (fun (c : Dev nD) (b : Ref sig .tc) => (V43 m (outs m) c b : Buf (Elt F) ((c : Thread nD τ).loc b))) c := by
  rw [ve14 m]; rfl
theorem houts14 (c : Dev nD) : outs m 44 main_v261 c = (Frame14.dat14 (fun (c : Dev nD) (b : Ref sig .tc) => (V43 m (outs m) c b : Buf (Elt F) ((c : Thread nD τ).loc b))) c).arrAt 5 cfg14.N := by
  rw [ve14 m]; exact o14 m c
theorem ve15 : (fun (c : Dev nD) (b : Ref sig .tc) => (V45 m (outs m) c b : Buf (Elt F) ((c : Thread nD τ).loc b))) = (fun (c : Dev nD) (b : Ref sig .tc) => W45 m c b) :=
  funext fun c => funext fun b => congrFun (e45 m c) _
theorem hp15 (c : Dev nD) : pdats m 15 c = Frame15.dat15 (fun (c : Dev nD) (b : Ref sig .tc) => (V45 m (outs m) c b : Buf (Elt F) ((c : Thread nD τ).loc b))) c := by
  rw [ve15 m]; rfl
theorem houts15 (c : Dev nD) : outs m 46 main_v264 c = (Frame15.dat15 (fun (c : Dev nD) (b : Ref sig .tc) => (V45 m (outs m) c b : Buf (Elt F) ((c : Thread nD τ).loc b))) c).arrAt 3 cfg15.N := by
  rw [ve15 m]; exact o15 m c
theorem ve16 : (fun (c : Dev nD) (b : Ref sig .tc) => (V49 m (outs m) c b : Buf (Elt F) ((c : Thread nD τ).loc b))) = (fun (c : Dev nD) (b : Ref sig .tc) => W49 m c b) :=
  funext fun c => funext fun b => congrFun (e49 m c) _
theorem hp16 (c : Dev nD) : pdats m 16 c = Frame16.dat16 (fun (c : Dev nD) (b : Ref sig .tc) => (V49 m (outs m) c b : Buf (Elt F) ((c : Thread nD τ).loc b))) c := by
  rw [ve16 m]; rfl
theorem houts16 (c : Dev nD) : outs m 50 main_v283 c = (Frame16.dat16 (fun (c : Dev nD) (b : Ref sig .tc) => (V49 m (outs m) c b : Buf (Elt F) ((c : Thread nD τ).loc b))) c).arrAt 5 cfg16.N := by
  rw [ve16 m]; exact o16 m c

/-! ## The frame -/

/-- Every weakly fair execution of @main terminates, nothing faulting, with the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of_records m ρ (outs m) (pdats m)
    (Frame0.reg0 m (outs m) (pdats m) (hp0 m) (houts0 m)) (Frame0.hpre0 m (outs m) (pdats m) (hp0 m) (houts0 m)) (Frame0.hpost0 m (outs m) (pdats m) (hp0 m) (houts0 m))
    (Frame1.reg1 m (outs m) (pdats m) (hp1 m) (houts1 m)) (Frame1.hpre1 m (outs m) (pdats m) (hp1 m) (houts1 m)) (Frame1.hpost1 m (outs m) (pdats m) (hp1 m) (houts1 m))
    (Frame2.reg2 m (outs m) (pdats m) (hp2 m) (houts2 m)) (Frame2.hpre2 m (outs m) (pdats m) (hp2 m) (houts2 m)) (Frame2.hpost2 m (outs m) (pdats m) (hp2 m) (houts2 m))
    (Frame3.reg3 m (outs m) (pdats m) (hp3 m) (houts3 m)) (Frame3.hpre3 m (outs m) (pdats m) (hp3 m) (houts3 m)) (Frame3.hpost3 m (outs m) (pdats m) (hp3 m) (houts3 m))
    (Frame4.reg4 m (outs m) (pdats m) (hp4 m) (houts4 m)) (Frame4.hpre4 m (outs m) (pdats m) (hp4 m) (houts4 m)) (Frame4.hpost4 m (outs m) (pdats m) (hp4 m) (houts4 m))
    (Frame5.reg5 m (outs m) (pdats m) (hp5 m) (houts5 m)) (Frame5.hpre5 m (outs m) (pdats m) (hp5 m) (houts5 m)) (Frame5.hpost5 m (outs m) (pdats m) (hp5 m) (houts5 m))
    (Frame6.reg6 m (outs m) (pdats m) (hp6 m) (houts6 m)) (Frame6.hpre6 m (outs m) (pdats m) (hp6 m) (houts6 m)) (Frame6.hpost6 m (outs m) (pdats m) (hp6 m) (houts6 m))
    (Frame7.reg7 m (outs m) (pdats m) (hp7 m) (houts7 m)) (Frame7.hpre7 m (outs m) (pdats m) (hp7 m) (houts7 m)) (Frame7.hpost7 m (outs m) (pdats m) (hp7 m) (houts7 m))
    (Frame8.reg8 m (outs m) (pdats m) (hp8 m) (houts8 m)) (Frame8.hpre8 m (outs m) (pdats m) (hp8 m) (houts8 m)) (Frame8.hpost8 m (outs m) (pdats m) (hp8 m) (houts8 m))
    (Frame9.reg9 m (outs m) (pdats m) (hp9 m) (houts9 m)) (Frame9.hpre9 m (outs m) (pdats m) (hp9 m) (houts9 m)) (Frame9.hpost9 m (outs m) (pdats m) (hp9 m) (houts9 m))
    (Frame10.reg10 m (outs m) (pdats m) (hp10 m) (houts10 m)) (Frame10.hpre10 m (outs m) (pdats m) (hp10 m) (houts10 m)) (Frame10.hpost10 m (outs m) (pdats m) (hp10 m) (houts10 m))
    (Frame11.reg11 m (outs m) (pdats m) (hp11 m) (houts11 m)) (Frame11.hpre11 m (outs m) (pdats m) (hp11 m) (houts11 m)) (Frame11.hpost11 m (outs m) (pdats m) (hp11 m) (houts11 m))
    (Frame12.reg12 m (outs m) (pdats m) (hp12 m) (houts12 m)) (Frame12.hpre12 m (outs m) (pdats m) (hp12 m) (houts12 m)) (Frame12.hpost12 m (outs m) (pdats m) (hp12 m) (houts12 m))
    (Frame13.reg13 m (outs m) (pdats m) (hp13 m) (houts13 m)) (Frame13.hpre13 m (outs m) (pdats m) (hp13 m) (houts13 m)) (Frame13.hpost13 m (outs m) (pdats m) (hp13 m) (houts13 m))
    (Frame14.reg14 m (outs m) (pdats m) (hp14 m) (houts14 m)) (Frame14.hpre14 m (outs m) (pdats m) (hp14 m) (houts14 m)) (Frame14.hpost14 m (outs m) (pdats m) (hp14 m) (houts14 m))
    (Frame15.reg15 m (outs m) (pdats m) (hp15 m) (houts15 m)) (Frame15.hpre15 m (outs m) (pdats m) (hp15 m) (houts15 m)) (Frame15.hpost15 m (outs m) (pdats m) (hp15 m) (houts15 m))
    (Frame16.reg16 m (outs m) (pdats m) (hp16 m) (houts16 m)) (Frame16.hpre16 m (outs m) (pdats m) (hp16 m) (houts16 m)) (Frame16.hpost16 m (outs m) (pdats m) (hp16 m) (houts16 m))

/-- The same with every unscoped buffer named: each ends at the fold's last contents. -/
theorem run (ρ : Dev nD → PrngReg) :
    θ_run defs (onTc (τ := τ) (main (F := F))) ⟨m, fun _ => 0, ρ⟩ (fun r => ∀ c : Dev nD, ∀ b ∈ Pipeline.ucRefs τ sig, r.2.mem (((c : Thread nD τ)).1, b) = W51 m c b) :=
  (θ_run defs _ _).mono (fun r h c b hb => (h c b hb).trans (congrFun (e51 m c) b))
    (run_of_records m ρ (outs m) (pdats m)
    (Frame0.reg0 m (outs m) (pdats m) (hp0 m) (houts0 m)) (Frame0.hpre0 m (outs m) (pdats m) (hp0 m) (houts0 m)) (Frame0.hpost0 m (outs m) (pdats m) (hp0 m) (houts0 m))
    (Frame1.reg1 m (outs m) (pdats m) (hp1 m) (houts1 m)) (Frame1.hpre1 m (outs m) (pdats m) (hp1 m) (houts1 m)) (Frame1.hpost1 m (outs m) (pdats m) (hp1 m) (houts1 m))
    (Frame2.reg2 m (outs m) (pdats m) (hp2 m) (houts2 m)) (Frame2.hpre2 m (outs m) (pdats m) (hp2 m) (houts2 m)) (Frame2.hpost2 m (outs m) (pdats m) (hp2 m) (houts2 m))
    (Frame3.reg3 m (outs m) (pdats m) (hp3 m) (houts3 m)) (Frame3.hpre3 m (outs m) (pdats m) (hp3 m) (houts3 m)) (Frame3.hpost3 m (outs m) (pdats m) (hp3 m) (houts3 m))
    (Frame4.reg4 m (outs m) (pdats m) (hp4 m) (houts4 m)) (Frame4.hpre4 m (outs m) (pdats m) (hp4 m) (houts4 m)) (Frame4.hpost4 m (outs m) (pdats m) (hp4 m) (houts4 m))
    (Frame5.reg5 m (outs m) (pdats m) (hp5 m) (houts5 m)) (Frame5.hpre5 m (outs m) (pdats m) (hp5 m) (houts5 m)) (Frame5.hpost5 m (outs m) (pdats m) (hp5 m) (houts5 m))
    (Frame6.reg6 m (outs m) (pdats m) (hp6 m) (houts6 m)) (Frame6.hpre6 m (outs m) (pdats m) (hp6 m) (houts6 m)) (Frame6.hpost6 m (outs m) (pdats m) (hp6 m) (houts6 m))
    (Frame7.reg7 m (outs m) (pdats m) (hp7 m) (houts7 m)) (Frame7.hpre7 m (outs m) (pdats m) (hp7 m) (houts7 m)) (Frame7.hpost7 m (outs m) (pdats m) (hp7 m) (houts7 m))
    (Frame8.reg8 m (outs m) (pdats m) (hp8 m) (houts8 m)) (Frame8.hpre8 m (outs m) (pdats m) (hp8 m) (houts8 m)) (Frame8.hpost8 m (outs m) (pdats m) (hp8 m) (houts8 m))
    (Frame9.reg9 m (outs m) (pdats m) (hp9 m) (houts9 m)) (Frame9.hpre9 m (outs m) (pdats m) (hp9 m) (houts9 m)) (Frame9.hpost9 m (outs m) (pdats m) (hp9 m) (houts9 m))
    (Frame10.reg10 m (outs m) (pdats m) (hp10 m) (houts10 m)) (Frame10.hpre10 m (outs m) (pdats m) (hp10 m) (houts10 m)) (Frame10.hpost10 m (outs m) (pdats m) (hp10 m) (houts10 m))
    (Frame11.reg11 m (outs m) (pdats m) (hp11 m) (houts11 m)) (Frame11.hpre11 m (outs m) (pdats m) (hp11 m) (houts11 m)) (Frame11.hpost11 m (outs m) (pdats m) (hp11 m) (houts11 m))
    (Frame12.reg12 m (outs m) (pdats m) (hp12 m) (houts12 m)) (Frame12.hpre12 m (outs m) (pdats m) (hp12 m) (houts12 m)) (Frame12.hpost12 m (outs m) (pdats m) (hp12 m) (houts12 m))
    (Frame13.reg13 m (outs m) (pdats m) (hp13 m) (houts13 m)) (Frame13.hpre13 m (outs m) (pdats m) (hp13 m) (houts13 m)) (Frame13.hpost13 m (outs m) (pdats m) (hp13 m) (houts13 m))
    (Frame14.reg14 m (outs m) (pdats m) (hp14 m) (houts14 m)) (Frame14.hpre14 m (outs m) (pdats m) (hp14 m) (houts14 m)) (Frame14.hpost14 m (outs m) (pdats m) (hp14 m) (houts14 m))
    (Frame15.reg15 m (outs m) (pdats m) (hp15 m) (houts15 m)) (Frame15.hpre15 m (outs m) (pdats m) (hp15 m) (houts15 m)) (Frame15.hpost15 m (outs m) (pdats m) (hp15 m) (houts15 m))
    (Frame16.reg16 m (outs m) (pdats m) (hp16 m) (houts16 m)) (Frame16.hpre16 m (outs m) (pdats m) (hp16 m) (houts16 m)) (Frame16.hpost16 m (outs m) (pdats m) (hp16 m) (houts16 m)))

/-- The run with the result named and the arguments kept: the result buffer ends at the fold's last contents of it. -/
theorem run_value (ρ : Dev nD → PrngReg) :
    θ_run defs (onTc (τ := τ) (main (F := F))) ⟨m, fun _ => 0, ρ⟩ (fun r => ∀ c : Dev nD,
      r.2.mem ((c.tc : Thread nD τ).loc main_v284) = W51 m c main_v284
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨h c (Proc.devRef .tc main_v284) (Finset.mem_filter.mpr ⟨StableHlo.devRef_mem_tcRefs main_v284, by decide⟩),
     (h c (Proc.devRef .tc main_arg0) (Finset.mem_filter.mpr ⟨StableHlo.devRef_mem_tcRefs main_arg0, by decide⟩)).trans ((congrFun (e51 m c) _).symm.trans (V51_main_arg0 m (outs m) c)),
     (h c (Proc.devRef .tc main_arg1) (Finset.mem_filter.mpr ⟨StableHlo.devRef_mem_tcRefs main_arg1, by decide⟩)).trans ((congrFun (e51 m c) _).symm.trans (V51_main_arg1 m (outs m) c)),
     (h c (Proc.devRef .tc main_arg2) (Finset.mem_filter.mpr ⟨StableHlo.devRef_mem_tcRefs main_arg2, by decide⟩)).trans ((congrFun (e51 m c) _).symm.trans (V51_main_arg2 m (outs m) c)),
     (h c (Proc.devRef .tc main_arg3) (Finset.mem_filter.mpr ⟨StableHlo.devRef_mem_tcRefs main_arg3, by decide⟩)).trans ((congrFun (e51 m c) _).symm.trans (V51_main_arg3 m (outs m) c)),
     (h c (Proc.devRef .tc main_arg4) (Finset.mem_filter.mpr ⟨StableHlo.devRef_mem_tcRefs main_arg4, by decide⟩)).trans ((congrFun (e51 m c) _).symm.trans (V51_main_arg4 m (outs m) c)),
     (h c (Proc.devRef .tc main_arg5) (Finset.mem_filter.mpr ⟨StableHlo.devRef_mem_tcRefs main_arg5, by decide⟩)).trans ((congrFun (e51 m c) _).symm.trans (V51_main_arg5 m (outs m) c)),
     (h c (Proc.devRef .tc main_arg6) (Finset.mem_filter.mpr ⟨StableHlo.devRef_mem_tcRefs main_arg6, by decide⟩)).trans ((congrFun (e51 m c) _).symm.trans (V51_main_arg6 m (outs m) c)),
     (h c (Proc.devRef .tc main_arg7) (Finset.mem_filter.mpr ⟨StableHlo.devRef_mem_tcRefs main_arg7, by decide⟩)).trans ((congrFun (e51 m c) _).symm.trans (V51_main_arg7 m (outs m) c)),
     (h c (Proc.devRef .tc main_arg8) (Finset.mem_filter.mpr ⟨StableHlo.devRef_mem_tcRefs main_arg8, by decide⟩)).trans ((congrFun (e51 m c) _).symm.trans (V51_main_arg8 m (outs m) c)),
     (h c (Proc.devRef .tc main_arg9) (Finset.mem_filter.mpr ⟨StableHlo.devRef_mem_tcRefs main_arg9, by decide⟩)).trans ((congrFun (e51 m c) _).symm.trans (V51_main_arg9 m (outs m) c)),
     (h c (Proc.devRef .tc main_arg10) (Finset.mem_filter.mpr ⟨StableHlo.devRef_mem_tcRefs main_arg10, by decide⟩)).trans ((congrFun (e51 m c) _).symm.trans (V51_main_arg10 m (outs m) c)),
     (h c (Proc.devRef .tc main_arg11) (Finset.mem_filter.mpr ⟨StableHlo.devRef_mem_tcRefs main_arg11, by decide⟩)).trans ((congrFun (e51 m c) _).symm.trans (V51_main_arg11 m (outs m) c)),
     (h c (Proc.devRef .tc main_arg12) (Finset.mem_filter.mpr ⟨StableHlo.devRef_mem_tcRefs main_arg12, by decide⟩)).trans ((congrFun (e51 m c) _).symm.trans (V51_main_arg12 m (outs m) c)),
     (h c (Proc.devRef .tc main_arg13) (Finset.mem_filter.mpr ⟨StableHlo.devRef_mem_tcRefs main_arg13, by decide⟩)).trans ((congrFun (e51 m c) _).symm.trans (V51_main_arg13 m (outs m) c)),
     (h c (Proc.devRef .tc main_arg14) (Finset.mem_filter.mpr ⟨StableHlo.devRef_mem_tcRefs main_arg14, by decide⟩)).trans ((congrFun (e51 m c) _).symm.trans (V51_main_arg14 m (outs m) c)),
     (h c (Proc.devRef .tc main_arg15) (Finset.mem_filter.mpr ⟨StableHlo.devRef_mem_tcRefs main_arg15, by decide⟩)).trans ((congrFun (e51 m c) _).symm.trans (V51_main_arg15 m (outs m) c)),
     (h c (Proc.devRef .tc main_arg16) (Finset.mem_filter.mpr ⟨StableHlo.devRef_mem_tcRefs main_arg16, by decide⟩)).trans ((congrFun (e51 m c) _).symm.trans (V51_main_arg16 m (outs m) c)),
     (h c (Proc.devRef .tc main_arg17) (Finset.mem_filter.mpr ⟨StableHlo.devRef_mem_tcRefs main_arg17, by decide⟩)).trans ((congrFun (e51 m c) _).symm.trans (V51_main_arg17 m (outs m) c)),
     (h c (Proc.devRef .tc main_arg18) (Finset.mem_filter.mpr ⟨StableHlo.devRef_mem_tcRefs main_arg18, by decide⟩)).trans ((congrFun (e51 m c) _).symm.trans (V51_main_arg18 m (outs m) c)),
     (h c (Proc.devRef .tc main_arg19) (Finset.mem_filter.mpr ⟨StableHlo.devRef_mem_tcRefs main_arg19, by decide⟩)).trans ((congrFun (e51 m c) _).symm.trans (V51_main_arg19 m (outs m) c)),
     (h c (Proc.devRef .tc main_arg20) (Finset.mem_filter.mpr ⟨StableHlo.devRef_mem_tcRefs main_arg20, by decide⟩)).trans ((congrFun (e51 m c) _).symm.trans (V51_main_arg20 m (outs m) c)),
     (h c (Proc.devRef .tc main_arg21) (Finset.mem_filter.mpr ⟨StableHlo.devRef_mem_tcRefs main_arg21, by decide⟩)).trans ((congrFun (e51 m c) _).symm.trans (V51_main_arg21 m (outs m) c)),
     (h c (Proc.devRef .tc main_arg22) (Finset.mem_filter.mpr ⟨StableHlo.devRef_mem_tcRefs main_arg22, by decide⟩)).trans ((congrFun (e51 m c) _).symm.trans (V51_main_arg22 m (outs m) c)),
     (h c (Proc.devRef .tc main_arg23) (Finset.mem_filter.mpr ⟨StableHlo.devRef_mem_tcRefs main_arg23, by decide⟩)).trans ((congrFun (e51 m c) _).symm.trans (V51_main_arg23 m (outs m) c))⟩)
    (run m ρ)

end Cert.KernelIdeal.Asm

end
-- ==== Proof.Spec.lean ====
/-
  The network both programs compute, as one function of the argument arrays over the extended reals.

  A Structure2Vec pass over a graph of 100000 nodes: node features h (100000 × 64) are updated by
    lin a W b      the affine map  a·W + b  of the rows,
    bn P g b       the batch normalisation of the columns of P (column mean and biased column variance over all
                   100000 rows, (P − mean)·rsqrt(var + ε)·g + b), and  relu,
  around two aggregations over the graph's edges that enter only as data here: the per-node sums A0 … A3 of the four
  affine images of the edge features, and nb, the map "sum, into each node, the rows of h at the sources of its
  incoming edges". Both programs are an instance of net at their own spelling of those aggregations; that the
  spellings agree is proved where the certificate joins them.

  The column mean and variance are spelled exactly as both programs compute them: a sum started from the zero word,
  a quotient by the word of 100000 (for the variance: by 100000 minus the float of the integer constant 0, guarded by a
  comparison that selects a not-a-number word when that divisor is not positive; the guard is carried as printed and
  never evaluated).
-/
import Idealize.ShloMosaic.Lib.ValueIdx
import Idealize.ShloMosaic.PureOps.Ideal.Laws

noncomputable section

open scoped BigOperators

namespace Cert.Spec

open Idealize.ShloMosaic Idealize.ShloMosaic.ValueIdx

abbrev SN64 : Shape := ⟨2, ![100000, 64]⟩
abbrev S64x64 : Shape := ⟨2, ![64, 64]⟩
abbrev S3x64x64 : Shape := ⟨3, ![3, 64, 64]⟩
abbrev S3x64 : Shape := ⟨2, ![3, 64]⟩
abbrev S64 : Shape := ⟨1, ![64]⟩
abbrev S0 : Shape := ⟨0, ![]⟩

/-- The zero word, the word of 100000 and the word of ε = 1e-5, as extended reals. -/
abbrev z : EReal := Ideal.ofBits .f32 0x00000000#32
abbrev c5 : EReal := Ideal.ofBits .f32 0x47C35000#32
abbrev eps : EReal := Ideal.ofBits .f32 0x3727C5AC#32

/-- The variance's divisor as both programs compute it, and its guard. -/
def ddA : FVec Ideal S0 .f32 := subf (constant S0 .f32 0x47C35000#32) (sitofp .f32 (constantI S0 32 0#32))
def guardA : IVec S0 1 := cmpf .ogt ddA (constant (F := Ideal) S0 .f32 0x00000000#32)

/-- Rows times a 64 × 64 matrix, plus a bias row. -/
def lin (a : FVec Ideal SN64 .f32) (W : FVec Ideal S64x64 .f32) (b : FVec Ideal S64 .f32) : FVec Ideal SN64 .f32 :=
  fun i => (∑ k : Fin 64, a (ix2 (n0 := 100000) (n1 := 64) (i 0) k) * W (ix2 (n0 := 64) (n1 := 64) k (i 1))) + b (ix1 (n := 64) (i 1))

/-- The column mean. -/
def mean (P : FVec Ideal SN64 .f32) : FVec Ideal S64 .f32 :=
  fun j => Ideal.div (z + ∑ n : Fin 100000, P (ix2 (n0 := 100000) (n1 := 64) n (j 0))) c5

/-- The biased column variance. -/
def var (P : FVec Ideal SN64 .f32) : FVec Ideal S64 .f32 :=
  fun j => Scalar.select (guardA ix0)
    (Ideal.div (z + ∑ n : Fin 100000, (P (ix2 (n0 := 100000) (n1 := 64) n (j 0)) - mean P j) * (P (ix2 (n0 := 100000) (n1 := 64) n (j 0)) - mean P j)) (ddA ix0))
    (Ideal.ofBits .f32 0x7FC00000#32)

/-- Batch normalisation of the columns. -/
def bn (P : FVec Ideal SN64 .f32) (g b : FVec Ideal S64 .f32) : FVec Ideal SN64 .f32 :=
  fun i => ((P i - mean P (ix1 (n := 64) (i 1))) * Ideal.rsqrt (var P (ix1 (n := 64) (i 1)) + eps)) * g (ix1 (n := 64) (i 1)) + b (ix1 (n := 64) (i 1))

def relu (Y : FVec Ideal SN64 .f32) : FVec Ideal SN64 .f32 := fun i => max (Y i) z

/-- Layer i's 64 × 64 matrix out of a stack of three, and its row out of a stack of three rows. -/
def mat3 (A : FVec Ideal S3x64x64 .f32) (i : Fin 3) : FVec Ideal S64x64 .f32 := fun j => A (ix3 (n0 := 3) (n1 := 64) (n2 := 64) i (j 0) (j 1))
def row3 (A : FVec Ideal S3x64 .f32) (i : Fin 3) : FVec Ideal S64 .f32 := fun j => A (ix2 (n0 := 3) (n1 := 64) i (j 0))

/-- The first update: from the atom features x and the first edge aggregate. -/
def first (A0 x : FVec Ideal SN64 .f32) (aW : FVec Ideal S64x64 .f32) (ab g0 be0 : FVec Ideal S64 .f32) : FVec Ideal SN64 .f32 :=
  relu (bn (fun i => lin x aW ab i + A0 i) g0 be0)

/-- One Structure2Vec layer. -/
def layer (nb : FVec Ideal SN64 .f32 → FVec Ideal SN64 .f32) (A : FVec Ideal SN64 .f32)
    (h1W : FVec Ideal S64x64 .f32) (h1b : FVec Ideal S64 .f32) (h2W : FVec Ideal S64x64 .f32) (h2b g1 be1 g2 be2 : FVec Ideal S64 .f32)
    (H : FVec Ideal SN64 .f32) : FVec Ideal SN64 .f32 :=
  relu (bn (fun i => lin (relu (bn (fun i => lin (nb H) h1W h1b i + A i) g1 be1)) h2W h2b i + H i) g2 be2)

/-- The last update: an affine map and a batch normalisation, no relu. -/
def last (H : FVec Ideal SN64 .f32) (lW : FVec Ideal S64x64 .f32) (lb gl bel : FVec Ideal S64 .f32) : FVec Ideal SN64 .f32 :=
  bn (lin H lW lb) gl bel

/-- THE NETWORK. -/
def net (nb : FVec Ideal SN64 .f32 → FVec Ideal SN64 .f32) (A0 A1 A2 A3 x : FVec Ideal SN64 .f32)
    (aW : FVec Ideal S64x64 .f32) (ab g0 be0 : FVec Ideal S64 .f32)
    (h1W : FVec Ideal S3x64x64 .f32) (h1b : FVec Ideal S3x64 .f32) (h2W : FVec Ideal S3x64x64 .f32) (h2b g1s be1s g2s be2s : FVec Ideal S3x64 .f32)
    (lW : FVec Ideal S64x64 .f32) (lb gl bel : FVec Ideal S64 .f32) : FVec Ideal SN64 .f32 :=
  last
    (layer nb A3 (mat3 h1W 2) (row3 h1b 2) (mat3 h2W 2) (row3 h2b 2) (row3 g1s 2) (row3 be1s 2) (row3 g2s 2) (row3 be2s 2)
      (layer nb A2 (mat3 h1W 1) (row3 h1b 1) (mat3 h2W 1) (row3 h2b 1) (row3 g1s 1) (row3 be1s 1) (row3 g2s 1) (row3 be2s 1)
        (layer nb A1 (mat3 h1W 0) (row3 h1b 0) (mat3 h2W 0) (row3 h2b 0) (row3 g1s 0) (row3 be1s 0) (row3 g2s 0) (row3 be2s 0)
          (first A0 x aW ab g0 be0))))
    lW lb gl bel

end Cert.Spec

end
-- ==== Proof.SpecK.lean ====
/-
  What each of the kernel's seventeen regions leaves in its result array, as one function of the region's operand
  arrays over the extended reals (five bodies):
    mm16   rows (100000 × 16) times a 16 × 256 matrix;
    linE   rows (100000 × 64) times a 64 × 64 matrix, plus a bias row (a 1 × 64 array), plus a residual;
    linO   the same without the residual;
    bnR2   on the 50000 × 128 view (two consecutive rows side by side), with the four parameter rows given as 1 × 128
           arrays: ((P − μ)·rsqrt(v + ε))·g + b, then the maximum with zero;
    bn2    the same without the maximum.
  A region computes its result block by block; these are the whole arrays the blocks are blocks of.
-/
import proofs.«146189_j40922448396571_2_alg».proof.Proof.Spec

noncomputable section

open scoped BigOperators

namespace Cert.Spec

open Idealize.ShloMosaic Idealize.ShloMosaic.ValueIdx

abbrev SN16 : Shape := ⟨2, ![100000, 16]⟩
abbrev S16x256 : Shape := ⟨2, ![16, 256]⟩
abbrev SN256 : Shape := ⟨2, ![100000, 256]⟩
abbrev S1x64 : Shape := ⟨2, ![1, 64]⟩
abbrev SM128 : Shape := ⟨2, ![50000, 128]⟩
abbrev S1x128 : Shape := ⟨2, ![1, 128]⟩

def mm16 (sw : FVec Ideal SN16 .f32) (bw : FVec Ideal S16x256 .f32) : FVec Ideal SN256 .f32 :=
  fun i => ∑ k : Fin 16, sw (ix2 (n0 := 100000) (n1 := 16) (i 0) k) * bw (ix2 (n0 := 16) (n1 := 256) k (i 1))

def linO (a : FVec Ideal SN64 .f32) (W : FVec Ideal S64x64 .f32) (b1 : FVec Ideal S1x64 .f32) : FVec Ideal SN64 .f32 :=
  fun i => (∑ k : Fin 64, a (ix2 (n0 := 100000) (n1 := 64) (i 0) k) * W (ix2 (n0 := 64) (n1 := 64) k (i 1))) + b1 (ix2 (n0 := 1) (n1 := 64) 0 (i 1))

def linE (a : FVec Ideal SN64 .f32) (W : FVec Ideal S64x64 .f32) (b1 : FVec Ideal S1x64 .f32) (e : FVec Ideal SN64 .f32) : FVec Ideal SN64 .f32 :=
  fun i => linO a W b1 i + e i

def bn2 (P : FVec Ideal SM128 .f32) (mu v g b : FVec Ideal S1x128 .f32) : FVec Ideal SM128 .f32 :=
  fun i => ((P i - mu (ix2 (n0 := 1) (n1 := 128) 0 (i 1))) * Ideal.rsqrt (v (ix2 (n0 := 1) (n1 := 128) 0 (i 1)) + eps)) * g (ix2 (n0 := 1) (n1 := 128) 0 (i 1)) + b (ix2 (n0 := 1) (n1 := 128) 0 (i 1))

def bnR2 (P : FVec Ideal SM128 .f32) (mu v g b : FVec Ideal S1x128 .f32) : FVec Ideal SM128 .f32 :=
  fun i => max (bn2 P mu v g b i) z

end Cert.Spec

end
-- ==== Proof.KIValueLin.lean ====
/- The matmul bodies of the idealized kernel read at an index, over the extended reals.

   The two contraction records of the program (5000×64 by 64×64, and 5000×16 by 16×256) contract the left operand's
   second axis against the right operand's first, with no batch axis: at output index (p, q) and contraction position k
   the operands are read at (p, k) and (k, q). So a matmul into the zero accumulator is, entry by entry, the sum over
   k of the products; the change of float format before it is the identity on extended reals, and a cast of a
   shape to itself is the identity. Each region's stored value follows: the product, plus the [1,64] bias row read at
   the column, plus (where the body has one) the added operand — the additions in the body's order. -/
import proofs.«146189_j40922448396571_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ValLin

open Cert.KernelIdeal Cert.KernelIdeal.Gen
open Idealize.ShloMosaic Idealize.ShloMosaic.ValueIdx

/-! ## The 5000×64 by 64×64 contraction -/

abbrev D64 : DotDims S5000x64 S64x64 S5000x64 := dot_S5000x64_S64x64_S5000x64_1_0_0_1_n_n

/-- The left operand's row is the output's row; -/
theorem lhs64_0 (i : S5000x64.Idx) (q : D64.contr.Idx) : (D64.lhsIdx i q 0).val = (i 0).val := by
  unfold DotDims.lhsIdx
  rw [dif_neg (show ¬(0 : Fin S5000x64.rank) ∈ D64.lhsBatch by decide),
    dif_pos (show (0 : Fin S5000x64.rank) ∈ D64.lhsNonContracting by decide)]
  rfl

/-- its column is the contraction position. -/
theorem lhs64_1 (i : S5000x64.Idx) (q : D64.contr.Idx) : (D64.lhsIdx i q 1).val = (q ⟨0, by decide⟩).val :=
  D64.lhsIdx_val_of_single rfl i q

/-- The right operand's row is the contraction position; -/
theorem rhs64_0 (i : S5000x64.Idx) (q : D64.contr.Idx) : (D64.rhsIdx i q 0).val = (q ⟨0, by decide⟩).val :=
  D64.rhsIdx_val_of_single rfl i q

/-- its column is the output's column. -/
theorem rhs64_1 (i : S5000x64.Idx) (q : D64.contr.Idx) : (D64.rhsIdx i q 1).val = (i 1).val := by
  unfold DotDims.rhsIdx
  rw [dif_neg (show ¬(1 : Fin S64x64.rank) ∈ D64.rhsBatch by decide),
    dif_pos (show (1 : Fin S64x64.rank) ∈ D64.rhsNonContracting by decide)]
  rfl

/-- The matmul into the zero accumulator at (p, q): the sum over k of a (p, k) · w (k, q). -/
theorem mm64_apply (a : FVec Ideal S5000x64 .bf16) (w : FVec Ideal S64x64 .bf16) (p : Fin 5000) (q : Fin 64) :
    matmul D64 none a w (constant (F := Ideal) S5000x64 .f32 0x00000000#32) (ix2 p q)
      = ∑ k : Fin 64, a (ix2 p k) * w (ix2 k q) := by
  refine (Ideal.matmul_constant_zero_apply D64 none a w (ix2 p q)).trans ?_
  rw [← Equiv.sum_comp (contrEquiv1 D64 64 rfl rfl).symm]
  refine Finset.sum_congr rfl fun k _ => ?_
  have hk := contrEquiv1_symm_val D64 64 rfl rfl k
  have el : D64.lhsIdx (ix2 p q) ((contrEquiv1 D64 64 rfl rfl).symm k) = ix2 p k := funext fun ax => Fin.ext (by
    match ax with
    | ⟨0, _⟩ => exact lhs64_0 _ _
    | ⟨1, _⟩ => exact (lhs64_1 _ _).trans hk)
  have er : D64.rhsIdx (ix2 p q) ((contrEquiv1 D64 64 rfl rfl).symm k) = ix2 k q := funext fun ax => Fin.ext (by
    match ax with
    | ⟨0, _⟩ => exact (rhs64_0 _ _).trans hk
    | ⟨1, _⟩ => exact rhs64_1 _ _)
  rw [el, er]

/-! ## The 5000×16 by 16×256 contraction -/

abbrev D16 : DotDims S5000x16 S16x256 S5000x256 := dot_S5000x16_S16x256_S5000x256_1_0_0_1_n_n

theorem lhs16_0 (i : S5000x256.Idx) (q : D16.contr.Idx) : (D16.lhsIdx i q 0).val = (i 0).val := by
  unfold DotDims.lhsIdx
  rw [dif_neg (show ¬(0 : Fin S5000x16.rank) ∈ D16.lhsBatch by decide),
    dif_pos (show (0 : Fin S5000x16.rank) ∈ D16.lhsNonContracting by decide)]
  rfl

theorem lhs16_1 (i : S5000x256.Idx) (q : D16.contr.Idx) : (D16.lhsIdx i q 1).val = (q ⟨0, by decide⟩).val :=
  D16.lhsIdx_val_of_single rfl i q

theorem rhs16_0 (i : S5000x256.Idx) (q : D16.contr.Idx) : (D16.rhsIdx i q 0).val = (q ⟨0, by decide⟩).val :=
  D16.rhsIdx_val_of_single rfl i q

theorem rhs16_1 (i : S5000x256.Idx) (q : D16.contr.Idx) : (D16.rhsIdx i q 1).val = (i 1).val := by
  unfold DotDims.rhsIdx
  rw [dif_neg (show ¬(1 : Fin S16x256.rank) ∈ D16.rhsBatch by decide),
    dif_pos (show (1 : Fin S16x256.rank) ∈ D16.rhsNonContracting by decide)]
  rfl

/-- The matmul into the zero accumulator at (p, q): the sum over k of a (p, k) · w (k, q). -/
theorem mm16_apply (a : FVec Ideal S5000x16 .bf16) (w : FVec Ideal S16x256 .bf16) (p : Fin 5000) (q : Fin 256) :
    matmul D16 none a w (constant (F := Ideal) S5000x256 .f32 0x00000000#32) (ix2 p q)
      = ∑ k : Fin 16, a (ix2 p k) * w (ix2 k q) := by
  refine (Ideal.matmul_constant_zero_apply D16 none a w (ix2 p q)).trans ?_
  rw [← Equiv.sum_comp (contrEquiv1 D16 16 rfl rfl).symm]
  refine Finset.sum_congr rfl fun k _ => ?_
  have hk := contrEquiv1_symm_val D16 16 rfl rfl k
  have el : D16.lhsIdx (ix2 p q) ((contrEquiv1 D16 16 rfl rfl).symm k) = ix2 p k := funext fun ax => Fin.ext (by
    match ax with
    | ⟨0, _⟩ => exact lhs16_0 _ _
    | ⟨1, _⟩ => exact (lhs16_1 _ _).trans hk)
  have er : D16.rhsIdx (ix2 p q) ((contrEquiv1 D16 16 rfl rfl).symm k) = ix2 k q := funext fun ax => Fin.ext (by
    match ax with
    | ⟨0, _⟩ => exact (rhs16_0 _ _).trans hk
    | ⟨1, _⟩ => exact rhs16_1 _ _)
  rw [el, er]

/-! ## The stored values of the matmul regions, at an index -/

/-- Region 0's stored value at row p, column q of the block: the row of x0 against the column of x1. -/
theorem k0_pay1_apply (x0 : Vec Ideal S5000x16 .f32) (x1 : Vec Ideal S16x256 .f32) (p : Fin 5000) (q : Fin 256) :
    k0_pay1 x0 x1 (ix2 p q) = ∑ k : Fin 16, x0 (ix2 p k) * x1 (ix2 k q) := by
  unfold k0_pay1
  show matmul D16 none (truncf .bf16 (shapeCast S5000x16 x0 shapeCasts_S5000x16_S5000x16) bitsLt_bf16_f32)
          (truncf .bf16 (shapeCast S16x256 x1 shapeCasts_S16x256_S16x256) bitsLt_bf16_f32)
          (constant (F := Ideal) S5000x256 .f32 0x00000000#32) (ix2 p q) = _
  rw [mm16_apply]
  simp only [shapeCast_self]
  rfl

/-- Region 1's stored value at row p, column q of the block: the row of x0 against the column of x1, plus the bias
    row's entry at q, plus x3's entry — in that order of additions. -/
theorem k1_pay1_apply (x0 : Vec Ideal S5000x64 .f32) (x1 : Vec Ideal S64x64 .f32) (x2 : Vec Ideal S1x64 .f32)
    (x3 : Vec Ideal S5000x64 .f32) (p : Fin 5000) (q : Fin 64) :
    k1_pay1 x0 x1 x2 x3 (ix2 p q)
      = ((∑ k : Fin 64, x0 (ix2 p k) * x1 (ix2 k q)) + x2 (ix2 (0 : Fin 1) q)) + x3 (ix2 p q) := by
  unfold k1_pay1
  show (matmul D64 none (truncf .bf16 x0 bitsLt_bf16_f32) (truncf .bf16 x1 bitsLt_bf16_f32)
          (constant (F := Ideal) S5000x64 .f32 0x00000000#32) (ix2 p q)
        + broadcastTo S5000x64 (shapeCast S1x64 x2 shapeCasts_S1x64_S1x64) broadcasts_S1x64_S5000x64 (ix2 p q))
        + shapeCast S5000x64 x3 shapeCasts_S5000x64_S5000x64 (ix2 p q) = _
  rw [mm64_apply, broadcastTo_1b_ab_apply]
  simp only [shapeCast_self]
  rfl

/-- Region 3's stored value at row p, column q of the block: the row of x0 against the column of x1, plus the bias
    row's entry at q, plus x3's entry — in that order of additions. -/
theorem k3_pay1_apply (x0 : Vec Ideal S5000x64 .f32) (x1 : Vec Ideal S64x64 .f32) (x2 : Vec Ideal S1x64 .f32)
    (x3 : Vec Ideal S5000x64 .f32) (p : Fin 5000) (q : Fin 64) :
    k3_pay1 x0 x1 x2 x3 (ix2 p q)
      = ((∑ k : Fin 64, x0 (ix2 p k) * x1 (ix2 k q)) + x2 (ix2 (0 : Fin 1) q)) + x3 (ix2 p q) := by
  unfold k3_pay1
  show (matmul D64 none (truncf .bf16 (shapeCast S5000x64 x0 shapeCasts_S5000x64_S5000x64) bitsLt_bf16_f32) (truncf .bf16 (shapeCast S64x64 x1 shapeCasts_S64x64_S64x64) bitsLt_bf16_f32)
          (constant (F := Ideal) S5000x64 .f32 0x00000000#32) (ix2 p q)
        + broadcastTo S5000x64 (shapeCast S1x64 x2 shapeCasts_S1x64_S1x64) broadcasts_S1x64_S5000x64 (ix2 p q))
        + shapeCast S5000x64 x3 shapeCasts_S5000x64_S5000x64 (ix2 p q) = _
  rw [mm64_apply, broadcastTo_1b_ab_apply]
  simp only [shapeCast_self]
  rfl

/-- Region 5's stored value at row p, column q of the block: the row of x0 against the column of x1, plus the bias
    row's entry at q, plus x3's entry — in that order of additions. -/
theorem k5_pay1_apply (x0 : Vec Ideal S5000x64 .f32) (x1 : Vec Ideal S64x64 .f32) (x2 : Vec Ideal S1x64 .f32)
    (x3 : Vec Ideal S5000x64 .f32) (p : Fin 5000) (q : Fin 64) :
    k5_pay1 x0 x1 x2 x3 (ix2 p q)
      = ((∑ k : Fin 64, x0 (ix2 p k) * x1 (ix2 k q)) + x2 (ix2 (0 : Fin 1) q)) + x3 (ix2 p q) := by
  unfold k5_pay1
  show (matmul D64 none (truncf .bf16 (shapeCast S5000x64 x0 shapeCasts_S5000x64_S5000x64) bitsLt_bf16_f32) (truncf .bf16 (shapeCast S64x64 x1 shapeCasts_S64x64_S64x64) bitsLt_bf16_f32)
          (constant (F := Ideal) S5000x64 .f32 0x00000000#32) (ix2 p q)
        + broadcastTo S5000x64 (shapeCast S1x64 x2 shapeCasts_S1x64_S1x64) broadcasts_S1x64_S5000x64 (ix2 p q))
        + shapeCast S5000x64 x3 shapeCasts_S5000x64_S5000x64 (ix2 p q) = _
  rw [mm64_apply, broadcastTo_1b_ab_apply]
  simp only [shapeCast_self]
  rfl

/-- Region 7's stored value at row p, column q of the block: the row of x0 against the column of x1, plus the bias
    row's entry at q, plus x3's entry — in that order of additions. -/
theorem k7_pay1_apply (x0 : Vec Ideal S5000x64 .f32) (x1 : Vec Ideal S64x64 .f32) (x2 : Vec Ideal S1x64 .f32)
    (x3 : Vec Ideal S5000x64 .f32) (p : Fin 5000) (q : Fin 64) :
    k7_pay1 x0 x1 x2 x3 (ix2 p q)
      = ((∑ k : Fin 64, x0 (ix2 p k) * x1 (ix2 k q)) + x2 (ix2 (0 : Fin 1) q)) + x3 (ix2 p q) := by
  unfold k7_pay1
  show (matmul D64 none (truncf .bf16 (shapeCast S5000x64 x0 shapeCasts_S5000x64_S5000x64) bitsLt_bf16_f32) (truncf .bf16 (shapeCast S64x64 x1 shapeCasts_S64x64_S64x64) bitsLt_bf16_f32)
          (constant (F := Ideal) S5000x64 .f32 0x00000000#32) (ix2 p q)
        + broadcastTo S5000x64 (shapeCast S1x64 x2 shapeCasts_S1x64_S1x64) broadcasts_S1x64_S5000x64 (ix2 p q))
        + shapeCast S5000x64 x3 shapeCasts_S5000x64_S5000x64 (ix2 p q) = _
  rw [mm64_apply, broadcastTo_1b_ab_apply]
  simp only [shapeCast_self]
  rfl

/-- Region 9's stored value at row p, column q of the block: the row of x0 against the column of x1, plus the bias
    row's entry at q, plus x3's entry — in that order of additions. -/
theorem k9_pay1_apply (x0 : Vec Ideal S5000x64 .f32) (x1 : Vec Ideal S64x64 .f32) (x2 : Vec Ideal S1x64 .f32)
    (x3 : Vec Ideal S5000x64 .f32) (p : Fin 5000) (q : Fin 64) :
    k9_pay1 x0 x1 x2 x3 (ix2 p q)
      = ((∑ k : Fin 64, x0 (ix2 p k) * x1 (ix2 k q)) + x2 (ix2 (0 : Fin 1) q)) + x3 (ix2 p q) := by
  unfold k9_pay1
  show (matmul D64 none (truncf .bf16 (shapeCast S5000x64 x0 shapeCasts_S5000x64_S5000x64) bitsLt_bf16_f32) (truncf .bf16 (shapeCast S64x64 x1 shapeCasts_S64x64_S64x64) bitsLt_bf16_f32)
          (constant (F := Ideal) S5000x64 .f32 0x00000000#32) (ix2 p q)
        + broadcastTo S5000x64 (shapeCast S1x64 x2 shapeCasts_S1x64_S1x64) broadcasts_S1x64_S5000x64 (ix2 p q))
        + shapeCast S5000x64 x3 shapeCasts_S5000x64_S5000x64 (ix2 p q) = _
  rw [mm64_apply, broadcastTo_1b_ab_apply]
  simp only [shapeCast_self]
  rfl

/-- Region 11's stored value at row p, column q of the block: the row of x0 against the column of x1, plus the bias
    row's entry at q, plus x3's entry — in that order of additions. -/
theorem k11_pay1_apply (x0 : Vec Ideal S5000x64 .f32) (x1 : Vec Ideal S64x64 .f32) (x2 : Vec Ideal S1x64 .f32)
    (x3 : Vec Ideal S5000x64 .f32) (p : Fin 5000) (q : Fin 64) :
    k11_pay1 x0 x1 x2 x3 (ix2 p q)
      = ((∑ k : Fin 64, x0 (ix2 p k) * x1 (ix2 k q)) + x2 (ix2 (0 : Fin 1) q)) + x3 (ix2 p q) := by
  unfold k11_pay1
  show (matmul D64 none (truncf .bf16 (shapeCast S5000x64 x0 shapeCasts_S5000x64_S5000x64) bitsLt_bf16_f32) (truncf .bf16 (shapeCast S64x64 x1 shapeCasts_S64x64_S64x64) bitsLt_bf16_f32)
          (constant (F := Ideal) S5000x64 .f32 0x00000000#32) (ix2 p q)
        + broadcastTo S5000x64 (shapeCast S1x64 x2 shapeCasts_S1x64_S1x64) broadcasts_S1x64_S5000x64 (ix2 p q))
        + shapeCast S5000x64 x3 shapeCasts_S5000x64_S5000x64 (ix2 p q) = _
  rw [mm64_apply, broadcastTo_1b_ab_apply]
  simp only [shapeCast_self]
  rfl

/-- Region 13's stored value at row p, column q of the block: the row of x0 against the column of x1, plus the bias
    row's entry at q, plus x3's entry — in that order of additions. -/
theorem k13_pay1_apply (x0 : Vec Ideal S5000x64 .f32) (x1 : Vec Ideal S64x64 .f32) (x2 : Vec Ideal S1x64 .f32)
    (x3 : Vec Ideal S5000x64 .f32) (p : Fin 5000) (q : Fin 64) :
    k13_pay1 x0 x1 x2 x3 (ix2 p q)
      = ((∑ k : Fin 64, x0 (ix2 p k) * x1 (ix2 k q)) + x2 (ix2 (0 : Fin 1) q)) + x3 (ix2 p q) := by
  unfold k13_pay1
  show (matmul D64 none (truncf .bf16 (shapeCast S5000x64 x0 shapeCasts_S5000x64_S5000x64) bitsLt_bf16_f32) (truncf .bf16 (shapeCast S64x64 x1 shapeCasts_S64x64_S64x64) bitsLt_bf16_f32)
          (constant (F := Ideal) S5000x64 .f32 0x00000000#32) (ix2 p q)
        + broadcastTo S5000x64 (shapeCast S1x64 x2 shapeCasts_S1x64_S1x64) broadcasts_S1x64_S5000x64 (ix2 p q))
        + shapeCast S5000x64 x3 shapeCasts_S5000x64_S5000x64 (ix2 p q) = _
  rw [mm64_apply, broadcastTo_1b_ab_apply]
  simp only [shapeCast_self]
  rfl

/-- Region 15's stored value at row p, column q of the block: the row of x0 against the column of x1, plus the bias
    row's entry at q. -/
theorem k15_pay1_apply (x0 : Vec Ideal S5000x64 .f32) (x1 : Vec Ideal S64x64 .f32) (x2 : Vec Ideal S1x64 .f32)
    (p : Fin 5000) (q : Fin 64) :
    k15_pay1 x0 x1 x2 (ix2 p q) = (∑ k : Fin 64, x0 (ix2 p k) * x1 (ix2 k q)) + x2 (ix2 (0 : Fin 1) q) := by
  unfold k15_pay1
  show matmul D64 none (truncf .bf16 (shapeCast S5000x64 x0 shapeCasts_S5000x64_S5000x64) bitsLt_bf16_f32)
          (truncf .bf16 x1 bitsLt_bf16_f32) (constant (F := Ideal) S5000x64 .f32 0x00000000#32) (ix2 p q)
        + broadcastTo S5000x64 (shapeCast S1x64 x2 shapeCasts_S1x64_S1x64) broadcasts_S1x64_S5000x64 (ix2 p q) = _
  rw [mm64_apply, broadcastTo_1b_ab_apply]
  simp only [shapeCast_self]
  rfl

end Cert.KernelIdeal.ValLin

end
-- ==== Proof.KIValue0.lean ====
/- Region 0 of the idealized kernel program, its VALUE: the result array after the region is one function of the
   region's operand arrays as the region finds them — rows times the 16 × 256 matrix, entry by entry over the
   extended reals (`Cert.Spec.mm16`).

   The region writes its result block by block: grid point t handles rows 5000 t … 5000 t + 4999. What point t writes
   back is the body's stored value on the blocks of the two operands at t; read at row p, column q of the block it is
   the spec's entry at row 5000 t + p, column q, because each operand's block sits in its array where the result's
   block does (the row block at block index (t, 0), the matrix whole). The twenty blocks tile the
   array — row r lies in the block of point r / 5000 — so the array ends as the spec's. -/
import proofs.«146189_j40922448396571_2_alg».proof.Proof.KIRegion0Body
import proofs.«146189_j40922448396571_2_alg».proof.Proof.SpecK
import proofs.«146189_j40922448396571_2_alg».proof.Proof.KIValueLin
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frame0

open Cert.KernelIdeal Cert.KernelIdeal.Gen Cert.KernelIdeal.ValLin
open Idealize.ShloMosaic Idealize.ShloMosaic.TcCoe Idealize.ShloMosaic.ValueIdx
open Idealize.ShloMosaic.Pipeline (Dat Cfg Window)

theorem hz : (![0, 0] : Fin 2 → Nat) = fun _ => 0 := funext fun a => by fin_cases a <;> rfl

/-- The printed index maps, decided over the grid: at point t the row-block input and the output are at block (t, 0);
    the weight is at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

set_option maxHeartbeats 1000000 in
/-- What point t writes back is block t of mm16 of the two operand arrays as the region finds them. -/
theorem flushed0_eq (c : Dev nD) (t : Fin cfg0.N) :
    (dat0 (F := Ideal) V c).flushed 2 t
      = ((cfg0.win 2).blk t).view.read (Elt Ideal)
          (Cert.Spec.mm16 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x16) hz, View.ld_unit_zero (S := S16x256) hz]
  obtain ⟨e00, e01, e10, e11, e20, e21⟩ := idx_facts0 t
  funext j
  obtain ⟨p, q, rfl⟩ : ∃ (p : Fin 5000) (q : Fin 256), j = ix2 p q := ⟨j 0, j 1, eq_ix2 j⟩
  refine (k0_pay1_apply (iblk0 V c 0 t) (iblk0 V c 1 t) p q).trans ?_
  -- the output block's element in the array
  show _ = Cert.Spec.mm16 (V c (Pipeline.arrRef spec0 0)) (V c (Pipeline.arrRef spec0 1))
      (((cfg0.win 2).blk t).view.emb (ix2 p q))
  -- each input block's element is the array's element where the output's rectangle says
  have hA : ∀ k : Fin 16, iblk0 V c 0 t (ix2 p k)
      = V c (Pipeline.arrRef spec0 0) (ix2 (n0 := 100000) (n1 := 16) ((((cfg0.win 2).blk t).view.emb (ix2 p q)) 0) k) := fun k =>
    congrArg (V c (Pipeline.arrRef spec0 0)) (funext fun a => Fin.ext (by
      match a with
      | ⟨0, _⟩ => show win0_0.index t (0 : Fin 2) * 5000 + 1 * p.val = win0_2.index t (0 : Fin 2) * 5000 + 1 * p.val; omega
      | ⟨1, _⟩ => show win0_0.index t (1 : Fin 2) * 16 + 1 * k.val = k.val; omega))
  have hW : ∀ k : Fin 16, iblk0 V c 1 t (ix2 k q)
      = V c (Pipeline.arrRef spec0 1) (ix2 (n0 := 16) (n1 := 256) k ((((cfg0.win 2).blk t).view.emb (ix2 p q)) 1)) := fun k =>
    congrArg (V c (Pipeline.arrRef spec0 1)) (funext fun a => Fin.ext (by
      match a with
      | ⟨0, _⟩ => show win0_1.index t (0 : Fin 2) * 16 + 1 * k.val = k.val; omega
      | ⟨1, _⟩ => show win0_1.index t (1 : Fin 2) * 256 + 1 * q.val = win0_2.index t (1 : Fin 2) * 256 + 1 * q.val; omega))
  unfold Cert.Spec.mm16
  simp only [hA, hW]

/-- An index of the result array is in point t's block iff each coordinate is in the block's range on its axis. -/
theorem mem_blk0 (t : Fin cfg0.N) (i : S100000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v21).slice (win0_2.rect t)).set ↔ _
  rw [View.set_slice_whole, Rect.mem_set_unit]
  exact Iff.rfl

/-- Every index of the result array is in some point's block: row r is in the block of point r / 5000. -/
theorem cover0 (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have ht : (i 0).val / 5000 < cfg0.N := by show (i 0).val / 5000 < 20; omega
  obtain ⟨-, -, -, -, e20, e21⟩ := idx_facts0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, ht⟩ (1 : Fin 2) * 256 ≤ (i 1).val
      ∧ (i 1).val < win0_2.index ⟨(i 0).val / 5000, ht⟩ (1 : Fin 2) * 256 + 256
    rw [e21]; omega

/-- The result array after the region: mm16 of the two operand arrays as the region finds them. -/
theorem arr0_eq (c : Dev nD) :
    (dat0 (F := Ideal) V c).arrAt 2 cfg0.N
      = Cert.Spec.mm16 (V c (Pipeline.arrRef spec0 0)) (V c (Pipeline.arrRef spec0 1)) :=
  (dat0 (F := Ideal) V c).arrAt_eq_of_cover 2 _ (fun t _ => flushed0_eq V c t) cover0

end Cert.KernelIdeal.Frame0

end
-- ==== Proof.KIValue1.lean ====
/- Region 1 of the idealized kernel program, its VALUE: the result array after the region is one function of the
   region's operand arrays as the region finds them — rows times the 64 × 64 weight, plus the bias row, plus the added
   operand, entry by entry over the extended reals (`Cert.Spec.linE`).

   The region writes its result block by block: grid point t handles rows 5000 t … 5000 t + 4999. What point t writes
   back is the body's stored value on the blocks of the four operands at t; read at row p, column q of the block it is
   the spec's entry at row 5000 t + p, column q, because each operand's block sits in its array where the result's
   block does (the row blocks at block index (t, 0), the weight and the bias row whole). The twenty blocks tile the
   array — row r lies in the block of point r / 5000 — so the array ends as the spec's. -/
import proofs.«146189_j40922448396571_2_alg».proof.Proof.KIRegion1Body
import proofs.«146189_j40922448396571_2_alg».proof.Proof.SpecK
import proofs.«146189_j40922448396571_2_alg».proof.Proof.KIValueLin
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frame1

open Cert.KernelIdeal Cert.KernelIdeal.Gen Cert.KernelIdeal.ValLin
open Idealize.ShloMosaic Idealize.ShloMosaic.TcCoe Idealize.ShloMosaic.ValueIdx
open Idealize.ShloMosaic.Pipeline (Dat Cfg Window)

theorem hz : (![0, 0] : Fin 2 → Nat) = fun _ => 0 := funext fun a => by fin_cases a <;> rfl

/-- The printed index maps, decided over the grid: at point t the two row-block inputs and the output are at
    block (t, 0); the weight and the bias row are at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

set_option maxHeartbeats 1000000 in
/-- What point t writes back is block t of linE of the four operand arrays as the region finds them. -/
theorem flushed1_eq (c : Dev nD) (t : Fin cfg1.N) :
    (dat1 (F := Ideal) V c).flushed 4 t
      = ((cfg1.win 4).blk t).view.read (Elt Ideal)
          (Cert.Spec.linE (V c (Pipeline.arrRef spec1 0)) (V c (Pipeline.arrRef spec1 1))
            (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41⟩ := idx_facts1 t
  funext j
  obtain ⟨p, q, rfl⟩ : ∃ (p : Fin 5000) (q : Fin 64), j = ix2 p q := ⟨j 0, j 1, eq_ix2 j⟩
  refine (k1_pay1_apply (iblk1 V c 0 t) (iblk1 V c 1 t) (iblk1 V c 2 t) (iblk1 V c 3 t) p q).trans ?_
  -- the output block's element in the array
  show _ = Cert.Spec.linE (V c (Pipeline.arrRef spec1 0)) (V c (Pipeline.arrRef spec1 1))
      (V c (Pipeline.arrRef spec1 2)) (V c (Pipeline.arrRef spec1 3)) (((cfg1.win 4).blk t).view.emb (ix2 p q))
  -- each input block's element is the array's element where the output's rectangle says
  have hA : ∀ k : Fin 64, iblk1 V c 0 t (ix2 p k)
      = V c (Pipeline.arrRef spec1 0) (ix2 (n0 := 100000) (n1 := 64) ((((cfg1.win 4).blk t).view.emb (ix2 p q)) 0) k) := fun k =>
    congrArg (V c (Pipeline.arrRef spec1 0)) (funext fun a => Fin.ext (by
      match a with
      | ⟨0, _⟩ => show win1_0.index t (0 : Fin 2) * 5000 + 1 * p.val = win1_4.index t (0 : Fin 2) * 5000 + 1 * p.val; omega
      | ⟨1, _⟩ => show win1_0.index t (1 : Fin 2) * 64 + 1 * k.val = k.val; omega))
  have hW : ∀ k : Fin 64, iblk1 V c 1 t (ix2 k q)
      = V c (Pipeline.arrRef spec1 1) (ix2 (n0 := 64) (n1 := 64) k ((((cfg1.win 4).blk t).view.emb (ix2 p q)) 1)) := fun k =>
    congrArg (V c (Pipeline.arrRef spec1 1)) (funext fun a => Fin.ext (by
      match a with
      | ⟨0, _⟩ => show win1_1.index t (0 : Fin 2) * 64 + 1 * k.val = k.val; omega
      | ⟨1, _⟩ => show win1_1.index t (1 : Fin 2) * 64 + 1 * q.val = win1_4.index t (1 : Fin 2) * 64 + 1 * q.val; omega))
  have hB : iblk1 V c 2 t (ix2 (0 : Fin 1) q)
      = V c (Pipeline.arrRef spec1 2) (ix2 (n0 := 1) (n1 := 64) 0 ((((cfg1.win 4).blk t).view.emb (ix2 p q)) 1)) :=
    congrArg (V c (Pipeline.arrRef spec1 2)) (funext fun a => Fin.ext (by
      match a with
      | ⟨0, _⟩ => show win1_2.index t (0 : Fin 2) * 1 + 1 * 0 = 0; omega
      | ⟨1, _⟩ => show win1_2.index t (1 : Fin 2) * 64 + 1 * q.val = win1_4.index t (1 : Fin 2) * 64 + 1 * q.val; omega))
  have hE : iblk1 V c 3 t (ix2 p q)
      = V c (Pipeline.arrRef spec1 3) (((cfg1.win 4).blk t).view.emb (ix2 p q)) :=
    congrArg (V c (Pipeline.arrRef spec1 3)) (funext fun a => Fin.ext (by
      match a with
      | ⟨0, _⟩ => show win1_3.index t (0 : Fin 2) * 5000 + 1 * p.val = win1_4.index t (0 : Fin 2) * 5000 + 1 * p.val; omega
      | ⟨1, _⟩ => show win1_3.index t (1 : Fin 2) * 64 + 1 * q.val = win1_4.index t (1 : Fin 2) * 64 + 1 * q.val; omega))
  unfold Cert.Spec.linE Cert.Spec.linO
  simp only [hA, hW, hB, hE]

/-- An index of the result array is in point t's block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v29).slice (win1_4.rect t)).set ↔ _
  rw [View.set_slice_whole, Rect.mem_set_unit]
  exact Iff.rfl

/-- Every index of the result array is in some point's block: row r is in the block of point r / 5000. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have ht : (i 0).val / 5000 < cfg1.N := by show (i 0).val / 5000 < 20; omega
  obtain ⟨-, -, -, -, -, -, -, -, e40, e41⟩ := idx_facts1 ⟨(i 0).val / 5000, ht⟩
  refine ⟨⟨(i 0).val / 5000, ht⟩, flush1_4 _, ?_⟩
  rw [mem_blk1]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    rw [e41]; omega

/-- The result array after the region: linE of the four operand arrays as the region finds them. -/
theorem arr1_eq (c : Dev nD) :
    (dat1 (F := Ideal) V c).arrAt 4 cfg1.N
      = Cert.Spec.linE (V c (Pipeline.arrRef spec1 0)) (V c (Pipeline.arrRef spec1 1))
          (V c (Pipeline.arrRef spec1 2)) (V c (Pipeline.arrRef spec1 3)) :=
  (dat1 (F := Ideal) V c).arrAt_eq_of_cover 4 _ (fun t _ => flushed1_eq V c t) cover1

end Cert.KernelIdeal.Frame1

end
-- ==== Proof.KIValue2.lean ====
/- What region 2 of the idealized kernel program leaves in its result array, over the extended reals: the whole
   [50000,128] array is ONE function of the region's five operand arrays, index by index — the batch-norm affine map
   followed by the maximum with zero of the specification. The body's payload is read at an index; the block a grid point writes back is the
   block of that function at the point's rows (rows 5000 t … 5000 t + 4999: the row-block operand and the result move
   together, the four parameter rows do not move); the ten blocks cover the array. -/
import proofs.«146189_j40922448396571_2_alg».proof.Proof.KIRegion2Body
import proofs.«146189_j40922448396571_2_alg».proof.Proof.SpecK
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame2

open Cert.KernelIdeal.Gen
open Idealize.ShloMosaic Idealize.ShloMosaic.TcCoe Idealize.ShloMosaic.ValueIdx
open Idealize.ShloMosaic.Pipeline (Dat Cfg Window)

/-- The zero offsets of a whole-buffer rectangle, as a constant function. -/
theorem hz2 : (![0, 0] : Fin 2 → Nat) = fun _ => 0 := funext fun a => by fin_cases a <;> rfl

/-! ## The payload and the output buffer at an index -/

/-- The body's payload at row `p`, lane `q`, from the loaded values (`x0` the rows; `xv` the variance, `xm` the mean,
    `xg` the scale, `xb` the shift, in the order the body loads them): every operation is pointwise or a broadcast of
    a [1,128] row over the 5000 rows. -/
theorem pay2_apply (x0 : Vec Ideal S5000x128 .f32) (xv xm xg xb : Vec Ideal S1x128 .f32) (p : Fin 5000) (q : Fin 128) :
    k2_pay1 (F := Ideal) x0 xv xm xg xb (ix2 p q)
      = max ((((x0 (ix2 p q) - xm (ix2 (0 : Fin 1) q)) * Ideal.rsqrt (xv (ix2 (0 : Fin 1) q) + Cert.Spec.eps)) * xg (ix2 (0 : Fin 1) q))
          + xb (ix2 (0 : Fin 1) q)) Cert.Spec.z := by
  unfold k2_pay1
  simp only [maximumf_apply, addf_apply, mulf_apply, subf_apply, broadcast_apply, Idealize.ShloMosaic.shapeCast_self, broadcastTo_1b_ab_apply]
  rfl

/-- The output staging buffer after the body at row `p`, lane `q`, from the five input blocks in window order
    (`x1` the mean, `x2` the variance). -/
theorem out2_5_apply (x0 : Vec Ideal S5000x128 .f32) (x1 x2 x3 x4 : Vec Ideal S1x128 .f32) (p : Fin 5000) (q : Fin 128) :
    out2_5 x0 x1 x2 x3 x4 (ix2 p q)
      = max ((((x0 (ix2 p q) - x1 (ix2 (0 : Fin 1) q)) * Ideal.rsqrt (x2 (ix2 (0 : Fin 1) q) + Cert.Spec.eps)) * x3 (ix2 (0 : Fin 1) q))
          + x4 (ix2 (0 : Fin 1) q)) Cert.Spec.z := by
  unfold out2_5
  rw [View.canon_unit_zero hz2]
  simp only [View.ld_unit_zero (S := S5000x128) hz2, View.ld_unit_zero (S := S1x128) hz2]
  exact pay2_apply x0 x2 x1 x3 x4 p q

/-- The same against the specification read at an array index `k`: when the row block's entry is the array's at `k`
    and each parameter row's entry is its array's at lane `k 1`. -/
theorem point2_eq (X0 : Vec Ideal S5000x128 .f32) (X1 X2 X3 X4 : Vec Ideal S1x128 .f32)
    (A0 : FVec Ideal Cert.Spec.SM128 .f32) (A1 A2 A3 A4 : FVec Ideal Cert.Spec.S1x128 .f32)
    (p : Fin 5000) (q : Fin 128) (k : Cert.Spec.SM128.Idx)
    (h0 : X0 (ix2 p q) = A0 k)
    (h1 : X1 (ix2 (0 : Fin 1) q) = A1 (ix2 (n0 := 1) (n1 := 128) 0 (k 1)))
    (h2 : X2 (ix2 (0 : Fin 1) q) = A2 (ix2 (n0 := 1) (n1 := 128) 0 (k 1)))
    (h3 : X3 (ix2 (0 : Fin 1) q) = A3 (ix2 (n0 := 1) (n1 := 128) 0 (k 1)))
    (h4 : X4 (ix2 (0 : Fin 1) q) = A4 (ix2 (n0 := 1) (n1 := 128) 0 (k 1))) :
    out2_5 X0 X1 X2 X3 X4 (ix2 p q) = Cert.Spec.bnR2 A0 A1 A2 A3 A4 k := by
  rw [out2_5_apply, h0, h1, h2, h3, h4]
  rfl

/-! ## The index maps, decided once over the grid -/

/-- At point `t` the row-block operand and the result are at block (t, 0); the four parameter rows at block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## The input blocks as entries of the operand arrays -/

section Blocks
variable (V : (c : Dev nD) → (b : Ref sig .tc) → Buf (Elt Ideal) ((c : Thread nD τ).loc b))

/-- The row-block operand's block at point `t`, at `x`, is the array's entry at row `5000 t + x 0`, lane `x 1`. -/
theorem iblk2_0_apply (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c (Pipeline.arrRef spec2 0) : S50000x128.Idx → Elt Ideal .f32) k := by
  obtain ⟨e00, e01, -⟩ := idx_facts2 t
  unfold iblk2
  rw [View.read_apply]
  refine congrArg (V c (Pipeline.arrRef spec2 0) : S50000x128.Idx → Elt Ideal .f32) (funext fun a => Fin.ext ?_)
  match a with
  | ⟨0, _⟩ => show win2_0.index t (0 : Fin 2) * 5000 + 1 * (x 0).val = (k 0).val; rw [e00, hk0]; omega
  | ⟨1, _⟩ => show win2_0.index t (1 : Fin 2) * 128 + 1 * (x 1).val = (k 1).val; rw [e01, hk1]; omega

/-- The mean row's block at any point is the whole [1,128] array: its block index is (0, 0) throughout. -/
theorem iblk2_1_apply (c : Dev nD) (t : Fin cfg2.N) (x : S1x128.Idx) :
    (iblk2 V c 1 t : Vec Ideal S1x128 .f32) x = (V c (Pipeline.arrRef spec2 1) : S1x128.Idx → Elt Ideal .f32) x := by
  obtain ⟨-, -, e10, e11, e20, e21, e30, e31, e40, e41, -, -⟩ := idx_facts2 t
  unfold iblk2
  rw [View.read_apply]
  refine congrArg (V c (Pipeline.arrRef spec2 1) : S1x128.Idx → Elt Ideal .f32) (funext fun a => Fin.ext ?_)
  match a with
  | ⟨0, _⟩ => show win2_1.index t (0 : Fin 2) * 1 + 1 * (x 0).val = (x 0).val; rw [e10]; omega
  | ⟨1, _⟩ => show win2_1.index t (1 : Fin 2) * 128 + 1 * (x 1).val = (x 1).val; rw [e11]; omega

/-- The variance row's block at any point is the whole [1,128] array: its block index is (0, 0) throughout. -/
theorem iblk2_2_apply (c : Dev nD) (t : Fin cfg2.N) (x : S1x128.Idx) :
    (iblk2 V c 2 t : Vec Ideal S1x128 .f32) x = (V c (Pipeline.arrRef spec2 2) : S1x128.Idx → Elt Ideal .f32) x := by
  obtain ⟨-, -, e10, e11, e20, e21, e30, e31, e40, e41, -, -⟩ := idx_facts2 t
  unfold iblk2
  rw [View.read_apply]
  refine congrArg (V c (Pipeline.arrRef spec2 2) : S1x128.Idx → Elt Ideal .f32) (funext fun a => Fin.ext ?_)
  match a with
  | ⟨0, _⟩ => show win2_2.index t (0 : Fin 2) * 1 + 1 * (x 0).val = (x 0).val; rw [e20]; omega
  | ⟨1, _⟩ => show win2_2.index t (1 : Fin 2) * 128 + 1 * (x 1).val = (x 1).val; rw [e21]; omega

/-- The scale row's block at any point is the whole [1,128] array: its block index is (0, 0) throughout. -/
theorem iblk2_3_apply (c : Dev nD) (t : Fin cfg2.N) (x : S1x128.Idx) :
    (iblk2 V c 3 t : Vec Ideal S1x128 .f32) x = (V c (Pipeline.arrRef spec2 3) : S1x128.Idx → Elt Ideal .f32) x := by
  obtain ⟨-, -, e10, e11, e20, e21, e30, e31, e40, e41, -, -⟩ := idx_facts2 t
  unfold iblk2
  rw [View.read_apply]
  refine congrArg (V c (Pipeline.arrRef spec2 3) : S1x128.Idx → Elt Ideal .f32) (funext fun a => Fin.ext ?_)
  match a with
  | ⟨0, _⟩ => show win2_3.index t (0 : Fin 2) * 1 + 1 * (x 0).val = (x 0).val; rw [e30]; omega
  | ⟨1, _⟩ => show win2_3.index t (1 : Fin 2) * 128 + 1 * (x 1).val = (x 1).val; rw [e31]; omega

/-- The shift row's block at any point is the whole [1,128] array: its block index is (0, 0) throughout. -/
theorem iblk2_4_apply (c : Dev nD) (t : Fin cfg2.N) (x : S1x128.Idx) :
    (iblk2 V c 4 t : Vec Ideal S1x128 .f32) x = (V c (Pipeline.arrRef spec2 4) : S1x128.Idx → Elt Ideal .f32) x := by
  obtain ⟨-, -, e10, e11, e20, e21, e30, e31, e40, e41, -, -⟩ := idx_facts2 t
  unfold iblk2
  rw [View.read_apply]
  refine congrArg (V c (Pipeline.arrRef spec2 4) : S1x128.Idx → Elt Ideal .f32) (funext fun a => Fin.ext ?_)
  match a with
  | ⟨0, _⟩ => show win2_4.index t (0 : Fin 2) * 1 + 1 * (x 0).val = (x 0).val; rw [e40]; omega
  | ⟨1, _⟩ => show win2_4.index t (1 : Fin 2) * 128 + 1 * (x 1).val = (x 1).val; rw [e41]; omega

/-! ## What a point writes back, and the whole array -/

/-- WHAT POINT `t` WRITES BACK is block `t` of the specification's function of the five operand arrays as the region
    finds them: the element at row `p`, lane `q` of the block sits at row `5000 t + p`, lane `q` of the array. -/
theorem flushed2_eq (c : Dev nD) (t : Fin cfg2.N) :
    (dat2 (F := Ideal) V c).flushed 5 t = ((cfg2.win 5).blk t).view.read (Elt Ideal)
      (Cert.Spec.bnR2 (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  obtain ⟨-, -, -, -, -, -, -, -, -, -, e50, e51⟩ := idx_facts2 t
  funext j
  rw [View.read_apply]
  have hj0 : (j 0).val < 5000 := (j 0).isLt
  have hj1 : (j 1).val < 128 := (j 1).isLt
  have hx : (cfg2.win 5).xinj (grid2.coords t) j = ix2 (⟨(j 0).val, hj0⟩ : Fin 5000) (⟨(j 1).val, hj1⟩ : Fin 128) :=
    funext fun a => by match a with | ⟨0, _⟩ => rfl | ⟨1, _⟩ => rfl
  show out2_5 (iblk2 V c 0 t) (iblk2 V c 1 t) (iblk2 V c 2 t) (iblk2 V c 3 t) (iblk2 V c 4 t)
      ((cfg2.win 5).xinj (grid2.coords t) j) = _
  rw [hx]
  have hk0 : ((((cfg2.win 5).blk t).view.emb j : S50000x128.Idx) 0).val = 5000 * t.val + (j 0).val := by
    show win2_5.index t (0 : Fin 2) * 5000 + 1 * (j 0).val = _; rw [e50]; omega
  have hk1 : ((((cfg2.win 5).blk t).view.emb j : S50000x128.Idx) 1).val = (j 1).val := by
    show win2_5.index t (1 : Fin 2) * 128 + 1 * (j 1).val = _; rw [e51]; omega
  refine point2_eq _ _ _ _ _ _ _ _ _ _ _ _ (((cfg2.win 5).blk t).view.emb j)
    (iblk2_0_apply V c t _ _ hk0 hk1) ?_ ?_ ?_ ?_
  · refine (iblk2_1_apply V c t _).trans (congrArg _ (funext fun a => Fin.ext ?_))
    match a with | ⟨0, _⟩ => rfl | ⟨1, _⟩ => exact hk1.symm
  · refine (iblk2_2_apply V c t _).trans (congrArg _ (funext fun a => Fin.ext ?_))
    match a with | ⟨0, _⟩ => rfl | ⟨1, _⟩ => exact hk1.symm
  · refine (iblk2_3_apply V c t _).trans (congrArg _ (funext fun a => Fin.ext ?_))
    match a with | ⟨0, _⟩ => rfl | ⟨1, _⟩ => exact hk1.symm
  · refine (iblk2_4_apply V c t _).trans (congrArg _ (funext fun a => Fin.ext ?_))
    match a with | ⟨0, _⟩ => rfl | ⟨1, _⟩ => exact hk1.symm

/-- An index of the result array is in point `t`'s block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v48).slice (win2_5.rect t)).set ↔ _
  rw [View.set_slice_whole, Rect.mem_set_unit]
  exact Iff.rfl

/-- Every index of the result array is in the block of a point that writes back: row `r` is in block `r / 5000`. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := rfl
  let t : Fin cfg2.N := ⟨(i 0).val / 5000, by rw [hN]; omega⟩
  have ht : t.val = (i 0).val / 5000 := rfl
  obtain ⟨-, -, -, -, -, -, -, -, -, -, e50, e51⟩ := idx_facts2 t
  refine ⟨t, flush2_5 t, ?_⟩
  rw [mem_blk2]
  intro a
  match a with
  | ⟨0, _⟩ =>
    show win2_5.index t (0 : Fin 2) * 5000 ≤ (i 0).val ∧ (i 0).val < win2_5.index t (0 : Fin 2) * 5000 + 5000
    rw [e50, ht]; omega
  | ⟨1, _⟩ =>
    show win2_5.index t (1 : Fin 2) * 128 ≤ (i 1).val ∧ (i 1).val < win2_5.index t (1 : Fin 2) * 128 + 128
    rw [e51]; omega

/-- THE RESULT ARRAY after the region: the specification's function of the five operand arrays as the region finds
    them (the rows, the mean, the variance, the scale, the shift). -/
theorem arr2_eq (c : Dev nD) :
    (dat2 (F := Ideal) V c).arrAt 5 cfg2.N
      = Cert.Spec.bnR2 (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 _ (fun t _ => flushed2_eq V c t) (cover2)

end Blocks

end Cert.KernelIdeal.Frame2

end
-- ==== Proof.KIValue3.lean ====
/- Region 3 of the idealized kernel program, its VALUE: the result array after the region is one function of the
   region's operand arrays as the region finds them — rows times the 64 × 64 weight, plus the bias row, plus the added
   operand, entry by entry over the extended reals (`Cert.Spec.linE`).

   The region writes its result block by block: grid point t handles rows 5000 t … 5000 t + 4999. What point t writes
   back is the body's stored value on the blocks of the four operands at t; read at row p, column q of the block it is
   the spec's entry at row 5000 t + p, column q, because each operand's block sits in its array where the result's
   block does (the row blocks at block index (t, 0), the weight and the bias row whole). The twenty blocks tile the
   array — row r lies in the block of point r / 5000 — so the array ends as the spec's. -/
import proofs.«146189_j40922448396571_2_alg».proof.Proof.KIRegion3Body
import proofs.«146189_j40922448396571_2_alg».proof.Proof.SpecK
import proofs.«146189_j40922448396571_2_alg».proof.Proof.KIValueLin
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frame3

open Cert.KernelIdeal Cert.KernelIdeal.Gen Cert.KernelIdeal.ValLin
open Idealize.ShloMosaic Idealize.ShloMosaic.TcCoe Idealize.ShloMosaic.ValueIdx
open Idealize.ShloMosaic.Pipeline (Dat Cfg Window)

theorem hz : (![0, 0] : Fin 2 → Nat) = fun _ => 0 := funext fun a => by fin_cases a <;> rfl

/-- The printed index maps, decided over the grid: at point t the two row-block inputs and the output are at
    block (t, 0); the weight and the bias row are at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

set_option maxHeartbeats 1000000 in
/-- What point t writes back is block t of linE of the four operand arrays as the region finds them. -/
theorem flushed3_eq (c : Dev nD) (t : Fin cfg3.N) :
    (dat3 (F := Ideal) V c).flushed 4 t
      = ((cfg3.win 4).blk t).view.read (Elt Ideal)
          (Cert.Spec.linE (V c (Pipeline.arrRef spec3 0)) (V c (Pipeline.arrRef spec3 1))
            (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41⟩ := idx_facts3 t
  funext j
  obtain ⟨p, q, rfl⟩ : ∃ (p : Fin 5000) (q : Fin 64), j = ix2 p q := ⟨j 0, j 1, eq_ix2 j⟩
  refine (k3_pay1_apply (iblk3 V c 0 t) (iblk3 V c 1 t) (iblk3 V c 2 t) (iblk3 V c 3 t) p q).trans ?_
  -- the output block's element in the array
  show _ = Cert.Spec.linE (V c (Pipeline.arrRef spec3 0)) (V c (Pipeline.arrRef spec3 1))
      (V c (Pipeline.arrRef spec3 2)) (V c (Pipeline.arrRef spec3 3)) (((cfg3.win 4).blk t).view.emb (ix2 p q))
  -- each input block's element is the array's element where the output's rectangle says
  have hA : ∀ k : Fin 64, iblk3 V c 0 t (ix2 p k)
      = V c (Pipeline.arrRef spec3 0) (ix2 (n0 := 100000) (n1 := 64) ((((cfg3.win 4).blk t).view.emb (ix2 p q)) 0) k) := fun k =>
    congrArg (V c (Pipeline.arrRef spec3 0)) (funext fun a => Fin.ext (by
      match a with
      | ⟨0, _⟩ => show win3_0.index t (0 : Fin 2) * 5000 + 1 * p.val = win3_4.index t (0 : Fin 2) * 5000 + 1 * p.val; omega
      | ⟨1, _⟩ => show win3_0.index t (1 : Fin 2) * 64 + 1 * k.val = k.val; omega))
  have hW : ∀ k : Fin 64, iblk3 V c 1 t (ix2 k q)
      = V c (Pipeline.arrRef spec3 1) (ix2 (n0 := 64) (n1 := 64) k ((((cfg3.win 4).blk t).view.emb (ix2 p q)) 1)) := fun k =>
    congrArg (V c (Pipeline.arrRef spec3 1)) (funext fun a => Fin.ext (by
      match a with
      | ⟨0, _⟩ => show win3_1.index t (0 : Fin 2) * 64 + 1 * k.val = k.val; omega
      | ⟨1, _⟩ => show win3_1.index t (1 : Fin 2) * 64 + 1 * q.val = win3_4.index t (1 : Fin 2) * 64 + 1 * q.val; omega))
  have hB : iblk3 V c 2 t (ix2 (0 : Fin 1) q)
      = V c (Pipeline.arrRef spec3 2) (ix2 (n0 := 1) (n1 := 64) 0 ((((cfg3.win 4).blk t).view.emb (ix2 p q)) 1)) :=
    congrArg (V c (Pipeline.arrRef spec3 2)) (funext fun a => Fin.ext (by
      match a with
      | ⟨0, _⟩ => show win3_2.index t (0 : Fin 2) * 1 + 1 * 0 = 0; omega
      | ⟨1, _⟩ => show win3_2.index t (1 : Fin 2) * 64 + 1 * q.val = win3_4.index t (1 : Fin 2) * 64 + 1 * q.val; omega))
  have hE : iblk3 V c 3 t (ix2 p q)
      = V c (Pipeline.arrRef spec3 3) (((cfg3.win 4).blk t).view.emb (ix2 p q)) :=
    congrArg (V c (Pipeline.arrRef spec3 3)) (funext fun a => Fin.ext (by
      match a with
      | ⟨0, _⟩ => show win3_3.index t (0 : Fin 2) * 5000 + 1 * p.val = win3_4.index t (0 : Fin 2) * 5000 + 1 * p.val; omega
      | ⟨1, _⟩ => show win3_3.index t (1 : Fin 2) * 64 + 1 * q.val = win3_4.index t (1 : Fin 2) * 64 + 1 * q.val; omega))
  unfold Cert.Spec.linE Cert.Spec.linO
  simp only [hA, hW, hB, hE]

/-- An index of the result array is in point t's block iff each coordinate is in the block's range on its axis. -/
theorem mem_blk3 (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v66).slice (win3_4.rect t)).set ↔ _
  rw [View.set_slice_whole, Rect.mem_set_unit]
  exact Iff.rfl

/-- Every index of the result array is in some point's block: row r is in the block of point r / 5000. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have ht : (i 0).val / 5000 < cfg3.N := by show (i 0).val / 5000 < 20; omega
  obtain ⟨-, -, -, -, -, -, -, -, e40, e41⟩ := idx_facts3 ⟨(i 0).val / 5000, ht⟩
  refine ⟨⟨(i 0).val / 5000, ht⟩, flush3_4 _, ?_⟩
  rw [mem_blk3]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win3_4.index ⟨(i 0).val / 5000, ht⟩ (1 : Fin 2) * 64 ≤ (i 1).val
      ∧ (i 1).val < win3_4.index ⟨(i 0).val / 5000, ht⟩ (1 : Fin 2) * 64 + 64
    rw [e41]; omega

/-- The result array after the region: linE of the four operand arrays as the region finds them. -/
theorem arr3_eq (c : Dev nD) :
    (dat3 (F := Ideal) V c).arrAt 4 cfg3.N
      = Cert.Spec.linE (V c (Pipeline.arrRef spec3 0)) (V c (Pipeline.arrRef spec3 1))
          (V c (Pipeline.arrRef spec3 2)) (V c (Pipeline.arrRef spec3 3)) :=
  (dat3 (F := Ideal) V c).arrAt_eq_of_cover 4 _ (fun t _ => flushed3_eq V c t) cover3

end Cert.KernelIdeal.Frame3

end
-- ==== Proof.KIValue4.lean ====
/- What region 4 of the idealized kernel program leaves in its result array, over the extended reals: the whole
   [50000,128] array is ONE function of the region's five operand arrays, index by index — the batch-norm affine map
   followed by the maximum with zero of the specification. The body's payload is read at an index; the block a grid point writes back is the
   block of that function at the point's rows (rows 5000 t … 5000 t + 4999: the row-block operand and the result move
   together, the four parameter rows do not move); the ten blocks cover the array. -/
import proofs.«146189_j40922448396571_2_alg».proof.Proof.KIRegion4Body
import proofs.«146189_j40922448396571_2_alg».proof.Proof.SpecK
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame4

open Cert.KernelIdeal.Gen
open Idealize.ShloMosaic Idealize.ShloMosaic.TcCoe Idealize.ShloMosaic.ValueIdx
open Idealize.ShloMosaic.Pipeline (Dat Cfg Window)

/-- The zero offsets of a whole-buffer rectangle, as a constant function. -/
theorem hz4 : (![0, 0] : Fin 2 → Nat) = fun _ => 0 := funext fun a => by fin_cases a <;> rfl

/-! ## The payload and the output buffer at an index -/

/-- The body's payload at row `p`, lane `q`, from the loaded values (`x0` the rows; `xv` the variance, `xm` the mean,
    `xg` the scale, `xb` the shift, in the order the body loads them): every operation is pointwise or a broadcast of
    a [1,128] row over the 5000 rows. -/
theorem pay4_apply (x0 : Vec Ideal S5000x128 .f32) (xv xm xg xb : Vec Ideal S1x128 .f32) (p : Fin 5000) (q : Fin 128) :
    k4_pay1 (F := Ideal) x0 xv xm xg xb (ix2 p q)
      = max ((((x0 (ix2 p q) - xm (ix2 (0 : Fin 1) q)) * Ideal.rsqrt (xv (ix2 (0 : Fin 1) q) + Cert.Spec.eps)) * xg (ix2 (0 : Fin 1) q))
          + xb (ix2 (0 : Fin 1) q)) Cert.Spec.z := by
  unfold k4_pay1
  simp only [maximumf_apply, addf_apply, mulf_apply, subf_apply, broadcast_apply, Idealize.ShloMosaic.shapeCast_self, broadcastTo_1b_ab_apply]
  rfl

/-- The output staging buffer after the body at row `p`, lane `q`, from the five input blocks in window order
    (`x1` the mean, `x2` the variance). -/
theorem out4_5_apply (x0 : Vec Ideal S5000x128 .f32) (x1 x2 x3 x4 : Vec Ideal S1x128 .f32) (p : Fin 5000) (q : Fin 128) :
    out4_5 x0 x1 x2 x3 x4 (ix2 p q)
      = max ((((x0 (ix2 p q) - x1 (ix2 (0 : Fin 1) q)) * Ideal.rsqrt (x2 (ix2 (0 : Fin 1) q) + Cert.Spec.eps)) * x3 (ix2 (0 : Fin 1) q))
          + x4 (ix2 (0 : Fin 1) q)) Cert.Spec.z := by
  unfold out4_5
  rw [View.canon_unit_zero hz4]
  simp only [View.ld_unit_zero (S := S5000x128) hz4, View.ld_unit_zero (S := S1x128) hz4]
  exact pay4_apply x0 x2 x1 x3 x4 p q

/-- The same against the specification read at an array index `k`: when the row block's entry is the array's at `k`
    and each parameter row's entry is its array's at lane `k 1`. -/
theorem point4_eq (X0 : Vec Ideal S5000x128 .f32) (X1 X2 X3 X4 : Vec Ideal S1x128 .f32)
    (A0 : FVec Ideal Cert.Spec.SM128 .f32) (A1 A2 A3 A4 : FVec Ideal Cert.Spec.S1x128 .f32)
    (p : Fin 5000) (q : Fin 128) (k : Cert.Spec.SM128.Idx)
    (h0 : X0 (ix2 p q) = A0 k)
    (h1 : X1 (ix2 (0 : Fin 1) q) = A1 (ix2 (n0 := 1) (n1 := 128) 0 (k 1)))
    (h2 : X2 (ix2 (0 : Fin 1) q) = A2 (ix2 (n0 := 1) (n1 := 128) 0 (k 1)))
    (h3 : X3 (ix2 (0 : Fin 1) q) = A3 (ix2 (n0 := 1) (n1 := 128) 0 (k 1)))
    (h4 : X4 (ix2 (0 : Fin 1) q) = A4 (ix2 (n0 := 1) (n1 := 128) 0 (k 1))) :
    out4_5 X0 X1 X2 X3 X4 (ix2 p q) = Cert.Spec.bnR2 A0 A1 A2 A3 A4 k := by
  rw [out4_5_apply, h0, h1, h2, h3, h4]
  rfl

/-! ## The index maps, decided once over the grid -/

/-- At point `t` the row-block operand and the result are at block (t, 0); the four parameter rows at block (0, 0). -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-! ## The input blocks as entries of the operand arrays -/

section Blocks
variable (V : (c : Dev nD) → (b : Ref sig .tc) → Buf (Elt Ideal) ((c : Thread nD τ).loc b))

/-- The row-block operand's block at point `t`, at `x`, is the array's entry at row `5000 t + x 0`, lane `x 1`. -/
theorem iblk4_0_apply (c : Dev nD) (t : Fin cfg4.N) (x : S5000x128.Idx) (k : S50000x128.Idx)
    (hk0 : (k 0).val = 5000 * t.val + (x 0).val) (hk1 : (k 1).val = (x 1).val) :
    (iblk4 V c 0 t : Vec Ideal S5000x128 .f32) x = (V c (Pipeline.arrRef spec4 0) : S50000x128.Idx → Elt Ideal .f32) k := by
  obtain ⟨e00, e01, -⟩ := idx_facts4 t
  unfold iblk4
  rw [View.read_apply]
  refine congrArg (V c (Pipeline.arrRef spec4 0) : S50000x128.Idx → Elt Ideal .f32) (funext fun a => Fin.ext ?_)
  match a with
  | ⟨0, _⟩ => show win4_0.index t (0 : Fin 2) * 5000 + 1 * (x 0).val = (k 0).val; rw [e00, hk0]; omega
  | ⟨1, _⟩ => show win4_0.index t (1 : Fin 2) * 128 + 1 * (x 1).val = (k 1).val; rw [e01, hk1]; omega

/-- The mean row's block at any point is the whole [1,128] array: its block index is (0, 0) throughout. -/
theorem iblk4_1_apply (c : Dev nD) (t : Fin cfg4.N) (x : S1x128.Idx) :
    (iblk4 V c 1 t : Vec Ideal S1x128 .f32) x = (V c (Pipeline.arrRef spec4 1) : S1x128.Idx → Elt Ideal .f32) x := by
  obtain ⟨-, -, e10, e11, e20, e21, e30, e31, e40, e41, -, -⟩ := idx_facts4 t
  unfold iblk4
  rw [View.read_apply]
  refine congrArg (V c (Pipeline.arrRef spec4 1) : S1x128.Idx → Elt Ideal .f32) (funext fun a => Fin.ext ?_)
  match a with
  | ⟨0, _⟩ => show win4_1.index t (0 : Fin 2) * 1 + 1 * (x 0).val = (x 0).val; rw [e10]; omega
  | ⟨1, _⟩ => show win4_1.index t (1 : Fin 2) * 128 + 1 * (x 1).val = (x 1).val; rw [e11]; omega

/-- The variance row's block at any point is the whole [1,128] array: its block index is (0, 0) throughout. -/
theorem iblk4_2_apply (c : Dev nD) (t : Fin cfg4.N) (x : S1x128.Idx) :
    (iblk4 V c 2 t : Vec Ideal S1x128 .f32) x = (V c (Pipeline.arrRef spec4 2) : S1x128.Idx → Elt Ideal .f32) x := by
  obtain ⟨-, -, e10, e11, e20, e21, e30, e31, e40, e41, -, -⟩ := idx_facts4 t
  unfold iblk4
  rw [View.read_apply]
  refine congrArg (V c (Pipeline.arrRef spec4 2) : S1x128.Idx → Elt Ideal .f32) (funext fun a => Fin.ext ?_)
  match a with
  | ⟨0, _⟩ => show win4_2.index t (0 : Fin 2) * 1 + 1 * (x 0).val = (x 0).val; rw [e20]; omega
  | ⟨1, _⟩ => show win4_2.index t (1 : Fin 2) * 128 + 1 * (x 1).val = (x 1).val; rw [e21]; omega

/-- The scale row's block at any point is the whole [1,128] array: its block index is (0, 0) throughout. -/
theorem iblk4_3_apply (c : Dev nD) (t : Fin cfg4.N) (x : S1x128.Idx) :
    (iblk4 V c 3 t : Vec Ideal S1x128 .f32) x = (V c (Pipeline.arrRef spec4 3) : S1x128.Idx → Elt Ideal .f32) x := by
  obtain ⟨-, -, e10, e11, e20, e21, e30, e31, e40, e41, -, -⟩ := idx_facts4 t
  unfold iblk4
  rw [View.read_apply]
  refine congrArg (V c (Pipeline.arrRef spec4 3) : S1x128.Idx → Elt Ideal .f32) (funext fun a => Fin.ext ?_)
  match a with
  | ⟨0, _⟩ => show win4_3.index t (0 : Fin 2) * 1 + 1 * (x 0).val = (x 0).val; rw [e30]; omega
  | ⟨1, _⟩ => show win4_3.index t (1 : Fin 2) * 128 + 1 * (x 1).val = (x 1).val; rw [e31]; omega

/-- The shift row's block at any point is the whole [1,128] array: its block index is (0, 0) throughout. -/
theorem iblk4_4_apply (c : Dev nD) (t : Fin cfg4.N) (x : S1x128.Idx) :
    (iblk4 V c 4 t : Vec Ideal S1x128 .f32) x = (V c (Pipeline.arrRef spec4 4) : S1x128.Idx → Elt Ideal .f32) x := by
  obtain ⟨-, -, e10, e11, e20, e21, e30, e31, e40, e41, -, -⟩ := idx_facts4 t
  unfold iblk4
  rw [View.read_apply]
  refine congrArg (V c (Pipeline.arrRef spec4 4) : S1x128.Idx → Elt Ideal .f32) (funext fun a => Fin.ext ?_)
  match a with
  | ⟨0, _⟩ => show win4_4.index t (0 : Fin 2) * 1 + 1 * (x 0).val = (x 0).val; rw [e40]; omega
  | ⟨1, _⟩ => show win4_4.index t (1 : Fin 2) * 128 + 1 * (x 1).val = (x 1).val; rw [e41]; omega

/-! ## What a point writes back, and the whole array -/

/-- WHAT POINT `t` WRITES BACK is block `t` of the specification's function of the five operand arrays as the region
    finds them: the element at row `p`, lane `q` of the block sits at row `5000 t + p`, lane `q` of the array. -/
theorem flushed4_eq (c : Dev nD) (t : Fin cfg4.N) :
    (dat4 (F := Ideal) V c).flushed 5 t = ((cfg4.win 5).blk t).view.read (Elt Ideal)
      (Cert.Spec.bnR2 (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  obtain ⟨-, -, -, -, -, -, -, -, -, -, e50, e51⟩ := idx_facts4 t
  funext j
  rw [View.read_apply]
  have hj0 : (j 0).val < 5000 := (j 0).isLt
  have hj1 : (j 1).val < 128 := (j 1).isLt
  have hx : (cfg4.win 5).xinj (grid4.coords t) j = ix2 (⟨(j 0).val, hj0⟩ : Fin 5000) (⟨(j 1).val, hj1⟩ : Fin 128) :=
    funext fun a => by match a with | ⟨0, _⟩ => rfl | ⟨1, _⟩ => rfl
  show out4_5 (iblk4 V c 0 t) (iblk4 V c 1 t) (iblk4 V c 2 t) (iblk4 V c 3 t) (iblk4 V c 4 t)
      ((cfg4.win 5).xinj (grid4.coords t) j) = _
  rw [hx]
  have hk0 : ((((cfg4.win 5).blk t).view.emb j : S50000x128.Idx) 0).val = 5000 * t.val + (j 0).val := by
    show win4_5.index t (0 : Fin 2) * 5000 + 1 * (j 0).val = _; rw [e50]; omega
  have hk1 : ((((cfg4.win 5).blk t).view.emb j : S50000x128.Idx) 1).val = (j 1).val := by
    show win4_5.index t (1 : Fin 2) * 128 + 1 * (j 1).val = _; rw [e51]; omega
  refine point4_eq _ _ _ _ _ _ _ _ _ _ _ _ (((cfg4.win 5).blk t).view.emb j)
    (iblk4_0_apply V c t _ _ hk0 hk1) ?_ ?_ ?_ ?_
  · refine (iblk4_1_apply V c t _).trans (congrArg _ (funext fun a => Fin.ext ?_))
    match a with | ⟨0, _⟩ => rfl | ⟨1, _⟩ => exact hk1.symm
  · refine (iblk4_2_apply V c t _).trans (congrArg _ (funext fun a => Fin.ext ?_))
    match a with | ⟨0, _⟩ => rfl | ⟨1, _⟩ => exact hk1.symm
  · refine (iblk4_3_apply V c t _).trans (congrArg _ (funext fun a => Fin.ext ?_))
    match a with | ⟨0, _⟩ => rfl | ⟨1, _⟩ => exact hk1.symm
  · refine (iblk4_4_apply V c t _).trans (congrArg _ (funext fun a => Fin.ext ?_))
    match a with | ⟨0, _⟩ => rfl | ⟨1, _⟩ => exact hk1.symm

/-- An index of the result array is in point `t`'s block iff each coordinate is in the block's range on its axis. -/
theorem mem_blk4 (t : Fin cfg4.N) (i : S50000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v89).slice (win4_5.rect t)).set ↔ _
  rw [View.set_slice_whole, Rect.mem_set_unit]
  exact Iff.rfl

/-- Every index of the result array is in the block of a point that writes back: row `r` is in block `r / 5000`. -/
theorem cover4 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 10 := rfl
  let t : Fin cfg4.N := ⟨(i 0).val / 5000, by rw [hN]; omega⟩
  have ht : t.val = (i 0).val / 5000 := rfl
  obtain ⟨-, -, -, -, -, -, -, -, -, -, e50, e51⟩ := idx_facts4 t
  refine ⟨t, flush4_5 t, ?_⟩
  rw [mem_blk4]
  intro a
  match a with
  | ⟨0, _⟩ =>
    show win4_5.index t (0 : Fin 2) * 5000 ≤ (i 0).val ∧ (i 0).val < win4_5.index t (0 : Fin 2) * 5000 + 5000
    rw [e50, ht]; omega
  | ⟨1, _⟩ =>
    show win4_5.index t (1 : Fin 2) * 128 ≤ (i 1).val ∧ (i 1).val < win4_5.index t (1 : Fin 2) * 128 + 128
    rw [e51]; omega

/-- THE RESULT ARRAY after the region: the specification's function of the five operand arrays as the region finds
    them (the rows, the mean, the variance, the scale, the shift). -/
theorem arr4_eq (c : Dev nD) :
    (dat4 (F := Ideal) V c).arrAt 5 cfg4.N
      = Cert.Spec.bnR2 (V c (Pipeline.arrRef spec4 0)) (V c (Pipeline.arrRef spec4 1)) (V c (Pipeline.arrRef spec4 2))
          (V c (Pipeline.arrRef spec4 3)) (V c (Pipeline.arrRef spec4 4)) :=
  (dat4 (F := Ideal) V c).arrAt_eq_of_cover 5 _ (fun t _ => flushed4_eq V c t) (cover4)

end Blocks

end Cert.KernelIdeal.Frame4

end
-- ==== Proof.KIValue5.lean ====
/- Region 5 of the idealized kernel program, its VALUE: the result array after the region is one function of the
   region's operand arrays as the region finds them — rows times the 64 × 64 weight, plus the bias row, plus the added
   operand, entry by entry over the extended reals (`Cert.Spec.linE`).

   The region writes its result block by block: grid point t handles rows 5000 t … 5000 t + 4999. What point t writes
   back is the body's stored value on the blocks of the four operands at t; read at row p, column q of the block it is
   the spec's entry at row 5000 t + p, column q, because each operand's block sits in its array where the result's
   block does (the row blocks at block index (t, 0), the weight and the bias row whole). The twenty blocks tile the
   array — row r lies in the block of point r / 5000 — so the array ends as the spec's. -/
import proofs.«146189_j40922448396571_2_alg».proof.Proof.KIRegion5Body
import proofs.«146189_j40922448396571_2_alg».proof.Proof.SpecK
import proofs.«146189_j40922448396571_2_alg».proof.Proof.KIValueLin
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frame5

open Cert.KernelIdeal Cert.KernelIdeal.Gen Cert.KernelIdeal.ValLin
open Idealize.ShloMosaic Idealize.ShloMosaic.TcCoe Idealize.ShloMosaic.ValueIdx
open Idealize.ShloMosaic.Pipeline (Dat Cfg Window)

theorem hz : (![0, 0] : Fin 2 → Nat) = fun _ => 0 := funext fun a => by fin_cases a <;> rfl

/-- The printed index maps, decided over the grid: at point t the two row-block inputs and the output are at
    block (t, 0); the weight and the bias row are at block (0, 0). -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

variable (V : (c : Dev nD) → (b : Ref sig .tc) → Buf (Elt Ideal) ((c : Thread nD τ).loc b))

set_option maxHeartbeats 1000000 in
/-- What point t writes back is block t of linE of the four operand arrays as the region finds them. -/
theorem flushed5_eq (c : Dev nD) (t : Fin cfg5.N) :
    (dat5 (F := Ideal) V c).flushed 4 t
      = ((cfg5.win 4).blk t).view.read (Elt Ideal)
          (Cert.Spec.linE (V c (Pipeline.arrRef spec5 0)) (V c (Pipeline.arrRef spec5 1))
            (V c (Pipeline.arrRef spec5 2)) (V c (Pipeline.arrRef spec5 3))) := by
  show (cfg5.win 4).cut (grid5.coords t) ((dat5 V c).after 4 t) = _
  rw [after5_4]
  unfold out5_4
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41⟩ := idx_facts5 t
  funext j
  obtain ⟨p, q, rfl⟩ : ∃ (p : Fin 5000) (q : Fin 64), j = ix2 p q := ⟨j 0, j 1, eq_ix2 j⟩
  refine (k5_pay1_apply (iblk5 V c 0 t) (iblk5 V c 1 t) (iblk5 V c 2 t) (iblk5 V c 3 t) p q).trans ?_
  -- the output block's element in the array
  show _ = Cert.Spec.linE (V c (Pipeline.arrRef spec5 0)) (V c (Pipeline.arrRef spec5 1))
      (V c (Pipeline.arrRef spec5 2)) (V c (Pipeline.arrRef spec5 3)) (((cfg5.win 4).blk t).view.emb (ix2 p q))
  -- each input block's element is the array's element where the output's rectangle says
  have hA : ∀ k : Fin 64, iblk5 V c 0 t (ix2 p k)
      = V c (Pipeline.arrRef spec5 0) (ix2 (n0 := 100000) (n1 := 64) ((((cfg5.win 4).blk t).view.emb (ix2 p q)) 0) k) := fun k =>
    congrArg (V c (Pipeline.arrRef spec5 0)) (funext fun a => Fin.ext (by
      match a with
      | ⟨0, _⟩ => show win5_0.index t (0 : Fin 2) * 5000 + 1 * p.val = win5_4.index t (0 : Fin 2) * 5000 + 1 * p.val; omega
      | ⟨1, _⟩ => show win5_0.index t (1 : Fin 2) * 64 + 1 * k.val = k.val; omega))
  have hW : ∀ k : Fin 64, iblk5 V c 1 t (ix2 k q)
      = V c (Pipeline.arrRef spec5 1) (ix2 (n0 := 64) (n1 := 64) k ((((cfg5.win 4).blk t).view.emb (ix2 p q)) 1)) := fun k =>
    congrArg (V c (Pipeline.arrRef spec5 1)) (funext fun a => Fin.ext (by
      match a with
      | ⟨0, _⟩ => show win5_1.index t (0 : Fin 2) * 64 + 1 * k.val = k.val; omega
      | ⟨1, _⟩ => show win5_1.index t (1 : Fin 2) * 64 + 1 * q.val = win5_4.index t (1 : Fin 2) * 64 + 1 * q.val; omega))
  have hB : iblk5 V c 2 t (ix2 (0 : Fin 1) q)
      = V c (Pipeline.arrRef spec5 2) (ix2 (n0 := 1) (n1 := 64) 0 ((((cfg5.win 4).blk t).view.emb (ix2 p q)) 1)) :=
    congrArg (V c (Pipeline.arrRef spec5 2)) (funext fun a => Fin.ext (by
      match a with
      | ⟨0, _⟩ => show win5_2.index t (0 : Fin 2) * 1 + 1 * 0 = 0; omega
      | ⟨1, _⟩ => show win5_2.index t (1 : Fin 2) * 64 + 1 * q.val = win5_4.index t (1 : Fin 2) * 64 + 1 * q.val; omega))
  have hE : iblk5 V c 3 t (ix2 p q)
      = V c (Pipeline.arrRef spec5 3) (((cfg5.win 4).blk t).view.emb (ix2 p q)) :=
    congrArg (V c (Pipeline.arrRef spec5 3)) (funext fun a => Fin.ext (by
      match a with
      | ⟨0, _⟩ => show win5_3.index t (0 : Fin 2) * 5000 + 1 * p.val = win5_4.index t (0 : Fin 2) * 5000 + 1 * p.val; omega
      | ⟨1, _⟩ => show win5_3.index t (1 : Fin 2) * 64 + 1 * q.val = win5_4.index t (1 : Fin 2) * 64 + 1 * q.val; omega))
  unfold Cert.Spec.linE Cert.Spec.linO
  simp only [hA, hW, hB, hE]

/-- An index of the result array is in point t's block iff each coordinate is in the block's range on its axis. -/
theorem mem_blk5 (t : Fin cfg5.N) (i : S100000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v96).slice (win5_4.rect t)).set ↔ _
  rw [View.set_slice_whole, Rect.mem_set_unit]
  exact Iff.rfl

/-- Every index of the result array is in some point's block: row r is in the block of point r / 5000. -/
theorem cover5 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have ht : (i 0).val / 5000 < cfg5.N := by show (i 0).val / 5000 < 20; omega
  obtain ⟨-, -, -, -, -, -, -, -, e40, e41⟩ := idx_facts5 ⟨(i 0).val / 5000, ht⟩
  refine ⟨⟨(i 0).val / 5000, ht⟩, flush5_4 _, ?_⟩
  rw [mem_blk5]
  intro a
  match a with
  | ⟨0, _⟩ =>
    show win5_4.index ⟨(i 0).val / 5000, ht⟩ (0 : Fin 2) * 5000 ≤ (i 0).val
      ∧ (i 0).val < win5_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win5_4.index ⟨(i 0).val / 5000, ht⟩ (1 : Fin 2) * 64 ≤ (i 1).val
      ∧ (i 1).val < win5_4.index ⟨(i 0).val / 5000, ht⟩ (1 : Fin 2) * 64 + 64
    rw [e41]; omega

/-- The result array after the region: linE of the four operand arrays as the region finds them. -/
theorem arr5_eq (c : Dev nD) :
    (dat5 (F := Ideal) V c).arrAt 4 cfg5.N
      = Cert.Spec.linE (V c (Pipeline.arrRef spec5 0)) (V c (Pipeline.arrRef spec5 1))
          (V c (Pipeline.arrRef spec5 2)) (V c (Pipeline.arrRef spec5 3)) :=
  (dat5 (F := Ideal) V c).arrAt_eq_of_cover 4 _ (fun t _ => flushed5_eq V c t) cover5

end Cert.KernelIdeal.Frame5

end
-- ==== Proof.KIValue6.lean ====
/- What region 6 of the idealized kernel program leaves in its result array, over the extended reals: the whole
   [50000,128] array is ONE function of the region's five operand arrays, index by index — the batch-norm affine map
   followed by the maximum with zero of the specification. The body's payload is read at an index; the block a grid point writes back is the
   block of that function at the point's rows (rows 5000 t … 5000 t + 4999: the row-block operand and the result move
   together, the four parameter rows do not move); the ten blocks cover the array. -/
import proofs.«146189_j40922448396571_2_alg».proof.Proof.KIRegion6Body
import proofs.«146189_j40922448396571_2_alg».proof.Proof.SpecK
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame6

open Cert.KernelIdeal.Gen
open Idealize.ShloMosaic Idealize.ShloMosaic.TcCoe Idealize.ShloMosaic.ValueIdx
open Idealize.ShloMosaic.Pipeline (Dat Cfg Window)

/-- The zero offsets of a whole-buffer rectangle, as a constant function. -/
theorem hz6 : (![0, 0] : Fin 2 → Nat) = fun _ => 0 := funext fun a => by fin_cases a <;> rfl

/-! ## The payload and the output buffer at an index -/

/-- The body's payload at row `p`, lane `q`, from the loaded values (`x0` the rows; `xv` the variance, `xm` the mean,
    `xg` the scale, `xb` the shift, in the order the body loads them): every operation is pointwise or a broadcast of
    a [1,128] row over the 5000 rows. -/
theorem pay6_apply (x0 : Vec Ideal S5000x128 .f32) (xv xm xg xb : Vec Ideal S1x128 .f32) (p : Fin 5000) (q : Fin 128) :
    k6_pay1 (F := Ideal) x0 xv xm xg xb (ix2 p q)
      = max ((((x0 (ix2 p q) - xm (ix2 (0 : Fin 1) q)) * Ideal.rsqrt (xv (ix2 (0 : Fin 1) q) + Cert.Spec.eps)) * xg (ix2 (0 : Fin 1) q))
          + xb (ix2 (0 : Fin 1) q)) Cert.Spec.z := by
  unfold k6_pay1
  simp only [maximumf_apply, addf_apply, mulf_apply, subf_apply, broadcast_apply, Idealize.ShloMosaic.shapeCast_self, broadcastTo_1b_ab_apply]
  rfl

/-- The output staging buffer after the body at row `p`, lane `q`, from the five input blocks in window order
    (`x1` the mean, `x2` the variance). -/
theorem out6_5_apply (x0 : Vec Ideal S5000x128 .f32) (x1 x2 x3 x4 : Vec Ideal S1x128 .f32) (p : Fin 5000) (q : Fin 128) :
    out6_5 x0 x1 x2 x3 x4 (ix2 p q)
      = max ((((x0 (ix2 p q) - x1 (ix2 (0 : Fin 1) q)) * Ideal.rsqrt (x2 (ix2 (0 : Fin 1) q) + Cert.Spec.eps)) * x3 (ix2 (0 : Fin 1) q))
          + x4 (ix2 (0 : Fin 1) q)) Cert.Spec.z := by
  unfold out6_5
  rw [View.canon_unit_zero hz6]
  simp only [View.ld_unit_zero (S := S5000x128) hz6, View.ld_unit_zero (S := S1x128) hz6]
  exact pay6_apply x0 x2 x1 x3 x4 p q

/-- The same against the specification read at an array index `k`: when the row block's entry is the array's at `k`
    and each parameter row's entry is its array's at lane `k 1`. -/
theorem point6_eq (X0 : Vec Ideal S5000x128 .f32) (X1 X2 X3 X4 : Vec Ideal S1x128 .f32)
    (A0 : FVec Ideal Cert.Spec.SM128 .f32) (A1 A2 A3 A4 : FVec Ideal Cert.Spec.S1x128 .f32)
    (p : Fin 5000) (q : Fin 128) (k : Cert.Spec.SM128.Idx)
    (h0 : X0 (ix2 p q) = A0 k)
    (h1 : X1 (ix2 (0 : Fin 1) q) = A1 (ix2 (n0 := 1) (n1 := 128) 0 (k 1)))
    (h2 : X2 (ix2 (0 : Fin 1) q) = A2 (ix2 (n0 := 1) (n1 := 128) 0 (k 1)))
    (h3 : X3 (ix2 (0 : Fin 1) q) = A3 (ix2 (n0 := 1) (n1 := 128) 0 (k 1)))
    (h4 : X4 (ix2 (0 : Fin 1) q) = A4 (ix2 (n0 := 1) (n1 := 128) 0 (k 1))) :
    out6_5 X0 X1 X2 X3 X4 (ix2 p q) = Cert.Spec.bnR2 A0 A1 A2 A3 A4 k := by
  rw [out6_5_apply, h0, h1, h2, h3, h4]
  rfl

/-! ## The index maps, decided once over the grid -/

/-- At point `t` the row-block operand and the result are at block (t, 0); the four parameter rows at block (0, 0). -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-! ## The input blocks as entries of the operand arrays -/

section Blocks
variable (V : (c : Dev nD) → (b : Ref sig .tc) → Buf (Elt Ideal) ((c : Thread nD τ).loc b))

/-- The row-block operand's block at point `t`, at `x`, is the array's entry at row `5000 t + x 0`, lane `x 1`. -/
theorem iblk6_0_apply (c : Dev nD) (t : Fin cfg6.N) (x : S5000x128.Idx) (k : S50000x128.Idx)
    (hk0 : (k 0).val = 5000 * t.val + (x 0).val) (hk1 : (k 1).val = (x 1).val) :
    (iblk6 V c 0 t : Vec Ideal S5000x128 .f32) x = (V c (Pipeline.arrRef spec6 0) : S50000x128.Idx → Elt Ideal .f32) k := by
  obtain ⟨e00, e01, -⟩ := idx_facts6 t
  unfold iblk6
  rw [View.read_apply]
  refine congrArg (V c (Pipeline.arrRef spec6 0) : S50000x128.Idx → Elt Ideal .f32) (funext fun a => Fin.ext ?_)
  match a with
  | ⟨0, _⟩ => show win6_0.index t (0 : Fin 2) * 5000 + 1 * (x 0).val = (k 0).val; rw [e00, hk0]; omega
  | ⟨1, _⟩ => show win6_0.index t (1 : Fin 2) * 128 + 1 * (x 1).val = (k 1).val; rw [e01, hk1]; omega

/-- The mean row's block at any point is the whole [1,128] array: its block index is (0, 0) throughout. -/
theorem iblk6_1_apply (c : Dev nD) (t : Fin cfg6.N) (x : S1x128.Idx) :
    (iblk6 V c 1 t : Vec Ideal S1x128 .f32) x = (V c (Pipeline.arrRef spec6 1) : S1x128.Idx → Elt Ideal .f32) x := by
  obtain ⟨-, -, e10, e11, e20, e21, e30, e31, e40, e41, -, -⟩ := idx_facts6 t
  unfold iblk6
  rw [View.read_apply]
  refine congrArg (V c (Pipeline.arrRef spec6 1) : S1x128.Idx → Elt Ideal .f32) (funext fun a => Fin.ext ?_)
  match a with
  | ⟨0, _⟩ => show win6_1.index t (0 : Fin 2) * 1 + 1 * (x 0).val = (x 0).val; rw [e10]; omega
  | ⟨1, _⟩ => show win6_1.index t (1 : Fin 2) * 128 + 1 * (x 1).val = (x 1).val; rw [e11]; omega

/-- The variance row's block at any point is the whole [1,128] array: its block index is (0, 0) throughout. -/
theorem iblk6_2_apply (c : Dev nD) (t : Fin cfg6.N) (x : S1x128.Idx) :
    (iblk6 V c 2 t : Vec Ideal S1x128 .f32) x = (V c (Pipeline.arrRef spec6 2) : S1x128.Idx → Elt Ideal .f32) x := by
  obtain ⟨-, -, e10, e11, e20, e21, e30, e31, e40, e41, -, -⟩ := idx_facts6 t
  unfold iblk6
  rw [View.read_apply]
  refine congrArg (V c (Pipeline.arrRef spec6 2) : S1x128.Idx → Elt Ideal .f32) (funext fun a => Fin.ext ?_)
  match a with
  | ⟨0, _⟩ => show win6_2.index t (0 : Fin 2) * 1 + 1 * (x 0).val = (x 0).val; rw [e20]; omega
  | ⟨1, _⟩ => show win6_2.index t (1 : Fin 2) * 128 + 1 * (x 1).val = (x 1).val; rw [e21]; omega

/-- The scale row's block at any point is the whole [1,128] array: its block index is (0, 0) throughout. -/
theorem iblk6_3_apply (c : Dev nD) (t : Fin cfg6.N) (x : S1x128.Idx) :
    (iblk6 V c 3 t : Vec Ideal S1x128 .f32) x = (V c (Pipeline.arrRef spec6 3) : S1x128.Idx → Elt Ideal .f32) x := by
  obtain ⟨-, -, e10, e11, e20, e21, e30, e31, e40, e41, -, -⟩ := idx_facts6 t
  unfold iblk6
  rw [View.read_apply]
  refine congrArg (V c (Pipeline.arrRef spec6 3) : S1x128.Idx → Elt Ideal .f32) (funext fun a => Fin.ext ?_)
  match a with
  | ⟨0, _⟩ => show win6_3.index t (0 : Fin 2) * 1 + 1 * (x 0).val = (x 0).val; rw [e30]; omega
  | ⟨1, _⟩ => show win6_3.index t (1 : Fin 2) * 128 + 1 * (x 1).val = (x 1).val; rw [e31]; omega

/-- The shift row's block at any point is the whole [1,128] array: its block index is (0, 0) throughout. -/
theorem iblk6_4_apply (c : Dev nD) (t : Fin cfg6.N) (x : S1x128.Idx) :
    (iblk6 V c 4 t : Vec Ideal S1x128 .f32) x = (V c (Pipeline.arrRef spec6 4) : S1x128.Idx → Elt Ideal .f32) x := by
  obtain ⟨-, -, e10, e11, e20, e21, e30, e31, e40, e41, -, -⟩ := idx_facts6 t
  unfold iblk6
  rw [View.read_apply]
  refine congrArg (V c (Pipeline.arrRef spec6 4) : S1x128.Idx → Elt Ideal .f32) (funext fun a => Fin.ext ?_)
  match a with
  | ⟨0, _⟩ => show win6_4.index t (0 : Fin 2) * 1 + 1 * (x 0).val = (x 0).val; rw [e40]; omega
  | ⟨1, _⟩ => show win6_4.index t (1 : Fin 2) * 128 + 1 * (x 1).val = (x 1).val; rw [e41]; omega

/-! ## What a point writes back, and the whole array -/

/-- WHAT POINT `t` WRITES BACK is block `t` of the specification's function of the five operand arrays as the region
    finds them: the element at row `p`, lane `q` of the block sits at row `5000 t + p`, lane `q` of the array. -/
theorem flushed6_eq (c : Dev nD) (t : Fin cfg6.N) :
    (dat6 (F := Ideal) V c).flushed 5 t = ((cfg6.win 5).blk t).view.read (Elt Ideal)
      (Cert.Spec.bnR2 (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  obtain ⟨-, -, -, -, -, -, -, -, -, -, e50, e51⟩ := idx_facts6 t
  funext j
  rw [View.read_apply]
  have hj0 : (j 0).val < 5000 := (j 0).isLt
  have hj1 : (j 1).val < 128 := (j 1).isLt
  have hx : (cfg6.win 5).xinj (grid6.coords t) j = ix2 (⟨(j 0).val, hj0⟩ : Fin 5000) (⟨(j 1).val, hj1⟩ : Fin 128) :=
    funext fun a => by match a with | ⟨0, _⟩ => rfl | ⟨1, _⟩ => rfl
  show out6_5 (iblk6 V c 0 t) (iblk6 V c 1 t) (iblk6 V c 2 t) (iblk6 V c 3 t) (iblk6 V c 4 t)
      ((cfg6.win 5).xinj (grid6.coords t) j) = _
  rw [hx]
  have hk0 : ((((cfg6.win 5).blk t).view.emb j : S50000x128.Idx) 0).val = 5000 * t.val + (j 0).val := by
    show win6_5.index t (0 : Fin 2) * 5000 + 1 * (j 0).val = _; rw [e50]; omega
  have hk1 : ((((cfg6.win 5).blk t).view.emb j : S50000x128.Idx) 1).val = (j 1).val := by
    show win6_5.index t (1 : Fin 2) * 128 + 1 * (j 1).val = _; rw [e51]; omega
  refine point6_eq _ _ _ _ _ _ _ _ _ _ _ _ (((cfg6.win 5).blk t).view.emb j)
    (iblk6_0_apply V c t _ _ hk0 hk1) ?_ ?_ ?_ ?_
  · refine (iblk6_1_apply V c t _).trans (congrArg _ (funext fun a => Fin.ext ?_))
    match a with | ⟨0, _⟩ => rfl | ⟨1, _⟩ => exact hk1.symm
  · refine (iblk6_2_apply V c t _).trans (congrArg _ (funext fun a => Fin.ext ?_))
    match a with | ⟨0, _⟩ => rfl | ⟨1, _⟩ => exact hk1.symm
  · refine (iblk6_3_apply V c t _).trans (congrArg _ (funext fun a => Fin.ext ?_))
    match a with | ⟨0, _⟩ => rfl | ⟨1, _⟩ => exact hk1.symm
  · refine (iblk6_4_apply V c t _).trans (congrArg _ (funext fun a => Fin.ext ?_))
    match a with | ⟨0, _⟩ => rfl | ⟨1, _⟩ => exact hk1.symm

/-- An index of the result array is in point `t`'s block iff each coordinate is in the block's range on its axis. -/
theorem mem_blk6 (t : Fin cfg6.N) (i : S50000x128.Idx) :
    i ∈ ((cfg6.win 5).blk t).view.set ↔ ∀ a : Fin 2, win6_5.index t a * S5000x128.size a ≤ (i a).val
      ∧ (i a).val < win6_5.index t a * S5000x128.size a + S5000x128.size a := by
  show i ∈ ((View.whole main_v119).slice (win6_5.rect t)).set ↔ _
  rw [View.set_slice_whole, Rect.mem_set_unit]
  exact Iff.rfl

/-- Every index of the result array is in the block of a point that writes back: row `r` is in block `r / 5000`. -/
theorem cover6 (i : S50000x128.Idx) :
    ∃ t : Fin cfg6.N, (cfg6.win 5).flush t = true ∧ i ∈ ((cfg6.win 5).blk t).view.set := by
  have hi0 : (i 0).val < 50000 := (i 0).isLt
  have hi1 : (i 1).val < 128 := (i 1).isLt
  have hN : cfg6.N = 10 := rfl
  let t : Fin cfg6.N := ⟨(i 0).val / 5000, by rw [hN]; omega⟩
  have ht : t.val = (i 0).val / 5000 := rfl
  obtain ⟨-, -, -, -, -, -, -, -, -, -, e50, e51⟩ := idx_facts6 t
  refine ⟨t, flush6_5 t, ?_⟩
  rw [mem_blk6]
  intro a
  match a with
  | ⟨0, _⟩ =>
    show win6_5.index t (0 : Fin 2) * 5000 ≤ (i 0).val ∧ (i 0).val < win6_5.index t (0 : Fin 2) * 5000 + 5000
    rw [e50, ht]; omega
  | ⟨1, _⟩ =>
    show win6_5.index t (1 : Fin 2) * 128 ≤ (i 1).val ∧ (i 1).val < win6_5.index t (1 : Fin 2) * 128 + 128
    rw [e51]; omega

/-- THE RESULT ARRAY after the region: the specification's function of the five operand arrays as the region finds
    them (the rows, the mean, the variance, the scale, the shift). -/
theorem arr6_eq (c : Dev nD) :
    (dat6 (F := Ideal) V c).arrAt 5 cfg6.N
      = Cert.Spec.bnR2 (V c (Pipeline.arrRef spec6 0)) (V c (Pipeline.arrRef spec6 1)) (V c (Pipeline.arrRef spec6 2))
          (V c (Pipeline.arrRef spec6 3)) (V c (Pipeline.arrRef spec6 4)) :=
  (dat6 (F := Ideal) V c).arrAt_eq_of_cover 5 _ (fun t _ => flushed6_eq V c t) (cover6)

end Blocks

end Cert.KernelIdeal.Frame6

end
-- ==== Proof.KIValue7.lean ====
/- Region 7 of the idealized kernel program, its VALUE: the result array after the region is one function of the
   region's operand arrays as the region finds them — rows times the 64 × 64 weight, plus the bias row, plus the added
   operand, entry by entry over the extended reals (`Cert.Spec.linE`).

   The region writes its result block by block: grid point t handles rows 5000 t … 5000 t + 4999. What point t writes
   back is the body's stored value on the blocks of the four operands at t; read at row p, column q of the block it is
   the spec's entry at row 5000 t + p, column q, because each operand's block sits in its array where the result's
   block does (the row blocks at block index (t, 0), the weight and the bias row whole). The twenty blocks tile the
   array — row r lies in the block of point r / 5000 — so the array ends as the spec's. -/
import proofs.«146189_j40922448396571_2_alg».proof.Proof.KIRegion7Body
import proofs.«146189_j40922448396571_2_alg».proof.Proof.SpecK
import proofs.«146189_j40922448396571_2_alg».proof.Proof.KIValueLin
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frame7

open Cert.KernelIdeal Cert.KernelIdeal.Gen Cert.KernelIdeal.ValLin
open Idealize.ShloMosaic Idealize.ShloMosaic.TcCoe Idealize.ShloMosaic.ValueIdx
open Idealize.ShloMosaic.Pipeline (Dat Cfg Window)

theorem hz : (![0, 0] : Fin 2 → Nat) = fun _ => 0 := funext fun a => by fin_cases a <;> rfl

/-- The printed index maps, decided over the grid: at point t the two row-block inputs and the output are at
    block (t, 0); the weight and the bias row are at block (0, 0). -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

variable (V : (c : Dev nD) → (b : Ref sig .tc) → Buf (Elt Ideal) ((c : Thread nD τ).loc b))

set_option maxHeartbeats 1000000 in
/-- What point t writes back is block t of linE of the four operand arrays as the region finds them. -/
theorem flushed7_eq (c : Dev nD) (t : Fin cfg7.N) :
    (dat7 (F := Ideal) V c).flushed 4 t
      = ((cfg7.win 4).blk t).view.read (Elt Ideal)
          (Cert.Spec.linE (V c (Pipeline.arrRef spec7 0)) (V c (Pipeline.arrRef spec7 1))
            (V c (Pipeline.arrRef spec7 2)) (V c (Pipeline.arrRef spec7 3))) := by
  show (cfg7.win 4).cut (grid7.coords t) ((dat7 V c).after 4 t) = _
  rw [after7_4]
  unfold out7_4
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41⟩ := idx_facts7 t
  funext j
  obtain ⟨p, q, rfl⟩ : ∃ (p : Fin 5000) (q : Fin 64), j = ix2 p q := ⟨j 0, j 1, eq_ix2 j⟩
  refine (k7_pay1_apply (iblk7 V c 0 t) (iblk7 V c 1 t) (iblk7 V c 2 t) (iblk7 V c 3 t) p q).trans ?_
  -- the output block's element in the array
  show _ = Cert.Spec.linE (V c (Pipeline.arrRef spec7 0)) (V c (Pipeline.arrRef spec7 1))
      (V c (Pipeline.arrRef spec7 2)) (V c (Pipeline.arrRef spec7 3)) (((cfg7.win 4).blk t).view.emb (ix2 p q))
  -- each input block's element is the array's element where the output's rectangle says
  have hA : ∀ k : Fin 64, iblk7 V c 0 t (ix2 p k)
      = V c (Pipeline.arrRef spec7 0) (ix2 (n0 := 100000) (n1 := 64) ((((cfg7.win 4).blk t).view.emb (ix2 p q)) 0) k) := fun k =>
    congrArg (V c (Pipeline.arrRef spec7 0)) (funext fun a => Fin.ext (by
      match a with
      | ⟨0, _⟩ => show win7_0.index t (0 : Fin 2) * 5000 + 1 * p.val = win7_4.index t (0 : Fin 2) * 5000 + 1 * p.val; omega
      | ⟨1, _⟩ => show win7_0.index t (1 : Fin 2) * 64 + 1 * k.val = k.val; omega))
  have hW : ∀ k : Fin 64, iblk7 V c 1 t (ix2 k q)
      = V c (Pipeline.arrRef spec7 1) (ix2 (n0 := 64) (n1 := 64) k ((((cfg7.win 4).blk t).view.emb (ix2 p q)) 1)) := fun k =>
    congrArg (V c (Pipeline.arrRef spec7 1)) (funext fun a => Fin.ext (by
      match a with
      | ⟨0, _⟩ => show win7_1.index t (0 : Fin 2) * 64 + 1 * k.val = k.val; omega
      | ⟨1, _⟩ => show win7_1.index t (1 : Fin 2) * 64 + 1 * q.val = win7_4.index t (1 : Fin 2) * 64 + 1 * q.val; omega))
  have hB : iblk7 V c 2 t (ix2 (0 : Fin 1) q)
      = V c (Pipeline.arrRef spec7 2) (ix2 (n0 := 1) (n1 := 64) 0 ((((cfg7.win 4).blk t).view.emb (ix2 p q)) 1)) :=
    congrArg (V c (Pipeline.arrRef spec7 2)) (funext fun a => Fin.ext (by
      match a with
      | ⟨0, _⟩ => show win7_2.index t (0 : Fin 2) * 1 + 1 * 0 = 0; omega
      | ⟨1, _⟩ => show win7_2.index t (1 : Fin 2) * 64 + 1 * q.val = win7_4.index t (1 : Fin 2) * 64 + 1 * q.val; omega))
  have hE : iblk7 V c 3 t (ix2 p q)
      = V c (Pipeline.arrRef spec7 3) (((cfg7.win 4).blk t).view.emb (ix2 p q)) :=
    congrArg (V c (Pipeline.arrRef spec7 3)) (funext fun a => Fin.ext (by
      match a with
      | ⟨0, _⟩ => show win7_3.index t (0 : Fin 2) * 5000 + 1 * p.val = win7_4.index t (0 : Fin 2) * 5000 + 1 * p.val; omega
      | ⟨1, _⟩ => show win7_3.index t (1 : Fin 2) * 64 + 1 * q.val = win7_4.index t (1 : Fin 2) * 64 + 1 * q.val; omega))
  unfold Cert.Spec.linE Cert.Spec.linO
  simp only [hA, hW, hB, hE]

/-- An index of the result array is in point t's block iff each coordinate is in the block's range on its axis. -/
theorem mem_blk7 (t : Fin cfg7.N) (i : S100000x64.Idx) :
    i ∈ ((cfg7.win 4).blk t).view.set ↔ ∀ a : Fin 2, win7_4.index t a * S5000x64.size a ≤ (i a).val
      ∧ (i a).val < win7_4.index t a * S5000x64.size a + S5000x64.size a := by
  show i ∈ ((View.whole main_v137).slice (win7_4.rect t)).set ↔ _
  rw [View.set_slice_whole, Rect.mem_set_unit]
  exact Iff.rfl

/-- Every index of the result array is in some point's block: row r is in the block of point r / 5000. -/
theorem cover7 (i : S100000x64.Idx) :
    ∃ t : Fin cfg7.N, (cfg7.win 4).flush t = true ∧ i ∈ ((cfg7.win 4).blk t).view.set := by
  have hi0 : (i 0).val < 100000 := (i 0).isLt
  have hi1 : (i 1).val < 64 := (i 1).isLt
  have ht : (i 0).val / 5000 < cfg7.N := by show (i 0).val / 5000 < 20; omega
  obtain ⟨-, -, -, -, -, -, -, -, e40, e41⟩ := idx_facts7 ⟨(i 0).val / 5000, ht⟩
  refine ⟨⟨(i 0).val / 5000, ht⟩, flush7_4 _, ?_⟩
  rw [mem_blk7]
  intro a
  match a with
  | ⟨0, _⟩ =>
    show win7_4.index ⟨(i 0).val / 5000, ht⟩ (0 : Fin 2) * 5000 ≤ (i 0).val
      ∧ (i 0).val < win7_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win7_4.index ⟨(i 0).val / 5000, ht⟩ (1 : Fin 2) * 64 ≤ (i 1).val
      ∧ (i 1).val < win7_4.index ⟨(i 0).val / 5000, ht⟩ (1 : Fin 2) * 64 + 64
    rw [e41]; omega

/-- The result array after the region: linE of the four operand arrays as the region finds them. -/
theorem arr7_eq (c : Dev nD) :
    (dat7 (F := Ideal) V c).arrAt 4 cfg7.N
      = Cert.Spec.linE (V c (Pipeline.arrRef spec7 0)) (V c (Pipeline.arrRef spec7 1))
          (V c (Pipeline.arrRef spec7 2)) (V c (Pipeline.arrRef spec7 3)) :=
  (dat7 (F := Ideal) V c).arrAt_eq_of_cover 4 _ (fun t _ => flushed7_eq V c t) cover7

end Cert.KernelIdeal.Frame7

end
-- ==== Proof.KIValue8.lean ====
/- What region 8 of the idealized kernel program leaves in its result array, over the extended reals: the whole
   [50000,128] array is ONE function of the region's five operand arrays, index by index — the batch-norm affine map
   followed by the maximum with zero of the specification. The body's payload is read at an index; the block a grid point writes back is the
   block of that function at the point's rows (rows 5000 t … 5000 t + 4999: the row-block operand and the result move
   together, the four parameter rows do not move); the ten blocks cover the array. -/
import proofs.«146189_j40922448396571_2_alg».proof.Proof.KIRegion8Body
import proofs.«146189_j40922448396571_2_alg».proof.Proof.SpecK
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame8

open Cert.KernelIdeal.Gen
open Idealize.ShloMosaic Idealize.ShloMosaic.TcCoe Idealize.ShloMosaic.ValueIdx
open Idealize.ShloMosaic.Pipeline (Dat Cfg Window)

/-- The zero offsets of a whole-buffer rectangle, as a constant function. -/
theorem hz8 : (![0, 0] : Fin 2 → Nat) = fun _ => 0 := funext fun a => by fin_cases a <;> rfl

/-! ## The payload and the output buffer at an index -/

/-- The body's payload at row `p`, lane `q`, from the loaded values (`x0` the rows; `xv` the variance, `xm` the mean,
    `xg` the scale, `xb` the shift, in the order the body loads them): every operation is pointwise or a broadcast of
    a [1,128] row over the 5000 rows. -/
theorem pay8_apply (x0 : Vec Ideal S5000x128 .f32) (xv xm xg xb : Vec Ideal S1x128 .f32) (p : Fin 5000) (q : Fin 128) :
    k8_pay1 (F := Ideal) x0 xv xm xg xb (ix2 p q)
      = max ((((x0 (ix2 p q) - xm (ix2 (0 : Fin 1) q)) * Ideal.rsqrt (xv (ix2 (0 : Fin 1) q) + Cert.Spec.eps)) * xg (ix2 (0 : Fin 1) q))
          + xb (ix2 (0 : Fin 1) q)) Cert.Spec.z := by
  unfold k8_pay1
  simp only [maximumf_apply, addf_apply, mulf_apply, subf_apply, broadcast_apply, Idealize.ShloMosaic.shapeCast_self, broadcastTo_1b_ab_apply]
  rfl

/-- The output staging buffer after the body at row `p`, lane `q`, from the five input blocks in window order
    (`x1` the mean, `x2` the variance). -/
theorem out8_5_apply (x0 : Vec Ideal S5000x128 .f32) (x1 x2 x3 x4 : Vec Ideal S1x128 .f32) (p : Fin 5000) (q : Fin 128) :
    out8_5 x0 x1 x2 x3 x4 (ix2 p q)
      = max ((((x0 (ix2 p q) - x1 (ix2 (0 : Fin 1) q)) * Ideal.rsqrt (x2 (ix2 (0 : Fin 1) q) + Cert.Spec.eps)) * x3 (ix2 (0 : Fin 1) q))
          + x4 (ix2 (0 : Fin 1) q)) Cert.Spec.z := by
  unfold out8_5
  rw [View.canon_unit_zero hz8]
  simp only [View.ld_unit_zero (S := S5000x128) hz8, View.ld_unit_zero (S := S1x128) hz8]
  exact pay8_apply x0 x2 x1 x3 x4 p q

/-- The same against the specification read at an array index `k`: when the row block's entry is the array's at `k`
    and each parameter row's entry is its array's at lane `k 1`. -/
theorem point8_eq (X0 : Vec Ideal S5000x128 .f32) (X1 X2 X3 X4 : Vec Ideal S1x128 .f32)
    (A0 : FVec Ideal Cert.Spec.SM128 .f32) (A1 A2 A3 A4 : FVec Ideal Cert.Spec.S1x128 .f32)
    (p : Fin 5000) (q : Fin 128) (k : Cert.Spec.SM128.Idx)
    (h0 : X0 (ix2 p q) = A0 k)
    (h1 : X1 (ix2 (0 : Fin 1) q) = A1 (ix2 (n0 := 1) (n1 := 128) 0 (k 1)))
    (h2 : X2 (ix2 (0 : Fin 1) q) = A2 (ix2 (n0 := 1) (n1 := 128) 0 (k 1)))
    (h3 : X3 (ix2 (0 : Fin 1) q) = A3 (ix2 (n0 := 1) (n1 := 128) 0 (k 1)))
    (h4 : X4 (ix2 (0 : Fin 1) q) = A4 (ix2 (n0 := 1) (n1 := 128) 0 (k 1))) :
    out8_5 X0 X1 X2 X3 X4 (ix2 p q) = Cert.Spec.bnR2 A0 A1 A2 A3 A4 k := by
  rw [out8_5_apply, h0, h1, h2, h3, h4]
  rfl

/-! ## The index maps, decided once over the grid -/

/-- At point `t` the row-block operand and the result are at block (t, 0); the four parameter rows at block (0, 0). -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-! ## The input blocks as entries of the operand arrays -/

section Blocks
variable (V : (c : Dev nD) → (b : Ref sig .tc) → Buf (Elt Ideal) ((c : Thread nD τ).loc b))

/-- The row-block operand's block at point `t`, at `x`, is the array's entry at row `5000 t + x 0`, lane `x 1`. -/
theorem iblk8_0_apply (c : Dev nD) (t : Fin cfg8.N) (x : S5000x128.Idx) (k : S50000x128.Idx)
    (hk0 : (k 0).val = 5000 * t.val + (x 0).val) (hk1 : (k 1).val = (x 1).val) :
    (iblk8 V c 0 t : Vec Ideal S5000x128 .f32) x = (V c (Pipeline.arrRef spec8 0) : S50000x128.Idx → Elt Ideal .f32) k := by
  obtain ⟨e00, e01, -⟩ := idx_facts8 t
  unfold iblk8
  rw [View.read_apply]
  refine congrArg (V c (Pipeline.arrRef spec8 0) : S50000x128.Idx → Elt Ideal .f32) (funext fun a => Fin.ext ?_)
  match a with
  | ⟨0, _⟩ => show win8_0.index t (0 : Fin 2) * 5000 + 1 * (x 0).val = (k 0).val; rw [e00, hk0]; omega
  | ⟨1, _⟩ => show win8_0.index t (1 : Fin 2) * 128 + 1 * (x 1).val = (k 1).val; rw [e01, hk1]; omega

/-- The mean row's block at any point is the whole [1,128] array: its block index is (0, 0) throughout. -/
theorem iblk8_1_apply (c : Dev nD) (t : Fin cfg8.N) (x : S1x128.Idx) :
    (iblk8 V c 1 t : Vec Ideal S1x128 .f32) x = (V c (Pipeline.arrRef spec8 1) : S1x128.Idx → Elt Ideal .f32) x := by
  obtain ⟨-, -, e10, e11, e20, e21, e30, e31, e40, e41, -, -⟩ := idx_facts8 t
  unfold iblk8
  rw [View.read_apply]
  refine congrArg (V c (Pipeline.arrRef spec8 1) : S1x128.Idx → Elt Ideal .f32) (funext fun a => Fin.ext ?_)
  match a with
  | ⟨0, _⟩ => show win8_1.index t (0 : Fin 2) * 1 + 1 * (x 0).val = (x 0).val; rw [e10]; omega
  | ⟨1, _⟩ => show win8_1.index t (1 : Fin 2) * 128 + 1 * (x 1).val = (x 1).val; rw [e11]; omega

/-- The variance row's block at any point is the whole [1,128] array: its block index is (0, 0) throughout. -/
theorem iblk8_2_apply (c : Dev nD) (t : Fin cfg8.N) (x : S1x128.Idx) :
    (iblk8 V c 2 t : Vec Ideal S1x128 .f32) x = (V c (Pipeline.arrRef spec8 2) : S1x128.Idx → Elt Ideal .f32) x := by
  obtain ⟨-, -, e10, e11, e20, e21, e30, e31, e40, e41, -, -⟩ := idx_facts8 t
  unfold iblk8
  rw [View.read_apply]
  refine congrArg (V c (Pipeline.arrRef spec8 2) : S1x128.Idx → Elt Ideal .f32) (funext fun a => Fin.ext ?_)
  match a with
  | ⟨0, _⟩ => show win8_2.index t (0 : Fin 2) * 1 + 1 * (x 0).val = (x 0).val; rw [e20]; omega
  | ⟨1, _⟩ => show win8_2.index t (1 : Fin 2) * 128 + 1 * (x 1).val = (x 1).val; rw [e21]; omega

/-- The scale row's block at any point is the whole [1,128] array: its block index is (0, 0) throughout. -/
theorem iblk8_3_apply (c : Dev nD) (t : Fin cfg8.N) (x : S1x128.Idx) :
    (iblk8 V c 3 t : Vec Ideal S1x128 .f32) x = (V c (Pipeline.arrRef spec8 3) : S1x128.Idx → Elt Ideal .f32) x := by
  obtain ⟨-, -, e10, e11, e20, e21, e30, e31, e40, e41, -, -⟩ := idx_facts8 t
  unfold iblk8
  rw [View.read_apply]
  refine congrArg (V c (Pipeline.arrRef spec8 3) : S1x128.Idx → Elt Ideal .f32) (funext fun a => Fin.ext ?_)
  match a with
  | ⟨0, _⟩ => show win8_3.index t (0 : Fin 2) * 1 + 1 * (x 0).val = (x 0).val; rw [e30]; omega
  | ⟨1, _⟩ => show win8_3.index t (1 : Fin 2) * 128 + 1 * (x 1).val = (x 1).val; rw [e31]; omega

/-- The shift row's block at any point is the whole [1,128] array: its block index is (0, 0) throughout. -/
theorem iblk8_4_apply (c : Dev nD) (t : Fin cfg8.N) (x : S1x128.Idx) :
    (iblk8 V c 4 t : Vec Ideal S1x128 .f32) x = (V c (Pipeline.arrRef spec8 4) : S1x128.Idx → Elt Ideal .f32) x := by
  obtain ⟨-, -, e10, e11, e20, e21, e30, e31, e40, e41, -, -⟩ := idx_facts8 t
  unfold iblk8
  rw [View.read_apply]
  refine congrArg (V c (Pipeline.arrRef spec8 4) : S1x128.Idx → Elt Ideal .f32) (funext fun a => Fin.ext ?_)
  match a with
  | ⟨0, _⟩ => show win8_4.index t (0 : Fin 2) * 1 + 1 * (x 0).val = (x 0).val; rw [e40]; omega
  | ⟨1, _⟩ => show win8_4.index t (1 : Fin 2) * 128 + 1 * (x 1).val = (x 1).val; rw [e41]; omega

/-! ## What a point writes back, and the whole array -/

/-- WHAT POINT `t` WRITES BACK is block `t` of the specification's function of the five operand arrays as the region
    finds them: the element at row `p`, lane `q` of the block sits at row `5000 t + p`, lane `q` of the array. -/
theorem flushed8_eq (c : Dev nD) (t : Fin cfg8.N) :
    (dat8 (F := Ideal) V c).flushed 5 t = ((cfg8.win 5).blk t).view.read (Elt Ideal)
      (Cert.Spec.bnR2 (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 V c).after 5 t) = _
  rw [after8_5]
  obtain ⟨-, -, -, -, -, -, -, -, -, -, e50, e51⟩ := idx_facts8 t
  funext j
  rw [View.read_apply]
  have hj0 : (j 0).val < 5000 := (j 0).isLt
  have hj1 : (j 1).val < 128 := (j 1).isLt
  have hx : (cfg8.win 5).xinj (grid8.coords t) j = ix2 (⟨(j 0).val, hj0⟩ : Fin 5000) (⟨(j 1).val, hj1⟩ : Fin 128) :=
    funext fun a => by match a with | ⟨0, _⟩ => rfl | ⟨1, _⟩ => rfl
  show out8_5 (iblk8 V c 0 t) (iblk8 V c 1 t) (iblk8 V c 2 t) (iblk8 V c 3 t) (iblk8 V c 4 t)
      ((cfg8.win 5).xinj (grid8.coords t) j) = _
  rw [hx]
  have hk0 : ((((cfg8.win 5).blk t).view.emb j : S50000x128.Idx) 0).val = 5000 * t.val + (j 0).val := by
    show win8_5.index t (0 : Fin 2) * 5000 + 1 * (j 0).val = _; rw [e50]; omega
  have hk1 : ((((cfg8.win 5).blk t).view.emb j : S50000x128.Idx) 1).val = (j 1).val := by
    show win8_5.index t (1 : Fin 2) * 128 + 1 * (j 1).val = _; rw [e51]; omega
  refine point8_eq _ _ _ _ _ _ _ _ _ _ _ _ (((cfg8.win 5).blk t).view.emb j)
    (iblk8_0_apply V c t _ _ hk0 hk1) ?_ ?_ ?_ ?_
  · refine (iblk8_1_apply V c t _).trans (congrArg _ (funext fun a => Fin.ext ?_))
    match a with | ⟨0, _⟩ => rfl | ⟨1, _⟩ => exact hk1.symm
  · refine (iblk8_2_apply V c t _).trans (congrArg _ (funext fun a => Fin.ext ?_))
    match a with | ⟨0, _⟩ => rfl | ⟨1, _⟩ => exact hk1.symm
  · refine (iblk8_3_apply V c t _).trans (congrArg _ (funext fun a => Fin.ext ?_))
    match a with | ⟨0, _⟩ => rfl | ⟨1, _⟩ => exact hk1.symm
  · refine (iblk8_4_apply V c t _).trans (congrArg _ (funext fun a => Fin.ext ?_))
    match a with | ⟨0, _⟩ => rfl | ⟨1, _⟩ => exact hk1.symm

/-- An index of the result array is in point `t`'s block iff each coordinate is in the block's range on its axis. -/
theorem mem_blk8 (t : Fin cfg8.N) (i : S50000x128.Idx) :
    i ∈ ((cfg8.win 5).blk t).view.set ↔ ∀ a : Fin 2, win8_5.index t a * S5000x128.size a ≤ (i a).val
      ∧ (i a).val < win8_5.index t a * S5000x128.size a + S5000x128.size a := by
  show i ∈ ((View.whole main_v160).slice (win8_5.rect t)).set ↔ _
  rw [View.set_slice_whole, Rect.mem_set_unit]
  exact Iff.rfl

/-- Every index of the result array is in the block of a point that writes back: row `r` is in block `r / 5000`. -/
theorem cover8 (i : S50000x128.Idx) :
    ∃ t : Fin cfg8.N, (cfg8.win 5).flush t = true ∧ i ∈ ((cfg8.win 5).blk t).view.set := by
  have hi0 : (i 0).val < 50000 := (i 0).isLt
  have hi1 : (i 1).val < 128 := (i 1).isLt
  have hN : cfg8.N = 10 := rfl
  let t : Fin cfg8.N := ⟨(i 0).val / 5000, by rw [hN]; omega⟩
  have ht : t.val = (i 0).val / 5000 := rfl
  obtain ⟨-, -, -, -, -, -, -, -, -, -, e50, e51⟩ := idx_facts8 t
  refine ⟨t, flush8_5 t, ?_⟩
  rw [mem_blk8]
  intro a
  match a with
  | ⟨0, _⟩ =>
    show win8_5.index t (0 : Fin 2) * 5000 ≤ (i 0).val ∧ (i 0).val < win8_5.index t (0 : Fin 2) * 5000 + 5000
    rw [e50, ht]; omega
  | ⟨1, _⟩ =>
    show win8_5.index t (1 : Fin 2) * 128 ≤ (i 1).val ∧ (i 1).val < win8_5.index t (1 : Fin 2) * 128 + 128
    rw [e51]; omega

/-- THE RESULT ARRAY after the region: the specification's function of the five operand arrays as the region finds
    them (the rows, the mean, the variance, the scale, the shift). -/
theorem arr8_eq (c : Dev nD) :
    (dat8 (F := Ideal) V c).arrAt 5 cfg8.N
      = Cert.Spec.bnR2 (V c (Pipeline.arrRef spec8 0)) (V c (Pipeline.arrRef spec8 1)) (V c (Pipeline.arrRef spec8 2))
          (V c (Pipeline.arrRef spec8 3)) (V c (Pipeline.arrRef spec8 4)) :=
  (dat8 (F := Ideal) V c).arrAt_eq_of_cover 5 _ (fun t _ => flushed8_eq V c t) (cover8)

end Blocks

end Cert.KernelIdeal.Frame8

end
-- ==== Proof.KIValue9.lean ====
/- Region 9 of the idealized kernel program, its VALUE: the result array after the region is one function of the
   region's operand arrays as the region finds them — rows times the 64 × 64 weight, plus the bias row, plus the added
   operand, entry by entry over the extended reals (`Cert.Spec.linE`).

   The region writes its result block by block: grid point t handles rows 5000 t … 5000 t + 4999. What point t writes
   back is the body's stored value on the blocks of the four operands at t; read at row p, column q of the block it is
   the spec's entry at row 5000 t + p, column q, because each operand's block sits in its array where the result's
   block does (the row blocks at block index (t, 0), the weight and the bias row whole). The twenty blocks tile the
   array — row r lies in the block of point r / 5000 — so the array ends as the spec's. -/
import proofs.«146189_j40922448396571_2_alg».proof.Proof.KIRegion9Body
import proofs.«146189_j40922448396571_2_alg».proof.Proof.SpecK
import proofs.«146189_j40922448396571_2_alg».proof.Proof.KIValueLin
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frame9

open Cert.KernelIdeal Cert.KernelIdeal.Gen Cert.KernelIdeal.ValLin
open Idealize.ShloMosaic Idealize.ShloMosaic.TcCoe Idealize.ShloMosaic.ValueIdx
open Idealize.ShloMosaic.Pipeline (Dat Cfg Window)

theorem hz : (![0, 0] : Fin 2 → Nat) = fun _ => 0 := funext fun a => by fin_cases a <;> rfl

/-- The printed index maps, decided over the grid: at point t the two row-block inputs and the output are at
    block (t, 0); the weight and the bias row are at block (0, 0). -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

variable (V : (c : Dev nD) → (b : Ref sig .tc) → Buf (Elt Ideal) ((c : Thread nD τ).loc b))

set_option maxHeartbeats 1000000 in
/-- What point t writes back is block t of linE of the four operand arrays as the region finds them. -/
theorem flushed9_eq (c : Dev nD) (t : Fin cfg9.N) :
    (dat9 (F := Ideal) V c).flushed 4 t
      = ((cfg9.win 4).blk t).view.read (Elt Ideal)
          (Cert.Spec.linE (V c (Pipeline.arrRef spec9 0)) (V c (Pipeline.arrRef spec9 1))
            (V c (Pipeline.arrRef spec9 2)) (V c (Pipeline.arrRef spec9 3))) := by
  show (cfg9.win 4).cut (grid9.coords t) ((dat9 V c).after 4 t) = _
  rw [after9_4]
  unfold out9_4
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41⟩ := idx_facts9 t
  funext j
  obtain ⟨p, q, rfl⟩ : ∃ (p : Fin 5000) (q : Fin 64), j = ix2 p q := ⟨j 0, j 1, eq_ix2 j⟩
  refine (k9_pay1_apply (iblk9 V c 0 t) (iblk9 V c 1 t) (iblk9 V c 2 t) (iblk9 V c 3 t) p q).trans ?_
  -- the output block's element in the array
  show _ = Cert.Spec.linE (V c (Pipeline.arrRef spec9 0)) (V c (Pipeline.arrRef spec9 1))
      (V c (Pipeline.arrRef spec9 2)) (V c (Pipeline.arrRef spec9 3)) (((cfg9.win 4).blk t).view.emb (ix2 p q))
  -- each input block's element is the array's element where the output's rectangle says
  have hA : ∀ k : Fin 64, iblk9 V c 0 t (ix2 p k)
      = V c (Pipeline.arrRef spec9 0) (ix2 (n0 := 100000) (n1 := 64) ((((cfg9.win 4).blk t).view.emb (ix2 p q)) 0) k) := fun k =>
    congrArg (V c (Pipeline.arrRef spec9 0)) (funext fun a => Fin.ext (by
      match a with
      | ⟨0, _⟩ => show win9_0.index t (0 : Fin 2) * 5000 + 1 * p.val = win9_4.index t (0 : Fin 2) * 5000 + 1 * p.val; omega
      | ⟨1, _⟩ => show win9_0.index t (1 : Fin 2) * 64 + 1 * k.val = k.val; omega))
  have hW : ∀ k : Fin 64, iblk9 V c 1 t (ix2 k q)
      = V c (Pipeline.arrRef spec9 1) (ix2 (n0 := 64) (n1 := 64) k ((((cfg9.win 4).blk t).view.emb (ix2 p q)) 1)) := fun k =>
    congrArg (V c (Pipeline.arrRef spec9 1)) (funext fun a => Fin.ext (by
      match a with
      | ⟨0, _⟩ => show win9_1.index t (0 : Fin 2) * 64 + 1 * k.val = k.val; omega
      | ⟨1, _⟩ => show win9_1.index t (1 : Fin 2) * 64 + 1 * q.val = win9_4.index t (1 : Fin 2) * 64 + 1 * q.val; omega))
  have hB : iblk9 V c 2 t (ix2 (0 : Fin 1) q)
      = V c (Pipeline.arrRef spec9 2) (ix2 (n0 := 1) (n1 := 64) 0 ((((cfg9.win 4).blk t).view.emb (ix2 p q)) 1)) :=
    congrArg (V c (Pipeline.arrRef spec9 2)) (funext fun a => Fin.ext (by
      match a with
      | ⟨0, _⟩ => show win9_2.index t (0 : Fin 2) * 1 + 1 * 0 = 0; omega
      | ⟨1, _⟩ => show win9_2.index t (1 : Fin 2) * 64 + 1 * q.val = win9_4.index t (1 : Fin 2) * 64 + 1 * q.val; omega))
  have hE : iblk9 V c 3 t (ix2 p q)
      = V c (Pipeline.arrRef spec9 3) (((cfg9.win 4).blk t).view.emb (ix2 p q)) :=
    congrArg (V c (Pipeline.arrRef spec9 3)) (funext fun a => Fin.ext (by
      match a with
      | ⟨0, _⟩ => show win9_3.index t (0 : Fin 2) * 5000 + 1 * p.val = win9_4.index t (0 : Fin 2) * 5000 + 1 * p.val; omega
      | ⟨1, _⟩ => show win9_3.index t (1 : Fin 2) * 64 + 1 * q.val = win9_4.index t (1 : Fin 2) * 64 + 1 * q.val; omega))
  unfold Cert.Spec.linE Cert.Spec.linO
  simp only [hA, hW, hB, hE]

/-- An index of the result array is in point t's block iff each coordinate is in the block's range on its axis. -/
theorem mem_blk9 (t : Fin cfg9.N) (i : S100000x64.Idx) :
    i ∈ ((cfg9.win 4).blk t).view.set ↔ ∀ a : Fin 2, win9_4.index t a * S5000x64.size a ≤ (i a).val
      ∧ (i a).val < win9_4.index t a * S5000x64.size a + S5000x64.size a := by
  show i ∈ ((View.whole main_v167).slice (win9_4.rect t)).set ↔ _
  rw [View.set_slice_whole, Rect.mem_set_unit]
  exact Iff.rfl

/-- Every index of the result array is in some point's block: row r is in the block of point r / 5000. -/
theorem cover9 (i : S100000x64.Idx) :
    ∃ t : Fin cfg9.N, (cfg9.win 4).flush t = true ∧ i ∈ ((cfg9.win 4).blk t).view.set := by
  have hi0 : (i 0).val < 100000 := (i 0).isLt
  have hi1 : (i 1).val < 64 := (i 1).isLt
  have ht : (i 0).val / 5000 < cfg9.N := by show (i 0).val / 5000 < 20; omega
  obtain ⟨-, -, -, -, -, -, -, -, e40, e41⟩ := idx_facts9 ⟨(i 0).val / 5000, ht⟩
  refine ⟨⟨(i 0).val / 5000, ht⟩, flush9_4 _, ?_⟩
  rw [mem_blk9]
  intro a
  match a with
  | ⟨0, _⟩ =>
    show win9_4.index ⟨(i 0).val / 5000, ht⟩ (0 : Fin 2) * 5000 ≤ (i 0).val
      ∧ (i 0).val < win9_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win9_4.index ⟨(i 0).val / 5000, ht⟩ (1 : Fin 2) * 64 ≤ (i 1).val
      ∧ (i 1).val < win9_4.index ⟨(i 0).val / 5000, ht⟩ (1 : Fin 2) * 64 + 64
    rw [e41]; omega

/-- The result array after the region: linE of the four operand arrays as the region finds them. -/
theorem arr9_eq (c : Dev nD) :
    (dat9 (F := Ideal) V c).arrAt 4 cfg9.N
      = Cert.Spec.linE (V c (Pipeline.arrRef spec9 0)) (V c (Pipeline.arrRef spec9 1))
          (V c (Pipeline.arrRef spec9 2)) (V c (Pipeline.arrRef spec9 3)) :=
  (dat9 (F := Ideal) V c).arrAt_eq_of_cover 4 _ (fun t _ => flushed9_eq V c t) cover9

end Cert.KernelIdeal.Frame9

end
-- ==== Proof.KIValue10.lean ====
/- What region 10 of the idealized kernel program leaves in its result array, over the extended reals: the whole
   [50000,128] array is ONE function of the region's five operand arrays, index by index — the batch-norm affine map
   followed by the maximum with zero of the specification. The body's payload is read at an index; the block a grid point writes back is the
   block of that function at the point's rows (rows 5000 t … 5000 t + 4999: the row-block operand and the result move
   together, the four parameter rows do not move); the ten blocks cover the array. -/
import proofs.«146189_j40922448396571_2_alg».proof.Proof.KIRegion10Body
import proofs.«146189_j40922448396571_2_alg».proof.Proof.SpecK
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame10

open Cert.KernelIdeal.Gen
open Idealize.ShloMosaic Idealize.ShloMosaic.TcCoe Idealize.ShloMosaic.ValueIdx
open Idealize.ShloMosaic.Pipeline (Dat Cfg Window)

/-- The zero offsets of a whole-buffer rectangle, as a constant function. -/
theorem hz10 : (![0, 0] : Fin 2 → Nat) = fun _ => 0 := funext fun a => by fin_cases a <;> rfl

/-! ## The payload and the output buffer at an index -/

/-- The body's payload at row `p`, lane `q`, from the loaded values (`x0` the rows; `xv` the variance, `xm` the mean,
    `xg` the scale, `xb` the shift, in the order the body loads them): every operation is pointwise or a broadcast of
    a [1,128] row over the 5000 rows. -/
theorem pay10_apply (x0 : Vec Ideal S5000x128 .f32) (xv xm xg xb : Vec Ideal S1x128 .f32) (p : Fin 5000) (q : Fin 128) :
    k10_pay1 (F := Ideal) x0 xv xm xg xb (ix2 p q)
      = max ((((x0 (ix2 p q) - xm (ix2 (0 : Fin 1) q)) * Ideal.rsqrt (xv (ix2 (0 : Fin 1) q) + Cert.Spec.eps)) * xg (ix2 (0 : Fin 1) q))
          + xb (ix2 (0 : Fin 1) q)) Cert.Spec.z := by
  unfold k10_pay1
  simp only [maximumf_apply, addf_apply, mulf_apply, subf_apply, broadcast_apply, Idealize.ShloMosaic.shapeCast_self, broadcastTo_1b_ab_apply]
  rfl

/-- The output staging buffer after the body at row `p`, lane `q`, from the five input blocks in window order
    (`x1` the mean, `x2` the variance). -/
theorem out10_5_apply (x0 : Vec Ideal S5000x128 .f32) (x1 x2 x3 x4 : Vec Ideal S1x128 .f32) (p : Fin 5000) (q : Fin 128) :
    out10_5 x0 x1 x2 x3 x4 (ix2 p q)
      = max ((((x0 (ix2 p q) - x1 (ix2 (0 : Fin 1) q)) * Ideal.rsqrt (x2 (ix2 (0 : Fin 1) q) + Cert.Spec.eps)) * x3 (ix2 (0 : Fin 1) q))
          + x4 (ix2 (0 : Fin 1) q)) Cert.Spec.z := by
  unfold out10_5
  rw [View.canon_unit_zero hz10]
  simp only [View.ld_unit_zero (S := S5000x128) hz10, View.ld_unit_zero (S := S1x128) hz10]
  exact pay10_apply x0 x2 x1 x3 x4 p q

/-- The same against the specification read at an array index `k`: when the row block's entry is the array's at `k`
    and each parameter row's entry is its array's at lane `k 1`. -/
theorem point10_eq (X0 : Vec Ideal S5000x128 .f32) (X1 X2 X3 X4 : Vec Ideal S1x128 .f32)
    (A0 : FVec Ideal Cert.Spec.SM128 .f32) (A1 A2 A3 A4 : FVec Ideal Cert.Spec.S1x128 .f32)
    (p : Fin 5000) (q : Fin 128) (k : Cert.Spec.SM128.Idx)
    (h0 : X0 (ix2 p q) = A0 k)
    (h1 : X1 (ix2 (0 : Fin 1) q) = A1 (ix2 (n0 := 1) (n1 := 128) 0 (k 1)))
    (h2 : X2 (ix2 (0 : Fin 1) q) = A2 (ix2 (n0 := 1) (n1 := 128) 0 (k 1)))
    (h3 : X3 (ix2 (0 : Fin 1) q) = A3 (ix2 (n0 := 1) (n1 := 128) 0 (k 1)))
    (h4 : X4 (ix2 (0 : Fin 1) q) = A4 (ix2 (n0 := 1) (n1 := 128) 0 (k 1))) :
    out10_5 X0 X1 X2 X3 X4 (ix2 p q) = Cert.Spec.bnR2 A0 A1 A2 A3 A4 k := by
  rw [out10_5_apply, h0, h1, h2, h3, h4]
  rfl

/-! ## The index maps, decided once over the grid -/

/-- At point `t` the row-block operand and the result are at block (t, 0); the four parameter rows at block (0, 0). -/
theorem idx_facts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-! ## The input blocks as entries of the operand arrays -/

section Blocks
variable (V : (c : Dev nD) → (b : Ref sig .tc) → Buf (Elt Ideal) ((c : Thread nD τ).loc b))

/-- The row-block operand's block at point `t`, at `x`, is the array's entry at row `5000 t + x 0`, lane `x 1`. -/
theorem iblk10_0_apply (c : Dev nD) (t : Fin cfg10.N) (x : S5000x128.Idx) (k : S50000x128.Idx)
    (hk0 : (k 0).val = 5000 * t.val + (x 0).val) (hk1 : (k 1).val = (x 1).val) :
    (iblk10 V c 0 t : Vec Ideal S5000x128 .f32) x = (V c (Pipeline.arrRef spec10 0) : S50000x128.Idx → Elt Ideal .f32) k := by
  obtain ⟨e00, e01, -⟩ := idx_facts10 t
  unfold iblk10
  rw [View.read_apply]
  refine congrArg (V c (Pipeline.arrRef spec10 0) : S50000x128.Idx → Elt Ideal .f32) (funext fun a => Fin.ext ?_)
  match a with
  | ⟨0, _⟩ => show win10_0.index t (0 : Fin 2) * 5000 + 1 * (x 0).val = (k 0).val; rw [e00, hk0]; omega
  | ⟨1, _⟩ => show win10_0.index t (1 : Fin 2) * 128 + 1 * (x 1).val = (k 1).val; rw [e01, hk1]; omega

/-- The mean row's block at any point is the whole [1,128] array: its block index is (0, 0) throughout. -/
theorem iblk10_1_apply (c : Dev nD) (t : Fin cfg10.N) (x : S1x128.Idx) :
    (iblk10 V c 1 t : Vec Ideal S1x128 .f32) x = (V c (Pipeline.arrRef spec10 1) : S1x128.Idx → Elt Ideal .f32) x := by
  obtain ⟨-, -, e10, e11, e20, e21, e30, e31, e40, e41, -, -⟩ := idx_facts10 t
  unfold iblk10
  rw [View.read_apply]
  refine congrArg (V c (Pipeline.arrRef spec10 1) : S1x128.Idx → Elt Ideal .f32) (funext fun a => Fin.ext ?_)
  match a with
  | ⟨0, _⟩ => show win10_1.index t (0 : Fin 2) * 1 + 1 * (x 0).val = (x 0).val; rw [e10]; omega
  | ⟨1, _⟩ => show win10_1.index t (1 : Fin 2) * 128 + 1 * (x 1).val = (x 1).val; rw [e11]; omega

/-- The variance row's block at any point is the whole [1,128] array: its block index is (0, 0) throughout. -/
theorem iblk10_2_apply (c : Dev nD) (t : Fin cfg10.N) (x : S1x128.Idx) :
    (iblk10 V c 2 t : Vec Ideal S1x128 .f32) x = (V c (Pipeline.arrRef spec10 2) : S1x128.Idx → Elt Ideal .f32) x := by
  obtain ⟨-, -, e10, e11, e20, e21, e30, e31, e40, e41, -, -⟩ := idx_facts10 t
  unfold iblk10
  rw [View.read_apply]
  refine congrArg (V c (Pipeline.arrRef spec10 2) : S1x128.Idx → Elt Ideal .f32) (funext fun a => Fin.ext ?_)
  match a with
  | ⟨0, _⟩ => show win10_2.index t (0 : Fin 2) * 1 + 1 * (x 0).val = (x 0).val; rw [e20]; omega
  | ⟨1, _⟩ => show win10_2.index t (1 : Fin 2) * 128 + 1 * (x 1).val = (x 1).val; rw [e21]; omega

/-- The scale row's block at any point is the whole [1,128] array: its block index is (0, 0) throughout. -/
theorem iblk10_3_apply (c : Dev nD) (t : Fin cfg10.N) (x : S1x128.Idx) :
    (iblk10 V c 3 t : Vec Ideal S1x128 .f32) x = (V c (Pipeline.arrRef spec10 3) : S1x128.Idx → Elt Ideal .f32) x := by
  obtain ⟨-, -, e10, e11, e20, e21, e30, e31, e40, e41, -, -⟩ := idx_facts10 t
  unfold iblk10
  rw [View.read_apply]
  refine congrArg (V c (Pipeline.arrRef spec10 3) : S1x128.Idx → Elt Ideal .f32) (funext fun a => Fin.ext ?_)
  match a with
  | ⟨0, _⟩ => show win10_3.index t (0 : Fin 2) * 1 + 1 * (x 0).val = (x 0).val; rw [e30]; omega
  | ⟨1, _⟩ => show win10_3.index t (1 : Fin 2) * 128 + 1 * (x 1).val = (x 1).val; rw [e31]; omega

/-- The shift row's block at any point is the whole [1,128] array: its block index is (0, 0) throughout. -/
theorem iblk10_4_apply (c : Dev nD) (t : Fin cfg10.N) (x : S1x128.Idx) :
    (iblk10 V c 4 t : Vec Ideal S1x128 .f32) x = (V c (Pipeline.arrRef spec10 4) : S1x128.Idx → Elt Ideal .f32) x := by
  obtain ⟨-, -, e10, e11, e20, e21, e30, e31, e40, e41, -, -⟩ := idx_facts10 t
  unfold iblk10
  rw [View.read_apply]
  refine congrArg (V c (Pipeline.arrRef spec10 4) : S1x128.Idx → Elt Ideal .f32) (funext fun a => Fin.ext ?_)
  match a with
  | ⟨0, _⟩ => show win10_4.index t (0 : Fin 2) * 1 + 1 * (x 0).val = (x 0).val; rw [e40]; omega
  | ⟨1, _⟩ => show win10_4.index t (1 : Fin 2) * 128 + 1 * (x 1).val = (x 1).val; rw [e41]; omega

/-! ## What a point writes back, and the whole array -/

/-- WHAT POINT `t` WRITES BACK is block `t` of the specification's function of the five operand arrays as the region
    finds them: the element at row `p`, lane `q` of the block sits at row `5000 t + p`, lane `q` of the array. -/
theorem flushed10_eq (c : Dev nD) (t : Fin cfg10.N) :
    (dat10 (F := Ideal) V c).flushed 5 t = ((cfg10.win 5).blk t).view.read (Elt Ideal)
      (Cert.Spec.bnR2 (V c (Pipeline.arrRef spec10 0)) (V c (Pipeline.arrRef spec10 1)) (V c (Pipeline.arrRef spec10 2))
        (V c (Pipeline.arrRef spec10 3)) (V c (Pipeline.arrRef spec10 4))) := by
  show (cfg10.win 5).cut (grid10.coords t) ((dat10 V c).after 5 t) = _
  rw [after10_5]
  obtain ⟨-, -, -, -, -, -, -, -, -, -, e50, e51⟩ := idx_facts10 t
  funext j
  rw [View.read_apply]
  have hj0 : (j 0).val < 5000 := (j 0).isLt
  have hj1 : (j 1).val < 128 := (j 1).isLt
  have hx : (cfg10.win 5).xinj (grid10.coords t) j = ix2 (⟨(j 0).val, hj0⟩ : Fin 5000) (⟨(j 1).val, hj1⟩ : Fin 128) :=
    funext fun a => by match a with | ⟨0, _⟩ => rfl | ⟨1, _⟩ => rfl
  show out10_5 (iblk10 V c 0 t) (iblk10 V c 1 t) (iblk10 V c 2 t) (iblk10 V c 3 t) (iblk10 V c 4 t)
      ((cfg10.win 5).xinj (grid10.coords t) j) = _
  rw [hx]
  have hk0 : ((((cfg10.win 5).blk t).view.emb j : S50000x128.Idx) 0).val = 5000 * t.val + (j 0).val := by
    show win10_5.index t (0 : Fin 2) * 5000 + 1 * (j 0).val = _; rw [e50]; omega
  have hk1 : ((((cfg10.win 5).blk t).view.emb j : S50000x128.Idx) 1).val = (j 1).val := by
    show win10_5.index t (1 : Fin 2) * 128 + 1 * (j 1).val = _; rw [e51]; omega
  refine point10_eq _ _ _ _ _ _ _ _ _ _ _ _ (((cfg10.win 5).blk t).view.emb j)
    (iblk10_0_apply V c t _ _ hk0 hk1) ?_ ?_ ?_ ?_
  · refine (iblk10_1_apply V c t _).trans (congrArg _ (funext fun a => Fin.ext ?_))
    match a with | ⟨0, _⟩ => rfl | ⟨1, _⟩ => exact hk1.symm
  · refine (iblk10_2_apply V c t _).trans (congrArg _ (funext fun a => Fin.ext ?_))
    match a with | ⟨0, _⟩ => rfl | ⟨1, _⟩ => exact hk1.symm
  · refine (iblk10_3_apply V c t _).trans (congrArg _ (funext fun a => Fin.ext ?_))
    match a with | ⟨0, _⟩ => rfl | ⟨1, _⟩ => exact hk1.symm
  · refine (iblk10_4_apply V c t _).trans (congrArg _ (funext fun a => Fin.ext ?_))
    match a with | ⟨0, _⟩ => rfl | ⟨1, _⟩ => exact hk1.symm

/-- An index of the result array is in point `t`'s block iff each coordinate is in the block's range on its axis. -/
theorem mem_blk10 (t : Fin cfg10.N) (i : S50000x128.Idx) :
    i ∈ ((cfg10.win 5).blk t).view.set ↔ ∀ a : Fin 2, win10_5.index t a * S5000x128.size a ≤ (i a).val
      ∧ (i a).val < win10_5.index t a * S5000x128.size a + S5000x128.size a := by
  show i ∈ ((View.whole main_v190).slice (win10_5.rect t)).set ↔ _
  rw [View.set_slice_whole, Rect.mem_set_unit]
  exact Iff.rfl

/-- Every index of the result array is in the block of a point that writes back: row `r` is in block `r / 5000`. -/
theorem cover10 (i : S50000x128.Idx) :
    ∃ t : Fin cfg10.N, (cfg10.win 5).flush t = true ∧ i ∈ ((cfg10.win 5).blk t).view.set := by
  have hi0 : (i 0).val < 50000 := (i 0).isLt
  have hi1 : (i 1).val < 128 := (i 1).isLt
  have hN : cfg10.N = 10 := rfl
  let t : Fin cfg10.N := ⟨(i 0).val / 5000, by rw [hN]; omega⟩
  have ht : t.val = (i 0).val / 5000 := rfl
  obtain ⟨-, -, -, -, -, -, -, -, -, -, e50, e51⟩ := idx_facts10 t
  refine ⟨t, flush10_5 t, ?_⟩
  rw [mem_blk10]
  intro a
  match a with
  | ⟨0, _⟩ =>
    show win10_5.index t (0 : Fin 2) * 5000 ≤ (i 0).val ∧ (i 0).val < win10_5.index t (0 : Fin 2) * 5000 + 5000
    rw [e50, ht]; omega
  | ⟨1, _⟩ =>
    show win10_5.index t (1 : Fin 2) * 128 ≤ (i 1).val ∧ (i 1).val < win10_5.index t (1 : Fin 2) * 128 + 128
    rw [e51]; omega

/-- THE RESULT ARRAY after the region: the specification's function of the five operand arrays as the region finds
    them (the rows, the mean, the variance, the scale, the shift). -/
theorem arr10_eq (c : Dev nD) :
    (dat10 (F := Ideal) V c).arrAt 5 cfg10.N
      = Cert.Spec.bnR2 (V c (Pipeline.arrRef spec10 0)) (V c (Pipeline.arrRef spec10 1)) (V c (Pipeline.arrRef spec10 2))
          (V c (Pipeline.arrRef spec10 3)) (V c (Pipeline.arrRef spec10 4)) :=
  (dat10 (F := Ideal) V c).arrAt_eq_of_cover 5 _ (fun t _ => flushed10_eq V c t) (cover10)

end Blocks

end Cert.KernelIdeal.Frame10

end
-- ==== Proof.KIValue11.lean ====
/- Region 11 of the idealized kernel program, its VALUE: the result array after the region is one function of the
   region's operand arrays as the region finds them — rows times the 64 × 64 weight, plus the bias row, plus the added
   operand, entry by entry over the extended reals (`Cert.Spec.linE`).

   The region writes its result block by block: grid point t handles rows 5000 t … 5000 t + 4999. What point t writes
   back is the body's stored value on the blocks of the four operands at t; read at row p, column q of the block it is
   the spec's entry at row 5000 t + p, column q, because each operand's block sits in its array where the result's
   block does (the row blocks at block index (t, 0), the weight and the bias row whole). The twenty blocks tile the
   array — row r lies in the block of point r / 5000 — so the array ends as the spec's. -/
import proofs.«146189_j40922448396571_2_alg».proof.Proof.KIRegion11Body
import proofs.«146189_j40922448396571_2_alg».proof.Proof.SpecK
import proofs.«146189_j40922448396571_2_alg».proof.Proof.KIValueLin
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frame11

open Cert.KernelIdeal Cert.KernelIdeal.Gen Cert.KernelIdeal.ValLin
open Idealize.ShloMosaic Idealize.ShloMosaic.TcCoe Idealize.ShloMosaic.ValueIdx
open Idealize.ShloMosaic.Pipeline (Dat Cfg Window)

theorem hz : (![0, 0] : Fin 2 → Nat) = fun _ => 0 := funext fun a => by fin_cases a <;> rfl

/-- The printed index maps, decided over the grid: at point t the two row-block inputs and the output are at
    block (t, 0); the weight and the bias row are at block (0, 0). -/
theorem idx_facts11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0
    ∧ win11_4.index t (0 : Fin 2) = t.val ∧ win11_4.index t (1 : Fin 2) = 0 :=
  (by decide +kernel : ∀ t : Fin grid11.N, _)

variable (V : (c : Dev nD) → (b : Ref sig .tc) → Buf (Elt Ideal) ((c : Thread nD τ).loc b))

set_option maxHeartbeats 1000000 in
/-- What point t writes back is block t of linE of the four operand arrays as the region finds them. -/
theorem flushed11_eq (c : Dev nD) (t : Fin cfg11.N) :
    (dat11 (F := Ideal) V c).flushed 4 t
      = ((cfg11.win 4).blk t).view.read (Elt Ideal)
          (Cert.Spec.linE (V c (Pipeline.arrRef spec11 0)) (V c (Pipeline.arrRef spec11 1))
            (V c (Pipeline.arrRef spec11 2)) (V c (Pipeline.arrRef spec11 3))) := by
  show (cfg11.win 4).cut (grid11.coords t) ((dat11 V c).after 4 t) = _
  rw [after11_4]
  unfold out11_4
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41⟩ := idx_facts11 t
  funext j
  obtain ⟨p, q, rfl⟩ : ∃ (p : Fin 5000) (q : Fin 64), j = ix2 p q := ⟨j 0, j 1, eq_ix2 j⟩
  refine (k11_pay1_apply (iblk11 V c 0 t) (iblk11 V c 1 t) (iblk11 V c 2 t) (iblk11 V c 3 t) p q).trans ?_
  -- the output block's element in the array
  show _ = Cert.Spec.linE (V c (Pipeline.arrRef spec11 0)) (V c (Pipeline.arrRef spec11 1))
      (V c (Pipeline.arrRef spec11 2)) (V c (Pipeline.arrRef spec11 3)) (((cfg11.win 4).blk t).view.emb (ix2 p q))
  -- each input block's element is the array's element where the output's rectangle says
  have hA : ∀ k : Fin 64, iblk11 V c 0 t (ix2 p k)
      = V c (Pipeline.arrRef spec11 0) (ix2 (n0 := 100000) (n1 := 64) ((((cfg11.win 4).blk t).view.emb (ix2 p q)) 0) k) := fun k =>
    congrArg (V c (Pipeline.arrRef spec11 0)) (funext fun a => Fin.ext (by
      match a with
      | ⟨0, _⟩ => show win11_0.index t (0 : Fin 2) * 5000 + 1 * p.val = win11_4.index t (0 : Fin 2) * 5000 + 1 * p.val; omega
      | ⟨1, _⟩ => show win11_0.index t (1 : Fin 2) * 64 + 1 * k.val = k.val; omega))
  have hW : ∀ k : Fin 64, iblk11 V c 1 t (ix2 k q)
      = V c (Pipeline.arrRef spec11 1) (ix2 (n0 := 64) (n1 := 64) k ((((cfg11.win 4).blk t).view.emb (ix2 p q)) 1)) := fun k =>
    congrArg (V c (Pipeline.arrRef spec11 1)) (funext fun a => Fin.ext (by
      match a with
      | ⟨0, _⟩ => show win11_1.index t (0 : Fin 2) * 64 + 1 * k.val = k.val; omega
      | ⟨1, _⟩ => show win11_1.index t (1 : Fin 2) * 64 + 1 * q.val = win11_4.index t (1 : Fin 2) * 64 + 1 * q.val; omega))
  have hB : iblk11 V c 2 t (ix2 (0 : Fin 1) q)
      = V c (Pipeline.arrRef spec11 2) (ix2 (n0 := 1) (n1 := 64) 0 ((((cfg11.win 4).blk t).view.emb (ix2 p q)) 1)) :=
    congrArg (V c (Pipeline.arrRef spec11 2)) (funext fun a => Fin.ext (by
      match a with
      | ⟨0, _⟩ => show win11_2.index t (0 : Fin 2) * 1 + 1 * 0 = 0; omega
      | ⟨1, _⟩ => show win11_2.index t (1 : Fin 2) * 64 + 1 * q.val = win11_4.index t (1 : Fin 2) * 64 + 1 * q.val; omega))
  have hE : iblk11 V c 3 t (ix2 p q)
      = V c (Pipeline.arrRef spec11 3) (((cfg11.win 4).blk t).view.emb (ix2 p q)) :=
    congrArg (V c (Pipeline.arrRef spec11 3)) (funext fun a => Fin.ext (by
      match a with
      | ⟨0, _⟩ => show win11_3.index t (0 : Fin 2) * 5000 + 1 * p.val = win11_4.index t (0 : Fin 2) * 5000 + 1 * p.val; omega
      | ⟨1, _⟩ => show win11_3.index t (1 : Fin 2) * 64 + 1 * q.val = win11_4.index t (1 : Fin 2) * 64 + 1 * q.val; omega))
  unfold Cert.Spec.linE Cert.Spec.linO
  simp only [hA, hW, hB, hE]

/-- An index of the result array is in point t's block iff each coordinate is in the block's range on its axis. -/
theorem mem_blk11 (t : Fin cfg11.N) (i : S100000x64.Idx) :
    i ∈ ((cfg11.win 4).blk t).view.set ↔ ∀ a : Fin 2, win11_4.index t a * S5000x64.size a ≤ (i a).val
      ∧ (i a).val < win11_4.index t a * S5000x64.size a + S5000x64.size a := by
  show i ∈ ((View.whole main_v208).slice (win11_4.rect t)).set ↔ _
  rw [View.set_slice_whole, Rect.mem_set_unit]
  exact Iff.rfl

/-- Every index of the result array is in some point's block: row r is in the block of point r / 5000. -/
theorem cover11 (i : S100000x64.Idx) :
    ∃ t : Fin cfg11.N, (cfg11.win 4).flush t = true ∧ i ∈ ((cfg11.win 4).blk t).view.set := by
  have hi0 : (i 0).val < 100000 := (i 0).isLt
  have hi1 : (i 1).val < 64 := (i 1).isLt
  have ht : (i 0).val / 5000 < cfg11.N := by show (i 0).val / 5000 < 20; omega
  obtain ⟨-, -, -, -, -, -, -, -, e40, e41⟩ := idx_facts11 ⟨(i 0).val / 5000, ht⟩
  refine ⟨⟨(i 0).val / 5000, ht⟩, flush11_4 _, ?_⟩
  rw [mem_blk11]
  intro a
  match a with
  | ⟨0, _⟩ =>
    show win11_4.index ⟨(i 0).val / 5000, ht⟩ (0 : Fin 2) * 5000 ≤ (i 0).val
      ∧ (i 0).val < win11_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win11_4.index ⟨(i 0).val / 5000, ht⟩ (1 : Fin 2) * 64 ≤ (i 1).val
      ∧ (i 1).val < win11_4.index ⟨(i 0).val / 5000, ht⟩ (1 : Fin 2) * 64 + 64
    rw [e41]; omega

/-- The result array after the region: linE of the four operand arrays as the region finds them. -/
theorem arr11_eq (c : Dev nD) :
    (dat11 (F := Ideal) V c).arrAt 4 cfg11.N
      = Cert.Spec.linE (V c (Pipeline.arrRef spec11 0)) (V c (Pipeline.arrRef spec11 1))
          (V c (Pipeline.arrRef spec11 2)) (V c (Pipeline.arrRef spec11 3)) :=
  (dat11 (F := Ideal) V c).arrAt_eq_of_cover 4 _ (fun t _ => flushed11_eq V c t) cover11

end Cert.KernelIdeal.Frame11

end
-- ==== Proof.KIValue12.lean ====
/- What region 12 of the idealized kernel program leaves in its result array, over the extended reals: the whole
   [50000,128] array is ONE function of the region's five operand arrays, index by index — the batch-norm affine map
   followed by the maximum with zero of the specification. The body's payload is read at an index; the block a grid point writes back is the
   block of that function at the point's rows (rows 5000 t … 5000 t + 4999: the row-block operand and the result move
   together, the four parameter rows do not move); the ten blocks cover the array. -/
import proofs.«146189_j40922448396571_2_alg».proof.Proof.KIRegion12Body
import proofs.«146189_j40922448396571_2_alg».proof.Proof.SpecK
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame12

open Cert.KernelIdeal.Gen
open Idealize.ShloMosaic Idealize.ShloMosaic.TcCoe Idealize.ShloMosaic.ValueIdx
open Idealize.ShloMosaic.Pipeline (Dat Cfg Window)

/-- The zero offsets of a whole-buffer rectangle, as a constant function. -/
theorem hz12 : (![0, 0] : Fin 2 → Nat) = fun _ => 0 := funext fun a => by fin_cases a <;> rfl

/-! ## The payload and the output buffer at an index -/

/-- The body's payload at row `p`, lane `q`, from the loaded values (`x0` the rows; `xv` the variance, `xm` the mean,
    `xg` the scale, `xb` the shift, in the order the body loads them): every operation is pointwise or a broadcast of
    a [1,128] row over the 5000 rows. -/
theorem pay12_apply (x0 : Vec Ideal S5000x128 .f32) (xv xm xg xb : Vec Ideal S1x128 .f32) (p : Fin 5000) (q : Fin 128) :
    k12_pay1 (F := Ideal) x0 xv xm xg xb (ix2 p q)
      = max ((((x0 (ix2 p q) - xm (ix2 (0 : Fin 1) q)) * Ideal.rsqrt (xv (ix2 (0 : Fin 1) q) + Cert.Spec.eps)) * xg (ix2 (0 : Fin 1) q))
          + xb (ix2 (0 : Fin 1) q)) Cert.Spec.z := by
  unfold k12_pay1
  simp only [maximumf_apply, addf_apply, mulf_apply, subf_apply, broadcast_apply, Idealize.ShloMosaic.shapeCast_self, broadcastTo_1b_ab_apply]
  rfl

/-- The output staging buffer after the body at row `p`, lane `q`, from the five input blocks in window order
    (`x1` the mean, `x2` the variance). -/
theorem out12_5_apply (x0 : Vec Ideal S5000x128 .f32) (x1 x2 x3 x4 : Vec Ideal S1x128 .f32) (p : Fin 5000) (q : Fin 128) :
    out12_5 x0 x1 x2 x3 x4 (ix2 p q)
      = max ((((x0 (ix2 p q) - x1 (ix2 (0 : Fin 1) q)) * Ideal.rsqrt (x2 (ix2 (0 : Fin 1) q) + Cert.Spec.eps)) * x3 (ix2 (0 : Fin 1) q))
          + x4 (ix2 (0 : Fin 1) q)) Cert.Spec.z := by
  unfold out12_5
  rw [View.canon_unit_zero hz12]
  simp only [View.ld_unit_zero (S := S5000x128) hz12, View.ld_unit_zero (S := S1x128) hz12]
  exact pay12_apply x0 x2 x1 x3 x4 p q

/-- The same against the specification read at an array index `k`: when the row block's entry is the array's at `k`
    and each parameter row's entry is its array's at lane `k 1`. -/
theorem point12_eq (X0 : Vec Ideal S5000x128 .f32) (X1 X2 X3 X4 : Vec Ideal S1x128 .f32)
    (A0 : FVec Ideal Cert.Spec.SM128 .f32) (A1 A2 A3 A4 : FVec Ideal Cert.Spec.S1x128 .f32)
    (p : Fin 5000) (q : Fin 128) (k : Cert.Spec.SM128.Idx)
    (h0 : X0 (ix2 p q) = A0 k)
    (h1 : X1 (ix2 (0 : Fin 1) q) = A1 (ix2 (n0 := 1) (n1 := 128) 0 (k 1)))
    (h2 : X2 (ix2 (0 : Fin 1) q) = A2 (ix2 (n0 := 1) (n1 := 128) 0 (k 1)))
    (h3 : X3 (ix2 (0 : Fin 1) q) = A3 (ix2 (n0 := 1) (n1 := 128) 0 (k 1)))
    (h4 : X4 (ix2 (0 : Fin 1) q) = A4 (ix2 (n0 := 1) (n1 := 128) 0 (k 1))) :
    out12_5 X0 X1 X2 X3 X4 (ix2 p q) = Cert.Spec.bnR2 A0 A1 A2 A3 A4 k := by
  rw [out12_5_apply, h0, h1, h2, h3, h4]
  rfl

/-! ## The index maps, decided once over the grid -/

/-- At point `t` the row-block operand and the result are at block (t, 0); the four parameter rows at block (0, 0). -/
theorem idx_facts12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0 :=
  (by decide +kernel : ∀ t : Fin grid12.N, _)

/-! ## The input blocks as entries of the operand arrays -/

section Blocks
variable (V : (c : Dev nD) → (b : Ref sig .tc) → Buf (Elt Ideal) ((c : Thread nD τ).loc b))

/-- The row-block operand's block at point `t`, at `x`, is the array's entry at row `5000 t + x 0`, lane `x 1`. -/
theorem iblk12_0_apply (c : Dev nD) (t : Fin cfg12.N) (x : S5000x128.Idx) (k : S50000x128.Idx)
    (hk0 : (k 0).val = 5000 * t.val + (x 0).val) (hk1 : (k 1).val = (x 1).val) :
    (iblk12 V c 0 t : Vec Ideal S5000x128 .f32) x = (V c (Pipeline.arrRef spec12 0) : S50000x128.Idx → Elt Ideal .f32) k := by
  obtain ⟨e00, e01, -⟩ := idx_facts12 t
  unfold iblk12
  rw [View.read_apply]
  refine congrArg (V c (Pipeline.arrRef spec12 0) : S50000x128.Idx → Elt Ideal .f32) (funext fun a => Fin.ext ?_)
  match a with
  | ⟨0, _⟩ => show win12_0.index t (0 : Fin 2) * 5000 + 1 * (x 0).val = (k 0).val; rw [e00, hk0]; omega
  | ⟨1, _⟩ => show win12_0.index t (1 : Fin 2) * 128 + 1 * (x 1).val = (k 1).val; rw [e01, hk1]; omega

/-- The mean row's block at any point is the whole [1,128] array: its block index is (0, 0) throughout. -/
theorem iblk12_1_apply (c : Dev nD) (t : Fin cfg12.N) (x : S1x128.Idx) :
    (iblk12 V c 1 t : Vec Ideal S1x128 .f32) x = (V c (Pipeline.arrRef spec12 1) : S1x128.Idx → Elt Ideal .f32) x := by
  obtain ⟨-, -, e10, e11, e20, e21, e30, e31, e40, e41, -, -⟩ := idx_facts12 t
  unfold iblk12
  rw [View.read_apply]
  refine congrArg (V c (Pipeline.arrRef spec12 1) : S1x128.Idx → Elt Ideal .f32) (funext fun a => Fin.ext ?_)
  match a with
  | ⟨0, _⟩ => show win12_1.index t (0 : Fin 2) * 1 + 1 * (x 0).val = (x 0).val; rw [e10]; omega
  | ⟨1, _⟩ => show win12_1.index t (1 : Fin 2) * 128 + 1 * (x 1).val = (x 1).val; rw [e11]; omega

/-- The variance row's block at any point is the whole [1,128] array: its block index is (0, 0) throughout. -/
theorem iblk12_2_apply (c : Dev nD) (t : Fin cfg12.N) (x : S1x128.Idx) :
    (iblk12 V c 2 t : Vec Ideal S1x128 .f32) x = (V c (Pipeline.arrRef spec12 2) : S1x128.Idx → Elt Ideal .f32) x := by
  obtain ⟨-, -, e10, e11, e20, e21, e30, e31, e40, e41, -, -⟩ := idx_facts12 t
  unfold iblk12
  rw [View.read_apply]
  refine congrArg (V c (Pipeline.arrRef spec12 2) : S1x128.Idx → Elt Ideal .f32) (funext fun a => Fin.ext ?_)
  match a with
  | ⟨0, _⟩ => show win12_2.index t (0 : Fin 2) * 1 + 1 * (x 0).val = (x 0).val; rw [e20]; omega
  | ⟨1, _⟩ => show win12_2.index t (1 : Fin 2) * 128 + 1 * (x 1).val = (x 1).val; rw [e21]; omega

/-- The scale row's block at any point is the whole [1,128] array: its block index is (0, 0) throughout. -/
theorem iblk12_3_apply (c : Dev nD) (t : Fin cfg12.N) (x : S1x128.Idx) :
    (iblk12 V c 3 t : Vec Ideal S1x128 .f32) x = (V c (Pipeline.arrRef spec12 3) : S1x128.Idx → Elt Ideal .f32) x := by
  obtain ⟨-, -, e10, e11, e20, e21, e30, e31, e40, e41, -, -⟩ := idx_facts12 t
  unfold iblk12
  rw [View.read_apply]
  refine congrArg (V c (Pipeline.arrRef spec12 3) : S1x128.Idx → Elt Ideal .f32) (funext fun a => Fin.ext ?_)
  match a with
  | ⟨0, _⟩ => show win12_3.index t (0 : Fin 2) * 1 + 1 * (x 0).val = (x 0).val; rw [e30]; omega
  | ⟨1, _⟩ => show win12_3.index t (1 : Fin 2) * 128 + 1 * (x 1).val = (x 1).val; rw [e31]; omega

/-- The shift row's block at any point is the whole [1,128] array: its block index is (0, 0) throughout. -/
theorem iblk12_4_apply (c : Dev nD) (t : Fin cfg12.N) (x : S1x128.Idx) :
    (iblk12 V c 4 t : Vec Ideal S1x128 .f32) x = (V c (Pipeline.arrRef spec12 4) : S1x128.Idx → Elt Ideal .f32) x := by
  obtain ⟨-, -, e10, e11, e20, e21, e30, e31, e40, e41, -, -⟩ := idx_facts12 t
  unfold iblk12
  rw [View.read_apply]
  refine congrArg (V c (Pipeline.arrRef spec12 4) : S1x128.Idx → Elt Ideal .f32) (funext fun a => Fin.ext ?_)
  match a with
  | ⟨0, _⟩ => show win12_4.index t (0 : Fin 2) * 1 + 1 * (x 0).val = (x 0).val; rw [e40]; omega
  | ⟨1, _⟩ => show win12_4.index t (1 : Fin 2) * 128 + 1 * (x 1).val = (x 1).val; rw [e41]; omega

/-! ## What a point writes back, and the whole array -/

/-- WHAT POINT `t` WRITES BACK is block `t` of the specification's function of the five operand arrays as the region
    finds them: the element at row `p`, lane `q` of the block sits at row `5000 t + p`, lane `q` of the array. -/
theorem flushed12_eq (c : Dev nD) (t : Fin cfg12.N) :
    (dat12 (F := Ideal) V c).flushed 5 t = ((cfg12.win 5).blk t).view.read (Elt Ideal)
      (Cert.Spec.bnR2 (V c (Pipeline.arrRef spec12 0)) (V c (Pipeline.arrRef spec12 1)) (V c (Pipeline.arrRef spec12 2))
        (V c (Pipeline.arrRef spec12 3)) (V c (Pipeline.arrRef spec12 4))) := by
  show (cfg12.win 5).cut (grid12.coords t) ((dat12 V c).after 5 t) = _
  rw [after12_5]
  obtain ⟨-, -, -, -, -, -, -, -, -, -, e50, e51⟩ := idx_facts12 t
  funext j
  rw [View.read_apply]
  have hj0 : (j 0).val < 5000 := (j 0).isLt
  have hj1 : (j 1).val < 128 := (j 1).isLt
  have hx : (cfg12.win 5).xinj (grid12.coords t) j = ix2 (⟨(j 0).val, hj0⟩ : Fin 5000) (⟨(j 1).val, hj1⟩ : Fin 128) :=
    funext fun a => by match a with | ⟨0, _⟩ => rfl | ⟨1, _⟩ => rfl
  show out12_5 (iblk12 V c 0 t) (iblk12 V c 1 t) (iblk12 V c 2 t) (iblk12 V c 3 t) (iblk12 V c 4 t)
      ((cfg12.win 5).xinj (grid12.coords t) j) = _
  rw [hx]
  have hk0 : ((((cfg12.win 5).blk t).view.emb j : S50000x128.Idx) 0).val = 5000 * t.val + (j 0).val := by
    show win12_5.index t (0 : Fin 2) * 5000 + 1 * (j 0).val = _; rw [e50]; omega
  have hk1 : ((((cfg12.win 5).blk t).view.emb j : S50000x128.Idx) 1).val = (j 1).val := by
    show win12_5.index t (1 : Fin 2) * 128 + 1 * (j 1).val = _; rw [e51]; omega
  refine point12_eq _ _ _ _ _ _ _ _ _ _ _ _ (((cfg12.win 5).blk t).view.emb j)
    (iblk12_0_apply V c t _ _ hk0 hk1) ?_ ?_ ?_ ?_
  · refine (iblk12_1_apply V c t _).trans (congrArg _ (funext fun a => Fin.ext ?_))
    match a with | ⟨0, _⟩ => rfl | ⟨1, _⟩ => exact hk1.symm
  · refine (iblk12_2_apply V c t _).trans (congrArg _ (funext fun a => Fin.ext ?_))
    match a with | ⟨0, _⟩ => rfl | ⟨1, _⟩ => exact hk1.symm
  · refine (iblk12_3_apply V c t _).trans (congrArg _ (funext fun a => Fin.ext ?_))
    match a with | ⟨0, _⟩ => rfl | ⟨1, _⟩ => exact hk1.symm
  · refine (iblk12_4_apply V c t _).trans (congrArg _ (funext fun a => Fin.ext ?_))
    match a with | ⟨0, _⟩ => rfl | ⟨1, _⟩ => exact hk1.symm

/-- An index of the result array is in point `t`'s block iff each coordinate is in the block's range on its axis. -/
theorem mem_blk12 (t : Fin cfg12.N) (i : S50000x128.Idx) :
    i ∈ ((cfg12.win 5).blk t).view.set ↔ ∀ a : Fin 2, win12_5.index t a * S5000x128.size a ≤ (i a).val
      ∧ (i a).val < win12_5.index t a * S5000x128.size a + S5000x128.size a := by
  show i ∈ ((View.whole main_v231).slice (win12_5.rect t)).set ↔ _
  rw [View.set_slice_whole, Rect.mem_set_unit]
  exact Iff.rfl

/-- Every index of the result array is in the block of a point that writes back: row `r` is in block `r / 5000`. -/
theorem cover12 (i : S50000x128.Idx) :
    ∃ t : Fin cfg12.N, (cfg12.win 5).flush t = true ∧ i ∈ ((cfg12.win 5).blk t).view.set := by
  have hi0 : (i 0).val < 50000 := (i 0).isLt
  have hi1 : (i 1).val < 128 := (i 1).isLt
  have hN : cfg12.N = 10 := rfl
  let t : Fin cfg12.N := ⟨(i 0).val / 5000, by rw [hN]; omega⟩
  have ht : t.val = (i 0).val / 5000 := rfl
  obtain ⟨-, -, -, -, -, -, -, -, -, -, e50, e51⟩ := idx_facts12 t
  refine ⟨t, flush12_5 t, ?_⟩
  rw [mem_blk12]
  intro a
  match a with
  | ⟨0, _⟩ =>
    show win12_5.index t (0 : Fin 2) * 5000 ≤ (i 0).val ∧ (i 0).val < win12_5.index t (0 : Fin 2) * 5000 + 5000
    rw [e50, ht]; omega
  | ⟨1, _⟩ =>
    show win12_5.index t (1 : Fin 2) * 128 ≤ (i 1).val ∧ (i 1).val < win12_5.index t (1 : Fin 2) * 128 + 128
    rw [e51]; omega

/-- THE RESULT ARRAY after the region: the specification's function of the five operand arrays as the region finds
    them (the rows, the mean, the variance, the scale, the shift). -/
theorem arr12_eq (c : Dev nD) :
    (dat12 (F := Ideal) V c).arrAt 5 cfg12.N
      = Cert.Spec.bnR2 (V c (Pipeline.arrRef spec12 0)) (V c (Pipeline.arrRef spec12 1)) (V c (Pipeline.arrRef spec12 2))
          (V c (Pipeline.arrRef spec12 3)) (V c (Pipeline.arrRef spec12 4)) :=
  (dat12 (F := Ideal) V c).arrAt_eq_of_cover 5 _ (fun t _ => flushed12_eq V c t) (cover12)

end Blocks

end Cert.KernelIdeal.Frame12

end
-- ==== Proof.KIValue13.lean ====
/- Region 13 of the idealized kernel program, its VALUE: the result array after the region is one function of the
   region's operand arrays as the region finds them — rows times the 64 × 64 weight, plus the bias row, plus the added
   operand, entry by entry over the extended reals (`Cert.Spec.linE`).

   The region writes its result block by block: grid point t handles rows 5000 t … 5000 t + 4999. What point t writes
   back is the body's stored value on the blocks of the four operands at t; read at row p, column q of the block it is
   the spec's entry at row 5000 t + p, column q, because each operand's block sits in its array where the result's
   block does (the row blocks at block index (t, 0), the weight and the bias row whole). The twenty blocks tile the
   array — row r lies in the block of point r / 5000 — so the array ends as the spec's. -/
import proofs.«146189_j40922448396571_2_alg».proof.Proof.KIRegion13Body
import proofs.«146189_j40922448396571_2_alg».proof.Proof.SpecK
import proofs.«146189_j40922448396571_2_alg».proof.Proof.KIValueLin
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frame13

open Cert.KernelIdeal Cert.KernelIdeal.Gen Cert.KernelIdeal.ValLin
open Idealize.ShloMosaic Idealize.ShloMosaic.TcCoe Idealize.ShloMosaic.ValueIdx
open Idealize.ShloMosaic.Pipeline (Dat Cfg Window)

theorem hz : (![0, 0] : Fin 2 → Nat) = fun _ => 0 := funext fun a => by fin_cases a <;> rfl

/-- The printed index maps, decided over the grid: at point t the two row-block inputs and the output are at
    block (t, 0); the weight and the bias row are at block (0, 0). -/
theorem idx_facts13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0
    ∧ win13_4.index t (0 : Fin 2) = t.val ∧ win13_4.index t (1 : Fin 2) = 0 :=
  (by decide +kernel : ∀ t : Fin grid13.N, _)

variable (V : (c : Dev nD) → (b : Ref sig .tc) → Buf (Elt Ideal) ((c : Thread nD τ).loc b))

set_option maxHeartbeats 1000000 in
/-- What point t writes back is block t of linE of the four operand arrays as the region finds them. -/
theorem flushed13_eq (c : Dev nD) (t : Fin cfg13.N) :
    (dat13 (F := Ideal) V c).flushed 4 t
      = ((cfg13.win 4).blk t).view.read (Elt Ideal)
          (Cert.Spec.linE (V c (Pipeline.arrRef spec13 0)) (V c (Pipeline.arrRef spec13 1))
            (V c (Pipeline.arrRef spec13 2)) (V c (Pipeline.arrRef spec13 3))) := by
  show (cfg13.win 4).cut (grid13.coords t) ((dat13 V c).after 4 t) = _
  rw [after13_4]
  unfold out13_4
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41⟩ := idx_facts13 t
  funext j
  obtain ⟨p, q, rfl⟩ : ∃ (p : Fin 5000) (q : Fin 64), j = ix2 p q := ⟨j 0, j 1, eq_ix2 j⟩
  refine (k13_pay1_apply (iblk13 V c 0 t) (iblk13 V c 1 t) (iblk13 V c 2 t) (iblk13 V c 3 t) p q).trans ?_
  -- the output block's element in the array
  show _ = Cert.Spec.linE (V c (Pipeline.arrRef spec13 0)) (V c (Pipeline.arrRef spec13 1))
      (V c (Pipeline.arrRef spec13 2)) (V c (Pipeline.arrRef spec13 3)) (((cfg13.win 4).blk t).view.emb (ix2 p q))
  -- each input block's element is the array's element where the output's rectangle says
  have hA : ∀ k : Fin 64, iblk13 V c 0 t (ix2 p k)
      = V c (Pipeline.arrRef spec13 0) (ix2 (n0 := 100000) (n1 := 64) ((((cfg13.win 4).blk t).view.emb (ix2 p q)) 0) k) := fun k =>
    congrArg (V c (Pipeline.arrRef spec13 0)) (funext fun a => Fin.ext (by
      match a with
      | ⟨0, _⟩ => show win13_0.index t (0 : Fin 2) * 5000 + 1 * p.val = win13_4.index t (0 : Fin 2) * 5000 + 1 * p.val; omega
      | ⟨1, _⟩ => show win13_0.index t (1 : Fin 2) * 64 + 1 * k.val = k.val; omega))
  have hW : ∀ k : Fin 64, iblk13 V c 1 t (ix2 k q)
      = V c (Pipeline.arrRef spec13 1) (ix2 (n0 := 64) (n1 := 64) k ((((cfg13.win 4).blk t).view.emb (ix2 p q)) 1)) := fun k =>
    congrArg (V c (Pipeline.arrRef spec13 1)) (funext fun a => Fin.ext (by
      match a with
      | ⟨0, _⟩ => show win13_1.index t (0 : Fin 2) * 64 + 1 * k.val = k.val; omega
      | ⟨1, _⟩ => show win13_1.index t (1 : Fin 2) * 64 + 1 * q.val = win13_4.index t (1 : Fin 2) * 64 + 1 * q.val; omega))
  have hB : iblk13 V c 2 t (ix2 (0 : Fin 1) q)
      = V c (Pipeline.arrRef spec13 2) (ix2 (n0 := 1) (n1 := 64) 0 ((((cfg13.win 4).blk t).view.emb (ix2 p q)) 1)) :=
    congrArg (V c (Pipeline.arrRef spec13 2)) (funext fun a => Fin.ext (by
      match a with
      | ⟨0, _⟩ => show win13_2.index t (0 : Fin 2) * 1 + 1 * 0 = 0; omega
      | ⟨1, _⟩ => show win13_2.index t (1 : Fin 2) * 64 + 1 * q.val = win13_4.index t (1 : Fin 2) * 64 + 1 * q.val; omega))
  have hE : iblk13 V c 3 t (ix2 p q)
      = V c (Pipeline.arrRef spec13 3) (((cfg13.win 4).blk t).view.emb (ix2 p q)) :=
    congrArg (V c (Pipeline.arrRef spec13 3)) (funext fun a => Fin.ext (by
      match a with
      | ⟨0, _⟩ => show win13_3.index t (0 : Fin 2) * 5000 + 1 * p.val = win13_4.index t (0 : Fin 2) * 5000 + 1 * p.val; omega
      | ⟨1, _⟩ => show win13_3.index t (1 : Fin 2) * 64 + 1 * q.val = win13_4.index t (1 : Fin 2) * 64 + 1 * q.val; omega))
  unfold Cert.Spec.linE Cert.Spec.linO
  simp only [hA, hW, hB, hE]

/-- An index of the result array is in point t's block iff each coordinate is in the block's range on its axis. -/
theorem mem_blk13 (t : Fin cfg13.N) (i : S100000x64.Idx) :
    i ∈ ((cfg13.win 4).blk t).view.set ↔ ∀ a : Fin 2, win13_4.index t a * S5000x64.size a ≤ (i a).val
      ∧ (i a).val < win13_4.index t a * S5000x64.size a + S5000x64.size a := by
  show i ∈ ((View.whole main_v238).slice (win13_4.rect t)).set ↔ _
  rw [View.set_slice_whole, Rect.mem_set_unit]
  exact Iff.rfl

/-- Every index of the result array is in some point's block: row r is in the block of point r / 5000. -/
theorem cover13 (i : S100000x64.Idx) :
    ∃ t : Fin cfg13.N, (cfg13.win 4).flush t = true ∧ i ∈ ((cfg13.win 4).blk t).view.set := by
  have hi0 : (i 0).val < 100000 := (i 0).isLt
  have hi1 : (i 1).val < 64 := (i 1).isLt
  have ht : (i 0).val / 5000 < cfg13.N := by show (i 0).val / 5000 < 20; omega
  obtain ⟨-, -, -, -, -, -, -, -, e40, e41⟩ := idx_facts13 ⟨(i 0).val / 5000, ht⟩
  refine ⟨⟨(i 0).val / 5000, ht⟩, flush13_4 _, ?_⟩
  rw [mem_blk13]
  intro a
  match a with
  | ⟨0, _⟩ =>
    show win13_4.index ⟨(i 0).val / 5000, ht⟩ (0 : Fin 2) * 5000 ≤ (i 0).val
      ∧ (i 0).val < win13_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win13_4.index ⟨(i 0).val / 5000, ht⟩ (1 : Fin 2) * 64 ≤ (i 1).val
      ∧ (i 1).val < win13_4.index ⟨(i 0).val / 5000, ht⟩ (1 : Fin 2) * 64 + 64
    rw [e41]; omega

/-- The result array after the region: linE of the four operand arrays as the region finds them. -/
theorem arr13_eq (c : Dev nD) :
    (dat13 (F := Ideal) V c).arrAt 4 cfg13.N
      = Cert.Spec.linE (V c (Pipeline.arrRef spec13 0)) (V c (Pipeline.arrRef spec13 1))
          (V c (Pipeline.arrRef spec13 2)) (V c (Pipeline.arrRef spec13 3)) :=
  (dat13 (F := Ideal) V c).arrAt_eq_of_cover 4 _ (fun t _ => flushed13_eq V c t) cover13

end Cert.KernelIdeal.Frame13

end
-- ==== Proof.KIValue14.lean ====
/- What region 14 of the idealized kernel program leaves in its result array, over the extended reals: the whole
   [50000,128] array is ONE function of the region's five operand arrays, index by index — the batch-norm affine map
   followed by the maximum with zero of the specification. The body's payload is read at an index; the block a grid point writes back is the
   block of that function at the point's rows (rows 5000 t … 5000 t + 4999: the row-block operand and the result move
   together, the four parameter rows do not move); the ten blocks cover the array. -/
import proofs.«146189_j40922448396571_2_alg».proof.Proof.KIRegion14Body
import proofs.«146189_j40922448396571_2_alg».proof.Proof.SpecK
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame14

open Cert.KernelIdeal.Gen
open Idealize.ShloMosaic Idealize.ShloMosaic.TcCoe Idealize.ShloMosaic.ValueIdx
open Idealize.ShloMosaic.Pipeline (Dat Cfg Window)

/-- The zero offsets of a whole-buffer rectangle, as a constant function. -/
theorem hz14 : (![0, 0] : Fin 2 → Nat) = fun _ => 0 := funext fun a => by fin_cases a <;> rfl

/-! ## The payload and the output buffer at an index -/

/-- The body's payload at row `p`, lane `q`, from the loaded values (`x0` the rows; `xv` the variance, `xm` the mean,
    `xg` the scale, `xb` the shift, in the order the body loads them): every operation is pointwise or a broadcast of
    a [1,128] row over the 5000 rows. -/
theorem pay14_apply (x0 : Vec Ideal S5000x128 .f32) (xv xm xg xb : Vec Ideal S1x128 .f32) (p : Fin 5000) (q : Fin 128) :
    k14_pay1 (F := Ideal) x0 xv xm xg xb (ix2 p q)
      = max ((((x0 (ix2 p q) - xm (ix2 (0 : Fin 1) q)) * Ideal.rsqrt (xv (ix2 (0 : Fin 1) q) + Cert.Spec.eps)) * xg (ix2 (0 : Fin 1) q))
          + xb (ix2 (0 : Fin 1) q)) Cert.Spec.z := by
  unfold k14_pay1
  simp only [maximumf_apply, addf_apply, mulf_apply, subf_apply, broadcast_apply, Idealize.ShloMosaic.shapeCast_self, broadcastTo_1b_ab_apply]
  rfl

/-- The output staging buffer after the body at row `p`, lane `q`, from the five input blocks in window order
    (`x1` the mean, `x2` the variance). -/
theorem out14_5_apply (x0 : Vec Ideal S5000x128 .f32) (x1 x2 x3 x4 : Vec Ideal S1x128 .f32) (p : Fin 5000) (q : Fin 128) :
    out14_5 x0 x1 x2 x3 x4 (ix2 p q)
      = max ((((x0 (ix2 p q) - x1 (ix2 (0 : Fin 1) q)) * Ideal.rsqrt (x2 (ix2 (0 : Fin 1) q) + Cert.Spec.eps)) * x3 (ix2 (0 : Fin 1) q))
          + x4 (ix2 (0 : Fin 1) q)) Cert.Spec.z := by
  unfold out14_5
  rw [View.canon_unit_zero hz14]
  simp only [View.ld_unit_zero (S := S5000x128) hz14, View.ld_unit_zero (S := S1x128) hz14]
  exact pay14_apply x0 x2 x1 x3 x4 p q

/-- The same against the specification read at an array index `k`: when the row block's entry is the array's at `k`
    and each parameter row's entry is its array's at lane `k 1`. -/
theorem point14_eq (X0 : Vec Ideal S5000x128 .f32) (X1 X2 X3 X4 : Vec Ideal S1x128 .f32)
    (A0 : FVec Ideal Cert.Spec.SM128 .f32) (A1 A2 A3 A4 : FVec Ideal Cert.Spec.S1x128 .f32)
    (p : Fin 5000) (q : Fin 128) (k : Cert.Spec.SM128.Idx)
    (h0 : X0 (ix2 p q) = A0 k)
    (h1 : X1 (ix2 (0 : Fin 1) q) = A1 (ix2 (n0 := 1) (n1 := 128) 0 (k 1)))
    (h2 : X2 (ix2 (0 : Fin 1) q) = A2 (ix2 (n0 := 1) (n1 := 128) 0 (k 1)))
    (h3 : X3 (ix2 (0 : Fin 1) q) = A3 (ix2 (n0 := 1) (n1 := 128) 0 (k 1)))
    (h4 : X4 (ix2 (0 : Fin 1) q) = A4 (ix2 (n0 := 1) (n1 := 128) 0 (k 1))) :
    out14_5 X0 X1 X2 X3 X4 (ix2 p q) = Cert.Spec.bnR2 A0 A1 A2 A3 A4 k := by
  rw [out14_5_apply, h0, h1, h2, h3, h4]
  rfl

/-! ## The index maps, decided once over the grid -/

/-- At point `t` the row-block operand and the result are at block (t, 0); the four parameter rows at block (0, 0). -/
theorem idx_facts14 : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-! ## The input blocks as entries of the operand arrays -/

section Blocks
variable (V : (c : Dev nD) → (b : Ref sig .tc) → Buf (Elt Ideal) ((c : Thread nD τ).loc b))

/-- The row-block operand's block at point `t`, at `x`, is the array's entry at row `5000 t + x 0`, lane `x 1`. -/
theorem iblk14_0_apply (c : Dev nD) (t : Fin cfg14.N) (x : S5000x128.Idx) (k : S50000x128.Idx)
    (hk0 : (k 0).val = 5000 * t.val + (x 0).val) (hk1 : (k 1).val = (x 1).val) :
    (iblk14 V c 0 t : Vec Ideal S5000x128 .f32) x = (V c (Pipeline.arrRef spec14 0) : S50000x128.Idx → Elt Ideal .f32) k := by
  obtain ⟨e00, e01, -⟩ := idx_facts14 t
  unfold iblk14
  rw [View.read_apply]
  refine congrArg (V c (Pipeline.arrRef spec14 0) : S50000x128.Idx → Elt Ideal .f32) (funext fun a => Fin.ext ?_)
  match a with
  | ⟨0, _⟩ => show win14_0.index t (0 : Fin 2) * 5000 + 1 * (x 0).val = (k 0).val; rw [e00, hk0]; omega
  | ⟨1, _⟩ => show win14_0.index t (1 : Fin 2) * 128 + 1 * (x 1).val = (k 1).val; rw [e01, hk1]; omega

/-- The mean row's block at any point is the whole [1,128] array: its block index is (0, 0) throughout. -/
theorem iblk14_1_apply (c : Dev nD) (t : Fin cfg14.N) (x : S1x128.Idx) :
    (iblk14 V c 1 t : Vec Ideal S1x128 .f32) x = (V c (Pipeline.arrRef spec14 1) : S1x128.Idx → Elt Ideal .f32) x := by
  obtain ⟨-, -, e10, e11, e20, e21, e30, e31, e40, e41, -, -⟩ := idx_facts14 t
  unfold iblk14
  rw [View.read_apply]
  refine congrArg (V c (Pipeline.arrRef spec14 1) : S1x128.Idx → Elt Ideal .f32) (funext fun a => Fin.ext ?_)
  match a with
  | ⟨0, _⟩ => show win14_1.index t (0 : Fin 2) * 1 + 1 * (x 0).val = (x 0).val; rw [e10]; omega
  | ⟨1, _⟩ => show win14_1.index t (1 : Fin 2) * 128 + 1 * (x 1).val = (x 1).val; rw [e11]; omega

/-- The variance row's block at any point is the whole [1,128] array: its block index is (0, 0) throughout. -/
theorem iblk14_2_apply (c : Dev nD) (t : Fin cfg14.N) (x : S1x128.Idx) :
    (iblk14 V c 2 t : Vec Ideal S1x128 .f32) x = (V c (Pipeline.arrRef spec14 2) : S1x128.Idx → Elt Ideal .f32) x := by
  obtain ⟨-, -, e10, e11, e20, e21, e30, e31, e40, e41, -, -⟩ := idx_facts14 t
  unfold iblk14
  rw [View.read_apply]
  refine congrArg (V c (Pipeline.arrRef spec14 2) : S1x128.Idx → Elt Ideal .f32) (funext fun a => Fin.ext ?_)
  match a with
  | ⟨0, _⟩ => show win14_2.index t (0 : Fin 2) * 1 + 1 * (x 0).val = (x 0).val; rw [e20]; omega
  | ⟨1, _⟩ => show win14_2.index t (1 : Fin 2) * 128 + 1 * (x 1).val = (x 1).val; rw [e21]; omega

/-- The scale row's block at any point is the whole [1,128] array: its block index is (0, 0) throughout. -/
theorem iblk14_3_apply (c : Dev nD) (t : Fin cfg14.N) (x : S1x128.Idx) :
    (iblk14 V c 3 t : Vec Ideal S1x128 .f32) x = (V c (Pipeline.arrRef spec14 3) : S1x128.Idx → Elt Ideal .f32) x := by
  obtain ⟨-, -, e10, e11, e20, e21, e30, e31, e40, e41, -, -⟩ := idx_facts14 t
  unfold iblk14
  rw [View.read_apply]
  refine congrArg (V c (Pipeline.arrRef spec14 3) : S1x128.Idx → Elt Ideal .f32) (funext fun a => Fin.ext ?_)
  match a with
  | ⟨0, _⟩ => show win14_3.index t (0 : Fin 2) * 1 + 1 * (x 0).val = (x 0).val; rw [e30]; omega
  | ⟨1, _⟩ => show win14_3.index t (1 : Fin 2) * 128 + 1 * (x 1).val = (x 1).val; rw [e31]; omega

/-- The shift row's block at any point is the whole [1,128] array: its block index is (0, 0) throughout. -/
theorem iblk14_4_apply (c : Dev nD) (t : Fin cfg14.N) (x : S1x128.Idx) :
    (iblk14 V c 4 t : Vec Ideal S1x128 .f32) x = (V c (Pipeline.arrRef spec14 4) : S1x128.Idx → Elt Ideal .f32) x := by
  obtain ⟨-, -, e10, e11, e20, e21, e30, e31, e40, e41, -, -⟩ := idx_facts14 t
  unfold iblk14
  rw [View.read_apply]
  refine congrArg (V c (Pipeline.arrRef spec14 4) : S1x128.Idx → Elt Ideal .f32) (funext fun a => Fin.ext ?_)
  match a with
  | ⟨0, _⟩ => show win14_4.index t (0 : Fin 2) * 1 + 1 * (x 0).val = (x 0).val; rw [e40]; omega
  | ⟨1, _⟩ => show win14_4.index t (1 : Fin 2) * 128 + 1 * (x 1).val = (x 1).val; rw [e41]; omega

/-! ## What a point writes back, and the whole array -/

/-- WHAT POINT `t` WRITES BACK is block `t` of the specification's function of the five operand arrays as the region
    finds them: the element at row `p`, lane `q` of the block sits at row `5000 t + p`, lane `q` of the array. -/
theorem flushed14_eq (c : Dev nD) (t : Fin cfg14.N) :
    (dat14 (F := Ideal) V c).flushed 5 t = ((cfg14.win 5).blk t).view.read (Elt Ideal)
      (Cert.Spec.bnR2 (V c (Pipeline.arrRef spec14 0)) (V c (Pipeline.arrRef spec14 1)) (V c (Pipeline.arrRef spec14 2))
        (V c (Pipeline.arrRef spec14 3)) (V c (Pipeline.arrRef spec14 4))) := by
  show (cfg14.win 5).cut (grid14.coords t) ((dat14 V c).after 5 t) = _
  rw [after14_5]
  obtain ⟨-, -, -, -, -, -, -, -, -, -, e50, e51⟩ := idx_facts14 t
  funext j
  rw [View.read_apply]
  have hj0 : (j 0).val < 5000 := (j 0).isLt
  have hj1 : (j 1).val < 128 := (j 1).isLt
  have hx : (cfg14.win 5).xinj (grid14.coords t) j = ix2 (⟨(j 0).val, hj0⟩ : Fin 5000) (⟨(j 1).val, hj1⟩ : Fin 128) :=
    funext fun a => by match a with | ⟨0, _⟩ => rfl | ⟨1, _⟩ => rfl
  show out14_5 (iblk14 V c 0 t) (iblk14 V c 1 t) (iblk14 V c 2 t) (iblk14 V c 3 t) (iblk14 V c 4 t)
      ((cfg14.win 5).xinj (grid14.coords t) j) = _
  rw [hx]
  have hk0 : ((((cfg14.win 5).blk t).view.emb j : S50000x128.Idx) 0).val = 5000 * t.val + (j 0).val := by
    show win14_5.index t (0 : Fin 2) * 5000 + 1 * (j 0).val = _; rw [e50]; omega
  have hk1 : ((((cfg14.win 5).blk t).view.emb j : S50000x128.Idx) 1).val = (j 1).val := by
    show win14_5.index t (1 : Fin 2) * 128 + 1 * (j 1).val = _; rw [e51]; omega
  refine point14_eq _ _ _ _ _ _ _ _ _ _ _ _ (((cfg14.win 5).blk t).view.emb j)
    (iblk14_0_apply V c t _ _ hk0 hk1) ?_ ?_ ?_ ?_
  · refine (iblk14_1_apply V c t _).trans (congrArg _ (funext fun a => Fin.ext ?_))
    match a with | ⟨0, _⟩ => rfl | ⟨1, _⟩ => exact hk1.symm
  · refine (iblk14_2_apply V c t _).trans (congrArg _ (funext fun a => Fin.ext ?_))
    match a with | ⟨0, _⟩ => rfl | ⟨1, _⟩ => exact hk1.symm
  · refine (iblk14_3_apply V c t _).trans (congrArg _ (funext fun a => Fin.ext ?_))
    match a with | ⟨0, _⟩ => rfl | ⟨1, _⟩ => exact hk1.symm
  · refine (iblk14_4_apply V c t _).trans (congrArg _ (funext fun a => Fin.ext ?_))
    match a with | ⟨0, _⟩ => rfl | ⟨1, _⟩ => exact hk1.symm

/-- An index of the result array is in point `t`'s block iff each coordinate is in the block's range on its axis. -/
theorem mem_blk14 (t : Fin cfg14.N) (i : S50000x128.Idx) :
    i ∈ ((cfg14.win 5).blk t).view.set ↔ ∀ a : Fin 2, win14_5.index t a * S5000x128.size a ≤ (i a).val
      ∧ (i a).val < win14_5.index t a * S5000x128.size a + S5000x128.size a := by
  show i ∈ ((View.whole main_v261).slice (win14_5.rect t)).set ↔ _
  rw [View.set_slice_whole, Rect.mem_set_unit]
  exact Iff.rfl

/-- Every index of the result array is in the block of a point that writes back: row `r` is in block `r / 5000`. -/
theorem cover14 (i : S50000x128.Idx) :
    ∃ t : Fin cfg14.N, (cfg14.win 5).flush t = true ∧ i ∈ ((cfg14.win 5).blk t).view.set := by
  have hi0 : (i 0).val < 50000 := (i 0).isLt
  have hi1 : (i 1).val < 128 := (i 1).isLt
  have hN : cfg14.N = 10 := rfl
  let t : Fin cfg14.N := ⟨(i 0).val / 5000, by rw [hN]; omega⟩
  have ht : t.val = (i 0).val / 5000 := rfl
  obtain ⟨-, -, -, -, -, -, -, -, -, -, e50, e51⟩ := idx_facts14 t
  refine ⟨t, flush14_5 t, ?_⟩
  rw [mem_blk14]
  intro a
  match a with
  | ⟨0, _⟩ =>
    show win14_5.index t (0 : Fin 2) * 5000 ≤ (i 0).val ∧ (i 0).val < win14_5.index t (0 : Fin 2) * 5000 + 5000
    rw [e50, ht]; omega
  | ⟨1, _⟩ =>
    show win14_5.index t (1 : Fin 2) * 128 ≤ (i 1).val ∧ (i 1).val < win14_5.index t (1 : Fin 2) * 128 + 128
    rw [e51]; omega

/-- THE RESULT ARRAY after the region: the specification's function of the five operand arrays as the region finds
    them (the rows, the mean, the variance, the scale, the shift). -/
theorem arr14_eq (c : Dev nD) :
    (dat14 (F := Ideal) V c).arrAt 5 cfg14.N
      = Cert.Spec.bnR2 (V c (Pipeline.arrRef spec14 0)) (V c (Pipeline.arrRef spec14 1)) (V c (Pipeline.arrRef spec14 2))
          (V c (Pipeline.arrRef spec14 3)) (V c (Pipeline.arrRef spec14 4)) :=
  (dat14 (F := Ideal) V c).arrAt_eq_of_cover 5 _ (fun t _ => flushed14_eq V c t) (cover14)

end Blocks

end Cert.KernelIdeal.Frame14

end
-- ==== Proof.KIValue15.lean ====
/- Region 15 of the idealized kernel program, its VALUE: the result array after the region is one function of the
   region's operand arrays as the region finds them — rows times the 64 × 64 weight, plus the bias row, entry by
   entry over the extended reals (`Cert.Spec.linO`).

   The region writes its result block by block: grid point t handles rows 5000 t … 5000 t + 4999. What point t writes
   back is the body's stored value on the blocks of the three operands at t; read at row p, column q of the block it is
   the spec's entry at row 5000 t + p, column q, because each operand's block sits in its array where the result's
   block does (the row blocks at block index (t, 0), the weight and the bias row whole). The twenty blocks tile the
   array — row r lies in the block of point r / 5000 — so the array ends as the spec's. -/
import proofs.«146189_j40922448396571_2_alg».proof.Proof.KIRegion15Body
import proofs.«146189_j40922448396571_2_alg».proof.Proof.SpecK
import proofs.«146189_j40922448396571_2_alg».proof.Proof.KIValueLin
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frame15

open Cert.KernelIdeal Cert.KernelIdeal.Gen Cert.KernelIdeal.ValLin
open Idealize.ShloMosaic Idealize.ShloMosaic.TcCoe Idealize.ShloMosaic.ValueIdx
open Idealize.ShloMosaic.Pipeline (Dat Cfg Window)

theorem hz : (![0, 0] : Fin 2 → Nat) = fun _ => 0 := funext fun a => by fin_cases a <;> rfl

/-- The printed index maps, decided over the grid: at point t the row-block input and the output are at block (t, 0);
    the weight and the bias row are at block (0, 0). -/
theorem idx_facts15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

variable (V : (c : Dev nD) → (b : Ref sig .tc) → Buf (Elt Ideal) ((c : Thread nD τ).loc b))

set_option maxHeartbeats 1000000 in
/-- What point t writes back is block t of linO of the three operand arrays as the region finds them. -/
theorem flushed15_eq (c : Dev nD) (t : Fin cfg15.N) :
    (dat15 (F := Ideal) V c).flushed 3 t
      = ((cfg15.win 3).blk t).view.read (Elt Ideal)
          (Cert.Spec.linO (V c (Pipeline.arrRef spec15 0)) (V c (Pipeline.arrRef spec15 1))
            (V c (Pipeline.arrRef spec15 2))) := by
  show (cfg15.win 3).cut (grid15.coords t) ((dat15 V c).after 3 t) = _
  rw [after15_3]
  unfold out15_3
  rw [View.canon_unit_zero hz]
  simp only [View.ld_unit_zero (S := S5000x64) hz, View.ld_unit_zero (S := S64x64) hz, View.ld_unit_zero (S := S1x64) hz]
  obtain ⟨e00, e01, e10, e11, e20, e21, e30, e31⟩ := idx_facts15 t
  funext j
  obtain ⟨p, q, rfl⟩ : ∃ (p : Fin 5000) (q : Fin 64), j = ix2 p q := ⟨j 0, j 1, eq_ix2 j⟩
  refine (k15_pay1_apply (iblk15 V c 0 t) (iblk15 V c 1 t) (iblk15 V c 2 t) p q).trans ?_
  -- the output block's element in the array
  show _ = Cert.Spec.linO (V c (Pipeline.arrRef spec15 0)) (V c (Pipeline.arrRef spec15 1))
      (V c (Pipeline.arrRef spec15 2)) (((cfg15.win 3).blk t).view.emb (ix2 p q))
  -- each input block's element is the array's element where the output's rectangle says
  have hA : ∀ k : Fin 64, iblk15 V c 0 t (ix2 p k)
      = V c (Pipeline.arrRef spec15 0) (ix2 (n0 := 100000) (n1 := 64) ((((cfg15.win 3).blk t).view.emb (ix2 p q)) 0) k) := fun k =>
    congrArg (V c (Pipeline.arrRef spec15 0)) (funext fun a => Fin.ext (by
      match a with
      | ⟨0, _⟩ => show win15_0.index t (0 : Fin 2) * 5000 + 1 * p.val = win15_3.index t (0 : Fin 2) * 5000 + 1 * p.val; omega
      | ⟨1, _⟩ => show win15_0.index t (1 : Fin 2) * 64 + 1 * k.val = k.val; omega))
  have hW : ∀ k : Fin 64, iblk15 V c 1 t (ix2 k q)
      = V c (Pipeline.arrRef spec15 1) (ix2 (n0 := 64) (n1 := 64) k ((((cfg15.win 3).blk t).view.emb (ix2 p q)) 1)) := fun k =>
    congrArg (V c (Pipeline.arrRef spec15 1)) (funext fun a => Fin.ext (by
      match a with
      | ⟨0, _⟩ => show win15_1.index t (0 : Fin 2) * 64 + 1 * k.val = k.val; omega
      | ⟨1, _⟩ => show win15_1.index t (1 : Fin 2) * 64 + 1 * q.val = win15_3.index t (1 : Fin 2) * 64 + 1 * q.val; omega))
  have hB : iblk15 V c 2 t (ix2 (0 : Fin 1) q)
      = V c (Pipeline.arrRef spec15 2) (ix2 (n0 := 1) (n1 := 64) 0 ((((cfg15.win 3).blk t).view.emb (ix2 p q)) 1)) :=
    congrArg (V c (Pipeline.arrRef spec15 2)) (funext fun a => Fin.ext (by
      match a with
      | ⟨0, _⟩ => show win15_2.index t (0 : Fin 2) * 1 + 1 * 0 = 0; omega
      | ⟨1, _⟩ => show win15_2.index t (1 : Fin 2) * 64 + 1 * q.val = win15_3.index t (1 : Fin 2) * 64 + 1 * q.val; omega))
  unfold Cert.Spec.linO
  simp only [hA, hW, hB]

/-- An index of the result array is in point t's block iff each coordinate is in the block's range on its axis. -/
theorem mem_blk15 (t : Fin cfg15.N) (i : S100000x64.Idx) :
    i ∈ ((cfg15.win 3).blk t).view.set ↔ ∀ a : Fin 2, win15_3.index t a * S5000x64.size a ≤ (i a).val
      ∧ (i a).val < win15_3.index t a * S5000x64.size a + S5000x64.size a := by
  show i ∈ ((View.whole main_v264).slice (win15_3.rect t)).set ↔ _
  rw [View.set_slice_whole, Rect.mem_set_unit]
  exact Iff.rfl

/-- Every index of the result array is in some point's block: row r is in the block of point r / 5000. -/
theorem cover15 (i : S100000x64.Idx) :
    ∃ t : Fin cfg15.N, (cfg15.win 3).flush t = true ∧ i ∈ ((cfg15.win 3).blk t).view.set := by
  have hi0 : (i 0).val < 100000 := (i 0).isLt
  have hi1 : (i 1).val < 64 := (i 1).isLt
  have ht : (i 0).val / 5000 < cfg15.N := by show (i 0).val / 5000 < 20; omega
  obtain ⟨-, -, -, -, -, -, e30, e31⟩ := idx_facts15 ⟨(i 0).val / 5000, ht⟩
  refine ⟨⟨(i 0).val / 5000, ht⟩, flush15_3 _, ?_⟩
  rw [mem_blk15]
  intro a
  match a with
  | ⟨0, _⟩ =>
    show win15_3.index ⟨(i 0).val / 5000, ht⟩ (0 : Fin 2) * 5000 ≤ (i 0).val
      ∧ (i 0).val < win15_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win15_3.index ⟨(i 0).val / 5000, ht⟩ (1 : Fin 2) * 64 ≤ (i 1).val
      ∧ (i 1).val < win15_3.index ⟨(i 0).val / 5000, ht⟩ (1 : Fin 2) * 64 + 64
    rw [e31]; omega

/-- The result array after the region: linO of the three operand arrays as the region finds them. -/
theorem arr15_eq (c : Dev nD) :
    (dat15 (F := Ideal) V c).arrAt 3 cfg15.N
      = Cert.Spec.linO (V c (Pipeline.arrRef spec15 0)) (V c (Pipeline.arrRef spec15 1))
          (V c (Pipeline.arrRef spec15 2)) :=
  (dat15 (F := Ideal) V c).arrAt_eq_of_cover 3 _ (fun t _ => flushed15_eq V c t) cover15

end Cert.KernelIdeal.Frame15

end
-- ==== Proof.KIValue16.lean ====
/- What region 16 of the idealized kernel program leaves in its result array, over the extended reals: the whole
   [50000,128] array is ONE function of the region's five operand arrays, index by index — the batch-norm affine map
   (no maximum) of the specification. The body's payload is read at an index; the block a grid point writes back is the
   block of that function at the point's rows (rows 5000 t … 5000 t + 4999: the row-block operand and the result move
   together, the four parameter rows do not move); the ten blocks cover the array. -/
import proofs.«146189_j40922448396571_2_alg».proof.Proof.KIRegion16Body
import proofs.«146189_j40922448396571_2_alg».proof.Proof.SpecK
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame16

open Cert.KernelIdeal.Gen
open Idealize.ShloMosaic Idealize.ShloMosaic.TcCoe Idealize.ShloMosaic.ValueIdx
open Idealize.ShloMosaic.Pipeline (Dat Cfg Window)

/-- The zero offsets of a whole-buffer rectangle, as a constant function. -/
theorem hz16 : (![0, 0] : Fin 2 → Nat) = fun _ => 0 := funext fun a => by fin_cases a <;> rfl

/-! ## The payload and the output buffer at an index -/

/-- The body's payload at row `p`, lane `q`, from the loaded values (`x0` the rows; `xv` the variance, `xm` the mean,
    `xg` the scale, `xb` the shift, in the order the body loads them): every operation is pointwise or a broadcast of
    a [1,128] row over the 5000 rows. -/
theorem pay16_apply (x0 : Vec Ideal S5000x128 .f32) (xv xm xg xb : Vec Ideal S1x128 .f32) (p : Fin 5000) (q : Fin 128) :
    k16_pay1 (F := Ideal) x0 xv xm xg xb (ix2 p q)
      = (((x0 (ix2 p q) - xm (ix2 (0 : Fin 1) q)) * Ideal.rsqrt (xv (ix2 (0 : Fin 1) q) + Cert.Spec.eps)) * xg (ix2 (0 : Fin 1) q))
          + xb (ix2 (0 : Fin 1) q) := by
  unfold k16_pay1
  simp only [maximumf_apply, addf_apply, mulf_apply, subf_apply, broadcast_apply, Idealize.ShloMosaic.shapeCast_self, broadcastTo_1b_ab_apply]
  rfl

/-- The output staging buffer after the body at row `p`, lane `q`, from the five input blocks in window order
    (`x1` the mean, `x2` the variance). -/
theorem out16_5_apply (x0 : Vec Ideal S5000x128 .f32) (x1 x2 x3 x4 : Vec Ideal S1x128 .f32) (p : Fin 5000) (q : Fin 128) :
    out16_5 x0 x1 x2 x3 x4 (ix2 p q)
      = (((x0 (ix2 p q) - x1 (ix2 (0 : Fin 1) q)) * Ideal.rsqrt (x2 (ix2 (0 : Fin 1) q) + Cert.Spec.eps)) * x3 (ix2 (0 : Fin 1) q))
          + x4 (ix2 (0 : Fin 1) q) := by
  unfold out16_5
  rw [View.canon_unit_zero hz16]
  simp only [View.ld_unit_zero (S := S5000x128) hz16, View.ld_unit_zero (S := S1x128) hz16]
  exact pay16_apply x0 x2 x1 x3 x4 p q

/-- The same against the specification read at an array index `k`: when the row block's entry is the array's at `k`
    and each parameter row's entry is its array's at lane `k 1`. -/
theorem point16_eq (X0 : Vec Ideal S5000x128 .f32) (X1 X2 X3 X4 : Vec Ideal S1x128 .f32)
    (A0 : FVec Ideal Cert.Spec.SM128 .f32) (A1 A2 A3 A4 : FVec Ideal Cert.Spec.S1x128 .f32)
    (p : Fin 5000) (q : Fin 128) (k : Cert.Spec.SM128.Idx)
    (h0 : X0 (ix2 p q) = A0 k)
    (h1 : X1 (ix2 (0 : Fin 1) q) = A1 (ix2 (n0 := 1) (n1 := 128) 0 (k 1)))
    (h2 : X2 (ix2 (0 : Fin 1) q) = A2 (ix2 (n0 := 1) (n1 := 128) 0 (k 1)))
    (h3 : X3 (ix2 (0 : Fin 1) q) = A3 (ix2 (n0 := 1) (n1 := 128) 0 (k 1)))
    (h4 : X4 (ix2 (0 : Fin 1) q) = A4 (ix2 (n0 := 1) (n1 := 128) 0 (k 1))) :
    out16_5 X0 X1 X2 X3 X4 (ix2 p q) = Cert.Spec.bn2 A0 A1 A2 A3 A4 k := by
  rw [out16_5_apply, h0, h1, h2, h3, h4]
  rfl

/-! ## The index maps, decided once over the grid -/

/-- At point `t` the row-block operand and the result are at block (t, 0); the four parameter rows at block (0, 0). -/
theorem idx_facts16 : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = t.val ∧ win16_5.index t (1 : Fin 2) = 0 :=
  (by decide +kernel : ∀ t : Fin grid16.N, _)

/-! ## The input blocks as entries of the operand arrays -/

section Blocks
variable (V : (c : Dev nD) → (b : Ref sig .tc) → Buf (Elt Ideal) ((c : Thread nD τ).loc b))

/-- The row-block operand's block at point `t`, at `x`, is the array's entry at row `5000 t + x 0`, lane `x 1`. -/
theorem iblk16_0_apply (c : Dev nD) (t : Fin cfg16.N) (x : S5000x128.Idx) (k : S50000x128.Idx)
    (hk0 : (k 0).val = 5000 * t.val + (x 0).val) (hk1 : (k 1).val = (x 1).val) :
    (iblk16 V c 0 t : Vec Ideal S5000x128 .f32) x = (V c (Pipeline.arrRef spec16 0) : S50000x128.Idx → Elt Ideal .f32) k := by
  obtain ⟨e00, e01, -⟩ := idx_facts16 t
  unfold iblk16
  rw [View.read_apply]
  refine congrArg (V c (Pipeline.arrRef spec16 0) : S50000x128.Idx → Elt Ideal .f32) (funext fun a => Fin.ext ?_)
  match a with
  | ⟨0, _⟩ => show win16_0.index t (0 : Fin 2) * 5000 + 1 * (x 0).val = (k 0).val; rw [e00, hk0]; omega
  | ⟨1, _⟩ => show win16_0.index t (1 : Fin 2) * 128 + 1 * (x 1).val = (k 1).val; rw [e01, hk1]; omega

/-- The mean row's block at any point is the whole [1,128] array: its block index is (0, 0) throughout. -/
theorem iblk16_1_apply (c : Dev nD) (t : Fin cfg16.N) (x : S1x128.Idx) :
    (iblk16 V c 1 t : Vec Ideal S1x128 .f32) x = (V c (Pipeline.arrRef spec16 1) : S1x128.Idx → Elt Ideal .f32) x := by
  obtain ⟨-, -, e10, e11, e20, e21, e30, e31, e40, e41, -, -⟩ := idx_facts16 t
  unfold iblk16
  rw [View.read_apply]
  refine congrArg (V c (Pipeline.arrRef spec16 1) : S1x128.Idx → Elt Ideal .f32) (funext fun a => Fin.ext ?_)
  match a with
  | ⟨0, _⟩ => show win16_1.index t (0 : Fin 2) * 1 + 1 * (x 0).val = (x 0).val; rw [e10]; omega
  | ⟨1, _⟩ => show win16_1.index t (1 : Fin 2) * 128 + 1 * (x 1).val = (x 1).val; rw [e11]; omega

/-- The variance row's block at any point is the whole [1,128] array: its block index is (0, 0) throughout. -/
theorem iblk16_2_apply (c : Dev nD) (t : Fin cfg16.N) (x : S1x128.Idx) :
    (iblk16 V c 2 t : Vec Ideal S1x128 .f32) x = (V c (Pipeline.arrRef spec16 2) : S1x128.Idx → Elt Ideal .f32) x := by
  obtain ⟨-, -, e10, e11, e20, e21, e30, e31, e40, e41, -, -⟩ := idx_facts16 t
  unfold iblk16
  rw [View.read_apply]
  refine congrArg (V c (Pipeline.arrRef spec16 2) : S1x128.Idx → Elt Ideal .f32) (funext fun a => Fin.ext ?_)
  match a with
  | ⟨0, _⟩ => show win16_2.index t (0 : Fin 2) * 1 + 1 * (x 0).val = (x 0).val; rw [e20]; omega
  | ⟨1, _⟩ => show win16_2.index t (1 : Fin 2) * 128 + 1 * (x 1).val = (x 1).val; rw [e21]; omega

/-- The scale row's block at any point is the whole [1,128] array: its block index is (0, 0) throughout. -/
theorem iblk16_3_apply (c : Dev nD) (t : Fin cfg16.N) (x : S1x128.Idx) :
    (iblk16 V c 3 t : Vec Ideal S1x128 .f32) x = (V c (Pipeline.arrRef spec16 3) : S1x128.Idx → Elt Ideal .f32) x := by
  obtain ⟨-, -, e10, e11, e20, e21, e30, e31, e40, e41, -, -⟩ := idx_facts16 t
  unfold iblk16
  rw [View.read_apply]
  refine congrArg (V c (Pipeline.arrRef spec16 3) : S1x128.Idx → Elt Ideal .f32) (funext fun a => Fin.ext ?_)
  match a with
  | ⟨0, _⟩ => show win16_3.index t (0 : Fin 2) * 1 + 1 * (x 0).val = (x 0).val; rw [e30]; omega
  | ⟨1, _⟩ => show win16_3.index t (1 : Fin 2) * 128 + 1 * (x 1).val = (x 1).val; rw [e31]; omega

/-- The shift row's block at any point is the whole [1,128] array: its block index is (0, 0) throughout. -/
theorem iblk16_4_apply (c : Dev nD) (t : Fin cfg16.N) (x : S1x128.Idx) :
    (iblk16 V c 4 t : Vec Ideal S1x128 .f32) x = (V c (Pipeline.arrRef spec16 4) : S1x128.Idx → Elt Ideal .f32) x := by
  obtain ⟨-, -, e10, e11, e20, e21, e30, e31, e40, e41, -, -⟩ := idx_facts16 t
  unfold iblk16
  rw [View.read_apply]
  refine congrArg (V c (Pipeline.arrRef spec16 4) : S1x128.Idx → Elt Ideal .f32) (funext fun a => Fin.ext ?_)
  match a with
  | ⟨0, _⟩ => show win16_4.index t (0 : Fin 2) * 1 + 1 * (x 0).val = (x 0).val; rw [e40]; omega
  | ⟨1, _⟩ => show win16_4.index t (1 : Fin 2) * 128 + 1 * (x 1).val = (x 1).val; rw [e41]; omega

/-! ## What a point writes back, and the whole array -/

/-- WHAT POINT `t` WRITES BACK is block `t` of the specification's function of the five operand arrays as the region
    finds them: the element at row `p`, lane `q` of the block sits at row `5000 t + p`, lane `q` of the array. -/
theorem flushed16_eq (c : Dev nD) (t : Fin cfg16.N) :
    (dat16 (F := Ideal) V c).flushed 5 t = ((cfg16.win 5).blk t).view.read (Elt Ideal)
      (Cert.Spec.bn2 (V c (Pipeline.arrRef spec16 0)) (V c (Pipeline.arrRef spec16 1)) (V c (Pipeline.arrRef spec16 2))
        (V c (Pipeline.arrRef spec16 3)) (V c (Pipeline.arrRef spec16 4))) := by
  show (cfg16.win 5).cut (grid16.coords t) ((dat16 V c).after 5 t) = _
  rw [after16_5]
  obtain ⟨-, -, -, -, -, -, -, -, -, -, e50, e51⟩ := idx_facts16 t
  funext j
  rw [View.read_apply]
  have hj0 : (j 0).val < 5000 := (j 0).isLt
  have hj1 : (j 1).val < 128 := (j 1).isLt
  have hx : (cfg16.win 5).xinj (grid16.coords t) j = ix2 (⟨(j 0).val, hj0⟩ : Fin 5000) (⟨(j 1).val, hj1⟩ : Fin 128) :=
    funext fun a => by match a with | ⟨0, _⟩ => rfl | ⟨1, _⟩ => rfl
  show out16_5 (iblk16 V c 0 t) (iblk16 V c 1 t) (iblk16 V c 2 t) (iblk16 V c 3 t) (iblk16 V c 4 t)
      ((cfg16.win 5).xinj (grid16.coords t) j) = _
  rw [hx]
  have hk0 : ((((cfg16.win 5).blk t).view.emb j : S50000x128.Idx) 0).val = 5000 * t.val + (j 0).val := by
    show win16_5.index t (0 : Fin 2) * 5000 + 1 * (j 0).val = _; rw [e50]; omega
  have hk1 : ((((cfg16.win 5).blk t).view.emb j : S50000x128.Idx) 1).val = (j 1).val := by
    show win16_5.index t (1 : Fin 2) * 128 + 1 * (j 1).val = _; rw [e51]; omega
  refine point16_eq _ _ _ _ _ _ _ _ _ _ _ _ (((cfg16.win 5).blk t).view.emb j)
    (iblk16_0_apply V c t _ _ hk0 hk1) ?_ ?_ ?_ ?_
  · refine (iblk16_1_apply V c t _).trans (congrArg _ (funext fun a => Fin.ext ?_))
    match a with | ⟨0, _⟩ => rfl | ⟨1, _⟩ => exact hk1.symm
  · refine (iblk16_2_apply V c t _).trans (congrArg _ (funext fun a => Fin.ext ?_))
    match a with | ⟨0, _⟩ => rfl | ⟨1, _⟩ => exact hk1.symm
  · refine (iblk16_3_apply V c t _).trans (congrArg _ (funext fun a => Fin.ext ?_))
    match a with | ⟨0, _⟩ => rfl | ⟨1, _⟩ => exact hk1.symm
  · refine (iblk16_4_apply V c t _).trans (congrArg _ (funext fun a => Fin.ext ?_))
    match a with | ⟨0, _⟩ => rfl | ⟨1, _⟩ => exact hk1.symm

/-- An index of the result array is in point `t`'s block iff each coordinate is in the block's range on its axis. -/
theorem mem_blk16 (t : Fin cfg16.N) (i : S50000x128.Idx) :
    i ∈ ((cfg16.win 5).blk t).view.set ↔ ∀ a : Fin 2, win16_5.index t a * S5000x128.size a ≤ (i a).val
      ∧ (i a).val < win16_5.index t a * S5000x128.size a + S5000x128.size a := by
  show i ∈ ((View.whole main_v283).slice (win16_5.rect t)).set ↔ _
  rw [View.set_slice_whole, Rect.mem_set_unit]
  exact Iff.rfl

/-- Every index of the result array is in the block of a point that writes back: row `r` is in block `r / 5000`. -/
theorem cover16 (i : S50000x128.Idx) :
    ∃ t : Fin cfg16.N, (cfg16.win 5).flush t = true ∧ i ∈ ((cfg16.win 5).blk t).view.set := by
  have hi0 : (i 0).val < 50000 := (i 0).isLt
  have hi1 : (i 1).val < 128 := (i 1).isLt
  have hN : cfg16.N = 10 := rfl
  let t : Fin cfg16.N := ⟨(i 0).val / 5000, by rw [hN]; omega⟩
  have ht : t.val = (i 0).val / 5000 := rfl
  obtain ⟨-, -, -, -, -, -, -, -, -, -, e50, e51⟩ := idx_facts16 t
  refine ⟨t, flush16_5 t, ?_⟩
  rw [mem_blk16]
  intro a
  match a with
  | ⟨0, _⟩ =>
    show win16_5.index t (0 : Fin 2) * 5000 ≤ (i 0).val ∧ (i 0).val < win16_5.index t (0 : Fin 2) * 5000 + 5000
    rw [e50, ht]; omega
  | ⟨1, _⟩ =>
    show win16_5.index t (1 : Fin 2) * 128 ≤ (i 1).val ∧ (i 1).val < win16_5.index t (1 : Fin 2) * 128 + 128
    rw [e51]; omega

/-- THE RESULT ARRAY after the region: the specification's function of the five operand arrays as the region finds
    them (the rows, the mean, the variance, the scale, the shift). -/
theorem arr16_eq (c : Dev nD) :
    (dat16 (F := Ideal) V c).arrAt 5 cfg16.N
      = Cert.Spec.bn2 (V c (Pipeline.arrRef spec16 0)) (V c (Pipeline.arrRef spec16 1)) (V c (Pipeline.arrRef spec16 2))
          (V c (Pipeline.arrRef spec16 3)) (V c (Pipeline.arrRef spec16 4)) :=
  (dat16 (F := Ideal) V c).arrAt_eq_of_cover 5 _ (fun t _ => flushed16_eq V c t) (cover16)

end Blocks

end Cert.KernelIdeal.Frame16

end
-- ==== Proof.KIAgg.lean ====
/-
  The kernel's edge-side aggregates, as it spells them. All four affine images of the edge features are aggregated at
  once: the edge features are summed into their destination nodes FIRST (sw, a 100000 × 16 array; deg, the number of
  incoming edges of each node, as a 100000 × 1 column of floats), the four 16 × 64 bond matrices are laid side by side
  (bwAll, 16 × 256) and the four bias rows end to end (bbAll, 256), and
        aggAll = sw · bwAll + deg · bbAll            (100000 × 256),
  whose i-th block of 64 columns is the i-th aggregate. The product sw · bwAll is what the first region computes; it
  enters here as the array raw.
-/
import proofs.«146189_j40922448396571_2_alg».proof.Proof.Gen.KernelIdeal

noncomputable section

namespace Cert.KernelIdeal.KValue

open Cert.KernelIdeal Cert.KernelIdeal.Gen Idealize.ShloMosaic

variable {F : FTy → Type} [FloatOps F]

/-- Layer i's bond matrix / bias row out of the stacked arguments: the printed slice and reshape. -/
def bond (a10 : FVec F S3x16x64 .f32) (off : Fin 3 → Nat) (h : S3x16x64.Slices off S1x16x64) : FVec F S16x64 .f32 :=
  shapeCast S16x64 (extractStridedSlice S1x16x64 off a10 h) shapeCasts_S1x16x64_S16x64
def bias (a11 : FVec F S3x64 .f32) (off : Fin 2 → Nat) (h : S3x64.Slices off S1x64) : FVec F S64 .f32 :=
  shapeCast S64 (extractStridedSlice S1x64 off a11 h) shapeCasts_S1x64_S64

/-- The four bond matrices side by side, the four bias rows end to end. -/
def bwAll (a6 : FVec F S16x64 .f32) (a10 : FVec F S3x16x64 .f32) : FVec F S16x256 .f32 :=
  concatenate S16x256 1 [⟨S16x64, a6⟩, ⟨S16x64, bond a10 ![0, 0, 0] slices_S3x16x64_S1x16x64_0_0_0⟩,
    ⟨S16x64, bond a10 ![1, 0, 0] slices_S3x16x64_S1x16x64_1_0_0⟩, ⟨S16x64, bond a10 ![2, 0, 0] slices_S3x16x64_S1x16x64_2_0_0⟩]
    concatenates_S16x64_S16x64_S16x64_S16x64_S16x256_d1
def bbAll (a7 : FVec F S64 .f32) (a11 : FVec F S3x64 .f32) : FVec F S256 .f32 :=
  concatenate S256 0 [⟨S64, a7⟩, ⟨S64, bias a11 ![0, 0] slices_S3x64_S1x64_0_0⟩,
    ⟨S64, bias a11 ![1, 0] slices_S3x64_S1x64_1_0⟩, ⟨S64, bias a11 ![2, 0] slices_S3x64_S1x64_2_0⟩]
    concatenates_S64_S64_S64_S64_S256_d0

/-- An index vector as a column of one-element index rows. -/
def col (d : IVec S1600000 32) : IVec S1600000x1 32 :=
  broadcastInDim S1600000x1 ![0] bcast_S1600000_S1600000x1_0 d

/-- The edge features summed into their destination nodes, and each node's number of incoming edges. -/
def sw (w : FVec F S1600000x16 .f32) (dst : IVec S1600000 32) : FVec F S100000x16 .f32 :=
  Host.scatterAdd scatter_S100000x16_S1600000x1_S1600000x16_1_0_0_1
    (broadcastInDim S100000x16 ![] bcast_S_S100000x16 (constant S_ .f32 0x00000000#32)) (col dst) w
def deg (dst : IVec S1600000 32) : FVec F S100000x1 .f32 :=
  Host.scatterAdd scatter_S100000x1_S1600000x1_S1600000x1_1_0_0_1
    (broadcastInDim S100000x1 ![] bcast_S_S100000x1 (constant S_ .f32 0x00000000#32)) (col dst)
    (broadcastInDim S1600000x1 ![] bcast_S_S1600000x1 (constant S_ .f32 0x3F800000#32))

/-- All four aggregates side by side, from the product raw = sw · bwAll. -/
def aggAll (raw : FVec F S100000x256 .f32) (dst : IVec S1600000 32) (a7 : FVec F S64 .f32) (a11 : FVec F S3x64 .f32) :
    FVec F S100000x256 .f32 :=
  addf raw (mulf (broadcastInDim S100000x256 ![0, 1] bcast_S100000x1_S100000x256_0_1 (deg dst))
    (broadcastInDim S100000x256 ![0, 1] bcast_S1x256_S100000x256_0_1 (broadcastInDim S1x256 ![1] bcast_S256_S1x256_1 (bbAll a7 a11))))

/-- The aggregate in the 64 columns from offset off. -/
def aggK (off : Fin 2 → Nat) (h : S100000x256.Slices off S100000x64) (raw : FVec F S100000x256 .f32)
    (dst : IVec S1600000 32) (a7 : FVec F S64 .f32) (a11 : FVec F S3x64 .f32) : FVec F S100000x64 .f32 :=
  extractStridedSlice S100000x64 off (aggAll raw dst a7 a11) h

/-- The sum, into each node, of the rows of H at the sources of its incoming edges (a negative source index wraps
    once, as printed). -/
def nb (src dst : IVec S1600000 32) (H : FVec F S100000x64 .f32) : FVec F S100000x64 .f32 :=
  Host.scatterAdd scatter_S100000x64_S1600000x1_S1600000x64_1_0_0_1
    (broadcastInDim S100000x64 ![] bcast_S_S100000x64 (constant S_ .f32 0x00000000#32)) (col dst)
    (Host.gather gather_S100000x64_S1600000x1_S1600000x64_1_0_n_n_0_1_164 H
      (col (select (cmpi .slt src (broadcastInDim S1600000 ![] bcast_S_S1600000 (constantI S_ 32 0#32)))
        (addi src (broadcastInDim S1600000 ![] bcast_S_S1600000 (constantI S_ 32 100000#32))) src)))

end Cert.KernelIdeal.KValue

end
-- ==== Proof.KIGlueLinA.lean ====
/- The kernel program's first two host stretches, read: what the buffers the first two regions take hold after each
   stretch, as terms of what the buffers held before it (any valuation `V`): the stacked bond matrices and bias rows,
   the edge features and the in-degrees summed into the nodes, and the four aggregates built from the first region's
   product. Each is the stretch's operations composed, named by the edge-side definitions. -/
import proofs.«146189_j40922448396571_2_alg».proof.Proof.Gen.KernelIdeal.Launch
import proofs.«146189_j40922448396571_2_alg».proof.Proof.KIAgg
import Idealize.ShloMosaic.PureOps.Ideal.Laws

set_option maxRecDepth 16384

noncomputable section

namespace Cert.KernelIdeal.KValue

open Cert.KernelIdeal Cert.KernelIdeal.Gen Idealize.ShloMosaic Idealize.ShloMosaic.StableHlo

-- the unscoped buffers' contents before the stretch: any valuation
variable (V : Valuation τ sig (Elt Ideal))

/-! ## The first stretch: the edge-side operands of the first region -/

set_option maxHeartbeats 4000000 in
/-- The four bond matrices side by side. -/
theorem ops0_v6 : StableHlo.after (hostOps0 (F := Ideal)) V (Proc.devRef .tc main_v6) = bwAll (F := Ideal) (V (Proc.devRef .tc main_arg6)) (V (Proc.devRef .tc main_arg10)) := by
  after_results_simp
  try rfl

set_option maxHeartbeats 4000000 in
/-- The four bias rows end to end. -/
theorem ops0_v13 : StableHlo.after (hostOps0 (F := Ideal)) V (Proc.devRef .tc main_v13) = bbAll (F := Ideal) (V (Proc.devRef .tc main_arg7)) (V (Proc.devRef .tc main_arg11)) := by
  after_results_simp
  try rfl

set_option maxHeartbeats 4000000 in
/-- The edge features summed into their destination nodes. -/
theorem ops0_v16 : StableHlo.after (hostOps0 (F := Ideal)) V (Proc.devRef .tc main_v16) = sw (F := Ideal) (V (Proc.devRef .tc main_arg1)) (V (Proc.devRef .tc main_arg3)) := by
  after_results_simp
  try rfl

set_option maxHeartbeats 4000000 in
/-- Each node's number of incoming edges. -/
theorem ops0_v20 : StableHlo.after (hostOps0 (F := Ideal)) V (Proc.devRef .tc main_v20) = deg (F := Ideal) (V (Proc.devRef .tc main_arg3)) := by
  after_results_simp
  try rfl

/-! ## The second stretch: the four aggregates from the first region's product -/

/-- The four aggregates from a product `raw`, an in-degree column `dg` and a row of biases `bb`: the product plus the
    in-degree times the bias, each broadcast to [100000,256]. -/
def aggOf (raw : FVec Ideal S100000x256 .f32) (dg : FVec Ideal S100000x1 .f32) (bb : FVec Ideal S256 .f32) :
    FVec Ideal S100000x256 .f32 :=
  addf raw (mulf (broadcastInDim S100000x256 ![0, 1] bcast_S100000x1_S100000x256_0_1 dg)
    (broadcastInDim S100000x256 ![0, 1] bcast_S1x256_S100000x256_0_1 (broadcastInDim S1x256 ![1] bcast_S256_S1x256_1 bb)))

/-- At the in-degrees and the stacked bias rows it is the edge side's `aggAll`. -/
theorem aggOf_eq (raw : FVec Ideal S100000x256 .f32) (dst : IVec S1600000 32) (a7 : FVec Ideal S64 .f32) (a11 : FVec Ideal S3x64 .f32) :
    aggOf raw (deg (F := Ideal) dst) (bbAll a7 a11) = aggAll raw dst a7 a11 := rfl

set_option maxHeartbeats 4000000 in
/-- All four aggregates side by side, from what the stretch finds in the product's, the in-degrees' and the bias rows' buffers. -/
theorem ops1_v26 : StableHlo.after (hostOps1 (F := Ideal)) V (Proc.devRef .tc main_v26) = aggOf (V (Proc.devRef .tc main_v21)) (V (Proc.devRef .tc main_v20)) (V (Proc.devRef .tc main_v13)) := by
  after_results_simp
  try rfl

/-- The same when the stretch finds the bias rows and the in-degrees the first stretch left. -/
theorem ops1_v26_agg (dst : IVec S1600000 32) (a7 : FVec Ideal S64 .f32) (a11 : FVec Ideal S3x64 .f32)
    (h13 : (V (Proc.devRef .tc main_v13)) = bbAll a7 a11) (h20 : (V (Proc.devRef .tc main_v20)) = deg (F := Ideal) dst) :
    StableHlo.after (hostOps1 (F := Ideal)) V (Proc.devRef .tc main_v26) = aggAll (V (Proc.devRef .tc main_v21)) dst a7 a11 := by
  rw [ops1_v26, h13, h20, aggOf_eq]

set_option maxHeartbeats 4000000 in
/-- The first aggregate: columns 0 to 63. -/
theorem ops1_v27 : StableHlo.after (hostOps1 (F := Ideal)) V (Proc.devRef .tc main_v27)
    = extractStridedSlice S100000x64 ![0, 0] (aggOf (V (Proc.devRef .tc main_v21)) (V (Proc.devRef .tc main_v20)) (V (Proc.devRef .tc main_v13))) slices_S100000x256_S100000x64_0_0 := by
  after_results_simp
  try rfl

theorem ops1_v27_agg (dst : IVec S1600000 32) (a7 : FVec Ideal S64 .f32) (a11 : FVec Ideal S3x64 .f32)
    (h13 : (V (Proc.devRef .tc main_v13)) = bbAll a7 a11) (h20 : (V (Proc.devRef .tc main_v20)) = deg (F := Ideal) dst) :
    StableHlo.after (hostOps1 (F := Ideal)) V (Proc.devRef .tc main_v27) = aggK ![0, 0] slices_S100000x256_S100000x64_0_0 (V (Proc.devRef .tc main_v21)) dst a7 a11 := by
  rw [ops1_v27, h13, h20, aggOf_eq]
  rfl

/-- The first affine map's bias as a [1,64] row. -/
theorem ops1_v28 : StableHlo.after (hostOps1 (F := Ideal)) V (Proc.devRef .tc main_v28) = shapeCast S1x64 (V (Proc.devRef .tc main_arg5)) shapeCasts_S64_S1x64 := by
  after_results_simp
  try rfl

end Cert.KernelIdeal.KValue

end
-- ==== Proof.KIGlueStat.lean ====
/- The column statistics the host program computes around the batch-norm regions, read at an index: the keepdims
   column mean of a [100000,64] array (a sum from the zero word, broadcast to [1,64], divided by the broadcast word of
   100000) and the biased column variance in the same form (the outlined variance function with its guard), against
   the network's `mean` and `var`; and the slices of the stacked layer parameters. -/
import proofs.«146189_j40922448396571_2_alg».proof.Proof.Spec
import Idealize.ShloMosaic.Lib.Pipeline.Value
import Idealize.ShloMosaic.Lib.ValueLayout

noncomputable section

open scoped BigOperators

namespace Cert.KernelIdeal.KValue

open Idealize.ShloMosaic Idealize.ShloMosaic.ValueIdx Cert.Spec

abbrev S1x64 : Shape := ⟨2, ![1, 64]⟩

/-! ## Broadcasts to the keepdims row, read at an index -/

/-- A length-64 vector broadcast to [1,64] along axis 1 holds the vector's `j`-th element at `(u, j)`. -/
theorem bcast_row_apply {α : Type} (x : S64.Idx → α) (hb1 : S64.BroadcastsInDim S1x64 ![1]) (u : Fin 1) (j : Fin 64) :
    broadcastInDim S1x64 ![1] hb1 x (ix2 u j) = x (ix1 j) :=
by
  refine broadcastInDim_apply ![1] hb1 x (ix2 u j) (ix1 j) ?_
  intro a
  match a with
  | ⟨0, _⟩ =>
    show j.val = if (64 : ℕ) = 1 then 0 else j.val
    rw [if_neg (by decide)]

/-- A scalar broadcast to [1,64] holds the scalar everywhere. -/
theorem bcast_scalar_apply {α : Type} (x : S0.Idx → α) (hb0 : S0.BroadcastsInDim S1x64 ![]) (i : S1x64.Idx) :
    broadcastInDim S1x64 ![] hb0 x i = x ix0 :=
  broadcastInDim_apply ![] hb0 x i ix0 fun a => a.elim0

/-- A [1,64] row broadcast to [100000,64] holds the row's `j`-th element at `(n, j)`. -/
theorem bcast_rows_apply {α : Type} (x : S1x64.Idx → α) (hbN : S1x64.BroadcastsInDim SN64 ![0, 1]) (n : Fin 100000) (j : Fin 64) :
    broadcastInDim SN64 ![0, 1] hbN x (ix2 n j) = x (ix2 (0 : Fin 1) j) :=
by
  refine broadcastInDim_apply ![0, 1] hbN x (ix2 n j) (ix2 (0 : Fin 1) j) ?_
  intro a
  match a with
  | ⟨0, _⟩ =>
    show (0 : ℕ) = if (1 : ℕ) = 1 then 0 else n.val
    rw [if_pos rfl]
  | ⟨1, _⟩ =>
    show j.val = if (64 : ℕ) = 1 then 0 else j.val
    rw [if_neg (by decide)]

/-- The host's quotient, element by element. -/
theorem hostDivf_apply {s : Shape} (x y : FVec Ideal s .f32) (i : s.Idx) : Host.divf x y i = Ideal.div (x i) (y i) := rfl

/-! ## The host's column sum -/

/-- The host's sum over axis 0 of a [100000,64] array from an initial scalar, at column `j`: the initial value plus
    the sum of the column. -/
theorem colsum_apply (X : FVec Ideal SN64 .f32) (init : FVec Ideal S0 .f32) (hR' : SN64.ReducesTo [0] S64) (hu : 0 < S0.numel)
    (j : Fin 64) :
    Host.reduceAdd X init hR' hu (ix1 j) = init ix0 + ∑ n : Fin 100000, X (ix2 n j) := by
  show Ideal.hostReduceAdd hR' X (init (Shape.Idx.first hu)) (ix1 j) = _
  rw [Ideal.hostReduceAdd_single hR' (by decide : SN64.Reduces [0] S64) X _ (ix1 j), eq_ix0 (Shape.Idx.first hu)]
  refine congrArg (init ix0 + ·) (Finset.sum_congr rfl fun n _ => congrArg X (funext fun a => ?_))
  match a with
  | ⟨0, _⟩ => exact Fin.ext rfl
  | ⟨1, _⟩ => exact Fin.ext rfl

/-! ## The column mean, keepdims -/

/-- The host's keepdims column mean, read at `(u, j)`, is the network's `mean` at `j`. -/
theorem mean_row_apply (P : FVec Ideal SN64 .f32) (hR' : SN64.ReducesTo [0] S64) (hu : 0 < S0.numel)
    (hb1 : S64.BroadcastsInDim S1x64 ![1]) (hb0 : S0.BroadcastsInDim S1x64 ![]) (u : Fin 1) (j : Fin 64) :
    Host.divf (broadcastInDim S1x64 ![1] hb1 (Host.reduceAdd P (constant (F := Ideal) S0 .f32 0x00000000#32) hR' hu))
        (broadcastInDim S1x64 ![] hb0 (constant (F := Ideal) S0 .f32 0x47C35000#32)) (ix2 u j)
      = Spec.mean P (ix1 j) := by
  rw [hostDivf_apply, bcast_row_apply, bcast_scalar_apply, colsum_apply]
  rfl

/-! ## The column variance, keepdims -/

/-- The outlined variance function's result (the centred squares summed from the zero word, divided by the broadcast
    divisor `ddA`, selected against the not-a-number word under the broadcast guard `guardA`), read at `(u, j)`, is the
    network's `var` at `j`. `M` is the keepdims mean row it subtracts. -/
theorem var_row_apply (P : FVec Ideal SN64 .f32) (M : FVec Ideal S1x64 .f32)
    (hM : ∀ j : Fin 64, M (ix2 (0 : Fin 1) j) = Spec.mean P (ix1 j))
    (hR' : SN64.ReducesTo [0] S64) (hu : 0 < S0.numel)
    (hb1 : S64.BroadcastsInDim S1x64 ![1]) (hb0 : S0.BroadcastsInDim S1x64 ![]) (hbN : S1x64.BroadcastsInDim SN64 ![0, 1])
    (u : Fin 1) (j : Fin 64) :
    select (broadcastInDim S1x64 ![] hb0 Spec.guardA)
        (Host.divf (broadcastInDim S1x64 ![1] hb1
            (Host.reduceAdd (mulf (subf P (broadcastInDim SN64 ![0, 1] hbN M)) (subf P (broadcastInDim SN64 ![0, 1] hbN M)))
              (constant (F := Ideal) S0 .f32 0x00000000#32) hR' hu))
          (broadcastInDim S1x64 ![] hb0 Spec.ddA))
        (broadcastInDim S1x64 ![] hb0 (constant (F := Ideal) S0 .f32 0x7FC00000#32)) (ix2 u j)
      = Spec.var P (ix1 j) := by
  rw [select_apply, hostDivf_apply, bcast_row_apply, bcast_scalar_apply, bcast_scalar_apply, bcast_scalar_apply, colsum_apply]
  unfold Spec.var
  refine congrArg (fun s => Scalar.select (Spec.guardA ix0) (Ideal.div (Spec.z + s) (Spec.ddA ix0)) (Ideal.ofBits .f32 0x7FC00000#32)) ?_
  refine Finset.sum_congr rfl fun n _ => ?_
  rw [mulf_apply, subf_apply, bcast_rows_apply, hM]

/-- `var_row_apply` with the divisor and the guard given as any terms equal to `ddA` and `guardA`. -/
theorem var_row_apply' (P : FVec Ideal SN64 .f32) (M : FVec Ideal S1x64 .f32)
    (hM : ∀ j : Fin 64, M (ix2 (0 : Fin 1) j) = Spec.mean P (ix1 j))
    (dd : FVec Ideal S0 .f32) (gd : IVec S0 1) (hdd : dd = Spec.ddA) (hgd : gd = Spec.guardA)
    (hR' : SN64.ReducesTo [0] S64) (hu : 0 < S0.numel)
    (hb1 : S64.BroadcastsInDim S1x64 ![1]) (hb0 : S0.BroadcastsInDim S1x64 ![]) (hbN : S1x64.BroadcastsInDim SN64 ![0, 1])
    (u : Fin 1) (j : Fin 64) :
    select (broadcastInDim S1x64 ![] hb0 gd)
        (Host.divf (broadcastInDim S1x64 ![1] hb1
            (Host.reduceAdd (mulf (subf P (broadcastInDim SN64 ![0, 1] hbN M)) (subf P (broadcastInDim SN64 ![0, 1] hbN M)))
              (constant (F := Ideal) S0 .f32 0x00000000#32) hR' hu))
          (broadcastInDim S1x64 ![] hb0 dd))
        (broadcastInDim S1x64 ![] hb0 (constant (F := Ideal) S0 .f32 0x7FC00000#32)) (ix2 u j)
      = Spec.var P (ix1 j) := by
  subst hdd hgd
  exact var_row_apply P M hM hR' hu hb1 hb0 hbN u j

/-! ## The stacked layer parameters -/

/-- Layer `i`'s matrix: the slice `[i:i+1]` of a [3,64,64] stack, its unit axis dropped. -/
theorem mat3_slice (A : FVec Ideal S3x64x64 .f32) (i : Fin 3) (hs : S3x64x64.Slices ![i.val, 0, 0] ⟨3, ![1, 64, 64]⟩)
    (hc : (⟨3, ![1, 64, 64]⟩ : Shape).ShapeCasts S64x64) :
    shapeCast S64x64 (extractStridedSlice ⟨3, ![1, 64, 64]⟩ ![i.val, 0, 0] A hs) hc = Spec.mat3 A i := by
  funext j
  obtain ⟨a, b, rfl⟩ : ∃ (a : Fin 64) (b : Fin 64), j = ix2 a b := ⟨j 0, j 1, eq_ix2 j⟩
  refine (shapeCast_apply _ hc (ix2 a b) (ix3 (0 : Fin 1) a b) ?_).trans ?_
  · rw [Shape.rowMajor_val_two, Shape.rowMajor_val_three]
    show (0 * 64 + a.val) * 64 + b.val = a.val * 64 + b.val
    omega
  · refine extractStridedSlice_apply _ A hs _ (ix3 i a b) fun k => ?_
    match k with
    | ⟨0, _⟩ => show i.val = i.val + 0; omega
    | ⟨1, _⟩ => show a.val = 0 + a.val; omega
    | ⟨2, _⟩ => show b.val = 0 + b.val; omega

/-- Layer `i`'s row: the slice `[i:i+1]` of a [3,64] stack, its unit axis dropped. -/
theorem row3_slice (A : FVec Ideal S3x64 .f32) (i : Fin 3) (hs : S3x64.Slices ![i.val, 0] S1x64)
    (hc : S1x64.ShapeCasts S64) :
    shapeCast S64 (extractStridedSlice S1x64 ![i.val, 0] A hs) hc = Spec.row3 A i := by
  funext j
  obtain ⟨a, rfl⟩ : ∃ a : Fin 64, j = ix1 a := ⟨j 0, eq_ix1 j⟩
  refine (shapeCast_1a_a_apply _ hc a).trans ?_
  refine extractStridedSlice_apply _ A hs _ (ix2 i a) fun k => ?_
  match k with
  | ⟨0, _⟩ => show i.val = i.val + 0; omega
  | ⟨1, _⟩ => show a.val = 0 + a.val; omega

end Cert.KernelIdeal.KValue

end
-- ==== Proof.KIGlueLinB.lean ====
/- The kernel program's host stretches before the first matmul region of each layer (regions 3, 7, 11), read: what the
   region's operand buffers hold after the stretch, as terms of what the buffers held before it (any valuation `V`):
   the node features (the previous batch-norm region's result seen as [100000,64]), their neighbour sums, the layer's
   edge aggregate (a block of 64 columns of the four aggregates), the layer's matrix and its bias row. -/
import proofs.«146189_j40922448396571_2_alg».proof.Proof.Gen.KernelIdeal.Launch
import proofs.«146189_j40922448396571_2_alg».proof.Proof.KIAgg
import proofs.«146189_j40922448396571_2_alg».proof.Proof.KIGlueStat

set_option maxRecDepth 16384

noncomputable section

namespace Cert.KernelIdeal.KValue

open Cert.KernelIdeal Cert.KernelIdeal.Gen Idealize.ShloMosaic Idealize.ShloMosaic.StableHlo

-- the unscoped buffers' contents before the stretch: any valuation
variable (V : Valuation τ sig (Elt Ideal))

/-! ## The stretch before region 3 (layer 0) -/

/-- The previous batch-norm region's [50000,128] result seen again as [100000,64]. -/
theorem ops3_v49 : StableHlo.after (hostOps3 (F := Ideal)) V (Proc.devRef .tc main_v49) = shapeCast S100000x64 (V (Proc.devRef .tc main_v48)) shapeCasts_S50000x128_S100000x64 := by
  after_results_simp
  try rfl

/-- The layer's edge aggregate: columns 64 to 127 of the four aggregates. -/
theorem ops3_v50 : StableHlo.after (hostOps3 (F := Ideal)) V (Proc.devRef .tc main_v50)
    = extractStridedSlice S100000x64 ![0, 64] (V (Proc.devRef .tc main_v26)) slices_S100000x256_S100000x64_0_64 := by
  after_results_simp
  try rfl

theorem ops3_v50_agg (raw : FVec Ideal S100000x256 .f32) (dst : IVec S1600000 32) (a7 : FVec Ideal S64 .f32) (a11 : FVec Ideal S3x64 .f32)
    (h26 : (V (Proc.devRef .tc main_v26)) = aggAll raw dst a7 a11) :
    StableHlo.after (hostOps3 (F := Ideal)) V (Proc.devRef .tc main_v50) = aggK ![0, 64] slices_S100000x256_S100000x64_0_64 raw dst a7 a11 := by
  rw [ops3_v50, h26]
  rfl

set_option maxHeartbeats 4000000 in
/-- The neighbour sums of the node features the stretch starts from. -/
theorem ops3_v60 : StableHlo.after (hostOps3 (F := Ideal)) V (Proc.devRef .tc main_v60)
    = nb (F := Ideal) (V (Proc.devRef .tc main_arg2)) (V (Proc.devRef .tc main_arg3)) (shapeCast S100000x64 (V (Proc.devRef .tc main_v48)) shapeCasts_S50000x128_S100000x64) := by
  after_results_simp
  try rfl

/-- The layer's first matrix. -/
theorem ops3_v62 : StableHlo.after (hostOps3 (F := Ideal)) V (Proc.devRef .tc main_v62) = Cert.Spec.mat3 (V (Proc.devRef .tc main_arg12)) 0 := by
  refine Eq.trans ?_ (mat3_slice (V (Proc.devRef .tc main_arg12)) 0 slices_S3x64x64_S1x64x64_0_0_0 shapeCasts_S1x64x64_S64x64)
  after_results_simp
  try rfl

/-- The layer's first bias as a [1,64] row. -/
theorem ops3_v65 : StableHlo.after (hostOps3 (F := Ideal)) V (Proc.devRef .tc main_v65)
    = shapeCast S1x64 (Cert.Spec.row3 (V (Proc.devRef .tc main_arg13)) 0) shapeCasts_S64_S1x64 := by
  refine Eq.trans ?_ (congrArg (fun x => shapeCast S1x64 x shapeCasts_S64_S1x64)
    (row3_slice (V (Proc.devRef .tc main_arg13)) 0 slices_S3x64_S1x64_0_0 shapeCasts_S1x64_S64))
  after_results_simp
  try rfl

/-! ## The stretch before region 7 (layer 1) -/

/-- The previous batch-norm region's [50000,128] result seen again as [100000,64]. -/
theorem ops7_v120 : StableHlo.after (hostOps7 (F := Ideal)) V (Proc.devRef .tc main_v120) = shapeCast S100000x64 (V (Proc.devRef .tc main_v119)) shapeCasts_S50000x128_S100000x64 := by
  after_results_simp
  try rfl

/-- The layer's edge aggregate: columns 128 to 191 of the four aggregates. -/
theorem ops7_v121 : StableHlo.after (hostOps7 (F := Ideal)) V (Proc.devRef .tc main_v121)
    = extractStridedSlice S100000x64 ![0, 128] (V (Proc.devRef .tc main_v26)) slices_S100000x256_S100000x64_0_128 := by
  after_results_simp
  try rfl

theorem ops7_v121_agg (raw : FVec Ideal S100000x256 .f32) (dst : IVec S1600000 32) (a7 : FVec Ideal S64 .f32) (a11 : FVec Ideal S3x64 .f32)
    (h26 : (V (Proc.devRef .tc main_v26)) = aggAll raw dst a7 a11) :
    StableHlo.after (hostOps7 (F := Ideal)) V (Proc.devRef .tc main_v121) = aggK ![0, 128] slices_S100000x256_S100000x64_0_128 raw dst a7 a11 := by
  rw [ops7_v121, h26]
  rfl

set_option maxHeartbeats 4000000 in
/-- The neighbour sums of the node features the stretch starts from. -/
theorem ops7_v131 : StableHlo.after (hostOps7 (F := Ideal)) V (Proc.devRef .tc main_v131)
    = nb (F := Ideal) (V (Proc.devRef .tc main_arg2)) (V (Proc.devRef .tc main_arg3)) (shapeCast S100000x64 (V (Proc.devRef .tc main_v119)) shapeCasts_S50000x128_S100000x64) := by
  after_results_simp
  try rfl

/-- The layer's first matrix. -/
theorem ops7_v133 : StableHlo.after (hostOps7 (F := Ideal)) V (Proc.devRef .tc main_v133) = Cert.Spec.mat3 (V (Proc.devRef .tc main_arg12)) 1 := by
  refine Eq.trans ?_ (mat3_slice (V (Proc.devRef .tc main_arg12)) 1 slices_S3x64x64_S1x64x64_1_0_0 shapeCasts_S1x64x64_S64x64)
  after_results_simp
  try rfl

/-- The layer's first bias as a [1,64] row. -/
theorem ops7_v136 : StableHlo.after (hostOps7 (F := Ideal)) V (Proc.devRef .tc main_v136)
    = shapeCast S1x64 (Cert.Spec.row3 (V (Proc.devRef .tc main_arg13)) 1) shapeCasts_S64_S1x64 := by
  refine Eq.trans ?_ (congrArg (fun x => shapeCast S1x64 x shapeCasts_S64_S1x64)
    (row3_slice (V (Proc.devRef .tc main_arg13)) 1 slices_S3x64_S1x64_1_0 shapeCasts_S1x64_S64))
  after_results_simp
  try rfl

/-! ## The stretch before region 11 (layer 2) -/

/-- The previous batch-norm region's [50000,128] result seen again as [100000,64]. -/
theorem ops11_v191 : StableHlo.after (hostOps11 (F := Ideal)) V (Proc.devRef .tc main_v191) = shapeCast S100000x64 (V (Proc.devRef .tc main_v190)) shapeCasts_S50000x128_S100000x64 := by
  after_results_simp
  try rfl

/-- The layer's edge aggregate: columns 192 to 255 of the four aggregates. -/
theorem ops11_v192 : StableHlo.after (hostOps11 (F := Ideal)) V (Proc.devRef .tc main_v192)
    = extractStridedSlice S100000x64 ![0, 192] (V (Proc.devRef .tc main_v26)) slices_S100000x256_S100000x64_0_192 := by
  after_results_simp
  try rfl

theorem ops11_v192_agg (raw : FVec Ideal S100000x256 .f32) (dst : IVec S1600000 32) (a7 : FVec Ideal S64 .f32) (a11 : FVec Ideal S3x64 .f32)
    (h26 : (V (Proc.devRef .tc main_v26)) = aggAll raw dst a7 a11) :
    StableHlo.after (hostOps11 (F := Ideal)) V (Proc.devRef .tc main_v192) = aggK ![0, 192] slices_S100000x256_S100000x64_0_192 raw dst a7 a11 := by
  rw [ops11_v192, h26]
  rfl

set_option maxHeartbeats 4000000 in
/-- The neighbour sums of the node features the stretch starts from. -/
theorem ops11_v202 : StableHlo.after (hostOps11 (F := Ideal)) V (Proc.devRef .tc main_v202)
    = nb (F := Ideal) (V (Proc.devRef .tc main_arg2)) (V (Proc.devRef .tc main_arg3)) (shapeCast S100000x64 (V (Proc.devRef .tc main_v190)) shapeCasts_S50000x128_S100000x64) := by
  after_results_simp
  try rfl

/-- The layer's first matrix. -/
theorem ops11_v204 : StableHlo.after (hostOps11 (F := Ideal)) V (Proc.devRef .tc main_v204) = Cert.Spec.mat3 (V (Proc.devRef .tc main_arg12)) 2 := by
  refine Eq.trans ?_ (mat3_slice (V (Proc.devRef .tc main_arg12)) 2 slices_S3x64x64_S1x64x64_2_0_0 shapeCasts_S1x64x64_S64x64)
  after_results_simp
  try rfl

/-- The layer's first bias as a [1,64] row. -/
theorem ops11_v207 : StableHlo.after (hostOps11 (F := Ideal)) V (Proc.devRef .tc main_v207)
    = shapeCast S1x64 (Cert.Spec.row3 (V (Proc.devRef .tc main_arg13)) 2) shapeCasts_S64_S1x64 := by
  refine Eq.trans ?_ (congrArg (fun x => shapeCast S1x64 x shapeCasts_S64_S1x64)
    (row3_slice (V (Proc.devRef .tc main_arg13)) 2 slices_S3x64_S1x64_2_0 shapeCasts_S1x64_S64))
  after_results_simp
  try rfl

end Cert.KernelIdeal.KValue

end
-- ==== Proof.KIGlueLinC.lean ====
/- The kernel program's host stretches before the second matmul region of each layer (regions 5, 9, 13), before the
   last affine map (region 15) and after the last region, read: what the operand buffers hold after the stretch, as
   terms of what the buffers held before it (any valuation `V`): the previous batch-norm region's result seen as
   [100000,64], the layer's matrix and its bias row. -/
import proofs.«146189_j40922448396571_2_alg».proof.Proof.Gen.KernelIdeal.Launch
import proofs.«146189_j40922448396571_2_alg».proof.Proof.KIGlueStat

set_option maxRecDepth 16384

noncomputable section

namespace Cert.KernelIdeal.KValue

open Cert.KernelIdeal Cert.KernelIdeal.Gen Idealize.ShloMosaic Idealize.ShloMosaic.StableHlo

-- the unscoped buffers' contents before the stretch: any valuation
variable (V : Valuation τ sig (Elt Ideal))

/-! ## The stretch before region 5 (layer 0) -/

/-- The previous batch-norm region's [50000,128] result seen again as [100000,64]. -/
theorem ops5_v90 : StableHlo.after (hostOps5 (F := Ideal)) V (Proc.devRef .tc main_v90) = shapeCast S100000x64 (V (Proc.devRef .tc main_v89)) shapeCasts_S50000x128_S100000x64 := by
  after_results_simp
  try rfl

/-- The layer's second matrix. -/
theorem ops5_v92 : StableHlo.after (hostOps5 (F := Ideal)) V (Proc.devRef .tc main_v92) = Cert.Spec.mat3 (V (Proc.devRef .tc main_arg14)) 0 := by
  refine Eq.trans ?_ (mat3_slice (V (Proc.devRef .tc main_arg14)) 0 slices_S3x64x64_S1x64x64_0_0_0 shapeCasts_S1x64x64_S64x64)
  after_results_simp
  try rfl

/-- The layer's second bias as a [1,64] row. -/
theorem ops5_v95 : StableHlo.after (hostOps5 (F := Ideal)) V (Proc.devRef .tc main_v95)
    = shapeCast S1x64 (Cert.Spec.row3 (V (Proc.devRef .tc main_arg15)) 0) shapeCasts_S64_S1x64 := by
  refine Eq.trans ?_ (congrArg (fun x => shapeCast S1x64 x shapeCasts_S64_S1x64)
    (row3_slice (V (Proc.devRef .tc main_arg15)) 0 slices_S3x64_S1x64_0_0 shapeCasts_S1x64_S64))
  after_results_simp
  try rfl

/-! ## The stretch before region 9 (layer 1) -/

/-- The previous batch-norm region's [50000,128] result seen again as [100000,64]. -/
theorem ops9_v161 : StableHlo.after (hostOps9 (F := Ideal)) V (Proc.devRef .tc main_v161) = shapeCast S100000x64 (V (Proc.devRef .tc main_v160)) shapeCasts_S50000x128_S100000x64 := by
  after_results_simp
  try rfl

/-- The layer's second matrix. -/
theorem ops9_v163 : StableHlo.after (hostOps9 (F := Ideal)) V (Proc.devRef .tc main_v163) = Cert.Spec.mat3 (V (Proc.devRef .tc main_arg14)) 1 := by
  refine Eq.trans ?_ (mat3_slice (V (Proc.devRef .tc main_arg14)) 1 slices_S3x64x64_S1x64x64_1_0_0 shapeCasts_S1x64x64_S64x64)
  after_results_simp
  try rfl

/-- The layer's second bias as a [1,64] row. -/
theorem ops9_v166 : StableHlo.after (hostOps9 (F := Ideal)) V (Proc.devRef .tc main_v166)
    = shapeCast S1x64 (Cert.Spec.row3 (V (Proc.devRef .tc main_arg15)) 1) shapeCasts_S64_S1x64 := by
  refine Eq.trans ?_ (congrArg (fun x => shapeCast S1x64 x shapeCasts_S64_S1x64)
    (row3_slice (V (Proc.devRef .tc main_arg15)) 1 slices_S3x64_S1x64_1_0 shapeCasts_S1x64_S64))
  after_results_simp
  try rfl

/-! ## The stretch before region 13 (layer 2) -/

/-- The previous batch-norm region's [50000,128] result seen again as [100000,64]. -/
theorem ops13_v232 : StableHlo.after (hostOps13 (F := Ideal)) V (Proc.devRef .tc main_v232) = shapeCast S100000x64 (V (Proc.devRef .tc main_v231)) shapeCasts_S50000x128_S100000x64 := by
  after_results_simp
  try rfl

/-- The layer's second matrix. -/
theorem ops13_v234 : StableHlo.after (hostOps13 (F := Ideal)) V (Proc.devRef .tc main_v234) = Cert.Spec.mat3 (V (Proc.devRef .tc main_arg14)) 2 := by
  refine Eq.trans ?_ (mat3_slice (V (Proc.devRef .tc main_arg14)) 2 slices_S3x64x64_S1x64x64_2_0_0 shapeCasts_S1x64x64_S64x64)
  after_results_simp
  try rfl

/-- The layer's second bias as a [1,64] row. -/
theorem ops13_v237 : StableHlo.after (hostOps13 (F := Ideal)) V (Proc.devRef .tc main_v237)
    = shapeCast S1x64 (Cert.Spec.row3 (V (Proc.devRef .tc main_arg15)) 2) shapeCasts_S64_S1x64 := by
  refine Eq.trans ?_ (congrArg (fun x => shapeCast S1x64 x shapeCasts_S64_S1x64)
    (row3_slice (V (Proc.devRef .tc main_arg15)) 2 slices_S3x64_S1x64_2_0 shapeCasts_S1x64_S64))
  after_results_simp
  try rfl

/-! ## The stretch before region 15 (the last affine map) and the last stretch -/

theorem ops15_v262 : StableHlo.after (hostOps15 (F := Ideal)) V (Proc.devRef .tc main_v262) = shapeCast S100000x64 (V (Proc.devRef .tc main_v261)) shapeCasts_S50000x128_S100000x64 := by
  after_results_simp
  try rfl

/-- The last affine map's bias as a [1,64] row. -/
theorem ops15_v263 : StableHlo.after (hostOps15 (F := Ideal)) V (Proc.devRef .tc main_v263) = shapeCast S1x64 (V (Proc.devRef .tc main_arg21)) shapeCasts_S64_S1x64 := by
  after_results_simp
  try rfl

/-- The result: the last batch-norm region's [50000,128] array seen as [100000,64]. -/
theorem ops17_v284 : StableHlo.after (hostOps17 (F := Ideal)) V (Proc.devRef .tc main_v284) = shapeCast S100000x64 (V (Proc.devRef .tc main_v283)) shapeCasts_S50000x128_S100000x64 := by
  after_results_simp
  try rfl

end Cert.KernelIdeal.KValue

end
-- ==== Proof.KIGlueLin.lean ====
/- The kernel program's host stretches that feed the matmul regions, read buffer by buffer: the three parts together. -/
import proofs.«146189_j40922448396571_2_alg».proof.Proof.KIGlueLinA
import proofs.«146189_j40922448396571_2_alg».proof.Proof.KIGlueLinB
import proofs.«146189_j40922448396571_2_alg».proof.Proof.KIGlueLinC
-- ==== Proof.KIGlueLayout.lean ====
/- Index lemmas for the layout operations the host program wraps around the batch-norm regions: the view of a
   [100000,64] array as [50000,128] (two consecutive rows side by side) and back, and the doubling of a length-64 row
   to a [1,128] row. Each says which element of the operand the result holds at an index. -/
import proofs.«146189_j40922448396571_2_alg».proof.Proof.SpecK
import Idealize.ShloMosaic.Lib.Pipeline.Value
import Idealize.ShloMosaic.Lib.ValueLayout

noncomputable section

namespace Cert.KernelIdeal.KValue

open Idealize.ShloMosaic Idealize.ShloMosaic.ValueIdx

variable {α : Type}

/-! ## The [50000,128] view -/

/-- Row `r` of the view is rows `2r` and `2r+1` of the array side by side: the view at `(r, l)` is the array at
    `(2r + l / 64, l % 64)` (both have row-major position `128 r + l`). -/
theorem view_apply (P : (⟨2, ![100000, 64]⟩ : Shape).Idx → α)
    (h : (⟨2, ![100000, 64]⟩ : Shape).ShapeCasts ⟨2, ![50000, 128]⟩) (r : Fin 50000) (l : Fin 128) :
    shapeCast ⟨2, ![50000, 128]⟩ P h (ix2 r l)
      = P (ix2 (⟨2 * r.val + l.val / 64, by have := r.isLt; have := l.isLt; omega⟩ : Fin 100000)
            (⟨l.val % 64, Nat.mod_lt _ (by decide)⟩ : Fin 64)) :=
  shapeCast_apply P h _ _ (by
    rw [Shape.rowMajor_val_two, Shape.rowMajor_val_two]
    show (2 * r.val + l.val / 64) * 64 + l.val % 64 = r.val * 128 + l.val
    omega)

/-- Back: the array at `(n, j)` is the view at `(n / 2, 64 (n % 2) + j)`. -/
theorem unview_apply (Q : (⟨2, ![50000, 128]⟩ : Shape).Idx → α)
    (h : (⟨2, ![50000, 128]⟩ : Shape).ShapeCasts ⟨2, ![100000, 64]⟩) (n : Fin 100000) (j : Fin 64) :
    shapeCast ⟨2, ![100000, 64]⟩ Q h (ix2 n j)
      = Q (ix2 (⟨n.val / 2, by have := n.isLt; omega⟩ : Fin 50000)
            (⟨n.val % 2 * 64 + j.val, by have := j.isLt; omega⟩ : Fin 128)) :=
  shapeCast_apply Q h _ _ (by
    rw [Shape.rowMajor_val_two, Shape.rowMajor_val_two]
    show n.val / 2 * 128 + (n.val % 2 * 64 + j.val) = n.val * 64 + j.val
    omega)

/-! ## Doubling a row -/

/-- A length-64 vector concatenated with itself reads, at `l`, the vector at `l % 64`. -/
theorem concat_self_apply (g : (⟨1, ![64]⟩ : Shape).Idx → α)
    (hc : Shape.Concatenates [(⟨1, ![64]⟩ : Shape), ⟨1, ![64]⟩] ⟨1, ![128]⟩ 0) (l : Fin 128) :
    concatenate ⟨1, ![128]⟩ 0 [⟨⟨1, ![64]⟩, g⟩, ⟨⟨1, ![64]⟩, g⟩] hc (ix1 l)
      = g (ix1 (⟨l.val % 64, Nat.mod_lt _ (by decide)⟩ : Fin 64)) := by
  by_cases hl : l.val < 64
  · refine (concatenate_pair_apply_left 0 g g hc (ix1 l) rfl (ix1 (⟨l.val % 64, Nat.mod_lt _ (by decide)⟩ : Fin 64)) ?_)
    intro b
    match b with
    | ⟨0, _⟩ => show l.val % 64 = l.val; omega
  · refine (concatenate_pair_apply_right 0 g g hc (ix1 l) rfl rfl (ix1 (⟨l.val % 64, Nat.mod_lt _ (by decide)⟩ : Fin 64)) ?_ ?_)
    · intro b hb
      have hb1 : b.val < 1 := b.isLt
      exact absurd (Fin.ext (show b.val = 0 by omega)) hb
    · have := l.isLt
      show l.val % 64 + 64 = l.val
      omega

/-- The [1,128] row made from a length-64 vector `g` by concatenating it with itself and adding a unit axis holds
    `g (l % 64)` at `(0, l)`. -/
theorem double_vec_apply (g : (⟨1, ![64]⟩ : Shape).Idx → α)
    (hc : Shape.Concatenates [(⟨1, ![64]⟩ : Shape), ⟨1, ![64]⟩] ⟨1, ![128]⟩ 0)
    (h : (⟨1, ![128]⟩ : Shape).ShapeCasts ⟨2, ![1, 128]⟩) (u : Fin 1) (l : Fin 128) :
    shapeCast ⟨2, ![1, 128]⟩ (concatenate ⟨1, ![128]⟩ 0 [⟨⟨1, ![64]⟩, g⟩, ⟨⟨1, ![64]⟩, g⟩] hc) h (ix2 u l)
      = g (ix1 (⟨l.val % 64, Nat.mod_lt _ (by decide)⟩ : Fin 64)) :=
  (shapeCast_a_1a_apply _ h u l).trans (concat_self_apply g hc l)

/-- The same from a [1,64] row `X` (a keepdims column statistic), first cast to a vector: `X (0, l % 64)`. -/
theorem double_row_apply (X : (⟨2, ![1, 64]⟩ : Shape).Idx → α)
    (h₁ : (⟨2, ![1, 64]⟩ : Shape).ShapeCasts ⟨1, ![64]⟩)
    (hc : Shape.Concatenates [(⟨1, ![64]⟩ : Shape), ⟨1, ![64]⟩] ⟨1, ![128]⟩ 0)
    (h : (⟨1, ![128]⟩ : Shape).ShapeCasts ⟨2, ![1, 128]⟩) (u : Fin 1) (l : Fin 128) :
    shapeCast ⟨2, ![1, 128]⟩ (concatenate ⟨1, ![128]⟩ 0
        [⟨⟨1, ![64]⟩, shapeCast ⟨1, ![64]⟩ X h₁⟩, ⟨⟨1, ![64]⟩, shapeCast ⟨1, ![64]⟩ X h₁⟩] hc) h (ix2 u l)
      = X (ix2 (0 : Fin 1) (⟨l.val % 64, Nat.mod_lt _ (by decide)⟩ : Fin 64)) :=
  (double_vec_apply _ hc h u l).trans (shapeCast_1a_a_apply X h₁ _)

/-! ## Batch normalisation through the [50000,128] view -/

theorem ix2_congr {n0 n1 : Nat} {a a' : Fin n0} {b b' : Fin n1} (ha : a.val = a'.val) (hb : b.val = b'.val) :
    (ix2 a b : (⟨2, ![n0, n1]⟩ : Shape).Idx) = ix2 a' b' := by rw [Fin.ext ha, Fin.ext hb]

/-- The view and back is the identity, element by element. -/
theorem view_unview_index (P : FVec Ideal Spec.SN64 .f32) (h : Spec.SN64.ShapeCasts Spec.SM128) (n : Fin 100000) (j : Fin 64) :
    shapeCast Spec.SM128 P h (ix2 (⟨n.val / 2, by have := n.isLt; omega⟩ : Fin 50000)
        (⟨n.val % 2 * 64 + j.val, by have := j.isLt; omega⟩ : Fin 128)) = P (ix2 n j) :=
  (view_apply P h _ _).trans (congrArg P (ix2_congr (by have := j.isLt; show 2 * (n.val / 2) + (n.val % 2 * 64 + j.val) / 64 = n.val; omega)
    (by have := j.isLt; show (n.val % 2 * 64 + j.val) % 64 = j.val; omega)))

/-- The batch-norm region's affine map on the view, with the four parameter rows the doubled column statistics and the
    doubled scale and shift, cast back, is the network's batch normalisation. -/
theorem bn2_view (P : FVec Ideal Spec.SN64 .f32) (mu v g b : FVec Ideal Spec.S1x128 .f32) (g0 b0 : FVec Ideal Spec.S64 .f32)
    (h : Spec.SN64.ShapeCasts Spec.SM128) (h' : Spec.SM128.ShapeCasts Spec.SN64)
    (hmu : ∀ l : Fin 128, mu (ix2 (0 : Fin 1) l) = Spec.mean P (ix1 (⟨l.val % 64, Nat.mod_lt _ (by decide)⟩ : Fin 64)))
    (hv : ∀ l : Fin 128, v (ix2 (0 : Fin 1) l) = Spec.var P (ix1 (⟨l.val % 64, Nat.mod_lt _ (by decide)⟩ : Fin 64)))
    (hg : ∀ l : Fin 128, g (ix2 (0 : Fin 1) l) = g0 (ix1 (⟨l.val % 64, Nat.mod_lt _ (by decide)⟩ : Fin 64)))
    (hb : ∀ l : Fin 128, b (ix2 (0 : Fin 1) l) = b0 (ix1 (⟨l.val % 64, Nat.mod_lt _ (by decide)⟩ : Fin 64))) :
    shapeCast Spec.SN64 (Spec.bn2 (shapeCast Spec.SM128 P h) mu v g b) h' = Spec.bn P g0 b0 := by
  funext i
  obtain ⟨n, j, rfl⟩ : ∃ (n : Fin 100000) (j : Fin 64), i = ix2 n j := ⟨i 0, i 1, eq_ix2 i⟩
  rw [unview_apply]
  have hj : (⟨(n.val % 2 * 64 + j.val) % 64, Nat.mod_lt _ (by decide)⟩ : Fin 64) = j :=
    Fin.ext (by have := j.isLt; show (n.val % 2 * 64 + j.val) % 64 = j.val; omega)
  show ((shapeCast Spec.SM128 P h (ix2 (⟨n.val / 2, _⟩ : Fin 50000) (⟨n.val % 2 * 64 + j.val, _⟩ : Fin 128))
        - mu (ix2 (0 : Fin 1) (⟨n.val % 2 * 64 + j.val, _⟩ : Fin 128)))
      * Ideal.rsqrt (v (ix2 (0 : Fin 1) (⟨n.val % 2 * 64 + j.val, _⟩ : Fin 128)) + Spec.eps))
      * g (ix2 (0 : Fin 1) (⟨n.val % 2 * 64 + j.val, _⟩ : Fin 128))
      + b (ix2 (0 : Fin 1) (⟨n.val % 2 * 64 + j.val, _⟩ : Fin 128))
    = ((P (ix2 n j) - Spec.mean P (ix1 j)) * Ideal.rsqrt (Spec.var P (ix1 j) + Spec.eps)) * g0 (ix1 j) + b0 (ix1 j)
  rw [view_unview_index P h n j, hmu, hv, hg, hb, hj]

/-- The same with the maximum with zero: the network's relu of the batch normalisation. -/
theorem bnR2_view (P : FVec Ideal Spec.SN64 .f32) (mu v g b : FVec Ideal Spec.S1x128 .f32) (g0 b0 : FVec Ideal Spec.S64 .f32)
    (h : Spec.SN64.ShapeCasts Spec.SM128) (h' : Spec.SM128.ShapeCasts Spec.SN64)
    (hmu : ∀ l : Fin 128, mu (ix2 (0 : Fin 1) l) = Spec.mean P (ix1 (⟨l.val % 64, Nat.mod_lt _ (by decide)⟩ : Fin 64)))
    (hv : ∀ l : Fin 128, v (ix2 (0 : Fin 1) l) = Spec.var P (ix1 (⟨l.val % 64, Nat.mod_lt _ (by decide)⟩ : Fin 64)))
    (hg : ∀ l : Fin 128, g (ix2 (0 : Fin 1) l) = g0 (ix1 (⟨l.val % 64, Nat.mod_lt _ (by decide)⟩ : Fin 64)))
    (hb : ∀ l : Fin 128, b (ix2 (0 : Fin 1) l) = b0 (ix1 (⟨l.val % 64, Nat.mod_lt _ (by decide)⟩ : Fin 64))) :
    shapeCast Spec.SN64 (Spec.bnR2 (shapeCast Spec.SM128 P h) mu v g b) h' = Spec.relu (Spec.bn P g0 b0) := by
  funext i
  obtain ⟨n, j, rfl⟩ : ∃ (n : Fin 100000) (j : Fin 64), i = ix2 n j := ⟨i 0, i 1, eq_ix2 i⟩
  have e := congrFun (bn2_view P mu v g b g0 b0 h h' hmu hv hg hb) (ix2 n j)
  rw [unview_apply] at e
  rw [unview_apply]
  show max (Spec.bn2 (shapeCast Spec.SM128 P h) mu v g b _) Spec.z = max (Spec.bn P g0 b0 (ix2 n j)) Spec.z
  rw [e]

/-! ## The linear regions against the network's affine map -/

/-- The matmul + bias region's array, with the bias given as the [1,64] cast of a length-64 row, is the network's
    affine map. -/
theorem linO_eq (a : FVec Ideal Spec.SN64 .f32) (W : FVec Ideal Spec.S64x64 .f32) (b : FVec Ideal Spec.S64 .f32)
    (hc : Spec.S64.ShapeCasts Spec.S1x64) :
    Spec.linO a W (shapeCast Spec.S1x64 b hc) = Spec.lin a W b := by
  funext i
  obtain ⟨n, j, rfl⟩ : ∃ (n : Fin 100000) (j : Fin 64), i = ix2 n j := ⟨i 0, i 1, eq_ix2 i⟩
  show (∑ k : Fin 64, a (ix2 n k) * W (ix2 k j)) + shapeCast Spec.S1x64 b hc (ix2 (0 : Fin 1) j)
    = (∑ k : Fin 64, a (ix2 n k) * W (ix2 k j)) + b (ix1 j)
  rw [shapeCast_a_1a_apply]

/-- With a residual: the affine map plus the residual, element by element. -/
theorem linE_eq (a : FVec Ideal Spec.SN64 .f32) (W : FVec Ideal Spec.S64x64 .f32) (b : FVec Ideal Spec.S64 .f32)
    (hc : Spec.S64.ShapeCasts Spec.S1x64) (e : FVec Ideal Spec.SN64 .f32) :
    Spec.linE a W (shapeCast Spec.S1x64 b hc) e = fun i => Spec.lin a W b i + e i := by
  funext i
  show Spec.linO a W (shapeCast Spec.S1x64 b hc) i + e i = _
  rw [linO_eq]

end Cert.KernelIdeal.KValue

end
-- ==== Proof.KIChainBn0.lean ====
/- Batch-norm group 0 of the idealized kernel's host program, over any contents `V` of the buffers at the group's
   entry: what the three host stretches before region 2 leave in the region's five operand arrays (the [50000,128]
   view of the pre-activation, the doubled column mean and variance, the doubled scale and shift), and, given that the
   region's result array is the batch-norm map of those operands, what the reshape after it holds: the network's
   batch normalisation of the pre-activation followed by relu. -/
import proofs.«146189_j40922448396571_2_alg».proof.Proof.KIRegions
import proofs.«146189_j40922448396571_2_alg».proof.Proof.KIGlueLayout
import proofs.«146189_j40922448396571_2_alg».proof.Proof.KIGlueStat
import Idealize.ShloMosaic.Lib.StableHlo.Run

noncomputable section

open scoped BigOperators

namespace Cert.KernelIdeal.KValue

open Cert.KernelIdeal Cert.KernelIdeal.Gen
open Idealize.ShloMosaic Idealize.ShloMosaic.TcCoe Idealize.ShloMosaic.StableHlo Idealize.ShloMosaic.ValueIdx

/-! ## Batch-norm group 0: the host stretches `hostOps2`, `hostOps2_1`, `hostOps2_2` before region 2, and the reshape after it -/

section Group0
variable (V : Valuation τ sig (Elt Ideal))

/-- The mean stretch: the keepdims column mean of `main_v29`. -/
theorem b0_mean (j : Fin 64) :
    (StableHlo.after (hostOps2 (F := Ideal)) V (Proc.devRef .tc main_v33) : FVec Ideal KValue.S1x64 .f32) (ix2 (0 : Fin 1) j)
      = Spec.mean (V (Proc.devRef .tc main_v29) : FVec Ideal Spec.SN64 .f32) (ix1 j) := by
  after_results
  exact mean_row_apply _ _ _ _ _ 0 j

/-- It leaves the integer zero in `main_c`. -/
theorem b0_c : StableHlo.after (hostOps2 (F := Ideal)) V (Proc.devRef .tc main_c) = (constantI S_ 32 0#32 : IVec S_ 32) := by
  after_results
  all_goals rfl

set_option maxHeartbeats 2000000 in
set_option maxRecDepth 200000 in
/-- The variance stretch (the outlined variance function on `main_v29`, its integer argument the zero in `main_c`). -/
theorem b0_var (hc : V (Proc.devRef .tc main_c) = (constantI S_ 32 0#32 : IVec S_ 32)) (j : Fin 64) :
    (StableHlo.after (hostOps2_1 (F := Ideal)) V (Proc.devRef .tc main_v34) : FVec Ideal KValue.S1x64 .f32) (ix2 (0 : Fin 1) j)
      = Spec.var (V (Proc.devRef .tc main_v29) : FVec Ideal Spec.SN64 .f32) (ix1 j) := by
  after_results
  have hdd : subf (constant (F := Ideal) S_ .f32 0x47C35000#32) (sitofp .f32 (V (Proc.devRef .tc main_c) : IVec S_ 32)) = Spec.ddA := by
    rw [hc]; rfl
  have hgd : cmpf .ogt (subf (constant (F := Ideal) S_ .f32 0x47C35000#32) (sitofp .f32 (V (Proc.devRef .tc main_c) : IVec S_ 32)))
      (constant (F := Ideal) S_ .f32 0x00000000#32) = Spec.guardA := by
    rw [hc]; rfl
  have hM : ∀ j : Fin 64, (Host.divf (broadcastInDim KValue.S1x64 ![1] bcast_S64_S1x64_1
        (Host.reduceAdd (V (Proc.devRef .tc main_v29) : FVec Ideal Spec.SN64 .f32) (constant (F := Ideal) S_ .f32 0x00000000#32)
          reducesTo_S100000x64_S64_d0 h_S_))
      (broadcastInDim KValue.S1x64 ![] bcast_S_S1x64 (constant (F := Ideal) S_ .f32 0x47C35000#32)) : FVec Ideal KValue.S1x64 .f32)
        (ix2 (0 : Fin 1) j) = Spec.mean (V (Proc.devRef .tc main_v29) : FVec Ideal Spec.SN64 .f32) (ix1 j) :=
    fun j => mean_row_apply (V (Proc.devRef .tc main_v29) : FVec Ideal Spec.SN64 .f32) reducesTo_S100000x64_S64_d0 h_S_ bcast_S64_S1x64_1 bcast_S_S1x64 0 j
  exact var_row_apply' (V (Proc.devRef .tc main_v29) : FVec Ideal Spec.SN64 .f32) _ hM
    _ _ hdd hgd reducesTo_S100000x64_S64_d0 h_S_ bcast_S64_S1x64_1 bcast_S_S1x64 bcast_S1x64_S100000x64_0_1 0 j

/-- The doubling stretch: the [50000,128] view of `main_v29`, -/
theorem b0_view :
    (StableHlo.after (hostOps2_2 (F := Ideal)) V (Proc.devRef .tc main_v35) : FVec Ideal Spec.SM128 .f32)
      = shapeCast Spec.SM128 (V (Proc.devRef .tc main_v29) : FVec Ideal Spec.SN64 .f32) shapeCasts_S100000x64_S50000x128 := by
  after_results
  all_goals rfl

/-- the doubled mean row, -/
theorem b0_dmu (l : Fin 128) :
    (StableHlo.after (hostOps2_2 (F := Ideal)) V (Proc.devRef .tc main_v39) : FVec Ideal Spec.S1x128 .f32) (ix2 (0 : Fin 1) l)
      = (V (Proc.devRef .tc main_v33) : FVec Ideal KValue.S1x64 .f32) (ix2 (0 : Fin 1) (⟨l.val % 64, Nat.mod_lt _ (by decide)⟩ : Fin 64)) := by
  after_results
  exact double_row_apply _ _ _ _ 0 l

/-- the doubled variance row, -/
theorem b0_dvar (l : Fin 128) :
    (StableHlo.after (hostOps2_2 (F := Ideal)) V (Proc.devRef .tc main_v43) : FVec Ideal Spec.S1x128 .f32) (ix2 (0 : Fin 1) l)
      = (V (Proc.devRef .tc main_v34) : FVec Ideal KValue.S1x64 .f32) (ix2 (0 : Fin 1) (⟨l.val % 64, Nat.mod_lt _ (by decide)⟩ : Fin 64)) := by
  after_results
  exact double_row_apply _ _ _ _ 0 l

/-- the doubled scale -/
theorem b0_dg (l : Fin 128) :
    (StableHlo.after (hostOps2_2 (F := Ideal)) V (Proc.devRef .tc main_v45) : FVec Ideal Spec.S1x128 .f32) (ix2 (0 : Fin 1) l)
      = (V (Proc.devRef .tc main_arg8) : FVec Ideal Spec.S64 .f32) (ix1 (⟨l.val % 64, Nat.mod_lt _ (by decide)⟩ : Fin 64)) := by
  after_results
  exact double_vec_apply _ _ _ 0 l

/-- and the doubled shift. -/
theorem b0_db (l : Fin 128) :
    (StableHlo.after (hostOps2_2 (F := Ideal)) V (Proc.devRef .tc main_v47) : FVec Ideal Spec.S1x128 .f32) (ix2 (0 : Fin 1) l)
      = (V (Proc.devRef .tc main_arg9) : FVec Ideal Spec.S64 .f32) (ix1 (⟨l.val % 64, Nat.mod_lt _ (by decide)⟩ : Fin 64)) := by
  after_results
  exact double_vec_apply _ _ _ 0 l

/-! ### What the three stretches leave unchanged -/

theorem keepA0 (r : Ref sig .tc) (h : r ∉ hostOps2_W) :
    StableHlo.after (hostOps2 (F := Ideal)) V (Proc.devRef .tc r) = V (Proc.devRef .tc r) :=
  StableHlo.after_of_writes_sub hostOps2 V hostOps2_writes h
theorem keepB0 (r : Ref sig .tc) (h : r ∉ hostOps2_1_W) :
    StableHlo.after (hostOps2_1 (F := Ideal)) V (Proc.devRef .tc r) = V (Proc.devRef .tc r) :=
  StableHlo.after_of_writes_sub hostOps2_1 V hostOps2_1_writes h
theorem keepC0 (r : Ref sig .tc) (h : r ∉ hostOps2_2_W) :
    StableHlo.after (hostOps2_2 (F := Ideal)) V (Proc.devRef .tc r) = V (Proc.devRef .tc r) :=
  StableHlo.after_of_writes_sub hostOps2_2 V hostOps2_2_writes h

/-! ### Region 2's operand arrays, from the contents at the group's entry -/

/-- The contents at region 2's entry. -/
abbrev Vin0 : Valuation τ sig (Elt Ideal) :=
  StableHlo.after (hostOps2_2 (F := Ideal)) (StableHlo.after (hostOps2_1 (F := Ideal)) (StableHlo.after (hostOps2 (F := Ideal)) V))

theorem g0_view :
    (Vin0 V (Proc.devRef .tc main_v35) : FVec Ideal Spec.SM128 .f32)
      = shapeCast Spec.SM128 (V (Proc.devRef .tc main_v29) : FVec Ideal Spec.SN64 .f32) shapeCasts_S100000x64_S50000x128 := by
  unfold Vin0
  rw [b0_view, keepB0 _ main_v29 (by decide), keepA0 V main_v29 (by decide)]

theorem g0_dmu (l : Fin 128) :
    (Vin0 V (Proc.devRef .tc main_v39) : FVec Ideal Spec.S1x128 .f32) (ix2 (0 : Fin 1) l)
      = Spec.mean (V (Proc.devRef .tc main_v29) : FVec Ideal Spec.SN64 .f32) (ix1 (⟨l.val % 64, Nat.mod_lt _ (by decide)⟩ : Fin 64)) := by
  unfold Vin0
  rw [b0_dmu, keepB0 _ main_v33 (by decide), b0_mean]

theorem g0_dvar (l : Fin 128) :
    (Vin0 V (Proc.devRef .tc main_v43) : FVec Ideal Spec.S1x128 .f32) (ix2 (0 : Fin 1) l)
      = Spec.var (V (Proc.devRef .tc main_v29) : FVec Ideal Spec.SN64 .f32) (ix1 (⟨l.val % 64, Nat.mod_lt _ (by decide)⟩ : Fin 64)) := by
  unfold Vin0
  rw [b0_dvar, b0_var _ (b0_c V), keepA0 V main_v29 (by decide)]

theorem g0_dg (l : Fin 128) :
    (Vin0 V (Proc.devRef .tc main_v45) : FVec Ideal Spec.S1x128 .f32) (ix2 (0 : Fin 1) l)
      = (V (Proc.devRef .tc main_arg8) : FVec Ideal Spec.S64 .f32) (ix1 (⟨l.val % 64, Nat.mod_lt _ (by decide)⟩ : Fin 64)) := by
  unfold Vin0
  rw [b0_dg, keepB0 _ main_arg8 (by decide), keepA0 V main_arg8 (by decide)]

theorem g0_db (l : Fin 128) :
    (Vin0 V (Proc.devRef .tc main_v47) : FVec Ideal Spec.S1x128 .f32) (ix2 (0 : Fin 1) l)
      = (V (Proc.devRef .tc main_arg9) : FVec Ideal Spec.S64 .f32) (ix1 (⟨l.val % 64, Nat.mod_lt _ (by decide)⟩ : Fin 64)) := by
  unfold Vin0
  rw [b0_db, keepB0 _ main_arg9 (by decide), keepA0 V main_arg9 (by decide)]

/-- A buffer none of the three stretches writes is, at region 2's entry, as at the group's entry. -/
theorem g0_keep (r : Ref sig .tc) (hA : r ∉ hostOps2_W) (hB : r ∉ hostOps2_1_W) (hC : r ∉ hostOps2_2_W) :
    Vin0 V (Proc.devRef .tc r) = V (Proc.devRef .tc r) := by
  unfold Vin0
  rw [keepC0 _ r hC, keepB0 _ r hB, keepA0 V r hA]

/-! ### The group: from the pre-activation at its entry to the activation after it -/

/-- If region 2 leaves in its result array the batch-norm map of its five operand arrays (`hX`), then after the
    reshape that follows, `main_v49` holds the network's relu of the batch normalisation of what `main_v29` held at the
    group's entry, with the layer's scale and shift. -/
theorem group0 (X : FVec Ideal Spec.SM128 .f32)
    (hX : X = Spec.bnR2 (Vin0 V (Proc.devRef .tc main_v35)) (Vin0 V (Proc.devRef .tc main_v39)) (Vin0 V (Proc.devRef .tc main_v43))
      (Vin0 V (Proc.devRef .tc main_v45)) (Vin0 V (Proc.devRef .tc main_v47))) :
    (StableHlo.after (hostOps3 (F := Ideal)) (Function.update (Vin0 V) (Proc.devRef .tc main_v48) X) (Proc.devRef .tc main_v49)
        : FVec Ideal Spec.SN64 .f32)
      = Spec.relu (Spec.bn (V (Proc.devRef .tc main_v29)) ((V (Proc.devRef .tc main_arg8) : FVec Ideal Spec.S64 .f32)) ((V (Proc.devRef .tc main_arg9) : FVec Ideal Spec.S64 .f32))) := by
  after_results
  rw [Function.update_self, hX, g0_view]
  exact bnR2_view _ _ _ _ _ _ _ _ _ (g0_dmu V) (g0_dvar V) (g0_dg V) (g0_db V)

end Group0

end Cert.KernelIdeal.KValue

end
-- ==== Proof.KIChainBn1.lean ====
/- Batch-norm group 1 of the idealized kernel's host program, over any contents `V` of the buffers at the group's
   entry: what the three host stretches before region 4 leave in the region's five operand arrays (the [50000,128]
   view of the pre-activation, the doubled column mean and variance, the doubled scale and shift), and, given that the
   region's result array is the batch-norm map of those operands, what the reshape after it holds: the network's
   batch normalisation of the pre-activation followed by relu. -/
import proofs.«146189_j40922448396571_2_alg».proof.Proof.KIRegions
import proofs.«146189_j40922448396571_2_alg».proof.Proof.KIGlueLayout
import proofs.«146189_j40922448396571_2_alg».proof.Proof.KIGlueStat
import Idealize.ShloMosaic.Lib.StableHlo.Run

noncomputable section

open scoped BigOperators

namespace Cert.KernelIdeal.KValue

open Cert.KernelIdeal Cert.KernelIdeal.Gen
open Idealize.ShloMosaic Idealize.ShloMosaic.TcCoe Idealize.ShloMosaic.StableHlo Idealize.ShloMosaic.ValueIdx

/-! ## Batch-norm group 1: the host stretches `hostOps4`, `hostOps4_1`, `hostOps4_2` before region 4, and the reshape after it -/

section Group1
variable (V : Valuation τ sig (Elt Ideal))

/-- The mean stretch: the keepdims column mean of `main_v66`. -/
theorem b1_mean (j : Fin 64) :
    (StableHlo.after (hostOps4 (F := Ideal)) V (Proc.devRef .tc main_v70) : FVec Ideal KValue.S1x64 .f32) (ix2 (0 : Fin 1) j)
      = Spec.mean (V (Proc.devRef .tc main_v66) : FVec Ideal Spec.SN64 .f32) (ix1 j) := by
  after_results
  exact mean_row_apply _ _ _ _ _ 0 j

/-- It leaves the integer zero in `main_c_9`. -/
theorem b1_c : StableHlo.after (hostOps4 (F := Ideal)) V (Proc.devRef .tc main_c_9) = (constantI S_ 32 0#32 : IVec S_ 32) := by
  after_results
  all_goals rfl

set_option maxHeartbeats 2000000 in
set_option maxRecDepth 200000 in
/-- The variance stretch (the outlined variance function on `main_v66`, its integer argument the zero in `main_c_9`). -/
theorem b1_var (hc : V (Proc.devRef .tc main_c_9) = (constantI S_ 32 0#32 : IVec S_ 32)) (j : Fin 64) :
    (StableHlo.after (hostOps4_1 (F := Ideal)) V (Proc.devRef .tc main_v71) : FVec Ideal KValue.S1x64 .f32) (ix2 (0 : Fin 1) j)
      = Spec.var (V (Proc.devRef .tc main_v66) : FVec Ideal Spec.SN64 .f32) (ix1 j) := by
  after_results
  have hdd : subf (constant (F := Ideal) S_ .f32 0x47C35000#32) (sitofp .f32 (V (Proc.devRef .tc main_c_9) : IVec S_ 32)) = Spec.ddA := by
    rw [hc]; rfl
  have hgd : cmpf .ogt (subf (constant (F := Ideal) S_ .f32 0x47C35000#32) (sitofp .f32 (V (Proc.devRef .tc main_c_9) : IVec S_ 32)))
      (constant (F := Ideal) S_ .f32 0x00000000#32) = Spec.guardA := by
    rw [hc]; rfl
  have hM : ∀ j : Fin 64, (Host.divf (broadcastInDim KValue.S1x64 ![1] bcast_S64_S1x64_1
        (Host.reduceAdd (V (Proc.devRef .tc main_v66) : FVec Ideal Spec.SN64 .f32) (constant (F := Ideal) S_ .f32 0x00000000#32)
          reducesTo_S100000x64_S64_d0 h_S_))
      (broadcastInDim KValue.S1x64 ![] bcast_S_S1x64 (constant (F := Ideal) S_ .f32 0x47C35000#32)) : FVec Ideal KValue.S1x64 .f32)
        (ix2 (0 : Fin 1) j) = Spec.mean (V (Proc.devRef .tc main_v66) : FVec Ideal Spec.SN64 .f32) (ix1 j) :=
    fun j => mean_row_apply (V (Proc.devRef .tc main_v66) : FVec Ideal Spec.SN64 .f32) reducesTo_S100000x64_S64_d0 h_S_ bcast_S64_S1x64_1 bcast_S_S1x64 0 j
  exact var_row_apply' (V (Proc.devRef .tc main_v66) : FVec Ideal Spec.SN64 .f32) _ hM
    _ _ hdd hgd reducesTo_S100000x64_S64_d0 h_S_ bcast_S64_S1x64_1 bcast_S_S1x64 bcast_S1x64_S100000x64_0_1 0 j

/-- The doubling stretch: the [50000,128] view of `main_v66`, -/
theorem b1_view :
    (StableHlo.after (hostOps4_2 (F := Ideal)) V (Proc.devRef .tc main_v76) : FVec Ideal Spec.SM128 .f32)
      = shapeCast Spec.SM128 (V (Proc.devRef .tc main_v66) : FVec Ideal Spec.SN64 .f32) shapeCasts_S100000x64_S50000x128 := by
  after_results
  all_goals rfl

/-- the doubled mean row, -/
theorem b1_dmu (l : Fin 128) :
    (StableHlo.after (hostOps4_2 (F := Ideal)) V (Proc.devRef .tc main_v80) : FVec Ideal Spec.S1x128 .f32) (ix2 (0 : Fin 1) l)
      = (V (Proc.devRef .tc main_v70) : FVec Ideal KValue.S1x64 .f32) (ix2 (0 : Fin 1) (⟨l.val % 64, Nat.mod_lt _ (by decide)⟩ : Fin 64)) := by
  after_results
  exact double_row_apply _ _ _ _ 0 l

/-- the doubled variance row, -/
theorem b1_dvar (l : Fin 128) :
    (StableHlo.after (hostOps4_2 (F := Ideal)) V (Proc.devRef .tc main_v84) : FVec Ideal Spec.S1x128 .f32) (ix2 (0 : Fin 1) l)
      = (V (Proc.devRef .tc main_v71) : FVec Ideal KValue.S1x64 .f32) (ix2 (0 : Fin 1) (⟨l.val % 64, Nat.mod_lt _ (by decide)⟩ : Fin 64)) := by
  after_results
  exact double_row_apply _ _ _ _ 0 l

/-- the doubled scale -/
theorem b1_dg (l : Fin 128) :
    (StableHlo.after (hostOps4_2 (F := Ideal)) V (Proc.devRef .tc main_v86) : FVec Ideal Spec.S1x128 .f32) (ix2 (0 : Fin 1) l)
      = Spec.row3 (V (Proc.devRef .tc main_arg16) : FVec Ideal Spec.S3x64 .f32) (0 : Fin 3) (ix1 (⟨l.val % 64, Nat.mod_lt _ (by decide)⟩ : Fin 64)) := by
  after_results
  exact (double_vec_apply _ _ _ 0 l).trans (congrFun (row3_slice (V (Proc.devRef .tc main_arg16) : FVec Ideal Spec.S3x64 .f32) (0 : Fin 3) slices_S3x64_S1x64_0_0 shapeCasts_S1x64_S64) _)

/-- and the doubled shift. -/
theorem b1_db (l : Fin 128) :
    (StableHlo.after (hostOps4_2 (F := Ideal)) V (Proc.devRef .tc main_v88) : FVec Ideal Spec.S1x128 .f32) (ix2 (0 : Fin 1) l)
      = Spec.row3 (V (Proc.devRef .tc main_arg17) : FVec Ideal Spec.S3x64 .f32) (0 : Fin 3) (ix1 (⟨l.val % 64, Nat.mod_lt _ (by decide)⟩ : Fin 64)) := by
  after_results
  exact (double_vec_apply _ _ _ 0 l).trans (congrFun (row3_slice (V (Proc.devRef .tc main_arg17) : FVec Ideal Spec.S3x64 .f32) (0 : Fin 3) slices_S3x64_S1x64_0_0 shapeCasts_S1x64_S64) _)

/-! ### What the three stretches leave unchanged -/

theorem keepA1 (r : Ref sig .tc) (h : r ∉ hostOps4_W) :
    StableHlo.after (hostOps4 (F := Ideal)) V (Proc.devRef .tc r) = V (Proc.devRef .tc r) :=
  StableHlo.after_of_writes_sub hostOps4 V hostOps4_writes h
theorem keepB1 (r : Ref sig .tc) (h : r ∉ hostOps4_1_W) :
    StableHlo.after (hostOps4_1 (F := Ideal)) V (Proc.devRef .tc r) = V (Proc.devRef .tc r) :=
  StableHlo.after_of_writes_sub hostOps4_1 V hostOps4_1_writes h
theorem keepC1 (r : Ref sig .tc) (h : r ∉ hostOps4_2_W) :
    StableHlo.after (hostOps4_2 (F := Ideal)) V (Proc.devRef .tc r) = V (Proc.devRef .tc r) :=
  StableHlo.after_of_writes_sub hostOps4_2 V hostOps4_2_writes h

/-! ### Region 4's operand arrays, from the contents at the group's entry -/

/-- The contents at region 4's entry. -/
abbrev Vin1 : Valuation τ sig (Elt Ideal) :=
  StableHlo.after (hostOps4_2 (F := Ideal)) (StableHlo.after (hostOps4_1 (F := Ideal)) (StableHlo.after (hostOps4 (F := Ideal)) V))

theorem g1_view :
    (Vin1 V (Proc.devRef .tc main_v76) : FVec Ideal Spec.SM128 .f32)
      = shapeCast Spec.SM128 (V (Proc.devRef .tc main_v66) : FVec Ideal Spec.SN64 .f32) shapeCasts_S100000x64_S50000x128 := by
  unfold Vin1
  rw [b1_view, keepB1 _ main_v66 (by decide), keepA1 V main_v66 (by decide)]

theorem g1_dmu (l : Fin 128) :
    (Vin1 V (Proc.devRef .tc main_v80) : FVec Ideal Spec.S1x128 .f32) (ix2 (0 : Fin 1) l)
      = Spec.mean (V (Proc.devRef .tc main_v66) : FVec Ideal Spec.SN64 .f32) (ix1 (⟨l.val % 64, Nat.mod_lt _ (by decide)⟩ : Fin 64)) := by
  unfold Vin1
  rw [b1_dmu, keepB1 _ main_v70 (by decide), b1_mean]

theorem g1_dvar (l : Fin 128) :
    (Vin1 V (Proc.devRef .tc main_v84) : FVec Ideal Spec.S1x128 .f32) (ix2 (0 : Fin 1) l)
      = Spec.var (V (Proc.devRef .tc main_v66) : FVec Ideal Spec.SN64 .f32) (ix1 (⟨l.val % 64, Nat.mod_lt _ (by decide)⟩ : Fin 64)) := by
  unfold Vin1
  rw [b1_dvar, b1_var _ (b1_c V), keepA1 V main_v66 (by decide)]

theorem g1_dg (l : Fin 128) :
    (Vin1 V (Proc.devRef .tc main_v86) : FVec Ideal Spec.S1x128 .f32) (ix2 (0 : Fin 1) l)
      = Spec.row3 (V (Proc.devRef .tc main_arg16) : FVec Ideal Spec.S3x64 .f32) (0 : Fin 3) (ix1 (⟨l.val % 64, Nat.mod_lt _ (by decide)⟩ : Fin 64)) := by
  unfold Vin1
  rw [b1_dg, keepB1 _ main_arg16 (by decide), keepA1 V main_arg16 (by decide)]

theorem g1_db (l : Fin 128) :
    (Vin1 V (Proc.devRef .tc main_v88) : FVec Ideal Spec.S1x128 .f32) (ix2 (0 : Fin 1) l)
      = Spec.row3 (V (Proc.devRef .tc main_arg17) : FVec Ideal Spec.S3x64 .f32) (0 : Fin 3) (ix1 (⟨l.val % 64, Nat.mod_lt _ (by decide)⟩ : Fin 64)) := by
  unfold Vin1
  rw [b1_db, keepB1 _ main_arg17 (by decide), keepA1 V main_arg17 (by decide)]

/-- A buffer none of the three stretches writes is, at region 4's entry, as at the group's entry. -/
theorem g1_keep (r : Ref sig .tc) (hA : r ∉ hostOps4_W) (hB : r ∉ hostOps4_1_W) (hC : r ∉ hostOps4_2_W) :
    Vin1 V (Proc.devRef .tc r) = V (Proc.devRef .tc r) := by
  unfold Vin1
  rw [keepC1 _ r hC, keepB1 _ r hB, keepA1 V r hA]

/-! ### The group: from the pre-activation at its entry to the activation after it -/

/-- If region 4 leaves in its result array the batch-norm map of its five operand arrays (`hX`), then after the
    reshape that follows, `main_v90` holds the network's relu of the batch normalisation of what `main_v66` held at the
    group's entry, with the layer's scale and shift. -/
theorem group1 (X : FVec Ideal Spec.SM128 .f32)
    (hX : X = Spec.bnR2 (Vin1 V (Proc.devRef .tc main_v76)) (Vin1 V (Proc.devRef .tc main_v80)) (Vin1 V (Proc.devRef .tc main_v84))
      (Vin1 V (Proc.devRef .tc main_v86)) (Vin1 V (Proc.devRef .tc main_v88))) :
    (StableHlo.after (hostOps5 (F := Ideal)) (Function.update (Vin1 V) (Proc.devRef .tc main_v89) X) (Proc.devRef .tc main_v90)
        : FVec Ideal Spec.SN64 .f32)
      = Spec.relu (Spec.bn (V (Proc.devRef .tc main_v66)) (Spec.row3 (V (Proc.devRef .tc main_arg16) : FVec Ideal Spec.S3x64 .f32) (0 : Fin 3)) (Spec.row3 (V (Proc.devRef .tc main_arg17) : FVec Ideal Spec.S3x64 .f32) (0 : Fin 3))) := by
  after_results
  rw [Function.update_self, hX, g1_view]
  exact bnR2_view _ _ _ _ _ _ _ _ _ (g1_dmu V) (g1_dvar V) (g1_dg V) (g1_db V)

end Group1

end Cert.KernelIdeal.KValue

end
-- ==== Proof.KIChainBn2.lean ====
/- Batch-norm group 2 of the idealized kernel's host program, over any contents `V` of the buffers at the group's
   entry: what the three host stretches before region 6 leave in the region's five operand arrays (the [50000,128]
   view of the pre-activation, the doubled column mean and variance, the doubled scale and shift), and, given that the
   region's result array is the batch-norm map of those operands, what the reshape after it holds: the network's
   batch normalisation of the pre-activation followed by relu. -/
import proofs.«146189_j40922448396571_2_alg».proof.Proof.KIRegions
import proofs.«146189_j40922448396571_2_alg».proof.Proof.KIGlueLayout
import proofs.«146189_j40922448396571_2_alg».proof.Proof.KIGlueStat
import Idealize.ShloMosaic.Lib.StableHlo.Run

noncomputable section

open scoped BigOperators

namespace Cert.KernelIdeal.KValue

open Cert.KernelIdeal Cert.KernelIdeal.Gen
open Idealize.ShloMosaic Idealize.ShloMosaic.TcCoe Idealize.ShloMosaic.StableHlo Idealize.ShloMosaic.ValueIdx

/-! ## Batch-norm group 2: the host stretches `hostOps6`, `hostOps6_1`, `hostOps6_2` before region 6, and the reshape after it -/

section Group2
variable (V : Valuation τ sig (Elt Ideal))

/-- The mean stretch: the keepdims column mean of `main_v96`. -/
theorem b2_mean (j : Fin 64) :
    (StableHlo.after (hostOps6 (F := Ideal)) V (Proc.devRef .tc main_v100) : FVec Ideal KValue.S1x64 .f32) (ix2 (0 : Fin 1) j)
      = Spec.mean (V (Proc.devRef .tc main_v96) : FVec Ideal Spec.SN64 .f32) (ix1 j) := by
  after_results
  exact mean_row_apply _ _ _ _ _ 0 j

/-- It leaves the integer zero in `main_c_12`. -/
theorem b2_c : StableHlo.after (hostOps6 (F := Ideal)) V (Proc.devRef .tc main_c_12) = (constantI S_ 32 0#32 : IVec S_ 32) := by
  after_results
  all_goals rfl

set_option maxHeartbeats 2000000 in
set_option maxRecDepth 200000 in
/-- The variance stretch (the outlined variance function on `main_v96`, its integer argument the zero in `main_c_12`). -/
theorem b2_var (hc : V (Proc.devRef .tc main_c_12) = (constantI S_ 32 0#32 : IVec S_ 32)) (j : Fin 64) :
    (StableHlo.after (hostOps6_1 (F := Ideal)) V (Proc.devRef .tc main_v101) : FVec Ideal KValue.S1x64 .f32) (ix2 (0 : Fin 1) j)
      = Spec.var (V (Proc.devRef .tc main_v96) : FVec Ideal Spec.SN64 .f32) (ix1 j) := by
  after_results
  have hdd : subf (constant (F := Ideal) S_ .f32 0x47C35000#32) (sitofp .f32 (V (Proc.devRef .tc main_c_12) : IVec S_ 32)) = Spec.ddA := by
    rw [hc]; rfl
  have hgd : cmpf .ogt (subf (constant (F := Ideal) S_ .f32 0x47C35000#32) (sitofp .f32 (V (Proc.devRef .tc main_c_12) : IVec S_ 32)))
      (constant (F := Ideal) S_ .f32 0x00000000#32) = Spec.guardA := by
    rw [hc]; rfl
  have hM : ∀ j : Fin 64, (Host.divf (broadcastInDim KValue.S1x64 ![1] bcast_S64_S1x64_1
        (Host.reduceAdd (V (Proc.devRef .tc main_v96) : FVec Ideal Spec.SN64 .f32) (constant (F := Ideal) S_ .f32 0x00000000#32)
          reducesTo_S100000x64_S64_d0 h_S_))
      (broadcastInDim KValue.S1x64 ![] bcast_S_S1x64 (constant (F := Ideal) S_ .f32 0x47C35000#32)) : FVec Ideal KValue.S1x64 .f32)
        (ix2 (0 : Fin 1) j) = Spec.mean (V (Proc.devRef .tc main_v96) : FVec Ideal Spec.SN64 .f32) (ix1 j) :=
    fun j => mean_row_apply (V (Proc.devRef .tc main_v96) : FVec Ideal Spec.SN64 .f32) reducesTo_S100000x64_S64_d0 h_S_ bcast_S64_S1x64_1 bcast_S_S1x64 0 j
  exact var_row_apply' (V (Proc.devRef .tc main_v96) : FVec Ideal Spec.SN64 .f32) _ hM
    _ _ hdd hgd reducesTo_S100000x64_S64_d0 h_S_ bcast_S64_S1x64_1 bcast_S_S1x64 bcast_S1x64_S100000x64_0_1 0 j

/-- The doubling stretch: the [50000,128] view of `main_v96`, -/
theorem b2_view :
    (StableHlo.after (hostOps6_2 (F := Ideal)) V (Proc.devRef .tc main_v106) : FVec Ideal Spec.SM128 .f32)
      = shapeCast Spec.SM128 (V (Proc.devRef .tc main_v96) : FVec Ideal Spec.SN64 .f32) shapeCasts_S100000x64_S50000x128 := by
  after_results
  all_goals rfl

/-- the doubled mean row, -/
theorem b2_dmu (l : Fin 128) :
    (StableHlo.after (hostOps6_2 (F := Ideal)) V (Proc.devRef .tc main_v110) : FVec Ideal Spec.S1x128 .f32) (ix2 (0 : Fin 1) l)
      = (V (Proc.devRef .tc main_v100) : FVec Ideal KValue.S1x64 .f32) (ix2 (0 : Fin 1) (⟨l.val % 64, Nat.mod_lt _ (by decide)⟩ : Fin 64)) := by
  after_results
  exact double_row_apply _ _ _ _ 0 l

/-- the doubled variance row, -/
theorem b2_dvar (l : Fin 128) :
    (StableHlo.after (hostOps6_2 (F := Ideal)) V (Proc.devRef .tc main_v114) : FVec Ideal Spec.S1x128 .f32) (ix2 (0 : Fin 1) l)
      = (V (Proc.devRef .tc main_v101) : FVec Ideal KValue.S1x64 .f32) (ix2 (0 : Fin 1) (⟨l.val % 64, Nat.mod_lt _ (by decide)⟩ : Fin 64)) := by
  after_results
  exact double_row_apply _ _ _ _ 0 l

/-- the doubled scale -/
theorem b2_dg (l : Fin 128) :
    (StableHlo.after (hostOps6_2 (F := Ideal)) V (Proc.devRef .tc main_v116) : FVec Ideal Spec.S1x128 .f32) (ix2 (0 : Fin 1) l)
      = Spec.row3 (V (Proc.devRef .tc main_arg18) : FVec Ideal Spec.S3x64 .f32) (0 : Fin 3) (ix1 (⟨l.val % 64, Nat.mod_lt _ (by decide)⟩ : Fin 64)) := by
  after_results
  exact (double_vec_apply _ _ _ 0 l).trans (congrFun (row3_slice (V (Proc.devRef .tc main_arg18) : FVec Ideal Spec.S3x64 .f32) (0 : Fin 3) slices_S3x64_S1x64_0_0 shapeCasts_S1x64_S64) _)

/-- and the doubled shift. -/
theorem b2_db (l : Fin 128) :
    (StableHlo.after (hostOps6_2 (F := Ideal)) V (Proc.devRef .tc main_v118) : FVec Ideal Spec.S1x128 .f32) (ix2 (0 : Fin 1) l)
      = Spec.row3 (V (Proc.devRef .tc main_arg19) : FVec Ideal Spec.S3x64 .f32) (0 : Fin 3) (ix1 (⟨l.val % 64, Nat.mod_lt _ (by decide)⟩ : Fin 64)) := by
  after_results
  exact (double_vec_apply _ _ _ 0 l).trans (congrFun (row3_slice (V (Proc.devRef .tc main_arg19) : FVec Ideal Spec.S3x64 .f32) (0 : Fin 3) slices_S3x64_S1x64_0_0 shapeCasts_S1x64_S64) _)

/-! ### What the three stretches leave unchanged -/

theorem keepA2 (r : Ref sig .tc) (h : r ∉ hostOps6_W) :
    StableHlo.after (hostOps6 (F := Ideal)) V (Proc.devRef .tc r) = V (Proc.devRef .tc r) :=
  StableHlo.after_of_writes_sub hostOps6 V hostOps6_writes h
theorem keepB2 (r : Ref sig .tc) (h : r ∉ hostOps6_1_W) :
    StableHlo.after (hostOps6_1 (F := Ideal)) V (Proc.devRef .tc r) = V (Proc.devRef .tc r) :=
  StableHlo.after_of_writes_sub hostOps6_1 V hostOps6_1_writes h
theorem keepC2 (r : Ref sig .tc) (h : r ∉ hostOps6_2_W) :
    StableHlo.after (hostOps6_2 (F := Ideal)) V (Proc.devRef .tc r) = V (Proc.devRef .tc r) :=
  StableHlo.after_of_writes_sub hostOps6_2 V hostOps6_2_writes h

/-! ### Region 6's operand arrays, from the contents at the group's entry -/

/-- The contents at region 6's entry. -/
abbrev Vin2 : Valuation τ sig (Elt Ideal) :=
  StableHlo.after (hostOps6_2 (F := Ideal)) (StableHlo.after (hostOps6_1 (F := Ideal)) (StableHlo.after (hostOps6 (F := Ideal)) V))

theorem g2_view :
    (Vin2 V (Proc.devRef .tc main_v106) : FVec Ideal Spec.SM128 .f32)
      = shapeCast Spec.SM128 (V (Proc.devRef .tc main_v96) : FVec Ideal Spec.SN64 .f32) shapeCasts_S100000x64_S50000x128 := by
  unfold Vin2
  rw [b2_view, keepB2 _ main_v96 (by decide), keepA2 V main_v96 (by decide)]

theorem g2_dmu (l : Fin 128) :
    (Vin2 V (Proc.devRef .tc main_v110) : FVec Ideal Spec.S1x128 .f32) (ix2 (0 : Fin 1) l)
      = Spec.mean (V (Proc.devRef .tc main_v96) : FVec Ideal Spec.SN64 .f32) (ix1 (⟨l.val % 64, Nat.mod_lt _ (by decide)⟩ : Fin 64)) := by
  unfold Vin2
  rw [b2_dmu, keepB2 _ main_v100 (by decide), b2_mean]

theorem g2_dvar (l : Fin 128) :
    (Vin2 V (Proc.devRef .tc main_v114) : FVec Ideal Spec.S1x128 .f32) (ix2 (0 : Fin 1) l)
      = Spec.var (V (Proc.devRef .tc main_v96) : FVec Ideal Spec.SN64 .f32) (ix1 (⟨l.val % 64, Nat.mod_lt _ (by decide)⟩ : Fin 64)) := by
  unfold Vin2
  rw [b2_dvar, b2_var _ (b2_c V), keepA2 V main_v96 (by decide)]

theorem g2_dg (l : Fin 128) :
    (Vin2 V (Proc.devRef .tc main_v116) : FVec Ideal Spec.S1x128 .f32) (ix2 (0 : Fin 1) l)
      = Spec.row3 (V (Proc.devRef .tc main_arg18) : FVec Ideal Spec.S3x64 .f32) (0 : Fin 3) (ix1 (⟨l.val % 64, Nat.mod_lt _ (by decide)⟩ : Fin 64)) := by
  unfold Vin2
  rw [b2_dg, keepB2 _ main_arg18 (by decide), keepA2 V main_arg18 (by decide)]

theorem g2_db (l : Fin 128) :
    (Vin2 V (Proc.devRef .tc main_v118) : FVec Ideal Spec.S1x128 .f32) (ix2 (0 : Fin 1) l)
      = Spec.row3 (V (Proc.devRef .tc main_arg19) : FVec Ideal Spec.S3x64 .f32) (0 : Fin 3) (ix1 (⟨l.val % 64, Nat.mod_lt _ (by decide)⟩ : Fin 64)) := by
  unfold Vin2
  rw [b2_db, keepB2 _ main_arg19 (by decide), keepA2 V main_arg19 (by decide)]

/-- A buffer none of the three stretches writes is, at region 6's entry, as at the group's entry. -/
theorem g2_keep (r : Ref sig .tc) (hA : r ∉ hostOps6_W) (hB : r ∉ hostOps6_1_W) (hC : r ∉ hostOps6_2_W) :
    Vin2 V (Proc.devRef .tc r) = V (Proc.devRef .tc r) := by
  unfold Vin2
  rw [keepC2 _ r hC, keepB2 _ r hB, keepA2 V r hA]

/-! ### The group: from the pre-activation at its entry to the activation after it -/

/-- If region 6 leaves in its result array the batch-norm map of its five operand arrays (`hX`), then after the
    reshape that follows, `main_v120` holds the network's relu of the batch normalisation of what `main_v96` held at the
    group's entry, with the layer's scale and shift. -/
theorem group2 (X : FVec Ideal Spec.SM128 .f32)
    (hX : X = Spec.bnR2 (Vin2 V (Proc.devRef .tc main_v106)) (Vin2 V (Proc.devRef .tc main_v110)) (Vin2 V (Proc.devRef .tc main_v114))
      (Vin2 V (Proc.devRef .tc main_v116)) (Vin2 V (Proc.devRef .tc main_v118))) :
    (StableHlo.after (hostOps7 (F := Ideal)) (Function.update (Vin2 V) (Proc.devRef .tc main_v119) X) (Proc.devRef .tc main_v120)
        : FVec Ideal Spec.SN64 .f32)
      = Spec.relu (Spec.bn (V (Proc.devRef .tc main_v96)) (Spec.row3 (V (Proc.devRef .tc main_arg18) : FVec Ideal Spec.S3x64 .f32) (0 : Fin 3)) (Spec.row3 (V (Proc.devRef .tc main_arg19) : FVec Ideal Spec.S3x64 .f32) (0 : Fin 3))) := by
  after_results
  rw [Function.update_self, hX, g2_view]
  exact bnR2_view _ _ _ _ _ _ _ _ _ (g2_dmu V) (g2_dvar V) (g2_dg V) (g2_db V)

end Group2

end Cert.KernelIdeal.KValue

end
-- ==== Proof.KIChainBn3.lean ====
/- Batch-norm group 3 of the idealized kernel's host program, over any contents `V` of the buffers at the group's
   entry: what the three host stretches before region 8 leave in the region's five operand arrays (the [50000,128]
   view of the pre-activation, the doubled column mean and variance, the doubled scale and shift), and, given that the
   region's result array is the batch-norm map of those operands, what the reshape after it holds: the network's
   batch normalisation of the pre-activation followed by relu. -/
import proofs.«146189_j40922448396571_2_alg».proof.Proof.KIRegions
import proofs.«146189_j40922448396571_2_alg».proof.Proof.KIGlueLayout
import proofs.«146189_j40922448396571_2_alg».proof.Proof.KIGlueStat
import Idealize.ShloMosaic.Lib.StableHlo.Run

noncomputable section

open scoped BigOperators

namespace Cert.KernelIdeal.KValue

open Cert.KernelIdeal Cert.KernelIdeal.Gen
open Idealize.ShloMosaic Idealize.ShloMosaic.TcCoe Idealize.ShloMosaic.StableHlo Idealize.ShloMosaic.ValueIdx

/-! ## Batch-norm group 3: the host stretches `hostOps8`, `hostOps8_1`, `hostOps8_2` before region 8, and the reshape after it -/

section Group3
variable (V : Valuation τ sig (Elt Ideal))

/-- The mean stretch: the keepdims column mean of `main_v137`. -/
theorem b3_mean (j : Fin 64) :
    (StableHlo.after (hostOps8 (F := Ideal)) V (Proc.devRef .tc main_v141) : FVec Ideal KValue.S1x64 .f32) (ix2 (0 : Fin 1) j)
      = Spec.mean (V (Proc.devRef .tc main_v137) : FVec Ideal Spec.SN64 .f32) (ix1 j) := by
  after_results
  exact mean_row_apply _ _ _ _ _ 0 j

/-- It leaves the integer zero in `main_c_18`. -/
theorem b3_c : StableHlo.after (hostOps8 (F := Ideal)) V (Proc.devRef .tc main_c_18) = (constantI S_ 32 0#32 : IVec S_ 32) := by
  after_results
  all_goals rfl

set_option maxHeartbeats 2000000 in
set_option maxRecDepth 200000 in
/-- The variance stretch (the outlined variance function on `main_v137`, its integer argument the zero in `main_c_18`). -/
theorem b3_var (hc : V (Proc.devRef .tc main_c_18) = (constantI S_ 32 0#32 : IVec S_ 32)) (j : Fin 64) :
    (StableHlo.after (hostOps8_1 (F := Ideal)) V (Proc.devRef .tc main_v142) : FVec Ideal KValue.S1x64 .f32) (ix2 (0 : Fin 1) j)
      = Spec.var (V (Proc.devRef .tc main_v137) : FVec Ideal Spec.SN64 .f32) (ix1 j) := by
  after_results
  have hdd : subf (constant (F := Ideal) S_ .f32 0x47C35000#32) (sitofp .f32 (V (Proc.devRef .tc main_c_18) : IVec S_ 32)) = Spec.ddA := by
    rw [hc]; rfl
  have hgd : cmpf .ogt (subf (constant (F := Ideal) S_ .f32 0x47C35000#32) (sitofp .f32 (V (Proc.devRef .tc main_c_18) : IVec S_ 32)))
      (constant (F := Ideal) S_ .f32 0x00000000#32) = Spec.guardA := by
    rw [hc]; rfl
  have hM : ∀ j : Fin 64, (Host.divf (broadcastInDim KValue.S1x64 ![1] bcast_S64_S1x64_1
        (Host.reduceAdd (V (Proc.devRef .tc main_v137) : FVec Ideal Spec.SN64 .f32) (constant (F := Ideal) S_ .f32 0x00000000#32)
          reducesTo_S100000x64_S64_d0 h_S_))
      (broadcastInDim KValue.S1x64 ![] bcast_S_S1x64 (constant (F := Ideal) S_ .f32 0x47C35000#32)) : FVec Ideal KValue.S1x64 .f32)
        (ix2 (0 : Fin 1) j) = Spec.mean (V (Proc.devRef .tc main_v137) : FVec Ideal Spec.SN64 .f32) (ix1 j) :=
    fun j => mean_row_apply (V (Proc.devRef .tc main_v137) : FVec Ideal Spec.SN64 .f32) reducesTo_S100000x64_S64_d0 h_S_ bcast_S64_S1x64_1 bcast_S_S1x64 0 j
  exact var_row_apply' (V (Proc.devRef .tc main_v137) : FVec Ideal Spec.SN64 .f32) _ hM
    _ _ hdd hgd reducesTo_S100000x64_S64_d0 h_S_ bcast_S64_S1x64_1 bcast_S_S1x64 bcast_S1x64_S100000x64_0_1 0 j

/-- The doubling stretch: the [50000,128] view of `main_v137`, -/
theorem b3_view :
    (StableHlo.after (hostOps8_2 (F := Ideal)) V (Proc.devRef .tc main_v147) : FVec Ideal Spec.SM128 .f32)
      = shapeCast Spec.SM128 (V (Proc.devRef .tc main_v137) : FVec Ideal Spec.SN64 .f32) shapeCasts_S100000x64_S50000x128 := by
  after_results
  all_goals rfl

/-- the doubled mean row, -/
theorem b3_dmu (l : Fin 128) :
    (StableHlo.after (hostOps8_2 (F := Ideal)) V (Proc.devRef .tc main_v151) : FVec Ideal Spec.S1x128 .f32) (ix2 (0 : Fin 1) l)
      = (V (Proc.devRef .tc main_v141) : FVec Ideal KValue.S1x64 .f32) (ix2 (0 : Fin 1) (⟨l.val % 64, Nat.mod_lt _ (by decide)⟩ : Fin 64)) := by
  after_results
  exact double_row_apply _ _ _ _ 0 l

/-- the doubled variance row, -/
theorem b3_dvar (l : Fin 128) :
    (StableHlo.after (hostOps8_2 (F := Ideal)) V (Proc.devRef .tc main_v155) : FVec Ideal Spec.S1x128 .f32) (ix2 (0 : Fin 1) l)
      = (V (Proc.devRef .tc main_v142) : FVec Ideal KValue.S1x64 .f32) (ix2 (0 : Fin 1) (⟨l.val % 64, Nat.mod_lt _ (by decide)⟩ : Fin 64)) := by
  after_results
  exact double_row_apply _ _ _ _ 0 l

/-- the doubled scale -/
theorem b3_dg (l : Fin 128) :
    (StableHlo.after (hostOps8_2 (F := Ideal)) V (Proc.devRef .tc main_v157) : FVec Ideal Spec.S1x128 .f32) (ix2 (0 : Fin 1) l)
      = Spec.row3 (V (Proc.devRef .tc main_arg16) : FVec Ideal Spec.S3x64 .f32) (1 : Fin 3) (ix1 (⟨l.val % 64, Nat.mod_lt _ (by decide)⟩ : Fin 64)) := by
  after_results
  exact (double_vec_apply _ _ _ 0 l).trans (congrFun (row3_slice (V (Proc.devRef .tc main_arg16) : FVec Ideal Spec.S3x64 .f32) (1 : Fin 3) slices_S3x64_S1x64_1_0 shapeCasts_S1x64_S64) _)

/-- and the doubled shift. -/
theorem b3_db (l : Fin 128) :
    (StableHlo.after (hostOps8_2 (F := Ideal)) V (Proc.devRef .tc main_v159) : FVec Ideal Spec.S1x128 .f32) (ix2 (0 : Fin 1) l)
      = Spec.row3 (V (Proc.devRef .tc main_arg17) : FVec Ideal Spec.S3x64 .f32) (1 : Fin 3) (ix1 (⟨l.val % 64, Nat.mod_lt _ (by decide)⟩ : Fin 64)) := by
  after_results
  exact (double_vec_apply _ _ _ 0 l).trans (congrFun (row3_slice (V (Proc.devRef .tc main_arg17) : FVec Ideal Spec.S3x64 .f32) (1 : Fin 3) slices_S3x64_S1x64_1_0 shapeCasts_S1x64_S64) _)

/-! ### What the three stretches leave unchanged -/

theorem keepA3 (r : Ref sig .tc) (h : r ∉ hostOps8_W) :
    StableHlo.after (hostOps8 (F := Ideal)) V (Proc.devRef .tc r) = V (Proc.devRef .tc r) :=
  StableHlo.after_of_writes_sub hostOps8 V hostOps8_writes h
theorem keepB3 (r : Ref sig .tc) (h : r ∉ hostOps8_1_W) :
    StableHlo.after (hostOps8_1 (F := Ideal)) V (Proc.devRef .tc r) = V (Proc.devRef .tc r) :=
  StableHlo.after_of_writes_sub hostOps8_1 V hostOps8_1_writes h
theorem keepC3 (r : Ref sig .tc) (h : r ∉ hostOps8_2_W) :
    StableHlo.after (hostOps8_2 (F := Ideal)) V (Proc.devRef .tc r) = V (Proc.devRef .tc r) :=
  StableHlo.after_of_writes_sub hostOps8_2 V hostOps8_2_writes h

/-! ### Region 8's operand arrays, from the contents at the group's entry -/

/-- The contents at region 8's entry. -/
abbrev Vin3 : Valuation τ sig (Elt Ideal) :=
  StableHlo.after (hostOps8_2 (F := Ideal)) (StableHlo.after (hostOps8_1 (F := Ideal)) (StableHlo.after (hostOps8 (F := Ideal)) V))

theorem g3_view :
    (Vin3 V (Proc.devRef .tc main_v147) : FVec Ideal Spec.SM128 .f32)
      = shapeCast Spec.SM128 (V (Proc.devRef .tc main_v137) : FVec Ideal Spec.SN64 .f32) shapeCasts_S100000x64_S50000x128 := by
  unfold Vin3
  rw [b3_view, keepB3 _ main_v137 (by decide), keepA3 V main_v137 (by decide)]

theorem g3_dmu (l : Fin 128) :
    (Vin3 V (Proc.devRef .tc main_v151) : FVec Ideal Spec.S1x128 .f32) (ix2 (0 : Fin 1) l)
      = Spec.mean (V (Proc.devRef .tc main_v137) : FVec Ideal Spec.SN64 .f32) (ix1 (⟨l.val % 64, Nat.mod_lt _ (by decide)⟩ : Fin 64)) := by
  unfold Vin3
  rw [b3_dmu, keepB3 _ main_v141 (by decide), b3_mean]

theorem g3_dvar (l : Fin 128) :
    (Vin3 V (Proc.devRef .tc main_v155) : FVec Ideal Spec.S1x128 .f32) (ix2 (0 : Fin 1) l)
      = Spec.var (V (Proc.devRef .tc main_v137) : FVec Ideal Spec.SN64 .f32) (ix1 (⟨l.val % 64, Nat.mod_lt _ (by decide)⟩ : Fin 64)) := by
  unfold Vin3
  rw [b3_dvar, b3_var _ (b3_c V), keepA3 V main_v137 (by decide)]

theorem g3_dg (l : Fin 128) :
    (Vin3 V (Proc.devRef .tc main_v157) : FVec Ideal Spec.S1x128 .f32) (ix2 (0 : Fin 1) l)
      = Spec.row3 (V (Proc.devRef .tc main_arg16) : FVec Ideal Spec.S3x64 .f32) (1 : Fin 3) (ix1 (⟨l.val % 64, Nat.mod_lt _ (by decide)⟩ : Fin 64)) := by
  unfold Vin3
  rw [b3_dg, keepB3 _ main_arg16 (by decide), keepA3 V main_arg16 (by decide)]

theorem g3_db (l : Fin 128) :
    (Vin3 V (Proc.devRef .tc main_v159) : FVec Ideal Spec.S1x128 .f32) (ix2 (0 : Fin 1) l)
      = Spec.row3 (V (Proc.devRef .tc main_arg17) : FVec Ideal Spec.S3x64 .f32) (1 : Fin 3) (ix1 (⟨l.val % 64, Nat.mod_lt _ (by decide)⟩ : Fin 64)) := by
  unfold Vin3
  rw [b3_db, keepB3 _ main_arg17 (by decide), keepA3 V main_arg17 (by decide)]

/-- A buffer none of the three stretches writes is, at region 8's entry, as at the group's entry. -/
theorem g3_keep (r : Ref sig .tc) (hA : r ∉ hostOps8_W) (hB : r ∉ hostOps8_1_W) (hC : r ∉ hostOps8_2_W) :
    Vin3 V (Proc.devRef .tc r) = V (Proc.devRef .tc r) := by
  unfold Vin3
  rw [keepC3 _ r hC, keepB3 _ r hB, keepA3 V r hA]

/-! ### The group: from the pre-activation at its entry to the activation after it -/

/-- If region 8 leaves in its result array the batch-norm map of its five operand arrays (`hX`), then after the
    reshape that follows, `main_v161` holds the network's relu of the batch normalisation of what `main_v137` held at the
    group's entry, with the layer's scale and shift. -/
theorem group3 (X : FVec Ideal Spec.SM128 .f32)
    (hX : X = Spec.bnR2 (Vin3 V (Proc.devRef .tc main_v147)) (Vin3 V (Proc.devRef .tc main_v151)) (Vin3 V (Proc.devRef .tc main_v155))
      (Vin3 V (Proc.devRef .tc main_v157)) (Vin3 V (Proc.devRef .tc main_v159))) :
    (StableHlo.after (hostOps9 (F := Ideal)) (Function.update (Vin3 V) (Proc.devRef .tc main_v160) X) (Proc.devRef .tc main_v161)
        : FVec Ideal Spec.SN64 .f32)
      = Spec.relu (Spec.bn (V (Proc.devRef .tc main_v137)) (Spec.row3 (V (Proc.devRef .tc main_arg16) : FVec Ideal Spec.S3x64 .f32) (1 : Fin 3)) (Spec.row3 (V (Proc.devRef .tc main_arg17) : FVec Ideal Spec.S3x64 .f32) (1 : Fin 3))) := by
  after_results
  rw [Function.update_self, hX, g3_view]
  exact bnR2_view _ _ _ _ _ _ _ _ _ (g3_dmu V) (g3_dvar V) (g3_dg V) (g3_db V)

end Group3

end Cert.KernelIdeal.KValue

end
-- ==== Proof.KIChainBn4.lean ====
/- Batch-norm group 4 of the idealized kernel's host program, over any contents `V` of the buffers at the group's
   entry: what the three host stretches before region 10 leave in the region's five operand arrays (the [50000,128]
   view of the pre-activation, the doubled column mean and variance, the doubled scale and shift), and, given that the
   region's result array is the batch-norm map of those operands, what the reshape after it holds: the network's
   batch normalisation of the pre-activation followed by relu. -/
import proofs.«146189_j40922448396571_2_alg».proof.Proof.KIRegions
import proofs.«146189_j40922448396571_2_alg».proof.Proof.KIGlueLayout
import proofs.«146189_j40922448396571_2_alg».proof.Proof.KIGlueStat
import Idealize.ShloMosaic.Lib.StableHlo.Run

noncomputable section

open scoped BigOperators

namespace Cert.KernelIdeal.KValue

open Cert.KernelIdeal Cert.KernelIdeal.Gen
open Idealize.ShloMosaic Idealize.ShloMosaic.TcCoe Idealize.ShloMosaic.StableHlo Idealize.ShloMosaic.ValueIdx

/-! ## Batch-norm group 4: the host stretches `hostOps10`, `hostOps10_1`, `hostOps10_2` before region 10, and the reshape after it -/

section Group4
variable (V : Valuation τ sig (Elt Ideal))

/-- The mean stretch: the keepdims column mean of `main_v167`. -/
theorem b4_mean (j : Fin 64) :
    (StableHlo.after (hostOps10 (F := Ideal)) V (Proc.devRef .tc main_v171) : FVec Ideal KValue.S1x64 .f32) (ix2 (0 : Fin 1) j)
      = Spec.mean (V (Proc.devRef .tc main_v167) : FVec Ideal Spec.SN64 .f32) (ix1 j) := by
  after_results
  exact mean_row_apply _ _ _ _ _ 0 j

/-- It leaves the integer zero in `main_c_21`. -/
theorem b4_c : StableHlo.after (hostOps10 (F := Ideal)) V (Proc.devRef .tc main_c_21) = (constantI S_ 32 0#32 : IVec S_ 32) := by
  after_results
  all_goals rfl

set_option maxHeartbeats 2000000 in
set_option maxRecDepth 200000 in
/-- The variance stretch (the outlined variance function on `main_v167`, its integer argument the zero in `main_c_21`). -/
theorem b4_var (hc : V (Proc.devRef .tc main_c_21) = (constantI S_ 32 0#32 : IVec S_ 32)) (j : Fin 64) :
    (StableHlo.after (hostOps10_1 (F := Ideal)) V (Proc.devRef .tc main_v172) : FVec Ideal KValue.S1x64 .f32) (ix2 (0 : Fin 1) j)
      = Spec.var (V (Proc.devRef .tc main_v167) : FVec Ideal Spec.SN64 .f32) (ix1 j) := by
  after_results
  have hdd : subf (constant (F := Ideal) S_ .f32 0x47C35000#32) (sitofp .f32 (V (Proc.devRef .tc main_c_21) : IVec S_ 32)) = Spec.ddA := by
    rw [hc]; rfl
  have hgd : cmpf .ogt (subf (constant (F := Ideal) S_ .f32 0x47C35000#32) (sitofp .f32 (V (Proc.devRef .tc main_c_21) : IVec S_ 32)))
      (constant (F := Ideal) S_ .f32 0x00000000#32) = Spec.guardA := by
    rw [hc]; rfl
  have hM : ∀ j : Fin 64, (Host.divf (broadcastInDim KValue.S1x64 ![1] bcast_S64_S1x64_1
        (Host.reduceAdd (V (Proc.devRef .tc main_v167) : FVec Ideal Spec.SN64 .f32) (constant (F := Ideal) S_ .f32 0x00000000#32)
          reducesTo_S100000x64_S64_d0 h_S_))
      (broadcastInDim KValue.S1x64 ![] bcast_S_S1x64 (constant (F := Ideal) S_ .f32 0x47C35000#32)) : FVec Ideal KValue.S1x64 .f32)
        (ix2 (0 : Fin 1) j) = Spec.mean (V (Proc.devRef .tc main_v167) : FVec Ideal Spec.SN64 .f32) (ix1 j) :=
    fun j => mean_row_apply (V (Proc.devRef .tc main_v167) : FVec Ideal Spec.SN64 .f32) reducesTo_S100000x64_S64_d0 h_S_ bcast_S64_S1x64_1 bcast_S_S1x64 0 j
  exact var_row_apply' (V (Proc.devRef .tc main_v167) : FVec Ideal Spec.SN64 .f32) _ hM
    _ _ hdd hgd reducesTo_S100000x64_S64_d0 h_S_ bcast_S64_S1x64_1 bcast_S_S1x64 bcast_S1x64_S100000x64_0_1 0 j

/-- The doubling stretch: the [50000,128] view of `main_v167`, -/
theorem b4_view :
    (StableHlo.after (hostOps10_2 (F := Ideal)) V (Proc.devRef .tc main_v177) : FVec Ideal Spec.SM128 .f32)
      = shapeCast Spec.SM128 (V (Proc.devRef .tc main_v167) : FVec Ideal Spec.SN64 .f32) shapeCasts_S100000x64_S50000x128 := by
  after_results
  all_goals rfl

/-- the doubled mean row, -/
theorem b4_dmu (l : Fin 128) :
    (StableHlo.after (hostOps10_2 (F := Ideal)) V (Proc.devRef .tc main_v181) : FVec Ideal Spec.S1x128 .f32) (ix2 (0 : Fin 1) l)
      = (V (Proc.devRef .tc main_v171) : FVec Ideal KValue.S1x64 .f32) (ix2 (0 : Fin 1) (⟨l.val % 64, Nat.mod_lt _ (by decide)⟩ : Fin 64)) := by
  after_results
  exact double_row_apply _ _ _ _ 0 l

/-- the doubled variance row, -/
theorem b4_dvar (l : Fin 128) :
    (StableHlo.after (hostOps10_2 (F := Ideal)) V (Proc.devRef .tc main_v185) : FVec Ideal Spec.S1x128 .f32) (ix2 (0 : Fin 1) l)
      = (V (Proc.devRef .tc main_v172) : FVec Ideal KValue.S1x64 .f32) (ix2 (0 : Fin 1) (⟨l.val % 64, Nat.mod_lt _ (by decide)⟩ : Fin 64)) := by
  after_results
  exact double_row_apply _ _ _ _ 0 l

/-- the doubled scale -/
theorem b4_dg (l : Fin 128) :
    (StableHlo.after (hostOps10_2 (F := Ideal)) V (Proc.devRef .tc main_v187) : FVec Ideal Spec.S1x128 .f32) (ix2 (0 : Fin 1) l)
      = Spec.row3 (V (Proc.devRef .tc main_arg18) : FVec Ideal Spec.S3x64 .f32) (1 : Fin 3) (ix1 (⟨l.val % 64, Nat.mod_lt _ (by decide)⟩ : Fin 64)) := by
  after_results
  exact (double_vec_apply _ _ _ 0 l).trans (congrFun (row3_slice (V (Proc.devRef .tc main_arg18) : FVec Ideal Spec.S3x64 .f32) (1 : Fin 3) slices_S3x64_S1x64_1_0 shapeCasts_S1x64_S64) _)

/-- and the doubled shift. -/
theorem b4_db (l : Fin 128) :
    (StableHlo.after (hostOps10_2 (F := Ideal)) V (Proc.devRef .tc main_v189) : FVec Ideal Spec.S1x128 .f32) (ix2 (0 : Fin 1) l)
      = Spec.row3 (V (Proc.devRef .tc main_arg19) : FVec Ideal Spec.S3x64 .f32) (1 : Fin 3) (ix1 (⟨l.val % 64, Nat.mod_lt _ (by decide)⟩ : Fin 64)) := by
  after_results
  exact (double_vec_apply _ _ _ 0 l).trans (congrFun (row3_slice (V (Proc.devRef .tc main_arg19) : FVec Ideal Spec.S3x64 .f32) (1 : Fin 3) slices_S3x64_S1x64_1_0 shapeCasts_S1x64_S64) _)

/-! ### What the three stretches leave unchanged -/

theorem keepA4 (r : Ref sig .tc) (h : r ∉ hostOps10_W) :
    StableHlo.after (hostOps10 (F := Ideal)) V (Proc.devRef .tc r) = V (Proc.devRef .tc r) :=
  StableHlo.after_of_writes_sub hostOps10 V hostOps10_writes h
theorem keepB4 (r : Ref sig .tc) (h : r ∉ hostOps10_1_W) :
    StableHlo.after (hostOps10_1 (F := Ideal)) V (Proc.devRef .tc r) = V (Proc.devRef .tc r) :=
  StableHlo.after_of_writes_sub hostOps10_1 V hostOps10_1_writes h
theorem keepC4 (r : Ref sig .tc) (h : r ∉ hostOps10_2_W) :
    StableHlo.after (hostOps10_2 (F := Ideal)) V (Proc.devRef .tc r) = V (Proc.devRef .tc r) :=
  StableHlo.after_of_writes_sub hostOps10_2 V hostOps10_2_writes h

/-! ### Region 10's operand arrays, from the contents at the group's entry -/

/-- The contents at region 10's entry. -/
abbrev Vin4 : Valuation τ sig (Elt Ideal) :=
  StableHlo.after (hostOps10_2 (F := Ideal)) (StableHlo.after (hostOps10_1 (F := Ideal)) (StableHlo.after (hostOps10 (F := Ideal)) V))

theorem g4_view :
    (Vin4 V (Proc.devRef .tc main_v177) : FVec Ideal Spec.SM128 .f32)
      = shapeCast Spec.SM128 (V (Proc.devRef .tc main_v167) : FVec Ideal Spec.SN64 .f32) shapeCasts_S100000x64_S50000x128 := by
  unfold Vin4
  rw [b4_view, keepB4 _ main_v167 (by decide), keepA4 V main_v167 (by decide)]

theorem g4_dmu (l : Fin 128) :
    (Vin4 V (Proc.devRef .tc main_v181) : FVec Ideal Spec.S1x128 .f32) (ix2 (0 : Fin 1) l)
      = Spec.mean (V (Proc.devRef .tc main_v167) : FVec Ideal Spec.SN64 .f32) (ix1 (⟨l.val % 64, Nat.mod_lt _ (by decide)⟩ : Fin 64)) := by
  unfold Vin4
  rw [b4_dmu, keepB4 _ main_v171 (by decide), b4_mean]

theorem g4_dvar (l : Fin 128) :
    (Vin4 V (Proc.devRef .tc main_v185) : FVec Ideal Spec.S1x128 .f32) (ix2 (0 : Fin 1) l)
      = Spec.var (V (Proc.devRef .tc main_v167) : FVec Ideal Spec.SN64 .f32) (ix1 (⟨l.val % 64, Nat.mod_lt _ (by decide)⟩ : Fin 64)) := by
  unfold Vin4
  rw [b4_dvar, b4_var _ (b4_c V), keepA4 V main_v167 (by decide)]

theorem g4_dg (l : Fin 128) :
    (Vin4 V (Proc.devRef .tc main_v187) : FVec Ideal Spec.S1x128 .f32) (ix2 (0 : Fin 1) l)
      = Spec.row3 (V (Proc.devRef .tc main_arg18) : FVec Ideal Spec.S3x64 .f32) (1 : Fin 3) (ix1 (⟨l.val % 64, Nat.mod_lt _ (by decide)⟩ : Fin 64)) := by
  unfold Vin4
  rw [b4_dg, keepB4 _ main_arg18 (by decide), keepA4 V main_arg18 (by decide)]

theorem g4_db (l : Fin 128) :
    (Vin4 V (Proc.devRef .tc main_v189) : FVec Ideal Spec.S1x128 .f32) (ix2 (0 : Fin 1) l)
      = Spec.row3 (V (Proc.devRef .tc main_arg19) : FVec Ideal Spec.S3x64 .f32) (1 : Fin 3) (ix1 (⟨l.val % 64, Nat.mod_lt _ (by decide)⟩ : Fin 64)) := by
  unfold Vin4
  rw [b4_db, keepB4 _ main_arg19 (by decide), keepA4 V main_arg19 (by decide)]

/-- A buffer none of the three stretches writes is, at region 10's entry, as at the group's entry. -/
theorem g4_keep (r : Ref sig .tc) (hA : r ∉ hostOps10_W) (hB : r ∉ hostOps10_1_W) (hC : r ∉ hostOps10_2_W) :
    Vin4 V (Proc.devRef .tc r) = V (Proc.devRef .tc r) := by
  unfold Vin4
  rw [keepC4 _ r hC, keepB4 _ r hB, keepA4 V r hA]

/-! ### The group: from the pre-activation at its entry to the activation after it -/

/-- If region 10 leaves in its result array the batch-norm map of its five operand arrays (`hX`), then after the
    reshape that follows, `main_v191` holds the network's relu of the batch normalisation of what `main_v167` held at the
    group's entry, with the layer's scale and shift. -/
theorem group4 (X : FVec Ideal Spec.SM128 .f32)
    (hX : X = Spec.bnR2 (Vin4 V (Proc.devRef .tc main_v177)) (Vin4 V (Proc.devRef .tc main_v181)) (Vin4 V (Proc.devRef .tc main_v185))
      (Vin4 V (Proc.devRef .tc main_v187)) (Vin4 V (Proc.devRef .tc main_v189))) :
    (StableHlo.after (hostOps11 (F := Ideal)) (Function.update (Vin4 V) (Proc.devRef .tc main_v190) X) (Proc.devRef .tc main_v191)
        : FVec Ideal Spec.SN64 .f32)
      = Spec.relu (Spec.bn (V (Proc.devRef .tc main_v167)) (Spec.row3 (V (Proc.devRef .tc main_arg18) : FVec Ideal Spec.S3x64 .f32) (1 : Fin 3)) (Spec.row3 (V (Proc.devRef .tc main_arg19) : FVec Ideal Spec.S3x64 .f32) (1 : Fin 3))) := by
  after_results
  rw [Function.update_self, hX, g4_view]
  exact bnR2_view _ _ _ _ _ _ _ _ _ (g4_dmu V) (g4_dvar V) (g4_dg V) (g4_db V)

end Group4

end Cert.KernelIdeal.KValue

end
-- ==== Proof.KIChainBn5.lean ====
/- Batch-norm group 5 of the idealized kernel's host program, over any contents `V` of the buffers at the group's
   entry: what the three host stretches before region 12 leave in the region's five operand arrays (the [50000,128]
   view of the pre-activation, the doubled column mean and variance, the doubled scale and shift), and, given that the
   region's result array is the batch-norm map of those operands, what the reshape after it holds: the network's
   batch normalisation of the pre-activation followed by relu. -/
import proofs.«146189_j40922448396571_2_alg».proof.Proof.KIRegions
import proofs.«146189_j40922448396571_2_alg».proof.Proof.KIGlueLayout
import proofs.«146189_j40922448396571_2_alg».proof.Proof.KIGlueStat
import Idealize.ShloMosaic.Lib.StableHlo.Run

noncomputable section

open scoped BigOperators

namespace Cert.KernelIdeal.KValue

open Cert.KernelIdeal Cert.KernelIdeal.Gen
open Idealize.ShloMosaic Idealize.ShloMosaic.TcCoe Idealize.ShloMosaic.StableHlo Idealize.ShloMosaic.ValueIdx

/-! ## Batch-norm group 5: the host stretches `hostOps12`, `hostOps12_1`, `hostOps12_2` before region 12, and the reshape after it -/

section Group5
variable (V : Valuation τ sig (Elt Ideal))

/-- The mean stretch: the keepdims column mean of `main_v208`. -/
theorem b5_mean (j : Fin 64) :
    (StableHlo.after (hostOps12 (F := Ideal)) V (Proc.devRef .tc main_v212) : FVec Ideal KValue.S1x64 .f32) (ix2 (0 : Fin 1) j)
      = Spec.mean (V (Proc.devRef .tc main_v208) : FVec Ideal Spec.SN64 .f32) (ix1 j) := by
  after_results
  exact mean_row_apply _ _ _ _ _ 0 j

/-- It leaves the integer zero in `main_c_27`. -/
theorem b5_c : StableHlo.after (hostOps12 (F := Ideal)) V (Proc.devRef .tc main_c_27) = (constantI S_ 32 0#32 : IVec S_ 32) := by
  after_results
  all_goals rfl

set_option maxHeartbeats 2000000 in
set_option maxRecDepth 200000 in
/-- The variance stretch (the outlined variance function on `main_v208`, its integer argument the zero in `main_c_27`). -/
theorem b5_var (hc : V (Proc.devRef .tc main_c_27) = (constantI S_ 32 0#32 : IVec S_ 32)) (j : Fin 64) :
    (StableHlo.after (hostOps12_1 (F := Ideal)) V (Proc.devRef .tc main_v213) : FVec Ideal KValue.S1x64 .f32) (ix2 (0 : Fin 1) j)
      = Spec.var (V (Proc.devRef .tc main_v208) : FVec Ideal Spec.SN64 .f32) (ix1 j) := by
  after_results
  have hdd : subf (constant (F := Ideal) S_ .f32 0x47C35000#32) (sitofp .f32 (V (Proc.devRef .tc main_c_27) : IVec S_ 32)) = Spec.ddA := by
    rw [hc]; rfl
  have hgd : cmpf .ogt (subf (constant (F := Ideal) S_ .f32 0x47C35000#32) (sitofp .f32 (V (Proc.devRef .tc main_c_27) : IVec S_ 32)))
      (constant (F := Ideal) S_ .f32 0x00000000#32) = Spec.guardA := by
    rw [hc]; rfl
  have hM : ∀ j : Fin 64, (Host.divf (broadcastInDim KValue.S1x64 ![1] bcast_S64_S1x64_1
        (Host.reduceAdd (V (Proc.devRef .tc main_v208) : FVec Ideal Spec.SN64 .f32) (constant (F := Ideal) S_ .f32 0x00000000#32)
          reducesTo_S100000x64_S64_d0 h_S_))
      (broadcastInDim KValue.S1x64 ![] bcast_S_S1x64 (constant (F := Ideal) S_ .f32 0x47C35000#32)) : FVec Ideal KValue.S1x64 .f32)
        (ix2 (0 : Fin 1) j) = Spec.mean (V (Proc.devRef .tc main_v208) : FVec Ideal Spec.SN64 .f32) (ix1 j) :=
    fun j => mean_row_apply (V (Proc.devRef .tc main_v208) : FVec Ideal Spec.SN64 .f32) reducesTo_S100000x64_S64_d0 h_S_ bcast_S64_S1x64_1 bcast_S_S1x64 0 j
  exact var_row_apply' (V (Proc.devRef .tc main_v208) : FVec Ideal Spec.SN64 .f32) _ hM
    _ _ hdd hgd reducesTo_S100000x64_S64_d0 h_S_ bcast_S64_S1x64_1 bcast_S_S1x64 bcast_S1x64_S100000x64_0_1 0 j

/-- The doubling stretch: the [50000,128] view of `main_v208`, -/
theorem b5_view :
    (StableHlo.after (hostOps12_2 (F := Ideal)) V (Proc.devRef .tc main_v218) : FVec Ideal Spec.SM128 .f32)
      = shapeCast Spec.SM128 (V (Proc.devRef .tc main_v208) : FVec Ideal Spec.SN64 .f32) shapeCasts_S100000x64_S50000x128 := by
  after_results
  all_goals rfl

/-- the doubled mean row, -/
theorem b5_dmu (l : Fin 128) :
    (StableHlo.after (hostOps12_2 (F := Ideal)) V (Proc.devRef .tc main_v222) : FVec Ideal Spec.S1x128 .f32) (ix2 (0 : Fin 1) l)
      = (V (Proc.devRef .tc main_v212) : FVec Ideal KValue.S1x64 .f32) (ix2 (0 : Fin 1) (⟨l.val % 64, Nat.mod_lt _ (by decide)⟩ : Fin 64)) := by
  after_results
  exact double_row_apply _ _ _ _ 0 l

/-- the doubled variance row, -/
theorem b5_dvar (l : Fin 128) :
    (StableHlo.after (hostOps12_2 (F := Ideal)) V (Proc.devRef .tc main_v226) : FVec Ideal Spec.S1x128 .f32) (ix2 (0 : Fin 1) l)
      = (V (Proc.devRef .tc main_v213) : FVec Ideal KValue.S1x64 .f32) (ix2 (0 : Fin 1) (⟨l.val % 64, Nat.mod_lt _ (by decide)⟩ : Fin 64)) := by
  after_results
  exact double_row_apply _ _ _ _ 0 l

/-- the doubled scale -/
theorem b5_dg (l : Fin 128) :
    (StableHlo.after (hostOps12_2 (F := Ideal)) V (Proc.devRef .tc main_v228) : FVec Ideal Spec.S1x128 .f32) (ix2 (0 : Fin 1) l)
      = Spec.row3 (V (Proc.devRef .tc main_arg16) : FVec Ideal Spec.S3x64 .f32) (2 : Fin 3) (ix1 (⟨l.val % 64, Nat.mod_lt _ (by decide)⟩ : Fin 64)) := by
  after_results
  exact (double_vec_apply _ _ _ 0 l).trans (congrFun (row3_slice (V (Proc.devRef .tc main_arg16) : FVec Ideal Spec.S3x64 .f32) (2 : Fin 3) slices_S3x64_S1x64_2_0 shapeCasts_S1x64_S64) _)

/-- and the doubled shift. -/
theorem b5_db (l : Fin 128) :
    (StableHlo.after (hostOps12_2 (F := Ideal)) V (Proc.devRef .tc main_v230) : FVec Ideal Spec.S1x128 .f32) (ix2 (0 : Fin 1) l)
      = Spec.row3 (V (Proc.devRef .tc main_arg17) : FVec Ideal Spec.S3x64 .f32) (2 : Fin 3) (ix1 (⟨l.val % 64, Nat.mod_lt _ (by decide)⟩ : Fin 64)) := by
  after_results
  exact (double_vec_apply _ _ _ 0 l).trans (congrFun (row3_slice (V (Proc.devRef .tc main_arg17) : FVec Ideal Spec.S3x64 .f32) (2 : Fin 3) slices_S3x64_S1x64_2_0 shapeCasts_S1x64_S64) _)

/-! ### What the three stretches leave unchanged -/

theorem keepA5 (r : Ref sig .tc) (h : r ∉ hostOps12_W) :
    StableHlo.after (hostOps12 (F := Ideal)) V (Proc.devRef .tc r) = V (Proc.devRef .tc r) :=
  StableHlo.after_of_writes_sub hostOps12 V hostOps12_writes h
theorem keepB5 (r : Ref sig .tc) (h : r ∉ hostOps12_1_W) :
    StableHlo.after (hostOps12_1 (F := Ideal)) V (Proc.devRef .tc r) = V (Proc.devRef .tc r) :=
  StableHlo.after_of_writes_sub hostOps12_1 V hostOps12_1_writes h
theorem keepC5 (r : Ref sig .tc) (h : r ∉ hostOps12_2_W) :
    StableHlo.after (hostOps12_2 (F := Ideal)) V (Proc.devRef .tc r) = V (Proc.devRef .tc r) :=
  StableHlo.after_of_writes_sub hostOps12_2 V hostOps12_2_writes h

/-! ### Region 12's operand arrays, from the contents at the group's entry -/

/-- The contents at region 12's entry. -/
abbrev Vin5 : Valuation τ sig (Elt Ideal) :=
  StableHlo.after (hostOps12_2 (F := Ideal)) (StableHlo.after (hostOps12_1 (F := Ideal)) (StableHlo.after (hostOps12 (F := Ideal)) V))

theorem g5_view :
    (Vin5 V (Proc.devRef .tc main_v218) : FVec Ideal Spec.SM128 .f32)
      = shapeCast Spec.SM128 (V (Proc.devRef .tc main_v208) : FVec Ideal Spec.SN64 .f32) shapeCasts_S100000x64_S50000x128 := by
  unfold Vin5
  rw [b5_view, keepB5 _ main_v208 (by decide), keepA5 V main_v208 (by decide)]

theorem g5_dmu (l : Fin 128) :
    (Vin5 V (Proc.devRef .tc main_v222) : FVec Ideal Spec.S1x128 .f32) (ix2 (0 : Fin 1) l)
      = Spec.mean (V (Proc.devRef .tc main_v208) : FVec Ideal Spec.SN64 .f32) (ix1 (⟨l.val % 64, Nat.mod_lt _ (by decide)⟩ : Fin 64)) := by
  unfold Vin5
  rw [b5_dmu, keepB5 _ main_v212 (by decide), b5_mean]

theorem g5_dvar (l : Fin 128) :
    (Vin5 V (Proc.devRef .tc main_v226) : FVec Ideal Spec.S1x128 .f32) (ix2 (0 : Fin 1) l)
      = Spec.var (V (Proc.devRef .tc main_v208) : FVec Ideal Spec.SN64 .f32) (ix1 (⟨l.val % 64, Nat.mod_lt _ (by decide)⟩ : Fin 64)) := by
  unfold Vin5
  rw [b5_dvar, b5_var _ (b5_c V), keepA5 V main_v208 (by decide)]

theorem g5_dg (l : Fin 128) :
    (Vin5 V (Proc.devRef .tc main_v228) : FVec Ideal Spec.S1x128 .f32) (ix2 (0 : Fin 1) l)
      = Spec.row3 (V (Proc.devRef .tc main_arg16) : FVec Ideal Spec.S3x64 .f32) (2 : Fin 3) (ix1 (⟨l.val % 64, Nat.mod_lt _ (by decide)⟩ : Fin 64)) := by
  unfold Vin5
  rw [b5_dg, keepB5 _ main_arg16 (by decide), keepA5 V main_arg16 (by decide)]

theorem g5_db (l : Fin 128) :
    (Vin5 V (Proc.devRef .tc main_v230) : FVec Ideal Spec.S1x128 .f32) (ix2 (0 : Fin 1) l)
      = Spec.row3 (V (Proc.devRef .tc main_arg17) : FVec Ideal Spec.S3x64 .f32) (2 : Fin 3) (ix1 (⟨l.val % 64, Nat.mod_lt _ (by decide)⟩ : Fin 64)) := by
  unfold Vin5
  rw [b5_db, keepB5 _ main_arg17 (by decide), keepA5 V main_arg17 (by decide)]

/-- A buffer none of the three stretches writes is, at region 12's entry, as at the group's entry. -/
theorem g5_keep (r : Ref sig .tc) (hA : r ∉ hostOps12_W) (hB : r ∉ hostOps12_1_W) (hC : r ∉ hostOps12_2_W) :
    Vin5 V (Proc.devRef .tc r) = V (Proc.devRef .tc r) := by
  unfold Vin5
  rw [keepC5 _ r hC, keepB5 _ r hB, keepA5 V r hA]

/-! ### The group: from the pre-activation at its entry to the activation after it -/

/-- If region 12 leaves in its result array the batch-norm map of its five operand arrays (`hX`), then after the
    reshape that follows, `main_v232` holds the network's relu of the batch normalisation of what `main_v208` held at the
    group's entry, with the layer's scale and shift. -/
theorem group5 (X : FVec Ideal Spec.SM128 .f32)
    (hX : X = Spec.bnR2 (Vin5 V (Proc.devRef .tc main_v218)) (Vin5 V (Proc.devRef .tc main_v222)) (Vin5 V (Proc.devRef .tc main_v226))
      (Vin5 V (Proc.devRef .tc main_v228)) (Vin5 V (Proc.devRef .tc main_v230))) :
    (StableHlo.after (hostOps13 (F := Ideal)) (Function.update (Vin5 V) (Proc.devRef .tc main_v231) X) (Proc.devRef .tc main_v232)
        : FVec Ideal Spec.SN64 .f32)
      = Spec.relu (Spec.bn (V (Proc.devRef .tc main_v208)) (Spec.row3 (V (Proc.devRef .tc main_arg16) : FVec Ideal Spec.S3x64 .f32) (2 : Fin 3)) (Spec.row3 (V (Proc.devRef .tc main_arg17) : FVec Ideal Spec.S3x64 .f32) (2 : Fin 3))) := by
  after_results
  rw [Function.update_self, hX, g5_view]
  exact bnR2_view _ _ _ _ _ _ _ _ _ (g5_dmu V) (g5_dvar V) (g5_dg V) (g5_db V)

end Group5

end Cert.KernelIdeal.KValue

end
-- ==== Proof.KIChainBn6.lean ====
/- Batch-norm group 6 of the idealized kernel's host program, over any contents `V` of the buffers at the group's
   entry: what the three host stretches before region 14 leave in the region's five operand arrays (the [50000,128]
   view of the pre-activation, the doubled column mean and variance, the doubled scale and shift), and, given that the
   region's result array is the batch-norm map of those operands, what the reshape after it holds: the network's
   batch normalisation of the pre-activation followed by relu. -/
import proofs.«146189_j40922448396571_2_alg».proof.Proof.KIRegions
import proofs.«146189_j40922448396571_2_alg».proof.Proof.KIGlueLayout
import proofs.«146189_j40922448396571_2_alg».proof.Proof.KIGlueStat
import Idealize.ShloMosaic.Lib.StableHlo.Run

noncomputable section

open scoped BigOperators

namespace Cert.KernelIdeal.KValue

open Cert.KernelIdeal Cert.KernelIdeal.Gen
open Idealize.ShloMosaic Idealize.ShloMosaic.TcCoe Idealize.ShloMosaic.StableHlo Idealize.ShloMosaic.ValueIdx

/-! ## Batch-norm group 6: the host stretches `hostOps14`, `hostOps14_1`, `hostOps14_2` before region 14, and the reshape after it -/

section Group6
variable (V : Valuation τ sig (Elt Ideal))

/-- The mean stretch: the keepdims column mean of `main_v238`. -/
theorem b6_mean (j : Fin 64) :
    (StableHlo.after (hostOps14 (F := Ideal)) V (Proc.devRef .tc main_v242) : FVec Ideal KValue.S1x64 .f32) (ix2 (0 : Fin 1) j)
      = Spec.mean (V (Proc.devRef .tc main_v238) : FVec Ideal Spec.SN64 .f32) (ix1 j) := by
  after_results
  exact mean_row_apply _ _ _ _ _ 0 j

/-- It leaves the integer zero in `main_c_30`. -/
theorem b6_c : StableHlo.after (hostOps14 (F := Ideal)) V (Proc.devRef .tc main_c_30) = (constantI S_ 32 0#32 : IVec S_ 32) := by
  after_results
  all_goals rfl

set_option maxHeartbeats 2000000 in
set_option maxRecDepth 200000 in
/-- The variance stretch (the outlined variance function on `main_v238`, its integer argument the zero in `main_c_30`). -/
theorem b6_var (hc : V (Proc.devRef .tc main_c_30) = (constantI S_ 32 0#32 : IVec S_ 32)) (j : Fin 64) :
    (StableHlo.after (hostOps14_1 (F := Ideal)) V (Proc.devRef .tc main_v243) : FVec Ideal KValue.S1x64 .f32) (ix2 (0 : Fin 1) j)
      = Spec.var (V (Proc.devRef .tc main_v238) : FVec Ideal Spec.SN64 .f32) (ix1 j) := by
  after_results
  have hdd : subf (constant (F := Ideal) S_ .f32 0x47C35000#32) (sitofp .f32 (V (Proc.devRef .tc main_c_30) : IVec S_ 32)) = Spec.ddA := by
    rw [hc]; rfl
  have hgd : cmpf .ogt (subf (constant (F := Ideal) S_ .f32 0x47C35000#32) (sitofp .f32 (V (Proc.devRef .tc main_c_30) : IVec S_ 32)))
      (constant (F := Ideal) S_ .f32 0x00000000#32) = Spec.guardA := by
    rw [hc]; rfl
  have hM : ∀ j : Fin 64, (Host.divf (broadcastInDim KValue.S1x64 ![1] bcast_S64_S1x64_1
        (Host.reduceAdd (V (Proc.devRef .tc main_v238) : FVec Ideal Spec.SN64 .f32) (constant (F := Ideal) S_ .f32 0x00000000#32)
          reducesTo_S100000x64_S64_d0 h_S_))
      (broadcastInDim KValue.S1x64 ![] bcast_S_S1x64 (constant (F := Ideal) S_ .f32 0x47C35000#32)) : FVec Ideal KValue.S1x64 .f32)
        (ix2 (0 : Fin 1) j) = Spec.mean (V (Proc.devRef .tc main_v238) : FVec Ideal Spec.SN64 .f32) (ix1 j) :=
    fun j => mean_row_apply (V (Proc.devRef .tc main_v238) : FVec Ideal Spec.SN64 .f32) reducesTo_S100000x64_S64_d0 h_S_ bcast_S64_S1x64_1 bcast_S_S1x64 0 j
  exact var_row_apply' (V (Proc.devRef .tc main_v238) : FVec Ideal Spec.SN64 .f32) _ hM
    _ _ hdd hgd reducesTo_S100000x64_S64_d0 h_S_ bcast_S64_S1x64_1 bcast_S_S1x64 bcast_S1x64_S100000x64_0_1 0 j

/-- The doubling stretch: the [50000,128] view of `main_v238`, -/
theorem b6_view :
    (StableHlo.after (hostOps14_2 (F := Ideal)) V (Proc.devRef .tc main_v248) : FVec Ideal Spec.SM128 .f32)
      = shapeCast Spec.SM128 (V (Proc.devRef .tc main_v238) : FVec Ideal Spec.SN64 .f32) shapeCasts_S100000x64_S50000x128 := by
  after_results
  all_goals rfl

/-- the doubled mean row, -/
theorem b6_dmu (l : Fin 128) :
    (StableHlo.after (hostOps14_2 (F := Ideal)) V (Proc.devRef .tc main_v252) : FVec Ideal Spec.S1x128 .f32) (ix2 (0 : Fin 1) l)
      = (V (Proc.devRef .tc main_v242) : FVec Ideal KValue.S1x64 .f32) (ix2 (0 : Fin 1) (⟨l.val % 64, Nat.mod_lt _ (by decide)⟩ : Fin 64)) := by
  after_results
  exact double_row_apply _ _ _ _ 0 l

/-- the doubled variance row, -/
theorem b6_dvar (l : Fin 128) :
    (StableHlo.after (hostOps14_2 (F := Ideal)) V (Proc.devRef .tc main_v256) : FVec Ideal Spec.S1x128 .f32) (ix2 (0 : Fin 1) l)
      = (V (Proc.devRef .tc main_v243) : FVec Ideal KValue.S1x64 .f32) (ix2 (0 : Fin 1) (⟨l.val % 64, Nat.mod_lt _ (by decide)⟩ : Fin 64)) := by
  after_results
  exact double_row_apply _ _ _ _ 0 l

/-- the doubled scale -/
theorem b6_dg (l : Fin 128) :
    (StableHlo.after (hostOps14_2 (F := Ideal)) V (Proc.devRef .tc main_v258) : FVec Ideal Spec.S1x128 .f32) (ix2 (0 : Fin 1) l)
      = Spec.row3 (V (Proc.devRef .tc main_arg18) : FVec Ideal Spec.S3x64 .f32) (2 : Fin 3) (ix1 (⟨l.val % 64, Nat.mod_lt _ (by decide)⟩ : Fin 64)) := by
  after_results
  exact (double_vec_apply _ _ _ 0 l).trans (congrFun (row3_slice (V (Proc.devRef .tc main_arg18) : FVec Ideal Spec.S3x64 .f32) (2 : Fin 3) slices_S3x64_S1x64_2_0 shapeCasts_S1x64_S64) _)

/-- and the doubled shift. -/
theorem b6_db (l : Fin 128) :
    (StableHlo.after (hostOps14_2 (F := Ideal)) V (Proc.devRef .tc main_v260) : FVec Ideal Spec.S1x128 .f32) (ix2 (0 : Fin 1) l)
      = Spec.row3 (V (Proc.devRef .tc main_arg19) : FVec Ideal Spec.S3x64 .f32) (2 : Fin 3) (ix1 (⟨l.val % 64, Nat.mod_lt _ (by decide)⟩ : Fin 64)) := by
  after_results
  exact (double_vec_apply _ _ _ 0 l).trans (congrFun (row3_slice (V (Proc.devRef .tc main_arg19) : FVec Ideal Spec.S3x64 .f32) (2 : Fin 3) slices_S3x64_S1x64_2_0 shapeCasts_S1x64_S64) _)

/-! ### What the three stretches leave unchanged -/

theorem keepA6 (r : Ref sig .tc) (h : r ∉ hostOps14_W) :
    StableHlo.after (hostOps14 (F := Ideal)) V (Proc.devRef .tc r) = V (Proc.devRef .tc r) :=
  StableHlo.after_of_writes_sub hostOps14 V hostOps14_writes h
theorem keepB6 (r : Ref sig .tc) (h : r ∉ hostOps14_1_W) :
    StableHlo.after (hostOps14_1 (F := Ideal)) V (Proc.devRef .tc r) = V (Proc.devRef .tc r) :=
  StableHlo.after_of_writes_sub hostOps14_1 V hostOps14_1_writes h
theorem keepC6 (r : Ref sig .tc) (h : r ∉ hostOps14_2_W) :
    StableHlo.after (hostOps14_2 (F := Ideal)) V (Proc.devRef .tc r) = V (Proc.devRef .tc r) :=
  StableHlo.after_of_writes_sub hostOps14_2 V hostOps14_2_writes h

/-! ### Region 14's operand arrays, from the contents at the group's entry -/

/-- The contents at region 14's entry. -/
abbrev Vin6 : Valuation τ sig (Elt Ideal) :=
  StableHlo.after (hostOps14_2 (F := Ideal)) (StableHlo.after (hostOps14_1 (F := Ideal)) (StableHlo.after (hostOps14 (F := Ideal)) V))

theorem g6_view :
    (Vin6 V (Proc.devRef .tc main_v248) : FVec Ideal Spec.SM128 .f32)
      = shapeCast Spec.SM128 (V (Proc.devRef .tc main_v238) : FVec Ideal Spec.SN64 .f32) shapeCasts_S100000x64_S50000x128 := by
  unfold Vin6
  rw [b6_view, keepB6 _ main_v238 (by decide), keepA6 V main_v238 (by decide)]

theorem g6_dmu (l : Fin 128) :
    (Vin6 V (Proc.devRef .tc main_v252) : FVec Ideal Spec.S1x128 .f32) (ix2 (0 : Fin 1) l)
      = Spec.mean (V (Proc.devRef .tc main_v238) : FVec Ideal Spec.SN64 .f32) (ix1 (⟨l.val % 64, Nat.mod_lt _ (by decide)⟩ : Fin 64)) := by
  unfold Vin6
  rw [b6_dmu, keepB6 _ main_v242 (by decide), b6_mean]

theorem g6_dvar (l : Fin 128) :
    (Vin6 V (Proc.devRef .tc main_v256) : FVec Ideal Spec.S1x128 .f32) (ix2 (0 : Fin 1) l)
      = Spec.var (V (Proc.devRef .tc main_v238) : FVec Ideal Spec.SN64 .f32) (ix1 (⟨l.val % 64, Nat.mod_lt _ (by decide)⟩ : Fin 64)) := by
  unfold Vin6
  rw [b6_dvar, b6_var _ (b6_c V), keepA6 V main_v238 (by decide)]

theorem g6_dg (l : Fin 128) :
    (Vin6 V (Proc.devRef .tc main_v258) : FVec Ideal Spec.S1x128 .f32) (ix2 (0 : Fin 1) l)
      = Spec.row3 (V (Proc.devRef .tc main_arg18) : FVec Ideal Spec.S3x64 .f32) (2 : Fin 3) (ix1 (⟨l.val % 64, Nat.mod_lt _ (by decide)⟩ : Fin 64)) := by
  unfold Vin6
  rw [b6_dg, keepB6 _ main_arg18 (by decide), keepA6 V main_arg18 (by decide)]

theorem g6_db (l : Fin 128) :
    (Vin6 V (Proc.devRef .tc main_v260) : FVec Ideal Spec.S1x128 .f32) (ix2 (0 : Fin 1) l)
      = Spec.row3 (V (Proc.devRef .tc main_arg19) : FVec Ideal Spec.S3x64 .f32) (2 : Fin 3) (ix1 (⟨l.val % 64, Nat.mod_lt _ (by decide)⟩ : Fin 64)) := by
  unfold Vin6
  rw [b6_db, keepB6 _ main_arg19 (by decide), keepA6 V main_arg19 (by decide)]

/-- A buffer none of the three stretches writes is, at region 14's entry, as at the group's entry. -/
theorem g6_keep (r : Ref sig .tc) (hA : r ∉ hostOps14_W) (hB : r ∉ hostOps14_1_W) (hC : r ∉ hostOps14_2_W) :
    Vin6 V (Proc.devRef .tc r) = V (Proc.devRef .tc r) := by
  unfold Vin6
  rw [keepC6 _ r hC, keepB6 _ r hB, keepA6 V r hA]

/-! ### The group: from the pre-activation at its entry to the activation after it -/

/-- If region 14 leaves in its result array the batch-norm map of its five operand arrays (`hX`), then after the
    reshape that follows, `main_v262` holds the network's relu of the batch normalisation of what `main_v238` held at the
    group's entry, with the layer's scale and shift. -/
theorem group6 (X : FVec Ideal Spec.SM128 .f32)
    (hX : X = Spec.bnR2 (Vin6 V (Proc.devRef .tc main_v248)) (Vin6 V (Proc.devRef .tc main_v252)) (Vin6 V (Proc.devRef .tc main_v256))
      (Vin6 V (Proc.devRef .tc main_v258)) (Vin6 V (Proc.devRef .tc main_v260))) :
    (StableHlo.after (hostOps15 (F := Ideal)) (Function.update (Vin6 V) (Proc.devRef .tc main_v261) X) (Proc.devRef .tc main_v262)
        : FVec Ideal Spec.SN64 .f32)
      = Spec.relu (Spec.bn (V (Proc.devRef .tc main_v238)) (Spec.row3 (V (Proc.devRef .tc main_arg18) : FVec Ideal Spec.S3x64 .f32) (2 : Fin 3)) (Spec.row3 (V (Proc.devRef .tc main_arg19) : FVec Ideal Spec.S3x64 .f32) (2 : Fin 3))) := by
  after_results
  rw [Function.update_self, hX, g6_view]
  exact bnR2_view _ _ _ _ _ _ _ _ _ (g6_dmu V) (g6_dvar V) (g6_dg V) (g6_db V)

end Group6

end Cert.KernelIdeal.KValue

end
-- ==== Proof.KIChainBn7.lean ====
/- Batch-norm group 7 of the idealized kernel's host program, over any contents `V` of the buffers at the group's
   entry: what the three host stretches before region 16 leave in the region's five operand arrays (the [50000,128]
   view of the pre-activation, the doubled column mean and variance, the doubled scale and shift), and, given that the
   region's result array is the batch-norm map of those operands, what the reshape after it holds: the network's
   batch normalisation of the pre-activation. -/
import proofs.«146189_j40922448396571_2_alg».proof.Proof.KIRegions
import proofs.«146189_j40922448396571_2_alg».proof.Proof.KIGlueLayout
import proofs.«146189_j40922448396571_2_alg».proof.Proof.KIGlueStat
import Idealize.ShloMosaic.Lib.StableHlo.Run

noncomputable section

open scoped BigOperators

namespace Cert.KernelIdeal.KValue

open Cert.KernelIdeal Cert.KernelIdeal.Gen
open Idealize.ShloMosaic Idealize.ShloMosaic.TcCoe Idealize.ShloMosaic.StableHlo Idealize.ShloMosaic.ValueIdx

/-! ## Batch-norm group 7: the host stretches `hostOps16`, `hostOps16_1`, `hostOps16_2` before region 16, and the reshape after it -/

section Group7
variable (V : Valuation τ sig (Elt Ideal))

/-- The mean stretch: the keepdims column mean of `main_v264`. -/
theorem b7_mean (j : Fin 64) :
    (StableHlo.after (hostOps16 (F := Ideal)) V (Proc.devRef .tc main_v268) : FVec Ideal KValue.S1x64 .f32) (ix2 (0 : Fin 1) j)
      = Spec.mean (V (Proc.devRef .tc main_v264) : FVec Ideal Spec.SN64 .f32) (ix1 j) := by
  after_results
  exact mean_row_apply _ _ _ _ _ 0 j

/-- It leaves the integer zero in `main_c_33`. -/
theorem b7_c : StableHlo.after (hostOps16 (F := Ideal)) V (Proc.devRef .tc main_c_33) = (constantI S_ 32 0#32 : IVec S_ 32) := by
  after_results
  all_goals rfl

set_option maxHeartbeats 2000000 in
set_option maxRecDepth 200000 in
/-- The variance stretch (the outlined variance function on `main_v264`, its integer argument the zero in `main_c_33`). -/
theorem b7_var (hc : V (Proc.devRef .tc main_c_33) = (constantI S_ 32 0#32 : IVec S_ 32)) (j : Fin 64) :
    (StableHlo.after (hostOps16_1 (F := Ideal)) V (Proc.devRef .tc main_v269) : FVec Ideal KValue.S1x64 .f32) (ix2 (0 : Fin 1) j)
      = Spec.var (V (Proc.devRef .tc main_v264) : FVec Ideal Spec.SN64 .f32) (ix1 j) := by
  after_results
  have hdd : subf (constant (F := Ideal) S_ .f32 0x47C35000#32) (sitofp .f32 (V (Proc.devRef .tc main_c_33) : IVec S_ 32)) = Spec.ddA := by
    rw [hc]; rfl
  have hgd : cmpf .ogt (subf (constant (F := Ideal) S_ .f32 0x47C35000#32) (sitofp .f32 (V (Proc.devRef .tc main_c_33) : IVec S_ 32)))
      (constant (F := Ideal) S_ .f32 0x00000000#32) = Spec.guardA := by
    rw [hc]; rfl
  have hM : ∀ j : Fin 64, (Host.divf (broadcastInDim KValue.S1x64 ![1] bcast_S64_S1x64_1
        (Host.reduceAdd (V (Proc.devRef .tc main_v264) : FVec Ideal Spec.SN64 .f32) (constant (F := Ideal) S_ .f32 0x00000000#32)
          reducesTo_S100000x64_S64_d0 h_S_))
      (broadcastInDim KValue.S1x64 ![] bcast_S_S1x64 (constant (F := Ideal) S_ .f32 0x47C35000#32)) : FVec Ideal KValue.S1x64 .f32)
        (ix2 (0 : Fin 1) j) = Spec.mean (V (Proc.devRef .tc main_v264) : FVec Ideal Spec.SN64 .f32) (ix1 j) :=
    fun j => mean_row_apply (V (Proc.devRef .tc main_v264) : FVec Ideal Spec.SN64 .f32) reducesTo_S100000x64_S64_d0 h_S_ bcast_S64_S1x64_1 bcast_S_S1x64 0 j
  exact var_row_apply' (V (Proc.devRef .tc main_v264) : FVec Ideal Spec.SN64 .f32) _ hM
    _ _ hdd hgd reducesTo_S100000x64_S64_d0 h_S_ bcast_S64_S1x64_1 bcast_S_S1x64 bcast_S1x64_S100000x64_0_1 0 j

/-- The doubling stretch: the [50000,128] view of `main_v264`, -/
theorem b7_view :
    (StableHlo.after (hostOps16_2 (F := Ideal)) V (Proc.devRef .tc main_v270) : FVec Ideal Spec.SM128 .f32)
      = shapeCast Spec.SM128 (V (Proc.devRef .tc main_v264) : FVec Ideal Spec.SN64 .f32) shapeCasts_S100000x64_S50000x128 := by
  after_results
  all_goals rfl

/-- the doubled mean row, -/
theorem b7_dmu (l : Fin 128) :
    (StableHlo.after (hostOps16_2 (F := Ideal)) V (Proc.devRef .tc main_v274) : FVec Ideal Spec.S1x128 .f32) (ix2 (0 : Fin 1) l)
      = (V (Proc.devRef .tc main_v268) : FVec Ideal KValue.S1x64 .f32) (ix2 (0 : Fin 1) (⟨l.val % 64, Nat.mod_lt _ (by decide)⟩ : Fin 64)) := by
  after_results
  exact double_row_apply _ _ _ _ 0 l

/-- the doubled variance row, -/
theorem b7_dvar (l : Fin 128) :
    (StableHlo.after (hostOps16_2 (F := Ideal)) V (Proc.devRef .tc main_v278) : FVec Ideal Spec.S1x128 .f32) (ix2 (0 : Fin 1) l)
      = (V (Proc.devRef .tc main_v269) : FVec Ideal KValue.S1x64 .f32) (ix2 (0 : Fin 1) (⟨l.val % 64, Nat.mod_lt _ (by decide)⟩ : Fin 64)) := by
  after_results
  exact double_row_apply _ _ _ _ 0 l

/-- the doubled scale -/
theorem b7_dg (l : Fin 128) :
    (StableHlo.after (hostOps16_2 (F := Ideal)) V (Proc.devRef .tc main_v280) : FVec Ideal Spec.S1x128 .f32) (ix2 (0 : Fin 1) l)
      = (V (Proc.devRef .tc main_arg22) : FVec Ideal Spec.S64 .f32) (ix1 (⟨l.val % 64, Nat.mod_lt _ (by decide)⟩ : Fin 64)) := by
  after_results
  exact double_vec_apply _ _ _ 0 l

/-- and the doubled shift. -/
theorem b7_db (l : Fin 128) :
    (StableHlo.after (hostOps16_2 (F := Ideal)) V (Proc.devRef .tc main_v282) : FVec Ideal Spec.S1x128 .f32) (ix2 (0 : Fin 1) l)
      = (V (Proc.devRef .tc main_arg23) : FVec Ideal Spec.S64 .f32) (ix1 (⟨l.val % 64, Nat.mod_lt _ (by decide)⟩ : Fin 64)) := by
  after_results
  exact double_vec_apply _ _ _ 0 l

/-! ### What the three stretches leave unchanged -/

theorem keepA7 (r : Ref sig .tc) (h : r ∉ hostOps16_W) :
    StableHlo.after (hostOps16 (F := Ideal)) V (Proc.devRef .tc r) = V (Proc.devRef .tc r) :=
  StableHlo.after_of_writes_sub hostOps16 V hostOps16_writes h
theorem keepB7 (r : Ref sig .tc) (h : r ∉ hostOps16_1_W) :
    StableHlo.after (hostOps16_1 (F := Ideal)) V (Proc.devRef .tc r) = V (Proc.devRef .tc r) :=
  StableHlo.after_of_writes_sub hostOps16_1 V hostOps16_1_writes h
theorem keepC7 (r : Ref sig .tc) (h : r ∉ hostOps16_2_W) :
    StableHlo.after (hostOps16_2 (F := Ideal)) V (Proc.devRef .tc r) = V (Proc.devRef .tc r) :=
  StableHlo.after_of_writes_sub hostOps16_2 V hostOps16_2_writes h

/-! ### Region 16's operand arrays, from the contents at the group's entry -/

/-- The contents at region 16's entry. -/
abbrev Vin7 : Valuation τ sig (Elt Ideal) :=
  StableHlo.after (hostOps16_2 (F := Ideal)) (StableHlo.after (hostOps16_1 (F := Ideal)) (StableHlo.after (hostOps16 (F := Ideal)) V))

theorem g7_view :
    (Vin7 V (Proc.devRef .tc main_v270) : FVec Ideal Spec.SM128 .f32)
      = shapeCast Spec.SM128 (V (Proc.devRef .tc main_v264) : FVec Ideal Spec.SN64 .f32) shapeCasts_S100000x64_S50000x128 := by
  unfold Vin7
  rw [b7_view, keepB7 _ main_v264 (by decide), keepA7 V main_v264 (by decide)]

theorem g7_dmu (l : Fin 128) :
    (Vin7 V (Proc.devRef .tc main_v274) : FVec Ideal Spec.S1x128 .f32) (ix2 (0 : Fin 1) l)
      = Spec.mean (V (Proc.devRef .tc main_v264) : FVec Ideal Spec.SN64 .f32) (ix1 (⟨l.val % 64, Nat.mod_lt _ (by decide)⟩ : Fin 64)) := by
  unfold Vin7
  rw [b7_dmu, keepB7 _ main_v268 (by decide), b7_mean]

theorem g7_dvar (l : Fin 128) :
    (Vin7 V (Proc.devRef .tc main_v278) : FVec Ideal Spec.S1x128 .f32) (ix2 (0 : Fin 1) l)
      = Spec.var (V (Proc.devRef .tc main_v264) : FVec Ideal Spec.SN64 .f32) (ix1 (⟨l.val % 64, Nat.mod_lt _ (by decide)⟩ : Fin 64)) := by
  unfold Vin7
  rw [b7_dvar, b7_var _ (b7_c V), keepA7 V main_v264 (by decide)]

theorem g7_dg (l : Fin 128) :
    (Vin7 V (Proc.devRef .tc main_v280) : FVec Ideal Spec.S1x128 .f32) (ix2 (0 : Fin 1) l)
      = (V (Proc.devRef .tc main_arg22) : FVec Ideal Spec.S64 .f32) (ix1 (⟨l.val % 64, Nat.mod_lt _ (by decide)⟩ : Fin 64)) := by
  unfold Vin7
  rw [b7_dg, keepB7 _ main_arg22 (by decide), keepA7 V main_arg22 (by decide)]

theorem g7_db (l : Fin 128) :
    (Vin7 V (Proc.devRef .tc main_v282) : FVec Ideal Spec.S1x128 .f32) (ix2 (0 : Fin 1) l)
      = (V (Proc.devRef .tc main_arg23) : FVec Ideal Spec.S64 .f32) (ix1 (⟨l.val % 64, Nat.mod_lt _ (by decide)⟩ : Fin 64)) := by
  unfold Vin7
  rw [b7_db, keepB7 _ main_arg23 (by decide), keepA7 V main_arg23 (by decide)]

/-- A buffer none of the three stretches writes is, at region 16's entry, as at the group's entry. -/
theorem g7_keep (r : Ref sig .tc) (hA : r ∉ hostOps16_W) (hB : r ∉ hostOps16_1_W) (hC : r ∉ hostOps16_2_W) :
    Vin7 V (Proc.devRef .tc r) = V (Proc.devRef .tc r) := by
  unfold Vin7
  rw [keepC7 _ r hC, keepB7 _ r hB, keepA7 V r hA]

/-! ### The group: from the pre-activation at its entry to the result after it -/

/-- If region 16 leaves in its result array the batch-norm map of its five operand arrays (`hX`), then after the
    reshape that follows, `main_v284` holds the network's batch normalisation of what `main_v264` held at the
    group's entry, with the layer's scale and shift. -/
theorem group7 (X : FVec Ideal Spec.SM128 .f32)
    (hX : X = Spec.bn2 (Vin7 V (Proc.devRef .tc main_v270)) (Vin7 V (Proc.devRef .tc main_v274)) (Vin7 V (Proc.devRef .tc main_v278))
      (Vin7 V (Proc.devRef .tc main_v280)) (Vin7 V (Proc.devRef .tc main_v282))) :
    (StableHlo.after (hostOps17 (F := Ideal)) (Function.update (Vin7 V) (Proc.devRef .tc main_v283) X) (Proc.devRef .tc main_v284)
        : FVec Ideal Spec.SN64 .f32)
      = Spec.bn (V (Proc.devRef .tc main_v264)) ((V (Proc.devRef .tc main_arg22) : FVec Ideal Spec.S64 .f32)) ((V (Proc.devRef .tc main_arg23) : FVec Ideal Spec.S64 .f32)) := by
  after_results
  rw [Function.update_self, hX, g7_view]
  exact bn2_view _ _ _ _ _ _ _ _ _ (g7_dmu V) (g7_dvar V) (g7_dg V) (g7_db V)

end Group7

end Cert.KernelIdeal.KValue

end
-- ==== Proof.KIResult.lean ====
/- The idealized kernel program's result, composed. Through the fold of @main's items — host stretches and regions —
   the result buffer after the last stretch is the specification's network at the launch contents of the arguments:
   the first region's product feeds the four edge aggregates; each matmul region leaves an affine map plus an aggregate
   or a residual; each batch-norm group (three stretches, a region, a reshape) leaves the batch normalisation, with or
   without relu, of what the matmul region before it left; and a buffer that the items in between do not write still
   holds what its writer left when a later item reads it. -/
import proofs.«146189_j40922448396571_2_alg».proof.Proof.KIAsm
import proofs.«146189_j40922448396571_2_alg».proof.Proof.KIValue0
import proofs.«146189_j40922448396571_2_alg».proof.Proof.KIValue1
import proofs.«146189_j40922448396571_2_alg».proof.Proof.KIValue2
import proofs.«146189_j40922448396571_2_alg».proof.Proof.KIValue3
import proofs.«146189_j40922448396571_2_alg».proof.Proof.KIValue4
import proofs.«146189_j40922448396571_2_alg».proof.Proof.KIValue5
import proofs.«146189_j40922448396571_2_alg».proof.Proof.KIValue6
import proofs.«146189_j40922448396571_2_alg».proof.Proof.KIValue7
import proofs.«146189_j40922448396571_2_alg».proof.Proof.KIValue8
import proofs.«146189_j40922448396571_2_alg».proof.Proof.KIValue9
import proofs.«146189_j40922448396571_2_alg».proof.Proof.KIValue10
import proofs.«146189_j40922448396571_2_alg».proof.Proof.KIValue11
import proofs.«146189_j40922448396571_2_alg».proof.Proof.KIValue12
import proofs.«146189_j40922448396571_2_alg».proof.Proof.KIValue13
import proofs.«146189_j40922448396571_2_alg».proof.Proof.KIValue14
import proofs.«146189_j40922448396571_2_alg».proof.Proof.KIValue15
import proofs.«146189_j40922448396571_2_alg».proof.Proof.KIValue16
import proofs.«146189_j40922448396571_2_alg».proof.Proof.KIGlueLin
import proofs.«146189_j40922448396571_2_alg».proof.Proof.KIGlueLayout
import proofs.«146189_j40922448396571_2_alg».proof.Proof.KIChainBn0
import proofs.«146189_j40922448396571_2_alg».proof.Proof.KIChainBn1
import proofs.«146189_j40922448396571_2_alg».proof.Proof.KIChainBn2
import proofs.«146189_j40922448396571_2_alg».proof.Proof.KIChainBn3
import proofs.«146189_j40922448396571_2_alg».proof.Proof.KIChainBn4
import proofs.«146189_j40922448396571_2_alg».proof.Proof.KIChainBn5
import proofs.«146189_j40922448396571_2_alg».proof.Proof.KIChainBn6
import proofs.«146189_j40922448396571_2_alg».proof.Proof.KIChainBn7

set_option maxRecDepth 16384

noncomputable section

namespace Cert.KernelIdeal.KValue

open Cert.KernelIdeal Cert.KernelIdeal.Gen Cert.KernelIdeal.Asm
open Idealize.ShloMosaic Idealize.ShloMosaic.TcCoe Idealize.ShloMosaic.StableHlo

variable (m : (ℓ : Loc nD τ sig) → Buf (Elt Ideal) ℓ) (c : Dev nD)

/-! ## What each boundary of the fold leaves unchanged -/

theorem st1 (r : Ref sig .tc) (h : r ∉ hostOps0_W) : W1 m c (Proc.devRef .tc r) = W0 m c (Proc.devRef .tc r) :=
  StableHlo.after_of_writes_sub (hostOps0 (F := Ideal)) _ (hostOps0_writes (F := Ideal)) h
theorem st2 (r : Ref sig .tc) (h : r ≠ main_v21) : W2 m c (Proc.devRef .tc r) = W1 m c (Proc.devRef .tc r) :=
  Function.update_of_ne (StableHlo.devRef_ne_of_ne h) _ _
theorem st3 (r : Ref sig .tc) (h : r ∉ hostOps1_W) : W3 m c (Proc.devRef .tc r) = W2 m c (Proc.devRef .tc r) :=
  StableHlo.after_of_writes_sub (hostOps1 (F := Ideal)) _ (hostOps1_writes (F := Ideal)) h
theorem st4 (r : Ref sig .tc) (h : r ≠ main_v29) : W4 m c (Proc.devRef .tc r) = W3 m c (Proc.devRef .tc r) :=
  Function.update_of_ne (StableHlo.devRef_ne_of_ne h) _ _
theorem st5 (r : Ref sig .tc) (h : r ∉ hostOps2_W) : W5 m c (Proc.devRef .tc r) = W4 m c (Proc.devRef .tc r) :=
  StableHlo.after_of_writes_sub (hostOps2 (F := Ideal)) _ (hostOps2_writes (F := Ideal)) h
theorem st6 (r : Ref sig .tc) (h : r ∉ hostOps2_1_W) : W6 m c (Proc.devRef .tc r) = W5 m c (Proc.devRef .tc r) :=
  StableHlo.after_of_writes_sub (hostOps2_1 (F := Ideal)) _ (hostOps2_1_writes (F := Ideal)) h
theorem st7 (r : Ref sig .tc) (h : r ∉ hostOps2_2_W) : W7 m c (Proc.devRef .tc r) = W6 m c (Proc.devRef .tc r) :=
  StableHlo.after_of_writes_sub (hostOps2_2 (F := Ideal)) _ (hostOps2_2_writes (F := Ideal)) h
theorem st8 (r : Ref sig .tc) (h : r ≠ main_v48) : W8 m c (Proc.devRef .tc r) = W7 m c (Proc.devRef .tc r) :=
  Function.update_of_ne (StableHlo.devRef_ne_of_ne h) _ _
theorem st9 (r : Ref sig .tc) (h : r ∉ hostOps3_W) : W9 m c (Proc.devRef .tc r) = W8 m c (Proc.devRef .tc r) :=
  StableHlo.after_of_writes_sub (hostOps3 (F := Ideal)) _ (hostOps3_writes (F := Ideal)) h
theorem st10 (r : Ref sig .tc) (h : r ≠ main_v66) : W10 m c (Proc.devRef .tc r) = W9 m c (Proc.devRef .tc r) :=
  Function.update_of_ne (StableHlo.devRef_ne_of_ne h) _ _
theorem st11 (r : Ref sig .tc) (h : r ∉ hostOps4_W) : W11 m c (Proc.devRef .tc r) = W10 m c (Proc.devRef .tc r) :=
  StableHlo.after_of_writes_sub (hostOps4 (F := Ideal)) _ (hostOps4_writes (F := Ideal)) h
theorem st12 (r : Ref sig .tc) (h : r ∉ hostOps4_1_W) : W12 m c (Proc.devRef .tc r) = W11 m c (Proc.devRef .tc r) :=
  StableHlo.after_of_writes_sub (hostOps4_1 (F := Ideal)) _ (hostOps4_1_writes (F := Ideal)) h
theorem st13 (r : Ref sig .tc) (h : r ∉ hostOps4_2_W) : W13 m c (Proc.devRef .tc r) = W12 m c (Proc.devRef .tc r) :=
  StableHlo.after_of_writes_sub (hostOps4_2 (F := Ideal)) _ (hostOps4_2_writes (F := Ideal)) h
theorem st14 (r : Ref sig .tc) (h : r ≠ main_v89) : W14 m c (Proc.devRef .tc r) = W13 m c (Proc.devRef .tc r) :=
  Function.update_of_ne (StableHlo.devRef_ne_of_ne h) _ _
theorem st15 (r : Ref sig .tc) (h : r ∉ hostOps5_W) : W15 m c (Proc.devRef .tc r) = W14 m c (Proc.devRef .tc r) :=
  StableHlo.after_of_writes_sub (hostOps5 (F := Ideal)) _ (hostOps5_writes (F := Ideal)) h
theorem st16 (r : Ref sig .tc) (h : r ≠ main_v96) : W16 m c (Proc.devRef .tc r) = W15 m c (Proc.devRef .tc r) :=
  Function.update_of_ne (StableHlo.devRef_ne_of_ne h) _ _
theorem st17 (r : Ref sig .tc) (h : r ∉ hostOps6_W) : W17 m c (Proc.devRef .tc r) = W16 m c (Proc.devRef .tc r) :=
  StableHlo.after_of_writes_sub (hostOps6 (F := Ideal)) _ (hostOps6_writes (F := Ideal)) h
theorem st18 (r : Ref sig .tc) (h : r ∉ hostOps6_1_W) : W18 m c (Proc.devRef .tc r) = W17 m c (Proc.devRef .tc r) :=
  StableHlo.after_of_writes_sub (hostOps6_1 (F := Ideal)) _ (hostOps6_1_writes (F := Ideal)) h
theorem st19 (r : Ref sig .tc) (h : r ∉ hostOps6_2_W) : W19 m c (Proc.devRef .tc r) = W18 m c (Proc.devRef .tc r) :=
  StableHlo.after_of_writes_sub (hostOps6_2 (F := Ideal)) _ (hostOps6_2_writes (F := Ideal)) h
theorem st20 (r : Ref sig .tc) (h : r ≠ main_v119) : W20 m c (Proc.devRef .tc r) = W19 m c (Proc.devRef .tc r) :=
  Function.update_of_ne (StableHlo.devRef_ne_of_ne h) _ _
theorem st21 (r : Ref sig .tc) (h : r ∉ hostOps7_W) : W21 m c (Proc.devRef .tc r) = W20 m c (Proc.devRef .tc r) :=
  StableHlo.after_of_writes_sub (hostOps7 (F := Ideal)) _ (hostOps7_writes (F := Ideal)) h
theorem st22 (r : Ref sig .tc) (h : r ≠ main_v137) : W22 m c (Proc.devRef .tc r) = W21 m c (Proc.devRef .tc r) :=
  Function.update_of_ne (StableHlo.devRef_ne_of_ne h) _ _
theorem st23 (r : Ref sig .tc) (h : r ∉ hostOps8_W) : W23 m c (Proc.devRef .tc r) = W22 m c (Proc.devRef .tc r) :=
  StableHlo.after_of_writes_sub (hostOps8 (F := Ideal)) _ (hostOps8_writes (F := Ideal)) h
theorem st24 (r : Ref sig .tc) (h : r ∉ hostOps8_1_W) : W24 m c (Proc.devRef .tc r) = W23 m c (Proc.devRef .tc r) :=
  StableHlo.after_of_writes_sub (hostOps8_1 (F := Ideal)) _ (hostOps8_1_writes (F := Ideal)) h
theorem st25 (r : Ref sig .tc) (h : r ∉ hostOps8_2_W) : W25 m c (Proc.devRef .tc r) = W24 m c (Proc.devRef .tc r) :=
  StableHlo.after_of_writes_sub (hostOps8_2 (F := Ideal)) _ (hostOps8_2_writes (F := Ideal)) h
theorem st26 (r : Ref sig .tc) (h : r ≠ main_v160) : W26 m c (Proc.devRef .tc r) = W25 m c (Proc.devRef .tc r) :=
  Function.update_of_ne (StableHlo.devRef_ne_of_ne h) _ _
theorem st27 (r : Ref sig .tc) (h : r ∉ hostOps9_W) : W27 m c (Proc.devRef .tc r) = W26 m c (Proc.devRef .tc r) :=
  StableHlo.after_of_writes_sub (hostOps9 (F := Ideal)) _ (hostOps9_writes (F := Ideal)) h
theorem st28 (r : Ref sig .tc) (h : r ≠ main_v167) : W28 m c (Proc.devRef .tc r) = W27 m c (Proc.devRef .tc r) :=
  Function.update_of_ne (StableHlo.devRef_ne_of_ne h) _ _
theorem st29 (r : Ref sig .tc) (h : r ∉ hostOps10_W) : W29 m c (Proc.devRef .tc r) = W28 m c (Proc.devRef .tc r) :=
  StableHlo.after_of_writes_sub (hostOps10 (F := Ideal)) _ (hostOps10_writes (F := Ideal)) h
theorem st30 (r : Ref sig .tc) (h : r ∉ hostOps10_1_W) : W30 m c (Proc.devRef .tc r) = W29 m c (Proc.devRef .tc r) :=
  StableHlo.after_of_writes_sub (hostOps10_1 (F := Ideal)) _ (hostOps10_1_writes (F := Ideal)) h
theorem st31 (r : Ref sig .tc) (h : r ∉ hostOps10_2_W) : W31 m c (Proc.devRef .tc r) = W30 m c (Proc.devRef .tc r) :=
  StableHlo.after_of_writes_sub (hostOps10_2 (F := Ideal)) _ (hostOps10_2_writes (F := Ideal)) h
theorem st32 (r : Ref sig .tc) (h : r ≠ main_v190) : W32 m c (Proc.devRef .tc r) = W31 m c (Proc.devRef .tc r) :=
  Function.update_of_ne (StableHlo.devRef_ne_of_ne h) _ _
theorem st33 (r : Ref sig .tc) (h : r ∉ hostOps11_W) : W33 m c (Proc.devRef .tc r) = W32 m c (Proc.devRef .tc r) :=
  StableHlo.after_of_writes_sub (hostOps11 (F := Ideal)) _ (hostOps11_writes (F := Ideal)) h
theorem st34 (r : Ref sig .tc) (h : r ≠ main_v208) : W34 m c (Proc.devRef .tc r) = W33 m c (Proc.devRef .tc r) :=
  Function.update_of_ne (StableHlo.devRef_ne_of_ne h) _ _
theorem st35 (r : Ref sig .tc) (h : r ∉ hostOps12_W) : W35 m c (Proc.devRef .tc r) = W34 m c (Proc.devRef .tc r) :=
  StableHlo.after_of_writes_sub (hostOps12 (F := Ideal)) _ (hostOps12_writes (F := Ideal)) h
theorem st36 (r : Ref sig .tc) (h : r ∉ hostOps12_1_W) : W36 m c (Proc.devRef .tc r) = W35 m c (Proc.devRef .tc r) :=
  StableHlo.after_of_writes_sub (hostOps12_1 (F := Ideal)) _ (hostOps12_1_writes (F := Ideal)) h
theorem st37 (r : Ref sig .tc) (h : r ∉ hostOps12_2_W) : W37 m c (Proc.devRef .tc r) = W36 m c (Proc.devRef .tc r) :=
  StableHlo.after_of_writes_sub (hostOps12_2 (F := Ideal)) _ (hostOps12_2_writes (F := Ideal)) h
theorem st38 (r : Ref sig .tc) (h : r ≠ main_v231) : W38 m c (Proc.devRef .tc r) = W37 m c (Proc.devRef .tc r) :=
  Function.update_of_ne (StableHlo.devRef_ne_of_ne h) _ _
theorem st39 (r : Ref sig .tc) (h : r ∉ hostOps13_W) : W39 m c (Proc.devRef .tc r) = W38 m c (Proc.devRef .tc r) :=
  StableHlo.after_of_writes_sub (hostOps13 (F := Ideal)) _ (hostOps13_writes (F := Ideal)) h
theorem st40 (r : Ref sig .tc) (h : r ≠ main_v238) : W40 m c (Proc.devRef .tc r) = W39 m c (Proc.devRef .tc r) :=
  Function.update_of_ne (StableHlo.devRef_ne_of_ne h) _ _
theorem st41 (r : Ref sig .tc) (h : r ∉ hostOps14_W) : W41 m c (Proc.devRef .tc r) = W40 m c (Proc.devRef .tc r) :=
  StableHlo.after_of_writes_sub (hostOps14 (F := Ideal)) _ (hostOps14_writes (F := Ideal)) h
theorem st42 (r : Ref sig .tc) (h : r ∉ hostOps14_1_W) : W42 m c (Proc.devRef .tc r) = W41 m c (Proc.devRef .tc r) :=
  StableHlo.after_of_writes_sub (hostOps14_1 (F := Ideal)) _ (hostOps14_1_writes (F := Ideal)) h
theorem st43 (r : Ref sig .tc) (h : r ∉ hostOps14_2_W) : W43 m c (Proc.devRef .tc r) = W42 m c (Proc.devRef .tc r) :=
  StableHlo.after_of_writes_sub (hostOps14_2 (F := Ideal)) _ (hostOps14_2_writes (F := Ideal)) h
theorem st44 (r : Ref sig .tc) (h : r ≠ main_v261) : W44 m c (Proc.devRef .tc r) = W43 m c (Proc.devRef .tc r) :=
  Function.update_of_ne (StableHlo.devRef_ne_of_ne h) _ _
theorem st45 (r : Ref sig .tc) (h : r ∉ hostOps15_W) : W45 m c (Proc.devRef .tc r) = W44 m c (Proc.devRef .tc r) :=
  StableHlo.after_of_writes_sub (hostOps15 (F := Ideal)) _ (hostOps15_writes (F := Ideal)) h
theorem st46 (r : Ref sig .tc) (h : r ≠ main_v264) : W46 m c (Proc.devRef .tc r) = W45 m c (Proc.devRef .tc r) :=
  Function.update_of_ne (StableHlo.devRef_ne_of_ne h) _ _
theorem st47 (r : Ref sig .tc) (h : r ∉ hostOps16_W) : W47 m c (Proc.devRef .tc r) = W46 m c (Proc.devRef .tc r) :=
  StableHlo.after_of_writes_sub (hostOps16 (F := Ideal)) _ (hostOps16_writes (F := Ideal)) h
theorem st48 (r : Ref sig .tc) (h : r ∉ hostOps16_1_W) : W48 m c (Proc.devRef .tc r) = W47 m c (Proc.devRef .tc r) :=
  StableHlo.after_of_writes_sub (hostOps16_1 (F := Ideal)) _ (hostOps16_1_writes (F := Ideal)) h
theorem st49 (r : Ref sig .tc) (h : r ∉ hostOps16_2_W) : W49 m c (Proc.devRef .tc r) = W48 m c (Proc.devRef .tc r) :=
  StableHlo.after_of_writes_sub (hostOps16_2 (F := Ideal)) _ (hostOps16_2_writes (F := Ideal)) h
theorem st50 (r : Ref sig .tc) (h : r ≠ main_v283) : W50 m c (Proc.devRef .tc r) = W49 m c (Proc.devRef .tc r) :=
  Function.update_of_ne (StableHlo.devRef_ne_of_ne h) _ _
theorem st51 (r : Ref sig .tc) (h : r ∉ hostOps17_W) : W51 m c (Proc.devRef .tc r) = W50 m c (Proc.devRef .tc r) :=
  StableHlo.after_of_writes_sub (hostOps17 (F := Ideal)) _ (hostOps17_writes (F := Ideal)) h

/-- The argument arrays: no stretch and no region writes one, so at every boundary each holds its launch contents
    (stated for the arguments and the boundaries where an item reads them). -/
theorem a0_1 : W1 m c (Proc.devRef .tc main_arg0) = W0 m c (Proc.devRef .tc main_arg0) := (st1 m c main_arg0 (by decide +kernel))
theorem a0_2 : W2 m c (Proc.devRef .tc main_arg0) = W0 m c (Proc.devRef .tc main_arg0) := (st2 m c main_arg0 (by decide +kernel)).trans (a0_1 m c)
theorem a0_3 : W3 m c (Proc.devRef .tc main_arg0) = W0 m c (Proc.devRef .tc main_arg0) := (st3 m c main_arg0 (by decide +kernel)).trans (a0_2 m c)
theorem a2_1 : W1 m c (Proc.devRef .tc main_arg2) = W0 m c (Proc.devRef .tc main_arg2) := (st1 m c main_arg2 (by decide +kernel))
theorem a2_2 : W2 m c (Proc.devRef .tc main_arg2) = W0 m c (Proc.devRef .tc main_arg2) := (st2 m c main_arg2 (by decide +kernel)).trans (a2_1 m c)
theorem a2_3 : W3 m c (Proc.devRef .tc main_arg2) = W0 m c (Proc.devRef .tc main_arg2) := (st3 m c main_arg2 (by decide +kernel)).trans (a2_2 m c)
theorem a2_4 : W4 m c (Proc.devRef .tc main_arg2) = W0 m c (Proc.devRef .tc main_arg2) := (st4 m c main_arg2 (by decide +kernel)).trans (a2_3 m c)
theorem a2_5 : W5 m c (Proc.devRef .tc main_arg2) = W0 m c (Proc.devRef .tc main_arg2) := (st5 m c main_arg2 (by decide +kernel)).trans (a2_4 m c)
theorem a2_6 : W6 m c (Proc.devRef .tc main_arg2) = W0 m c (Proc.devRef .tc main_arg2) := (st6 m c main_arg2 (by decide +kernel)).trans (a2_5 m c)
theorem a2_7 : W7 m c (Proc.devRef .tc main_arg2) = W0 m c (Proc.devRef .tc main_arg2) := (st7 m c main_arg2 (by decide +kernel)).trans (a2_6 m c)
theorem a2_8 : W8 m c (Proc.devRef .tc main_arg2) = W0 m c (Proc.devRef .tc main_arg2) := (st8 m c main_arg2 (by decide +kernel)).trans (a2_7 m c)
theorem a2_9 : W9 m c (Proc.devRef .tc main_arg2) = W0 m c (Proc.devRef .tc main_arg2) := (st9 m c main_arg2 (by decide +kernel)).trans (a2_8 m c)
theorem a2_10 : W10 m c (Proc.devRef .tc main_arg2) = W0 m c (Proc.devRef .tc main_arg2) := (st10 m c main_arg2 (by decide +kernel)).trans (a2_9 m c)
theorem a2_11 : W11 m c (Proc.devRef .tc main_arg2) = W0 m c (Proc.devRef .tc main_arg2) := (st11 m c main_arg2 (by decide +kernel)).trans (a2_10 m c)
theorem a2_12 : W12 m c (Proc.devRef .tc main_arg2) = W0 m c (Proc.devRef .tc main_arg2) := (st12 m c main_arg2 (by decide +kernel)).trans (a2_11 m c)
theorem a2_13 : W13 m c (Proc.devRef .tc main_arg2) = W0 m c (Proc.devRef .tc main_arg2) := (st13 m c main_arg2 (by decide +kernel)).trans (a2_12 m c)
theorem a2_14 : W14 m c (Proc.devRef .tc main_arg2) = W0 m c (Proc.devRef .tc main_arg2) := (st14 m c main_arg2 (by decide +kernel)).trans (a2_13 m c)
theorem a2_15 : W15 m c (Proc.devRef .tc main_arg2) = W0 m c (Proc.devRef .tc main_arg2) := (st15 m c main_arg2 (by decide +kernel)).trans (a2_14 m c)
theorem a2_16 : W16 m c (Proc.devRef .tc main_arg2) = W0 m c (Proc.devRef .tc main_arg2) := (st16 m c main_arg2 (by decide +kernel)).trans (a2_15 m c)
theorem a2_17 : W17 m c (Proc.devRef .tc main_arg2) = W0 m c (Proc.devRef .tc main_arg2) := (st17 m c main_arg2 (by decide +kernel)).trans (a2_16 m c)
theorem a2_18 : W18 m c (Proc.devRef .tc main_arg2) = W0 m c (Proc.devRef .tc main_arg2) := (st18 m c main_arg2 (by decide +kernel)).trans (a2_17 m c)
theorem a2_19 : W19 m c (Proc.devRef .tc main_arg2) = W0 m c (Proc.devRef .tc main_arg2) := (st19 m c main_arg2 (by decide +kernel)).trans (a2_18 m c)
theorem a2_20 : W20 m c (Proc.devRef .tc main_arg2) = W0 m c (Proc.devRef .tc main_arg2) := (st20 m c main_arg2 (by decide +kernel)).trans (a2_19 m c)
theorem a2_21 : W21 m c (Proc.devRef .tc main_arg2) = W0 m c (Proc.devRef .tc main_arg2) := (st21 m c main_arg2 (by decide +kernel)).trans (a2_20 m c)
theorem a2_22 : W22 m c (Proc.devRef .tc main_arg2) = W0 m c (Proc.devRef .tc main_arg2) := (st22 m c main_arg2 (by decide +kernel)).trans (a2_21 m c)
theorem a2_23 : W23 m c (Proc.devRef .tc main_arg2) = W0 m c (Proc.devRef .tc main_arg2) := (st23 m c main_arg2 (by decide +kernel)).trans (a2_22 m c)
theorem a2_24 : W24 m c (Proc.devRef .tc main_arg2) = W0 m c (Proc.devRef .tc main_arg2) := (st24 m c main_arg2 (by decide +kernel)).trans (a2_23 m c)
theorem a2_25 : W25 m c (Proc.devRef .tc main_arg2) = W0 m c (Proc.devRef .tc main_arg2) := (st25 m c main_arg2 (by decide +kernel)).trans (a2_24 m c)
theorem a2_26 : W26 m c (Proc.devRef .tc main_arg2) = W0 m c (Proc.devRef .tc main_arg2) := (st26 m c main_arg2 (by decide +kernel)).trans (a2_25 m c)
theorem a2_27 : W27 m c (Proc.devRef .tc main_arg2) = W0 m c (Proc.devRef .tc main_arg2) := (st27 m c main_arg2 (by decide +kernel)).trans (a2_26 m c)
theorem a2_28 : W28 m c (Proc.devRef .tc main_arg2) = W0 m c (Proc.devRef .tc main_arg2) := (st28 m c main_arg2 (by decide +kernel)).trans (a2_27 m c)
theorem a2_29 : W29 m c (Proc.devRef .tc main_arg2) = W0 m c (Proc.devRef .tc main_arg2) := (st29 m c main_arg2 (by decide +kernel)).trans (a2_28 m c)
theorem a2_30 : W30 m c (Proc.devRef .tc main_arg2) = W0 m c (Proc.devRef .tc main_arg2) := (st30 m c main_arg2 (by decide +kernel)).trans (a2_29 m c)
theorem a2_31 : W31 m c (Proc.devRef .tc main_arg2) = W0 m c (Proc.devRef .tc main_arg2) := (st31 m c main_arg2 (by decide +kernel)).trans (a2_30 m c)
theorem a2_32 : W32 m c (Proc.devRef .tc main_arg2) = W0 m c (Proc.devRef .tc main_arg2) := (st32 m c main_arg2 (by decide +kernel)).trans (a2_31 m c)
theorem a3_1 : W1 m c (Proc.devRef .tc main_arg3) = W0 m c (Proc.devRef .tc main_arg3) := (st1 m c main_arg3 (by decide +kernel))
theorem a3_2 : W2 m c (Proc.devRef .tc main_arg3) = W0 m c (Proc.devRef .tc main_arg3) := (st2 m c main_arg3 (by decide +kernel)).trans (a3_1 m c)
theorem a3_3 : W3 m c (Proc.devRef .tc main_arg3) = W0 m c (Proc.devRef .tc main_arg3) := (st3 m c main_arg3 (by decide +kernel)).trans (a3_2 m c)
theorem a3_4 : W4 m c (Proc.devRef .tc main_arg3) = W0 m c (Proc.devRef .tc main_arg3) := (st4 m c main_arg3 (by decide +kernel)).trans (a3_3 m c)
theorem a3_5 : W5 m c (Proc.devRef .tc main_arg3) = W0 m c (Proc.devRef .tc main_arg3) := (st5 m c main_arg3 (by decide +kernel)).trans (a3_4 m c)
theorem a3_6 : W6 m c (Proc.devRef .tc main_arg3) = W0 m c (Proc.devRef .tc main_arg3) := (st6 m c main_arg3 (by decide +kernel)).trans (a3_5 m c)
theorem a3_7 : W7 m c (Proc.devRef .tc main_arg3) = W0 m c (Proc.devRef .tc main_arg3) := (st7 m c main_arg3 (by decide +kernel)).trans (a3_6 m c)
theorem a3_8 : W8 m c (Proc.devRef .tc main_arg3) = W0 m c (Proc.devRef .tc main_arg3) := (st8 m c main_arg3 (by decide +kernel)).trans (a3_7 m c)
theorem a3_9 : W9 m c (Proc.devRef .tc main_arg3) = W0 m c (Proc.devRef .tc main_arg3) := (st9 m c main_arg3 (by decide +kernel)).trans (a3_8 m c)
theorem a3_10 : W10 m c (Proc.devRef .tc main_arg3) = W0 m c (Proc.devRef .tc main_arg3) := (st10 m c main_arg3 (by decide +kernel)).trans (a3_9 m c)
theorem a3_11 : W11 m c (Proc.devRef .tc main_arg3) = W0 m c (Proc.devRef .tc main_arg3) := (st11 m c main_arg3 (by decide +kernel)).trans (a3_10 m c)
theorem a3_12 : W12 m c (Proc.devRef .tc main_arg3) = W0 m c (Proc.devRef .tc main_arg3) := (st12 m c main_arg3 (by decide +kernel)).trans (a3_11 m c)
theorem a3_13 : W13 m c (Proc.devRef .tc main_arg3) = W0 m c (Proc.devRef .tc main_arg3) := (st13 m c main_arg3 (by decide +kernel)).trans (a3_12 m c)
theorem a3_14 : W14 m c (Proc.devRef .tc main_arg3) = W0 m c (Proc.devRef .tc main_arg3) := (st14 m c main_arg3 (by decide +kernel)).trans (a3_13 m c)
theorem a3_15 : W15 m c (Proc.devRef .tc main_arg3) = W0 m c (Proc.devRef .tc main_arg3) := (st15 m c main_arg3 (by decide +kernel)).trans (a3_14 m c)
theorem a3_16 : W16 m c (Proc.devRef .tc main_arg3) = W0 m c (Proc.devRef .tc main_arg3) := (st16 m c main_arg3 (by decide +kernel)).trans (a3_15 m c)
theorem a3_17 : W17 m c (Proc.devRef .tc main_arg3) = W0 m c (Proc.devRef .tc main_arg3) := (st17 m c main_arg3 (by decide +kernel)).trans (a3_16 m c)
theorem a3_18 : W18 m c (Proc.devRef .tc main_arg3) = W0 m c (Proc.devRef .tc main_arg3) := (st18 m c main_arg3 (by decide +kernel)).trans (a3_17 m c)
theorem a3_19 : W19 m c (Proc.devRef .tc main_arg3) = W0 m c (Proc.devRef .tc main_arg3) := (st19 m c main_arg3 (by decide +kernel)).trans (a3_18 m c)
theorem a3_20 : W20 m c (Proc.devRef .tc main_arg3) = W0 m c (Proc.devRef .tc main_arg3) := (st20 m c main_arg3 (by decide +kernel)).trans (a3_19 m c)
theorem a3_21 : W21 m c (Proc.devRef .tc main_arg3) = W0 m c (Proc.devRef .tc main_arg3) := (st21 m c main_arg3 (by decide +kernel)).trans (a3_20 m c)
theorem a3_22 : W22 m c (Proc.devRef .tc main_arg3) = W0 m c (Proc.devRef .tc main_arg3) := (st22 m c main_arg3 (by decide +kernel)).trans (a3_21 m c)
theorem a3_23 : W23 m c (Proc.devRef .tc main_arg3) = W0 m c (Proc.devRef .tc main_arg3) := (st23 m c main_arg3 (by decide +kernel)).trans (a3_22 m c)
theorem a3_24 : W24 m c (Proc.devRef .tc main_arg3) = W0 m c (Proc.devRef .tc main_arg3) := (st24 m c main_arg3 (by decide +kernel)).trans (a3_23 m c)
theorem a3_25 : W25 m c (Proc.devRef .tc main_arg3) = W0 m c (Proc.devRef .tc main_arg3) := (st25 m c main_arg3 (by decide +kernel)).trans (a3_24 m c)
theorem a3_26 : W26 m c (Proc.devRef .tc main_arg3) = W0 m c (Proc.devRef .tc main_arg3) := (st26 m c main_arg3 (by decide +kernel)).trans (a3_25 m c)
theorem a3_27 : W27 m c (Proc.devRef .tc main_arg3) = W0 m c (Proc.devRef .tc main_arg3) := (st27 m c main_arg3 (by decide +kernel)).trans (a3_26 m c)
theorem a3_28 : W28 m c (Proc.devRef .tc main_arg3) = W0 m c (Proc.devRef .tc main_arg3) := (st28 m c main_arg3 (by decide +kernel)).trans (a3_27 m c)
theorem a3_29 : W29 m c (Proc.devRef .tc main_arg3) = W0 m c (Proc.devRef .tc main_arg3) := (st29 m c main_arg3 (by decide +kernel)).trans (a3_28 m c)
theorem a3_30 : W30 m c (Proc.devRef .tc main_arg3) = W0 m c (Proc.devRef .tc main_arg3) := (st30 m c main_arg3 (by decide +kernel)).trans (a3_29 m c)
theorem a3_31 : W31 m c (Proc.devRef .tc main_arg3) = W0 m c (Proc.devRef .tc main_arg3) := (st31 m c main_arg3 (by decide +kernel)).trans (a3_30 m c)
theorem a3_32 : W32 m c (Proc.devRef .tc main_arg3) = W0 m c (Proc.devRef .tc main_arg3) := (st32 m c main_arg3 (by decide +kernel)).trans (a3_31 m c)
theorem a4_1 : W1 m c (Proc.devRef .tc main_arg4) = W0 m c (Proc.devRef .tc main_arg4) := (st1 m c main_arg4 (by decide +kernel))
theorem a4_2 : W2 m c (Proc.devRef .tc main_arg4) = W0 m c (Proc.devRef .tc main_arg4) := (st2 m c main_arg4 (by decide +kernel)).trans (a4_1 m c)
theorem a4_3 : W3 m c (Proc.devRef .tc main_arg4) = W0 m c (Proc.devRef .tc main_arg4) := (st3 m c main_arg4 (by decide +kernel)).trans (a4_2 m c)
theorem a5_1 : W1 m c (Proc.devRef .tc main_arg5) = W0 m c (Proc.devRef .tc main_arg5) := (st1 m c main_arg5 (by decide +kernel))
theorem a5_2 : W2 m c (Proc.devRef .tc main_arg5) = W0 m c (Proc.devRef .tc main_arg5) := (st2 m c main_arg5 (by decide +kernel)).trans (a5_1 m c)
theorem a8_1 : W1 m c (Proc.devRef .tc main_arg8) = W0 m c (Proc.devRef .tc main_arg8) := (st1 m c main_arg8 (by decide +kernel))
theorem a8_2 : W2 m c (Proc.devRef .tc main_arg8) = W0 m c (Proc.devRef .tc main_arg8) := (st2 m c main_arg8 (by decide +kernel)).trans (a8_1 m c)
theorem a8_3 : W3 m c (Proc.devRef .tc main_arg8) = W0 m c (Proc.devRef .tc main_arg8) := (st3 m c main_arg8 (by decide +kernel)).trans (a8_2 m c)
theorem a8_4 : W4 m c (Proc.devRef .tc main_arg8) = W0 m c (Proc.devRef .tc main_arg8) := (st4 m c main_arg8 (by decide +kernel)).trans (a8_3 m c)
theorem a9_1 : W1 m c (Proc.devRef .tc main_arg9) = W0 m c (Proc.devRef .tc main_arg9) := (st1 m c main_arg9 (by decide +kernel))
theorem a9_2 : W2 m c (Proc.devRef .tc main_arg9) = W0 m c (Proc.devRef .tc main_arg9) := (st2 m c main_arg9 (by decide +kernel)).trans (a9_1 m c)
theorem a9_3 : W3 m c (Proc.devRef .tc main_arg9) = W0 m c (Proc.devRef .tc main_arg9) := (st3 m c main_arg9 (by decide +kernel)).trans (a9_2 m c)
theorem a9_4 : W4 m c (Proc.devRef .tc main_arg9) = W0 m c (Proc.devRef .tc main_arg9) := (st4 m c main_arg9 (by decide +kernel)).trans (a9_3 m c)
theorem a12_1 : W1 m c (Proc.devRef .tc main_arg12) = W0 m c (Proc.devRef .tc main_arg12) := (st1 m c main_arg12 (by decide +kernel))
theorem a12_2 : W2 m c (Proc.devRef .tc main_arg12) = W0 m c (Proc.devRef .tc main_arg12) := (st2 m c main_arg12 (by decide +kernel)).trans (a12_1 m c)
theorem a12_3 : W3 m c (Proc.devRef .tc main_arg12) = W0 m c (Proc.devRef .tc main_arg12) := (st3 m c main_arg12 (by decide +kernel)).trans (a12_2 m c)
theorem a12_4 : W4 m c (Proc.devRef .tc main_arg12) = W0 m c (Proc.devRef .tc main_arg12) := (st4 m c main_arg12 (by decide +kernel)).trans (a12_3 m c)
theorem a12_5 : W5 m c (Proc.devRef .tc main_arg12) = W0 m c (Proc.devRef .tc main_arg12) := (st5 m c main_arg12 (by decide +kernel)).trans (a12_4 m c)
theorem a12_6 : W6 m c (Proc.devRef .tc main_arg12) = W0 m c (Proc.devRef .tc main_arg12) := (st6 m c main_arg12 (by decide +kernel)).trans (a12_5 m c)
theorem a12_7 : W7 m c (Proc.devRef .tc main_arg12) = W0 m c (Proc.devRef .tc main_arg12) := (st7 m c main_arg12 (by decide +kernel)).trans (a12_6 m c)
theorem a12_8 : W8 m c (Proc.devRef .tc main_arg12) = W0 m c (Proc.devRef .tc main_arg12) := (st8 m c main_arg12 (by decide +kernel)).trans (a12_7 m c)
theorem a12_9 : W9 m c (Proc.devRef .tc main_arg12) = W0 m c (Proc.devRef .tc main_arg12) := (st9 m c main_arg12 (by decide +kernel)).trans (a12_8 m c)
theorem a12_10 : W10 m c (Proc.devRef .tc main_arg12) = W0 m c (Proc.devRef .tc main_arg12) := (st10 m c main_arg12 (by decide +kernel)).trans (a12_9 m c)
theorem a12_11 : W11 m c (Proc.devRef .tc main_arg12) = W0 m c (Proc.devRef .tc main_arg12) := (st11 m c main_arg12 (by decide +kernel)).trans (a12_10 m c)
theorem a12_12 : W12 m c (Proc.devRef .tc main_arg12) = W0 m c (Proc.devRef .tc main_arg12) := (st12 m c main_arg12 (by decide +kernel)).trans (a12_11 m c)
theorem a12_13 : W13 m c (Proc.devRef .tc main_arg12) = W0 m c (Proc.devRef .tc main_arg12) := (st13 m c main_arg12 (by decide +kernel)).trans (a12_12 m c)
theorem a12_14 : W14 m c (Proc.devRef .tc main_arg12) = W0 m c (Proc.devRef .tc main_arg12) := (st14 m c main_arg12 (by decide +kernel)).trans (a12_13 m c)
theorem a12_15 : W15 m c (Proc.devRef .tc main_arg12) = W0 m c (Proc.devRef .tc main_arg12) := (st15 m c main_arg12 (by decide +kernel)).trans (a12_14 m c)
theorem a12_16 : W16 m c (Proc.devRef .tc main_arg12) = W0 m c (Proc.devRef .tc main_arg12) := (st16 m c main_arg12 (by decide +kernel)).trans (a12_15 m c)
theorem a12_17 : W17 m c (Proc.devRef .tc main_arg12) = W0 m c (Proc.devRef .tc main_arg12) := (st17 m c main_arg12 (by decide +kernel)).trans (a12_16 m c)
theorem a12_18 : W18 m c (Proc.devRef .tc main_arg12) = W0 m c (Proc.devRef .tc main_arg12) := (st18 m c main_arg12 (by decide +kernel)).trans (a12_17 m c)
theorem a12_19 : W19 m c (Proc.devRef .tc main_arg12) = W0 m c (Proc.devRef .tc main_arg12) := (st19 m c main_arg12 (by decide +kernel)).trans (a12_18 m c)
theorem a12_20 : W20 m c (Proc.devRef .tc main_arg12) = W0 m c (Proc.devRef .tc main_arg12) := (st20 m c main_arg12 (by decide +kernel)).trans (a12_19 m c)
theorem a12_21 : W21 m c (Proc.devRef .tc main_arg12) = W0 m c (Proc.devRef .tc main_arg12) := (st21 m c main_arg12 (by decide +kernel)).trans (a12_20 m c)
theorem a12_22 : W22 m c (Proc.devRef .tc main_arg12) = W0 m c (Proc.devRef .tc main_arg12) := (st22 m c main_arg12 (by decide +kernel)).trans (a12_21 m c)
theorem a12_23 : W23 m c (Proc.devRef .tc main_arg12) = W0 m c (Proc.devRef .tc main_arg12) := (st23 m c main_arg12 (by decide +kernel)).trans (a12_22 m c)
theorem a12_24 : W24 m c (Proc.devRef .tc main_arg12) = W0 m c (Proc.devRef .tc main_arg12) := (st24 m c main_arg12 (by decide +kernel)).trans (a12_23 m c)
theorem a12_25 : W25 m c (Proc.devRef .tc main_arg12) = W0 m c (Proc.devRef .tc main_arg12) := (st25 m c main_arg12 (by decide +kernel)).trans (a12_24 m c)
theorem a12_26 : W26 m c (Proc.devRef .tc main_arg12) = W0 m c (Proc.devRef .tc main_arg12) := (st26 m c main_arg12 (by decide +kernel)).trans (a12_25 m c)
theorem a12_27 : W27 m c (Proc.devRef .tc main_arg12) = W0 m c (Proc.devRef .tc main_arg12) := (st27 m c main_arg12 (by decide +kernel)).trans (a12_26 m c)
theorem a12_28 : W28 m c (Proc.devRef .tc main_arg12) = W0 m c (Proc.devRef .tc main_arg12) := (st28 m c main_arg12 (by decide +kernel)).trans (a12_27 m c)
theorem a12_29 : W29 m c (Proc.devRef .tc main_arg12) = W0 m c (Proc.devRef .tc main_arg12) := (st29 m c main_arg12 (by decide +kernel)).trans (a12_28 m c)
theorem a12_30 : W30 m c (Proc.devRef .tc main_arg12) = W0 m c (Proc.devRef .tc main_arg12) := (st30 m c main_arg12 (by decide +kernel)).trans (a12_29 m c)
theorem a12_31 : W31 m c (Proc.devRef .tc main_arg12) = W0 m c (Proc.devRef .tc main_arg12) := (st31 m c main_arg12 (by decide +kernel)).trans (a12_30 m c)
theorem a12_32 : W32 m c (Proc.devRef .tc main_arg12) = W0 m c (Proc.devRef .tc main_arg12) := (st32 m c main_arg12 (by decide +kernel)).trans (a12_31 m c)
theorem a13_1 : W1 m c (Proc.devRef .tc main_arg13) = W0 m c (Proc.devRef .tc main_arg13) := (st1 m c main_arg13 (by decide +kernel))
theorem a13_2 : W2 m c (Proc.devRef .tc main_arg13) = W0 m c (Proc.devRef .tc main_arg13) := (st2 m c main_arg13 (by decide +kernel)).trans (a13_1 m c)
theorem a13_3 : W3 m c (Proc.devRef .tc main_arg13) = W0 m c (Proc.devRef .tc main_arg13) := (st3 m c main_arg13 (by decide +kernel)).trans (a13_2 m c)
theorem a13_4 : W4 m c (Proc.devRef .tc main_arg13) = W0 m c (Proc.devRef .tc main_arg13) := (st4 m c main_arg13 (by decide +kernel)).trans (a13_3 m c)
theorem a13_5 : W5 m c (Proc.devRef .tc main_arg13) = W0 m c (Proc.devRef .tc main_arg13) := (st5 m c main_arg13 (by decide +kernel)).trans (a13_4 m c)
theorem a13_6 : W6 m c (Proc.devRef .tc main_arg13) = W0 m c (Proc.devRef .tc main_arg13) := (st6 m c main_arg13 (by decide +kernel)).trans (a13_5 m c)
theorem a13_7 : W7 m c (Proc.devRef .tc main_arg13) = W0 m c (Proc.devRef .tc main_arg13) := (st7 m c main_arg13 (by decide +kernel)).trans (a13_6 m c)
theorem a13_8 : W8 m c (Proc.devRef .tc main_arg13) = W0 m c (Proc.devRef .tc main_arg13) := (st8 m c main_arg13 (by decide +kernel)).trans (a13_7 m c)
theorem a13_9 : W9 m c (Proc.devRef .tc main_arg13) = W0 m c (Proc.devRef .tc main_arg13) := (st9 m c main_arg13 (by decide +kernel)).trans (a13_8 m c)
theorem a13_10 : W10 m c (Proc.devRef .tc main_arg13) = W0 m c (Proc.devRef .tc main_arg13) := (st10 m c main_arg13 (by decide +kernel)).trans (a13_9 m c)
theorem a13_11 : W11 m c (Proc.devRef .tc main_arg13) = W0 m c (Proc.devRef .tc main_arg13) := (st11 m c main_arg13 (by decide +kernel)).trans (a13_10 m c)
theorem a13_12 : W12 m c (Proc.devRef .tc main_arg13) = W0 m c (Proc.devRef .tc main_arg13) := (st12 m c main_arg13 (by decide +kernel)).trans (a13_11 m c)
theorem a13_13 : W13 m c (Proc.devRef .tc main_arg13) = W0 m c (Proc.devRef .tc main_arg13) := (st13 m c main_arg13 (by decide +kernel)).trans (a13_12 m c)
theorem a13_14 : W14 m c (Proc.devRef .tc main_arg13) = W0 m c (Proc.devRef .tc main_arg13) := (st14 m c main_arg13 (by decide +kernel)).trans (a13_13 m c)
theorem a13_15 : W15 m c (Proc.devRef .tc main_arg13) = W0 m c (Proc.devRef .tc main_arg13) := (st15 m c main_arg13 (by decide +kernel)).trans (a13_14 m c)
theorem a13_16 : W16 m c (Proc.devRef .tc main_arg13) = W0 m c (Proc.devRef .tc main_arg13) := (st16 m c main_arg13 (by decide +kernel)).trans (a13_15 m c)
theorem a13_17 : W17 m c (Proc.devRef .tc main_arg13) = W0 m c (Proc.devRef .tc main_arg13) := (st17 m c main_arg13 (by decide +kernel)).trans (a13_16 m c)
theorem a13_18 : W18 m c (Proc.devRef .tc main_arg13) = W0 m c (Proc.devRef .tc main_arg13) := (st18 m c main_arg13 (by decide +kernel)).trans (a13_17 m c)
theorem a13_19 : W19 m c (Proc.devRef .tc main_arg13) = W0 m c (Proc.devRef .tc main_arg13) := (st19 m c main_arg13 (by decide +kernel)).trans (a13_18 m c)
theorem a13_20 : W20 m c (Proc.devRef .tc main_arg13) = W0 m c (Proc.devRef .tc main_arg13) := (st20 m c main_arg13 (by decide +kernel)).trans (a13_19 m c)
theorem a13_21 : W21 m c (Proc.devRef .tc main_arg13) = W0 m c (Proc.devRef .tc main_arg13) := (st21 m c main_arg13 (by decide +kernel)).trans (a13_20 m c)
theorem a13_22 : W22 m c (Proc.devRef .tc main_arg13) = W0 m c (Proc.devRef .tc main_arg13) := (st22 m c main_arg13 (by decide +kernel)).trans (a13_21 m c)
theorem a13_23 : W23 m c (Proc.devRef .tc main_arg13) = W0 m c (Proc.devRef .tc main_arg13) := (st23 m c main_arg13 (by decide +kernel)).trans (a13_22 m c)
theorem a13_24 : W24 m c (Proc.devRef .tc main_arg13) = W0 m c (Proc.devRef .tc main_arg13) := (st24 m c main_arg13 (by decide +kernel)).trans (a13_23 m c)
theorem a13_25 : W25 m c (Proc.devRef .tc main_arg13) = W0 m c (Proc.devRef .tc main_arg13) := (st25 m c main_arg13 (by decide +kernel)).trans (a13_24 m c)
theorem a13_26 : W26 m c (Proc.devRef .tc main_arg13) = W0 m c (Proc.devRef .tc main_arg13) := (st26 m c main_arg13 (by decide +kernel)).trans (a13_25 m c)
theorem a13_27 : W27 m c (Proc.devRef .tc main_arg13) = W0 m c (Proc.devRef .tc main_arg13) := (st27 m c main_arg13 (by decide +kernel)).trans (a13_26 m c)
theorem a13_28 : W28 m c (Proc.devRef .tc main_arg13) = W0 m c (Proc.devRef .tc main_arg13) := (st28 m c main_arg13 (by decide +kernel)).trans (a13_27 m c)
theorem a13_29 : W29 m c (Proc.devRef .tc main_arg13) = W0 m c (Proc.devRef .tc main_arg13) := (st29 m c main_arg13 (by decide +kernel)).trans (a13_28 m c)
theorem a13_30 : W30 m c (Proc.devRef .tc main_arg13) = W0 m c (Proc.devRef .tc main_arg13) := (st30 m c main_arg13 (by decide +kernel)).trans (a13_29 m c)
theorem a13_31 : W31 m c (Proc.devRef .tc main_arg13) = W0 m c (Proc.devRef .tc main_arg13) := (st31 m c main_arg13 (by decide +kernel)).trans (a13_30 m c)
theorem a13_32 : W32 m c (Proc.devRef .tc main_arg13) = W0 m c (Proc.devRef .tc main_arg13) := (st32 m c main_arg13 (by decide +kernel)).trans (a13_31 m c)
theorem a14_1 : W1 m c (Proc.devRef .tc main_arg14) = W0 m c (Proc.devRef .tc main_arg14) := (st1 m c main_arg14 (by decide +kernel))
theorem a14_2 : W2 m c (Proc.devRef .tc main_arg14) = W0 m c (Proc.devRef .tc main_arg14) := (st2 m c main_arg14 (by decide +kernel)).trans (a14_1 m c)
theorem a14_3 : W3 m c (Proc.devRef .tc main_arg14) = W0 m c (Proc.devRef .tc main_arg14) := (st3 m c main_arg14 (by decide +kernel)).trans (a14_2 m c)
theorem a14_4 : W4 m c (Proc.devRef .tc main_arg14) = W0 m c (Proc.devRef .tc main_arg14) := (st4 m c main_arg14 (by decide +kernel)).trans (a14_3 m c)
theorem a14_5 : W5 m c (Proc.devRef .tc main_arg14) = W0 m c (Proc.devRef .tc main_arg14) := (st5 m c main_arg14 (by decide +kernel)).trans (a14_4 m c)
theorem a14_6 : W6 m c (Proc.devRef .tc main_arg14) = W0 m c (Proc.devRef .tc main_arg14) := (st6 m c main_arg14 (by decide +kernel)).trans (a14_5 m c)
theorem a14_7 : W7 m c (Proc.devRef .tc main_arg14) = W0 m c (Proc.devRef .tc main_arg14) := (st7 m c main_arg14 (by decide +kernel)).trans (a14_6 m c)
theorem a14_8 : W8 m c (Proc.devRef .tc main_arg14) = W0 m c (Proc.devRef .tc main_arg14) := (st8 m c main_arg14 (by decide +kernel)).trans (a14_7 m c)
theorem a14_9 : W9 m c (Proc.devRef .tc main_arg14) = W0 m c (Proc.devRef .tc main_arg14) := (st9 m c main_arg14 (by decide +kernel)).trans (a14_8 m c)
theorem a14_10 : W10 m c (Proc.devRef .tc main_arg14) = W0 m c (Proc.devRef .tc main_arg14) := (st10 m c main_arg14 (by decide +kernel)).trans (a14_9 m c)
theorem a14_11 : W11 m c (Proc.devRef .tc main_arg14) = W0 m c (Proc.devRef .tc main_arg14) := (st11 m c main_arg14 (by decide +kernel)).trans (a14_10 m c)
theorem a14_12 : W12 m c (Proc.devRef .tc main_arg14) = W0 m c (Proc.devRef .tc main_arg14) := (st12 m c main_arg14 (by decide +kernel)).trans (a14_11 m c)
theorem a14_13 : W13 m c (Proc.devRef .tc main_arg14) = W0 m c (Proc.devRef .tc main_arg14) := (st13 m c main_arg14 (by decide +kernel)).trans (a14_12 m c)
theorem a14_14 : W14 m c (Proc.devRef .tc main_arg14) = W0 m c (Proc.devRef .tc main_arg14) := (st14 m c main_arg14 (by decide +kernel)).trans (a14_13 m c)
theorem a14_15 : W15 m c (Proc.devRef .tc main_arg14) = W0 m c (Proc.devRef .tc main_arg14) := (st15 m c main_arg14 (by decide +kernel)).trans (a14_14 m c)
theorem a14_16 : W16 m c (Proc.devRef .tc main_arg14) = W0 m c (Proc.devRef .tc main_arg14) := (st16 m c main_arg14 (by decide +kernel)).trans (a14_15 m c)
theorem a14_17 : W17 m c (Proc.devRef .tc main_arg14) = W0 m c (Proc.devRef .tc main_arg14) := (st17 m c main_arg14 (by decide +kernel)).trans (a14_16 m c)
theorem a14_18 : W18 m c (Proc.devRef .tc main_arg14) = W0 m c (Proc.devRef .tc main_arg14) := (st18 m c main_arg14 (by decide +kernel)).trans (a14_17 m c)
theorem a14_19 : W19 m c (Proc.devRef .tc main_arg14) = W0 m c (Proc.devRef .tc main_arg14) := (st19 m c main_arg14 (by decide +kernel)).trans (a14_18 m c)
theorem a14_20 : W20 m c (Proc.devRef .tc main_arg14) = W0 m c (Proc.devRef .tc main_arg14) := (st20 m c main_arg14 (by decide +kernel)).trans (a14_19 m c)
theorem a14_21 : W21 m c (Proc.devRef .tc main_arg14) = W0 m c (Proc.devRef .tc main_arg14) := (st21 m c main_arg14 (by decide +kernel)).trans (a14_20 m c)
theorem a14_22 : W22 m c (Proc.devRef .tc main_arg14) = W0 m c (Proc.devRef .tc main_arg14) := (st22 m c main_arg14 (by decide +kernel)).trans (a14_21 m c)
theorem a14_23 : W23 m c (Proc.devRef .tc main_arg14) = W0 m c (Proc.devRef .tc main_arg14) := (st23 m c main_arg14 (by decide +kernel)).trans (a14_22 m c)
theorem a14_24 : W24 m c (Proc.devRef .tc main_arg14) = W0 m c (Proc.devRef .tc main_arg14) := (st24 m c main_arg14 (by decide +kernel)).trans (a14_23 m c)
theorem a14_25 : W25 m c (Proc.devRef .tc main_arg14) = W0 m c (Proc.devRef .tc main_arg14) := (st25 m c main_arg14 (by decide +kernel)).trans (a14_24 m c)
theorem a14_26 : W26 m c (Proc.devRef .tc main_arg14) = W0 m c (Proc.devRef .tc main_arg14) := (st26 m c main_arg14 (by decide +kernel)).trans (a14_25 m c)
theorem a14_27 : W27 m c (Proc.devRef .tc main_arg14) = W0 m c (Proc.devRef .tc main_arg14) := (st27 m c main_arg14 (by decide +kernel)).trans (a14_26 m c)
theorem a14_28 : W28 m c (Proc.devRef .tc main_arg14) = W0 m c (Proc.devRef .tc main_arg14) := (st28 m c main_arg14 (by decide +kernel)).trans (a14_27 m c)
theorem a14_29 : W29 m c (Proc.devRef .tc main_arg14) = W0 m c (Proc.devRef .tc main_arg14) := (st29 m c main_arg14 (by decide +kernel)).trans (a14_28 m c)
theorem a14_30 : W30 m c (Proc.devRef .tc main_arg14) = W0 m c (Proc.devRef .tc main_arg14) := (st30 m c main_arg14 (by decide +kernel)).trans (a14_29 m c)
theorem a14_31 : W31 m c (Proc.devRef .tc main_arg14) = W0 m c (Proc.devRef .tc main_arg14) := (st31 m c main_arg14 (by decide +kernel)).trans (a14_30 m c)
theorem a14_32 : W32 m c (Proc.devRef .tc main_arg14) = W0 m c (Proc.devRef .tc main_arg14) := (st32 m c main_arg14 (by decide +kernel)).trans (a14_31 m c)
theorem a14_33 : W33 m c (Proc.devRef .tc main_arg14) = W0 m c (Proc.devRef .tc main_arg14) := (st33 m c main_arg14 (by decide +kernel)).trans (a14_32 m c)
theorem a14_34 : W34 m c (Proc.devRef .tc main_arg14) = W0 m c (Proc.devRef .tc main_arg14) := (st34 m c main_arg14 (by decide +kernel)).trans (a14_33 m c)
theorem a14_35 : W35 m c (Proc.devRef .tc main_arg14) = W0 m c (Proc.devRef .tc main_arg14) := (st35 m c main_arg14 (by decide +kernel)).trans (a14_34 m c)
theorem a14_36 : W36 m c (Proc.devRef .tc main_arg14) = W0 m c (Proc.devRef .tc main_arg14) := (st36 m c main_arg14 (by decide +kernel)).trans (a14_35 m c)
theorem a14_37 : W37 m c (Proc.devRef .tc main_arg14) = W0 m c (Proc.devRef .tc main_arg14) := (st37 m c main_arg14 (by decide +kernel)).trans (a14_36 m c)
theorem a14_38 : W38 m c (Proc.devRef .tc main_arg14) = W0 m c (Proc.devRef .tc main_arg14) := (st38 m c main_arg14 (by decide +kernel)).trans (a14_37 m c)
theorem a15_1 : W1 m c (Proc.devRef .tc main_arg15) = W0 m c (Proc.devRef .tc main_arg15) := (st1 m c main_arg15 (by decide +kernel))
theorem a15_2 : W2 m c (Proc.devRef .tc main_arg15) = W0 m c (Proc.devRef .tc main_arg15) := (st2 m c main_arg15 (by decide +kernel)).trans (a15_1 m c)
theorem a15_3 : W3 m c (Proc.devRef .tc main_arg15) = W0 m c (Proc.devRef .tc main_arg15) := (st3 m c main_arg15 (by decide +kernel)).trans (a15_2 m c)
theorem a15_4 : W4 m c (Proc.devRef .tc main_arg15) = W0 m c (Proc.devRef .tc main_arg15) := (st4 m c main_arg15 (by decide +kernel)).trans (a15_3 m c)
theorem a15_5 : W5 m c (Proc.devRef .tc main_arg15) = W0 m c (Proc.devRef .tc main_arg15) := (st5 m c main_arg15 (by decide +kernel)).trans (a15_4 m c)
theorem a15_6 : W6 m c (Proc.devRef .tc main_arg15) = W0 m c (Proc.devRef .tc main_arg15) := (st6 m c main_arg15 (by decide +kernel)).trans (a15_5 m c)
theorem a15_7 : W7 m c (Proc.devRef .tc main_arg15) = W0 m c (Proc.devRef .tc main_arg15) := (st7 m c main_arg15 (by decide +kernel)).trans (a15_6 m c)
theorem a15_8 : W8 m c (Proc.devRef .tc main_arg15) = W0 m c (Proc.devRef .tc main_arg15) := (st8 m c main_arg15 (by decide +kernel)).trans (a15_7 m c)
theorem a15_9 : W9 m c (Proc.devRef .tc main_arg15) = W0 m c (Proc.devRef .tc main_arg15) := (st9 m c main_arg15 (by decide +kernel)).trans (a15_8 m c)
theorem a15_10 : W10 m c (Proc.devRef .tc main_arg15) = W0 m c (Proc.devRef .tc main_arg15) := (st10 m c main_arg15 (by decide +kernel)).trans (a15_9 m c)
theorem a15_11 : W11 m c (Proc.devRef .tc main_arg15) = W0 m c (Proc.devRef .tc main_arg15) := (st11 m c main_arg15 (by decide +kernel)).trans (a15_10 m c)
theorem a15_12 : W12 m c (Proc.devRef .tc main_arg15) = W0 m c (Proc.devRef .tc main_arg15) := (st12 m c main_arg15 (by decide +kernel)).trans (a15_11 m c)
theorem a15_13 : W13 m c (Proc.devRef .tc main_arg15) = W0 m c (Proc.devRef .tc main_arg15) := (st13 m c main_arg15 (by decide +kernel)).trans (a15_12 m c)
theorem a15_14 : W14 m c (Proc.devRef .tc main_arg15) = W0 m c (Proc.devRef .tc main_arg15) := (st14 m c main_arg15 (by decide +kernel)).trans (a15_13 m c)
theorem a15_15 : W15 m c (Proc.devRef .tc main_arg15) = W0 m c (Proc.devRef .tc main_arg15) := (st15 m c main_arg15 (by decide +kernel)).trans (a15_14 m c)
theorem a15_16 : W16 m c (Proc.devRef .tc main_arg15) = W0 m c (Proc.devRef .tc main_arg15) := (st16 m c main_arg15 (by decide +kernel)).trans (a15_15 m c)
theorem a15_17 : W17 m c (Proc.devRef .tc main_arg15) = W0 m c (Proc.devRef .tc main_arg15) := (st17 m c main_arg15 (by decide +kernel)).trans (a15_16 m c)
theorem a15_18 : W18 m c (Proc.devRef .tc main_arg15) = W0 m c (Proc.devRef .tc main_arg15) := (st18 m c main_arg15 (by decide +kernel)).trans (a15_17 m c)
theorem a15_19 : W19 m c (Proc.devRef .tc main_arg15) = W0 m c (Proc.devRef .tc main_arg15) := (st19 m c main_arg15 (by decide +kernel)).trans (a15_18 m c)
theorem a15_20 : W20 m c (Proc.devRef .tc main_arg15) = W0 m c (Proc.devRef .tc main_arg15) := (st20 m c main_arg15 (by decide +kernel)).trans (a15_19 m c)
theorem a15_21 : W21 m c (Proc.devRef .tc main_arg15) = W0 m c (Proc.devRef .tc main_arg15) := (st21 m c main_arg15 (by decide +kernel)).trans (a15_20 m c)
theorem a15_22 : W22 m c (Proc.devRef .tc main_arg15) = W0 m c (Proc.devRef .tc main_arg15) := (st22 m c main_arg15 (by decide +kernel)).trans (a15_21 m c)
theorem a15_23 : W23 m c (Proc.devRef .tc main_arg15) = W0 m c (Proc.devRef .tc main_arg15) := (st23 m c main_arg15 (by decide +kernel)).trans (a15_22 m c)
theorem a15_24 : W24 m c (Proc.devRef .tc main_arg15) = W0 m c (Proc.devRef .tc main_arg15) := (st24 m c main_arg15 (by decide +kernel)).trans (a15_23 m c)
theorem a15_25 : W25 m c (Proc.devRef .tc main_arg15) = W0 m c (Proc.devRef .tc main_arg15) := (st25 m c main_arg15 (by decide +kernel)).trans (a15_24 m c)
theorem a15_26 : W26 m c (Proc.devRef .tc main_arg15) = W0 m c (Proc.devRef .tc main_arg15) := (st26 m c main_arg15 (by decide +kernel)).trans (a15_25 m c)
theorem a15_27 : W27 m c (Proc.devRef .tc main_arg15) = W0 m c (Proc.devRef .tc main_arg15) := (st27 m c main_arg15 (by decide +kernel)).trans (a15_26 m c)
theorem a15_28 : W28 m c (Proc.devRef .tc main_arg15) = W0 m c (Proc.devRef .tc main_arg15) := (st28 m c main_arg15 (by decide +kernel)).trans (a15_27 m c)
theorem a15_29 : W29 m c (Proc.devRef .tc main_arg15) = W0 m c (Proc.devRef .tc main_arg15) := (st29 m c main_arg15 (by decide +kernel)).trans (a15_28 m c)
theorem a15_30 : W30 m c (Proc.devRef .tc main_arg15) = W0 m c (Proc.devRef .tc main_arg15) := (st30 m c main_arg15 (by decide +kernel)).trans (a15_29 m c)
theorem a15_31 : W31 m c (Proc.devRef .tc main_arg15) = W0 m c (Proc.devRef .tc main_arg15) := (st31 m c main_arg15 (by decide +kernel)).trans (a15_30 m c)
theorem a15_32 : W32 m c (Proc.devRef .tc main_arg15) = W0 m c (Proc.devRef .tc main_arg15) := (st32 m c main_arg15 (by decide +kernel)).trans (a15_31 m c)
theorem a15_33 : W33 m c (Proc.devRef .tc main_arg15) = W0 m c (Proc.devRef .tc main_arg15) := (st33 m c main_arg15 (by decide +kernel)).trans (a15_32 m c)
theorem a15_34 : W34 m c (Proc.devRef .tc main_arg15) = W0 m c (Proc.devRef .tc main_arg15) := (st34 m c main_arg15 (by decide +kernel)).trans (a15_33 m c)
theorem a15_35 : W35 m c (Proc.devRef .tc main_arg15) = W0 m c (Proc.devRef .tc main_arg15) := (st35 m c main_arg15 (by decide +kernel)).trans (a15_34 m c)
theorem a15_36 : W36 m c (Proc.devRef .tc main_arg15) = W0 m c (Proc.devRef .tc main_arg15) := (st36 m c main_arg15 (by decide +kernel)).trans (a15_35 m c)
theorem a15_37 : W37 m c (Proc.devRef .tc main_arg15) = W0 m c (Proc.devRef .tc main_arg15) := (st37 m c main_arg15 (by decide +kernel)).trans (a15_36 m c)
theorem a15_38 : W38 m c (Proc.devRef .tc main_arg15) = W0 m c (Proc.devRef .tc main_arg15) := (st38 m c main_arg15 (by decide +kernel)).trans (a15_37 m c)
theorem a16_1 : W1 m c (Proc.devRef .tc main_arg16) = W0 m c (Proc.devRef .tc main_arg16) := (st1 m c main_arg16 (by decide +kernel))
theorem a16_2 : W2 m c (Proc.devRef .tc main_arg16) = W0 m c (Proc.devRef .tc main_arg16) := (st2 m c main_arg16 (by decide +kernel)).trans (a16_1 m c)
theorem a16_3 : W3 m c (Proc.devRef .tc main_arg16) = W0 m c (Proc.devRef .tc main_arg16) := (st3 m c main_arg16 (by decide +kernel)).trans (a16_2 m c)
theorem a16_4 : W4 m c (Proc.devRef .tc main_arg16) = W0 m c (Proc.devRef .tc main_arg16) := (st4 m c main_arg16 (by decide +kernel)).trans (a16_3 m c)
theorem a16_5 : W5 m c (Proc.devRef .tc main_arg16) = W0 m c (Proc.devRef .tc main_arg16) := (st5 m c main_arg16 (by decide +kernel)).trans (a16_4 m c)
theorem a16_6 : W6 m c (Proc.devRef .tc main_arg16) = W0 m c (Proc.devRef .tc main_arg16) := (st6 m c main_arg16 (by decide +kernel)).trans (a16_5 m c)
theorem a16_7 : W7 m c (Proc.devRef .tc main_arg16) = W0 m c (Proc.devRef .tc main_arg16) := (st7 m c main_arg16 (by decide +kernel)).trans (a16_6 m c)
theorem a16_8 : W8 m c (Proc.devRef .tc main_arg16) = W0 m c (Proc.devRef .tc main_arg16) := (st8 m c main_arg16 (by decide +kernel)).trans (a16_7 m c)
theorem a16_9 : W9 m c (Proc.devRef .tc main_arg16) = W0 m c (Proc.devRef .tc main_arg16) := (st9 m c main_arg16 (by decide +kernel)).trans (a16_8 m c)
theorem a16_10 : W10 m c (Proc.devRef .tc main_arg16) = W0 m c (Proc.devRef .tc main_arg16) := (st10 m c main_arg16 (by decide +kernel)).trans (a16_9 m c)
theorem a16_11 : W11 m c (Proc.devRef .tc main_arg16) = W0 m c (Proc.devRef .tc main_arg16) := (st11 m c main_arg16 (by decide +kernel)).trans (a16_10 m c)
theorem a16_12 : W12 m c (Proc.devRef .tc main_arg16) = W0 m c (Proc.devRef .tc main_arg16) := (st12 m c main_arg16 (by decide +kernel)).trans (a16_11 m c)
theorem a16_13 : W13 m c (Proc.devRef .tc main_arg16) = W0 m c (Proc.devRef .tc main_arg16) := (st13 m c main_arg16 (by decide +kernel)).trans (a16_12 m c)
theorem a16_14 : W14 m c (Proc.devRef .tc main_arg16) = W0 m c (Proc.devRef .tc main_arg16) := (st14 m c main_arg16 (by decide +kernel)).trans (a16_13 m c)
theorem a16_15 : W15 m c (Proc.devRef .tc main_arg16) = W0 m c (Proc.devRef .tc main_arg16) := (st15 m c main_arg16 (by decide +kernel)).trans (a16_14 m c)
theorem a16_16 : W16 m c (Proc.devRef .tc main_arg16) = W0 m c (Proc.devRef .tc main_arg16) := (st16 m c main_arg16 (by decide +kernel)).trans (a16_15 m c)
theorem a16_17 : W17 m c (Proc.devRef .tc main_arg16) = W0 m c (Proc.devRef .tc main_arg16) := (st17 m c main_arg16 (by decide +kernel)).trans (a16_16 m c)
theorem a16_18 : W18 m c (Proc.devRef .tc main_arg16) = W0 m c (Proc.devRef .tc main_arg16) := (st18 m c main_arg16 (by decide +kernel)).trans (a16_17 m c)
theorem a16_19 : W19 m c (Proc.devRef .tc main_arg16) = W0 m c (Proc.devRef .tc main_arg16) := (st19 m c main_arg16 (by decide +kernel)).trans (a16_18 m c)
theorem a16_20 : W20 m c (Proc.devRef .tc main_arg16) = W0 m c (Proc.devRef .tc main_arg16) := (st20 m c main_arg16 (by decide +kernel)).trans (a16_19 m c)
theorem a16_21 : W21 m c (Proc.devRef .tc main_arg16) = W0 m c (Proc.devRef .tc main_arg16) := (st21 m c main_arg16 (by decide +kernel)).trans (a16_20 m c)
theorem a16_22 : W22 m c (Proc.devRef .tc main_arg16) = W0 m c (Proc.devRef .tc main_arg16) := (st22 m c main_arg16 (by decide +kernel)).trans (a16_21 m c)
theorem a16_23 : W23 m c (Proc.devRef .tc main_arg16) = W0 m c (Proc.devRef .tc main_arg16) := (st23 m c main_arg16 (by decide +kernel)).trans (a16_22 m c)
theorem a16_24 : W24 m c (Proc.devRef .tc main_arg16) = W0 m c (Proc.devRef .tc main_arg16) := (st24 m c main_arg16 (by decide +kernel)).trans (a16_23 m c)
theorem a16_25 : W25 m c (Proc.devRef .tc main_arg16) = W0 m c (Proc.devRef .tc main_arg16) := (st25 m c main_arg16 (by decide +kernel)).trans (a16_24 m c)
theorem a16_26 : W26 m c (Proc.devRef .tc main_arg16) = W0 m c (Proc.devRef .tc main_arg16) := (st26 m c main_arg16 (by decide +kernel)).trans (a16_25 m c)
theorem a16_27 : W27 m c (Proc.devRef .tc main_arg16) = W0 m c (Proc.devRef .tc main_arg16) := (st27 m c main_arg16 (by decide +kernel)).trans (a16_26 m c)
theorem a16_28 : W28 m c (Proc.devRef .tc main_arg16) = W0 m c (Proc.devRef .tc main_arg16) := (st28 m c main_arg16 (by decide +kernel)).trans (a16_27 m c)
theorem a16_29 : W29 m c (Proc.devRef .tc main_arg16) = W0 m c (Proc.devRef .tc main_arg16) := (st29 m c main_arg16 (by decide +kernel)).trans (a16_28 m c)
theorem a16_30 : W30 m c (Proc.devRef .tc main_arg16) = W0 m c (Proc.devRef .tc main_arg16) := (st30 m c main_arg16 (by decide +kernel)).trans (a16_29 m c)
theorem a16_31 : W31 m c (Proc.devRef .tc main_arg16) = W0 m c (Proc.devRef .tc main_arg16) := (st31 m c main_arg16 (by decide +kernel)).trans (a16_30 m c)
theorem a16_32 : W32 m c (Proc.devRef .tc main_arg16) = W0 m c (Proc.devRef .tc main_arg16) := (st32 m c main_arg16 (by decide +kernel)).trans (a16_31 m c)
theorem a16_33 : W33 m c (Proc.devRef .tc main_arg16) = W0 m c (Proc.devRef .tc main_arg16) := (st33 m c main_arg16 (by decide +kernel)).trans (a16_32 m c)
theorem a16_34 : W34 m c (Proc.devRef .tc main_arg16) = W0 m c (Proc.devRef .tc main_arg16) := (st34 m c main_arg16 (by decide +kernel)).trans (a16_33 m c)
theorem a17_1 : W1 m c (Proc.devRef .tc main_arg17) = W0 m c (Proc.devRef .tc main_arg17) := (st1 m c main_arg17 (by decide +kernel))
theorem a17_2 : W2 m c (Proc.devRef .tc main_arg17) = W0 m c (Proc.devRef .tc main_arg17) := (st2 m c main_arg17 (by decide +kernel)).trans (a17_1 m c)
theorem a17_3 : W3 m c (Proc.devRef .tc main_arg17) = W0 m c (Proc.devRef .tc main_arg17) := (st3 m c main_arg17 (by decide +kernel)).trans (a17_2 m c)
theorem a17_4 : W4 m c (Proc.devRef .tc main_arg17) = W0 m c (Proc.devRef .tc main_arg17) := (st4 m c main_arg17 (by decide +kernel)).trans (a17_3 m c)
theorem a17_5 : W5 m c (Proc.devRef .tc main_arg17) = W0 m c (Proc.devRef .tc main_arg17) := (st5 m c main_arg17 (by decide +kernel)).trans (a17_4 m c)
theorem a17_6 : W6 m c (Proc.devRef .tc main_arg17) = W0 m c (Proc.devRef .tc main_arg17) := (st6 m c main_arg17 (by decide +kernel)).trans (a17_5 m c)
theorem a17_7 : W7 m c (Proc.devRef .tc main_arg17) = W0 m c (Proc.devRef .tc main_arg17) := (st7 m c main_arg17 (by decide +kernel)).trans (a17_6 m c)
theorem a17_8 : W8 m c (Proc.devRef .tc main_arg17) = W0 m c (Proc.devRef .tc main_arg17) := (st8 m c main_arg17 (by decide +kernel)).trans (a17_7 m c)
theorem a17_9 : W9 m c (Proc.devRef .tc main_arg17) = W0 m c (Proc.devRef .tc main_arg17) := (st9 m c main_arg17 (by decide +kernel)).trans (a17_8 m c)
theorem a17_10 : W10 m c (Proc.devRef .tc main_arg17) = W0 m c (Proc.devRef .tc main_arg17) := (st10 m c main_arg17 (by decide +kernel)).trans (a17_9 m c)
theorem a17_11 : W11 m c (Proc.devRef .tc main_arg17) = W0 m c (Proc.devRef .tc main_arg17) := (st11 m c main_arg17 (by decide +kernel)).trans (a17_10 m c)
theorem a17_12 : W12 m c (Proc.devRef .tc main_arg17) = W0 m c (Proc.devRef .tc main_arg17) := (st12 m c main_arg17 (by decide +kernel)).trans (a17_11 m c)
theorem a17_13 : W13 m c (Proc.devRef .tc main_arg17) = W0 m c (Proc.devRef .tc main_arg17) := (st13 m c main_arg17 (by decide +kernel)).trans (a17_12 m c)
theorem a17_14 : W14 m c (Proc.devRef .tc main_arg17) = W0 m c (Proc.devRef .tc main_arg17) := (st14 m c main_arg17 (by decide +kernel)).trans (a17_13 m c)
theorem a17_15 : W15 m c (Proc.devRef .tc main_arg17) = W0 m c (Proc.devRef .tc main_arg17) := (st15 m c main_arg17 (by decide +kernel)).trans (a17_14 m c)
theorem a17_16 : W16 m c (Proc.devRef .tc main_arg17) = W0 m c (Proc.devRef .tc main_arg17) := (st16 m c main_arg17 (by decide +kernel)).trans (a17_15 m c)
theorem a17_17 : W17 m c (Proc.devRef .tc main_arg17) = W0 m c (Proc.devRef .tc main_arg17) := (st17 m c main_arg17 (by decide +kernel)).trans (a17_16 m c)
theorem a17_18 : W18 m c (Proc.devRef .tc main_arg17) = W0 m c (Proc.devRef .tc main_arg17) := (st18 m c main_arg17 (by decide +kernel)).trans (a17_17 m c)
theorem a17_19 : W19 m c (Proc.devRef .tc main_arg17) = W0 m c (Proc.devRef .tc main_arg17) := (st19 m c main_arg17 (by decide +kernel)).trans (a17_18 m c)
theorem a17_20 : W20 m c (Proc.devRef .tc main_arg17) = W0 m c (Proc.devRef .tc main_arg17) := (st20 m c main_arg17 (by decide +kernel)).trans (a17_19 m c)
theorem a17_21 : W21 m c (Proc.devRef .tc main_arg17) = W0 m c (Proc.devRef .tc main_arg17) := (st21 m c main_arg17 (by decide +kernel)).trans (a17_20 m c)
theorem a17_22 : W22 m c (Proc.devRef .tc main_arg17) = W0 m c (Proc.devRef .tc main_arg17) := (st22 m c main_arg17 (by decide +kernel)).trans (a17_21 m c)
theorem a17_23 : W23 m c (Proc.devRef .tc main_arg17) = W0 m c (Proc.devRef .tc main_arg17) := (st23 m c main_arg17 (by decide +kernel)).trans (a17_22 m c)
theorem a17_24 : W24 m c (Proc.devRef .tc main_arg17) = W0 m c (Proc.devRef .tc main_arg17) := (st24 m c main_arg17 (by decide +kernel)).trans (a17_23 m c)
theorem a17_25 : W25 m c (Proc.devRef .tc main_arg17) = W0 m c (Proc.devRef .tc main_arg17) := (st25 m c main_arg17 (by decide +kernel)).trans (a17_24 m c)
theorem a17_26 : W26 m c (Proc.devRef .tc main_arg17) = W0 m c (Proc.devRef .tc main_arg17) := (st26 m c main_arg17 (by decide +kernel)).trans (a17_25 m c)
theorem a17_27 : W27 m c (Proc.devRef .tc main_arg17) = W0 m c (Proc.devRef .tc main_arg17) := (st27 m c main_arg17 (by decide +kernel)).trans (a17_26 m c)
theorem a17_28 : W28 m c (Proc.devRef .tc main_arg17) = W0 m c (Proc.devRef .tc main_arg17) := (st28 m c main_arg17 (by decide +kernel)).trans (a17_27 m c)
theorem a17_29 : W29 m c (Proc.devRef .tc main_arg17) = W0 m c (Proc.devRef .tc main_arg17) := (st29 m c main_arg17 (by decide +kernel)).trans (a17_28 m c)
theorem a17_30 : W30 m c (Proc.devRef .tc main_arg17) = W0 m c (Proc.devRef .tc main_arg17) := (st30 m c main_arg17 (by decide +kernel)).trans (a17_29 m c)
theorem a17_31 : W31 m c (Proc.devRef .tc main_arg17) = W0 m c (Proc.devRef .tc main_arg17) := (st31 m c main_arg17 (by decide +kernel)).trans (a17_30 m c)
theorem a17_32 : W32 m c (Proc.devRef .tc main_arg17) = W0 m c (Proc.devRef .tc main_arg17) := (st32 m c main_arg17 (by decide +kernel)).trans (a17_31 m c)
theorem a17_33 : W33 m c (Proc.devRef .tc main_arg17) = W0 m c (Proc.devRef .tc main_arg17) := (st33 m c main_arg17 (by decide +kernel)).trans (a17_32 m c)
theorem a17_34 : W34 m c (Proc.devRef .tc main_arg17) = W0 m c (Proc.devRef .tc main_arg17) := (st34 m c main_arg17 (by decide +kernel)).trans (a17_33 m c)
theorem a18_1 : W1 m c (Proc.devRef .tc main_arg18) = W0 m c (Proc.devRef .tc main_arg18) := (st1 m c main_arg18 (by decide +kernel))
theorem a18_2 : W2 m c (Proc.devRef .tc main_arg18) = W0 m c (Proc.devRef .tc main_arg18) := (st2 m c main_arg18 (by decide +kernel)).trans (a18_1 m c)
theorem a18_3 : W3 m c (Proc.devRef .tc main_arg18) = W0 m c (Proc.devRef .tc main_arg18) := (st3 m c main_arg18 (by decide +kernel)).trans (a18_2 m c)
theorem a18_4 : W4 m c (Proc.devRef .tc main_arg18) = W0 m c (Proc.devRef .tc main_arg18) := (st4 m c main_arg18 (by decide +kernel)).trans (a18_3 m c)
theorem a18_5 : W5 m c (Proc.devRef .tc main_arg18) = W0 m c (Proc.devRef .tc main_arg18) := (st5 m c main_arg18 (by decide +kernel)).trans (a18_4 m c)
theorem a18_6 : W6 m c (Proc.devRef .tc main_arg18) = W0 m c (Proc.devRef .tc main_arg18) := (st6 m c main_arg18 (by decide +kernel)).trans (a18_5 m c)
theorem a18_7 : W7 m c (Proc.devRef .tc main_arg18) = W0 m c (Proc.devRef .tc main_arg18) := (st7 m c main_arg18 (by decide +kernel)).trans (a18_6 m c)
theorem a18_8 : W8 m c (Proc.devRef .tc main_arg18) = W0 m c (Proc.devRef .tc main_arg18) := (st8 m c main_arg18 (by decide +kernel)).trans (a18_7 m c)
theorem a18_9 : W9 m c (Proc.devRef .tc main_arg18) = W0 m c (Proc.devRef .tc main_arg18) := (st9 m c main_arg18 (by decide +kernel)).trans (a18_8 m c)
theorem a18_10 : W10 m c (Proc.devRef .tc main_arg18) = W0 m c (Proc.devRef .tc main_arg18) := (st10 m c main_arg18 (by decide +kernel)).trans (a18_9 m c)
theorem a18_11 : W11 m c (Proc.devRef .tc main_arg18) = W0 m c (Proc.devRef .tc main_arg18) := (st11 m c main_arg18 (by decide +kernel)).trans (a18_10 m c)
theorem a18_12 : W12 m c (Proc.devRef .tc main_arg18) = W0 m c (Proc.devRef .tc main_arg18) := (st12 m c main_arg18 (by decide +kernel)).trans (a18_11 m c)
theorem a18_13 : W13 m c (Proc.devRef .tc main_arg18) = W0 m c (Proc.devRef .tc main_arg18) := (st13 m c main_arg18 (by decide +kernel)).trans (a18_12 m c)
theorem a18_14 : W14 m c (Proc.devRef .tc main_arg18) = W0 m c (Proc.devRef .tc main_arg18) := (st14 m c main_arg18 (by decide +kernel)).trans (a18_13 m c)
theorem a18_15 : W15 m c (Proc.devRef .tc main_arg18) = W0 m c (Proc.devRef .tc main_arg18) := (st15 m c main_arg18 (by decide +kernel)).trans (a18_14 m c)
theorem a18_16 : W16 m c (Proc.devRef .tc main_arg18) = W0 m c (Proc.devRef .tc main_arg18) := (st16 m c main_arg18 (by decide +kernel)).trans (a18_15 m c)
theorem a18_17 : W17 m c (Proc.devRef .tc main_arg18) = W0 m c (Proc.devRef .tc main_arg18) := (st17 m c main_arg18 (by decide +kernel)).trans (a18_16 m c)
theorem a18_18 : W18 m c (Proc.devRef .tc main_arg18) = W0 m c (Proc.devRef .tc main_arg18) := (st18 m c main_arg18 (by decide +kernel)).trans (a18_17 m c)
theorem a18_19 : W19 m c (Proc.devRef .tc main_arg18) = W0 m c (Proc.devRef .tc main_arg18) := (st19 m c main_arg18 (by decide +kernel)).trans (a18_18 m c)
theorem a18_20 : W20 m c (Proc.devRef .tc main_arg18) = W0 m c (Proc.devRef .tc main_arg18) := (st20 m c main_arg18 (by decide +kernel)).trans (a18_19 m c)
theorem a18_21 : W21 m c (Proc.devRef .tc main_arg18) = W0 m c (Proc.devRef .tc main_arg18) := (st21 m c main_arg18 (by decide +kernel)).trans (a18_20 m c)
theorem a18_22 : W22 m c (Proc.devRef .tc main_arg18) = W0 m c (Proc.devRef .tc main_arg18) := (st22 m c main_arg18 (by decide +kernel)).trans (a18_21 m c)
theorem a18_23 : W23 m c (Proc.devRef .tc main_arg18) = W0 m c (Proc.devRef .tc main_arg18) := (st23 m c main_arg18 (by decide +kernel)).trans (a18_22 m c)
theorem a18_24 : W24 m c (Proc.devRef .tc main_arg18) = W0 m c (Proc.devRef .tc main_arg18) := (st24 m c main_arg18 (by decide +kernel)).trans (a18_23 m c)
theorem a18_25 : W25 m c (Proc.devRef .tc main_arg18) = W0 m c (Proc.devRef .tc main_arg18) := (st25 m c main_arg18 (by decide +kernel)).trans (a18_24 m c)
theorem a18_26 : W26 m c (Proc.devRef .tc main_arg18) = W0 m c (Proc.devRef .tc main_arg18) := (st26 m c main_arg18 (by decide +kernel)).trans (a18_25 m c)
theorem a18_27 : W27 m c (Proc.devRef .tc main_arg18) = W0 m c (Proc.devRef .tc main_arg18) := (st27 m c main_arg18 (by decide +kernel)).trans (a18_26 m c)
theorem a18_28 : W28 m c (Proc.devRef .tc main_arg18) = W0 m c (Proc.devRef .tc main_arg18) := (st28 m c main_arg18 (by decide +kernel)).trans (a18_27 m c)
theorem a18_29 : W29 m c (Proc.devRef .tc main_arg18) = W0 m c (Proc.devRef .tc main_arg18) := (st29 m c main_arg18 (by decide +kernel)).trans (a18_28 m c)
theorem a18_30 : W30 m c (Proc.devRef .tc main_arg18) = W0 m c (Proc.devRef .tc main_arg18) := (st30 m c main_arg18 (by decide +kernel)).trans (a18_29 m c)
theorem a18_31 : W31 m c (Proc.devRef .tc main_arg18) = W0 m c (Proc.devRef .tc main_arg18) := (st31 m c main_arg18 (by decide +kernel)).trans (a18_30 m c)
theorem a18_32 : W32 m c (Proc.devRef .tc main_arg18) = W0 m c (Proc.devRef .tc main_arg18) := (st32 m c main_arg18 (by decide +kernel)).trans (a18_31 m c)
theorem a18_33 : W33 m c (Proc.devRef .tc main_arg18) = W0 m c (Proc.devRef .tc main_arg18) := (st33 m c main_arg18 (by decide +kernel)).trans (a18_32 m c)
theorem a18_34 : W34 m c (Proc.devRef .tc main_arg18) = W0 m c (Proc.devRef .tc main_arg18) := (st34 m c main_arg18 (by decide +kernel)).trans (a18_33 m c)
theorem a18_35 : W35 m c (Proc.devRef .tc main_arg18) = W0 m c (Proc.devRef .tc main_arg18) := (st35 m c main_arg18 (by decide +kernel)).trans (a18_34 m c)
theorem a18_36 : W36 m c (Proc.devRef .tc main_arg18) = W0 m c (Proc.devRef .tc main_arg18) := (st36 m c main_arg18 (by decide +kernel)).trans (a18_35 m c)
theorem a18_37 : W37 m c (Proc.devRef .tc main_arg18) = W0 m c (Proc.devRef .tc main_arg18) := (st37 m c main_arg18 (by decide +kernel)).trans (a18_36 m c)
theorem a18_38 : W38 m c (Proc.devRef .tc main_arg18) = W0 m c (Proc.devRef .tc main_arg18) := (st38 m c main_arg18 (by decide +kernel)).trans (a18_37 m c)
theorem a18_39 : W39 m c (Proc.devRef .tc main_arg18) = W0 m c (Proc.devRef .tc main_arg18) := (st39 m c main_arg18 (by decide +kernel)).trans (a18_38 m c)
theorem a18_40 : W40 m c (Proc.devRef .tc main_arg18) = W0 m c (Proc.devRef .tc main_arg18) := (st40 m c main_arg18 (by decide +kernel)).trans (a18_39 m c)
theorem a19_1 : W1 m c (Proc.devRef .tc main_arg19) = W0 m c (Proc.devRef .tc main_arg19) := (st1 m c main_arg19 (by decide +kernel))
theorem a19_2 : W2 m c (Proc.devRef .tc main_arg19) = W0 m c (Proc.devRef .tc main_arg19) := (st2 m c main_arg19 (by decide +kernel)).trans (a19_1 m c)
theorem a19_3 : W3 m c (Proc.devRef .tc main_arg19) = W0 m c (Proc.devRef .tc main_arg19) := (st3 m c main_arg19 (by decide +kernel)).trans (a19_2 m c)
theorem a19_4 : W4 m c (Proc.devRef .tc main_arg19) = W0 m c (Proc.devRef .tc main_arg19) := (st4 m c main_arg19 (by decide +kernel)).trans (a19_3 m c)
theorem a19_5 : W5 m c (Proc.devRef .tc main_arg19) = W0 m c (Proc.devRef .tc main_arg19) := (st5 m c main_arg19 (by decide +kernel)).trans (a19_4 m c)
theorem a19_6 : W6 m c (Proc.devRef .tc main_arg19) = W0 m c (Proc.devRef .tc main_arg19) := (st6 m c main_arg19 (by decide +kernel)).trans (a19_5 m c)
theorem a19_7 : W7 m c (Proc.devRef .tc main_arg19) = W0 m c (Proc.devRef .tc main_arg19) := (st7 m c main_arg19 (by decide +kernel)).trans (a19_6 m c)
theorem a19_8 : W8 m c (Proc.devRef .tc main_arg19) = W0 m c (Proc.devRef .tc main_arg19) := (st8 m c main_arg19 (by decide +kernel)).trans (a19_7 m c)
theorem a19_9 : W9 m c (Proc.devRef .tc main_arg19) = W0 m c (Proc.devRef .tc main_arg19) := (st9 m c main_arg19 (by decide +kernel)).trans (a19_8 m c)
theorem a19_10 : W10 m c (Proc.devRef .tc main_arg19) = W0 m c (Proc.devRef .tc main_arg19) := (st10 m c main_arg19 (by decide +kernel)).trans (a19_9 m c)
theorem a19_11 : W11 m c (Proc.devRef .tc main_arg19) = W0 m c (Proc.devRef .tc main_arg19) := (st11 m c main_arg19 (by decide +kernel)).trans (a19_10 m c)
theorem a19_12 : W12 m c (Proc.devRef .tc main_arg19) = W0 m c (Proc.devRef .tc main_arg19) := (st12 m c main_arg19 (by decide +kernel)).trans (a19_11 m c)
theorem a19_13 : W13 m c (Proc.devRef .tc main_arg19) = W0 m c (Proc.devRef .tc main_arg19) := (st13 m c main_arg19 (by decide +kernel)).trans (a19_12 m c)
theorem a19_14 : W14 m c (Proc.devRef .tc main_arg19) = W0 m c (Proc.devRef .tc main_arg19) := (st14 m c main_arg19 (by decide +kernel)).trans (a19_13 m c)
theorem a19_15 : W15 m c (Proc.devRef .tc main_arg19) = W0 m c (Proc.devRef .tc main_arg19) := (st15 m c main_arg19 (by decide +kernel)).trans (a19_14 m c)
theorem a19_16 : W16 m c (Proc.devRef .tc main_arg19) = W0 m c (Proc.devRef .tc main_arg19) := (st16 m c main_arg19 (by decide +kernel)).trans (a19_15 m c)
theorem a19_17 : W17 m c (Proc.devRef .tc main_arg19) = W0 m c (Proc.devRef .tc main_arg19) := (st17 m c main_arg19 (by decide +kernel)).trans (a19_16 m c)
theorem a19_18 : W18 m c (Proc.devRef .tc main_arg19) = W0 m c (Proc.devRef .tc main_arg19) := (st18 m c main_arg19 (by decide +kernel)).trans (a19_17 m c)
theorem a19_19 : W19 m c (Proc.devRef .tc main_arg19) = W0 m c (Proc.devRef .tc main_arg19) := (st19 m c main_arg19 (by decide +kernel)).trans (a19_18 m c)
theorem a19_20 : W20 m c (Proc.devRef .tc main_arg19) = W0 m c (Proc.devRef .tc main_arg19) := (st20 m c main_arg19 (by decide +kernel)).trans (a19_19 m c)
theorem a19_21 : W21 m c (Proc.devRef .tc main_arg19) = W0 m c (Proc.devRef .tc main_arg19) := (st21 m c main_arg19 (by decide +kernel)).trans (a19_20 m c)
theorem a19_22 : W22 m c (Proc.devRef .tc main_arg19) = W0 m c (Proc.devRef .tc main_arg19) := (st22 m c main_arg19 (by decide +kernel)).trans (a19_21 m c)
theorem a19_23 : W23 m c (Proc.devRef .tc main_arg19) = W0 m c (Proc.devRef .tc main_arg19) := (st23 m c main_arg19 (by decide +kernel)).trans (a19_22 m c)
theorem a19_24 : W24 m c (Proc.devRef .tc main_arg19) = W0 m c (Proc.devRef .tc main_arg19) := (st24 m c main_arg19 (by decide +kernel)).trans (a19_23 m c)
theorem a19_25 : W25 m c (Proc.devRef .tc main_arg19) = W0 m c (Proc.devRef .tc main_arg19) := (st25 m c main_arg19 (by decide +kernel)).trans (a19_24 m c)
theorem a19_26 : W26 m c (Proc.devRef .tc main_arg19) = W0 m c (Proc.devRef .tc main_arg19) := (st26 m c main_arg19 (by decide +kernel)).trans (a19_25 m c)
theorem a19_27 : W27 m c (Proc.devRef .tc main_arg19) = W0 m c (Proc.devRef .tc main_arg19) := (st27 m c main_arg19 (by decide +kernel)).trans (a19_26 m c)
theorem a19_28 : W28 m c (Proc.devRef .tc main_arg19) = W0 m c (Proc.devRef .tc main_arg19) := (st28 m c main_arg19 (by decide +kernel)).trans (a19_27 m c)
theorem a19_29 : W29 m c (Proc.devRef .tc main_arg19) = W0 m c (Proc.devRef .tc main_arg19) := (st29 m c main_arg19 (by decide +kernel)).trans (a19_28 m c)
theorem a19_30 : W30 m c (Proc.devRef .tc main_arg19) = W0 m c (Proc.devRef .tc main_arg19) := (st30 m c main_arg19 (by decide +kernel)).trans (a19_29 m c)
theorem a19_31 : W31 m c (Proc.devRef .tc main_arg19) = W0 m c (Proc.devRef .tc main_arg19) := (st31 m c main_arg19 (by decide +kernel)).trans (a19_30 m c)
theorem a19_32 : W32 m c (Proc.devRef .tc main_arg19) = W0 m c (Proc.devRef .tc main_arg19) := (st32 m c main_arg19 (by decide +kernel)).trans (a19_31 m c)
theorem a19_33 : W33 m c (Proc.devRef .tc main_arg19) = W0 m c (Proc.devRef .tc main_arg19) := (st33 m c main_arg19 (by decide +kernel)).trans (a19_32 m c)
theorem a19_34 : W34 m c (Proc.devRef .tc main_arg19) = W0 m c (Proc.devRef .tc main_arg19) := (st34 m c main_arg19 (by decide +kernel)).trans (a19_33 m c)
theorem a19_35 : W35 m c (Proc.devRef .tc main_arg19) = W0 m c (Proc.devRef .tc main_arg19) := (st35 m c main_arg19 (by decide +kernel)).trans (a19_34 m c)
theorem a19_36 : W36 m c (Proc.devRef .tc main_arg19) = W0 m c (Proc.devRef .tc main_arg19) := (st36 m c main_arg19 (by decide +kernel)).trans (a19_35 m c)
theorem a19_37 : W37 m c (Proc.devRef .tc main_arg19) = W0 m c (Proc.devRef .tc main_arg19) := (st37 m c main_arg19 (by decide +kernel)).trans (a19_36 m c)
theorem a19_38 : W38 m c (Proc.devRef .tc main_arg19) = W0 m c (Proc.devRef .tc main_arg19) := (st38 m c main_arg19 (by decide +kernel)).trans (a19_37 m c)
theorem a19_39 : W39 m c (Proc.devRef .tc main_arg19) = W0 m c (Proc.devRef .tc main_arg19) := (st39 m c main_arg19 (by decide +kernel)).trans (a19_38 m c)
theorem a19_40 : W40 m c (Proc.devRef .tc main_arg19) = W0 m c (Proc.devRef .tc main_arg19) := (st40 m c main_arg19 (by decide +kernel)).trans (a19_39 m c)
theorem a20_1 : W1 m c (Proc.devRef .tc main_arg20) = W0 m c (Proc.devRef .tc main_arg20) := (st1 m c main_arg20 (by decide +kernel))
theorem a20_2 : W2 m c (Proc.devRef .tc main_arg20) = W0 m c (Proc.devRef .tc main_arg20) := (st2 m c main_arg20 (by decide +kernel)).trans (a20_1 m c)
theorem a20_3 : W3 m c (Proc.devRef .tc main_arg20) = W0 m c (Proc.devRef .tc main_arg20) := (st3 m c main_arg20 (by decide +kernel)).trans (a20_2 m c)
theorem a20_4 : W4 m c (Proc.devRef .tc main_arg20) = W0 m c (Proc.devRef .tc main_arg20) := (st4 m c main_arg20 (by decide +kernel)).trans (a20_3 m c)
theorem a20_5 : W5 m c (Proc.devRef .tc main_arg20) = W0 m c (Proc.devRef .tc main_arg20) := (st5 m c main_arg20 (by decide +kernel)).trans (a20_4 m c)
theorem a20_6 : W6 m c (Proc.devRef .tc main_arg20) = W0 m c (Proc.devRef .tc main_arg20) := (st6 m c main_arg20 (by decide +kernel)).trans (a20_5 m c)
theorem a20_7 : W7 m c (Proc.devRef .tc main_arg20) = W0 m c (Proc.devRef .tc main_arg20) := (st7 m c main_arg20 (by decide +kernel)).trans (a20_6 m c)
theorem a20_8 : W8 m c (Proc.devRef .tc main_arg20) = W0 m c (Proc.devRef .tc main_arg20) := (st8 m c main_arg20 (by decide +kernel)).trans (a20_7 m c)
theorem a20_9 : W9 m c (Proc.devRef .tc main_arg20) = W0 m c (Proc.devRef .tc main_arg20) := (st9 m c main_arg20 (by decide +kernel)).trans (a20_8 m c)
theorem a20_10 : W10 m c (Proc.devRef .tc main_arg20) = W0 m c (Proc.devRef .tc main_arg20) := (st10 m c main_arg20 (by decide +kernel)).trans (a20_9 m c)
theorem a20_11 : W11 m c (Proc.devRef .tc main_arg20) = W0 m c (Proc.devRef .tc main_arg20) := (st11 m c main_arg20 (by decide +kernel)).trans (a20_10 m c)
theorem a20_12 : W12 m c (Proc.devRef .tc main_arg20) = W0 m c (Proc.devRef .tc main_arg20) := (st12 m c main_arg20 (by decide +kernel)).trans (a20_11 m c)
theorem a20_13 : W13 m c (Proc.devRef .tc main_arg20) = W0 m c (Proc.devRef .tc main_arg20) := (st13 m c main_arg20 (by decide +kernel)).trans (a20_12 m c)
theorem a20_14 : W14 m c (Proc.devRef .tc main_arg20) = W0 m c (Proc.devRef .tc main_arg20) := (st14 m c main_arg20 (by decide +kernel)).trans (a20_13 m c)
theorem a20_15 : W15 m c (Proc.devRef .tc main_arg20) = W0 m c (Proc.devRef .tc main_arg20) := (st15 m c main_arg20 (by decide +kernel)).trans (a20_14 m c)
theorem a20_16 : W16 m c (Proc.devRef .tc main_arg20) = W0 m c (Proc.devRef .tc main_arg20) := (st16 m c main_arg20 (by decide +kernel)).trans (a20_15 m c)
theorem a20_17 : W17 m c (Proc.devRef .tc main_arg20) = W0 m c (Proc.devRef .tc main_arg20) := (st17 m c main_arg20 (by decide +kernel)).trans (a20_16 m c)
theorem a20_18 : W18 m c (Proc.devRef .tc main_arg20) = W0 m c (Proc.devRef .tc main_arg20) := (st18 m c main_arg20 (by decide +kernel)).trans (a20_17 m c)
theorem a20_19 : W19 m c (Proc.devRef .tc main_arg20) = W0 m c (Proc.devRef .tc main_arg20) := (st19 m c main_arg20 (by decide +kernel)).trans (a20_18 m c)
theorem a20_20 : W20 m c (Proc.devRef .tc main_arg20) = W0 m c (Proc.devRef .tc main_arg20) := (st20 m c main_arg20 (by decide +kernel)).trans (a20_19 m c)
theorem a20_21 : W21 m c (Proc.devRef .tc main_arg20) = W0 m c (Proc.devRef .tc main_arg20) := (st21 m c main_arg20 (by decide +kernel)).trans (a20_20 m c)
theorem a20_22 : W22 m c (Proc.devRef .tc main_arg20) = W0 m c (Proc.devRef .tc main_arg20) := (st22 m c main_arg20 (by decide +kernel)).trans (a20_21 m c)
theorem a20_23 : W23 m c (Proc.devRef .tc main_arg20) = W0 m c (Proc.devRef .tc main_arg20) := (st23 m c main_arg20 (by decide +kernel)).trans (a20_22 m c)
theorem a20_24 : W24 m c (Proc.devRef .tc main_arg20) = W0 m c (Proc.devRef .tc main_arg20) := (st24 m c main_arg20 (by decide +kernel)).trans (a20_23 m c)
theorem a20_25 : W25 m c (Proc.devRef .tc main_arg20) = W0 m c (Proc.devRef .tc main_arg20) := (st25 m c main_arg20 (by decide +kernel)).trans (a20_24 m c)
theorem a20_26 : W26 m c (Proc.devRef .tc main_arg20) = W0 m c (Proc.devRef .tc main_arg20) := (st26 m c main_arg20 (by decide +kernel)).trans (a20_25 m c)
theorem a20_27 : W27 m c (Proc.devRef .tc main_arg20) = W0 m c (Proc.devRef .tc main_arg20) := (st27 m c main_arg20 (by decide +kernel)).trans (a20_26 m c)
theorem a20_28 : W28 m c (Proc.devRef .tc main_arg20) = W0 m c (Proc.devRef .tc main_arg20) := (st28 m c main_arg20 (by decide +kernel)).trans (a20_27 m c)
theorem a20_29 : W29 m c (Proc.devRef .tc main_arg20) = W0 m c (Proc.devRef .tc main_arg20) := (st29 m c main_arg20 (by decide +kernel)).trans (a20_28 m c)
theorem a20_30 : W30 m c (Proc.devRef .tc main_arg20) = W0 m c (Proc.devRef .tc main_arg20) := (st30 m c main_arg20 (by decide +kernel)).trans (a20_29 m c)
theorem a20_31 : W31 m c (Proc.devRef .tc main_arg20) = W0 m c (Proc.devRef .tc main_arg20) := (st31 m c main_arg20 (by decide +kernel)).trans (a20_30 m c)
theorem a20_32 : W32 m c (Proc.devRef .tc main_arg20) = W0 m c (Proc.devRef .tc main_arg20) := (st32 m c main_arg20 (by decide +kernel)).trans (a20_31 m c)
theorem a20_33 : W33 m c (Proc.devRef .tc main_arg20) = W0 m c (Proc.devRef .tc main_arg20) := (st33 m c main_arg20 (by decide +kernel)).trans (a20_32 m c)
theorem a20_34 : W34 m c (Proc.devRef .tc main_arg20) = W0 m c (Proc.devRef .tc main_arg20) := (st34 m c main_arg20 (by decide +kernel)).trans (a20_33 m c)
theorem a20_35 : W35 m c (Proc.devRef .tc main_arg20) = W0 m c (Proc.devRef .tc main_arg20) := (st35 m c main_arg20 (by decide +kernel)).trans (a20_34 m c)
theorem a20_36 : W36 m c (Proc.devRef .tc main_arg20) = W0 m c (Proc.devRef .tc main_arg20) := (st36 m c main_arg20 (by decide +kernel)).trans (a20_35 m c)
theorem a20_37 : W37 m c (Proc.devRef .tc main_arg20) = W0 m c (Proc.devRef .tc main_arg20) := (st37 m c main_arg20 (by decide +kernel)).trans (a20_36 m c)
theorem a20_38 : W38 m c (Proc.devRef .tc main_arg20) = W0 m c (Proc.devRef .tc main_arg20) := (st38 m c main_arg20 (by decide +kernel)).trans (a20_37 m c)
theorem a20_39 : W39 m c (Proc.devRef .tc main_arg20) = W0 m c (Proc.devRef .tc main_arg20) := (st39 m c main_arg20 (by decide +kernel)).trans (a20_38 m c)
theorem a20_40 : W40 m c (Proc.devRef .tc main_arg20) = W0 m c (Proc.devRef .tc main_arg20) := (st40 m c main_arg20 (by decide +kernel)).trans (a20_39 m c)
theorem a20_41 : W41 m c (Proc.devRef .tc main_arg20) = W0 m c (Proc.devRef .tc main_arg20) := (st41 m c main_arg20 (by decide +kernel)).trans (a20_40 m c)
theorem a20_42 : W42 m c (Proc.devRef .tc main_arg20) = W0 m c (Proc.devRef .tc main_arg20) := (st42 m c main_arg20 (by decide +kernel)).trans (a20_41 m c)
theorem a20_43 : W43 m c (Proc.devRef .tc main_arg20) = W0 m c (Proc.devRef .tc main_arg20) := (st43 m c main_arg20 (by decide +kernel)).trans (a20_42 m c)
theorem a20_44 : W44 m c (Proc.devRef .tc main_arg20) = W0 m c (Proc.devRef .tc main_arg20) := (st44 m c main_arg20 (by decide +kernel)).trans (a20_43 m c)
theorem a20_45 : W45 m c (Proc.devRef .tc main_arg20) = W0 m c (Proc.devRef .tc main_arg20) := (st45 m c main_arg20 (by decide +kernel)).trans (a20_44 m c)
theorem a21_1 : W1 m c (Proc.devRef .tc main_arg21) = W0 m c (Proc.devRef .tc main_arg21) := (st1 m c main_arg21 (by decide +kernel))
theorem a21_2 : W2 m c (Proc.devRef .tc main_arg21) = W0 m c (Proc.devRef .tc main_arg21) := (st2 m c main_arg21 (by decide +kernel)).trans (a21_1 m c)
theorem a21_3 : W3 m c (Proc.devRef .tc main_arg21) = W0 m c (Proc.devRef .tc main_arg21) := (st3 m c main_arg21 (by decide +kernel)).trans (a21_2 m c)
theorem a21_4 : W4 m c (Proc.devRef .tc main_arg21) = W0 m c (Proc.devRef .tc main_arg21) := (st4 m c main_arg21 (by decide +kernel)).trans (a21_3 m c)
theorem a21_5 : W5 m c (Proc.devRef .tc main_arg21) = W0 m c (Proc.devRef .tc main_arg21) := (st5 m c main_arg21 (by decide +kernel)).trans (a21_4 m c)
theorem a21_6 : W6 m c (Proc.devRef .tc main_arg21) = W0 m c (Proc.devRef .tc main_arg21) := (st6 m c main_arg21 (by decide +kernel)).trans (a21_5 m c)
theorem a21_7 : W7 m c (Proc.devRef .tc main_arg21) = W0 m c (Proc.devRef .tc main_arg21) := (st7 m c main_arg21 (by decide +kernel)).trans (a21_6 m c)
theorem a21_8 : W8 m c (Proc.devRef .tc main_arg21) = W0 m c (Proc.devRef .tc main_arg21) := (st8 m c main_arg21 (by decide +kernel)).trans (a21_7 m c)
theorem a21_9 : W9 m c (Proc.devRef .tc main_arg21) = W0 m c (Proc.devRef .tc main_arg21) := (st9 m c main_arg21 (by decide +kernel)).trans (a21_8 m c)
theorem a21_10 : W10 m c (Proc.devRef .tc main_arg21) = W0 m c (Proc.devRef .tc main_arg21) := (st10 m c main_arg21 (by decide +kernel)).trans (a21_9 m c)
theorem a21_11 : W11 m c (Proc.devRef .tc main_arg21) = W0 m c (Proc.devRef .tc main_arg21) := (st11 m c main_arg21 (by decide +kernel)).trans (a21_10 m c)
theorem a21_12 : W12 m c (Proc.devRef .tc main_arg21) = W0 m c (Proc.devRef .tc main_arg21) := (st12 m c main_arg21 (by decide +kernel)).trans (a21_11 m c)
theorem a21_13 : W13 m c (Proc.devRef .tc main_arg21) = W0 m c (Proc.devRef .tc main_arg21) := (st13 m c main_arg21 (by decide +kernel)).trans (a21_12 m c)
theorem a21_14 : W14 m c (Proc.devRef .tc main_arg21) = W0 m c (Proc.devRef .tc main_arg21) := (st14 m c main_arg21 (by decide +kernel)).trans (a21_13 m c)
theorem a21_15 : W15 m c (Proc.devRef .tc main_arg21) = W0 m c (Proc.devRef .tc main_arg21) := (st15 m c main_arg21 (by decide +kernel)).trans (a21_14 m c)
theorem a21_16 : W16 m c (Proc.devRef .tc main_arg21) = W0 m c (Proc.devRef .tc main_arg21) := (st16 m c main_arg21 (by decide +kernel)).trans (a21_15 m c)
theorem a21_17 : W17 m c (Proc.devRef .tc main_arg21) = W0 m c (Proc.devRef .tc main_arg21) := (st17 m c main_arg21 (by decide +kernel)).trans (a21_16 m c)
theorem a21_18 : W18 m c (Proc.devRef .tc main_arg21) = W0 m c (Proc.devRef .tc main_arg21) := (st18 m c main_arg21 (by decide +kernel)).trans (a21_17 m c)
theorem a21_19 : W19 m c (Proc.devRef .tc main_arg21) = W0 m c (Proc.devRef .tc main_arg21) := (st19 m c main_arg21 (by decide +kernel)).trans (a21_18 m c)
theorem a21_20 : W20 m c (Proc.devRef .tc main_arg21) = W0 m c (Proc.devRef .tc main_arg21) := (st20 m c main_arg21 (by decide +kernel)).trans (a21_19 m c)
theorem a21_21 : W21 m c (Proc.devRef .tc main_arg21) = W0 m c (Proc.devRef .tc main_arg21) := (st21 m c main_arg21 (by decide +kernel)).trans (a21_20 m c)
theorem a21_22 : W22 m c (Proc.devRef .tc main_arg21) = W0 m c (Proc.devRef .tc main_arg21) := (st22 m c main_arg21 (by decide +kernel)).trans (a21_21 m c)
theorem a21_23 : W23 m c (Proc.devRef .tc main_arg21) = W0 m c (Proc.devRef .tc main_arg21) := (st23 m c main_arg21 (by decide +kernel)).trans (a21_22 m c)
theorem a21_24 : W24 m c (Proc.devRef .tc main_arg21) = W0 m c (Proc.devRef .tc main_arg21) := (st24 m c main_arg21 (by decide +kernel)).trans (a21_23 m c)
theorem a21_25 : W25 m c (Proc.devRef .tc main_arg21) = W0 m c (Proc.devRef .tc main_arg21) := (st25 m c main_arg21 (by decide +kernel)).trans (a21_24 m c)
theorem a21_26 : W26 m c (Proc.devRef .tc main_arg21) = W0 m c (Proc.devRef .tc main_arg21) := (st26 m c main_arg21 (by decide +kernel)).trans (a21_25 m c)
theorem a21_27 : W27 m c (Proc.devRef .tc main_arg21) = W0 m c (Proc.devRef .tc main_arg21) := (st27 m c main_arg21 (by decide +kernel)).trans (a21_26 m c)
theorem a21_28 : W28 m c (Proc.devRef .tc main_arg21) = W0 m c (Proc.devRef .tc main_arg21) := (st28 m c main_arg21 (by decide +kernel)).trans (a21_27 m c)
theorem a21_29 : W29 m c (Proc.devRef .tc main_arg21) = W0 m c (Proc.devRef .tc main_arg21) := (st29 m c main_arg21 (by decide +kernel)).trans (a21_28 m c)
theorem a21_30 : W30 m c (Proc.devRef .tc main_arg21) = W0 m c (Proc.devRef .tc main_arg21) := (st30 m c main_arg21 (by decide +kernel)).trans (a21_29 m c)
theorem a21_31 : W31 m c (Proc.devRef .tc main_arg21) = W0 m c (Proc.devRef .tc main_arg21) := (st31 m c main_arg21 (by decide +kernel)).trans (a21_30 m c)
theorem a21_32 : W32 m c (Proc.devRef .tc main_arg21) = W0 m c (Proc.devRef .tc main_arg21) := (st32 m c main_arg21 (by decide +kernel)).trans (a21_31 m c)
theorem a21_33 : W33 m c (Proc.devRef .tc main_arg21) = W0 m c (Proc.devRef .tc main_arg21) := (st33 m c main_arg21 (by decide +kernel)).trans (a21_32 m c)
theorem a21_34 : W34 m c (Proc.devRef .tc main_arg21) = W0 m c (Proc.devRef .tc main_arg21) := (st34 m c main_arg21 (by decide +kernel)).trans (a21_33 m c)
theorem a21_35 : W35 m c (Proc.devRef .tc main_arg21) = W0 m c (Proc.devRef .tc main_arg21) := (st35 m c main_arg21 (by decide +kernel)).trans (a21_34 m c)
theorem a21_36 : W36 m c (Proc.devRef .tc main_arg21) = W0 m c (Proc.devRef .tc main_arg21) := (st36 m c main_arg21 (by decide +kernel)).trans (a21_35 m c)
theorem a21_37 : W37 m c (Proc.devRef .tc main_arg21) = W0 m c (Proc.devRef .tc main_arg21) := (st37 m c main_arg21 (by decide +kernel)).trans (a21_36 m c)
theorem a21_38 : W38 m c (Proc.devRef .tc main_arg21) = W0 m c (Proc.devRef .tc main_arg21) := (st38 m c main_arg21 (by decide +kernel)).trans (a21_37 m c)
theorem a21_39 : W39 m c (Proc.devRef .tc main_arg21) = W0 m c (Proc.devRef .tc main_arg21) := (st39 m c main_arg21 (by decide +kernel)).trans (a21_38 m c)
theorem a21_40 : W40 m c (Proc.devRef .tc main_arg21) = W0 m c (Proc.devRef .tc main_arg21) := (st40 m c main_arg21 (by decide +kernel)).trans (a21_39 m c)
theorem a21_41 : W41 m c (Proc.devRef .tc main_arg21) = W0 m c (Proc.devRef .tc main_arg21) := (st41 m c main_arg21 (by decide +kernel)).trans (a21_40 m c)
theorem a21_42 : W42 m c (Proc.devRef .tc main_arg21) = W0 m c (Proc.devRef .tc main_arg21) := (st42 m c main_arg21 (by decide +kernel)).trans (a21_41 m c)
theorem a21_43 : W43 m c (Proc.devRef .tc main_arg21) = W0 m c (Proc.devRef .tc main_arg21) := (st43 m c main_arg21 (by decide +kernel)).trans (a21_42 m c)
theorem a21_44 : W44 m c (Proc.devRef .tc main_arg21) = W0 m c (Proc.devRef .tc main_arg21) := (st44 m c main_arg21 (by decide +kernel)).trans (a21_43 m c)
theorem a22_1 : W1 m c (Proc.devRef .tc main_arg22) = W0 m c (Proc.devRef .tc main_arg22) := (st1 m c main_arg22 (by decide +kernel))
theorem a22_2 : W2 m c (Proc.devRef .tc main_arg22) = W0 m c (Proc.devRef .tc main_arg22) := (st2 m c main_arg22 (by decide +kernel)).trans (a22_1 m c)
theorem a22_3 : W3 m c (Proc.devRef .tc main_arg22) = W0 m c (Proc.devRef .tc main_arg22) := (st3 m c main_arg22 (by decide +kernel)).trans (a22_2 m c)
theorem a22_4 : W4 m c (Proc.devRef .tc main_arg22) = W0 m c (Proc.devRef .tc main_arg22) := (st4 m c main_arg22 (by decide +kernel)).trans (a22_3 m c)
theorem a22_5 : W5 m c (Proc.devRef .tc main_arg22) = W0 m c (Proc.devRef .tc main_arg22) := (st5 m c main_arg22 (by decide +kernel)).trans (a22_4 m c)
theorem a22_6 : W6 m c (Proc.devRef .tc main_arg22) = W0 m c (Proc.devRef .tc main_arg22) := (st6 m c main_arg22 (by decide +kernel)).trans (a22_5 m c)
theorem a22_7 : W7 m c (Proc.devRef .tc main_arg22) = W0 m c (Proc.devRef .tc main_arg22) := (st7 m c main_arg22 (by decide +kernel)).trans (a22_6 m c)
theorem a22_8 : W8 m c (Proc.devRef .tc main_arg22) = W0 m c (Proc.devRef .tc main_arg22) := (st8 m c main_arg22 (by decide +kernel)).trans (a22_7 m c)
theorem a22_9 : W9 m c (Proc.devRef .tc main_arg22) = W0 m c (Proc.devRef .tc main_arg22) := (st9 m c main_arg22 (by decide +kernel)).trans (a22_8 m c)
theorem a22_10 : W10 m c (Proc.devRef .tc main_arg22) = W0 m c (Proc.devRef .tc main_arg22) := (st10 m c main_arg22 (by decide +kernel)).trans (a22_9 m c)
theorem a22_11 : W11 m c (Proc.devRef .tc main_arg22) = W0 m c (Proc.devRef .tc main_arg22) := (st11 m c main_arg22 (by decide +kernel)).trans (a22_10 m c)
theorem a22_12 : W12 m c (Proc.devRef .tc main_arg22) = W0 m c (Proc.devRef .tc main_arg22) := (st12 m c main_arg22 (by decide +kernel)).trans (a22_11 m c)
theorem a22_13 : W13 m c (Proc.devRef .tc main_arg22) = W0 m c (Proc.devRef .tc main_arg22) := (st13 m c main_arg22 (by decide +kernel)).trans (a22_12 m c)
theorem a22_14 : W14 m c (Proc.devRef .tc main_arg22) = W0 m c (Proc.devRef .tc main_arg22) := (st14 m c main_arg22 (by decide +kernel)).trans (a22_13 m c)
theorem a22_15 : W15 m c (Proc.devRef .tc main_arg22) = W0 m c (Proc.devRef .tc main_arg22) := (st15 m c main_arg22 (by decide +kernel)).trans (a22_14 m c)
theorem a22_16 : W16 m c (Proc.devRef .tc main_arg22) = W0 m c (Proc.devRef .tc main_arg22) := (st16 m c main_arg22 (by decide +kernel)).trans (a22_15 m c)
theorem a22_17 : W17 m c (Proc.devRef .tc main_arg22) = W0 m c (Proc.devRef .tc main_arg22) := (st17 m c main_arg22 (by decide +kernel)).trans (a22_16 m c)
theorem a22_18 : W18 m c (Proc.devRef .tc main_arg22) = W0 m c (Proc.devRef .tc main_arg22) := (st18 m c main_arg22 (by decide +kernel)).trans (a22_17 m c)
theorem a22_19 : W19 m c (Proc.devRef .tc main_arg22) = W0 m c (Proc.devRef .tc main_arg22) := (st19 m c main_arg22 (by decide +kernel)).trans (a22_18 m c)
theorem a22_20 : W20 m c (Proc.devRef .tc main_arg22) = W0 m c (Proc.devRef .tc main_arg22) := (st20 m c main_arg22 (by decide +kernel)).trans (a22_19 m c)
theorem a22_21 : W21 m c (Proc.devRef .tc main_arg22) = W0 m c (Proc.devRef .tc main_arg22) := (st21 m c main_arg22 (by decide +kernel)).trans (a22_20 m c)
theorem a22_22 : W22 m c (Proc.devRef .tc main_arg22) = W0 m c (Proc.devRef .tc main_arg22) := (st22 m c main_arg22 (by decide +kernel)).trans (a22_21 m c)
theorem a22_23 : W23 m c (Proc.devRef .tc main_arg22) = W0 m c (Proc.devRef .tc main_arg22) := (st23 m c main_arg22 (by decide +kernel)).trans (a22_22 m c)
theorem a22_24 : W24 m c (Proc.devRef .tc main_arg22) = W0 m c (Proc.devRef .tc main_arg22) := (st24 m c main_arg22 (by decide +kernel)).trans (a22_23 m c)
theorem a22_25 : W25 m c (Proc.devRef .tc main_arg22) = W0 m c (Proc.devRef .tc main_arg22) := (st25 m c main_arg22 (by decide +kernel)).trans (a22_24 m c)
theorem a22_26 : W26 m c (Proc.devRef .tc main_arg22) = W0 m c (Proc.devRef .tc main_arg22) := (st26 m c main_arg22 (by decide +kernel)).trans (a22_25 m c)
theorem a22_27 : W27 m c (Proc.devRef .tc main_arg22) = W0 m c (Proc.devRef .tc main_arg22) := (st27 m c main_arg22 (by decide +kernel)).trans (a22_26 m c)
theorem a22_28 : W28 m c (Proc.devRef .tc main_arg22) = W0 m c (Proc.devRef .tc main_arg22) := (st28 m c main_arg22 (by decide +kernel)).trans (a22_27 m c)
theorem a22_29 : W29 m c (Proc.devRef .tc main_arg22) = W0 m c (Proc.devRef .tc main_arg22) := (st29 m c main_arg22 (by decide +kernel)).trans (a22_28 m c)
theorem a22_30 : W30 m c (Proc.devRef .tc main_arg22) = W0 m c (Proc.devRef .tc main_arg22) := (st30 m c main_arg22 (by decide +kernel)).trans (a22_29 m c)
theorem a22_31 : W31 m c (Proc.devRef .tc main_arg22) = W0 m c (Proc.devRef .tc main_arg22) := (st31 m c main_arg22 (by decide +kernel)).trans (a22_30 m c)
theorem a22_32 : W32 m c (Proc.devRef .tc main_arg22) = W0 m c (Proc.devRef .tc main_arg22) := (st32 m c main_arg22 (by decide +kernel)).trans (a22_31 m c)
theorem a22_33 : W33 m c (Proc.devRef .tc main_arg22) = W0 m c (Proc.devRef .tc main_arg22) := (st33 m c main_arg22 (by decide +kernel)).trans (a22_32 m c)
theorem a22_34 : W34 m c (Proc.devRef .tc main_arg22) = W0 m c (Proc.devRef .tc main_arg22) := (st34 m c main_arg22 (by decide +kernel)).trans (a22_33 m c)
theorem a22_35 : W35 m c (Proc.devRef .tc main_arg22) = W0 m c (Proc.devRef .tc main_arg22) := (st35 m c main_arg22 (by decide +kernel)).trans (a22_34 m c)
theorem a22_36 : W36 m c (Proc.devRef .tc main_arg22) = W0 m c (Proc.devRef .tc main_arg22) := (st36 m c main_arg22 (by decide +kernel)).trans (a22_35 m c)
theorem a22_37 : W37 m c (Proc.devRef .tc main_arg22) = W0 m c (Proc.devRef .tc main_arg22) := (st37 m c main_arg22 (by decide +kernel)).trans (a22_36 m c)
theorem a22_38 : W38 m c (Proc.devRef .tc main_arg22) = W0 m c (Proc.devRef .tc main_arg22) := (st38 m c main_arg22 (by decide +kernel)).trans (a22_37 m c)
theorem a22_39 : W39 m c (Proc.devRef .tc main_arg22) = W0 m c (Proc.devRef .tc main_arg22) := (st39 m c main_arg22 (by decide +kernel)).trans (a22_38 m c)
theorem a22_40 : W40 m c (Proc.devRef .tc main_arg22) = W0 m c (Proc.devRef .tc main_arg22) := (st40 m c main_arg22 (by decide +kernel)).trans (a22_39 m c)
theorem a22_41 : W41 m c (Proc.devRef .tc main_arg22) = W0 m c (Proc.devRef .tc main_arg22) := (st41 m c main_arg22 (by decide +kernel)).trans (a22_40 m c)
theorem a22_42 : W42 m c (Proc.devRef .tc main_arg22) = W0 m c (Proc.devRef .tc main_arg22) := (st42 m c main_arg22 (by decide +kernel)).trans (a22_41 m c)
theorem a22_43 : W43 m c (Proc.devRef .tc main_arg22) = W0 m c (Proc.devRef .tc main_arg22) := (st43 m c main_arg22 (by decide +kernel)).trans (a22_42 m c)
theorem a22_44 : W44 m c (Proc.devRef .tc main_arg22) = W0 m c (Proc.devRef .tc main_arg22) := (st44 m c main_arg22 (by decide +kernel)).trans (a22_43 m c)
theorem a22_45 : W45 m c (Proc.devRef .tc main_arg22) = W0 m c (Proc.devRef .tc main_arg22) := (st45 m c main_arg22 (by decide +kernel)).trans (a22_44 m c)
theorem a22_46 : W46 m c (Proc.devRef .tc main_arg22) = W0 m c (Proc.devRef .tc main_arg22) := (st46 m c main_arg22 (by decide +kernel)).trans (a22_45 m c)
theorem a23_1 : W1 m c (Proc.devRef .tc main_arg23) = W0 m c (Proc.devRef .tc main_arg23) := (st1 m c main_arg23 (by decide +kernel))
theorem a23_2 : W2 m c (Proc.devRef .tc main_arg23) = W0 m c (Proc.devRef .tc main_arg23) := (st2 m c main_arg23 (by decide +kernel)).trans (a23_1 m c)
theorem a23_3 : W3 m c (Proc.devRef .tc main_arg23) = W0 m c (Proc.devRef .tc main_arg23) := (st3 m c main_arg23 (by decide +kernel)).trans (a23_2 m c)
theorem a23_4 : W4 m c (Proc.devRef .tc main_arg23) = W0 m c (Proc.devRef .tc main_arg23) := (st4 m c main_arg23 (by decide +kernel)).trans (a23_3 m c)
theorem a23_5 : W5 m c (Proc.devRef .tc main_arg23) = W0 m c (Proc.devRef .tc main_arg23) := (st5 m c main_arg23 (by decide +kernel)).trans (a23_4 m c)
theorem a23_6 : W6 m c (Proc.devRef .tc main_arg23) = W0 m c (Proc.devRef .tc main_arg23) := (st6 m c main_arg23 (by decide +kernel)).trans (a23_5 m c)
theorem a23_7 : W7 m c (Proc.devRef .tc main_arg23) = W0 m c (Proc.devRef .tc main_arg23) := (st7 m c main_arg23 (by decide +kernel)).trans (a23_6 m c)
theorem a23_8 : W8 m c (Proc.devRef .tc main_arg23) = W0 m c (Proc.devRef .tc main_arg23) := (st8 m c main_arg23 (by decide +kernel)).trans (a23_7 m c)
theorem a23_9 : W9 m c (Proc.devRef .tc main_arg23) = W0 m c (Proc.devRef .tc main_arg23) := (st9 m c main_arg23 (by decide +kernel)).trans (a23_8 m c)
theorem a23_10 : W10 m c (Proc.devRef .tc main_arg23) = W0 m c (Proc.devRef .tc main_arg23) := (st10 m c main_arg23 (by decide +kernel)).trans (a23_9 m c)
theorem a23_11 : W11 m c (Proc.devRef .tc main_arg23) = W0 m c (Proc.devRef .tc main_arg23) := (st11 m c main_arg23 (by decide +kernel)).trans (a23_10 m c)
theorem a23_12 : W12 m c (Proc.devRef .tc main_arg23) = W0 m c (Proc.devRef .tc main_arg23) := (st12 m c main_arg23 (by decide +kernel)).trans (a23_11 m c)
theorem a23_13 : W13 m c (Proc.devRef .tc main_arg23) = W0 m c (Proc.devRef .tc main_arg23) := (st13 m c main_arg23 (by decide +kernel)).trans (a23_12 m c)
theorem a23_14 : W14 m c (Proc.devRef .tc main_arg23) = W0 m c (Proc.devRef .tc main_arg23) := (st14 m c main_arg23 (by decide +kernel)).trans (a23_13 m c)
theorem a23_15 : W15 m c (Proc.devRef .tc main_arg23) = W0 m c (Proc.devRef .tc main_arg23) := (st15 m c main_arg23 (by decide +kernel)).trans (a23_14 m c)
theorem a23_16 : W16 m c (Proc.devRef .tc main_arg23) = W0 m c (Proc.devRef .tc main_arg23) := (st16 m c main_arg23 (by decide +kernel)).trans (a23_15 m c)
theorem a23_17 : W17 m c (Proc.devRef .tc main_arg23) = W0 m c (Proc.devRef .tc main_arg23) := (st17 m c main_arg23 (by decide +kernel)).trans (a23_16 m c)
theorem a23_18 : W18 m c (Proc.devRef .tc main_arg23) = W0 m c (Proc.devRef .tc main_arg23) := (st18 m c main_arg23 (by decide +kernel)).trans (a23_17 m c)
theorem a23_19 : W19 m c (Proc.devRef .tc main_arg23) = W0 m c (Proc.devRef .tc main_arg23) := (st19 m c main_arg23 (by decide +kernel)).trans (a23_18 m c)
theorem a23_20 : W20 m c (Proc.devRef .tc main_arg23) = W0 m c (Proc.devRef .tc main_arg23) := (st20 m c main_arg23 (by decide +kernel)).trans (a23_19 m c)
theorem a23_21 : W21 m c (Proc.devRef .tc main_arg23) = W0 m c (Proc.devRef .tc main_arg23) := (st21 m c main_arg23 (by decide +kernel)).trans (a23_20 m c)
theorem a23_22 : W22 m c (Proc.devRef .tc main_arg23) = W0 m c (Proc.devRef .tc main_arg23) := (st22 m c main_arg23 (by decide +kernel)).trans (a23_21 m c)
theorem a23_23 : W23 m c (Proc.devRef .tc main_arg23) = W0 m c (Proc.devRef .tc main_arg23) := (st23 m c main_arg23 (by decide +kernel)).trans (a23_22 m c)
theorem a23_24 : W24 m c (Proc.devRef .tc main_arg23) = W0 m c (Proc.devRef .tc main_arg23) := (st24 m c main_arg23 (by decide +kernel)).trans (a23_23 m c)
theorem a23_25 : W25 m c (Proc.devRef .tc main_arg23) = W0 m c (Proc.devRef .tc main_arg23) := (st25 m c main_arg23 (by decide +kernel)).trans (a23_24 m c)
theorem a23_26 : W26 m c (Proc.devRef .tc main_arg23) = W0 m c (Proc.devRef .tc main_arg23) := (st26 m c main_arg23 (by decide +kernel)).trans (a23_25 m c)
theorem a23_27 : W27 m c (Proc.devRef .tc main_arg23) = W0 m c (Proc.devRef .tc main_arg23) := (st27 m c main_arg23 (by decide +kernel)).trans (a23_26 m c)
theorem a23_28 : W28 m c (Proc.devRef .tc main_arg23) = W0 m c (Proc.devRef .tc main_arg23) := (st28 m c main_arg23 (by decide +kernel)).trans (a23_27 m c)
theorem a23_29 : W29 m c (Proc.devRef .tc main_arg23) = W0 m c (Proc.devRef .tc main_arg23) := (st29 m c main_arg23 (by decide +kernel)).trans (a23_28 m c)
theorem a23_30 : W30 m c (Proc.devRef .tc main_arg23) = W0 m c (Proc.devRef .tc main_arg23) := (st30 m c main_arg23 (by decide +kernel)).trans (a23_29 m c)
theorem a23_31 : W31 m c (Proc.devRef .tc main_arg23) = W0 m c (Proc.devRef .tc main_arg23) := (st31 m c main_arg23 (by decide +kernel)).trans (a23_30 m c)
theorem a23_32 : W32 m c (Proc.devRef .tc main_arg23) = W0 m c (Proc.devRef .tc main_arg23) := (st32 m c main_arg23 (by decide +kernel)).trans (a23_31 m c)
theorem a23_33 : W33 m c (Proc.devRef .tc main_arg23) = W0 m c (Proc.devRef .tc main_arg23) := (st33 m c main_arg23 (by decide +kernel)).trans (a23_32 m c)
theorem a23_34 : W34 m c (Proc.devRef .tc main_arg23) = W0 m c (Proc.devRef .tc main_arg23) := (st34 m c main_arg23 (by decide +kernel)).trans (a23_33 m c)
theorem a23_35 : W35 m c (Proc.devRef .tc main_arg23) = W0 m c (Proc.devRef .tc main_arg23) := (st35 m c main_arg23 (by decide +kernel)).trans (a23_34 m c)
theorem a23_36 : W36 m c (Proc.devRef .tc main_arg23) = W0 m c (Proc.devRef .tc main_arg23) := (st36 m c main_arg23 (by decide +kernel)).trans (a23_35 m c)
theorem a23_37 : W37 m c (Proc.devRef .tc main_arg23) = W0 m c (Proc.devRef .tc main_arg23) := (st37 m c main_arg23 (by decide +kernel)).trans (a23_36 m c)
theorem a23_38 : W38 m c (Proc.devRef .tc main_arg23) = W0 m c (Proc.devRef .tc main_arg23) := (st38 m c main_arg23 (by decide +kernel)).trans (a23_37 m c)
theorem a23_39 : W39 m c (Proc.devRef .tc main_arg23) = W0 m c (Proc.devRef .tc main_arg23) := (st39 m c main_arg23 (by decide +kernel)).trans (a23_38 m c)
theorem a23_40 : W40 m c (Proc.devRef .tc main_arg23) = W0 m c (Proc.devRef .tc main_arg23) := (st40 m c main_arg23 (by decide +kernel)).trans (a23_39 m c)
theorem a23_41 : W41 m c (Proc.devRef .tc main_arg23) = W0 m c (Proc.devRef .tc main_arg23) := (st41 m c main_arg23 (by decide +kernel)).trans (a23_40 m c)
theorem a23_42 : W42 m c (Proc.devRef .tc main_arg23) = W0 m c (Proc.devRef .tc main_arg23) := (st42 m c main_arg23 (by decide +kernel)).trans (a23_41 m c)
theorem a23_43 : W43 m c (Proc.devRef .tc main_arg23) = W0 m c (Proc.devRef .tc main_arg23) := (st43 m c main_arg23 (by decide +kernel)).trans (a23_42 m c)
theorem a23_44 : W44 m c (Proc.devRef .tc main_arg23) = W0 m c (Proc.devRef .tc main_arg23) := (st44 m c main_arg23 (by decide +kernel)).trans (a23_43 m c)
theorem a23_45 : W45 m c (Proc.devRef .tc main_arg23) = W0 m c (Proc.devRef .tc main_arg23) := (st45 m c main_arg23 (by decide +kernel)).trans (a23_44 m c)
theorem a23_46 : W46 m c (Proc.devRef .tc main_arg23) = W0 m c (Proc.devRef .tc main_arg23) := (st46 m c main_arg23 (by decide +kernel)).trans (a23_45 m c)

/-- The four aggregates' buffer is written once, by the second stretch, and read by the three layers' stretches. -/
theorem k26_4 : W4 m c (Proc.devRef .tc main_v26) = W3 m c (Proc.devRef .tc main_v26) := (st4 m c main_v26 (by decide +kernel))
theorem k26_5 : W5 m c (Proc.devRef .tc main_v26) = W3 m c (Proc.devRef .tc main_v26) := (st5 m c main_v26 (by decide +kernel)).trans (k26_4 m c)
theorem k26_6 : W6 m c (Proc.devRef .tc main_v26) = W3 m c (Proc.devRef .tc main_v26) := (st6 m c main_v26 (by decide +kernel)).trans (k26_5 m c)
theorem k26_7 : W7 m c (Proc.devRef .tc main_v26) = W3 m c (Proc.devRef .tc main_v26) := (st7 m c main_v26 (by decide +kernel)).trans (k26_6 m c)
theorem k26_8 : W8 m c (Proc.devRef .tc main_v26) = W3 m c (Proc.devRef .tc main_v26) := (st8 m c main_v26 (by decide +kernel)).trans (k26_7 m c)
theorem k26_9 : W9 m c (Proc.devRef .tc main_v26) = W3 m c (Proc.devRef .tc main_v26) := (st9 m c main_v26 (by decide +kernel)).trans (k26_8 m c)
theorem k26_10 : W10 m c (Proc.devRef .tc main_v26) = W3 m c (Proc.devRef .tc main_v26) := (st10 m c main_v26 (by decide +kernel)).trans (k26_9 m c)
theorem k26_11 : W11 m c (Proc.devRef .tc main_v26) = W3 m c (Proc.devRef .tc main_v26) := (st11 m c main_v26 (by decide +kernel)).trans (k26_10 m c)
theorem k26_12 : W12 m c (Proc.devRef .tc main_v26) = W3 m c (Proc.devRef .tc main_v26) := (st12 m c main_v26 (by decide +kernel)).trans (k26_11 m c)
theorem k26_13 : W13 m c (Proc.devRef .tc main_v26) = W3 m c (Proc.devRef .tc main_v26) := (st13 m c main_v26 (by decide +kernel)).trans (k26_12 m c)
theorem k26_14 : W14 m c (Proc.devRef .tc main_v26) = W3 m c (Proc.devRef .tc main_v26) := (st14 m c main_v26 (by decide +kernel)).trans (k26_13 m c)
theorem k26_15 : W15 m c (Proc.devRef .tc main_v26) = W3 m c (Proc.devRef .tc main_v26) := (st15 m c main_v26 (by decide +kernel)).trans (k26_14 m c)
theorem k26_16 : W16 m c (Proc.devRef .tc main_v26) = W3 m c (Proc.devRef .tc main_v26) := (st16 m c main_v26 (by decide +kernel)).trans (k26_15 m c)
theorem k26_17 : W17 m c (Proc.devRef .tc main_v26) = W3 m c (Proc.devRef .tc main_v26) := (st17 m c main_v26 (by decide +kernel)).trans (k26_16 m c)
theorem k26_18 : W18 m c (Proc.devRef .tc main_v26) = W3 m c (Proc.devRef .tc main_v26) := (st18 m c main_v26 (by decide +kernel)).trans (k26_17 m c)
theorem k26_19 : W19 m c (Proc.devRef .tc main_v26) = W3 m c (Proc.devRef .tc main_v26) := (st19 m c main_v26 (by decide +kernel)).trans (k26_18 m c)
theorem k26_20 : W20 m c (Proc.devRef .tc main_v26) = W3 m c (Proc.devRef .tc main_v26) := (st20 m c main_v26 (by decide +kernel)).trans (k26_19 m c)
theorem k26_21 : W21 m c (Proc.devRef .tc main_v26) = W3 m c (Proc.devRef .tc main_v26) := (st21 m c main_v26 (by decide +kernel)).trans (k26_20 m c)
theorem k26_22 : W22 m c (Proc.devRef .tc main_v26) = W3 m c (Proc.devRef .tc main_v26) := (st22 m c main_v26 (by decide +kernel)).trans (k26_21 m c)
theorem k26_23 : W23 m c (Proc.devRef .tc main_v26) = W3 m c (Proc.devRef .tc main_v26) := (st23 m c main_v26 (by decide +kernel)).trans (k26_22 m c)
theorem k26_24 : W24 m c (Proc.devRef .tc main_v26) = W3 m c (Proc.devRef .tc main_v26) := (st24 m c main_v26 (by decide +kernel)).trans (k26_23 m c)
theorem k26_25 : W25 m c (Proc.devRef .tc main_v26) = W3 m c (Proc.devRef .tc main_v26) := (st25 m c main_v26 (by decide +kernel)).trans (k26_24 m c)
theorem k26_26 : W26 m c (Proc.devRef .tc main_v26) = W3 m c (Proc.devRef .tc main_v26) := (st26 m c main_v26 (by decide +kernel)).trans (k26_25 m c)
theorem k26_27 : W27 m c (Proc.devRef .tc main_v26) = W3 m c (Proc.devRef .tc main_v26) := (st27 m c main_v26 (by decide +kernel)).trans (k26_26 m c)
theorem k26_28 : W28 m c (Proc.devRef .tc main_v26) = W3 m c (Proc.devRef .tc main_v26) := (st28 m c main_v26 (by decide +kernel)).trans (k26_27 m c)
theorem k26_29 : W29 m c (Proc.devRef .tc main_v26) = W3 m c (Proc.devRef .tc main_v26) := (st29 m c main_v26 (by decide +kernel)).trans (k26_28 m c)
theorem k26_30 : W30 m c (Proc.devRef .tc main_v26) = W3 m c (Proc.devRef .tc main_v26) := (st30 m c main_v26 (by decide +kernel)).trans (k26_29 m c)
theorem k26_31 : W31 m c (Proc.devRef .tc main_v26) = W3 m c (Proc.devRef .tc main_v26) := (st31 m c main_v26 (by decide +kernel)).trans (k26_30 m c)
theorem k26_32 : W32 m c (Proc.devRef .tc main_v26) = W3 m c (Proc.devRef .tc main_v26) := (st32 m c main_v26 (by decide +kernel)).trans (k26_31 m c)

/-- Each layer's input node features are read again, as the residual, by the layer's second matmul region. -/
theorem k49_10 : W10 m c (Proc.devRef .tc main_v49) = W9 m c (Proc.devRef .tc main_v49) := (st10 m c main_v49 (by decide +kernel))
theorem k49_11 : W11 m c (Proc.devRef .tc main_v49) = W9 m c (Proc.devRef .tc main_v49) := (st11 m c main_v49 (by decide +kernel)).trans (k49_10 m c)
theorem k49_12 : W12 m c (Proc.devRef .tc main_v49) = W9 m c (Proc.devRef .tc main_v49) := (st12 m c main_v49 (by decide +kernel)).trans (k49_11 m c)
theorem k49_13 : W13 m c (Proc.devRef .tc main_v49) = W9 m c (Proc.devRef .tc main_v49) := (st13 m c main_v49 (by decide +kernel)).trans (k49_12 m c)
theorem k49_14 : W14 m c (Proc.devRef .tc main_v49) = W9 m c (Proc.devRef .tc main_v49) := (st14 m c main_v49 (by decide +kernel)).trans (k49_13 m c)
theorem k49_15 : W15 m c (Proc.devRef .tc main_v49) = W9 m c (Proc.devRef .tc main_v49) := (st15 m c main_v49 (by decide +kernel)).trans (k49_14 m c)
theorem k120_22 : W22 m c (Proc.devRef .tc main_v120) = W21 m c (Proc.devRef .tc main_v120) := (st22 m c main_v120 (by decide +kernel))
theorem k120_23 : W23 m c (Proc.devRef .tc main_v120) = W21 m c (Proc.devRef .tc main_v120) := (st23 m c main_v120 (by decide +kernel)).trans (k120_22 m c)
theorem k120_24 : W24 m c (Proc.devRef .tc main_v120) = W21 m c (Proc.devRef .tc main_v120) := (st24 m c main_v120 (by decide +kernel)).trans (k120_23 m c)
theorem k120_25 : W25 m c (Proc.devRef .tc main_v120) = W21 m c (Proc.devRef .tc main_v120) := (st25 m c main_v120 (by decide +kernel)).trans (k120_24 m c)
theorem k120_26 : W26 m c (Proc.devRef .tc main_v120) = W21 m c (Proc.devRef .tc main_v120) := (st26 m c main_v120 (by decide +kernel)).trans (k120_25 m c)
theorem k120_27 : W27 m c (Proc.devRef .tc main_v120) = W21 m c (Proc.devRef .tc main_v120) := (st27 m c main_v120 (by decide +kernel)).trans (k120_26 m c)
theorem k191_34 : W34 m c (Proc.devRef .tc main_v191) = W33 m c (Proc.devRef .tc main_v191) := (st34 m c main_v191 (by decide +kernel))
theorem k191_35 : W35 m c (Proc.devRef .tc main_v191) = W33 m c (Proc.devRef .tc main_v191) := (st35 m c main_v191 (by decide +kernel)).trans (k191_34 m c)
theorem k191_36 : W36 m c (Proc.devRef .tc main_v191) = W33 m c (Proc.devRef .tc main_v191) := (st36 m c main_v191 (by decide +kernel)).trans (k191_35 m c)
theorem k191_37 : W37 m c (Proc.devRef .tc main_v191) = W33 m c (Proc.devRef .tc main_v191) := (st37 m c main_v191 (by decide +kernel)).trans (k191_36 m c)
theorem k191_38 : W38 m c (Proc.devRef .tc main_v191) = W33 m c (Proc.devRef .tc main_v191) := (st38 m c main_v191 (by decide +kernel)).trans (k191_37 m c)
theorem k191_39 : W39 m c (Proc.devRef .tc main_v191) = W33 m c (Proc.devRef .tc main_v191) := (st39 m c main_v191 (by decide +kernel)).trans (k191_38 m c)

/-! ## The named arrays -/

/-- The first region's product: the summed edge features times the four bond matrices side by side. -/
def RAW : FVec Ideal S100000x256 .f32 :=
  Cert.Spec.mm16 (sw (F := Ideal) (W0 m c (Proc.devRef .tc main_arg1)) (W0 m c (Proc.devRef .tc main_arg3))) (bwAll (F := Ideal) (W0 m c (Proc.devRef .tc main_arg6)) (W0 m c (Proc.devRef .tc main_arg10)))

/-- The node features after the first update, and after each of the three layers. -/
def H0 : FVec Ideal Cert.Spec.SN64 .f32 :=
  Cert.Spec.first (aggK (F := Ideal) ![0, 0] slices_S100000x256_S100000x64_0_0 (RAW m c) (W0 m c (Proc.devRef .tc main_arg3)) (W0 m c (Proc.devRef .tc main_arg7)) (W0 m c (Proc.devRef .tc main_arg11))) (W0 m c (Proc.devRef .tc main_arg0)) (W0 m c (Proc.devRef .tc main_arg4)) (W0 m c (Proc.devRef .tc main_arg5)) (W0 m c (Proc.devRef .tc main_arg8)) (W0 m c (Proc.devRef .tc main_arg9))

def H1 : FVec Ideal Cert.Spec.SN64 .f32 :=
  Cert.Spec.layer (nb (F := Ideal) (W0 m c (Proc.devRef .tc main_arg2)) (W0 m c (Proc.devRef .tc main_arg3))) (aggK (F := Ideal) ![0, 64] slices_S100000x256_S100000x64_0_64 (RAW m c) (W0 m c (Proc.devRef .tc main_arg3)) (W0 m c (Proc.devRef .tc main_arg7)) (W0 m c (Proc.devRef .tc main_arg11))) (Cert.Spec.mat3 (W0 m c (Proc.devRef .tc main_arg12)) 0) (Cert.Spec.row3 (W0 m c (Proc.devRef .tc main_arg13)) 0) (Cert.Spec.mat3 (W0 m c (Proc.devRef .tc main_arg14)) 0) (Cert.Spec.row3 (W0 m c (Proc.devRef .tc main_arg15)) 0)
    (Cert.Spec.row3 (W0 m c (Proc.devRef .tc main_arg16)) 0) (Cert.Spec.row3 (W0 m c (Proc.devRef .tc main_arg17)) 0) (Cert.Spec.row3 (W0 m c (Proc.devRef .tc main_arg18)) 0) (Cert.Spec.row3 (W0 m c (Proc.devRef .tc main_arg19)) 0) (H0 m c)
def H2 : FVec Ideal Cert.Spec.SN64 .f32 :=
  Cert.Spec.layer (nb (F := Ideal) (W0 m c (Proc.devRef .tc main_arg2)) (W0 m c (Proc.devRef .tc main_arg3))) (aggK (F := Ideal) ![0, 128] slices_S100000x256_S100000x64_0_128 (RAW m c) (W0 m c (Proc.devRef .tc main_arg3)) (W0 m c (Proc.devRef .tc main_arg7)) (W0 m c (Proc.devRef .tc main_arg11))) (Cert.Spec.mat3 (W0 m c (Proc.devRef .tc main_arg12)) 1) (Cert.Spec.row3 (W0 m c (Proc.devRef .tc main_arg13)) 1) (Cert.Spec.mat3 (W0 m c (Proc.devRef .tc main_arg14)) 1) (Cert.Spec.row3 (W0 m c (Proc.devRef .tc main_arg15)) 1)
    (Cert.Spec.row3 (W0 m c (Proc.devRef .tc main_arg16)) 1) (Cert.Spec.row3 (W0 m c (Proc.devRef .tc main_arg17)) 1) (Cert.Spec.row3 (W0 m c (Proc.devRef .tc main_arg18)) 1) (Cert.Spec.row3 (W0 m c (Proc.devRef .tc main_arg19)) 1) (H1 m c)
def H3 : FVec Ideal Cert.Spec.SN64 .f32 :=
  Cert.Spec.layer (nb (F := Ideal) (W0 m c (Proc.devRef .tc main_arg2)) (W0 m c (Proc.devRef .tc main_arg3))) (aggK (F := Ideal) ![0, 192] slices_S100000x256_S100000x64_0_192 (RAW m c) (W0 m c (Proc.devRef .tc main_arg3)) (W0 m c (Proc.devRef .tc main_arg7)) (W0 m c (Proc.devRef .tc main_arg11))) (Cert.Spec.mat3 (W0 m c (Proc.devRef .tc main_arg12)) 2) (Cert.Spec.row3 (W0 m c (Proc.devRef .tc main_arg13)) 2) (Cert.Spec.mat3 (W0 m c (Proc.devRef .tc main_arg14)) 2) (Cert.Spec.row3 (W0 m c (Proc.devRef .tc main_arg15)) 2)
    (Cert.Spec.row3 (W0 m c (Proc.devRef .tc main_arg16)) 2) (Cert.Spec.row3 (W0 m c (Proc.devRef .tc main_arg17)) 2) (Cert.Spec.row3 (W0 m c (Proc.devRef .tc main_arg18)) 2) (Cert.Spec.row3 (W0 m c (Proc.devRef .tc main_arg19)) 2) (H2 m c)

/-! ## The first region and the aggregates -/

/-- Region 0 leaves the product in its result array: its operands are what the first stretch left. -/
theorem hx0 : x0 m c = RAW m c := by
  refine (Frame0.arr0_eq (fun (c : Dev nD) (b : Ref sig .tc) => W1 m c b) c).trans ?_
  show Cert.Spec.mm16 (StableHlo.after (hostOps0 (F := Ideal)) (W0 m c) (Proc.devRef .tc main_v16)) (StableHlo.after (hostOps0 (F := Ideal)) (W0 m c) (Proc.devRef .tc main_v6)) = _
  rw [ops0_v16, ops0_v6]
  rfl

theorem h13 : W2 m c (Proc.devRef .tc main_v13) = bbAll (F := Ideal) (W0 m c (Proc.devRef .tc main_arg7)) (W0 m c (Proc.devRef .tc main_arg11)) :=
  (st2 m c main_v13 (by decide)).trans (ops0_v13 (W0 m c))
theorem h20 : W2 m c (Proc.devRef .tc main_v20) = deg (F := Ideal) (W0 m c (Proc.devRef .tc main_arg3)) :=
  (st2 m c main_v20 (by decide)).trans (ops0_v20 (W0 m c))
theorem h21 : W2 m c (Proc.devRef .tc main_v21) = RAW m c :=
  ((by show Function.update (W1 m c) _ (x0 m c) _ = x0 m c; exact Function.update_self _ _ _) : W2 m c (Proc.devRef .tc main_v21) = x0 m c).trans (hx0 m c)

/-- All four aggregates, after the second stretch. -/
theorem hv26 : W3 m c (Proc.devRef .tc main_v26) = aggAll (F := Ideal) (RAW m c) (W0 m c (Proc.devRef .tc main_arg3)) (W0 m c (Proc.devRef .tc main_arg7)) (W0 m c (Proc.devRef .tc main_arg11)) := by
  have h := ops1_v26_agg (W2 m c) (W0 m c (Proc.devRef .tc main_arg3)) (W0 m c (Proc.devRef .tc main_arg7)) (W0 m c (Proc.devRef .tc main_arg11)) (h13 m c) (h20 m c)
  rw [h21 m c] at h
  exact h
theorem hv27 : W3 m c (Proc.devRef .tc main_v27) = (aggK (F := Ideal) ![0, 0] slices_S100000x256_S100000x64_0_0 (RAW m c) (W0 m c (Proc.devRef .tc main_arg3)) (W0 m c (Proc.devRef .tc main_arg7)) (W0 m c (Proc.devRef .tc main_arg11))) := by
  have h := ops1_v27_agg (W2 m c) (W0 m c (Proc.devRef .tc main_arg3)) (W0 m c (Proc.devRef .tc main_arg7)) (W0 m c (Proc.devRef .tc main_arg11)) (h13 m c) (h20 m c)
  rw [h21 m c] at h
  exact h
theorem hv28 : W3 m c (Proc.devRef .tc main_v28) = shapeCast S1x64 (W0 m c (Proc.devRef .tc main_arg5)) shapeCasts_S64_S1x64 := by
  have h := ops1_v28 (W2 m c)
  rw [a5_2 m c] at h
  exact h

/-- Region 1 leaves the first affine map plus the first aggregate. -/
theorem hx1 : x1 m c = fun i => Cert.Spec.lin (W0 m c (Proc.devRef .tc main_arg0)) (W0 m c (Proc.devRef .tc main_arg4)) (W0 m c (Proc.devRef .tc main_arg5)) i + (aggK (F := Ideal) ![0, 0] slices_S100000x256_S100000x64_0_0 (RAW m c) (W0 m c (Proc.devRef .tc main_arg3)) (W0 m c (Proc.devRef .tc main_arg7)) (W0 m c (Proc.devRef .tc main_arg11))) i := by
  refine (Frame1.arr1_eq (fun (c : Dev nD) (b : Ref sig .tc) => W3 m c b) c).trans ?_
  show Cert.Spec.linE (W3 m c (Proc.devRef .tc main_arg0)) (W3 m c (Proc.devRef .tc main_arg4)) (W3 m c (Proc.devRef .tc main_v28)) (W3 m c (Proc.devRef .tc main_v27)) = _
  rw [a0_3 m c, a4_3 m c, hv28, hv27]
  exact linE_eq _ _ _ _ _

/-- After the first batch-norm group: the node features after the first update. -/
theorem hH0 : (W9 m c (Proc.devRef .tc main_v49) : FVec Ideal Cert.Spec.SN64 .f32) = H0 m c := by
  have h := group0 (W4 m c) (x2 m c) (Frame2.arr2_eq (fun (c : Dev nD) (b : Ref sig .tc) => W7 m c b) c)
  rw [((by show Function.update (W3 m c) _ (x1 m c) _ = x1 m c; exact Function.update_self _ _ _) : W4 m c (Proc.devRef .tc main_v29) = x1 m c), hx1, a8_4 m c, a9_4 m c] at h
  exact h

/-! ## Layer 0 -/

/-- Region 3 leaves the layer's first affine map of the neighbour sums plus the layer's aggregate. -/
theorem hx3 : x3 m c = (fun j => Cert.Spec.lin ((nb (F := Ideal) (W0 m c (Proc.devRef .tc main_arg2)) (W0 m c (Proc.devRef .tc main_arg3))) (H0 m c)) (Cert.Spec.mat3 (W0 m c (Proc.devRef .tc main_arg12)) 0) (Cert.Spec.row3 (W0 m c (Proc.devRef .tc main_arg13)) 0) j + (aggK (F := Ideal) ![0, 64] slices_S100000x256_S100000x64_0_64 (RAW m c) (W0 m c (Proc.devRef .tc main_arg3)) (W0 m c (Proc.devRef .tc main_arg7)) (W0 m c (Proc.devRef .tc main_arg11))) j) := by
  have e1 : W9 m c (Proc.devRef .tc main_v60) = (nb (F := Ideal) (W0 m c (Proc.devRef .tc main_arg2)) (W0 m c (Proc.devRef .tc main_arg3))) (H0 m c) :=
    ((ops3_v60 (W8 m c)).trans (congrArg (nb (F := Ideal) (W8 m c (Proc.devRef .tc main_arg2)) (W8 m c (Proc.devRef .tc main_arg3))) (ops3_v49 (W8 m c)).symm)).trans
      (by rw [a2_8 m c, a3_8 m c]; exact congrArg _ (hH0 m c))
  have e2 : W9 m c (Proc.devRef .tc main_v62) = (Cert.Spec.mat3 (W0 m c (Proc.devRef .tc main_arg12)) 0) := (ops3_v62 (W8 m c)).trans (by rw [a12_8 m c])
  have e3 : W9 m c (Proc.devRef .tc main_v65) = shapeCast S1x64 (Cert.Spec.row3 (W0 m c (Proc.devRef .tc main_arg13)) 0) shapeCasts_S64_S1x64 :=
    (ops3_v65 (W8 m c)).trans (by rw [a13_8 m c])
  have e4 : W9 m c (Proc.devRef .tc main_v50) = (aggK (F := Ideal) ![0, 64] slices_S100000x256_S100000x64_0_64 (RAW m c) (W0 m c (Proc.devRef .tc main_arg3)) (W0 m c (Proc.devRef .tc main_arg7)) (W0 m c (Proc.devRef .tc main_arg11))) :=
    ops3_v50_agg (W8 m c) (RAW m c) (W0 m c (Proc.devRef .tc main_arg3)) (W0 m c (Proc.devRef .tc main_arg7)) (W0 m c (Proc.devRef .tc main_arg11)) ((k26_8 m c).trans (hv26 m c))
  refine (Frame3.arr3_eq (fun (c : Dev nD) (b : Ref sig .tc) => W9 m c b) c).trans ?_
  show Cert.Spec.linE (W9 m c (Proc.devRef .tc main_v60)) (W9 m c (Proc.devRef .tc main_v62)) (W9 m c (Proc.devRef .tc main_v65)) (W9 m c (Proc.devRef .tc main_v50)) = _
  rw [e1, e2, e3, e4]
  exact linE_eq _ _ _ _ _

/-- After the layer's first batch-norm group. -/
theorem hT0 : (W15 m c (Proc.devRef .tc main_v90) : FVec Ideal Cert.Spec.SN64 .f32) = (Cert.Spec.relu (Cert.Spec.bn (fun j => Cert.Spec.lin ((nb (F := Ideal) (W0 m c (Proc.devRef .tc main_arg2)) (W0 m c (Proc.devRef .tc main_arg3))) (H0 m c)) (Cert.Spec.mat3 (W0 m c (Proc.devRef .tc main_arg12)) 0) (Cert.Spec.row3 (W0 m c (Proc.devRef .tc main_arg13)) 0) j + (aggK (F := Ideal) ![0, 64] slices_S100000x256_S100000x64_0_64 (RAW m c) (W0 m c (Proc.devRef .tc main_arg3)) (W0 m c (Proc.devRef .tc main_arg7)) (W0 m c (Proc.devRef .tc main_arg11))) j) (Cert.Spec.row3 (W0 m c (Proc.devRef .tc main_arg16)) 0) (Cert.Spec.row3 (W0 m c (Proc.devRef .tc main_arg17)) 0))) := by
  have h := group1 (W10 m c) (x4 m c) (Frame4.arr4_eq (fun (c : Dev nD) (b : Ref sig .tc) => W13 m c b) c)
  rw [((by show Function.update (W9 m c) _ (x3 m c) _ = x3 m c; exact Function.update_self _ _ _) : W10 m c (Proc.devRef .tc main_v66) = x3 m c), hx3, a16_10 m c, a17_10 m c] at h
  exact h

/-- Region 5 leaves the layer's second affine map plus the layer's input features. -/
theorem hx5 : x5 m c = (fun j => Cert.Spec.lin (Cert.Spec.relu (Cert.Spec.bn (fun j => Cert.Spec.lin ((nb (F := Ideal) (W0 m c (Proc.devRef .tc main_arg2)) (W0 m c (Proc.devRef .tc main_arg3))) (H0 m c)) (Cert.Spec.mat3 (W0 m c (Proc.devRef .tc main_arg12)) 0) (Cert.Spec.row3 (W0 m c (Proc.devRef .tc main_arg13)) 0) j + (aggK (F := Ideal) ![0, 64] slices_S100000x256_S100000x64_0_64 (RAW m c) (W0 m c (Proc.devRef .tc main_arg3)) (W0 m c (Proc.devRef .tc main_arg7)) (W0 m c (Proc.devRef .tc main_arg11))) j) (Cert.Spec.row3 (W0 m c (Proc.devRef .tc main_arg16)) 0) (Cert.Spec.row3 (W0 m c (Proc.devRef .tc main_arg17)) 0))) (Cert.Spec.mat3 (W0 m c (Proc.devRef .tc main_arg14)) 0) (Cert.Spec.row3 (W0 m c (Proc.devRef .tc main_arg15)) 0) j + (H0 m c) j) := by
  have e2 : W15 m c (Proc.devRef .tc main_v92) = (Cert.Spec.mat3 (W0 m c (Proc.devRef .tc main_arg14)) 0) := (ops5_v92 (W14 m c)).trans (by rw [a14_14 m c])
  have e3 : W15 m c (Proc.devRef .tc main_v95) = shapeCast S1x64 (Cert.Spec.row3 (W0 m c (Proc.devRef .tc main_arg15)) 0) shapeCasts_S64_S1x64 :=
    (ops5_v95 (W14 m c)).trans (by rw [a15_14 m c])
  have e4 : (W15 m c (Proc.devRef .tc main_v49) : FVec Ideal Cert.Spec.SN64 .f32) = (H0 m c) := (k49_15 m c).trans (hH0 m c)
  refine (Frame5.arr5_eq (fun (c : Dev nD) (b : Ref sig .tc) => W15 m c b) c).trans ?_
  show Cert.Spec.linE (W15 m c (Proc.devRef .tc main_v90)) (W15 m c (Proc.devRef .tc main_v92)) (W15 m c (Proc.devRef .tc main_v95)) (W15 m c (Proc.devRef .tc main_v49)) = _
  rw [hT0, e2, e3, e4]
  exact linE_eq _ _ _ _ _

/-- After the layer's second batch-norm group: the node features after the layer. -/
theorem hH1 : (W21 m c (Proc.devRef .tc main_v120) : FVec Ideal Cert.Spec.SN64 .f32) = H1 m c := by
  have h := group2 (W16 m c) (x6 m c) (Frame6.arr6_eq (fun (c : Dev nD) (b : Ref sig .tc) => W19 m c b) c)
  rw [((by show Function.update (W15 m c) _ (x5 m c) _ = x5 m c; exact Function.update_self _ _ _) : W16 m c (Proc.devRef .tc main_v96) = x5 m c), hx5, a18_16 m c, a19_16 m c] at h
  exact h

/-! ## Layer 1 -/

/-- Region 7 leaves the layer's first affine map of the neighbour sums plus the layer's aggregate. -/
theorem hx7 : x7 m c = (fun j => Cert.Spec.lin ((nb (F := Ideal) (W0 m c (Proc.devRef .tc main_arg2)) (W0 m c (Proc.devRef .tc main_arg3))) (H1 m c)) (Cert.Spec.mat3 (W0 m c (Proc.devRef .tc main_arg12)) 1) (Cert.Spec.row3 (W0 m c (Proc.devRef .tc main_arg13)) 1) j + (aggK (F := Ideal) ![0, 128] slices_S100000x256_S100000x64_0_128 (RAW m c) (W0 m c (Proc.devRef .tc main_arg3)) (W0 m c (Proc.devRef .tc main_arg7)) (W0 m c (Proc.devRef .tc main_arg11))) j) := by
  have e1 : W21 m c (Proc.devRef .tc main_v131) = (nb (F := Ideal) (W0 m c (Proc.devRef .tc main_arg2)) (W0 m c (Proc.devRef .tc main_arg3))) (H1 m c) :=
    ((ops7_v131 (W20 m c)).trans (congrArg (nb (F := Ideal) (W20 m c (Proc.devRef .tc main_arg2)) (W20 m c (Proc.devRef .tc main_arg3))) (ops7_v120 (W20 m c)).symm)).trans
      (by rw [a2_20 m c, a3_20 m c]; exact congrArg _ (hH1 m c))
  have e2 : W21 m c (Proc.devRef .tc main_v133) = (Cert.Spec.mat3 (W0 m c (Proc.devRef .tc main_arg12)) 1) := (ops7_v133 (W20 m c)).trans (by rw [a12_20 m c])
  have e3 : W21 m c (Proc.devRef .tc main_v136) = shapeCast S1x64 (Cert.Spec.row3 (W0 m c (Proc.devRef .tc main_arg13)) 1) shapeCasts_S64_S1x64 :=
    (ops7_v136 (W20 m c)).trans (by rw [a13_20 m c])
  have e4 : W21 m c (Proc.devRef .tc main_v121) = (aggK (F := Ideal) ![0, 128] slices_S100000x256_S100000x64_0_128 (RAW m c) (W0 m c (Proc.devRef .tc main_arg3)) (W0 m c (Proc.devRef .tc main_arg7)) (W0 m c (Proc.devRef .tc main_arg11))) :=
    ops7_v121_agg (W20 m c) (RAW m c) (W0 m c (Proc.devRef .tc main_arg3)) (W0 m c (Proc.devRef .tc main_arg7)) (W0 m c (Proc.devRef .tc main_arg11)) ((k26_20 m c).trans (hv26 m c))
  refine (Frame7.arr7_eq (fun (c : Dev nD) (b : Ref sig .tc) => W21 m c b) c).trans ?_
  show Cert.Spec.linE (W21 m c (Proc.devRef .tc main_v131)) (W21 m c (Proc.devRef .tc main_v133)) (W21 m c (Proc.devRef .tc main_v136)) (W21 m c (Proc.devRef .tc main_v121)) = _
  rw [e1, e2, e3, e4]
  exact linE_eq _ _ _ _ _

/-- After the layer's first batch-norm group. -/
theorem hT1 : (W27 m c (Proc.devRef .tc main_v161) : FVec Ideal Cert.Spec.SN64 .f32) = (Cert.Spec.relu (Cert.Spec.bn (fun j => Cert.Spec.lin ((nb (F := Ideal) (W0 m c (Proc.devRef .tc main_arg2)) (W0 m c (Proc.devRef .tc main_arg3))) (H1 m c)) (Cert.Spec.mat3 (W0 m c (Proc.devRef .tc main_arg12)) 1) (Cert.Spec.row3 (W0 m c (Proc.devRef .tc main_arg13)) 1) j + (aggK (F := Ideal) ![0, 128] slices_S100000x256_S100000x64_0_128 (RAW m c) (W0 m c (Proc.devRef .tc main_arg3)) (W0 m c (Proc.devRef .tc main_arg7)) (W0 m c (Proc.devRef .tc main_arg11))) j) (Cert.Spec.row3 (W0 m c (Proc.devRef .tc main_arg16)) 1) (Cert.Spec.row3 (W0 m c (Proc.devRef .tc main_arg17)) 1))) := by
  have h := group3 (W22 m c) (x8 m c) (Frame8.arr8_eq (fun (c : Dev nD) (b : Ref sig .tc) => W25 m c b) c)
  rw [((by show Function.update (W21 m c) _ (x7 m c) _ = x7 m c; exact Function.update_self _ _ _) : W22 m c (Proc.devRef .tc main_v137) = x7 m c), hx7, a16_22 m c, a17_22 m c] at h
  exact h

/-- Region 9 leaves the layer's second affine map plus the layer's input features. -/
theorem hx9 : x9 m c = (fun j => Cert.Spec.lin (Cert.Spec.relu (Cert.Spec.bn (fun j => Cert.Spec.lin ((nb (F := Ideal) (W0 m c (Proc.devRef .tc main_arg2)) (W0 m c (Proc.devRef .tc main_arg3))) (H1 m c)) (Cert.Spec.mat3 (W0 m c (Proc.devRef .tc main_arg12)) 1) (Cert.Spec.row3 (W0 m c (Proc.devRef .tc main_arg13)) 1) j + (aggK (F := Ideal) ![0, 128] slices_S100000x256_S100000x64_0_128 (RAW m c) (W0 m c (Proc.devRef .tc main_arg3)) (W0 m c (Proc.devRef .tc main_arg7)) (W0 m c (Proc.devRef .tc main_arg11))) j) (Cert.Spec.row3 (W0 m c (Proc.devRef .tc main_arg16)) 1) (Cert.Spec.row3 (W0 m c (Proc.devRef .tc main_arg17)) 1))) (Cert.Spec.mat3 (W0 m c (Proc.devRef .tc main_arg14)) 1) (Cert.Spec.row3 (W0 m c (Proc.devRef .tc main_arg15)) 1) j + (H1 m c) j) := by
  have e2 : W27 m c (Proc.devRef .tc main_v163) = (Cert.Spec.mat3 (W0 m c (Proc.devRef .tc main_arg14)) 1) := (ops9_v163 (W26 m c)).trans (by rw [a14_26 m c])
  have e3 : W27 m c (Proc.devRef .tc main_v166) = shapeCast S1x64 (Cert.Spec.row3 (W0 m c (Proc.devRef .tc main_arg15)) 1) shapeCasts_S64_S1x64 :=
    (ops9_v166 (W26 m c)).trans (by rw [a15_26 m c])
  have e4 : (W27 m c (Proc.devRef .tc main_v120) : FVec Ideal Cert.Spec.SN64 .f32) = (H1 m c) := (k120_27 m c).trans (hH1 m c)
  refine (Frame9.arr9_eq (fun (c : Dev nD) (b : Ref sig .tc) => W27 m c b) c).trans ?_
  show Cert.Spec.linE (W27 m c (Proc.devRef .tc main_v161)) (W27 m c (Proc.devRef .tc main_v163)) (W27 m c (Proc.devRef .tc main_v166)) (W27 m c (Proc.devRef .tc main_v120)) = _
  rw [hT1, e2, e3, e4]
  exact linE_eq _ _ _ _ _

/-- After the layer's second batch-norm group: the node features after the layer. -/
theorem hH2 : (W33 m c (Proc.devRef .tc main_v191) : FVec Ideal Cert.Spec.SN64 .f32) = H2 m c := by
  have h := group4 (W28 m c) (x10 m c) (Frame10.arr10_eq (fun (c : Dev nD) (b : Ref sig .tc) => W31 m c b) c)
  rw [((by show Function.update (W27 m c) _ (x9 m c) _ = x9 m c; exact Function.update_self _ _ _) : W28 m c (Proc.devRef .tc main_v167) = x9 m c), hx9, a18_28 m c, a19_28 m c] at h
  exact h

/-! ## Layer 2 -/

/-- Region 11 leaves the layer's first affine map of the neighbour sums plus the layer's aggregate. -/
theorem hx11 : x11 m c = (fun j => Cert.Spec.lin ((nb (F := Ideal) (W0 m c (Proc.devRef .tc main_arg2)) (W0 m c (Proc.devRef .tc main_arg3))) (H2 m c)) (Cert.Spec.mat3 (W0 m c (Proc.devRef .tc main_arg12)) 2) (Cert.Spec.row3 (W0 m c (Proc.devRef .tc main_arg13)) 2) j + (aggK (F := Ideal) ![0, 192] slices_S100000x256_S100000x64_0_192 (RAW m c) (W0 m c (Proc.devRef .tc main_arg3)) (W0 m c (Proc.devRef .tc main_arg7)) (W0 m c (Proc.devRef .tc main_arg11))) j) := by
  have e1 : W33 m c (Proc.devRef .tc main_v202) = (nb (F := Ideal) (W0 m c (Proc.devRef .tc main_arg2)) (W0 m c (Proc.devRef .tc main_arg3))) (H2 m c) :=
    ((ops11_v202 (W32 m c)).trans (congrArg (nb (F := Ideal) (W32 m c (Proc.devRef .tc main_arg2)) (W32 m c (Proc.devRef .tc main_arg3))) (ops11_v191 (W32 m c)).symm)).trans
      (by rw [a2_32 m c, a3_32 m c]; exact congrArg _ (hH2 m c))
  have e2 : W33 m c (Proc.devRef .tc main_v204) = (Cert.Spec.mat3 (W0 m c (Proc.devRef .tc main_arg12)) 2) := (ops11_v204 (W32 m c)).trans (by rw [a12_32 m c])
  have e3 : W33 m c (Proc.devRef .tc main_v207) = shapeCast S1x64 (Cert.Spec.row3 (W0 m c (Proc.devRef .tc main_arg13)) 2) shapeCasts_S64_S1x64 :=
    (ops11_v207 (W32 m c)).trans (by rw [a13_32 m c])
  have e4 : W33 m c (Proc.devRef .tc main_v192) = (aggK (F := Ideal) ![0, 192] slices_S100000x256_S100000x64_0_192 (RAW m c) (W0 m c (Proc.devRef .tc main_arg3)) (W0 m c (Proc.devRef .tc main_arg7)) (W0 m c (Proc.devRef .tc main_arg11))) :=
    ops11_v192_agg (W32 m c) (RAW m c) (W0 m c (Proc.devRef .tc main_arg3)) (W0 m c (Proc.devRef .tc main_arg7)) (W0 m c (Proc.devRef .tc main_arg11)) ((k26_32 m c).trans (hv26 m c))
  refine (Frame11.arr11_eq (fun (c : Dev nD) (b : Ref sig .tc) => W33 m c b) c).trans ?_
  show Cert.Spec.linE (W33 m c (Proc.devRef .tc main_v202)) (W33 m c (Proc.devRef .tc main_v204)) (W33 m c (Proc.devRef .tc main_v207)) (W33 m c (Proc.devRef .tc main_v192)) = _
  rw [e1, e2, e3, e4]
  exact linE_eq _ _ _ _ _

/-- After the layer's first batch-norm group. -/
theorem hT2 : (W39 m c (Proc.devRef .tc main_v232) : FVec Ideal Cert.Spec.SN64 .f32) = (Cert.Spec.relu (Cert.Spec.bn (fun j => Cert.Spec.lin ((nb (F := Ideal) (W0 m c (Proc.devRef .tc main_arg2)) (W0 m c (Proc.devRef .tc main_arg3))) (H2 m c)) (Cert.Spec.mat3 (W0 m c (Proc.devRef .tc main_arg12)) 2) (Cert.Spec.row3 (W0 m c (Proc.devRef .tc main_arg13)) 2) j + (aggK (F := Ideal) ![0, 192] slices_S100000x256_S100000x64_0_192 (RAW m c) (W0 m c (Proc.devRef .tc main_arg3)) (W0 m c (Proc.devRef .tc main_arg7)) (W0 m c (Proc.devRef .tc main_arg11))) j) (Cert.Spec.row3 (W0 m c (Proc.devRef .tc main_arg16)) 2) (Cert.Spec.row3 (W0 m c (Proc.devRef .tc main_arg17)) 2))) := by
  have h := group5 (W34 m c) (x12 m c) (Frame12.arr12_eq (fun (c : Dev nD) (b : Ref sig .tc) => W37 m c b) c)
  rw [((by show Function.update (W33 m c) _ (x11 m c) _ = x11 m c; exact Function.update_self _ _ _) : W34 m c (Proc.devRef .tc main_v208) = x11 m c), hx11, a16_34 m c, a17_34 m c] at h
  exact h

/-- Region 13 leaves the layer's second affine map plus the layer's input features. -/
theorem hx13 : x13 m c = (fun j => Cert.Spec.lin (Cert.Spec.relu (Cert.Spec.bn (fun j => Cert.Spec.lin ((nb (F := Ideal) (W0 m c (Proc.devRef .tc main_arg2)) (W0 m c (Proc.devRef .tc main_arg3))) (H2 m c)) (Cert.Spec.mat3 (W0 m c (Proc.devRef .tc main_arg12)) 2) (Cert.Spec.row3 (W0 m c (Proc.devRef .tc main_arg13)) 2) j + (aggK (F := Ideal) ![0, 192] slices_S100000x256_S100000x64_0_192 (RAW m c) (W0 m c (Proc.devRef .tc main_arg3)) (W0 m c (Proc.devRef .tc main_arg7)) (W0 m c (Proc.devRef .tc main_arg11))) j) (Cert.Spec.row3 (W0 m c (Proc.devRef .tc main_arg16)) 2) (Cert.Spec.row3 (W0 m c (Proc.devRef .tc main_arg17)) 2))) (Cert.Spec.mat3 (W0 m c (Proc.devRef .tc main_arg14)) 2) (Cert.Spec.row3 (W0 m c (Proc.devRef .tc main_arg15)) 2) j + (H2 m c) j) := by
  have e2 : W39 m c (Proc.devRef .tc main_v234) = (Cert.Spec.mat3 (W0 m c (Proc.devRef .tc main_arg14)) 2) := (ops13_v234 (W38 m c)).trans (by rw [a14_38 m c])
  have e3 : W39 m c (Proc.devRef .tc main_v237) = shapeCast S1x64 (Cert.Spec.row3 (W0 m c (Proc.devRef .tc main_arg15)) 2) shapeCasts_S64_S1x64 :=
    (ops13_v237 (W38 m c)).trans (by rw [a15_38 m c])
  have e4 : (W39 m c (Proc.devRef .tc main_v191) : FVec Ideal Cert.Spec.SN64 .f32) = (H2 m c) := (k191_39 m c).trans (hH2 m c)
  refine (Frame13.arr13_eq (fun (c : Dev nD) (b : Ref sig .tc) => W39 m c b) c).trans ?_
  show Cert.Spec.linE (W39 m c (Proc.devRef .tc main_v232)) (W39 m c (Proc.devRef .tc main_v234)) (W39 m c (Proc.devRef .tc main_v237)) (W39 m c (Proc.devRef .tc main_v191)) = _
  rw [hT2, e2, e3, e4]
  exact linE_eq _ _ _ _ _

/-- After the layer's second batch-norm group: the node features after the layer. -/
theorem hH3 : (W45 m c (Proc.devRef .tc main_v262) : FVec Ideal Cert.Spec.SN64 .f32) = H3 m c := by
  have h := group6 (W40 m c) (x14 m c) (Frame14.arr14_eq (fun (c : Dev nD) (b : Ref sig .tc) => W43 m c b) c)
  rw [((by show Function.update (W39 m c) _ (x13 m c) _ = x13 m c; exact Function.update_self _ _ _) : W40 m c (Proc.devRef .tc main_v238) = x13 m c), hx13, a18_40 m c, a19_40 m c] at h
  exact h

/-! ## The last affine map and the last batch normalisation -/

theorem hx15 : x15 m c = Cert.Spec.lin (H3 m c) (W0 m c (Proc.devRef .tc main_arg20)) (W0 m c (Proc.devRef .tc main_arg21)) := by
  have e3 : W45 m c (Proc.devRef .tc main_v263) = shapeCast S1x64 (W0 m c (Proc.devRef .tc main_arg21)) shapeCasts_S64_S1x64 :=
    (ops15_v263 (W44 m c)).trans (by rw [a21_44 m c])
  refine (Frame15.arr15_eq (fun (c : Dev nD) (b : Ref sig .tc) => W45 m c b) c).trans ?_
  show Cert.Spec.linO (W45 m c (Proc.devRef .tc main_v262)) (W45 m c (Proc.devRef .tc main_arg20)) (W45 m c (Proc.devRef .tc main_v263)) = _
  rw [hH3, a20_45 m c, e3]
  exact linO_eq _ _ _ _

/-- The result buffer after the last stretch. -/
theorem hOut : (W51 m c (Proc.devRef .tc main_v284) : FVec Ideal Cert.Spec.SN64 .f32) = Cert.Spec.last (H3 m c) (W0 m c (Proc.devRef .tc main_arg20)) (W0 m c (Proc.devRef .tc main_arg21)) (W0 m c (Proc.devRef .tc main_arg22)) (W0 m c (Proc.devRef .tc main_arg23)) := by
  have h := group7 (W46 m c) (x16 m c) (Frame16.arr16_eq (fun (c : Dev nD) (b : Ref sig .tc) => W49 m c b) c)
  rw [((by show Function.update (W45 m c) _ (x15 m c) _ = x15 m c; exact Function.update_self _ _ _) : W46 m c (Proc.devRef .tc main_v264) = x15 m c), hx15, a22_46 m c, a23_46 m c] at h
  exact h

/-! ## The kernel's result -/

/-- THE RESULT of the idealized kernel program, read off the fold: the network of the specification at the launch
    contents of the arguments, with the neighbour sums and the four edge aggregates as the kernel spells them. -/
theorem result_eq' : (W51 m c (Proc.devRef .tc main_v284) : FVec Ideal Cert.Spec.SN64 .f32)
    = Cert.Spec.net (nb (F := Ideal) (W0 m c (Proc.devRef .tc main_arg2)) (W0 m c (Proc.devRef .tc main_arg3))) (aggK (F := Ideal) ![0, 0] slices_S100000x256_S100000x64_0_0 (RAW m c) (W0 m c (Proc.devRef .tc main_arg3)) (W0 m c (Proc.devRef .tc main_arg7)) (W0 m c (Proc.devRef .tc main_arg11))) (aggK (F := Ideal) ![0, 64] slices_S100000x256_S100000x64_0_64 (RAW m c) (W0 m c (Proc.devRef .tc main_arg3)) (W0 m c (Proc.devRef .tc main_arg7)) (W0 m c (Proc.devRef .tc main_arg11))) (aggK (F := Ideal) ![0, 128] slices_S100000x256_S100000x64_0_128 (RAW m c) (W0 m c (Proc.devRef .tc main_arg3)) (W0 m c (Proc.devRef .tc main_arg7)) (W0 m c (Proc.devRef .tc main_arg11))) (aggK (F := Ideal) ![0, 192] slices_S100000x256_S100000x64_0_192 (RAW m c) (W0 m c (Proc.devRef .tc main_arg3)) (W0 m c (Proc.devRef .tc main_arg7)) (W0 m c (Proc.devRef .tc main_arg11)))
        (W0 m c (Proc.devRef .tc main_arg0)) (W0 m c (Proc.devRef .tc main_arg4)) (W0 m c (Proc.devRef .tc main_arg5)) (W0 m c (Proc.devRef .tc main_arg8)) (W0 m c (Proc.devRef .tc main_arg9)) (W0 m c (Proc.devRef .tc main_arg12)) (W0 m c (Proc.devRef .tc main_arg13)) (W0 m c (Proc.devRef .tc main_arg14)) (W0 m c (Proc.devRef .tc main_arg15)) (W0 m c (Proc.devRef .tc main_arg16)) (W0 m c (Proc.devRef .tc main_arg17)) (W0 m c (Proc.devRef .tc main_arg18)) (W0 m c (Proc.devRef .tc main_arg19)) (W0 m c (Proc.devRef .tc main_arg20)) (W0 m c (Proc.devRef .tc main_arg21)) (W0 m c (Proc.devRef .tc main_arg22)) (W0 m c (Proc.devRef .tc main_arg23)) :=
  (hOut m c).trans (by unfold H3 H2 H1 H0; rfl)

/-- The same with the arguments written as the launch memory's entries. -/
theorem result_eq : (W51 m c (Proc.devRef .tc main_v284) : FVec Ideal Cert.Spec.SN64 .f32)
    = Cert.Spec.net (nb (F := Ideal) (m ((c.tc : Thread nD τ).loc main_arg2)) (m ((c.tc : Thread nD τ).loc main_arg3))) (aggK (F := Ideal) ![0, 0] slices_S100000x256_S100000x64_0_0 (Cert.Spec.mm16 (sw (F := Ideal) (m ((c.tc : Thread nD τ).loc main_arg1)) (m ((c.tc : Thread nD τ).loc main_arg3))) (bwAll (F := Ideal) (m ((c.tc : Thread nD τ).loc main_arg6)) (m ((c.tc : Thread nD τ).loc main_arg10)))) (m ((c.tc : Thread nD τ).loc main_arg3)) (m ((c.tc : Thread nD τ).loc main_arg7)) (m ((c.tc : Thread nD τ).loc main_arg11))) (aggK (F := Ideal) ![0, 64] slices_S100000x256_S100000x64_0_64 (Cert.Spec.mm16 (sw (F := Ideal) (m ((c.tc : Thread nD τ).loc main_arg1)) (m ((c.tc : Thread nD τ).loc main_arg3))) (bwAll (F := Ideal) (m ((c.tc : Thread nD τ).loc main_arg6)) (m ((c.tc : Thread nD τ).loc main_arg10)))) (m ((c.tc : Thread nD τ).loc main_arg3)) (m ((c.tc : Thread nD τ).loc main_arg7)) (m ((c.tc : Thread nD τ).loc main_arg11))) (aggK (F := Ideal) ![0, 128] slices_S100000x256_S100000x64_0_128 (Cert.Spec.mm16 (sw (F := Ideal) (m ((c.tc : Thread nD τ).loc main_arg1)) (m ((c.tc : Thread nD τ).loc main_arg3))) (bwAll (F := Ideal) (m ((c.tc : Thread nD τ).loc main_arg6)) (m ((c.tc : Thread nD τ).loc main_arg10)))) (m ((c.tc : Thread nD τ).loc main_arg3)) (m ((c.tc : Thread nD τ).loc main_arg7)) (m ((c.tc : Thread nD τ).loc main_arg11))) (aggK (F := Ideal) ![0, 192] slices_S100000x256_S100000x64_0_192 (Cert.Spec.mm16 (sw (F := Ideal) (m ((c.tc : Thread nD τ).loc main_arg1)) (m ((c.tc : Thread nD τ).loc main_arg3))) (bwAll (F := Ideal) (m ((c.tc : Thread nD τ).loc main_arg6)) (m ((c.tc : Thread nD τ).loc main_arg10)))) (m ((c.tc : Thread nD τ).loc main_arg3)) (m ((c.tc : Thread nD τ).loc main_arg7)) (m ((c.tc : Thread nD τ).loc main_arg11)))
        (m ((c.tc : Thread nD τ).loc main_arg0)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) :=
  result_eq' m c

end Cert.KernelIdeal.KValue

end
-- ==== Proof.RefTab0.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 83 of the reference's flat program: window 0 of @main, each call's callee operations
    inline over the call's buffer record. -/
abbrev ops0 : List (HloOp τ sig (Elt F)) :=
  [ StableHlo.binary main_arg1 main_arg6 main_v0 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    StableHlo.unary main_arg7 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S1600000x64 ![0, 1] bcast_S1x64_S1600000x64_0_1 : (⟨S1x64, .f32⟩ : BufTy).Contents (Elt F) → (⟨S1600000x64, .f32⟩ : BufTy).Contents (Elt F)),
    StableHlo.binary main_v0 main_v2 main_v3 (addf : (⟨S1600000x64, .f32⟩ : BufTy).Contents (Elt F) → (⟨S1600000x64, .f32⟩ : BufTy).Contents (Elt F) → (⟨S1600000x64, .f32⟩ : BufTy).Contents (Elt F)),
    StableHlo.nullary main_cst (constant S_ .f32 0x00000000#32),
    StableHlo.unary main_cst main_v4 (broadcastInDim S100000x64 ![] bcast_S_S100000x64 : (⟨S_, .f32⟩ : BufTy).Contents (Elt F) → (⟨S100000x64, .f32⟩ : BufTy).Contents (Elt F)),
    StableHlo.unary main_arg3 main_v5 (broadcastInDim S1600000x1 ![0] bcast_S1600000_S1600000x1_0 : (⟨S1600000, .i32⟩ : BufTy).Contents (Elt F) → (⟨S1600000x1, .i32⟩ : BufTy).Contents (Elt F)),
    StableHlo.ternary main_v4 main_v5 main_v3 main_v6 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_arg0 main_arg4 main_v7 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v6 main_v7 main_v8 (addf : (⟨S100000x64, .f32⟩ : BufTy).Contents (Elt F) → (⟨S100000x64, .f32⟩ : BufTy).Contents (Elt F) → (⟨S100000x64, .f32⟩ : BufTy).Contents (Elt F)),
    StableHlo.unary main_arg5 main_v9 (broadcastInDim S1x64 ![1] bcast_S64_S1x64_1 : (⟨S64, .f32⟩ : BufTy).Contents (Elt F) → (⟨S1x64, .f32⟩ : BufTy).Contents (Elt F)),
    StableHlo.unary main_v9 main_v10 (broadcastInDim S100000x64 ![0, 1] bcast_S1x64_S100000x64_0_1 : (⟨S1x64, .f32⟩ : BufTy).Contents (Elt F) → (⟨S100000x64, .f32⟩ : BufTy).Contents (Elt F)),
    StableHlo.binary main_v8 main_v10 main_v11 (addf : (⟨S100000x64, .f32⟩ : BufTy).Contents (Elt F) → (⟨S100000x64, .f32⟩ : BufTy).Contents (Elt F) → (⟨S100000x64, .f32⟩ : BufTy).Contents (Elt F)),
    StableHlo.nullary main_cst_0 (constant S_ .f32 0x00000000#32),
    StableHlo.binary main_v11 main_cst_0 main_v12 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_1 (constant S_ .f32 0x47C35000#32),
    StableHlo.unary main_cst_1 main_v13 (broadcastInDim S64 ![] bcast_S_S64 : (⟨S_, .f32⟩ : BufTy).Contents (Elt F) → (⟨S64, .f32⟩ : BufTy).Contents (Elt F)),
    StableHlo.binary main_v12 main_v13 main_v14 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v11 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v11 : StableHlo.TRef sig ⟨S100000x64, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v14 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S100000x64 ![0, 1] bcast_S1x64_S100000x64_0_1 : (⟨S1x64, .f32⟩ : BufTy).Contents (Elt F) → (⟨S100000x64, .f32⟩ : BufTy).Contents (Elt F)),
    StableHlo.binary main_v11 main_v17 main_v18 (subf : (⟨S100000x64, .f32⟩ : BufTy).Contents (Elt F) → (⟨S100000x64, .f32⟩ : BufTy).Contents (Elt F) → (⟨S100000x64, .f32⟩ : BufTy).Contents (Elt F)),
    StableHlo.nullary main_cst_2 (constant S_ .f32 0x3727C5AC#32),
    StableHlo.unary main_cst_2 main_v19 (broadcastInDim S64 ![] bcast_S_S64 : (⟨S_, .f32⟩ : BufTy).Contents (Elt F) → (⟨S64, .f32⟩ : BufTy).Contents (Elt F)),
    StableHlo.binary main_v15 main_v19 main_v20 (addf : (⟨S64, .f32⟩ : BufTy).Contents (Elt F) → (⟨S64, .f32⟩ : BufTy).Contents (Elt F) → (⟨S64, .f32⟩ : BufTy).Contents (Elt F)),
    StableHlo.unary main_v20 main_v21 (Host.rsqrt : (⟨S64, .f32⟩ : BufTy).Contents (Elt F) → (⟨S64, .f32⟩ : BufTy).Contents (Elt F)),
    StableHlo.unary main_v21 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S100000x64 ![0, 1] bcast_S1x64_S100000x64_0_1 : (⟨S1x64, .f32⟩ : BufTy).Contents (Elt F) → (⟨S100000x64, .f32⟩ : BufTy).Contents (Elt F)),
    StableHlo.binary main_v18 main_v23 main_v24 (mulf : (⟨S100000x64, .f32⟩ : BufTy).Contents (Elt F) → (⟨S100000x64, .f32⟩ : BufTy).Contents (Elt F) → (⟨S100000x64, .f32⟩ : BufTy).Contents (Elt F)),
    StableHlo.unary main_arg8 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v26 main_v27 (mulf : (⟨S100000x64, .f32⟩ : BufTy).Contents (Elt F) → (⟨S100000x64, .f32⟩ : BufTy).Contents (Elt F) → (⟨S100000x64, .f32⟩ : BufTy).Contents (Elt F)),
    StableHlo.unary main_arg9 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v29 main_v30 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v30 : StableHlo.TRef sig ⟨S100000x64, .f32⟩) main_call1.v0 main_call1.v1 maximumf,
    StableHlo.unary main_arg10 main_v32 ((extractStridedSlice S1x16x64 ![0, 0, 0] · slices_S3x16x64_S1x16x64_0_0_0) : (⟨S3x16x64, .f32⟩ : BufTy).Contents (Elt F) → (⟨S1x16x64, .f32⟩ : BufTy).Contents (Elt F)),
    StableHlo.reshape main_v32 main_v33 rfl shapeCasts_S1x16x64_S16x64,
    StableHlo.binary main_arg1 main_v33 main_v34 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    StableHlo.unary main_arg11 main_v35 ((extractStridedSlice S1x64 ![0, 0] · slices_S3x64_S1x64_0_0) : (⟨S3x64, .f32⟩ : BufTy).Contents (Elt F) → (⟨S1x64, .f32⟩ : BufTy).Contents (Elt F)),
    StableHlo.reshape main_v35 main_v36 rfl shapeCasts_S1x64_S64,
    StableHlo.unary main_v36 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S1600000x64 ![0, 1] bcast_S1x64_S1600000x64_0_1 : (⟨S1x64, .f32⟩ : BufTy).Contents (Elt F) → (⟨S1600000x64, .f32⟩ : BufTy).Contents (Elt F)),
    StableHlo.binary main_v34 main_v38 main_v39 (addf : (⟨S1600000x64, .f32⟩ : BufTy).Contents (Elt F) → (⟨S1600000x64, .f32⟩ : BufTy).Contents (Elt F) → (⟨S1600000x64, .f32⟩ : BufTy).Contents (Elt F)),
    StableHlo.nullary main_c_3 (constantI S_ 32 0#32),
    StableHlo.unary main_c_3 main_v40 (broadcastInDim S1600000 ![] bcast_S_S1600000 : (⟨S_, .i32⟩ : BufTy).Contents (Elt F) → (⟨S1600000, .i32⟩ : BufTy).Contents (Elt F)),
    StableHlo.binary main_arg2 main_v40 main_v41 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v42 (broadcastInDim S1600000 ![] bcast_S_S1600000 : (⟨S_, .i32⟩ : BufTy).Contents (Elt F) → (⟨S1600000, .i32⟩ : BufTy).Contents (Elt F)),
    StableHlo.binary main_arg2 main_v42 main_v43 (addi : (⟨S1600000, .i32⟩ : BufTy).Contents (Elt F) → (⟨S1600000, .i32⟩ : BufTy).Contents (Elt F) → (⟨S1600000, .i32⟩ : BufTy).Contents (Elt F)),
    StableHlo.ternary main_v41 main_v43 main_arg2 main_v44 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v44 main_v45 (broadcastInDim S1600000x1 ![0] bcast_S1600000_S1600000x1_0 : (⟨S1600000, .i32⟩ : BufTy).Contents (Elt F) → (⟨S1600000x1, .i32⟩ : BufTy).Contents (Elt F)),
    StableHlo.binary main_v31 main_v45 main_v46 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_5 (constant S_ .f32 0x00000000#32),
    StableHlo.unary main_cst_5 main_v47 (broadcastInDim S100000x64 ![] bcast_S_S100000x64 : (⟨S_, .f32⟩ : BufTy).Contents (Elt F) → (⟨S100000x64, .f32⟩ : BufTy).Contents (Elt F)),
    StableHlo.unary main_arg3 main_v48 (broadcastInDim S1600000x1 ![0] bcast_S1600000_S1600000x1_0 : (⟨S1600000, .i32⟩ : BufTy).Contents (Elt F) → (⟨S1600000x1, .i32⟩ : BufTy).Contents (Elt F)),
    StableHlo.ternary main_v47 main_v48 main_v46 main_v49 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_6 (constant S_ .f32 0x00000000#32),
    StableHlo.unary main_cst_6 main_v50 (broadcastInDim S100000x64 ![] bcast_S_S100000x64 : (⟨S_, .f32⟩ : BufTy).Contents (Elt F) → (⟨S100000x64, .f32⟩ : BufTy).Contents (Elt F)) ]

end Cert.ReferenceIdeal.RefRun

end
-- ==== Proof.LibKept.lean ====
import Idealize.ShloMosaic.Lib.StableHlo.Run

/-!
# Buffers a line of host operations never writes

If every operation of a line writes only references satisfying a predicate, a reference that does not
satisfy it holds after the line what it held before.
-/

namespace Idealize.ShloMosaic.StableHlo

variable {τ : Topo} {sig : RefSig} {Val : EltTy → Type}

/-- Every buffer the operation writes is a TensorCore reference satisfying `P`. -/
structure WritesIn (P : Ref sig .tc → Prop) (op : HloOp τ sig Val) : Prop where
  /-- Each written buffer is such a reference. -/
  out : ∀ b ∈ op.writes, ∃ y : Ref sig .tc, P y ∧ b = Proc.devRef .tc y

/-- A reference outside `P` keeps its contents through a line whose operations write only inside `P`. -/
theorem after_kept {P : Ref sig .tc → Prop} (ops : List (HloOp τ sig Val)) (V : Valuation τ sig Val)
    (h : ops.Forall (WritesIn P)) {r : Ref sig .tc} (hr : ¬ P r) :
    after ops V (Proc.devRef .tc r) = V (Proc.devRef .tc r) :=
  after_of_forall_not_mem ops V fun op hop hb => by
    obtain ⟨y, hy, he⟩ := ((List.forall_iff_forall_mem.mp h) op hop).out _ hb
    have e : r = y := Proc.devRef_injective _ he
    exact hr (e ▸ hy)

section Builders

variable {P : Ref sig .tc → Prop} {y : Ref sig .tc} (h : P y) (x a b c : Ref sig .tc)
include h

theorem nullary_writesIn (v : y.ty.Contents Val) (hy) : WritesIn P (nullary (τ := τ) y v hy) :=
  ⟨by intro d hd; rw [nullary_writes, Finset.mem_singleton] at hd; exact ⟨y, h, hd⟩⟩
theorem unary_writesIn (f : x.ty.Contents Val → y.ty.Contents Val) (hx hy) : WritesIn P (unary (τ := τ) x y f hx hy) :=
  ⟨by intro d hd; rw [unary_writes, Finset.mem_singleton] at hd; exact ⟨y, h, hd⟩⟩
theorem binary_writesIn (f : a.ty.Contents Val → b.ty.Contents Val → y.ty.Contents Val) (ha hb hy) :
    WritesIn P (binary (τ := τ) a b y f ha hb hy) :=
  ⟨by intro d hd; rw [binary_writes, Finset.mem_singleton] at hd; exact ⟨y, h, hd⟩⟩
theorem ternary_writesIn (f : c.ty.Contents Val → a.ty.Contents Val → b.ty.Contents Val → y.ty.Contents Val) (hc ha hb hy) :
    WritesIn P (ternary (τ := τ) c a b y f hc ha hb hy) :=
  ⟨by intro d hd; rw [ternary_writes, Finset.mem_singleton] at hd; exact ⟨y, h, hd⟩⟩
theorem reshape_writesIn (he hn hx hy) : WritesIn P (reshape (τ := τ) (Val := Val) x y he hn hx hy) :=
  ⟨by intro d hd; rw [reshape_writes, Finset.mem_singleton] at hd; exact ⟨y, h, hd⟩⟩

end Builders

section Fresh

variable (x a b c y : Ref sig .tc)

/-- The builders' operations determine their results: none of them draws fresh contents. -/
theorem nullary_fresh (v : y.ty.Contents Val) (hy) : (nullary (τ := τ) y v hy).fresh = ∅ := rfl
theorem unary_fresh (f : x.ty.Contents Val → y.ty.Contents Val) (hx hy) : (unary (τ := τ) x y f hx hy).fresh = ∅ := rfl
theorem binary_fresh (f : a.ty.Contents Val → b.ty.Contents Val → y.ty.Contents Val) (ha hb hy) :
    (binary (τ := τ) a b y f ha hb hy).fresh = ∅ := rfl
theorem ternary_fresh (f : c.ty.Contents Val → a.ty.Contents Val → b.ty.Contents Val → y.ty.Contents Val) (hc ha hb hy) :
    (ternary (τ := τ) c a b y f hc ha hb hy).fresh = ∅ := rfl
theorem reshape_fresh (he hn hx hy) : (reshape (τ := τ) (Val := Val) x y he hn hx hy).fresh = ∅ := rfl

end Fresh

/-- A property of every operation of a concatenation, from its parts'. -/
theorem forall_append_of {α : Type _} {p : α → Prop} {l₁ l₂ : List α} (h₁ : l₁.Forall p) (h₂ : l₂.Forall p) :
    (l₁ ++ l₂).Forall p :=
  List.forall_iff_forall_mem.mpr fun x hx => (List.mem_append.mp hx).elim
    (List.forall_iff_forall_mem.mp h₁ x) (List.forall_iff_forall_mem.mp h₂ x)

end Idealize.ShloMosaic.StableHlo
-- ==== Proof.RefArgs.lean ====
import proofs.«146189_j40922448396571_2_alg».proof.Proof.Gen.ReferenceIdeal
import proofs.«146189_j40922448396571_2_alg».proof.Proof.LibKept
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The references other than @main's twenty-four arguments (which are the first twenty-four of the signature). -/
def NotArg (r : Ref sig .tc) : Prop := 24 ≤ r.idx.val

instance (r : Ref sig .tc) : Decidable (NotArg r) := by unfold NotArg; infer_instance

end Cert.ReferenceIdeal.RefRun

end
-- ==== Proof.RefOps0.lean ====
import proofs.«146189_j40922448396571_2_alg».proof.Proof.RefTab0
import proofs.«146189_j40922448396571_2_alg».proof.Proof.RefArgs

/-!
# Window 0 of the reference's @main as a straight line

`ops0` lists the window's host operations with each outlined function's operations inline at its call.
Here: the window IS that line; every operation touches TensorCore references only, determines its
results, and writes no argument of @main.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Unfolding the outlined functions at their calls and reassociating the sequencing leaves the same chain
    of `hlo` steps on both sides. -/
theorem part0_eq (c : Dev nD) : main_part0 (F := F) c = seq ops0 := by
  simp only [main_part0, fn_var.body, fn_where.body, fn_relu.body, seq, bind_assoc, pure_bind]
  rfl

/-- Each builder's buffers are TensorCore references: the list is walked once, each operation's statement
    rewritten to `True` by its builder's lemma. -/
theorem ops0_sub : (ops0 : List (HloOp τ sig (Elt F))).Forall fun op => op.bufs ⊆ tcRefs τ sig := by
  simp only [ops0, List.forall_cons, List.Forall, ↓unary_bufs_sub, ↓binary_bufs_sub, ↓nullary_bufs_sub,
    ↓reshape_bufs_sub, ↓ternary_bufs_sub, and_self]

/-- No builder used here leaves a result undetermined. -/
theorem ops0_fresh : (ops0 : List (HloOp τ sig (Elt F))).Forall fun op => op.fresh = ∅ := by
  simp only [ops0, List.forall_cons, List.Forall, ↓unary_fresh, ↓binary_fresh, ↓nullary_fresh,
    ↓reshape_fresh, ↓ternary_fresh, and_self]

/-- Each builder writes its result reference only, and none of those is among the first twenty-four. -/
theorem ops0_writes : (ops0 : List (HloOp τ sig (Elt F))).Forall (WritesIn NotArg) := by
  simp (disch := decide) only [ops0, List.forall_cons, List.Forall, ↓unary_writesIn, ↓binary_writesIn,
    ↓nullary_writesIn, ↓reshape_writesIn, ↓ternary_writesIn, and_self]

end Cert.ReferenceIdeal.RefRun

end
-- ==== Proof.RefTab1.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 84 … 187 of the reference's flat program: window 1 of @main, each call's callee operations
    inline over the call's buffer record. -/
abbrev ops1 : List (HloOp τ sig (Elt F)) :=
  [ StableHlo.unary main_arg3 main_v51 (broadcastInDim S1600000x1 ![0] bcast_S1600000_S1600000x1_0 : (⟨S1600000, .i32⟩ : BufTy).Contents (Elt F) → (⟨S1600000x1, .i32⟩ : BufTy).Contents (Elt F)),
    StableHlo.ternary main_v50 main_v51 main_v39 main_v52 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg12 main_v53 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v53 main_v54 rfl shapeCasts_S1x64x64_S64x64,
    StableHlo.binary main_v49 main_v54 main_v55 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg13 main_v56 ((extractStridedSlice S1x64 ![0, 0] · slices_S3x64_S1x64_0_0) : (⟨S3x64, .f32⟩ : BufTy).Contents (Elt F) → (⟨S1x64, .f32⟩ : BufTy).Contents (Elt F)),
    StableHlo.reshape main_v56 main_v57 rfl shapeCasts_S1x64_S64,
    StableHlo.unary main_v57 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v55 main_v59 main_v60 (addf : (⟨S100000x64, .f32⟩ : BufTy).Contents (Elt F) → (⟨S100000x64, .f32⟩ : BufTy).Contents (Elt F) → (⟨S100000x64, .f32⟩ : BufTy).Contents (Elt F)),
    StableHlo.binary main_v60 main_v52 main_v61 (addf : (⟨S100000x64, .f32⟩ : BufTy).Contents (Elt F) → (⟨S100000x64, .f32⟩ : BufTy).Contents (Elt F) → (⟨S100000x64, .f32⟩ : BufTy).Contents (Elt F)),
    StableHlo.unary main_arg16 main_v62 ((extractStridedSlice S1x64 ![0, 0] · slices_S3x64_S1x64_0_0) : (⟨S3x64, .f32⟩ : BufTy).Contents (Elt F) → (⟨S1x64, .f32⟩ : BufTy).Contents (Elt F)),
    StableHlo.reshape main_v62 main_v63 rfl shapeCasts_S1x64_S64,
    StableHlo.unary main_arg17 main_v64 ((extractStridedSlice S1x64 ![0, 0] · slices_S3x64_S1x64_0_0) : (⟨S3x64, .f32⟩ : BufTy).Contents (Elt F) → (⟨S1x64, .f32⟩ : BufTy).Contents (Elt F)),
    StableHlo.reshape main_v64 main_v65 rfl shapeCasts_S1x64_S64,
    StableHlo.nullary main_cst_7 (constant S_ .f32 0x00000000#32),
    StableHlo.binary main_v61 main_cst_7 main_v66 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_8 (constant S_ .f32 0x47C35000#32),
    StableHlo.unary main_cst_8 main_v67 (broadcastInDim S64 ![] bcast_S_S64 : (⟨S_, .f32⟩ : BufTy).Contents (Elt F) → (⟨S64, .f32⟩ : BufTy).Contents (Elt F)),
    StableHlo.binary main_v66 main_v67 main_v68 (Host.divf : (⟨S64, .f32⟩ : BufTy).Contents (Elt F) → (⟨S64, .f32⟩ : BufTy).Contents (Elt F) → (⟨S64, .f32⟩ : BufTy).Contents (Elt F)),
    StableHlo.nullary main_c_9 (constantI S_ 32 0#32),
    StableHlo.TRef.nullary main_call2.cst (constant S_ .f32 0x00000000#32),
    StableHlo.TRef.binary (.of main_v61 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v61 : StableHlo.TRef sig ⟨S100000x64, .f32⟩) main_call2.v4 main_call2.v5 subf,
    StableHlo.TRef.binary main_call2.v5 main_call2.v5 main_call2.v6 mulf,
    StableHlo.TRef.unary (.of main_c_9 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v68 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v71 main_v72 (subf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3727C5AC#32),
    StableHlo.unary main_cst_10 main_v73 (broadcastInDim S64 ![] bcast_S_S64 : (⟨S_, .f32⟩ : BufTy).Contents (Elt F) → (⟨S64, .f32⟩ : BufTy).Contents (Elt F)),
    StableHlo.binary main_v69 main_v73 main_v74 (addf : (⟨S64, .f32⟩ : BufTy).Contents (Elt F) → (⟨S64, .f32⟩ : BufTy).Contents (Elt F) → (⟨S64, .f32⟩ : BufTy).Contents (Elt F)),
    StableHlo.unary main_v74 main_v75 (Host.rsqrt : (⟨S64, .f32⟩ : BufTy).Contents (Elt F) → (⟨S64, .f32⟩ : BufTy).Contents (Elt F)),
    StableHlo.unary main_v75 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v72 main_v77 main_v78 (mulf : (⟨S100000x64, .f32⟩ : BufTy).Contents (Elt F) → (⟨S100000x64, .f32⟩ : BufTy).Contents (Elt F) → (⟨S100000x64, .f32⟩ : BufTy).Contents (Elt F)),
    StableHlo.unary main_v63 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v80 main_v81 (mulf : (⟨S100000x64, .f32⟩ : BufTy).Contents (Elt F) → (⟨S100000x64, .f32⟩ : BufTy).Contents (Elt F) → (⟨S100000x64, .f32⟩ : BufTy).Contents (Elt F)),
    StableHlo.unary main_v65 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S100000x64 ![0, 1] bcast_S1x64_S100000x64_0_1 : (⟨S1x64, .f32⟩ : BufTy).Contents (Elt F) → (⟨S100000x64, .f32⟩ : BufTy).Contents (Elt F)),
    StableHlo.binary main_v81 main_v83 main_v84 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v84 : StableHlo.TRef sig ⟨S100000x64, .f32⟩) main_call3.v0 main_call3.v1 maximumf,
    StableHlo.unary main_arg14 main_v86 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v86 main_v87 rfl shapeCasts_S1x64x64_S64x64,
    StableHlo.binary main_v85 main_v87 main_v88 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg15 main_v89 ((extractStridedSlice S1x64 ![0, 0] · slices_S3x64_S1x64_0_0) : (⟨S3x64, .f32⟩ : BufTy).Contents (Elt F) → (⟨S1x64, .f32⟩ : BufTy).Contents (Elt F)),
    StableHlo.reshape main_v89 main_v90 rfl shapeCasts_S1x64_S64,
    StableHlo.unary main_v90 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S100000x64 ![0, 1] bcast_S1x64_S100000x64_0_1 : (⟨S1x64, .f32⟩ : BufTy).Contents (Elt F) → (⟨S100000x64, .f32⟩ : BufTy).Contents (Elt F)),
    StableHlo.binary main_v88 main_v92 main_v93 (addf : (⟨S100000x64, .f32⟩ : BufTy).Contents (Elt F) → (⟨S100000x64, .f32⟩ : BufTy).Contents (Elt F) → (⟨S100000x64, .f32⟩ : BufTy).Contents (Elt F)),
    StableHlo.binary main_v93 main_v31 main_v94 (addf : (⟨S100000x64, .f32⟩ : BufTy).Contents (Elt F) → (⟨S100000x64, .f32⟩ : BufTy).Contents (Elt F) → (⟨S100000x64, .f32⟩ : BufTy).Contents (Elt F)),
    StableHlo.unary main_arg18 main_v95 ((extractStridedSlice S1x64 ![0, 0] · slices_S3x64_S1x64_0_0) : (⟨S3x64, .f32⟩ : BufTy).Contents (Elt F) → (⟨S1x64, .f32⟩ : BufTy).Contents (Elt F)),
    StableHlo.reshape main_v95 main_v96 rfl shapeCasts_S1x64_S64,
    StableHlo.unary main_arg19 main_v97 ((extractStridedSlice S1x64 ![0, 0] · slices_S3x64_S1x64_0_0) : (⟨S3x64, .f32⟩ : BufTy).Contents (Elt F) → (⟨S1x64, .f32⟩ : BufTy).Contents (Elt F)),
    StableHlo.reshape main_v97 main_v98 rfl shapeCasts_S1x64_S64,
    StableHlo.nullary main_cst_11 (constant S_ .f32 0x00000000#32),
    StableHlo.binary main_v94 main_cst_11 main_v99 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_12 (constant S_ .f32 0x47C35000#32),
    StableHlo.unary main_cst_12 main_v100 (broadcastInDim S64 ![] bcast_S_S64 : (⟨S_, .f32⟩ : BufTy).Contents (Elt F) → (⟨S64, .f32⟩ : BufTy).Contents (Elt F)),
    StableHlo.binary main_v99 main_v100 main_v101 (Host.divf : (⟨S64, .f32⟩ : BufTy).Contents (Elt F) → (⟨S64, .f32⟩ : BufTy).Contents (Elt F) → (⟨S64, .f32⟩ : BufTy).Contents (Elt F)),
    StableHlo.nullary main_c_13 (constantI S_ 32 0#32),
    StableHlo.TRef.nullary main_call4.cst (constant S_ .f32 0x00000000#32),
    StableHlo.TRef.binary (.of main_v94 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v94 : StableHlo.TRef sig ⟨S100000x64, .f32⟩) main_call4.v4 main_call4.v5 subf,
    StableHlo.TRef.binary main_call4.v5 main_call4.v5 main_call4.v6 mulf,
    StableHlo.TRef.unary (.of main_c_13 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v101 main_v103 (broadcastInDim S1x64 ![1] bcast_S64_S1x64_1 : (⟨S64, .f32⟩ : BufTy).Contents (Elt F) → (⟨S1x64, .f32⟩ : BufTy).Contents (Elt F)) ]

end Cert.ReferenceIdeal.RefRun

end
-- ==== Proof.RefOps1.lean ====
import proofs.«146189_j40922448396571_2_alg».proof.Proof.RefTab1
import proofs.«146189_j40922448396571_2_alg».proof.Proof.RefArgs

/-!
# Window 1 of the reference's @main as a straight line

`ops1` lists the window's host operations with each outlined function's operations inline at its call.
Here: the window IS that line; every operation touches TensorCore references only, determines its
results, and writes no argument of @main.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Unfolding the outlined functions at their calls and reassociating the sequencing leaves the same chain
    of `hlo` steps on both sides. -/
theorem part1_eq (c : Dev nD) : main_part1 (F := F) c = seq ops1 := by
  simp only [main_part1, fn_var.body, fn_where.body, fn_relu.body, seq, bind_assoc, pure_bind]
  rfl

/-- Each builder's buffers are TensorCore references: the list is walked once, each operation's statement
    rewritten to `True` by its builder's lemma. -/
theorem ops1_sub : (ops1 : List (HloOp τ sig (Elt F))).Forall fun op => op.bufs ⊆ tcRefs τ sig := by
  simp only [ops1, List.forall_cons, List.Forall, ↓unary_bufs_sub, ↓binary_bufs_sub, ↓nullary_bufs_sub,
    ↓reshape_bufs_sub, ↓ternary_bufs_sub, and_self]

/-- No builder used here leaves a result undetermined. -/
theorem ops1_fresh : (ops1 : List (HloOp τ sig (Elt F))).Forall fun op => op.fresh = ∅ := by
  simp only [ops1, List.forall_cons, List.Forall, ↓unary_fresh, ↓binary_fresh, ↓nullary_fresh,
    ↓reshape_fresh, ↓ternary_fresh, and_self]

/-- Each builder writes its result reference only, and none of those is among the first twenty-four. -/
theorem ops1_writes : (ops1 : List (HloOp τ sig (Elt F))).Forall (WritesIn NotArg) := by
  simp (disch := decide) only [ops1, List.forall_cons, List.Forall, ↓unary_writesIn, ↓binary_writesIn,
    ↓nullary_writesIn, ↓reshape_writesIn, ↓ternary_writesIn, and_self]

end Cert.ReferenceIdeal.RefRun

end
-- ==== Proof.RefTab2.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 188 … 249 of the reference's flat program: window 2 of @main, each call's callee operations
    inline over the call's buffer record. -/
abbrev ops2 : List (HloOp τ sig (Elt F)) :=
  [ StableHlo.unary main_v103 main_v104 (broadcastInDim S100000x64 ![0, 1] bcast_S1x64_S100000x64_0_1 : (⟨S1x64, .f32⟩ : BufTy).Contents (Elt F) → (⟨S100000x64, .f32⟩ : BufTy).Contents (Elt F)),
    StableHlo.binary main_v94 main_v104 main_v105 (subf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x3727C5AC#32),
    StableHlo.unary main_cst_14 main_v106 (broadcastInDim S64 ![] bcast_S_S64 : (⟨S_, .f32⟩ : BufTy).Contents (Elt F) → (⟨S64, .f32⟩ : BufTy).Contents (Elt F)),
    StableHlo.binary main_v102 main_v106 main_v107 (addf : (⟨S64, .f32⟩ : BufTy).Contents (Elt F) → (⟨S64, .f32⟩ : BufTy).Contents (Elt F) → (⟨S64, .f32⟩ : BufTy).Contents (Elt F)),
    StableHlo.unary main_v107 main_v108 (Host.rsqrt : (⟨S64, .f32⟩ : BufTy).Contents (Elt F) → (⟨S64, .f32⟩ : BufTy).Contents (Elt F)),
    StableHlo.unary main_v108 main_v109 (broadcastInDim S1x64 ![1] bcast_S64_S1x64_1 : (⟨S64, .f32⟩ : BufTy).Contents (Elt F) → (⟨S1x64, .f32⟩ : BufTy).Contents (Elt F)),
    StableHlo.unary main_v109 main_v110 (broadcastInDim S100000x64 ![0, 1] bcast_S1x64_S100000x64_0_1 : (⟨S1x64, .f32⟩ : BufTy).Contents (Elt F) → (⟨S100000x64, .f32⟩ : BufTy).Contents (Elt F)),
    StableHlo.binary main_v105 main_v110 main_v111 (mulf : (⟨S100000x64, .f32⟩ : BufTy).Contents (Elt F) → (⟨S100000x64, .f32⟩ : BufTy).Contents (Elt F) → (⟨S100000x64, .f32⟩ : BufTy).Contents (Elt F)),
    StableHlo.unary main_v96 main_v112 (broadcastInDim S1x64 ![1] bcast_S64_S1x64_1 : (⟨S64, .f32⟩ : BufTy).Contents (Elt F) → (⟨S1x64, .f32⟩ : BufTy).Contents (Elt F)),
    StableHlo.unary main_v112 main_v113 (broadcastInDim S100000x64 ![0, 1] bcast_S1x64_S100000x64_0_1 : (⟨S1x64, .f32⟩ : BufTy).Contents (Elt F) → (⟨S100000x64, .f32⟩ : BufTy).Contents (Elt F)),
    StableHlo.binary main_v111 main_v113 main_v114 (mulf : (⟨S100000x64, .f32⟩ : BufTy).Contents (Elt F) → (⟨S100000x64, .f32⟩ : BufTy).Contents (Elt F) → (⟨S100000x64, .f32⟩ : BufTy).Contents (Elt F)),
    StableHlo.unary main_v98 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S100000x64 ![0, 1] bcast_S1x64_S100000x64_0_1 : (⟨S1x64, .f32⟩ : BufTy).Contents (Elt F) → (⟨S100000x64, .f32⟩ : BufTy).Contents (Elt F)),
    StableHlo.binary main_v114 main_v116 main_v117 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v117 : StableHlo.TRef sig ⟨S100000x64, .f32⟩) main_call5.v0 main_call5.v1 maximumf,
    StableHlo.unary main_arg10 main_v119 ((extractStridedSlice S1x16x64 ![1, 0, 0] · slices_S3x16x64_S1x16x64_1_0_0) : (⟨S3x16x64, .f32⟩ : BufTy).Contents (Elt F) → (⟨S1x16x64, .f32⟩ : BufTy).Contents (Elt F)),
    StableHlo.reshape main_v119 main_v120 rfl shapeCasts_S1x16x64_S16x64,
    StableHlo.binary main_arg1 main_v120 main_v121 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    StableHlo.unary main_arg11 main_v122 ((extractStridedSlice S1x64 ![1, 0] · slices_S3x64_S1x64_1_0) : (⟨S3x64, .f32⟩ : BufTy).Contents (Elt F) → (⟨S1x64, .f32⟩ : BufTy).Contents (Elt F)),
    StableHlo.reshape main_v122 main_v123 rfl shapeCasts_S1x64_S64,
    StableHlo.unary main_v123 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S1600000x64 ![0, 1] bcast_S1x64_S1600000x64_0_1 : (⟨S1x64, .f32⟩ : BufTy).Contents (Elt F) → (⟨S1600000x64, .f32⟩ : BufTy).Contents (Elt F)),
    StableHlo.binary main_v121 main_v125 main_v126 (addf : (⟨S1600000x64, .f32⟩ : BufTy).Contents (Elt F) → (⟨S1600000x64, .f32⟩ : BufTy).Contents (Elt F) → (⟨S1600000x64, .f32⟩ : BufTy).Contents (Elt F)),
    StableHlo.nullary main_c_15 (constantI S_ 32 0#32),
    StableHlo.unary main_c_15 main_v127 (broadcastInDim S1600000 ![] bcast_S_S1600000 : (⟨S_, .i32⟩ : BufTy).Contents (Elt F) → (⟨S1600000, .i32⟩ : BufTy).Contents (Elt F)),
    StableHlo.binary main_arg2 main_v127 main_v128 (cmpi .slt : (⟨S1600000, .i32⟩ : BufTy).Contents (Elt F) → (⟨S1600000, .i32⟩ : BufTy).Contents (Elt F) → (⟨S1600000, .i1⟩ : BufTy).Contents (Elt F)),
    StableHlo.nullary main_c_16 (constantI S_ 32 100000#32),
    StableHlo.unary main_c_16 main_v129 (broadcastInDim S1600000 ![] bcast_S_S1600000 : (⟨S_, .i32⟩ : BufTy).Contents (Elt F) → (⟨S1600000, .i32⟩ : BufTy).Contents (Elt F)),
    StableHlo.binary main_arg2 main_v129 main_v130 (addi : (⟨S1600000, .i32⟩ : BufTy).Contents (Elt F) → (⟨S1600000, .i32⟩ : BufTy).Contents (Elt F) → (⟨S1600000, .i32⟩ : BufTy).Contents (Elt F)),
    StableHlo.ternary main_v128 main_v130 main_arg2 main_v131 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v131 main_v132 (broadcastInDim S1600000x1 ![0] bcast_S1600000_S1600000x1_0 : (⟨S1600000, .i32⟩ : BufTy).Contents (Elt F) → (⟨S1600000x1, .i32⟩ : BufTy).Contents (Elt F)),
    StableHlo.binary main_v118 main_v132 main_v133 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_17 (constant S_ .f32 0x00000000#32),
    StableHlo.unary main_cst_17 main_v134 (broadcastInDim S100000x64 ![] bcast_S_S100000x64 : (⟨S_, .f32⟩ : BufTy).Contents (Elt F) → (⟨S100000x64, .f32⟩ : BufTy).Contents (Elt F)),
    StableHlo.unary main_arg3 main_v135 (broadcastInDim S1600000x1 ![0] bcast_S1600000_S1600000x1_0 : (⟨S1600000, .i32⟩ : BufTy).Contents (Elt F) → (⟨S1600000x1, .i32⟩ : BufTy).Contents (Elt F)),
    StableHlo.ternary main_v134 main_v135 main_v133 main_v136 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_18 (constant S_ .f32 0x00000000#32),
    StableHlo.unary main_cst_18 main_v137 (broadcastInDim S100000x64 ![] bcast_S_S100000x64 : (⟨S_, .f32⟩ : BufTy).Contents (Elt F) → (⟨S100000x64, .f32⟩ : BufTy).Contents (Elt F)),
    StableHlo.unary main_arg3 main_v138 (broadcastInDim S1600000x1 ![0] bcast_S1600000_S1600000x1_0 : (⟨S1600000, .i32⟩ : BufTy).Contents (Elt F) → (⟨S1600000x1, .i32⟩ : BufTy).Contents (Elt F)),
    StableHlo.ternary main_v137 main_v138 main_v126 main_v139 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg12 main_v140 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v140 main_v141 rfl shapeCasts_S1x64x64_S64x64,
    StableHlo.binary main_v136 main_v141 main_v142 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg13 main_v143 ((extractStridedSlice S1x64 ![1, 0] · slices_S3x64_S1x64_1_0) : (⟨S3x64, .f32⟩ : BufTy).Contents (Elt F) → (⟨S1x64, .f32⟩ : BufTy).Contents (Elt F)),
    StableHlo.reshape main_v143 main_v144 rfl shapeCasts_S1x64_S64,
    StableHlo.unary main_v144 main_v145 (broadcastInDim S1x64 ![1] bcast_S64_S1x64_1 : (⟨S64, .f32⟩ : BufTy).Contents (Elt F) → (⟨S1x64, .f32⟩ : BufTy).Contents (Elt F)),
    StableHlo.unary main_v145 main_v146 (broadcastInDim S100000x64 ![0, 1] bcast_S1x64_S100000x64_0_1 : (⟨S1x64, .f32⟩ : BufTy).Contents (Elt F) → (⟨S100000x64, .f32⟩ : BufTy).Contents (Elt F)),
    StableHlo.binary main_v142 main_v146 main_v147 (addf : (⟨S100000x64, .f32⟩ : BufTy).Contents (Elt F) → (⟨S100000x64, .f32⟩ : BufTy).Contents (Elt F) → (⟨S100000x64, .f32⟩ : BufTy).Contents (Elt F)),
    StableHlo.binary main_v147 main_v139 main_v148 (addf : (⟨S100000x64, .f32⟩ : BufTy).Contents (Elt F) → (⟨S100000x64, .f32⟩ : BufTy).Contents (Elt F) → (⟨S100000x64, .f32⟩ : BufTy).Contents (Elt F)),
    StableHlo.unary main_arg16 main_v149 ((extractStridedSlice S1x64 ![1, 0] · slices_S3x64_S1x64_1_0) : (⟨S3x64, .f32⟩ : BufTy).Contents (Elt F) → (⟨S1x64, .f32⟩ : BufTy).Contents (Elt F)),
    StableHlo.reshape main_v149 main_v150 rfl shapeCasts_S1x64_S64,
    StableHlo.unary main_arg17 main_v151 ((extractStridedSlice S1x64 ![1, 0] · slices_S3x64_S1x64_1_0) : (⟨S3x64, .f32⟩ : BufTy).Contents (Elt F) → (⟨S1x64, .f32⟩ : BufTy).Contents (Elt F)),
    StableHlo.reshape main_v151 main_v152 rfl shapeCasts_S1x64_S64,
    StableHlo.nullary main_cst_19 (constant S_ .f32 0x00000000#32),
    StableHlo.binary main_v148 main_cst_19 main_v153 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_20 (constant S_ .f32 0x47C35000#32),
    StableHlo.unary main_cst_20 main_v154 (broadcastInDim S64 ![] bcast_S_S64 : (⟨S_, .f32⟩ : BufTy).Contents (Elt F) → (⟨S64, .f32⟩ : BufTy).Contents (Elt F)),
    StableHlo.binary main_v153 main_v154 main_v155 (Host.divf : (⟨S64, .f32⟩ : BufTy).Contents (Elt F) → (⟨S64, .f32⟩ : BufTy).Contents (Elt F) → (⟨S64, .f32⟩ : BufTy).Contents (Elt F)),
    StableHlo.nullary main_c_21 (constantI S_ 32 0#32) ]

end Cert.ReferenceIdeal.RefRun

end
-- ==== Proof.RefOps2.lean ====
import proofs.«146189_j40922448396571_2_alg».proof.Proof.RefTab2
import proofs.«146189_j40922448396571_2_alg».proof.Proof.RefArgs

/-!
# Window 2 of the reference's @main as a straight line

`ops2` lists the window's host operations with each outlined function's operations inline at its call.
Here: the window IS that line; every operation touches TensorCore references only, determines its
results, and writes no argument of @main.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Unfolding the outlined functions at their calls and reassociating the sequencing leaves the same chain
    of `hlo` steps on both sides. -/
theorem part2_eq (c : Dev nD) : main_part2 (F := F) c = seq ops2 := by
  simp only [main_part2, fn_var.body, fn_where.body, fn_relu.body, seq, bind_assoc, pure_bind]
  rfl

/-- Each builder's buffers are TensorCore references: the list is walked once, each operation's statement
    rewritten to `True` by its builder's lemma. -/
theorem ops2_sub : (ops2 : List (HloOp τ sig (Elt F))).Forall fun op => op.bufs ⊆ tcRefs τ sig := by
  simp only [ops2, List.forall_cons, List.Forall, ↓unary_bufs_sub, ↓binary_bufs_sub, ↓nullary_bufs_sub,
    ↓reshape_bufs_sub, ↓ternary_bufs_sub, and_self]

/-- No builder used here leaves a result undetermined. -/
theorem ops2_fresh : (ops2 : List (HloOp τ sig (Elt F))).Forall fun op => op.fresh = ∅ := by
  simp only [ops2, List.forall_cons, List.Forall, ↓unary_fresh, ↓binary_fresh, ↓nullary_fresh,
    ↓reshape_fresh, ↓ternary_fresh, and_self]

/-- Each builder writes its result reference only, and none of those is among the first twenty-four. -/
theorem ops2_writes : (ops2 : List (HloOp τ sig (Elt F))).Forall (WritesIn NotArg) := by
  simp (disch := decide) only [ops2, List.forall_cons, List.Forall, ↓unary_writesIn, ↓binary_writesIn,
    ↓nullary_writesIn, ↓reshape_writesIn, ↓ternary_writesIn, and_self]

end Cert.ReferenceIdeal.RefRun

end
-- ==== Proof.RefTab3.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 250 … 355 of the reference's flat program: window 3 of @main, each call's callee operations
    inline over the call's buffer record. -/
abbrev ops3 : List (HloOp τ sig (Elt F)) :=
  [ StableHlo.TRef.nullary main_call6.cst (constant S_ .f32 0x00000000#32),
    StableHlo.TRef.binary (.of main_v148 : StableHlo.TRef sig ⟨S100000x64, .f32⟩) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (.of main_v148 : StableHlo.TRef sig ⟨S100000x64, .f32⟩) main_call6.v4 main_call6.v5 subf,
    StableHlo.TRef.binary main_call6.v5 main_call6.v5 main_call6.v6 mulf,
    StableHlo.TRef.unary (.of main_c_21 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v155 main_v157 (broadcastInDim S1x64 ![1] bcast_S64_S1x64_1 : (⟨S64, .f32⟩ : BufTy).Contents (Elt F) → (⟨S1x64, .f32⟩ : BufTy).Contents (Elt F)),
    StableHlo.unary main_v157 main_v158 (broadcastInDim S100000x64 ![0, 1] bcast_S1x64_S100000x64_0_1 : (⟨S1x64, .f32⟩ : BufTy).Contents (Elt F) → (⟨S100000x64, .f32⟩ : BufTy).Contents (Elt F)),
    StableHlo.binary main_v148 main_v158 main_v159 (subf : (⟨S100000x64, .f32⟩ : BufTy).Contents (Elt F) → (⟨S100000x64, .f32⟩ : BufTy).Contents (Elt F) → (⟨S100000x64, .f32⟩ : BufTy).Contents (Elt F)),
    StableHlo.nullary main_cst_22 (constant S_ .f32 0x3727C5AC#32),
    StableHlo.unary main_cst_22 main_v160 (broadcastInDim S64 ![] bcast_S_S64 : (⟨S_, .f32⟩ : BufTy).Contents (Elt F) → (⟨S64, .f32⟩ : BufTy).Contents (Elt F)),
    StableHlo.binary main_v156 main_v160 main_v161 (addf : (⟨S64, .f32⟩ : BufTy).Contents (Elt F) → (⟨S64, .f32⟩ : BufTy).Contents (Elt F) → (⟨S64, .f32⟩ : BufTy).Contents (Elt F)),
    StableHlo.unary main_v161 main_v162 (Host.rsqrt : (⟨S64, .f32⟩ : BufTy).Contents (Elt F) → (⟨S64, .f32⟩ : BufTy).Contents (Elt F)),
    StableHlo.unary main_v162 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S100000x64 ![0, 1] bcast_S1x64_S100000x64_0_1 : (⟨S1x64, .f32⟩ : BufTy).Contents (Elt F) → (⟨S100000x64, .f32⟩ : BufTy).Contents (Elt F)),
    StableHlo.binary main_v159 main_v164 main_v165 (mulf : (⟨S100000x64, .f32⟩ : BufTy).Contents (Elt F) → (⟨S100000x64, .f32⟩ : BufTy).Contents (Elt F) → (⟨S100000x64, .f32⟩ : BufTy).Contents (Elt F)),
    StableHlo.unary main_v150 main_v166 (broadcastInDim S1x64 ![1] bcast_S64_S1x64_1 : (⟨S64, .f32⟩ : BufTy).Contents (Elt F) → (⟨S1x64, .f32⟩ : BufTy).Contents (Elt F)),
    StableHlo.unary main_v166 main_v167 (broadcastInDim S100000x64 ![0, 1] bcast_S1x64_S100000x64_0_1 : (⟨S1x64, .f32⟩ : BufTy).Contents (Elt F) → (⟨S100000x64, .f32⟩ : BufTy).Contents (Elt F)),
    StableHlo.binary main_v165 main_v167 main_v168 (mulf : (⟨S100000x64, .f32⟩ : BufTy).Contents (Elt F) → (⟨S100000x64, .f32⟩ : BufTy).Contents (Elt F) → (⟨S100000x64, .f32⟩ : BufTy).Contents (Elt F)),
    StableHlo.unary main_v152 main_v169 (broadcastInDim S1x64 ![1] bcast_S64_S1x64_1 : (⟨S64, .f32⟩ : BufTy).Contents (Elt F) → (⟨S1x64, .f32⟩ : BufTy).Contents (Elt F)),
    StableHlo.unary main_v169 main_v170 (broadcastInDim S100000x64 ![0, 1] bcast_S1x64_S100000x64_0_1 : (⟨S1x64, .f32⟩ : BufTy).Contents (Elt F) → (⟨S100000x64, .f32⟩ : BufTy).Contents (Elt F)),
    StableHlo.binary main_v168 main_v170 main_v171 (addf : (⟨S100000x64, .f32⟩ : BufTy).Contents (Elt F) → (⟨S100000x64, .f32⟩ : BufTy).Contents (Elt F) → (⟨S100000x64, .f32⟩ : BufTy).Contents (Elt F)),
    StableHlo.TRef.nullary main_call7.cst (constant S_ .f32 0x00000000#32),
    StableHlo.TRef.unary main_call7.cst main_call7.v0 (broadcastInDim S100000x64 ![] bcast_S_S100000x64),
    StableHlo.TRef.binary (.of main_v171 : StableHlo.TRef sig ⟨S100000x64, .f32⟩) main_call7.v0 main_call7.v1 maximumf,
    StableHlo.unary main_arg14 main_v173 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v173 main_v174 rfl shapeCasts_S1x64x64_S64x64,
    StableHlo.binary main_v172 main_v174 main_v175 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg15 main_v176 ((extractStridedSlice S1x64 ![1, 0] · slices_S3x64_S1x64_1_0) : (⟨S3x64, .f32⟩ : BufTy).Contents (Elt F) → (⟨S1x64, .f32⟩ : BufTy).Contents (Elt F)),
    StableHlo.reshape main_v176 main_v177 rfl shapeCasts_S1x64_S64,
    StableHlo.unary main_v177 main_v178 (broadcastInDim S1x64 ![1] bcast_S64_S1x64_1 : (⟨S64, .f32⟩ : BufTy).Contents (Elt F) → (⟨S1x64, .f32⟩ : BufTy).Contents (Elt F)),
    StableHlo.unary main_v178 main_v179 (broadcastInDim S100000x64 ![0, 1] bcast_S1x64_S100000x64_0_1 : (⟨S1x64, .f32⟩ : BufTy).Contents (Elt F) → (⟨S100000x64, .f32⟩ : BufTy).Contents (Elt F)),
    StableHlo.binary main_v175 main_v179 main_v180 (addf : (⟨S100000x64, .f32⟩ : BufTy).Contents (Elt F) → (⟨S100000x64, .f32⟩ : BufTy).Contents (Elt F) → (⟨S100000x64, .f32⟩ : BufTy).Contents (Elt F)),
    StableHlo.binary main_v180 main_v118 main_v181 (addf : (⟨S100000x64, .f32⟩ : BufTy).Contents (Elt F) → (⟨S100000x64, .f32⟩ : BufTy).Contents (Elt F) → (⟨S100000x64, .f32⟩ : BufTy).Contents (Elt F)),
    StableHlo.unary main_arg18 main_v182 ((extractStridedSlice S1x64 ![1, 0] · slices_S3x64_S1x64_1_0) : (⟨S3x64, .f32⟩ : BufTy).Contents (Elt F) → (⟨S1x64, .f32⟩ : BufTy).Contents (Elt F)),
    StableHlo.reshape main_v182 main_v183 rfl shapeCasts_S1x64_S64,
    StableHlo.unary main_arg19 main_v184 ((extractStridedSlice S1x64 ![1, 0] · slices_S3x64_S1x64_1_0) : (⟨S3x64, .f32⟩ : BufTy).Contents (Elt F) → (⟨S1x64, .f32⟩ : BufTy).Contents (Elt F)),
    StableHlo.reshape main_v184 main_v185 rfl shapeCasts_S1x64_S64,
    StableHlo.nullary main_cst_23 (constant S_ .f32 0x00000000#32),
    StableHlo.binary main_v181 main_cst_23 main_v186 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_24 (constant S_ .f32 0x47C35000#32),
    StableHlo.unary main_cst_24 main_v187 (broadcastInDim S64 ![] bcast_S_S64 : (⟨S_, .f32⟩ : BufTy).Contents (Elt F) → (⟨S64, .f32⟩ : BufTy).Contents (Elt F)),
    StableHlo.binary main_v186 main_v187 main_v188 (Host.divf : (⟨S64, .f32⟩ : BufTy).Contents (Elt F) → (⟨S64, .f32⟩ : BufTy).Contents (Elt F) → (⟨S64, .f32⟩ : BufTy).Contents (Elt F)),
    StableHlo.nullary main_c_25 (constantI S_ 32 0#32),
    StableHlo.TRef.nullary main_call8.cst (constant S_ .f32 0x00000000#32),
    StableHlo.TRef.binary (.of main_v181 : StableHlo.TRef sig ⟨S100000x64, .f32⟩) main_call8.cst main_call8.v0 (fun x v => Host.reduceAdd x v reducesTo_S100000x64_S64_d0 h_S_),
    StableHlo.TRef.unary main_call8.v0 main_call8.v1 (broadcastInDim S1x64 ![1] bcast_S64_S1x64_1),
    StableHlo.TRef.nullary main_call8.cst_0 (constant S_ .f32 0x47C35000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S100000x64 ![0, 1] bcast_S1x64_S100000x64_0_1),
    StableHlo.TRef.binary (.of main_v181 : StableHlo.TRef sig ⟨S100000x64, .f32⟩) main_call8.v4 main_call8.v5 subf,
    StableHlo.TRef.binary main_call8.v5 main_call8.v5 main_call8.v6 mulf,
    StableHlo.TRef.unary (.of main_c_25 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_v188 main_v190 (broadcastInDim S1x64 ![1] bcast_S64_S1x64_1 : (⟨S64, .f32⟩ : BufTy).Contents (Elt F) → (⟨S1x64, .f32⟩ : BufTy).Contents (Elt F)),
    StableHlo.unary main_v190 main_v191 (broadcastInDim S100000x64 ![0, 1] bcast_S1x64_S100000x64_0_1 : (⟨S1x64, .f32⟩ : BufTy).Contents (Elt F) → (⟨S100000x64, .f32⟩ : BufTy).Contents (Elt F)),
    StableHlo.binary main_v181 main_v191 main_v192 (subf : (⟨S100000x64, .f32⟩ : BufTy).Contents (Elt F) → (⟨S100000x64, .f32⟩ : BufTy).Contents (Elt F) → (⟨S100000x64, .f32⟩ : BufTy).Contents (Elt F)),
    StableHlo.nullary main_cst_26 (constant S_ .f32 0x3727C5AC#32),
    StableHlo.unary main_cst_26 main_v193 (broadcastInDim S64 ![] bcast_S_S64 : (⟨S_, .f32⟩ : BufTy).Contents (Elt F) → (⟨S64, .f32⟩ : BufTy).Contents (Elt F)),
    StableHlo.binary main_v189 main_v193 main_v194 (addf : (⟨S64, .f32⟩ : BufTy).Contents (Elt F) → (⟨S64, .f32⟩ : BufTy).Contents (Elt F) → (⟨S64, .f32⟩ : BufTy).Contents (Elt F)),
    StableHlo.unary main_v194 main_v195 (Host.rsqrt : (⟨S64, .f32⟩ : BufTy).Contents (Elt F) → (⟨S64, .f32⟩ : BufTy).Contents (Elt F)),
    StableHlo.unary main_v195 main_v196 (broadcastInDim S1x64 ![1] bcast_S64_S1x64_1 : (⟨S64, .f32⟩ : BufTy).Contents (Elt F) → (⟨S1x64, .f32⟩ : BufTy).Contents (Elt F)),
    StableHlo.unary main_v196 main_v197 (broadcastInDim S100000x64 ![0, 1] bcast_S1x64_S100000x64_0_1 : (⟨S1x64, .f32⟩ : BufTy).Contents (Elt F) → (⟨S100000x64, .f32⟩ : BufTy).Contents (Elt F)),
    StableHlo.binary main_v192 main_v197 main_v198 (mulf : (⟨S100000x64, .f32⟩ : BufTy).Contents (Elt F) → (⟨S100000x64, .f32⟩ : BufTy).Contents (Elt F) → (⟨S100000x64, .f32⟩ : BufTy).Contents (Elt F)),
    StableHlo.unary main_v183 main_v199 (broadcastInDim S1x64 ![1] bcast_S64_S1x64_1 : (⟨S64, .f32⟩ : BufTy).Contents (Elt F) → (⟨S1x64, .f32⟩ : BufTy).Contents (Elt F)),
    StableHlo.unary main_v199 main_v200 (broadcastInDim S100000x64 ![0, 1] bcast_S1x64_S100000x64_0_1 : (⟨S1x64, .f32⟩ : BufTy).Contents (Elt F) → (⟨S100000x64, .f32⟩ : BufTy).Contents (Elt F)),
    StableHlo.binary main_v198 main_v200 main_v201 (mulf : (⟨S100000x64, .f32⟩ : BufTy).Contents (Elt F) → (⟨S100000x64, .f32⟩ : BufTy).Contents (Elt F) → (⟨S100000x64, .f32⟩ : BufTy).Contents (Elt F)),
    StableHlo.unary main_v185 main_v202 (broadcastInDim S1x64 ![1] bcast_S64_S1x64_1 : (⟨S64, .f32⟩ : BufTy).Contents (Elt F) → (⟨S1x64, .f32⟩ : BufTy).Contents (Elt F)),
    StableHlo.unary main_v202 main_v203 (broadcastInDim S100000x64 ![0, 1] bcast_S1x64_S100000x64_0_1 : (⟨S1x64, .f32⟩ : BufTy).Contents (Elt F) → (⟨S100000x64, .f32⟩ : BufTy).Contents (Elt F)),
    StableHlo.binary main_v201 main_v203 main_v204 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary (.of main_v204 : StableHlo.TRef sig ⟨S100000x64, .f32⟩) main_call9.v0 main_call9.v1 maximumf,
    StableHlo.unary main_arg10 main_v206 ((extractStridedSlice S1x16x64 ![2, 0, 0] · slices_S3x16x64_S1x16x64_2_0_0) : (⟨S3x16x64, .f32⟩ : BufTy).Contents (Elt F) → (⟨S1x16x64, .f32⟩ : BufTy).Contents (Elt F)),
    StableHlo.reshape main_v206 main_v207 rfl shapeCasts_S1x16x64_S16x64,
    StableHlo.binary main_arg1 main_v207 main_v208 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    StableHlo.unary main_arg11 main_v209 ((extractStridedSlice S1x64 ![2, 0] · slices_S3x64_S1x64_2_0) : (⟨S3x64, .f32⟩ : BufTy).Contents (Elt F) → (⟨S1x64, .f32⟩ : BufTy).Contents (Elt F)),
    StableHlo.reshape main_v209 main_v210 rfl shapeCasts_S1x64_S64 ]

end Cert.ReferenceIdeal.RefRun

end
-- ==== Proof.RefOps3.lean ====
import proofs.«146189_j40922448396571_2_alg».proof.Proof.RefTab3
import proofs.«146189_j40922448396571_2_alg».proof.Proof.RefArgs

/-!
# Window 3 of the reference's @main as a straight line

`ops3` lists the window's host operations with each outlined function's operations inline at its call.
Here: the window IS that line; every operation touches TensorCore references only, determines its
results, and writes no argument of @main.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Unfolding the outlined functions at their calls and reassociating the sequencing leaves the same chain
    of `hlo` steps on both sides. -/
theorem part3_eq (c : Dev nD) : main_part3 (F := F) c = seq ops3 := by
  simp only [main_part3, fn_var.body, fn_where.body, fn_relu.body, seq, bind_assoc, pure_bind]
  rfl

/-- Each builder's buffers are TensorCore references: the list is walked once, each operation's statement
    rewritten to `True` by its builder's lemma. -/
theorem ops3_sub : (ops3 : List (HloOp τ sig (Elt F))).Forall fun op => op.bufs ⊆ tcRefs τ sig := by
  simp only [ops3, List.forall_cons, List.Forall, ↓unary_bufs_sub, ↓binary_bufs_sub, ↓nullary_bufs_sub,
    ↓reshape_bufs_sub, ↓ternary_bufs_sub, and_self]

/-- No builder used here leaves a result undetermined. -/
theorem ops3_fresh : (ops3 : List (HloOp τ sig (Elt F))).Forall fun op => op.fresh = ∅ := by
  simp only [ops3, List.forall_cons, List.Forall, ↓unary_fresh, ↓binary_fresh, ↓nullary_fresh,
    ↓reshape_fresh, ↓ternary_fresh, and_self]

/-- Each builder writes its result reference only, and none of those is among the first twenty-four. -/
theorem ops3_writes : (ops3 : List (HloOp τ sig (Elt F))).Forall (WritesIn NotArg) := by
  simp (disch := decide) only [ops3, List.forall_cons, List.Forall, ↓unary_writesIn, ↓binary_writesIn,
    ↓nullary_writesIn, ↓reshape_writesIn, ↓ternary_writesIn, and_self]

end Cert.ReferenceIdeal.RefRun

end
-- ==== Proof.RefTab4.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 356 … 438 of the reference's flat program: window 4 of @main, each call's callee operations
    inline over the call's buffer record. -/
abbrev ops4 : List (HloOp τ sig (Elt F)) :=
  [ StableHlo.unary main_v210 main_v211 (broadcastInDim S1x64 ![1] bcast_S64_S1x64_1 : (⟨S64, .f32⟩ : BufTy).Contents (Elt F) → (⟨S1x64, .f32⟩ : BufTy).Contents (Elt F)),
    StableHlo.unary main_v211 main_v212 (broadcastInDim S1600000x64 ![0, 1] bcast_S1x64_S1600000x64_0_1 : (⟨S1x64, .f32⟩ : BufTy).Contents (Elt F) → (⟨S1600000x64, .f32⟩ : BufTy).Contents (Elt F)),
    StableHlo.binary main_v208 main_v212 main_v213 (addf : (⟨S1600000x64, .f32⟩ : BufTy).Contents (Elt F) → (⟨S1600000x64, .f32⟩ : BufTy).Contents (Elt F) → (⟨S1600000x64, .f32⟩ : BufTy).Contents (Elt F)),
    StableHlo.nullary main_c_27 (constantI S_ 32 0#32),
    StableHlo.unary main_c_27 main_v214 (broadcastInDim S1600000 ![] bcast_S_S1600000 : (⟨S_, .i32⟩ : BufTy).Contents (Elt F) → (⟨S1600000, .i32⟩ : BufTy).Contents (Elt F)),
    StableHlo.binary main_arg2 main_v214 main_v215 (cmpi .slt : (⟨S1600000, .i32⟩ : BufTy).Contents (Elt F) → (⟨S1600000, .i32⟩ : BufTy).Contents (Elt F) → (⟨S1600000, .i1⟩ : BufTy).Contents (Elt F)),
    StableHlo.nullary main_c_28 (constantI S_ 32 100000#32),
    StableHlo.unary main_c_28 main_v216 (broadcastInDim S1600000 ![] bcast_S_S1600000 : (⟨S_, .i32⟩ : BufTy).Contents (Elt F) → (⟨S1600000, .i32⟩ : BufTy).Contents (Elt F)),
    StableHlo.binary main_arg2 main_v216 main_v217 (addi : (⟨S1600000, .i32⟩ : BufTy).Contents (Elt F) → (⟨S1600000, .i32⟩ : BufTy).Contents (Elt F) → (⟨S1600000, .i32⟩ : BufTy).Contents (Elt F)),
    StableHlo.ternary main_v215 main_v217 main_arg2 main_v218 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v218 main_v219 (broadcastInDim S1600000x1 ![0] bcast_S1600000_S1600000x1_0 : (⟨S1600000, .i32⟩ : BufTy).Contents (Elt F) → (⟨S1600000x1, .i32⟩ : BufTy).Contents (Elt F)),
    StableHlo.binary main_v205 main_v219 main_v220 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_29 (constant S_ .f32 0x00000000#32),
    StableHlo.unary main_cst_29 main_v221 (broadcastInDim S100000x64 ![] bcast_S_S100000x64 : (⟨S_, .f32⟩ : BufTy).Contents (Elt F) → (⟨S100000x64, .f32⟩ : BufTy).Contents (Elt F)),
    StableHlo.unary main_arg3 main_v222 (broadcastInDim S1600000x1 ![0] bcast_S1600000_S1600000x1_0 : (⟨S1600000, .i32⟩ : BufTy).Contents (Elt F) → (⟨S1600000x1, .i32⟩ : BufTy).Contents (Elt F)),
    StableHlo.ternary main_v221 main_v222 main_v220 main_v223 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_30 (constant S_ .f32 0x00000000#32),
    StableHlo.unary main_cst_30 main_v224 (broadcastInDim S100000x64 ![] bcast_S_S100000x64 : (⟨S_, .f32⟩ : BufTy).Contents (Elt F) → (⟨S100000x64, .f32⟩ : BufTy).Contents (Elt F)),
    StableHlo.unary main_arg3 main_v225 (broadcastInDim S1600000x1 ![0] bcast_S1600000_S1600000x1_0 : (⟨S1600000, .i32⟩ : BufTy).Contents (Elt F) → (⟨S1600000x1, .i32⟩ : BufTy).Contents (Elt F)),
    StableHlo.ternary main_v224 main_v225 main_v213 main_v226 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg12 main_v227 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v227 main_v228 rfl shapeCasts_S1x64x64_S64x64,
    StableHlo.binary main_v223 main_v228 main_v229 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg13 main_v230 ((extractStridedSlice S1x64 ![2, 0] · slices_S3x64_S1x64_2_0) : (⟨S3x64, .f32⟩ : BufTy).Contents (Elt F) → (⟨S1x64, .f32⟩ : BufTy).Contents (Elt F)),
    StableHlo.reshape main_v230 main_v231 rfl shapeCasts_S1x64_S64,
    StableHlo.unary main_v231 main_v232 (broadcastInDim S1x64 ![1] bcast_S64_S1x64_1 : (⟨S64, .f32⟩ : BufTy).Contents (Elt F) → (⟨S1x64, .f32⟩ : BufTy).Contents (Elt F)),
    StableHlo.unary main_v232 main_v233 (broadcastInDim S100000x64 ![0, 1] bcast_S1x64_S100000x64_0_1 : (⟨S1x64, .f32⟩ : BufTy).Contents (Elt F) → (⟨S100000x64, .f32⟩ : BufTy).Contents (Elt F)),
    StableHlo.binary main_v229 main_v233 main_v234 (addf : (⟨S100000x64, .f32⟩ : BufTy).Contents (Elt F) → (⟨S100000x64, .f32⟩ : BufTy).Contents (Elt F) → (⟨S100000x64, .f32⟩ : BufTy).Contents (Elt F)),
    StableHlo.binary main_v234 main_v226 main_v235 (addf : (⟨S100000x64, .f32⟩ : BufTy).Contents (Elt F) → (⟨S100000x64, .f32⟩ : BufTy).Contents (Elt F) → (⟨S100000x64, .f32⟩ : BufTy).Contents (Elt F)),
    StableHlo.unary main_arg16 main_v236 ((extractStridedSlice S1x64 ![2, 0] · slices_S3x64_S1x64_2_0) : (⟨S3x64, .f32⟩ : BufTy).Contents (Elt F) → (⟨S1x64, .f32⟩ : BufTy).Contents (Elt F)),
    StableHlo.reshape main_v236 main_v237 rfl shapeCasts_S1x64_S64,
    StableHlo.unary main_arg17 main_v238 ((extractStridedSlice S1x64 ![2, 0] · slices_S3x64_S1x64_2_0) : (⟨S3x64, .f32⟩ : BufTy).Contents (Elt F) → (⟨S1x64, .f32⟩ : BufTy).Contents (Elt F)),
    StableHlo.reshape main_v238 main_v239 rfl shapeCasts_S1x64_S64,
    StableHlo.nullary main_cst_31 (constant S_ .f32 0x00000000#32),
    StableHlo.binary main_v235 main_cst_31 main_v240 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_32 (constant S_ .f32 0x47C35000#32),
    StableHlo.unary main_cst_32 main_v241 (broadcastInDim S64 ![] bcast_S_S64 : (⟨S_, .f32⟩ : BufTy).Contents (Elt F) → (⟨S64, .f32⟩ : BufTy).Contents (Elt F)),
    StableHlo.binary main_v240 main_v241 main_v242 (Host.divf : (⟨S64, .f32⟩ : BufTy).Contents (Elt F) → (⟨S64, .f32⟩ : BufTy).Contents (Elt F) → (⟨S64, .f32⟩ : BufTy).Contents (Elt F)),
    StableHlo.nullary main_c_33 (constantI S_ 32 0#32),
    StableHlo.TRef.nullary main_call10.cst (constant S_ .f32 0x00000000#32),
    StableHlo.TRef.binary (.of main_v235 : StableHlo.TRef sig ⟨S100000x64, .f32⟩) main_call10.cst main_call10.v0 (fun x v => Host.reduceAdd x v reducesTo_S100000x64_S64_d0 h_S_),
    StableHlo.TRef.unary main_call10.v0 main_call10.v1 (broadcastInDim S1x64 ![1] bcast_S64_S1x64_1),
    StableHlo.TRef.nullary main_call10.cst_0 (constant S_ .f32 0x47C35000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S100000x64 ![0, 1] bcast_S1x64_S100000x64_0_1),
    StableHlo.TRef.binary (.of main_v235 : StableHlo.TRef sig ⟨S100000x64, .f32⟩) main_call10.v4 main_call10.v5 subf,
    StableHlo.TRef.binary main_call10.v5 main_call10.v5 main_call10.v6 mulf,
    StableHlo.TRef.unary (.of main_c_33 : StableHlo.TRef sig ⟨S_, .i32⟩) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v242 main_v244 (broadcastInDim S1x64 ![1] bcast_S64_S1x64_1 : (⟨S64, .f32⟩ : BufTy).Contents (Elt F) → (⟨S1x64, .f32⟩ : BufTy).Contents (Elt F)),
    StableHlo.unary main_v244 main_v245 (broadcastInDim S100000x64 ![0, 1] bcast_S1x64_S100000x64_0_1 : (⟨S1x64, .f32⟩ : BufTy).Contents (Elt F) → (⟨S100000x64, .f32⟩ : BufTy).Contents (Elt F)),
    StableHlo.binary main_v235 main_v245 main_v246 (subf : (⟨S100000x64, .f32⟩ : BufTy).Contents (Elt F) → (⟨S100000x64, .f32⟩ : BufTy).Contents (Elt F) → (⟨S100000x64, .f32⟩ : BufTy).Contents (Elt F)),
    StableHlo.nullary main_cst_34 (constant S_ .f32 0x3727C5AC#32),
    StableHlo.unary main_cst_34 main_v247 (broadcastInDim S64 ![] bcast_S_S64 : (⟨S_, .f32⟩ : BufTy).Contents (Elt F) → (⟨S64, .f32⟩ : BufTy).Contents (Elt F)),
    StableHlo.binary main_v243 main_v247 main_v248 (addf : (⟨S64, .f32⟩ : BufTy).Contents (Elt F) → (⟨S64, .f32⟩ : BufTy).Contents (Elt F) → (⟨S64, .f32⟩ : BufTy).Contents (Elt F)),
    StableHlo.unary main_v248 main_v249 (Host.rsqrt : (⟨S64, .f32⟩ : BufTy).Contents (Elt F) → (⟨S64, .f32⟩ : BufTy).Contents (Elt F)),
    StableHlo.unary main_v249 main_v250 (broadcastInDim S1x64 ![1] bcast_S64_S1x64_1 : (⟨S64, .f32⟩ : BufTy).Contents (Elt F) → (⟨S1x64, .f32⟩ : BufTy).Contents (Elt F)),
    StableHlo.unary main_v250 main_v251 (broadcastInDim S100000x64 ![0, 1] bcast_S1x64_S100000x64_0_1 : (⟨S1x64, .f32⟩ : BufTy).Contents (Elt F) → (⟨S100000x64, .f32⟩ : BufTy).Contents (Elt F)),
    StableHlo.binary main_v246 main_v251 main_v252 (mulf : (⟨S100000x64, .f32⟩ : BufTy).Contents (Elt F) → (⟨S100000x64, .f32⟩ : BufTy).Contents (Elt F) → (⟨S100000x64, .f32⟩ : BufTy).Contents (Elt F)),
    StableHlo.unary main_v237 main_v253 (broadcastInDim S1x64 ![1] bcast_S64_S1x64_1 : (⟨S64, .f32⟩ : BufTy).Contents (Elt F) → (⟨S1x64, .f32⟩ : BufTy).Contents (Elt F)),
    StableHlo.unary main_v253 main_v254 (broadcastInDim S100000x64 ![0, 1] bcast_S1x64_S100000x64_0_1 : (⟨S1x64, .f32⟩ : BufTy).Contents (Elt F) → (⟨S100000x64, .f32⟩ : BufTy).Contents (Elt F)),
    StableHlo.binary main_v252 main_v254 main_v255 (mulf : (⟨S100000x64, .f32⟩ : BufTy).Contents (Elt F) → (⟨S100000x64, .f32⟩ : BufTy).Contents (Elt F) → (⟨S100000x64, .f32⟩ : BufTy).Contents (Elt F)),
    StableHlo.unary main_v239 main_v256 (broadcastInDim S1x64 ![1] bcast_S64_S1x64_1 : (⟨S64, .f32⟩ : BufTy).Contents (Elt F) → (⟨S1x64, .f32⟩ : BufTy).Contents (Elt F)),
    StableHlo.unary main_v256 main_v257 (broadcastInDim S100000x64 ![0, 1] bcast_S1x64_S100000x64_0_1 : (⟨S1x64, .f32⟩ : BufTy).Contents (Elt F) → (⟨S100000x64, .f32⟩ : BufTy).Contents (Elt F)),
    StableHlo.binary main_v255 main_v257 main_v258 (addf : (⟨S100000x64, .f32⟩ : BufTy).Contents (Elt F) → (⟨S100000x64, .f32⟩ : BufTy).Contents (Elt F) → (⟨S100000x64, .f32⟩ : BufTy).Contents (Elt F)),
    StableHlo.TRef.nullary main_call11.cst (constant S_ .f32 0x00000000#32),
    StableHlo.TRef.unary main_call11.cst main_call11.v0 (broadcastInDim S100000x64 ![] bcast_S_S100000x64),
    StableHlo.TRef.binary (.of main_v258 : StableHlo.TRef sig ⟨S100000x64, .f32⟩) main_call11.v0 main_call11.v1 maximumf,
    StableHlo.unary main_arg14 main_v260 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v260 main_v261 rfl shapeCasts_S1x64x64_S64x64,
    StableHlo.binary main_v259 main_v261 main_v262 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

end Cert.ReferenceIdeal.RefRun

end
-- ==== Proof.RefOps4.lean ====
import proofs.«146189_j40922448396571_2_alg».proof.Proof.RefTab4
import proofs.«146189_j40922448396571_2_alg».proof.Proof.RefArgs

/-!
# Window 4 of the reference's @main as a straight line

`ops4` lists the window's host operations with each outlined function's operations inline at its call.
Here: the window IS that line; every operation touches TensorCore references only, determines its
results, and writes no argument of @main.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Unfolding the outlined functions at their calls and reassociating the sequencing leaves the same chain
    of `hlo` steps on both sides. -/
theorem part4_eq (c : Dev nD) : main_part4 (F := F) c = seq ops4 := by
  simp only [main_part4, fn_var.body, fn_where.body, fn_relu.body, seq, bind_assoc, pure_bind]
  rfl

/-- Each builder's buffers are TensorCore references: the list is walked once, each operation's statement
    rewritten to `True` by its builder's lemma. -/
theorem ops4_sub : (ops4 : List (HloOp τ sig (Elt F))).Forall fun op => op.bufs ⊆ tcRefs τ sig := by
  simp only [ops4, List.forall_cons, List.Forall, ↓unary_bufs_sub, ↓binary_bufs_sub, ↓nullary_bufs_sub,
    ↓reshape_bufs_sub, ↓ternary_bufs_sub, and_self]

/-- No builder used here leaves a result undetermined. -/
theorem ops4_fresh : (ops4 : List (HloOp τ sig (Elt F))).Forall fun op => op.fresh = ∅ := by
  simp only [ops4, List.forall_cons, List.Forall, ↓unary_fresh, ↓binary_fresh, ↓nullary_fresh,
    ↓reshape_fresh, ↓ternary_fresh, and_self]

/-- Each builder writes its result reference only, and none of those is among the first twenty-four. -/
theorem ops4_writes : (ops4 : List (HloOp τ sig (Elt F))).Forall (WritesIn NotArg) := by
  simp (disch := decide) only [ops4, List.forall_cons, List.Forall, ↓unary_writesIn, ↓binary_writesIn,
    ↓nullary_writesIn, ↓reshape_writesIn, ↓ternary_writesIn, and_self]

end Cert.ReferenceIdeal.RefRun

end
-- ==== Proof.RefTab5.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 439 … 542 of the reference's flat program: window 5 of @main, each call's callee operations
    inline over the call's buffer record. -/
abbrev ops5 : List (HloOp τ sig (Elt F)) :=
  [ StableHlo.unary main_arg15 main_v263 ((extractStridedSlice S1x64 ![2, 0] · slices_S3x64_S1x64_2_0) : (⟨S3x64, .f32⟩ : BufTy).Contents (Elt F) → (⟨S1x64, .f32⟩ : BufTy).Contents (Elt F)),
    StableHlo.reshape main_v263 main_v264 rfl shapeCasts_S1x64_S64,
    StableHlo.unary main_v264 main_v265 (broadcastInDim S1x64 ![1] bcast_S64_S1x64_1 : (⟨S64, .f32⟩ : BufTy).Contents (Elt F) → (⟨S1x64, .f32⟩ : BufTy).Contents (Elt F)),
    StableHlo.unary main_v265 main_v266 (broadcastInDim S100000x64 ![0, 1] bcast_S1x64_S100000x64_0_1 : (⟨S1x64, .f32⟩ : BufTy).Contents (Elt F) → (⟨S100000x64, .f32⟩ : BufTy).Contents (Elt F)),
    StableHlo.binary main_v262 main_v266 main_v267 (addf : (⟨S100000x64, .f32⟩ : BufTy).Contents (Elt F) → (⟨S100000x64, .f32⟩ : BufTy).Contents (Elt F) → (⟨S100000x64, .f32⟩ : BufTy).Contents (Elt F)),
    StableHlo.binary main_v267 main_v205 main_v268 (addf : (⟨S100000x64, .f32⟩ : BufTy).Contents (Elt F) → (⟨S100000x64, .f32⟩ : BufTy).Contents (Elt F) → (⟨S100000x64, .f32⟩ : BufTy).Contents (Elt F)),
    StableHlo.unary main_arg18 main_v269 ((extractStridedSlice S1x64 ![2, 0] · slices_S3x64_S1x64_2_0) : (⟨S3x64, .f32⟩ : BufTy).Contents (Elt F) → (⟨S1x64, .f32⟩ : BufTy).Contents (Elt F)),
    StableHlo.reshape main_v269 main_v270 rfl shapeCasts_S1x64_S64,
    StableHlo.unary main_arg19 main_v271 ((extractStridedSlice S1x64 ![2, 0] · slices_S3x64_S1x64_2_0) : (⟨S3x64, .f32⟩ : BufTy).Contents (Elt F) → (⟨S1x64, .f32⟩ : BufTy).Contents (Elt F)),
    StableHlo.reshape main_v271 main_v272 rfl shapeCasts_S1x64_S64,
    StableHlo.nullary main_cst_35 (constant S_ .f32 0x00000000#32),
    StableHlo.binary main_v268 main_cst_35 main_v273 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_36 (constant S_ .f32 0x47C35000#32),
    StableHlo.unary main_cst_36 main_v274 (broadcastInDim S64 ![] bcast_S_S64 : (⟨S_, .f32⟩ : BufTy).Contents (Elt F) → (⟨S64, .f32⟩ : BufTy).Contents (Elt F)),
    StableHlo.binary main_v273 main_v274 main_v275 (Host.divf : (⟨S64, .f32⟩ : BufTy).Contents (Elt F) → (⟨S64, .f32⟩ : BufTy).Contents (Elt F) → (⟨S64, .f32⟩ : BufTy).Contents (Elt F)),
    StableHlo.nullary main_c_37 (constantI S_ 32 0#32),
    StableHlo.TRef.nullary main_call12.cst (constant S_ .f32 0x00000000#32),
    StableHlo.TRef.binary (.of main_v268 : StableHlo.TRef sig ⟨S100000x64, .f32⟩) main_call12.cst main_call12.v0 (fun x v => Host.reduceAdd x v reducesTo_S100000x64_S64_d0 h_S_),
    StableHlo.TRef.unary main_call12.v0 main_call12.v1 (broadcastInDim S1x64 ![1] bcast_S64_S1x64_1),
    StableHlo.TRef.nullary main_call12.cst_0 (constant S_ .f32 0x47C35000#32),
    StableHlo.TRef.unary main_call12.cst_0 main_call12.v2 (broadcastInDim S1x64 ![] bcast_S_S1x64),
    StableHlo.TRef.binary main_call12.v1 main_call12.v2 main_call12.v3 Host.divf,
    StableHlo.TRef.unary main_call12.v3 main_call12.v4 (broadcastInDim S100000x64 ![0, 1] bcast_S1x64_S100000x64_0_1),
    StableHlo.TRef.binary (.of main_v268 : StableHlo.TRef sig ⟨S100000x64, .f32⟩) main_call12.v4 main_call12.v5 subf,
    StableHlo.TRef.binary main_call12.v5 main_call12.v5 main_call12.v6 mulf,
    StableHlo.TRef.unary (.of main_c_37 : StableHlo.TRef sig ⟨S_, .i32⟩) main_call12.v7 (sitofp .f32),
    StableHlo.TRef.nullary main_call12.cst_1 (constant S_ .f32 0x47C35000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S100000x64_S64_d0 h_S_),
    StableHlo.TRef.unary main_call12.v8 main_call12.v10 (broadcastInDim S64 ![] bcast_S_S64),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S64 ![] bcast_S_S64),
    StableHlo.TRef.ternary main_call12.v12 main_call12.v11 main_call12.call0.v1 main_call12.call0.v2 (fun p a b => select (broadcastInDim S64 ![] bcast_S_S64 p) a b),
    StableHlo.unary main_v275 main_v277 (broadcastInDim S1x64 ![1] bcast_S64_S1x64_1 : (⟨S64, .f32⟩ : BufTy).Contents (Elt F) → (⟨S1x64, .f32⟩ : BufTy).Contents (Elt F)),
    StableHlo.unary main_v277 main_v278 (broadcastInDim S100000x64 ![0, 1] bcast_S1x64_S100000x64_0_1 : (⟨S1x64, .f32⟩ : BufTy).Contents (Elt F) → (⟨S100000x64, .f32⟩ : BufTy).Contents (Elt F)),
    StableHlo.binary main_v268 main_v278 main_v279 (subf : (⟨S100000x64, .f32⟩ : BufTy).Contents (Elt F) → (⟨S100000x64, .f32⟩ : BufTy).Contents (Elt F) → (⟨S100000x64, .f32⟩ : BufTy).Contents (Elt F)),
    StableHlo.nullary main_cst_38 (constant S_ .f32 0x3727C5AC#32),
    StableHlo.unary main_cst_38 main_v280 (broadcastInDim S64 ![] bcast_S_S64 : (⟨S_, .f32⟩ : BufTy).Contents (Elt F) → (⟨S64, .f32⟩ : BufTy).Contents (Elt F)),
    StableHlo.binary main_v276 main_v280 main_v281 (addf : (⟨S64, .f32⟩ : BufTy).Contents (Elt F) → (⟨S64, .f32⟩ : BufTy).Contents (Elt F) → (⟨S64, .f32⟩ : BufTy).Contents (Elt F)),
    StableHlo.unary main_v281 main_v282 (Host.rsqrt : (⟨S64, .f32⟩ : BufTy).Contents (Elt F) → (⟨S64, .f32⟩ : BufTy).Contents (Elt F)),
    StableHlo.unary main_v282 main_v283 (broadcastInDim S1x64 ![1] bcast_S64_S1x64_1 : (⟨S64, .f32⟩ : BufTy).Contents (Elt F) → (⟨S1x64, .f32⟩ : BufTy).Contents (Elt F)),
    StableHlo.unary main_v283 main_v284 (broadcastInDim S100000x64 ![0, 1] bcast_S1x64_S100000x64_0_1 : (⟨S1x64, .f32⟩ : BufTy).Contents (Elt F) → (⟨S100000x64, .f32⟩ : BufTy).Contents (Elt F)),
    StableHlo.binary main_v279 main_v284 main_v285 (mulf : (⟨S100000x64, .f32⟩ : BufTy).Contents (Elt F) → (⟨S100000x64, .f32⟩ : BufTy).Contents (Elt F) → (⟨S100000x64, .f32⟩ : BufTy).Contents (Elt F)),
    StableHlo.unary main_v270 main_v286 (broadcastInDim S1x64 ![1] bcast_S64_S1x64_1 : (⟨S64, .f32⟩ : BufTy).Contents (Elt F) → (⟨S1x64, .f32⟩ : BufTy).Contents (Elt F)),
    StableHlo.unary main_v286 main_v287 (broadcastInDim S100000x64 ![0, 1] bcast_S1x64_S100000x64_0_1 : (⟨S1x64, .f32⟩ : BufTy).Contents (Elt F) → (⟨S100000x64, .f32⟩ : BufTy).Contents (Elt F)),
    StableHlo.binary main_v285 main_v287 main_v288 (mulf : (⟨S100000x64, .f32⟩ : BufTy).Contents (Elt F) → (⟨S100000x64, .f32⟩ : BufTy).Contents (Elt F) → (⟨S100000x64, .f32⟩ : BufTy).Contents (Elt F)),
    StableHlo.unary main_v272 main_v289 (broadcastInDim S1x64 ![1] bcast_S64_S1x64_1 : (⟨S64, .f32⟩ : BufTy).Contents (Elt F) → (⟨S1x64, .f32⟩ : BufTy).Contents (Elt F)),
    StableHlo.unary main_v289 main_v290 (broadcastInDim S100000x64 ![0, 1] bcast_S1x64_S100000x64_0_1 : (⟨S1x64, .f32⟩ : BufTy).Contents (Elt F) → (⟨S100000x64, .f32⟩ : BufTy).Contents (Elt F)),
    StableHlo.binary main_v288 main_v290 main_v291 (addf : (⟨S100000x64, .f32⟩ : BufTy).Contents (Elt F) → (⟨S100000x64, .f32⟩ : BufTy).Contents (Elt F) → (⟨S100000x64, .f32⟩ : BufTy).Contents (Elt F)),
    StableHlo.TRef.nullary main_call13.cst (constant S_ .f32 0x00000000#32),
    StableHlo.TRef.unary main_call13.cst main_call13.v0 (broadcastInDim S100000x64 ![] bcast_S_S100000x64),
    StableHlo.TRef.binary (.of main_v291 : StableHlo.TRef sig ⟨S100000x64, .f32⟩) main_call13.v0 main_call13.v1 maximumf,
    StableHlo.binary main_v292 main_arg20 main_v293 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg21 main_v294 (broadcastInDim S1x64 ![1] bcast_S64_S1x64_1 : (⟨S64, .f32⟩ : BufTy).Contents (Elt F) → (⟨S1x64, .f32⟩ : BufTy).Contents (Elt F)),
    StableHlo.unary main_v294 main_v295 (broadcastInDim S100000x64 ![0, 1] bcast_S1x64_S100000x64_0_1 : (⟨S1x64, .f32⟩ : BufTy).Contents (Elt F) → (⟨S100000x64, .f32⟩ : BufTy).Contents (Elt F)),
    StableHlo.binary main_v293 main_v295 main_v296 (addf : (⟨S100000x64, .f32⟩ : BufTy).Contents (Elt F) → (⟨S100000x64, .f32⟩ : BufTy).Contents (Elt F) → (⟨S100000x64, .f32⟩ : BufTy).Contents (Elt F)),
    StableHlo.nullary main_cst_39 (constant S_ .f32 0x00000000#32),
    StableHlo.binary main_v296 main_cst_39 main_v297 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_40 (constant S_ .f32 0x47C35000#32),
    StableHlo.unary main_cst_40 main_v298 (broadcastInDim S64 ![] bcast_S_S64 : (⟨S_, .f32⟩ : BufTy).Contents (Elt F) → (⟨S64, .f32⟩ : BufTy).Contents (Elt F)),
    StableHlo.binary main_v297 main_v298 main_v299 (Host.divf : (⟨S64, .f32⟩ : BufTy).Contents (Elt F) → (⟨S64, .f32⟩ : BufTy).Contents (Elt F) → (⟨S64, .f32⟩ : BufTy).Contents (Elt F)),
    StableHlo.nullary main_c_41 (constantI S_ 32 0#32),
    StableHlo.TRef.nullary main_call14.cst (constant S_ .f32 0x00000000#32),
    StableHlo.TRef.binary (.of main_v296 : StableHlo.TRef sig ⟨S100000x64, .f32⟩) main_call14.cst main_call14.v0 (fun x v => Host.reduceAdd x v reducesTo_S100000x64_S64_d0 h_S_),
    StableHlo.TRef.unary main_call14.v0 main_call14.v1 (broadcastInDim S1x64 ![1] bcast_S64_S1x64_1),
    StableHlo.TRef.nullary main_call14.cst_0 (constant S_ .f32 0x47C35000#32),
    StableHlo.TRef.unary main_call14.cst_0 main_call14.v2 (broadcastInDim S1x64 ![] bcast_S_S1x64),
    StableHlo.TRef.binary main_call14.v1 main_call14.v2 main_call14.v3 Host.divf,
    StableHlo.TRef.unary main_call14.v3 main_call14.v4 (broadcastInDim S100000x64 ![0, 1] bcast_S1x64_S100000x64_0_1),
    StableHlo.TRef.binary (.of main_v296 : StableHlo.TRef sig ⟨S100000x64, .f32⟩) main_call14.v4 main_call14.v5 subf,
    StableHlo.TRef.binary main_call14.v5 main_call14.v5 main_call14.v6 mulf,
    StableHlo.TRef.unary (.of main_c_41 : StableHlo.TRef sig ⟨S_, .i32⟩) main_call14.v7 (sitofp .f32),
    StableHlo.TRef.nullary main_call14.cst_1 (constant S_ .f32 0x47C35000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S100000x64_S64_d0 h_S_),
    StableHlo.TRef.unary main_call14.v8 main_call14.v10 (broadcastInDim S64 ![] bcast_S_S64),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S64 ![] bcast_S_S64),
    StableHlo.TRef.ternary main_call14.v12 main_call14.v11 main_call14.call0.v1 main_call14.call0.v2 (fun p a b => select (broadcastInDim S64 ![] bcast_S_S64 p) a b),
    StableHlo.unary main_v299 main_v301 (broadcastInDim S1x64 ![1] bcast_S64_S1x64_1 : (⟨S64, .f32⟩ : BufTy).Contents (Elt F) → (⟨S1x64, .f32⟩ : BufTy).Contents (Elt F)),
    StableHlo.unary main_v301 main_v302 (broadcastInDim S100000x64 ![0, 1] bcast_S1x64_S100000x64_0_1 : (⟨S1x64, .f32⟩ : BufTy).Contents (Elt F) → (⟨S100000x64, .f32⟩ : BufTy).Contents (Elt F)),
    StableHlo.binary main_v296 main_v302 main_v303 (subf : (⟨S100000x64, .f32⟩ : BufTy).Contents (Elt F) → (⟨S100000x64, .f32⟩ : BufTy).Contents (Elt F) → (⟨S100000x64, .f32⟩ : BufTy).Contents (Elt F)),
    StableHlo.nullary main_cst_42 (constant S_ .f32 0x3727C5AC#32),
    StableHlo.unary main_cst_42 main_v304 (broadcastInDim S64 ![] bcast_S_S64 : (⟨S_, .f32⟩ : BufTy).Contents (Elt F) → (⟨S64, .f32⟩ : BufTy).Contents (Elt F)),
    StableHlo.binary main_v300 main_v304 main_v305 (addf : (⟨S64, .f32⟩ : BufTy).Contents (Elt F) → (⟨S64, .f32⟩ : BufTy).Contents (Elt F) → (⟨S64, .f32⟩ : BufTy).Contents (Elt F)),
    StableHlo.unary main_v305 main_v306 (Host.rsqrt : (⟨S64, .f32⟩ : BufTy).Contents (Elt F) → (⟨S64, .f32⟩ : BufTy).Contents (Elt F)),
    StableHlo.unary main_v306 main_v307 (broadcastInDim S1x64 ![1] bcast_S64_S1x64_1 : (⟨S64, .f32⟩ : BufTy).Contents (Elt F) → (⟨S1x64, .f32⟩ : BufTy).Contents (Elt F)),
    StableHlo.unary main_v307 main_v308 (broadcastInDim S100000x64 ![0, 1] bcast_S1x64_S100000x64_0_1 : (⟨S1x64, .f32⟩ : BufTy).Contents (Elt F) → (⟨S100000x64, .f32⟩ : BufTy).Contents (Elt F)),
    StableHlo.binary main_v303 main_v308 main_v309 (mulf : (⟨S100000x64, .f32⟩ : BufTy).Contents (Elt F) → (⟨S100000x64, .f32⟩ : BufTy).Contents (Elt F) → (⟨S100000x64, .f32⟩ : BufTy).Contents (Elt F)),
    StableHlo.unary main_arg22 main_v310 (broadcastInDim S1x64 ![1] bcast_S64_S1x64_1 : (⟨S64, .f32⟩ : BufTy).Contents (Elt F) → (⟨S1x64, .f32⟩ : BufTy).Contents (Elt F)),
    StableHlo.unary main_v310 main_v311 (broadcastInDim S100000x64 ![0, 1] bcast_S1x64_S100000x64_0_1 : (⟨S1x64, .f32⟩ : BufTy).Contents (Elt F) → (⟨S100000x64, .f32⟩ : BufTy).Contents (Elt F)),
    StableHlo.binary main_v309 main_v311 main_v312 (mulf : (⟨S100000x64, .f32⟩ : BufTy).Contents (Elt F) → (⟨S100000x64, .f32⟩ : BufTy).Contents (Elt F) → (⟨S100000x64, .f32⟩ : BufTy).Contents (Elt F)),
    StableHlo.unary main_arg23 main_v313 (broadcastInDim S1x64 ![1] bcast_S64_S1x64_1 : (⟨S64, .f32⟩ : BufTy).Contents (Elt F) → (⟨S1x64, .f32⟩ : BufTy).Contents (Elt F)),
    StableHlo.unary main_v313 main_v314 (broadcastInDim S100000x64 ![0, 1] bcast_S1x64_S100000x64_0_1 : (⟨S1x64, .f32⟩ : BufTy).Contents (Elt F) → (⟨S100000x64, .f32⟩ : BufTy).Contents (Elt F)) ]

end Cert.ReferenceIdeal.RefRun

end
-- ==== Proof.RefOps5.lean ====
import proofs.«146189_j40922448396571_2_alg».proof.Proof.RefTab5
import proofs.«146189_j40922448396571_2_alg».proof.Proof.RefArgs

/-!
# Window 5 of the reference's @main as a straight line

`ops5` lists the window's host operations with each outlined function's operations inline at its call.
Here: the window IS that line; every operation touches TensorCore references only, determines its
results, and writes no argument of @main.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Unfolding the outlined functions at their calls and reassociating the sequencing leaves the same chain
    of `hlo` steps on both sides. -/
theorem part5_eq (c : Dev nD) : main_part5 (F := F) c = seq ops5 := by
  simp only [main_part5, fn_var.body, fn_where.body, fn_relu.body, seq, bind_assoc, pure_bind]
  rfl

/-- Each builder's buffers are TensorCore references: the list is walked once, each operation's statement
    rewritten to `True` by its builder's lemma. -/
theorem ops5_sub : (ops5 : List (HloOp τ sig (Elt F))).Forall fun op => op.bufs ⊆ tcRefs τ sig := by
  simp only [ops5, List.forall_cons, List.Forall, ↓unary_bufs_sub, ↓binary_bufs_sub, ↓nullary_bufs_sub,
    ↓reshape_bufs_sub, ↓ternary_bufs_sub, and_self]

/-- No builder used here leaves a result undetermined. -/
theorem ops5_fresh : (ops5 : List (HloOp τ sig (Elt F))).Forall fun op => op.fresh = ∅ := by
  simp only [ops5, List.forall_cons, List.Forall, ↓unary_fresh, ↓binary_fresh, ↓nullary_fresh,
    ↓reshape_fresh, ↓ternary_fresh, and_self]

/-- Each builder writes its result reference only, and none of those is among the first twenty-four. -/
theorem ops5_writes : (ops5 : List (HloOp τ sig (Elt F))).Forall (WritesIn NotArg) := by
  simp (disch := decide) only [ops5, List.forall_cons, List.Forall, ↓unary_writesIn, ↓binary_writesIn,
    ↓nullary_writesIn, ↓reshape_writesIn, ↓ternary_writesIn, and_self]

end Cert.ReferenceIdeal.RefRun

end
-- ==== Proof.RefTab6.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 543 … 543 of the reference's flat program: window 6 of @main, each call's callee operations
    inline over the call's buffer record. -/
abbrev ops6 : List (HloOp τ sig (Elt F)) :=
  [ StableHlo.binary main_v312 main_v314 main_v315 (addf : (⟨S100000x64, .f32⟩ : BufTy).Contents (Elt F) → (⟨S100000x64, .f32⟩ : BufTy).Contents (Elt F) → (⟨S100000x64, .f32⟩ : BufTy).Contents (Elt F)) ]

end Cert.ReferenceIdeal.RefRun

end
-- ==== Proof.RefOps6.lean ====
import proofs.«146189_j40922448396571_2_alg».proof.Proof.RefTab6
import proofs.«146189_j40922448396571_2_alg».proof.Proof.RefArgs

/-!
# Window 6 of the reference's @main as a straight line

`ops6` lists the window's host operations with each outlined function's operations inline at its call.
Here: the window IS that line; every operation touches TensorCore references only, determines its
results, and writes no argument of @main.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The last window is one operation and the return. -/
theorem part6_eq (c : Dev nD) : main_part6 (F := F) c = seq ops6 := by
  simp only [main_part6, seq, bind_assoc, pure_bind]

/-- Each builder's buffers are TensorCore references: the list is walked once, each operation's statement
    rewritten to `True` by its builder's lemma. -/
theorem ops6_sub : (ops6 : List (HloOp τ sig (Elt F))).Forall fun op => op.bufs ⊆ tcRefs τ sig := by
  simp only [ops6, List.forall_cons, List.Forall, ↓unary_bufs_sub, ↓binary_bufs_sub, ↓nullary_bufs_sub,
    ↓reshape_bufs_sub, ↓ternary_bufs_sub, and_self]

/-- No builder used here leaves a result undetermined. -/
theorem ops6_fresh : (ops6 : List (HloOp τ sig (Elt F))).Forall fun op => op.fresh = ∅ := by
  simp only [ops6, List.forall_cons, List.Forall, ↓unary_fresh, ↓binary_fresh, ↓nullary_fresh,
    ↓reshape_fresh, ↓ternary_fresh, and_self]

/-- Each builder writes its result reference only, and none of those is among the first twenty-four. -/
theorem ops6_writes : (ops6 : List (HloOp τ sig (Elt F))).Forall (WritesIn NotArg) := by
  simp (disch := decide) only [ops6, List.forall_cons, List.Forall, ↓unary_writesIn, ↓binary_writesIn,
    ↓nullary_writesIn, ↓reshape_writesIn, ↓ternary_writesIn, and_self]

end Cert.ReferenceIdeal.RefRun

end
-- ==== Proof.LibAfter.lean ====
import Idealize.ShloMosaic.Lib.StableHlo.Run

/-!
# A line of host operations run in two parts

The buffer contents after a list of operations is a fold over the list, so the contents after a concatenation
is the second part's fold started from the first part's result.
-/

namespace Idealize.ShloMosaic.StableHlo

variable {τ : Topo} {sig : RefSig} {Val : EltTy → Type}

/-- Running two lines of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RefRun.lean ====
import proofs.«146189_j40922448396571_2_alg».proof.Proof.RefOps0
import proofs.«146189_j40922448396571_2_alg».proof.Proof.RefOps1
import proofs.«146189_j40922448396571_2_alg».proof.Proof.RefOps2
import proofs.«146189_j40922448396571_2_alg».proof.Proof.RefOps3
import proofs.«146189_j40922448396571_2_alg».proof.Proof.RefOps4
import proofs.«146189_j40922448396571_2_alg».proof.Proof.RefOps5
import proofs.«146189_j40922448396571_2_alg».proof.Proof.RefOps6
import proofs.«146189_j40922448396571_2_alg».proof.Proof.LibAfter

/-!
# The reference's run

@main is its seven windows in order, and each window is a straight line of host operations, so @main is
the straight line `ops` of all 543. A straight line over a signature that scopes nothing runs to its end
from any memory, leaving every buffer at the fold of the operations' results over the launch contents;
an argument of @main, which no operation writes, is left as it was.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, every call's callee operations inline: the seven windows' lists, concatenated. -/
abbrev ops : List (HloOp τ sig (Elt F)) := ops0 ++ ops1 ++ ops2 ++ ops3 ++ ops4 ++ ops5 ++ ops6

/-- @main runs its windows in order; each is its list run as a line, and lines run one after the other are
    their concatenation run as one (`seq_append`). -/
theorem main_eq (c : Dev nD) : main (F := F) c = seq ops := by
  simp only [main, part0_eq, part1_eq, part2_eq, part3_eq, part4_eq, part5_eq, part6_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  forall_append_of (forall_append_of (forall_append_of (forall_append_of (forall_append_of (forall_append_of
    ops0_sub ops1_sub) ops2_sub) ops3_sub) ops4_sub) ops5_sub) ops6_sub

/-- Every operation determines its results. -/
theorem ops_fresh : (ops : List (HloOp τ sig (Elt F))).Forall fun op => op.fresh = ∅ :=
  forall_append_of (forall_append_of (forall_append_of (forall_append_of (forall_append_of (forall_append_of
    ops0_fresh ops1_fresh) ops2_fresh) ops3_fresh) ops4_fresh) ops5_fresh) ops6_fresh

/-- No operation writes an argument of @main. -/
theorem ops_writes : (ops : List (HloOp τ sig (Elt F))).Forall (WritesIn NotArg) :=
  forall_append_of (forall_append_of (forall_append_of (forall_append_of (forall_append_of (forall_append_of
    ops0_writes ops1_writes) ops2_writes) ops3_writes) ops4_writes) ops5_writes) ops6_writes

/-- On every device, for any float values, from any memory with zero counters: every weakly fair execution of
    @main terminates, and every final state has each TensorCore buffer at the operations' fold over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

/-! The arguments: the first twenty-four references; the operations write later ones only. -/

theorem kept_main_arg0 (V : Valuation τ sig (Elt F)) :
    after ops V (Proc.devRef .tc main_arg0) = V (Proc.devRef .tc main_arg0) := after_kept ops V ops_writes (by decide)
theorem kept_main_arg1 (V : Valuation τ sig (Elt F)) :
    after ops V (Proc.devRef .tc main_arg1) = V (Proc.devRef .tc main_arg1) := after_kept ops V ops_writes (by decide)
theorem kept_main_arg2 (V : Valuation τ sig (Elt F)) :
    after ops V (Proc.devRef .tc main_arg2) = V (Proc.devRef .tc main_arg2) := after_kept ops V ops_writes (by decide)
theorem kept_main_arg3 (V : Valuation τ sig (Elt F)) :
    after ops V (Proc.devRef .tc main_arg3) = V (Proc.devRef .tc main_arg3) := after_kept ops V ops_writes (by decide)
theorem kept_main_arg4 (V : Valuation τ sig (Elt F)) :
    after ops V (Proc.devRef .tc main_arg4) = V (Proc.devRef .tc main_arg4) := after_kept ops V ops_writes (by decide)
theorem kept_main_arg5 (V : Valuation τ sig (Elt F)) :
    after ops V (Proc.devRef .tc main_arg5) = V (Proc.devRef .tc main_arg5) := after_kept ops V ops_writes (by decide)
theorem kept_main_arg6 (V : Valuation τ sig (Elt F)) :
    after ops V (Proc.devRef .tc main_arg6) = V (Proc.devRef .tc main_arg6) := after_kept ops V ops_writes (by decide)
theorem kept_main_arg7 (V : Valuation τ sig (Elt F)) :
    after ops V (Proc.devRef .tc main_arg7) = V (Proc.devRef .tc main_arg7) := after_kept ops V ops_writes (by decide)
theorem kept_main_arg8 (V : Valuation τ sig (Elt F)) :
    after ops V (Proc.devRef .tc main_arg8) = V (Proc.devRef .tc main_arg8) := after_kept ops V ops_writes (by decide)
theorem kept_main_arg9 (V : Valuation τ sig (Elt F)) :
    after ops V (Proc.devRef .tc main_arg9) = V (Proc.devRef .tc main_arg9) := after_kept ops V ops_writes (by decide)
theorem kept_main_arg10 (V : Valuation τ sig (Elt F)) :
    after ops V (Proc.devRef .tc main_arg10) = V (Proc.devRef .tc main_arg10) := after_kept ops V ops_writes (by decide)
theorem kept_main_arg11 (V : Valuation τ sig (Elt F)) :
    after ops V (Proc.devRef .tc main_arg11) = V (Proc.devRef .tc main_arg11) := after_kept ops V ops_writes (by decide)
theorem kept_main_arg12 (V : Valuation τ sig (Elt F)) :
    after ops V (Proc.devRef .tc main_arg12) = V (Proc.devRef .tc main_arg12) := after_kept ops V ops_writes (by decide)
theorem kept_main_arg13 (V : Valuation τ sig (Elt F)) :
    after ops V (Proc.devRef .tc main_arg13) = V (Proc.devRef .tc main_arg13) := after_kept ops V ops_writes (by decide)
theorem kept_main_arg14 (V : Valuation τ sig (Elt F)) :
    after ops V (Proc.devRef .tc main_arg14) = V (Proc.devRef .tc main_arg14) := after_kept ops V ops_writes (by decide)
theorem kept_main_arg15 (V : Valuation τ sig (Elt F)) :
    after ops V (Proc.devRef .tc main_arg15) = V (Proc.devRef .tc main_arg15) := after_kept ops V ops_writes (by decide)
theorem kept_main_arg16 (V : Valuation τ sig (Elt F)) :
    after ops V (Proc.devRef .tc main_arg16) = V (Proc.devRef .tc main_arg16) := after_kept ops V ops_writes (by decide)
theorem kept_main_arg17 (V : Valuation τ sig (Elt F)) :
    after ops V (Proc.devRef .tc main_arg17) = V (Proc.devRef .tc main_arg17) := after_kept ops V ops_writes (by decide)
theorem kept_main_arg18 (V : Valuation τ sig (Elt F)) :
    after ops V (Proc.devRef .tc main_arg18) = V (Proc.devRef .tc main_arg18) := after_kept ops V ops_writes (by decide)
theorem kept_main_arg19 (V : Valuation τ sig (Elt F)) :
    after ops V (Proc.devRef .tc main_arg19) = V (Proc.devRef .tc main_arg19) := after_kept ops V ops_writes (by decide)
theorem kept_main_arg20 (V : Valuation τ sig (Elt F)) :
    after ops V (Proc.devRef .tc main_arg20) = V (Proc.devRef .tc main_arg20) := after_kept ops V ops_writes (by decide)
theorem kept_main_arg21 (V : Valuation τ sig (Elt F)) :
    after ops V (Proc.devRef .tc main_arg21) = V (Proc.devRef .tc main_arg21) := after_kept ops V ops_writes (by decide)
theorem kept_main_arg22 (V : Valuation τ sig (Elt F)) :
    after ops V (Proc.devRef .tc main_arg22) = V (Proc.devRef .tc main_arg22) := after_kept ops V ops_writes (by decide)
theorem kept_main_arg23 (V : Valuation τ sig (Elt F)) :
    after ops V (Proc.devRef .tc main_arg23) = V (Proc.devRef .tc main_arg23) := after_kept ops V ops_writes (by decide)

/-- The run read at the result and the arguments: the result buffer holds the operations' fold over the launch
    contents, and each argument what it held at launch. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v315) = after ops (launchContents m c) (Proc.devRef .tc main_v315)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c =>
    ⟨h c main_v315, (h c main_arg0).trans (kept_main_arg0 _),
     (h c main_arg1).trans (kept_main_arg1 _), (h c main_arg2).trans (kept_main_arg2 _),
     (h c main_arg3).trans (kept_main_arg3 _), (h c main_arg4).trans (kept_main_arg4 _),
     (h c main_arg5).trans (kept_main_arg5 _), (h c main_arg6).trans (kept_main_arg6 _),
     (h c main_arg7).trans (kept_main_arg7 _), (h c main_arg8).trans (kept_main_arg8 _),
     (h c main_arg9).trans (kept_main_arg9 _), (h c main_arg10).trans (kept_main_arg10 _),
     (h c main_arg11).trans (kept_main_arg11 _), (h c main_arg12).trans (kept_main_arg12 _),
     (h c main_arg13).trans (kept_main_arg13 _), (h c main_arg14).trans (kept_main_arg14 _),
     (h c main_arg15).trans (kept_main_arg15 _), (h c main_arg16).trans (kept_main_arg16 _),
     (h c main_arg17).trans (kept_main_arg17 _), (h c main_arg18).trans (kept_main_arg18 _),
     (h c main_arg19).trans (kept_main_arg19 _), (h c main_arg20).trans (kept_main_arg20 _),
     (h c main_arg21).trans (kept_main_arg21 _), (h c main_arg22).trans (kept_main_arg22 _),
     (h c main_arg23).trans (kept_main_arg23 _)⟩)
    (run_all m ρ)

end Cert.ReferenceIdeal.RefRun

end
-- ==== Proof.RefFrame.lean ====
import proofs.«146189_j40922448396571_2_alg».proof.Defs
import proofs.«146189_j40922448396571_2_alg».proof.Proof.Gen.Pre_finite_inputs
import proofs.«146189_j40922448396571_2_alg».proof.Proof.RefRun

/-!
# The reference's frame

The reference runs to its end from any memory (its run, at the exact reals), and each of its twenty-four
argument arrays ends as it began: the final contents of an argument is the operations' fold at that
reference, and no operation writes it.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

theorem frame_ri : Cert.frame_ReferenceIdeal (hReferenceIdeal := Cert.ReferenceIdeal.Gen.facts)
    (hPre_finite_inputs := Cert.Pre_finite_inputs.Gen.facts) := fun m g _ =>
  (θ_run (defs (F := Ideal)) _ _).mono (fun _ h c =>
    ⟨(h c main_arg0).trans (kept_main_arg0 _), (h c main_arg1).trans (kept_main_arg1 _),
     (h c main_arg2).trans (kept_main_arg2 _), (h c main_arg3).trans (kept_main_arg3 _),
     (h c main_arg4).trans (kept_main_arg4 _), (h c main_arg5).trans (kept_main_arg5 _),
     (h c main_arg6).trans (kept_main_arg6 _), (h c main_arg7).trans (kept_main_arg7 _),
     (h c main_arg8).trans (kept_main_arg8 _), (h c main_arg9).trans (kept_main_arg9 _),
     (h c main_arg10).trans (kept_main_arg10 _), (h c main_arg11).trans (kept_main_arg11 _),
     (h c main_arg12).trans (kept_main_arg12 _), (h c main_arg13).trans (kept_main_arg13 _),
     (h c main_arg14).trans (kept_main_arg14 _), (h c main_arg15).trans (kept_main_arg15 _),
     (h c main_arg16).trans (kept_main_arg16 _), (h c main_arg17).trans (kept_main_arg17 _),
     (h c main_arg18).trans (kept_main_arg18 _), (h c main_arg19).trans (kept_main_arg19 _),
     (h c main_arg20).trans (kept_main_arg20 _), (h c main_arg21).trans (kept_main_arg21 _),
     (h c main_arg22).trans (kept_main_arg22 _), (h c main_arg23).trans (kept_main_arg23 _)⟩)
    (run_all (F := Ideal) m g)

end Cert.ReferenceIdeal.RefRun

end
-- ==== Proof.RefStages.lean ====
import proofs.«146189_j40922448396571_2_alg».proof.Proof.Gen.ReferenceIdeal

/-!
# The reference's stages, as printed

Each function below is the composition of host operations that @main (with its outlined functions unfolded)
applies for one stage of the network: the column mean and the biased column variance, the batch normalisation,
relu, the affine maps, the two aggregations over the edges, and the slices that pick a layer's parameters out
of the stacked arguments. They are stated for any float values; nothing is evaluated.
-/

noncomputable section

namespace Cert.ReferenceIdeal.RefValue

open Cert.ReferenceIdeal Cert.ReferenceIdeal.Gen Idealize.ShloMosaic

variable {F : FTy → Type} [FloatOps F]

/-- A row of 64 as every row of a 100000 × 64 array (the two broadcasts the program prints). -/
def rows (r : FVec F S64 .f32) : FVec F S100000x64 .f32 :=
  broadcastInDim S100000x64 ![0, 1] bcast_S1x64_S100000x64_0_1 (broadcastInDim S1x64 ![1] bcast_S64_S1x64_1 r)

/-- The same over the 1600000 edges. -/
def rowsE (r : FVec F S64 .f32) : FVec F S1600000x64 .f32 :=
  broadcastInDim S1600000x64 ![0, 1] bcast_S1x64_S1600000x64_0_1 (broadcastInDim S1x64 ![1] bcast_S64_S1x64_1 r)

/-- The zero array the sums over edges start from. -/
def zeros : FVec F S100000x64 .f32 :=
  broadcastInDim S100000x64 ![] bcast_S_S100000x64 (constant S_ .f32 0x00000000#32)

/-- An index vector as a column of one-element index rows. -/
def col (d : IVec S1600000 32) : IVec S1600000x1 32 :=
  broadcastInDim S1600000x1 ![0] bcast_S1600000_S1600000x1_0 d

/-- Node rows times a 64 × 64 matrix. -/
def dotN (a : FVec F S100000x64 .f32) (W : FVec F S64x64 .f32) : FVec F S100000x64 .f32 :=
  Host.dotGeneral dot_S100000x64_S64x64_S100000x64_1_0_0_1_n_n none a W

/-- The column mean: the sum from the zero word, over the word of 100000. -/
def pMean (P : FVec F S100000x64 .f32) : FVec F S64 .f32 :=
  Host.divf (Host.reduceAdd P (constant S_ .f32 0x00000000#32) reducesTo_S100000x64_S64_d0 h_S_)
    (broadcastInDim S64 ![] bcast_S_S64 (constant S_ .f32 0x47C35000#32))

/-- The variance's divisor: the word of 100000 minus the float of the integer constant 0. -/
def pDD : FVec F S_ .f32 := subf (constant S_ .f32 0x47C35000#32) (sitofp .f32 (constantI S_ 32 0#32))

/-- The deviations from the column mean, as the outlined variance computes them (its own mean, kept as a 1 × 64 row). -/
def pDev (P : FVec F S100000x64 .f32) : FVec F S100000x64 .f32 :=
  subf P (broadcastInDim S100000x64 ![0, 1] bcast_S1x64_S100000x64_0_1
    (Host.divf (broadcastInDim S1x64 ![1] bcast_S64_S1x64_1
        (Host.reduceAdd P (constant S_ .f32 0x00000000#32) reducesTo_S100000x64_S64_d0 h_S_))
      (broadcastInDim S1x64 ![] bcast_S_S1x64 (constant S_ .f32 0x47C35000#32))))

/-- The biased column variance, guarded as printed. -/
def pVar (P : FVec F S100000x64 .f32) : FVec F S64 .f32 :=
  select (broadcastInDim S64 ![] bcast_S_S64 (cmpf .ogt (pDD (F := F)) (constant S_ .f32 0x00000000#32)))
    (Host.divf (Host.reduceAdd (mulf (pDev P) (pDev P)) (constant S_ .f32 0x00000000#32) reducesTo_S100000x64_S64_d0 h_S_)
      (broadcastInDim S64 ![] bcast_S_S64 pDD))
    (broadcastInDim S64 ![] bcast_S_S64 (constant S_ .f32 0x7FC00000#32))

/-- The batch normalisation of the columns of `P` with scale `g` and shift `b`. -/
def pBn (P : FVec F S100000x64 .f32) (g b : FVec F S64 .f32) : FVec F S100000x64 .f32 :=
  addf (mulf (mulf (subf P (rows (pMean P)))
      (rows (Host.rsqrt (addf (pVar P) (broadcastInDim S64 ![] bcast_S_S64 (constant S_ .f32 0x3727C5AC#32))))))
    (rows g)) (rows b)

def pRelu (Y : FVec F S100000x64 .f32) : FVec F S100000x64 .f32 := maximumf Y zeros

/-- Layer `off`'s matrix out of a stack of three, a row out of a stack of three rows, and the bond matrix. -/
def pMat (A : FVec F S3x64x64 .f32) (off : Fin 3 → Nat) (h : S3x64x64.Slices off S1x64x64) : FVec F S64x64 .f32 :=
  shapeCast S64x64 (extractStridedSlice S1x64x64 off A h) shapeCasts_S1x64x64_S64x64
def pRow (A : FVec F S3x64 .f32) (off : Fin 2 → Nat) (h : S3x64.Slices off S1x64) : FVec F S64 .f32 :=
  shapeCast S64 (extractStridedSlice S1x64 off A h) shapeCasts_S1x64_S64
def pBond (A : FVec F S3x16x64 .f32) (off : Fin 3 → Nat) (h : S3x16x64.Slices off S1x16x64) : FVec F S16x64 .f32 :=
  shapeCast S16x64 (extractStridedSlice S1x16x64 off A h) shapeCasts_S1x16x64_S16x64

/-- The sum, into each node, of the affine images `w · B + bb` of its incoming edges' features. -/
def agg (w : FVec F S1600000x16 .f32) (dst : IVec S1600000 32) (B : FVec F S16x64 .f32) (bb : FVec F S64 .f32) :
    FVec F S100000x64 .f32 :=
  Host.scatterAdd scatter_S100000x64_S1600000x1_S1600000x64_1_0_0_1 zeros (col dst)
    (addf (Host.dotGeneral dot_S1600000x16_S16x64_S1600000x64_1_0_0_1_n_n none w B) (rowsE bb))

/-- The sum, into each node, of the rows of `H` at the sources of its incoming edges (a negative source index
    wraps once, as printed). -/
def nb (src dst : IVec S1600000 32) (H : FVec F S100000x64 .f32) : FVec F S100000x64 .f32 :=
  Host.scatterAdd scatter_S100000x64_S1600000x1_S1600000x64_1_0_0_1 zeros (col dst)
    (Host.gather gather_S100000x64_S1600000x1_S1600000x64_1_0_n_n_0_1_164 H
      (col (select (cmpi .slt src (broadcastInDim S1600000 ![] bcast_S_S1600000 (constantI S_ 32 0#32)))
        (addi src (broadcastInDim S1600000 ![] bcast_S_S1600000 (constantI S_ 32 100000#32))) src)))

/-- The first update, one layer's two halves, and the last update, as printed. -/
def pFirst (A0 x : FVec F S100000x64 .f32) (aW : FVec F S64x64 .f32) (ab g0 be0 : FVec F S64 .f32) : FVec F S100000x64 .f32 :=
  pRelu (pBn (addf (addf A0 (dotN x aW)) (rows ab)) g0 be0)
def pHalfA (N A : FVec F S100000x64 .f32) (W : FVec F S64x64 .f32) (b g be : FVec F S64 .f32) : FVec F S100000x64 .f32 :=
  pRelu (pBn (addf (addf (dotN N W) (rows b)) A) g be)
def pLast (H : FVec F S100000x64 .f32) (lW : FVec F S64x64 .f32) (lb gl bel : FVec F S64 .f32) : FVec F S100000x64 .f32 :=
  pBn (addf (dotN H lW) (rows lb)) gl bel

end Cert.ReferenceIdeal.RefValue

end
-- ==== Proof.LibScatterRows.lean ====
/-
  A float scatter-add of ROWS into a matrix, one scatter index per row of updates, read at an entry; and the law that
  makes "sum the edge messages into their destination nodes" commute with an affine map of the messages.

  The operand is an N × C matrix, the updates an E × C matrix, the scatter indices an E × 1 array of words: row e of
  the updates is added to the operand's row whose number is the word idx[e, 0] read as a SIGNED integer, column by
  column, and is dropped when that integer is not in [0, N). Over the extended reals the result's entry (n, c) is
  therefore the operand's entry plus the sum, over ALL rows e, of upd[e, c] when idx[e, 0] = n and of 0 otherwise.

  The law (segsum_affine): for real w, B, b and any selection P of rows,
      Σ_{e ∈ P} ( Σ_k w[e,k]·B[k] + b )  =  Σ_k ( Σ_{e ∈ P} w[e,k] )·B[k]  +  ( Σ_{e ∈ P} 1 )·b ,
  i.e. a segment sum of an affine image of the rows is the affine image of the segment sum, the constant term weighted
  by the number of rows selected. It is distributivity, so it is stated for entries that are real numbers.
-/
import Idealize.ShloMosaic.Lib.ValueIdx
import Idealize.ShloMosaic.PureOps.Ideal.Laws
import Idealize.ShloMosaic.Lib.IdealHost

noncomputable section

open scoped BigOperators

namespace Cert.LibScatterRows

open Idealize.ShloMosaic Idealize.ShloMosaic.ValueIdx

/-- The dimension numbers of that scatter: the updates' second axis is the window axis and goes to the operand's second
    axis; the operand's first axis is inserted and is the one the index vector (of length one, along the indices' second
    axis) names. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- Update entry (e, b) reads its start index at [e, 0] of the scatter indices. -/
theorem siIdx_eq (j : (⟨2, ![E, C]⟩ : Shape).Idx) (c : Fin (rowDims N C E wf).scatterDimsToOperandDims.length) :
    (rowDims N C E wf).siIdx j c = ix2 (n0 := E) (n1 := 1) (j 0) 0 := by
  funext b; refine Fin.ext ?_
  have hc : c.val = 0 := by have := c.isLt; simpa using this
  match b with
  | ⟨0, _⟩ => rfl
  | ⟨1, _⟩ => exact hc

/-- On the operand's first axis the window of update entry j starts at the word idx[j₀, 0] read signed … -/
theorem start_row (j : (⟨2, ![E, C]⟩ : Shape).Idx) (idx : IVec ⟨2, ![E, 1]⟩ w) :
    (rowDims N C E wf).start j idx 0 = (idx (ix2 (n0 := E) (n1 := 1) (j 0) 0)).toInt := by
  unfold ScatterDims.start
  rw [dif_pos (show (0 : Fin 2) ∈ (rowDims N C E wf).scatterDimsToOperandDims from List.mem_singleton.mpr rfl), siIdx_eq]

/-- … and on the second axis at 0 (the index vector does not name it). -/
theorem start_col (j : (⟨2, ![E, C]⟩ : Shape).Idx) (idx : IVec ⟨2, ![E, 1]⟩ w) :
    (rowDims N C E wf).start j idx 1 = 0 := by
  unfold ScatterDims.start
  rw [dif_neg]
  intro h
  have h' : (1 : Fin 2) = 0 := List.mem_singleton.mp h
  exact absurd h' (by decide)

/-- The window coordinate is 0 on the first axis (an inserted one) … -/
theorem window_row (j : (⟨2, ![E, C]⟩ : Shape).Idx) : (rowDims N C E wf).window j 0 = 0 := by
  unfold ScatterDims.window
  rw [dif_neg]
  intro h
  have h2 := (List.mem_filter.mp h).2
  simp at h2

/-- … and the update entry's own column on the second. -/
theorem window_col (j : (⟨2, ![E, C]⟩ : Shape).Idx) : (rowDims N C E wf).window j 1 = (j 1).val := by
  unfold ScatterDims.window
  rw [dif_pos (show (1 : Fin 2) ∈ (rowDims N C E wf).sKept from
    List.mem_filter.mpr ⟨List.mem_finRange _, (by decide : decide ((1 : Fin 2) ∉ ([0] : List (Fin 2))) = true)⟩)]
  rfl

/-- Update entry j lands on the operand's entry i exactly when the word idx[j₀, 0], read signed, is i's row and j's
    column is i's column. -/
theorem resultIdx?_eq_some_iff (j : (⟨2, ![E, C]⟩ : Shape).Idx) (idx : IVec ⟨2, ![E, 1]⟩ w) (i : (⟨2, ![N, C]⟩ : Shape).Idx) :
    (rowDims N C E wf).resultIdx? j idx = some i ↔
      (idx (ix2 (n0 := E) (n1 := 1) (j 0) 0)).toInt = ((i 0).val : Int) ∧ (j 1).val = (i 1).val := by
  have hs0 := start_row wf j idx
  have hs1 := start_col (N := N) wf j idx
  have hw0 := window_row (N := N) wf j
  have hw1 := window_col (N := N) wf j
  have hi0 : (i 0).val < N := idx2_lt0 i
  have hi1 : (i 1).val < C := idx2_lt1 i
  have hj1 : (j 1).val < C := idx2_lt1 j
  unfold ScatterDims.resultIdx?
  constructor
  · intro h
    split at h
    · rename_i hall
      have h0 : ((rowDims N C E wf).start j idx 0 + ((rowDims N C E wf).window j 0 : Int)).toNat = (i 0).val :=
        congrArg (fun f => (f 0).val) (Option.some.inj h)
      have h1 : ((rowDims N C E wf).start j idx 1 + ((rowDims N C E wf).window j 1 : Int)).toNat = (i 1).val :=
        congrArg (fun f => (f 1).val) (Option.some.inj h)
      have a0 := hall 0
      rw [hs0, hw0] at a0 h0
      rw [hs1, hw1] at h1
      constructor <;> omega
    · cases h
  · rintro ⟨h0, h1⟩
    have hall : ∀ a, 0 ≤ (rowDims N C E wf).start j idx a + ((rowDims N C E wf).window j a : Int) ∧
        (rowDims N C E wf).start j idx a + ((rowDims N C E wf).window j a : Int) < ((⟨2, ![N, C]⟩ : Shape).size a : Int) := by
      intro a
      match a with
      | ⟨0, _⟩ =>
        show 0 ≤ (rowDims N C E wf).start j idx 0 + ((rowDims N C E wf).window j 0 : Int) ∧
          (rowDims N C E wf).start j idx 0 + ((rowDims N C E wf).window j 0 : Int) < (N : Int)
        rw [hs0, hw0, h0]; omega
      | ⟨1, _⟩ =>
        show 0 ≤ (rowDims N C E wf).start j idx 1 + ((rowDims N C E wf).window j 1 : Int) ∧
          (rowDims N C E wf).start j idx 1 + ((rowDims N C E wf).window j 1 : Int) < (C : Int)
        rw [hs1, hw1]; omega
    rw [dif_pos hall]
    refine congrArg some (funext fun a => ?_)
    refine Fin.ext ?_
    match a with
    | ⟨0, _⟩ =>
      show ((rowDims N C E wf).start j idx 0 + ((rowDims N C E wf).window j 0 : Int)).toNat = (i 0).val
      rw [hs0, hw0, h0]; omega
    | ⟨1, _⟩ =>
      show ((rowDims N C E wf).start j idx 1 + ((rowDims N C E wf).window j 1 : Int)).toNat = (i 1).val
      rw [hs1, hw1]; omega

/-- THE ROW SCATTER-ADD READ AT (n, c): the operand's entry plus the sum over all rows e of the updates of upd[e, c]
    when the index word of row e, read signed, is n, and of zero otherwise. -/
theorem scatterAdd_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowDims N C E wf) x idx upd (ix2 n c)
      = x (ix2 n c) + ∑ e : Fin E,
          if (idx (ix2 (n0 := E) (n1 := 1) e 0)).toInt = (n.val : Int) then upd (ix2 e c) else 0 := by
  show Ideal.hostScatterAdd (rowDims N C E wf) x idx upd (ix2 n c) = _
  unfold Ideal.hostScatterAdd
  rw [Finset.sum_filter]
  refine congrArg (x (ix2 n c) + ·) ?_
  rw [sum_idx2]
  refine Finset.sum_congr rfl fun e _ => ?_
  have key : ∀ b : Fin C,
      (if (rowDims N C E wf).resultIdx? (ix2 e b) idx = some (ix2 n c) then upd (ix2 e b) else 0)
        = if b = c then (if (idx (ix2 (n0 := E) (n1 := 1) e 0)).toInt = (n.val : Int) then upd (ix2 e c) else 0)
          else 0 := by
    intro b
    by_cases hb : b = c
    · subst hb
      rw [if_pos rfl]
      refine if_congr ?_ rfl rfl
      rw [resultIdx?_eq_some_iff]
      exact ⟨fun h => h.1, fun h => ⟨h, rfl⟩⟩
    · rw [if_neg hb, if_neg]
      rw [resultIdx?_eq_some_iff]
      rintro ⟨_, h2⟩
      exact hb (Fin.ext h2)
  rw [Finset.sum_congr rfl (fun b _ => key b), Finset.sum_ite_eq' Finset.univ c, if_pos (Finset.mem_univ c)]

/-! ## The law -/

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals. -/
theorem segsum_affine_real {ι κ : Type*} [Fintype ι] [Fintype κ] (P : ι → Prop) [DecidablePred P]
    (w : ι → κ → ℝ) (B : κ → ℝ) (b : ℝ) :
    (∑ e, if P e then (∑ k, w e k * B k) + b else 0)
      = (∑ k, (∑ e, if P e then w e k else 0) * B k) + (∑ e, if P e then (1 : ℝ) else 0) * b := by
  simp only [← Finset.sum_filter]
  have h1 : (∑ e ∈ Finset.univ.filter P, ((∑ k, w e k * B k) + b))
      = (∑ e ∈ Finset.univ.filter P, ∑ k, w e k * B k) + ∑ e ∈ Finset.univ.filter P, b := Finset.sum_add_distrib
  have h2 : (∑ e ∈ Finset.univ.filter P, ∑ k, w e k * B k) = ∑ k, (∑ e ∈ Finset.univ.filter P, w e k) * B k := by
    rw [Finset.sum_comm]
    exact Finset.sum_congr rfl fun k _ => (Finset.sum_mul _ _ _).symm
  have h3 : (∑ e ∈ Finset.univ.filter P, b) = (∑ e ∈ Finset.univ.filter P, (1 : ℝ)) * b := by
    rw [Finset.sum_mul]; simp
  rw [h1, h2, h3]

/-- THE LAW over the extended reals, for entries that are real numbers. -/
theorem segsum_affine {ι κ : Type*} [Fintype ι] [Fintype κ] (P : ι → Prop) [DecidablePred P]
    (w : ι → κ → EReal) (B : κ → EReal) (b : EReal)
    (hw : ∀ e k, ∃ r : ℝ, w e k = (r : EReal)) (hB : ∀ k, ∃ r : ℝ, B k = (r : EReal)) (hb : ∃ r : ℝ, b = (r : EReal)) :
    (∑ e, if P e then (∑ k, w e k * B k) + b else 0)
      = (∑ k, (∑ e, if P e then w e k else 0) * B k) + (∑ e, if P e then (1 : EReal) else 0) * b := by
  choose w' hw' using hw
  choose B' hB' using hB
  obtain ⟨b', rfl⟩ := hb
  have hite : ∀ (p : Prop) [Decidable p] (r : ℝ), (if p then (r : EReal) else 0) = ((if p then r else 0 : ℝ) : EReal) := by
    intro p _ r; split_ifs <;> simp
  have hL : (∑ e, if P e then (∑ k, w e k * B k) + (b' : EReal) else 0)
      = ((∑ e, if P e then (∑ k, w' e k * B' k) + b' else 0 : ℝ) : EReal) := by
    rw [coe_sum]
    refine Finset.sum_congr rfl fun e _ => ?_
    rw [← hite, EReal.coe_add, coe_sum]
    refine if_congr Iff.rfl (congrArg (· + (b' : EReal)) (Finset.sum_congr rfl fun k _ => ?_)) rfl
    rw [hw', hB', EReal.coe_mul]
  have hR : (∑ k, (∑ e, if P e then w e k else 0) * B k) + (∑ e, if P e then (1 : EReal) else 0) * (b' : EReal)
      = (((∑ k, (∑ e, if P e then w' e k else 0) * B' k) + (∑ e, if P e then (1 : ℝ) else 0) * b' : ℝ) : EReal) := by
    rw [EReal.coe_add, EReal.coe_mul, coe_sum, coe_sum]
    congr 1
    · refine Finset.sum_congr rfl fun k _ => ?_
      rw [EReal.coe_mul, coe_sum, hB']
      refine congrArg (· * (B' k : EReal)) (Finset.sum_congr rfl fun e _ => ?_)
      rw [← hite, hw']
    · refine congrArg (· * (b' : EReal)) (Finset.sum_congr rfl fun e _ => ?_)
      rw [← hite]; simp
  rw [hL, hR, segsum_affine_real]

/-! ## The law for the scatter-add itself -/

/-- SUMMING AFFINE IMAGES OF ROWS INTO THEIR DESTINATIONS. Let W be an E × K matrix of reals, B a K × C matrix of reals
    and b a row of C reals. Scattering the rows W[e,·]·B + b by the index words into an all-zero N × C matrix gives, at
    (n, c), the row-scatter of W itself (into an all-zero N × K matrix) times B, plus b[c] times the row-scatter of the
    constant 1 (into an all-zero N × 1 column): the count of the rows that land on n. -/
theorem scatterAdd_affine {K : Nat}
    (wfC : ScatterDims.WF ⟨2, ![N, C]⟩ ⟨2, ![E, 1]⟩ ⟨2, ![E, C]⟩ [1] [0] [0] 1)
    (wfK : ScatterDims.WF ⟨2, ![N, K]⟩ ⟨2, ![E, 1]⟩ ⟨2, ![E, K]⟩ [1] [0] [0] 1)
    (wf1 : ScatterDims.WF ⟨2, ![N, 1]⟩ ⟨2, ![E, 1]⟩ ⟨2, ![E, 1]⟩ [1] [0] [0] 1)
    {φ : FTy} (idx : IVec ⟨2, ![E, 1]⟩ w) (W : FVec Ideal ⟨2, ![E, K]⟩ φ) (B : Fin K → Fin C → EReal) (b : Fin C → EReal)
    (hW : ∀ i, ∃ r : ℝ, W i = (r : EReal)) (hB : ∀ k c, ∃ r : ℝ, B k c = (r : EReal)) (hb : ∀ c, ∃ r : ℝ, b c = (r : EReal))
    (n : Fin N) (c : Fin C) :
    Host.scatterAdd (F := Ideal) (φ := φ) (rowDims N C E wfC) (fun _ => (0 : EReal)) idx
        (fun j => (∑ k : Fin K, W (ix2 (j 0) k) * B k (j 1)) + b (j 1)) (ix2 n c)
      = (∑ k : Fin K, Host.scatterAdd (F := Ideal) (φ := φ) (rowDims N K E wfK) (fun _ => (0 : EReal)) idx W (ix2 n k) * B k c)
        + Host.scatterAdd (F := Ideal) (φ := φ) (rowDims N 1 E wf1) (fun _ => (0 : EReal)) idx (fun _ => (1 : EReal)) (ix2 n 0) * b c := by
  have hC : Host.scatterAdd (F := Ideal) (φ := φ) (rowDims N C E wfC) (fun _ => (0 : EReal)) idx
        (fun j => (∑ k : Fin K, W (ix2 (j 0) k) * B k (j 1)) + b (j 1)) (ix2 n c)
      = ∑ e : Fin E, if (idx (ix2 (n0 := E) (n1 := 1) e 0)).toInt = (n.val : Int)
          then (∑ k : Fin K, W (ix2 e k) * B k c) + b c else 0 := by
    rw [scatterAdd_apply wfC]; exact zero_add _
  have hK : ∀ k : Fin K, Host.scatterAdd (F := Ideal) (φ := φ) (rowDims N K E wfK) (fun _ => (0 : EReal)) idx W (ix2 n k)
      = ∑ e : Fin E, if (idx (ix2 (n0 := E) (n1 := 1) e 0)).toInt = (n.val : Int) then W (ix2 e k) else 0 := by
    intro k; rw [scatterAdd_apply wfK]; exact zero_add _
  have h1 : Host.scatterAdd (F := Ideal) (φ := φ) (rowDims N 1 E wf1) (fun _ => (0 : EReal)) idx (fun _ => (1 : EReal)) (ix2 n 0)
      = ∑ e : Fin E, if (idx (ix2 (n0 := E) (n1 := 1) e 0)).toInt = (n.val : Int) then (1 : EReal) else 0 := by
    rw [scatterAdd_apply wf1]; exact zero_add _
  refine hC.trans ?_
  rw [h1]
  simp only [hK]
  exact segsum_affine (fun e : Fin E => (idx (ix2 (n0 := E) (n1 := 1) e 0)).toInt = (n.val : Int))
    (fun e k => W (ix2 e k)) (fun k => B k c) (b c) (fun e k => hW _) (fun k => hB k c) (hb c)

/-- The same with the all-zero operands and the all-one updates spelled as the f32 words 0x00000000 and 0x3F800000
    (the zero and the one of the extended reals), as a printed program spells them. -/
theorem scatterAdd_affine_words {K : Nat}
    (wfC : ScatterDims.WF ⟨2, ![N, C]⟩ ⟨2, ![E, 1]⟩ ⟨2, ![E, C]⟩ [1] [0] [0] 1)
    (wfK : ScatterDims.WF ⟨2, ![N, K]⟩ ⟨2, ![E, 1]⟩ ⟨2, ![E, K]⟩ [1] [0] [0] 1)
    (wf1 : ScatterDims.WF ⟨2, ![N, 1]⟩ ⟨2, ![E, 1]⟩ ⟨2, ![E, 1]⟩ [1] [0] [0] 1)
    (idx : IVec ⟨2, ![E, 1]⟩ w) (W : FVec Ideal ⟨2, ![E, K]⟩ .f32) (B : Fin K → Fin C → EReal) (b : Fin C → EReal)
    (hW : ∀ i, ∃ r : ℝ, W i = (r : EReal)) (hB : ∀ k c, ∃ r : ℝ, B k c = (r : EReal)) (hb : ∀ c, ∃ r : ℝ, b c = (r : EReal))
    (n : Fin N) (c : Fin C) :
    Host.scatterAdd (F := Ideal) (φ := .f32) (rowDims N C E wfC) (fun _ => Ideal.ofBits .f32 0x00000000#32) idx
        (fun j => (∑ k : Fin K, W (ix2 (j 0) k) * B k (j 1)) + b (j 1)) (ix2 n c)
      = (∑ k : Fin K, Host.scatterAdd (F := Ideal) (φ := .f32) (rowDims N K E wfK) (fun _ => Ideal.ofBits .f32 0x00000000#32) idx W (ix2 n k) * B k c)
        + Host.scatterAdd (F := Ideal) (φ := .f32) (rowDims N 1 E wf1) (fun _ => Ideal.ofBits .f32 0x00000000#32) idx
            (fun _ => Ideal.ofBits .f32 0x3F800000#32) (ix2 n 0) * b c := by
  simp only [Ideal.ofBits_zero_f32, Ideal.ofBits_one_f32]
  exact scatterAdd_affine wfC wfK wf1 idx W B b hW hB hb n c

end Cert.LibScatterRows

end
-- ==== Proof.AggBridge.lean ====
/-
  The two spellings of the edge-side aggregates agree.

  The reference sums, into each node, the affine images w·B + bb of its incoming edges' features (one scatter-add of a
  1600000 × 64 array per bond matrix). The kernel sums the edge features themselves into the nodes once (sw), counts
  each node's incoming edges (deg), and takes sw·B + deg·bb — for all four bond matrices at once, side by side. The two
  agree entry by entry when the edge features, the bond matrices and the bias rows are real numbers: a segment sum of
  affine images is the affine image of the segment sum, the constant weighted by the number of summands
  (LibScatterRows.scatterAdd_affine_words). The neighbour aggregation is spelled identically on both sides.
-/
import proofs.«146189_j40922448396571_2_alg».proof.Proof.KIAgg
import proofs.«146189_j40922448396571_2_alg».proof.Proof.RefStages
import proofs.«146189_j40922448396571_2_alg».proof.Proof.SpecK
import proofs.«146189_j40922448396571_2_alg».proof.Proof.LibScatterRows
import Idealize.ShloMosaic.Lib.IdealHost
import Idealize.ShloMosaic.Lib.KernelVsHost
import Idealize.ShloMosaic.Lib.StackMember
import Idealize.ShloMosaic.Lib.Pipeline.Value

noncomputable section

open scoped BigOperators

namespace Cert.Bridge

open Idealize.ShloMosaic Idealize.ShloMosaic.ValueIdx Cert.LibScatterRows

/-! ## The reference's aggregate at an entry -/

theorem rowsE_apply (bb : FVec Ideal Cert.ReferenceIdeal.S64 .f32) (e : Fin 1600000) (q : Fin 64) :
    Cert.ReferenceIdeal.RefValue.rowsE bb (ix2 e q) = bb (ix1 q) := by
  unfold Cert.ReferenceIdeal.RefValue.rowsE
  rw [broadcastInDim_oneRow_apply Cert.ReferenceIdeal.Gen.bcast_S1x64_S1600000x64_0_1 _ e q]
  exact broadcastInDim_apply ![1] Cert.ReferenceIdeal.Gen.bcast_S64_S1x64_1 bb (ix2 (0 : Fin 1) q) (ix1 q)
    (by intro a; fin_cases a; rfl)

theorem dotE_apply (w : FVec Ideal Cert.ReferenceIdeal.S1600000x16 .f32) (B : FVec Ideal Cert.ReferenceIdeal.S16x64 .f32)
    (e : Fin 1600000) (q : Fin 64) :
    Host.dotGeneral Cert.ReferenceIdeal.dot_S1600000x16_S16x64_S1600000x64_1_0_0_1_n_n none w B (ix2 e q)
      = ∑ k : Fin 16, w (ix2 (n0 := 1600000) (n1 := 16) e k) * B (ix2 (n0 := 16) (n1 := 64) k q) :=
  StackMember.dotGeneral_plain_apply (m := 1600000) (n := 64) (k := 16) none w B e q

/-- The reference's aggregate is ONE row scatter-add, from the zero word, of the rows w[e,·]·B + bb. -/
theorem refAgg_eq (w : FVec Ideal Cert.ReferenceIdeal.S1600000x16 .f32) (dst : IVec Cert.ReferenceIdeal.S1600000 32)
    (B : FVec Ideal Cert.ReferenceIdeal.S16x64 .f32) (bb : FVec Ideal Cert.ReferenceIdeal.S64 .f32) :
    Cert.ReferenceIdeal.RefValue.agg w dst B bb
      = Host.scatterAdd (F := Ideal) (φ := .f32)
          (rowDims 100000 64 1600000 Cert.ReferenceIdeal.scatter_S100000x64_S1600000x1_S1600000x64_1_0_0_1.wf)
          (fun _ => Ideal.ofBits .f32 0x00000000#32) (Cert.ReferenceIdeal.RefValue.col dst)
          (fun i => (∑ k : Fin 16, w (ix2 (n0 := 1600000) (n1 := 16) (i 0) k) * B (ix2 (n0 := 16) (n1 := 64) k (i 1))) + bb (ix1 (n := 64) (i 1))) := by
  have hu : addf (Host.dotGeneral Cert.ReferenceIdeal.dot_S1600000x16_S16x64_S1600000x64_1_0_0_1_n_n none w B)
        (Cert.ReferenceIdeal.RefValue.rowsE bb)
      = fun i => (∑ k : Fin 16, w (ix2 (n0 := 1600000) (n1 := 16) (i 0) k) * B (ix2 (n0 := 16) (n1 := 64) k (i 1))) + bb (ix1 (n := 64) (i 1)) := by
    funext i
    obtain ⟨e, q, rfl⟩ : ∃ (e : Fin 1600000) (q : Fin 64), i = ix2 e q := ⟨i 0, i 1, eq_ix2 i⟩
    rw [addf_apply, dotE_apply, rowsE_apply]
  unfold Cert.ReferenceIdeal.RefValue.agg
  rw [hu]
  rfl

/-! ## The kernel's aggregate at an entry -/

theorem sw_eq (w : FVec Ideal Cert.KernelIdeal.S1600000x16 .f32) (dst : IVec Cert.KernelIdeal.S1600000 32) :
    Cert.KernelIdeal.KValue.sw (F := Ideal) w dst
      = Host.scatterAdd (F := Ideal) (φ := .f32)
          (rowDims 100000 16 1600000 Cert.KernelIdeal.scatter_S100000x16_S1600000x1_S1600000x16_1_0_0_1.wf)
          (fun _ => Ideal.ofBits .f32 0x00000000#32) (Cert.KernelIdeal.KValue.col dst) w := rfl

theorem deg_eq (dst : IVec Cert.KernelIdeal.S1600000 32) :
    Cert.KernelIdeal.KValue.deg (F := Ideal) dst
      = Host.scatterAdd (F := Ideal) (φ := .f32)
          (rowDims 100000 1 1600000 Cert.KernelIdeal.scatter_S100000x1_S1600000x1_S1600000x1_1_0_0_1.wf)
          (fun _ => Ideal.ofBits .f32 0x00000000#32) (Cert.KernelIdeal.KValue.col dst)
          (fun _ => Ideal.ofBits .f32 0x3F800000#32) := rfl

/-- All four aggregates at (n, c): the product's entry plus the node's edge count times the bias at column c. -/
theorem aggAll_apply (raw : FVec Ideal Cert.KernelIdeal.S100000x256 .f32) (dst : IVec Cert.KernelIdeal.S1600000 32)
    (a7 : FVec Ideal Cert.KernelIdeal.S64 .f32) (a11 : FVec Ideal Cert.KernelIdeal.S3x64 .f32) (n : Fin 100000) (c : Fin 256) :
    Cert.KernelIdeal.KValue.aggAll raw dst a7 a11 (ix2 n c)
      = raw (ix2 n c) + Cert.KernelIdeal.KValue.deg dst (ix2 (n0 := 100000) (n1 := 1) n 0) * Cert.KernelIdeal.KValue.bbAll a7 a11 (ix1 c) := by
  unfold Cert.KernelIdeal.KValue.aggAll
  rw [addf_apply, mulf_apply]
  rw [broadcastInDim_apply ![0, 1] Cert.KernelIdeal.Gen.bcast_S100000x1_S100000x256_0_1 (Cert.KernelIdeal.KValue.deg dst)
    (ix2 n c) (ix2 (n0 := 100000) (n1 := 1) n 0) (by
      intro a; fin_cases a
      · show n.val = if (100000 : ℕ) = 1 then 0 else n.val
        simp
      · show (0 : ℕ) = if (1 : ℕ) = 1 then 0 else c.val
        simp)]
  rw [broadcastInDim_oneRow_apply Cert.KernelIdeal.Gen.bcast_S1x256_S100000x256_0_1 _ n c]
  rw [broadcastInDim_apply ![1] Cert.KernelIdeal.Gen.bcast_S256_S1x256_1 (Cert.KernelIdeal.KValue.bbAll a7 a11)
    (ix2 (0 : Fin 1) c) (ix1 c) (by intro a; fin_cases a; rfl)]

/-- The aggregate in the 64 columns from offset o, at (n, j), is the wide one at (n, o + j). -/
theorem aggK_apply (o : Nat) (h : Cert.KernelIdeal.S100000x256.Slices ![0, o] Cert.KernelIdeal.S100000x64)
    (raw : FVec Ideal Cert.KernelIdeal.S100000x256 .f32) (dst : IVec Cert.KernelIdeal.S1600000 32)
    (a7 : FVec Ideal Cert.KernelIdeal.S64 .f32) (a11 : FVec Ideal Cert.KernelIdeal.S3x64 .f32)
    (n : Fin 100000) (j : Fin 64) (c : Fin 256) (hc : c.val = o + j.val) :
    Cert.KernelIdeal.KValue.aggK ![0, o] h raw dst a7 a11 (ix2 n j) = Cert.KernelIdeal.KValue.aggAll raw dst a7 a11 (ix2 n c) := by
  have hk : ∀ a : Fin Cert.KernelIdeal.S100000x256.rank,
      ((ix2 n c : Cert.KernelIdeal.S100000x256.Idx) a).val
        = (![0, o] : Fin Cert.KernelIdeal.S100000x256.rank → Nat) a + ((ix2 n j : Cert.KernelIdeal.S100000x64.Idx) (a.cast h.1.symm)).val := by
    intro a
    match a with
    | ⟨0, _⟩ => show n.val = 0 + n.val; omega
    | ⟨1, _⟩ => exact hc
  exact extractStridedSlice_apply (s := Cert.KernelIdeal.S100000x256) (t := Cert.KernelIdeal.S100000x64) ![0, o]
    (Cert.KernelIdeal.KValue.aggAll raw dst a7 a11) h (ix2 n j) (ix2 n c) hk

/-- The four bond matrices side by side, read in the T-th block of 64 columns: the T-th matrix. -/
theorem bwAll_apply (a6 : FVec Ideal Cert.KernelIdeal.S16x64 .f32) (a10 : FVec Ideal Cert.KernelIdeal.S3x16x64 .f32)
    (T : Nat) (hT : T < 4) (xT : Cert.KernelIdeal.S16x64.Idx → EReal)
    (hx : ([⟨Cert.KernelIdeal.S16x64, a6⟩,
        ⟨Cert.KernelIdeal.S16x64, Cert.KernelIdeal.KValue.bond a10 ![0, 0, 0] Cert.KernelIdeal.Gen.slices_S3x16x64_S1x16x64_0_0_0⟩,
        ⟨Cert.KernelIdeal.S16x64, Cert.KernelIdeal.KValue.bond a10 ![1, 0, 0] Cert.KernelIdeal.Gen.slices_S3x16x64_S1x16x64_1_0_0⟩,
        ⟨Cert.KernelIdeal.S16x64, Cert.KernelIdeal.KValue.bond a10 ![2, 0, 0] Cert.KernelIdeal.Gen.slices_S3x16x64_S1x16x64_2_0_0⟩] :
          List ((s : Shape) × (s.Idx → EReal)))[T]? = some ⟨Cert.KernelIdeal.S16x64, xT⟩)
    (k : Fin 16) (j : Fin 64) (c : Fin 256) (hc : c.val = 64 * T + j.val) :
    Cert.KernelIdeal.KValue.bwAll a6 a10 (ix2 k c) = xT (ix2 k j) := by
  unfold Cert.KernelIdeal.KValue.bwAll
  have hk4 : T < ([⟨Cert.KernelIdeal.S16x64, a6⟩,
        ⟨Cert.KernelIdeal.S16x64, Cert.KernelIdeal.KValue.bond a10 ![0, 0, 0] Cert.KernelIdeal.Gen.slices_S3x16x64_S1x16x64_0_0_0⟩,
        ⟨Cert.KernelIdeal.S16x64, Cert.KernelIdeal.KValue.bond a10 ![1, 0, 0] Cert.KernelIdeal.Gen.slices_S3x16x64_S1x16x64_1_0_0⟩,
        ⟨Cert.KernelIdeal.S16x64, Cert.KernelIdeal.KValue.bond a10 ![2, 0, 0] Cert.KernelIdeal.Gen.slices_S3x16x64_S1x16x64_2_0_0⟩] :
          List ((s : Shape) × (s.Idx → EReal))).length := hT
  refine concatenate_apply_piece (t := Cert.KernelIdeal.S16x256) (1 : Fin 2) _ _ (ix2 k c) T hk4 Cert.KernelIdeal.S16x64 xT
    (by obtain ⟨_, h'⟩ := List.getElem?_eq_some_iff.1 hx; exact h') rfl (64 * T) ?_ (ix2 k j) ?_ ?_
  · interval_cases T <;> rfl
  · intro b hb
    match b with
    | ⟨0, _⟩ => rfl
    | ⟨1, _⟩ => exact absurd rfl hb
  · show 64 * T + j.val = c.val
    omega

/-- The four bias rows end to end, read in the T-th block of 64: the T-th row. -/
theorem bbAll_apply (a7 : FVec Ideal Cert.KernelIdeal.S64 .f32) (a11 : FVec Ideal Cert.KernelIdeal.S3x64 .f32)
    (T : Nat) (hT : T < 4) (xT : Cert.KernelIdeal.S64.Idx → EReal)
    (hx : ([⟨Cert.KernelIdeal.S64, a7⟩,
        ⟨Cert.KernelIdeal.S64, Cert.KernelIdeal.KValue.bias a11 ![0, 0] Cert.KernelIdeal.Gen.slices_S3x64_S1x64_0_0⟩,
        ⟨Cert.KernelIdeal.S64, Cert.KernelIdeal.KValue.bias a11 ![1, 0] Cert.KernelIdeal.Gen.slices_S3x64_S1x64_1_0⟩,
        ⟨Cert.KernelIdeal.S64, Cert.KernelIdeal.KValue.bias a11 ![2, 0] Cert.KernelIdeal.Gen.slices_S3x64_S1x64_2_0⟩] :
          List ((s : Shape) × (s.Idx → EReal)))[T]? = some ⟨Cert.KernelIdeal.S64, xT⟩)
    (j : Fin 64) (c : Fin 256) (hc : c.val = 64 * T + j.val) :
    Cert.KernelIdeal.KValue.bbAll a7 a11 (ix1 c) = xT (ix1 j) := by
  unfold Cert.KernelIdeal.KValue.bbAll
  have hk4 : T < ([⟨Cert.KernelIdeal.S64, a7⟩,
        ⟨Cert.KernelIdeal.S64, Cert.KernelIdeal.KValue.bias a11 ![0, 0] Cert.KernelIdeal.Gen.slices_S3x64_S1x64_0_0⟩,
        ⟨Cert.KernelIdeal.S64, Cert.KernelIdeal.KValue.bias a11 ![1, 0] Cert.KernelIdeal.Gen.slices_S3x64_S1x64_1_0⟩,
        ⟨Cert.KernelIdeal.S64, Cert.KernelIdeal.KValue.bias a11 ![2, 0] Cert.KernelIdeal.Gen.slices_S3x64_S1x64_2_0⟩] :
          List ((s : Shape) × (s.Idx → EReal))).length := hT
  refine concatenate_apply_piece (t := Cert.KernelIdeal.S256) (0 : Fin 1) _ _ (ix1 c) T hk4 Cert.KernelIdeal.S64 xT
    (by obtain ⟨_, h'⟩ := List.getElem?_eq_some_iff.1 hx; exact h') rfl (64 * T) ?_ (ix1 j) ?_ ?_
  · interval_cases T <;> rfl
  · intro b hb
    match b with
    | ⟨0, _⟩ => exact absurd rfl hb
  · show 64 * T + j.val = c.val
    omega

/-- THE AGGREGATES AGREE. The kernel's aggregate in the T-th block of 64 columns (T-th bond matrix BT, T-th bias row
    bT) is the reference's aggregate of the affine images w·BT + bT, when w, BT and bT have real entries. -/
theorem aggK_eq_agg (T : Nat) (hT : T < 4) (h : Cert.KernelIdeal.S100000x256.Slices ![0, 64 * T] Cert.KernelIdeal.S100000x64)
    (w : FVec Ideal Cert.KernelIdeal.S1600000x16 .f32) (dst : IVec Cert.KernelIdeal.S1600000 32)
    (a6 : FVec Ideal Cert.KernelIdeal.S16x64 .f32) (a7 : FVec Ideal Cert.KernelIdeal.S64 .f32)
    (a10 : FVec Ideal Cert.KernelIdeal.S3x16x64 .f32) (a11 : FVec Ideal Cert.KernelIdeal.S3x64 .f32)
    (BT : FVec Ideal Cert.KernelIdeal.S16x64 .f32) (bT : FVec Ideal Cert.KernelIdeal.S64 .f32)
    (hxB : ([⟨Cert.KernelIdeal.S16x64, a6⟩,
        ⟨Cert.KernelIdeal.S16x64, Cert.KernelIdeal.KValue.bond a10 ![0, 0, 0] Cert.KernelIdeal.Gen.slices_S3x16x64_S1x16x64_0_0_0⟩,
        ⟨Cert.KernelIdeal.S16x64, Cert.KernelIdeal.KValue.bond a10 ![1, 0, 0] Cert.KernelIdeal.Gen.slices_S3x16x64_S1x16x64_1_0_0⟩,
        ⟨Cert.KernelIdeal.S16x64, Cert.KernelIdeal.KValue.bond a10 ![2, 0, 0] Cert.KernelIdeal.Gen.slices_S3x16x64_S1x16x64_2_0_0⟩] :
          List ((s : Shape) × (s.Idx → EReal)))[T]? = some ⟨Cert.KernelIdeal.S16x64, BT⟩)
    (hxb : ([⟨Cert.KernelIdeal.S64, a7⟩,
        ⟨Cert.KernelIdeal.S64, Cert.KernelIdeal.KValue.bias a11 ![0, 0] Cert.KernelIdeal.Gen.slices_S3x64_S1x64_0_0⟩,
        ⟨Cert.KernelIdeal.S64, Cert.KernelIdeal.KValue.bias a11 ![1, 0] Cert.KernelIdeal.Gen.slices_S3x64_S1x64_1_0⟩,
        ⟨Cert.KernelIdeal.S64, Cert.KernelIdeal.KValue.bias a11 ![2, 0] Cert.KernelIdeal.Gen.slices_S3x64_S1x64_2_0⟩] :
          List ((s : Shape) × (s.Idx → EReal)))[T]? = some ⟨Cert.KernelIdeal.S64, bT⟩)
    (hw : ∀ i, ∃ r : ℝ, w i = (r : EReal)) (hB : ∀ i, ∃ r : ℝ, BT i = (r : EReal)) (hb : ∀ i, ∃ r : ℝ, bT i = (r : EReal)) :
    Cert.KernelIdeal.KValue.aggK ![0, 64 * T] h
        (Cert.Spec.mm16 (Cert.KernelIdeal.KValue.sw w dst) (Cert.KernelIdeal.KValue.bwAll a6 a10)) dst a7 a11
      = Cert.ReferenceIdeal.RefValue.agg w dst BT bT := by
  funext i
  obtain ⟨n, j, rfl⟩ : ∃ (n : Fin 100000) (j : Fin 64), i = ix2 n j := ⟨i 0, i 1, eq_ix2 i⟩
  have hjc : 64 * T + j.val < 256 := by have := j.isLt; omega
  rw [aggK_apply (64 * T) h _ dst a7 a11 n j ⟨64 * T + j.val, hjc⟩ rfl, aggAll_apply, refAgg_eq]
  rw [bbAll_apply a7 a11 T hT bT hxb j ⟨64 * T + j.val, hjc⟩ rfl]
  have hmm : Cert.Spec.mm16 (Cert.KernelIdeal.KValue.sw w dst) (Cert.KernelIdeal.KValue.bwAll a6 a10)
        (ix2 n (⟨64 * T + j.val, hjc⟩ : Fin 256))
      = ∑ k : Fin 16, Cert.KernelIdeal.KValue.sw w dst (ix2 n k) * BT (ix2 k j) := by
    show (∑ k : Fin 16, Cert.KernelIdeal.KValue.sw w dst (ix2 n k)
        * Cert.KernelIdeal.KValue.bwAll a6 a10 (ix2 k (⟨64 * T + j.val, hjc⟩ : Fin 256))) = _
    exact Finset.sum_congr rfl fun k _ => by rw [bwAll_apply a6 a10 T hT BT hxB k j ⟨64 * T + j.val, hjc⟩ rfl]
  rw [hmm, sw_eq, deg_eq]
  exact (scatterAdd_affine_words
    Cert.ReferenceIdeal.scatter_S100000x64_S1600000x1_S1600000x64_1_0_0_1.wf
    Cert.KernelIdeal.scatter_S100000x16_S1600000x1_S1600000x16_1_0_0_1.wf
    Cert.KernelIdeal.scatter_S100000x1_S1600000x1_S1600000x1_1_0_0_1.wf
    (Cert.KernelIdeal.KValue.col dst) w (fun k c => BT (ix2 k c)) (fun c => bT (ix1 c))
    hw (fun k c => hB _) (fun c => hb _) n j).symm

/-! ## The four aggregates -/

section Four

variable (w : FVec Ideal Cert.KernelIdeal.S1600000x16 .f32) (dst : IVec Cert.KernelIdeal.S1600000 32)
  (a6 : FVec Ideal Cert.KernelIdeal.S16x64 .f32) (a7 : FVec Ideal Cert.KernelIdeal.S64 .f32)
  (a10 : FVec Ideal Cert.KernelIdeal.S3x16x64 .f32) (a11 : FVec Ideal Cert.KernelIdeal.S3x64 .f32)
  (hw : ∀ i, ∃ r : ℝ, w i = (r : EReal)) (h6 : ∀ i, ∃ r : ℝ, a6 i = (r : EReal)) (h7 : ∀ i, ∃ r : ℝ, a7 i = (r : EReal))
  (h10 : ∀ i, ∃ r : ℝ, a10 i = (r : EReal)) (h11 : ∀ i, ∃ r : ℝ, a11 i = (r : EReal))

include h10 in
/-- A layer's bond matrix has real entries when the stack has: each entry is an entry of the stack. -/
theorem bond_real (off : Fin 3 → Nat) (h : Cert.KernelIdeal.S3x16x64.Slices off Cert.KernelIdeal.S1x16x64) (i) :
    ∃ r : ℝ, Cert.KernelIdeal.KValue.bond a10 off h i = (r : EReal) := by
  unfold Cert.KernelIdeal.KValue.bond shapeCast extractStridedSlice
  exact h10 _

include h11 in
theorem bias_real (off : Fin 2 → Nat) (h : Cert.KernelIdeal.S3x64.Slices off Cert.KernelIdeal.S1x64) (i) :
    ∃ r : ℝ, Cert.KernelIdeal.KValue.bias a11 off h i = (r : EReal) := by
  unfold Cert.KernelIdeal.KValue.bias shapeCast extractStridedSlice
  exact h11 _

include hw h6 h7 in
theorem agg0 (h : Cert.KernelIdeal.S100000x256.Slices ![0, 0] Cert.KernelIdeal.S100000x64) :
    Cert.KernelIdeal.KValue.aggK ![0, 0] h
        (Cert.Spec.mm16 (Cert.KernelIdeal.KValue.sw w dst) (Cert.KernelIdeal.KValue.bwAll a6 a10)) dst a7 a11
      = Cert.ReferenceIdeal.RefValue.agg w dst a6 a7 :=
  aggK_eq_agg 0 (by decide) h w dst a6 a7 a10 a11 a6 a7 rfl rfl hw h6 h7

include hw h10 h11 in
theorem agg1 (h : Cert.KernelIdeal.S100000x256.Slices ![0, 64] Cert.KernelIdeal.S100000x64) :
    Cert.KernelIdeal.KValue.aggK ![0, 64] h
        (Cert.Spec.mm16 (Cert.KernelIdeal.KValue.sw w dst) (Cert.KernelIdeal.KValue.bwAll a6 a10)) dst a7 a11
      = Cert.ReferenceIdeal.RefValue.agg w dst
          (Cert.KernelIdeal.KValue.bond a10 ![0, 0, 0] Cert.KernelIdeal.Gen.slices_S3x16x64_S1x16x64_0_0_0)
          (Cert.KernelIdeal.KValue.bias a11 ![0, 0] Cert.KernelIdeal.Gen.slices_S3x64_S1x64_0_0) :=
  aggK_eq_agg 1 (by decide) h w dst a6 a7 a10 a11 _ _ rfl rfl hw (bond_real a10 h10 _ _) (bias_real a11 h11 _ _)

include hw h10 h11 in
theorem agg2 (h : Cert.KernelIdeal.S100000x256.Slices ![0, 128] Cert.KernelIdeal.S100000x64) :
    Cert.KernelIdeal.KValue.aggK ![0, 128] h
        (Cert.Spec.mm16 (Cert.KernelIdeal.KValue.sw w dst) (Cert.KernelIdeal.KValue.bwAll a6 a10)) dst a7 a11
      = Cert.ReferenceIdeal.RefValue.agg w dst
          (Cert.KernelIdeal.KValue.bond a10 ![1, 0, 0] Cert.KernelIdeal.Gen.slices_S3x16x64_S1x16x64_1_0_0)
          (Cert.KernelIdeal.KValue.bias a11 ![1, 0] Cert.KernelIdeal.Gen.slices_S3x64_S1x64_1_0) :=
  aggK_eq_agg 2 (by decide) h w dst a6 a7 a10 a11 _ _ rfl rfl hw (bond_real a10 h10 _ _) (bias_real a11 h11 _ _)

include hw h10 h11 in
theorem agg3 (h : Cert.KernelIdeal.S100000x256.Slices ![0, 192] Cert.KernelIdeal.S100000x64) :
    Cert.KernelIdeal.KValue.aggK ![0, 192] h
        (Cert.Spec.mm16 (Cert.KernelIdeal.KValue.sw w dst) (Cert.KernelIdeal.KValue.bwAll a6 a10)) dst a7 a11
      = Cert.ReferenceIdeal.RefValue.agg w dst
          (Cert.KernelIdeal.KValue.bond a10 ![2, 0, 0] Cert.KernelIdeal.Gen.slices_S3x16x64_S1x16x64_2_0_0)
          (Cert.KernelIdeal.KValue.bias a11 ![2, 0] Cert.KernelIdeal.Gen.slices_S3x64_S1x64_2_0) :=
  aggK_eq_agg 3 (by decide) h w dst a6 a7 a10 a11 _ _ rfl rfl hw (bond_real a10 h10 _ _) (bias_real a11 h11 _ _)

end Four

/-! ## The spellings that are the same term -/

/-- The neighbour aggregation is printed identically in both programs. -/
theorem nb_eq (src dst : IVec Cert.KernelIdeal.S1600000 32) (H : FVec Ideal Cert.KernelIdeal.S100000x64 .f32) :
    Cert.KernelIdeal.KValue.nb src dst H = Cert.ReferenceIdeal.RefValue.nb src dst H := rfl

/-- So are the slices that pick a layer's bond matrix and bias row. -/
theorem bond_eq (a10 : FVec Ideal Cert.KernelIdeal.S3x16x64 .f32) (off : Fin 3 → Nat)
    (h : Cert.KernelIdeal.S3x16x64.Slices off Cert.KernelIdeal.S1x16x64) (h' : Cert.ReferenceIdeal.S3x16x64.Slices off Cert.ReferenceIdeal.S1x16x64) :
    Cert.KernelIdeal.KValue.bond a10 off h = Cert.ReferenceIdeal.RefValue.pBond a10 off h' := rfl
theorem bias_eq (a11 : FVec Ideal Cert.KernelIdeal.S3x64 .f32) (off : Fin 2 → Nat)
    (h : Cert.KernelIdeal.S3x64.Slices off Cert.KernelIdeal.S1x64) (h' : Cert.ReferenceIdeal.S3x64.Slices off Cert.ReferenceIdeal.S1x64) :
    Cert.KernelIdeal.KValue.bias a11 off h = Cert.ReferenceIdeal.RefValue.pRow a11 off h' := rfl

end Cert.Bridge

end
-- ==== Proof.Finite.lean ====
/-
  From the precondition to numbers: when "every float input is finite" evaluates to all ones, every entry of the
  edge features, of the four bond matrices and of the four bond biases is a real number (neither infinity).

  The precondition is a conjunction, one conjunct per float argument, of "all entries x satisfy |x| < +inf". A
  conjunction of one-bit words that is 1 has both words 1; an all-reduction by "and" that is 1 had 1 at every entry;
  and |x| < +inf on the extended reals says x is neither +inf nor −inf.
-/
import proofs.«146189_j40922448396571_2_alg».proof.Pre_finite_inputs
import Idealize.ShloMosaic.Lib.ReduceAll
import Idealize.ShloMosaic.Lib.ValueIdx
import Idealize.ShloMosaic.Lib.Affine
import Idealize.ShloMosaic.PureOps.Ideal.Laws

noncomputable section

namespace Cert.Finite

open Idealize.ShloMosaic Idealize.ShloMosaic.ValueIdx Cert.Pre_finite_inputs

instance : Subsingleton (S_ : Shape).Idx := ⟨fun a b => funext fun d => d.elim0⟩

/-- |x| < +inf (as the comparison word) says x is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    have : Ideal.cmp .olt (max x (-x)) ⊤ = 0#1 := by simp [Ideal.cmp, hn]
    rw [this] at h
    exact absurd h (by decide)
  induction x using EReal.rec with
  | bot => simp at hlt
  | coe r => exact ⟨r, rfl⟩
  | top => simp at hlt

/-- One conjunct: an array whose "all |x| < +inf" word is 1 has real entries. -/
theorem real_of_all {s : Shape} {axes : List (Fin s.rank)} (x : FVec Ideal s .f32) (bc : (S_ : Shape).BroadcastsInDim s (![] : Fin 0 → Fin s.rank))
    (hr : s.ReducesTo axes S_) (hu : 0 < (S_ : Shape).numel) (init : IVec S_ 1)
    (h : Host.reduce IntOp.andi (cmpf .olt (Host.absf x) (broadcastInDim s ![] bc (constant S_ .f32 0x7F800000#32))) init hr hu ix0 = 1#1)
    (i : s.Idx) : ∃ r : ℝ, x i = (r : EReal) :=
  real_of_abs_lt_inf (x i) (Host.reduce_andi_all _ init hr hu ix0 h i)

variable [Cert.Pre_finite_inputs.Facts]

/-- THE DECODING. From "finite_inputs is all ones" at the extended reals: the entries of the edge features (argument
    1), of the first bond matrix and bias (6, 7) and of the stacked bond matrices and biases (10, 11) are real numbers.
    The conjunction is peeled from its last conjunct (argument 23) inwards; arguments 2 and 3 are integer arrays and
    have no conjunct. -/
theorem finite_of_pre
    (a0 : FVec Ideal S100000x64 .f32) (a1 : FVec Ideal S1600000x16 .f32) (a2 a3 : IVec S1600000 32)
    (a4 : FVec Ideal S64x64 .f32) (a5 : FVec Ideal S64 .f32) (a6 : FVec Ideal S16x64 .f32) (a7 a8 a9 : FVec Ideal S64 .f32)
    (a10 : FVec Ideal S3x16x64 .f32) (a11 : FVec Ideal S3x64 .f32) (a12 : FVec Ideal S3x64x64 .f32) (a13 : FVec Ideal S3x64 .f32)
    (a14 : FVec Ideal S3x64x64 .f32) (a15 a16 a17 a18 a19 : FVec Ideal S3x64 .f32) (a20 : FVec Ideal S64x64 .f32)
    (a21 a22 a23 : FVec Ideal S64 .f32)
    (h : fn (F := Ideal) a0 a1 a2 a3 a4 a5 a6 a7 a8 a9 a10 a11 a12 a13 a14 a15 a16 a17 a18 a19 a20 a21 a22 a23 = fun _ => 1#1) :
    (∀ i, ∃ r : ℝ, a1 i = (r : EReal)) ∧ (∀ i, ∃ r : ℝ, a6 i = (r : EReal)) ∧ (∀ i, ∃ r : ℝ, a7 i = (r : EReal))
      ∧ (∀ i, ∃ r : ℝ, a10 i = (r : EReal)) ∧ (∀ i, ∃ r : ℝ, a11 i = (r : EReal)) := by
  have h0 := congrFun h ix0
  dsimp only [fn, fn_part1, fn_part2, fn_part3, fn_part4, fn_part5, fn_part6] at h0
  obtain ⟨h0, h23⟩ := IntOp.andi_eq_one.1 h0
  obtain ⟨h0, h22⟩ := IntOp.andi_eq_one.1 h0
  obtain ⟨h0, h21⟩ := IntOp.andi_eq_one.1 h0
  obtain ⟨h0, h20⟩ := IntOp.andi_eq_one.1 h0
  obtain ⟨h0, h19⟩ := IntOp.andi_eq_one.1 h0
  obtain ⟨h0, h18⟩ := IntOp.andi_eq_one.1 h0
  obtain ⟨h0, h17⟩ := IntOp.andi_eq_one.1 h0
  obtain ⟨h0, h16⟩ := IntOp.andi_eq_one.1 h0
  obtain ⟨h0, h15⟩ := IntOp.andi_eq_one.1 h0
  obtain ⟨h0, h14⟩ := IntOp.andi_eq_one.1 h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h1⟩ := IntOp.andi_eq_one.1 h0
  exact ⟨fun i => real_of_all a1 _ _ _ _ h1 i, fun i => real_of_all a6 _ _ _ _ h6 i, fun i => real_of_all a7 _ _ _ _ h7 i,
    fun i => real_of_all a10 _ _ _ _ h10 i, fun i => real_of_all a11 _ _ _ _ h11 i⟩

end Cert.Finite

end
-- ==== Proof.RefBlk0.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 60 of the reference's flat program (they write references 24 … 83). -/
abbrev blk0 : List (HloOp τ sig (Elt F)) :=
  [ StableHlo.binary main_arg1 main_arg6 main_v0 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    StableHlo.unary main_arg7 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S1600000x64 ![0, 1] bcast_S1x64_S1600000x64_0_1 : (⟨S1x64, .f32⟩ : BufTy).Contents (Elt F) → (⟨S1600000x64, .f32⟩ : BufTy).Contents (Elt F)),
    StableHlo.binary main_v0 main_v2 main_v3 (addf : (⟨S1600000x64, .f32⟩ : BufTy).Contents (Elt F) → (⟨S1600000x64, .f32⟩ : BufTy).Contents (Elt F) → (⟨S1600000x64, .f32⟩ : BufTy).Contents (Elt F)),
    StableHlo.nullary main_cst (constant S_ .f32 0x00000000#32),
    StableHlo.unary main_cst main_v4 (broadcastInDim S100000x64 ![] bcast_S_S100000x64 : (⟨S_, .f32⟩ : BufTy).Contents (Elt F) → (⟨S100000x64, .f32⟩ : BufTy).Contents (Elt F)),
    StableHlo.unary main_arg3 main_v5 (broadcastInDim S1600000x1 ![0] bcast_S1600000_S1600000x1_0 : (⟨S1600000, .i32⟩ : BufTy).Contents (Elt F) → (⟨S1600000x1, .i32⟩ : BufTy).Contents (Elt F)),
    StableHlo.ternary main_v4 main_v5 main_v3 main_v6 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_arg0 main_arg4 main_v7 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v6 main_v7 main_v8 (addf : (⟨S100000x64, .f32⟩ : BufTy).Contents (Elt F) → (⟨S100000x64, .f32⟩ : BufTy).Contents (Elt F) → (⟨S100000x64, .f32⟩ : BufTy).Contents (Elt F)),
    StableHlo.unary main_arg5 main_v9 (broadcastInDim S1x64 ![1] bcast_S64_S1x64_1 : (⟨S64, .f32⟩ : BufTy).Contents (Elt F) → (⟨S1x64, .f32⟩ : BufTy).Contents (Elt F)),
    StableHlo.unary main_v9 main_v10 (broadcastInDim S100000x64 ![0, 1] bcast_S1x64_S100000x64_0_1 : (⟨S1x64, .f32⟩ : BufTy).Contents (Elt F) → (⟨S100000x64, .f32⟩ : BufTy).Contents (Elt F)),
    StableHlo.binary main_v8 main_v10 main_v11 (addf : (⟨S100000x64, .f32⟩ : BufTy).Contents (Elt F) → (⟨S100000x64, .f32⟩ : BufTy).Contents (Elt F) → (⟨S100000x64, .f32⟩ : BufTy).Contents (Elt F)),
    StableHlo.nullary main_cst_0 (constant S_ .f32 0x00000000#32),
    StableHlo.binary main_v11 main_cst_0 main_v12 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_1 (constant S_ .f32 0x47C35000#32),
    StableHlo.unary main_cst_1 main_v13 (broadcastInDim S64 ![] bcast_S_S64 : (⟨S_, .f32⟩ : BufTy).Contents (Elt F) → (⟨S64, .f32⟩ : BufTy).Contents (Elt F)),
    StableHlo.binary main_v12 main_v13 main_v14 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v11 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v11 : StableHlo.TRef sig ⟨S100000x64, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v14 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S100000x64 ![0, 1] bcast_S1x64_S100000x64_0_1 : (⟨S1x64, .f32⟩ : BufTy).Contents (Elt F) → (⟨S100000x64, .f32⟩ : BufTy).Contents (Elt F)),
    StableHlo.binary main_v11 main_v17 main_v18 (subf : (⟨S100000x64, .f32⟩ : BufTy).Contents (Elt F) → (⟨S100000x64, .f32⟩ : BufTy).Contents (Elt F) → (⟨S100000x64, .f32⟩ : BufTy).Contents (Elt F)),
    StableHlo.nullary main_cst_2 (constant S_ .f32 0x3727C5AC#32),
    StableHlo.unary main_cst_2 main_v19 (broadcastInDim S64 ![] bcast_S_S64 : (⟨S_, .f32⟩ : BufTy).Contents (Elt F) → (⟨S64, .f32⟩ : BufTy).Contents (Elt F)),
    StableHlo.binary main_v15 main_v19 main_v20 (addf : (⟨S64, .f32⟩ : BufTy).Contents (Elt F) → (⟨S64, .f32⟩ : BufTy).Contents (Elt F) → (⟨S64, .f32⟩ : BufTy).Contents (Elt F)),
    StableHlo.unary main_v20 main_v21 (Host.rsqrt : (⟨S64, .f32⟩ : BufTy).Contents (Elt F) → (⟨S64, .f32⟩ : BufTy).Contents (Elt F)),
    StableHlo.unary main_v21 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S100000x64 ![0, 1] bcast_S1x64_S100000x64_0_1 : (⟨S1x64, .f32⟩ : BufTy).Contents (Elt F) → (⟨S100000x64, .f32⟩ : BufTy).Contents (Elt F)),
    StableHlo.binary main_v18 main_v23 main_v24 (mulf : (⟨S100000x64, .f32⟩ : BufTy).Contents (Elt F) → (⟨S100000x64, .f32⟩ : BufTy).Contents (Elt F) → (⟨S100000x64, .f32⟩ : BufTy).Contents (Elt F)),
    StableHlo.unary main_arg8 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v26 main_v27 (mulf : (⟨S100000x64, .f32⟩ : BufTy).Contents (Elt F) → (⟨S100000x64, .f32⟩ : BufTy).Contents (Elt F) → (⟨S100000x64, .f32⟩ : BufTy).Contents (Elt F)),
    StableHlo.unary main_arg9 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v29 main_v30 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v30 : StableHlo.TRef sig ⟨S100000x64, .f32⟩) main_call1.v0 main_call1.v1 maximumf ]

end Cert.ReferenceIdeal.RefRun

end
-- ==== Proof.RefRange.lean ====
import proofs.«146189_j40922448396571_2_alg».proof.Proof.RefArgs

/-!
# References from a position on

Operation `j` of the reference's flat program writes reference `24 + j`; so a block of consecutive operations
writes only references from its first position on, and leaves every earlier reference as it was.
-/

noncomputable section

namespace Cert.ReferenceIdeal.RefRun

open Cert.ReferenceIdeal Idealize.ShloMosaic Idealize.ShloMosaic.StableHlo

/-- The references at position `n` of the signature or later. -/
def Ge (n : Nat) (r : Ref sig .tc) : Prop := n ≤ r.idx.val

instance (n : Nat) (r : Ref sig .tc) : Decidable (Ge n r) := by unfold Ge; infer_instance

variable {Val : EltTy → Type}

/-- Writing only inside a smaller set is writing only inside a larger one. -/
theorem WritesIn.mono {P Q : Ref sig .tc → Prop} (hPQ : ∀ r, P r → Q r) {op : HloOp τ sig Val} (h : WritesIn P op) :
    WritesIn Q op :=
  ⟨fun b hb => let ⟨y, hy, e⟩ := h.out b hb; ⟨y, hPQ y hy, e⟩⟩

/-- A reference before position `n` keeps its contents through a line whose operations write from `n` on. -/
theorem after_before {n : Nat} (ops : List (HloOp τ sig Val)) (V : Valuation τ sig Val)
    (h : ops.Forall (WritesIn (Ge n))) {r : Ref sig .tc} (hr : ¬ Ge n r) :
    after ops V (Proc.devRef .tc r) = V (Proc.devRef .tc r) := after_kept ops V h hr

end Cert.ReferenceIdeal.RefRun

end
-- ==== Proof.RefBlkVal0.lean ====
import proofs.«146189_j40922448396571_2_alg».proof.Proof.RefBlk0
import proofs.«146189_j40922448396571_2_alg».proof.Proof.RefStages
import proofs.«146189_j40922448396571_2_alg».proof.Proof.RefArgs
import proofs.«146189_j40922448396571_2_alg».proof.Proof.RefRange

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The block writes references from position 24 on only. -/
theorem blk0_ge : (blk0 : List (HloOp τ sig (Elt F))).Forall (WritesIn (Ge 24)) := by
  simp (disch := decide) only [blk0, List.forall_cons, List.Forall, ↓unary_writesIn, ↓binary_writesIn,
    ↓nullary_writesIn, ↓reshape_writesIn, ↓ternary_writesIn, and_self]

/-- The first update: after the block, the relu's buffer holds the printed stages applied to the arguments. -/
theorem blk0_out (W : Valuation τ sig (Elt F)) :
    after blk0 W (Proc.devRef .tc main_v31)
      = pFirst (agg (W (Proc.devRef .tc main_arg1)) (W (Proc.devRef .tc main_arg3)) (W (Proc.devRef .tc main_arg6)) (W (Proc.devRef .tc main_arg7))) (W (Proc.devRef .tc main_arg0)) (W (Proc.devRef .tc main_arg4)) (W (Proc.devRef .tc main_arg5)) (W (Proc.devRef .tc main_arg8)) (W (Proc.devRef .tc main_arg9)) := by
  after_results_simp
  rfl

end Cert.ReferenceIdeal.RefValue

end
-- ==== Proof.RefBlk1.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 61 … 145 of the reference's flat program (they write references 84 … 168). -/
abbrev blk1 : List (HloOp τ sig (Elt F)) :=
  [ StableHlo.unary main_arg10 main_v32 ((extractStridedSlice S1x16x64 ![0, 0, 0] · slices_S3x16x64_S1x16x64_0_0_0) : (⟨S3x16x64, .f32⟩ : BufTy).Contents (Elt F) → (⟨S1x16x64, .f32⟩ : BufTy).Contents (Elt F)),
    StableHlo.reshape main_v32 main_v33 rfl shapeCasts_S1x16x64_S16x64,
    StableHlo.binary main_arg1 main_v33 main_v34 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    StableHlo.unary main_arg11 main_v35 ((extractStridedSlice S1x64 ![0, 0] · slices_S3x64_S1x64_0_0) : (⟨S3x64, .f32⟩ : BufTy).Contents (Elt F) → (⟨S1x64, .f32⟩ : BufTy).Contents (Elt F)),
    StableHlo.reshape main_v35 main_v36 rfl shapeCasts_S1x64_S64,
    StableHlo.unary main_v36 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S1600000x64 ![0, 1] bcast_S1x64_S1600000x64_0_1 : (⟨S1x64, .f32⟩ : BufTy).Contents (Elt F) → (⟨S1600000x64, .f32⟩ : BufTy).Contents (Elt F)),
    StableHlo.binary main_v34 main_v38 main_v39 (addf : (⟨S1600000x64, .f32⟩ : BufTy).Contents (Elt F) → (⟨S1600000x64, .f32⟩ : BufTy).Contents (Elt F) → (⟨S1600000x64, .f32⟩ : BufTy).Contents (Elt F)),
    StableHlo.nullary main_c_3 (constantI S_ 32 0#32),
    StableHlo.unary main_c_3 main_v40 (broadcastInDim S1600000 ![] bcast_S_S1600000 : (⟨S_, .i32⟩ : BufTy).Contents (Elt F) → (⟨S1600000, .i32⟩ : BufTy).Contents (Elt F)),
    StableHlo.binary main_arg2 main_v40 main_v41 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v42 (broadcastInDim S1600000 ![] bcast_S_S1600000 : (⟨S_, .i32⟩ : BufTy).Contents (Elt F) → (⟨S1600000, .i32⟩ : BufTy).Contents (Elt F)),
    StableHlo.binary main_arg2 main_v42 main_v43 (addi : (⟨S1600000, .i32⟩ : BufTy).Contents (Elt F) → (⟨S1600000, .i32⟩ : BufTy).Contents (Elt F) → (⟨S1600000, .i32⟩ : BufTy).Contents (Elt F)),
    StableHlo.ternary main_v41 main_v43 main_arg2 main_v44 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v44 main_v45 (broadcastInDim S1600000x1 ![0] bcast_S1600000_S1600000x1_0 : (⟨S1600000, .i32⟩ : BufTy).Contents (Elt F) → (⟨S1600000x1, .i32⟩ : BufTy).Contents (Elt F)),
    StableHlo.binary main_v31 main_v45 main_v46 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_5 (constant S_ .f32 0x00000000#32),
    StableHlo.unary main_cst_5 main_v47 (broadcastInDim S100000x64 ![] bcast_S_S100000x64 : (⟨S_, .f32⟩ : BufTy).Contents (Elt F) → (⟨S100000x64, .f32⟩ : BufTy).Contents (Elt F)),
    StableHlo.unary main_arg3 main_v48 (broadcastInDim S1600000x1 ![0] bcast_S1600000_S1600000x1_0 : (⟨S1600000, .i32⟩ : BufTy).Contents (Elt F) → (⟨S1600000x1, .i32⟩ : BufTy).Contents (Elt F)),
    StableHlo.ternary main_v47 main_v48 main_v46 main_v49 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_6 (constant S_ .f32 0x00000000#32),
    StableHlo.unary main_cst_6 main_v50 (broadcastInDim S100000x64 ![] bcast_S_S100000x64 : (⟨S_, .f32⟩ : BufTy).Contents (Elt F) → (⟨S100000x64, .f32⟩ : BufTy).Contents (Elt F)),
    StableHlo.unary main_arg3 main_v51 (broadcastInDim S1600000x1 ![0] bcast_S1600000_S1600000x1_0 : (⟨S1600000, .i32⟩ : BufTy).Contents (Elt F) → (⟨S1600000x1, .i32⟩ : BufTy).Contents (Elt F)),
    StableHlo.ternary main_v50 main_v51 main_v39 main_v52 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg12 main_v53 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v53 main_v54 rfl shapeCasts_S1x64x64_S64x64,
    StableHlo.binary main_v49 main_v54 main_v55 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg13 main_v56 ((extractStridedSlice S1x64 ![0, 0] · slices_S3x64_S1x64_0_0) : (⟨S3x64, .f32⟩ : BufTy).Contents (Elt F) → (⟨S1x64, .f32⟩ : BufTy).Contents (Elt F)),
    StableHlo.reshape main_v56 main_v57 rfl shapeCasts_S1x64_S64,
    StableHlo.unary main_v57 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v55 main_v59 main_v60 (addf : (⟨S100000x64, .f32⟩ : BufTy).Contents (Elt F) → (⟨S100000x64, .f32⟩ : BufTy).Contents (Elt F) → (⟨S100000x64, .f32⟩ : BufTy).Contents (Elt F)),
    StableHlo.binary main_v60 main_v52 main_v61 (addf : (⟨S100000x64, .f32⟩ : BufTy).Contents (Elt F) → (⟨S100000x64, .f32⟩ : BufTy).Contents (Elt F) → (⟨S100000x64, .f32⟩ : BufTy).Contents (Elt F)),
    StableHlo.unary main_arg16 main_v62 ((extractStridedSlice S1x64 ![0, 0] · slices_S3x64_S1x64_0_0) : (⟨S3x64, .f32⟩ : BufTy).Contents (Elt F) → (⟨S1x64, .f32⟩ : BufTy).Contents (Elt F)),
    StableHlo.reshape main_v62 main_v63 rfl shapeCasts_S1x64_S64,
    StableHlo.unary main_arg17 main_v64 ((extractStridedSlice S1x64 ![0, 0] · slices_S3x64_S1x64_0_0) : (⟨S3x64, .f32⟩ : BufTy).Contents (Elt F) → (⟨S1x64, .f32⟩ : BufTy).Contents (Elt F)),
    StableHlo.reshape main_v64 main_v65 rfl shapeCasts_S1x64_S64,
    StableHlo.nullary main_cst_7 (constant S_ .f32 0x00000000#32),
    StableHlo.binary main_v61 main_cst_7 main_v66 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_8 (constant S_ .f32 0x47C35000#32),
    StableHlo.unary main_cst_8 main_v67 (broadcastInDim S64 ![] bcast_S_S64 : (⟨S_, .f32⟩ : BufTy).Contents (Elt F) → (⟨S64, .f32⟩ : BufTy).Contents (Elt F)),
    StableHlo.binary main_v66 main_v67 main_v68 (Host.divf : (⟨S64, .f32⟩ : BufTy).Contents (Elt F) → (⟨S64, .f32⟩ : BufTy).Contents (Elt F) → (⟨S64, .f32⟩ : BufTy).Contents (Elt F)),
    StableHlo.nullary main_c_9 (constantI S_ 32 0#32),
    StableHlo.TRef.nullary main_call2.cst (constant S_ .f32 0x00000000#32),
    StableHlo.TRef.binary (.of main_v61 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v61 : StableHlo.TRef sig ⟨S100000x64, .f32⟩) main_call2.v4 main_call2.v5 subf,
    StableHlo.TRef.binary main_call2.v5 main_call2.v5 main_call2.v6 mulf,
    StableHlo.TRef.unary (.of main_c_9 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v68 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v71 main_v72 (subf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3727C5AC#32),
    StableHlo.unary main_cst_10 main_v73 (broadcastInDim S64 ![] bcast_S_S64 : (⟨S_, .f32⟩ : BufTy).Contents (Elt F) → (⟨S64, .f32⟩ : BufTy).Contents (Elt F)),
    StableHlo.binary main_v69 main_v73 main_v74 (addf : (⟨S64, .f32⟩ : BufTy).Contents (Elt F) → (⟨S64, .f32⟩ : BufTy).Contents (Elt F) → (⟨S64, .f32⟩ : BufTy).Contents (Elt F)),
    StableHlo.unary main_v74 main_v75 (Host.rsqrt : (⟨S64, .f32⟩ : BufTy).Contents (Elt F) → (⟨S64, .f32⟩ : BufTy).Contents (Elt F)),
    StableHlo.unary main_v75 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v72 main_v77 main_v78 (mulf : (⟨S100000x64, .f32⟩ : BufTy).Contents (Elt F) → (⟨S100000x64, .f32⟩ : BufTy).Contents (Elt F) → (⟨S100000x64, .f32⟩ : BufTy).Contents (Elt F)),
    StableHlo.unary main_v63 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v80 main_v81 (mulf : (⟨S100000x64, .f32⟩ : BufTy).Contents (Elt F) → (⟨S100000x64, .f32⟩ : BufTy).Contents (Elt F) → (⟨S100000x64, .f32⟩ : BufTy).Contents (Elt F)),
    StableHlo.unary main_v65 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S100000x64 ![0, 1] bcast_S1x64_S100000x64_0_1 : (⟨S1x64, .f32⟩ : BufTy).Contents (Elt F) → (⟨S100000x64, .f32⟩ : BufTy).Contents (Elt F)),
    StableHlo.binary main_v81 main_v83 main_v84 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v84 : StableHlo.TRef sig ⟨S100000x64, .f32⟩) main_call3.v0 main_call3.v1 maximumf ]

end Cert.ReferenceIdeal.RefRun

end
-- ==== Proof.RefBlkVal1.lean ====
import proofs.«146189_j40922448396571_2_alg».proof.Proof.RefBlk1
import proofs.«146189_j40922448396571_2_alg».proof.Proof.RefStages
import proofs.«146189_j40922448396571_2_alg».proof.Proof.RefArgs
import proofs.«146189_j40922448396571_2_alg».proof.Proof.RefRange

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The block writes references from position 84 on only. -/
theorem blk1_ge : (blk1 : List (HloOp τ sig (Elt F))).Forall (WritesIn (Ge 84)) := by
  simp (disch := decide) only [blk1, List.forall_cons, List.Forall, ↓unary_writesIn, ↓binary_writesIn,
    ↓nullary_writesIn, ↓reshape_writesIn, ↓ternary_writesIn, and_self]

/-- Layer 0, first half: the neighbour sums times the layer's first matrix, plus its bias and the layer's edge
    aggregate, normalised and rectified. -/
theorem blk1_out (W : Valuation τ sig (Elt F)) :
    after blk1 W (Proc.devRef .tc main_v85)
      = pHalfA (nb (W (Proc.devRef .tc main_arg2)) (W (Proc.devRef .tc main_arg3)) (W (Proc.devRef .tc main_v31)))
          (agg (W (Proc.devRef .tc main_arg1)) (W (Proc.devRef .tc main_arg3)) (pBond (W (Proc.devRef .tc main_arg10)) ![0, 0, 0] slices_S3x16x64_S1x16x64_0_0_0)
            (pRow (W (Proc.devRef .tc main_arg11)) ![0, 0] slices_S3x64_S1x64_0_0))
          (pMat (W (Proc.devRef .tc main_arg12)) ![0, 0, 0] slices_S3x64x64_S1x64x64_0_0_0) (pRow (W (Proc.devRef .tc main_arg13)) ![0, 0] slices_S3x64_S1x64_0_0)
          (pRow (W (Proc.devRef .tc main_arg16)) ![0, 0] slices_S3x64_S1x64_0_0) (pRow (W (Proc.devRef .tc main_arg17)) ![0, 0] slices_S3x64_S1x64_0_0) := by
  after_results_simp
  rfl

end Cert.ReferenceIdeal.RefValue

end
-- ==== Proof.RefBlk2.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 146 … 205 of the reference's flat program (they write references 169 … 228). -/
abbrev blk2 : List (HloOp τ sig (Elt F)) :=
  [ StableHlo.unary main_arg14 main_v86 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v86 main_v87 rfl shapeCasts_S1x64x64_S64x64,
    StableHlo.binary main_v85 main_v87 main_v88 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg15 main_v89 ((extractStridedSlice S1x64 ![0, 0] · slices_S3x64_S1x64_0_0) : (⟨S3x64, .f32⟩ : BufTy).Contents (Elt F) → (⟨S1x64, .f32⟩ : BufTy).Contents (Elt F)),
    StableHlo.reshape main_v89 main_v90 rfl shapeCasts_S1x64_S64,
    StableHlo.unary main_v90 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S100000x64 ![0, 1] bcast_S1x64_S100000x64_0_1 : (⟨S1x64, .f32⟩ : BufTy).Contents (Elt F) → (⟨S100000x64, .f32⟩ : BufTy).Contents (Elt F)),
    StableHlo.binary main_v88 main_v92 main_v93 (addf : (⟨S100000x64, .f32⟩ : BufTy).Contents (Elt F) → (⟨S100000x64, .f32⟩ : BufTy).Contents (Elt F) → (⟨S100000x64, .f32⟩ : BufTy).Contents (Elt F)),
    StableHlo.binary main_v93 main_v31 main_v94 (addf : (⟨S100000x64, .f32⟩ : BufTy).Contents (Elt F) → (⟨S100000x64, .f32⟩ : BufTy).Contents (Elt F) → (⟨S100000x64, .f32⟩ : BufTy).Contents (Elt F)),
    StableHlo.unary main_arg18 main_v95 ((extractStridedSlice S1x64 ![0, 0] · slices_S3x64_S1x64_0_0) : (⟨S3x64, .f32⟩ : BufTy).Contents (Elt F) → (⟨S1x64, .f32⟩ : BufTy).Contents (Elt F)),
    StableHlo.reshape main_v95 main_v96 rfl shapeCasts_S1x64_S64,
    StableHlo.unary main_arg19 main_v97 ((extractStridedSlice S1x64 ![0, 0] · slices_S3x64_S1x64_0_0) : (⟨S3x64, .f32⟩ : BufTy).Contents (Elt F) → (⟨S1x64, .f32⟩ : BufTy).Contents (Elt F)),
    StableHlo.reshape main_v97 main_v98 rfl shapeCasts_S1x64_S64,
    StableHlo.nullary main_cst_11 (constant S_ .f32 0x00000000#32),
    StableHlo.binary main_v94 main_cst_11 main_v99 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_12 (constant S_ .f32 0x47C35000#32),
    StableHlo.unary main_cst_12 main_v100 (broadcastInDim S64 ![] bcast_S_S64 : (⟨S_, .f32⟩ : BufTy).Contents (Elt F) → (⟨S64, .f32⟩ : BufTy).Contents (Elt F)),
    StableHlo.binary main_v99 main_v100 main_v101 (Host.divf : (⟨S64, .f32⟩ : BufTy).Contents (Elt F) → (⟨S64, .f32⟩ : BufTy).Contents (Elt F) → (⟨S64, .f32⟩ : BufTy).Contents (Elt F)),
    StableHlo.nullary main_c_13 (constantI S_ 32 0#32),
    StableHlo.TRef.nullary main_call4.cst (constant S_ .f32 0x00000000#32),
    StableHlo.TRef.binary (.of main_v94 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v94 : StableHlo.TRef sig ⟨S100000x64, .f32⟩) main_call4.v4 main_call4.v5 subf,
    StableHlo.TRef.binary main_call4.v5 main_call4.v5 main_call4.v6 mulf,
    StableHlo.TRef.unary (.of main_c_13 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v101 main_v103 (broadcastInDim S1x64 ![1] bcast_S64_S1x64_1 : (⟨S64, .f32⟩ : BufTy).Contents (Elt F) → (⟨S1x64, .f32⟩ : BufTy).Contents (Elt F)),
    StableHlo.unary main_v103 main_v104 (broadcastInDim S100000x64 ![0, 1] bcast_S1x64_S100000x64_0_1 : (⟨S1x64, .f32⟩ : BufTy).Contents (Elt F) → (⟨S100000x64, .f32⟩ : BufTy).Contents (Elt F)),
    StableHlo.binary main_v94 main_v104 main_v105 (subf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x3727C5AC#32),
    StableHlo.unary main_cst_14 main_v106 (broadcastInDim S64 ![] bcast_S_S64 : (⟨S_, .f32⟩ : BufTy).Contents (Elt F) → (⟨S64, .f32⟩ : BufTy).Contents (Elt F)),
    StableHlo.binary main_v102 main_v106 main_v107 (addf : (⟨S64, .f32⟩ : BufTy).Contents (Elt F) → (⟨S64, .f32⟩ : BufTy).Contents (Elt F) → (⟨S64, .f32⟩ : BufTy).Contents (Elt F)),
    StableHlo.unary main_v107 main_v108 (Host.rsqrt : (⟨S64, .f32⟩ : BufTy).Contents (Elt F) → (⟨S64, .f32⟩ : BufTy).Contents (Elt F)),
    StableHlo.unary main_v108 main_v109 (broadcastInDim S1x64 ![1] bcast_S64_S1x64_1 : (⟨S64, .f32⟩ : BufTy).Contents (Elt F) → (⟨S1x64, .f32⟩ : BufTy).Contents (Elt F)),
    StableHlo.unary main_v109 main_v110 (broadcastInDim S100000x64 ![0, 1] bcast_S1x64_S100000x64_0_1 : (⟨S1x64, .f32⟩ : BufTy).Contents (Elt F) → (⟨S100000x64, .f32⟩ : BufTy).Contents (Elt F)),
    StableHlo.binary main_v105 main_v110 main_v111 (mulf : (⟨S100000x64, .f32⟩ : BufTy).Contents (Elt F) → (⟨S100000x64, .f32⟩ : BufTy).Contents (Elt F) → (⟨S100000x64, .f32⟩ : BufTy).Contents (Elt F)),
    StableHlo.unary main_v96 main_v112 (broadcastInDim S1x64 ![1] bcast_S64_S1x64_1 : (⟨S64, .f32⟩ : BufTy).Contents (Elt F) → (⟨S1x64, .f32⟩ : BufTy).Contents (Elt F)),
    StableHlo.unary main_v112 main_v113 (broadcastInDim S100000x64 ![0, 1] bcast_S1x64_S100000x64_0_1 : (⟨S1x64, .f32⟩ : BufTy).Contents (Elt F) → (⟨S100000x64, .f32⟩ : BufTy).Contents (Elt F)),
    StableHlo.binary main_v111 main_v113 main_v114 (mulf : (⟨S100000x64, .f32⟩ : BufTy).Contents (Elt F) → (⟨S100000x64, .f32⟩ : BufTy).Contents (Elt F) → (⟨S100000x64, .f32⟩ : BufTy).Contents (Elt F)),
    StableHlo.unary main_v98 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S100000x64 ![0, 1] bcast_S1x64_S100000x64_0_1 : (⟨S1x64, .f32⟩ : BufTy).Contents (Elt F) → (⟨S100000x64, .f32⟩ : BufTy).Contents (Elt F)),
    StableHlo.binary main_v114 main_v116 main_v117 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v117 : StableHlo.TRef sig ⟨S100000x64, .f32⟩) main_call5.v0 main_call5.v1 maximumf ]

end Cert.ReferenceIdeal.RefRun

end
-- ==== Proof.RefBlkVal2.lean ====
import proofs.«146189_j40922448396571_2_alg».proof.Proof.RefBlk2
import proofs.«146189_j40922448396571_2_alg».proof.Proof.RefStages
import proofs.«146189_j40922448396571_2_alg».proof.Proof.RefArgs
import proofs.«146189_j40922448396571_2_alg».proof.Proof.RefRange

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The block writes references from position 169 on only. -/
theorem blk2_ge : (blk2 : List (HloOp τ sig (Elt F))).Forall (WritesIn (Ge 169)) := by
  simp (disch := decide) only [blk2, List.forall_cons, List.Forall, ↓unary_writesIn, ↓binary_writesIn,
    ↓nullary_writesIn, ↓reshape_writesIn, ↓ternary_writesIn, and_self]

/-- Layer 0, second half: the first half's result times the layer's second matrix, plus its bias and the layer's
    input, normalised and rectified. -/
theorem blk2_out (W : Valuation τ sig (Elt F)) :
    after blk2 W (Proc.devRef .tc main_v118)
      = pHalfA (W (Proc.devRef .tc main_v85)) (W (Proc.devRef .tc main_v31))
          (pMat (W (Proc.devRef .tc main_arg14)) ![0, 0, 0] slices_S3x64x64_S1x64x64_0_0_0) (pRow (W (Proc.devRef .tc main_arg15)) ![0, 0] slices_S3x64_S1x64_0_0)
          (pRow (W (Proc.devRef .tc main_arg18)) ![0, 0] slices_S3x64_S1x64_0_0) (pRow (W (Proc.devRef .tc main_arg19)) ![0, 0] slices_S3x64_S1x64_0_0) := by
  after_results_simp
  rfl

end Cert.ReferenceIdeal.RefValue

end
-- ==== Proof.RefBlk3.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 206 … 290 of the reference's flat program (they write references 229 … 313). -/
abbrev blk3 : List (HloOp τ sig (Elt F)) :=
  [ StableHlo.unary main_arg10 main_v119 ((extractStridedSlice S1x16x64 ![1, 0, 0] · slices_S3x16x64_S1x16x64_1_0_0) : (⟨S3x16x64, .f32⟩ : BufTy).Contents (Elt F) → (⟨S1x16x64, .f32⟩ : BufTy).Contents (Elt F)),
    StableHlo.reshape main_v119 main_v120 rfl shapeCasts_S1x16x64_S16x64,
    StableHlo.binary main_arg1 main_v120 main_v121 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    StableHlo.unary main_arg11 main_v122 ((extractStridedSlice S1x64 ![1, 0] · slices_S3x64_S1x64_1_0) : (⟨S3x64, .f32⟩ : BufTy).Contents (Elt F) → (⟨S1x64, .f32⟩ : BufTy).Contents (Elt F)),
    StableHlo.reshape main_v122 main_v123 rfl shapeCasts_S1x64_S64,
    StableHlo.unary main_v123 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S1600000x64 ![0, 1] bcast_S1x64_S1600000x64_0_1 : (⟨S1x64, .f32⟩ : BufTy).Contents (Elt F) → (⟨S1600000x64, .f32⟩ : BufTy).Contents (Elt F)),
    StableHlo.binary main_v121 main_v125 main_v126 (addf : (⟨S1600000x64, .f32⟩ : BufTy).Contents (Elt F) → (⟨S1600000x64, .f32⟩ : BufTy).Contents (Elt F) → (⟨S1600000x64, .f32⟩ : BufTy).Contents (Elt F)),
    StableHlo.nullary main_c_15 (constantI S_ 32 0#32),
    StableHlo.unary main_c_15 main_v127 (broadcastInDim S1600000 ![] bcast_S_S1600000 : (⟨S_, .i32⟩ : BufTy).Contents (Elt F) → (⟨S1600000, .i32⟩ : BufTy).Contents (Elt F)),
    StableHlo.binary main_arg2 main_v127 main_v128 (cmpi .slt : (⟨S1600000, .i32⟩ : BufTy).Contents (Elt F) → (⟨S1600000, .i32⟩ : BufTy).Contents (Elt F) → (⟨S1600000, .i1⟩ : BufTy).Contents (Elt F)),
    StableHlo.nullary main_c_16 (constantI S_ 32 100000#32),
    StableHlo.unary main_c_16 main_v129 (broadcastInDim S1600000 ![] bcast_S_S1600000 : (⟨S_, .i32⟩ : BufTy).Contents (Elt F) → (⟨S1600000, .i32⟩ : BufTy).Contents (Elt F)),
    StableHlo.binary main_arg2 main_v129 main_v130 (addi : (⟨S1600000, .i32⟩ : BufTy).Contents (Elt F) → (⟨S1600000, .i32⟩ : BufTy).Contents (Elt F) → (⟨S1600000, .i32⟩ : BufTy).Contents (Elt F)),
    StableHlo.ternary main_v128 main_v130 main_arg2 main_v131 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v131 main_v132 (broadcastInDim S1600000x1 ![0] bcast_S1600000_S1600000x1_0 : (⟨S1600000, .i32⟩ : BufTy).Contents (Elt F) → (⟨S1600000x1, .i32⟩ : BufTy).Contents (Elt F)),
    StableHlo.binary main_v118 main_v132 main_v133 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_17 (constant S_ .f32 0x00000000#32),
    StableHlo.unary main_cst_17 main_v134 (broadcastInDim S100000x64 ![] bcast_S_S100000x64 : (⟨S_, .f32⟩ : BufTy).Contents (Elt F) → (⟨S100000x64, .f32⟩ : BufTy).Contents (Elt F)),
    StableHlo.unary main_arg3 main_v135 (broadcastInDim S1600000x1 ![0] bcast_S1600000_S1600000x1_0 : (⟨S1600000, .i32⟩ : BufTy).Contents (Elt F) → (⟨S1600000x1, .i32⟩ : BufTy).Contents (Elt F)),
    StableHlo.ternary main_v134 main_v135 main_v133 main_v136 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_18 (constant S_ .f32 0x00000000#32),
    StableHlo.unary main_cst_18 main_v137 (broadcastInDim S100000x64 ![] bcast_S_S100000x64 : (⟨S_, .f32⟩ : BufTy).Contents (Elt F) → (⟨S100000x64, .f32⟩ : BufTy).Contents (Elt F)),
    StableHlo.unary main_arg3 main_v138 (broadcastInDim S1600000x1 ![0] bcast_S1600000_S1600000x1_0 : (⟨S1600000, .i32⟩ : BufTy).Contents (Elt F) → (⟨S1600000x1, .i32⟩ : BufTy).Contents (Elt F)),
    StableHlo.ternary main_v137 main_v138 main_v126 main_v139 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg12 main_v140 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v140 main_v141 rfl shapeCasts_S1x64x64_S64x64,
    StableHlo.binary main_v136 main_v141 main_v142 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg13 main_v143 ((extractStridedSlice S1x64 ![1, 0] · slices_S3x64_S1x64_1_0) : (⟨S3x64, .f32⟩ : BufTy).Contents (Elt F) → (⟨S1x64, .f32⟩ : BufTy).Contents (Elt F)),
    StableHlo.reshape main_v143 main_v144 rfl shapeCasts_S1x64_S64,
    StableHlo.unary main_v144 main_v145 (broadcastInDim S1x64 ![1] bcast_S64_S1x64_1 : (⟨S64, .f32⟩ : BufTy).Contents (Elt F) → (⟨S1x64, .f32⟩ : BufTy).Contents (Elt F)),
    StableHlo.unary main_v145 main_v146 (broadcastInDim S100000x64 ![0, 1] bcast_S1x64_S100000x64_0_1 : (⟨S1x64, .f32⟩ : BufTy).Contents (Elt F) → (⟨S100000x64, .f32⟩ : BufTy).Contents (Elt F)),
    StableHlo.binary main_v142 main_v146 main_v147 (addf : (⟨S100000x64, .f32⟩ : BufTy).Contents (Elt F) → (⟨S100000x64, .f32⟩ : BufTy).Contents (Elt F) → (⟨S100000x64, .f32⟩ : BufTy).Contents (Elt F)),
    StableHlo.binary main_v147 main_v139 main_v148 (addf : (⟨S100000x64, .f32⟩ : BufTy).Contents (Elt F) → (⟨S100000x64, .f32⟩ : BufTy).Contents (Elt F) → (⟨S100000x64, .f32⟩ : BufTy).Contents (Elt F)),
    StableHlo.unary main_arg16 main_v149 ((extractStridedSlice S1x64 ![1, 0] · slices_S3x64_S1x64_1_0) : (⟨S3x64, .f32⟩ : BufTy).Contents (Elt F) → (⟨S1x64, .f32⟩ : BufTy).Contents (Elt F)),
    StableHlo.reshape main_v149 main_v150 rfl shapeCasts_S1x64_S64,
    StableHlo.unary main_arg17 main_v151 ((extractStridedSlice S1x64 ![1, 0] · slices_S3x64_S1x64_1_0) : (⟨S3x64, .f32⟩ : BufTy).Contents (Elt F) → (⟨S1x64, .f32⟩ : BufTy).Contents (Elt F)),
    StableHlo.reshape main_v151 main_v152 rfl shapeCasts_S1x64_S64,
    StableHlo.nullary main_cst_19 (constant S_ .f32 0x00000000#32),
    StableHlo.binary main_v148 main_cst_19 main_v153 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_20 (constant S_ .f32 0x47C35000#32),
    StableHlo.unary main_cst_20 main_v154 (broadcastInDim S64 ![] bcast_S_S64 : (⟨S_, .f32⟩ : BufTy).Contents (Elt F) → (⟨S64, .f32⟩ : BufTy).Contents (Elt F)),
    StableHlo.binary main_v153 main_v154 main_v155 (Host.divf : (⟨S64, .f32⟩ : BufTy).Contents (Elt F) → (⟨S64, .f32⟩ : BufTy).Contents (Elt F) → (⟨S64, .f32⟩ : BufTy).Contents (Elt F)),
    StableHlo.nullary main_c_21 (constantI S_ 32 0#32),
    StableHlo.TRef.nullary main_call6.cst (constant S_ .f32 0x00000000#32),
    StableHlo.TRef.binary (.of main_v148 : StableHlo.TRef sig ⟨S100000x64, .f32⟩) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (.of main_v148 : StableHlo.TRef sig ⟨S100000x64, .f32⟩) main_call6.v4 main_call6.v5 subf,
    StableHlo.TRef.binary main_call6.v5 main_call6.v5 main_call6.v6 mulf,
    StableHlo.TRef.unary (.of main_c_21 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v155 main_v157 (broadcastInDim S1x64 ![1] bcast_S64_S1x64_1 : (⟨S64, .f32⟩ : BufTy).Contents (Elt F) → (⟨S1x64, .f32⟩ : BufTy).Contents (Elt F)),
    StableHlo.unary main_v157 main_v158 (broadcastInDim S100000x64 ![0, 1] bcast_S1x64_S100000x64_0_1 : (⟨S1x64, .f32⟩ : BufTy).Contents (Elt F) → (⟨S100000x64, .f32⟩ : BufTy).Contents (Elt F)),
    StableHlo.binary main_v148 main_v158 main_v159 (subf : (⟨S100000x64, .f32⟩ : BufTy).Contents (Elt F) → (⟨S100000x64, .f32⟩ : BufTy).Contents (Elt F) → (⟨S100000x64, .f32⟩ : BufTy).Contents (Elt F)),
    StableHlo.nullary main_cst_22 (constant S_ .f32 0x3727C5AC#32),
    StableHlo.unary main_cst_22 main_v160 (broadcastInDim S64 ![] bcast_S_S64 : (⟨S_, .f32⟩ : BufTy).Contents (Elt F) → (⟨S64, .f32⟩ : BufTy).Contents (Elt F)),
    StableHlo.binary main_v156 main_v160 main_v161 (addf : (⟨S64, .f32⟩ : BufTy).Contents (Elt F) → (⟨S64, .f32⟩ : BufTy).Contents (Elt F) → (⟨S64, .f32⟩ : BufTy).Contents (Elt F)),
    StableHlo.unary main_v161 main_v162 (Host.rsqrt : (⟨S64, .f32⟩ : BufTy).Contents (Elt F) → (⟨S64, .f32⟩ : BufTy).Contents (Elt F)),
    StableHlo.unary main_v162 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S100000x64 ![0, 1] bcast_S1x64_S100000x64_0_1 : (⟨S1x64, .f32⟩ : BufTy).Contents (Elt F) → (⟨S100000x64, .f32⟩ : BufTy).Contents (Elt F)),
    StableHlo.binary main_v159 main_v164 main_v165 (mulf : (⟨S100000x64, .f32⟩ : BufTy).Contents (Elt F) → (⟨S100000x64, .f32⟩ : BufTy).Contents (Elt F) → (⟨S100000x64, .f32⟩ : BufTy).Contents (Elt F)),
    StableHlo.unary main_v150 main_v166 (broadcastInDim S1x64 ![1] bcast_S64_S1x64_1 : (⟨S64, .f32⟩ : BufTy).Contents (Elt F) → (⟨S1x64, .f32⟩ : BufTy).Contents (Elt F)),
    StableHlo.unary main_v166 main_v167 (broadcastInDim S100000x64 ![0, 1] bcast_S1x64_S100000x64_0_1 : (⟨S1x64, .f32⟩ : BufTy).Contents (Elt F) → (⟨S100000x64, .f32⟩ : BufTy).Contents (Elt F)),
    StableHlo.binary main_v165 main_v167 main_v168 (mulf : (⟨S100000x64, .f32⟩ : BufTy).Contents (Elt F) → (⟨S100000x64, .f32⟩ : BufTy).Contents (Elt F) → (⟨S100000x64, .f32⟩ : BufTy).Contents (Elt F)),
    StableHlo.unary main_v152 main_v169 (broadcastInDim S1x64 ![1] bcast_S64_S1x64_1 : (⟨S64, .f32⟩ : BufTy).Contents (Elt F) → (⟨S1x64, .f32⟩ : BufTy).Contents (Elt F)),
    StableHlo.unary main_v169 main_v170 (broadcastInDim S100000x64 ![0, 1] bcast_S1x64_S100000x64_0_1 : (⟨S1x64, .f32⟩ : BufTy).Contents (Elt F) → (⟨S100000x64, .f32⟩ : BufTy).Contents (Elt F)),
    StableHlo.binary main_v168 main_v170 main_v171 (addf : (⟨S100000x64, .f32⟩ : BufTy).Contents (Elt F) → (⟨S100000x64, .f32⟩ : BufTy).Contents (Elt F) → (⟨S100000x64, .f32⟩ : BufTy).Contents (Elt F)),
    StableHlo.TRef.nullary main_call7.cst (constant S_ .f32 0x00000000#32),
    StableHlo.TRef.unary main_call7.cst main_call7.v0 (broadcastInDim S100000x64 ![] bcast_S_S100000x64),
    StableHlo.TRef.binary (.of main_v171 : StableHlo.TRef sig ⟨S100000x64, .f32⟩) main_call7.v0 main_call7.v1 maximumf ]

end Cert.ReferenceIdeal.RefRun

end
-- ==== Proof.RefBlkVal3.lean ====
import proofs.«146189_j40922448396571_2_alg».proof.Proof.RefBlk3
import proofs.«146189_j40922448396571_2_alg».proof.Proof.RefStages
import proofs.«146189_j40922448396571_2_alg».proof.Proof.RefArgs
import proofs.«146189_j40922448396571_2_alg».proof.Proof.RefRange

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The block writes references from position 229 on only. -/
theorem blk3_ge : (blk3 : List (HloOp τ sig (Elt F))).Forall (WritesIn (Ge 229)) := by
  simp (disch := decide) only [blk3, List.forall_cons, List.Forall, ↓unary_writesIn, ↓binary_writesIn,
    ↓nullary_writesIn, ↓reshape_writesIn, ↓ternary_writesIn, and_self]

/-- Layer 1, first half: the neighbour sums times the layer's first matrix, plus its bias and the layer's edge
    aggregate, normalised and rectified. -/
theorem blk3_out (W : Valuation τ sig (Elt F)) :
    after blk3 W (Proc.devRef .tc main_v172)
      = pHalfA (nb (W (Proc.devRef .tc main_arg2)) (W (Proc.devRef .tc main_arg3)) (W (Proc.devRef .tc main_v118)))
          (agg (W (Proc.devRef .tc main_arg1)) (W (Proc.devRef .tc main_arg3)) (pBond (W (Proc.devRef .tc main_arg10)) ![1, 0, 0] slices_S3x16x64_S1x16x64_1_0_0)
            (pRow (W (Proc.devRef .tc main_arg11)) ![1, 0] slices_S3x64_S1x64_1_0))
          (pMat (W (Proc.devRef .tc main_arg12)) ![1, 0, 0] slices_S3x64x64_S1x64x64_1_0_0) (pRow (W (Proc.devRef .tc main_arg13)) ![1, 0] slices_S3x64_S1x64_1_0)
          (pRow (W (Proc.devRef .tc main_arg16)) ![1, 0] slices_S3x64_S1x64_1_0) (pRow (W (Proc.devRef .tc main_arg17)) ![1, 0] slices_S3x64_S1x64_1_0) := by
  after_results_simp
  rfl

end Cert.ReferenceIdeal.RefValue

end
-- ==== Proof.RefBlk4.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 291 … 350 of the reference's flat program (they write references 314 … 373). -/
abbrev blk4 : List (HloOp τ sig (Elt F)) :=
  [ StableHlo.unary main_arg14 main_v173 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v173 main_v174 rfl shapeCasts_S1x64x64_S64x64,
    StableHlo.binary main_v172 main_v174 main_v175 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg15 main_v176 ((extractStridedSlice S1x64 ![1, 0] · slices_S3x64_S1x64_1_0) : (⟨S3x64, .f32⟩ : BufTy).Contents (Elt F) → (⟨S1x64, .f32⟩ : BufTy).Contents (Elt F)),
    StableHlo.reshape main_v176 main_v177 rfl shapeCasts_S1x64_S64,
    StableHlo.unary main_v177 main_v178 (broadcastInDim S1x64 ![1] bcast_S64_S1x64_1 : (⟨S64, .f32⟩ : BufTy).Contents (Elt F) → (⟨S1x64, .f32⟩ : BufTy).Contents (Elt F)),
    StableHlo.unary main_v178 main_v179 (broadcastInDim S100000x64 ![0, 1] bcast_S1x64_S100000x64_0_1 : (⟨S1x64, .f32⟩ : BufTy).Contents (Elt F) → (⟨S100000x64, .f32⟩ : BufTy).Contents (Elt F)),
    StableHlo.binary main_v175 main_v179 main_v180 (addf : (⟨S100000x64, .f32⟩ : BufTy).Contents (Elt F) → (⟨S100000x64, .f32⟩ : BufTy).Contents (Elt F) → (⟨S100000x64, .f32⟩ : BufTy).Contents (Elt F)),
    StableHlo.binary main_v180 main_v118 main_v181 (addf : (⟨S100000x64, .f32⟩ : BufTy).Contents (Elt F) → (⟨S100000x64, .f32⟩ : BufTy).Contents (Elt F) → (⟨S100000x64, .f32⟩ : BufTy).Contents (Elt F)),
    StableHlo.unary main_arg18 main_v182 ((extractStridedSlice S1x64 ![1, 0] · slices_S3x64_S1x64_1_0) : (⟨S3x64, .f32⟩ : BufTy).Contents (Elt F) → (⟨S1x64, .f32⟩ : BufTy).Contents (Elt F)),
    StableHlo.reshape main_v182 main_v183 rfl shapeCasts_S1x64_S64,
    StableHlo.unary main_arg19 main_v184 ((extractStridedSlice S1x64 ![1, 0] · slices_S3x64_S1x64_1_0) : (⟨S3x64, .f32⟩ : BufTy).Contents (Elt F) → (⟨S1x64, .f32⟩ : BufTy).Contents (Elt F)),
    StableHlo.reshape main_v184 main_v185 rfl shapeCasts_S1x64_S64,
    StableHlo.nullary main_cst_23 (constant S_ .f32 0x00000000#32),
    StableHlo.binary main_v181 main_cst_23 main_v186 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_24 (constant S_ .f32 0x47C35000#32),
    StableHlo.unary main_cst_24 main_v187 (broadcastInDim S64 ![] bcast_S_S64 : (⟨S_, .f32⟩ : BufTy).Contents (Elt F) → (⟨S64, .f32⟩ : BufTy).Contents (Elt F)),
    StableHlo.binary main_v186 main_v187 main_v188 (Host.divf : (⟨S64, .f32⟩ : BufTy).Contents (Elt F) → (⟨S64, .f32⟩ : BufTy).Contents (Elt F) → (⟨S64, .f32⟩ : BufTy).Contents (Elt F)),
    StableHlo.nullary main_c_25 (constantI S_ 32 0#32),
    StableHlo.TRef.nullary main_call8.cst (constant S_ .f32 0x00000000#32),
    StableHlo.TRef.binary (.of main_v181 : StableHlo.TRef sig ⟨S100000x64, .f32⟩) main_call8.cst main_call8.v0 (fun x v => Host.reduceAdd x v reducesTo_S100000x64_S64_d0 h_S_),
    StableHlo.TRef.unary main_call8.v0 main_call8.v1 (broadcastInDim S1x64 ![1] bcast_S64_S1x64_1),
    StableHlo.TRef.nullary main_call8.cst_0 (constant S_ .f32 0x47C35000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S100000x64 ![0, 1] bcast_S1x64_S100000x64_0_1),
    StableHlo.TRef.binary (.of main_v181 : StableHlo.TRef sig ⟨S100000x64, .f32⟩) main_call8.v4 main_call8.v5 subf,
    StableHlo.TRef.binary main_call8.v5 main_call8.v5 main_call8.v6 mulf,
    StableHlo.TRef.unary (.of main_c_25 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_v188 main_v190 (broadcastInDim S1x64 ![1] bcast_S64_S1x64_1 : (⟨S64, .f32⟩ : BufTy).Contents (Elt F) → (⟨S1x64, .f32⟩ : BufTy).Contents (Elt F)),
    StableHlo.unary main_v190 main_v191 (broadcastInDim S100000x64 ![0, 1] bcast_S1x64_S100000x64_0_1 : (⟨S1x64, .f32⟩ : BufTy).Contents (Elt F) → (⟨S100000x64, .f32⟩ : BufTy).Contents (Elt F)),
    StableHlo.binary main_v181 main_v191 main_v192 (subf : (⟨S100000x64, .f32⟩ : BufTy).Contents (Elt F) → (⟨S100000x64, .f32⟩ : BufTy).Contents (Elt F) → (⟨S100000x64, .f32⟩ : BufTy).Contents (Elt F)),
    StableHlo.nullary main_cst_26 (constant S_ .f32 0x3727C5AC#32),
    StableHlo.unary main_cst_26 main_v193 (broadcastInDim S64 ![] bcast_S_S64 : (⟨S_, .f32⟩ : BufTy).Contents (Elt F) → (⟨S64, .f32⟩ : BufTy).Contents (Elt F)),
    StableHlo.binary main_v189 main_v193 main_v194 (addf : (⟨S64, .f32⟩ : BufTy).Contents (Elt F) → (⟨S64, .f32⟩ : BufTy).Contents (Elt F) → (⟨S64, .f32⟩ : BufTy).Contents (Elt F)),
    StableHlo.unary main_v194 main_v195 (Host.rsqrt : (⟨S64, .f32⟩ : BufTy).Contents (Elt F) → (⟨S64, .f32⟩ : BufTy).Contents (Elt F)),
    StableHlo.unary main_v195 main_v196 (broadcastInDim S1x64 ![1] bcast_S64_S1x64_1 : (⟨S64, .f32⟩ : BufTy).Contents (Elt F) → (⟨S1x64, .f32⟩ : BufTy).Contents (Elt F)),
    StableHlo.unary main_v196 main_v197 (broadcastInDim S100000x64 ![0, 1] bcast_S1x64_S100000x64_0_1 : (⟨S1x64, .f32⟩ : BufTy).Contents (Elt F) → (⟨S100000x64, .f32⟩ : BufTy).Contents (Elt F)),
    StableHlo.binary main_v192 main_v197 main_v198 (mulf : (⟨S100000x64, .f32⟩ : BufTy).Contents (Elt F) → (⟨S100000x64, .f32⟩ : BufTy).Contents (Elt F) → (⟨S100000x64, .f32⟩ : BufTy).Contents (Elt F)),
    StableHlo.unary main_v183 main_v199 (broadcastInDim S1x64 ![1] bcast_S64_S1x64_1 : (⟨S64, .f32⟩ : BufTy).Contents (Elt F) → (⟨S1x64, .f32⟩ : BufTy).Contents (Elt F)),
    StableHlo.unary main_v199 main_v200 (broadcastInDim S100000x64 ![0, 1] bcast_S1x64_S100000x64_0_1 : (⟨S1x64, .f32⟩ : BufTy).Contents (Elt F) → (⟨S100000x64, .f32⟩ : BufTy).Contents (Elt F)),
    StableHlo.binary main_v198 main_v200 main_v201 (mulf : (⟨S100000x64, .f32⟩ : BufTy).Contents (Elt F) → (⟨S100000x64, .f32⟩ : BufTy).Contents (Elt F) → (⟨S100000x64, .f32⟩ : BufTy).Contents (Elt F)),
    StableHlo.unary main_v185 main_v202 (broadcastInDim S1x64 ![1] bcast_S64_S1x64_1 : (⟨S64, .f32⟩ : BufTy).Contents (Elt F) → (⟨S1x64, .f32⟩ : BufTy).Contents (Elt F)),
    StableHlo.unary main_v202 main_v203 (broadcastInDim S100000x64 ![0, 1] bcast_S1x64_S100000x64_0_1 : (⟨S1x64, .f32⟩ : BufTy).Contents (Elt F) → (⟨S100000x64, .f32⟩ : BufTy).Contents (Elt F)),
    StableHlo.binary main_v201 main_v203 main_v204 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary (.of main_v204 : StableHlo.TRef sig ⟨S100000x64, .f32⟩) main_call9.v0 main_call9.v1 maximumf ]

end Cert.ReferenceIdeal.RefRun

end
-- ==== Proof.RefBlkVal4.lean ====
import proofs.«146189_j40922448396571_2_alg».proof.Proof.RefBlk4
import proofs.«146189_j40922448396571_2_alg».proof.Proof.RefStages
import proofs.«146189_j40922448396571_2_alg».proof.Proof.RefArgs
import proofs.«146189_j40922448396571_2_alg».proof.Proof.RefRange

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The block writes references from position 314 on only. -/
theorem blk4_ge : (blk4 : List (HloOp τ sig (Elt F))).Forall (WritesIn (Ge 314)) := by
  simp (disch := decide) only [blk4, List.forall_cons, List.Forall, ↓unary_writesIn, ↓binary_writesIn,
    ↓nullary_writesIn, ↓reshape_writesIn, ↓ternary_writesIn, and_self]

/-- Layer 1, second half: the first half's result times the layer's second matrix, plus its bias and the layer's
    input, normalised and rectified. -/
theorem blk4_out (W : Valuation τ sig (Elt F)) :
    after blk4 W (Proc.devRef .tc main_v205)
      = pHalfA (W (Proc.devRef .tc main_v172)) (W (Proc.devRef .tc main_v118))
          (pMat (W (Proc.devRef .tc main_arg14)) ![1, 0, 0] slices_S3x64x64_S1x64x64_1_0_0) (pRow (W (Proc.devRef .tc main_arg15)) ![1, 0] slices_S3x64_S1x64_1_0)
          (pRow (W (Proc.devRef .tc main_arg18)) ![1, 0] slices_S3x64_S1x64_1_0) (pRow (W (Proc.devRef .tc main_arg19)) ![1, 0] slices_S3x64_S1x64_1_0) := by
  after_results_simp
  rfl

end Cert.ReferenceIdeal.RefValue

end
-- ==== Proof.RefBlk5.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 351 … 435 of the reference's flat program (they write references 374 … 458). -/
abbrev blk5 : List (HloOp τ sig (Elt F)) :=
  [ StableHlo.unary main_arg10 main_v206 ((extractStridedSlice S1x16x64 ![2, 0, 0] · slices_S3x16x64_S1x16x64_2_0_0) : (⟨S3x16x64, .f32⟩ : BufTy).Contents (Elt F) → (⟨S1x16x64, .f32⟩ : BufTy).Contents (Elt F)),
    StableHlo.reshape main_v206 main_v207 rfl shapeCasts_S1x16x64_S16x64,
    StableHlo.binary main_arg1 main_v207 main_v208 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    StableHlo.unary main_arg11 main_v209 ((extractStridedSlice S1x64 ![2, 0] · slices_S3x64_S1x64_2_0) : (⟨S3x64, .f32⟩ : BufTy).Contents (Elt F) → (⟨S1x64, .f32⟩ : BufTy).Contents (Elt F)),
    StableHlo.reshape main_v209 main_v210 rfl shapeCasts_S1x64_S64,
    StableHlo.unary main_v210 main_v211 (broadcastInDim S1x64 ![1] bcast_S64_S1x64_1 : (⟨S64, .f32⟩ : BufTy).Contents (Elt F) → (⟨S1x64, .f32⟩ : BufTy).Contents (Elt F)),
    StableHlo.unary main_v211 main_v212 (broadcastInDim S1600000x64 ![0, 1] bcast_S1x64_S1600000x64_0_1 : (⟨S1x64, .f32⟩ : BufTy).Contents (Elt F) → (⟨S1600000x64, .f32⟩ : BufTy).Contents (Elt F)),
    StableHlo.binary main_v208 main_v212 main_v213 (addf : (⟨S1600000x64, .f32⟩ : BufTy).Contents (Elt F) → (⟨S1600000x64, .f32⟩ : BufTy).Contents (Elt F) → (⟨S1600000x64, .f32⟩ : BufTy).Contents (Elt F)),
    StableHlo.nullary main_c_27 (constantI S_ 32 0#32),
    StableHlo.unary main_c_27 main_v214 (broadcastInDim S1600000 ![] bcast_S_S1600000 : (⟨S_, .i32⟩ : BufTy).Contents (Elt F) → (⟨S1600000, .i32⟩ : BufTy).Contents (Elt F)),
    StableHlo.binary main_arg2 main_v214 main_v215 (cmpi .slt : (⟨S1600000, .i32⟩ : BufTy).Contents (Elt F) → (⟨S1600000, .i32⟩ : BufTy).Contents (Elt F) → (⟨S1600000, .i1⟩ : BufTy).Contents (Elt F)),
    StableHlo.nullary main_c_28 (constantI S_ 32 100000#32),
    StableHlo.unary main_c_28 main_v216 (broadcastInDim S1600000 ![] bcast_S_S1600000 : (⟨S_, .i32⟩ : BufTy).Contents (Elt F) → (⟨S1600000, .i32⟩ : BufTy).Contents (Elt F)),
    StableHlo.binary main_arg2 main_v216 main_v217 (addi : (⟨S1600000, .i32⟩ : BufTy).Contents (Elt F) → (⟨S1600000, .i32⟩ : BufTy).Contents (Elt F) → (⟨S1600000, .i32⟩ : BufTy).Contents (Elt F)),
    StableHlo.ternary main_v215 main_v217 main_arg2 main_v218 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v218 main_v219 (broadcastInDim S1600000x1 ![0] bcast_S1600000_S1600000x1_0 : (⟨S1600000, .i32⟩ : BufTy).Contents (Elt F) → (⟨S1600000x1, .i32⟩ : BufTy).Contents (Elt F)),
    StableHlo.binary main_v205 main_v219 main_v220 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_29 (constant S_ .f32 0x00000000#32),
    StableHlo.unary main_cst_29 main_v221 (broadcastInDim S100000x64 ![] bcast_S_S100000x64 : (⟨S_, .f32⟩ : BufTy).Contents (Elt F) → (⟨S100000x64, .f32⟩ : BufTy).Contents (Elt F)),
    StableHlo.unary main_arg3 main_v222 (broadcastInDim S1600000x1 ![0] bcast_S1600000_S1600000x1_0 : (⟨S1600000, .i32⟩ : BufTy).Contents (Elt F) → (⟨S1600000x1, .i32⟩ : BufTy).Contents (Elt F)),
    StableHlo.ternary main_v221 main_v222 main_v220 main_v223 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_30 (constant S_ .f32 0x00000000#32),
    StableHlo.unary main_cst_30 main_v224 (broadcastInDim S100000x64 ![] bcast_S_S100000x64 : (⟨S_, .f32⟩ : BufTy).Contents (Elt F) → (⟨S100000x64, .f32⟩ : BufTy).Contents (Elt F)),
    StableHlo.unary main_arg3 main_v225 (broadcastInDim S1600000x1 ![0] bcast_S1600000_S1600000x1_0 : (⟨S1600000, .i32⟩ : BufTy).Contents (Elt F) → (⟨S1600000x1, .i32⟩ : BufTy).Contents (Elt F)),
    StableHlo.ternary main_v224 main_v225 main_v213 main_v226 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg12 main_v227 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v227 main_v228 rfl shapeCasts_S1x64x64_S64x64,
    StableHlo.binary main_v223 main_v228 main_v229 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg13 main_v230 ((extractStridedSlice S1x64 ![2, 0] · slices_S3x64_S1x64_2_0) : (⟨S3x64, .f32⟩ : BufTy).Contents (Elt F) → (⟨S1x64, .f32⟩ : BufTy).Contents (Elt F)),
    StableHlo.reshape main_v230 main_v231 rfl shapeCasts_S1x64_S64,
    StableHlo.unary main_v231 main_v232 (broadcastInDim S1x64 ![1] bcast_S64_S1x64_1 : (⟨S64, .f32⟩ : BufTy).Contents (Elt F) → (⟨S1x64, .f32⟩ : BufTy).Contents (Elt F)),
    StableHlo.unary main_v232 main_v233 (broadcastInDim S100000x64 ![0, 1] bcast_S1x64_S100000x64_0_1 : (⟨S1x64, .f32⟩ : BufTy).Contents (Elt F) → (⟨S100000x64, .f32⟩ : BufTy).Contents (Elt F)),
    StableHlo.binary main_v229 main_v233 main_v234 (addf : (⟨S100000x64, .f32⟩ : BufTy).Contents (Elt F) → (⟨S100000x64, .f32⟩ : BufTy).Contents (Elt F) → (⟨S100000x64, .f32⟩ : BufTy).Contents (Elt F)),
    StableHlo.binary main_v234 main_v226 main_v235 (addf : (⟨S100000x64, .f32⟩ : BufTy).Contents (Elt F) → (⟨S100000x64, .f32⟩ : BufTy).Contents (Elt F) → (⟨S100000x64, .f32⟩ : BufTy).Contents (Elt F)),
    StableHlo.unary main_arg16 main_v236 ((extractStridedSlice S1x64 ![2, 0] · slices_S3x64_S1x64_2_0) : (⟨S3x64, .f32⟩ : BufTy).Contents (Elt F) → (⟨S1x64, .f32⟩ : BufTy).Contents (Elt F)),
    StableHlo.reshape main_v236 main_v237 rfl shapeCasts_S1x64_S64,
    StableHlo.unary main_arg17 main_v238 ((extractStridedSlice S1x64 ![2, 0] · slices_S3x64_S1x64_2_0) : (⟨S3x64, .f32⟩ : BufTy).Contents (Elt F) → (⟨S1x64, .f32⟩ : BufTy).Contents (Elt F)),
    StableHlo.reshape main_v238 main_v239 rfl shapeCasts_S1x64_S64,
    StableHlo.nullary main_cst_31 (constant S_ .f32 0x00000000#32),
    StableHlo.binary main_v235 main_cst_31 main_v240 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_32 (constant S_ .f32 0x47C35000#32),
    StableHlo.unary main_cst_32 main_v241 (broadcastInDim S64 ![] bcast_S_S64 : (⟨S_, .f32⟩ : BufTy).Contents (Elt F) → (⟨S64, .f32⟩ : BufTy).Contents (Elt F)),
    StableHlo.binary main_v240 main_v241 main_v242 (Host.divf : (⟨S64, .f32⟩ : BufTy).Contents (Elt F) → (⟨S64, .f32⟩ : BufTy).Contents (Elt F) → (⟨S64, .f32⟩ : BufTy).Contents (Elt F)),
    StableHlo.nullary main_c_33 (constantI S_ 32 0#32),
    StableHlo.TRef.nullary main_call10.cst (constant S_ .f32 0x00000000#32),
    StableHlo.TRef.binary (.of main_v235 : StableHlo.TRef sig ⟨S100000x64, .f32⟩) main_call10.cst main_call10.v0 (fun x v => Host.reduceAdd x v reducesTo_S100000x64_S64_d0 h_S_),
    StableHlo.TRef.unary main_call10.v0 main_call10.v1 (broadcastInDim S1x64 ![1] bcast_S64_S1x64_1),
    StableHlo.TRef.nullary main_call10.cst_0 (constant S_ .f32 0x47C35000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S100000x64 ![0, 1] bcast_S1x64_S100000x64_0_1),
    StableHlo.TRef.binary (.of main_v235 : StableHlo.TRef sig ⟨S100000x64, .f32⟩) main_call10.v4 main_call10.v5 subf,
    StableHlo.TRef.binary main_call10.v5 main_call10.v5 main_call10.v6 mulf,
    StableHlo.TRef.unary (.of main_c_33 : StableHlo.TRef sig ⟨S_, .i32⟩) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v242 main_v244 (broadcastInDim S1x64 ![1] bcast_S64_S1x64_1 : (⟨S64, .f32⟩ : BufTy).Contents (Elt F) → (⟨S1x64, .f32⟩ : BufTy).Contents (Elt F)),
    StableHlo.unary main_v244 main_v245 (broadcastInDim S100000x64 ![0, 1] bcast_S1x64_S100000x64_0_1 : (⟨S1x64, .f32⟩ : BufTy).Contents (Elt F) → (⟨S100000x64, .f32⟩ : BufTy).Contents (Elt F)),
    StableHlo.binary main_v235 main_v245 main_v246 (subf : (⟨S100000x64, .f32⟩ : BufTy).Contents (Elt F) → (⟨S100000x64, .f32⟩ : BufTy).Contents (Elt F) → (⟨S100000x64, .f32⟩ : BufTy).Contents (Elt F)),
    StableHlo.nullary main_cst_34 (constant S_ .f32 0x3727C5AC#32),
    StableHlo.unary main_cst_34 main_v247 (broadcastInDim S64 ![] bcast_S_S64 : (⟨S_, .f32⟩ : BufTy).Contents (Elt F) → (⟨S64, .f32⟩ : BufTy).Contents (Elt F)),
    StableHlo.binary main_v243 main_v247 main_v248 (addf : (⟨S64, .f32⟩ : BufTy).Contents (Elt F) → (⟨S64, .f32⟩ : BufTy).Contents (Elt F) → (⟨S64, .f32⟩ : BufTy).Contents (Elt F)),
    StableHlo.unary main_v248 main_v249 (Host.rsqrt : (⟨S64, .f32⟩ : BufTy).Contents (Elt F) → (⟨S64, .f32⟩ : BufTy).Contents (Elt F)),
    StableHlo.unary main_v249 main_v250 (broadcastInDim S1x64 ![1] bcast_S64_S1x64_1 : (⟨S64, .f32⟩ : BufTy).Contents (Elt F) → (⟨S1x64, .f32⟩ : BufTy).Contents (Elt F)),
    StableHlo.unary main_v250 main_v251 (broadcastInDim S100000x64 ![0, 1] bcast_S1x64_S100000x64_0_1 : (⟨S1x64, .f32⟩ : BufTy).Contents (Elt F) → (⟨S100000x64, .f32⟩ : BufTy).Contents (Elt F)),
    StableHlo.binary main_v246 main_v251 main_v252 (mulf : (⟨S100000x64, .f32⟩ : BufTy).Contents (Elt F) → (⟨S100000x64, .f32⟩ : BufTy).Contents (Elt F) → (⟨S100000x64, .f32⟩ : BufTy).Contents (Elt F)),
    StableHlo.unary main_v237 main_v253 (broadcastInDim S1x64 ![1] bcast_S64_S1x64_1 : (⟨S64, .f32⟩ : BufTy).Contents (Elt F) → (⟨S1x64, .f32⟩ : BufTy).Contents (Elt F)),
    StableHlo.unary main_v253 main_v254 (broadcastInDim S100000x64 ![0, 1] bcast_S1x64_S100000x64_0_1 : (⟨S1x64, .f32⟩ : BufTy).Contents (Elt F) → (⟨S100000x64, .f32⟩ : BufTy).Contents (Elt F)),
    StableHlo.binary main_v252 main_v254 main_v255 (mulf : (⟨S100000x64, .f32⟩ : BufTy).Contents (Elt F) → (⟨S100000x64, .f32⟩ : BufTy).Contents (Elt F) → (⟨S100000x64, .f32⟩ : BufTy).Contents (Elt F)),
    StableHlo.unary main_v239 main_v256 (broadcastInDim S1x64 ![1] bcast_S64_S1x64_1 : (⟨S64, .f32⟩ : BufTy).Contents (Elt F) → (⟨S1x64, .f32⟩ : BufTy).Contents (Elt F)),
    StableHlo.unary main_v256 main_v257 (broadcastInDim S100000x64 ![0, 1] bcast_S1x64_S100000x64_0_1 : (⟨S1x64, .f32⟩ : BufTy).Contents (Elt F) → (⟨S100000x64, .f32⟩ : BufTy).Contents (Elt F)),
    StableHlo.binary main_v255 main_v257 main_v258 (addf : (⟨S100000x64, .f32⟩ : BufTy).Contents (Elt F) → (⟨S100000x64, .f32⟩ : BufTy).Contents (Elt F) → (⟨S100000x64, .f32⟩ : BufTy).Contents (Elt F)),
    StableHlo.TRef.nullary main_call11.cst (constant S_ .f32 0x00000000#32),
    StableHlo.TRef.unary main_call11.cst main_call11.v0 (broadcastInDim S100000x64 ![] bcast_S_S100000x64),
    StableHlo.TRef.binary (.of main_v258 : StableHlo.TRef sig ⟨S100000x64, .f32⟩) main_call11.v0 main_call11.v1 maximumf ]

end Cert.ReferenceIdeal.RefRun

end
-- ==== Proof.RefBlkVal5.lean ====
import proofs.«146189_j40922448396571_2_alg».proof.Proof.RefBlk5
import proofs.«146189_j40922448396571_2_alg».proof.Proof.RefStages
import proofs.«146189_j40922448396571_2_alg».proof.Proof.RefArgs
import proofs.«146189_j40922448396571_2_alg».proof.Proof.RefRange

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The block writes references from position 374 on only. -/
theorem blk5_ge : (blk5 : List (HloOp τ sig (Elt F))).Forall (WritesIn (Ge 374)) := by
  simp (disch := decide) only [blk5, List.forall_cons, List.Forall, ↓unary_writesIn, ↓binary_writesIn,
    ↓nullary_writesIn, ↓reshape_writesIn, ↓ternary_writesIn, and_self]

/-- Layer 2, first half: the neighbour sums times the layer's first matrix, plus its bias and the layer's edge
    aggregate, normalised and rectified. -/
theorem blk5_out (W : Valuation τ sig (Elt F)) :
    after blk5 W (Proc.devRef .tc main_v259)
      = pHalfA (nb (W (Proc.devRef .tc main_arg2)) (W (Proc.devRef .tc main_arg3)) (W (Proc.devRef .tc main_v205)))
          (agg (W (Proc.devRef .tc main_arg1)) (W (Proc.devRef .tc main_arg3)) (pBond (W (Proc.devRef .tc main_arg10)) ![2, 0, 0] slices_S3x16x64_S1x16x64_2_0_0)
            (pRow (W (Proc.devRef .tc main_arg11)) ![2, 0] slices_S3x64_S1x64_2_0))
          (pMat (W (Proc.devRef .tc main_arg12)) ![2, 0, 0] slices_S3x64x64_S1x64x64_2_0_0) (pRow (W (Proc.devRef .tc main_arg13)) ![2, 0] slices_S3x64_S1x64_2_0)
          (pRow (W (Proc.devRef .tc main_arg16)) ![2, 0] slices_S3x64_S1x64_2_0) (pRow (W (Proc.devRef .tc main_arg17)) ![2, 0] slices_S3x64_S1x64_2_0) := by
  after_results_simp
  rfl

end Cert.ReferenceIdeal.RefValue

end
-- ==== Proof.RefBlk6.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 436 … 495 of the reference's flat program (they write references 459 … 518). -/
abbrev blk6 : List (HloOp τ sig (Elt F)) :=
  [ StableHlo.unary main_arg14 main_v260 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v260 main_v261 rfl shapeCasts_S1x64x64_S64x64,
    StableHlo.binary main_v259 main_v261 main_v262 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg15 main_v263 ((extractStridedSlice S1x64 ![2, 0] · slices_S3x64_S1x64_2_0) : (⟨S3x64, .f32⟩ : BufTy).Contents (Elt F) → (⟨S1x64, .f32⟩ : BufTy).Contents (Elt F)),
    StableHlo.reshape main_v263 main_v264 rfl shapeCasts_S1x64_S64,
    StableHlo.unary main_v264 main_v265 (broadcastInDim S1x64 ![1] bcast_S64_S1x64_1 : (⟨S64, .f32⟩ : BufTy).Contents (Elt F) → (⟨S1x64, .f32⟩ : BufTy).Contents (Elt F)),
    StableHlo.unary main_v265 main_v266 (broadcastInDim S100000x64 ![0, 1] bcast_S1x64_S100000x64_0_1 : (⟨S1x64, .f32⟩ : BufTy).Contents (Elt F) → (⟨S100000x64, .f32⟩ : BufTy).Contents (Elt F)),
    StableHlo.binary main_v262 main_v266 main_v267 (addf : (⟨S100000x64, .f32⟩ : BufTy).Contents (Elt F) → (⟨S100000x64, .f32⟩ : BufTy).Contents (Elt F) → (⟨S100000x64, .f32⟩ : BufTy).Contents (Elt F)),
    StableHlo.binary main_v267 main_v205 main_v268 (addf : (⟨S100000x64, .f32⟩ : BufTy).Contents (Elt F) → (⟨S100000x64, .f32⟩ : BufTy).Contents (Elt F) → (⟨S100000x64, .f32⟩ : BufTy).Contents (Elt F)),
    StableHlo.unary main_arg18 main_v269 ((extractStridedSlice S1x64 ![2, 0] · slices_S3x64_S1x64_2_0) : (⟨S3x64, .f32⟩ : BufTy).Contents (Elt F) → (⟨S1x64, .f32⟩ : BufTy).Contents (Elt F)),
    StableHlo.reshape main_v269 main_v270 rfl shapeCasts_S1x64_S64,
    StableHlo.unary main_arg19 main_v271 ((extractStridedSlice S1x64 ![2, 0] · slices_S3x64_S1x64_2_0) : (⟨S3x64, .f32⟩ : BufTy).Contents (Elt F) → (⟨S1x64, .f32⟩ : BufTy).Contents (Elt F)),
    StableHlo.reshape main_v271 main_v272 rfl shapeCasts_S1x64_S64,
    StableHlo.nullary main_cst_35 (constant S_ .f32 0x00000000#32),
    StableHlo.binary main_v268 main_cst_35 main_v273 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_36 (constant S_ .f32 0x47C35000#32),
    StableHlo.unary main_cst_36 main_v274 (broadcastInDim S64 ![] bcast_S_S64 : (⟨S_, .f32⟩ : BufTy).Contents (Elt F) → (⟨S64, .f32⟩ : BufTy).Contents (Elt F)),
    StableHlo.binary main_v273 main_v274 main_v275 (Host.divf : (⟨S64, .f32⟩ : BufTy).Contents (Elt F) → (⟨S64, .f32⟩ : BufTy).Contents (Elt F) → (⟨S64, .f32⟩ : BufTy).Contents (Elt F)),
    StableHlo.nullary main_c_37 (constantI S_ 32 0#32),
    StableHlo.TRef.nullary main_call12.cst (constant S_ .f32 0x00000000#32),
    StableHlo.TRef.binary (.of main_v268 : StableHlo.TRef sig ⟨S100000x64, .f32⟩) main_call12.cst main_call12.v0 (fun x v => Host.reduceAdd x v reducesTo_S100000x64_S64_d0 h_S_),
    StableHlo.TRef.unary main_call12.v0 main_call12.v1 (broadcastInDim S1x64 ![1] bcast_S64_S1x64_1),
    StableHlo.TRef.nullary main_call12.cst_0 (constant S_ .f32 0x47C35000#32),
    StableHlo.TRef.unary main_call12.cst_0 main_call12.v2 (broadcastInDim S1x64 ![] bcast_S_S1x64),
    StableHlo.TRef.binary main_call12.v1 main_call12.v2 main_call12.v3 Host.divf,
    StableHlo.TRef.unary main_call12.v3 main_call12.v4 (broadcastInDim S100000x64 ![0, 1] bcast_S1x64_S100000x64_0_1),
    StableHlo.TRef.binary (.of main_v268 : StableHlo.TRef sig ⟨S100000x64, .f32⟩) main_call12.v4 main_call12.v5 subf,
    StableHlo.TRef.binary main_call12.v5 main_call12.v5 main_call12.v6 mulf,
    StableHlo.TRef.unary (.of main_c_37 : StableHlo.TRef sig ⟨S_, .i32⟩) main_call12.v7 (sitofp .f32),
    StableHlo.TRef.nullary main_call12.cst_1 (constant S_ .f32 0x47C35000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S100000x64_S64_d0 h_S_),
    StableHlo.TRef.unary main_call12.v8 main_call12.v10 (broadcastInDim S64 ![] bcast_S_S64),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S64 ![] bcast_S_S64),
    StableHlo.TRef.ternary main_call12.v12 main_call12.v11 main_call12.call0.v1 main_call12.call0.v2 (fun p a b => select (broadcastInDim S64 ![] bcast_S_S64 p) a b),
    StableHlo.unary main_v275 main_v277 (broadcastInDim S1x64 ![1] bcast_S64_S1x64_1 : (⟨S64, .f32⟩ : BufTy).Contents (Elt F) → (⟨S1x64, .f32⟩ : BufTy).Contents (Elt F)),
    StableHlo.unary main_v277 main_v278 (broadcastInDim S100000x64 ![0, 1] bcast_S1x64_S100000x64_0_1 : (⟨S1x64, .f32⟩ : BufTy).Contents (Elt F) → (⟨S100000x64, .f32⟩ : BufTy).Contents (Elt F)),
    StableHlo.binary main_v268 main_v278 main_v279 (subf : (⟨S100000x64, .f32⟩ : BufTy).Contents (Elt F) → (⟨S100000x64, .f32⟩ : BufTy).Contents (Elt F) → (⟨S100000x64, .f32⟩ : BufTy).Contents (Elt F)),
    StableHlo.nullary main_cst_38 (constant S_ .f32 0x3727C5AC#32),
    StableHlo.unary main_cst_38 main_v280 (broadcastInDim S64 ![] bcast_S_S64 : (⟨S_, .f32⟩ : BufTy).Contents (Elt F) → (⟨S64, .f32⟩ : BufTy).Contents (Elt F)),
    StableHlo.binary main_v276 main_v280 main_v281 (addf : (⟨S64, .f32⟩ : BufTy).Contents (Elt F) → (⟨S64, .f32⟩ : BufTy).Contents (Elt F) → (⟨S64, .f32⟩ : BufTy).Contents (Elt F)),
    StableHlo.unary main_v281 main_v282 (Host.rsqrt : (⟨S64, .f32⟩ : BufTy).Contents (Elt F) → (⟨S64, .f32⟩ : BufTy).Contents (Elt F)),
    StableHlo.unary main_v282 main_v283 (broadcastInDim S1x64 ![1] bcast_S64_S1x64_1 : (⟨S64, .f32⟩ : BufTy).Contents (Elt F) → (⟨S1x64, .f32⟩ : BufTy).Contents (Elt F)),
    StableHlo.unary main_v283 main_v284 (broadcastInDim S100000x64 ![0, 1] bcast_S1x64_S100000x64_0_1 : (⟨S1x64, .f32⟩ : BufTy).Contents (Elt F) → (⟨S100000x64, .f32⟩ : BufTy).Contents (Elt F)),
    StableHlo.binary main_v279 main_v284 main_v285 (mulf : (⟨S100000x64, .f32⟩ : BufTy).Contents (Elt F) → (⟨S100000x64, .f32⟩ : BufTy).Contents (Elt F) → (⟨S100000x64, .f32⟩ : BufTy).Contents (Elt F)),
    StableHlo.unary main_v270 main_v286 (broadcastInDim S1x64 ![1] bcast_S64_S1x64_1 : (⟨S64, .f32⟩ : BufTy).Contents (Elt F) → (⟨S1x64, .f32⟩ : BufTy).Contents (Elt F)),
    StableHlo.unary main_v286 main_v287 (broadcastInDim S100000x64 ![0, 1] bcast_S1x64_S100000x64_0_1 : (⟨S1x64, .f32⟩ : BufTy).Contents (Elt F) → (⟨S100000x64, .f32⟩ : BufTy).Contents (Elt F)),
    StableHlo.binary main_v285 main_v287 main_v288 (mulf : (⟨S100000x64, .f32⟩ : BufTy).Contents (Elt F) → (⟨S100000x64, .f32⟩ : BufTy).Contents (Elt F) → (⟨S100000x64, .f32⟩ : BufTy).Contents (Elt F)),
    StableHlo.unary main_v272 main_v289 (broadcastInDim S1x64 ![1] bcast_S64_S1x64_1 : (⟨S64, .f32⟩ : BufTy).Contents (Elt F) → (⟨S1x64, .f32⟩ : BufTy).Contents (Elt F)),
    StableHlo.unary main_v289 main_v290 (broadcastInDim S100000x64 ![0, 1] bcast_S1x64_S100000x64_0_1 : (⟨S1x64, .f32⟩ : BufTy).Contents (Elt F) → (⟨S100000x64, .f32⟩ : BufTy).Contents (Elt F)),
    StableHlo.binary main_v288 main_v290 main_v291 (addf : (⟨S100000x64, .f32⟩ : BufTy).Contents (Elt F) → (⟨S100000x64, .f32⟩ : BufTy).Contents (Elt F) → (⟨S100000x64, .f32⟩ : BufTy).Contents (Elt F)),
    StableHlo.TRef.nullary main_call13.cst (constant S_ .f32 0x00000000#32),
    StableHlo.TRef.unary main_call13.cst main_call13.v0 (broadcastInDim S100000x64 ![] bcast_S_S100000x64),
    StableHlo.TRef.binary (.of main_v291 : StableHlo.TRef sig ⟨S100000x64, .f32⟩) main_call13.v0 main_call13.v1 maximumf ]

end Cert.ReferenceIdeal.RefRun

end
-- ==== Proof.RefBlkVal6.lean ====
import proofs.«146189_j40922448396571_2_alg».proof.Proof.RefBlk6
import proofs.«146189_j40922448396571_2_alg».proof.Proof.RefStages
import proofs.«146189_j40922448396571_2_alg».proof.Proof.RefArgs
import proofs.«146189_j40922448396571_2_alg».proof.Proof.RefRange

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The block writes references from position 459 on only. -/
theorem blk6_ge : (blk6 : List (HloOp τ sig (Elt F))).Forall (WritesIn (Ge 459)) := by
  simp (disch := decide) only [blk6, List.forall_cons, List.Forall, ↓unary_writesIn, ↓binary_writesIn,
    ↓nullary_writesIn, ↓reshape_writesIn, ↓ternary_writesIn, and_self]

/-- Layer 2, second half: the first half's result times the layer's second matrix, plus its bias and the layer's
    input, normalised and rectified. -/
theorem blk6_out (W : Valuation τ sig (Elt F)) :
    after blk6 W (Proc.devRef .tc main_v292)
      = pHalfA (W (Proc.devRef .tc main_v259)) (W (Proc.devRef .tc main_v205))
          (pMat (W (Proc.devRef .tc main_arg14)) ![2, 0, 0] slices_S3x64x64_S1x64x64_2_0_0) (pRow (W (Proc.devRef .tc main_arg15)) ![2, 0] slices_S3x64_S1x64_2_0)
          (pRow (W (Proc.devRef .tc main_arg18)) ![2, 0] slices_S3x64_S1x64_2_0) (pRow (W (Proc.devRef .tc main_arg19)) ![2, 0] slices_S3x64_S1x64_2_0) := by
  after_results_simp
  rfl

end Cert.ReferenceIdeal.RefValue

end
-- ==== Proof.RefBlk7.lean ====
import proofs.«146189_j40922448396571_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 496 … 543 of the reference's flat program (they write references 519 … 566). -/
abbrev blk7 : List (HloOp τ sig (Elt F)) :=
  [ StableHlo.binary main_v292 main_arg20 main_v293 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg21 main_v294 (broadcastInDim S1x64 ![1] bcast_S64_S1x64_1 : (⟨S64, .f32⟩ : BufTy).Contents (Elt F) → (⟨S1x64, .f32⟩ : BufTy).Contents (Elt F)),
    StableHlo.unary main_v294 main_v295 (broadcastInDim S100000x64 ![0, 1] bcast_S1x64_S100000x64_0_1 : (⟨S1x64, .f32⟩ : BufTy).Contents (Elt F) → (⟨S100000x64, .f32⟩ : BufTy).Contents (Elt F)),
    StableHlo.binary main_v293 main_v295 main_v296 (addf : (⟨S100000x64, .f32⟩ : BufTy).Contents (Elt F) → (⟨S100000x64, .f32⟩ : BufTy).Contents (Elt F) → (⟨S100000x64, .f32⟩ : BufTy).Contents (Elt F)),
    StableHlo.nullary main_cst_39 (constant S_ .f32 0x00000000#32),
    StableHlo.binary main_v296 main_cst_39 main_v297 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_40 (constant S_ .f32 0x47C35000#32),
    StableHlo.unary main_cst_40 main_v298 (broadcastInDim S64 ![] bcast_S_S64 : (⟨S_, .f32⟩ : BufTy).Contents (Elt F) → (⟨S64, .f32⟩ : BufTy).Contents (Elt F)),
    StableHlo.binary main_v297 main_v298 main_v299 (Host.divf : (⟨S64, .f32⟩ : BufTy).Contents (Elt F) → (⟨S64, .f32⟩ : BufTy).Contents (Elt F) → (⟨S64, .f32⟩ : BufTy).Contents (Elt F)),
    StableHlo.nullary main_c_41 (constantI S_ 32 0#32),
    StableHlo.TRef.nullary main_call14.cst (constant S_ .f32 0x00000000#32),
    StableHlo.TRef.binary (.of main_v296 : StableHlo.TRef sig ⟨S100000x64, .f32⟩) main_call14.cst main_call14.v0 (fun x v => Host.reduceAdd x v reducesTo_S100000x64_S64_d0 h_S_),
    StableHlo.TRef.unary main_call14.v0 main_call14.v1 (broadcastInDim S1x64 ![1] bcast_S64_S1x64_1),
    StableHlo.TRef.nullary main_call14.cst_0 (constant S_ .f32 0x47C35000#32),
    StableHlo.TRef.unary main_call14.cst_0 main_call14.v2 (broadcastInDim S1x64 ![] bcast_S_S1x64),
    StableHlo.TRef.binary main_call14.v1 main_call14.v2 main_call14.v3 Host.divf,
    StableHlo.TRef.unary main_call14.v3 main_call14.v4 (broadcastInDim S100000x64 ![0, 1] bcast_S1x64_S100000x64_0_1),
    StableHlo.TRef.binary (.of main_v296 : StableHlo.TRef sig ⟨S100000x64, .f32⟩) main_call14.v4 main_call14.v5 subf,
    StableHlo.TRef.binary main_call14.v5 main_call14.v5 main_call14.v6 mulf,
    StableHlo.TRef.unary (.of main_c_41 : StableHlo.TRef sig ⟨S_, .i32⟩) main_call14.v7 (sitofp .f32),
    StableHlo.TRef.nullary main_call14.cst_1 (constant S_ .f32 0x47C35000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S100000x64_S64_d0 h_S_),
    StableHlo.TRef.unary main_call14.v8 main_call14.v10 (broadcastInDim S64 ![] bcast_S_S64),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S64 ![] bcast_S_S64),
    StableHlo.TRef.ternary main_call14.v12 main_call14.v11 main_call14.call0.v1 main_call14.call0.v2 (fun p a b => select (broadcastInDim S64 ![] bcast_S_S64 p) a b),
    StableHlo.unary main_v299 main_v301 (broadcastInDim S1x64 ![1] bcast_S64_S1x64_1 : (⟨S64, .f32⟩ : BufTy).Contents (Elt F) → (⟨S1x64, .f32⟩ : BufTy).Contents (Elt F)),
    StableHlo.unary main_v301 main_v302 (broadcastInDim S100000x64 ![0, 1] bcast_S1x64_S100000x64_0_1 : (⟨S1x64, .f32⟩ : BufTy).Contents (Elt F) → (⟨S100000x64, .f32⟩ : BufTy).Contents (Elt F)),
    StableHlo.binary main_v296 main_v302 main_v303 (subf : (⟨S100000x64, .f32⟩ : BufTy).Contents (Elt F) → (⟨S100000x64, .f32⟩ : BufTy).Contents (Elt F) → (⟨S100000x64, .f32⟩ : BufTy).Contents (Elt F)),
    StableHlo.nullary main_cst_42 (constant S_ .f32 0x3727C5AC#32),
    StableHlo.unary main_cst_42 main_v304 (broadcastInDim S64 ![] bcast_S_S64 : (⟨S_, .f32⟩ : BufTy).Contents (Elt F) → (⟨S64, .f32⟩ : BufTy).Contents (Elt F)),
    StableHlo.binary main_v300 main_v304 main_v305 (addf : (⟨S64, .f32⟩ : BufTy).Contents (Elt F) → (⟨S64, .f32⟩ : BufTy).Contents (Elt F) → (⟨S64, .f32⟩ : BufTy).Contents (Elt F)),
    StableHlo.unary main_v305 main_v306 (Host.rsqrt : (⟨S64, .f32⟩ : BufTy).Contents (Elt F) → (⟨S64, .f32⟩ : BufTy).Contents (Elt F)),
    StableHlo.unary main_v306 main_v307 (broadcastInDim S1x64 ![1] bcast_S64_S1x64_1 : (⟨S64, .f32⟩ : BufTy).Contents (Elt F) → (⟨S1x64, .f32⟩ : BufTy).Contents (Elt F)),
    StableHlo.unary main_v307 main_v308 (broadcastInDim S100000x64 ![0, 1] bcast_S1x64_S100000x64_0_1 : (⟨S1x64, .f32⟩ : BufTy).Contents (Elt F) → (⟨S100000x64, .f32⟩ : BufTy).Contents (Elt F)),
    StableHlo.binary main_v303 main_v308 main_v309 (mulf : (⟨S100000x64, .f32⟩ : BufTy).Contents (Elt F) → (⟨S100000x64, .f32⟩ : BufTy).Contents (Elt F) → (⟨S100000x64, .f32⟩ : BufTy).Contents (Elt F)),
    StableHlo.unary main_arg22 main_v310 (broadcastInDim S1x64 ![1] bcast_S64_S1x64_1 : (⟨S64, .f32⟩ : BufTy).Contents (Elt F) → (⟨S1x64, .f32⟩ : BufTy).Contents (Elt F)),
    StableHlo.unary main_v310 main_v311 (broadcastInDim S100000x64 ![0, 1] bcast_S1x64_S100000x64_0_1 : (⟨S1x64, .f32⟩ : BufTy).Contents (Elt F) → (⟨S100000x64, .f32⟩ : BufTy).Contents (Elt F)),
    StableHlo.binary main_v309 main_v311 main_v312 (mulf : (⟨S100000x64, .f32⟩ : BufTy).Contents (Elt F) → (⟨S100000x64, .f32⟩ : BufTy).Contents (Elt F) → (⟨S100000x64, .f32⟩ : BufTy).Contents (Elt F)),
    StableHlo.unary main_arg23 main_v313 (broadcastInDim S1x64 ![1] bcast_S64_S1x64_1 : (⟨S64, .f32⟩ : BufTy).Contents (Elt F) → (⟨S1x64, .f32⟩ : BufTy).Contents (Elt F)),
    StableHlo.unary main_v313 main_v314 (broadcastInDim S100000x64 ![0, 1] bcast_S1x64_S100000x64_0_1 : (⟨S1x64, .f32⟩ : BufTy).Contents (Elt F) → (⟨S100000x64, .f32⟩ : BufTy).Contents (Elt F)),
    StableHlo.binary main_v312 main_v314 main_v315 (addf : (⟨S100000x64, .f32⟩ : BufTy).Contents (Elt F) → (⟨S100000x64, .f32⟩ : BufTy).Contents (Elt F) → (⟨S100000x64, .f32⟩ : BufTy).Contents (Elt F)) ]

end Cert.ReferenceIdeal.RefRun

end
-- ==== Proof.RefBlkVal7.lean ====
import proofs.«146189_j40922448396571_2_alg».proof.Proof.RefBlk7
import proofs.«146189_j40922448396571_2_alg».proof.Proof.RefStages
import proofs.«146189_j40922448396571_2_alg».proof.Proof.RefArgs
import proofs.«146189_j40922448396571_2_alg».proof.Proof.RefRange

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The block writes references from position 519 on only. -/
theorem blk7_ge : (blk7 : List (HloOp τ sig (Elt F))).Forall (WritesIn (Ge 519)) := by
  simp (disch := decide) only [blk7, List.forall_cons, List.Forall, ↓unary_writesIn, ↓binary_writesIn,
    ↓nullary_writesIn, ↓reshape_writesIn, ↓ternary_writesIn, and_self]

/-- The last update: an affine map and a batch normalisation. -/
theorem blk7_out (W : Valuation τ sig (Elt F)) :
    after blk7 W (Proc.devRef .tc main_v315)
      = pLast (W (Proc.devRef .tc main_v292)) (W (Proc.devRef .tc main_arg20)) (W (Proc.devRef .tc main_arg21)) (W (Proc.devRef .tc main_arg22)) (W (Proc.devRef .tc main_arg23)) := by
  after_results_simp
  rfl

end Cert.ReferenceIdeal.RefValue

end
-- ==== Proof.RefValue.lean ====
import proofs.«146189_j40922448396571_2_alg».proof.Proof.RefBlkVal0
import proofs.«146189_j40922448396571_2_alg».proof.Proof.RefBlkVal1
import proofs.«146189_j40922448396571_2_alg».proof.Proof.RefBlkVal2
import proofs.«146189_j40922448396571_2_alg».proof.Proof.RefBlkVal3
import proofs.«146189_j40922448396571_2_alg».proof.Proof.RefBlkVal4
import proofs.«146189_j40922448396571_2_alg».proof.Proof.RefBlkVal5
import proofs.«146189_j40922448396571_2_alg».proof.Proof.RefBlkVal6
import proofs.«146189_j40922448396571_2_alg».proof.Proof.RefBlkVal7
import proofs.«146189_j40922448396571_2_alg».proof.Proof.RefRun
import proofs.«146189_j40922448396571_2_alg».proof.Proof.LibAfter

/-!
# The reference's result as the composition of its printed stages

The flat program is its eight blocks in order; each block computes one stage from the arguments and the
one or two earlier stages it reads, and writes only references from its own first position on, so an earlier
stage's buffer, and every argument, still holds its value when a later block reads it.
-/

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The flat program, cut at the seven relu results and the final result. -/
theorem ops_blocks :
    (ops : List (HloOp τ sig (Elt F))) = blk0 ++ blk1 ++ blk2 ++ blk3 ++ blk4 ++ blk5 ++ blk6 ++ blk7 := rfl

/-- The buffers after the first `n` blocks. -/
abbrev W1 (V : Valuation τ sig (Elt F)) : Valuation τ sig (Elt F) := after blk0 V
abbrev W2 (V : Valuation τ sig (Elt F)) : Valuation τ sig (Elt F) := after blk1 (W1 V)
abbrev W3 (V : Valuation τ sig (Elt F)) : Valuation τ sig (Elt F) := after blk2 (W2 V)
abbrev W4 (V : Valuation τ sig (Elt F)) : Valuation τ sig (Elt F) := after blk3 (W3 V)
abbrev W5 (V : Valuation τ sig (Elt F)) : Valuation τ sig (Elt F) := after blk4 (W4 V)
abbrev W6 (V : Valuation τ sig (Elt F)) : Valuation τ sig (Elt F) := after blk5 (W5 V)
abbrev W7 (V : Valuation τ sig (Elt F)) : Valuation τ sig (Elt F) := after blk6 (W6 V)

theorem after_ops (V : Valuation τ sig (Elt F)) : after ops V = after blk7 (W7 V) := by
  rw [ops_blocks]
  simp only [after_append]

/-- A reference before position `n` is before every later position. -/
theorem before_mono {n m : Nat} (hnm : n ≤ m) {r : Ref sig .tc} (h : ¬ Ge n r) : ¬ Ge m r :=
  fun hg => h (Nat.le_trans hnm hg)

/-! An argument holds its launch contents after any number of blocks. -/

theorem arg1 (V : Valuation τ sig (Elt F)) {r : Ref sig .tc} (h : ¬ Ge 24 r) : W1 V (Proc.devRef .tc r) = V (Proc.devRef .tc r) :=
  after_before blk0 V blk0_ge h
theorem arg2 (V : Valuation τ sig (Elt F)) {r : Ref sig .tc} (h : ¬ Ge 24 r) : W2 V (Proc.devRef .tc r) = V (Proc.devRef .tc r) :=
  (after_before blk1 (W1 V) blk1_ge (before_mono (by decide) h)).trans (arg1 V h)
theorem arg3 (V : Valuation τ sig (Elt F)) {r : Ref sig .tc} (h : ¬ Ge 24 r) : W3 V (Proc.devRef .tc r) = V (Proc.devRef .tc r) :=
  (after_before blk2 (W2 V) blk2_ge (before_mono (by decide) h)).trans (arg2 V h)
theorem arg4 (V : Valuation τ sig (Elt F)) {r : Ref sig .tc} (h : ¬ Ge 24 r) : W4 V (Proc.devRef .tc r) = V (Proc.devRef .tc r) :=
  (after_before blk3 (W3 V) blk3_ge (before_mono (by decide) h)).trans (arg3 V h)
theorem arg5 (V : Valuation τ sig (Elt F)) {r : Ref sig .tc} (h : ¬ Ge 24 r) : W5 V (Proc.devRef .tc r) = V (Proc.devRef .tc r) :=
  (after_before blk4 (W4 V) blk4_ge (before_mono (by decide) h)).trans (arg4 V h)
theorem arg6 (V : Valuation τ sig (Elt F)) {r : Ref sig .tc} (h : ¬ Ge 24 r) : W6 V (Proc.devRef .tc r) = V (Proc.devRef .tc r) :=
  (after_before blk5 (W5 V) blk5_ge (before_mono (by decide) h)).trans (arg5 V h)
theorem arg7 (V : Valuation τ sig (Elt F)) {r : Ref sig .tc} (h : ¬ Ge 24 r) : W7 V (Proc.devRef .tc r) = V (Proc.devRef .tc r) :=
  (after_before blk6 (W6 V) blk6_ge (before_mono (by decide) h)).trans (arg6 V h)

/-! The stages as functions of the launch contents. -/

/-- The first update. -/
def sH0 (V : Valuation τ sig (Elt F)) : FVec F S100000x64 .f32 :=
  pFirst (agg (V (Proc.devRef .tc main_arg1)) (V (Proc.devRef .tc main_arg3)) (V (Proc.devRef .tc main_arg6)) (V (Proc.devRef .tc main_arg7))) (V (Proc.devRef .tc main_arg0)) (V (Proc.devRef .tc main_arg4)) (V (Proc.devRef .tc main_arg5)) (V (Proc.devRef .tc main_arg8)) (V (Proc.devRef .tc main_arg9))

/-- A layer's first half from its input `H`, the layer's parameters picked at the given offsets. -/
def sT (V : Valuation τ sig (Elt F)) (o3 : Fin 3 → Nat) (o2 : Fin 2 → Nat) (hb : S3x16x64.Slices o3 S1x16x64)
    (hr : S3x64.Slices o2 S1x64) (hm : S3x64x64.Slices o3 S1x64x64) (H : FVec F S100000x64 .f32) : FVec F S100000x64 .f32 :=
  pHalfA (nb (V (Proc.devRef .tc main_arg2)) (V (Proc.devRef .tc main_arg3)) H) (agg (V (Proc.devRef .tc main_arg1)) (V (Proc.devRef .tc main_arg3)) (pBond (V (Proc.devRef .tc main_arg10)) o3 hb) (pRow (V (Proc.devRef .tc main_arg11)) o2 hr))
    (pMat (V (Proc.devRef .tc main_arg12)) o3 hm) (pRow (V (Proc.devRef .tc main_arg13)) o2 hr) (pRow (V (Proc.devRef .tc main_arg16)) o2 hr) (pRow (V (Proc.devRef .tc main_arg17)) o2 hr)

/-- A layer's second half from its first half `T` and its input `H`. -/
def sH (V : Valuation τ sig (Elt F)) (o3 : Fin 3 → Nat) (o2 : Fin 2 → Nat)
    (hr : S3x64.Slices o2 S1x64) (hm : S3x64x64.Slices o3 S1x64x64) (T H : FVec F S100000x64 .f32) : FVec F S100000x64 .f32 :=
  pHalfA T H (pMat (V (Proc.devRef .tc main_arg14)) o3 hm) (pRow (V (Proc.devRef .tc main_arg15)) o2 hr) (pRow (V (Proc.devRef .tc main_arg18)) o2 hr) (pRow (V (Proc.devRef .tc main_arg19)) o2 hr)

def sT0 (V : Valuation τ sig (Elt F)) := sT V ![0, 0, 0] ![0, 0] slices_S3x16x64_S1x16x64_0_0_0 slices_S3x64_S1x64_0_0 slices_S3x64x64_S1x64x64_0_0_0 (sH0 V)
def sH1 (V : Valuation τ sig (Elt F)) := sH V ![0, 0, 0] ![0, 0] slices_S3x64_S1x64_0_0 slices_S3x64x64_S1x64x64_0_0_0 (sT0 V) (sH0 V)
def sT1 (V : Valuation τ sig (Elt F)) := sT V ![1, 0, 0] ![1, 0] slices_S3x16x64_S1x16x64_1_0_0 slices_S3x64_S1x64_1_0 slices_S3x64x64_S1x64x64_1_0_0 (sH1 V)
def sH2 (V : Valuation τ sig (Elt F)) := sH V ![1, 0, 0] ![1, 0] slices_S3x64_S1x64_1_0 slices_S3x64x64_S1x64x64_1_0_0 (sT1 V) (sH1 V)
def sT2 (V : Valuation τ sig (Elt F)) := sT V ![2, 0, 0] ![2, 0] slices_S3x16x64_S1x16x64_2_0_0 slices_S3x64_S1x64_2_0 slices_S3x64x64_S1x64x64_2_0_0 (sH2 V)
def sH3 (V : Valuation τ sig (Elt F)) := sH V ![2, 0, 0] ![2, 0] slices_S3x64_S1x64_2_0 slices_S3x64x64_S1x64x64_2_0_0 (sT2 V) (sH2 V)

/-- The result, as printed. -/
def sOut (V : Valuation τ sig (Elt F)) : FVec F S100000x64 .f32 :=
  pLast (sH3 V) (V (Proc.devRef .tc main_arg20)) (V (Proc.devRef .tc main_arg21)) (V (Proc.devRef .tc main_arg22)) (V (Proc.devRef .tc main_arg23))

/-! Each stage's buffer holds the stage, right after its block and when a later block reads it. -/

theorem v31_1 (V : Valuation τ sig (Elt F)) : W1 V (Proc.devRef .tc main_v31) = sH0 V := blk0_out V
theorem v31_2 (V : Valuation τ sig (Elt F)) : W2 V (Proc.devRef .tc main_v31) = sH0 V :=
  (after_before blk1 (W1 V) blk1_ge (by decide)).trans (v31_1 V)

theorem v85_2 (V : Valuation τ sig (Elt F)) : W2 V (Proc.devRef .tc main_v85) = sT0 V := by
  show after blk1 (W1 V) _ = _
  rw [blk1_out, v31_1, arg1 V (r := main_arg1) (by decide), arg1 V (r := main_arg2) (by decide), arg1 V (r := main_arg3) (by decide), arg1 V (r := main_arg10) (by decide), arg1 V (r := main_arg11) (by decide), arg1 V (r := main_arg12) (by decide), arg1 V (r := main_arg13) (by decide), arg1 V (r := main_arg16) (by decide), arg1 V (r := main_arg17) (by decide)]
  rfl

theorem v118_3 (V : Valuation τ sig (Elt F)) : W3 V (Proc.devRef .tc main_v118) = sH1 V := by
  show after blk2 (W2 V) _ = _
  rw [blk2_out, v85_2, v31_2, arg2 V (r := main_arg14) (by decide), arg2 V (r := main_arg15) (by decide), arg2 V (r := main_arg18) (by decide), arg2 V (r := main_arg19) (by decide)]
  rfl
theorem v118_4 (V : Valuation τ sig (Elt F)) : W4 V (Proc.devRef .tc main_v118) = sH1 V :=
  (after_before blk3 (W3 V) blk3_ge (by decide)).trans (v118_3 V)

theorem v172_4 (V : Valuation τ sig (Elt F)) : W4 V (Proc.devRef .tc main_v172) = sT1 V := by
  show after blk3 (W3 V) _ = _
  rw [blk3_out, v118_3, arg3 V (r := main_arg1) (by decide), arg3 V (r := main_arg2) (by decide), arg3 V (r := main_arg3) (by decide), arg3 V (r := main_arg10) (by decide), arg3 V (r := main_arg11) (by decide), arg3 V (r := main_arg12) (by decide), arg3 V (r := main_arg13) (by decide), arg3 V (r := main_arg16) (by decide), arg3 V (r := main_arg17) (by decide)]
  rfl

theorem v205_5 (V : Valuation τ sig (Elt F)) : W5 V (Proc.devRef .tc main_v205) = sH2 V := by
  show after blk4 (W4 V) _ = _
  rw [blk4_out, v172_4, v118_4, arg4 V (r := main_arg14) (by decide), arg4 V (r := main_arg15) (by decide), arg4 V (r := main_arg18) (by decide), arg4 V (r := main_arg19) (by decide)]
  rfl
theorem v205_6 (V : Valuation τ sig (Elt F)) : W6 V (Proc.devRef .tc main_v205) = sH2 V :=
  (after_before blk5 (W5 V) blk5_ge (by decide)).trans (v205_5 V)

theorem v259_6 (V : Valuation τ sig (Elt F)) : W6 V (Proc.devRef .tc main_v259) = sT2 V := by
  show after blk5 (W5 V) _ = _
  rw [blk5_out, v205_5, arg5 V (r := main_arg1) (by decide), arg5 V (r := main_arg2) (by decide), arg5 V (r := main_arg3) (by decide), arg5 V (r := main_arg10) (by decide), arg5 V (r := main_arg11) (by decide), arg5 V (r := main_arg12) (by decide), arg5 V (r := main_arg13) (by decide), arg5 V (r := main_arg16) (by decide), arg5 V (r := main_arg17) (by decide)]
  rfl

theorem v292_7 (V : Valuation τ sig (Elt F)) : W7 V (Proc.devRef .tc main_v292) = sH3 V := by
  show after blk6 (W6 V) _ = _
  rw [blk6_out, v259_6, v205_6, arg6 V (r := main_arg14) (by decide), arg6 V (r := main_arg15) (by decide), arg6 V (r := main_arg18) (by decide), arg6 V (r := main_arg19) (by decide)]
  rfl

/-- The reference's result buffer after the whole program: the printed stages composed. -/
theorem result_printed (V : Valuation τ sig (Elt F)) : after ops V (Proc.devRef .tc main_v315) = sOut V := by
  rw [after_ops, blk7_out, v292_7, arg7 V (r := main_arg20) (by decide), arg7 V (r := main_arg21) (by decide), arg7 V (r := main_arg22) (by decide), arg7 V (r := main_arg23) (by decide)]
  rfl

end Cert.ReferenceIdeal.RefValue

end
-- ==== Proof.RefSpec.lean ====
import proofs.«146189_j40922448396571_2_alg».proof.Proof.RefStages
import proofs.«146189_j40922448396571_2_alg».proof.Proof.Spec
import Idealize.ShloMosaic.Lib.IdealHost
import Idealize.ShloMosaic.Lib.KernelVsHost
import Idealize.ShloMosaic.Lib.StackMember
import Idealize.ShloMosaic.Lib.Pipeline.Value

/-!
# The reference's stages are the network's

Read at an index over the extended reals, each printed stage is the corresponding function of the
specification: a broadcast row reads the row, the host's sum over the node axis is the initial word plus the
sum over the 100000 rows, the quotient is the quotient, the product of rows by a 64 × 64 matrix is the sum over
the contracted coordinate, a slice of a stack reshaped is the stack's member.
-/

noncomputable section

open scoped BigOperators

namespace Cert.ReferenceIdeal.RefValue

open Cert.ReferenceIdeal Cert.ReferenceIdeal.Gen Idealize.ShloMosaic Idealize.ShloMosaic.ValueIdx

/-- A one-row matrix broadcast down the nodes, read at (n, t), is the row at (0, t). -/
theorem down_apply (Y : FVec Ideal S1x64 .f32) (p : Fin 100000) (q : Fin 64) :
    broadcastInDim S100000x64 ![0, 1] bcast_S1x64_S100000x64_0_1 Y (ix2 p q) = Y (ix2 (0 : Fin 1) q) :=
  broadcastInDim_oneRow_apply bcast_S1x64_S100000x64_0_1 Y p q

/-- A row of 64 as a one-row matrix, read at (0, t), is the row at t. -/
theorem asRow_apply (r : FVec Ideal S64 .f32) (t : Fin 64) :
    broadcastInDim S1x64 ![1] bcast_S64_S1x64_1 r (ix2 (0 : Fin 1) t) = r (ix1 t) :=
  broadcastInDim_apply ![1] bcast_S64_S1x64_1 r (ix2 (0 : Fin 1) t) (ix1 t)
    (by intro a; fin_cases a; rfl)

/-- A broadcast row read at (n, t) is the row at t. -/
theorem rows_apply (r : FVec Ideal S64 .f32) (p : Fin 100000) (q : Fin 64) : rows r (ix2 p q) = r (ix1 q) := by
  unfold rows
  rw [down_apply, asRow_apply]

theorem zeros_apply (i : S100000x64.Idx) : (zeros (F := Ideal)) i = Cert.Spec.z := by
  unfold zeros
  rw [broadcastInDim_scalar_apply]
  rfl

theorem pRelu_eq (Y : FVec Ideal S100000x64 .f32) : pRelu Y = Cert.Spec.relu Y := by
  funext i
  unfold pRelu Cert.Spec.relu
  rw [maximumf_apply, zeros_apply]

/-- The witness, at these literal shapes, that naming the reduced node axis inserts the row coordinate. -/
theorem reduces_nodes : S100000x64.Reduces [0] S64 := by decide

/-- The host's sum over the node axis, read at a column. -/
theorem sumNodes_apply (P : FVec Ideal S100000x64 .f32) (q : Fin 64) :
    Host.reduceAdd P (constant (F := Ideal) S_ .f32 0x00000000#32) reducesTo_S100000x64_S64_d0 h_S_ (ix1 q)
      = Cert.Spec.z + ∑ n : Fin 100000, P (ix2 (n0 := 100000) (n1 := 64) n q) := by
  rw [hostReduceAdd_apply, Ideal.hostReduceAdd_single reducesTo_S100000x64_S64_d0 reduces_nodes]
  refine congrArg₂ (· + ·) rfl (Finset.sum_congr rfl fun n _ => congrArg P ?_)
  funext a
  fin_cases a <;> exact Fin.ext rfl

theorem pMean_apply (P : FVec Ideal S100000x64 .f32) (q : Fin 64) : pMean P (ix1 q) = Cert.Spec.mean P (ix1 q) := by
  unfold pMean Cert.Spec.mean
  rw [hostDivf_apply, sumNodes_apply, broadcastInDim_scalar_apply]
  rfl

theorem pDev_apply (P : FVec Ideal S100000x64 .f32) (p : Fin 100000) (q : Fin 64) :
    pDev P (ix2 p q) = P (ix2 p q) - Cert.Spec.mean P (ix1 q) := by
  unfold pDev Cert.Spec.mean
  rw [subf_apply, down_apply, hostDivf_apply, asRow_apply, sumNodes_apply, broadcastInDim_scalar_apply]
  rfl

theorem pVar_apply (P : FVec Ideal S100000x64 .f32) (q : Fin 64) : pVar P (ix1 q) = Cert.Spec.var P (ix1 q) := by
  unfold pVar Cert.Spec.var
  rw [select_apply, broadcastInDim_scalar_apply, broadcastInDim_scalar_apply, hostDivf_apply, sumNodes_apply,
    broadcastInDim_scalar_apply]
  have hs : ∀ n : Fin 100000, mulf (pDev P) (pDev P) (ix2 (n0 := 100000) (n1 := 64) n q)
      = (P (ix2 (n0 := 100000) (n1 := 64) n q) - Cert.Spec.mean P (ix1 q))
        * (P (ix2 (n0 := 100000) (n1 := 64) n q) - Cert.Spec.mean P (ix1 q)) := by
    intro n
    rw [mulf_apply, pDev_apply]
  rw [Finset.sum_congr rfl fun n _ => hs n]
  rfl

theorem pBn_eq (P : FVec Ideal S100000x64 .f32) (g b : FVec Ideal S64 .f32) : pBn P g b = Cert.Spec.bn P g b := by
  funext i
  obtain ⟨p, q, rfl⟩ : ∃ (p : Fin 100000) (q : Fin 64), i = ix2 p q := ⟨i 0, i 1, eq_ix2 i⟩
  unfold pBn
  rw [addf_apply, mulf_apply, mulf_apply, subf_apply, rows_apply, rows_apply, rows_apply, rows_apply, pMean_apply]
  show (_ * Ideal.rsqrt (addf (pVar P) _ (ix1 q))) * _ + _ = _
  rw [addf_apply, pVar_apply, broadcastInDim_scalar_apply]
  rfl

/-- Node rows times a 64 × 64 matrix, read at (n, t): the sum over the contracted coordinate. -/
theorem dotN_apply (a : FVec Ideal S100000x64 .f32) (W : FVec Ideal S64x64 .f32) (p : Fin 100000) (q : Fin 64) :
    dotN a W (ix2 p q) = ∑ k : Fin 64, a (ix2 (n0 := 100000) (n1 := 64) p k) * W (ix2 (n0 := 64) (n1 := 64) k q) :=
  StackMember.dotGeneral_plain_apply (m := 100000) (n := 64) (k := 64) none a W p q

/-- The product plus the bias row is the specification's affine map. -/
theorem lin_eq (a : FVec Ideal S100000x64 .f32) (W : FVec Ideal S64x64 .f32) (b : FVec Ideal S64 .f32) :
    addf (dotN a W) (rows b) = Cert.Spec.lin a W b := by
  funext i
  obtain ⟨p, q, rfl⟩ : ∃ (p : Fin 100000) (q : Fin 64), i = ix2 p q := ⟨i 0, i 1, eq_ix2 i⟩
  rw [addf_apply, dotN_apply, rows_apply]
  rfl

/-- A layer's row out of a stack of three rows: the slice at row `i`, reshaped. -/
theorem pRow_eq (A : FVec Ideal S3x64 .f32) (i : Fin 3) (h : S3x64.Slices ![i.val, 0] S1x64) :
    pRow A ![i.val, 0] h = Cert.Spec.row3 A i := by
  funext j
  obtain ⟨q, rfl⟩ : ∃ q : Fin 64, j = ix1 q := ⟨j 0, eq_ix1 j⟩
  unfold pRow Cert.Spec.row3
  rw [shapeCast_apply _ shapeCasts_S1x64_S64 (ix1 q) (ix2 (0 : Fin 1) q)
        (by rw [Shape.rowMajor_val_two, Shape.rowMajor_val_one]; show (0 : ℕ) * 64 + q.val = q.val; omega),
      extractStridedSlice_apply ![i.val, 0] A h (ix2 (0 : Fin 1) q) (ix2 i q)
        (by intro a; fin_cases a
            · show i.val = i.val + (0 : ℕ); omega
            · show q.val = 0 + q.val; omega)]

/-- A layer's matrix out of a stack of three: the slice at member `i`, reshaped. -/
theorem pMat_eq (A : FVec Ideal S3x64x64 .f32) (i : Fin 3) (h : S3x64x64.Slices ![i.val, 0, 0] S1x64x64) :
    pMat A ![i.val, 0, 0] h = Cert.Spec.mat3 A i := by
  funext j
  obtain ⟨a, b, rfl⟩ : ∃ (a : Fin 64) (b : Fin 64), j = ix2 a b := ⟨j 0, j 1, eq_ix2 j⟩
  unfold pMat Cert.Spec.mat3
  rw [shapeCast_apply _ shapeCasts_S1x64x64_S64x64 (ix2 a b) (ix3 (0 : Fin 1) a b)
        (by rw [Shape.rowMajor_val_three, Shape.rowMajor_val_two]
            show ((0 : ℕ) * 64 + a.val) * 64 + b.val = a.val * 64 + b.val; omega),
      extractStridedSlice_apply ![i.val, 0, 0] A h (ix3 (0 : Fin 1) a b) (ix3 i a b)
        (by intro c; fin_cases c
            · show i.val = i.val + (0 : ℕ); omega
            · show a.val = 0 + a.val; omega
            · show b.val = 0 + b.val; omega)]

theorem pHalfA_eq (N A : FVec Ideal S100000x64 .f32) (W : FVec Ideal S64x64 .f32) (b g be : FVec Ideal S64 .f32) :
    pHalfA N A W b g be = Cert.Spec.relu (Cert.Spec.bn (fun i => Cert.Spec.lin N W b i + A i) g be) := by
  unfold pHalfA
  rw [pRelu_eq, pBn_eq, lin_eq]
  rfl

theorem pFirst_eq (A0 x : FVec Ideal S100000x64 .f32) (aW : FVec Ideal S64x64 .f32) (ab g0 be0 : FVec Ideal S64 .f32) :
    pFirst A0 x aW ab g0 be0 = Cert.Spec.first A0 x aW ab g0 be0 := by
  unfold pFirst Cert.Spec.first
  rw [pRelu_eq, pBn_eq]
  have e : addf (addf A0 (dotN x aW)) (rows ab) = fun i => Cert.Spec.lin x aW ab i + A0 i := by
    rw [← lin_eq]
    funext i
    show (A0 i + dotN x aW i) + rows ab i = (dotN x aW i + rows ab i) + A0 i
    rw [add_comm (A0 i), add_right_comm]
  rw [e]

theorem pLast_eq (H : FVec Ideal S100000x64 .f32) (lW : FVec Ideal S64x64 .f32) (lb gl bel : FVec Ideal S64 .f32) :
    pLast H lW lb gl bel = Cert.Spec.last H lW lb gl bel := by
  unfold pLast Cert.Spec.last
  rw [pBn_eq, lin_eq]

end Cert.ReferenceIdeal.RefValue

end
-- ==== Proof.RefResult.lean ====
import proofs.«146189_j40922448396571_2_alg».proof.Proof.RefValue
import proofs.«146189_j40922448396571_2_alg».proof.Proof.RefSpec

/-!
# The reference computes the network

The composition of the printed stages is the specification's network, at the reference's own spelling of the two
aggregations over the edges: each printed stage is the specification's (batch normalisation, relu, the affine
maps, a layer's parameters out of the stacked arguments), and in the first update the reference adds the edge
aggregate before the bias where the specification adds it after, which is the same sum.
-/

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

theorem bond_slices : ∀ i : Fin 3, S3x16x64.Slices ![i.val, 0, 0] S1x16x64 := by decide
theorem row_slices : ∀ i : Fin 3, S3x64.Slices ![i.val, 0] S1x64 := by decide
theorem mat_slices : ∀ i : Fin 3, S3x64x64.Slices ![i.val, 0, 0] S1x64x64 := by decide

/-- Layer `i`'s bond matrix and bias row, as the program picks them out of the stacked arguments. -/
def bond {F : FTy → Type} [FloatOps F] (a10 : FVec F S3x16x64 .f32) (i : Fin 3) : FVec F S16x64 .f32 :=
  pBond a10 ![i.val, 0, 0] (bond_slices i)
def bias {F : FTy → Type} [FloatOps F] (a11 : FVec F S3x64 .f32) (i : Fin 3) : FVec F S64 .f32 :=
  pRow a11 ![i.val, 0] (row_slices i)

theorem result_eq (V : Valuation τ sig (Elt Ideal)) :
    after ops V (Proc.devRef .tc main_v315)
      = Cert.Spec.net (nb (V (Proc.devRef .tc main_arg2)) (V (Proc.devRef .tc main_arg3)))
          (agg (V (Proc.devRef .tc main_arg1)) (V (Proc.devRef .tc main_arg3)) (V (Proc.devRef .tc main_arg6)) (V (Proc.devRef .tc main_arg7)))
          (agg (V (Proc.devRef .tc main_arg1)) (V (Proc.devRef .tc main_arg3)) (bond (V (Proc.devRef .tc main_arg10)) 0) (bias (V (Proc.devRef .tc main_arg11)) 0))
          (agg (V (Proc.devRef .tc main_arg1)) (V (Proc.devRef .tc main_arg3)) (bond (V (Proc.devRef .tc main_arg10)) 1) (bias (V (Proc.devRef .tc main_arg11)) 1))
          (agg (V (Proc.devRef .tc main_arg1)) (V (Proc.devRef .tc main_arg3)) (bond (V (Proc.devRef .tc main_arg10)) 2) (bias (V (Proc.devRef .tc main_arg11)) 2))
          (V (Proc.devRef .tc main_arg0)) (V (Proc.devRef .tc main_arg4)) (V (Proc.devRef .tc main_arg5)) (V (Proc.devRef .tc main_arg8)) (V (Proc.devRef .tc main_arg9))
          (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19))
          (V (Proc.devRef .tc main_arg20)) (V (Proc.devRef .tc main_arg21)) (V (Proc.devRef .tc main_arg22)) (V (Proc.devRef .tc main_arg23)) := by
  have m0 : ∀ A, pMat (F := Ideal) A ![0, 0, 0] slices_S3x64x64_S1x64x64_0_0_0 = Cert.Spec.mat3 A 0 := fun A => pMat_eq A 0 _
  have m1 : ∀ A, pMat (F := Ideal) A ![1, 0, 0] slices_S3x64x64_S1x64x64_1_0_0 = Cert.Spec.mat3 A 1 := fun A => pMat_eq A 1 _
  have m2 : ∀ A, pMat (F := Ideal) A ![2, 0, 0] slices_S3x64x64_S1x64x64_2_0_0 = Cert.Spec.mat3 A 2 := fun A => pMat_eq A 2 _
  have r0 : ∀ A, pRow (F := Ideal) A ![0, 0] slices_S3x64_S1x64_0_0 = Cert.Spec.row3 A 0 := fun A => pRow_eq A 0 _
  have r1 : ∀ A, pRow (F := Ideal) A ![1, 0] slices_S3x64_S1x64_1_0 = Cert.Spec.row3 A 1 := fun A => pRow_eq A 1 _
  have r2 : ∀ A, pRow (F := Ideal) A ![2, 0] slices_S3x64_S1x64_2_0 = Cert.Spec.row3 A 2 := fun A => pRow_eq A 2 _
  have b0 : pRow (F := Ideal) (V (Proc.devRef .tc main_arg11)) ![0, 0] slices_S3x64_S1x64_0_0 = bias (F := Ideal) (V (Proc.devRef .tc main_arg11)) 0 := rfl
  have b1 : pRow (F := Ideal) (V (Proc.devRef .tc main_arg11)) ![1, 0] slices_S3x64_S1x64_1_0 = bias (F := Ideal) (V (Proc.devRef .tc main_arg11)) 1 := rfl
  have b2 : pRow (F := Ideal) (V (Proc.devRef .tc main_arg11)) ![2, 0] slices_S3x64_S1x64_2_0 = bias (F := Ideal) (V (Proc.devRef .tc main_arg11)) 2 := rfl
  have d0 : pBond (F := Ideal) (V (Proc.devRef .tc main_arg10)) ![0, 0, 0] slices_S3x16x64_S1x16x64_0_0_0 = bond (F := Ideal) (V (Proc.devRef .tc main_arg10)) 0 := rfl
  have d1 : pBond (F := Ideal) (V (Proc.devRef .tc main_arg10)) ![1, 0, 0] slices_S3x16x64_S1x16x64_1_0_0 = bond (F := Ideal) (V (Proc.devRef .tc main_arg10)) 1 := rfl
  have d2 : pBond (F := Ideal) (V (Proc.devRef .tc main_arg10)) ![2, 0, 0] slices_S3x16x64_S1x16x64_2_0_0 = bond (F := Ideal) (V (Proc.devRef .tc main_arg10)) 2 := rfl
  rw [result_printed]
  unfold sOut sH3 sT2 sH2 sT1 sH1 sT0 sH0 sH sT
  -- the bond matrices and bias rows stay as the program picks them: they are data of the edge aggregates
  simp only [b0, b1, b2, d0, d1, d2]
  simp only [pLast_eq, pHalfA_eq, pFirst_eq, m0, m1, m2, r0, r1, r2]
  rfl

/-- The reference's run at the extended reals: every weakly fair execution ends with the result buffer holding the
    network of the launch contents of the arguments, and the arguments as they were. -/
theorem run_net (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v315)
        = Cert.Spec.net (nb (launchContents m c (Proc.devRef .tc main_arg2)) (launchContents m c (Proc.devRef .tc main_arg3)))
          (agg (launchContents m c (Proc.devRef .tc main_arg1)) (launchContents m c (Proc.devRef .tc main_arg3)) (launchContents m c (Proc.devRef .tc main_arg6)) (launchContents m c (Proc.devRef .tc main_arg7)))
          (agg (launchContents m c (Proc.devRef .tc main_arg1)) (launchContents m c (Proc.devRef .tc main_arg3)) (bond (launchContents m c (Proc.devRef .tc main_arg10)) 0) (bias (launchContents m c (Proc.devRef .tc main_arg11)) 0))
          (agg (launchContents m c (Proc.devRef .tc main_arg1)) (launchContents m c (Proc.devRef .tc main_arg3)) (bond (launchContents m c (Proc.devRef .tc main_arg10)) 1) (bias (launchContents m c (Proc.devRef .tc main_arg11)) 1))
          (agg (launchContents m c (Proc.devRef .tc main_arg1)) (launchContents m c (Proc.devRef .tc main_arg3)) (bond (launchContents m c (Proc.devRef .tc main_arg10)) 2) (bias (launchContents m c (Proc.devRef .tc main_arg11)) 2))
          (launchContents m c (Proc.devRef .tc main_arg0)) (launchContents m c (Proc.devRef .tc main_arg4)) (launchContents m c (Proc.devRef .tc main_arg5)) (launchContents m c (Proc.devRef .tc main_arg8)) (launchContents m c (Proc.devRef .tc main_arg9))
          (launchContents m c (Proc.devRef .tc main_arg12)) (launchContents m c (Proc.devRef .tc main_arg13)) (launchContents m c (Proc.devRef .tc main_arg14)) (launchContents m c (Proc.devRef .tc main_arg15)) (launchContents m c (Proc.devRef .tc main_arg16)) (launchContents m c (Proc.devRef .tc main_arg17)) (launchContents m c (Proc.devRef .tc main_arg18)) (launchContents m c (Proc.devRef .tc main_arg19))
          (launchContents m c (Proc.devRef .tc main_arg20)) (launchContents m c (Proc.devRef .tc main_arg21)) (launchContents m c (Proc.devRef .tc main_arg22)) (launchContents m c (Proc.devRef .tc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run (defs (F := Ideal)) _ _).mono (fun _ h c => ⟨(h c).1.trans (result_eq (launchContents m c)), (h c).2⟩)
    (run_value (F := Ideal) m ρ)

end Cert.ReferenceIdeal.RefValue

end
-- ==== Proof.Algebraic.lean ====
import proofs.«146189_j40922448396571_2_alg».proof.Defs
import proofs.«146189_j40922448396571_2_alg».proof.Proof.Gen.KernelIdeal
import proofs.«146189_j40922448396571_2_alg».proof.Proof.Gen.ReferenceIdeal
import proofs.«146189_j40922448396571_2_alg».proof.Proof.Gen.Pre_finite_inputs
import proofs.«146189_j40922448396571_2_alg».proof.Proof.KIAsm
import proofs.«146189_j40922448396571_2_alg».proof.Proof.KIAgg
import proofs.«146189_j40922448396571_2_alg».proof.Proof.AggBridge
import proofs.«146189_j40922448396571_2_alg».proof.Proof.Finite
import proofs.«146189_j40922448396571_2_alg».proof.Proof.RefRun
import proofs.«146189_j40922448396571_2_alg».proof.Proof.RefResult

/-!
# The two programs compute the same network

Both runs end with their result buffer at the specification's network of the launch contents: the kernel's
at its own spelling of the four edge aggregates (one product of the summed edge features with the four bond
matrices side by side, plus the in-degree times the biases), the reference's at the sum of the affine images
edge by edge. From memories that agree on the arguments the two spellings are the same arrays once the edge
features, bond matrices and biases are real numbers, which the precondition says; the neighbour aggregation and
the slices of the stacked arguments are the same terms in both programs.
-/

noncomputable section

namespace Cert.Proof

open Idealize.ShloMosaic Idealize.ShloMosaic.TcCoe Idealize.SL.Sem

theorem algebraic_of
    (hK : ∀ (m : (ℓ : Loc Cert.KernelIdeal.nD Cert.KernelIdeal.τ Cert.KernelIdeal.sig) → Buf (Elt Ideal) ℓ) (c : Dev Cert.KernelIdeal.nD),
      Cert.KernelIdeal.Asm.W51 m c Cert.KernelIdeal.main_v284
        = Cert.Spec.net (Cert.KernelIdeal.KValue.nb (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
            (Cert.KernelIdeal.KValue.aggK ![0, 0] Cert.KernelIdeal.Gen.slices_S100000x256_S100000x64_0_0 (Cert.Spec.mm16 (Cert.KernelIdeal.KValue.sw (m ((c.tc : Thread Cert.KernelIdeal.nD Cert.KernelIdeal.τ).loc Cert.KernelIdeal.main_arg1)) (m ((c.tc : Thread Cert.KernelIdeal.nD Cert.KernelIdeal.τ).loc Cert.KernelIdeal.main_arg3))) (Cert.KernelIdeal.KValue.bwAll (m ((c.tc : Thread Cert.KernelIdeal.nD Cert.KernelIdeal.τ).loc Cert.KernelIdeal.main_arg6)) (m ((c.tc : Thread Cert.KernelIdeal.nD Cert.KernelIdeal.τ).loc Cert.KernelIdeal.main_arg10)))) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)))
            (Cert.KernelIdeal.KValue.aggK ![0, 64] Cert.KernelIdeal.Gen.slices_S100000x256_S100000x64_0_64 (Cert.Spec.mm16 (Cert.KernelIdeal.KValue.sw (m ((c.tc : Thread Cert.KernelIdeal.nD Cert.KernelIdeal.τ).loc Cert.KernelIdeal.main_arg1)) (m ((c.tc : Thread Cert.KernelIdeal.nD Cert.KernelIdeal.τ).loc Cert.KernelIdeal.main_arg3))) (Cert.KernelIdeal.KValue.bwAll (m ((c.tc : Thread Cert.KernelIdeal.nD Cert.KernelIdeal.τ).loc Cert.KernelIdeal.main_arg6)) (m ((c.tc : Thread Cert.KernelIdeal.nD Cert.KernelIdeal.τ).loc Cert.KernelIdeal.main_arg10)))) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)))
            (Cert.KernelIdeal.KValue.aggK ![0, 128] Cert.KernelIdeal.Gen.slices_S100000x256_S100000x64_0_128 (Cert.Spec.mm16 (Cert.KernelIdeal.KValue.sw (m ((c.tc : Thread Cert.KernelIdeal.nD Cert.KernelIdeal.τ).loc Cert.KernelIdeal.main_arg1)) (m ((c.tc : Thread Cert.KernelIdeal.nD Cert.KernelIdeal.τ).loc Cert.KernelIdeal.main_arg3))) (Cert.KernelIdeal.KValue.bwAll (m ((c.tc : Thread Cert.KernelIdeal.nD Cert.KernelIdeal.τ).loc Cert.KernelIdeal.main_arg6)) (m ((c.tc : Thread Cert.KernelIdeal.nD Cert.KernelIdeal.τ).loc Cert.KernelIdeal.main_arg10)))) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)))
            (Cert.KernelIdeal.KValue.aggK ![0, 192] Cert.KernelIdeal.Gen.slices_S100000x256_S100000x64_0_192 (Cert.Spec.mm16 (Cert.KernelIdeal.KValue.sw (m ((c.tc : Thread Cert.KernelIdeal.nD Cert.KernelIdeal.τ).loc Cert.KernelIdeal.main_arg1)) (m ((c.tc : Thread Cert.KernelIdeal.nD Cert.KernelIdeal.τ).loc Cert.KernelIdeal.main_arg3))) (Cert.KernelIdeal.KValue.bwAll (m ((c.tc : Thread Cert.KernelIdeal.nD Cert.KernelIdeal.τ).loc Cert.KernelIdeal.main_arg6)) (m ((c.tc : Thread Cert.KernelIdeal.nD Cert.KernelIdeal.τ).loc Cert.KernelIdeal.main_arg10)))) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)))
            (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
            (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))
            (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m g m' g' hpre hagree
  refine ⟨fun c => Cert.KernelIdeal.Asm.W51 m c Cert.KernelIdeal.main_v284, Cert.KernelIdeal.Asm.run_value (F := Ideal) m g, ?_⟩
  refine (θ_run (Cert.ReferenceIdeal.defs (F := Ideal)) _ _).mono (fun r h c => ⟨(h c).1.trans ?_, (h c).2⟩)
    (Cert.ReferenceIdeal.RefRun.run_value (F := Ideal) m' g')
  obtain ⟨e0, e1, e2, e3, e4, e5, e6, e7, e8, e9, e10, e11, e12, e13, e14, e15, e16, e17, e18, e19, e20, e21, e22, e23⟩ := hagree c
  obtain ⟨hw, h6, h7, h10, h11⟩ := Cert.Finite.finite_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (hpre c)
  show _ = Cert.KernelIdeal.Asm.W51 m c Cert.KernelIdeal.main_v284
  rw [Cert.ReferenceIdeal.RefValue.result_eq, hK m c,
    show StableHlo.launchContents m' c (Proc.devRef .tc Cert.ReferenceIdeal.main_arg0) = (m ((c.tc : Thread Cert.KernelIdeal.nD Cert.KernelIdeal.τ).loc Cert.KernelIdeal.main_arg0)) from e0,
    show StableHlo.launchContents m' c (Proc.devRef .tc Cert.ReferenceIdeal.main_arg1) = (m ((c.tc : Thread Cert.KernelIdeal.nD Cert.KernelIdeal.τ).loc Cert.KernelIdeal.main_arg1)) from e1,
    show StableHlo.launchContents m' c (Proc.devRef .tc Cert.ReferenceIdeal.main_arg2) = (m ((c.tc : Thread Cert.KernelIdeal.nD Cert.KernelIdeal.τ).loc Cert.KernelIdeal.main_arg2)) from e2,
    show StableHlo.launchContents m' c (Proc.devRef .tc Cert.ReferenceIdeal.main_arg3) = (m ((c.tc : Thread Cert.KernelIdeal.nD Cert.KernelIdeal.τ).loc Cert.KernelIdeal.main_arg3)) from e3,
    show StableHlo.launchContents m' c (Proc.devRef .tc Cert.ReferenceIdeal.main_arg4) = (m ((c.tc : Thread Cert.KernelIdeal.nD Cert.KernelIdeal.τ).loc Cert.KernelIdeal.main_arg4)) from e4,
    show StableHlo.launchContents m' c (Proc.devRef .tc Cert.ReferenceIdeal.main_arg5) = (m ((c.tc : Thread Cert.KernelIdeal.nD Cert.KernelIdeal.τ).loc Cert.KernelIdeal.main_arg5)) from e5,
    show StableHlo.launchContents m' c (Proc.devRef .tc Cert.ReferenceIdeal.main_arg6) = (m ((c.tc : Thread Cert.KernelIdeal.nD Cert.KernelIdeal.τ).loc Cert.KernelIdeal.main_arg6)) from e6,
    show StableHlo.launchContents m' c (Proc.devRef .tc Cert.ReferenceIdeal.main_arg7) = (m ((c.tc : Thread Cert.KernelIdeal.nD Cert.KernelIdeal.τ).loc Cert.KernelIdeal.main_arg7)) from e7,
    show StableHlo.launchContents m' c (Proc.devRef .tc Cert.ReferenceIdeal.main_arg8) = (m ((c.tc : Thread Cert.KernelIdeal.nD Cert.KernelIdeal.τ).loc Cert.KernelIdeal.main_arg8)) from e8,
    show StableHlo.launchContents m' c (Proc.devRef .tc Cert.ReferenceIdeal.main_arg9) = (m ((c.tc : Thread Cert.KernelIdeal.nD Cert.KernelIdeal.τ).loc Cert.KernelIdeal.main_arg9)) from e9,
    show StableHlo.launchContents m' c (Proc.devRef .tc Cert.ReferenceIdeal.main_arg10) = (m ((c.tc : Thread Cert.KernelIdeal.nD Cert.KernelIdeal.τ).loc Cert.KernelIdeal.main_arg10)) from e10,
    show StableHlo.launchContents m' c (Proc.devRef .tc Cert.ReferenceIdeal.main_arg11) = (m ((c.tc : Thread Cert.KernelIdeal.nD Cert.KernelIdeal.τ).loc Cert.KernelIdeal.main_arg11)) from e11,
    show StableHlo.launchContents m' c (Proc.devRef .tc Cert.ReferenceIdeal.main_arg12) = (m ((c.tc : Thread Cert.KernelIdeal.nD Cert.KernelIdeal.τ).loc Cert.KernelIdeal.main_arg12)) from e12,
    show StableHlo.launchContents m' c (Proc.devRef .tc Cert.ReferenceIdeal.main_arg13) = (m ((c.tc : Thread Cert.KernelIdeal.nD Cert.KernelIdeal.τ).loc Cert.KernelIdeal.main_arg13)) from e13,
    show StableHlo.launchContents m' c (Proc.devRef .tc Cert.ReferenceIdeal.main_arg14) = (m ((c.tc : Thread Cert.KernelIdeal.nD Cert.KernelIdeal.τ).loc Cert.KernelIdeal.main_arg14)) from e14,
    show StableHlo.launchContents m' c (Proc.devRef .tc Cert.ReferenceIdeal.main_arg15) = (m ((c.tc : Thread Cert.KernelIdeal.nD Cert.KernelIdeal.τ).loc Cert.KernelIdeal.main_arg15)) from e15,
    show StableHlo.launchContents m' c (Proc.devRef .tc Cert.ReferenceIdeal.main_arg16) = (m ((c.tc : Thread Cert.KernelIdeal.nD Cert.KernelIdeal.τ).loc Cert.KernelIdeal.main_arg16)) from e16,
    show StableHlo.launchContents m' c (Proc.devRef .tc Cert.ReferenceIdeal.main_arg17) = (m ((c.tc : Thread Cert.KernelIdeal.nD Cert.KernelIdeal.τ).loc Cert.KernelIdeal.main_arg17)) from e17,
    show StableHlo.launchContents m' c (Proc.devRef .tc Cert.ReferenceIdeal.main_arg18) = (m ((c.tc : Thread Cert.KernelIdeal.nD Cert.KernelIdeal.τ).loc Cert.KernelIdeal.main_arg18)) from e18,
    show StableHlo.launchContents m' c (Proc.devRef .tc Cert.ReferenceIdeal.main_arg19) = (m ((c.tc : Thread Cert.KernelIdeal.nD Cert.KernelIdeal.τ).loc Cert.KernelIdeal.main_arg19)) from e19,
    show StableHlo.launchContents m' c (Proc.devRef .tc Cert.ReferenceIdeal.main_arg20) = (m ((c.tc : Thread Cert.KernelIdeal.nD Cert.KernelIdeal.τ).loc Cert.KernelIdeal.main_arg20)) from e20,
    show StableHlo.launchContents m' c (Proc.devRef .tc Cert.ReferenceIdeal.main_arg21) = (m ((c.tc : Thread Cert.KernelIdeal.nD Cert.KernelIdeal.τ).loc Cert.KernelIdeal.main_arg21)) from e21,
    show StableHlo.launchContents m' c (Proc.devRef .tc Cert.ReferenceIdeal.main_arg22) = (m ((c.tc : Thread Cert.KernelIdeal.nD Cert.KernelIdeal.τ).loc Cert.KernelIdeal.main_arg22)) from e22,
    show StableHlo.launchContents m' c (Proc.devRef .tc Cert.ReferenceIdeal.main_arg23) = (m ((c.tc : Thread Cert.KernelIdeal.nD Cert.KernelIdeal.τ).loc Cert.KernelIdeal.main_arg23)) from e23]
  rw [Cert.Bridge.agg0 (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) hw h6 h7,
    Cert.Bridge.agg1 (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) hw h10 h11,
    Cert.Bridge.agg2 (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) hw h10 h11,
    Cert.Bridge.agg3 (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) hw h10 h11]
  rfl

end Cert.Proof

end
-- ==== Proof.lean ====
/-
  The proof of the certificate of the Structure2Vec kernel (a graph network over 100000 nodes and 1600000 edges).

  The three frames. The reference is a host program: its run is read back operation by operation, and no operation
  writes an argument. The kernel, at the word level and idealized, is seventeen kernel regions among stretches of host
  operations; its frame is the conditional frame of the several-region launch, given one record per region: each
  region's body is run symbolically once, its result array is what its write-backs leave, and between two items of
  @main every unscoped buffer sits at a fold of the launch contents.

  preserves: the idealization rewrote nothing.

  algebraic. Both programs compute Cert.Spec.net: batch-normalised affine updates of the node features around two
  aggregations over the edges. They differ in ONE place: the reference sums, into each node, the affine images
  w·B + bb of its incoming edges' features (per bond matrix), while the kernel first sums the features themselves
  (and counts the edges) and then applies all four bond matrices at once, sw·[B0 B1 B2 B3] + deg·[bb0 bb1 bb2 bb3].
  A sum of affine images is the affine image of the sum, the constant weighted by the number of summands — true for
  real entries, which is where the precondition (every float input finite) is used, and nowhere else. Everything
  else is the same arithmetic in another layout (blocks of 5000 rows; two rows side by side for the batch
  normalisation; keepdims or not for the column statistics; (x·W + b) + s against (s + x·W) + b).
-/
import proofs.«146189_j40922448396571_2_alg».proof.Defs
import proofs.«146189_j40922448396571_2_alg».proof.Proof.Gen.Kernel
import proofs.«146189_j40922448396571_2_alg».proof.Proof.Gen.KernelIdeal
import proofs.«146189_j40922448396571_2_alg».proof.Proof.Gen.ReferenceIdeal
import proofs.«146189_j40922448396571_2_alg».proof.Proof.Gen.Pre_finite_inputs
import proofs.«146189_j40922448396571_2_alg».proof.Proof.KAsm
import proofs.«146189_j40922448396571_2_alg».proof.Proof.KIAsm
import proofs.«146189_j40922448396571_2_alg».proof.Proof.KIResult
import proofs.«146189_j40922448396571_2_alg».proof.Proof.RefFrame
import proofs.«146189_j40922448396571_2_alg».proof.Proof.Algebraic

noncomputable section

namespace Cert.Proof

open Idealize.ShloMosaic Idealize.SL.Sem

/-- The word-level kernel runs and leaves its arguments as launched. -/
theorem frame_k : Cert.frame_Kernel := fun m ρ _ => Cert.Kernel.Asm.frame m ρ
/-- So does the idealized kernel. -/
theorem frame_ki : Cert.frame_KernelIdeal := fun m ρ _ => Cert.KernelIdeal.Asm.frame m ρ
/-- So does the reference. -/
theorem frame_ri : Cert.frame_ReferenceIdeal := Cert.ReferenceIdeal.RefRun.frame_ri
/-- The idealization rewrote no operation. -/
theorem preserves : Cert.preserves_Kernel_KernelIdeal := trivial
/-- Both idealized programs end at the network of their (agreeing) arguments. -/
theorem algebraic : Cert.algebraic_KernelIdeal_ReferenceIdeal := algebraic_of Cert.KernelIdeal.KValue.result_eq

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
